-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x8 : Shape := ⟨2, ![16384, 8]⟩
abbrev S1000x32 : Shape := ⟨2, ![1000, 32]⟩
abbrev S8x32 : Shape := ⟨2, ![8, 32]⟩
abbrev S32x1000 : Shape := ⟨2, ![32, 1000]⟩
abbrev S1000 : Shape := ⟨1, ![1000]⟩
abbrev S_ : Shape := ⟨0, ![]⟩

class Facts : Prop where
  bcast_S_S1000x32 : S_.BroadcastsInDim S1000x32 (![] : Fin 0 → Fin S1000x32.rank)
  reducesTo_S1000x32_S_d0_1 : S1000x32.ReducesTo [0, 1] S_
  h_S_ : 0 < S_.numel
  bcast_S_S8x32 : S_.BroadcastsInDim S8x32 (![] : Fin 0 → Fin S8x32.rank)
  reducesTo_S8x32_S_d0_1 : S8x32.ReducesTo [0, 1] S_
  bcast_S_S32x1000 : S_.BroadcastsInDim S32x1000 (![] : Fin 0 → Fin S32x1000.rank)
  reducesTo_S32x1000_S_d0_1 : S32x1000.ReducesTo [0, 1] S_
  bcast_S_S1000 : S_.BroadcastsInDim S1000 (![] : Fin 0 → Fin S1000.rank)
  reducesTo_S1000_S_d0 : S1000.ReducesTo [0] S_
  bcast_S_S16384x8 : S_.BroadcastsInDim S16384x8 (![] : Fin 0 → Fin S16384x8.rank)
  reducesTo_S16384x8_S_d0_1 : S16384x8.ReducesTo [0, 1] S_

variable [Facts]

def fn_part1 {F : FTy → Type} [FloatOps F] (main_arg0 : IVec S16384x8 32) (main_v13 : IVec S_ 1) (main_v16 : IVec S1000 1) : IVec S_ 1 :=
  let main_c_5 : IVec S_ 1 := constantI S_ 1 1#1
  let main_v17 : IVec S_ 1 := (fun x v => Host.reduce IntOp.andi x v reducesTo_S1000_S_d0 h_S_) main_v16 main_c_5
  let main_v18 : IVec S_ 1 := andi main_v13 main_v17
  let main_c_6 : IVec S_ 32 := constantI S_ 32 0#32
  let main_v19 : IVec S16384x8 32 := broadcastInDim S16384x8 ![] bcast_S_S16384x8 main_c_6
  let main_v20 : IVec S16384x8 1 := cmpi .sge main_arg0 main_v19
  let main_c_7 : IVec S_ 32 := constantI S_ 32 999#32
  let main_v21 : IVec S16384x8 32 := broadcastInDim S16384x8 ![] bcast_S_S16384x8 main_c_7
  let main_v22 : IVec S16384x8 1 := cmpi .sle main_arg0 main_v21
  let main_v23 : IVec S16384x8 1 := andi main_v20 main_v22
  let main_c_8 : IVec S_ 1 := constantI S_ 1 1#1
  let main_v24 : IVec S_ 1 := (fun x v => Host.reduce IntOp.andi x v reducesTo_S16384x8_S_d0_1 h_S_) main_v23 main_c_8
  let main_v25 : IVec S_ 1 := andi main_v18 main_v24
  main_v25

def fn {F : FTy → Type} [FloatOps F] (main_arg0 : IVec S16384x8 32) (main_arg1 : FVec F S1000x32 .f32) (main_arg2 : FVec F S8x32 .f32) (main_arg3 : FVec F S32x1000 .f32) (main_arg4 : FVec F S1000 .f32) : IVec S_ 1 :=
  let main_v0 : FVec F S1000x32 .f32 := Host.absf main_arg1
  let main_cst : FVec F S_ .f32 := constant S_ .f32 0x7F800000#32
  let main_v1 : FVec F S1000x32 .f32 := broadcastInDim S1000x32 ![] bcast_S_S1000x32 main_cst
  let main_v2 : IVec S1000x32 1 := cmpf .olt main_v0 main_v1
  let main_c : IVec S_ 1 := constantI S_ 1 1#1
  let main_v3 : IVec S_ 1 := (fun x v => Host.reduce IntOp.andi x v reducesTo_S1000x32_S_d0_1 h_S_) main_v2 main_c
  let main_v4 : FVec F S8x32 .f32 := Host.absf main_arg2
  let main_cst_0 : FVec F S_ .f32 := constant S_ .f32 0x7F800000#32
  let main_v5 : FVec F S8x32 .f32 := broadcastInDim S8x32 ![] bcast_S_S8x32 main_cst_0
  let main_v6 : IVec S8x32 1 := cmpf .olt main_v4 main_v5
  let main_c_1 : IVec S_ 1 := constantI S_ 1 1#1
  let main_v7 : IVec S_ 1 := (fun x v => Host.reduce IntOp.andi x v reducesTo_S8x32_S_d0_1 h_S_) main_v6 main_c_1
  let main_v8 : IVec S_ 1 := andi main_v3 main_v7
  let main_v9 : FVec F S32x1000 .f32 := Host.absf main_arg3
  let main_cst_2 : FVec F S_ .f32 := constant S_ .f32 0x7F800000#32
  let main_v10 : FVec F S32x1000 .f32 := broadcastInDim S32x1000 ![] bcast_S_S32x1000 main_cst_2
  let main_v11 : IVec S32x1000 1 := cmpf .olt main_v9 main_v10
  let main_c_3 : IVec S_ 1 := constantI S_ 1 1#1
  let main_v12 : IVec S_ 1 := (fun x v => Host.reduce IntOp.andi x v reducesTo_S32x1000_S_d0_1 h_S_) main_v11 main_c_3
  let main_v13 : IVec S_ 1 := andi main_v8 main_v12
  let main_v14 : FVec F S1000 .f32 := Host.absf main_arg4
  let main_cst_4 : FVec F S_ .f32 := constant S_ .f32 0x7F800000#32
  let main_v15 : FVec F S1000 .f32 := broadcastInDim S1000 ![] bcast_S_S1000 main_cst_4
  let main_v16 : IVec S1000 1 := cmpf .olt main_v14 main_v15
  fn_part1 (F := F) main_arg0 main_v13 main_v16
-- ==== Kernel.lean ====
abbrev S16384x8 : Shape := ⟨2, ![16384, 8]⟩
abbrev S1000x32 : Shape := ⟨2, ![1000, 32]⟩
abbrev S8x32 : Shape := ⟨2, ![8, 32]⟩
abbrev S32x1000 : Shape := ⟨2, ![32, 1000]⟩
abbrev S1000 : Shape := ⟨1, ![1000]⟩
abbrev S_ : Shape := ⟨0, ![]⟩
abbrev S1000x128 : Shape := ⟨2, ![1000, 128]⟩
abbrev S1000x1 : Shape := ⟨2, ![1000, 1]⟩
abbrev S8x16384 : Shape := ⟨2, ![8, 16384]⟩
abbrev S131072 : Shape := ⟨1, ![131072]⟩
abbrev S16384 : Shape := ⟨1, ![16384]⟩
abbrev S1x16384x32 : Shape := ⟨3, ![1, 16384, 32]⟩
abbrev S512 : Shape := ⟨1, ![512]⟩
abbrev S2x128x128 : Shape := ⟨3, ![2, 128, 128]⟩
abbrev S2x128x32 : Shape := ⟨3, ![2, 128, 32]⟩
abbrev S2 : Shape := ⟨1, ![2]⟩
abbrev S1x128x32 : Shape := ⟨3, ![1, 128, 32]⟩
abbrev S128x32 : Shape := ⟨2, ![128, 32]⟩
abbrev S1 : Shape := ⟨1, ![1]⟩
abbrev S1x128x128 : Shape := ⟨3, ![1, 128, 128]⟩
abbrev S128x128 : Shape := ⟨2, ![128, 128]⟩
abbrev S128 : Shape := ⟨1, ![128]⟩
abbrev S1x1x16 : Shape := ⟨3, ![1, 1, 16]⟩
abbrev S16 : Shape := ⟨1, ![16]⟩
abbrev S32768 : Shape := ⟨1, ![32768]⟩
abbrev S2x16384x32 : Shape := ⟨3, ![2, 16384, 32]⟩
abbrev S1024 : Shape := ⟨1, ![1024]⟩
abbrev S65536 : Shape := ⟨1, ![65536]⟩
abbrev S4x16384x32 : Shape := ⟨3, ![4, 16384, 32]⟩
abbrev S2048 : Shape := ⟨1, ![2048]⟩
abbrev S8x1000x16384 : Shape := ⟨3, ![8, 1000, 16384]⟩
abbrev S1x8192x32 : Shape := ⟨3, ![1, 8192, 32]⟩
abbrev S200x32 : Shape := ⟨2, ![200, 32]⟩
abbrev S200x1 : Shape := ⟨2, ![200, 1]⟩
abbrev S1x200x8192 : Shape := ⟨3, ![1, 200, 8192]⟩
abbrev S8192x32 : Shape := ⟨2, ![8192, 32]⟩
abbrev S200x8192 : Shape := ⟨2, ![200, 8192]⟩
abbrev S16384x8x1000 : Shape := ⟨3, ![16384, 8, 1000]⟩

abbrev nBuf : Table → Nat
  | .hbm => 25
  | .local .tc .vmem => 32
  | .local .scVector .vmem => 12
  | _ => 0

abbrev bufTy : (tb : Table) → Fin (nBuf tb) → BufTy
  | .hbm, ⟨0, _⟩ => ⟨S16384x8, .i32⟩
  | .hbm, ⟨1, _⟩ => ⟨S1000x32, .f32⟩
  | .hbm, ⟨2, _⟩ => ⟨S8x32, .f32⟩
  | .hbm, ⟨3, _⟩ => ⟨S32x1000, .f32⟩
  | .hbm, ⟨4, _⟩ => ⟨S1000, .f32⟩
  | .hbm, ⟨5, _⟩ => ⟨S_, .i32⟩
  | .hbm, ⟨6, _⟩ => ⟨S_, .f32⟩
  | .hbm, ⟨7, _⟩ => ⟨S1000x128, .f32⟩
  | .hbm, ⟨8, _⟩ => ⟨S1000x32, .f32⟩
  | .hbm, ⟨9, _⟩ => ⟨S1000x1, .f32⟩
  | .hbm, ⟨10, _⟩ => ⟨S8x16384, .i32⟩
  | .hbm, ⟨11, _⟩ => ⟨S131072, .i32⟩
  | .hbm, ⟨12, _⟩ => ⟨S16384, .i32⟩
  | .hbm, ⟨13, _⟩ => ⟨S1x16384x32, .f32⟩
  | .hbm, ⟨14, _⟩ => ⟨S16384, .i32⟩
  | .hbm, ⟨15, _⟩ => ⟨S1x16384x32, .f32⟩
  | .hbm, ⟨16, _⟩ => ⟨S32768, .i32⟩
  | .hbm, ⟨17, _⟩ => ⟨S2x16384x32, .f32⟩
  | .hbm, ⟨18, _⟩ => ⟨S65536, .i32⟩
  | .hbm, ⟨19, _⟩ => ⟨S4x16384x32, .f32⟩
  | .hbm, ⟨20, _⟩ => ⟨S8x1000x16384, .f32⟩
  | .hbm, ⟨21, _⟩ => ⟨S8x1000x16384, .f32⟩
  | .hbm, ⟨22, _⟩ => ⟨S8x1000x16384, .f32⟩
  | .hbm, ⟨23, _⟩ => ⟨S8x1000x16384, .f32⟩
  | .hbm, ⟨24, _⟩ => ⟨S16384x8x1000, .f32⟩
  | .local .tc .vmem, ⟨0, _⟩ => ⟨S1x8192x32, .f32⟩
  | .local .tc .vmem, ⟨1, _⟩ => ⟨S1x8192x32, .f32⟩
  | .local .tc .vmem, ⟨2, _⟩ => ⟨S200x32, .f32⟩
  | .local .tc .vmem, ⟨3, _⟩ => ⟨S200x32, .f32⟩
  | .local .tc .vmem, ⟨4, _⟩ => ⟨S200x1, .f32⟩
  | .local .tc .vmem, ⟨5, _⟩ => ⟨S200x1, .f32⟩
  | .local .tc .vmem, ⟨6, _⟩ => ⟨S1x200x8192, .f32⟩
  | .local .tc .vmem, ⟨7, _⟩ => ⟨S1x200x8192, .f32⟩
  | .local .tc .vmem, ⟨8, _⟩ => ⟨S1x8192x32, .f32⟩
  | .local .tc .vmem, ⟨9, _⟩ => ⟨S1x8192x32, .f32⟩
  | .local .tc .vmem, ⟨10, _⟩ => ⟨S200x32, .f32⟩
  | .local .tc .vmem, ⟨11, _⟩ => ⟨S200x32, .f32⟩
  | .local .tc .vmem, ⟨12, _⟩ => ⟨S200x1, .f32⟩
  | .local .tc .vmem, ⟨13, _⟩ => ⟨S200x1, .f32⟩
  | .local .tc .vmem, ⟨14, _⟩ => ⟨S1x200x8192, .f32⟩
  | .local .tc .vmem, ⟨15, _⟩ => ⟨S1x200x8192, .f32⟩
  | .local .tc .vmem, ⟨16, _⟩ => ⟨S1x8192x32, .f32⟩
  | .local .tc .vmem, ⟨17, _⟩ => ⟨S1x8192x32, .f32⟩
  | .local .tc .vmem, ⟨18, _⟩ => ⟨S200x32, .f32⟩
  | .local .tc .vmem, ⟨19, _⟩ => ⟨S200x32, .f32⟩
  | .local .tc .vmem, ⟨20, _⟩ => ⟨S200x1, .f32⟩
  | .local .tc .vmem, ⟨21, _⟩ => ⟨S200x1, .f32⟩
  | .local .tc .vmem, ⟨22, _⟩ => ⟨S1x200x8192, .f32⟩
  | .local .tc .vmem, ⟨23, _⟩ => ⟨S1x200x8192, .f32⟩
  | .local .tc .vmem, ⟨24, _⟩ => ⟨S1x8192x32, .f32⟩
  | .local .tc .vmem, ⟨25, _⟩ => ⟨S1x8192x32, .f32⟩
  | .local .tc .vmem, ⟨26, _⟩ => ⟨S200x32, .f32⟩
  | .local .tc .vmem, ⟨27, _⟩ => ⟨S200x32, .f32⟩
  | .local .tc .vmem, ⟨28, _⟩ => ⟨S200x1, .f32⟩
  | .local .tc .vmem, ⟨29, _⟩ => ⟨S200x1, .f32⟩
  | .local .tc .vmem, ⟨30, _⟩ => ⟨S1x200x8192, .f32⟩
  | .local .tc .vmem, ⟨31, _⟩ => ⟨S1x200x8192, .f32⟩
  | .local .scVector .vmem, ⟨0, _⟩ => ⟨S512, .i32⟩
  | .local .scVector .vmem, ⟨1, _⟩ => ⟨S2x128x128, .f32⟩
  | .local .scVector .vmem, ⟨2, _⟩ => ⟨S2x128x32, .f32⟩
  | .local .scVector .vmem, ⟨3, _⟩ => ⟨S512, .i32⟩
  | .local .scVector .vmem, ⟨4, _⟩ => ⟨S2x128x128, .f32⟩
  | .local .scVector .vmem, ⟨5, _⟩ => ⟨S2x128x32, .f32⟩
  | .local .scVector .vmem, ⟨6, _⟩ => ⟨S1024, .i32⟩
  | .local .scVector .vmem, ⟨7, _⟩ => ⟨S2x128x128, .f32⟩
  | .local .scVector .vmem, ⟨8, _⟩ => ⟨S2x128x32, .f32⟩
  | .local .scVector .vmem, ⟨9, _⟩ => ⟨S2048, .i32⟩
  | .local .scVector .vmem, ⟨10, _⟩ => ⟨S2x128x128, .f32⟩
  | .local .scVector .vmem, ⟨11, _⟩ => ⟨S2x128x32, .f32⟩
  | _, _ => ⟨S16384x8, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 52 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTables nBuf rfl bufTy 4 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v0_scv : Ref sig .scVector := ⟨.hbm, 7, rfl⟩
abbrev main_v5_scv : Ref sig .scVector := ⟨.hbm, 12, rfl⟩
abbrev main_v6_scv : Ref sig .scVector := ⟨.hbm, 13, rfl⟩
abbrev main_v7_scv : Ref sig .scVector := ⟨.hbm, 14, rfl⟩
abbrev main_v8_scv : Ref sig .scVector := ⟨.hbm, 15, rfl⟩
abbrev main_v9_scv : Ref sig .scVector := ⟨.hbm, 16, rfl⟩
abbrev main_v10_scv : Ref sig .scVector := ⟨.hbm, 17, rfl⟩
abbrev main_v11_scv : Ref sig .scVector := ⟨.hbm, 18, rfl⟩
abbrev main_v12_scv : Ref sig .scVector := ⟨.hbm, 19, rfl⟩
abbrev cc4_stg0_0 : Ref sig .tc := ⟨.vmem, 0, rfl⟩
abbrev cc4_stg0_1 : Ref sig .tc := ⟨.vmem, 1, rfl⟩
abbrev cc4_stg1_0 : Ref sig .tc := ⟨.vmem, 2, rfl⟩
abbrev cc4_stg1_1 : Ref sig .tc := ⟨.vmem, 3, rfl⟩
abbrev cc4_stg2_0 : Ref sig .tc := ⟨.vmem, 4, rfl⟩
abbrev cc4_stg2_1 : Ref sig .tc := ⟨.vmem, 5, rfl⟩
abbrev cc4_stg3_0 : Ref sig .tc := ⟨.vmem, 6, rfl⟩
abbrev cc4_stg3_1 : Ref sig .tc := ⟨.vmem, 7, rfl⟩
abbrev cc5_stg0_0 : Ref sig .tc := ⟨.vmem, 8, rfl⟩
abbrev cc5_stg0_1 : Ref sig .tc := ⟨.vmem, 9, rfl⟩
abbrev cc5_stg1_0 : Ref sig .tc := ⟨.vmem, 10, rfl⟩
abbrev cc5_stg1_1 : Ref sig .tc := ⟨.vmem, 11, rfl⟩
abbrev cc5_stg2_0 : Ref sig .tc := ⟨.vmem, 12, rfl⟩
abbrev cc5_stg2_1 : Ref sig .tc := ⟨.vmem, 13, rfl⟩
abbrev cc5_stg3_0 : Ref sig .tc := ⟨.vmem, 14, rfl⟩
abbrev cc5_stg3_1 : Ref sig .tc := ⟨.vmem, 15, rfl⟩
abbrev cc6_stg0_0 : Ref sig .tc := ⟨.vmem, 16, rfl⟩
abbrev cc6_stg0_1 : Ref sig .tc := ⟨.vmem, 17, rfl⟩
abbrev cc6_stg1_0 : Ref sig .tc := ⟨.vmem, 18, rfl⟩
abbrev cc6_stg1_1 : Ref sig .tc := ⟨.vmem, 19, rfl⟩
abbrev cc6_stg2_0 : Ref sig .tc := ⟨.vmem, 20, rfl⟩
abbrev cc6_stg2_1 : Ref sig .tc := ⟨.vmem, 21, rfl⟩
abbrev cc6_stg3_0 : Ref sig .tc := ⟨.vmem, 22, rfl⟩
abbrev cc6_stg3_1 : Ref sig .tc := ⟨.vmem, 23, rfl⟩
abbrev cc7_stg0_0 : Ref sig .tc := ⟨.vmem, 24, rfl⟩
abbrev cc7_stg0_1 : Ref sig .tc := ⟨.vmem, 25, rfl⟩
abbrev cc7_stg1_0 : Ref sig .tc := ⟨.vmem, 26, rfl⟩
abbrev cc7_stg1_1 : Ref sig .tc := ⟨.vmem, 27, rfl⟩
abbrev cc7_stg2_0 : Ref sig .tc := ⟨.vmem, 28, rfl⟩
abbrev cc7_stg2_1 : Ref sig .tc := ⟨.vmem, 29, rfl⟩
abbrev cc7_stg3_0 : Ref sig .tc := ⟨.vmem, 30, rfl⟩
abbrev cc7_stg3_1 : Ref sig .tc := ⟨.vmem, 31, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_scratch0 : Ref sig .scVector := ⟨.vmem, 3, rfl⟩
abbrev cc1_scratch1 : Ref sig .scVector := ⟨.vmem, 4, rfl⟩
abbrev cc1_scratch2 : Ref sig .scVector := ⟨.vmem, 5, rfl⟩
abbrev cc2_scratch0 : Ref sig .scVector := ⟨.vmem, 6, rfl⟩
abbrev cc2_scratch1 : Ref sig .scVector := ⟨.vmem, 7, rfl⟩
abbrev cc2_scratch2 : Ref sig .scVector := ⟨.vmem, 8, rfl⟩
abbrev cc3_scratch0 : Ref sig .scVector := ⟨.vmem, 9, rfl⟩
abbrev cc3_scratch1 : Ref sig .scVector := ⟨.vmem, 10, rfl⟩
abbrev cc3_scratch2 : Ref sig .scVector := ⟨.vmem, 11, rfl⟩
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc4_sem2_1 : DmaSem sig := 25
abbrev cc4_sem3_0 : DmaSem sig := 26
abbrev cc4_sem3_1 : DmaSem sig := 27
abbrev cc5_sem0_0 : DmaSem sig := 28
abbrev cc5_sem0_1 : DmaSem sig := 29
abbrev cc5_sem1_0 : DmaSem sig := 30
abbrev cc5_sem1_1 : DmaSem sig := 31
abbrev cc5_sem2_0 : DmaSem sig := 32
abbrev cc5_sem2_1 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem1_1 : DmaSem sig := 39
abbrev cc6_sem2_0 : DmaSem sig := 40
abbrev cc6_sem2_1 : DmaSem sig := 41
abbrev cc6_sem3_0 : DmaSem sig := 42
abbrev cc6_sem3_1 : DmaSem sig := 43
abbrev cc7_sem0_0 : DmaSem sig := 44
abbrev cc7_sem0_1 : DmaSem sig := 45
abbrev cc7_sem1_0 : DmaSem sig := 46
abbrev cc7_sem1_1 : DmaSem sig := 47
abbrev cc7_sem2_0 : DmaSem sig := 48
abbrev cc7_sem2_1 : DmaSem sig := 49
abbrev cc7_sem3_0 : DmaSem sig := 50
abbrev cc7_sem3_1 : DmaSem sig := 51
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k0_t1_loop : Scf.Loop 32 :=
  let c0_i32_12 : BitVec 32 := 0#32
  let c4_i32 : BitVec 32 := 4#32
  let v31 : BitVec 32 := Scalar.addi c0_i32_12 c4_i32
  let c1_i32_13 : BitVec 32 := 1#32
  ⟨c0_i32_12, v31, c1_i32_13⟩
def k0_cond1 (k0_t1 : Fin k0_t1_loop.trips) : BitVec 1 :=
  let c0_i32_12 : BitVec 32 := 0#32
  let c1_i32_13 : BitVec 32 := 1#32
  let arg10 : BitVec 32 := Scf.iv c0_i32_12 c1_i32_13 k0_t1
  let c2_i32_32 : BitVec 32 := 2#32
  let v55 : BitVec 1 := Scalar.cmpi .sge arg10 c2_i32_32
  let v56 : BitVec 32 := Scalar.extui v55
  let c0_i32_33 : BitVec 32 := 0#32
  let v57 : BitVec 1 := Scalar.cmpi .ne v56 c0_i32_33
  v57

def k0_off2 (k0_t1 : Fin k0_t1_loop.trips) : Fin 3 → Nat :=
  let c0_i32_12 : BitVec 32 := 0#32
  let c1_i32_13 : BitVec 32 := 1#32
  let arg10 : BitVec 32 := Scf.iv c0_i32_12 c1_i32_13 k0_t1
  let c2_i32_31 : BitVec 32 := 2#32
  let v54 : BitVec 32 := Scalar.remsi arg10 c2_i32_31
  let c0_i32_56 : BitVec 32 := 0#32
  let c0_i32_57 : BitVec 32 := 0#32
  ![v54.toNat, 0, 0]
def k0_off3 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v1 c32_i32
  let c0_i32_3 : BitVec 32 := 0#32
  let v16 : BitVec 1 := Scalar.cmpi .ne v15 c0_i32_3
  let v17 : BitVec 1 := Scalar.andi v14 v16
  let v3 : BitVec 32 := Scalar.divsi v1 c32_i32
  let c1_i32 : BitVec 32 := 1#32
  let v18 : BitVec 32 := Scalar.subi v3 c1_i32
  let v19 : BitVec 32 := Scalar.select v17 v18 v3
  let c32_i32_4 : BitVec 32 := 32#32
  let c0_i32_5 : BitVec 32 := 0#32
  let v20 : BitVec 1 := Scalar.cmpi .eq c32_i32_4 c0_i32_5
  let c1_i32_6 : BitVec 32 := 1#32
  let v21 : BitVec 32 := Scalar.select v20 c1_i32_6 c32_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c0_i32_12 : BitVec 32 := 0#32
  let c1_i32_13 : BitVec 32 := 1#32
  let arg10 : BitVec 32 := Scf.iv c0_i32_12 c1_i32_13 k0_t1
  let c2_i32_54 : BitVec 32 := 2#32
  let v84 : BitVec 32 := Scalar.subi arg10 c2_i32_54
  let c128_i32_55 : BitVec 32 := 128#32
  let v85 : BitVec 32 := Scalar.muli v84 c128_i32_55
  let v86 : BitVec 32 := Scalar.addi v30 v85
  let c0_i32_58 : BitVec 32 := 0#32
  ![v19.toNat, v86.toNat, 0]
def k0_off4 (k0_t1 : Fin k0_t1_loop.trips) : Fin 1 → Nat :=
  let c0_i32_12 : BitVec 32 := 0#32
  let c1_i32_13 : BitVec 32 := 1#32
  let arg10 : BitVec 32 := Scf.iv c0_i32_12 c1_i32_13 k0_t1
  let c2_i32_31 : BitVec 32 := 2#32
  let v54 : BitVec 32 := Scalar.remsi arg10 c2_i32_31
  ![v54.toNat]
def k0_off5 (k0_t1 : Fin k0_t1_loop.trips) : Fin 3 → Nat :=
  let c0_i32_12 : BitVec 32 := 0#32
  let c1_i32_13 : BitVec 32 := 1#32
  let arg10 : BitVec 32 := Scf.iv c0_i32_12 c1_i32_13 k0_t1
  let c2_i32_31 : BitVec 32 := 2#32
  let v54 : BitVec 32 := Scalar.remsi arg10 c2_i32_31
  let c0_i32_34 : BitVec 32 := 0#32
  let c0_i32_35 : BitVec 32 := 0#32
  ![v54.toNat, 0, 0]
def k0_off6 (k0_t1 : Fin k0_t1_loop.trips) : Fin 1 → Nat :=
  let c0_i32_12 : BitVec 32 := 0#32
  let c1_i32_13 : BitVec 32 := 1#32
  let arg10 : BitVec 32 := Scf.iv c0_i32_12 c1_i32_13 k0_t1
  let c128_i32 : BitVec 32 := 128#32
  let v58 : BitVec 32 := Scalar.muli arg10 c128_i32
  ![v58.toNat]
def k0_off7 (k0_t1 : Fin k0_t1_loop.trips) : Fin 1 → Nat :=
  let c0_i32_12 : BitVec 32 := 0#32
  let c1_i32_13 : BitVec 32 := 1#32
  let arg10 : BitVec 32 := Scf.iv c0_i32_12 c1_i32_13 k0_t1
  let c2_i32_31 : BitVec 32 := 2#32
  let v54 : BitVec 32 := Scalar.remsi arg10 c2_i32_31
  ![v54.toNat]
@[reducible] def k0_t2_loop : Scf.Loop 32 :=
  let c0_i32_43 : BitVec 32 := 0#32
  let c128_i32_44 : BitVec 32 := 128#32
  let v71 : BitVec 32 := Scalar.addi c0_i32_43 c128_i32_44
  let c1_i32_45 : BitVec 32 := 1#32
  ⟨c0_i32_43, v71, c1_i32_45⟩
def k0_off8 (k0_t1 : Fin k0_t1_loop.trips) (k0_t2 : Fin k0_t2_loop.trips) : Fin 3 → Nat :=
  let c0_i32_12 : BitVec 32 := 0#32
  let c1_i32_13 : BitVec 32 := 1#32
  let arg10 : BitVec 32 := Scf.iv c0_i32_12 c1_i32_13 k0_t1
  let c2_i32_31 : BitVec 32 := 2#32
  let v54 : BitVec 32 := Scalar.remsi arg10 c2_i32_31
  let v84 : Index := Scalar.indexCast v54
  let c0_i32_43 : BitVec 32 := 0#32
  let c1_i32_45 : BitVec 32 := 1#32
  let arg11 : BitVec 32 := Scf.iv c0_i32_43 c1_i32_45 k0_t2
  let v85 : Index := Scalar.indexCast arg11
  let c0 : Index := 0#32
  ![v84.toNat, v85.toNat, 0]
def k0_off9 (k0_t1 : Fin k0_t1_loop.trips) (k0_t2 : Fin k0_t2_loop.trips) : Fin 3 → Nat :=
  let c0_i32_12 : BitVec 32 := 0#32
  let c1_i32_13 : BitVec 32 := 1#32
  let arg10 : BitVec 32 := Scf.iv c0_i32_12 c1_i32_13 k0_t1
  let c2_i32_31 : BitVec 32 := 2#32
  let v54 : BitVec 32 := Scalar.remsi arg10 c2_i32_31
  let v88 : Index := Scalar.indexCast v54
  let c0_i32_43 : BitVec 32 := 0#32
  let c1_i32_45 : BitVec 32 := 1#32
  let arg11 : BitVec 32 := Scf.iv c0_i32_43 c1_i32_45 k0_t2
  let v89 : Index := Scalar.indexCast arg11
  let c0_54 : Index := 0#32
  ![v88.toNat, v89.toNat, 0]
def k0_off10 (k0_t1 : Fin k0_t1_loop.trips) (k0_t2 : Fin k0_t2_loop.trips) : Fin 3 → Nat :=
  let c0_i32_12 : BitVec 32 := 0#32
  let c1_i32_13 : BitVec 32 := 1#32
  let arg10 : BitVec 32 := Scf.iv c0_i32_12 c1_i32_13 k0_t1
  let c2_i32_31 : BitVec 32 := 2#32
  let v54 : BitVec 32 := Scalar.remsi arg10 c2_i32_31
  let v93 : Index := Scalar.indexCast v54
  let c0_i32_43 : BitVec 32 := 0#32
  let c1_i32_45 : BitVec 32 := 1#32
  let arg11 : BitVec 32 := Scf.iv c0_i32_43 c1_i32_45 k0_t2
  let v94 : Index := Scalar.indexCast arg11
  let c16 : Index := 16#32
  ![v93.toNat, v94.toNat, 16]
def k0_off11 (k0_t1 : Fin k0_t1_loop.trips) (k0_t2 : Fin k0_t2_loop.trips) : Fin 3 → Nat :=
  let c0_i32_12 : BitVec 32 := 0#32
  let c1_i32_13 : BitVec 32 := 1#32
  let arg10 : BitVec 32 := Scf.iv c0_i32_12 c1_i32_13 k0_t1
  let c2_i32_31 : BitVec 32 := 2#32
  let v54 : BitVec 32 := Scalar.remsi arg10 c2_i32_31
  let v97 : Index := Scalar.indexCast v54
  let c0_i32_43 : BitVec 32 := 0#32
  let c1_i32_45 : BitVec 32 := 1#32
  let arg11 : BitVec 32 := Scf.iv c0_i32_43 c1_i32_45 k0_t2
  let v98 : Index := Scalar.indexCast arg11
  let c16_55 : Index := 16#32
  ![v97.toNat, v98.toNat, 16]
def k0_off12 (k0_t1 : Fin k0_t1_loop.trips) : Fin 3 → Nat :=
  let c0_i32_12 : BitVec 32 := 0#32
  let c1_i32_13 : BitVec 32 := 1#32
  let arg10 : BitVec 32 := Scf.iv c0_i32_12 c1_i32_13 k0_t1
  let c2_i32_31 : BitVec 32 := 2#32
  let v54 : BitVec 32 := Scalar.remsi arg10 c2_i32_31
  let c0_i32_48 : BitVec 32 := 0#32
  let c0_i32_49 : BitVec 32 := 0#32
  ![v54.toNat, 0, 0]
def k0_off13 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v1 c32_i32
  let c0_i32_3 : BitVec 32 := 0#32
  let v16 : BitVec 1 := Scalar.cmpi .ne v15 c0_i32_3
  let v17 : BitVec 1 := Scalar.andi v14 v16
  let v3 : BitVec 32 := Scalar.divsi v1 c32_i32
  let c1_i32 : BitVec 32 := 1#32
  let v18 : BitVec 32 := Scalar.subi v3 c1_i32
  let v19 : BitVec 32 := Scalar.select v17 v18 v3
  let c32_i32_4 : BitVec 32 := 32#32
  let c0_i32_5 : BitVec 32 := 0#32
  let v20 : BitVec 1 := Scalar.cmpi .eq c32_i32_4 c0_i32_5
  let c1_i32_6 : BitVec 32 := 1#32
  let v21 : BitVec 32 := Scalar.select v20 c1_i32_6 c32_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c0_i32_12 : BitVec 32 := 0#32
  let c1_i32_13 : BitVec 32 := 1#32
  let arg10 : BitVec 32 := Scf.iv c0_i32_12 c1_i32_13 k0_t1
  let c128_i32_47 : BitVec 32 := 128#32
  let v72 : BitVec 32 := Scalar.muli arg10 c128_i32_47
  let v73 : BitVec 32 := Scalar.addi v30 v72
  let c0_i32_50 : BitVec 32 := 0#32
  ![v19.toNat, v73.toNat, 0]
def k0_off14 (i : grid0.Coords) (c256_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v1 c32_i32
  let c0_i32_3 : BitVec 32 := 0#32
  let v16 : BitVec 1 := Scalar.cmpi .ne v15 c0_i32_3
  let v17 : BitVec 1 := Scalar.andi v14 v16
  let v3 : BitVec 32 := Scalar.divsi v1 c32_i32
  let c1_i32 : BitVec 32 := 1#32
  let v18 : BitVec 32 := Scalar.subi v3 c1_i32
  let v19 : BitVec 32 := Scalar.select v17 v18 v3
  let c32_i32_4 : BitVec 32 := 32#32
  let c0_i32_5 : BitVec 32 := 0#32
  let v20 : BitVec 1 := Scalar.cmpi .eq c32_i32_4 c0_i32_5
  let c1_i32_6 : BitVec 32 := 1#32
  let v21 : BitVec 32 := Scalar.select v20 c1_i32_6 c32_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let v32 : BitVec 32 := Scalar.addi v30 c256_i32
  let c0_i32_19 : BitVec 32 := 0#32
  ![v19.toNat, v32.toNat, 0]
abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k1_t1_loop : Scf.Loop 32 :=
  let c0_i32_12 : BitVec 32 := 0#32
  let c4_i32 : BitVec 32 := 4#32
  let v31 : BitVec 32 := Scalar.addi c0_i32_12 c4_i32
  let c1_i32_13 : BitVec 32 := 1#32
  ⟨c0_i32_12, v31, c1_i32_13⟩
def k1_cond1 (k1_t1 : Fin k1_t1_loop.trips) : BitVec 1 :=
  let c0_i32_12 : BitVec 32 := 0#32
  let c1_i32_13 : BitVec 32 := 1#32
  let arg10 : BitVec 32 := Scf.iv c0_i32_12 c1_i32_13 k1_t1
  let c2_i32_32 : BitVec 32 := 2#32
  let v55 : BitVec 1 := Scalar.cmpi .sge arg10 c2_i32_32
  let v56 : BitVec 32 := Scalar.extui v55
  let c0_i32_33 : BitVec 32 := 0#32
  let v57 : BitVec 1 := Scalar.cmpi .ne v56 c0_i32_33
  v57

def k1_off2 (k1_t1 : Fin k1_t1_loop.trips) : Fin 3 → Nat :=
  let c0_i32_12 : BitVec 32 := 0#32
  let c1_i32_13 : BitVec 32 := 1#32
  let arg10 : BitVec 32 := Scf.iv c0_i32_12 c1_i32_13 k1_t1
  let c2_i32_31 : BitVec 32 := 2#32
  let v54 : BitVec 32 := Scalar.remsi arg10 c2_i32_31
  let c0_i32_56 : BitVec 32 := 0#32
  let c0_i32_57 : BitVec 32 := 0#32
  ![v54.toNat, 0, 0]
def k1_off3 (i : grid1.Coords) (k1_t1 : Fin k1_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v1 c32_i32
  let c0_i32_3 : BitVec 32 := 0#32
  let v16 : BitVec 1 := Scalar.cmpi .ne v15 c0_i32_3
  let v17 : BitVec 1 := Scalar.andi v14 v16
  let v3 : BitVec 32 := Scalar.divsi v1 c32_i32
  let c1_i32 : BitVec 32 := 1#32
  let v18 : BitVec 32 := Scalar.subi v3 c1_i32
  let v19 : BitVec 32 := Scalar.select v17 v18 v3
  let c32_i32_4 : BitVec 32 := 32#32
  let c0_i32_5 : BitVec 32 := 0#32
  let v20 : BitVec 1 := Scalar.cmpi .eq c32_i32_4 c0_i32_5
  let c1_i32_6 : BitVec 32 := 1#32
  let v21 : BitVec 32 := Scalar.select v20 c1_i32_6 c32_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c0_i32_12 : BitVec 32 := 0#32
  let c1_i32_13 : BitVec 32 := 1#32
  let arg10 : BitVec 32 := Scf.iv c0_i32_12 c1_i32_13 k1_t1
  let c2_i32_54 : BitVec 32 := 2#32
  let v84 : BitVec 32 := Scalar.subi arg10 c2_i32_54
  let c128_i32_55 : BitVec 32 := 128#32
  let v85 : BitVec 32 := Scalar.muli v84 c128_i32_55
  let v86 : BitVec 32 := Scalar.addi v30 v85
  let c0_i32_58 : BitVec 32 := 0#32
  ![v19.toNat, v86.toNat, 0]
def k1_off4 (k1_t1 : Fin k1_t1_loop.trips) : Fin 1 → Nat :=
  let c0_i32_12 : BitVec 32 := 0#32
  let c1_i32_13 : BitVec 32 := 1#32
  let arg10 : BitVec 32 := Scf.iv c0_i32_12 c1_i32_13 k1_t1
  let c2_i32_31 : BitVec 32 := 2#32
  let v54 : BitVec 32 := Scalar.remsi arg10 c2_i32_31
  ![v54.toNat]
def k1_off5 (k1_t1 : Fin k1_t1_loop.trips) : Fin 3 → Nat :=
  let c0_i32_12 : BitVec 32 := 0#32
  let c1_i32_13 : BitVec 32 := 1#32
  let arg10 : BitVec 32 := Scf.iv c0_i32_12 c1_i32_13 k1_t1
  let c2_i32_31 : BitVec 32 := 2#32
  let v54 : BitVec 32 := Scalar.remsi arg10 c2_i32_31
  let c0_i32_34 : BitVec 32 := 0#32
  let c0_i32_35 : BitVec 32 := 0#32
  ![v54.toNat, 0, 0]
def k1_off6 (k1_t1 : Fin k1_t1_loop.trips) : Fin 1 → Nat :=
  let c0_i32_12 : BitVec 32 := 0#32
  let c1_i32_13 : BitVec 32 := 1#32
  let arg10 : BitVec 32 := Scf.iv c0_i32_12 c1_i32_13 k1_t1
  let c128_i32 : BitVec 32 := 128#32
  let v58 : BitVec 32 := Scalar.muli arg10 c128_i32
  ![v58.toNat]
def k1_off7 (k1_t1 : Fin k1_t1_loop.trips) : Fin 1 → Nat :=
  let c0_i32_12 : BitVec 32 := 0#32
  let c1_i32_13 : BitVec 32 := 1#32
  let arg10 : BitVec 32 := Scf.iv c0_i32_12 c1_i32_13 k1_t1
  let c2_i32_31 : BitVec 32 := 2#32
  let v54 : BitVec 32 := Scalar.remsi arg10 c2_i32_31
  ![v54.toNat]
@[reducible] def k1_t2_loop : Scf.Loop 32 :=
  let c0_i32_43 : BitVec 32 := 0#32
  let c128_i32_44 : BitVec 32 := 128#32
  let v71 : BitVec 32 := Scalar.addi c0_i32_43 c128_i32_44
  let c1_i32_45 : BitVec 32 := 1#32
  ⟨c0_i32_43, v71, c1_i32_45⟩
def k1_off8 (k1_t1 : Fin k1_t1_loop.trips) (k1_t2 : Fin k1_t2_loop.trips) : Fin 3 → Nat :=
  let c0_i32_12 : BitVec 32 := 0#32
  let c1_i32_13 : BitVec 32 := 1#32
  let arg10 : BitVec 32 := Scf.iv c0_i32_12 c1_i32_13 k1_t1
  let c2_i32_31 : BitVec 32 := 2#32
  let v54 : BitVec 32 := Scalar.remsi arg10 c2_i32_31
  let v84 : Index := Scalar.indexCast v54
  let c0_i32_43 : BitVec 32 := 0#32
  let c1_i32_45 : BitVec 32 := 1#32
  let arg11 : BitVec 32 := Scf.iv c0_i32_43 c1_i32_45 k1_t2
  let v85 : Index := Scalar.indexCast arg11
  let c0 : Index := 0#32
  ![v84.toNat, v85.toNat, 0]
def k1_off9 (k1_t1 : Fin k1_t1_loop.trips) (k1_t2 : Fin k1_t2_loop.trips) : Fin 3 → Nat :=
  let c0_i32_12 : BitVec 32 := 0#32
  let c1_i32_13 : BitVec 32 := 1#32
  let arg10 : BitVec 32 := Scf.iv c0_i32_12 c1_i32_13 k1_t1
  let c2_i32_31 : BitVec 32 := 2#32
  let v54 : BitVec 32 := Scalar.remsi arg10 c2_i32_31
  let v88 : Index := Scalar.indexCast v54
  let c0_i32_43 : BitVec 32 := 0#32
  let c1_i32_45 : BitVec 32 := 1#32
  let arg11 : BitVec 32 := Scf.iv c0_i32_43 c1_i32_45 k1_t2
  let v89 : Index := Scalar.indexCast arg11
  let c0_54 : Index := 0#32
  ![v88.toNat, v89.toNat, 0]
def k1_off10 (k1_t1 : Fin k1_t1_loop.trips) (k1_t2 : Fin k1_t2_loop.trips) : Fin 3 → Nat :=
  let c0_i32_12 : BitVec 32 := 0#32
  let c1_i32_13 : BitVec 32 := 1#32
  let arg10 : BitVec 32 := Scf.iv c0_i32_12 c1_i32_13 k1_t1
  let c2_i32_31 : BitVec 32 := 2#32
  let v54 : BitVec 32 := Scalar.remsi arg10 c2_i32_31
  let v93 : Index := Scalar.indexCast v54
  let c0_i32_43 : BitVec 32 := 0#32
  let c1_i32_45 : BitVec 32 := 1#32
  let arg11 : BitVec 32 := Scf.iv c0_i32_43 c1_i32_45 k1_t2
  let v94 : Index := Scalar.indexCast arg11
  let c16 : Index := 16#32
  ![v93.toNat, v94.toNat, 16]
def k1_off11 (k1_t1 : Fin k1_t1_loop.trips) (k1_t2 : Fin k1_t2_loop.trips) : Fin 3 → Nat :=
  let c0_i32_12 : BitVec 32 := 0#32
  let c1_i32_13 : BitVec 32 := 1#32
  let arg10 : BitVec 32 := Scf.iv c0_i32_12 c1_i32_13 k1_t1
  let c2_i32_31 : BitVec 32 := 2#32
  let v54 : BitVec 32 := Scalar.remsi arg10 c2_i32_31
  let v97 : Index := Scalar.indexCast v54
  let c0_i32_43 : BitVec 32 := 0#32
  let c1_i32_45 : BitVec 32 := 1#32
  let arg11 : BitVec 32 := Scf.iv c0_i32_43 c1_i32_45 k1_t2
  let v98 : Index := Scalar.indexCast arg11
  let c16_55 : Index := 16#32
  ![v97.toNat, v98.toNat, 16]
def k1_off12 (k1_t1 : Fin k1_t1_loop.trips) : Fin 3 → Nat :=
  let c0_i32_12 : BitVec 32 := 0#32
  let c1_i32_13 : BitVec 32 := 1#32
  let arg10 : BitVec 32 := Scf.iv c0_i32_12 c1_i32_13 k1_t1
  let c2_i32_31 : BitVec 32 := 2#32
  let v54 : BitVec 32 := Scalar.remsi arg10 c2_i32_31
  let c0_i32_48 : BitVec 32 := 0#32
  let c0_i32_49 : BitVec 32 := 0#32
  ![v54.toNat, 0, 0]
def k1_off13 (i : grid1.Coords) (k1_t1 : Fin k1_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v1 c32_i32
  let c0_i32_3 : BitVec 32 := 0#32
  let v16 : BitVec 1 := Scalar.cmpi .ne v15 c0_i32_3
  let v17 : BitVec 1 := Scalar.andi v14 v16
  let v3 : BitVec 32 := Scalar.divsi v1 c32_i32
  let c1_i32 : BitVec 32 := 1#32
  let v18 : BitVec 32 := Scalar.subi v3 c1_i32
  let v19 : BitVec 32 := Scalar.select v17 v18 v3
  let c32_i32_4 : BitVec 32 := 32#32
  let c0_i32_5 : BitVec 32 := 0#32
  let v20 : BitVec 1 := Scalar.cmpi .eq c32_i32_4 c0_i32_5
  let c1_i32_6 : BitVec 32 := 1#32
  let v21 : BitVec 32 := Scalar.select v20 c1_i32_6 c32_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c0_i32_12 : BitVec 32 := 0#32
  let c1_i32_13 : BitVec 32 := 1#32
  let arg10 : BitVec 32 := Scf.iv c0_i32_12 c1_i32_13 k1_t1
  let c128_i32_47 : BitVec 32 := 128#32
  let v72 : BitVec 32 := Scalar.muli arg10 c128_i32_47
  let v73 : BitVec 32 := Scalar.addi v30 v72
  let c0_i32_50 : BitVec 32 := 0#32
  ![v19.toNat, v73.toNat, 0]
def k1_off14 (i : grid1.Coords) (c256_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v1 c32_i32
  let c0_i32_3 : BitVec 32 := 0#32
  let v16 : BitVec 1 := Scalar.cmpi .ne v15 c0_i32_3
  let v17 : BitVec 1 := Scalar.andi v14 v16
  let v3 : BitVec 32 := Scalar.divsi v1 c32_i32
  let c1_i32 : BitVec 32 := 1#32
  let v18 : BitVec 32 := Scalar.subi v3 c1_i32
  let v19 : BitVec 32 := Scalar.select v17 v18 v3
  let c32_i32_4 : BitVec 32 := 32#32
  let c0_i32_5 : BitVec 32 := 0#32
  let v20 : BitVec 1 := Scalar.cmpi .eq c32_i32_4 c0_i32_5
  let c1_i32_6 : BitVec 32 := 1#32
  let v21 : BitVec 32 := Scalar.select v20 c1_i32_6 c32_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let v32 : BitVec 32 := Scalar.addi v30 c256_i32
  let c0_i32_19 : BitVec 32 := 0#32
  ![v19.toNat, v32.toNat, 0]
abbrev grid2 : Pipeline.Grid := ⟨2, ![2, 16], ![false, false]⟩

def k2_off1 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  ![v2.toNat]
@[reducible] def k2_t1_loop : Scf.Loop 32 :=
  let c0_i32_12 : BitVec 32 := 0#32
  let c8_i32 : BitVec 32 := 8#32
  let v31 : BitVec 32 := Scalar.addi c0_i32_12 c8_i32
  let c1_i32_13 : BitVec 32 := 1#32
  ⟨c0_i32_12, v31, c1_i32_13⟩
def k2_cond1 (k2_t1 : Fin k2_t1_loop.trips) : BitVec 1 :=
  let c0_i32_12 : BitVec 32 := 0#32
  let c1_i32_13 : BitVec 32 := 1#32
  let arg10 : BitVec 32 := Scf.iv c0_i32_12 c1_i32_13 k2_t1
  let c2_i32_32 : BitVec 32 := 2#32
  let v55 : BitVec 1 := Scalar.cmpi .sge arg10 c2_i32_32
  let v56 : BitVec 32 := Scalar.extui v55
  let c0_i32_33 : BitVec 32 := 0#32
  let v57 : BitVec 1 := Scalar.cmpi .ne v56 c0_i32_33
  v57

def k2_off2 (k2_t1 : Fin k2_t1_loop.trips) : Fin 3 → Nat :=
  let c0_i32_12 : BitVec 32 := 0#32
  let c1_i32_13 : BitVec 32 := 1#32
  let arg10 : BitVec 32 := Scf.iv c0_i32_12 c1_i32_13 k2_t1
  let c2_i32_31 : BitVec 32 := 2#32
  let v54 : BitVec 32 := Scalar.remsi arg10 c2_i32_31
  let c0_i32_56 : BitVec 32 := 0#32
  let c0_i32_57 : BitVec 32 := 0#32
  ![v54.toNat, 0, 0]
def k2_off3 (i : grid2.Coords) (k2_t1 : Fin k2_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c16_i32_4 : BitVec 32 := 16#32
  let c0_i32_5 : BitVec 32 := 0#32
  let v20 : BitVec 1 := Scalar.cmpi .eq c16_i32_4 c0_i32_5
  let c1_i32_6 : BitVec 32 := 1#32
  let v21 : BitVec 32 := Scalar.select v20 c1_i32_6 c16_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c1024_i32_10 : BitVec 32 := 1024#32
  let v30 : BitVec 32 := Scalar.muli v29 c1024_i32_10
  let c0_i32_12 : BitVec 32 := 0#32
  let c1_i32_13 : BitVec 32 := 1#32
  let arg10 : BitVec 32 := Scf.iv c0_i32_12 c1_i32_13 k2_t1
  let c2_i32_54 : BitVec 32 := 2#32
  let v84 : BitVec 32 := Scalar.subi arg10 c2_i32_54
  let c128_i32_55 : BitVec 32 := 128#32
  let v85 : BitVec 32 := Scalar.muli v84 c128_i32_55
  let v86 : BitVec 32 := Scalar.addi v30 v85
  let c0_i32_58 : BitVec 32 := 0#32
  ![v19.toNat, v86.toNat, 0]
def k2_off4 (k2_t1 : Fin k2_t1_loop.trips) : Fin 1 → Nat :=
  let c0_i32_12 : BitVec 32 := 0#32
  let c1_i32_13 : BitVec 32 := 1#32
  let arg10 : BitVec 32 := Scf.iv c0_i32_12 c1_i32_13 k2_t1
  let c2_i32_31 : BitVec 32 := 2#32
  let v54 : BitVec 32 := Scalar.remsi arg10 c2_i32_31
  ![v54.toNat]
def k2_off5 (k2_t1 : Fin k2_t1_loop.trips) : Fin 3 → Nat :=
  let c0_i32_12 : BitVec 32 := 0#32
  let c1_i32_13 : BitVec 32 := 1#32
  let arg10 : BitVec 32 := Scf.iv c0_i32_12 c1_i32_13 k2_t1
  let c2_i32_31 : BitVec 32 := 2#32
  let v54 : BitVec 32 := Scalar.remsi arg10 c2_i32_31
  let c0_i32_34 : BitVec 32 := 0#32
  let c0_i32_35 : BitVec 32 := 0#32
  ![v54.toNat, 0, 0]
def k2_off6 (k2_t1 : Fin k2_t1_loop.trips) : Fin 1 → Nat :=
  let c0_i32_12 : BitVec 32 := 0#32
  let c1_i32_13 : BitVec 32 := 1#32
  let arg10 : BitVec 32 := Scf.iv c0_i32_12 c1_i32_13 k2_t1
  let c128_i32 : BitVec 32 := 128#32
  let v58 : BitVec 32 := Scalar.muli arg10 c128_i32
  ![v58.toNat]
def k2_off7 (k2_t1 : Fin k2_t1_loop.trips) : Fin 1 → Nat :=
  let c0_i32_12 : BitVec 32 := 0#32
  let c1_i32_13 : BitVec 32 := 1#32
  let arg10 : BitVec 32 := Scf.iv c0_i32_12 c1_i32_13 k2_t1
  let c2_i32_31 : BitVec 32 := 2#32
  let v54 : BitVec 32 := Scalar.remsi arg10 c2_i32_31
  ![v54.toNat]
@[reducible] def k2_t2_loop : Scf.Loop 32 :=
  let c0_i32_43 : BitVec 32 := 0#32
  let c128_i32_44 : BitVec 32 := 128#32
  let v71 : BitVec 32 := Scalar.addi c0_i32_43 c128_i32_44
  let c1_i32_45 : BitVec 32 := 1#32
  ⟨c0_i32_43, v71, c1_i32_45⟩
def k2_off8 (k2_t1 : Fin k2_t1_loop.trips) (k2_t2 : Fin k2_t2_loop.trips) : Fin 3 → Nat :=
  let c0_i32_12 : BitVec 32 := 0#32
  let c1_i32_13 : BitVec 32 := 1#32
  let arg10 : BitVec 32 := Scf.iv c0_i32_12 c1_i32_13 k2_t1
  let c2_i32_31 : BitVec 32 := 2#32
  let v54 : BitVec 32 := Scalar.remsi arg10 c2_i32_31
  let v84 : Index := Scalar.indexCast v54
  let c0_i32_43 : BitVec 32 := 0#32
  let c1_i32_45 : BitVec 32 := 1#32
  let arg11 : BitVec 32 := Scf.iv c0_i32_43 c1_i32_45 k2_t2
  let v85 : Index := Scalar.indexCast arg11
  let c0 : Index := 0#32
  ![v84.toNat, v85.toNat, 0]
def k2_off9 (k2_t1 : Fin k2_t1_loop.trips) (k2_t2 : Fin k2_t2_loop.trips) : Fin 3 → Nat :=
  let c0_i32_12 : BitVec 32 := 0#32
  let c1_i32_13 : BitVec 32 := 1#32
  let arg10 : BitVec 32 := Scf.iv c0_i32_12 c1_i32_13 k2_t1
  let c2_i32_31 : BitVec 32 := 2#32
  let v54 : BitVec 32 := Scalar.remsi arg10 c2_i32_31
  let v88 : Index := Scalar.indexCast v54
  let c0_i32_43 : BitVec 32 := 0#32
  let c1_i32_45 : BitVec 32 := 1#32
  let arg11 : BitVec 32 := Scf.iv c0_i32_43 c1_i32_45 k2_t2
  let v89 : Index := Scalar.indexCast arg11
  let c0_54 : Index := 0#32
  ![v88.toNat, v89.toNat, 0]
def k2_off10 (k2_t1 : Fin k2_t1_loop.trips) (k2_t2 : Fin k2_t2_loop.trips) : Fin 3 → Nat :=
  let c0_i32_12 : BitVec 32 := 0#32
  let c1_i32_13 : BitVec 32 := 1#32
  let arg10 : BitVec 32 := Scf.iv c0_i32_12 c1_i32_13 k2_t1
  let c2_i32_31 : BitVec 32 := 2#32
  let v54 : BitVec 32 := Scalar.remsi arg10 c2_i32_31
  let v93 : Index := Scalar.indexCast v54
  let c0_i32_43 : BitVec 32 := 0#32
  let c1_i32_45 : BitVec 32 := 1#32
  let arg11 : BitVec 32 := Scf.iv c0_i32_43 c1_i32_45 k2_t2
  let v94 : Index := Scalar.indexCast arg11
  let c16 : Index := 16#32
  ![v93.toNat, v94.toNat, 16]
def k2_off11 (k2_t1 : Fin k2_t1_loop.trips) (k2_t2 : Fin k2_t2_loop.trips) : Fin 3 → Nat :=
  let c0_i32_12 : BitVec 32 := 0#32
  let c1_i32_13 : BitVec 32 := 1#32
  let arg10 : BitVec 32 := Scf.iv c0_i32_12 c1_i32_13 k2_t1
  let c2_i32_31 : BitVec 32 := 2#32
  let v54 : BitVec 32 := Scalar.remsi arg10 c2_i32_31
  let v97 : Index := Scalar.indexCast v54
  let c0_i32_43 : BitVec 32 := 0#32
  let c1_i32_45 : BitVec 32 := 1#32
  let arg11 : BitVec 32 := Scf.iv c0_i32_43 c1_i32_45 k2_t2
  let v98 : Index := Scalar.indexCast arg11
  let c16_55 : Index := 16#32
  ![v97.toNat, v98.toNat, 16]
def k2_off12 (k2_t1 : Fin k2_t1_loop.trips) : Fin 3 → Nat :=
  let c0_i32_12 : BitVec 32 := 0#32
  let c1_i32_13 : BitVec 32 := 1#32
  let arg10 : BitVec 32 := Scf.iv c0_i32_12 c1_i32_13 k2_t1
  let c2_i32_31 : BitVec 32 := 2#32
  let v54 : BitVec 32 := Scalar.remsi arg10 c2_i32_31
  let c0_i32_48 : BitVec 32 := 0#32
  let c0_i32_49 : BitVec 32 := 0#32
  ![v54.toNat, 0, 0]
def k2_off13 (i : grid2.Coords) (k2_t1 : Fin k2_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c16_i32_4 : BitVec 32 := 16#32
  let c0_i32_5 : BitVec 32 := 0#32
  let v20 : BitVec 1 := Scalar.cmpi .eq c16_i32_4 c0_i32_5
  let c1_i32_6 : BitVec 32 := 1#32
  let v21 : BitVec 32 := Scalar.select v20 c1_i32_6 c16_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c1024_i32_10 : BitVec 32 := 1024#32
  let v30 : BitVec 32 := Scalar.muli v29 c1024_i32_10
  let c0_i32_12 : BitVec 32 := 0#32
  let c1_i32_13 : BitVec 32 := 1#32
  let arg10 : BitVec 32 := Scf.iv c0_i32_12 c1_i32_13 k2_t1
  let c128_i32_47 : BitVec 32 := 128#32
  let v72 : BitVec 32 := Scalar.muli arg10 c128_i32_47
  let v73 : BitVec 32 := Scalar.addi v30 v72
  let c0_i32_50 : BitVec 32 := 0#32
  ![v19.toNat, v73.toNat, 0]
def k2_off14 (i : grid2.Coords) (c768_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v1 c16_i32
  let c0_i32_3 : BitVec 32 := 0#32
  let v16 : BitVec 1 := Scalar.cmpi .ne v15 c0_i32_3
  let v17 : BitVec 1 := Scalar.andi v14 v16
  let v3 : BitVec 32 := Scalar.divsi v1 c16_i32
  let c1_i32 : BitVec 32 := 1#32
  let v18 : BitVec 32 := Scalar.subi v3 c1_i32
  let v19 : BitVec 32 := Scalar.select v17 v18 v3
  let c16_i32_4 : BitVec 32 := 16#32
  let c0_i32_5 : BitVec 32 := 0#32
  let v20 : BitVec 1 := Scalar.cmpi .eq c16_i32_4 c0_i32_5
  let c1_i32_6 : BitVec 32 := 1#32
  let v21 : BitVec 32 := Scalar.select v20 c1_i32_6 c16_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c1024_i32_10 : BitVec 32 := 1024#32
  let v30 : BitVec 32 := Scalar.muli v29 c1024_i32_10
  let v32 : BitVec 32 := Scalar.addi v30 c768_i32
  let c0_i32_19 : BitVec 32 := 0#32
  ![v19.toNat, v32.toNat, 0]
abbrev grid3 : Pipeline.Grid := ⟨2, ![2, 16], ![false, false]⟩

def k3_off1 (i : grid3.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  ![v2.toNat]
@[reducible] def k3_t1_loop : Scf.Loop 32 :=
  let c0_i32_12 : BitVec 32 := 0#32
  let c16_i32 : BitVec 32 := 16#32
  let v31 : BitVec 32 := Scalar.addi c0_i32_12 c16_i32
  let c1_i32_13 : BitVec 32 := 1#32
  ⟨c0_i32_12, v31, c1_i32_13⟩
def k3_cond1 (k3_t1 : Fin k3_t1_loop.trips) : BitVec 1 :=
  let c0_i32_12 : BitVec 32 := 0#32
  let c1_i32_13 : BitVec 32 := 1#32
  let arg10 : BitVec 32 := Scf.iv c0_i32_12 c1_i32_13 k3_t1
  let c2_i32_32 : BitVec 32 := 2#32
  let v55 : BitVec 1 := Scalar.cmpi .sge arg10 c2_i32_32
  let v56 : BitVec 32 := Scalar.extui v55
  let c0_i32_33 : BitVec 32 := 0#32
  let v57 : BitVec 1 := Scalar.cmpi .ne v56 c0_i32_33
  v57

def k3_off2 (k3_t1 : Fin k3_t1_loop.trips) : Fin 3 → Nat :=
  let c0_i32_12 : BitVec 32 := 0#32
  let c1_i32_13 : BitVec 32 := 1#32
  let arg10 : BitVec 32 := Scf.iv c0_i32_12 c1_i32_13 k3_t1
  let c2_i32_31 : BitVec 32 := 2#32
  let v54 : BitVec 32 := Scalar.remsi arg10 c2_i32_31
  let c0_i32_56 : BitVec 32 := 0#32
  let c0_i32_57 : BitVec 32 := 0#32
  ![v54.toNat, 0, 0]
def k3_off3 (i : grid3.Coords) (k3_t1 : Fin k3_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c2048_i32_10 : BitVec 32 := 2048#32
  let v30 : BitVec 32 := Scalar.muli v29 c2048_i32_10
  let c0_i32_12 : BitVec 32 := 0#32
  let c1_i32_13 : BitVec 32 := 1#32
  let arg10 : BitVec 32 := Scf.iv c0_i32_12 c1_i32_13 k3_t1
  let c2_i32_54 : BitVec 32 := 2#32
  let v84 : BitVec 32 := Scalar.subi arg10 c2_i32_54
  let c128_i32_55 : BitVec 32 := 128#32
  let v85 : BitVec 32 := Scalar.muli v84 c128_i32_55
  let v86 : BitVec 32 := Scalar.addi v30 v85
  let c0_i32_58 : BitVec 32 := 0#32
  ![v19.toNat, v86.toNat, 0]
def k3_off4 (k3_t1 : Fin k3_t1_loop.trips) : Fin 1 → Nat :=
  let c0_i32_12 : BitVec 32 := 0#32
  let c1_i32_13 : BitVec 32 := 1#32
  let arg10 : BitVec 32 := Scf.iv c0_i32_12 c1_i32_13 k3_t1
  let c2_i32_31 : BitVec 32 := 2#32
  let v54 : BitVec 32 := Scalar.remsi arg10 c2_i32_31
  ![v54.toNat]
def k3_off5 (k3_t1 : Fin k3_t1_loop.trips) : Fin 3 → Nat :=
  let c0_i32_12 : BitVec 32 := 0#32
  let c1_i32_13 : BitVec 32 := 1#32
  let arg10 : BitVec 32 := Scf.iv c0_i32_12 c1_i32_13 k3_t1
  let c2_i32_31 : BitVec 32 := 2#32
  let v54 : BitVec 32 := Scalar.remsi arg10 c2_i32_31
  let c0_i32_34 : BitVec 32 := 0#32
  let c0_i32_35 : BitVec 32 := 0#32
  ![v54.toNat, 0, 0]
def k3_off6 (k3_t1 : Fin k3_t1_loop.trips) : Fin 1 → Nat :=
  let c0_i32_12 : BitVec 32 := 0#32
  let c1_i32_13 : BitVec 32 := 1#32
  let arg10 : BitVec 32 := Scf.iv c0_i32_12 c1_i32_13 k3_t1
  let c128_i32 : BitVec 32 := 128#32
  let v58 : BitVec 32 := Scalar.muli arg10 c128_i32
  ![v58.toNat]
def k3_off7 (k3_t1 : Fin k3_t1_loop.trips) : Fin 1 → Nat :=
  let c0_i32_12 : BitVec 32 := 0#32
  let c1_i32_13 : BitVec 32 := 1#32
  let arg10 : BitVec 32 := Scf.iv c0_i32_12 c1_i32_13 k3_t1
  let c2_i32_31 : BitVec 32 := 2#32
  let v54 : BitVec 32 := Scalar.remsi arg10 c2_i32_31
  ![v54.toNat]
@[reducible] def k3_t2_loop : Scf.Loop 32 :=
  let c0_i32_43 : BitVec 32 := 0#32
  let c128_i32_44 : BitVec 32 := 128#32
  let v71 : BitVec 32 := Scalar.addi c0_i32_43 c128_i32_44
  let c1_i32_45 : BitVec 32 := 1#32
  ⟨c0_i32_43, v71, c1_i32_45⟩
def k3_off8 (k3_t1 : Fin k3_t1_loop.trips) (k3_t2 : Fin k3_t2_loop.trips) : Fin 3 → Nat :=
  let c0_i32_12 : BitVec 32 := 0#32
  let c1_i32_13 : BitVec 32 := 1#32
  let arg10 : BitVec 32 := Scf.iv c0_i32_12 c1_i32_13 k3_t1
  let c2_i32_31 : BitVec 32 := 2#32
  let v54 : BitVec 32 := Scalar.remsi arg10 c2_i32_31
  let v84 : Index := Scalar.indexCast v54
  let c0_i32_43 : BitVec 32 := 0#32
  let c1_i32_45 : BitVec 32 := 1#32
  let arg11 : BitVec 32 := Scf.iv c0_i32_43 c1_i32_45 k3_t2
  let v85 : Index := Scalar.indexCast arg11
  let c0 : Index := 0#32
  ![v84.toNat, v85.toNat, 0]
def k3_off9 (k3_t1 : Fin k3_t1_loop.trips) (k3_t2 : Fin k3_t2_loop.trips) : Fin 3 → Nat :=
  let c0_i32_12 : BitVec 32 := 0#32
  let c1_i32_13 : BitVec 32 := 1#32
  let arg10 : BitVec 32 := Scf.iv c0_i32_12 c1_i32_13 k3_t1
  let c2_i32_31 : BitVec 32 := 2#32
  let v54 : BitVec 32 := Scalar.remsi arg10 c2_i32_31
  let v88 : Index := Scalar.indexCast v54
  let c0_i32_43 : BitVec 32 := 0#32
  let c1_i32_45 : BitVec 32 := 1#32
  let arg11 : BitVec 32 := Scf.iv c0_i32_43 c1_i32_45 k3_t2
  let v89 : Index := Scalar.indexCast arg11
  let c0_54 : Index := 0#32
  ![v88.toNat, v89.toNat, 0]
def k3_off10 (k3_t1 : Fin k3_t1_loop.trips) (k3_t2 : Fin k3_t2_loop.trips) : Fin 3 → Nat :=
  let c0_i32_12 : BitVec 32 := 0#32
  let c1_i32_13 : BitVec 32 := 1#32
  let arg10 : BitVec 32 := Scf.iv c0_i32_12 c1_i32_13 k3_t1
  let c2_i32_31 : BitVec 32 := 2#32
  let v54 : BitVec 32 := Scalar.remsi arg10 c2_i32_31
  let v93 : Index := Scalar.indexCast v54
  let c0_i32_43 : BitVec 32 := 0#32
  let c1_i32_45 : BitVec 32 := 1#32
  let arg11 : BitVec 32 := Scf.iv c0_i32_43 c1_i32_45 k3_t2
  let v94 : Index := Scalar.indexCast arg11
  let c16 : Index := 16#32
  ![v93.toNat, v94.toNat, 16]
def k3_off11 (k3_t1 : Fin k3_t1_loop.trips) (k3_t2 : Fin k3_t2_loop.trips) : Fin 3 → Nat :=
  let c0_i32_12 : BitVec 32 := 0#32
  let c1_i32_13 : BitVec 32 := 1#32
  let arg10 : BitVec 32 := Scf.iv c0_i32_12 c1_i32_13 k3_t1
  let c2_i32_31 : BitVec 32 := 2#32
  let v54 : BitVec 32 := Scalar.remsi arg10 c2_i32_31
  let v97 : Index := Scalar.indexCast v54
  let c0_i32_43 : BitVec 32 := 0#32
  let c1_i32_45 : BitVec 32 := 1#32
  let arg11 : BitVec 32 := Scf.iv c0_i32_43 c1_i32_45 k3_t2
  let v98 : Index := Scalar.indexCast arg11
  let c16_55 : Index := 16#32
  ![v97.toNat, v98.toNat, 16]
def k3_off12 (k3_t1 : Fin k3_t1_loop.trips) : Fin 3 → Nat :=
  let c0_i32_12 : BitVec 32 := 0#32
  let c1_i32_13 : BitVec 32 := 1#32
  let arg10 : BitVec 32 := Scf.iv c0_i32_12 c1_i32_13 k3_t1
  let c2_i32_31 : BitVec 32 := 2#32
  let v54 : BitVec 32 := Scalar.remsi arg10 c2_i32_31
  let c0_i32_48 : BitVec 32 := 0#32
  let c0_i32_49 : BitVec 32 := 0#32
  ![v54.toNat, 0, 0]
def k3_off13 (i : grid3.Coords) (k3_t1 : Fin k3_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c2048_i32_10 : BitVec 32 := 2048#32
  let v30 : BitVec 32 := Scalar.muli v29 c2048_i32_10
  let c0_i32_12 : BitVec 32 := 0#32
  let c1_i32_13 : BitVec 32 := 1#32
  let arg10 : BitVec 32 := Scf.iv c0_i32_12 c1_i32_13 k3_t1
  let c128_i32_47 : BitVec 32 := 128#32
  let v72 : BitVec 32 := Scalar.muli arg10 c128_i32_47
  let v73 : BitVec 32 := Scalar.addi v30 v72
  let c0_i32_50 : BitVec 32 := 0#32
  ![v19.toNat, v73.toNat, 0]
def k3_off14 (i : grid3.Coords) (c1792_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c2048_i32_10 : BitVec 32 := 2048#32
  let v30 : BitVec 32 := Scalar.muli v29 c2048_i32_10
  let v32 : BitVec 32 := Scalar.addi v30 c1792_i32
  let c0_i32_19 : BitVec 32 := 0#32
  ![v19.toNat, v32.toNat, 0]
abbrev grid4 : Pipeline.Grid := ⟨3, ![1, 2, 5], ![false, false, false]⟩

def cc4_transform_0 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc4_transform_3 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat, arg1.toNat]

abbrev stage4_0 : Fin 2 → Memref sig .tc .vmem S1x8192x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true, false]

abbrev stage4_1 : Fin 2 → Memref sig .tc .vmem S200x32 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, false, true]

abbrev stage4_2 : Fin 2 → Memref sig .tc .vmem S200x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, false, true]

abbrev stage4_3 : Fin 2 → Memref sig .tc .vmem S1x200x8192 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true, true]

abbrev grid5 : Pipeline.Grid := ⟨3, ![1, 2, 5], ![false, false, false]⟩

def cc5_transform_0 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc5_transform_4 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg0 c1_i32
  let c0_i32 : BitVec 32 := 0#32
  ![v0.toNat, arg2.toNat, arg1.toNat]

abbrev stage5_0 : Fin 2 → Memref sig .tc .vmem S1x8192x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true, false]

abbrev stage5_1 : Fin 2 → Memref sig .tc .vmem S200x32 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, false, true]

abbrev stage5_2 : Fin 2 → Memref sig .tc .vmem S200x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![false, false, true]

abbrev stage5_3 : Fin 2 → Memref sig .tc .vmem S1x200x8192 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true, true]

abbrev grid6 : Pipeline.Grid := ⟨3, ![2, 2, 5], ![false, false, false]⟩

def cc6_transform_0 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc6_transform_4 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg0 c2_i32
  let c0_i32 : BitVec 32 := 0#32
  ![v0.toNat, arg2.toNat, arg1.toNat]

abbrev stage6_0 : Fin 2 → Memref sig .tc .vmem S1x8192x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true, false]

abbrev stage6_1 : Fin 2 → Memref sig .tc .vmem S200x32 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, false, true]

abbrev stage6_2 : Fin 2 → Memref sig .tc .vmem S200x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![false, false, true]

abbrev stage6_3 : Fin 2 → Memref sig .tc .vmem S1x200x8192 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true, true]

abbrev grid7 : Pipeline.Grid := ⟨3, ![4, 2, 5], ![false, false, false]⟩

def cc7_transform_0 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc7_transform_4 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg0 c4_i32
  let c0_i32 : BitVec 32 := 0#32
  ![v0.toNat, arg2.toNat, arg1.toNat]

abbrev stage7_0 : Fin 2 → Memref sig .tc .vmem S1x8192x32 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true, false]

abbrev stage7_1 : Fin 2 → Memref sig .tc .vmem S200x32 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, false, true]

abbrev stage7_2 : Fin 2 → Memref sig .tc .vmem S200x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![false, false, true]

abbrev stage7_3 : Fin 2 → Memref sig .tc .vmem S1x200x8192 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true, true]

abbrev scKind : Fin 4 → Kind := fun | 0 => .scVector | 1 => .scVector | 2 => .scVector | 3 => .scVector | ⟨_ + 4, h⟩ => absurd h (Nat.not_lt.2 (Nat.le_add_left _ _))
abbrev scNCore : Fin 4 → Nat := fun | 0 => 2 | 1 => 2 | 2 => 2 | 3 => 2 | ⟨_ + 4, h⟩ => absurd h (Nat.not_lt.2 (Nat.le_add_left _ _))
abbrev scNSub : Fin 4 → Nat := fun | 0 => 16 | 1 => 16 | 2 => 16 | 3 => 16 | ⟨_ + 4, h⟩ => absurd h (Nat.not_lt.2 (Nat.le_add_left _ _))

class Facts₀ : Prop where
  pads_S1000x32_S1000x128_000_0960 : S1000x32.Pads (![0, 0] : Fin 2 → Nat) ![0, 96] ![0, 0] S1000x128
  h_S_ : 0 < S_.numel
  transposes_S32x1000_S1000x32_1_0 : S32x1000.Transposes [1, 0] S1000x32
  shapeCasts_S1000_S1000x1 : S1000.ShapeCasts S1000x1
  transposes_S16384x8_S8x16384_1_0 : S16384x8.Transposes [1, 0] S8x16384
  shapeCasts_S8x16384_S131072 : S8x16384.ShapeCasts S131072
  slices_S131072_S16384_0 : S131072.Slices ![0] S16384
  squeezes_S1x128x32_S128x32 : S1x128x32.Squeezes S128x32
  squeezes_S1_S_ : S1.Squeezes S_
  squeezes_S1x128x128_S128x128 : S1x128x128.Squeezes S128x128
  inb_S1000x128_S1000x128_0_0 : ∀ a, (![0, 0] : Fin 2 → Nat) a + S1000x128.size a ≤ S1000x128.size a
  gathers_S1000x128_S128x128 : S1000x128.Gathers 0 S128x128
  h_S1x1x16 : 0 < S1x1x16.numel
  shapeCasts_S1x1x16_S16 : S1x1x16.ShapeCasts S16
  shapeCasts_S16_S1x1x16 : S16.ShapeCasts S1x1x16
  inb_S2x128x32_S1x128x32_0_0_0 : ∀ a, (![0, 0, 0] : Fin 3 → Nat) a + S1x128x32.size a ≤ S2x128x32.size a
  inb_S2_S1_0 : ∀ a, (![0] : Fin 1 → Nat) a + S1.size a ≤ S2.size a
  inb_S2x128x32_S1x128x32_1_0_0 : ∀ a, (![1, 0, 0] : Fin 3 → Nat) a + S1x128x32.size a ≤ S2x128x32.size a
  inb_S2_S1_1 : ∀ a, (![1] : Fin 1 → Nat) a + S1.size a ≤ S2.size a
  slices_S131072_S16384_16384 : S131072.Slices ![16384] S16384
  slices_S131072_S32768_32768 : S131072.Slices ![32768] S32768
  slices_S131072_S65536_65536 : S131072.Slices ![65536] S65536
  inb_S200x32_S200x32_0_0 : ∀ a, (![0, 0] : Fin 2 → Nat) a + S200x32.size a ≤ S200x32.size a
  h_S200x32 : 0 < S200x32.numel
  shapeCasts_S200x32_S200x32 : S200x32.ShapeCasts S200x32
  inb_S1x8192x32_S1x8192x32_0_0_0 : ∀ a, (![0, 0, 0] : Fin 3 → Nat) a + S1x8192x32.size a ≤ S1x8192x32.size a
  h_S1x8192x32 : 0 < S1x8192x32.numel
  shapeCasts_S1x8192x32_S8192x32 : S1x8192x32.ShapeCasts S8192x32
  inb_S200x1_S200x1_0_0 : ∀ a, (![0, 0] : Fin 2 → Nat) a + S200x1.size a ≤ S200x1.size a
  h_S200x1 : 0 < S200x1.numel
  shapeCasts_S200x1_S200x1 : S200x1.ShapeCasts S200x1
  broadcasts_S200x1_S200x8192 : S200x1.Broadcasts S200x8192
  shapeCasts_S200x8192_S1x200x8192 : S200x8192.ShapeCasts S1x200x8192
  inb_S1x200x8192_S1x200x8192_0_0_0 : ∀ a, (![0, 0, 0] : Fin 3 → Nat) a + S1x200x8192.size a ≤ S1x200x8192.size a
  h_S1x200x8192 : 0 < S1x200x8192.numel
  transposes_S8x1000x16384_S16384x8x1000_2_0_1 : S8x1000x16384.Transposes [2, 0, 1] S16384x8x1000
  dot_S200x32_S8192x32_S200x8192_1_1_0_0_n_n_wf : DotDims.WF S200x32 S8192x32 S200x8192 [1] [1] [0] [0] [] []
  hcc0_scratch3 : 0 + S2.numel ≤ 52
  hcc0_scratch4 : 2 + S2.numel ≤ 52
  hcc0_scoped0 : 4 + S_.numel ≤ 52
  hcc1_scratch3 : 5 + S2.numel ≤ 52
  hcc1_scratch4 : 7 + S2.numel ≤ 52
  hcc1_scoped0 : 9 + S_.numel ≤ 52
  hcc2_scratch3 : 10 + S2.numel ≤ 52
  hcc2_scratch4 : 12 + S2.numel ≤ 52
  hcc2_scoped0 : 14 + S_.numel ≤ 52
  hcc3_scratch3 : 15 + S2.numel ≤ 52
  hcc3_scratch4 : 17 + S2.numel ≤ 52
  hcc3_scoped0 : 19 + S_.numel ≤ 52
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S512.size a ≤ S16384.size a
  k0_t1_ok : k0_t1_loop.OK
  k0_off2_inb : ∀ k0_t1 : Fin k0_t1_loop.trips, ∀ (k0_h1 : k0_cond1 k0_t1 = 1#1), ∀ a, (k0_off2 k0_t1) a + S1x128x32.size a ≤ S2x128x32.size a
  k0_off3_inb : ∀ (i : grid0.Coords) (k0_t1 : Fin k0_t1_loop.trips), ∀ (k0_h1 : k0_cond1 k0_t1 = 1#1), ∀ a, (k0_off3 i k0_t1) a + S1x128x32.size a ≤ S1x16384x32.size a
  k0_off4_inb : ∀ k0_t1 : Fin k0_t1_loop.trips, ∀ (k0_h1 : k0_cond1 k0_t1 = 1#1), ∀ a, (k0_off4 k0_t1) a + S1.size a ≤ S2.size a
  k0_off5_inb : ∀ k0_t1 : Fin k0_t1_loop.trips, ∀ a, (k0_off5 k0_t1) a + S1x128x128.size a ≤ S2x128x128.size a
  k0_off6_inb : ∀ k0_t1 : Fin k0_t1_loop.trips, ∀ a, (k0_off6 k0_t1) a + S128.size a ≤ S512.size a
  k0_off7_inb : ∀ k0_t1 : Fin k0_t1_loop.trips, ∀ a, (k0_off7 k0_t1) a + S1.size a ≤ S2.size a
  k0_t2_ok : k0_t2_loop.OK
  k0_off8_inb : ∀ (k0_t1 : Fin k0_t1_loop.trips) (k0_t2 : Fin k0_t2_loop.trips), ∀ a, (k0_off8 k0_t1 k0_t2) a + S1x1x16.size a ≤ S2x128x128.size a
  k0_off9_inb : ∀ (k0_t1 : Fin k0_t1_loop.trips) (k0_t2 : Fin k0_t2_loop.trips), ∀ a, (k0_off9 k0_t1 k0_t2) a + S1x1x16.size a ≤ S2x128x32.size a
  k0_off10_inb : ∀ (k0_t1 : Fin k0_t1_loop.trips) (k0_t2 : Fin k0_t2_loop.trips), ∀ a, (k0_off10 k0_t1 k0_t2) a + S1x1x16.size a ≤ S2x128x128.size a
  k0_off11_inb : ∀ (k0_t1 : Fin k0_t1_loop.trips) (k0_t2 : Fin k0_t2_loop.trips), ∀ a, (k0_off11 k0_t1 k0_t2) a + S1x1x16.size a ≤ S2x128x32.size a
  k0_off12_inb : ∀ k0_t1 : Fin k0_t1_loop.trips, ∀ a, (k0_off12 k0_t1) a + S1x128x32.size a ≤ S2x128x32.size a
  k0_off13_inb : ∀ (i : grid0.Coords) (k0_t1 : Fin k0_t1_loop.trips), ∀ a, (k0_off13 i k0_t1) a + S1x128x32.size a ≤ S1x16384x32.size a
  k0_off14_inb : ∀ i : grid0.Coords, ∀ (r : Fin 2), ∀ a, (k0_off14 i (BitVec.ofNat 32 (256 + 128 * r.val))) a + S1x128x32.size a ≤ S1x16384x32.size a
  hcore1 : grid1.bound 0 ≤ τ.nSC
  hsub1 : grid1.bound 1 ≤ τ.nSub
  k1_off1_inb : ∀ i : grid1.Coords, ∀ a, (k1_off1 i) a + S512.size a ≤ S16384.size a
  k1_t1_ok : k1_t1_loop.OK
  k1_off2_inb : ∀ k1_t1 : Fin k1_t1_loop.trips, ∀ (k1_h1 : k1_cond1 k1_t1 = 1#1), ∀ a, (k1_off2 k1_t1) a + S1x128x32.size a ≤ S2x128x32.size a
  k1_off3_inb : ∀ (i : grid1.Coords) (k1_t1 : Fin k1_t1_loop.trips), ∀ (k1_h1 : k1_cond1 k1_t1 = 1#1), ∀ a, (k1_off3 i k1_t1) a + S1x128x32.size a ≤ S1x16384x32.size a
  k1_off4_inb : ∀ k1_t1 : Fin k1_t1_loop.trips, ∀ (k1_h1 : k1_cond1 k1_t1 = 1#1), ∀ a, (k1_off4 k1_t1) a + S1.size a ≤ S2.size a
  k1_off5_inb : ∀ k1_t1 : Fin k1_t1_loop.trips, ∀ a, (k1_off5 k1_t1) a + S1x128x128.size a ≤ S2x128x128.size a
  k1_off6_inb : ∀ k1_t1 : Fin k1_t1_loop.trips, ∀ a, (k1_off6 k1_t1) a + S128.size a ≤ S512.size a
  k1_off7_inb : ∀ k1_t1 : Fin k1_t1_loop.trips, ∀ a, (k1_off7 k1_t1) a + S1.size a ≤ S2.size a
  k1_t2_ok : k1_t2_loop.OK
  k1_off8_inb : ∀ (k1_t1 : Fin k1_t1_loop.trips) (k1_t2 : Fin k1_t2_loop.trips), ∀ a, (k1_off8 k1_t1 k1_t2) a + S1x1x16.size a ≤ S2x128x128.size a
  k1_off9_inb : ∀ (k1_t1 : Fin k1_t1_loop.trips) (k1_t2 : Fin k1_t2_loop.trips), ∀ a, (k1_off9 k1_t1 k1_t2) a + S1x1x16.size a ≤ S2x128x32.size a
  k1_off10_inb : ∀ (k1_t1 : Fin k1_t1_loop.trips) (k1_t2 : Fin k1_t2_loop.trips), ∀ a, (k1_off10 k1_t1 k1_t2) a + S1x1x16.size a ≤ S2x128x128.size a
  k1_off11_inb : ∀ (k1_t1 : Fin k1_t1_loop.trips) (k1_t2 : Fin k1_t2_loop.trips), ∀ a, (k1_off11 k1_t1 k1_t2) a + S1x1x16.size a ≤ S2x128x32.size a
  k1_off12_inb : ∀ k1_t1 : Fin k1_t1_loop.trips, ∀ a, (k1_off12 k1_t1) a + S1x128x32.size a ≤ S2x128x32.size a
  k1_off13_inb : ∀ (i : grid1.Coords) (k1_t1 : Fin k1_t1_loop.trips), ∀ a, (k1_off13 i k1_t1) a + S1x128x32.size a ≤ S1x16384x32.size a
  k1_off14_inb : ∀ i : grid1.Coords, ∀ (r : Fin 2), ∀ a, (k1_off14 i (BitVec.ofNat 32 (256 + 128 * r.val))) a + S1x128x32.size a ≤ S1x16384x32.size a
  hcore2 : grid2.bound 0 ≤ τ.nSC
  hsub2 : grid2.bound 1 ≤ τ.nSub
  k2_off1_inb : ∀ i : grid2.Coords, ∀ a, (k2_off1 i) a + S1024.size a ≤ S32768.size a
  k2_t1_ok : k2_t1_loop.OK
  k2_off2_inb : ∀ k2_t1 : Fin k2_t1_loop.trips, ∀ (k2_h1 : k2_cond1 k2_t1 = 1#1), ∀ a, (k2_off2 k2_t1) a + S1x128x32.size a ≤ S2x128x32.size a
  k2_off3_inb : ∀ (i : grid2.Coords) (k2_t1 : Fin k2_t1_loop.trips), ∀ (k2_h1 : k2_cond1 k2_t1 = 1#1), ∀ a, (k2_off3 i k2_t1) a + S1x128x32.size a ≤ S2x16384x32.size a
  k2_off4_inb : ∀ k2_t1 : Fin k2_t1_loop.trips, ∀ (k2_h1 : k2_cond1 k2_t1 = 1#1), ∀ a, (k2_off4 k2_t1) a + S1.size a ≤ S2.size a
  k2_off5_inb : ∀ k2_t1 : Fin k2_t1_loop.trips, ∀ a, (k2_off5 k2_t1) a + S1x128x128.size a ≤ S2x128x128.size a
  k2_off6_inb : ∀ k2_t1 : Fin k2_t1_loop.trips, ∀ a, (k2_off6 k2_t1) a + S128.size a ≤ S1024.size a
  k2_off7_inb : ∀ k2_t1 : Fin k2_t1_loop.trips, ∀ a, (k2_off7 k2_t1) a + S1.size a ≤ S2.size a
  k2_t2_ok : k2_t2_loop.OK
  k2_off8_inb : ∀ (k2_t1 : Fin k2_t1_loop.trips) (k2_t2 : Fin k2_t2_loop.trips), ∀ a, (k2_off8 k2_t1 k2_t2) a + S1x1x16.size a ≤ S2x128x128.size a
  k2_off9_inb : ∀ (k2_t1 : Fin k2_t1_loop.trips) (k2_t2 : Fin k2_t2_loop.trips), ∀ a, (k2_off9 k2_t1 k2_t2) a + S1x1x16.size a ≤ S2x128x32.size a
  k2_off10_inb : ∀ (k2_t1 : Fin k2_t1_loop.trips) (k2_t2 : Fin k2_t2_loop.trips), ∀ a, (k2_off10 k2_t1 k2_t2) a + S1x1x16.size a ≤ S2x128x128.size a
  k2_off11_inb : ∀ (k2_t1 : Fin k2_t1_loop.trips) (k2_t2 : Fin k2_t2_loop.trips), ∀ a, (k2_off11 k2_t1 k2_t2) a + S1x1x16.size a ≤ S2x128x32.size a
  k2_off12_inb : ∀ k2_t1 : Fin k2_t1_loop.trips, ∀ a, (k2_off12 k2_t1) a + S1x128x32.size a ≤ S2x128x32.size a
  k2_off13_inb : ∀ (i : grid2.Coords) (k2_t1 : Fin k2_t1_loop.trips), ∀ a, (k2_off13 i k2_t1) a + S1x128x32.size a ≤ S2x16384x32.size a
  k2_off14_inb : ∀ i : grid2.Coords, ∀ (r : Fin 2), ∀ a, (k2_off14 i (BitVec.ofNat 32 (768 + 128 * r.val))) a + S1x128x32.size a ≤ S2x16384x32.size a
  hcore3 : grid3.bound 0 ≤ τ.nSC
  hsub3 : grid3.bound 1 ≤ τ.nSub
  k3_off1_inb : ∀ i : grid3.Coords, ∀ a, (k3_off1 i) a + S2048.size a ≤ S65536.size a
  k3_t1_ok : k3_t1_loop.OK
  k3_off2_inb : ∀ k3_t1 : Fin k3_t1_loop.trips, ∀ (k3_h1 : k3_cond1 k3_t1 = 1#1), ∀ a, (k3_off2 k3_t1) a + S1x128x32.size a ≤ S2x128x32.size a
  k3_off3_inb : ∀ (i : grid3.Coords) (k3_t1 : Fin k3_t1_loop.trips), ∀ (k3_h1 : k3_cond1 k3_t1 = 1#1), ∀ a, (k3_off3 i k3_t1) a + S1x128x32.size a ≤ S4x16384x32.size a
  k3_off4_inb : ∀ k3_t1 : Fin k3_t1_loop.trips, ∀ (k3_h1 : k3_cond1 k3_t1 = 1#1), ∀ a, (k3_off4 k3_t1) a + S1.size a ≤ S2.size a
  k3_off5_inb : ∀ k3_t1 : Fin k3_t1_loop.trips, ∀ a, (k3_off5 k3_t1) a + S1x128x128.size a ≤ S2x128x128.size a
  k3_off6_inb : ∀ k3_t1 : Fin k3_t1_loop.trips, ∀ a, (k3_off6 k3_t1) a + S128.size a ≤ S2048.size a
  k3_off7_inb : ∀ k3_t1 : Fin k3_t1_loop.trips, ∀ a, (k3_off7 k3_t1) a + S1.size a ≤ S2.size a
  k3_t2_ok : k3_t2_loop.OK
  k3_off8_inb : ∀ (k3_t1 : Fin k3_t1_loop.trips) (k3_t2 : Fin k3_t2_loop.trips), ∀ a, (k3_off8 k3_t1 k3_t2) a + S1x1x16.size a ≤ S2x128x128.size a
  k3_off9_inb : ∀ (k3_t1 : Fin k3_t1_loop.trips) (k3_t2 : Fin k3_t2_loop.trips), ∀ a, (k3_off9 k3_t1 k3_t2) a + S1x1x16.size a ≤ S2x128x32.size a
  k3_off10_inb : ∀ (k3_t1 : Fin k3_t1_loop.trips) (k3_t2 : Fin k3_t2_loop.trips), ∀ a, (k3_off10 k3_t1 k3_t2) a + S1x1x16.size a ≤ S2x128x128.size a
  k3_off11_inb : ∀ (k3_t1 : Fin k3_t1_loop.trips) (k3_t2 : Fin k3_t2_loop.trips), ∀ a, (k3_off11 k3_t1 k3_t2) a + S1x1x16.size a ≤ S2x128x32.size a
  k3_off12_inb : ∀ k3_t1 : Fin k3_t1_loop.trips, ∀ a, (k3_off12 k3_t1) a + S1x128x32.size a ≤ S2x128x32.size a
  k3_off13_inb : ∀ (i : grid3.Coords) (k3_t1 : Fin k3_t1_loop.trips), ∀ a, (k3_off13 i k3_t1) a + S1x128x32.size a ≤ S4x16384x32.size a
  k3_off14_inb : ∀ i : grid3.Coords, ∀ (r : Fin 2), ∀ a, (k3_off14 i (BitVec.ofNat 32 (1792 + 128 * r.val))) a + S1x128x32.size a ≤ S4x16384x32.size a
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x8192x32.size a ≤ S1x16384x32.size a
  hwx4_0 : ∀ i : grid4.Coords, EltTy.bits .f32 = 32 ∨ (Rect.block (s := S1x16384x32) S1x8192x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S200x32.size a ≤ S1000x32.size a
  hwx4_1 : ∀ i : grid4.Coords, EltTy.bits .f32 = 32 ∨ (Rect.block (s := S1000x32) S200x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S200x1.size a ≤ S1000x1.size a
  hwx4_2 : ∀ i : grid4.Coords, EltTy.bits .f32 = 32 ∨ (Rect.block (s := S1000x1) S200x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1x200x8192.size a ≤ S8x1000x16384.size a
  hwx4_3 : ∀ i : grid4.Coords, EltTy.bits .f32 = 32 ∨ (Rect.block (s := S8x1000x16384) S1x200x8192.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1x8192x32.size a ≤ S1x16384x32.size a
  hwx5_0 : ∀ i : grid5.Coords, EltTy.bits .f32 = 32 ∨ (Rect.block (s := S1x16384x32) S1x8192x32.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S200x32.size a ≤ S1000x32.size a
  hwx5_1 : ∀ i : grid5.Coords, EltTy.bits .f32 = 32 ∨ (Rect.block (s := S1000x32) S200x32.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S200x1.size a ≤ S1000x1.size a
  hwx5_2 : ∀ i : grid5.Coords, EltTy.bits .f32 = 32 ∨ (Rect.block (s := S1000x1) S200x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_4 i = cc5_transform_4 i'
  hinb5_3 : ∀ (i : grid5.Coords) a, (cc5_transform_4 i a + 1) * S1x200x8192.size a ≤ S8x1000x16384.size a
  hwx5_3 : ∀ i : grid5.Coords, EltTy.bits .f32 = 32 ∨ (Rect.block (s := S8x1000x16384) S1x200x8192.size (cc5_transform_4 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1x8192x32.size a ≤ S2x16384x32.size a
  hwx6_0 : ∀ i : grid6.Coords, EltTy.bits .f32 = 32 ∨ (Rect.block (s := S2x16384x32) S1x8192x32.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S200x32.size a ≤ S1000x32.size a
  hwx6_1 : ∀ i : grid6.Coords, EltTy.bits .f32 = 32 ∨ (Rect.block (s := S1000x32) S200x32.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S200x1.size a ≤ S1000x1.size a
  hwx6_2 : ∀ i : grid6.Coords, EltTy.bits .f32 = 32 ∨ (Rect.block (s := S1000x1) S200x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_4 i = cc6_transform_4 i'
  hinb6_3 : ∀ (i : grid6.Coords) a, (cc6_transform_4 i a + 1) * S1x200x8192.size a ≤ S8x1000x16384.size a
  hwx6_3 : ∀ i : grid6.Coords, EltTy.bits .f32 = 32 ∨ (Rect.block (s := S8x1000x16384) S1x200x8192.size (cc6_transform_4 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1x8192x32.size a ≤ S4x16384x32.size a
  hwx7_0 : ∀ i : grid7.Coords, EltTy.bits .f32 = 32 ∨ (Rect.block (s := S4x16384x32) S1x8192x32.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S200x32.size a ≤ S1000x32.size a
  hwx7_1 : ∀ i : grid7.Coords, EltTy.bits .f32 = 32 ∨ (Rect.block (s := S1000x32) S200x32.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S200x1.size a ≤ S1000x1.size a
  hwx7_2 : ∀ i : grid7.Coords, EltTy.bits .f32 = 32 ∨ (Rect.block (s := S1000x1) S200x1.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_4 i = cc7_transform_4 i'
  hinb7_3 : ∀ (i : grid7.Coords) a, (cc7_transform_4 i a + 1) * S1x200x8192.size a ≤ S8x1000x16384.size a
  hwx7_3 : ∀ i : grid7.Coords, EltTy.bits .f32 = 32 ∨ (Rect.block (s := S8x1000x16384) S1x200x8192.size (cc7_transform_4 i) (hinb7_3 i)).WholeWords (EltTy.packing .f32)

variable [Facts₀]

abbrev cc0_scratch3 : DmaSems sig S2 := SemArray.consecutive 0 S2 hcc0_scratch3
abbrev cc0_scratch4 : DmaSems sig S2 := SemArray.consecutive 2 S2 hcc0_scratch4
abbrev cc0_scoped0 : DmaSems sig S_ := SemArray.consecutive 4 S_ hcc0_scoped0
abbrev cc1_scratch3 : DmaSems sig S2 := SemArray.consecutive 5 S2 hcc1_scratch3
abbrev cc1_scratch4 : DmaSems sig S2 := SemArray.consecutive 7 S2 hcc1_scratch4
abbrev cc1_scoped0 : DmaSems sig S_ := SemArray.consecutive 9 S_ hcc1_scoped0
abbrev cc2_scratch3 : DmaSems sig S2 := SemArray.consecutive 10 S2 hcc2_scratch3
abbrev cc2_scratch4 : DmaSems sig S2 := SemArray.consecutive 12 S2 hcc2_scratch4
abbrev cc2_scoped0 : DmaSems sig S_ := SemArray.consecutive 14 S_ hcc2_scoped0
abbrev cc3_scratch3 : DmaSems sig S2 := SemArray.consecutive 15 S2 hcc3_scratch3
abbrev cc3_scratch4 : DmaSems sig S2 := SemArray.consecutive 17 S2 hcc3_scratch4
abbrev cc3_scoped0 : DmaSems sig S_ := SemArray.consecutive 19 S_ hcc3_scoped0
def dot_S200x32_S8192x32_S200x8192_1_1_0_0_n_n : DotDims S200x32 S8192x32 S200x8192 where
  lhsContracting := [1]
  rhsContracting := [1]
  lhsNonContracting := [0]
  rhsNonContracting := [0]
  lhsBatch := []
  rhsBatch := []
  wf := dot_S200x32_S8192x32_S200x8192_1_1_0_0_n_n_wf

abbrev win4_0 : Pipeline.Window sig grid4 :=
  Pipeline.Window.ofSpec (Memref.whole main_v6) S1x8192x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v1) S200x32.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v2) S200x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v13) S1x200x8192.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v8) S1x8192x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v1) S200x32.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v2) S200x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v14) S1x200x8192.size cc5_transform_4 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v10) S1x8192x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v1) S200x32.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v2) S200x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v15) S1x200x8192.size cc6_transform_4 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v12) S1x8192x32.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v1) S200x32.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v2) S200x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v16) S1x200x8192.size cc7_transform_4 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S16384x8 : Shape := ⟨2, ![16384, 8]⟩
abbrev S1000x32 : Shape := ⟨2, ![1000, 32]⟩
abbrev S8x32 : Shape := ⟨2, ![8, 32]⟩
abbrev S32x1000 : Shape := ⟨2, ![32, 1000]⟩
abbrev S1000 : Shape := ⟨1, ![1000]⟩
abbrev S_ : Shape := ⟨0, ![]⟩
abbrev S16384x8x1 : Shape := ⟨3, ![16384, 8, 1]⟩
abbrev S1 : Shape := ⟨1, ![1]⟩
abbrev S1x1x1 : Shape := ⟨3, ![1, 1, 1]⟩
abbrev S16384x8x32 : Shape := ⟨3, ![16384, 8, 32]⟩
abbrev S8 : Shape := ⟨1, ![8]⟩
abbrev S8x1 : Shape := ⟨2, ![8, 1]⟩
abbrev S1x1 : Shape := ⟨2, ![1, 1]⟩
abbrev S1x8x32 : Shape := ⟨3, ![1, 8, 32]⟩
abbrev S16384x8x1000 : Shape := ⟨3, ![16384, 8, 1000]⟩
abbrev S1x1x1000 : Shape := ⟨3, ![1, 1, 1000]⟩

abbrev nBuf : Space → Nat
  | .hbm => 59
  | .vmem => 0
  | .smem => 0
  | _ => 0

abbrev bufTy : (tb : Table) → Fin (tcTables nBuf tb) → BufTy
  | .hbm, ⟨0, _⟩ => ⟨S16384x8, .i32⟩
  | .hbm, ⟨1, _⟩ => ⟨S1000x32, .f32⟩
  | .hbm, ⟨2, _⟩ => ⟨S8x32, .f32⟩
  | .hbm, ⟨3, _⟩ => ⟨S32x1000, .f32⟩
  | .hbm, ⟨4, _⟩ => ⟨S1000, .f32⟩
  | .hbm, ⟨5, _⟩ => ⟨S_, .i32⟩
  | .hbm, ⟨6, _⟩ => ⟨S16384x8, .i32⟩
  | .hbm, ⟨7, _⟩ => ⟨S16384x8, .i1⟩
  | .hbm, ⟨8, _⟩ => ⟨S_, .i32⟩
  | .hbm, ⟨9, _⟩ => ⟨S16384x8, .i32⟩
  | .hbm, ⟨10, _⟩ => ⟨S16384x8, .i32⟩
  | .hbm, ⟨11, _⟩ => ⟨S16384x8, .i32⟩
  | .hbm, ⟨12, _⟩ => ⟨S16384x8x1, .i32⟩
  | .hbm, ⟨13, _⟩ => ⟨S1, .i32⟩
  | .hbm, ⟨14, _⟩ => ⟨S_, .i32⟩
  | .hbm, ⟨15, _⟩ => ⟨S16384x8x1, .i32⟩
  | .hbm, ⟨16, _⟩ => ⟨S16384x8x1, .i1⟩
  | .hbm, ⟨17, _⟩ => ⟨S1x1x1, .i32⟩
  | .hbm, ⟨18, _⟩ => ⟨S16384x8x1, .i32⟩
  | .hbm, ⟨19, _⟩ => ⟨S16384x8x1, .i1⟩
  | .hbm, ⟨20, _⟩ => ⟨S16384x8x1, .i1⟩
  | .hbm, ⟨21, _⟩ => ⟨S_, .i1⟩
  | .hbm, ⟨22, _⟩ => ⟨S16384x8, .i1⟩
  | .hbm, ⟨23, _⟩ => ⟨S16384x8x32, .f32⟩
  | .hbm, ⟨24, _⟩ => ⟨S16384x8x32, .i1⟩
  | .hbm, ⟨25, _⟩ => ⟨S_, .f32⟩
  | .hbm, ⟨26, _⟩ => ⟨S16384x8x32, .f32⟩
  | .hbm, ⟨27, _⟩ => ⟨S16384x8x32, .f32⟩
  | .hbm, ⟨28, _⟩ => ⟨S8, .i32⟩
  | .hbm, ⟨29, _⟩ => ⟨S_, .i32⟩
  | .hbm, ⟨30, _⟩ => ⟨S8, .i32⟩
  | .hbm, ⟨31, _⟩ => ⟨S8, .i1⟩
  | .hbm, ⟨32, _⟩ => ⟨S_, .i32⟩
  | .hbm, ⟨33, _⟩ => ⟨S8, .i32⟩
  | .hbm, ⟨34, _⟩ => ⟨S8, .i32⟩
  | .hbm, ⟨35, _⟩ => ⟨S8, .i32⟩
  | .hbm, ⟨36, _⟩ => ⟨S8x1, .i32⟩
  | .hbm, ⟨37, _⟩ => ⟨S1, .i32⟩
  | .hbm, ⟨38, _⟩ => ⟨S_, .i32⟩
  | .hbm, ⟨39, _⟩ => ⟨S8x1, .i32⟩
  | .hbm, ⟨40, _⟩ => ⟨S8x1, .i1⟩
  | .hbm, ⟨41, _⟩ => ⟨S1x1, .i32⟩
  | .hbm, ⟨42, _⟩ => ⟨S8x1, .i32⟩
  | .hbm, ⟨43, _⟩ => ⟨S8x1, .i1⟩
  | .hbm, ⟨44, _⟩ => ⟨S8x1, .i1⟩
  | .hbm, ⟨45, _⟩ => ⟨S_, .i1⟩
  | .hbm, ⟨46, _⟩ => ⟨S8, .i1⟩
  | .hbm, ⟨47, _⟩ => ⟨S8x32, .f32⟩
  | .hbm, ⟨48, _⟩ => ⟨S8x32, .i1⟩
  | .hbm, ⟨49, _⟩ => ⟨S_, .f32⟩
  | .hbm, ⟨50, _⟩ => ⟨S8x32, .f32⟩
  | .hbm, ⟨51, _⟩ => ⟨S8x32, .f32⟩
  | .hbm, ⟨52, _⟩ => ⟨S1x8x32, .f32⟩
  | .hbm, ⟨53, _⟩ => ⟨S16384x8x32, .f32⟩
  | .hbm, ⟨54, _⟩ => ⟨S16384x8x32, .f32⟩
  | .hbm, ⟨55, _⟩ => ⟨S16384x8x1000, .f32⟩
  | .hbm, ⟨56, _⟩ => ⟨S1x1x1000, .f32⟩
  | .hbm, ⟨57, _⟩ => ⟨S16384x8x1000, .f32⟩
  | .hbm, ⟨58, _⟩ => ⟨S16384x8x1000, .f32⟩
  | _, _ => ⟨S16384x8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_v1 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v2 : Ref sig .tc := ⟨.hbm, 51, rfl⟩
abbrev main_v3 : Ref sig .tc := ⟨.hbm, 52, rfl⟩
abbrev main_v4 : Ref sig .tc := ⟨.hbm, 53, rfl⟩
abbrev main_v5 : Ref sig .tc := ⟨.hbm, 54, rfl⟩
abbrev main_v6 : Ref sig .tc := ⟨.hbm, 55, rfl⟩
abbrev main_v7 : Ref sig .tc := ⟨.hbm, 56, rfl⟩
abbrev main_v8 : Ref sig .tc := ⟨.hbm, 57, rfl⟩
abbrev main_v9 : Ref sig .tc := ⟨.hbm, 58, rfl⟩

abbrev nD : Nat := 1
abbrev τ : Topo := Topo.v7x

variable {F : FTy → Type} [FloatOps F]

class Facts₀ : Prop where
  bcast_S_S16384x8 : S_.BroadcastsInDim S16384x8 (![] : Fin 0 → Fin S16384x8.rank)
  bcast_S16384x8_S16384x8x1_0_1 : S16384x8.BroadcastsInDim S16384x8x1 (![0, 1] : Fin 2 → Fin S16384x8x1.rank)
  bcast_S_S16384x8x1 : S_.BroadcastsInDim S16384x8x1 (![] : Fin 0 → Fin S16384x8x1.rank)
  bcast_S1_S1x1x1_2 : S1.BroadcastsInDim S1x1x1 (![2] : Fin 1 → Fin S1x1x1.rank)
  bcast_S1x1x1_S16384x8x1_0_1_2 : S1x1x1.BroadcastsInDim S16384x8x1 (![0, 1, 2] : Fin 3 → Fin S16384x8x1.rank)
  reducesTo_S16384x8x1_S16384x8_d2 : S16384x8x1.ReducesTo [2] S16384x8
  h_S_ : 0 < S_.numel
  bcast_S16384x8_S16384x8x32_0_1 : S16384x8.BroadcastsInDim S16384x8x32 (![0, 1] : Fin 2 → Fin S16384x8x32.rank)
  bcast_S_S16384x8x32 : S_.BroadcastsInDim S16384x8x32 (![] : Fin 0 → Fin S16384x8x32.rank)
  bcast_S_S8 : S_.BroadcastsInDim S8 (![] : Fin 0 → Fin S8.rank)
  bcast_S8_S8x1_0 : S8.BroadcastsInDim S8x1 (![0] : Fin 1 → Fin S8x1.rank)
  bcast_S_S8x1 : S_.BroadcastsInDim S8x1 (![] : Fin 0 → Fin S8x1.rank)
  bcast_S1_S1x1_1 : S1.BroadcastsInDim S1x1 (![1] : Fin 1 → Fin S1x1.rank)
  bcast_S1x1_S8x1_0_1 : S1x1.BroadcastsInDim S8x1 (![0, 1] : Fin 2 → Fin S8x1.rank)
  reducesTo_S8x1_S8_d1 : S8x1.ReducesTo [1] S8
  bcast_S8_S8x32_0 : S8.BroadcastsInDim S8x32 (![0] : Fin 1 → Fin S8x32.rank)
  bcast_S_S8x32 : S_.BroadcastsInDim S8x32 (![] : Fin 0 → Fin S8x32.rank)
  bcast_S8x32_S1x8x32_1_2 : S8x32.BroadcastsInDim S1x8x32 (![1, 2] : Fin 2 → Fin S1x8x32.rank)
  bcast_S1x8x32_S16384x8x32_0_1_2 : S1x8x32.BroadcastsInDim S16384x8x32 (![0, 1, 2] : Fin 3 → Fin S16384x8x32.rank)
  bcast_S1000_S1x1x1000_2 : S1000.BroadcastsInDim S1x1x1000 (![2] : Fin 1 → Fin S1x1x1000.rank)
  bcast_S1x1x1000_S16384x8x1000_0_1_2 : S1x1x1000.BroadcastsInDim S16384x8x1000 (![0, 1, 2] : Fin 3 → Fin S16384x8x1000.rank)
  gather_S1000x32_S16384x8x1_S16384x8x32_2_0_n_n_0_2_132_wf : GatherDims.WF S1000x32 S16384x8x1 S16384x8x32 [2] [0] [] [0] [] 2 ![1, 32]
  gather_S8x32_S8x1_S8x32_1_0_n_n_0_1_132_wf : GatherDims.WF S8x32 S8x1 S8x32 [1] [0] [] [0] [] 1 ![1, 32]
  dot_S16384x8x32_S32x1000_S16384x8x1000_2_0_01_1_n_n_wf : DotDims.WF S16384x8x32 S32x1000 S16384x8x1000 [2] [0] [0, 1] [1] [] []

variable [Facts₀]

def gather_S1000x32_S16384x8x1_S16384x8x32_2_0_n_n_0_2_132 : GatherDims S1000x32 S16384x8x1 S16384x8x32 where
  offsetDims := [2]
  collapsedSliceDims := [0]
  operandBatchingDims := []
  startIndicesBatchingDims := []
  startIndexMap := [0]
  indexVectorDim := 2
  sliceSizes := ![1, 32]
  wf := gather_S1000x32_S16384x8x1_S16384x8x32_2_0_n_n_0_2_132_wf
def gather_S8x32_S8x1_S8x32_1_0_n_n_0_1_132 : GatherDims S8x32 S8x1 S8x32 where
  offsetDims := [1]
  collapsedSliceDims := [0]
  operandBatchingDims := []
  startIndicesBatchingDims := []
  startIndexMap := [0]
  indexVectorDim := 1
  sliceSizes := ![1, 32]
  wf := gather_S8x32_S8x1_S8x32_1_0_n_n_0_1_132_wf
def dot_S16384x8x32_S32x1000_S16384x8x1000_2_0_01_1_n_n : DotDims S16384x8x32 S32x1000 S16384x8x1000 where
  lhsContracting := [2]
  rhsContracting := [0]
  lhsNonContracting := [0, 1]
  rhsNonContracting := [1]
  lhsBatch := []
  rhsBatch := []
  wf := dot_S16384x8x32_S32x1000_S16384x8x1000_2_0_01_1_n_n_wf

class Facts : Prop extends Facts₀ where

variable [Facts]
-- ==== Proof.RefRun.lean ====
/-
  The reference program's run, read as one straight line of host operations.

  The printed reference calls two outlined functions (the row lookup in its "fill" mode, twice: once for the token
  table and once for a position table whose sum is never used), each calling an outlined select. Executing a call
  is executing the callee's body on the operands, so the program is the list of its own operations with each
  callee's operations written in place at the call site, over that call's buffers. The run of such a list ends with
  every buffer at the fold of the operations' results; read at the result buffer the fold is the composed term
  `out` below, and at an argument buffer, which no operation writes, it is the launch contents.
-/
import proofs.«203661_g84404697301628_cont_9to1_m_135_26_alg».proof.ReferenceIdeal
import Idealize.ShloMosaic.Lib.StableHlo.Run

noncomputable section

namespace Cert.RefSide

open Cert.ReferenceIdeal Cert.ReferenceIdeal.Facts₀ Idealize.ShloMosaic Idealize.ShloMosaic.TcCoe Idealize.SL.Sem
  Idealize.ShloMosaic.StableHlo

variable {F : FTy → Type} [FloatOps F] [hReferenceIdeal : Cert.ReferenceIdeal.Facts]

/-! ## The composed term of the result -/

/-- The token words with a negative word raised by the table's 1000 rows. -/
def wrapped (idx : IVec S16384x8 32) : IVec S16384x8 32 :=
  select (cmpi .slt idx (broadcastInDim S16384x8 ![] bcast_S_S16384x8 (constantI S_ 32 0#32)))
    (addi idx (broadcastInDim S16384x8 ![] bcast_S_S16384x8 (constantI S_ 32 1000#32))) idx

/-- The same words as start indices: a trailing unit axis added. -/
def starts (idx : IVec S16384x8 32) : IVec S16384x8x1 32 :=
  broadcastInDim S16384x8x1 ![0, 1] bcast_S16384x8_S16384x8x1_0_1 (wrapped idx)

/-- Per token, whether its start index lies within the table's rows `0 … 999`. -/
def inRange (idx : IVec S16384x8 32) : IVec S16384x8 1 :=
  Host.reduce IntOp.andi
    (andi (cmpi .sge (starts idx) (broadcastInDim S16384x8x1 ![] bcast_S_S16384x8x1 (constantI S_ 32 0#32)))
      (cmpi .sle (starts idx) (broadcastInDim S16384x8x1 ![0, 1, 2] bcast_S1x1x1_S16384x8x1_0_1_2
        (broadcastInDim S1x1x1 ![2] bcast_S1_S1x1x1_2 (constantI S1 32 999#32)))))
    (constantI S_ 1 1#1) reducesTo_S16384x8x1_S16384x8_d2 h_S_

/-- The looked-up rows: the gathered row where the start index is in range, the fill word elsewhere. -/
def taken (idx : IVec S16384x8 32) (tok : FVec F S1000x32 .f32) : FVec F S16384x8x32 .f32 :=
  select (broadcastInDim S16384x8x32 ![0, 1] bcast_S16384x8_S16384x8x32_0_1 (inRange idx))
    (Host.gather gather_S1000x32_S16384x8x1_S16384x8x32_2_0_n_n_0_2_132 tok (starts idx))
    (broadcastInDim S16384x8x32 ![] bcast_S_S16384x8x32 (constant S_ .f32 0x7FC00000#32))

/-- The result: the looked-up rows contracted with the weight matrix over the embedding axis, plus the bias
    broadcast along the last axis. -/
def out (idx : IVec S16384x8 32) (tok : FVec F S1000x32 .f32) (W : FVec F S32x1000 .f32) (b : FVec F S1000 .f32) :
    FVec F S16384x8x1000 .f32 :=
  addf (Host.dotGeneral dot_S16384x8x32_S32x1000_S16384x8x1000_2_0_01_1_n_n none (taken idx tok) W)
    (broadcastInDim S16384x8x1000 ![0, 1, 2] bcast_S1x1x1000_S16384x8x1000_0_1_2
      (broadcastInDim S1x1x1000 ![2] bcast_S1000_S1x1x1000_2 b))

/-! ## The operations -/

/-- The reference's 54 operations in order: the token lookup's 23 (its select's one among them) over the first
    call's buffers, the position iota, the position lookup's 23 over the second call's buffers, then the seven
    of the program's own body. -/
abbrev ops : List (HloOp τ sig (Elt F)) :=
  [ TRef.nullary main_call0.c (constantI S_ 32 0#32),
    TRef.unary main_call0.c main_call0.v0 (broadcastInDim S16384x8 ![] bcast_S_S16384x8),
    TRef.binary (.of main_arg0) main_call0.v0 main_call0.v1 (cmpi .slt),
    TRef.nullary main_call0.c_0 (constantI S_ 32 1000#32),
    TRef.unary main_call0.c_0 main_call0.v2 (broadcastInDim S16384x8 ![] bcast_S_S16384x8),
    TRef.binary (.of main_arg0) main_call0.v2 main_call0.v3 addi,
    TRef.ternary main_call0.v1 main_call0.v3 (.of main_arg0) main_call0.call0.v0 select,
    TRef.unary main_call0.call0.v0 main_call0.v5 (broadcastInDim S16384x8x1 ![0, 1] bcast_S16384x8_S16384x8x1_0_1),
    TRef.nullary main_call0.c_1 (constantI S1 32 999#32),
    TRef.nullary main_call0.c_2 (constantI S_ 32 0#32),
    TRef.unary main_call0.c_2 main_call0.v6 (broadcastInDim S16384x8x1 ![] bcast_S_S16384x8x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S16384x8x1 ![0, 1, 2] bcast_S1x1x1_S16384x8x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x8x1_S16384x8_d2 h_S_),
    TRef.binary (.of main_arg1) main_call0.v5 main_call0.v13 (fun x i => Host.gather gather_S1000x32_S16384x8x1_S16384x8x32_2_0_n_n_0_2_132 x i),
    TRef.unary main_call0.v12 main_call0.v14 (broadcastInDim S16384x8x32 ![0, 1] bcast_S16384x8_S16384x8x32_0_1),
    TRef.nullary main_call0.cst (constant S_ .f32 0x7FC00000#32),
    TRef.unary main_call0.cst main_call0.v15 (broadcastInDim S16384x8x32 ![] bcast_S_S16384x8x32),
    TRef.ternary main_call0.v14 main_call0.v13 main_call0.v15 main_call0.v16 select,
    nullary main_v1 (iotaInDim S8 32 0),
    TRef.nullary main_call1.c (constantI S_ 32 0#32),
    TRef.unary main_call1.c main_call1.v0 (broadcastInDim S8 ![] bcast_S_S8),
    TRef.binary (.of main_v1) main_call1.v0 main_call1.v1 (cmpi .slt),
    TRef.nullary main_call1.c_0 (constantI S_ 32 8#32),
    TRef.unary main_call1.c_0 main_call1.v2 (broadcastInDim S8 ![] bcast_S_S8),
    TRef.binary (.of main_v1) main_call1.v2 main_call1.v3 addi,
    TRef.ternary main_call1.v1 main_call1.v3 (.of main_v1) main_call1.call0.v0 select,
    TRef.unary main_call1.call0.v0 main_call1.v5 (broadcastInDim S8x1 ![0] bcast_S8_S8x1_0),
    TRef.nullary main_call1.c_1 (constantI S1 32 7#32),
    TRef.nullary main_call1.c_2 (constantI S_ 32 0#32),
    TRef.unary main_call1.c_2 main_call1.v6 (broadcastInDim S8x1 ![] bcast_S_S8x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S8x1 ![0, 1] bcast_S1x1_S8x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S8x1_S8_d1 h_S_),
    TRef.binary (.of main_arg2) main_call1.v5 main_call1.v13 (fun x i => Host.gather gather_S8x32_S8x1_S8x32_1_0_n_n_0_1_132 x i),
    TRef.unary main_call1.v12 main_call1.v14 (broadcastInDim S8x32 ![0] bcast_S8_S8x32_0),
    TRef.nullary main_call1.cst (constant S_ .f32 0x7FC00000#32),
    TRef.unary main_call1.cst main_call1.v15 (broadcastInDim S8x32 ![] bcast_S_S8x32),
    TRef.ternary main_call1.v14 main_call1.v13 main_call1.v15 main_call1.v16 select,
    unary main_v2 main_v3 (broadcastInDim S1x8x32 ![1, 2] bcast_S8x32_S1x8x32_1_2 : (⟨S8x32, .f32⟩ : BufTy).Contents (Elt F) → (⟨S1x8x32, .f32⟩ : BufTy).Contents (Elt F)),
    unary main_v3 main_v4 (broadcastInDim S16384x8x32 ![0, 1, 2] bcast_S1x8x32_S16384x8x32_0_1_2 : (⟨S1x8x32, .f32⟩ : BufTy).Contents (Elt F) → (⟨S16384x8x32, .f32⟩ : BufTy).Contents (Elt F)),
    binary main_v0 main_v4 main_v5 (addf : (⟨S16384x8x32, .f32⟩ : BufTy).Contents (Elt F) → (⟨S16384x8x32, .f32⟩ : BufTy).Contents (Elt F) → (⟨S16384x8x32, .f32⟩ : BufTy).Contents (Elt F)),
    binary main_v0 main_arg3 main_v6 ((fun l r => Host.dotGeneral dot_S16384x8x32_S32x1000_S16384x8x1000_2_0_01_1_n_n none l r) : (⟨S16384x8x32, .f32⟩ : BufTy).Contents (Elt F) → (⟨S32x1000, .f32⟩ : BufTy).Contents (Elt F) → (⟨S16384x8x1000, .f32⟩ : BufTy).Contents (Elt F)),
    unary main_arg4 main_v7 (broadcastInDim S1x1x1000 ![2] bcast_S1000_S1x1x1000_2 : (⟨S1000, .f32⟩ : BufTy).Contents (Elt F) → (⟨S1x1x1000, .f32⟩ : BufTy).Contents (Elt F)),
    unary main_v7 main_v8 (broadcastInDim S16384x8x1000 ![0, 1, 2] bcast_S1x1x1000_S16384x8x1000_0_1_2 : (⟨S1x1x1000, .f32⟩ : BufTy).Contents (Elt F) → (⟨S16384x8x1000, .f32⟩ : BufTy).Contents (Elt F)),
    binary main_v6 main_v8 main_v9 (addf : (⟨S16384x8x1000, .f32⟩ : BufTy).Contents (Elt F) → (⟨S16384x8x1000, .f32⟩ : BufTy).Contents (Elt F) → (⟨S16384x8x1000, .f32⟩ : BufTy).Contents (Elt F)) ]

-- fifty-four binds re-associated: the rewrite under the chain recurses once per statement
set_option maxRecDepth 2048 in
/-- The program is that straight line: the outlined functions' definitions unfolded at their calls, both sides are
    one chain of host steps once sequencing is reassociated. -/
theorem main_eq (c : Dev nD) : main (F := F) c = seq ops := by
  simp only [main, fn_take.body, fn_where.body, fn_take_0.body, fn_where_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    nullary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    unary_bufs_sub .., unary_bufs_sub .., binary_bufs_sub .., binary_bufs_sub .., unary_bufs_sub .., unary_bufs_sub ..,
    binary_bufs_sub ..⟩

/-! ## The fold read at the result and at the arguments -/

attribute [local irreducible] Host.reduce Host.gather in
set_option maxRecDepth 8192 in
/-- The fold at the result buffer is the composed term: each operation's result at its own buffer is its function's
    value at its operands' buffers, and a typed reference's transport is the identity at a literal reference. -/
theorem out_eq (V : Valuation τ sig (Elt F)) :
    after ops V (main_v9 : DevRef τ sig)
      = out (V (main_arg0 : DevRef τ sig)) (V (main_arg1 : DevRef τ sig)) (V (main_arg3 : DevRef τ sig))
          (V (main_arg4 : DevRef τ sig)) := by
  after_results_simp
  rfl

/-- No operation writes an argument buffer. -/
theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp

/-! ## The run -/

/-- On every device, for any float values, from any memory with zero counters: every weakly fair execution of the
    reference terminates with the result buffer at the composed term of the argument arrays and the arguments
    unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v9)
          = out (m ((c.tc : Thread nD τ).loc main_arg0)) (m ((c.tc : Thread nD τ).loc main_arg1))
              (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v9).trans (out_eq _), (h c main_arg0).trans (arg0_eq _),
      (h c main_arg1).trans (arg1_eq _), (h c main_arg2).trans (arg2_eq _), (h c main_arg3).trans (arg3_eq _),
      (h c main_arg4).trans (arg4_eq _)⟩)
    (run_seq scopedRefs_eq scopedSems_eq defs main (fun _ => ops) main_eq (fun _ => ops_sub) m ρ)

end Cert.RefSide

end
-- ==== Proof.RefFrame.lean ====
/-
  The reference runs and leaves its argument arrays unchanged: its run with the result's value dropped. No
  condition on the inputs is needed, since no operation of the reference writes an argument buffer.
-/
import proofs.«203661_g84404697301628_cont_9to1_m_135_26_alg».proof.Defs
import proofs.«203661_g84404697301628_cont_9to1_m_135_26_alg».proof.Proof.RefRun

noncomputable section

namespace Cert.RefSide

open Idealize.ShloMosaic Idealize.SL.Sem

theorem frame_ri [hReferenceIdeal : Cert.ReferenceIdeal.Facts] [hPre_input_domain : Cert.Pre_input_domain.Facts] :
    Cert.frame_ReferenceIdeal :=
  fun m ρ _ => (θ_run Cert.ReferenceIdeal.defs _ _).mono (fun _ h c => (h c).2) (run (F := Ideal) m ρ)

end Cert.RefSide

end
-- ==== Proof.RefPre.lean ====
/-
  The precondition read back. It is printed as one `i1` scalar: the conjunction of "every float input is finite"
  (four reductions) with "every token word `w` has `0 ≤ w ≤ 999` read signed" (the last reduction). Stated all
  ones, its last conjunct says of each token word that both comparisons hold.
-/
import proofs.«203661_g84404697301628_cont_9to1_m_135_26_alg».proof.Pre_input_domain
import Idealize.ShloMosaic.Lib.ReduceAll
import Idealize.ShloMosaic.Lib.ValueIdx
import Idealize.ShloMosaic.PureOps.Ideal

noncomputable section

namespace Cert.RefSide

open Idealize.ShloMosaic Idealize.ShloMosaic.ValueIdx

/-- The scalar shape has one index. -/
instance : Subsingleton Cert.Pre_input_domain.S_.Idx := ⟨fun a b => funext fun d => d.elim0⟩

/-- If the printed input predicate is all ones, every token word lies in `[0, 999]` read as a signed integer. -/
theorem idx_range [hPre_input_domain : Cert.Pre_input_domain.Facts] {F : FTy → Type} [FloatOps F]
    (idx : IVec Cert.Pre_input_domain.S16384x8 32) (tok : FVec F Cert.Pre_input_domain.S1000x32 .f32)
    (pos : FVec F Cert.Pre_input_domain.S8x32 .f32) (W : FVec F Cert.Pre_input_domain.S32x1000 .f32)
    (b : FVec F Cert.Pre_input_domain.S1000 .f32)
    (h : Cert.Pre_input_domain.fn (F := F) idx tok pos W b = fun _ => 1#1) (i : Cert.Pre_input_domain.S16384x8.Idx) :
    0 ≤ (idx i).toInt ∧ (idx i).toInt ≤ 999 := by
  have h0 := congrFun h ix0
  dsimp only [Cert.Pre_input_domain.fn, Cert.Pre_input_domain.fn_part1] at h0
  have h1 := (IntOp.andi_eq_one.1 h0).2
  have h2 := Host.reduce_andi_all _ _ _ _ _ h1 i
  obtain ⟨hge, hle⟩ := IntOp.andi_eq_one.1 h2
  have hge' := IntOp.cmpi_sge.1 hge
  have hle' := IntOp.cmpi_sle.1 hle
  exact ⟨hge', hle'⟩

end Cert.RefSide

end
-- ==== Proof.RefGather.lean ====
/-
  The reference's row lookup read at an index. The gather takes whole rows of the 1000×32 table at start indices
  of shape 16384×8×1: result entry `(n, t, e)` is the table at row `r` and column `e`, where `r` is the start
  index at `(n, t, 0)` read signed and kept within the rows `0 … 999`. On the row axis the operand coordinate is
  the clamped start alone (the axis is collapsed, so there is no offset; nothing is a batching axis); on the column
  axis there is no start (the start index map names the row axis only) and the offset is the result's last coordinate.
-/
import proofs.«203661_g84404697301628_cont_9to1_m_135_26_alg».proof.ReferenceIdeal
import Idealize.ShloMosaic.Lib.ValueIdx

noncomputable section

namespace Cert.RefSide

open Cert.ReferenceIdeal Idealize.ShloMosaic Idealize.ShloMosaic.ValueIdx

variable [hReferenceIdeal : Cert.ReferenceIdeal.Facts]

local notation "gd" => gather_S1000x32_S16384x8x1_S16384x8x32_2_0_n_n_0_2_132

theorem gather_rows_apply {α : Type} {w : Nat} (tok : S1000x32.Idx → α) (st : IVec S16384x8x1 w)
    (n : Fin 16384) (t : Fin 8) (e : Fin 32) (r : Fin 1000)
    (hr : r.val = min (st (ix3 n t (0 : Fin 1))).toInt.toNat 999) :
    Host.gather gd tok st (ix3 n t e) = tok (ix2 r e) := by
  have hmem0 : (0 : Fin 2) ∈ (gd).startIndexMap := List.mem_singleton.mpr rfl
  have hnmem1 : ¬ (1 : Fin 2) ∈ (gd).startIndexMap := fun h => absurd (List.mem_singleton.1 h) (by decide)
  -- the row axis: the clamped start, no batching coordinate, no offset
  have h0 : (gd).start (ix3 n t e) st 0 + (gd).batchCoord (ix3 n t e) 0 + (gd).offCoord (ix3 n t e) 0 = r.val := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos hmem0]
    have hsi : (gd).siIdx (ix3 n t e) ⟨List.idxOf (0 : Fin 2) (gd).startIndexMap,
        List.idxOf_lt_length_iff.2 hmem0⟩ = ix3 n t (0 : Fin 1) := by
      funext b; refine Fin.ext ?_
      match b with
      | ⟨0, _⟩ => rfl
      | ⟨1, _⟩ => rfl
      | ⟨2, _⟩ => rfl
    rw [hsi]
    exact hr.symm
  -- the column axis: no start, no batching coordinate, the offset is the result's last coordinate
  have h1 : (gd).start (ix3 n t e) st 1 + (gd).batchCoord (ix3 n t e) 1 + (gd).offCoord (ix3 n t e) 1 = e.val := by
    rw [GatherDims.batchCoord_eq_zero _ _ _ List.not_mem_nil]
    have hs : (gd).start (ix3 n t e) st 1 = 0 := by
      unfold GatherDims.start
      rw [dif_neg hnmem1]
    rw [hs]
    simp only [Nat.add_zero, Nat.zero_add]
    rfl
  unfold Host.gather
  congr 1
  funext a
  refine Fin.ext ?_
  match a with
  | ⟨0, _⟩ => exact h0
  | ⟨1, _⟩ => exact h1

end Cert.RefSide

end
-- ==== Proof.Spec.lean ====
/-
  The function both programs compute, stated once over the argument arrays and literal shapes, with no program in sight.

  A token word `w` names row `w` of the 1000-row embedding table; entry `(n, t, v)` of the result is the inner
  product, over the 32 embedding coordinates `e`, of that row for the word `idx (n, t)` with column `v` of the
  weight matrix, plus the bias entry `v`:

      logits (n, t, v) = (∑ e, tok (row (idx (n, t)), e) * W (e, v)) + b v .

  The kernel forms each product as `W (e, v) * tok (…, e)` and the reference as `tok (…, e) * W (e, v)`; on the
  extended reals multiplication is commutative with no finiteness needed, so either order is this function.
-/
import Idealize.ShloMosaic.PureOps.Ideal
import Idealize.ShloMosaic.Lib.ValueIdx

noncomputable section

open scoped BigOperators

namespace Cert.Spec

open Idealize.ShloMosaic Idealize.ShloMosaic.ValueIdx

/-- The table row a token word names: the word as a natural number, kept within the table's 1000 rows (a word
    in `[0, 999]` names its own row). -/
def row (w : BitVec 32) : Fin 1000 := ⟨min w.toNat 999, by omega⟩

theorem row_val_of_le {w : BitVec 32} (h : w.toNat ≤ 999) : (row w).val = w.toNat := by
  show min w.toNat 999 = w.toNat
  omega

/-- Entry `(n, t, v)` of the result: the embedding row of token `idx (n, t)` against column `v` of `W`, plus `b v`. -/
def logits (idx : (⟨2, ![16384, 8]⟩ : Shape).Idx → BitVec 32) (tok : (⟨2, ![1000, 32]⟩ : Shape).Idx → EReal)
    (W : (⟨2, ![32, 1000]⟩ : Shape).Idx → EReal) (b : (⟨1, ![1000]⟩ : Shape).Idx → EReal) :
    (⟨3, ![16384, 8, 1000]⟩ : Shape).Idx → EReal :=
  fun j => (∑ e : Fin 32, tok (ix2 (row (idx (ix2 (j 0 : Fin 16384) (j 1 : Fin 8)))) e) * W (ix2 e (j 2 : Fin 1000)))
    + b (ix1 (j 2 : Fin 1000))

/-- The same entry with each product written weight first, as the kernel's matrix product forms it. -/
theorem logits_comm (idx : (⟨2, ![16384, 8]⟩ : Shape).Idx → BitVec 32) (tok : (⟨2, ![1000, 32]⟩ : Shape).Idx → EReal)
    (W : (⟨2, ![32, 1000]⟩ : Shape).Idx → EReal) (b : (⟨1, ![1000]⟩ : Shape).Idx → EReal)
    (j : (⟨3, ![16384, 8, 1000]⟩ : Shape).Idx) :
    logits idx tok W b j
      = (∑ e : Fin 32, W (ix2 e (j 2 : Fin 1000)) * tok (ix2 (row (idx (ix2 (j 0 : Fin 16384) (j 1 : Fin 8)))) e))
        + b (ix1 (j 2 : Fin 1000)) := by
  unfold logits
  congr 1
  exact Finset.sum_congr rfl fun e _ => mul_comm _ _

end Cert.Spec

end
-- ==== Proof.RefTaken.lean ====
/-
  The reference's row lookup under the index range, read at an index. When every token word lies in `[0, 999]`
  read signed: no word is negative, so the wrap-around select keeps the word; both range comparisons hold at every
  start index, so the reduction by `and` over the unit axis is one everywhere and the fill word is never selected;
  and the gathered row is the row the word names, its clamp into `0 … 999` being the identity. So entry
  `(n, t, e)` of the looked-up array is the table at `(row (idx (n, t)), e)`.
-/
import proofs.«203661_g84404697301628_cont_9to1_m_135_26_alg».proof.Proof.RefRun
import proofs.«203661_g84404697301628_cont_9to1_m_135_26_alg».proof.Proof.RefGather
import proofs.«203661_g84404697301628_cont_9to1_m_135_26_alg».proof.Proof.Spec
import Idealize.ShloMosaic.Lib.Pipeline.Value
import Idealize.ShloMosaic.PureOps.Reduce
import Idealize.ShloMosaic.Lib.Affine

noncomputable section

namespace Cert.RefSide

open Cert.ReferenceIdeal Cert.ReferenceIdeal.Facts₀ Idealize.ShloMosaic Idealize.ShloMosaic.ValueIdx

variable {F : FTy → Type} [FloatOps F] [hReferenceIdeal : Cert.ReferenceIdeal.Facts]

theorem toInt_zero32 : (0#32 : BitVec 32).toInt = 0 := by decide
theorem toInt_999 : (999#32 : BitVec 32).toInt = 999 := by decide

/-- A left fold by `and` from one over words that are all one is one. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_ones f l fun n hn => h n (List.mem_cons_of_mem _ hn)

/-- A word that is not negative is kept by the wrap-around select. -/
theorem wrapped_apply (idx : IVec S16384x8 32) (i : S16384x8.Idx) (h : 0 ≤ (idx i).toInt) : wrapped idx i = idx i := by
  have hc : IntOp.cmpi .slt (idx i) (0#32) = 0#1 := eq_zero_of_ne_one fun e => by
    have := IntOp.cmpi_slt.1 e
    rw [toInt_zero32] at this
    omega
  show Scalar.select (IntOp.cmpi .slt (idx i) (0#32)) _ (idx i) = idx i
  rw [hc, select_zero]

/-- The start index at `(n, t, 0)` is the wrapped word at `(n, t)`. -/
theorem starts_apply (idx : IVec S16384x8 32) (n : Fin 16384) (t : Fin 8) (u : Fin 1) :
    starts idx (ix3 n t u) = wrapped idx (ix2 n t) := by
  have hk : ∀ a : Fin S16384x8.rank, ((ix2 n t : S16384x8.Idx) a).val
      = if S16384x8.size a = 1 then 0
        else ((ix3 n t u : S16384x8x1.Idx) ((![0, 1] : Fin 2 → Fin S16384x8x1.rank) a)).val := by
    intro a
    match a with
    | ⟨0, _⟩ =>
      show n.val = if (16384 : ℕ) = 1 then 0 else n.val
      rw [if_neg (by decide)]
    | ⟨1, _⟩ =>
      show t.val = if (8 : ℕ) = 1 then 0 else t.val
      rw [if_neg (by decide)]
  unfold starts
  exact broadcastInDim_apply _ _ _ _ _ hk

/-- Under the index range the mask is one at every token. -/
theorem inRange_apply (idx : IVec S16384x8 32) (hidx : ∀ i, 0 ≤ (idx i).toInt ∧ (idx i).toInt ≤ 999) (i : S16384x8.Idx) :
    inRange idx i = 1#1 := by
  unfold inRange
  rw [Host.reduce_eq_foldl]
  refine foldl_andi_ones _ _ fun j _ => ?_
  obtain ⟨a, b, c, rfl⟩ : ∃ (a : Fin 16384) (b : Fin 8) (c : Fin 1), j = ix3 a b c := ⟨j 0, j 1, j 2, eq_ix3 j⟩
  have hs : starts idx (ix3 a b c) = idx (ix2 a b) := (starts_apply idx a b c).trans (wrapped_apply idx _ (hidx _).1)
  show IntOp.andi (IntOp.cmpi .sge (starts idx (ix3 a b c)) (0#32)) (IntOp.cmpi .sle (starts idx (ix3 a b c)) (999#32)) = 1#1
  rw [hs]
  refine IntOp.andi_eq_one.2 ⟨IntOp.cmpi_sge.2 ?_, IntOp.cmpi_sle.2 ?_⟩
  · rw [toInt_zero32]; exact (hidx _).1
  · rw [toInt_999]; exact (hidx _).2

/-- Under the index range, entry `(n, t, e)` of the looked-up array is the table at the row the token word names. -/
theorem taken_apply (idx : IVec S16384x8 32) (tok : FVec F S1000x32 .f32)
    (hidx : ∀ i, 0 ≤ (idx i).toInt ∧ (idx i).toInt ≤ 999) (n : Fin 16384) (t : Fin 8) (e : Fin 32) :
    taken idx tok (ix3 n t e) = tok (ix2 (Cert.Spec.row (idx (ix2 n t))) e) := by
  have hm : broadcastInDim S16384x8x32 ![0, 1] bcast_S16384x8_S16384x8x32_0_1 (inRange idx) (ix3 n t e) = 1#1 := by
    rw [broadcastInDim_apply ![0, 1] bcast_S16384x8_S16384x8x32_0_1 (inRange idx) (ix3 n t e) (ix2 n t) fun a => by
      match a with
      | ⟨0, _⟩ =>
        show n.val = if (16384 : ℕ) = 1 then 0 else n.val
        rw [if_neg (by decide)]
      | ⟨1, _⟩ =>
        show t.val = if (8 : ℕ) = 1 then 0 else t.val
        rw [if_neg (by decide)]]
    exact inRange_apply idx hidx _
  have hs : starts idx (ix3 n t (0 : Fin 1)) = idx (ix2 n t) :=
    (starts_apply idx n t 0).trans (wrapped_apply idx _ (hidx _).1)
  have hr : (Cert.Spec.row (idx (ix2 n t))).val = min (starts idx (ix3 n t (0 : Fin 1))).toInt.toNat 999 := by
    rw [hs]
    have h0 := (hidx (ix2 n t)).1
    have h2 := BitVec.toInt_eq_toNat_of_lt (BitVec.toInt_pos_iff.1 h0)
    show min (idx (ix2 n t)).toNat 999 = _
    rw [h2]
    rfl
  unfold taken
  rw [select_apply, hm, select_one]
  exact gather_rows_apply tok (starts idx) n t e _ hr

end Cert.RefSide

end
-- ==== Proof.RefDot.lean ====
/-
  The reference's matrix product read at an index: contracting the last axis of a 16384×8×32 array with the first
  axis of a 32×1000 matrix, entry `(n, t, v)` of the result is the sum over the 32 contracted coordinates `e` of
  the products of the entries `(n, t, e)` and `(e, v)`. At the ideal values.
-/
import proofs.«203661_g84404697301628_cont_9to1_m_135_26_alg».proof.ReferenceIdeal
import Idealize.ShloMosaic.Lib.ValueIdx
import Idealize.ShloMosaic.PureOps.Ideal.Laws

noncomputable section

open scoped BigOperators

namespace Cert.RefSide

open Cert.ReferenceIdeal Idealize.ShloMosaic Idealize.ShloMosaic.ValueIdx

variable [hReferenceIdeal : Cert.ReferenceIdeal.Facts]

local notation "dd" => dot_S16384x8x32_S32x1000_S16384x8x1000_2_0_01_1_n_n

theorem dot_apply (A : FVec Ideal S16384x8x32 .f32) (B : FVec Ideal S32x1000 .f32)
    (n : Fin 16384) (t : Fin 8) (v : Fin 1000) :
    Host.dotGeneral dd none A B (ix3 n t v) = ∑ e : Fin 32, A (ix3 n t e) * B (ix2 e v) := by
  show FloatOps.dotGeneral dd none _ A B (ix3 n t v) = _
  rw [Ideal.dotGeneral_apply, ← Equiv.sum_comp (contrEquiv1 dd 32 rfl rfl).symm]
  refine Finset.sum_congr rfl fun c _ => ?_
  have c1 := contrEquiv1_symm_val dd 32 rfl rfl c
  have l3 : (dd).lhsIdx (ix3 n t v) ((contrEquiv1 dd 32 rfl rfl).symm c) = ix3 n t c := by
    funext ax; apply Fin.ext
    match ax with
    | ⟨0, _⟩ => simp [DotDims.lhsIdx, dot_S16384x8x32_S32x1000_S16384x8x1000_2_0_01_1_n_n]; rfl
    | ⟨1, _⟩ => simp [DotDims.lhsIdx, dot_S16384x8x32_S32x1000_S16384x8x1000_2_0_01_1_n_n]; rfl
    | ⟨2, _⟩ => simp [DotDims.lhsIdx, dot_S16384x8x32_S32x1000_S16384x8x1000_2_0_01_1_n_n]; exact c1
  have r2 : (dd).rhsIdx (ix3 n t v) ((contrEquiv1 dd 32 rfl rfl).symm c) = ix2 c v := by
    funext ax; apply Fin.ext
    match ax with
    | ⟨0, _⟩ => simp [DotDims.rhsIdx, dot_S16384x8x32_S32x1000_S16384x8x1000_2_0_01_1_n_n]; exact c1
    | ⟨1, _⟩ => simp [DotDims.rhsIdx, dot_S16384x8x32_S32x1000_S16384x8x1000_2_0_01_1_n_n]; rfl
  rw [l3, r2]

end Cert.RefSide

end
-- ==== Proof.RefValue.lean ====
/-
  Under the index range the reference's composed term is the specification: entry `(n, t, v)` of the matrix
  product is the sum over the 32 contracted coordinates of the looked-up entry `(n, t, e)`, which is the table at
  the row the token word names, times the weight at `(e, v)`; and the bias, broadcast first to a leading pair of
  unit axes and then along them, reads its entry `v`. At the ideal values.
-/
import proofs.«203661_g84404697301628_cont_9to1_m_135_26_alg».proof.Proof.RefRun
import proofs.«203661_g84404697301628_cont_9to1_m_135_26_alg».proof.Proof.RefTaken
import proofs.«203661_g84404697301628_cont_9to1_m_135_26_alg».proof.Proof.RefDot
import proofs.«203661_g84404697301628_cont_9to1_m_135_26_alg».proof.Proof.Spec
import Idealize.ShloMosaic.Lib.Pipeline.Value

noncomputable section

open scoped BigOperators

namespace Cert.RefSide

open Cert.ReferenceIdeal Cert.ReferenceIdeal.Facts₀ Idealize.ShloMosaic Idealize.ShloMosaic.ValueIdx

variable [hReferenceIdeal : Cert.ReferenceIdeal.Facts]

/-- The bias broadcast to the result's shape reads its entry on the last axis. -/
theorem bias_apply {α : Type} (b : S1000.Idx → α) (n : Fin 16384) (t : Fin 8) (v : Fin 1000) :
    broadcastInDim S16384x8x1000 ![0, 1, 2] bcast_S1x1x1000_S16384x8x1000_0_1_2
        (broadcastInDim S1x1x1000 ![2] bcast_S1000_S1x1x1000_2 b) (ix3 n t v) = b (ix1 v) := by
  rw [broadcastInDim_apply ![0, 1, 2] bcast_S1x1x1000_S16384x8x1000_0_1_2 _ (ix3 n t v) (ix3 (0 : Fin 1) (0 : Fin 1) v)
    fun a => by
      match a with
      | ⟨0, _⟩ => show (0 : ℕ) = if (1 : ℕ) = 1 then 0 else n.val; rw [if_pos rfl]
      | ⟨1, _⟩ => show (0 : ℕ) = if (1 : ℕ) = 1 then 0 else t.val; rw [if_pos rfl]
      | ⟨2, _⟩ => show v.val = if (1000 : ℕ) = 1 then 0 else v.val; rw [if_neg (by decide)]]
  exact broadcastInDim_apply ![2] bcast_S1000_S1x1x1000_2 b (ix3 (0 : Fin 1) (0 : Fin 1) v) (ix1 v) fun a => by
    match a with
    | ⟨0, _⟩ => show v.val = if (1000 : ℕ) = 1 then 0 else v.val; rw [if_neg (by decide)]

/-- Under the index range the composed term of the reference's result is the specified function. -/
theorem out_eq_logits (idx : IVec S16384x8 32) (tok : FVec Ideal S1000x32 .f32) (W : FVec Ideal S32x1000 .f32)
    (b : FVec Ideal S1000 .f32) (hidx : ∀ i, 0 ≤ (idx i).toInt ∧ (idx i).toInt ≤ 999) :
    out idx tok W b = Cert.Spec.logits idx tok W b := by
  funext j
  obtain ⟨n, t, v, rfl⟩ : ∃ (n : Fin 16384) (t : Fin 8) (v : Fin 1000), j = ix3 n t v := ⟨j 0, j 1, j 2, eq_ix3 j⟩
  have hl : Cert.Spec.logits idx tok W b (ix3 n t v)
      = (∑ e : Fin 32, tok (ix2 (Cert.Spec.row (idx (ix2 n t))) e) * W (ix2 e v)) + b (ix1 v) := by
    unfold Cert.Spec.logits
    rfl
  rw [hl]
  unfold out
  rw [addf_apply]
  refine congrArg₂ (· + ·) ((dot_apply (taken idx tok) W n t v).trans ?_) (bias_apply b n t v)
  exact Finset.sum_congr rfl fun e _ => by rw [taken_apply idx tok hidx]

end Cert.RefSide

end
-- ==== Proof.RefSpec.lean ====
/-
  The reference under its precondition: it runs, leaves its arguments unchanged, and ends with the result buffer
  holding the specified function of the argument arrays. The precondition gives the index range; under the range
  the run's composed term is the specification.
-/
import proofs.«203661_g84404697301628_cont_9to1_m_135_26_alg».proof.Defs
import proofs.«203661_g84404697301628_cont_9to1_m_135_26_alg».proof.Proof.RefRun
import proofs.«203661_g84404697301628_cont_9to1_m_135_26_alg».proof.Proof.RefPre
import proofs.«203661_g84404697301628_cont_9to1_m_135_26_alg».proof.Proof.RefValue
import proofs.«203661_g84404697301628_cont_9to1_m_135_26_alg».proof.Proof.Spec

noncomputable section

namespace Cert.RefSide

open Idealize.ShloMosaic Idealize.SL.Sem

/-- The precondition of the reference, read back on each device: every token word lies in `[0, 999]` read signed. -/
theorem pre_idx_range [hPre_input_domain : Cert.Pre_input_domain.Facts]
    (m : (ℓ : Loc Cert.ReferenceIdeal.nD Cert.ReferenceIdeal.τ Cert.ReferenceIdeal.sig) → Buf (Elt Ideal) ℓ)
    (hpre : Cert.Pre_ReferenceIdeal m) (c : Dev Cert.ReferenceIdeal.nD) (i : Cert.ReferenceIdeal.S16384x8.Idx) :
    0 ≤ (m ((c.tc : Thread Cert.ReferenceIdeal.nD Cert.ReferenceIdeal.τ).loc Cert.ReferenceIdeal.main_arg0) i).toInt
      ∧ (m ((c.tc : Thread Cert.ReferenceIdeal.nD Cert.ReferenceIdeal.τ).loc Cert.ReferenceIdeal.main_arg0) i).toInt ≤ 999 :=
  idx_range _ _ _ _ _ (hpre c) i

theorem run_spec [hReferenceIdeal : Cert.ReferenceIdeal.Facts] [hPre_input_domain : Cert.Pre_input_domain.Facts]
    (m : (ℓ : Loc Cert.ReferenceIdeal.nD Cert.ReferenceIdeal.τ Cert.ReferenceIdeal.sig) → Buf (Elt Ideal) ℓ)
    (g : Dev Cert.ReferenceIdeal.nD → PrngReg) (hpre : Cert.Pre_ReferenceIdeal m) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v9)
          = Cert.Spec.logits (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg3))
              (m ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)) :=
  (θ_run (Cert.ReferenceIdeal.defs (F := Ideal)) _ _).mono
    (fun _ h c => ⟨(h c).1.trans (out_eq_logits _ _ _ _ (pre_idx_range m hpre c)), (h c).2⟩)
    (run (F := Ideal) m g)

end Cert.RefSide

end
-- ==== Proof.KernelIdeal.Body4.lean ====
import proofs.«203661_g84404697301628_cont_9to1_m_135_26_alg».proof.Proof.Gen.KernelIdeal.Launch
import proofs.«203661_g84404697301628_cont_9to1_m_135_26_alg».proof.Proof.Gen.KernelIdeal.Skeleton
import proofs.«203661_g84404697301628_cont_9to1_m_135_26_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # TensorCore region of pipeline `cfg4`: the body half

The region's windows: 0 the embedding block `[1, 8192, 32]`, 1 the weight block `[200, 32]`, 2 the bias column block
`[200, 1]` (inputs), 3 the result block `[1, 200, 8192]` (output). The body loads the three input buffers whole and
stores one payload over the whole output buffer. Everything is stated at a parameter `V` (the TensorCore's buffer
contents when the region is entered) and at ANY ambient resource model: index type `Ix`, invariant names `Name`, user
algebra `U`, levels `ℕ`. -/

set_option maxRecDepth 16384

noncomputable section

namespace Cert.KernelIdeal.Heads

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U]

local notation "𝕄" => MT nD τ sig Ix (Elt F) Name U ℕ

variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is `V`'s and whose body leaves the block in place: an unfetched input's block index has not moved. -/
theorem before4_0_of {c : Dev nD} (dat : Dat τ (Elt F) Ix Name U ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any proof
    data whose array is `V`'s and whose body leaves the block in place: an unfetched input's block index has not moved. -/
theorem before4_1_of {c : Dev nD} (dat : Dat τ (Elt F) Ix Name U ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for any proof
    data whose array is `V`'s and whose body leaves the block in place: an unfetched input's block index has not moved. -/
theorem before4_2_of {c : Dev nD} (dat : Dat τ (Elt F) Ix Name U ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each buffer whole -/

abbrev r4_e : Rect S1x8192x32 := Rect.unit (s := S1x8192x32) ![0, 0, 0] S1x8192x32.size inb_S1x8192x32_S1x8192x32_0_0_0
abbrev r4_w : Rect S200x32 := Rect.unit (s := S200x32) ![0, 0] S200x32.size inb_S200x32_S200x32_0_0
abbrev r4_b : Rect S200x1 := Rect.unit (s := S200x1) ![0, 0] S200x1.size inb_S200x1_S200x1_0_0
abbrev r4_o : Rect S1x200x8192 := Rect.unit (s := S1x200x8192) ![0, 0, 0] S1x200x8192.size inb_S1x200x8192_S1x200x8192_0_0_0

/-! ## What the body leaves in the output window's buffer -/

/-- Window 3's staging buffer after the body, from the input windows' blocks `x0` (embedding), `x1` (weights), `x2` (bias
    column): its one store, over the whole buffer, of the skeleton's payload of the three loads. -/
def out4_3 (x0 : Vec F S1x8192x32 .f32) (x1 : Vec F S200x32 .f32) (x2 : Vec F S200x1 .f32) : Vec F S1x200x8192 .f32 :=
  View.canon [⟨r4_o, k4_pay1 (View.ld x1 r4_w) (View.ld x0 r4_e) (View.ld x2 r4_b)⟩]

/-- The one store tiles the buffer, so it covers it. -/
theorem cover4_3 (p0 : Vec F S1x200x8192 .f32) (y : S1x200x8192.Idx) :
    ∃ pc ∈ ([⟨r4_o, p0⟩] : List (View.Piece (Elt F) S1x200x8192 .f32)), y ∈ pc.1.set :=
  View.cover_of_tiled [⟨r4_o, p0⟩] S1x200x8192.size (by rfl) y

/-! ## The body's triple -/

set_option maxHeartbeats 1000000 in
/-- The kernel body on whole staging memrefs, the inputs' at read contents `x0 x1 x2` and the output's at anything, runs to
    the continuation holding the inputs' as they were and the output's at `out4_3` of the inputs'. -/
theorem sound_kernel4 (c : Dev nD) (E : Set Name) (i : grid4.Coords)
    (arg3 : Memref sig .tc .vmem S1x8192x32 .f32) (harg3 : arg3.IsWhole) (arg4 : Memref sig .tc .vmem S200x32 .f32) (harg4 : arg4.IsWhole)
    (arg5 : Memref sig .tc .vmem S200x1 .f32) (harg5 : arg5.IsWhole)
    (arg6 : Memref sig .tc .vmem S1x200x8192 .f32) (harg6 : arg6.IsWhole)
    (x0 : Vec F S1x8192x32 .f32) (x1 : Vec F S200x32 .f32) (x2 : Vec F S200x1 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out4_3 x0 x1 x2)) -∗ K ⟨⟩))
      ⊢ wp frame (wpE (defs₀ (F := F)) Variants.none c none) E (cc4__head_body i arg3 harg3 arg4 harg4 arg5 harg5 arg6 harg6) K := by
  simp only [cc4__head_body_eq_skeleton]; unfold cc4__head_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

end Cert.KernelIdeal.Heads

end
-- ==== Proof.KernelIdeal.Dat4.lean ====
import proofs.«203661_g84404697301628_cont_9to1_m_135_26_alg».proof.Proof.KernelIdeal.Body4

/-! # TensorCore region of pipeline `cfg4`: the proof data and the body obligation

The pipeline's proof data at the entry contents `V`: the arrays as entered; after the body at a point each input's buffer
at its block and the output's at `out4_3` of the three input blocks; the invariant is the scoped buffers no window stages
and the generator register, untouched; nothing owed; full shares. Then the body obligation at a generic point. -/

set_option maxRecDepth 16384

noncomputable section

namespace Cert.KernelIdeal.Heads

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U]

local notation "𝕄" => MT nD τ sig Ix (Elt F) Name U ℕ

variable (V : (c : Dev nD) → (b : Ref sig .tc) → Buf (Elt F) ((c : Thread nD τ).loc b))

/-! ## The pipeline's proof data -/

/-- The invariant between points: the core's scoped buffers that are no staging buffer, at some contents each, and its
    generator register at some state (the body uses neither). -/
def inv4 (c : Dev nD) : sProp 𝕄 :=
  iprop(Pipeline.scopedRest (Ix := Ix) (Name := Name) (U := U) (Lvl := ℕ) (Val := Elt F) spec4 c ∗ ∃ r, prngReg c r)

/-- The proof data of the pipeline on core `c`. -/
def dat4 (c : Dev nD) : Dat τ (Elt F) Ix Name U ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := inv4 (Ix := Ix) (Name := Name) (U := U) c
  q _ := fullShare
  owed _ := 0

/-- The proof data's arrays are the region-entry contents. -/
theorem A_eq4 (c : Dev nD) (w : Fin cfg4.W) : (dat4 (Ix := Ix) (Name := Name) (U := U) V c).A w = V c (Pipeline.arrRef spec4 w) := by
  dsimp only [dat4]

/-- What the body leaves, window by window. -/
theorem after4_0 (c : Dev nD) (t : Fin cfg4.N) : (dat4 (Ix := Ix) (Name := Name) (U := U) V c).after 0 t = iblk4 V c 0 t := by dsimp only [dat4]
theorem after4_1 (c : Dev nD) (t : Fin cfg4.N) : (dat4 (Ix := Ix) (Name := Name) (U := U) V c).after 1 t = iblk4 V c 1 t := by dsimp only [dat4]
theorem after4_2 (c : Dev nD) (t : Fin cfg4.N) : (dat4 (Ix := Ix) (Name := Name) (U := U) V c).after 2 t = iblk4 V c 2 t := by dsimp only [dat4]
theorem after4_3 (c : Dev nD) (t : Fin cfg4.N) :
    (dat4 (Ix := Ix) (Name := Name) (U := U) V c).after 3 t = out4_3 (iblk4 V c 0 t) (iblk4 V c 1 t) (iblk4 V c 2 t) := by dsimp only [dat4]

/-- Each input's current staging buffer holds its block at every point, fetched there or not. -/
theorem before4_0 (c : Dev nD) (t : Fin cfg4.N) (d) : (dat4 (Ix := Ix) (Name := Name) (U := U) V c).before 0 t d = iblk4 V c 0 t :=
  before4_0_of V (dat4 (Ix := Ix) (Name := Name) (U := U) V c) (A_eq4 V c 0) (after4_0 V c) t d
theorem before4_1 (c : Dev nD) (t : Fin cfg4.N) (d) : (dat4 (Ix := Ix) (Name := Name) (U := U) V c).before 1 t d = iblk4 V c 1 t :=
  before4_1_of V (dat4 (Ix := Ix) (Name := Name) (U := U) V c) (A_eq4 V c 1) (after4_1 V c) t d
theorem before4_2 (c : Dev nD) (t : Fin cfg4.N) (d) : (dat4 (Ix := Ix) (Name := Name) (U := U) V c).before 2 t d = iblk4 V c 2 t :=
  before4_2_of V (dat4 (Ix := Ix) (Name := Name) (U := U) V c) (A_eq4 V c 2) (after4_2 V c) t d

/-! ## The body obligation, at a generic point -/

/-- What the body is called with at point `t` (the obligation's precondition, the windows one by one), -/
def bodyPre4 (ι : Ix) (c : Dev nD) (t : Fin cfg4.N) : sProp 𝕄 :=
  iprop((dat4 (Ix := Ix) (Name := Name) (U := U) V c).Φ t.castSucc ∗ (dat4 (Ix := Ix) (Name := Name) (U := U) V c).owesAt ι t.castSucc
    ∗ (∃ d, owns (c : Thread nD τ) (st4_0 t) fullShare ((dat4 (Ix := Ix) (Name := Name) (U := U) V c).before 0 t d))
    ∗ (∃ d, owns (c : Thread nD τ) (st4_1 t) fullShare ((dat4 (Ix := Ix) (Name := Name) (U := U) V c).before 1 t d))
    ∗ (∃ d, owns (c : Thread nD τ) (st4_2 t) fullShare ((dat4 (Ix := Ix) (Name := Name) (U := U) V c).before 2 t d))
    ∗ (∃ d, owns (c : Thread nD τ) (st4_3 t) fullShare ((dat4 (Ix := Ix) (Name := Name) (U := U) V c).before 3 t d)))

/-- and what it returns. -/
def bodyPost4 (ι : Ix) (c : Dev nD) (t : Fin cfg4.N) : sProp 𝕄 :=
  iprop((dat4 (Ix := Ix) (Name := Name) (U := U) V c).Φ t.succ ∗ (dat4 (Ix := Ix) (Name := Name) (U := U) V c).owesAt ι t.succ
    ∗ owns (c : Thread nD τ) (st4_0 t) fullShare ((dat4 (Ix := Ix) (Name := Name) (U := U) V c).after 0 t)
    ∗ owns (c : Thread nD τ) (st4_1 t) fullShare ((dat4 (Ix := Ix) (Name := Name) (U := U) V c).after 1 t)
    ∗ owns (c : Thread nD τ) (st4_2 t) fullShare ((dat4 (Ix := Ix) (Name := Name) (U := U) V c).after 2 t)
    ∗ owns (c : Thread nD τ) (st4_3 t) fullShare ((dat4 (Ix := Ix) (Name := Name) (U := U) V c).after 3 t))

/-- The body at any point: the inputs' memrefs hold their blocks, so the body's triple applies; the invariant and the
    core's `owes` pass through unread. -/
theorem sound_body4 (ι : Ix) (c : Dev nD) (t : Fin cfg4.N) :
    bodyPre4 (Ix := Ix) (Name := Name) (U := U) V ι c t
      ⊢ wp frame (wpE (defs₀ (F := F)) Variants.none c none) Set.univ (bodyAt4 t) (fun _ => bodyPost4 (Ix := Ix) (Name := Name) (U := U) V ι c t) := by
  unfold bodyPre4 bodyPost4 bodyAt4
  simp only [before4_0, before4_1, before4_2]
  rw [show (dat4 (Ix := Ix) (Name := Name) (U := U) V c).Φ t.succ = (dat4 (Ix := Ix) (Name := Name) (U := U) V c).Φ t.castSucc from rfl,
    show (dat4 (Ix := Ix) (Name := Name) (U := U) V c).owesAt ι t.succ = (dat4 (Ix := Ix) (Name := Name) (U := U) V c).owesAt ι t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (ι : Ix) (c : Dev nD) :
    BodyObligation (dat4 (F := F) (Ix := Ix) (Name := Name) (U := U) V c) (defs₀ (F := F)) Variants.none ι Set.univ := fun t => by
  rw [bigSep_W4, bigSep_W4]
  exact sound_body4 V ι c t

end Cert.KernelIdeal.Heads

end
-- ==== Proof.KernelIdeal.Body5.lean ====
import proofs.«203661_g84404697301628_cont_9to1_m_135_26_alg».proof.Proof.Gen.KernelIdeal.Launch
import proofs.«203661_g84404697301628_cont_9to1_m_135_26_alg».proof.Proof.Gen.KernelIdeal.Skeleton
import proofs.«203661_g84404697301628_cont_9to1_m_135_26_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # TensorCore region of pipeline `cfg5`: the body half

The region's windows: 0 the embedding block `[1, 8192, 32]`, 1 the weight block `[200, 32]`, 2 the bias column block
`[200, 1]` (inputs), 3 the result block `[1, 200, 8192]` (output). The body loads the three input buffers whole and
stores one payload over the whole output buffer. Everything is stated at a parameter `V` (the TensorCore's buffer
contents when the region is entered) and at ANY ambient resource model: index type `Ix`, invariant names `Name`, user
algebra `U`, levels `ℕ`. -/

set_option maxRecDepth 16384

noncomputable section

namespace Cert.KernelIdeal.Heads

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U]

local notation "𝕄" => MT nD τ sig Ix (Elt F) Name U ℕ

variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s and whose body leaves the block in place: an unfetched input's block index has not moved. -/
theorem before5_0_of {c : Dev nD} (dat : Dat τ (Elt F) Ix Name U ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is `V`'s and whose body leaves the block in place: an unfetched input's block index has not moved. -/
theorem before5_1_of {c : Dev nD} (dat : Dat τ (Elt F) Ix Name U ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is `V`'s and whose body leaves the block in place: an unfetched input's block index has not moved. -/
theorem before5_2_of {c : Dev nD} (dat : Dat τ (Elt F) Ix Name U ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer whole -/

abbrev r5_e : Rect S1x8192x32 := Rect.unit (s := S1x8192x32) ![0, 0, 0] S1x8192x32.size inb_S1x8192x32_S1x8192x32_0_0_0
abbrev r5_w : Rect S200x32 := Rect.unit (s := S200x32) ![0, 0] S200x32.size inb_S200x32_S200x32_0_0
abbrev r5_b : Rect S200x1 := Rect.unit (s := S200x1) ![0, 0] S200x1.size inb_S200x1_S200x1_0_0
abbrev r5_o : Rect S1x200x8192 := Rect.unit (s := S1x200x8192) ![0, 0, 0] S1x200x8192.size inb_S1x200x8192_S1x200x8192_0_0_0

/-! ## What the body leaves in the output window's buffer -/

/-- Window 3's staging buffer after the body, from the input windows' blocks `x0` (embedding), `x1` (weights), `x2` (bias
    column): its one store, over the whole buffer, of the skeleton's payload of the three loads. -/
def out5_3 (x0 : Vec F S1x8192x32 .f32) (x1 : Vec F S200x32 .f32) (x2 : Vec F S200x1 .f32) : Vec F S1x200x8192 .f32 :=
  View.canon [⟨r5_o, k5_pay1 (View.ld x1 r5_w) (View.ld x0 r5_e) (View.ld x2 r5_b)⟩]

/-- The one store tiles the buffer, so it covers it. -/
theorem cover5_3 (p0 : Vec F S1x200x8192 .f32) (y : S1x200x8192.Idx) :
    ∃ pc ∈ ([⟨r5_o, p0⟩] : List (View.Piece (Elt F) S1x200x8192 .f32)), y ∈ pc.1.set :=
  View.cover_of_tiled [⟨r5_o, p0⟩] S1x200x8192.size (by rfl) y

/-! ## The body's triple -/

set_option maxHeartbeats 1000000 in
/-- The kernel body on whole staging memrefs, the inputs' at read contents `x0 x1 x2` and the output's at anything, runs to
    the continuation holding the inputs' as they were and the output's at `out5_3` of the inputs'. -/
theorem sound_kernel5 (c : Dev nD) (E : Set Name) (i : grid5.Coords)
    (arg3 : Memref sig .tc .vmem S1x8192x32 .f32) (harg3 : arg3.IsWhole) (arg4 : Memref sig .tc .vmem S200x32 .f32) (harg4 : arg4.IsWhole)
    (arg5 : Memref sig .tc .vmem S200x1 .f32) (harg5 : arg5.IsWhole) (arg6 : Memref sig .tc .hbm S8x1000x16384 .f32) (harg6 : arg6.IsWhole)
    (arg7 : Memref sig .tc .vmem S1x200x8192 .f32) (harg7 : arg7.IsWhole)
    (x0 : Vec F S1x8192x32 .f32) (x1 : Vec F S200x32 .f32) (x2 : Vec F S200x1 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg7 fullShare (out5_3 x0 x1 x2)) -∗ K ⟨⟩))
      ⊢ wp frame (wpE (defs₀ (F := F)) Variants.none c none) E (cc5__head_body_alias i arg3 harg3 arg4 harg4 arg5 harg5 arg6 harg6 arg7 harg7) K := by
  simp only [cc5__head_body_alias_eq_skeleton]; unfold cc5__head_body_alias_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

end Cert.KernelIdeal.Heads

end
-- ==== Proof.KernelIdeal.Dat5.lean ====
import proofs.«203661_g84404697301628_cont_9to1_m_135_26_alg».proof.Proof.KernelIdeal.Body5

/-! # TensorCore region of pipeline `cfg5`: the proof data and the body obligation

The pipeline's proof data at the entry contents `V`: the arrays as entered; after the body at a point each input's buffer
at its block and the output's at `out5_3` of the three input blocks; the invariant is the scoped buffers no window stages
and the generator register, untouched; nothing owed; full shares. Then the body obligation at a generic point. -/

set_option maxRecDepth 16384

noncomputable section

namespace Cert.KernelIdeal.Heads

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U]

local notation "𝕄" => MT nD τ sig Ix (Elt F) Name U ℕ

variable (V : (c : Dev nD) → (b : Ref sig .tc) → Buf (Elt F) ((c : Thread nD τ).loc b))

/-! ## The pipeline's proof data -/

/-- The invariant between points: the core's scoped buffers that are no staging buffer, at some contents each, and its
    generator register at some state (the body uses neither). -/
def inv5 (c : Dev nD) : sProp 𝕄 :=
  iprop(Pipeline.scopedRest (Ix := Ix) (Name := Name) (U := U) (Lvl := ℕ) (Val := Elt F) spec5 c ∗ ∃ r, prngReg c r)

/-- The proof data of the pipeline on core `c`. -/
def dat5 (c : Dev nD) : Dat τ (Elt F) Ix Name U ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := inv5 (Ix := Ix) (Name := Name) (U := U) c
  q _ := fullShare
  owed _ := 0

/-- The proof data's arrays are the region-entry contents. -/
theorem A_eq5 (c : Dev nD) (w : Fin cfg5.W) : (dat5 (Ix := Ix) (Name := Name) (U := U) V c).A w = V c (Pipeline.arrRef spec5 w) := by
  dsimp only [dat5]

/-- What the body leaves, window by window. -/
theorem after5_0 (c : Dev nD) (t : Fin cfg5.N) : (dat5 (Ix := Ix) (Name := Name) (U := U) V c).after 0 t = iblk5 V c 0 t := by dsimp only [dat5]
theorem after5_1 (c : Dev nD) (t : Fin cfg5.N) : (dat5 (Ix := Ix) (Name := Name) (U := U) V c).after 1 t = iblk5 V c 1 t := by dsimp only [dat5]
theorem after5_2 (c : Dev nD) (t : Fin cfg5.N) : (dat5 (Ix := Ix) (Name := Name) (U := U) V c).after 2 t = iblk5 V c 2 t := by dsimp only [dat5]
theorem after5_3 (c : Dev nD) (t : Fin cfg5.N) :
    (dat5 (Ix := Ix) (Name := Name) (U := U) V c).after 3 t = out5_3 (iblk5 V c 0 t) (iblk5 V c 1 t) (iblk5 V c 2 t) := by dsimp only [dat5]

/-- Each input's current staging buffer holds its block at every point, fetched there or not. -/
theorem before5_0 (c : Dev nD) (t : Fin cfg5.N) (d) : (dat5 (Ix := Ix) (Name := Name) (U := U) V c).before 0 t d = iblk5 V c 0 t :=
  before5_0_of V (dat5 (Ix := Ix) (Name := Name) (U := U) V c) (A_eq5 V c 0) (after5_0 V c) t d
theorem before5_1 (c : Dev nD) (t : Fin cfg5.N) (d) : (dat5 (Ix := Ix) (Name := Name) (U := U) V c).before 1 t d = iblk5 V c 1 t :=
  before5_1_of V (dat5 (Ix := Ix) (Name := Name) (U := U) V c) (A_eq5 V c 1) (after5_1 V c) t d
theorem before5_2 (c : Dev nD) (t : Fin cfg5.N) (d) : (dat5 (Ix := Ix) (Name := Name) (U := U) V c).before 2 t d = iblk5 V c 2 t :=
  before5_2_of V (dat5 (Ix := Ix) (Name := Name) (U := U) V c) (A_eq5 V c 2) (after5_2 V c) t d

/-! ## The body obligation, at a generic point -/

/-- What the body is called with at point `t` (the obligation's precondition, the windows one by one), -/
def bodyPre5 (ι : Ix) (c : Dev nD) (t : Fin cfg5.N) : sProp 𝕄 :=
  iprop((dat5 (Ix := Ix) (Name := Name) (U := U) V c).Φ t.castSucc ∗ (dat5 (Ix := Ix) (Name := Name) (U := U) V c).owesAt ι t.castSucc
    ∗ (∃ d, owns (c : Thread nD τ) (st5_0 t) fullShare ((dat5 (Ix := Ix) (Name := Name) (U := U) V c).before 0 t d))
    ∗ (∃ d, owns (c : Thread nD τ) (st5_1 t) fullShare ((dat5 (Ix := Ix) (Name := Name) (U := U) V c).before 1 t d))
    ∗ (∃ d, owns (c : Thread nD τ) (st5_2 t) fullShare ((dat5 (Ix := Ix) (Name := Name) (U := U) V c).before 2 t d))
    ∗ (∃ d, owns (c : Thread nD τ) (st5_3 t) fullShare ((dat5 (Ix := Ix) (Name := Name) (U := U) V c).before 3 t d)))

/-- and what it returns. -/
def bodyPost5 (ι : Ix) (c : Dev nD) (t : Fin cfg5.N) : sProp 𝕄 :=
  iprop((dat5 (Ix := Ix) (Name := Name) (U := U) V c).Φ t.succ ∗ (dat5 (Ix := Ix) (Name := Name) (U := U) V c).owesAt ι t.succ
    ∗ owns (c : Thread nD τ) (st5_0 t) fullShare ((dat5 (Ix := Ix) (Name := Name) (U := U) V c).after 0 t)
    ∗ owns (c : Thread nD τ) (st5_1 t) fullShare ((dat5 (Ix := Ix) (Name := Name) (U := U) V c).after 1 t)
    ∗ owns (c : Thread nD τ) (st5_2 t) fullShare ((dat5 (Ix := Ix) (Name := Name) (U := U) V c).after 2 t)
    ∗ owns (c : Thread nD τ) (st5_3 t) fullShare ((dat5 (Ix := Ix) (Name := Name) (U := U) V c).after 3 t))

/-- The body at any point: the inputs' memrefs hold their blocks, so the body's triple applies; the invariant and the
    core's `owes` pass through unread. -/
theorem sound_body5 (ι : Ix) (c : Dev nD) (t : Fin cfg5.N) :
    bodyPre5 (Ix := Ix) (Name := Name) (U := U) V ι c t
      ⊢ wp frame (wpE (defs₀ (F := F)) Variants.none c none) Set.univ (bodyAt5 t) (fun _ => bodyPost5 (Ix := Ix) (Name := Name) (U := U) V ι c t) := by
  unfold bodyPre5 bodyPost5 bodyAt5
  simp only [before5_0, before5_1, before5_2]
  rw [show (dat5 (Ix := Ix) (Name := Name) (U := U) V c).Φ t.succ = (dat5 (Ix := Ix) (Name := Name) (U := U) V c).Φ t.castSucc from rfl,
    show (dat5 (Ix := Ix) (Name := Name) (U := U) V c).owesAt ι t.succ = (dat5 (Ix := Ix) (Name := Name) (U := U) V c).owesAt ι t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation5 (ι : Ix) (c : Dev nD) :
    BodyObligation (dat5 (F := F) (Ix := Ix) (Name := Name) (U := U) V c) (defs₀ (F := F)) Variants.none ι Set.univ := fun t => by
  rw [bigSep_W5, bigSep_W5]
  exact sound_body5 V ι c t

end Cert.KernelIdeal.Heads

end
-- ==== Proof.KernelIdeal.Body6.lean ====
import proofs.«203661_g84404697301628_cont_9to1_m_135_26_alg».proof.Proof.Gen.KernelIdeal.Launch
import proofs.«203661_g84404697301628_cont_9to1_m_135_26_alg».proof.Proof.Gen.KernelIdeal.Skeleton
import proofs.«203661_g84404697301628_cont_9to1_m_135_26_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # TensorCore region of pipeline `cfg6`: the body half

The region's windows: 0 the embedding block `[1, 8192, 32]`, 1 the weight block `[200, 32]`, 2 the bias column block
`[200, 1]` (inputs), 3 the result block `[1, 200, 8192]` (output). The body loads the three input buffers whole and
stores one payload over the whole output buffer. Everything is stated at a parameter `V` (the TensorCore's buffer
contents when the region is entered) and at ANY ambient resource model: index type `Ix`, invariant names `Name`, user
algebra `U`, levels `ℕ`. -/

set_option maxRecDepth 16384

noncomputable section

namespace Cert.KernelIdeal.Heads

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U]

local notation "𝕄" => MT nD τ sig Ix (Elt F) Name U ℕ

variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for any proof
    data whose array is `V`'s and whose body leaves the block in place: an unfetched input's block index has not moved. -/
theorem before6_0_of {c : Dev nD} (dat : Dat τ (Elt F) Ix Name U ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not, for any proof
    data whose array is `V`'s and whose body leaves the block in place: an unfetched input's block index has not moved. -/
theorem before6_1_of {c : Dev nD} (dat : Dat τ (Elt F) Ix Name U ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not, for any proof
    data whose array is `V`'s and whose body leaves the block in place: an unfetched input's block index has not moved. -/
theorem before6_2_of {c : Dev nD} (dat : Dat τ (Elt F) Ix Name U ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each buffer whole -/

abbrev r6_e : Rect S1x8192x32 := Rect.unit (s := S1x8192x32) ![0, 0, 0] S1x8192x32.size inb_S1x8192x32_S1x8192x32_0_0_0
abbrev r6_w : Rect S200x32 := Rect.unit (s := S200x32) ![0, 0] S200x32.size inb_S200x32_S200x32_0_0
abbrev r6_b : Rect S200x1 := Rect.unit (s := S200x1) ![0, 0] S200x1.size inb_S200x1_S200x1_0_0
abbrev r6_o : Rect S1x200x8192 := Rect.unit (s := S1x200x8192) ![0, 0, 0] S1x200x8192.size inb_S1x200x8192_S1x200x8192_0_0_0

/-! ## What the body leaves in the output window's buffer -/

/-- Window 3's staging buffer after the body, from the input windows' blocks `x0` (embedding), `x1` (weights), `x2` (bias
    column): its one store, over the whole buffer, of the skeleton's payload of the three loads. -/
def out6_3 (x0 : Vec F S1x8192x32 .f32) (x1 : Vec F S200x32 .f32) (x2 : Vec F S200x1 .f32) : Vec F S1x200x8192 .f32 :=
  View.canon [⟨r6_o, k6_pay1 (View.ld x1 r6_w) (View.ld x0 r6_e) (View.ld x2 r6_b)⟩]

/-- The one store tiles the buffer, so it covers it. -/
theorem cover6_3 (p0 : Vec F S1x200x8192 .f32) (y : S1x200x8192.Idx) :
    ∃ pc ∈ ([⟨r6_o, p0⟩] : List (View.Piece (Elt F) S1x200x8192 .f32)), y ∈ pc.1.set :=
  View.cover_of_tiled [⟨r6_o, p0⟩] S1x200x8192.size (by rfl) y

/-! ## The body's triple -/

set_option maxHeartbeats 1000000 in
/-- The kernel body on whole staging memrefs, the inputs' at read contents `x0 x1 x2` and the output's at anything, runs to
    the continuation holding the inputs' as they were and the output's at `out6_3` of the inputs'. -/
theorem sound_kernel6 (c : Dev nD) (E : Set Name) (i : grid6.Coords)
    (arg3 : Memref sig .tc .vmem S1x8192x32 .f32) (harg3 : arg3.IsWhole) (arg4 : Memref sig .tc .vmem S200x32 .f32) (harg4 : arg4.IsWhole)
    (arg5 : Memref sig .tc .vmem S200x1 .f32) (harg5 : arg5.IsWhole) (arg6 : Memref sig .tc .hbm S8x1000x16384 .f32) (harg6 : arg6.IsWhole)
    (arg7 : Memref sig .tc .vmem S1x200x8192 .f32) (harg7 : arg7.IsWhole)
    (x0 : Vec F S1x8192x32 .f32) (x1 : Vec F S200x32 .f32) (x2 : Vec F S200x1 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg7 fullShare (out6_3 x0 x1 x2)) -∗ K ⟨⟩))
      ⊢ wp frame (wpE (defs₀ (F := F)) Variants.none c none) E (cc6__head_body_alias i arg3 harg3 arg4 harg4 arg5 harg5 arg6 harg6 arg7 harg7) K := by
  simp only [cc6__head_body_alias_eq_skeleton]; unfold cc6__head_body_alias_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

end Cert.KernelIdeal.Heads

end
-- ==== Proof.KernelIdeal.Dat6.lean ====
import proofs.«203661_g84404697301628_cont_9to1_m_135_26_alg».proof.Proof.KernelIdeal.Body6

/-! # TensorCore region of pipeline `cfg6`: the proof data and the body obligation

The pipeline's proof data at the entry contents `V`: the arrays as entered; after the body at a point each input's buffer
at its block and the output's at `out6_3` of the three input blocks; the invariant is the scoped buffers no window stages
and the generator register, untouched; nothing owed; full shares. Then the body obligation at a generic point. -/

set_option maxRecDepth 16384

noncomputable section

namespace Cert.KernelIdeal.Heads

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U]

local notation "𝕄" => MT nD τ sig Ix (Elt F) Name U ℕ

variable (V : (c : Dev nD) → (b : Ref sig .tc) → Buf (Elt F) ((c : Thread nD τ).loc b))

/-! ## The pipeline's proof data -/

/-- The invariant between points: the core's scoped buffers that are no staging buffer, at some contents each, and its
    generator register at some state (the body uses neither). -/
def inv6 (c : Dev nD) : sProp 𝕄 :=
  iprop(Pipeline.scopedRest (Ix := Ix) (Name := Name) (U := U) (Lvl := ℕ) (Val := Elt F) spec6 c ∗ ∃ r, prngReg c r)

/-- The proof data of the pipeline on core `c`. -/
def dat6 (c : Dev nD) : Dat τ (Elt F) Ix Name U ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := inv6 (Ix := Ix) (Name := Name) (U := U) c
  q _ := fullShare
  owed _ := 0

/-- The proof data's arrays are the region-entry contents. -/
theorem A_eq6 (c : Dev nD) (w : Fin cfg6.W) : (dat6 (Ix := Ix) (Name := Name) (U := U) V c).A w = V c (Pipeline.arrRef spec6 w) := by
  dsimp only [dat6]

/-- What the body leaves, window by window. -/
theorem after6_0 (c : Dev nD) (t : Fin cfg6.N) : (dat6 (Ix := Ix) (Name := Name) (U := U) V c).after 0 t = iblk6 V c 0 t := by dsimp only [dat6]
theorem after6_1 (c : Dev nD) (t : Fin cfg6.N) : (dat6 (Ix := Ix) (Name := Name) (U := U) V c).after 1 t = iblk6 V c 1 t := by dsimp only [dat6]
theorem after6_2 (c : Dev nD) (t : Fin cfg6.N) : (dat6 (Ix := Ix) (Name := Name) (U := U) V c).after 2 t = iblk6 V c 2 t := by dsimp only [dat6]
theorem after6_3 (c : Dev nD) (t : Fin cfg6.N) :
    (dat6 (Ix := Ix) (Name := Name) (U := U) V c).after 3 t = out6_3 (iblk6 V c 0 t) (iblk6 V c 1 t) (iblk6 V c 2 t) := by dsimp only [dat6]

/-- Each input's current staging buffer holds its block at every point, fetched there or not. -/
theorem before6_0 (c : Dev nD) (t : Fin cfg6.N) (d) : (dat6 (Ix := Ix) (Name := Name) (U := U) V c).before 0 t d = iblk6 V c 0 t :=
  before6_0_of V (dat6 (Ix := Ix) (Name := Name) (U := U) V c) (A_eq6 V c 0) (after6_0 V c) t d
theorem before6_1 (c : Dev nD) (t : Fin cfg6.N) (d) : (dat6 (Ix := Ix) (Name := Name) (U := U) V c).before 1 t d = iblk6 V c 1 t :=
  before6_1_of V (dat6 (Ix := Ix) (Name := Name) (U := U) V c) (A_eq6 V c 1) (after6_1 V c) t d
theorem before6_2 (c : Dev nD) (t : Fin cfg6.N) (d) : (dat6 (Ix := Ix) (Name := Name) (U := U) V c).before 2 t d = iblk6 V c 2 t :=
  before6_2_of V (dat6 (Ix := Ix) (Name := Name) (U := U) V c) (A_eq6 V c 2) (after6_2 V c) t d

/-! ## The body obligation, at a generic point -/

/-- What the body is called with at point `t` (the obligation's precondition, the windows one by one), -/
def bodyPre6 (ι : Ix) (c : Dev nD) (t : Fin cfg6.N) : sProp 𝕄 :=
  iprop((dat6 (Ix := Ix) (Name := Name) (U := U) V c).Φ t.castSucc ∗ (dat6 (Ix := Ix) (Name := Name) (U := U) V c).owesAt ι t.castSucc
    ∗ (∃ d, owns (c : Thread nD τ) (st6_0 t) fullShare ((dat6 (Ix := Ix) (Name := Name) (U := U) V c).before 0 t d))
    ∗ (∃ d, owns (c : Thread nD τ) (st6_1 t) fullShare ((dat6 (Ix := Ix) (Name := Name) (U := U) V c).before 1 t d))
    ∗ (∃ d, owns (c : Thread nD τ) (st6_2 t) fullShare ((dat6 (Ix := Ix) (Name := Name) (U := U) V c).before 2 t d))
    ∗ (∃ d, owns (c : Thread nD τ) (st6_3 t) fullShare ((dat6 (Ix := Ix) (Name := Name) (U := U) V c).before 3 t d)))

/-- and what it returns. -/
def bodyPost6 (ι : Ix) (c : Dev nD) (t : Fin cfg6.N) : sProp 𝕄 :=
  iprop((dat6 (Ix := Ix) (Name := Name) (U := U) V c).Φ t.succ ∗ (dat6 (Ix := Ix) (Name := Name) (U := U) V c).owesAt ι t.succ
    ∗ owns (c : Thread nD τ) (st6_0 t) fullShare ((dat6 (Ix := Ix) (Name := Name) (U := U) V c).after 0 t)
    ∗ owns (c : Thread nD τ) (st6_1 t) fullShare ((dat6 (Ix := Ix) (Name := Name) (U := U) V c).after 1 t)
    ∗ owns (c : Thread nD τ) (st6_2 t) fullShare ((dat6 (Ix := Ix) (Name := Name) (U := U) V c).after 2 t)
    ∗ owns (c : Thread nD τ) (st6_3 t) fullShare ((dat6 (Ix := Ix) (Name := Name) (U := U) V c).after 3 t))

/-- The body at any point: the inputs' memrefs hold their blocks, so the body's triple applies; the invariant and the
    core's `owes` pass through unread. -/
theorem sound_body6 (ι : Ix) (c : Dev nD) (t : Fin cfg6.N) :
    bodyPre6 (Ix := Ix) (Name := Name) (U := U) V ι c t
      ⊢ wp frame (wpE (defs₀ (F := F)) Variants.none c none) Set.univ (bodyAt6 t) (fun _ => bodyPost6 (Ix := Ix) (Name := Name) (U := U) V ι c t) := by
  unfold bodyPre6 bodyPost6 bodyAt6
  simp only [before6_0, before6_1, before6_2]
  rw [show (dat6 (Ix := Ix) (Name := Name) (U := U) V c).Φ t.succ = (dat6 (Ix := Ix) (Name := Name) (U := U) V c).Φ t.castSucc from rfl,
    show (dat6 (Ix := Ix) (Name := Name) (U := U) V c).owesAt ι t.succ = (dat6 (Ix := Ix) (Name := Name) (U := U) V c).owesAt ι t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation6 (ι : Ix) (c : Dev nD) :
    BodyObligation (dat6 (F := F) (Ix := Ix) (Name := Name) (U := U) V c) (defs₀ (F := F)) Variants.none ι Set.univ := fun t => by
  rw [bigSep_W6, bigSep_W6]
  exact sound_body6 V ι c t

end Cert.KernelIdeal.Heads

end
-- ==== Proof.KernelIdeal.Body7.lean ====
import proofs.«203661_g84404697301628_cont_9to1_m_135_26_alg».proof.Proof.Gen.KernelIdeal.Launch
import proofs.«203661_g84404697301628_cont_9to1_m_135_26_alg».proof.Proof.Gen.KernelIdeal.Skeleton
import proofs.«203661_g84404697301628_cont_9to1_m_135_26_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # TensorCore region of pipeline `cfg7`: the body half

The region's windows: 0 the embedding block `[1, 8192, 32]`, 1 the weight block `[200, 32]`, 2 the bias column block
`[200, 1]` (inputs), 3 the result block `[1, 200, 8192]` (output). The body loads the three input buffers whole and
stores one payload over the whole output buffer. Everything is stated at a parameter `V` (the TensorCore's buffer
contents when the region is entered) and at ANY ambient resource model: index type `Ix`, invariant names `Name`, user
algebra `U`, levels `ℕ`. -/

set_option maxRecDepth 16384

noncomputable section

namespace Cert.KernelIdeal.Heads

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U]

local notation "𝕄" => MT nD τ sig Ix (Elt F) Name U ℕ

variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for any proof
    data whose array is `V`'s and whose body leaves the block in place: an unfetched input's block index has not moved. -/
theorem before7_0_of {c : Dev nD} (dat : Dat τ (Elt F) Ix Name U ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not, for any proof
    data whose array is `V`'s and whose body leaves the block in place: an unfetched input's block index has not moved. -/
theorem before7_1_of {c : Dev nD} (dat : Dat τ (Elt F) Ix Name U ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not, for any proof
    data whose array is `V`'s and whose body leaves the block in place: an unfetched input's block index has not moved. -/
theorem before7_2_of {c : Dev nD} (dat : Dat τ (Elt F) Ix Name U ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: each buffer whole -/

abbrev r7_e : Rect S1x8192x32 := Rect.unit (s := S1x8192x32) ![0, 0, 0] S1x8192x32.size inb_S1x8192x32_S1x8192x32_0_0_0
abbrev r7_w : Rect S200x32 := Rect.unit (s := S200x32) ![0, 0] S200x32.size inb_S200x32_S200x32_0_0
abbrev r7_b : Rect S200x1 := Rect.unit (s := S200x1) ![0, 0] S200x1.size inb_S200x1_S200x1_0_0
abbrev r7_o : Rect S1x200x8192 := Rect.unit (s := S1x200x8192) ![0, 0, 0] S1x200x8192.size inb_S1x200x8192_S1x200x8192_0_0_0

/-! ## What the body leaves in the output window's buffer -/

/-- Window 3's staging buffer after the body, from the input windows' blocks `x0` (embedding), `x1` (weights), `x2` (bias
    column): its one store, over the whole buffer, of the skeleton's payload of the three loads. -/
def out7_3 (x0 : Vec F S1x8192x32 .f32) (x1 : Vec F S200x32 .f32) (x2 : Vec F S200x1 .f32) : Vec F S1x200x8192 .f32 :=
  View.canon [⟨r7_o, k7_pay1 (View.ld x1 r7_w) (View.ld x0 r7_e) (View.ld x2 r7_b)⟩]

/-- The one store tiles the buffer, so it covers it. -/
theorem cover7_3 (p0 : Vec F S1x200x8192 .f32) (y : S1x200x8192.Idx) :
    ∃ pc ∈ ([⟨r7_o, p0⟩] : List (View.Piece (Elt F) S1x200x8192 .f32)), y ∈ pc.1.set :=
  View.cover_of_tiled [⟨r7_o, p0⟩] S1x200x8192.size (by rfl) y

/-! ## The body's triple -/

set_option maxHeartbeats 1000000 in
/-- The kernel body on whole staging memrefs, the inputs' at read contents `x0 x1 x2` and the output's at anything, runs to
    the continuation holding the inputs' as they were and the output's at `out7_3` of the inputs'. -/
theorem sound_kernel7 (c : Dev nD) (E : Set Name) (i : grid7.Coords)
    (arg3 : Memref sig .tc .vmem S1x8192x32 .f32) (harg3 : arg3.IsWhole) (arg4 : Memref sig .tc .vmem S200x32 .f32) (harg4 : arg4.IsWhole)
    (arg5 : Memref sig .tc .vmem S200x1 .f32) (harg5 : arg5.IsWhole) (arg6 : Memref sig .tc .hbm S8x1000x16384 .f32) (harg6 : arg6.IsWhole)
    (arg7 : Memref sig .tc .vmem S1x200x8192 .f32) (harg7 : arg7.IsWhole)
    (x0 : Vec F S1x8192x32 .f32) (x1 : Vec F S200x32 .f32) (x2 : Vec F S200x1 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg7 fullShare (out7_3 x0 x1 x2)) -∗ K ⟨⟩))
      ⊢ wp frame (wpE (defs₀ (F := F)) Variants.none c none) E (cc7__head_body_alias i arg3 harg3 arg4 harg4 arg5 harg5 arg6 harg6 arg7 harg7) K := by
  simp only [cc7__head_body_alias_eq_skeleton]; unfold cc7__head_body_alias_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_3 _)

end Cert.KernelIdeal.Heads

end
-- ==== Proof.KernelIdeal.Dat7.lean ====
import proofs.«203661_g84404697301628_cont_9to1_m_135_26_alg».proof.Proof.KernelIdeal.Body7

/-! # TensorCore region of pipeline `cfg7`: the proof data and the body obligation

The pipeline's proof data at the entry contents `V`: the arrays as entered; after the body at a point each input's buffer
at its block and the output's at `out7_3` of the three input blocks; the invariant is the scoped buffers no window stages
and the generator register, untouched; nothing owed; full shares. Then the body obligation at a generic point. -/

set_option maxRecDepth 16384

noncomputable section

namespace Cert.KernelIdeal.Heads

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U]

local notation "𝕄" => MT nD τ sig Ix (Elt F) Name U ℕ

variable (V : (c : Dev nD) → (b : Ref sig .tc) → Buf (Elt F) ((c : Thread nD τ).loc b))

/-! ## The pipeline's proof data -/

/-- The invariant between points: the core's scoped buffers that are no staging buffer, at some contents each, and its
    generator register at some state (the body uses neither). -/
def inv7 (c : Dev nD) : sProp 𝕄 :=
  iprop(Pipeline.scopedRest (Ix := Ix) (Name := Name) (U := U) (Lvl := ℕ) (Val := Elt F) spec7 c ∗ ∃ r, prngReg c r)

/-- The proof data of the pipeline on core `c`. -/
def dat7 (c : Dev nD) : Dat τ (Elt F) Ix Name U ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := inv7 (Ix := Ix) (Name := Name) (U := U) c
  q _ := fullShare
  owed _ := 0

/-- The proof data's arrays are the region-entry contents. -/
theorem A_eq7 (c : Dev nD) (w : Fin cfg7.W) : (dat7 (Ix := Ix) (Name := Name) (U := U) V c).A w = V c (Pipeline.arrRef spec7 w) := by
  dsimp only [dat7]

/-- What the body leaves, window by window. -/
theorem after7_0 (c : Dev nD) (t : Fin cfg7.N) : (dat7 (Ix := Ix) (Name := Name) (U := U) V c).after 0 t = iblk7 V c 0 t := by dsimp only [dat7]
theorem after7_1 (c : Dev nD) (t : Fin cfg7.N) : (dat7 (Ix := Ix) (Name := Name) (U := U) V c).after 1 t = iblk7 V c 1 t := by dsimp only [dat7]
theorem after7_2 (c : Dev nD) (t : Fin cfg7.N) : (dat7 (Ix := Ix) (Name := Name) (U := U) V c).after 2 t = iblk7 V c 2 t := by dsimp only [dat7]
theorem after7_3 (c : Dev nD) (t : Fin cfg7.N) :
    (dat7 (Ix := Ix) (Name := Name) (U := U) V c).after 3 t = out7_3 (iblk7 V c 0 t) (iblk7 V c 1 t) (iblk7 V c 2 t) := by dsimp only [dat7]

/-- Each input's current staging buffer holds its block at every point, fetched there or not. -/
theorem before7_0 (c : Dev nD) (t : Fin cfg7.N) (d) : (dat7 (Ix := Ix) (Name := Name) (U := U) V c).before 0 t d = iblk7 V c 0 t :=
  before7_0_of V (dat7 (Ix := Ix) (Name := Name) (U := U) V c) (A_eq7 V c 0) (after7_0 V c) t d
theorem before7_1 (c : Dev nD) (t : Fin cfg7.N) (d) : (dat7 (Ix := Ix) (Name := Name) (U := U) V c).before 1 t d = iblk7 V c 1 t :=
  before7_1_of V (dat7 (Ix := Ix) (Name := Name) (U := U) V c) (A_eq7 V c 1) (after7_1 V c) t d
theorem before7_2 (c : Dev nD) (t : Fin cfg7.N) (d) : (dat7 (Ix := Ix) (Name := Name) (U := U) V c).before 2 t d = iblk7 V c 2 t :=
  before7_2_of V (dat7 (Ix := Ix) (Name := Name) (U := U) V c) (A_eq7 V c 2) (after7_2 V c) t d

/-! ## The body obligation, at a generic point -/

/-- What the body is called with at point `t` (the obligation's precondition, the windows one by one), -/
def bodyPre7 (ι : Ix) (c : Dev nD) (t : Fin cfg7.N) : sProp 𝕄 :=
  iprop((dat7 (Ix := Ix) (Name := Name) (U := U) V c).Φ t.castSucc ∗ (dat7 (Ix := Ix) (Name := Name) (U := U) V c).owesAt ι t.castSucc
    ∗ (∃ d, owns (c : Thread nD τ) (st7_0 t) fullShare ((dat7 (Ix := Ix) (Name := Name) (U := U) V c).before 0 t d))
    ∗ (∃ d, owns (c : Thread nD τ) (st7_1 t) fullShare ((dat7 (Ix := Ix) (Name := Name) (U := U) V c).before 1 t d))
    ∗ (∃ d, owns (c : Thread nD τ) (st7_2 t) fullShare ((dat7 (Ix := Ix) (Name := Name) (U := U) V c).before 2 t d))
    ∗ (∃ d, owns (c : Thread nD τ) (st7_3 t) fullShare ((dat7 (Ix := Ix) (Name := Name) (U := U) V c).before 3 t d)))

/-- and what it returns. -/
def bodyPost7 (ι : Ix) (c : Dev nD) (t : Fin cfg7.N) : sProp 𝕄 :=
  iprop((dat7 (Ix := Ix) (Name := Name) (U := U) V c).Φ t.succ ∗ (dat7 (Ix := Ix) (Name := Name) (U := U) V c).owesAt ι t.succ
    ∗ owns (c : Thread nD τ) (st7_0 t) fullShare ((dat7 (Ix := Ix) (Name := Name) (U := U) V c).after 0 t)
    ∗ owns (c : Thread nD τ) (st7_1 t) fullShare ((dat7 (Ix := Ix) (Name := Name) (U := U) V c).after 1 t)
    ∗ owns (c : Thread nD τ) (st7_2 t) fullShare ((dat7 (Ix := Ix) (Name := Name) (U := U) V c).after 2 t)
    ∗ owns (c : Thread nD τ) (st7_3 t) fullShare ((dat7 (Ix := Ix) (Name := Name) (U := U) V c).after 3 t))

/-- The body at any point: the inputs' memrefs hold their blocks, so the body's triple applies; the invariant and the
    core's `owes` pass through unread. -/
theorem sound_body7 (ι : Ix) (c : Dev nD) (t : Fin cfg7.N) :
    bodyPre7 (Ix := Ix) (Name := Name) (U := U) V ι c t
      ⊢ wp frame (wpE (defs₀ (F := F)) Variants.none c none) Set.univ (bodyAt7 t) (fun _ => bodyPost7 (Ix := Ix) (Name := Name) (U := U) V ι c t) := by
  unfold bodyPre7 bodyPost7 bodyAt7
  simp only [before7_0, before7_1, before7_2]
  rw [show (dat7 (Ix := Ix) (Name := Name) (U := U) V c).Φ t.succ = (dat7 (Ix := Ix) (Name := Name) (U := U) V c).Φ t.castSucc from rfl,
    show (dat7 (Ix := Ix) (Name := Name) (U := U) V c).owesAt ι t.succ = (dat7 (Ix := Ix) (Name := Name) (U := U) V c).owesAt ι t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ _ _ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation7 (ι : Ix) (c : Dev nD) :
    BodyObligation (dat7 (F := F) (Ix := Ix) (Name := Name) (U := U) V c) (defs₀ (F := F)) Variants.none ι Set.univ := fun t => by
  rw [bigSep_W7, bigSep_W7]
  exact sound_body7 V ι c t

end Cert.KernelIdeal.Heads

end
-- ==== Proof.KernelIdeal.Family.lean ====
import proofs.«203661_g84404697301628_cont_9to1_m_135_26_alg».proof.Proof.KernelIdeal.Dat4
import proofs.«203661_g84404697301628_cont_9to1_m_135_26_alg».proof.Proof.KernelIdeal.Dat5
import proofs.«203661_g84404697301628_cont_9to1_m_135_26_alg».proof.Proof.KernelIdeal.Dat6
import proofs.«203661_g84404697301628_cont_9to1_m_135_26_alg».proof.Proof.KernelIdeal.Dat7

/-! # The four TensorCore regions: the proof data family and the boundary contents

The regions are entered from the contents `W4 W5 W6 W7` of the core's buffers (parameters: what @main's host stretches
leave). Each region's proof data is stated at its entry contents read at the TensorCore's references; a region leaves its
arrays at what its write-backs fold to and every other buffer as entered. -/

set_option maxRecDepth 16384

noncomputable section

namespace Cert.KernelIdeal.Heads

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U]

local notation "𝕄" => MT nD τ sig Ix (Elt F) Name U ℕ

variable (W4 W5 W6 W7 : Dev nD → Valuation τ sig (Elt F))

/-- A boundary's contents read at the TensorCore's references (what a region's proof data take). -/
abbrev tcOf (W : Dev nD → Valuation τ sig (Elt F)) : (c : Dev nD) → (b : Ref sig .tc) → Buf (Elt F) ((c : Thread nD τ).loc b) :=
  fun c b => W c b

/-- The prefetched tables' admissible contents: no pipeline has a table. -/
abbrev adm : (p : Fin 4) → (pcfgs (F := F) p).Adm := fun p => (cfgs p).toPCfg_adm

/-- Every pipeline's proof data, each at its region's entry contents: a literal `match` on the pipeline. -/
def pdats : (p : Fin 4) → (c : Dev nD) → Dat τ (Elt F) Ix Name U ℕ (Pipeline.pin (pcfgs (F := F)) adm p) c
  | ⟨0, _⟩ => fun c => dat4 (tcOf W4) c
  | ⟨1, _⟩ => fun c => dat5 (tcOf W5) c
  | ⟨2, _⟩ => fun c => dat6 (tcOf W6) c
  | ⟨3, _⟩ => fun c => dat7 (tcOf W7) c

/-- What rides beside the buffers through a region: the core's generator register at some state and its `owes`, at nothing. -/
abbrev R (c : Dev nD) : sProp 𝕄 :=
  iprop((∃ r, prngReg c r) ∗ ∃ W, owes (c : Thread nD τ) (0 : CellTallies nD τ sig Ix) W)

/-! ## Region of pipeline `cfg4`: the contents it leaves -/

/-- At the region's exit: its arrays at what the pipeline leaves (the inputs as entered, the output's write-backs folded),
    every other buffer as entered. -/
def exit4 (W : Dev nD → Valuation τ sig (Elt F)) (c : Dev nD) : Valuation τ sig (Elt F) :=
  Pipeline.withArrays spec4 c (W c) fun w => (dat4 (Ix := Ix) (Name := Name) (U := U) (tcOf W) c).arrAt w cfg4.N
theorem exit4_arr (W : Dev nD → Valuation τ sig (Elt F)) (c : Dev nD) (w : Fin cfg4.W) :
    exit4 (Ix := Ix) (Name := Name) (U := U) W c (Proc.devRef .tc (Pipeline.arrRef spec4 w)) = (dat4 (Ix := Ix) (Name := Name) (U := U) (tcOf W) c).arrAt w cfg4.N := by
  unfold exit4; exact Pipeline.withArrays_arr spec4 launch4.win.arr_inj c _ _ w
theorem exit4_of_ne (W : Dev nD → Valuation τ sig (Elt F)) (c : Dev nD) (b : Ref sig .tc) (hb : ∀ w, Pipeline.arrRef spec4 w ≠ b) :
    exit4 (Ix := Ix) (Name := Name) (U := U) W c (Proc.devRef .tc b) = W c (Proc.devRef .tc b) := by
  unfold exit4; exact Pipeline.withArrays_of_ne spec4 c _ _ b hb
/-- At the exit each of the region's arrays holds what the pipeline leaves, and every other buffer what it held at entry. -/
theorem hF4 (W : Dev nD → Valuation τ sig (Elt F)) (c : Dev nD) (w : Fin cfg4.W) :
    (dat4 (Ix := Ix) (Name := Name) (U := U) (tcOf W) c).arrAt w cfg4.N = tcOf (exit4 (Ix := Ix) (Name := Name) (U := U) W) c (Pipeline.arrRef spec4 w) :=
  (exit4_arr W c w).symm
theorem hrest4 (W : Dev nD → Valuation τ sig (Elt F)) (c : Dev nD) :
    ∀ b, b ∉ Finset.univ.image (Pipeline.arrRef spec4) → tcOf (exit4 (Ix := Ix) (Name := Name) (U := U) W) c b = tcOf W c b :=
  fun b hb => exit4_of_ne W c b fun w e => hb (Finset.mem_image.mpr ⟨w, Finset.mem_univ _, e⟩)

/-! ## Region of pipeline `cfg5`: the contents it leaves -/

/-- At the region's exit: its arrays at what the pipeline leaves (the inputs as entered, the output's write-backs folded),
    every other buffer as entered. -/
def exit5 (W : Dev nD → Valuation τ sig (Elt F)) (c : Dev nD) : Valuation τ sig (Elt F) :=
  Pipeline.withArrays spec5 c (W c) fun w => (dat5 (Ix := Ix) (Name := Name) (U := U) (tcOf W) c).arrAt w cfg5.N
theorem exit5_arr (W : Dev nD → Valuation τ sig (Elt F)) (c : Dev nD) (w : Fin cfg5.W) :
    exit5 (Ix := Ix) (Name := Name) (U := U) W c (Proc.devRef .tc (Pipeline.arrRef spec5 w)) = (dat5 (Ix := Ix) (Name := Name) (U := U) (tcOf W) c).arrAt w cfg5.N := by
  unfold exit5; exact Pipeline.withArrays_arr spec5 launch5.win.arr_inj c _ _ w
theorem exit5_of_ne (W : Dev nD → Valuation τ sig (Elt F)) (c : Dev nD) (b : Ref sig .tc) (hb : ∀ w, Pipeline.arrRef spec5 w ≠ b) :
    exit5 (Ix := Ix) (Name := Name) (U := U) W c (Proc.devRef .tc b) = W c (Proc.devRef .tc b) := by
  unfold exit5; exact Pipeline.withArrays_of_ne spec5 c _ _ b hb
/-- At the exit each of the region's arrays holds what the pipeline leaves, and every other buffer what it held at entry. -/
theorem hF5 (W : Dev nD → Valuation τ sig (Elt F)) (c : Dev nD) (w : Fin cfg5.W) :
    (dat5 (Ix := Ix) (Name := Name) (U := U) (tcOf W) c).arrAt w cfg5.N = tcOf (exit5 (Ix := Ix) (Name := Name) (U := U) W) c (Pipeline.arrRef spec5 w) :=
  (exit5_arr W c w).symm
theorem hrest5 (W : Dev nD → Valuation τ sig (Elt F)) (c : Dev nD) :
    ∀ b, b ∉ Finset.univ.image (Pipeline.arrRef spec5) → tcOf (exit5 (Ix := Ix) (Name := Name) (U := U) W) c b = tcOf W c b :=
  fun b hb => exit5_of_ne W c b fun w e => hb (Finset.mem_image.mpr ⟨w, Finset.mem_univ _, e⟩)

/-! ## Region of pipeline `cfg6`: the contents it leaves -/

/-- At the region's exit: its arrays at what the pipeline leaves (the inputs as entered, the output's write-backs folded),
    every other buffer as entered. -/
def exit6 (W : Dev nD → Valuation τ sig (Elt F)) (c : Dev nD) : Valuation τ sig (Elt F) :=
  Pipeline.withArrays spec6 c (W c) fun w => (dat6 (Ix := Ix) (Name := Name) (U := U) (tcOf W) c).arrAt w cfg6.N
theorem exit6_arr (W : Dev nD → Valuation τ sig (Elt F)) (c : Dev nD) (w : Fin cfg6.W) :
    exit6 (Ix := Ix) (Name := Name) (U := U) W c (Proc.devRef .tc (Pipeline.arrRef spec6 w)) = (dat6 (Ix := Ix) (Name := Name) (U := U) (tcOf W) c).arrAt w cfg6.N := by
  unfold exit6; exact Pipeline.withArrays_arr spec6 launch6.win.arr_inj c _ _ w
theorem exit6_of_ne (W : Dev nD → Valuation τ sig (Elt F)) (c : Dev nD) (b : Ref sig .tc) (hb : ∀ w, Pipeline.arrRef spec6 w ≠ b) :
    exit6 (Ix := Ix) (Name := Name) (U := U) W c (Proc.devRef .tc b) = W c (Proc.devRef .tc b) := by
  unfold exit6; exact Pipeline.withArrays_of_ne spec6 c _ _ b hb
/-- At the exit each of the region's arrays holds what the pipeline leaves, and every other buffer what it held at entry. -/
theorem hF6 (W : Dev nD → Valuation τ sig (Elt F)) (c : Dev nD) (w : Fin cfg6.W) :
    (dat6 (Ix := Ix) (Name := Name) (U := U) (tcOf W) c).arrAt w cfg6.N = tcOf (exit6 (Ix := Ix) (Name := Name) (U := U) W) c (Pipeline.arrRef spec6 w) :=
  (exit6_arr W c w).symm
theorem hrest6 (W : Dev nD → Valuation τ sig (Elt F)) (c : Dev nD) :
    ∀ b, b ∉ Finset.univ.image (Pipeline.arrRef spec6) → tcOf (exit6 (Ix := Ix) (Name := Name) (U := U) W) c b = tcOf W c b :=
  fun b hb => exit6_of_ne W c b fun w e => hb (Finset.mem_image.mpr ⟨w, Finset.mem_univ _, e⟩)

/-! ## Region of pipeline `cfg7`: the contents it leaves -/

/-- At the region's exit: its arrays at what the pipeline leaves (the inputs as entered, the output's write-backs folded),
    every other buffer as entered. -/
def exit7 (W : Dev nD → Valuation τ sig (Elt F)) (c : Dev nD) : Valuation τ sig (Elt F) :=
  Pipeline.withArrays spec7 c (W c) fun w => (dat7 (Ix := Ix) (Name := Name) (U := U) (tcOf W) c).arrAt w cfg7.N
theorem exit7_arr (W : Dev nD → Valuation τ sig (Elt F)) (c : Dev nD) (w : Fin cfg7.W) :
    exit7 (Ix := Ix) (Name := Name) (U := U) W c (Proc.devRef .tc (Pipeline.arrRef spec7 w)) = (dat7 (Ix := Ix) (Name := Name) (U := U) (tcOf W) c).arrAt w cfg7.N := by
  unfold exit7; exact Pipeline.withArrays_arr spec7 launch7.win.arr_inj c _ _ w
theorem exit7_of_ne (W : Dev nD → Valuation τ sig (Elt F)) (c : Dev nD) (b : Ref sig .tc) (hb : ∀ w, Pipeline.arrRef spec7 w ≠ b) :
    exit7 (Ix := Ix) (Name := Name) (U := U) W c (Proc.devRef .tc b) = W c (Proc.devRef .tc b) := by
  unfold exit7; exact Pipeline.withArrays_of_ne spec7 c _ _ b hb
/-- At the exit each of the region's arrays holds what the pipeline leaves, and every other buffer what it held at entry. -/
theorem hF7 (W : Dev nD → Valuation τ sig (Elt F)) (c : Dev nD) (w : Fin cfg7.W) :
    (dat7 (Ix := Ix) (Name := Name) (U := U) (tcOf W) c).arrAt w cfg7.N = tcOf (exit7 (Ix := Ix) (Name := Name) (U := U) W) c (Pipeline.arrRef spec7 w) :=
  (exit7_arr W c w).symm
theorem hrest7 (W : Dev nD → Valuation τ sig (Elt F)) (c : Dev nD) :
    ∀ b, b ∉ Finset.univ.image (Pipeline.arrRef spec7) → tcOf (exit7 (Ix := Ix) (Name := Name) (U := U) W) c b = tcOf W c b :=
  fun b hb => exit7_of_ne W c b fun w e => hb (Finset.mem_image.mpr ⟨w, Finset.mem_univ _, e⟩)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Heads

end
-- ==== Proof.KernelIdeal.Inputs.lean ====
import proofs.«203661_g84404697301628_cont_9to1_m_135_26_alg».proof.Proof.KernelIdeal.Family

/-! # A region leaves its input arrays as entered

An input window's array is never written back, so at a region's exit it holds its entry contents; and every buffer that is
none of the region's arrays is as entered (`exitK_of_ne`). -/

set_option maxRecDepth 16384

noncomputable section

namespace Cert.KernelIdeal.Heads

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U]

local notation "𝕄" => MT nD τ sig Ix (Elt F) Name U ℕ

/-- At the exit of the region of pipeline `cfg4`, an input window's array holds its entry contents. -/
theorem exit4_input (W : Dev nD → Valuation τ sig (Elt F)) (c : Dev nD) (w : Fin cfg4.W) (hw : (cfg4.win w).isOut = false) :
    exit4 (Ix := Ix) (Name := Name) (U := U) W c (Proc.devRef .tc (Pipeline.arrRef spec4 w)) = W c (Proc.devRef .tc (Pipeline.arrRef spec4 w)) :=
  (exit4_arr W c w).trans (((dat4 (Ix := Ix) (Name := Name) (U := U) (tcOf W) c).arrAt_in w hw _).trans (A_eq4 (tcOf W) c w))

/-- At the exit of the region of pipeline `cfg5`, an input window's array holds its entry contents. -/
theorem exit5_input (W : Dev nD → Valuation τ sig (Elt F)) (c : Dev nD) (w : Fin cfg5.W) (hw : (cfg5.win w).isOut = false) :
    exit5 (Ix := Ix) (Name := Name) (U := U) W c (Proc.devRef .tc (Pipeline.arrRef spec5 w)) = W c (Proc.devRef .tc (Pipeline.arrRef spec5 w)) :=
  (exit5_arr W c w).trans (((dat5 (Ix := Ix) (Name := Name) (U := U) (tcOf W) c).arrAt_in w hw _).trans (A_eq5 (tcOf W) c w))

/-- At the exit of the region of pipeline `cfg6`, an input window's array holds its entry contents. -/
theorem exit6_input (W : Dev nD → Valuation τ sig (Elt F)) (c : Dev nD) (w : Fin cfg6.W) (hw : (cfg6.win w).isOut = false) :
    exit6 (Ix := Ix) (Name := Name) (U := U) W c (Proc.devRef .tc (Pipeline.arrRef spec6 w)) = W c (Proc.devRef .tc (Pipeline.arrRef spec6 w)) :=
  (exit6_arr W c w).trans (((dat6 (Ix := Ix) (Name := Name) (U := U) (tcOf W) c).arrAt_in w hw _).trans (A_eq6 (tcOf W) c w))

/-- At the exit of the region of pipeline `cfg7`, an input window's array holds its entry contents. -/
theorem exit7_input (W : Dev nD → Valuation τ sig (Elt F)) (c : Dev nD) (w : Fin cfg7.W) (hw : (cfg7.win w).isOut = false) :
    exit7 (Ix := Ix) (Name := Name) (U := U) W c (Proc.devRef .tc (Pipeline.arrRef spec7 w)) = W c (Proc.devRef .tc (Pipeline.arrRef spec7 w)) :=
  (exit7_arr W c w).trans (((dat7 (Ix := Ix) (Name := Name) (U := U) (tcOf W) c).arrAt_in w hw _).trans (A_eq7 (tcOf W) c w))

end Cert.KernelIdeal.Heads

end
-- ==== Proof.KernelIdeal.Chain.lean ====
import proofs.«203661_g84404697301628_cont_9to1_m_135_26_alg».proof.Proof.KernelIdeal.Inputs

/-! # The four regions composed through @main's three copies

From the contents `W4` the first region is entered from: each later region is entered from what the region before it left,
after @main's copy of that region's result array into the next result's buffer. The weight, bias and embedding arrays are
read back through the chain to `W4`; each result buffer is read back to the result before it. -/

set_option maxRecDepth 16384

noncomputable section

namespace Cert.KernelIdeal.Heads

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U]

local notation "𝕄" => MT nD τ sig Ix (Elt F) Name U ℕ

variable (W4 : Dev nD → Valuation τ sig (Elt F))

/-- @main's copy of one region's result into the next region's result buffer. -/
abbrev copy5 : List (HloOp τ sig (Elt F)) := [StableHlo.unary main_v13 main_v14 id]
abbrev copy6 : List (HloOp τ sig (Elt F)) := [StableHlo.unary main_v14 main_v15 id]
abbrev copy7 : List (HloOp τ sig (Elt F)) := [StableHlo.unary main_v15 main_v16 id]

/-- The contents the second, third and fourth regions are entered from, and what the last one leaves. -/
def W5 : Dev nD → Valuation τ sig (Elt F) := fun c => StableHlo.after (copy5 (F := F)) (exit4 (Ix := Ix) (Name := Name) (U := U) W4 c)
def W6 : Dev nD → Valuation τ sig (Elt F) := fun c => StableHlo.after (copy6 (F := F)) (exit5 (Ix := Ix) (Name := Name) (U := U) (W5 (Ix := Ix) (Name := Name) (U := U) W4) c)
def W7 : Dev nD → Valuation τ sig (Elt F) := fun c => StableHlo.after (copy7 (F := F)) (exit6 (Ix := Ix) (Name := Name) (U := U) (W6 (Ix := Ix) (Name := Name) (U := U) W4) c)
def Wend : Dev nD → Valuation τ sig (Elt F) := exit7 (Ix := Ix) (Name := Name) (U := U) (W7 (Ix := Ix) (Name := Name) (U := U) W4)

/-! ## A copy moves one buffer and leaves the others -/

theorem W5_of_ne (c : Dev nD) (b : Ref sig .tc) (hb : b ≠ main_v14) :
    W5 (Ix := Ix) (Name := Name) (U := U) W4 c (Proc.devRef .tc b) = exit4 (Ix := Ix) (Name := Name) (U := U) W4 c (Proc.devRef .tc b) := by
  unfold W5; simp only [StableHlo.after_cons, StableHlo.after_nil]
  exact StableHlo.unary_result_ne _ _ _ _ _ _ hb
theorem W5_result (c : Dev nD) :
    W5 (Ix := Ix) (Name := Name) (U := U) W4 c (Proc.devRef .tc main_v14) = exit4 (Ix := Ix) (Name := Name) (U := U) W4 c (Proc.devRef .tc main_v13) := by
  unfold W5; simp only [StableHlo.after_cons, StableHlo.after_nil]
  exact StableHlo.unary_result _ _ _ _ _ _

theorem W6_of_ne (c : Dev nD) (b : Ref sig .tc) (hb : b ≠ main_v15) :
    W6 (Ix := Ix) (Name := Name) (U := U) W4 c (Proc.devRef .tc b) = exit5 (Ix := Ix) (Name := Name) (U := U) (W5 (Ix := Ix) (Name := Name) (U := U) W4) c (Proc.devRef .tc b) := by
  unfold W6; simp only [StableHlo.after_cons, StableHlo.after_nil]
  exact StableHlo.unary_result_ne _ _ _ _ _ _ hb
theorem W6_result (c : Dev nD) :
    W6 (Ix := Ix) (Name := Name) (U := U) W4 c (Proc.devRef .tc main_v15) = exit5 (Ix := Ix) (Name := Name) (U := U) (W5 (Ix := Ix) (Name := Name) (U := U) W4) c (Proc.devRef .tc main_v14) := by
  unfold W6; simp only [StableHlo.after_cons, StableHlo.after_nil]
  exact StableHlo.unary_result _ _ _ _ _ _

theorem W7_of_ne (c : Dev nD) (b : Ref sig .tc) (hb : b ≠ main_v16) :
    W7 (Ix := Ix) (Name := Name) (U := U) W4 c (Proc.devRef .tc b) = exit6 (Ix := Ix) (Name := Name) (U := U) (W6 (Ix := Ix) (Name := Name) (U := U) W4) c (Proc.devRef .tc b) := by
  unfold W7; simp only [StableHlo.after_cons, StableHlo.after_nil]
  exact StableHlo.unary_result_ne _ _ _ _ _ _ hb
theorem W7_result (c : Dev nD) :
    W7 (Ix := Ix) (Name := Name) (U := U) W4 c (Proc.devRef .tc main_v16) = exit6 (Ix := Ix) (Name := Name) (U := U) (W6 (Ix := Ix) (Name := Name) (U := U) W4) c (Proc.devRef .tc main_v15) := by
  unfold W7; simp only [StableHlo.after_cons, StableHlo.after_nil]
  exact StableHlo.unary_result _ _ _ _ _ _

/-! ## The input arrays, read back to `W4` -/

/-- The weight array and the bias column: an input of every region. -/
theorem W5_v1 (c : Dev nD) : tcOf (W5 (Ix := Ix) (Name := Name) (U := U) W4) c main_v1 = tcOf W4 c main_v1 :=
  (W5_of_ne W4 c main_v1 (by decide)).trans (exit4_input W4 c 1 rfl)
theorem W5_v2 (c : Dev nD) : tcOf (W5 (Ix := Ix) (Name := Name) (U := U) W4) c main_v2 = tcOf W4 c main_v2 :=
  (W5_of_ne W4 c main_v2 (by decide)).trans (exit4_input W4 c 2 rfl)
theorem W6_v1 (c : Dev nD) : tcOf (W6 (Ix := Ix) (Name := Name) (U := U) W4) c main_v1 = tcOf W4 c main_v1 :=
  ((W6_of_ne W4 c main_v1 (by decide)).trans (exit5_input (W5 (Ix := Ix) (Name := Name) (U := U) W4) c 1 rfl)).trans (W5_v1 W4 c)
theorem W6_v2 (c : Dev nD) : tcOf (W6 (Ix := Ix) (Name := Name) (U := U) W4) c main_v2 = tcOf W4 c main_v2 :=
  ((W6_of_ne W4 c main_v2 (by decide)).trans (exit5_input (W5 (Ix := Ix) (Name := Name) (U := U) W4) c 2 rfl)).trans (W5_v2 W4 c)
theorem W7_v1 (c : Dev nD) : tcOf (W7 (Ix := Ix) (Name := Name) (U := U) W4) c main_v1 = tcOf W4 c main_v1 :=
  ((W7_of_ne W4 c main_v1 (by decide)).trans (exit6_input (W6 (Ix := Ix) (Name := Name) (U := U) W4) c 1 rfl)).trans (W6_v1 W4 c)
theorem W7_v2 (c : Dev nD) : tcOf (W7 (Ix := Ix) (Name := Name) (U := U) W4) c main_v2 = tcOf W4 c main_v2 :=
  ((W7_of_ne W4 c main_v2 (by decide)).trans (exit6_input (W6 (Ix := Ix) (Name := Name) (U := U) W4) c 2 rfl)).trans (W6_v2 W4 c)

/-- The later regions' embedding arrays: no earlier region's array, no copy's target. -/
theorem W5_v8 (c : Dev nD) : tcOf (W5 (Ix := Ix) (Name := Name) (U := U) W4) c main_v8 = tcOf W4 c main_v8 :=
  (W5_of_ne W4 c main_v8 (by decide)).trans (exit4_of_ne W4 c main_v8 (by decide))
theorem W5_v10 (c : Dev nD) : tcOf (W5 (Ix := Ix) (Name := Name) (U := U) W4) c main_v10 = tcOf W4 c main_v10 :=
  (W5_of_ne W4 c main_v10 (by decide)).trans (exit4_of_ne W4 c main_v10 (by decide))
theorem W5_v12 (c : Dev nD) : tcOf (W5 (Ix := Ix) (Name := Name) (U := U) W4) c main_v12 = tcOf W4 c main_v12 :=
  (W5_of_ne W4 c main_v12 (by decide)).trans (exit4_of_ne W4 c main_v12 (by decide))
theorem W6_v10 (c : Dev nD) : tcOf (W6 (Ix := Ix) (Name := Name) (U := U) W4) c main_v10 = tcOf W4 c main_v10 :=
  ((W6_of_ne W4 c main_v10 (by decide)).trans (exit5_of_ne (W5 (Ix := Ix) (Name := Name) (U := U) W4) c main_v10 (by decide))).trans (W5_v10 W4 c)
theorem W6_v12 (c : Dev nD) : tcOf (W6 (Ix := Ix) (Name := Name) (U := U) W4) c main_v12 = tcOf W4 c main_v12 :=
  ((W6_of_ne W4 c main_v12 (by decide)).trans (exit5_of_ne (W5 (Ix := Ix) (Name := Name) (U := U) W4) c main_v12 (by decide))).trans (W5_v12 W4 c)
theorem W7_v12 (c : Dev nD) : tcOf (W7 (Ix := Ix) (Name := Name) (U := U) W4) c main_v12 = tcOf W4 c main_v12 :=
  ((W7_of_ne W4 c main_v12 (by decide)).trans (exit6_of_ne (W6 (Ix := Ix) (Name := Name) (U := U) W4) c main_v12 (by decide))).trans (W6_v12 W4 c)

/-! ## Each result buffer, read back to the region before -/

theorem W5_v14 (c : Dev nD) : tcOf (W5 (Ix := Ix) (Name := Name) (U := U) W4) c main_v14 = (dat4 (Ix := Ix) (Name := Name) (U := U) (tcOf W4) c).arrAt 3 cfg4.N :=
  (W5_result W4 c).trans (exit4_arr W4 c 3)
theorem W6_v15 (c : Dev nD) : tcOf (W6 (Ix := Ix) (Name := Name) (U := U) W4) c main_v15 = (dat5 (Ix := Ix) (Name := Name) (U := U) (tcOf (W5 (Ix := Ix) (Name := Name) (U := U) W4)) c).arrAt 3 cfg5.N :=
  (W6_result W4 c).trans (exit5_arr (W5 (Ix := Ix) (Name := Name) (U := U) W4) c 3)
theorem W7_v16 (c : Dev nD) : tcOf (W7 (Ix := Ix) (Name := Name) (U := U) W4) c main_v16 = (dat6 (Ix := Ix) (Name := Name) (U := U) (tcOf (W6 (Ix := Ix) (Name := Name) (U := U) W4)) c).arrAt 3 cfg6.N :=
  (W7_result W4 c).trans (exit6_arr (W6 (Ix := Ix) (Name := Name) (U := U) W4) c 3)
theorem Wend_v16 (c : Dev nD) : tcOf (Wend (Ix := Ix) (Name := Name) (U := U) W4) c main_v16 = (dat7 (Ix := Ix) (Name := Name) (U := U) (tcOf (W7 (Ix := Ix) (Name := Name) (U := U) W4)) c).arrAt 3 cfg7.N :=
  exit7_arr (W7 (Ix := Ix) (Name := Name) (U := U) W4) c 3

end Cert.KernelIdeal.Heads

end
-- ==== Proof.LibDenseT.lean ====
/-
  A block times a weight matrix stored by output row, read at an index.

  A `tpu.matmul` of a `[K, N]` left operand with a `[Q, N]` right operand, contracting the second axis of both (the
  product `l · rᵀ`), into a zero accumulator: over the extended reals entry `(k, q)` of the result is the plain sum
  `Σ n, l (k, n) * r (q, n)`.  With a bias, one row `[1, Q]` laid along every row of the block, added: entry `(k, q)`
  is that sum plus `bias (0, q)`.
-/
import Idealize.ShloMosaic.Lib.ValueIdx
import Idealize.ShloMosaic.Lib.ValueLayout
import Idealize.ShloMosaic.PureOps.Ideal.Laws

noncomputable section

namespace Idealize.ShloMosaic.DenseT

open Idealize.ShloMosaic Idealize.ShloMosaic.ValueIdx

/-- The dimension numbers of `[K, N] · [Q, N]ᵀ → [K, Q]`. -/
abbrev mmDims (K N Q : Nat)
    (wf : DotDims.WF ⟨2, ![K, N]⟩ ⟨2, ![Q, N]⟩ ⟨2, ![K, Q]⟩ [1] [1] [0] [0] [] []) :
    DotDims ⟨2, ![K, N]⟩ ⟨2, ![Q, N]⟩ ⟨2, ![K, Q]⟩ where
  lhsContracting := [1]
  rhsContracting := [1]
  lhsNonContracting := [0]
  rhsNonContracting := [0]
  lhsBatch := []
  rhsBatch := []
  wf := wf

section
variable {K N Q : Nat} (wf : DotDims.WF ⟨2, ![K, N]⟩ ⟨2, ![Q, N]⟩ ⟨2, ![K, Q]⟩ [1] [1] [0] [0] [] [])

/-- The left operand's row is the result's row. -/
theorem lhs_row (j : (⟨2, ![K, Q]⟩ : Shape).Idx) (c : (mmDims K N Q wf).contr.Idx) :
    ((mmDims K N Q wf).lhsIdx j c (0 : Fin 2)).val = (j 0).val := by
  unfold DotDims.lhsIdx
  rw [dif_neg (show ¬ (0 : Fin 2) ∈ (mmDims K N Q wf).lhsBatch from List.not_mem_nil),
    dif_pos (show (0 : Fin 2) ∈ (mmDims K N Q wf).lhsNonContracting from List.mem_singleton.mpr rfl)]
  rfl

/-- The left operand's column is the contraction position. -/
theorem lhs_col (j : (⟨2, ![K, Q]⟩ : Shape).Idx) (c : (mmDims K N Q wf).contr.Idx) :
    ((mmDims K N Q wf).lhsIdx j c (1 : Fin 2)).val = (c ⟨0, Nat.one_pos⟩).val :=
  (mmDims K N Q wf).lhsIdx_val_of_single rfl j c

/-- The right operand's row is the result's column. -/
theorem rhs_row (j : (⟨2, ![K, Q]⟩ : Shape).Idx) (c : (mmDims K N Q wf).contr.Idx) :
    ((mmDims K N Q wf).rhsIdx j c (0 : Fin 2)).val = (j 1).val := by
  unfold DotDims.rhsIdx
  rw [dif_neg (show ¬ (0 : Fin 2) ∈ (mmDims K N Q wf).rhsBatch from List.not_mem_nil),
    dif_pos (show (0 : Fin 2) ∈ (mmDims K N Q wf).rhsNonContracting from List.mem_singleton.mpr rfl)]
  rfl

/-- The right operand's column is the contraction position. -/
theorem rhs_col (j : (⟨2, ![K, Q]⟩ : Shape).Idx) (c : (mmDims K N Q wf).contr.Idx) :
    ((mmDims K N Q wf).rhsIdx j c (1 : Fin 2)).val = (c ⟨0, Nat.one_pos⟩).val :=
  (mmDims K N Q wf).rhsIdx_val_of_single rfl j c

/-- Entry `(k, q)` of the product into a zero accumulator is `Σ n, l (k, n) * r (q, n)`. -/
theorem matmul_zero_apply {φ₁ φ₂ : FTy} (l : FVec Ideal ⟨2, ![K, N]⟩ φ₁) (r : FVec Ideal ⟨2, ![Q, N]⟩ φ₂)
    (k : Fin K) (q : Fin Q) :
    FloatOps.matmul (mmDims K N Q wf) none l r (constant ⟨2, ![K, Q]⟩ .f32 0x00000000#32) (ix2 k q)
      = ∑ n : Fin N, l (ix2 k n) * r (ix2 q n) := by
  rw [Ideal.matmul_constant_zero_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 q n :=
    funext fun a => Fin.ext (by
      match a with
      | ⟨0, _⟩ => exact rhs_row wf _ _
      | ⟨1, _⟩ => exact (rhs_col wf _ _).trans hn)
  rw [el, er]

/-- Entry `(p, q)` of `X · Wᵀ + bias`, the bias one row laid along every row. -/
theorem affine_apply {φ₁ φ₂ : FTy} (X : FVec Ideal ⟨2, ![K, N]⟩ φ₁) (W : FVec Ideal ⟨2, ![Q, N]⟩ φ₂)
    (bias : FVec Ideal ⟨2, ![1, Q]⟩ .f32) (hb : (⟨2, ![1, Q]⟩ : Shape).Broadcasts ⟨2, ![K, Q]⟩) (p : Fin K) (q : Fin Q) :
    addf (matmul (mmDims K N Q wf) none X W (constant ⟨2, ![K, Q]⟩ .f32 0x00000000#32))
        (broadcastTo ⟨2, ![K, Q]⟩ bias hb) (ix2 p q)
      = (∑ n : Fin N, X (ix2 p n) * W (ix2 q n)) + bias (ix2 (0 : Fin 1) q) := by
  show FloatOps.matmul (mmDims K N Q wf) none X W (constant ⟨2, ![K, Q]⟩ .f32 0x00000000#32) (ix2 p q)
      + broadcastTo ⟨2, ![K, Q]⟩ bias hb (ix2 p q) = _
  rw [matmul_zero_apply wf X W p q, broadcastTo_1b_ab_apply bias hb p q]

end

end Idealize.ShloMosaic.DenseT

end
-- ==== Proof.HeadPayload.lean ====
import proofs.«203661_g84404697301628_cont_9to1_m_135_26_alg».proof.Proof.Gen.KernelIdeal.Skeleton
import proofs.«203661_g84404697301628_cont_9to1_m_135_26_alg».proof.Proof.LibDenseT
import Idealize.ShloMosaic.Lib.Pipeline.Value

/-! # The bodies' payload over the extended reals, read at an index

The stored block `[1, 200, 8192]` at `(0, v, n)` is `(Σ e, wt (v, e) · emb (0, n, e)) + bc (v, 0)`: the product of the weight
block by the transposed embedding block into a zero accumulator, plus the bias column laid along every column. -/

noncomputable section

namespace Cert.KernelIdeal.HeadsValue

open Cert.KernelIdeal Cert.KernelIdeal.Gen
open Idealize.ShloMosaic Idealize.ShloMosaic.ValueIdx

/-- An `[a, 1]` column broadcast to `[a, b]` reads, at `(p, c)`, the column at row `p`. -/
theorem broadcastTo_a1_ab_apply {α : Type} {a b : ℕ} (x : (⟨2, ![a, 1]⟩ : Shape).Idx → α)
    (h : (⟨2, ![a, 1]⟩ : Shape).Broadcasts ⟨2, ![a, b]⟩) (p : Fin a) (c : Fin b) :
    broadcastTo ⟨2, ![a, b]⟩ x h (ix2 p c) = x (ix2 p (0 : Fin 1)) := by
  refine broadcastTo_apply x h (ix2 p c) (ix2 p (0 : Fin 1)) fun ax => ?_
  match ax with
  | ⟨0, _⟩ =>
    show p.val = if a = 1 then 0 else p.val
    split
    · have := p.isLt; omega
    · rfl
  | ⟨1, _⟩ => rfl

/-- The payload of pipeline `cfg4`'s body at `(0, v, n)`. -/
theorem k4_pay1_apply (wt : Vec Ideal S200x32 .f32) (emb : Vec Ideal S1x8192x32 .f32) (bc : Vec Ideal S200x1 .f32)
    (v : Fin 200) (n : Fin 8192) :
    k4_pay1 wt emb bc (ix3 (0 : Fin 1) v n)
      = (∑ e : Fin 32, wt (ix2 v e) * emb (ix3 (0 : Fin 1) n e)) + bc (ix2 v (0 : Fin 1)) := by
  unfold k4_pay1
  rw [shapeCast_ab_1ab_apply]
  show FloatOps.matmul (F := Ideal) (DenseT.mmDims 200 32 8192 dot_S200x32_S8192x32_S200x8192_1_1_0_0_n_n_wf) none
        (shapeCast S200x32 wt shapeCasts_S200x32_S200x32) (shapeCast S8192x32 emb shapeCasts_S1x8192x32_S8192x32)
        (constant ⟨2, ![200, 8192]⟩ .f32 0x00000000#32) (ix2 v n)
      + broadcastTo S200x8192 (shapeCast S200x1 bc shapeCasts_S200x1_S200x1) broadcasts_S200x1_S200x8192 (ix2 v n) = _
  rw [DenseT.matmul_zero_apply, broadcastTo_a1_ab_apply, shapeCast_self, shapeCast_self]
  refine congrArg (· + _) (Finset.sum_congr rfl fun e _ => ?_)
  rw [shapeCast_1ab_ab_apply]

/-- The payload of pipeline `cfg5`'s body at `(0, v, n)`. -/
theorem k5_pay1_apply (wt : Vec Ideal S200x32 .f32) (emb : Vec Ideal S1x8192x32 .f32) (bc : Vec Ideal S200x1 .f32)
    (v : Fin 200) (n : Fin 8192) :
    k5_pay1 wt emb bc (ix3 (0 : Fin 1) v n)
      = (∑ e : Fin 32, wt (ix2 v e) * emb (ix3 (0 : Fin 1) n e)) + bc (ix2 v (0 : Fin 1)) := by
  unfold k5_pay1
  rw [shapeCast_ab_1ab_apply]
  show FloatOps.matmul (F := Ideal) (DenseT.mmDims 200 32 8192 dot_S200x32_S8192x32_S200x8192_1_1_0_0_n_n_wf) none
        (shapeCast S200x32 wt shapeCasts_S200x32_S200x32) (shapeCast S8192x32 emb shapeCasts_S1x8192x32_S8192x32)
        (constant ⟨2, ![200, 8192]⟩ .f32 0x00000000#32) (ix2 v n)
      + broadcastTo S200x8192 (shapeCast S200x1 bc shapeCasts_S200x1_S200x1) broadcasts_S200x1_S200x8192 (ix2 v n) = _
  rw [DenseT.matmul_zero_apply, broadcastTo_a1_ab_apply, shapeCast_self, shapeCast_self]
  refine congrArg (· + _) (Finset.sum_congr rfl fun e _ => ?_)
  rw [shapeCast_1ab_ab_apply]

/-- The payload of pipeline `cfg6`'s body at `(0, v, n)`. -/
theorem k6_pay1_apply (wt : Vec Ideal S200x32 .f32) (emb : Vec Ideal S1x8192x32 .f32) (bc : Vec Ideal S200x1 .f32)
    (v : Fin 200) (n : Fin 8192) :
    k6_pay1 wt emb bc (ix3 (0 : Fin 1) v n)
      = (∑ e : Fin 32, wt (ix2 v e) * emb (ix3 (0 : Fin 1) n e)) + bc (ix2 v (0 : Fin 1)) := by
  unfold k6_pay1
  rw [shapeCast_ab_1ab_apply]
  show FloatOps.matmul (F := Ideal) (DenseT.mmDims 200 32 8192 dot_S200x32_S8192x32_S200x8192_1_1_0_0_n_n_wf) none
        (shapeCast S200x32 wt shapeCasts_S200x32_S200x32) (shapeCast S8192x32 emb shapeCasts_S1x8192x32_S8192x32)
        (constant ⟨2, ![200, 8192]⟩ .f32 0x00000000#32) (ix2 v n)
      + broadcastTo S200x8192 (shapeCast S200x1 bc shapeCasts_S200x1_S200x1) broadcasts_S200x1_S200x8192 (ix2 v n) = _
  rw [DenseT.matmul_zero_apply, broadcastTo_a1_ab_apply, shapeCast_self, shapeCast_self]
  refine congrArg (· + _) (Finset.sum_congr rfl fun e _ => ?_)
  rw [shapeCast_1ab_ab_apply]

/-- The payload of pipeline `cfg7`'s body at `(0, v, n)`. -/
theorem k7_pay1_apply (wt : Vec Ideal S200x32 .f32) (emb : Vec Ideal S1x8192x32 .f32) (bc : Vec Ideal S200x1 .f32)
    (v : Fin 200) (n : Fin 8192) :
    k7_pay1 wt emb bc (ix3 (0 : Fin 1) v n)
      = (∑ e : Fin 32, wt (ix2 v e) * emb (ix3 (0 : Fin 1) n e)) + bc (ix2 v (0 : Fin 1)) := by
  unfold k7_pay1
  rw [shapeCast_ab_1ab_apply]
  show FloatOps.matmul (F := Ideal) (DenseT.mmDims 200 32 8192 dot_S200x32_S8192x32_S200x8192_1_1_0_0_n_n_wf) none
        (shapeCast S200x32 wt shapeCasts_S200x32_S200x32) (shapeCast S8192x32 emb shapeCasts_S1x8192x32_S8192x32)
        (constant ⟨2, ![200, 8192]⟩ .f32 0x00000000#32) (ix2 v n)
      + broadcastTo S200x8192 (shapeCast S200x1 bc shapeCasts_S200x1_S200x1) broadcasts_S200x1_S200x8192 (ix2 v n) = _
  rw [DenseT.matmul_zero_apply, broadcastTo_a1_ab_apply, shapeCast_self, shapeCast_self]
  refine congrArg (· + _) (Finset.sum_congr rfl fun e _ => ?_)
  rw [shapeCast_1ab_ab_apply]

/-- An index of the stored block by its coordinates: the leading coordinate is 0. -/
theorem idx_1ab (j : S1x200x8192.Idx) : j = ix3 (0 : Fin 1) (j 1) (j 2) := by
  funext a
  match a with
  | ⟨0, _⟩ => exact Fin.ext (by have h : (j 0).val < 1 := (j 0).isLt; show (j 0).val = 0; omega)
  | ⟨1, _⟩ => rfl
  | ⟨2, _⟩ => rfl

/-- The payload of pipeline `cfg4`'s body at any index of the block. -/
theorem k4_pay1_at (wt : Vec Ideal S200x32 .f32) (emb : Vec Ideal S1x8192x32 .f32) (bc : Vec Ideal S200x1 .f32) (j : S1x200x8192.Idx) :
    k4_pay1 wt emb bc j = (∑ e : Fin 32, wt (ix2 (j 1) e) * emb (ix3 (0 : Fin 1) (j 2) e)) + bc (ix2 (j 1) (0 : Fin 1)) :=
  (congrArg (k4_pay1 wt emb bc) (idx_1ab j)).trans (k4_pay1_apply wt emb bc (j 1) (j 2))

/-- The payload of pipeline `cfg5`'s body at any index of the block. -/
theorem k5_pay1_at (wt : Vec Ideal S200x32 .f32) (emb : Vec Ideal S1x8192x32 .f32) (bc : Vec Ideal S200x1 .f32) (j : S1x200x8192.Idx) :
    k5_pay1 wt emb bc j = (∑ e : Fin 32, wt (ix2 (j 1) e) * emb (ix3 (0 : Fin 1) (j 2) e)) + bc (ix2 (j 1) (0 : Fin 1)) :=
  (congrArg (k5_pay1 wt emb bc) (idx_1ab j)).trans (k5_pay1_apply wt emb bc (j 1) (j 2))

/-- The payload of pipeline `cfg6`'s body at any index of the block. -/
theorem k6_pay1_at (wt : Vec Ideal S200x32 .f32) (emb : Vec Ideal S1x8192x32 .f32) (bc : Vec Ideal S200x1 .f32) (j : S1x200x8192.Idx) :
    k6_pay1 wt emb bc j = (∑ e : Fin 32, wt (ix2 (j 1) e) * emb (ix3 (0 : Fin 1) (j 2) e)) + bc (ix2 (j 1) (0 : Fin 1)) :=
  (congrArg (k6_pay1 wt emb bc) (idx_1ab j)).trans (k6_pay1_apply wt emb bc (j 1) (j 2))

/-- The payload of pipeline `cfg7`'s body at any index of the block. -/
theorem k7_pay1_at (wt : Vec Ideal S200x32 .f32) (emb : Vec Ideal S1x8192x32 .f32) (bc : Vec Ideal S200x1 .f32) (j : S1x200x8192.Idx) :
    k7_pay1 wt emb bc j = (∑ e : Fin 32, wt (ix2 (j 1) e) * emb (ix3 (0 : Fin 1) (j 2) e)) + bc (ix2 (j 1) (0 : Fin 1)) :=
  (congrArg (k7_pay1 wt emb bc) (idx_1ab j)).trans (k7_pay1_apply wt emb bc (j 1) (j 2))

theorem hz3 : (![0, 0, 0] : Fin 3 → Nat) = fun _ => 0 := funext fun a => by fin_cases a <;> rfl
theorem hz2 : (![0, 0] : Fin 2 → Nat) = fun _ => 0 := funext fun a => by fin_cases a <;> rfl

end Cert.KernelIdeal.HeadsValue

end
-- ==== Proof.HeadArray4.lean ====
import proofs.«203661_g84404697301628_cont_9to1_m_135_26_alg».proof.Proof.KernelIdeal.Dat4
import proofs.«203661_g84404697301628_cont_9to1_m_135_26_alg».proof.Proof.HeadPayload
import Idealize.ShloMosaic.Lib.Pipeline.Value

/-! # Pipeline `cfg4` over the extended reals: from the blocks to the result array

The result array `[8, 1000, 16384]` after the region's write-backs: at `(r, v, n)` with `0 ≤ r < 1` it holds
`(Σ e, Wt (v, e) · Emb (r - 0, n, e)) + Bc (v, 0)` of the region's input arrays as entered; every other row keeps its
contents at entry. Point `t` of the grid writes back block `t` of that one function; the blocks fill exactly those rows. -/

set_option maxRecDepth 16384

noncomputable section

namespace Cert.KernelIdeal.HeadsValue

open Cert.KernelIdeal Cert.KernelIdeal.Gen Cert.KernelIdeal.Heads
open Idealize.ShloMosaic Idealize.ShloMosaic.TcCoe Idealize.SL.Sem Idealize.ShloMosaic.ValueIdx
open Idealize.SL Idealize.SL.RA
open Idealize.ShloMosaic.Pipeline (Dat)

variable {Ix : Type} [DecidableEq Ix] {Name : Type} [DecidableEq Name] {U : Type} [URA U]
variable (V : (c : Dev nD) → (b : Ref sig .tc) → Buf (Elt Ideal) ((c : Thread nD τ).loc b))

/-- What the result array ends holding on the rows the region writes: one function of the weight array, the region's
    embedding array and the bias column, index by index (the row of the embedding array is `r - 0`). -/
def G4 (Wt : S1000x32.Idx → Elt Ideal .f32) (Emb : S1x16384x32.Idx → Elt Ideal .f32) (Bc : S1000x1.Idx → Elt Ideal .f32) :
    S8x1000x16384.Idx → Elt Ideal .f32 :=
  fun i => (∑ e : Fin 32, Wt (ix2 (i 1) e) * Emb (ix3 (⟨((i 0).val - 0) % 1, Nat.mod_lt _ (by decide)⟩ : Fin 1) (i 2) e))
    + Bc (ix2 (i 1) (0 : Fin 1))

/-- The printed index maps, decided over the grid: the weight and bias blocks move with the result block's row-block
    index, the embedding block with its leading index (shifted by 0) and its column-block index. -/
theorem idx_facts4 : ∀ t : Fin cfg4.N,
    win4_0.index t (0 : Fin 3) + 0 = win4_3.index t (0 : Fin 3)
    ∧ win4_0.index t (1 : Fin 3) = win4_3.index t (2 : Fin 3)
    ∧ win4_0.index t (2 : Fin 3) = 0
    ∧ win4_1.index t (0 : Fin 2) = win4_3.index t (1 : Fin 3)
    ∧ win4_1.index t (1 : Fin 2) = 0
    ∧ win4_2.index t (0 : Fin 2) = win4_3.index t (1 : Fin 3)
    ∧ win4_2.index t (1 : Fin 2) = 0
    ∧ 0 ≤ win4_3.index t (0 : Fin 3) ∧ win4_3.index t (0 : Fin 3) < 1
    ∧ win4_3.index t (1 : Fin 3) ≤ 4 ∧ win4_3.index t (2 : Fin 3) ≤ 1 :=
  (by decide +kernel : ∀ t : Fin grid4.N, _)

/-- Every block of the written rows is some point's. -/
theorem idx_onto4 : ∀ (q0 : Fin 1) (q1 : Fin 5) (q2 : Fin 2), ∃ t : Fin cfg4.N, win4_3.index t = ![q0.val + 0, q1.val, q2.val] :=
  (by decide +kernel : ∀ (q0 : Fin 1) (q1 : Fin 5) (q2 : Fin 2), ∃ t : Fin grid4.N, win4_3.index t = ![q0.val + 0, q1.val, q2.val])

/-- What point `t` writes back is block `t` of `G4` of the input arrays as the region finds them. -/
theorem flushed4_eq (c : Dev nD) (t : Fin cfg4.N) :
    (dat4 (Ix := Ix) (Name := Name) (U := U) V c).flushed 3 t
      = ((cfg4.win 3).blk t).view.read (Elt Ideal) (G4 (V c main_v1) (V c main_v6) (V c main_v2)) := by
  show (cfg4.win 3).cut (grid4.coords t) ((dat4 (Ix := Ix) (Name := Name) (U := U) V c).after 3 t) = _
  rw [after4_3]
  unfold out4_3
  rw [View.canon_unit_zero hz3]
  simp only [View.ld_unit_zero (S := S200x32) hz2, View.ld_unit_zero (S := S1x8192x32) hz3, View.ld_unit_zero (S := S200x1) hz2]
  obtain ⟨e0, e1, e2, e3, e4, e5, e6, e7, e8, e9, e10⟩ := idx_facts4 t
  funext j
  have hj0 : (j 0).val < 1 := (j 0).isLt
  have hj1 : (j 1).val < 200 := (j 1).isLt
  have hj2 : (j 2).val < 8192 := (j 2).isLt
  refine (k4_pay1_at (iblk4 V c 1 t) (iblk4 V c 0 t) (iblk4 V c 2 t) j).trans ?_
  show _ = G4 (V c main_v1) (V c main_v6) (V c main_v2) (((cfg4.win 3).blk t).view.emb j)
  unfold G4
  refine congrArg₂ (· + ·) (Finset.sum_congr rfl fun e _ => congrArg₂ (· * ·) ?_ ?_) ?_
  · show V c main_v1 (((cfg4.win 1).blk t).view.emb (ix2 (j 1) e)) = V c main_v1 _
    refine congrArg (V c main_v1) (funext fun a => Fin.ext ?_)
    match a with
    | ⟨0, _⟩ =>
      show win4_1.index t (0 : Fin 2) * 200 + 1 * (j 1).val = win4_3.index t (1 : Fin 3) * 200 + 1 * (j 1).val
      omega
    | ⟨1, _⟩ =>
      show win4_1.index t (1 : Fin 2) * 32 + 1 * e.val = e.val
      omega
  · show V c main_v6 (((cfg4.win 0).blk t).view.emb (ix3 (0 : Fin 1) (j 2) e)) = V c main_v6 _
    refine congrArg (V c main_v6) (funext fun a => Fin.ext ?_)
    match a with
    | ⟨0, _⟩ =>
      show win4_0.index t (0 : Fin 3) * 1 + 1 * 0 = ((win4_3.index t (0 : Fin 3) * 1 + 1 * (j 0).val) - 0) % 1
      omega
    | ⟨1, _⟩ =>
      show win4_0.index t (1 : Fin 3) * 8192 + 1 * (j 2).val = win4_3.index t (2 : Fin 3) * 8192 + 1 * (j 2).val
      omega
    | ⟨2, _⟩ =>
      show win4_0.index t (2 : Fin 3) * 32 + 1 * e.val = e.val
      omega
  · show V c main_v2 (((cfg4.win 2).blk t).view.emb (ix2 (j 1) (0 : Fin 1))) = V c main_v2 _
    refine congrArg (V c main_v2) (funext fun a => Fin.ext ?_)
    match a with
    | ⟨0, _⟩ =>
      show win4_2.index t (0 : Fin 2) * 200 + 1 * (j 1).val = win4_3.index t (1 : Fin 3) * 200 + 1 * (j 1).val
      omega
    | ⟨1, _⟩ =>
      show win4_2.index t (1 : Fin 2) * 1 + 1 * 0 = 0
      omega

/-- An index of the array is in point `t`'s block iff each coordinate is in the block's range on its axis. -/
theorem mem_blk4 (t : Fin cfg4.N) (i : S8x1000x16384.Idx) :
    i ∈ ((cfg4.win 3).blk t).view.set ↔ ∀ a : Fin 3, win4_3.index t a * S1x200x8192.size a ≤ (i a).val ∧ (i a).val < win4_3.index t a * S1x200x8192.size a + S1x200x8192.size a := by
  show i ∈ ((View.whole main_v13).slice (win4_3.rect t)).set ↔ _
  rw [View.set_slice_whole, Rect.mem_set_unit]
  exact Iff.rfl

/-- The written indices: in some point's block iff the row is one of the region's. -/
theorem covered_iff4 (i : S8x1000x16384.Idx) :
    (∃ t : Fin cfg4.N, (cfg4.win 3).flush t = true ∧ i ∈ ((cfg4.win 3).blk t).view.set) ↔ 0 ≤ (i 0).val ∧ (i 0).val < 1 := by
  have hi0 : (i 0).val < 8 := (i 0).isLt
  have hi1 : (i 1).val < 1000 := (i 1).isLt
  have hi2 : (i 2).val < 16384 := (i 2).isLt
  constructor
  · rintro ⟨t, -, hi⟩
    rw [mem_blk4] at hi
    have b0 : win4_3.index t (0 : Fin 3) * 1 ≤ (i 0).val ∧ (i 0).val < win4_3.index t (0 : Fin 3) * 1 + 1 := hi 0
    obtain ⟨e0, e1, e2, e3, e4, e5, e6, e7, e8, e9, e10⟩ := idx_facts4 t
    omega
  · intro h
    obtain ⟨t, ht⟩ := idx_onto4 ⟨(i 0).val - 0, by omega⟩ ⟨(i 1).val / 200, by omega⟩ ⟨(i 2).val / 8192, by omega⟩
    have q0 : win4_3.index t (0 : Fin 3) = (i 0).val - 0 + 0 := congrFun ht 0
    have q1 : win4_3.index t (1 : Fin 3) = (i 1).val / 200 := congrFun ht 1
    have q2 : win4_3.index t (2 : Fin 3) = (i 2).val / 8192 := congrFun ht 2
    refine ⟨t, flush4_3 t, ?_⟩
    rw [mem_blk4]
    intro a
    match a with
    | ⟨0, _⟩ => show win4_3.index t (0 : Fin 3) * 1 ≤ (i 0).val ∧ (i 0).val < win4_3.index t (0 : Fin 3) * 1 + 1; omega
    | ⟨1, _⟩ => show win4_3.index t (1 : Fin 3) * 200 ≤ (i 1).val ∧ (i 1).val < win4_3.index t (1 : Fin 3) * 200 + 200; omega
    | ⟨2, _⟩ => show win4_3.index t (2 : Fin 3) * 8192 ≤ (i 2).val ∧ (i 2).val < win4_3.index t (2 : Fin 3) * 8192 + 8192; omega

/-- The result array after the region: `G4` of the input arrays on the region's rows, its entry contents elsewhere. -/
theorem final4 (c : Dev nD) :
    (dat4 (Ix := Ix) (Name := Name) (U := U) V c).arrAt 3 cfg4.N
      = (fun i => if 0 ≤ (i 0).val ∧ (i 0).val < 1 then G4 (V c main_v1) (V c main_v6) (V c main_v2) i else V c main_v13 i) := by
  funext i
  rw [(dat4 (Ix := Ix) (Name := Name) (U := U) V c).arrAt_eq_piecewise 3 _ (fun t _ => flushed4_eq V c t) i, A_eq4]
  exact if_congr (covered_iff4 i) rfl rfl

/-- `G4` at explicit coordinates, on a row the region writes: the row of the embedding array is `r - 0`. -/
theorem G4_apply (Wt : S1000x32.Idx → Elt Ideal .f32) (Emb : S1x16384x32.Idx → Elt Ideal .f32) (Bc : S1000x1.Idx → Elt Ideal .f32)
    (r : Fin 8) (v : Fin 1000) (n : Fin 16384) (h0 : 0 ≤ r.val) (h1 : r.val < 1) :
    G4 Wt Emb Bc (ix3 r v n)
      = (∑ e : Fin 32, Wt (ix2 v e) * Emb (ix3 (⟨r.val - 0, by omega⟩ : Fin 1) n e)) + Bc (ix2 v (0 : Fin 1)) := by
  unfold G4
  have hr : (⟨(r.val - 0) % 1, Nat.mod_lt _ (by decide)⟩ : Fin 1) = ⟨r.val - 0, by omega⟩ :=
    Fin.ext (by show (r.val - 0) % 1 = r.val - 0; omega)
  show (∑ e : Fin 32, Wt (ix2 v e) * Emb (ix3 (⟨(r.val - 0) % 1, Nat.mod_lt _ (by decide)⟩ : Fin 1) n e)) + Bc (ix2 v (0 : Fin 1)) = _
  rw [hr]

/-- The result array at explicit coordinates, on a row the region writes. -/
theorem final4_in (c : Dev nD) (r : Fin 8) (v : Fin 1000) (n : Fin 16384) (h0 : 0 ≤ r.val) (h1 : r.val < 1) :
    (dat4 (Ix := Ix) (Name := Name) (U := U) V c).arrAt 3 cfg4.N (ix3 r v n) = G4 (V c main_v1) (V c main_v6) (V c main_v2) (ix3 r v n) := by
  rw [final4]
  show (if 0 ≤ r.val ∧ r.val < 1 then G4 (V c main_v1) (V c main_v6) (V c main_v2) (ix3 r v n) else _) = _
  rw [if_pos ⟨h0, h1⟩]

/-- At explicit coordinates, on any other row: the contents at entry. -/
theorem final4_out (c : Dev nD) (r : Fin 8) (v : Fin 1000) (n : Fin 16384) (h : ¬ (0 ≤ r.val ∧ r.val < 1)) :
    (dat4 (Ix := Ix) (Name := Name) (U := U) V c).arrAt 3 cfg4.N (ix3 r v n) = V c main_v13 (ix3 r v n) := by
  rw [final4]
  show (if 0 ≤ r.val ∧ r.val < 1 then _ else V c main_v13 (ix3 r v n)) = _
  rw [if_neg h]

end Cert.KernelIdeal.HeadsValue

end
-- ==== Proof.HeadArray5.lean ====
import proofs.«203661_g84404697301628_cont_9to1_m_135_26_alg».proof.Proof.KernelIdeal.Dat5
import proofs.«203661_g84404697301628_cont_9to1_m_135_26_alg».proof.Proof.HeadPayload
import Idealize.ShloMosaic.Lib.Pipeline.Value

/-! # Pipeline `cfg5` over the extended reals: from the blocks to the result array

The result array `[8, 1000, 16384]` after the region's write-backs: at `(r, v, n)` with `1 ≤ r < 2` it holds
`(Σ e, Wt (v, e) · Emb (r - 1, n, e)) + Bc (v, 0)` of the region's input arrays as entered; every other row keeps its
contents at entry. Point `t` of the grid writes back block `t` of that one function; the blocks fill exactly those rows. -/

set_option maxRecDepth 16384

noncomputable section

namespace Cert.KernelIdeal.HeadsValue

open Cert.KernelIdeal Cert.KernelIdeal.Gen Cert.KernelIdeal.Heads
open Idealize.ShloMosaic Idealize.ShloMosaic.TcCoe Idealize.SL.Sem Idealize.ShloMosaic.ValueIdx
open Idealize.SL Idealize.SL.RA
open Idealize.ShloMosaic.Pipeline (Dat)

variable {Ix : Type} [DecidableEq Ix] {Name : Type} [DecidableEq Name] {U : Type} [URA U]
variable (V : (c : Dev nD) → (b : Ref sig .tc) → Buf (Elt Ideal) ((c : Thread nD τ).loc b))

/-- What the result array ends holding on the rows the region writes: one function of the weight array, the region's
    embedding array and the bias column, index by index (the row of the embedding array is `r - 1`). -/
def G5 (Wt : S1000x32.Idx → Elt Ideal .f32) (Emb : S1x16384x32.Idx → Elt Ideal .f32) (Bc : S1000x1.Idx → Elt Ideal .f32) :
    S8x1000x16384.Idx → Elt Ideal .f32 :=
  fun i => (∑ e : Fin 32, Wt (ix2 (i 1) e) * Emb (ix3 (⟨((i 0).val - 1) % 1, Nat.mod_lt _ (by decide)⟩ : Fin 1) (i 2) e))
    + Bc (ix2 (i 1) (0 : Fin 1))

/-- The printed index maps, decided over the grid: the weight and bias blocks move with the result block's row-block
    index, the embedding block with its leading index (shifted by 1) and its column-block index. -/
theorem idx_facts5 : ∀ t : Fin cfg5.N,
    win5_0.index t (0 : Fin 3) + 1 = win5_3.index t (0 : Fin 3)
    ∧ win5_0.index t (1 : Fin 3) = win5_3.index t (2 : Fin 3)
    ∧ win5_0.index t (2 : Fin 3) = 0
    ∧ win5_1.index t (0 : Fin 2) = win5_3.index t (1 : Fin 3)
    ∧ win5_1.index t (1 : Fin 2) = 0
    ∧ win5_2.index t (0 : Fin 2) = win5_3.index t (1 : Fin 3)
    ∧ win5_2.index t (1 : Fin 2) = 0
    ∧ 1 ≤ win5_3.index t (0 : Fin 3) ∧ win5_3.index t (0 : Fin 3) < 2
    ∧ win5_3.index t (1 : Fin 3) ≤ 4 ∧ win5_3.index t (2 : Fin 3) ≤ 1 :=
  (by decide +kernel : ∀ t : Fin grid5.N, _)

/-- Every block of the written rows is some point's. -/
theorem idx_onto5 : ∀ (q0 : Fin 1) (q1 : Fin 5) (q2 : Fin 2), ∃ t : Fin cfg5.N, win5_3.index t = ![q0.val + 1, q1.val, q2.val] :=
  (by decide +kernel : ∀ (q0 : Fin 1) (q1 : Fin 5) (q2 : Fin 2), ∃ t : Fin grid5.N, win5_3.index t = ![q0.val + 1, q1.val, q2.val])

/-- What point `t` writes back is block `t` of `G5` of the input arrays as the region finds them. -/
theorem flushed5_eq (c : Dev nD) (t : Fin cfg5.N) :
    (dat5 (Ix := Ix) (Name := Name) (U := U) V c).flushed 3 t
      = ((cfg5.win 3).blk t).view.read (Elt Ideal) (G5 (V c main_v1) (V c main_v8) (V c main_v2)) := by
  show (cfg5.win 3).cut (grid5.coords t) ((dat5 (Ix := Ix) (Name := Name) (U := U) V c).after 3 t) = _
  rw [after5_3]
  unfold out5_3
  rw [View.canon_unit_zero hz3]
  simp only [View.ld_unit_zero (S := S200x32) hz2, View.ld_unit_zero (S := S1x8192x32) hz3, View.ld_unit_zero (S := S200x1) hz2]
  obtain ⟨e0, e1, e2, e3, e4, e5, e6, e7, e8, e9, e10⟩ := idx_facts5 t
  funext j
  have hj0 : (j 0).val < 1 := (j 0).isLt
  have hj1 : (j 1).val < 200 := (j 1).isLt
  have hj2 : (j 2).val < 8192 := (j 2).isLt
  refine (k5_pay1_at (iblk5 V c 1 t) (iblk5 V c 0 t) (iblk5 V c 2 t) j).trans ?_
  show _ = G5 (V c main_v1) (V c main_v8) (V c main_v2) (((cfg5.win 3).blk t).view.emb j)
  unfold G5
  refine congrArg₂ (· + ·) (Finset.sum_congr rfl fun e _ => congrArg₂ (· * ·) ?_ ?_) ?_
  · show V c main_v1 (((cfg5.win 1).blk t).view.emb (ix2 (j 1) e)) = V c main_v1 _
    refine congrArg (V c main_v1) (funext fun a => Fin.ext ?_)
    match a with
    | ⟨0, _⟩ =>
      show win5_1.index t (0 : Fin 2) * 200 + 1 * (j 1).val = win5_3.index t (1 : Fin 3) * 200 + 1 * (j 1).val
      omega
    | ⟨1, _⟩ =>
      show win5_1.index t (1 : Fin 2) * 32 + 1 * e.val = e.val
      omega
  · show V c main_v8 (((cfg5.win 0).blk t).view.emb (ix3 (0 : Fin 1) (j 2) e)) = V c main_v8 _
    refine congrArg (V c main_v8) (funext fun a => Fin.ext ?_)
    match a with
    | ⟨0, _⟩ =>
      show win5_0.index t (0 : Fin 3) * 1 + 1 * 0 = ((win5_3.index t (0 : Fin 3) * 1 + 1 * (j 0).val) - 1) % 1
      omega
    | ⟨1, _⟩ =>
      show win5_0.index t (1 : Fin 3) * 8192 + 1 * (j 2).val = win5_3.index t (2 : Fin 3) * 8192 + 1 * (j 2).val
      omega
    | ⟨2, _⟩ =>
      show win5_0.index t (2 : Fin 3) * 32 + 1 * e.val = e.val
      omega
  · show V c main_v2 (((cfg5.win 2).blk t).view.emb (ix2 (j 1) (0 : Fin 1))) = V c main_v2 _
    refine congrArg (V c main_v2) (funext fun a => Fin.ext ?_)
    match a with
    | ⟨0, _⟩ =>
      show win5_2.index t (0 : Fin 2) * 200 + 1 * (j 1).val = win5_3.index t (1 : Fin 3) * 200 + 1 * (j 1).val
      omega
    | ⟨1, _⟩ =>
      show win5_2.index t (1 : Fin 2) * 1 + 1 * 0 = 0
      omega

/-- An index of the array is in point `t`'s block iff each coordinate is in the block's range on its axis. -/
theorem mem_blk5 (t : Fin cfg5.N) (i : S8x1000x16384.Idx) :
    i ∈ ((cfg5.win 3).blk t).view.set ↔ ∀ a : Fin 3, win5_3.index t a * S1x200x8192.size a ≤ (i a).val ∧ (i a).val < win5_3.index t a * S1x200x8192.size a + S1x200x8192.size a := by
  show i ∈ ((View.whole main_v14).slice (win5_3.rect t)).set ↔ _
  rw [View.set_slice_whole, Rect.mem_set_unit]
  exact Iff.rfl

/-- The written indices: in some point's block iff the row is one of the region's. -/
theorem covered_iff5 (i : S8x1000x16384.Idx) :
    (∃ t : Fin cfg5.N, (cfg5.win 3).flush t = true ∧ i ∈ ((cfg5.win 3).blk t).view.set) ↔ 1 ≤ (i 0).val ∧ (i 0).val < 2 := by
  have hi0 : (i 0).val < 8 := (i 0).isLt
  have hi1 : (i 1).val < 1000 := (i 1).isLt
  have hi2 : (i 2).val < 16384 := (i 2).isLt
  constructor
  · rintro ⟨t, -, hi⟩
    rw [mem_blk5] at hi
    have b0 : win5_3.index t (0 : Fin 3) * 1 ≤ (i 0).val ∧ (i 0).val < win5_3.index t (0 : Fin 3) * 1 + 1 := hi 0
    obtain ⟨e0, e1, e2, e3, e4, e5, e6, e7, e8, e9, e10⟩ := idx_facts5 t
    omega
  · intro h
    obtain ⟨t, ht⟩ := idx_onto5 ⟨(i 0).val - 1, by omega⟩ ⟨(i 1).val / 200, by omega⟩ ⟨(i 2).val / 8192, by omega⟩
    have q0 : win5_3.index t (0 : Fin 3) = (i 0).val - 1 + 1 := congrFun ht 0
    have q1 : win5_3.index t (1 : Fin 3) = (i 1).val / 200 := congrFun ht 1
    have q2 : win5_3.index t (2 : Fin 3) = (i 2).val / 8192 := congrFun ht 2
    refine ⟨t, flush5_3 t, ?_⟩
    rw [mem_blk5]
    intro a
    match a with
    | ⟨0, _⟩ => show win5_3.index t (0 : Fin 3) * 1 ≤ (i 0).val ∧ (i 0).val < win5_3.index t (0 : Fin 3) * 1 + 1; omega
    | ⟨1, _⟩ => show win5_3.index t (1 : Fin 3) * 200 ≤ (i 1).val ∧ (i 1).val < win5_3.index t (1 : Fin 3) * 200 + 200; omega
    | ⟨2, _⟩ => show win5_3.index t (2 : Fin 3) * 8192 ≤ (i 2).val ∧ (i 2).val < win5_3.index t (2 : Fin 3) * 8192 + 8192; omega

/-- The result array after the region: `G5` of the input arrays on the region's rows, its entry contents elsewhere. -/
theorem final5 (c : Dev nD) :
    (dat5 (Ix := Ix) (Name := Name) (U := U) V c).arrAt 3 cfg5.N
      = (fun i => if 1 ≤ (i 0).val ∧ (i 0).val < 2 then G5 (V c main_v1) (V c main_v8) (V c main_v2) i else V c main_v14 i) := by
  funext i
  rw [(dat5 (Ix := Ix) (Name := Name) (U := U) V c).arrAt_eq_piecewise 3 _ (fun t _ => flushed5_eq V c t) i, A_eq5]
  exact if_congr (covered_iff5 i) rfl rfl

/-- `G5` at explicit coordinates, on a row the region writes: the row of the embedding array is `r - 1`. -/
theorem G5_apply (Wt : S1000x32.Idx → Elt Ideal .f32) (Emb : S1x16384x32.Idx → Elt Ideal .f32) (Bc : S1000x1.Idx → Elt Ideal .f32)
    (r : Fin 8) (v : Fin 1000) (n : Fin 16384) (h0 : 1 ≤ r.val) (h1 : r.val < 2) :
    G5 Wt Emb Bc (ix3 r v n)
      = (∑ e : Fin 32, Wt (ix2 v e) * Emb (ix3 (⟨r.val - 1, by omega⟩ : Fin 1) n e)) + Bc (ix2 v (0 : Fin 1)) := by
  unfold G5
  have hr : (⟨(r.val - 1) % 1, Nat.mod_lt _ (by decide)⟩ : Fin 1) = ⟨r.val - 1, by omega⟩ :=
    Fin.ext (by show (r.val - 1) % 1 = r.val - 1; omega)
  show (∑ e : Fin 32, Wt (ix2 v e) * Emb (ix3 (⟨(r.val - 1) % 1, Nat.mod_lt _ (by decide)⟩ : Fin 1) n e)) + Bc (ix2 v (0 : Fin 1)) = _
  rw [hr]

/-- The result array at explicit coordinates, on a row the region writes. -/
theorem final5_in (c : Dev nD) (r : Fin 8) (v : Fin 1000) (n : Fin 16384) (h0 : 1 ≤ r.val) (h1 : r.val < 2) :
    (dat5 (Ix := Ix) (Name := Name) (U := U) V c).arrAt 3 cfg5.N (ix3 r v n) = G5 (V c main_v1) (V c main_v8) (V c main_v2) (ix3 r v n) := by
  rw [final5]
  show (if 1 ≤ r.val ∧ r.val < 2 then G5 (V c main_v1) (V c main_v8) (V c main_v2) (ix3 r v n) else _) = _
  rw [if_pos ⟨h0, h1⟩]

/-- At explicit coordinates, on any other row: the contents at entry. -/
theorem final5_out (c : Dev nD) (r : Fin 8) (v : Fin 1000) (n : Fin 16384) (h : ¬ (1 ≤ r.val ∧ r.val < 2)) :
    (dat5 (Ix := Ix) (Name := Name) (U := U) V c).arrAt 3 cfg5.N (ix3 r v n) = V c main_v14 (ix3 r v n) := by
  rw [final5]
  show (if 1 ≤ r.val ∧ r.val < 2 then _ else V c main_v14 (ix3 r v n)) = _
  rw [if_neg h]

end Cert.KernelIdeal.HeadsValue

end
-- ==== Proof.HeadArray6.lean ====
import proofs.«203661_g84404697301628_cont_9to1_m_135_26_alg».proof.Proof.KernelIdeal.Dat6
import proofs.«203661_g84404697301628_cont_9to1_m_135_26_alg».proof.Proof.HeadPayload
import Idealize.ShloMosaic.Lib.Pipeline.Value

/-! # Pipeline `cfg6` over the extended reals: from the blocks to the result array

The result array `[8, 1000, 16384]` after the region's write-backs: at `(r, v, n)` with `2 ≤ r < 4` it holds
`(Σ e, Wt (v, e) · Emb (r - 2, n, e)) + Bc (v, 0)` of the region's input arrays as entered; every other row keeps its
contents at entry. Point `t` of the grid writes back block `t` of that one function; the blocks fill exactly those rows. -/

set_option maxRecDepth 16384

noncomputable section

namespace Cert.KernelIdeal.HeadsValue

open Cert.KernelIdeal Cert.KernelIdeal.Gen Cert.KernelIdeal.Heads
open Idealize.ShloMosaic Idealize.ShloMosaic.TcCoe Idealize.SL.Sem Idealize.ShloMosaic.ValueIdx
open Idealize.SL Idealize.SL.RA
open Idealize.ShloMosaic.Pipeline (Dat)

variable {Ix : Type} [DecidableEq Ix] {Name : Type} [DecidableEq Name] {U : Type} [URA U]
variable (V : (c : Dev nD) → (b : Ref sig .tc) → Buf (Elt Ideal) ((c : Thread nD τ).loc b))

/-- What the result array ends holding on the rows the region writes: one function of the weight array, the region's
    embedding array and the bias column, index by index (the row of the embedding array is `r - 2`). -/
def G6 (Wt : S1000x32.Idx → Elt Ideal .f32) (Emb : S2x16384x32.Idx → Elt Ideal .f32) (Bc : S1000x1.Idx → Elt Ideal .f32) :
    S8x1000x16384.Idx → Elt Ideal .f32 :=
  fun i => (∑ e : Fin 32, Wt (ix2 (i 1) e) * Emb (ix3 (⟨((i 0).val - 2) % 2, Nat.mod_lt _ (by decide)⟩ : Fin 2) (i 2) e))
    + Bc (ix2 (i 1) (0 : Fin 1))

/-- The printed index maps, decided over the grid: the weight and bias blocks move with the result block's row-block
    index, the embedding block with its leading index (shifted by 2) and its column-block index. -/
theorem idx_facts6 : ∀ t : Fin cfg6.N,
    win6_0.index t (0 : Fin 3) + 2 = win6_3.index t (0 : Fin 3)
    ∧ win6_0.index t (1 : Fin 3) = win6_3.index t (2 : Fin 3)
    ∧ win6_0.index t (2 : Fin 3) = 0
    ∧ win6_1.index t (0 : Fin 2) = win6_3.index t (1 : Fin 3)
    ∧ win6_1.index t (1 : Fin 2) = 0
    ∧ win6_2.index t (0 : Fin 2) = win6_3.index t (1 : Fin 3)
    ∧ win6_2.index t (1 : Fin 2) = 0
    ∧ 2 ≤ win6_3.index t (0 : Fin 3) ∧ win6_3.index t (0 : Fin 3) < 4
    ∧ win6_3.index t (1 : Fin 3) ≤ 4 ∧ win6_3.index t (2 : Fin 3) ≤ 1 :=
  (by decide +kernel : ∀ t : Fin grid6.N, _)

/-- Every block of the written rows is some point's. -/
theorem idx_onto6 : ∀ (q0 : Fin 2) (q1 : Fin 5) (q2 : Fin 2), ∃ t : Fin cfg6.N, win6_3.index t = ![q0.val + 2, q1.val, q2.val] :=
  (by decide +kernel : ∀ (q0 : Fin 2) (q1 : Fin 5) (q2 : Fin 2), ∃ t : Fin grid6.N, win6_3.index t = ![q0.val + 2, q1.val, q2.val])

/-- What point `t` writes back is block `t` of `G6` of the input arrays as the region finds them. -/
theorem flushed6_eq (c : Dev nD) (t : Fin cfg6.N) :
    (dat6 (Ix := Ix) (Name := Name) (U := U) V c).flushed 3 t
      = ((cfg6.win 3).blk t).view.read (Elt Ideal) (G6 (V c main_v1) (V c main_v10) (V c main_v2)) := by
  show (cfg6.win 3).cut (grid6.coords t) ((dat6 (Ix := Ix) (Name := Name) (U := U) V c).after 3 t) = _
  rw [after6_3]
  unfold out6_3
  rw [View.canon_unit_zero hz3]
  simp only [View.ld_unit_zero (S := S200x32) hz2, View.ld_unit_zero (S := S1x8192x32) hz3, View.ld_unit_zero (S := S200x1) hz2]
  obtain ⟨e0, e1, e2, e3, e4, e5, e6, e7, e8, e9, e10⟩ := idx_facts6 t
  funext j
  have hj0 : (j 0).val < 1 := (j 0).isLt
  have hj1 : (j 1).val < 200 := (j 1).isLt
  have hj2 : (j 2).val < 8192 := (j 2).isLt
  refine (k6_pay1_at (iblk6 V c 1 t) (iblk6 V c 0 t) (iblk6 V c 2 t) j).trans ?_
  show _ = G6 (V c main_v1) (V c main_v10) (V c main_v2) (((cfg6.win 3).blk t).view.emb j)
  unfold G6
  refine congrArg₂ (· + ·) (Finset.sum_congr rfl fun e _ => congrArg₂ (· * ·) ?_ ?_) ?_
  · show V c main_v1 (((cfg6.win 1).blk t).view.emb (ix2 (j 1) e)) = V c main_v1 _
    refine congrArg (V c main_v1) (funext fun a => Fin.ext ?_)
    match a with
    | ⟨0, _⟩ =>
      show win6_1.index t (0 : Fin 2) * 200 + 1 * (j 1).val = win6_3.index t (1 : Fin 3) * 200 + 1 * (j 1).val
      omega
    | ⟨1, _⟩ =>
      show win6_1.index t (1 : Fin 2) * 32 + 1 * e.val = e.val
      omega
  · show V c main_v10 (((cfg6.win 0).blk t).view.emb (ix3 (0 : Fin 1) (j 2) e)) = V c main_v10 _
    refine congrArg (V c main_v10) (funext fun a => Fin.ext ?_)
    match a with
    | ⟨0, _⟩ =>
      show win6_0.index t (0 : Fin 3) * 1 + 1 * 0 = ((win6_3.index t (0 : Fin 3) * 1 + 1 * (j 0).val) - 2) % 2
      omega
    | ⟨1, _⟩ =>
      show win6_0.index t (1 : Fin 3) * 8192 + 1 * (j 2).val = win6_3.index t (2 : Fin 3) * 8192 + 1 * (j 2).val
      omega
    | ⟨2, _⟩ =>
      show win6_0.index t (2 : Fin 3) * 32 + 1 * e.val = e.val
      omega
  · show V c main_v2 (((cfg6.win 2).blk t).view.emb (ix2 (j 1) (0 : Fin 1))) = V c main_v2 _
    refine congrArg (V c main_v2) (funext fun a => Fin.ext ?_)
    match a with
    | ⟨0, _⟩ =>
      show win6_2.index t (0 : Fin 2) * 200 + 1 * (j 1).val = win6_3.index t (1 : Fin 3) * 200 + 1 * (j 1).val
      omega
    | ⟨1, _⟩ =>
      show win6_2.index t (1 : Fin 2) * 1 + 1 * 0 = 0
      omega

/-- An index of the array is in point `t`'s block iff each coordinate is in the block's range on its axis. -/
theorem mem_blk6 (t : Fin cfg6.N) (i : S8x1000x16384.Idx) :
    i ∈ ((cfg6.win 3).blk t).view.set ↔ ∀ a : Fin 3, win6_3.index t a * S1x200x8192.size a ≤ (i a).val ∧ (i a).val < win6_3.index t a * S1x200x8192.size a + S1x200x8192.size a := by
  show i ∈ ((View.whole main_v15).slice (win6_3.rect t)).set ↔ _
  rw [View.set_slice_whole, Rect.mem_set_unit]
  exact Iff.rfl

/-- The written indices: in some point's block iff the row is one of the region's. -/
theorem covered_iff6 (i : S8x1000x16384.Idx) :
    (∃ t : Fin cfg6.N, (cfg6.win 3).flush t = true ∧ i ∈ ((cfg6.win 3).blk t).view.set) ↔ 2 ≤ (i 0).val ∧ (i 0).val < 4 := by
  have hi0 : (i 0).val < 8 := (i 0).isLt
  have hi1 : (i 1).val < 1000 := (i 1).isLt
  have hi2 : (i 2).val < 16384 := (i 2).isLt
  constructor
  · rintro ⟨t, -, hi⟩
    rw [mem_blk6] at hi
    have b0 : win6_3.index t (0 : Fin 3) * 1 ≤ (i 0).val ∧ (i 0).val < win6_3.index t (0 : Fin 3) * 1 + 1 := hi 0
    obtain ⟨e0, e1, e2, e3, e4, e5, e6, e7, e8, e9, e10⟩ := idx_facts6 t
    omega
  · intro h
    obtain ⟨t, ht⟩ := idx_onto6 ⟨(i 0).val - 2, by omega⟩ ⟨(i 1).val / 200, by omega⟩ ⟨(i 2).val / 8192, by omega⟩
    have q0 : win6_3.index t (0 : Fin 3) = (i 0).val - 2 + 2 := congrFun ht 0
    have q1 : win6_3.index t (1 : Fin 3) = (i 1).val / 200 := congrFun ht 1
    have q2 : win6_3.index t (2 : Fin 3) = (i 2).val / 8192 := congrFun ht 2
    refine ⟨t, flush6_3 t, ?_⟩
    rw [mem_blk6]
    intro a
    match a with
    | ⟨0, _⟩ => show win6_3.index t (0 : Fin 3) * 1 ≤ (i 0).val ∧ (i 0).val < win6_3.index t (0 : Fin 3) * 1 + 1; omega
    | ⟨1, _⟩ => show win6_3.index t (1 : Fin 3) * 200 ≤ (i 1).val ∧ (i 1).val < win6_3.index t (1 : Fin 3) * 200 + 200; omega
    | ⟨2, _⟩ => show win6_3.index t (2 : Fin 3) * 8192 ≤ (i 2).val ∧ (i 2).val < win6_3.index t (2 : Fin 3) * 8192 + 8192; omega

/-- The result array after the region: `G6` of the input arrays on the region's rows, its entry contents elsewhere. -/
theorem final6 (c : Dev nD) :
    (dat6 (Ix := Ix) (Name := Name) (U := U) V c).arrAt 3 cfg6.N
      = (fun i => if 2 ≤ (i 0).val ∧ (i 0).val < 4 then G6 (V c main_v1) (V c main_v10) (V c main_v2) i else V c main_v15 i) := by
  funext i
  rw [(dat6 (Ix := Ix) (Name := Name) (U := U) V c).arrAt_eq_piecewise 3 _ (fun t _ => flushed6_eq V c t) i, A_eq6]
  exact if_congr (covered_iff6 i) rfl rfl

/-- `G6` at explicit coordinates, on a row the region writes: the row of the embedding array is `r - 2`. -/
theorem G6_apply (Wt : S1000x32.Idx → Elt Ideal .f32) (Emb : S2x16384x32.Idx → Elt Ideal .f32) (Bc : S1000x1.Idx → Elt Ideal .f32)
    (r : Fin 8) (v : Fin 1000) (n : Fin 16384) (h0 : 2 ≤ r.val) (h1 : r.val < 4) :
    G6 Wt Emb Bc (ix3 r v n)
      = (∑ e : Fin 32, Wt (ix2 v e) * Emb (ix3 (⟨r.val - 2, by omega⟩ : Fin 2) n e)) + Bc (ix2 v (0 : Fin 1)) := by
  unfold G6
  have hr : (⟨(r.val - 2) % 2, Nat.mod_lt _ (by decide)⟩ : Fin 2) = ⟨r.val - 2, by omega⟩ :=
    Fin.ext (by show (r.val - 2) % 2 = r.val - 2; omega)
  show (∑ e : Fin 32, Wt (ix2 v e) * Emb (ix3 (⟨(r.val - 2) % 2, Nat.mod_lt _ (by decide)⟩ : Fin 2) n e)) + Bc (ix2 v (0 : Fin 1)) = _
  rw [hr]

/-- The result array at explicit coordinates, on a row the region writes. -/
theorem final6_in (c : Dev nD) (r : Fin 8) (v : Fin 1000) (n : Fin 16384) (h0 : 2 ≤ r.val) (h1 : r.val < 4) :
    (dat6 (Ix := Ix) (Name := Name) (U := U) V c).arrAt 3 cfg6.N (ix3 r v n) = G6 (V c main_v1) (V c main_v10) (V c main_v2) (ix3 r v n) := by
  rw [final6]
  show (if 2 ≤ r.val ∧ r.val < 4 then G6 (V c main_v1) (V c main_v10) (V c main_v2) (ix3 r v n) else _) = _
  rw [if_pos ⟨h0, h1⟩]

/-- At explicit coordinates, on any other row: the contents at entry. -/
theorem final6_out (c : Dev nD) (r : Fin 8) (v : Fin 1000) (n : Fin 16384) (h : ¬ (2 ≤ r.val ∧ r.val < 4)) :
    (dat6 (Ix := Ix) (Name := Name) (U := U) V c).arrAt 3 cfg6.N (ix3 r v n) = V c main_v15 (ix3 r v n) := by
  rw [final6]
  show (if 2 ≤ r.val ∧ r.val < 4 then _ else V c main_v15 (ix3 r v n)) = _
  rw [if_neg h]

end Cert.KernelIdeal.HeadsValue

end
-- ==== Proof.HeadArray7.lean ====
import proofs.«203661_g84404697301628_cont_9to1_m_135_26_alg».proof.Proof.KernelIdeal.Dat7
import proofs.«203661_g84404697301628_cont_9to1_m_135_26_alg».proof.Proof.HeadPayload
import Idealize.ShloMosaic.Lib.Pipeline.Value

/-! # Pipeline `cfg7` over the extended reals: from the blocks to the result array

The result array `[8, 1000, 16384]` after the region's write-backs: at `(r, v, n)` with `4 ≤ r < 8` it holds
`(Σ e, Wt (v, e) · Emb (r - 4, n, e)) + Bc (v, 0)` of the region's input arrays as entered; every other row keeps its
contents at entry. Point `t` of the grid writes back block `t` of that one function; the blocks fill exactly those rows. -/

set_option maxRecDepth 16384

noncomputable section

namespace Cert.KernelIdeal.HeadsValue

open Cert.KernelIdeal Cert.KernelIdeal.Gen Cert.KernelIdeal.Heads
open Idealize.ShloMosaic Idealize.ShloMosaic.TcCoe Idealize.SL.Sem Idealize.ShloMosaic.ValueIdx
open Idealize.SL Idealize.SL.RA
open Idealize.ShloMosaic.Pipeline (Dat)

variable {Ix : Type} [DecidableEq Ix] {Name : Type} [DecidableEq Name] {U : Type} [URA U]
variable (V : (c : Dev nD) → (b : Ref sig .tc) → Buf (Elt Ideal) ((c : Thread nD τ).loc b))

/-- What the result array ends holding on the rows the region writes: one function of the weight array, the region's
    embedding array and the bias column, index by index (the row of the embedding array is `r - 4`). -/
def G7 (Wt : S1000x32.Idx → Elt Ideal .f32) (Emb : S4x16384x32.Idx → Elt Ideal .f32) (Bc : S1000x1.Idx → Elt Ideal .f32) :
    S8x1000x16384.Idx → Elt Ideal .f32 :=
  fun i => (∑ e : Fin 32, Wt (ix2 (i 1) e) * Emb (ix3 (⟨((i 0).val - 4) % 4, Nat.mod_lt _ (by decide)⟩ : Fin 4) (i 2) e))
    + Bc (ix2 (i 1) (0 : Fin 1))

/-- The printed index maps, decided over the grid: the weight and bias blocks move with the result block's row-block
    index, the embedding block with its leading index (shifted by 4) and its column-block index. -/
theorem idx_facts7 : ∀ t : Fin cfg7.N,
    win7_0.index t (0 : Fin 3) + 4 = win7_3.index t (0 : Fin 3)
    ∧ win7_0.index t (1 : Fin 3) = win7_3.index t (2 : Fin 3)
    ∧ win7_0.index t (2 : Fin 3) = 0
    ∧ win7_1.index t (0 : Fin 2) = win7_3.index t (1 : Fin 3)
    ∧ win7_1.index t (1 : Fin 2) = 0
    ∧ win7_2.index t (0 : Fin 2) = win7_3.index t (1 : Fin 3)
    ∧ win7_2.index t (1 : Fin 2) = 0
    ∧ 4 ≤ win7_3.index t (0 : Fin 3) ∧ win7_3.index t (0 : Fin 3) < 8
    ∧ win7_3.index t (1 : Fin 3) ≤ 4 ∧ win7_3.index t (2 : Fin 3) ≤ 1 :=
  (by decide +kernel : ∀ t : Fin grid7.N, _)

/-- Every block of the written rows is some point's. -/
theorem idx_onto7 : ∀ (q0 : Fin 4) (q1 : Fin 5) (q2 : Fin 2), ∃ t : Fin cfg7.N, win7_3.index t = ![q0.val + 4, q1.val, q2.val] :=
  (by decide +kernel : ∀ (q0 : Fin 4) (q1 : Fin 5) (q2 : Fin 2), ∃ t : Fin grid7.N, win7_3.index t = ![q0.val + 4, q1.val, q2.val])

/-- What point `t` writes back is block `t` of `G7` of the input arrays as the region finds them. -/
theorem flushed7_eq (c : Dev nD) (t : Fin cfg7.N) :
    (dat7 (Ix := Ix) (Name := Name) (U := U) V c).flushed 3 t
      = ((cfg7.win 3).blk t).view.read (Elt Ideal) (G7 (V c main_v1) (V c main_v12) (V c main_v2)) := by
  show (cfg7.win 3).cut (grid7.coords t) ((dat7 (Ix := Ix) (Name := Name) (U := U) V c).after 3 t) = _
  rw [after7_3]
  unfold out7_3
  rw [View.canon_unit_zero hz3]
  simp only [View.ld_unit_zero (S := S200x32) hz2, View.ld_unit_zero (S := S1x8192x32) hz3, View.ld_unit_zero (S := S200x1) hz2]
  obtain ⟨e0, e1, e2, e3, e4, e5, e6, e7, e8, e9, e10⟩ := idx_facts7 t
  funext j
  have hj0 : (j 0).val < 1 := (j 0).isLt
  have hj1 : (j 1).val < 200 := (j 1).isLt
  have hj2 : (j 2).val < 8192 := (j 2).isLt
  refine (k7_pay1_at (iblk7 V c 1 t) (iblk7 V c 0 t) (iblk7 V c 2 t) j).trans ?_
  show _ = G7 (V c main_v1) (V c main_v12) (V c main_v2) (((cfg7.win 3).blk t).view.emb j)
  unfold G7
  refine congrArg₂ (· + ·) (Finset.sum_congr rfl fun e _ => congrArg₂ (· * ·) ?_ ?_) ?_
  · show V c main_v1 (((cfg7.win 1).blk t).view.emb (ix2 (j 1) e)) = V c main_v1 _
    refine congrArg (V c main_v1) (funext fun a => Fin.ext ?_)
    match a with
    | ⟨0, _⟩ =>
      show win7_1.index t (0 : Fin 2) * 200 + 1 * (j 1).val = win7_3.index t (1 : Fin 3) * 200 + 1 * (j 1).val
      omega
    | ⟨1, _⟩ =>
      show win7_1.index t (1 : Fin 2) * 32 + 1 * e.val = e.val
      omega
  · show V c main_v12 (((cfg7.win 0).blk t).view.emb (ix3 (0 : Fin 1) (j 2) e)) = V c main_v12 _
    refine congrArg (V c main_v12) (funext fun a => Fin.ext ?_)
    match a with
    | ⟨0, _⟩ =>
      show win7_0.index t (0 : Fin 3) * 1 + 1 * 0 = ((win7_3.index t (0 : Fin 3) * 1 + 1 * (j 0).val) - 4) % 4
      omega
    | ⟨1, _⟩ =>
      show win7_0.index t (1 : Fin 3) * 8192 + 1 * (j 2).val = win7_3.index t (2 : Fin 3) * 8192 + 1 * (j 2).val
      omega
    | ⟨2, _⟩ =>
      show win7_0.index t (2 : Fin 3) * 32 + 1 * e.val = e.val
      omega
  · show V c main_v2 (((cfg7.win 2).blk t).view.emb (ix2 (j 1) (0 : Fin 1))) = V c main_v2 _
    refine congrArg (V c main_v2) (funext fun a => Fin.ext ?_)
    match a with
    | ⟨0, _⟩ =>
      show win7_2.index t (0 : Fin 2) * 200 + 1 * (j 1).val = win7_3.index t (1 : Fin 3) * 200 + 1 * (j 1).val
      omega
    | ⟨1, _⟩ =>
      show win7_2.index t (1 : Fin 2) * 1 + 1 * 0 = 0
      omega

/-- An index of the array is in point `t`'s block iff each coordinate is in the block's range on its axis. -/
theorem mem_blk7 (t : Fin cfg7.N) (i : S8x1000x16384.Idx) :
    i ∈ ((cfg7.win 3).blk t).view.set ↔ ∀ a : Fin 3, win7_3.index t a * S1x200x8192.size a ≤ (i a).val ∧ (i a).val < win7_3.index t a * S1x200x8192.size a + S1x200x8192.size a := by
  show i ∈ ((View.whole main_v16).slice (win7_3.rect t)).set ↔ _
  rw [View.set_slice_whole, Rect.mem_set_unit]
  exact Iff.rfl

/-- The written indices: in some point's block iff the row is one of the region's. -/
theorem covered_iff7 (i : S8x1000x16384.Idx) :
    (∃ t : Fin cfg7.N, (cfg7.win 3).flush t = true ∧ i ∈ ((cfg7.win 3).blk t).view.set) ↔ 4 ≤ (i 0).val ∧ (i 0).val < 8 := by
  have hi0 : (i 0).val < 8 := (i 0).isLt
  have hi1 : (i 1).val < 1000 := (i 1).isLt
  have hi2 : (i 2).val < 16384 := (i 2).isLt
  constructor
  · rintro ⟨t, -, hi⟩
    rw [mem_blk7] at hi
    have b0 : win7_3.index t (0 : Fin 3) * 1 ≤ (i 0).val ∧ (i 0).val < win7_3.index t (0 : Fin 3) * 1 + 1 := hi 0
    obtain ⟨e0, e1, e2, e3, e4, e5, e6, e7, e8, e9, e10⟩ := idx_facts7 t
    omega
  · intro h
    obtain ⟨t, ht⟩ := idx_onto7 ⟨(i 0).val - 4, by omega⟩ ⟨(i 1).val / 200, by omega⟩ ⟨(i 2).val / 8192, by omega⟩
    have q0 : win7_3.index t (0 : Fin 3) = (i 0).val - 4 + 4 := congrFun ht 0
    have q1 : win7_3.index t (1 : Fin 3) = (i 1).val / 200 := congrFun ht 1
    have q2 : win7_3.index t (2 : Fin 3) = (i 2).val / 8192 := congrFun ht 2
    refine ⟨t, flush7_3 t, ?_⟩
    rw [mem_blk7]
    intro a
    match a with
    | ⟨0, _⟩ => show win7_3.index t (0 : Fin 3) * 1 ≤ (i 0).val ∧ (i 0).val < win7_3.index t (0 : Fin 3) * 1 + 1; omega
    | ⟨1, _⟩ => show win7_3.index t (1 : Fin 3) * 200 ≤ (i 1).val ∧ (i 1).val < win7_3.index t (1 : Fin 3) * 200 + 200; omega
    | ⟨2, _⟩ => show win7_3.index t (2 : Fin 3) * 8192 ≤ (i 2).val ∧ (i 2).val < win7_3.index t (2 : Fin 3) * 8192 + 8192; omega

/-- The result array after the region: `G7` of the input arrays on the region's rows, its entry contents elsewhere. -/
theorem final7 (c : Dev nD) :
    (dat7 (Ix := Ix) (Name := Name) (U := U) V c).arrAt 3 cfg7.N
      = (fun i => if 4 ≤ (i 0).val ∧ (i 0).val < 8 then G7 (V c main_v1) (V c main_v12) (V c main_v2) i else V c main_v16 i) := by
  funext i
  rw [(dat7 (Ix := Ix) (Name := Name) (U := U) V c).arrAt_eq_piecewise 3 _ (fun t _ => flushed7_eq V c t) i, A_eq7]
  exact if_congr (covered_iff7 i) rfl rfl

/-- `G7` at explicit coordinates, on a row the region writes: the row of the embedding array is `r - 4`. -/
theorem G7_apply (Wt : S1000x32.Idx → Elt Ideal .f32) (Emb : S4x16384x32.Idx → Elt Ideal .f32) (Bc : S1000x1.Idx → Elt Ideal .f32)
    (r : Fin 8) (v : Fin 1000) (n : Fin 16384) (h0 : 4 ≤ r.val) (h1 : r.val < 8) :
    G7 Wt Emb Bc (ix3 r v n)
      = (∑ e : Fin 32, Wt (ix2 v e) * Emb (ix3 (⟨r.val - 4, by omega⟩ : Fin 4) n e)) + Bc (ix2 v (0 : Fin 1)) := by
  unfold G7
  have hr : (⟨(r.val - 4) % 4, Nat.mod_lt _ (by decide)⟩ : Fin 4) = ⟨r.val - 4, by omega⟩ :=
    Fin.ext (by show (r.val - 4) % 4 = r.val - 4; omega)
  show (∑ e : Fin 32, Wt (ix2 v e) * Emb (ix3 (⟨(r.val - 4) % 4, Nat.mod_lt _ (by decide)⟩ : Fin 4) n e)) + Bc (ix2 v (0 : Fin 1)) = _
  rw [hr]

/-- The result array at explicit coordinates, on a row the region writes. -/
theorem final7_in (c : Dev nD) (r : Fin 8) (v : Fin 1000) (n : Fin 16384) (h0 : 4 ≤ r.val) (h1 : r.val < 8) :
    (dat7 (Ix := Ix) (Name := Name) (U := U) V c).arrAt 3 cfg7.N (ix3 r v n) = G7 (V c main_v1) (V c main_v12) (V c main_v2) (ix3 r v n) := by
  rw [final7]
  show (if 4 ≤ r.val ∧ r.val < 8 then G7 (V c main_v1) (V c main_v12) (V c main_v2) (ix3 r v n) else _) = _
  rw [if_pos ⟨h0, h1⟩]

/-- At explicit coordinates, on any other row: the contents at entry. -/
theorem final7_out (c : Dev nD) (r : Fin 8) (v : Fin 1000) (n : Fin 16384) (h : ¬ (4 ≤ r.val ∧ r.val < 8)) :
    (dat7 (Ix := Ix) (Name := Name) (U := U) V c).arrAt 3 cfg7.N (ix3 r v n) = V c main_v16 (ix3 r v n) := by
  rw [final7]
  show (if 4 ≤ r.val ∧ r.val < 8 then _ else V c main_v16 (ix3 r v n)) = _
  rw [if_neg h]

end Cert.KernelIdeal.HeadsValue

end
-- ==== Proof.HeadChain.lean ====
import proofs.«203661_g84404697301628_cont_9to1_m_135_26_alg».proof.Proof.KernelIdeal.Chain
import proofs.«203661_g84404697301628_cont_9to1_m_135_26_alg».proof.Proof.HeadArray4
import proofs.«203661_g84404697301628_cont_9to1_m_135_26_alg».proof.Proof.HeadArray5
import proofs.«203661_g84404697301628_cont_9to1_m_135_26_alg».proof.Proof.HeadArray6
import proofs.«203661_g84404697301628_cont_9to1_m_135_26_alg».proof.Proof.HeadArray7

/-! # The result array after the four regions, over the extended reals

Through @main's three copies the last result buffer holds, on row `r`: for `r = 0` the first region's rows, for `r = 1` the
second's, for `2 ≤ r < 4` the third's, for `4 ≤ r < 8` the fourth's — each `(Σ e, Wt (v, e) · Emb (r - s₀, n, e)) + Bc (v, 0)` of
the weight array, that region's embedding array and the bias column as the FIRST region found them. -/

set_option maxRecDepth 16384

noncomputable section

namespace Cert.KernelIdeal.HeadsValue

open Cert.KernelIdeal Cert.KernelIdeal.Gen Cert.KernelIdeal.Heads
open Idealize.ShloMosaic Idealize.ShloMosaic.TcCoe Idealize.SL.Sem Idealize.ShloMosaic.ValueIdx
open Idealize.SL Idealize.SL.RA
open Idealize.ShloMosaic.Pipeline (Dat)

variable {Ix : Type} [DecidableEq Ix] {Name : Type} [DecidableEq Name] {U : Type} [URA U]
variable (W4 : Dev nD → Valuation τ sig (Elt Ideal))

/-- The first result buffer after the first region. -/
theorem result4 (c : Dev nD) :
    (dat4 (Ix := Ix) (Name := Name) (U := U) (tcOf W4) c).arrAt 3 cfg4.N
      = (fun i => if 0 ≤ (i 0).val ∧ (i 0).val < 1 then G4 (tcOf W4 c main_v1) (tcOf W4 c main_v6) (tcOf W4 c main_v2) i else tcOf W4 c main_v13 i) :=
  final4 (tcOf W4) c

/-- The second result buffer after the second region: the second region's row over the first buffer's contents. -/
theorem result5 (c : Dev nD) :
    (dat5 (Ix := Ix) (Name := Name) (U := U) (tcOf (W5 (Ix := Ix) (Name := Name) (U := U) W4)) c).arrAt 3 cfg5.N
      = (fun i => if 1 ≤ (i 0).val ∧ (i 0).val < 2 then G5 (tcOf W4 c main_v1) (tcOf W4 c main_v8) (tcOf W4 c main_v2) i else (dat4 (Ix := Ix) (Name := Name) (U := U) (tcOf W4) c).arrAt 3 cfg4.N i) := by
  have h := final5 (Ix := Ix) (Name := Name) (U := U) (tcOf (W5 (Ix := Ix) (Name := Name) (U := U) W4)) c
  rw [W5_v1, W5_v8, W5_v2, W5_v14] at h
  exact h

/-- The third result buffer after the third region. -/
theorem result6 (c : Dev nD) :
    (dat6 (Ix := Ix) (Name := Name) (U := U) (tcOf (W6 (Ix := Ix) (Name := Name) (U := U) W4)) c).arrAt 3 cfg6.N
      = (fun i => if 2 ≤ (i 0).val ∧ (i 0).val < 4 then G6 (tcOf W4 c main_v1) (tcOf W4 c main_v10) (tcOf W4 c main_v2) i else (dat5 (Ix := Ix) (Name := Name) (U := U) (tcOf (W5 (Ix := Ix) (Name := Name) (U := U) W4)) c).arrAt 3 cfg5.N i) := by
  have h := final6 (Ix := Ix) (Name := Name) (U := U) (tcOf (W6 (Ix := Ix) (Name := Name) (U := U) W4)) c
  rw [W6_v1, W6_v10, W6_v2, W6_v15] at h
  exact h

/-- The last result buffer after the last region. -/
theorem result7 (c : Dev nD) :
    (dat7 (Ix := Ix) (Name := Name) (U := U) (tcOf (W7 (Ix := Ix) (Name := Name) (U := U) W4)) c).arrAt 3 cfg7.N
      = (fun i => if 4 ≤ (i 0).val ∧ (i 0).val < 8 then G7 (tcOf W4 c main_v1) (tcOf W4 c main_v12) (tcOf W4 c main_v2) i else (dat6 (Ix := Ix) (Name := Name) (U := U) (tcOf (W6 (Ix := Ix) (Name := Name) (U := U) W4)) c).arrAt 3 cfg6.N i) := by
  have h := final7 (Ix := Ix) (Name := Name) (U := U) (tcOf (W7 (Ix := Ix) (Name := Name) (U := U) W4)) c
  rw [W7_v1, W7_v12, W7_v2, W7_v16] at h
  exact h

/-- The last result buffer after the four regions, row by row. -/
theorem result_all (c : Dev nD) :
    tcOf (Wend (Ix := Ix) (Name := Name) (U := U) W4) c main_v16
      = (fun i => if 4 ≤ (i 0).val ∧ (i 0).val < 8 then G7 (tcOf W4 c main_v1) (tcOf W4 c main_v12) (tcOf W4 c main_v2) i
      else if 2 ≤ (i 0).val ∧ (i 0).val < 4 then G6 (tcOf W4 c main_v1) (tcOf W4 c main_v10) (tcOf W4 c main_v2) i
      else if 1 ≤ (i 0).val ∧ (i 0).val < 2 then G5 (tcOf W4 c main_v1) (tcOf W4 c main_v8) (tcOf W4 c main_v2) i
      else if 0 ≤ (i 0).val ∧ (i 0).val < 1 then G4 (tcOf W4 c main_v1) (tcOf W4 c main_v6) (tcOf W4 c main_v2) i
      else tcOf W4 c main_v13 i) := by
  rw [Wend_v16, result7, result6, result5, result4]

/-- At explicit coordinates. -/
theorem result_apply (c : Dev nD) (r : Fin 8) (v : Fin 1000) (n : Fin 16384) :
    tcOf (Wend (Ix := Ix) (Name := Name) (U := U) W4) c main_v16 (ix3 r v n)
      = (if 4 ≤ r.val ∧ r.val < 8 then G7 (tcOf W4 c main_v1) (tcOf W4 c main_v12) (tcOf W4 c main_v2) (ix3 r v n)
      else if 2 ≤ r.val ∧ r.val < 4 then G6 (tcOf W4 c main_v1) (tcOf W4 c main_v10) (tcOf W4 c main_v2) (ix3 r v n)
      else if 1 ≤ r.val ∧ r.val < 2 then G5 (tcOf W4 c main_v1) (tcOf W4 c main_v8) (tcOf W4 c main_v2) (ix3 r v n)
      else if 0 ≤ r.val ∧ r.val < 1 then G4 (tcOf W4 c main_v1) (tcOf W4 c main_v6) (tcOf W4 c main_v2) (ix3 r v n)
      else tcOf W4 c main_v13 (ix3 r v n)) := by
  rw [result_all]

theorem result_row0 (c : Dev nD) (r : Fin 8) (v : Fin 1000) (n : Fin 16384) (h : r.val < 1) :
    tcOf (Wend (Ix := Ix) (Name := Name) (U := U) W4) c main_v16 (ix3 r v n) = G4 (tcOf W4 c main_v1) (tcOf W4 c main_v6) (tcOf W4 c main_v2) (ix3 r v n) := by
  rw [result_apply, if_neg (by omega), if_neg (by omega), if_neg (by omega), if_pos (by omega)]
theorem result_row1 (c : Dev nD) (r : Fin 8) (v : Fin 1000) (n : Fin 16384) (h0 : 1 ≤ r.val) (h1 : r.val < 2) :
    tcOf (Wend (Ix := Ix) (Name := Name) (U := U) W4) c main_v16 (ix3 r v n) = G5 (tcOf W4 c main_v1) (tcOf W4 c main_v8) (tcOf W4 c main_v2) (ix3 r v n) := by
  rw [result_apply, if_neg (by omega), if_neg (by omega), if_pos (by omega)]
theorem result_row23 (c : Dev nD) (r : Fin 8) (v : Fin 1000) (n : Fin 16384) (h0 : 2 ≤ r.val) (h1 : r.val < 4) :
    tcOf (Wend (Ix := Ix) (Name := Name) (U := U) W4) c main_v16 (ix3 r v n) = G6 (tcOf W4 c main_v1) (tcOf W4 c main_v10) (tcOf W4 c main_v2) (ix3 r v n) := by
  rw [result_apply, if_neg (by omega), if_pos (by omega)]
theorem result_row47 (c : Dev nD) (r : Fin 8) (v : Fin 1000) (n : Fin 16384) (h0 : 4 ≤ r.val) :
    tcOf (Wend (Ix := Ix) (Name := Name) (U := U) W4) c main_v16 (ix3 r v n) = G7 (tcOf W4 c main_v1) (tcOf W4 c main_v12) (tcOf W4 c main_v2) (ix3 r v n) := by
  have := r.isLt
  rw [result_apply, if_pos (by omega)]

end Cert.KernelIdeal.HeadsValue

end
-- ==== Proof.BridgeHost.lean ====
/-
  The kernel's host operations read at an index, as their terms are written in the program.

  Before the gathers the program lays its arguments out for the kernels: the weight matrix transposed, so entry
  `(v, e)` is `W (e, v)`; the bias as a column, so entry `(v, 0)` is `b v`; the table padded on the right from 32
  to 128 columns, so entry `(r, c)` with `c < 32` is `tok (r, c)`; and the token words transposed and flattened,
  so flat position `p` holds the word `idx (p mod 16384, p div 16384)`, cut into the four runs the gathers take:
  positions `0 …`, `16384 …`, `32768 …`, `65536 …`. A gather over the run starting at token position `s₀` thus
  sees, at its flat position `t · 16384 + n`, the word `idx (n, s₀ + t)`. After the regions the result is
  transposed back: entry `(n, t, v)` is entry `(t, v, n)` of the regions' array.
-/
import proofs.«203661_g84404697301628_cont_9to1_m_135_26_alg».proof.KernelIdeal
import Idealize.ShloMosaic.Lib.ValueLayout
import Idealize.ShloMosaic.Lib.KernelVsHost
import Idealize.ShloMosaic.Lib.ValueIdx

noncomputable section

namespace Cert.KernelIdeal.Bridge

open Cert.KernelIdeal Cert.KernelIdeal.Facts₀ Idealize.ShloMosaic Idealize.ShloMosaic.ValueIdx

variable [hKernelIdeal : Cert.KernelIdeal.Facts] {α : Type}

/-- The transposed weight matrix at `(v, e)` is the weight matrix at `(e, v)`. -/
theorem weightT_apply (W : S32x1000.Idx → α) (v : Fin 1000) (e : Fin 32) :
    transpose S1000x32 [1, 0] W transposes_S32x1000_S1000x32_1_0 (ix2 v e) = W (ix2 e v) :=
  transpose_ix2_apply W transposes_S32x1000_S1000x32_1_0 v e

/-- The bias as a column at `(v, 0)` is the bias at `v`. -/
theorem biasCol_apply (b : S1000.Idx → α) (v : Fin 1000) :
    shapeCast S1000x1 b shapeCasts_S1000_S1000x1 (ix2 v (0 : Fin 1)) = b (ix1 v) :=
  shapeCast_apply b shapeCasts_S1000_S1000x1 (ix2 v (0 : Fin 1)) (ix1 v) (by
    rw [Shape.rowMajor_val_one, Shape.rowMajor_val_two]
    show v.val = v.val * 1 + 0
    omega)

/-- The table padded to 128 columns, read at one of its first 32 columns, is the table there. -/
theorem padded_apply (tok : S1000x32.Idx → α) (z : S_.Idx → α) (r : Fin 1000) (c : Fin 128) (hc : c.val < 32) :
    pad S1000x128 ![0, 0] ![0, 96] ![0, 0] tok z pads_S1000x32_S1000x128_000_0960 h_S_ (ix2 r c)
      = tok (ix2 r (⟨c.val, hc⟩ : Fin 32)) :=
  pad_apply_of_inside _ _ _ tok z pads_S1000x32_S1000x128_000_0960 h_S_ (ix2 r c) (ix2 r (⟨c.val, hc⟩ : Fin 32)) fun a => by
    match a with
    | ⟨0, _⟩ => show r.val = 0 + r.val * (0 + 1); omega
    | ⟨1, _⟩ => show c.val = 0 + c.val * (0 + 1); omega

/-- The transposed token words at `(t, n)` are the words at `(n, t)`. -/
theorem idxT_apply (idx : S16384x8.Idx → α) (t : Fin 8) (n : Fin 16384) :
    transpose S8x16384 [1, 0] idx transposes_S16384x8_S8x16384_1_0 (ix2 t n) = idx (ix2 n t) :=
  transpose_ix2_apply idx transposes_S16384x8_S8x16384_1_0 t n

/-- The flattened transposed words at flat position `p`: the word of sequence `p mod 16384` at token position
    `p div 16384`. -/
theorem flat_apply (idx : S16384x8.Idx → α) (p : Fin 131072) :
    shapeCast S131072 (transpose S8x16384 [1, 0] idx transposes_S16384x8_S8x16384_1_0) shapeCasts_S8x16384_S131072 (ix1 p)
      = idx (ix2 (⟨p.val % 16384, Nat.mod_lt _ (by decide)⟩ : Fin 16384) (⟨p.val / 16384, by have := p.isLt; omega⟩ : Fin 8)) := by
  rw [shapeCast_apply _ shapeCasts_S8x16384_S131072 (ix1 p)
    (ix2 (⟨p.val / 16384, by have := p.isLt; omega⟩ : Fin 8) (⟨p.val % 16384, Nat.mod_lt _ (by decide)⟩ : Fin 16384)) (by
      rw [Shape.rowMajor_val_one, Shape.rowMajor_val_two]
      show p.val / 16384 * 16384 + p.val % 16384 = p.val
      omega)]
  exact idxT_apply idx _ _

/-- The first run (token position 0) at position `n`. -/
theorem words0_apply (idx : S16384x8.Idx → α) (n : Fin 16384) :
    extractStridedSlice S16384 ![0]
        (shapeCast S131072 (transpose S8x16384 [1, 0] idx transposes_S16384x8_S8x16384_1_0) shapeCasts_S8x16384_S131072)
        slices_S131072_S16384_0 (ix1 n)
      = idx (ix2 n (0 : Fin 8)) := by
  rw [extractStridedSlice_apply _ _ slices_S131072_S16384_0 (ix1 n) (ix1 (⟨n.val, by have := n.isLt; omega⟩ : Fin 131072)) fun a => by
    match a with
    | ⟨0, _⟩ => show n.val = 0 + n.val; omega]
  rw [flat_apply]
  have hn : n.val < 16384 := n.isLt
  exact congrArg₂ (fun x y => idx (ix2 x y)) (Fin.ext (by show n.val % 16384 = n.val; omega))
    (Fin.ext (by show n.val / 16384 = 0; omega))

/-- The second run (token position 1) at position `n`. -/
theorem words1_apply (idx : S16384x8.Idx → α) (n : Fin 16384) :
    extractStridedSlice S16384 ![16384]
        (shapeCast S131072 (transpose S8x16384 [1, 0] idx transposes_S16384x8_S8x16384_1_0) shapeCasts_S8x16384_S131072)
        slices_S131072_S16384_16384 (ix1 n)
      = idx (ix2 n (1 : Fin 8)) := by
  rw [extractStridedSlice_apply _ _ slices_S131072_S16384_16384 (ix1 n) (ix1 (⟨16384 + n.val, by have := n.isLt; omega⟩ : Fin 131072)) fun a => by
    match a with
    | ⟨0, _⟩ => rfl]
  rw [flat_apply]
  have hn : n.val < 16384 := n.isLt
  exact congrArg₂ (fun x y => idx (ix2 x y)) (Fin.ext (by show (16384 + n.val) % 16384 = n.val; omega))
    (Fin.ext (by show (16384 + n.val) / 16384 = 1; omega))

/-- The first and second runs at the flat position `t · 16384 + n` of a one-position run (`t = 0`): the form the
    longer runs' readings below have. -/
theorem words0_at (idx : S16384x8.Idx → α) (t : Fin 1) (n : Fin 16384) :
    extractStridedSlice S16384 ![0]
        (shapeCast S131072 (transpose S8x16384 [1, 0] idx transposes_S16384x8_S8x16384_1_0) shapeCasts_S8x16384_S131072)
        slices_S131072_S16384_0 (ix1 (⟨t.val * 16384 + n.val, by have := t.isLt; have := n.isLt; omega⟩ : Fin 16384))
      = idx (ix2 n (⟨0 + t.val, by have := t.isLt; omega⟩ : Fin 8)) := by
  have ht : t.val = 0 := by have := t.isLt; omega
  have hp : (⟨t.val * 16384 + n.val, by have := n.isLt; omega⟩ : Fin 16384) = n := Fin.ext (by show t.val * 16384 + n.val = n.val; omega)
  rw [hp, words0_apply]
  exact congrArg (fun s => idx (ix2 n s)) (Fin.ext (by show 0 = 0 + t.val; omega))
theorem words1_at (idx : S16384x8.Idx → α) (t : Fin 1) (n : Fin 16384) :
    extractStridedSlice S16384 ![16384]
        (shapeCast S131072 (transpose S8x16384 [1, 0] idx transposes_S16384x8_S8x16384_1_0) shapeCasts_S8x16384_S131072)
        slices_S131072_S16384_16384 (ix1 (⟨t.val * 16384 + n.val, by have := t.isLt; have := n.isLt; omega⟩ : Fin 16384))
      = idx (ix2 n (⟨1 + t.val, by have := t.isLt; omega⟩ : Fin 8)) := by
  have ht : t.val = 0 := by have := t.isLt; omega
  have hp : (⟨t.val * 16384 + n.val, by have := n.isLt; omega⟩ : Fin 16384) = n := Fin.ext (by show t.val * 16384 + n.val = n.val; omega)
  rw [hp, words1_apply]
  exact congrArg (fun s => idx (ix2 n s)) (Fin.ext (by show 1 = 1 + t.val; omega))

/-- The third run (token positions 2 and 3) at position `t · 16384 + n`. -/
theorem words2_apply (idx : S16384x8.Idx → α) (t : Fin 2) (n : Fin 16384) :
    extractStridedSlice S32768 ![32768]
        (shapeCast S131072 (transpose S8x16384 [1, 0] idx transposes_S16384x8_S8x16384_1_0) shapeCasts_S8x16384_S131072)
        slices_S131072_S32768_32768 (ix1 (⟨t.val * 16384 + n.val, by have := t.isLt; have := n.isLt; omega⟩ : Fin 32768))
      = idx (ix2 n (⟨2 + t.val, by have := t.isLt; omega⟩ : Fin 8)) := by
  have ht : t.val < 2 := t.isLt
  have hn : n.val < 16384 := n.isLt
  rw [extractStridedSlice_apply _ _ slices_S131072_S32768_32768 _ (ix1 (⟨32768 + (t.val * 16384 + n.val), by omega⟩ : Fin 131072)) fun a => by
    match a with
    | ⟨0, _⟩ => rfl]
  rw [flat_apply]
  exact congrArg₂ (fun x y => idx (ix2 x y)) (Fin.ext (by show (32768 + (t.val * 16384 + n.val)) % 16384 = n.val; omega))
    (Fin.ext (by show (32768 + (t.val * 16384 + n.val)) / 16384 = 2 + t.val; omega))

/-- The fourth run (token positions 4 to 7) at position `t · 16384 + n`. -/
theorem words3_apply (idx : S16384x8.Idx → α) (t : Fin 4) (n : Fin 16384) :
    extractStridedSlice S65536 ![65536]
        (shapeCast S131072 (transpose S8x16384 [1, 0] idx transposes_S16384x8_S8x16384_1_0) shapeCasts_S8x16384_S131072)
        slices_S131072_S65536_65536 (ix1 (⟨t.val * 16384 + n.val, by have := t.isLt; have := n.isLt; omega⟩ : Fin 65536))
      = idx (ix2 n (⟨4 + t.val, by have := t.isLt; omega⟩ : Fin 8)) := by
  have ht : t.val < 4 := t.isLt
  have hn : n.val < 16384 := n.isLt
  rw [extractStridedSlice_apply _ _ slices_S131072_S65536_65536 _ (ix1 (⟨65536 + (t.val * 16384 + n.val), by omega⟩ : Fin 131072)) fun a => by
    match a with
    | ⟨0, _⟩ => rfl]
  rw [flat_apply]
  exact congrArg₂ (fun x y => idx (ix2 x y)) (Fin.ext (by show (65536 + (t.val * 16384 + n.val)) % 16384 = n.val; omega))
    (Fin.ext (by show (65536 + (t.val * 16384 + n.val)) / 16384 = 4 + t.val; omega))

/-- The result transposed back: entry `(n, t, v)` is entry `(t, v, n)` of the regions' array. -/
theorem outT_apply (X : S8x1000x16384.Idx → α) (n : Fin 16384) (t : Fin 8) (v : Fin 1000) :
    transpose S16384x8x1000 [2, 0, 1] X transposes_S8x1000x16384_S16384x8x1000_2_0_1 (ix3 n t v) = X (ix3 t v n) :=
  transpose_apply _ X transposes_S8x1000x16384_S16384x8x1000_2_0_1 (ix3 n t v) (ix3 t v n) fun c =>
    match c with
    | ⟨0, _⟩ => rfl
    | ⟨1, _⟩ => rfl
    | ⟨2, _⟩ => rfl

end Cert.KernelIdeal.Bridge

end
-- ==== Proof.BridgeGather.lean ====
/-
  What each gather call is specified to leave. The table has 128 columns, of which the first 32 are the embedding;
  a call is given a run of token words, one per (token position of the run, sequence), flat with the sequence
  varying fastest, and fills a `[positions, 16384, 32]` array: entry `(t, n, e)` is the table at the row the word at
  flat position `t · 16384 + n` names and column `e`.
-/
import proofs.«203661_g84404697301628_cont_9to1_m_135_26_alg».proof.KernelIdeal
import proofs.«203661_g84404697301628_cont_9to1_m_135_26_alg».proof.Proof.Spec
import Idealize.ShloMosaic.Lib.ValueIdx

noncomputable section

namespace Cert.KernelIdeal.Bridge

open Cert.KernelIdeal Idealize.ShloMosaic Idealize.ShloMosaic.ValueIdx

/-- What a gather over one token position leaves: block `(t, n)` holds columns `0 … 31` of the table row the word at flat
    position `t · 16384 + n` names. -/
def gathered1 (tbl : S1000x128.Idx → EReal) (words : S16384.Idx → BitVec 32) : S1x16384x32.Idx → EReal :=
  fun i => tbl (ix2 (Cert.Spec.row (words (ix1 (⟨(i 0).val * 16384 + (i 1).val, by
      have h0 : (i 0).val < 1 := (i 0).isLt
      have h1 : (i 1).val < 16384 := (i 1).isLt
      omega⟩ : Fin 16384))))
    (⟨(i 2).val, by have h2 : (i 2).val < 32 := (i 2).isLt; omega⟩ : Fin 128))

theorem gathered1_apply (tbl : S1000x128.Idx → EReal) (words : S16384.Idx → BitVec 32) (t : Fin 1) (n : Fin 16384) (e : Fin 32) :
    gathered1 tbl words (ix3 t n e)
      = tbl (ix2 (Cert.Spec.row (words (ix1 (⟨t.val * 16384 + n.val, by have := t.isLt; have := n.isLt; omega⟩ : Fin 16384))))
          (⟨e.val, by have := e.isLt; omega⟩ : Fin 128)) := rfl

/-- What a gather over 2 token positions leaves: block `(t, n)` holds columns `0 … 31` of the table row the word at flat
    position `t · 16384 + n` names. -/
def gathered2 (tbl : S1000x128.Idx → EReal) (words : S32768.Idx → BitVec 32) : S2x16384x32.Idx → EReal :=
  fun i => tbl (ix2 (Cert.Spec.row (words (ix1 (⟨(i 0).val * 16384 + (i 1).val, by
      have h0 : (i 0).val < 2 := (i 0).isLt
      have h1 : (i 1).val < 16384 := (i 1).isLt
      omega⟩ : Fin 32768))))
    (⟨(i 2).val, by have h2 : (i 2).val < 32 := (i 2).isLt; omega⟩ : Fin 128))

theorem gathered2_apply (tbl : S1000x128.Idx → EReal) (words : S32768.Idx → BitVec 32) (t : Fin 2) (n : Fin 16384) (e : Fin 32) :
    gathered2 tbl words (ix3 t n e)
      = tbl (ix2 (Cert.Spec.row (words (ix1 (⟨t.val * 16384 + n.val, by have := t.isLt; have := n.isLt; omega⟩ : Fin 32768))))
          (⟨e.val, by have := e.isLt; omega⟩ : Fin 128)) := rfl

/-- What a gather over 4 token positions leaves: block `(t, n)` holds columns `0 … 31` of the table row the word at flat
    position `t · 16384 + n` names. -/
def gathered4 (tbl : S1000x128.Idx → EReal) (words : S65536.Idx → BitVec 32) : S4x16384x32.Idx → EReal :=
  fun i => tbl (ix2 (Cert.Spec.row (words (ix1 (⟨(i 0).val * 16384 + (i 1).val, by
      have h0 : (i 0).val < 4 := (i 0).isLt
      have h1 : (i 1).val < 16384 := (i 1).isLt
      omega⟩ : Fin 65536))))
    (⟨(i 2).val, by have h2 : (i 2).val < 32 := (i 2).isLt; omega⟩ : Fin 128))

theorem gathered4_apply (tbl : S1000x128.Idx → EReal) (words : S65536.Idx → BitVec 32) (t : Fin 4) (n : Fin 16384) (e : Fin 32) :
    gathered4 tbl words (ix3 t n e)
      = tbl (ix2 (Cert.Spec.row (words (ix1 (⟨t.val * 16384 + n.val, by have := t.isLt; have := n.isLt; omega⟩ : Fin 65536))))
          (⟨e.val, by have := e.isLt; omega⟩ : Fin 128)) := rfl

end Cert.KernelIdeal.Bridge

end
-- ==== Proof.BridgeCore.lean ====
/-
  The kernel's result is the specified function, given what the region-entry contents hold.

  After the four regions, row `t` of the regions' array is `(Σ e, Wt (v, e) · Emb (t − s₀, n, e)) + Bc (v, 0)` of
  the weight array, the bias column and the gathered array of the region that owns row `t` (token position `t`
  belongs to the run starting at `s₀ = 0, 1, 2, 4`). With the weight array the transposed weights, the bias column
  the bias, and the gathered array the table rows the run's words name, that is
  `(Σ e, W (e, v) · tok (row (idx (n, t)), e)) + b v`: the specification with each product written weight first.
  The final transpose puts it at `(n, t, v)`.
-/
import proofs.«203661_g84404697301628_cont_9to1_m_135_26_alg».proof.Proof.HeadChain
import proofs.«203661_g84404697301628_cont_9to1_m_135_26_alg».proof.Proof.BridgeHost
import proofs.«203661_g84404697301628_cont_9to1_m_135_26_alg».proof.Proof.BridgeGather
import proofs.«203661_g84404697301628_cont_9to1_m_135_26_alg».proof.Proof.Spec

set_option maxRecDepth 16384

noncomputable section

open scoped BigOperators

namespace Cert.KernelIdeal.Bridge

open Cert.KernelIdeal Cert.KernelIdeal.Facts₀ Cert.KernelIdeal.Heads Cert.KernelIdeal.HeadsValue
open Idealize.ShloMosaic Idealize.ShloMosaic.TcCoe Idealize.ShloMosaic.ValueIdx
open Idealize.SL Idealize.SL.RA

variable [hKernelIdeal : Cert.KernelIdeal.Facts]
variable {Ix : Type} [DecidableEq Ix] {Name : Type} [DecidableEq Name] {U : Type} [URA U]

/-- The specification at `(n, t, v)`, each product written weight first. -/
theorem logits_at (idx : IVec S16384x8 32) (tok : FVec Ideal S1000x32 .f32) (W : FVec Ideal S32x1000 .f32)
    (b : FVec Ideal S1000 .f32) (n : Fin 16384) (t : Fin 8) (v : Fin 1000) :
    Cert.Spec.logits idx tok W b (ix3 n t v)
      = (∑ e : Fin 32, W (ix2 e v) * tok (ix2 (Cert.Spec.row (idx (ix2 n t))) e)) + b (ix1 v) :=
  (Cert.Spec.logits_comm idx tok W b (ix3 n t v)).trans rfl

/-- The bridge over pointwise facts about the region-entry contents `W4`: the weight array is the transposed
    weights, the bias column the bias, and each gathered array holds the table rows its run's words name. -/
theorem bridge_core (W4 : Dev nD → Valuation τ sig (Elt Ideal)) (c : Dev nD)
    (idx : IVec S16384x8 32) (tok : FVec Ideal S1000x32 .f32) (W : FVec Ideal S32x1000 .f32) (b : FVec Ideal S1000 .f32)
    (hWt : ∀ (v : Fin 1000) (e : Fin 32), tcOf W4 c main_v1 (ix2 v e) = W (ix2 e v))
    (hBc : ∀ v : Fin 1000, tcOf W4 c main_v2 (ix2 v (0 : Fin 1)) = b (ix1 v))
    (hE0 : ∀ (t : Fin 1) (n : Fin 16384) (e : Fin 32),
      tcOf W4 c main_v6 (ix3 t n e) = tok (ix2 (Cert.Spec.row (idx (ix2 n (⟨0 + t.val, by have := t.isLt; omega⟩ : Fin 8)))) e))
    (hE1 : ∀ (t : Fin 1) (n : Fin 16384) (e : Fin 32),
      tcOf W4 c main_v8 (ix3 t n e) = tok (ix2 (Cert.Spec.row (idx (ix2 n (⟨1 + t.val, by have := t.isLt; omega⟩ : Fin 8)))) e))
    (hE2 : ∀ (t : Fin 2) (n : Fin 16384) (e : Fin 32),
      tcOf W4 c main_v10 (ix3 t n e) = tok (ix2 (Cert.Spec.row (idx (ix2 n (⟨2 + t.val, by have := t.isLt; omega⟩ : Fin 8)))) e))
    (hE3 : ∀ (t : Fin 4) (n : Fin 16384) (e : Fin 32),
      tcOf W4 c main_v12 (ix3 t n e) = tok (ix2 (Cert.Spec.row (idx (ix2 n (⟨4 + t.val, by have := t.isLt; omega⟩ : Fin 8)))) e)) :
    transpose S16384x8x1000 [2, 0, 1] (tcOf (Wend (Ix := Ix) (Name := Name) (U := U) W4) c main_v16)
        transposes_S8x1000x16384_S16384x8x1000_2_0_1
      = Cert.Spec.logits idx tok W b := by
  funext j
  obtain ⟨n, t, v, rfl⟩ : ∃ (n : Fin 16384) (t : Fin 8) (v : Fin 1000), j = ix3 n t v := ⟨j 0, j 1, j 2, eq_ix3 j⟩
  rw [outT_apply, logits_at]
  have ht8 : t.val < 8 := t.isLt
  by_cases h1 : t.val < 1
  · rw [result_row0 (Ix := Ix) (Name := Name) (U := U) W4 c t v n h1, G4_apply _ _ _ t v n (Nat.zero_le _) h1]
    refine congrArg₂ (· + ·) (Finset.sum_congr rfl fun e _ => congrArg₂ (· * ·) (hWt v e) ?_) (hBc v)
    refine (hE0 ⟨t.val - 0, by omega⟩ n e).trans ?_
    exact congrArg (fun s => tok (ix2 (Cert.Spec.row (idx (ix2 n s))) e)) (Fin.ext (by show 0 + (t.val - 0) = t.val; omega))
  by_cases h2 : t.val < 2
  · rw [result_row1 (Ix := Ix) (Name := Name) (U := U) W4 c t v n (by omega) h2, G5_apply _ _ _ t v n (by omega) h2]
    refine congrArg₂ (· + ·) (Finset.sum_congr rfl fun e _ => congrArg₂ (· * ·) (hWt v e) ?_) (hBc v)
    refine (hE1 ⟨t.val - 1, by omega⟩ n e).trans ?_
    exact congrArg (fun s => tok (ix2 (Cert.Spec.row (idx (ix2 n s))) e)) (Fin.ext (by show 1 + (t.val - 1) = t.val; omega))
  by_cases h4 : t.val < 4
  · rw [result_row23 (Ix := Ix) (Name := Name) (U := U) W4 c t v n (by omega) h4, G6_apply _ _ _ t v n (by omega) h4]
    refine congrArg₂ (· + ·) (Finset.sum_congr rfl fun e _ => congrArg₂ (· * ·) (hWt v e) ?_) (hBc v)
    refine (hE2 ⟨t.val - 2, by omega⟩ n e).trans ?_
    exact congrArg (fun s => tok (ix2 (Cert.Spec.row (idx (ix2 n s))) e)) (Fin.ext (by show 2 + (t.val - 2) = t.val; omega))
  · rw [result_row47 (Ix := Ix) (Name := Name) (U := U) W4 c t v n (by omega), G7_apply _ _ _ t v n (by omega) ht8]
    refine congrArg₂ (· + ·) (Finset.sum_congr rfl fun e _ => congrArg₂ (· * ·) (hWt v e) ?_) (hBc v)
    refine (hE3 ⟨t.val - 4, by omega⟩ n e).trans ?_
    exact congrArg (fun s => tok (ix2 (Cert.Spec.row (idx (ix2 n s))) e)) (Fin.ext (by show 4 + (t.val - 4) = t.val; omega))

end Cert.KernelIdeal.Bridge

end
-- ==== Proof.Bridge.lean ====
/-
  The bridge over the program's own terms: the region-entry contents agree with the host prefix's results on the
  weight array and the bias column, and each gathered array is what its call is specified to leave, from the padded
  table and the run of words the host prefix cut for it. Then the transposed result is the specification. The
  table's padding value and the index range play no part: only the first 32 columns are read, and the specification
  names a row the way the gather's specification does.
-/
import proofs.«203661_g84404697301628_cont_9to1_m_135_26_alg».proof.Proof.BridgeCore

set_option maxRecDepth 16384

noncomputable section

namespace Cert.KernelIdeal.Bridge

open Cert.KernelIdeal Cert.KernelIdeal.Facts₀ Cert.KernelIdeal.Heads Cert.KernelIdeal.HeadsValue
open Idealize.ShloMosaic Idealize.ShloMosaic.TcCoe Idealize.ShloMosaic.ValueIdx
open Idealize.SL Idealize.SL.RA

variable [hKernelIdeal : Cert.KernelIdeal.Facts]
variable {Ix : Type} [DecidableEq Ix] {Name : Type} [DecidableEq Name] {U : Type} [URA U]

theorem bridge (W4 : Dev nD → Valuation τ sig (Elt Ideal)) (c : Dev nD)
    (idx : IVec S16384x8 32) (tok : FVec Ideal S1000x32 .f32) (W : FVec Ideal S32x1000 .f32) (b : FVec Ideal S1000 .f32)
    (z : FVec Ideal S_ .f32)
    (hv1 : tcOf W4 c main_v1 = transpose S1000x32 [1, 0] W transposes_S32x1000_S1000x32_1_0)
    (hv2 : tcOf W4 c main_v2 = shapeCast S1000x1 b shapeCasts_S1000_S1000x1)
    (hE0 : tcOf W4 c main_v6
      = gathered1 (pad S1000x128 ![0, 0] ![0, 96] ![0, 0] tok z pads_S1000x32_S1000x128_000_0960 h_S_)
          (extractStridedSlice S16384 ![0]
            (shapeCast S131072 (transpose S8x16384 [1, 0] idx transposes_S16384x8_S8x16384_1_0) shapeCasts_S8x16384_S131072)
            slices_S131072_S16384_0))
    (hE1 : tcOf W4 c main_v8
      = gathered1 (pad S1000x128 ![0, 0] ![0, 96] ![0, 0] tok z pads_S1000x32_S1000x128_000_0960 h_S_)
          (extractStridedSlice S16384 ![16384]
            (shapeCast S131072 (transpose S8x16384 [1, 0] idx transposes_S16384x8_S8x16384_1_0) shapeCasts_S8x16384_S131072)
            slices_S131072_S16384_16384))
    (hE2 : tcOf W4 c main_v10
      = gathered2 (pad S1000x128 ![0, 0] ![0, 96] ![0, 0] tok z pads_S1000x32_S1000x128_000_0960 h_S_)
          (extractStridedSlice S32768 ![32768]
            (shapeCast S131072 (transpose S8x16384 [1, 0] idx transposes_S16384x8_S8x16384_1_0) shapeCasts_S8x16384_S131072)
            slices_S131072_S32768_32768))
    (hE3 : tcOf W4 c main_v12
      = gathered4 (pad S1000x128 ![0, 0] ![0, 96] ![0, 0] tok z pads_S1000x32_S1000x128_000_0960 h_S_)
          (extractStridedSlice S65536 ![65536]
            (shapeCast S131072 (transpose S8x16384 [1, 0] idx transposes_S16384x8_S8x16384_1_0) shapeCasts_S8x16384_S131072)
            slices_S131072_S65536_65536)) :
    transpose S16384x8x1000 [2, 0, 1] (tcOf (Wend (Ix := Ix) (Name := Name) (U := U) W4) c main_v16)
        transposes_S8x1000x16384_S16384x8x1000_2_0_1
      = Cert.Spec.logits idx tok W b :=
  bridge_core (Ix := Ix) (Name := Name) (U := U) W4 c idx tok W b
    (fun v e => (congrFun hv1 (ix2 v e)).trans (weightT_apply W v e))
    (fun v => (congrFun hv2 (ix2 v (0 : Fin 1))).trans (biasCol_apply b v))
    (fun t n e => (congrFun hE0 (ix3 t n e)).trans (((gathered1_apply _ _ t n e).trans (padded_apply tok z _ _ e.isLt)).trans
      (congrArg (fun w => tok (ix2 (Cert.Spec.row w) e)) (words0_at idx t n))))
    (fun t n e => (congrFun hE1 (ix3 t n e)).trans (((gathered1_apply _ _ t n e).trans (padded_apply tok z _ _ e.isLt)).trans
      (congrArg (fun w => tok (ix2 (Cert.Spec.row w) e)) (words1_at idx t n))))
    (fun t n e => (congrFun hE2 (ix3 t n e)).trans (((gathered2_apply _ _ t n e).trans (padded_apply tok z _ _ e.isLt)).trans
      (congrArg (fun w => tok (ix2 (Cert.Spec.row w) e)) (words2_apply idx t n))))
    (fun t n e => (congrFun hE3 (ix3 t n e)).trans (((gathered4_apply _ _ t n e).trans (padded_apply tok z _ _ e.isLt)).trans
      (congrArg (fun w => tok (ix2 (Cert.Spec.row w) e)) (words3_apply idx t n))))

end Cert.KernelIdeal.Bridge

end
-- ==== Proof.KCommon.lean ====
/-
  The kernel program as the SparseCore launch theorem sees it, and the resource algebra its proof is carried in.

  @main on the TensorCore makes four SparseCore calls (the embedding gathers for token positions 0, 1, 2–3 and 4–7)
  and then enters four TensorCore regions (the vocabulary projection of each gathered slab). Three kinds of ghost
  state are needed side by side: the rounds of the four launch handshakes; the rounds of the TensorCore regions'
  staging cells; and plain exclusive counters for the copies a vector subcore issues and waits for on semaphores
  nobody else touches (one copy in flight per semaphore, so no schedule is needed for them).
-/
import proofs.«203661_g84404697301628_cont_9to1_m_135_26_alg».proof.KernelIdeal
import proofs.«203661_g84404697301628_cont_9to1_m_135_26_alg».proof.Proof.Gen.KernelIdeal
import proofs.«203661_g84404697301628_cont_9to1_m_135_26_alg».proof.Proof.Gen.KernelIdeal.Skeleton
import Idealize.ShloMosaic.Lib.SparseCore.Launch
import Idealize.ShloMosaic.Lib.StableHlo.Run
import Idealize.ShloMosaic.Lib.Pipeline.Kit
import Idealize.ShloMosaic.Lib.Tactic

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [hK : Cert.KernelIdeal.Facts]

/-! ## The program as the launch theorem sees it -/

abbrev ΛP : Labels := Pipeline.Sig Λ₀ (Fin 4) fun p => (pcfgs (F := F) p).Adm
abbrev K : SparseCore.Cfg τ sig (ΛP (F := F)) 4 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The launch handshakes' rounds. -/
abbrev UH : Type := URounds (GSem nD τ sig) ℕ
/-- The TensorCore regions' staging cells' rounds. -/
abbrev UP : Type := URounds (GSem nD τ sig) Unit
/-- Handshakes, staging cells, and the exclusive counters of the vector subcores' own copies. -/
abbrev UU : Type := UH × (UP × Counters)

/-- The handshakes' rounds library: the left factor. -/
abbrev EH : Emb UH (MT nD τ sig (HIx 4) (Elt F) ℕ UU ℕ) := embL

end Cert.KernelIdeal.Hand

end
-- ==== Proof.Pay.lean ====
/-
  What the four launch handshakes carry, and how a SparseCore's share is dealt to its sixteen vector subcores.

  Every call reads the same padded embedding table: the TensorCore lends each of the two SparseCores half of its
  share of the table, and a SparseCore lends each of its sixteen vector subcores a sixteenth of that. Besides the
  table a vector subcore is handed its own slice of the call's token words and its own blocks of the call's result;
  those differ from call to call and are kept abstract here (`Rs q d c i`), so that the split below is proved once for
  all four calls: it only cuts the table's share.
-/
import proofs.«203661_g84404697301628_cont_9to1_m_135_26_alg».proof.Proof.KCommon

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [hK : Cert.KernelIdeal.Facts]

local notation "𝕄" => MT nD τ sig (HIx 4) (Elt F) ℕ UU ℕ

/-- the padded table, as the TensorCore names it -/
abbrev tblLoc (d : Dev nD) : Loc nD τ sig := (SparseCore.T d).loc main_v0

/-- a SparseCore's share of the table (half), and a vector subcore's (a sixteenth of that) -/
abbrev coreShare (c : Fin 2) : PosShare TreeShare := pieceOf fullShare 2 (by decide) c
abbrev tileShare (c : Fin 2) (i : Fin 16) : PosShare TreeShare := pieceOf (coreShare c) 16 (by decide) i

theorem nCore_eq (q : Fin 4) : (K (F := F)).nCore q = 2 := by
  match q with
  | 0 => rfl
  | 1 => rfl
  | 2 => rfl
  | 3 => rfl
theorem nSub_eq (q : Fin 4) : (K (F := F)).nSub q = 16 := by
  match q with
  | 0 => rfl
  | 1 => rfl
  | 2 => rfl
  | 3 => rfl

/-- what a vector subcore is handed and hands back: its share of the table and its own words and blocks -/
def tileRes (tb : (d : Dev nD) → Buf (Elt F) (tblLoc d)) (Rs : Fin 4 → Dev nD → Fin 2 → Fin 16 → sProp 𝕄) (q : Fin 4) (d : Dev nD) (c : Fin 2) (i : Fin 16) : sProp 𝕄 :=
  iprop((tblLoc d ↦{tileShare c i} tb d) ∗ Rs q d c i)
/-- what a SparseCore is handed and hands back: its share of the table and its subcores' words and blocks -/
def coreRes (tb : (d : Dev nD) → Buf (Elt F) (tblLoc d)) (Rs : Fin 4 → Dev nD → Fin 2 → Fin 16 → sProp 𝕄) (q : Fin 4) (d : Dev nD) (c : Fin 2) : sProp 𝕄 :=
  iprop((tblLoc d ↦{coreShare c} tb d) ∗ bigSep Finset.univ fun i : Fin 16 => Rs q d c i)

/-- The handshakes' payloads: the same both ways (contents of the result are not tracked here); no kernel consumes
    anything of the launch's. -/
def P (tb : (d : Dev nD) → Buf (Elt F) (tblLoc d)) (Rs : Fin 4 → Dev nD → Fin 2 → Fin 16 → sProp 𝕄) : (K (F := F)).Pay (nD := nD) (Val := Elt F) (Name := ℕ) (U := UU) where
  st := fun q d c => coreRes tb Rs q d (Fin.cast (nCore_eq q) c)
  dn := fun q d c => coreRes tb Rs q d (Fin.cast (nCore_eq q) c)
  go := fun q d c i => tileRes tb Rs q d (Fin.cast (nCore_eq q) c) (Fin.cast (nSub_eq q) i)
  td := fun q d c i => tileRes tb Rs q d (Fin.cast (nCore_eq q) c) (Fin.cast (nSub_eq q) i)
  x := fun _ _ => iprop(emp)

/-- the payloads can be stored in a handshake's cell when the subcores' own parts can -/
@[reducible] def P_storable (tb : (d : Dev nD) → Buf (Elt F) (tblLoc d)) (Rs : Fin 4 → Dev nD → Fin 2 → Fin 16 → sProp 𝕄) (hR : ∀ q d c i, BI.Storable (upEmb : UEmb _ 𝕄) (Rs q d c i)) : (P (F := F) tb Rs).IsStorable where
  st _ _ _ := by haveI := hR; unfold P coreRes; infer_instance
  dn _ _ _ := by haveI := hR; unfold P coreRes; infer_instance
  go _ _ _ _ := by haveI := hR; unfold P tileRes; infer_instance
  td _ _ _ _ := by haveI := hR; unfold P tileRes; infer_instance

theorem bigSep_tasks (q : Fin 4) (Φ : Fin 16 → sProp 𝕄) :
    (bigSep Finset.univ fun i : Fin ((K (F := F)).nSub q) => Φ (Fin.cast (nSub_eq q) i)) = bigSep Finset.univ Φ := by
  match q with
  | 0 => exact bigSep_congr fun _ _ => congrArg Φ (Fin.ext rfl)
  | 1 => exact bigSep_congr fun _ _ => congrArg Φ (Fin.ext rfl)
  | 2 => exact bigSep_congr fun _ _ => congrArg Φ (Fin.ext rfl)
  | 3 => exact bigSep_congr fun _ _ => congrArg Φ (Fin.ext rfl)

/-- A SparseCore's payload is its sixteen subcores' payloads, and back: only the table's share is cut. -/
theorem vecSplit (tb : (d : Dev nD) → Buf (Elt F) (tblLoc d)) (Rs : Fin 4 → Dev nD → Fin 2 → Fin 16 → sProp 𝕄) (q : Fin 4) : (K (F := F)).VecSplit' (P tb Rs) q := by
  intro d c
  show coreRes tb Rs q d (Fin.cast (nCore_eq q) c) ⊢ |={Set.univ}=> iprop(
      (bigSep Finset.univ fun i : Fin ((K (F := F)).nSub q) => tileRes tb Rs q d (Fin.cast (nCore_eq q) c) (Fin.cast (nSub_eq q) i))
      ∗ ((bigSep Finset.univ fun i : Fin ((K (F := F)).nSub q) => tileRes tb Rs q d (Fin.cast (nCore_eq q) c) (Fin.cast (nSub_eq q) i))
          -∗ coreRes tb Rs q d (Fin.cast (nCore_eq q) c)))
  rw [bigSep_tasks (F := F) q (fun i => tileRes tb Rs q d (Fin.cast (nCore_eq q) c) i)]
  unfold coreRes tileRes
  rw [bigSep_sep', pointsTo_piecesOf Finset.univ (tb d) (show 0 < 16 by decide) (coreShare (Fin.cast (nCore_eq q) c))]
  iintro H; imodintro
  isplitl [H]; · iexact H
  iintro H; iexact H

end Cert.KernelIdeal.Hand

end
-- ==== Proof.PayV.lean ====
/-
  The handshakes' payloads when contents are tracked: what a vector subcore is HANDED (its words and its blocks at some
  contents, `Rgo`) differs from what it HANDS BACK (its words and its blocks at the gathered rows, `Rtd`); the
  table's share travels both ways unchanged. Otherwise as Pay.lean.
-/
import proofs.«203661_g84404697301628_cont_9to1_m_135_26_alg».proof.Proof.Pay

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [hK : Cert.KernelIdeal.Facts]

local notation "𝕄" => MT nD τ sig (HIx 4) (Elt F) ℕ UU ℕ

/-- The payloads with contents tracked: `Rgo` out to the subcores, `Rtd` back. -/
def PV (tb : (d : Dev nD) → Buf (Elt F) (tblLoc d)) (Rgo Rtd : Fin 4 → Dev nD → Fin 2 → Fin 16 → sProp 𝕄) : (K (F := F)).Pay (nD := nD) (Val := Elt F) (Name := ℕ) (U := UU) where
  st := fun q d c => coreRes tb Rgo q d (Fin.cast (nCore_eq q) c)
  dn := fun q d c => coreRes tb Rtd q d (Fin.cast (nCore_eq q) c)
  go := fun q d c i => tileRes tb Rgo q d (Fin.cast (nCore_eq q) c) (Fin.cast (nSub_eq q) i)
  td := fun q d c i => tileRes tb Rtd q d (Fin.cast (nCore_eq q) c) (Fin.cast (nSub_eq q) i)
  x := fun _ _ => iprop(emp)

@[reducible] def PV_storable (tb : (d : Dev nD) → Buf (Elt F) (tblLoc d)) (Rgo Rtd : Fin 4 → Dev nD → Fin 2 → Fin 16 → sProp 𝕄)
    (hgo : ∀ q d c i, BI.Storable (upEmb : UEmb _ 𝕄) (Rgo q d c i)) (htd : ∀ q d c i, BI.Storable (upEmb : UEmb _ 𝕄) (Rtd q d c i)) :
    (PV (F := F) tb Rgo Rtd).IsStorable where
  st _ _ _ := by haveI := hgo; unfold PV coreRes; infer_instance
  dn _ _ _ := by haveI := htd; unfold PV coreRes; infer_instance
  go _ _ _ _ := by haveI := hgo; unfold PV tileRes; infer_instance
  td _ _ _ _ := by haveI := htd; unfold PV tileRes; infer_instance

/-- A SparseCore's payload out is its sixteen subcores' payloads out, and their payloads back are its payload back. -/
theorem vecSplitV (tb : (d : Dev nD) → Buf (Elt F) (tblLoc d)) (Rgo Rtd : Fin 4 → Dev nD → Fin 2 → Fin 16 → sProp 𝕄) (q : Fin 4) : (K (F := F)).VecSplit' (PV tb Rgo Rtd) q := by
  intro d c
  show coreRes tb Rgo q d (Fin.cast (nCore_eq q) c) ⊢ |={Set.univ}=> iprop(
      (bigSep Finset.univ fun i : Fin ((K (F := F)).nSub q) => tileRes tb Rgo q d (Fin.cast (nCore_eq q) c) (Fin.cast (nSub_eq q) i))
      ∗ ((bigSep Finset.univ fun i : Fin ((K (F := F)).nSub q) => tileRes tb Rtd q d (Fin.cast (nCore_eq q) c) (Fin.cast (nSub_eq q) i))
          -∗ coreRes tb Rtd q d (Fin.cast (nCore_eq q) c)))
  rw [bigSep_tasks (F := F) q (fun i => tileRes tb Rgo q d (Fin.cast (nCore_eq q) c) i),
    bigSep_tasks (F := F) q (fun i => tileRes tb Rtd q d (Fin.cast (nCore_eq q) c) i)]
  unfold coreRes tileRes
  rw [bigSep_sep', bigSep_sep', pointsTo_piecesOf Finset.univ (tb d) (show 0 < 16 by decide) (coreShare (Fin.cast (nCore_eq q) c))]
  iintro H; imodintro
  isplitl [H]; · iexact H
  iintro H; iexact H

end Cert.KernelIdeal.Hand

end
-- ==== Proof.KernelIdeal.DatB4.lean ====
import proofs.«203661_g84404697301628_cont_9to1_m_135_26_alg».proof.Proof.KernelIdeal.Dat4
import Idealize.ShloMosaic.Lib.Pipeline.Value

/-! # Pipeline `cfg4`: the proof data with the core's recorded pairs bounded

The proof data of the region with, besides, a bound `B c` on the (cell, index) pairs the core's waits have recorded before
the region: the body takes on no new unit, so the bound is the same at every point, and the region hands the core's `owes`
back with its recorded pairs within the bound and the pipeline's own waits' pairs. The arrays' contents are the unbounded
data's. -/

set_option maxRecDepth 16384

noncomputable section

namespace Cert.KernelIdeal.Heads

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U]

local notation "𝕄" => MT nD τ sig Ix (Elt F) Name U ℕ

variable (V : (c : Dev nD) → (b : Ref sig .tc) → Buf (Elt F) ((c : Thread nD τ).loc b))

variable (B : Dev nD → Set (SemLoc sig × Ix))

/-- The proof data of the pipeline on core `c`, the recorded pairs within `B c`. -/
def datB4 (c : Dev nD) : Dat τ (Elt F) Ix Name U ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := inv4 (Ix := Ix) (Name := Name) (U := U) c
  q _ := fullShare
  owed _ := 0
  recorded _ := B c

theorem A_eqB4 (c : Dev nD) (w : Fin cfg4.W) : (datB4 (Ix := Ix) (Name := Name) (U := U) V B c).A w = V c (Pipeline.arrRef spec4 w) := by
  dsimp only [datB4]

theorem afterB4_0 (c : Dev nD) (t : Fin cfg4.N) : (datB4 (Ix := Ix) (Name := Name) (U := U) V B c).after 0 t = iblk4 V c 0 t := by dsimp only [datB4]
theorem afterB4_1 (c : Dev nD) (t : Fin cfg4.N) : (datB4 (Ix := Ix) (Name := Name) (U := U) V B c).after 1 t = iblk4 V c 1 t := by dsimp only [datB4]
theorem afterB4_2 (c : Dev nD) (t : Fin cfg4.N) : (datB4 (Ix := Ix) (Name := Name) (U := U) V B c).after 2 t = iblk4 V c 2 t := by dsimp only [datB4]
theorem afterB4_3 (c : Dev nD) (t : Fin cfg4.N) :
    (datB4 (Ix := Ix) (Name := Name) (U := U) V B c).after 3 t = out4_3 (iblk4 V c 0 t) (iblk4 V c 1 t) (iblk4 V c 2 t) := by dsimp only [datB4]

theorem beforeB4_0 (c : Dev nD) (t : Fin cfg4.N) (d) : (datB4 (Ix := Ix) (Name := Name) (U := U) V B c).before 0 t d = iblk4 V c 0 t :=
  before4_0_of V (datB4 (Ix := Ix) (Name := Name) (U := U) V B c) (A_eqB4 V B c 0) (afterB4_0 V B c) t d
theorem beforeB4_1 (c : Dev nD) (t : Fin cfg4.N) (d) : (datB4 (Ix := Ix) (Name := Name) (U := U) V B c).before 1 t d = iblk4 V c 1 t :=
  before4_1_of V (datB4 (Ix := Ix) (Name := Name) (U := U) V B c) (A_eqB4 V B c 1) (afterB4_1 V B c) t d
theorem beforeB4_2 (c : Dev nD) (t : Fin cfg4.N) (d) : (datB4 (Ix := Ix) (Name := Name) (U := U) V B c).before 2 t d = iblk4 V c 2 t :=
  before4_2_of V (datB4 (Ix := Ix) (Name := Name) (U := U) V B c) (A_eqB4 V B c 2) (afterB4_2 V B c) t d

/-- The arrays after the write-backs below `n` are the unbounded data's: they are computed from the entry contents and
    what the body leaves, which are the same. -/
theorem arrAtB4 (c : Dev nD) (w : Fin cfg4.W) :
    ∀ n, (datB4 (Ix := Ix) (Name := Name) (U := U) V B c).arrAt w n = (dat4 (Ix := Ix) (Name := Name) (U := U) V c).arrAt w n
  | 0 => rfl
  | n + 1 => by
    funext i
    rw [Pipeline.Dat.arrAt_succ_apply, Pipeline.Dat.arrAt_succ_apply, arrAtB4 c w n]
    rfl

def bodyPreB4 (ι : Ix) (c : Dev nD) (t : Fin cfg4.N) : sProp 𝕄 :=
  iprop((datB4 (Ix := Ix) (Name := Name) (U := U) V B c).Φ t.castSucc ∗ (datB4 (Ix := Ix) (Name := Name) (U := U) V B c).owesAt ι t.castSucc
    ∗ (∃ d, owns (c : Thread nD τ) (st4_0 t) fullShare ((datB4 (Ix := Ix) (Name := Name) (U := U) V B c).before 0 t d))
    ∗ (∃ d, owns (c : Thread nD τ) (st4_1 t) fullShare ((datB4 (Ix := Ix) (Name := Name) (U := U) V B c).before 1 t d))
    ∗ (∃ d, owns (c : Thread nD τ) (st4_2 t) fullShare ((datB4 (Ix := Ix) (Name := Name) (U := U) V B c).before 2 t d))
    ∗ (∃ d, owns (c : Thread nD τ) (st4_3 t) fullShare ((datB4 (Ix := Ix) (Name := Name) (U := U) V B c).before 3 t d)))

def bodyPostB4 (ι : Ix) (c : Dev nD) (t : Fin cfg4.N) : sProp 𝕄 :=
  iprop((datB4 (Ix := Ix) (Name := Name) (U := U) V B c).Φ t.succ ∗ (datB4 (Ix := Ix) (Name := Name) (U := U) V B c).owesAt ι t.succ
    ∗ owns (c : Thread nD τ) (st4_0 t) fullShare ((datB4 (Ix := Ix) (Name := Name) (U := U) V B c).after 0 t)
    ∗ owns (c : Thread nD τ) (st4_1 t) fullShare ((datB4 (Ix := Ix) (Name := Name) (U := U) V B c).after 1 t)
    ∗ owns (c : Thread nD τ) (st4_2 t) fullShare ((datB4 (Ix := Ix) (Name := Name) (U := U) V B c).after 2 t)
    ∗ owns (c : Thread nD τ) (st4_3 t) fullShare ((datB4 (Ix := Ix) (Name := Name) (U := U) V B c).after 3 t))

theorem sound_bodyB4 (ι : Ix) (c : Dev nD) (t : Fin cfg4.N) :
    bodyPreB4 (Ix := Ix) (Name := Name) (U := U) V B ι c t
      ⊢ wp frame (wpE (defs₀ (F := F)) Variants.none c none) Set.univ (bodyAt4 t) (fun _ => bodyPostB4 (Ix := Ix) (Name := Name) (U := U) V B ι c t) := by
  unfold bodyPreB4 bodyPostB4 bodyAt4
  simp only [beforeB4_0, beforeB4_1, beforeB4_2]
  rw [show (datB4 (Ix := Ix) (Name := Name) (U := U) V B c).Φ t.succ = (datB4 (Ix := Ix) (Name := Name) (U := U) V B c).Φ t.castSucc from rfl,
    show (datB4 (Ix := Ix) (Name := Name) (U := U) V B c).owesAt ι t.succ = (datB4 (Ix := Ix) (Name := Name) (U := U) V B c).owesAt ι t.castSucc from rfl,
    afterB4_0, afterB4_1, afterB4_2, afterB4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for the bounded data, at every point. -/
theorem body_obligationB4 (ι : Ix) (c : Dev nD) :
    BodyObligation (datB4 (F := F) (Ix := Ix) (Name := Name) (U := U) V B c) (defs₀ (F := F)) Variants.none ι Set.univ := fun t => by
  rw [bigSep_W4, bigSep_W4]
  exact sound_bodyB4 V B ι c t

end Cert.KernelIdeal.Heads

end
-- ==== Proof.KernelIdeal.DatB5.lean ====
import proofs.«203661_g84404697301628_cont_9to1_m_135_26_alg».proof.Proof.KernelIdeal.Dat5
import Idealize.ShloMosaic.Lib.Pipeline.Value

/-! # Pipeline `cfg5`: the proof data with the core's recorded pairs bounded

The proof data of the region with, besides, a bound `B c` on the (cell, index) pairs the core's waits have recorded before
the region: the body takes on no new unit, so the bound is the same at every point, and the region hands the core's `owes`
back with its recorded pairs within the bound and the pipeline's own waits' pairs. The arrays' contents are the unbounded
data's. -/

set_option maxRecDepth 16384

noncomputable section

namespace Cert.KernelIdeal.Heads

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U]

local notation "𝕄" => MT nD τ sig Ix (Elt F) Name U ℕ

variable (V : (c : Dev nD) → (b : Ref sig .tc) → Buf (Elt F) ((c : Thread nD τ).loc b))

variable (B : Dev nD → Set (SemLoc sig × Ix))

/-- The proof data of the pipeline on core `c`, the recorded pairs within `B c`. -/
def datB5 (c : Dev nD) : Dat τ (Elt F) Ix Name U ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := inv5 (Ix := Ix) (Name := Name) (U := U) c
  q _ := fullShare
  owed _ := 0
  recorded _ := B c

theorem A_eqB5 (c : Dev nD) (w : Fin cfg5.W) : (datB5 (Ix := Ix) (Name := Name) (U := U) V B c).A w = V c (Pipeline.arrRef spec5 w) := by
  dsimp only [datB5]

theorem afterB5_0 (c : Dev nD) (t : Fin cfg5.N) : (datB5 (Ix := Ix) (Name := Name) (U := U) V B c).after 0 t = iblk5 V c 0 t := by dsimp only [datB5]
theorem afterB5_1 (c : Dev nD) (t : Fin cfg5.N) : (datB5 (Ix := Ix) (Name := Name) (U := U) V B c).after 1 t = iblk5 V c 1 t := by dsimp only [datB5]
theorem afterB5_2 (c : Dev nD) (t : Fin cfg5.N) : (datB5 (Ix := Ix) (Name := Name) (U := U) V B c).after 2 t = iblk5 V c 2 t := by dsimp only [datB5]
theorem afterB5_3 (c : Dev nD) (t : Fin cfg5.N) :
    (datB5 (Ix := Ix) (Name := Name) (U := U) V B c).after 3 t = out5_3 (iblk5 V c 0 t) (iblk5 V c 1 t) (iblk5 V c 2 t) := by dsimp only [datB5]

theorem beforeB5_0 (c : Dev nD) (t : Fin cfg5.N) (d) : (datB5 (Ix := Ix) (Name := Name) (U := U) V B c).before 0 t d = iblk5 V c 0 t :=
  before5_0_of V (datB5 (Ix := Ix) (Name := Name) (U := U) V B c) (A_eqB5 V B c 0) (afterB5_0 V B c) t d
theorem beforeB5_1 (c : Dev nD) (t : Fin cfg5.N) (d) : (datB5 (Ix := Ix) (Name := Name) (U := U) V B c).before 1 t d = iblk5 V c 1 t :=
  before5_1_of V (datB5 (Ix := Ix) (Name := Name) (U := U) V B c) (A_eqB5 V B c 1) (afterB5_1 V B c) t d
theorem beforeB5_2 (c : Dev nD) (t : Fin cfg5.N) (d) : (datB5 (Ix := Ix) (Name := Name) (U := U) V B c).before 2 t d = iblk5 V c 2 t :=
  before5_2_of V (datB5 (Ix := Ix) (Name := Name) (U := U) V B c) (A_eqB5 V B c 2) (afterB5_2 V B c) t d

/-- The arrays after the write-backs below `n` are the unbounded data's: they are computed from the entry contents and
    what the body leaves, which are the same. -/
theorem arrAtB5 (c : Dev nD) (w : Fin cfg5.W) :
    ∀ n, (datB5 (Ix := Ix) (Name := Name) (U := U) V B c).arrAt w n = (dat5 (Ix := Ix) (Name := Name) (U := U) V c).arrAt w n
  | 0 => rfl
  | n + 1 => by
    funext i
    rw [Pipeline.Dat.arrAt_succ_apply, Pipeline.Dat.arrAt_succ_apply, arrAtB5 c w n]
    rfl

def bodyPreB5 (ι : Ix) (c : Dev nD) (t : Fin cfg5.N) : sProp 𝕄 :=
  iprop((datB5 (Ix := Ix) (Name := Name) (U := U) V B c).Φ t.castSucc ∗ (datB5 (Ix := Ix) (Name := Name) (U := U) V B c).owesAt ι t.castSucc
    ∗ (∃ d, owns (c : Thread nD τ) (st5_0 t) fullShare ((datB5 (Ix := Ix) (Name := Name) (U := U) V B c).before 0 t d))
    ∗ (∃ d, owns (c : Thread nD τ) (st5_1 t) fullShare ((datB5 (Ix := Ix) (Name := Name) (U := U) V B c).before 1 t d))
    ∗ (∃ d, owns (c : Thread nD τ) (st5_2 t) fullShare ((datB5 (Ix := Ix) (Name := Name) (U := U) V B c).before 2 t d))
    ∗ (∃ d, owns (c : Thread nD τ) (st5_3 t) fullShare ((datB5 (Ix := Ix) (Name := Name) (U := U) V B c).before 3 t d)))

def bodyPostB5 (ι : Ix) (c : Dev nD) (t : Fin cfg5.N) : sProp 𝕄 :=
  iprop((datB5 (Ix := Ix) (Name := Name) (U := U) V B c).Φ t.succ ∗ (datB5 (Ix := Ix) (Name := Name) (U := U) V B c).owesAt ι t.succ
    ∗ owns (c : Thread nD τ) (st5_0 t) fullShare ((datB5 (Ix := Ix) (Name := Name) (U := U) V B c).after 0 t)
    ∗ owns (c : Thread nD τ) (st5_1 t) fullShare ((datB5 (Ix := Ix) (Name := Name) (U := U) V B c).after 1 t)
    ∗ owns (c : Thread nD τ) (st5_2 t) fullShare ((datB5 (Ix := Ix) (Name := Name) (U := U) V B c).after 2 t)
    ∗ owns (c : Thread nD τ) (st5_3 t) fullShare ((datB5 (Ix := Ix) (Name := Name) (U := U) V B c).after 3 t))

theorem sound_bodyB5 (ι : Ix) (c : Dev nD) (t : Fin cfg5.N) :
    bodyPreB5 (Ix := Ix) (Name := Name) (U := U) V B ι c t
      ⊢ wp frame (wpE (defs₀ (F := F)) Variants.none c none) Set.univ (bodyAt5 t) (fun _ => bodyPostB5 (Ix := Ix) (Name := Name) (U := U) V B ι c t) := by
  unfold bodyPreB5 bodyPostB5 bodyAt5
  simp only [beforeB5_0, beforeB5_1, beforeB5_2]
  rw [show (datB5 (Ix := Ix) (Name := Name) (U := U) V B c).Φ t.succ = (datB5 (Ix := Ix) (Name := Name) (U := U) V B c).Φ t.castSucc from rfl,
    show (datB5 (Ix := Ix) (Name := Name) (U := U) V B c).owesAt ι t.succ = (datB5 (Ix := Ix) (Name := Name) (U := U) V B c).owesAt ι t.castSucc from rfl,
    afterB5_0, afterB5_1, afterB5_2, afterB5_3]
  iintro ⟨HΦ, Ho, ⟨%d0, H0⟩, ⟨%d1, H1⟩, ⟨%d2, H2⟩, ⟨%d3, H3⟩⟩
  iapply (sound_kernel5 c Set.univ _ _ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for the bounded data, at every point. -/
theorem body_obligationB5 (ι : Ix) (c : Dev nD) :
    BodyObligation (datB5 (F := F) (Ix := Ix) (Name := Name) (U := U) V B c) (defs₀ (F := F)) Variants.none ι Set.univ := fun t => by
  rw [bigSep_W5, bigSep_W5]
  exact sound_bodyB5 V B ι c t

end Cert.KernelIdeal.Heads

end
-- ==== Proof.KernelIdeal.DatB6.lean ====
import proofs.«203661_g84404697301628_cont_9to1_m_135_26_alg».proof.Proof.KernelIdeal.Dat6
import Idealize.ShloMosaic.Lib.Pipeline.Value

/-! # Pipeline `cfg6`: the proof data with the core's recorded pairs bounded

The proof data of the region with, besides, a bound `B c` on the (cell, index) pairs the core's waits have recorded before
the region: the body takes on no new unit, so the bound is the same at every point, and the region hands the core's `owes`
back with its recorded pairs within the bound and the pipeline's own waits' pairs. The arrays' contents are the unbounded
data's. -/

set_option maxRecDepth 16384

noncomputable section

namespace Cert.KernelIdeal.Heads

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U]

local notation "𝕄" => MT nD τ sig Ix (Elt F) Name U ℕ

variable (V : (c : Dev nD) → (b : Ref sig .tc) → Buf (Elt F) ((c : Thread nD τ).loc b))

variable (B : Dev nD → Set (SemLoc sig × Ix))

/-- The proof data of the pipeline on core `c`, the recorded pairs within `B c`. -/
def datB6 (c : Dev nD) : Dat τ (Elt F) Ix Name U ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := inv6 (Ix := Ix) (Name := Name) (U := U) c
  q _ := fullShare
  owed _ := 0
  recorded _ := B c

theorem A_eqB6 (c : Dev nD) (w : Fin cfg6.W) : (datB6 (Ix := Ix) (Name := Name) (U := U) V B c).A w = V c (Pipeline.arrRef spec6 w) := by
  dsimp only [datB6]

theorem afterB6_0 (c : Dev nD) (t : Fin cfg6.N) : (datB6 (Ix := Ix) (Name := Name) (U := U) V B c).after 0 t = iblk6 V c 0 t := by dsimp only [datB6]
theorem afterB6_1 (c : Dev nD) (t : Fin cfg6.N) : (datB6 (Ix := Ix) (Name := Name) (U := U) V B c).after 1 t = iblk6 V c 1 t := by dsimp only [datB6]
theorem afterB6_2 (c : Dev nD) (t : Fin cfg6.N) : (datB6 (Ix := Ix) (Name := Name) (U := U) V B c).after 2 t = iblk6 V c 2 t := by dsimp only [datB6]
theorem afterB6_3 (c : Dev nD) (t : Fin cfg6.N) :
    (datB6 (Ix := Ix) (Name := Name) (U := U) V B c).after 3 t = out6_3 (iblk6 V c 0 t) (iblk6 V c 1 t) (iblk6 V c 2 t) := by dsimp only [datB6]

theorem beforeB6_0 (c : Dev nD) (t : Fin cfg6.N) (d) : (datB6 (Ix := Ix) (Name := Name) (U := U) V B c).before 0 t d = iblk6 V c 0 t :=
  before6_0_of V (datB6 (Ix := Ix) (Name := Name) (U := U) V B c) (A_eqB6 V B c 0) (afterB6_0 V B c) t d
theorem beforeB6_1 (c : Dev nD) (t : Fin cfg6.N) (d) : (datB6 (Ix := Ix) (Name := Name) (U := U) V B c).before 1 t d = iblk6 V c 1 t :=
  before6_1_of V (datB6 (Ix := Ix) (Name := Name) (U := U) V B c) (A_eqB6 V B c 1) (afterB6_1 V B c) t d
theorem beforeB6_2 (c : Dev nD) (t : Fin cfg6.N) (d) : (datB6 (Ix := Ix) (Name := Name) (U := U) V B c).before 2 t d = iblk6 V c 2 t :=
  before6_2_of V (datB6 (Ix := Ix) (Name := Name) (U := U) V B c) (A_eqB6 V B c 2) (afterB6_2 V B c) t d

/-- The arrays after the write-backs below `n` are the unbounded data's: they are computed from the entry contents and
    what the body leaves, which are the same. -/
theorem arrAtB6 (c : Dev nD) (w : Fin cfg6.W) :
    ∀ n, (datB6 (Ix := Ix) (Name := Name) (U := U) V B c).arrAt w n = (dat6 (Ix := Ix) (Name := Name) (U := U) V c).arrAt w n
  | 0 => rfl
  | n + 1 => by
    funext i
    rw [Pipeline.Dat.arrAt_succ_apply, Pipeline.Dat.arrAt_succ_apply, arrAtB6 c w n]
    rfl

def bodyPreB6 (ι : Ix) (c : Dev nD) (t : Fin cfg6.N) : sProp 𝕄 :=
  iprop((datB6 (Ix := Ix) (Name := Name) (U := U) V B c).Φ t.castSucc ∗ (datB6 (Ix := Ix) (Name := Name) (U := U) V B c).owesAt ι t.castSucc
    ∗ (∃ d, owns (c : Thread nD τ) (st6_0 t) fullShare ((datB6 (Ix := Ix) (Name := Name) (U := U) V B c).before 0 t d))
    ∗ (∃ d, owns (c : Thread nD τ) (st6_1 t) fullShare ((datB6 (Ix := Ix) (Name := Name) (U := U) V B c).before 1 t d))
    ∗ (∃ d, owns (c : Thread nD τ) (st6_2 t) fullShare ((datB6 (Ix := Ix) (Name := Name) (U := U) V B c).before 2 t d))
    ∗ (∃ d, owns (c : Thread nD τ) (st6_3 t) fullShare ((datB6 (Ix := Ix) (Name := Name) (U := U) V B c).before 3 t d)))

def bodyPostB6 (ι : Ix) (c : Dev nD) (t : Fin cfg6.N) : sProp 𝕄 :=
  iprop((datB6 (Ix := Ix) (Name := Name) (U := U) V B c).Φ t.succ ∗ (datB6 (Ix := Ix) (Name := Name) (U := U) V B c).owesAt ι t.succ
    ∗ owns (c : Thread nD τ) (st6_0 t) fullShare ((datB6 (Ix := Ix) (Name := Name) (U := U) V B c).after 0 t)
    ∗ owns (c : Thread nD τ) (st6_1 t) fullShare ((datB6 (Ix := Ix) (Name := Name) (U := U) V B c).after 1 t)
    ∗ owns (c : Thread nD τ) (st6_2 t) fullShare ((datB6 (Ix := Ix) (Name := Name) (U := U) V B c).after 2 t)
    ∗ owns (c : Thread nD τ) (st6_3 t) fullShare ((datB6 (Ix := Ix) (Name := Name) (U := U) V B c).after 3 t))

theorem sound_bodyB6 (ι : Ix) (c : Dev nD) (t : Fin cfg6.N) :
    bodyPreB6 (Ix := Ix) (Name := Name) (U := U) V B ι c t
      ⊢ wp frame (wpE (defs₀ (F := F)) Variants.none c none) Set.univ (bodyAt6 t) (fun _ => bodyPostB6 (Ix := Ix) (Name := Name) (U := U) V B ι c t) := by
  unfold bodyPreB6 bodyPostB6 bodyAt6
  simp only [beforeB6_0, beforeB6_1, beforeB6_2]
  rw [show (datB6 (Ix := Ix) (Name := Name) (U := U) V B c).Φ t.succ = (datB6 (Ix := Ix) (Name := Name) (U := U) V B c).Φ t.castSucc from rfl,
    show (datB6 (Ix := Ix) (Name := Name) (U := U) V B c).owesAt ι t.succ = (datB6 (Ix := Ix) (Name := Name) (U := U) V B c).owesAt ι t.castSucc from rfl,
    afterB6_0, afterB6_1, afterB6_2, afterB6_3]
  iintro ⟨HΦ, Ho, ⟨%d0, H0⟩, ⟨%d1, H1⟩, ⟨%d2, H2⟩, ⟨%d3, H3⟩⟩
  iapply (sound_kernel6 c Set.univ _ _ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for the bounded data, at every point. -/
theorem body_obligationB6 (ι : Ix) (c : Dev nD) :
    BodyObligation (datB6 (F := F) (Ix := Ix) (Name := Name) (U := U) V B c) (defs₀ (F := F)) Variants.none ι Set.univ := fun t => by
  rw [bigSep_W6, bigSep_W6]
  exact sound_bodyB6 V B ι c t

end Cert.KernelIdeal.Heads

end
-- ==== Proof.KernelIdeal.DatB7.lean ====
import proofs.«203661_g84404697301628_cont_9to1_m_135_26_alg».proof.Proof.KernelIdeal.Dat7
import Idealize.ShloMosaic.Lib.Pipeline.Value

/-! # Pipeline `cfg7`: the proof data with the core's recorded pairs bounded

The proof data of the region with, besides, a bound `B c` on the (cell, index) pairs the core's waits have recorded before
the region: the body takes on no new unit, so the bound is the same at every point, and the region hands the core's `owes`
back with its recorded pairs within the bound and the pipeline's own waits' pairs. The arrays' contents are the unbounded
data's. -/

set_option maxRecDepth 16384

noncomputable section

namespace Cert.KernelIdeal.Heads

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U]

local notation "𝕄" => MT nD τ sig Ix (Elt F) Name U ℕ

variable (V : (c : Dev nD) → (b : Ref sig .tc) → Buf (Elt F) ((c : Thread nD τ).loc b))

variable (B : Dev nD → Set (SemLoc sig × Ix))

/-- The proof data of the pipeline on core `c`, the recorded pairs within `B c`. -/
def datB7 (c : Dev nD) : Dat τ (Elt F) Ix Name U ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := inv7 (Ix := Ix) (Name := Name) (U := U) c
  q _ := fullShare
  owed _ := 0
  recorded _ := B c

theorem A_eqB7 (c : Dev nD) (w : Fin cfg7.W) : (datB7 (Ix := Ix) (Name := Name) (U := U) V B c).A w = V c (Pipeline.arrRef spec7 w) := by
  dsimp only [datB7]

theorem afterB7_0 (c : Dev nD) (t : Fin cfg7.N) : (datB7 (Ix := Ix) (Name := Name) (U := U) V B c).after 0 t = iblk7 V c 0 t := by dsimp only [datB7]
theorem afterB7_1 (c : Dev nD) (t : Fin cfg7.N) : (datB7 (Ix := Ix) (Name := Name) (U := U) V B c).after 1 t = iblk7 V c 1 t := by dsimp only [datB7]
theorem afterB7_2 (c : Dev nD) (t : Fin cfg7.N) : (datB7 (Ix := Ix) (Name := Name) (U := U) V B c).after 2 t = iblk7 V c 2 t := by dsimp only [datB7]
theorem afterB7_3 (c : Dev nD) (t : Fin cfg7.N) :
    (datB7 (Ix := Ix) (Name := Name) (U := U) V B c).after 3 t = out7_3 (iblk7 V c 0 t) (iblk7 V c 1 t) (iblk7 V c 2 t) := by dsimp only [datB7]

theorem beforeB7_0 (c : Dev nD) (t : Fin cfg7.N) (d) : (datB7 (Ix := Ix) (Name := Name) (U := U) V B c).before 0 t d = iblk7 V c 0 t :=
  before7_0_of V (datB7 (Ix := Ix) (Name := Name) (U := U) V B c) (A_eqB7 V B c 0) (afterB7_0 V B c) t d
theorem beforeB7_1 (c : Dev nD) (t : Fin cfg7.N) (d) : (datB7 (Ix := Ix) (Name := Name) (U := U) V B c).before 1 t d = iblk7 V c 1 t :=
  before7_1_of V (datB7 (Ix := Ix) (Name := Name) (U := U) V B c) (A_eqB7 V B c 1) (afterB7_1 V B c) t d
theorem beforeB7_2 (c : Dev nD) (t : Fin cfg7.N) (d) : (datB7 (Ix := Ix) (Name := Name) (U := U) V B c).before 2 t d = iblk7 V c 2 t :=
  before7_2_of V (datB7 (Ix := Ix) (Name := Name) (U := U) V B c) (A_eqB7 V B c 2) (afterB7_2 V B c) t d

/-- The arrays after the write-backs below `n` are the unbounded data's: they are computed from the entry contents and
    what the body leaves, which are the same. -/
theorem arrAtB7 (c : Dev nD) (w : Fin cfg7.W) :
    ∀ n, (datB7 (Ix := Ix) (Name := Name) (U := U) V B c).arrAt w n = (dat7 (Ix := Ix) (Name := Name) (U := U) V c).arrAt w n
  | 0 => rfl
  | n + 1 => by
    funext i
    rw [Pipeline.Dat.arrAt_succ_apply, Pipeline.Dat.arrAt_succ_apply, arrAtB7 c w n]
    rfl

def bodyPreB7 (ι : Ix) (c : Dev nD) (t : Fin cfg7.N) : sProp 𝕄 :=
  iprop((datB7 (Ix := Ix) (Name := Name) (U := U) V B c).Φ t.castSucc ∗ (datB7 (Ix := Ix) (Name := Name) (U := U) V B c).owesAt ι t.castSucc
    ∗ (∃ d, owns (c : Thread nD τ) (st7_0 t) fullShare ((datB7 (Ix := Ix) (Name := Name) (U := U) V B c).before 0 t d))
    ∗ (∃ d, owns (c : Thread nD τ) (st7_1 t) fullShare ((datB7 (Ix := Ix) (Name := Name) (U := U) V B c).before 1 t d))
    ∗ (∃ d, owns (c : Thread nD τ) (st7_2 t) fullShare ((datB7 (Ix := Ix) (Name := Name) (U := U) V B c).before 2 t d))
    ∗ (∃ d, owns (c : Thread nD τ) (st7_3 t) fullShare ((datB7 (Ix := Ix) (Name := Name) (U := U) V B c).before 3 t d)))

def bodyPostB7 (ι : Ix) (c : Dev nD) (t : Fin cfg7.N) : sProp 𝕄 :=
  iprop((datB7 (Ix := Ix) (Name := Name) (U := U) V B c).Φ t.succ ∗ (datB7 (Ix := Ix) (Name := Name) (U := U) V B c).owesAt ι t.succ
    ∗ owns (c : Thread nD τ) (st7_0 t) fullShare ((datB7 (Ix := Ix) (Name := Name) (U := U) V B c).after 0 t)
    ∗ owns (c : Thread nD τ) (st7_1 t) fullShare ((datB7 (Ix := Ix) (Name := Name) (U := U) V B c).after 1 t)
    ∗ owns (c : Thread nD τ) (st7_2 t) fullShare ((datB7 (Ix := Ix) (Name := Name) (U := U) V B c).after 2 t)
    ∗ owns (c : Thread nD τ) (st7_3 t) fullShare ((datB7 (Ix := Ix) (Name := Name) (U := U) V B c).after 3 t))

theorem sound_bodyB7 (ι : Ix) (c : Dev nD) (t : Fin cfg7.N) :
    bodyPreB7 (Ix := Ix) (Name := Name) (U := U) V B ι c t
      ⊢ wp frame (wpE (defs₀ (F := F)) Variants.none c none) Set.univ (bodyAt7 t) (fun _ => bodyPostB7 (Ix := Ix) (Name := Name) (U := U) V B ι c t) := by
  unfold bodyPreB7 bodyPostB7 bodyAt7
  simp only [beforeB7_0, beforeB7_1, beforeB7_2]
  rw [show (datB7 (Ix := Ix) (Name := Name) (U := U) V B c).Φ t.succ = (datB7 (Ix := Ix) (Name := Name) (U := U) V B c).Φ t.castSucc from rfl,
    show (datB7 (Ix := Ix) (Name := Name) (U := U) V B c).owesAt ι t.succ = (datB7 (Ix := Ix) (Name := Name) (U := U) V B c).owesAt ι t.castSucc from rfl,
    afterB7_0, afterB7_1, afterB7_2, afterB7_3]
  iintro ⟨HΦ, Ho, ⟨%d0, H0⟩, ⟨%d1, H1⟩, ⟨%d2, H2⟩, ⟨%d3, H3⟩⟩
  iapply (sound_kernel7 c Set.univ _ _ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for the bounded data, at every point. -/
theorem body_obligationB7 (ι : Ix) (c : Dev nD) :
    BodyObligation (datB7 (F := F) (Ix := Ix) (Name := Name) (U := U) V B c) (defs₀ (F := F)) Variants.none ι Set.univ := fun t => by
  rw [bigSep_W7, bigSep_W7]
  exact sound_bodyB7 V B ι c t

end Cert.KernelIdeal.Heads

end
-- ==== Proof.KernelIdeal.FamilyB.lean ====
import proofs.«203661_g84404697301628_cont_9to1_m_135_26_alg».proof.Proof.KernelIdeal.Family
import proofs.«203661_g84404697301628_cont_9to1_m_135_26_alg».proof.Proof.KernelIdeal.DatB4
import proofs.«203661_g84404697301628_cont_9to1_m_135_26_alg».proof.Proof.KernelIdeal.DatB5
import proofs.«203661_g84404697301628_cont_9to1_m_135_26_alg».proof.Proof.KernelIdeal.DatB6
import proofs.«203661_g84404697301628_cont_9to1_m_135_26_alg».proof.Proof.KernelIdeal.DatB7

/-! # The four regions' proof data with the core's recorded pairs bounded

The family of the bounded proof data, each at its region's entry contents, and the thread state's rider: the generator
register at some state and the core owing nothing, its recorded pairs within `B c`. The contents a region leaves are the
unbounded data's (`exitK`). -/

set_option maxRecDepth 16384

noncomputable section

namespace Cert.KernelIdeal.Heads

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U]

local notation "𝕄" => MT nD τ sig Ix (Elt F) Name U ℕ

variable (B : Dev nD → Set (SemLoc sig × Ix))
variable (W4 W5 W6 W7 : Dev nD → Valuation τ sig (Elt F))

/-- Every pipeline's bounded proof data, each at its region's entry contents: a literal `match` on the pipeline. -/
def pdatsB : (p : Fin 4) → (c : Dev nD) → Dat τ (Elt F) Ix Name U ℕ (Pipeline.pin (pcfgs (F := F)) adm p) c
  | ⟨0, _⟩ => fun c => datB4 (tcOf W4) B c
  | ⟨1, _⟩ => fun c => datB5 (tcOf W5) B c
  | ⟨2, _⟩ => fun c => datB6 (tcOf W6) B c
  | ⟨3, _⟩ => fun c => datB7 (tcOf W7) B c

/-- What rides beside the buffers through a region: the core's generator register at some state and its `owes`, at
    nothing, with its recorded pairs within `B c`. -/
abbrev RB (c : Dev nD) : sProp 𝕄 :=
  iprop((∃ r, prngReg c r) ∗ Pipeline.owesWithin (Name := Name) (U := U) (Lvl := ℕ) (Val := Elt F) c (0 : CellTallies nD τ sig Ix) (B c))

/-- At the exit of the region of pipeline `cfg4` each of its arrays holds what the bounded data's write-backs leave. -/
theorem hFB4 (W : Dev nD → Valuation τ sig (Elt F)) (c : Dev nD) (w : Fin cfg4.W) :
    (datB4 (Ix := Ix) (Name := Name) (U := U) (tcOf W) B c).arrAt w cfg4.N = tcOf (exit4 (Ix := Ix) (Name := Name) (U := U) W) c (Pipeline.arrRef spec4 w) :=
  (arrAtB4 (tcOf W) B c w cfg4.N).trans (hF4 W c w)

/-- At the exit of the region of pipeline `cfg5` each of its arrays holds what the bounded data's write-backs leave. -/
theorem hFB5 (W : Dev nD → Valuation τ sig (Elt F)) (c : Dev nD) (w : Fin cfg5.W) :
    (datB5 (Ix := Ix) (Name := Name) (U := U) (tcOf W) B c).arrAt w cfg5.N = tcOf (exit5 (Ix := Ix) (Name := Name) (U := U) W) c (Pipeline.arrRef spec5 w) :=
  (arrAtB5 (tcOf W) B c w cfg5.N).trans (hF5 W c w)

/-- At the exit of the region of pipeline `cfg6` each of its arrays holds what the bounded data's write-backs leave. -/
theorem hFB6 (W : Dev nD → Valuation τ sig (Elt F)) (c : Dev nD) (w : Fin cfg6.W) :
    (datB6 (Ix := Ix) (Name := Name) (U := U) (tcOf W) B c).arrAt w cfg6.N = tcOf (exit6 (Ix := Ix) (Name := Name) (U := U) W) c (Pipeline.arrRef spec6 w) :=
  (arrAtB6 (tcOf W) B c w cfg6.N).trans (hF6 W c w)

/-- At the exit of the region of pipeline `cfg7` each of its arrays holds what the bounded data's write-backs leave. -/
theorem hFB7 (W : Dev nD → Valuation τ sig (Elt F)) (c : Dev nD) (w : Fin cfg7.W) :
    (datB7 (Ix := Ix) (Name := Name) (U := U) (tcOf W) B c).arrAt w cfg7.N = tcOf (exit7 (Ix := Ix) (Name := Name) (U := U) W) c (Pipeline.arrRef spec7 w) :=
  (arrAtB7 (tcOf W) B c w cfg7.N).trans (hF7 W c w)

end Cert.KernelIdeal.Heads

end
-- ==== Proof.KernelIdeal.RegB4.lean ====
import proofs.«203661_g84404697301628_cont_9to1_m_135_26_alg».proof.Proof.KernelIdeal.FamilyB

/-! # The region of pipeline `cfg4` as a segment, the core's recorded pairs bounded

As the unbounded segment, over the thread state "every unscoped buffer at the boundary's contents, the generator register,
the core owing nothing with its recorded pairs within `B c`": the pipeline's own waits record pairs of its staging cells at
the index `ι`, which `B c` holds (`hB`), so the bound comes back as it went in. -/

set_option maxRecDepth 16384

noncomputable section

namespace Cert.KernelIdeal.Heads

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U]

local notation "𝕄" => MT nD τ sig Ix (Elt F) Name U ℕ

variable (B : Dev nD → Set (SemLoc sig × Ix))
variable (W4 W5 W6 W7 : Dev nD → Valuation τ sig (Elt F))

set_option backward.isDefEq.respectTransparency.types false in
def regB4 (ι : Ix) (L : GSem nD τ sig → Finset Ix) (lv : GSem nD τ sig → Ix → ℕ) (hB : ∀ c, cfg4.waitPairs ι ⊆ B c) :
    Pipeline.RegionSeg (pcfgs (F := F)) adm (pdatsB (Ix := Ix) (Name := Name) (U := U) B W4 W5 W6 W7) ι defs₀ Variants.none L lv 0 where
  win := launch4.win.to₀
  block_pos := launch4.block_pos
  stage_whole := launch4.stage_whole
  K := PEmpty
  osem k := k.elim
  ho := Pipeline.OwnSemFacts.none _
  hbody c := (body_obligationB4 (Ix := Ix) (Name := Name) (U := U) (tcOf W4) B ι c).loose
  hwaits := Pipeline.hwaits_of_owed_zero _ _ _ _ L lv 0 fun _ _ => rfl
  pre c := iprop(StableHlo.held (c : Thread nD τ) (Pipeline.ucRefs τ sig) (W4 c) ∗ RB (Ix := Ix) (Name := Name) (U := U) B c)
  post c := iprop(StableHlo.held (c : Thread nD τ) (Pipeline.ucRefs τ sig) (exit4 (Ix := Ix) (Name := Name) (U := U) W4 c) ∗ RB (Ix := Ix) (Name := Name) (U := U) B c)
  X c := iprop(∃ r, prngReg c r)
  Y c := iprop(∃ r, prngReg c r)
  Z c := Pipeline.unscopedRest (Ix := Ix) (Name := Name) (U := U) (Lvl := ℕ) spec4 c (tcOf W4 c)
  hentry c := by
    rw [Pipeline.ownSems0_none]
    have hsplit := Pipeline.arrays_of_unscopedBufs (p := 0) (pcfgs (F := F)) adm (pdatsB (Ix := Ix) (Name := Name) (U := U) B W4 W5 W6 W7) launch4.win launch4.arr_whole c
      ((pdatsB (Ix := Ix) (Name := Name) (U := U) B W4 W5 W6 W7 0 c).share_full fun _ => rfl) (tcOf W4 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt
      iapply (Pipeline.owesWithin_mono (c : Dev nD) (0 : CellTallies nD τ sig Ix)
        (show B c ⊆ (pdatsB (Ix := Ix) (Name := Name) (U := U) B W4 W5 W6 W7 0 c).bound ι 0 from Set.subset_union_left))
      iexact HO
    isplitl [Hp]; · iexact Hp
    iexact Hrest
  hin c := by
    rw [show (pdatsB (Ix := Ix) (Name := Name) (U := U) B W4 W5 W6 W7 0 c).Φ 0 = inv4 (Ix := Ix) (Name := Name) (U := U) c from rfl]; unfold inv4
    iintro ⟨Hp, -, Hr⟩
    isplitl [Hr]; · iexact Hr
    iexact Hp
  hout c := by
    rw [Pipeline.ownSems0_none, show (pdatsB (Ix := Ix) (Name := Name) (U := U) B W4 W5 W6 W7 0 c).Φ (Fin.last _) = inv4 (Ix := Ix) (Name := Name) (U := U) c from rfl]; unfold inv4
    iintro ⟨Hr, Hp⟩
    isplitl [Hp]; · iexact Hp
    isplitr; · iempintro
    iexact Hr
  hexit c := by
    have hjoin := Pipeline.unscopedBufs_of_arrays (p := 0) (pcfgs (F := F)) adm (Ix := Ix) (Name := Name) (U := U) (Lvl := ℕ)
      launch4.win launch4.arr_whole c (pdatsB (Ix := Ix) (Name := Name) (U := U) B W4 W5 W6 W7) ((pdatsB (Ix := Ix) (Name := Name) (U := U) B W4 W5 W6 W7 0 c).share_full fun _ => rfl)
      (tcOf W4 c) (tcOf (exit4 (Ix := Ix) (Name := Name) (U := U) W4) c) ((pdatsB (Ix := Ix) (Name := Name) (U := U) B W4 W5 W6 W7 0 c).arrAt · cfg4.N) (hFB4 B W4 c) (hrest4 W4 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt
    iapply (Pipeline.owesWithin_mono (c : Dev nD) (0 : CellTallies nD τ sig Ix)
      (show (pdatsB (Ix := Ix) (Name := Name) (U := U) B W4 W5 W6 W7 0 c).bound ι (Fin.last _) ⊆ B c from Set.union_subset (le_refl _) (hB c)))
    iexact HO

end Cert.KernelIdeal.Heads

end
-- ==== Proof.KernelIdeal.RegB5.lean ====
import proofs.«203661_g84404697301628_cont_9to1_m_135_26_alg».proof.Proof.KernelIdeal.FamilyB

/-! # The region of pipeline `cfg5` as a segment, the core's recorded pairs bounded

As the unbounded segment, over the thread state "every unscoped buffer at the boundary's contents, the generator register,
the core owing nothing with its recorded pairs within `B c`": the pipeline's own waits record pairs of its staging cells at
the index `ι`, which `B c` holds (`hB`), so the bound comes back as it went in. -/

set_option maxRecDepth 16384

noncomputable section

namespace Cert.KernelIdeal.Heads

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U]

local notation "𝕄" => MT nD τ sig Ix (Elt F) Name U ℕ

variable (B : Dev nD → Set (SemLoc sig × Ix))
variable (W4 W5 W6 W7 : Dev nD → Valuation τ sig (Elt F))

set_option backward.isDefEq.respectTransparency.types false in
def regB5 (ι : Ix) (L : GSem nD τ sig → Finset Ix) (lv : GSem nD τ sig → Ix → ℕ) (hB : ∀ c, cfg5.waitPairs ι ⊆ B c) :
    Pipeline.RegionSeg (pcfgs (F := F)) adm (pdatsB (Ix := Ix) (Name := Name) (U := U) B W4 W5 W6 W7) ι defs₀ Variants.none L lv 1 where
  win := launch5.win.to₀
  block_pos := launch5.block_pos
  stage_whole := launch5.stage_whole
  K := PEmpty
  osem k := k.elim
  ho := Pipeline.OwnSemFacts.none _
  hbody c := (body_obligationB5 (Ix := Ix) (Name := Name) (U := U) (tcOf W5) B ι c).loose
  hwaits := Pipeline.hwaits_of_owed_zero _ _ _ _ L lv 1 fun _ _ => rfl
  pre c := iprop(StableHlo.held (c : Thread nD τ) (Pipeline.ucRefs τ sig) (W5 c) ∗ RB (Ix := Ix) (Name := Name) (U := U) B c)
  post c := iprop(StableHlo.held (c : Thread nD τ) (Pipeline.ucRefs τ sig) (exit5 (Ix := Ix) (Name := Name) (U := U) W5 c) ∗ RB (Ix := Ix) (Name := Name) (U := U) B c)
  X c := iprop(∃ r, prngReg c r)
  Y c := iprop(∃ r, prngReg c r)
  Z c := Pipeline.unscopedRest (Ix := Ix) (Name := Name) (U := U) (Lvl := ℕ) spec5 c (tcOf W5 c)
  hentry c := by
    rw [Pipeline.ownSems0_none]
    have hsplit := Pipeline.arrays_of_unscopedBufs (p := 1) (pcfgs (F := F)) adm (pdatsB (Ix := Ix) (Name := Name) (U := U) B W4 W5 W6 W7) launch5.win launch5.arr_whole c
      ((pdatsB (Ix := Ix) (Name := Name) (U := U) B W4 W5 W6 W7 1 c).share_full fun _ => rfl) (tcOf W5 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt
      iapply (Pipeline.owesWithin_mono (c : Dev nD) (0 : CellTallies nD τ sig Ix)
        (show B c ⊆ (pdatsB (Ix := Ix) (Name := Name) (U := U) B W4 W5 W6 W7 1 c).bound ι 0 from Set.subset_union_left))
      iexact HO
    isplitl [Hp]; · iexact Hp
    iexact Hrest
  hin c := by
    rw [show (pdatsB (Ix := Ix) (Name := Name) (U := U) B W4 W5 W6 W7 1 c).Φ 0 = inv5 (Ix := Ix) (Name := Name) (U := U) c from rfl]; unfold inv5
    iintro ⟨Hp, -, Hr⟩
    isplitl [Hr]; · iexact Hr
    iexact Hp
  hout c := by
    rw [Pipeline.ownSems0_none, show (pdatsB (Ix := Ix) (Name := Name) (U := U) B W4 W5 W6 W7 1 c).Φ (Fin.last _) = inv5 (Ix := Ix) (Name := Name) (U := U) c from rfl]; unfold inv5
    iintro ⟨Hr, Hp⟩
    isplitl [Hp]; · iexact Hp
    isplitr; · iempintro
    iexact Hr
  hexit c := by
    have hjoin := Pipeline.unscopedBufs_of_arrays (p := 1) (pcfgs (F := F)) adm (Ix := Ix) (Name := Name) (U := U) (Lvl := ℕ)
      launch5.win launch5.arr_whole c (pdatsB (Ix := Ix) (Name := Name) (U := U) B W4 W5 W6 W7) ((pdatsB (Ix := Ix) (Name := Name) (U := U) B W4 W5 W6 W7 1 c).share_full fun _ => rfl)
      (tcOf W5 c) (tcOf (exit5 (Ix := Ix) (Name := Name) (U := U) W5) c) ((pdatsB (Ix := Ix) (Name := Name) (U := U) B W4 W5 W6 W7 1 c).arrAt · cfg5.N) (hFB5 B W5 c) (hrest5 W5 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt
    iapply (Pipeline.owesWithin_mono (c : Dev nD) (0 : CellTallies nD τ sig Ix)
      (show (pdatsB (Ix := Ix) (Name := Name) (U := U) B W4 W5 W6 W7 1 c).bound ι (Fin.last _) ⊆ B c from Set.union_subset (le_refl _) (hB c)))
    iexact HO

end Cert.KernelIdeal.Heads

end
-- ==== Proof.KernelIdeal.RegB6.lean ====
import proofs.«203661_g84404697301628_cont_9to1_m_135_26_alg».proof.Proof.KernelIdeal.FamilyB

/-! # The region of pipeline `cfg6` as a segment, the core's recorded pairs bounded

As the unbounded segment, over the thread state "every unscoped buffer at the boundary's contents, the generator register,
the core owing nothing with its recorded pairs within `B c`": the pipeline's own waits record pairs of its staging cells at
the index `ι`, which `B c` holds (`hB`), so the bound comes back as it went in. -/

set_option maxRecDepth 16384

noncomputable section

namespace Cert.KernelIdeal.Heads

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U]

local notation "𝕄" => MT nD τ sig Ix (Elt F) Name U ℕ

variable (B : Dev nD → Set (SemLoc sig × Ix))
variable (W4 W5 W6 W7 : Dev nD → Valuation τ sig (Elt F))

set_option backward.isDefEq.respectTransparency.types false in
def regB6 (ι : Ix) (L : GSem nD τ sig → Finset Ix) (lv : GSem nD τ sig → Ix → ℕ) (hB : ∀ c, cfg6.waitPairs ι ⊆ B c) :
    Pipeline.RegionSeg (pcfgs (F := F)) adm (pdatsB (Ix := Ix) (Name := Name) (U := U) B W4 W5 W6 W7) ι defs₀ Variants.none L lv 2 where
  win := launch6.win.to₀
  block_pos := launch6.block_pos
  stage_whole := launch6.stage_whole
  K := PEmpty
  osem k := k.elim
  ho := Pipeline.OwnSemFacts.none _
  hbody c := (body_obligationB6 (Ix := Ix) (Name := Name) (U := U) (tcOf W6) B ι c).loose
  hwaits := Pipeline.hwaits_of_owed_zero _ _ _ _ L lv 2 fun _ _ => rfl
  pre c := iprop(StableHlo.held (c : Thread nD τ) (Pipeline.ucRefs τ sig) (W6 c) ∗ RB (Ix := Ix) (Name := Name) (U := U) B c)
  post c := iprop(StableHlo.held (c : Thread nD τ) (Pipeline.ucRefs τ sig) (exit6 (Ix := Ix) (Name := Name) (U := U) W6 c) ∗ RB (Ix := Ix) (Name := Name) (U := U) B c)
  X c := iprop(∃ r, prngReg c r)
  Y c := iprop(∃ r, prngReg c r)
  Z c := Pipeline.unscopedRest (Ix := Ix) (Name := Name) (U := U) (Lvl := ℕ) spec6 c (tcOf W6 c)
  hentry c := by
    rw [Pipeline.ownSems0_none]
    have hsplit := Pipeline.arrays_of_unscopedBufs (p := 2) (pcfgs (F := F)) adm (pdatsB (Ix := Ix) (Name := Name) (U := U) B W4 W5 W6 W7) launch6.win launch6.arr_whole c
      ((pdatsB (Ix := Ix) (Name := Name) (U := U) B W4 W5 W6 W7 2 c).share_full fun _ => rfl) (tcOf W6 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt
      iapply (Pipeline.owesWithin_mono (c : Dev nD) (0 : CellTallies nD τ sig Ix)
        (show B c ⊆ (pdatsB (Ix := Ix) (Name := Name) (U := U) B W4 W5 W6 W7 2 c).bound ι 0 from Set.subset_union_left))
      iexact HO
    isplitl [Hp]; · iexact Hp
    iexact Hrest
  hin c := by
    rw [show (pdatsB (Ix := Ix) (Name := Name) (U := U) B W4 W5 W6 W7 2 c).Φ 0 = inv6 (Ix := Ix) (Name := Name) (U := U) c from rfl]; unfold inv6
    iintro ⟨Hp, -, Hr⟩
    isplitl [Hr]; · iexact Hr
    iexact Hp
  hout c := by
    rw [Pipeline.ownSems0_none, show (pdatsB (Ix := Ix) (Name := Name) (U := U) B W4 W5 W6 W7 2 c).Φ (Fin.last _) = inv6 (Ix := Ix) (Name := Name) (U := U) c from rfl]; unfold inv6
    iintro ⟨Hr, Hp⟩
    isplitl [Hp]; · iexact Hp
    isplitr; · iempintro
    iexact Hr
  hexit c := by
    have hjoin := Pipeline.unscopedBufs_of_arrays (p := 2) (pcfgs (F := F)) adm (Ix := Ix) (Name := Name) (U := U) (Lvl := ℕ)
      launch6.win launch6.arr_whole c (pdatsB (Ix := Ix) (Name := Name) (U := U) B W4 W5 W6 W7) ((pdatsB (Ix := Ix) (Name := Name) (U := U) B W4 W5 W6 W7 2 c).share_full fun _ => rfl)
      (tcOf W6 c) (tcOf (exit6 (Ix := Ix) (Name := Name) (U := U) W6) c) ((pdatsB (Ix := Ix) (Name := Name) (U := U) B W4 W5 W6 W7 2 c).arrAt · cfg6.N) (hFB6 B W6 c) (hrest6 W6 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt
    iapply (Pipeline.owesWithin_mono (c : Dev nD) (0 : CellTallies nD τ sig Ix)
      (show (pdatsB (Ix := Ix) (Name := Name) (U := U) B W4 W5 W6 W7 2 c).bound ι (Fin.last _) ⊆ B c from Set.union_subset (le_refl _) (hB c)))
    iexact HO

end Cert.KernelIdeal.Heads

end
-- ==== Proof.KernelIdeal.RegB7.lean ====
import proofs.«203661_g84404697301628_cont_9to1_m_135_26_alg».proof.Proof.KernelIdeal.FamilyB

/-! # The region of pipeline `cfg7` as a segment, the core's recorded pairs bounded

As the unbounded segment, over the thread state "every unscoped buffer at the boundary's contents, the generator register,
the core owing nothing with its recorded pairs within `B c`": the pipeline's own waits record pairs of its staging cells at
the index `ι`, which `B c` holds (`hB`), so the bound comes back as it went in. -/

set_option maxRecDepth 16384

noncomputable section

namespace Cert.KernelIdeal.Heads

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U]

local notation "𝕄" => MT nD τ sig Ix (Elt F) Name U ℕ

variable (B : Dev nD → Set (SemLoc sig × Ix))
variable (W4 W5 W6 W7 : Dev nD → Valuation τ sig (Elt F))

set_option backward.isDefEq.respectTransparency.types false in
def regB7 (ι : Ix) (L : GSem nD τ sig → Finset Ix) (lv : GSem nD τ sig → Ix → ℕ) (hB : ∀ c, cfg7.waitPairs ι ⊆ B c) :
    Pipeline.RegionSeg (pcfgs (F := F)) adm (pdatsB (Ix := Ix) (Name := Name) (U := U) B W4 W5 W6 W7) ι defs₀ Variants.none L lv 3 where
  win := launch7.win.to₀
  block_pos := launch7.block_pos
  stage_whole := launch7.stage_whole
  K := PEmpty
  osem k := k.elim
  ho := Pipeline.OwnSemFacts.none _
  hbody c := (body_obligationB7 (Ix := Ix) (Name := Name) (U := U) (tcOf W7) B ι c).loose
  hwaits := Pipeline.hwaits_of_owed_zero _ _ _ _ L lv 3 fun _ _ => rfl
  pre c := iprop(StableHlo.held (c : Thread nD τ) (Pipeline.ucRefs τ sig) (W7 c) ∗ RB (Ix := Ix) (Name := Name) (U := U) B c)
  post c := iprop(StableHlo.held (c : Thread nD τ) (Pipeline.ucRefs τ sig) (exit7 (Ix := Ix) (Name := Name) (U := U) W7 c) ∗ RB (Ix := Ix) (Name := Name) (U := U) B c)
  X c := iprop(∃ r, prngReg c r)
  Y c := iprop(∃ r, prngReg c r)
  Z c := Pipeline.unscopedRest (Ix := Ix) (Name := Name) (U := U) (Lvl := ℕ) spec7 c (tcOf W7 c)
  hentry c := by
    rw [Pipeline.ownSems0_none]
    have hsplit := Pipeline.arrays_of_unscopedBufs (p := 3) (pcfgs (F := F)) adm (pdatsB (Ix := Ix) (Name := Name) (U := U) B W4 W5 W6 W7) launch7.win launch7.arr_whole c
      ((pdatsB (Ix := Ix) (Name := Name) (U := U) B W4 W5 W6 W7 3 c).share_full fun _ => rfl) (tcOf W7 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt
      iapply (Pipeline.owesWithin_mono (c : Dev nD) (0 : CellTallies nD τ sig Ix)
        (show B c ⊆ (pdatsB (Ix := Ix) (Name := Name) (U := U) B W4 W5 W6 W7 3 c).bound ι 0 from Set.subset_union_left))
      iexact HO
    isplitl [Hp]; · iexact Hp
    iexact Hrest
  hin c := by
    rw [show (pdatsB (Ix := Ix) (Name := Name) (U := U) B W4 W5 W6 W7 3 c).Φ 0 = inv7 (Ix := Ix) (Name := Name) (U := U) c from rfl]; unfold inv7
    iintro ⟨Hp, -, Hr⟩
    isplitl [Hr]; · iexact Hr
    iexact Hp
  hout c := by
    rw [Pipeline.ownSems0_none, show (pdatsB (Ix := Ix) (Name := Name) (U := U) B W4 W5 W6 W7 3 c).Φ (Fin.last _) = inv7 (Ix := Ix) (Name := Name) (U := U) c from rfl]; unfold inv7
    iintro ⟨Hr, Hp⟩
    isplitl [Hp]; · iexact Hp
    isplitr; · iempintro
    iexact Hr
  hexit c := by
    have hjoin := Pipeline.unscopedBufs_of_arrays (p := 3) (pcfgs (F := F)) adm (Ix := Ix) (Name := Name) (U := U) (Lvl := ℕ)
      launch7.win launch7.arr_whole c (pdatsB (Ix := Ix) (Name := Name) (U := U) B W4 W5 W6 W7) ((pdatsB (Ix := Ix) (Name := Name) (U := U) B W4 W5 W6 W7 3 c).share_full fun _ => rfl)
      (tcOf W7 c) (tcOf (exit7 (Ix := Ix) (Name := Name) (U := U) W7) c) ((pdatsB (Ix := Ix) (Name := Name) (U := U) B W4 W5 W6 W7 3 c).arrAt · cfg7.N) (hFB7 B W7 c) (hrest7 W7 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt
    iapply (Pipeline.owesWithin_mono (c : Dev nD) (0 : CellTallies nD τ sig Ix)
      (show (pdatsB (Ix := Ix) (Name := Name) (U := U) B W4 W5 W6 W7 3 c).bound ι (Fin.last _) ⊆ B c from Set.union_subset (le_refl _) (hB c)))
    iexact HO

end Cert.KernelIdeal.Heads

end
-- ==== Proof.KernelIdeal.Tail.lean ====
import proofs.«203661_g84404697301628_cont_9to1_m_135_26_alg».proof.Proof.KernelIdeal.RegB4
import proofs.«203661_g84404697301628_cont_9to1_m_135_26_alg».proof.Proof.KernelIdeal.RegB5
import proofs.«203661_g84404697301628_cont_9to1_m_135_26_alg».proof.Proof.KernelIdeal.RegB6
import proofs.«203661_g84404697301628_cont_9to1_m_135_26_alg».proof.Proof.KernelIdeal.RegB7
import proofs.«203661_g84404697301628_cont_9to1_m_135_26_alg».proof.Proof.KernelIdeal.Chain
import Idealize.ShloMosaic.Lib.SparseCore.Threads

/-! # The TensorCore's tail of @main: the four regions and the copies between them, under the extended body table

After its four SparseCore calls @main enters the four TensorCore regions, copying each result into the next result's buffer
between them, and transposes the last result. That tail is the lifted run of eight segments — a region, a copy, a region, a
copy, a region, a copy, a region, the transpose —, so its triple is the segments' run lifted to the extended table: from the
region boundary, every unscoped buffer at contents `W4`, the generator register, the core owing nothing with its recorded
pairs within `B d`, the level facts and the four pipelines' ghost state, to the same at the contents after the transpose. -/

set_option maxRecDepth 16384

noncomputable section

namespace Cert.KernelIdeal.Heads

open Cert.KernelIdeal Cert.KernelIdeal.Gen
open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## @main, cut before the first region -/

/-- @main from its first region on. -/
def tailProg (d : Dev nD) : Prog (TpuEff nD τ sig (Elt F) (SparseCore.Sig (Pipeline.Sig Λ₀ (Fin 4) fun p => (pcfgs (F := F) p).Adm) 4) .tc) PUnit := do
  Prog.lift (.customCall (SparseCore.inner (Pipeline.entry 0)) ())
  hlo rfl (StableHlo.unary main_v13 main_v14 id) (fun _ => .ret ⟨⟩)
  Prog.lift (.customCall (SparseCore.inner (Pipeline.entry 1)) ())
  hlo rfl (StableHlo.unary main_v14 main_v15 id) (fun _ => .ret ⟨⟩)
  Prog.lift (.customCall (SparseCore.inner (Pipeline.entry 2)) ())
  hlo rfl (StableHlo.unary main_v15 main_v16 id) (fun _ => .ret ⟨⟩)
  Prog.lift (.customCall (SparseCore.inner (Pipeline.entry 3)) ())
  hlo rfl (StableHlo.unary main_v16 main_v17 ((transpose S16384x8x1000 [2, 0, 1] · transposes_S8x1000x16384_S16384x8x1000_2_0_1) : (⟨S8x1000x16384, .f32⟩ : BufTy).Contents (Elt F) → (⟨S16384x8x1000, .f32⟩ : BufTy).Contents (Elt F))) (fun _ => .ret ⟨⟩)
  pure ⟨⟩

/-- @main up to its fourth SparseCore call, continued by `k`. -/
def headProg (d : Dev nD) (k : Prog (TpuEff nD τ sig (Elt F) (SparseCore.Sig (Pipeline.Sig Λ₀ (Fin 4) fun p => (pcfgs (F := F) p).Adm) 4) .tc) PUnit) : Prog (TpuEff nD τ sig (Elt F) (SparseCore.Sig (Pipeline.Sig Λ₀ (Fin 4) fun p => (pcfgs (F := F) p).Adm) 4) .tc) PUnit := do
  hlo rfl (StableHlo.nullary main_c (constantI S_ 32 0#32)) (fun _ => .ret ⟨⟩)
  fn_pad.body (.of main_arg1) (.of main_c) main_call0
  hlo rfl (StableHlo.unary main_arg3 main_v1 ((transpose S1000x32 [1, 0] · transposes_S32x1000_S1000x32_1_0) : (⟨S32x1000, .f32⟩ : BufTy).Contents (Elt F) → (⟨S1000x32, .f32⟩ : BufTy).Contents (Elt F))) (fun _ => .ret ⟨⟩)
  hlo rfl (StableHlo.reshape main_arg4 main_v2 rfl shapeCasts_S1000_S1000x1) (fun _ => .ret ⟨⟩)
  hlo rfl (StableHlo.unary main_arg0 main_v3 ((transpose S8x16384 [1, 0] · transposes_S16384x8_S8x16384_1_0) : (⟨S16384x8, .i32⟩ : BufTy).Contents (Elt F) → (⟨S8x16384, .i32⟩ : BufTy).Contents (Elt F))) (fun _ => .ret ⟨⟩)
  hlo rfl (StableHlo.reshape main_v3 main_v4 rfl shapeCasts_S8x16384_S131072) (fun _ => .ret ⟨⟩)
  hlo rfl (StableHlo.unary main_v4 main_v5 ((extractStridedSlice S16384 ![0] · slices_S131072_S16384_0) : (⟨S131072, .i32⟩ : BufTy).Contents (Elt F) → (⟨S16384, .i32⟩ : BufTy).Contents (Elt F))) (fun _ => .ret ⟨⟩)
  sc.run d 0
  hlo rfl (StableHlo.unary main_v4 main_v7 ((extractStridedSlice S16384 ![16384] · slices_S131072_S16384_16384) : (⟨S131072, .i32⟩ : BufTy).Contents (Elt F) → (⟨S16384, .i32⟩ : BufTy).Contents (Elt F))) (fun _ => .ret ⟨⟩)
  sc.run d 1
  hlo rfl (StableHlo.unary main_v4 main_v9 ((extractStridedSlice S32768 ![32768] · slices_S131072_S32768_32768) : (⟨S131072, .i32⟩ : BufTy).Contents (Elt F) → (⟨S32768, .i32⟩ : BufTy).Contents (Elt F))) (fun _ => .ret ⟨⟩)
  sc.run d 2
  hlo rfl (StableHlo.unary main_v4 main_v11 ((extractStridedSlice S65536 ![65536] · slices_S131072_S65536_65536) : (⟨S131072, .i32⟩ : BufTy).Contents (Elt F) → (⟨S65536, .i32⟩ : BufTy).Contents (Elt F))) (fun _ => .ret ⟨⟩)
  sc.run d 3
  k

/-- @main is its head continued by its tail. -/
theorem main_split (d : Dev nD) : main (F := F) d = headProg d (tailProg d) := rfl

/-! ## The tail as segments -/

variable {Name : Type} [DecidableEq Name] {U : Type} [URA U]

local notation "𝕄" => MT nD τ sig (HIx 4) (Elt F) Name U ℕ

variable (L : GSem nD τ sig → Finset (HIx 4)) (lv : GSem nD τ sig → HIx 4 → ℕ)
variable (B : Dev nD → Set (SemLoc sig × HIx 4))
variable (W4 : Dev nD → Valuation τ sig (Elt F))

/-- The closing transpose of the last result. -/
abbrev lastOps : List (HloOp τ sig (Elt F)) :=
  [StableHlo.unary main_v16 main_v17 ((transpose S16384x8x1000 [2, 0, 1] · transposes_S8x1000x16384_S16384x8x1000_2_0_1) : (⟨S8x1000x16384, .f32⟩ : BufTy).Contents (Elt F) → (⟨S16384x8x1000, .f32⟩ : BufTy).Contents (Elt F))]

/-- The contents after the tail. -/
def Wfin : Dev nD → Valuation τ sig (Elt F) := fun c => StableHlo.after (lastOps (F := F)) (Wend (Ix := HIx 4) (Name := Name) (U := U) W4 c)

theorem copy5_sub : (copy5 : List (HloOp τ sig (Elt F))).Forall fun op => op.bufs ⊆ StableHlo.tcRefs τ sig := StableHlo.unary_bufs_sub ..
theorem copy6_sub : (copy6 : List (HloOp τ sig (Elt F))).Forall fun op => op.bufs ⊆ StableHlo.tcRefs τ sig := StableHlo.unary_bufs_sub ..
theorem copy7_sub : (copy7 : List (HloOp τ sig (Elt F))).Forall fun op => op.bufs ⊆ StableHlo.tcRefs τ sig := StableHlo.unary_bufs_sub ..
theorem lastOps_sub : (lastOps : List (HloOp τ sig (Elt F))).Forall fun op => op.bufs ⊆ StableHlo.tcRefs τ sig := StableHlo.unary_bufs_sub ..
theorem copy5_fresh : (copy5 : List (HloOp τ sig (Elt F))).Forall fun op => op.fresh = ∅ := by simp only [List.Forall]; repeat' constructor
theorem copy6_fresh : (copy6 : List (HloOp τ sig (Elt F))).Forall fun op => op.fresh = ∅ := by simp only [List.Forall]; repeat' constructor
theorem copy7_fresh : (copy7 : List (HloOp τ sig (Elt F))).Forall fun op => op.fresh = ∅ := by simp only [List.Forall]; repeat' constructor
theorem lastOps_fresh : (lastOps : List (HloOp τ sig (Elt F))).Forall fun op => op.fresh = ∅ := by simp only [List.Forall]; repeat' constructor

/-- A stretch of host operations as a segment over the unscoped references from the contents `W`, the rider beside. -/
abbrev hsegB (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := Name) (U := U) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W (RB (Ix := HIx 4) (Name := Name) (U := U) B)

variable (hB : ∀ (p : Fin 4) (c : Dev nD), (cfgs p).waitPairs (none : HIx 4) ⊆ B c)

/-- The tail's eight segments, in order. -/
def tailSegs : List (Pipeline.Seg (pcfgs (F := F)) adm (pdatsB (Ix := HIx 4) (Name := Name) (U := U) B W4 (W5 (Ix := HIx 4) (Name := Name) (U := U) W4) (W6 (Ix := HIx 4) (Name := Name) (U := U) W4) (W7 (Ix := HIx 4) (Name := Name) (U := U) W4)) (none : HIx 4) defs₀ Variants.none L lv) :=
  [ .region (regB4 (Ix := HIx 4) (Name := Name) (U := U) B W4 (W5 (Ix := HIx 4) (Name := Name) (U := U) W4) (W6 (Ix := HIx 4) (Name := Name) (U := U) W4) (W7 (Ix := HIx 4) (Name := Name) (U := U) W4) none L lv (hB 0)),
    .host (hsegB L lv B copy5 copy5_sub copy5_fresh (exit4 (Ix := HIx 4) (Name := Name) (U := U) W4)),
    .region (regB5 (Ix := HIx 4) (Name := Name) (U := U) B W4 (W5 (Ix := HIx 4) (Name := Name) (U := U) W4) (W6 (Ix := HIx 4) (Name := Name) (U := U) W4) (W7 (Ix := HIx 4) (Name := Name) (U := U) W4) none L lv (hB 1)),
    .host (hsegB L lv B copy6 copy6_sub copy6_fresh (exit5 (Ix := HIx 4) (Name := Name) (U := U) (W5 (Ix := HIx 4) (Name := Name) (U := U) W4))),
    .region (regB6 (Ix := HIx 4) (Name := Name) (U := U) B W4 (W5 (Ix := HIx 4) (Name := Name) (U := U) W4) (W6 (Ix := HIx 4) (Name := Name) (U := U) W4) (W7 (Ix := HIx 4) (Name := Name) (U := U) W4) none L lv (hB 2)),
    .host (hsegB L lv B copy7 copy7_sub copy7_fresh (exit6 (Ix := HIx 4) (Name := Name) (U := U) (W6 (Ix := HIx 4) (Name := Name) (U := U) W4))),
    .region (regB7 (Ix := HIx 4) (Name := Name) (U := U) B W4 (W5 (Ix := HIx 4) (Name := Name) (U := U) W4) (W6 (Ix := HIx 4) (Name := Name) (U := U) W4) (W7 (Ix := HIx 4) (Name := Name) (U := U) W4) none L lv (hB 3)),
    .host (hsegB L lv B lastOps lastOps_sub lastOps_fresh (Wend (Ix := HIx 4) (Name := Name) (U := U) W4)) ]

/-- The tail IS the lifted run of its segments. -/
theorem tail_run (d : Dev nD) :
    tailProg (F := F) d = SparseCore.liftProg (Pipeline.Seg.run (tailSegs (Name := Name) (U := U) L lv B W4 hB)) := by
  chain_rfl

/-! ## The tail's triple -/

variable [Infinite Name]
variable (EP : Emb (URounds (GSem nD τ sig) Unit) (MT nD τ sig (HIx 4) (Elt F) Name U ℕ))
  [EP.LandsIn (upEmb : UEmb _ (MT nD τ sig (HIx 4) (Elt F) Name U ℕ))]

include hB in
set_option backward.isDefEq.respectTransparency.types false in
/-- From the region boundary, every unscoped buffer at `W4 d`, the rider, the level facts and the four pipelines' ghost
    state, the tail runs under the extended body table to the boundary, every unscoped buffer at `Wfin W4 d` and the rider. -/
theorem wp_tail [∀ e, Nonempty (Elt F e)] (d : Dev nD) (Φ : PUnit → sProp 𝕄) :
    iprop((iprop(boundary (T d) ∗ StableHlo.held (T d) (Pipeline.ucRefs τ sig) (Wfin (Name := Name) (U := U) W4 d) ∗ RB (Ix := HIx 4) (Name := Name) (U := U) B d) -∗ Φ ⟨⟩)
        ∗ boundary (T d) ∗ (StableHlo.held (T d) (Pipeline.ucRefs τ sig) (W4 d) ∗ RB (Ix := HIx 4) (Name := Name) (U := U) B d) ∗ levAts L lv
        ∗ Pipeline.ghostOn (pcfgs (F := F)) adm EP Finset.univ d)
      ⊢ wp frame (wpE ((sc (F := F)).defs (Pipeline.defs pcfgs defs₀)) (Variants.lift Variants.none) (T d) none) Set.univ (tailProg (F := F) d) Φ := by
  rw [tail_run (Name := Name) (U := U) L lv B W4 hB d]
  refine BI.Entails.trans ?_ ((sc (F := F)).wp_liftProg (Pipeline.defs pcfgs defs₀) (Variants.lift Variants.none) (T d) Set.univ none _ Φ)
  exact Pipeline.wp_segs (pcfgs (F := F)) adm (pdatsB (Ix := HIx 4) (Name := Name) (U := U) B W4 (W5 (Ix := HIx 4) (Name := Name) (U := U) W4) (W6 (Ix := HIx 4) (Name := Name) (U := U) W4) (W7 (Ix := HIx 4) (Name := Name) (U := U) W4)) (none : HIx 4) cellOf_inj EP defs₀ Variants.none L lv d
    (tailSegs (Name := Name) (U := U) L lv B W4 hB) Finset.univ
    (fun c => iprop(StableHlo.held (c : Thread nD τ) (Pipeline.ucRefs τ sig) (W4 c) ∗ RB (Ix := HIx 4) (Name := Name) (U := U) B c))
    (fun c => iprop(StableHlo.held (c : Thread nD τ) (Pipeline.ucRefs τ sig) (Wfin (Name := Name) (U := U) W4 c) ∗ RB (Ix := HIx 4) (Name := Name) (U := U) B c))
    (by simp only [tailSegs, Pipeline.Seg.pipes_host, Pipeline.Seg.pipes_region, Pipeline.Seg.pipes_nil]; decide)
    (fun p _ => Finset.mem_univ p)
    ⟨fun _ => .rfl, fun _ => .rfl, fun _ => .rfl, fun _ => .rfl, fun _ => .rfl, fun _ => .rfl, fun _ => .rfl, fun _ => .rfl, fun _ => .rfl⟩

end Cert.KernelIdeal.Heads

end
-- ==== Proof.KernelIdeal.TailSt.lean ====
import proofs.«203661_g84404697301628_cont_9to1_m_135_26_alg».proof.Proof.KernelIdeal.Tail

/-! # The tail's triple from and to the TensorCore's handshake state after the last SparseCore call

After its last SparseCore call the TensorCore owes nothing, its recorded pairs all at or below the last call's band; the
regions' own waits record pairs of their staging cells at the index `none`, level 0. So the handshake state goes through the
tail unchanged, but for the recorded set growing within the same bound. -/

set_option maxRecDepth 16384

noncomputable section

namespace Cert.KernelIdeal.Heads

open Cert.KernelIdeal Cert.KernelIdeal.Gen
open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Name : Type} [DecidableEq Name] [Infinite Name] {U : Type} [URA U]

local notation "𝕄" => MT nD τ sig (HIx 4) (Elt F) Name U ℕ

/-- The pairs at or below the last call's band, on device `d`'s TensorCore. -/
def bandB (d : Dev nD) : Set (SemLoc sig × HIx 4) := {p | (sc (F := F)).lev (T d, p.1) p.2 ≤ 8 * 4}

/-- The regions' staging cells' pairs, at the index `none`, are within it. -/
theorem waitPairs_bandB (p : Fin 4) (d : Dev nD) : (cfgs p).waitPairs (none : HIx 4) ⊆ bandB (F := F) d := by
  rintro _ ⟨w, s, rfl⟩
  exact Nat.zero_le _

variable (lv : GSem nD τ sig → HIx 4 → ℕ)
variable (W4 : Dev nD → Valuation τ sig (Elt F))
variable (EH : Emb (URounds (GSem nD τ sig) ℕ) (MT nD τ sig (HIx 4) (Elt F) Name U ℕ))
variable (EP : Emb (URounds (GSem nD τ sig) Unit) (MT nD τ sig (HIx 4) (Elt F) Name U ℕ))
  [EP.LandsIn (upEmb : UEmb _ (MT nD τ sig (HIx 4) (Elt F) Name U ℕ))]

/-- The tail from the TensorCore's state after the fourth call (`tcSt … 4`), the region boundary, every unscoped buffer at
    `W4 d`, the generator register, the level facts and the four pipelines' ghost state, to the same handshake state, the
    boundary, the buffers at `Wfin W4 d` and the generator register. -/
theorem wp_tail_tcSt [∀ e, Nonempty (Elt F e)] (d : Dev nD) (Φ : PUnit → sProp 𝕄) :
    iprop((sc (F := F)).tcSt EH d 4 ∗ boundary (T d) ∗ StableHlo.held (T d) (Pipeline.ucRefs τ sig) (W4 d) ∗ (∃ r, prngReg d r)
        ∗ levAts (sc (F := F)).L lv ∗ Pipeline.ghostOn (pcfgs (F := F)) adm EP Finset.univ d
        ∗ (iprop((sc (F := F)).tcSt EH d 4 ∗ boundary (T d) ∗ StableHlo.held (T d) (Pipeline.ucRefs τ sig) (Wfin (Name := Name) (U := U) W4 d) ∗ (∃ r, prngReg d r)) -∗ Φ ⟨⟩))
      ⊢ wp frame (wpE ((sc (F := F)).defs (Pipeline.defs pcfgs defs₀)) (Variants.lift Variants.none) (T d) none) Set.univ (tailProg (F := F) d) Φ := by
  unfold SparseCore.Cfg.tcSt
  rw [(sc (F := F)).Otc_end d (le_refl 4)]
  iintro ⟨⟨⟨%W, %hW, HO⟩, Hrest⟩, Hbd, Hh, Hp, Hlev, Hg, Hk⟩
  iapply (wp_tail (sc (F := F)).L lv (bandB (F := F)) W4 (waitPairs_bandB (F := F)) EP d Φ)
  isplitl [Hk Hrest]
  · iintro ⟨Hbd, Hh, Hp, ⟨%W', %hW', HO⟩⟩
    iapply Hk
    isplitl [HO Hrest]
    · isplitl [HO]
      · iexists W'; isplitr
        · ipureintro; exact fun p hp => hW' (Finset.mem_coe.mpr hp)
        iexact HO
      iexact Hrest
    isplitl [Hbd]; · iexact Hbd
    isplitl [Hh]; · iexact Hh
    iexact Hp
  isplitl [Hbd]; · iexact Hbd
  isplitl [Hh Hp HO]
  · isplitl [Hh]; · iexact Hh
    isplitl [Hp]; · iexact Hp
    iexists W; isplitr
    · ipureintro; exact fun p hp => hW p (Finset.mem_coe.mp hp)
    iexact HO
  isplitl [Hlev]; · iexact Hlev
  iexact Hg

end Cert.KernelIdeal.Heads

end
-- ==== Proof.KernelIdeal.TailRead.lean ====
import proofs.«203661_g84404697301628_cont_9to1_m_135_26_alg».proof.Proof.KernelIdeal.Tail
import Idealize.ShloMosaic.Lib.Pipeline.Value
import Idealize.ShloMosaic.Lib.ValueIdx

/-! # The contents after the tail, read

The closing transpose writes the returned buffer `[16384, 8, 1000]` from the last result `[8, 1000, 16384]`: entry `(n, r, v)`
is the result's entry `(r, v, n)`; every other buffer is as the last region left it. -/

noncomputable section

namespace Cert.KernelIdeal.Heads

open Cert.KernelIdeal Cert.KernelIdeal.Gen
open Idealize.ShloMosaic Idealize.ShloMosaic.TcCoe Idealize.ShloMosaic.ValueIdx
open Idealize.ShloMosaic.SparseCore.Cfg (HIx)
open Idealize.SL Idealize.SL.RA

variable {F : FTy → Type} [FloatOps F]
variable {Name : Type} [DecidableEq Name] {U : Type} [URA U]
variable (W4 : Dev nD → Valuation τ sig (Elt F))

/-- An `[a, b, c]` array transposed by `[2, 0, 1]` reads, at `(n, r, v)`, the operand at `(r, v, n)`. -/
theorem transpose_ix3_201_apply {α : Type} {a b c : ℕ} (x : (⟨3, ![a, b, c]⟩ : Shape).Idx → α)
    (h : (⟨3, ![a, b, c]⟩ : Shape).Transposes [2, 0, 1] ⟨3, ![c, a, b]⟩) (n : Fin c) (r : Fin a) (v : Fin b) :
    transpose ⟨3, ![c, a, b]⟩ [2, 0, 1] x h (ix3 n r v) = x (ix3 r v n) :=
  transpose_apply _ x h _ _ fun d => match d with | ⟨0, _⟩ => rfl | ⟨1, _⟩ => rfl | ⟨2, _⟩ => rfl

/-- The returned buffer after the tail is the transpose of the last result. -/
theorem Wfin_v17 (c : Dev nD) :
    tcOf (Wfin (Name := Name) (U := U) W4) c main_v17
      = transpose S16384x8x1000 [2, 0, 1] (tcOf (Wend (Ix := HIx 4) (Name := Name) (U := U) W4) c main_v16) transposes_S8x1000x16384_S16384x8x1000_2_0_1 := by
  show Wfin (Name := Name) (U := U) W4 c (Proc.devRef .tc main_v17) = _
  unfold Wfin; simp only [StableHlo.after_cons, StableHlo.after_nil]
  exact StableHlo.unary_result _ _ _ _ _ _

/-- Entry `(n, r, v)` of the returned buffer is entry `(r, v, n)` of the last result. -/
theorem Wfin_v17_apply (c : Dev nD) (n : Fin 16384) (r : Fin 8) (v : Fin 1000) :
    tcOf (Wfin (Name := Name) (U := U) W4) c main_v17 (ix3 n r v) = tcOf (Wend (Ix := HIx 4) (Name := Name) (U := U) W4) c main_v16 (ix3 r v n) := by
  rw [Wfin_v17]
  exact transpose_ix3_201_apply _ _ n r v

/-- Every other buffer is as the last region left it. -/
theorem Wfin_of_ne (c : Dev nD) (b : Ref sig .tc) (hb : b ≠ main_v17) :
    Wfin (Name := Name) (U := U) W4 c (Proc.devRef .tc b) = Wend (Ix := HIx 4) (Name := Name) (U := U) W4 c (Proc.devRef .tc b) := by
  unfold Wfin; simp only [StableHlo.after_cons, StableHlo.after_nil]
  exact StableHlo.unary_result_ne _ _ _ _ _ _ hb

end Cert.KernelIdeal.Heads

end
-- ==== Proof.KernelIdeal.Fund.lean ====
import proofs.«203661_g84404697301628_cont_9to1_m_135_26_alg».proof.Proof.KernelIdeal.Family
import Idealize.ShloMosaic.Lib.Pipeline.Sound
import Idealize.ShloMosaic.Lib.Pipeline.Regions
import Idealize.ShloMosaic.Lib.Pipeline.Kit

/-! # The TensorCore regions' staging cells, funded at launch

The rounds library's launch element over the four pipelines' staging cells, owned through an embedding `EP` of that library's
algebra, funds on every device the four pipelines' ghost state (each cell's launch state, its owner's position at round 0,
round 0 reached, and the duty tokens of the transfers the loops issue): what a region's entry consumes. And the embedding for
an algebra that holds the cells' rounds as the MIDDLE component of `A × (rounds × C)`. -/

noncomputable section

namespace Cert.KernelIdeal.Heads

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {Name : Type} [DecidableEq Name]

section Fund

variable {U : Type} [URA U]
variable (EP : Emb (URounds (GSem nD τ sig) Unit) (MT nD τ sig Ix (Elt F) Name U ℕ))

/-- The launch element of the staging cells' rounds funds every device's ghost state of the four pipelines. -/
theorem fund_regions :
    (BI.own (EP (initOf (Pipeline.cells cfgs cellOf_inj) (Pipeline.launchToks cfgs cellOf_inj))) : sProp (MT nD τ sig Ix (Elt F) Name U ℕ))
      ⊢ iprop(|==> bigSep Finset.univ fun d : Dev nD => Pipeline.ghostOn (pcfgs (F := F)) adm EP Finset.univ d) := by
  refine (Pipeline.fund_ghost (Pipeline.pin (pcfgs (F := F)) adm) EP cellOf_inj).trans (BI.bupd_mono ?_)
  unfold Pipeline.ghostOn Pipeline.PerCore.ghostOn
  simp only [BI.bigSep_sep']
  exact BI.Entails.refl _

end Fund

section Middle

variable {A C : Type} [URA A] [URA C]

/-- The staging cells' rounds as the middle component of `A × (rounds × C)`, embedded. -/
def embMid : Emb (URounds (GSem nD τ sig) Unit) (MT nD τ sig Ix (Elt F) Name (A × (URounds (GSem nD τ sig) Unit × C)) ℕ) :=
  (Emb.inl : Emb (URounds (GSem nD τ sig) Unit) (URounds (GSem nD τ sig) Unit × C)).trans embR

instance embMid_landsIn :
    (embMid (F := F) (Ix := Ix) (Name := Name) (A := A) (C := C)).LandsIn
      (upEmb : UEmb _ (MT nD τ sig Ix (Elt F) Name (A × (URounds (GSem nD τ sig) Unit × C)) ℕ)) := by
  unfold embMid; infer_instance

/-- The last component of `A × (rounds × C)`, embedded. -/
def embLast : Emb C (MT nD τ sig Ix (Elt F) Name (A × (URounds (GSem nD τ sig) Unit × C)) ℕ) :=
  (Emb.inr : Emb C (URounds (GSem nD τ sig) Unit × C)).trans embR

/-- Owning a triple `(a, (r, c))` of the user component is owning each part through its embedding. -/
theorem ownU_triple (a : A) (r : URounds (GSem nD τ sig) Unit) (c : C) :
    (ownU (a, (r, c)) : sProp (MT nD τ sig Ix (Elt F) Name (A × (URounds (GSem nD τ sig) Unit × C)) ℕ))
      ⊢ iprop(BI.own ((embL : Emb A (MT nD τ sig Ix (Elt F) Name (A × (URounds (GSem nD τ sig) Unit × C)) ℕ)) a) ∗ BI.own (embMid (F := F) (Ix := Ix) (Name := Name) (A := A) (C := C) r) ∗ BI.own (embLast (F := F) (Ix := Ix) (Name := Name) (A := A) (C := C) c)) := by
  refine (ownU_pair a (r, c)).trans (BI.sep_mono (BI.Entails.refl _) ?_)
  exact own_pair_emb (embR : Emb (URounds (GSem nD τ sig) Unit × C) (MT nD τ sig Ix (Elt F) Name (A × (URounds (GSem nD τ sig) Unit × C)) ℕ)) r c

end Middle

end Cert.KernelIdeal.Heads

end
-- ==== Proof.KernelIdeal.HeadOps.lean ====
import proofs.«203661_g84404697301628_cont_9to1_m_135_26_alg».proof.Proof.Pay
import proofs.«203661_g84404697301628_cont_9to1_m_135_26_alg».proof.Proof.KernelIdeal.TailSt
import proofs.«203661_g84404697301628_cont_9to1_m_135_26_alg».proof.Proof.KernelIdeal.TailRead
import proofs.«203661_g84404697301628_cont_9to1_m_135_26_alg».proof.Proof.KernelIdeal.Fund
import Idealize.ShloMosaic.Lib.SparseCore.Launch
import Idealize.ShloMosaic.Lib.StableHlo.Run

/-! # @main's head: the host stretches between the SparseCore calls, and the contents they leave

@main up to its fourth SparseCore call is a stretch of eight host operations (a constant; the table's padding, a conversion and
a pad; the weights' transpose; the bias' reshape; the tokens' transpose, reshape and first slice), the first call, and three
times a slice of the tokens and a call. The TensorCore's unscoped buffers are followed at a valuation: the launch memory, each
stretch's `StableHlo.after`, each call's result array updated to whatever the call left. -/

set_option maxRecDepth 16384

noncomputable section

namespace Cert.KernelIdeal.Hand.Launch

open Cert.KernelIdeal Cert.KernelIdeal.Gen Cert.KernelIdeal.Heads
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr)
open Idealize.ShloMosaic.Tactic

variable {F : FTy → Type} [FloatOps F]

local notation "𝕄" => MT nD τ sig (HIx 4) (Elt F) ℕ UU ℕ

/-! ## The stretches -/

/-- The eight host operations before the first call. -/
abbrev preOps : List (HloOp τ sig (Elt F)) :=
  [ StableHlo.nullary main_c (constantI S_ 32 0#32),
    StableHlo.TRef.unary (.of main_c : StableHlo.TRef sig ⟨S_, .i32⟩) main_call0.v0 (sitofp .f32),
    StableHlo.TRef.binary (.of main_arg1 : StableHlo.TRef sig ⟨S1000x32, .f32⟩) main_call0.v0 main_call0.v1 (fun x v => pad S1000x128 ![0, 0] ![0, 96] ![0, 0] x v pads_S1000x32_S1000x128_000_0960 h_S_),
    StableHlo.unary main_arg3 main_v1 ((transpose S1000x32 [1, 0] · transposes_S32x1000_S1000x32_1_0) : (⟨S32x1000, .f32⟩ : BufTy).Contents (Elt F) → (⟨S1000x32, .f32⟩ : BufTy).Contents (Elt F)),
    StableHlo.reshape main_arg4 main_v2 rfl shapeCasts_S1000_S1000x1,
    StableHlo.unary main_arg0 main_v3 ((transpose S8x16384 [1, 0] · transposes_S16384x8_S8x16384_1_0) : (⟨S16384x8, .i32⟩ : BufTy).Contents (Elt F) → (⟨S8x16384, .i32⟩ : BufTy).Contents (Elt F)),
    StableHlo.reshape main_v3 main_v4 rfl shapeCasts_S8x16384_S131072,
    StableHlo.unary main_v4 main_v5 ((extractStridedSlice S16384 ![0] · slices_S131072_S16384_0) : (⟨S131072, .i32⟩ : BufTy).Contents (Elt F) → (⟨S16384, .i32⟩ : BufTy).Contents (Elt F)) ]
/-- The slice of the tokens before each later call. -/
abbrev sliceOps1 : List (HloOp τ sig (Elt F)) := [ StableHlo.unary main_v4 main_v7 ((extractStridedSlice S16384 ![16384] · slices_S131072_S16384_16384) : (⟨S131072, .i32⟩ : BufTy).Contents (Elt F) → (⟨S16384, .i32⟩ : BufTy).Contents (Elt F)) ]
abbrev sliceOps2 : List (HloOp τ sig (Elt F)) := [ StableHlo.unary main_v4 main_v9 ((extractStridedSlice S32768 ![32768] · slices_S131072_S32768_32768) : (⟨S131072, .i32⟩ : BufTy).Contents (Elt F) → (⟨S32768, .i32⟩ : BufTy).Contents (Elt F)) ]
abbrev sliceOps3 : List (HloOp τ sig (Elt F)) := [ StableHlo.unary main_v4 main_v11 ((extractStridedSlice S65536 ![65536] · slices_S131072_S65536_65536) : (⟨S131072, .i32⟩ : BufTy).Contents (Elt F) → (⟨S65536, .i32⟩ : BufTy).Contents (Elt F)) ]

theorem preOps_sub : (preOps : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.reshape_bufs_sub ..,
    StableHlo.unary_bufs_sub .., StableHlo.reshape_bufs_sub .., StableHlo.unary_bufs_sub ..⟩
theorem sliceOps1_sub : (sliceOps1 : List (HloOp τ sig (Elt F))).Forall fun op => op.bufs ⊆ StableHlo.tcRefs τ sig := StableHlo.unary_bufs_sub ..
theorem sliceOps2_sub : (sliceOps2 : List (HloOp τ sig (Elt F))).Forall fun op => op.bufs ⊆ StableHlo.tcRefs τ sig := StableHlo.unary_bufs_sub ..
theorem sliceOps3_sub : (sliceOps3 : List (HloOp τ sig (Elt F))).Forall fun op => op.bufs ⊆ StableHlo.tcRefs τ sig := StableHlo.unary_bufs_sub ..
theorem preOps_fresh : (preOps : List (HloOp τ sig (Elt F))).Forall fun op => op.fresh = ∅ := by simp only [List.Forall]; repeat' constructor
theorem sliceOps1_fresh : (sliceOps1 : List (HloOp τ sig (Elt F))).Forall fun op => op.fresh = ∅ := by simp only [List.Forall]; repeat' constructor
theorem sliceOps2_fresh : (sliceOps2 : List (HloOp τ sig (Elt F))).Forall fun op => op.fresh = ∅ := by simp only [List.Forall]; repeat' constructor
theorem sliceOps3_fresh : (sliceOps3 : List (HloOp τ sig (Elt F))).Forall fun op => op.fresh = ∅ := by simp only [List.Forall]; repeat' constructor

/-- A stretch's operations touch unscoped TensorCore references only. -/
theorem sub_uc {ops : List (HloOp τ sig (Elt F))} (h : ops.Forall fun op => op.bufs ⊆ StableHlo.tcRefs τ sig) :
    ∀ op ∈ ops, op.bufs ⊆ Pipeline.ucRefs τ sig :=
  fun op hop => Pipeline.sub_ucRefs op ((List.forall_iff_forall_mem.mp h) op hop)

/-- @main's head is the stretches and the calls in order, continued by `k`. -/
theorem head_chain (d : Dev nD) (k : Prog (TpuEff nD τ sig (Elt F) (SparseCore.Sig (Pipeline.Sig Λ₀ (Fin 4) fun p => (pcfgs (F := F) p).Adm) 4) .tc) PUnit) :
    headProg (F := F) d k
      = (StableHlo.seq preOps >>= fun _ => sc.run d 0 >>= fun _ => StableHlo.seq sliceOps1 >>= fun _ => sc.run d 1 >>= fun _ =>
          StableHlo.seq sliceOps2 >>= fun _ => sc.run d 2 >>= fun _ => StableHlo.seq sliceOps3 >>= fun _ => sc.run d 3 >>= fun _ => k) := by
  chain_rfl

end Cert.KernelIdeal.Hand.Launch

end
-- ==== Proof.KernelIdeal.CallStep.lean ====
import proofs.«203661_g84404697301628_cont_9to1_m_135_26_alg».proof.Proof.Pay
import proofs.«203661_g84404697301628_cont_9to1_m_135_26_alg».proof.Proof.KernelIdeal.TailSt
import proofs.«203661_g84404697301628_cont_9to1_m_135_26_alg».proof.Proof.KernelIdeal.TailRead
import proofs.«203661_g84404697301628_cont_9to1_m_135_26_alg».proof.Proof.KernelIdeal.Fund
import proofs.«203661_g84404697301628_cont_9to1_m_135_26_alg».proof.Proof.KernelIdeal.HeadOps
import Idealize.ShloMosaic.Lib.SparseCore.Launch
import Idealize.ShloMosaic.Lib.StableHlo.Run

/-! # The TensorCore at one SparseCore call

At call `q` the TensorCore lends the padded table, half to each SparseCore, and hands over the call's token list and result
array — dealt to the thirty-two vector subcores by the certificate's `hdeal` —; it gets the table back whole, the token list
at the same contents and the result array at whatever the call left (`hback`). The other unscoped buffers are untouched, so
the valuation after the call is the one before it with the result array updated. -/

set_option maxRecDepth 16384

noncomputable section

namespace Cert.KernelIdeal.Hand.Launch

open Cert.KernelIdeal Cert.KernelIdeal.Gen Cert.KernelIdeal.Heads
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr)
open Idealize.ShloMosaic.Tactic

variable {F : FTy → Type} [FloatOps F]

local notation "𝕄" => MT nD τ sig (HIx 4) (Elt F) ℕ UU ℕ

variable (tbv : (d : Dev nD) → Buf (Elt F) (tblLoc d))
  (Rs : Fin 4 → Dev nD → Fin 2 → Fin 16 → sProp (MT nD τ sig (HIx 4) (Elt F) ℕ UU ℕ))

/-- A family over the call's SparseCores is one over `Fin 2`. -/
theorem bigSep_cores (q : Fin 4) (Φ : Fin 2 → sProp 𝕄) :
    (bigSep Finset.univ fun c : Fin ((K (F := F)).nCore q) => Φ (Fin.cast (nCore_eq q) c)) = bigSep Finset.univ Φ := by
  match q with
  | 0 => exact bigSep_congr fun _ _ => congrArg Φ (Fin.ext rfl)
  | 1 => exact bigSep_congr fun _ _ => congrArg Φ (Fin.ext rfl)
  | 2 => exact bigSep_congr fun _ _ => congrArg Φ (Fin.ext rfl)
  | 3 => exact bigSep_congr fun _ _ => congrArg Φ (Fin.ext rfl)

/-- What call `q` takes for its SparseCores, and hands back: the table whole and every vector subcore's own part. -/
theorem cores_eq (q : Fin 4) (d : Dev nD) :
    (bigSep Finset.univ fun c : Fin ((K (F := F)).nCore q) => coreRes tbv Rs q d (Fin.cast (nCore_eq q) c))
      = iprop((tblLoc d ↦{fullShare} tbv d) ∗ bigSep Finset.univ fun c : Fin 2 => bigSep Finset.univ fun i : Fin 16 => Rs q d c i) := by
  rw [bigSep_cores (F := F) q (fun c => coreRes tbv Rs q d c)]
  unfold coreRes
  rw [bigSep_sep', ← pointsTo_piecesOf Finset.univ (tbv d) (show 0 < 2 by decide) fullShare]

/-- The same, spelt as the handshakes' payloads. -/
theorem st_eq (q : Fin 4) (d : Dev nD) :
    (bigSep Finset.univ fun c : Fin ((K (F := F)).nCore q) => (P tbv Rs).st q d c)
      = iprop((tblLoc d ↦{fullShare} tbv d) ∗ bigSep Finset.univ fun c : Fin 2 => bigSep Finset.univ fun i : Fin 16 => Rs q d c i) :=
  cores_eq tbv Rs q d
theorem dn_eq (q : Fin 4) (d : Dev nD) :
    (bigSep Finset.univ fun c : Fin ((K (F := F)).nCore q) => (P tbv Rs).dn q d c)
      = iprop((tblLoc d ↦{fullShare} tbv d) ∗ bigSep Finset.univ fun c : Fin 2 => bigSep Finset.univ fun i : Fin 16 => Rs q d c i) :=
  cores_eq tbv Rs q d

/-- Three distinct references' buffers out of a set held at a valuation. -/
theorem held_three (d : Dev nD) (a b c : Ref sig .tc) (hab : a ≠ b) (hac : a ≠ c) (hbc : b ≠ c) (W : Valuation τ sig (Elt F)) :
    (held (SparseCore.T d) ({Proc.devRef .tc a, Proc.devRef .tc b, Proc.devRef .tc c} : Finset (DevRef τ sig)) W : sProp 𝕄)
      = iprop(((SparseCore.T d).loc a ↦{fullShare} W (Proc.devRef .tc a)) ∗ ((SparseCore.T d).loc b ↦{fullShare} W (Proc.devRef .tc b))
          ∗ ((SparseCore.T d).loc c ↦{fullShare} W (Proc.devRef .tc c))) := by
  unfold held
  rw [SparseCore.bigSep_insert' (by
      simp only [Finset.mem_insert, Finset.mem_singleton, not_or]
      exact ⟨StableHlo.devRef_ne_of_ne hab, StableHlo.devRef_ne_of_ne hac⟩),
    SparseCore.bigSep_insert' (by simp only [Finset.mem_singleton]; exact StableHlo.devRef_ne_of_ne hbc), bigSep_singleton]

/-- The TensorCore at call `q`, its unscoped buffers held at `W`: to the next handshake state and the buffers at `W` with
    the result array updated. -/
theorem wp_call (κ : GSem nD τ sig → ℕ) (d : Dev nD) (q : Fin 4) (tok res : Ref sig .tc)
    (hmem : ({Proc.devRef .tc main_v0, Proc.devRef .tc tok, Proc.devRef .tc res} : Finset (DevRef τ sig)) ⊆ Pipeline.ucRefs τ sig)
    (h01 : main_v0 ≠ tok) (h02 : main_v0 ≠ res) (h12 : tok ≠ res)
    (W : Valuation τ sig (Elt F)) (hW : W (Proc.devRef .tc main_v0) = tbv d) (Rem : sProp 𝕄)
    (hdeal : iprop(((SparseCore.T d).loc tok ↦{fullShare} W (Proc.devRef .tc tok)) ∗ ((SparseCore.T d).loc res ↦{fullShare} W (Proc.devRef .tc res)))
        ⊢ iprop((bigSep Finset.univ fun c : Fin 2 => bigSep Finset.univ fun i : Fin 16 => Rs q d c i) ∗ Rem))
    (hback : iprop((bigSep Finset.univ fun c : Fin 2 => bigSep Finset.univ fun i : Fin 16 => Rs q d c i) ∗ Rem)
        ⊢ iprop(((SparseCore.T d).loc tok ↦{fullShare} W (Proc.devRef .tc tok)) ∗ ∃ f : Buf (Elt F) ((SparseCore.T d).loc res), (SparseCore.T d).loc res ↦{fullShare} f))
    (Φ : PUnit → sProp 𝕄) :
    iprop((K (F := F)).ctx EH (P tbv Rs) κ ∗ (K (F := F)).tcSt EH d q.val ∗ held (SparseCore.T d) (Pipeline.ucRefs τ sig) W
        ∗ ((∃ f : Buf (Elt F) ((SparseCore.T d).loc res), (K (F := F)).tcSt EH d (q.val + 1)
              ∗ held (SparseCore.T d) (Pipeline.ucRefs τ sig) (Function.update W (Proc.devRef .tc res) f)) -∗ Φ ⟨⟩))
      ⊢ wp frame (wpE ((K (F := F)).defs (D (F := F))) 𝒱 (SparseCore.T d) none) Set.univ ((K (F := F)).run d q) Φ := by
  rw [held_sub_split (SparseCore.T d) hmem W, held_three d main_v0 tok res h01 h02 h12 W, hW]
  iintro ⟨#Hctx, Hst, ⟨⟨Htb, Htok, Hres⟩, Hrest⟩, Hk⟩
  ihave Hd := (hdeal) $$ [Htok Hres]
  · isplitl [Htok]; · iexact Htok
    iexact Hres
  icases Hd with ⟨HRs, Hrem⟩
  iapply ((K (F := F)).wp_run (D (F := F)) 𝒱 (EH := EH) (P := P tbv Rs) κ d q)
  isplitr; · iexact Hctx
  isplitl [Hst]; · iexact Hst
  isplitl [Htb HRs]
  · rw [st_eq]
    isplitl [Htb]; · iexact Htb
    iexact HRs
  iintro ⟨Hst, Hdn⟩
  ihave Hdn' := (Entails.of_eq (dn_eq tbv Rs q d)) $$ Hdn
  icases Hdn' with ⟨Htb, HR⟩
  ihave H := (hback) $$ [HR Hrem]
  · isplitl [HR]; · iexact HR
    iexact Hrem
  icases H with ⟨Htok, %f, Hres⟩
  iapply Hk
  iexists f
  isplitl [Hst]; · iexact Hst
  rw [held_sub_split (SparseCore.T d) hmem (Function.update W (Proc.devRef .tc res) f),
    held_three d main_v0 tok res h01 h02 h12 (Function.update W (Proc.devRef .tc res) f),
    Function.update_of_ne (StableHlo.devRef_ne_of_ne h02), Function.update_of_ne (StableHlo.devRef_ne_of_ne h12), Function.update_self, hW,
    held_congr (SparseCore.T d) (V := Function.update W (Proc.devRef .tc res) f) (V' := W) (fun b hb => Function.update_of_ne (fun e => by
      subst e
      exact (Finset.mem_sdiff.mp hb).2 (Finset.mem_insert_of_mem (Finset.mem_insert_of_mem (Finset.mem_singleton_self _)))) _ _)]
  isplitl [Htb Htok Hres]
  · isplitl [Htb]; · iexact Htb
    isplitl [Htok]; · iexact Htok
    iexact Hres
  iexact Hrest

end Cert.KernelIdeal.Hand.Launch

end
-- ==== Proof.KernelIdeal.CallStepV.lean ====
import proofs.«203661_g84404697301628_cont_9to1_m_135_26_alg».proof.Proof.PayV
import proofs.«203661_g84404697301628_cont_9to1_m_135_26_alg».proof.Proof.KernelIdeal.TailSt
import proofs.«203661_g84404697301628_cont_9to1_m_135_26_alg».proof.Proof.KernelIdeal.TailRead
import proofs.«203661_g84404697301628_cont_9to1_m_135_26_alg».proof.Proof.KernelIdeal.Fund
import proofs.«203661_g84404697301628_cont_9to1_m_135_26_alg».proof.Proof.KernelIdeal.CallStep
import Idealize.ShloMosaic.Lib.SparseCore.Launch
import Idealize.ShloMosaic.Lib.StableHlo.Run

/-! # The TensorCore at one SparseCore call, contents tracked

As the untracked step, over payloads that differ out and back: the vector subcores are handed their parts at some contents
(`Rgo`) and hand them back at the gathered rows (`Rtd`); the certificate's `hback` then yields the result array at contents
satisfying the call's specification `Sp`, a pure fact carried with the updated valuation. -/

set_option maxRecDepth 16384

noncomputable section

namespace Cert.KernelIdeal.Hand.Launch

open Cert.KernelIdeal Cert.KernelIdeal.Gen Cert.KernelIdeal.Heads
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr)
open Idealize.ShloMosaic.Tactic

variable {F : FTy → Type} [FloatOps F]

local notation "𝕄" => MT nD τ sig (HIx 4) (Elt F) ℕ UU ℕ

variable (tbv : (d : Dev nD) → Buf (Elt F) (tblLoc d))
  (Rgo Rtd : Fin 4 → Dev nD → Fin 2 → Fin 16 → sProp (MT nD τ sig (HIx 4) (Elt F) ℕ UU ℕ))

theorem st_eqV (q : Fin 4) (d : Dev nD) :
    (bigSep Finset.univ fun c : Fin ((K (F := F)).nCore q) => (PV tbv Rgo Rtd).st q d c)
      = iprop((tblLoc d ↦{fullShare} tbv d) ∗ bigSep Finset.univ fun c : Fin 2 => bigSep Finset.univ fun i : Fin 16 => Rgo q d c i) :=
  cores_eq tbv Rgo q d
theorem dn_eqV (q : Fin 4) (d : Dev nD) :
    (bigSep Finset.univ fun c : Fin ((K (F := F)).nCore q) => (PV tbv Rgo Rtd).dn q d c)
      = iprop((tblLoc d ↦{fullShare} tbv d) ∗ bigSep Finset.univ fun c : Fin 2 => bigSep Finset.univ fun i : Fin 16 => Rtd q d c i) :=
  cores_eq tbv Rtd q d

/-- The TensorCore at call `q`, its unscoped buffers held at `W`: to the next handshake state and the buffers at `W` with
    the result array updated to contents satisfying `Sp`. -/
theorem wp_callV (κ : GSem nD τ sig → ℕ) (d : Dev nD) (q : Fin 4) (tok res : Ref sig .tc)
    (hmem : ({Proc.devRef .tc main_v0, Proc.devRef .tc tok, Proc.devRef .tc res} : Finset (DevRef τ sig)) ⊆ Pipeline.ucRefs τ sig)
    (h01 : main_v0 ≠ tok) (h02 : main_v0 ≠ res) (h12 : tok ≠ res)
    (W : Valuation τ sig (Elt F)) (hW : W (Proc.devRef .tc main_v0) = tbv d) (Rem : sProp 𝕄)
    (Sp : Buf (Elt F) ((SparseCore.T (τ := τ) d).loc res) → Prop)
    (hdeal : iprop(((SparseCore.T d).loc tok ↦{fullShare} W (Proc.devRef .tc tok)) ∗ ((SparseCore.T d).loc res ↦{fullShare} W (Proc.devRef .tc res)))
        ⊢ iprop((bigSep Finset.univ fun c : Fin 2 => bigSep Finset.univ fun i : Fin 16 => Rgo q d c i) ∗ Rem))
    (hback : iprop((bigSep Finset.univ fun c : Fin 2 => bigSep Finset.univ fun i : Fin 16 => Rtd q d c i) ∗ Rem)
        ⊢ iprop(((SparseCore.T d).loc tok ↦{fullShare} W (Proc.devRef .tc tok))
            ∗ ∃ f : Buf (Elt F) ((SparseCore.T d).loc res), ⌜Sp f⌝ ∗ (SparseCore.T d).loc res ↦{fullShare} f))
    (Φ : PUnit → sProp 𝕄) :
    iprop((K (F := F)).ctx EH (PV tbv Rgo Rtd) κ ∗ (K (F := F)).tcSt EH d q.val ∗ held (SparseCore.T d) (Pipeline.ucRefs τ sig) W
        ∗ ((∃ f : Buf (Elt F) ((SparseCore.T d).loc res), ⌜Sp f⌝ ∗ (K (F := F)).tcSt EH d (q.val + 1)
              ∗ held (SparseCore.T d) (Pipeline.ucRefs τ sig) (Function.update W (Proc.devRef .tc res) f)) -∗ Φ ⟨⟩))
      ⊢ wp frame (wpE ((K (F := F)).defs (D (F := F))) 𝒱 (SparseCore.T d) none) Set.univ ((K (F := F)).run d q) Φ := by
  rw [held_sub_split (SparseCore.T d) hmem W, held_three d main_v0 tok res h01 h02 h12 W, hW]
  iintro ⟨#Hctx, Hst, ⟨⟨Htb, Htok, Hres⟩, Hrest⟩, Hk⟩
  ihave Hd := (hdeal) $$ [Htok Hres]
  · isplitl [Htok]; · iexact Htok
    iexact Hres
  icases Hd with ⟨HRs, Hrem⟩
  iapply ((K (F := F)).wp_run (D (F := F)) 𝒱 (EH := EH) (P := PV tbv Rgo Rtd) κ d q)
  isplitr; · iexact Hctx
  isplitl [Hst]; · iexact Hst
  isplitl [Htb HRs]
  · rw [st_eqV]
    isplitl [Htb]; · iexact Htb
    iexact HRs
  iintro ⟨Hst, Hdn⟩
  ihave Hdn' := (Entails.of_eq (dn_eqV tbv Rgo Rtd q d)) $$ Hdn
  icases Hdn' with ⟨Htb, HR⟩
  ihave H := (hback) $$ [HR Hrem]
  · isplitl [HR]; · iexact HR
    iexact Hrem
  icases H with ⟨Htok, %f, %hf, Hres⟩
  iapply Hk
  iexists f
  isplitr; · ipureintro; exact hf
  isplitl [Hst]; · iexact Hst
  rw [held_sub_split (SparseCore.T d) hmem (Function.update W (Proc.devRef .tc res) f),
    held_three d main_v0 tok res h01 h02 h12 (Function.update W (Proc.devRef .tc res) f),
    Function.update_of_ne (StableHlo.devRef_ne_of_ne h02), Function.update_of_ne (StableHlo.devRef_ne_of_ne h12), Function.update_self, hW,
    held_congr (SparseCore.T d) (V := Function.update W (Proc.devRef .tc res) f) (V' := W) (fun b hb => Function.update_of_ne (fun e => by
      subst e
      exact (Finset.mem_sdiff.mp hb).2 (Finset.mem_insert_of_mem (Finset.mem_insert_of_mem (Finset.mem_singleton_self _)))) _ _)]
  isplitl [Htb Htok Hres]
  · isplitl [Htb]; · iexact Htb
    isplitl [Htok]; · iexact Htok
    iexact Hres
  iexact Hrest

end Cert.KernelIdeal.Hand.Launch

end
-- ==== Proof.KernelIdeal.HeadRun.lean ====
import proofs.«203661_g84404697301628_cont_9to1_m_135_26_alg».proof.Proof.Pay
import proofs.«203661_g84404697301628_cont_9to1_m_135_26_alg».proof.Proof.KernelIdeal.TailSt
import proofs.«203661_g84404697301628_cont_9to1_m_135_26_alg».proof.Proof.KernelIdeal.TailRead
import proofs.«203661_g84404697301628_cont_9to1_m_135_26_alg».proof.Proof.KernelIdeal.Fund
import proofs.«203661_g84404697301628_cont_9to1_m_135_26_alg».proof.Proof.KernelIdeal.CallStep
import Idealize.ShloMosaic.Lib.SparseCore.Launch
import Idealize.ShloMosaic.Lib.StableHlo.Run

/-! # @main on the TensorCore, whole

The valuations the TensorCore's unscoped buffers are held at through @main's head — the launch memory, the eight host
operations, then per call the result array at whatever the call left and the next slice of the tokens —, the table and each
call's token words as values of the launch memory alone, and @main's triple for the launch theorem: the head's stretches and
calls, then the tail, the five argument arrays kept at their launch contents. -/

set_option maxRecDepth 16384

noncomputable section

namespace Cert.KernelIdeal.Hand.Launch

open Cert.KernelIdeal Cert.KernelIdeal.Gen Cert.KernelIdeal.Heads
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr)
open Idealize.ShloMosaic.Tactic

variable {F : FTy → Type} [FloatOps F]

local notation "𝕄" => MT nD τ sig (HIx 4) (Elt F) ℕ UU ℕ

variable (m : (ℓ : Loc nD τ sig) → Buf (Elt F) ℓ)

/-! ## The valuations -/

/-- The launch contents. -/
def V0 (d : Dev nD) : Valuation τ sig (Elt F) := fun b => m (d, b)
/-- Before the first call. -/
def Vp (d : Dev nD) : Valuation τ sig (Elt F) := StableHlo.after (preOps (F := F)) (V0 m d)
/-- Before the second, third and fourth calls, the earlier calls' result arrays at `f0`, `f1`, `f2`; and after the fourth. -/
def Va (d : Dev nD) (f0 : Buf (Elt F) ((SparseCore.T (τ := τ) d).loc main_v6)) : Valuation τ sig (Elt F) :=
  StableHlo.after (sliceOps1 (F := F)) (Function.update (Vp m d) (Proc.devRef .tc main_v6) f0)
def Vb (d : Dev nD) (f0 : Buf (Elt F) ((SparseCore.T (τ := τ) d).loc main_v6)) (f1 : Buf (Elt F) ((SparseCore.T (τ := τ) d).loc main_v8)) : Valuation τ sig (Elt F) :=
  StableHlo.after (sliceOps2 (F := F)) (Function.update (Va m d f0) (Proc.devRef .tc main_v8) f1)
def Vc (d : Dev nD) (f0 : Buf (Elt F) ((SparseCore.T (τ := τ) d).loc main_v6)) (f1 : Buf (Elt F) ((SparseCore.T (τ := τ) d).loc main_v8)) (f2 : Buf (Elt F) ((SparseCore.T (τ := τ) d).loc main_v10)) : Valuation τ sig (Elt F) :=
  StableHlo.after (sliceOps3 (F := F)) (Function.update (Vb m d f0 f1) (Proc.devRef .tc main_v10) f2)
def Vd (d : Dev nD) (f0 : Buf (Elt F) ((SparseCore.T (τ := τ) d).loc main_v6)) (f1 : Buf (Elt F) ((SparseCore.T (τ := τ) d).loc main_v8)) (f2 : Buf (Elt F) ((SparseCore.T (τ := τ) d).loc main_v10)) (f3 : Buf (Elt F) ((SparseCore.T (τ := τ) d).loc main_v12)) : Valuation τ sig (Elt F) :=
  Function.update (Vc m d f0 f1 f2) (Proc.devRef .tc main_v12) f3

/-- The padded table, and each call's token words: values of the launch memory alone. -/
def tb (d : Dev nD) : Buf (Elt F) (tblLoc d) := Vp m d (Proc.devRef .tc main_v0)
def wd0 (d : Dev nD) : Buf (Elt F) ((SparseCore.T (τ := τ) d).loc main_v5) := Vp m d (Proc.devRef .tc main_v5)
def wd1 (d : Dev nD) : Buf (Elt F) ((SparseCore.T (τ := τ) d).loc main_v7) := StableHlo.after (sliceOps1 (F := F)) (Vp m d) (Proc.devRef .tc main_v7)
def wd2 (d : Dev nD) : Buf (Elt F) ((SparseCore.T (τ := τ) d).loc main_v9) := StableHlo.after (sliceOps2 (F := F)) (Vp m d) (Proc.devRef .tc main_v9)
def wd3 (d : Dev nD) : Buf (Elt F) ((SparseCore.T (τ := τ) d).loc main_v11) := StableHlo.after (sliceOps3 (F := F)) (Vp m d) (Proc.devRef .tc main_v11)

/-! ## Reading the valuations back -/

theorem Va_of_ne (d : Dev nD) (f0 : Buf (Elt F) ((SparseCore.T (τ := τ) d).loc main_v6)) (b : Ref sig .tc) (h6 : b ≠ main_v6) (h7 : b ≠ main_v7) :
    Va m d f0 (Proc.devRef .tc b) = Vp m d (Proc.devRef .tc b) := by
  unfold Va; simp only [StableHlo.after_cons, StableHlo.after_nil]
  rw [StableHlo.unary_result_ne _ _ _ _ _ _ h7, Function.update_of_ne (StableHlo.devRef_ne_of_ne h6)]
theorem Vb_of_ne (d : Dev nD) (f0 : Buf (Elt F) ((SparseCore.T (τ := τ) d).loc main_v6)) (f1 : Buf (Elt F) ((SparseCore.T (τ := τ) d).loc main_v8)) (b : Ref sig .tc) (h8 : b ≠ main_v8) (h9 : b ≠ main_v9) :
    Vb m d f0 f1 (Proc.devRef .tc b) = Va m d f0 (Proc.devRef .tc b) := by
  unfold Vb; simp only [StableHlo.after_cons, StableHlo.after_nil]
  rw [StableHlo.unary_result_ne _ _ _ _ _ _ h9, Function.update_of_ne (StableHlo.devRef_ne_of_ne h8)]
theorem Vc_of_ne (d : Dev nD) (f0 : Buf (Elt F) ((SparseCore.T (τ := τ) d).loc main_v6)) (f1 : Buf (Elt F) ((SparseCore.T (τ := τ) d).loc main_v8)) (f2 : Buf (Elt F) ((SparseCore.T (τ := τ) d).loc main_v10)) (b : Ref sig .tc)
    (h10 : b ≠ main_v10) (h11 : b ≠ main_v11) : Vc m d f0 f1 f2 (Proc.devRef .tc b) = Vb m d f0 f1 (Proc.devRef .tc b) := by
  unfold Vc; simp only [StableHlo.after_cons, StableHlo.after_nil]
  rw [StableHlo.unary_result_ne _ _ _ _ _ _ h11, Function.update_of_ne (StableHlo.devRef_ne_of_ne h10)]
theorem Vd_of_ne (d : Dev nD) (f0 : Buf (Elt F) ((SparseCore.T (τ := τ) d).loc main_v6)) (f1 : Buf (Elt F) ((SparseCore.T (τ := τ) d).loc main_v8)) (f2 : Buf (Elt F) ((SparseCore.T (τ := τ) d).loc main_v10)) (f3 : Buf (Elt F) ((SparseCore.T (τ := τ) d).loc main_v12)) (b : Ref sig .tc)
    (h12 : b ≠ main_v12) : Vd m d f0 f1 f2 f3 (Proc.devRef .tc b) = Vc m d f0 f1 f2 (Proc.devRef .tc b) := by
  unfold Vd; rw [Function.update_of_ne (StableHlo.devRef_ne_of_ne h12)]

/-- The table is the same before every call. -/
theorem Va_tb (d : Dev nD) (f0 : Buf (Elt F) ((SparseCore.T (τ := τ) d).loc main_v6)) : Va m d f0 (Proc.devRef .tc main_v0) = tb m d :=
  Va_of_ne m d f0 main_v0 (by decide) (by decide)
theorem Vb_tb (d : Dev nD) (f0 : Buf (Elt F) ((SparseCore.T (τ := τ) d).loc main_v6)) (f1 : Buf (Elt F) ((SparseCore.T (τ := τ) d).loc main_v8)) : Vb m d f0 f1 (Proc.devRef .tc main_v0) = tb m d :=
  (Vb_of_ne m d f0 f1 main_v0 (by decide) (by decide)).trans (Va_tb m d f0)
theorem Vc_tb (d : Dev nD) (f0 : Buf (Elt F) ((SparseCore.T (τ := τ) d).loc main_v6)) (f1 : Buf (Elt F) ((SparseCore.T (τ := τ) d).loc main_v8)) (f2 : Buf (Elt F) ((SparseCore.T (τ := τ) d).loc main_v10)) : Vc m d f0 f1 f2 (Proc.devRef .tc main_v0) = tb m d :=
  (Vc_of_ne m d f0 f1 f2 main_v0 (by decide) (by decide)).trans (Vb_tb m d f0 f1)

/-- Each call's token words are the slice of the tokens as the head left them, whatever the earlier calls left. -/
theorem Va_wd (d : Dev nD) (f0 : Buf (Elt F) ((SparseCore.T (τ := τ) d).loc main_v6)) : Va m d f0 (Proc.devRef .tc main_v7) = wd1 m d := by
  unfold Va wd1; simp only [StableHlo.after_cons, StableHlo.after_nil]
  rw [StableHlo.unary_result, StableHlo.unary_result, Function.update_of_ne (StableHlo.devRef_ne_of_ne (by decide))]
theorem Vb_wd (d : Dev nD) (f0 : Buf (Elt F) ((SparseCore.T (τ := τ) d).loc main_v6)) (f1 : Buf (Elt F) ((SparseCore.T (τ := τ) d).loc main_v8)) : Vb m d f0 f1 (Proc.devRef .tc main_v9) = wd2 m d := by
  unfold Vb wd2; simp only [StableHlo.after_cons, StableHlo.after_nil]
  rw [StableHlo.unary_result, StableHlo.unary_result, Function.update_of_ne (StableHlo.devRef_ne_of_ne (by decide)),
    Va_of_ne m d f0 main_v4 (by decide) (by decide)]
theorem Vc_wd (d : Dev nD) (f0 : Buf (Elt F) ((SparseCore.T (τ := τ) d).loc main_v6)) (f1 : Buf (Elt F) ((SparseCore.T (τ := τ) d).loc main_v8)) (f2 : Buf (Elt F) ((SparseCore.T (τ := τ) d).loc main_v10)) : Vc m d f0 f1 f2 (Proc.devRef .tc main_v11) = wd3 m d := by
  unfold Vc wd3; simp only [StableHlo.after_cons, StableHlo.after_nil]
  rw [StableHlo.unary_result, StableHlo.unary_result, Function.update_of_ne (StableHlo.devRef_ne_of_ne (by decide)),
    Vb_of_ne m d f0 f1 main_v4 (by decide) (by decide), Va_of_ne m d f0 main_v4 (by decide) (by decide)]

/-- No host operation of the head writes `main_arg0`. -/
theorem Vp_main_arg0 (d : Dev nD) : Vp m d (Proc.devRef .tc main_arg0) = V0 m d (Proc.devRef .tc main_arg0) :=
  StableHlo.after_of_forall_not_mem (b := Proc.devRef .tc main_arg0) _ _ (List.forall_iff_forall_mem.mp (by
    simp only [preOps, List.Forall, StableHlo.nullary_writes, StableHlo.unary_writes, StableHlo.binary_writes, StableHlo.reshape_writes, Finset.mem_singleton]
    repeat' apply And.intro
    all_goals exact StableHlo.devRef_ne_of_ne (by decide)))
/-- Nor does anything after it: `main_arg0` ends at its launch contents. -/
theorem kept_main_arg0 (d : Dev nD) (f0 : Buf (Elt F) ((SparseCore.T (τ := τ) d).loc main_v6)) (f1 : Buf (Elt F) ((SparseCore.T (τ := τ) d).loc main_v8)) (f2 : Buf (Elt F) ((SparseCore.T (τ := τ) d).loc main_v10)) (f3 : Buf (Elt F) ((SparseCore.T (τ := τ) d).loc main_v12)) :
    Wfin (Name := ℕ) (U := UU) (fun _ => Vd m d f0 f1 f2 f3) d (Proc.devRef .tc main_arg0) = V0 m d (Proc.devRef .tc main_arg0) :=
  calc Wfin (Name := ℕ) (U := UU) (fun _ => Vd m d f0 f1 f2 f3) d (Proc.devRef .tc main_arg0)
    _ = Wend (Ix := HIx 4) (Name := ℕ) (U := UU) (fun _ => Vd m d f0 f1 f2 f3) d (Proc.devRef .tc main_arg0) := Wfin_of_ne _ d main_arg0 (by decide)
    _ = W7 (Ix := HIx 4) (Name := ℕ) (U := UU) (fun _ => Vd m d f0 f1 f2 f3) d (Proc.devRef .tc main_arg0) := exit7_of_ne _ d main_arg0 (by decide)
    _ = exit6 (Ix := HIx 4) (Name := ℕ) (U := UU) (W6 (Ix := HIx 4) (Name := ℕ) (U := UU) (fun _ => Vd m d f0 f1 f2 f3)) d (Proc.devRef .tc main_arg0) := W7_of_ne _ d main_arg0 (by decide)
    _ = W6 (Ix := HIx 4) (Name := ℕ) (U := UU) (fun _ => Vd m d f0 f1 f2 f3) d (Proc.devRef .tc main_arg0) := exit6_of_ne _ d main_arg0 (by decide)
    _ = exit5 (Ix := HIx 4) (Name := ℕ) (U := UU) (W5 (Ix := HIx 4) (Name := ℕ) (U := UU) (fun _ => Vd m d f0 f1 f2 f3)) d (Proc.devRef .tc main_arg0) := W6_of_ne _ d main_arg0 (by decide)
    _ = W5 (Ix := HIx 4) (Name := ℕ) (U := UU) (fun _ => Vd m d f0 f1 f2 f3) d (Proc.devRef .tc main_arg0) := exit5_of_ne _ d main_arg0 (by decide)
    _ = exit4 (Ix := HIx 4) (Name := ℕ) (U := UU) (fun _ => Vd m d f0 f1 f2 f3) d (Proc.devRef .tc main_arg0) := W5_of_ne _ d main_arg0 (by decide)
    _ = Vd m d f0 f1 f2 f3 (Proc.devRef .tc main_arg0) := exit4_of_ne _ d main_arg0 (by decide)
    _ = Vc m d f0 f1 f2 (Proc.devRef .tc main_arg0) := Vd_of_ne m d f0 f1 f2 f3 main_arg0 (by decide)
    _ = Vb m d f0 f1 (Proc.devRef .tc main_arg0) := Vc_of_ne m d f0 f1 f2 main_arg0 (by decide) (by decide)
    _ = Va m d f0 (Proc.devRef .tc main_arg0) := Vb_of_ne m d f0 f1 main_arg0 (by decide) (by decide)
    _ = Vp m d (Proc.devRef .tc main_arg0) := Va_of_ne m d f0 main_arg0 (by decide) (by decide)
    _ = V0 m d (Proc.devRef .tc main_arg0) := Vp_main_arg0 m d

/-- No host operation of the head writes `main_arg1`. -/
theorem Vp_main_arg1 (d : Dev nD) : Vp m d (Proc.devRef .tc main_arg1) = V0 m d (Proc.devRef .tc main_arg1) :=
  StableHlo.after_of_forall_not_mem (b := Proc.devRef .tc main_arg1) _ _ (List.forall_iff_forall_mem.mp (by
    simp only [preOps, List.Forall, StableHlo.nullary_writes, StableHlo.unary_writes, StableHlo.binary_writes, StableHlo.reshape_writes, Finset.mem_singleton]
    repeat' apply And.intro
    all_goals exact StableHlo.devRef_ne_of_ne (by decide)))
/-- Nor does anything after it: `main_arg1` ends at its launch contents. -/
theorem kept_main_arg1 (d : Dev nD) (f0 : Buf (Elt F) ((SparseCore.T (τ := τ) d).loc main_v6)) (f1 : Buf (Elt F) ((SparseCore.T (τ := τ) d).loc main_v8)) (f2 : Buf (Elt F) ((SparseCore.T (τ := τ) d).loc main_v10)) (f3 : Buf (Elt F) ((SparseCore.T (τ := τ) d).loc main_v12)) :
    Wfin (Name := ℕ) (U := UU) (fun _ => Vd m d f0 f1 f2 f3) d (Proc.devRef .tc main_arg1) = V0 m d (Proc.devRef .tc main_arg1) :=
  calc Wfin (Name := ℕ) (U := UU) (fun _ => Vd m d f0 f1 f2 f3) d (Proc.devRef .tc main_arg1)
    _ = Wend (Ix := HIx 4) (Name := ℕ) (U := UU) (fun _ => Vd m d f0 f1 f2 f3) d (Proc.devRef .tc main_arg1) := Wfin_of_ne _ d main_arg1 (by decide)
    _ = W7 (Ix := HIx 4) (Name := ℕ) (U := UU) (fun _ => Vd m d f0 f1 f2 f3) d (Proc.devRef .tc main_arg1) := exit7_of_ne _ d main_arg1 (by decide)
    _ = exit6 (Ix := HIx 4) (Name := ℕ) (U := UU) (W6 (Ix := HIx 4) (Name := ℕ) (U := UU) (fun _ => Vd m d f0 f1 f2 f3)) d (Proc.devRef .tc main_arg1) := W7_of_ne _ d main_arg1 (by decide)
    _ = W6 (Ix := HIx 4) (Name := ℕ) (U := UU) (fun _ => Vd m d f0 f1 f2 f3) d (Proc.devRef .tc main_arg1) := exit6_of_ne _ d main_arg1 (by decide)
    _ = exit5 (Ix := HIx 4) (Name := ℕ) (U := UU) (W5 (Ix := HIx 4) (Name := ℕ) (U := UU) (fun _ => Vd m d f0 f1 f2 f3)) d (Proc.devRef .tc main_arg1) := W6_of_ne _ d main_arg1 (by decide)
    _ = W5 (Ix := HIx 4) (Name := ℕ) (U := UU) (fun _ => Vd m d f0 f1 f2 f3) d (Proc.devRef .tc main_arg1) := exit5_of_ne _ d main_arg1 (by decide)
    _ = exit4 (Ix := HIx 4) (Name := ℕ) (U := UU) (fun _ => Vd m d f0 f1 f2 f3) d (Proc.devRef .tc main_arg1) := W5_of_ne _ d main_arg1 (by decide)
    _ = Vd m d f0 f1 f2 f3 (Proc.devRef .tc main_arg1) := exit4_of_ne _ d main_arg1 (by decide)
    _ = Vc m d f0 f1 f2 (Proc.devRef .tc main_arg1) := Vd_of_ne m d f0 f1 f2 f3 main_arg1 (by decide)
    _ = Vb m d f0 f1 (Proc.devRef .tc main_arg1) := Vc_of_ne m d f0 f1 f2 main_arg1 (by decide) (by decide)
    _ = Va m d f0 (Proc.devRef .tc main_arg1) := Vb_of_ne m d f0 f1 main_arg1 (by decide) (by decide)
    _ = Vp m d (Proc.devRef .tc main_arg1) := Va_of_ne m d f0 main_arg1 (by decide) (by decide)
    _ = V0 m d (Proc.devRef .tc main_arg1) := Vp_main_arg1 m d

/-- No host operation of the head writes `main_arg2`. -/
theorem Vp_main_arg2 (d : Dev nD) : Vp m d (Proc.devRef .tc main_arg2) = V0 m d (Proc.devRef .tc main_arg2) :=
  StableHlo.after_of_forall_not_mem (b := Proc.devRef .tc main_arg2) _ _ (List.forall_iff_forall_mem.mp (by
    simp only [preOps, List.Forall, StableHlo.nullary_writes, StableHlo.unary_writes, StableHlo.binary_writes, StableHlo.reshape_writes, Finset.mem_singleton]
    repeat' apply And.intro
    all_goals exact StableHlo.devRef_ne_of_ne (by decide)))
/-- Nor does anything after it: `main_arg2` ends at its launch contents. -/
theorem kept_main_arg2 (d : Dev nD) (f0 : Buf (Elt F) ((SparseCore.T (τ := τ) d).loc main_v6)) (f1 : Buf (Elt F) ((SparseCore.T (τ := τ) d).loc main_v8)) (f2 : Buf (Elt F) ((SparseCore.T (τ := τ) d).loc main_v10)) (f3 : Buf (Elt F) ((SparseCore.T (τ := τ) d).loc main_v12)) :
    Wfin (Name := ℕ) (U := UU) (fun _ => Vd m d f0 f1 f2 f3) d (Proc.devRef .tc main_arg2) = V0 m d (Proc.devRef .tc main_arg2) :=
  calc Wfin (Name := ℕ) (U := UU) (fun _ => Vd m d f0 f1 f2 f3) d (Proc.devRef .tc main_arg2)
    _ = Wend (Ix := HIx 4) (Name := ℕ) (U := UU) (fun _ => Vd m d f0 f1 f2 f3) d (Proc.devRef .tc main_arg2) := Wfin_of_ne _ d main_arg2 (by decide)
    _ = W7 (Ix := HIx 4) (Name := ℕ) (U := UU) (fun _ => Vd m d f0 f1 f2 f3) d (Proc.devRef .tc main_arg2) := exit7_of_ne _ d main_arg2 (by decide)
    _ = exit6 (Ix := HIx 4) (Name := ℕ) (U := UU) (W6 (Ix := HIx 4) (Name := ℕ) (U := UU) (fun _ => Vd m d f0 f1 f2 f3)) d (Proc.devRef .tc main_arg2) := W7_of_ne _ d main_arg2 (by decide)
    _ = W6 (Ix := HIx 4) (Name := ℕ) (U := UU) (fun _ => Vd m d f0 f1 f2 f3) d (Proc.devRef .tc main_arg2) := exit6_of_ne _ d main_arg2 (by decide)
    _ = exit5 (Ix := HIx 4) (Name := ℕ) (U := UU) (W5 (Ix := HIx 4) (Name := ℕ) (U := UU) (fun _ => Vd m d f0 f1 f2 f3)) d (Proc.devRef .tc main_arg2) := W6_of_ne _ d main_arg2 (by decide)
    _ = W5 (Ix := HIx 4) (Name := ℕ) (U := UU) (fun _ => Vd m d f0 f1 f2 f3) d (Proc.devRef .tc main_arg2) := exit5_of_ne _ d main_arg2 (by decide)
    _ = exit4 (Ix := HIx 4) (Name := ℕ) (U := UU) (fun _ => Vd m d f0 f1 f2 f3) d (Proc.devRef .tc main_arg2) := W5_of_ne _ d main_arg2 (by decide)
    _ = Vd m d f0 f1 f2 f3 (Proc.devRef .tc main_arg2) := exit4_of_ne _ d main_arg2 (by decide)
    _ = Vc m d f0 f1 f2 (Proc.devRef .tc main_arg2) := Vd_of_ne m d f0 f1 f2 f3 main_arg2 (by decide)
    _ = Vb m d f0 f1 (Proc.devRef .tc main_arg2) := Vc_of_ne m d f0 f1 f2 main_arg2 (by decide) (by decide)
    _ = Va m d f0 (Proc.devRef .tc main_arg2) := Vb_of_ne m d f0 f1 main_arg2 (by decide) (by decide)
    _ = Vp m d (Proc.devRef .tc main_arg2) := Va_of_ne m d f0 main_arg2 (by decide) (by decide)
    _ = V0 m d (Proc.devRef .tc main_arg2) := Vp_main_arg2 m d

/-- No host operation of the head writes `main_arg3`. -/
theorem Vp_main_arg3 (d : Dev nD) : Vp m d (Proc.devRef .tc main_arg3) = V0 m d (Proc.devRef .tc main_arg3) :=
  StableHlo.after_of_forall_not_mem (b := Proc.devRef .tc main_arg3) _ _ (List.forall_iff_forall_mem.mp (by
    simp only [preOps, List.Forall, StableHlo.nullary_writes, StableHlo.unary_writes, StableHlo.binary_writes, StableHlo.reshape_writes, Finset.mem_singleton]
    repeat' apply And.intro
    all_goals exact StableHlo.devRef_ne_of_ne (by decide)))
/-- Nor does anything after it: `main_arg3` ends at its launch contents. -/
theorem kept_main_arg3 (d : Dev nD) (f0 : Buf (Elt F) ((SparseCore.T (τ := τ) d).loc main_v6)) (f1 : Buf (Elt F) ((SparseCore.T (τ := τ) d).loc main_v8)) (f2 : Buf (Elt F) ((SparseCore.T (τ := τ) d).loc main_v10)) (f3 : Buf (Elt F) ((SparseCore.T (τ := τ) d).loc main_v12)) :
    Wfin (Name := ℕ) (U := UU) (fun _ => Vd m d f0 f1 f2 f3) d (Proc.devRef .tc main_arg3) = V0 m d (Proc.devRef .tc main_arg3) :=
  calc Wfin (Name := ℕ) (U := UU) (fun _ => Vd m d f0 f1 f2 f3) d (Proc.devRef .tc main_arg3)
    _ = Wend (Ix := HIx 4) (Name := ℕ) (U := UU) (fun _ => Vd m d f0 f1 f2 f3) d (Proc.devRef .tc main_arg3) := Wfin_of_ne _ d main_arg3 (by decide)
    _ = W7 (Ix := HIx 4) (Name := ℕ) (U := UU) (fun _ => Vd m d f0 f1 f2 f3) d (Proc.devRef .tc main_arg3) := exit7_of_ne _ d main_arg3 (by decide)
    _ = exit6 (Ix := HIx 4) (Name := ℕ) (U := UU) (W6 (Ix := HIx 4) (Name := ℕ) (U := UU) (fun _ => Vd m d f0 f1 f2 f3)) d (Proc.devRef .tc main_arg3) := W7_of_ne _ d main_arg3 (by decide)
    _ = W6 (Ix := HIx 4) (Name := ℕ) (U := UU) (fun _ => Vd m d f0 f1 f2 f3) d (Proc.devRef .tc main_arg3) := exit6_of_ne _ d main_arg3 (by decide)
    _ = exit5 (Ix := HIx 4) (Name := ℕ) (U := UU) (W5 (Ix := HIx 4) (Name := ℕ) (U := UU) (fun _ => Vd m d f0 f1 f2 f3)) d (Proc.devRef .tc main_arg3) := W6_of_ne _ d main_arg3 (by decide)
    _ = W5 (Ix := HIx 4) (Name := ℕ) (U := UU) (fun _ => Vd m d f0 f1 f2 f3) d (Proc.devRef .tc main_arg3) := exit5_of_ne _ d main_arg3 (by decide)
    _ = exit4 (Ix := HIx 4) (Name := ℕ) (U := UU) (fun _ => Vd m d f0 f1 f2 f3) d (Proc.devRef .tc main_arg3) := W5_of_ne _ d main_arg3 (by decide)
    _ = Vd m d f0 f1 f2 f3 (Proc.devRef .tc main_arg3) := exit4_of_ne _ d main_arg3 (by decide)
    _ = Vc m d f0 f1 f2 (Proc.devRef .tc main_arg3) := Vd_of_ne m d f0 f1 f2 f3 main_arg3 (by decide)
    _ = Vb m d f0 f1 (Proc.devRef .tc main_arg3) := Vc_of_ne m d f0 f1 f2 main_arg3 (by decide) (by decide)
    _ = Va m d f0 (Proc.devRef .tc main_arg3) := Vb_of_ne m d f0 f1 main_arg3 (by decide) (by decide)
    _ = Vp m d (Proc.devRef .tc main_arg3) := Va_of_ne m d f0 main_arg3 (by decide) (by decide)
    _ = V0 m d (Proc.devRef .tc main_arg3) := Vp_main_arg3 m d

/-- No host operation of the head writes `main_arg4`. -/
theorem Vp_main_arg4 (d : Dev nD) : Vp m d (Proc.devRef .tc main_arg4) = V0 m d (Proc.devRef .tc main_arg4) :=
  StableHlo.after_of_forall_not_mem (b := Proc.devRef .tc main_arg4) _ _ (List.forall_iff_forall_mem.mp (by
    simp only [preOps, List.Forall, StableHlo.nullary_writes, StableHlo.unary_writes, StableHlo.binary_writes, StableHlo.reshape_writes, Finset.mem_singleton]
    repeat' apply And.intro
    all_goals exact StableHlo.devRef_ne_of_ne (by decide)))
/-- Nor does anything after it: `main_arg4` ends at its launch contents. -/
theorem kept_main_arg4 (d : Dev nD) (f0 : Buf (Elt F) ((SparseCore.T (τ := τ) d).loc main_v6)) (f1 : Buf (Elt F) ((SparseCore.T (τ := τ) d).loc main_v8)) (f2 : Buf (Elt F) ((SparseCore.T (τ := τ) d).loc main_v10)) (f3 : Buf (Elt F) ((SparseCore.T (τ := τ) d).loc main_v12)) :
    Wfin (Name := ℕ) (U := UU) (fun _ => Vd m d f0 f1 f2 f3) d (Proc.devRef .tc main_arg4) = V0 m d (Proc.devRef .tc main_arg4) :=
  calc Wfin (Name := ℕ) (U := UU) (fun _ => Vd m d f0 f1 f2 f3) d (Proc.devRef .tc main_arg4)
    _ = Wend (Ix := HIx 4) (Name := ℕ) (U := UU) (fun _ => Vd m d f0 f1 f2 f3) d (Proc.devRef .tc main_arg4) := Wfin_of_ne _ d main_arg4 (by decide)
    _ = W7 (Ix := HIx 4) (Name := ℕ) (U := UU) (fun _ => Vd m d f0 f1 f2 f3) d (Proc.devRef .tc main_arg4) := exit7_of_ne _ d main_arg4 (by decide)
    _ = exit6 (Ix := HIx 4) (Name := ℕ) (U := UU) (W6 (Ix := HIx 4) (Name := ℕ) (U := UU) (fun _ => Vd m d f0 f1 f2 f3)) d (Proc.devRef .tc main_arg4) := W7_of_ne _ d main_arg4 (by decide)
    _ = W6 (Ix := HIx 4) (Name := ℕ) (U := UU) (fun _ => Vd m d f0 f1 f2 f3) d (Proc.devRef .tc main_arg4) := exit6_of_ne _ d main_arg4 (by decide)
    _ = exit5 (Ix := HIx 4) (Name := ℕ) (U := UU) (W5 (Ix := HIx 4) (Name := ℕ) (U := UU) (fun _ => Vd m d f0 f1 f2 f3)) d (Proc.devRef .tc main_arg4) := W6_of_ne _ d main_arg4 (by decide)
    _ = W5 (Ix := HIx 4) (Name := ℕ) (U := UU) (fun _ => Vd m d f0 f1 f2 f3) d (Proc.devRef .tc main_arg4) := exit5_of_ne _ d main_arg4 (by decide)
    _ = exit4 (Ix := HIx 4) (Name := ℕ) (U := UU) (fun _ => Vd m d f0 f1 f2 f3) d (Proc.devRef .tc main_arg4) := W5_of_ne _ d main_arg4 (by decide)
    _ = Vd m d f0 f1 f2 f3 (Proc.devRef .tc main_arg4) := exit4_of_ne _ d main_arg4 (by decide)
    _ = Vc m d f0 f1 f2 (Proc.devRef .tc main_arg4) := Vd_of_ne m d f0 f1 f2 f3 main_arg4 (by decide)
    _ = Vb m d f0 f1 (Proc.devRef .tc main_arg4) := Vc_of_ne m d f0 f1 f2 main_arg4 (by decide) (by decide)
    _ = Va m d f0 (Proc.devRef .tc main_arg4) := Vb_of_ne m d f0 f1 main_arg4 (by decide) (by decide)
    _ = Vp m d (Proc.devRef .tc main_arg4) := Va_of_ne m d f0 main_arg4 (by decide) (by decide)
    _ = V0 m d (Proc.devRef .tc main_arg4) := Vp_main_arg4 m d

end Cert.KernelIdeal.Hand.Launch

end
-- ==== Proof.KernelIdeal.HeadMain.lean ====
import proofs.«203661_g84404697301628_cont_9to1_m_135_26_alg».proof.Proof.Pay
import proofs.«203661_g84404697301628_cont_9to1_m_135_26_alg».proof.Proof.KernelIdeal.TailSt
import proofs.«203661_g84404697301628_cont_9to1_m_135_26_alg».proof.Proof.KernelIdeal.TailRead
import proofs.«203661_g84404697301628_cont_9to1_m_135_26_alg».proof.Proof.KernelIdeal.Fund
import proofs.«203661_g84404697301628_cont_9to1_m_135_26_alg».proof.Proof.KernelIdeal.HeadRun
import Idealize.ShloMosaic.Lib.SparseCore.Launch
import Idealize.ShloMosaic.Lib.StableHlo.Run

/-! # @main's triple for the launch theorem

From the launch's deal to the TensorCore — the handshake state before the first call, the region boundary, the unscoped buffers
at the launch contents, the generator register — and the four pipelines' ghost state: the head's stretches by the host
operations' sequence rule, each call by the library's rule for the TensorCore at a call (the table lent, the call's token words
and result array dealt by the certificate's hypotheses), the tail by its triple; the five argument arrays are never written. -/

set_option maxRecDepth 16384

noncomputable section

namespace Cert.KernelIdeal.Hand.Launch

open Cert.KernelIdeal Cert.KernelIdeal.Gen Cert.KernelIdeal.Heads
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr)
open Idealize.ShloMosaic.Tactic

variable {F : FTy → Type} [FloatOps F]

local notation "𝕄" => MT nD τ sig (HIx 4) (Elt F) ℕ UU ℕ

variable (m : (ℓ : Loc nD τ sig) → Buf (Elt F) ℓ) (ρ : Dev nD → PrngReg)

/-- The staging cells' rounds library: the middle factor of the algebra. -/
abbrev EPm : Emb UP (MT nD τ sig (HIx 4) (Elt F) ℕ UU ℕ) := embMid (F := F) (Ix := HIx 4) (Name := ℕ) (A := UH) (C := Counters)

/-- The argument arrays. -/
abbrev argRefs : Finset (DevRef τ sig) :=
  {(Proc.devRef .tc main_arg0), (Proc.devRef .tc main_arg1), (Proc.devRef .tc main_arg2), (Proc.devRef .tc main_arg3), (Proc.devRef .tc main_arg4)}

/-- What @main leaves the claim: the five argument arrays at their launch contents. -/
abbrev FIN (d : Dev nD) : sProp 𝕄 := held (SparseCore.T (τ := τ) d) argRefs (V0 m d)

/-- What the launch element leaves @main's proof: the four pipelines' ghost state. -/
abbrev GG (d : Dev nD) : sProp 𝕄 := Pipeline.ghostOn (pcfgs (F := F)) adm (EPm (F := F)) Finset.univ d

theorem argRefs_sub : (argRefs : Finset (DevRef τ sig)) ⊆ Pipeline.ucRefs τ sig := by
  intro b hb
  simp only [argRefs, Finset.mem_insert, Finset.mem_singleton] at hb
  rcases hb with rfl | rfl | rfl | rfl | rfl <;> exact mem_uc _ (by decide)

/-- The arguments end as launched. -/
theorem kept_args (d : Dev nD) (f0 : Buf (Elt F) ((SparseCore.T (τ := τ) d).loc main_v6)) (f1 : Buf (Elt F) ((SparseCore.T (τ := τ) d).loc main_v8)) (f2 : Buf (Elt F) ((SparseCore.T (τ := τ) d).loc main_v10)) (f3 : Buf (Elt F) ((SparseCore.T (τ := τ) d).loc main_v12)) :
    ∀ b ∈ (argRefs : Finset (DevRef τ sig)), Wfin (Name := ℕ) (U := UU) (fun _ => Vd m d f0 f1 f2 f3) d b = V0 m d b := by
  intro b hb
  simp only [argRefs, Finset.mem_insert, Finset.mem_singleton] at hb
  rcases hb with rfl | rfl | rfl | rfl | rfl
  · exact kept_main_arg0 m d f0 f1 f2 f3
  · exact kept_main_arg1 m d f0 f1 f2 f3
  · exact kept_main_arg2 m d f0 f1 f2 f3
  · exact kept_main_arg3 m d f0 f1 f2 f3
  · exact kept_main_arg4 m d f0 f1 f2 f3

set_option maxHeartbeats 1000000 in
/-- @main on device `d`'s TensorCore. -/
theorem hmain [∀ e, Nonempty (Elt F e)] (Rs : Fin 4 → Dev nD → Fin 2 → Fin 16 → sProp (MT nD τ sig (HIx 4) (Elt F) ℕ UU ℕ))
    (rem0 : (d : Dev nD) → Buf (Elt F) ((SparseCore.T (τ := τ) d).loc main_v6) → sProp (MT nD τ sig (HIx 4) (Elt F) ℕ UU ℕ))
    (hdeal0 : ∀ (d : Dev nD) (o : Buf (Elt F) ((SparseCore.T (τ := τ) d).loc main_v6)),
      iprop(((SparseCore.T (τ := τ) d).loc main_v5 ↦{fullShare} wd0 m d) ∗ ((SparseCore.T (τ := τ) d).loc main_v6 ↦{fullShare} o))
        ⊢ iprop((bigSep Finset.univ fun c : Fin 2 => bigSep Finset.univ fun i : Fin 16 => Rs 0 d c i) ∗ rem0 d o))
    (hback0 : ∀ (d : Dev nD) (o : Buf (Elt F) ((SparseCore.T (τ := τ) d).loc main_v6)),
      iprop((bigSep Finset.univ fun c : Fin 2 => bigSep Finset.univ fun i : Fin 16 => Rs 0 d c i) ∗ rem0 d o)
        ⊢ iprop(((SparseCore.T (τ := τ) d).loc main_v5 ↦{fullShare} wd0 m d) ∗ ∃ o' : Buf (Elt F) ((SparseCore.T (τ := τ) d).loc main_v6), (SparseCore.T (τ := τ) d).loc main_v6 ↦{fullShare} o'))
    (rem1 : (d : Dev nD) → Buf (Elt F) ((SparseCore.T (τ := τ) d).loc main_v8) → sProp (MT nD τ sig (HIx 4) (Elt F) ℕ UU ℕ))
    (hdeal1 : ∀ (d : Dev nD) (o : Buf (Elt F) ((SparseCore.T (τ := τ) d).loc main_v8)),
      iprop(((SparseCore.T (τ := τ) d).loc main_v7 ↦{fullShare} wd1 m d) ∗ ((SparseCore.T (τ := τ) d).loc main_v8 ↦{fullShare} o))
        ⊢ iprop((bigSep Finset.univ fun c : Fin 2 => bigSep Finset.univ fun i : Fin 16 => Rs 1 d c i) ∗ rem1 d o))
    (hback1 : ∀ (d : Dev nD) (o : Buf (Elt F) ((SparseCore.T (τ := τ) d).loc main_v8)),
      iprop((bigSep Finset.univ fun c : Fin 2 => bigSep Finset.univ fun i : Fin 16 => Rs 1 d c i) ∗ rem1 d o)
        ⊢ iprop(((SparseCore.T (τ := τ) d).loc main_v7 ↦{fullShare} wd1 m d) ∗ ∃ o' : Buf (Elt F) ((SparseCore.T (τ := τ) d).loc main_v8), (SparseCore.T (τ := τ) d).loc main_v8 ↦{fullShare} o'))
    (rem2 : (d : Dev nD) → Buf (Elt F) ((SparseCore.T (τ := τ) d).loc main_v10) → sProp (MT nD τ sig (HIx 4) (Elt F) ℕ UU ℕ))
    (hdeal2 : ∀ (d : Dev nD) (o : Buf (Elt F) ((SparseCore.T (τ := τ) d).loc main_v10)),
      iprop(((SparseCore.T (τ := τ) d).loc main_v9 ↦{fullShare} wd2 m d) ∗ ((SparseCore.T (τ := τ) d).loc main_v10 ↦{fullShare} o))
        ⊢ iprop((bigSep Finset.univ fun c : Fin 2 => bigSep Finset.univ fun i : Fin 16 => Rs 2 d c i) ∗ rem2 d o))
    (hback2 : ∀ (d : Dev nD) (o : Buf (Elt F) ((SparseCore.T (τ := τ) d).loc main_v10)),
      iprop((bigSep Finset.univ fun c : Fin 2 => bigSep Finset.univ fun i : Fin 16 => Rs 2 d c i) ∗ rem2 d o)
        ⊢ iprop(((SparseCore.T (τ := τ) d).loc main_v9 ↦{fullShare} wd2 m d) ∗ ∃ o' : Buf (Elt F) ((SparseCore.T (τ := τ) d).loc main_v10), (SparseCore.T (τ := τ) d).loc main_v10 ↦{fullShare} o'))
    (rem3 : (d : Dev nD) → Buf (Elt F) ((SparseCore.T (τ := τ) d).loc main_v12) → sProp (MT nD τ sig (HIx 4) (Elt F) ℕ UU ℕ))
    (hdeal3 : ∀ (d : Dev nD) (o : Buf (Elt F) ((SparseCore.T (τ := τ) d).loc main_v12)),
      iprop(((SparseCore.T (τ := τ) d).loc main_v11 ↦{fullShare} wd3 m d) ∗ ((SparseCore.T (τ := τ) d).loc main_v12 ↦{fullShare} o))
        ⊢ iprop((bigSep Finset.univ fun c : Fin 2 => bigSep Finset.univ fun i : Fin 16 => Rs 3 d c i) ∗ rem3 d o))
    (hback3 : ∀ (d : Dev nD) (o : Buf (Elt F) ((SparseCore.T (τ := τ) d).loc main_v12)),
      iprop((bigSep Finset.univ fun c : Fin 2 => bigSep Finset.univ fun i : Fin 16 => Rs 3 d c i) ∗ rem3 d o)
        ⊢ iprop(((SparseCore.T (τ := τ) d).loc main_v11 ↦{fullShare} wd3 m d) ∗ ∃ o' : Buf (Elt F) ((SparseCore.T (τ := τ) d).loc main_v12), (SparseCore.T (τ := τ) d).loc main_v12 ↦{fullShare} o'))
    (κ : GSem nD τ sig → ℕ) (d : Dev nD) :
    iprop((K (F := F)).ctx EH (P (tb m) Rs) κ ∗ (K (F := F)).tcSt EH d 0 ∗ (K (F := F)).tcRes m ρ d ∗ GG (F := F) d)
      ⊢ wp frame (wpE ((K (F := F)).defs (D (F := F))) 𝒱 (SparseCore.T (τ := τ) d) none) Set.univ (main (F := F) d)
          fun _ => iprop((K (F := F)).tcSt EH d 4 ∗ FIN m d) := by
  unfold SparseCore.Cfg.tcRes
  rw [show (unscopedBufs d (fun b => m ((SparseCore.T (τ := τ) d).loc b)) : sProp 𝕄) = held (SparseCore.T (τ := τ) d) (Pipeline.ucRefs τ sig) (V0 m d)
    from Pipeline.unscopedBufs_held d (V0 m d), main_split, head_chain]
  iintro ⟨#Hctx, Hst, ⟨Hb, Hheld, -, Hprng⟩, Hg⟩
  -- the eight host operations, then the first call
  iapply (StableHlo.wp_seq (defs := (K (F := F)).defs (D (F := F))) 𝒱 none Set.univ d (Pipeline.ucRefs τ sig) _ preOps (sub_uc preOps_sub)
      (fun op h => (List.forall_iff_forall_mem.mp preOps_fresh) op h) (V0 m d)) $$ [Hb Hheld]
  · isplitl [Hb]; · iexact Hb
    iexact Hheld
  iintro ⟨Hb, Hheld⟩
  rw [wp_bind]
  iapply (wp_call (tb m) Rs κ d 0 main_v5 main_v6 (by decide) (by decide) (by decide) (by decide) (Vp m d) (rfl) (rem0 d ((Vp m d) (Proc.devRef .tc main_v6)))
      (by exact hdeal0 d _) (by exact hback0 d _) _)
  isplitr; · iexact Hctx
  isplitl [Hst]; · iexact Hst
  isplitl [Hheld]; · iexact Hheld
  iintro ⟨%f0, Hst, Hheld⟩
  -- the second slice and call
  iapply (StableHlo.wp_seq (defs := (K (F := F)).defs (D (F := F))) 𝒱 none Set.univ d (Pipeline.ucRefs τ sig) _ sliceOps1 (sub_uc sliceOps1_sub)
      (fun op h => (List.forall_iff_forall_mem.mp sliceOps1_fresh) op h) (Function.update (Vp m d) (Proc.devRef .tc main_v6) f0)) $$ [Hb Hheld]
  · isplitl [Hb]; · iexact Hb
    iexact Hheld
  iintro ⟨Hb, Hheld⟩
  rw [wp_bind]
  iapply (wp_call (tb m) Rs κ d 1 main_v7 main_v8 (by decide) (by decide) (by decide) (by decide) (Va m d f0) (Va_tb m d f0) (rem1 d ((Va m d f0) (Proc.devRef .tc main_v8)))
      (by rw [Va_wd]; exact hdeal1 d _) (by rw [Va_wd]; exact hback1 d _) _)
  isplitr; · iexact Hctx
  isplitl [Hst]; · iexact Hst
  isplitl [Hheld]; · iexact Hheld
  iintro ⟨%f1, Hst, Hheld⟩
  -- the third
  iapply (StableHlo.wp_seq (defs := (K (F := F)).defs (D (F := F))) 𝒱 none Set.univ d (Pipeline.ucRefs τ sig) _ sliceOps2 (sub_uc sliceOps2_sub)
      (fun op h => (List.forall_iff_forall_mem.mp sliceOps2_fresh) op h) (Function.update (Va m d f0) (Proc.devRef .tc main_v8) f1)) $$ [Hb Hheld]
  · isplitl [Hb]; · iexact Hb
    iexact Hheld
  iintro ⟨Hb, Hheld⟩
  rw [wp_bind]
  iapply (wp_call (tb m) Rs κ d 2 main_v9 main_v10 (by decide) (by decide) (by decide) (by decide) (Vb m d f0 f1) (Vb_tb m d f0 f1) (rem2 d ((Vb m d f0 f1) (Proc.devRef .tc main_v10)))
      (by rw [Vb_wd]; exact hdeal2 d _) (by rw [Vb_wd]; exact hback2 d _) _)
  isplitr; · iexact Hctx
  isplitl [Hst]; · iexact Hst
  isplitl [Hheld]; · iexact Hheld
  iintro ⟨%f2, Hst, Hheld⟩
  -- the fourth
  iapply (StableHlo.wp_seq (defs := (K (F := F)).defs (D (F := F))) 𝒱 none Set.univ d (Pipeline.ucRefs τ sig) _ sliceOps3 (sub_uc sliceOps3_sub)
      (fun op h => (List.forall_iff_forall_mem.mp sliceOps3_fresh) op h) (Function.update (Vb m d f0 f1) (Proc.devRef .tc main_v10) f2)) $$ [Hb Hheld]
  · isplitl [Hb]; · iexact Hb
    iexact Hheld
  iintro ⟨Hb, Hheld⟩
  rw [wp_bind]
  iapply (wp_call (tb m) Rs κ d 3 main_v11 main_v12 (by decide) (by decide) (by decide) (by decide) (Vc m d f0 f1 f2) (Vc_tb m d f0 f1 f2) (rem3 d ((Vc m d f0 f1 f2) (Proc.devRef .tc main_v12)))
      (by rw [Vc_wd]; exact hdeal3 d _) (by rw [Vc_wd]; exact hback3 d _) _)
  isplitr; · iexact Hctx
  isplitl [Hst]; · iexact Hst
  isplitl [Hheld]; · iexact Hheld
  iintro ⟨%f3, Hst, Hheld⟩
  -- the tail: the four regions, the copies, the transpose
  iapply (wp_tail_tcSt (K (F := F)).lev (fun _ => Vd m d f0 f1 f2 f3) EH (EPm (F := F)) d _)
  isplitl [Hst]; · iexact Hst
  isplitl [Hb]; · iexact Hb
  isplitl [Hheld]; · iexact Hheld
  isplitl [Hprng]; · iexists _; iexact Hprng
  isplitr; · iapply (SparseCore.Cfg.ctx_levAts κ); iexact Hctx
  isplitl [Hg]; · iexact Hg
  iintro ⟨Hst, -, Hheld, -⟩
  isplitl [Hst]; · iexact Hst
  ihave Hh := (Entails.of_eq (held_sub_split (SparseCore.T (τ := τ) d) argRefs_sub (Wfin (Name := ℕ) (U := UU) (fun _ => Vd m d f0 f1 f2 f3) d))) $$ Hheld
  icases Hh with ⟨Ha, -⟩
  ihave Ha' := (Entails.of_eq (held_congr (SparseCore.T (τ := τ) d) (kept_args m d f0 f1 f2 f3))) $$ Ha
  iexact Ha'

end Cert.KernelIdeal.Hand.Launch

end
-- ==== Proof.KernelIdeal.HeadMainV.lean ====
import proofs.«203661_g84404697301628_cont_9to1_m_135_26_alg».proof.Proof.PayV
import proofs.«203661_g84404697301628_cont_9to1_m_135_26_alg».proof.Proof.KernelIdeal.TailSt
import proofs.«203661_g84404697301628_cont_9to1_m_135_26_alg».proof.Proof.KernelIdeal.TailRead
import proofs.«203661_g84404697301628_cont_9to1_m_135_26_alg».proof.Proof.KernelIdeal.Fund
import proofs.«203661_g84404697301628_cont_9to1_m_135_26_alg».proof.Proof.KernelIdeal.CallStepV
import proofs.«203661_g84404697301628_cont_9to1_m_135_26_alg».proof.Proof.KernelIdeal.HeadMain
import Idealize.ShloMosaic.Lib.SparseCore.Launch
import Idealize.ShloMosaic.Lib.StableHlo.Run

/-! # @main's triple for the launch theorem, contents tracked

As the untracked triple, each call leaving its result array at contents that satisfy the call's specification (`S0 … S3`,
parameters): @main ends holding the returned buffer and the five argument arrays at the contents after the tail from a
valuation whose four gathered arrays satisfy the specifications; read off the final state, the memory holds them. -/

set_option maxRecDepth 16384

noncomputable section

namespace Cert.KernelIdeal.Hand.Launch

open Cert.KernelIdeal Cert.KernelIdeal.Gen Cert.KernelIdeal.Heads
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr)
open Idealize.ShloMosaic.Tactic

variable {F : FTy → Type} [FloatOps F]

local notation "𝕄" => MT nD τ sig (HIx 4) (Elt F) ℕ UU ℕ

variable (m : (ℓ : Loc nD τ sig) → Buf (Elt F) ℓ) (ρ : Dev nD → PrngReg)

/-- The returned buffer and the argument arrays. -/
abbrev outRefs : Finset (DevRef τ sig) :=
  {(Proc.devRef .tc main_v17), (Proc.devRef .tc main_arg0), (Proc.devRef .tc main_arg1), (Proc.devRef .tc main_arg2), (Proc.devRef .tc main_arg3), (Proc.devRef .tc main_arg4)}

theorem outRefs_sub : (outRefs : Finset (DevRef τ sig)) ⊆ Pipeline.ucRefs τ sig := by
  intro b hb
  simp only [outRefs, Finset.mem_insert, Finset.mem_singleton] at hb
  rcases hb with rfl | rfl | rfl | rfl | rfl | rfl <;> exact mem_uc _ (by decide)

/-- What @main leaves the claim: the returned buffer and the arguments, at the contents after the tail from a valuation whose
    gathered arrays satisfy the calls' specifications. -/
def FINV (S0 : (d : Dev nD) → Buf (Elt F) ((SparseCore.T (τ := τ) d).loc main_v6) → Prop) (S1 : (d : Dev nD) → Buf (Elt F) ((SparseCore.T (τ := τ) d).loc main_v8) → Prop) (S2 : (d : Dev nD) → Buf (Elt F) ((SparseCore.T (τ := τ) d).loc main_v10) → Prop) (S3 : (d : Dev nD) → Buf (Elt F) ((SparseCore.T (τ := τ) d).loc main_v12) → Prop) (d : Dev nD) : sProp 𝕄 :=
  iprop(∃ (f0 : Buf (Elt F) ((SparseCore.T (τ := τ) d).loc main_v6)) (f1 : Buf (Elt F) ((SparseCore.T (τ := τ) d).loc main_v8)) (f2 : Buf (Elt F) ((SparseCore.T (τ := τ) d).loc main_v10)) (f3 : Buf (Elt F) ((SparseCore.T (τ := τ) d).loc main_v12)),
    ⌜S0 d f0 ∧ S1 d f1 ∧ S2 d f2 ∧ S3 d f3⌝
      ∗ held (SparseCore.T (τ := τ) d) outRefs (Wfin (Name := ℕ) (U := UU) (fun _ => Vd m d f0 f1 f2 f3) d))

/-- The same read off a final memory: it holds those contents. -/
def fqM (S0 : (d : Dev nD) → Buf (Elt F) ((SparseCore.T (τ := τ) d).loc main_v6) → Prop) (S1 : (d : Dev nD) → Buf (Elt F) ((SparseCore.T (τ := τ) d).loc main_v8) → Prop) (S2 : (d : Dev nD) → Buf (Elt F) ((SparseCore.T (τ := τ) d).loc main_v10) → Prop) (S3 : (d : Dev nD) → Buf (Elt F) ((SparseCore.T (τ := τ) d).loc main_v12) → Prop) (d : Dev nD) (ms : MemSt nD τ sig (Elt F)) : Prop :=
  ∃ (f0 : Buf (Elt F) ((SparseCore.T (τ := τ) d).loc main_v6)) (f1 : Buf (Elt F) ((SparseCore.T (τ := τ) d).loc main_v8)) (f2 : Buf (Elt F) ((SparseCore.T (τ := τ) d).loc main_v10)) (f3 : Buf (Elt F) ((SparseCore.T (τ := τ) d).loc main_v12)), (S0 d f0 ∧ S1 d f1 ∧ S2 d f2 ∧ S3 d f3)
    ∧ ∀ b ∈ (outRefs : Finset (DevRef τ sig)), ms.mem ((SparseCore.T (τ := τ) d).1, b) = Wfin (Name := ℕ) (U := UU) (fun _ => Vd m d f0 f1 f2 f3) d b
def fqV (S0 : (d : Dev nD) → Buf (Elt F) ((SparseCore.T (τ := τ) d).loc main_v6) → Prop) (S1 : (d : Dev nD) → Buf (Elt F) ((SparseCore.T (τ := τ) d).loc main_v8) → Prop) (S2 : (d : Dev nD) → Buf (Elt F) ((SparseCore.T (τ := τ) d).loc main_v10) → Prop) (S3 : (d : Dev nD) → Buf (Elt F) ((SparseCore.T (τ := τ) d).loc main_v12) → Prop) (d : Dev nD) (s' : Phys nD τ sig (Elt F)) : Prop := fqM m S0 S1 S2 S3 d s'.mem

theorem hfinV (S0 : (d : Dev nD) → Buf (Elt F) ((SparseCore.T (τ := τ) d).loc main_v6) → Prop) (S1 : (d : Dev nD) → Buf (Elt F) ((SparseCore.T (τ := τ) d).loc main_v8) → Prop) (S2 : (d : Dev nD) → Buf (Elt F) ((SparseCore.T (τ := τ) d).loc main_v10) → Prop) (S3 : (d : Dev nD) → Buf (Elt F) ((SparseCore.T (τ := τ) d).loc main_v12) → Prop) (d : Dev nD) (s' : Phys nD τ sig (Elt F)) :
    iprop(FINV m S0 S1 S2 S3 d ∗ SI s') ⊢ (⌜fqV m S0 S1 S2 S3 d s'⌝ : sProp 𝕄) := by
  unfold FINV held
  iintro ⟨⟨%f0, %f1, %f2, %f3, %hS, Hh⟩, HSI⟩
  ihave H := (pointsTo_read_all (outRefs : Finset (DevRef τ sig)) (fun b => ((SparseCore.T (τ := τ) d).1, b))
      (fun b => Wfin (Name := ℕ) (U := UU) (fun _ => Vd m d f0 f1 f2 f3) d b) s') $$ [Hh HSI]
  · isplitl [Hh] <;> iassumption
  icases H with ⟨%h, -⟩
  ipureintro; exact ⟨f0, f1, f2, f3, hS, h⟩

set_option maxHeartbeats 1000000 in
/-- @main on device `d`'s TensorCore, the calls' specifications carried. -/
theorem hmainV [∀ e, Nonempty (Elt F e)] (Rgo Rtd : Fin 4 → Dev nD → Fin 2 → Fin 16 → sProp (MT nD τ sig (HIx 4) (Elt F) ℕ UU ℕ)) (S0 : (d : Dev nD) → Buf (Elt F) ((SparseCore.T (τ := τ) d).loc main_v6) → Prop) (S1 : (d : Dev nD) → Buf (Elt F) ((SparseCore.T (τ := τ) d).loc main_v8) → Prop) (S2 : (d : Dev nD) → Buf (Elt F) ((SparseCore.T (τ := τ) d).loc main_v10) → Prop) (S3 : (d : Dev nD) → Buf (Elt F) ((SparseCore.T (τ := τ) d).loc main_v12) → Prop)
    (rem0 : (d : Dev nD) → Buf (Elt F) ((SparseCore.T (τ := τ) d).loc main_v6) → sProp (MT nD τ sig (HIx 4) (Elt F) ℕ UU ℕ))
    (hdeal0 : ∀ (d : Dev nD) (o : Buf (Elt F) ((SparseCore.T (τ := τ) d).loc main_v6)),
      iprop(((SparseCore.T (τ := τ) d).loc main_v5 ↦{fullShare} wd0 m d) ∗ ((SparseCore.T (τ := τ) d).loc main_v6 ↦{fullShare} o))
        ⊢ iprop((bigSep Finset.univ fun c : Fin 2 => bigSep Finset.univ fun i : Fin 16 => Rgo 0 d c i) ∗ rem0 d o))
    (hback0 : ∀ (d : Dev nD) (o : Buf (Elt F) ((SparseCore.T (τ := τ) d).loc main_v6)),
      iprop((bigSep Finset.univ fun c : Fin 2 => bigSep Finset.univ fun i : Fin 16 => Rtd 0 d c i) ∗ rem0 d o)
        ⊢ iprop(((SparseCore.T (τ := τ) d).loc main_v5 ↦{fullShare} wd0 m d)
            ∗ ∃ o' : Buf (Elt F) ((SparseCore.T (τ := τ) d).loc main_v6), ⌜S0 d o'⌝ ∗ (SparseCore.T (τ := τ) d).loc main_v6 ↦{fullShare} o'))
    (rem1 : (d : Dev nD) → Buf (Elt F) ((SparseCore.T (τ := τ) d).loc main_v8) → sProp (MT nD τ sig (HIx 4) (Elt F) ℕ UU ℕ))
    (hdeal1 : ∀ (d : Dev nD) (o : Buf (Elt F) ((SparseCore.T (τ := τ) d).loc main_v8)),
      iprop(((SparseCore.T (τ := τ) d).loc main_v7 ↦{fullShare} wd1 m d) ∗ ((SparseCore.T (τ := τ) d).loc main_v8 ↦{fullShare} o))
        ⊢ iprop((bigSep Finset.univ fun c : Fin 2 => bigSep Finset.univ fun i : Fin 16 => Rgo 1 d c i) ∗ rem1 d o))
    (hback1 : ∀ (d : Dev nD) (o : Buf (Elt F) ((SparseCore.T (τ := τ) d).loc main_v8)),
      iprop((bigSep Finset.univ fun c : Fin 2 => bigSep Finset.univ fun i : Fin 16 => Rtd 1 d c i) ∗ rem1 d o)
        ⊢ iprop(((SparseCore.T (τ := τ) d).loc main_v7 ↦{fullShare} wd1 m d)
            ∗ ∃ o' : Buf (Elt F) ((SparseCore.T (τ := τ) d).loc main_v8), ⌜S1 d o'⌝ ∗ (SparseCore.T (τ := τ) d).loc main_v8 ↦{fullShare} o'))
    (rem2 : (d : Dev nD) → Buf (Elt F) ((SparseCore.T (τ := τ) d).loc main_v10) → sProp (MT nD τ sig (HIx 4) (Elt F) ℕ UU ℕ))
    (hdeal2 : ∀ (d : Dev nD) (o : Buf (Elt F) ((SparseCore.T (τ := τ) d).loc main_v10)),
      iprop(((SparseCore.T (τ := τ) d).loc main_v9 ↦{fullShare} wd2 m d) ∗ ((SparseCore.T (τ := τ) d).loc main_v10 ↦{fullShare} o))
        ⊢ iprop((bigSep Finset.univ fun c : Fin 2 => bigSep Finset.univ fun i : Fin 16 => Rgo 2 d c i) ∗ rem2 d o))
    (hback2 : ∀ (d : Dev nD) (o : Buf (Elt F) ((SparseCore.T (τ := τ) d).loc main_v10)),
      iprop((bigSep Finset.univ fun c : Fin 2 => bigSep Finset.univ fun i : Fin 16 => Rtd 2 d c i) ∗ rem2 d o)
        ⊢ iprop(((SparseCore.T (τ := τ) d).loc main_v9 ↦{fullShare} wd2 m d)
            ∗ ∃ o' : Buf (Elt F) ((SparseCore.T (τ := τ) d).loc main_v10), ⌜S2 d o'⌝ ∗ (SparseCore.T (τ := τ) d).loc main_v10 ↦{fullShare} o'))
    (rem3 : (d : Dev nD) → Buf (Elt F) ((SparseCore.T (τ := τ) d).loc main_v12) → sProp (MT nD τ sig (HIx 4) (Elt F) ℕ UU ℕ))
    (hdeal3 : ∀ (d : Dev nD) (o : Buf (Elt F) ((SparseCore.T (τ := τ) d).loc main_v12)),
      iprop(((SparseCore.T (τ := τ) d).loc main_v11 ↦{fullShare} wd3 m d) ∗ ((SparseCore.T (τ := τ) d).loc main_v12 ↦{fullShare} o))
        ⊢ iprop((bigSep Finset.univ fun c : Fin 2 => bigSep Finset.univ fun i : Fin 16 => Rgo 3 d c i) ∗ rem3 d o))
    (hback3 : ∀ (d : Dev nD) (o : Buf (Elt F) ((SparseCore.T (τ := τ) d).loc main_v12)),
      iprop((bigSep Finset.univ fun c : Fin 2 => bigSep Finset.univ fun i : Fin 16 => Rtd 3 d c i) ∗ rem3 d o)
        ⊢ iprop(((SparseCore.T (τ := τ) d).loc main_v11 ↦{fullShare} wd3 m d)
            ∗ ∃ o' : Buf (Elt F) ((SparseCore.T (τ := τ) d).loc main_v12), ⌜S3 d o'⌝ ∗ (SparseCore.T (τ := τ) d).loc main_v12 ↦{fullShare} o'))
    (κ : GSem nD τ sig → ℕ) (d : Dev nD) :
    iprop((K (F := F)).ctx EH (PV (tb m) Rgo Rtd) κ ∗ (K (F := F)).tcSt EH d 0 ∗ (K (F := F)).tcRes m ρ d ∗ GG (F := F) d)
      ⊢ wp frame (wpE ((K (F := F)).defs (D (F := F))) 𝒱 (SparseCore.T (τ := τ) d) none) Set.univ (main (F := F) d)
          fun _ => iprop((K (F := F)).tcSt EH d 4 ∗ FINV m S0 S1 S2 S3 d) := by
  unfold SparseCore.Cfg.tcRes
  rw [show (unscopedBufs d (fun b => m ((SparseCore.T (τ := τ) d).loc b)) : sProp 𝕄) = held (SparseCore.T (τ := τ) d) (Pipeline.ucRefs τ sig) (V0 m d)
    from Pipeline.unscopedBufs_held d (V0 m d), main_split, head_chain]
  iintro ⟨#Hctx, Hst, ⟨Hb, Hheld, -, Hprng⟩, Hg⟩
  iapply (StableHlo.wp_seq (defs := (K (F := F)).defs (D (F := F))) 𝒱 none Set.univ d (Pipeline.ucRefs τ sig) _ preOps (sub_uc preOps_sub)
      (fun op h => (List.forall_iff_forall_mem.mp preOps_fresh) op h) (V0 m d)) $$ [Hb Hheld]
  · isplitl [Hb]; · iexact Hb
    iexact Hheld
  iintro ⟨Hb, Hheld⟩
  rw [wp_bind]
  iapply (wp_callV (tb m) Rgo Rtd κ d 0 main_v5 main_v6 (by decide) (by decide) (by decide) (by decide) (Vp m d) (rfl) (rem0 d ((Vp m d) (Proc.devRef .tc main_v6))) (S0 d)
      (by exact hdeal0 d _) (by exact hback0 d _) _)
  isplitr; · iexact Hctx
  isplitl [Hst]; · iexact Hst
  isplitl [Hheld]; · iexact Hheld
  iintro ⟨%f0, %hS0, Hst, Hheld⟩
  iapply (StableHlo.wp_seq (defs := (K (F := F)).defs (D (F := F))) 𝒱 none Set.univ d (Pipeline.ucRefs τ sig) _ sliceOps1 (sub_uc sliceOps1_sub)
      (fun op h => (List.forall_iff_forall_mem.mp sliceOps1_fresh) op h) (Function.update (Vp m d) (Proc.devRef .tc main_v6) f0)) $$ [Hb Hheld]
  · isplitl [Hb]; · iexact Hb
    iexact Hheld
  iintro ⟨Hb, Hheld⟩
  rw [wp_bind]
  iapply (wp_callV (tb m) Rgo Rtd κ d 1 main_v7 main_v8 (by decide) (by decide) (by decide) (by decide) (Va m d f0) (Va_tb m d f0) (rem1 d ((Va m d f0) (Proc.devRef .tc main_v8))) (S1 d)
      (by rw [Va_wd]; exact hdeal1 d _) (by rw [Va_wd]; exact hback1 d _) _)
  isplitr; · iexact Hctx
  isplitl [Hst]; · iexact Hst
  isplitl [Hheld]; · iexact Hheld
  iintro ⟨%f1, %hS1, Hst, Hheld⟩
  iapply (StableHlo.wp_seq (defs := (K (F := F)).defs (D (F := F))) 𝒱 none Set.univ d (Pipeline.ucRefs τ sig) _ sliceOps2 (sub_uc sliceOps2_sub)
      (fun op h => (List.forall_iff_forall_mem.mp sliceOps2_fresh) op h) (Function.update (Va m d f0) (Proc.devRef .tc main_v8) f1)) $$ [Hb Hheld]
  · isplitl [Hb]; · iexact Hb
    iexact Hheld
  iintro ⟨Hb, Hheld⟩
  rw [wp_bind]
  iapply (wp_callV (tb m) Rgo Rtd κ d 2 main_v9 main_v10 (by decide) (by decide) (by decide) (by decide) (Vb m d f0 f1) (Vb_tb m d f0 f1) (rem2 d ((Vb m d f0 f1) (Proc.devRef .tc main_v10))) (S2 d)
      (by rw [Vb_wd]; exact hdeal2 d _) (by rw [Vb_wd]; exact hback2 d _) _)
  isplitr; · iexact Hctx
  isplitl [Hst]; · iexact Hst
  isplitl [Hheld]; · iexact Hheld
  iintro ⟨%f2, %hS2, Hst, Hheld⟩
  iapply (StableHlo.wp_seq (defs := (K (F := F)).defs (D (F := F))) 𝒱 none Set.univ d (Pipeline.ucRefs τ sig) _ sliceOps3 (sub_uc sliceOps3_sub)
      (fun op h => (List.forall_iff_forall_mem.mp sliceOps3_fresh) op h) (Function.update (Vb m d f0 f1) (Proc.devRef .tc main_v10) f2)) $$ [Hb Hheld]
  · isplitl [Hb]; · iexact Hb
    iexact Hheld
  iintro ⟨Hb, Hheld⟩
  rw [wp_bind]
  iapply (wp_callV (tb m) Rgo Rtd κ d 3 main_v11 main_v12 (by decide) (by decide) (by decide) (by decide) (Vc m d f0 f1 f2) (Vc_tb m d f0 f1 f2) (rem3 d ((Vc m d f0 f1 f2) (Proc.devRef .tc main_v12))) (S3 d)
      (by rw [Vc_wd]; exact hdeal3 d _) (by rw [Vc_wd]; exact hback3 d _) _)
  isplitr; · iexact Hctx
  isplitl [Hst]; · iexact Hst
  isplitl [Hheld]; · iexact Hheld
  iintro ⟨%f3, %hS3, Hst, Hheld⟩
  iapply (wp_tail_tcSt (K (F := F)).lev (fun _ => Vd m d f0 f1 f2 f3) EH (EPm (F := F)) d _)
  isplitl [Hst]; · iexact Hst
  isplitl [Hb]; · iexact Hb
  isplitl [Hheld]; · iexact Hheld
  isplitl [Hprng]; · iexists _; iexact Hprng
  isplitr; · iapply (SparseCore.Cfg.ctx_levAts κ); iexact Hctx
  isplitl [Hg]; · iexact Hg
  iintro ⟨Hst, -, Hheld, -⟩
  isplitl [Hst]; · iexact Hst
  ihave Hh := (Entails.of_eq (held_sub_split (SparseCore.T (τ := τ) d) outRefs_sub (Wfin (Name := ℕ) (U := UU) (fun _ => Vd m d f0 f1 f2 f3) d))) $$ Hheld
  icases Hh with ⟨Ha, -⟩
  unfold FINV
  iexists f0; iexists f1; iexists f2; iexists f3
  isplitr; · ipureintro; exact ⟨hS0, hS1, hS2, hS3⟩
  iexact Ha

end Cert.KernelIdeal.Hand.Launch

end
-- ==== Proof.KernelIdeal.KFrame.lean ====
import proofs.«203661_g84404697301628_cont_9to1_m_135_26_alg».proof.Proof.Pay
import proofs.«203661_g84404697301628_cont_9to1_m_135_26_alg».proof.Proof.KernelIdeal.TailSt
import proofs.«203661_g84404697301628_cont_9to1_m_135_26_alg».proof.Proof.KernelIdeal.TailRead
import proofs.«203661_g84404697301628_cont_9to1_m_135_26_alg».proof.Proof.KernelIdeal.Fund
import proofs.«203661_g84404697301628_cont_9to1_m_135_26_alg».proof.Proof.KernelIdeal.HeadMain
import Idealize.ShloMosaic.Lib.SparseCore.Launch
import Idealize.ShloMosaic.Lib.StableHlo.Run

/-! # The program's run: the launch theorem applied

The launch element — the handshakes' rounds, the staging cells' rounds, nothing for the counters —, the final read of the five
argument arrays, and the SparseCore launch theorem at this program: four vector-subcore calls (the certificate's task
obligations, hypotheses here), @main's triple, every kernel's split of a SparseCore's payload among its subcores. -/

set_option maxRecDepth 16384

noncomputable section

namespace Cert.KernelIdeal.Hand.Launch

open Cert.KernelIdeal Cert.KernelIdeal.Gen Cert.KernelIdeal.Heads
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr)
open Idealize.ShloMosaic.Tactic

variable {F : FTy → Type} [FloatOps F]

local notation "𝕄" => MT nD τ sig (HIx 4) (Elt F) ℕ UU ℕ

variable (m : (ℓ : Loc nD τ sig) → Buf (Elt F) ℓ) (ρ : Dev nD → PrngReg)

/-! ## The launch element -/

/-- The handshakes' rounds, the staging cells' rounds, no counter. -/
def u₀ : UU :=
  (initOf (K (F := F)).hsCells (K (F := F)).hsToks, (initOf (Pipeline.cells cfgs cellOf_inj) (Pipeline.launchToks cfgs cellOf_inj), 1))

theorem bigSep_emp' {I : Type} (s : Finset I) : (bigSep s fun _ => iprop(emp)) = (iprop(emp) : sProp 𝕄) := bigSep_emp_const s

theorem hu₀ (Rs : Fin 4 → Dev nD → Fin 2 → Fin 16 → sProp (MT nD τ sig (HIx 4) (Elt F) ℕ UU ℕ)) :
    (ownU (u₀ (F := F)) : sProp 𝕄)
      ⊢ |={Set.univ}=> iprop(BI.own (EH (initOf (K (F := F)).hsCells (K (F := F)).hsToks)) ∗ (bigSep Finset.univ fun d : Dev nD => GG (F := F) d)
          ∗ bigSep Finset.univ fun thr : Thread nD τ => bigSep Finset.univ fun q : Fin 4 => (P (tb m) Rs).x q thr) := by
  unfold u₀
  iintro Hu
  ihave H := (ownU_triple (F := F) (Ix := HIx 4) (Name := ℕ) (A := UH) (C := Counters) _ _ _) $$ Hu
  icases H with ⟨HH, HP, -⟩
  imod (fund_regions (F := F) (EPm (F := F))) $$ HP with HG
  imodintro
  isplitl [HH]; · iexact HH
  isplitl [HG]; · iexact HG
  unfold P; dsimp only
  rw [show (bigSep Finset.univ fun _ : Thread nD τ => bigSep Finset.univ fun _ : Fin 4 => (iprop(emp) : sProp 𝕄)) = iprop(emp) from by
    rw [bigSep_congr fun _ _ => bigSep_emp' _, bigSep_emp']]
  iempintro

/-! ## The final read -/

def fq (d : Dev nD) (s' : Phys nD τ sig (Elt F)) : Prop :=
  s'.mem.mem ((SparseCore.T (τ := τ) d).loc main_arg0) = m ((SparseCore.T (τ := τ) d).loc main_arg0)
  ∧ s'.mem.mem ((SparseCore.T (τ := τ) d).loc main_arg1) = m ((SparseCore.T (τ := τ) d).loc main_arg1)
  ∧ s'.mem.mem ((SparseCore.T (τ := τ) d).loc main_arg2) = m ((SparseCore.T (τ := τ) d).loc main_arg2)
  ∧ s'.mem.mem ((SparseCore.T (τ := τ) d).loc main_arg3) = m ((SparseCore.T (τ := τ) d).loc main_arg3)
  ∧ s'.mem.mem ((SparseCore.T (τ := τ) d).loc main_arg4) = m ((SparseCore.T (τ := τ) d).loc main_arg4)

theorem read_arg (d : Dev nD) (s' : Phys nD τ sig (Elt F)) (a : Ref sig .tc) :
    iprop(((SparseCore.T (τ := τ) d).loc a ↦{fullShare} m ((SparseCore.T (τ := τ) d).loc a)) ∗ SI s') ⊢ (⌜s'.mem.mem ((SparseCore.T (τ := τ) d).loc a) = m ((SparseCore.T (τ := τ) d).loc a)⌝ : sProp 𝕄) := by
  iintro ⟨Hx, HSI⟩
  ihave H := (SI_pointsTo_agree (st := s') (ℓ := (SparseCore.T (τ := τ) d).loc a) (I := Finset.univ) (q := fullShare) (f := m ((SparseCore.T (τ := τ) d).loc a))) $$ [HSI Hx]
  · isplitl [HSI] <;> iassumption
  icases H with %hx
  ipureintro; exact funext fun i => hx i (Finset.mem_univ i)

/-- One argument array read off the final state. -/
theorem hfin_at (d : Dev nD) (s' : Phys nD τ sig (Elt F)) (a : Ref sig .tc) (ha : Proc.devRef .tc a ∈ (argRefs : Finset (DevRef τ sig))) :
    iprop(FIN m d ∗ SI s') ⊢ (⌜s'.mem.mem ((SparseCore.T (τ := τ) d).loc a) = m ((SparseCore.T (τ := τ) d).loc a)⌝ : sProp 𝕄) := by
  unfold FIN held
  rw [SparseCore.bigSep_erase' ha]
  iintro ⟨⟨Hx, -⟩, HSI⟩
  iapply (read_arg m d s' a)
  isplitl [Hx]; · iexact Hx
  iexact HSI

/-- Two pure consequences of one assertion are one. -/
theorem pure_both {A : sProp 𝕄} {a b : Prop} (h : A ⊢ (⌜a⌝ : sProp 𝕄)) (h' : A ⊢ (⌜b⌝ : sProp 𝕄)) : A ⊢ (⌜a ∧ b⌝ : sProp 𝕄) :=
  fun x hx => ⟨h x hx, h' x hx⟩

theorem hfin (d : Dev nD) (s' : Phys nD τ sig (Elt F)) : iprop(FIN m d ∗ SI s') ⊢ (⌜fq m d s'⌝ : sProp 𝕄) :=
  pure_both (hfin_at m d s' main_arg0 (by decide)) (pure_both (hfin_at m d s' main_arg1 (by decide)) (pure_both (hfin_at m d s' main_arg2 (by decide))
    (pure_both (hfin_at m d s' main_arg3 (by decide)) (hfin_at m d s' main_arg4 (by decide)))))

/-! ## The run -/

/-- Every call is a vector-subcore call. -/
theorem kind_vec (q : Fin 4) : (K (F := F)).kind q = .scVector := by
  match q with
  | 0 => rfl
  | 1 => rfl
  | 2 => rfl
  | 3 => rfl

/-- The program runs — terminates, nothing faulting, no handshake unanswered — and its five argument arrays end unchanged,
    given the certificate's task obligations for the four gather kernels and how each call's token words and result array are
    dealt to its vector subcores and gathered back. -/
theorem kernel_frame [∀ e, Nonempty (Elt F e)] (Rs : Fin 4 → Dev nD → Fin 2 → Fin 16 → sProp (MT nD τ sig (HIx 4) (Elt F) ℕ UU ℕ))
    (hR : ∀ q d c i, BI.Storable (upEmb : UEmb _ 𝕄) (Rs q d c i))
    (htile : ∀ q, (K (F := F)).TileObl (D (F := F)) 𝒱 (P (tb m) Rs) v₀ q)
    (rem0 : (d : Dev nD) → Buf (Elt F) ((SparseCore.T (τ := τ) d).loc main_v6) → sProp (MT nD τ sig (HIx 4) (Elt F) ℕ UU ℕ))
    (hdeal0 : ∀ (d : Dev nD) (o : Buf (Elt F) ((SparseCore.T (τ := τ) d).loc main_v6)),
      iprop(((SparseCore.T (τ := τ) d).loc main_v5 ↦{fullShare} wd0 m d) ∗ ((SparseCore.T (τ := τ) d).loc main_v6 ↦{fullShare} o))
        ⊢ iprop((bigSep Finset.univ fun c : Fin 2 => bigSep Finset.univ fun i : Fin 16 => Rs 0 d c i) ∗ rem0 d o))
    (hback0 : ∀ (d : Dev nD) (o : Buf (Elt F) ((SparseCore.T (τ := τ) d).loc main_v6)),
      iprop((bigSep Finset.univ fun c : Fin 2 => bigSep Finset.univ fun i : Fin 16 => Rs 0 d c i) ∗ rem0 d o)
        ⊢ iprop(((SparseCore.T (τ := τ) d).loc main_v5 ↦{fullShare} wd0 m d) ∗ ∃ o' : Buf (Elt F) ((SparseCore.T (τ := τ) d).loc main_v6), (SparseCore.T (τ := τ) d).loc main_v6 ↦{fullShare} o'))
    (rem1 : (d : Dev nD) → Buf (Elt F) ((SparseCore.T (τ := τ) d).loc main_v8) → sProp (MT nD τ sig (HIx 4) (Elt F) ℕ UU ℕ))
    (hdeal1 : ∀ (d : Dev nD) (o : Buf (Elt F) ((SparseCore.T (τ := τ) d).loc main_v8)),
      iprop(((SparseCore.T (τ := τ) d).loc main_v7 ↦{fullShare} wd1 m d) ∗ ((SparseCore.T (τ := τ) d).loc main_v8 ↦{fullShare} o))
        ⊢ iprop((bigSep Finset.univ fun c : Fin 2 => bigSep Finset.univ fun i : Fin 16 => Rs 1 d c i) ∗ rem1 d o))
    (hback1 : ∀ (d : Dev nD) (o : Buf (Elt F) ((SparseCore.T (τ := τ) d).loc main_v8)),
      iprop((bigSep Finset.univ fun c : Fin 2 => bigSep Finset.univ fun i : Fin 16 => Rs 1 d c i) ∗ rem1 d o)
        ⊢ iprop(((SparseCore.T (τ := τ) d).loc main_v7 ↦{fullShare} wd1 m d) ∗ ∃ o' : Buf (Elt F) ((SparseCore.T (τ := τ) d).loc main_v8), (SparseCore.T (τ := τ) d).loc main_v8 ↦{fullShare} o'))
    (rem2 : (d : Dev nD) → Buf (Elt F) ((SparseCore.T (τ := τ) d).loc main_v10) → sProp (MT nD τ sig (HIx 4) (Elt F) ℕ UU ℕ))
    (hdeal2 : ∀ (d : Dev nD) (o : Buf (Elt F) ((SparseCore.T (τ := τ) d).loc main_v10)),
      iprop(((SparseCore.T (τ := τ) d).loc main_v9 ↦{fullShare} wd2 m d) ∗ ((SparseCore.T (τ := τ) d).loc main_v10 ↦{fullShare} o))
        ⊢ iprop((bigSep Finset.univ fun c : Fin 2 => bigSep Finset.univ fun i : Fin 16 => Rs 2 d c i) ∗ rem2 d o))
    (hback2 : ∀ (d : Dev nD) (o : Buf (Elt F) ((SparseCore.T (τ := τ) d).loc main_v10)),
      iprop((bigSep Finset.univ fun c : Fin 2 => bigSep Finset.univ fun i : Fin 16 => Rs 2 d c i) ∗ rem2 d o)
        ⊢ iprop(((SparseCore.T (τ := τ) d).loc main_v9 ↦{fullShare} wd2 m d) ∗ ∃ o' : Buf (Elt F) ((SparseCore.T (τ := τ) d).loc main_v10), (SparseCore.T (τ := τ) d).loc main_v10 ↦{fullShare} o'))
    (rem3 : (d : Dev nD) → Buf (Elt F) ((SparseCore.T (τ := τ) d).loc main_v12) → sProp (MT nD τ sig (HIx 4) (Elt F) ℕ UU ℕ))
    (hdeal3 : ∀ (d : Dev nD) (o : Buf (Elt F) ((SparseCore.T (τ := τ) d).loc main_v12)),
      iprop(((SparseCore.T (τ := τ) d).loc main_v11 ↦{fullShare} wd3 m d) ∗ ((SparseCore.T (τ := τ) d).loc main_v12 ↦{fullShare} o))
        ⊢ iprop((bigSep Finset.univ fun c : Fin 2 => bigSep Finset.univ fun i : Fin 16 => Rs 3 d c i) ∗ rem3 d o))
    (hback3 : ∀ (d : Dev nD) (o : Buf (Elt F) ((SparseCore.T (τ := τ) d).loc main_v12)),
      iprop((bigSep Finset.univ fun c : Fin 2 => bigSep Finset.univ fun i : Fin 16 => Rs 3 d c i) ∗ rem3 d o)
        ⊢ iprop(((SparseCore.T (τ := τ) d).loc main_v11 ↦{fullShare} wd3 m d) ∗ ∃ o' : Buf (Elt F) ((SparseCore.T (τ := τ) d).loc main_v12), (SparseCore.T (τ := τ) d).loc main_v12 ↦{fullShare} o')) :
    θ_run (Cert.KernelIdeal.defs (F := F)) (Cert.KernelIdeal.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  haveI := P_storable (F := F) (tb m) Rs hR
  SparseCore.Cfg.θ_run_sc (K := K (F := F)) (D := D (F := F)) (𝒱 := 𝒱) (EH := EH) (P := P (tb m) Rs) facts v₀
    (fun q hq => absurd ((kind_vec (F := F) q).symm.trans hq) (by decide))
    (fun q _ => htile q)
    (fun q _ => SparseCore.Cfg.VecSplit.of_plain (vecSplit (tb m) Rs q))
    m ρ main (GG (F := F)) (FIN m) (u₀ (F := F)) (sep_elim_left.trans (hu₀ m Rs))
    (hmain m ρ Rs rem0 hdeal0 hback0 rem1 hdeal1 hback1 rem2 hdeal2 hback2 rem3 hdeal3 hback3)
    (fq m) (hfin m) _ (fun _ h c => h c)

end Cert.KernelIdeal.Hand.Launch

end
-- ==== Proof.KernelIdeal.KFrameV.lean ====
import proofs.«203661_g84404697301628_cont_9to1_m_135_26_alg».proof.Proof.PayV
import proofs.«203661_g84404697301628_cont_9to1_m_135_26_alg».proof.Proof.KernelIdeal.TailSt
import proofs.«203661_g84404697301628_cont_9to1_m_135_26_alg».proof.Proof.KernelIdeal.TailRead
import proofs.«203661_g84404697301628_cont_9to1_m_135_26_alg».proof.Proof.KernelIdeal.Fund
import proofs.«203661_g84404697301628_cont_9to1_m_135_26_alg».proof.Proof.KernelIdeal.HeadMainV
import proofs.«203661_g84404697301628_cont_9to1_m_135_26_alg».proof.Proof.KernelIdeal.KFrame
import Idealize.ShloMosaic.Lib.SparseCore.Launch
import Idealize.ShloMosaic.Lib.StableHlo.Run

/-! # The program's run with contents tracked: the launch theorem applied

As the untracked application, over the payloads that differ out and back: the program runs, and in every final memory the
returned buffer and the five argument arrays hold the contents after the tail from a valuation whose four gathered arrays
satisfy the calls' specifications. -/

set_option maxRecDepth 16384

noncomputable section

namespace Cert.KernelIdeal.Hand.Launch

open Cert.KernelIdeal Cert.KernelIdeal.Gen Cert.KernelIdeal.Heads
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr)
open Idealize.ShloMosaic.Tactic

variable {F : FTy → Type} [FloatOps F]

local notation "𝕄" => MT nD τ sig (HIx 4) (Elt F) ℕ UU ℕ

variable (m : (ℓ : Loc nD τ sig) → Buf (Elt F) ℓ) (ρ : Dev nD → PrngReg)

theorem hu₀V (Rgo Rtd : Fin 4 → Dev nD → Fin 2 → Fin 16 → sProp (MT nD τ sig (HIx 4) (Elt F) ℕ UU ℕ)) :
    (ownU (u₀ (F := F)) : sProp 𝕄)
      ⊢ |={Set.univ}=> iprop(BI.own (EH (initOf (K (F := F)).hsCells (K (F := F)).hsToks)) ∗ (bigSep Finset.univ fun d : Dev nD => GG (F := F) d)
          ∗ bigSep Finset.univ fun thr : Thread nD τ => bigSep Finset.univ fun q : Fin 4 => (PV (tb m) Rgo Rtd).x q thr) := by
  unfold u₀
  iintro Hu
  ihave H := (ownU_triple (F := F) (Ix := HIx 4) (Name := ℕ) (A := UH) (C := Counters) _ _ _) $$ Hu
  icases H with ⟨HH, HP, -⟩
  imod (fund_regions (F := F) (EPm (F := F))) $$ HP with HG
  imodintro
  isplitl [HH]; · iexact HH
  isplitl [HG]; · iexact HG
  unfold PV; dsimp only
  rw [show (bigSep Finset.univ fun _ : Thread nD τ => bigSep Finset.univ fun _ : Fin 4 => (iprop(emp) : sProp 𝕄)) = iprop(emp) from by
    rw [bigSep_congr fun _ _ => bigSep_emp' _, bigSep_emp']]
  iempintro

/-- The program runs, and every final memory holds the returned buffer and the argument arrays at the contents after the tail
    from a valuation whose gathered arrays satisfy the calls' specifications. -/
theorem kernel_runV [∀ e, Nonempty (Elt F e)] (Rgo Rtd : Fin 4 → Dev nD → Fin 2 → Fin 16 → sProp (MT nD τ sig (HIx 4) (Elt F) ℕ UU ℕ))
    (hgo : ∀ q d c i, BI.Storable (upEmb : UEmb _ 𝕄) (Rgo q d c i)) (htd : ∀ q d c i, BI.Storable (upEmb : UEmb _ 𝕄) (Rtd q d c i))
    (htile : ∀ q, (K (F := F)).TileObl (D (F := F)) 𝒱 (PV (tb m) Rgo Rtd) v₀ q)
    (S0 : (d : Dev nD) → Buf (Elt F) ((SparseCore.T (τ := τ) d).loc main_v6) → Prop) (S1 : (d : Dev nD) → Buf (Elt F) ((SparseCore.T (τ := τ) d).loc main_v8) → Prop) (S2 : (d : Dev nD) → Buf (Elt F) ((SparseCore.T (τ := τ) d).loc main_v10) → Prop) (S3 : (d : Dev nD) → Buf (Elt F) ((SparseCore.T (τ := τ) d).loc main_v12) → Prop)
    (rem0 : (d : Dev nD) → Buf (Elt F) ((SparseCore.T (τ := τ) d).loc main_v6) → sProp (MT nD τ sig (HIx 4) (Elt F) ℕ UU ℕ))
    (hdeal0 : ∀ (d : Dev nD) (o : Buf (Elt F) ((SparseCore.T (τ := τ) d).loc main_v6)),
      iprop(((SparseCore.T (τ := τ) d).loc main_v5 ↦{fullShare} wd0 m d) ∗ ((SparseCore.T (τ := τ) d).loc main_v6 ↦{fullShare} o))
        ⊢ iprop((bigSep Finset.univ fun c : Fin 2 => bigSep Finset.univ fun i : Fin 16 => Rgo 0 d c i) ∗ rem0 d o))
    (hback0 : ∀ (d : Dev nD) (o : Buf (Elt F) ((SparseCore.T (τ := τ) d).loc main_v6)),
      iprop((bigSep Finset.univ fun c : Fin 2 => bigSep Finset.univ fun i : Fin 16 => Rtd 0 d c i) ∗ rem0 d o)
        ⊢ iprop(((SparseCore.T (τ := τ) d).loc main_v5 ↦{fullShare} wd0 m d)
            ∗ ∃ o' : Buf (Elt F) ((SparseCore.T (τ := τ) d).loc main_v6), ⌜S0 d o'⌝ ∗ (SparseCore.T (τ := τ) d).loc main_v6 ↦{fullShare} o'))
    (rem1 : (d : Dev nD) → Buf (Elt F) ((SparseCore.T (τ := τ) d).loc main_v8) → sProp (MT nD τ sig (HIx 4) (Elt F) ℕ UU ℕ))
    (hdeal1 : ∀ (d : Dev nD) (o : Buf (Elt F) ((SparseCore.T (τ := τ) d).loc main_v8)),
      iprop(((SparseCore.T (τ := τ) d).loc main_v7 ↦{fullShare} wd1 m d) ∗ ((SparseCore.T (τ := τ) d).loc main_v8 ↦{fullShare} o))
        ⊢ iprop((bigSep Finset.univ fun c : Fin 2 => bigSep Finset.univ fun i : Fin 16 => Rgo 1 d c i) ∗ rem1 d o))
    (hback1 : ∀ (d : Dev nD) (o : Buf (Elt F) ((SparseCore.T (τ := τ) d).loc main_v8)),
      iprop((bigSep Finset.univ fun c : Fin 2 => bigSep Finset.univ fun i : Fin 16 => Rtd 1 d c i) ∗ rem1 d o)
        ⊢ iprop(((SparseCore.T (τ := τ) d).loc main_v7 ↦{fullShare} wd1 m d)
            ∗ ∃ o' : Buf (Elt F) ((SparseCore.T (τ := τ) d).loc main_v8), ⌜S1 d o'⌝ ∗ (SparseCore.T (τ := τ) d).loc main_v8 ↦{fullShare} o'))
    (rem2 : (d : Dev nD) → Buf (Elt F) ((SparseCore.T (τ := τ) d).loc main_v10) → sProp (MT nD τ sig (HIx 4) (Elt F) ℕ UU ℕ))
    (hdeal2 : ∀ (d : Dev nD) (o : Buf (Elt F) ((SparseCore.T (τ := τ) d).loc main_v10)),
      iprop(((SparseCore.T (τ := τ) d).loc main_v9 ↦{fullShare} wd2 m d) ∗ ((SparseCore.T (τ := τ) d).loc main_v10 ↦{fullShare} o))
        ⊢ iprop((bigSep Finset.univ fun c : Fin 2 => bigSep Finset.univ fun i : Fin 16 => Rgo 2 d c i) ∗ rem2 d o))
    (hback2 : ∀ (d : Dev nD) (o : Buf (Elt F) ((SparseCore.T (τ := τ) d).loc main_v10)),
      iprop((bigSep Finset.univ fun c : Fin 2 => bigSep Finset.univ fun i : Fin 16 => Rtd 2 d c i) ∗ rem2 d o)
        ⊢ iprop(((SparseCore.T (τ := τ) d).loc main_v9 ↦{fullShare} wd2 m d)
            ∗ ∃ o' : Buf (Elt F) ((SparseCore.T (τ := τ) d).loc main_v10), ⌜S2 d o'⌝ ∗ (SparseCore.T (τ := τ) d).loc main_v10 ↦{fullShare} o'))
    (rem3 : (d : Dev nD) → Buf (Elt F) ((SparseCore.T (τ := τ) d).loc main_v12) → sProp (MT nD τ sig (HIx 4) (Elt F) ℕ UU ℕ))
    (hdeal3 : ∀ (d : Dev nD) (o : Buf (Elt F) ((SparseCore.T (τ := τ) d).loc main_v12)),
      iprop(((SparseCore.T (τ := τ) d).loc main_v11 ↦{fullShare} wd3 m d) ∗ ((SparseCore.T (τ := τ) d).loc main_v12 ↦{fullShare} o))
        ⊢ iprop((bigSep Finset.univ fun c : Fin 2 => bigSep Finset.univ fun i : Fin 16 => Rgo 3 d c i) ∗ rem3 d o))
    (hback3 : ∀ (d : Dev nD) (o : Buf (Elt F) ((SparseCore.T (τ := τ) d).loc main_v12)),
      iprop((bigSep Finset.univ fun c : Fin 2 => bigSep Finset.univ fun i : Fin 16 => Rtd 3 d c i) ∗ rem3 d o)
        ⊢ iprop(((SparseCore.T (τ := τ) d).loc main_v11 ↦{fullShare} wd3 m d)
            ∗ ∃ o' : Buf (Elt F) ((SparseCore.T (τ := τ) d).loc main_v12), ⌜S3 d o'⌝ ∗ (SparseCore.T (τ := τ) d).loc main_v12 ↦{fullShare} o')) :
    θ_run (Cert.KernelIdeal.defs (F := F)) (Cert.KernelIdeal.threads (F := F)) ⟨m, fun _ => 0, ρ⟩
      (fun r => ∀ c : Dev nD, fqM m S0 S1 S2 S3 c r.2) :=
  haveI := PV_storable (F := F) (tb m) Rgo Rtd hgo htd
  SparseCore.Cfg.θ_run_sc (K := K (F := F)) (D := D (F := F)) (𝒱 := 𝒱) (EH := EH) (P := (PV (tb m) Rgo Rtd)) facts v₀
    (fun q hq => absurd ((kind_vec (F := F) q).symm.trans hq) (by decide))
    (fun q _ => htile q)
    (fun q _ => SparseCore.Cfg.VecSplit.of_plain (vecSplitV (tb m) Rgo Rtd q))
    m ρ main (GG (F := F)) (FINV m S0 S1 S2 S3) (u₀ (F := F)) (sep_elim_left.trans (hu₀V m Rgo Rtd))
    (hmainV m ρ Rgo Rtd S0 S1 S2 S3 rem0 hdeal0 hback0 rem1 hdeal1 hback1 rem2 hdeal2 hback2 rem3 hdeal3 hback3)
    (fqV m S0 S1 S2 S3) (hfinV m S0 S1 S2 S3) _ (fun _ h c => h c)

end Cert.KernelIdeal.Hand.Launch

end
-- ==== Proof.KernelIdeal.HeadVals.lean ====
import proofs.«203661_g84404697301628_cont_9to1_m_135_26_alg».proof.Proof.Pay
import proofs.«203661_g84404697301628_cont_9to1_m_135_26_alg».proof.Proof.KernelIdeal.TailSt
import proofs.«203661_g84404697301628_cont_9to1_m_135_26_alg».proof.Proof.KernelIdeal.TailRead
import proofs.«203661_g84404697301628_cont_9to1_m_135_26_alg».proof.Proof.KernelIdeal.Fund
import proofs.«203661_g84404697301628_cont_9to1_m_135_26_alg».proof.Proof.KernelIdeal.HeadRun
import Idealize.ShloMosaic.Lib.SparseCore.Launch
import Idealize.ShloMosaic.Lib.StableHlo.Run

/-! # The table and the token words, as values of the launch memory

The padded table is the pad of the embedding table argument; the tokens' word list is the transposed token argument reshaped to
one row, and each call's words are its slice of that list. -/

set_option maxRecDepth 16384

noncomputable section

namespace Cert.KernelIdeal.Hand.Launch

open Cert.KernelIdeal Cert.KernelIdeal.Gen Cert.KernelIdeal.Heads
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr)
open Idealize.ShloMosaic.Tactic

variable {F : FTy → Type} [FloatOps F]

local notation "𝕄" => MT nD τ sig (HIx 4) (Elt F) ℕ UU ℕ

open Idealize.ShloMosaic.StableHlo

variable (m : (ℓ : Loc nD τ sig) → Buf (Elt F) ℓ)

/-- The tokens' word list, as the head leaves it. -/
def tok4 (d : Dev nD) : Buf (Elt F) ((SparseCore.T (τ := τ) d).loc main_v4) := Vp m d (Proc.devRef .tc main_v4)

theorem tok4_eq (d : Dev nD) :
    tok4 m d = shapeCast S131072 (transpose S8x16384 [1, 0] (m ((SparseCore.T (τ := τ) d).loc main_arg0)) transposes_S16384x8_S8x16384_1_0) shapeCasts_S8x16384_S131072 := by
  unfold tok4 Vp
  after_results
  rfl

theorem tb_eq (d : Dev nD) :
    tb m d = pad S1000x128 ![0, 0] ![0, 96] ![0, 0] (m ((SparseCore.T (τ := τ) d).loc main_arg1)) (sitofp .f32 (constantI S_ 32 0#32)) pads_S1000x32_S1000x128_000_0960 h_S_ := by
  unfold tb Vp
  after_results
  rfl

theorem wd0_eq (d : Dev nD) : wd0 m d = extractStridedSlice S16384 ![0] (tok4 m d) slices_S131072_S16384_0 := by
  unfold wd0 tok4 Vp
  after_results
theorem wd1_eq (d : Dev nD) : wd1 m d = extractStridedSlice S16384 ![16384] (tok4 m d) slices_S131072_S16384_16384 := by
  unfold wd1 tok4
  after_results
theorem wd2_eq (d : Dev nD) : wd2 m d = extractStridedSlice S32768 ![32768] (tok4 m d) slices_S131072_S32768_32768 := by
  unfold wd2 tok4
  after_results
theorem wd3_eq (d : Dev nD) : wd3 m d = extractStridedSlice S65536 ![65536] (tok4 m d) slices_S131072_S65536_65536 := by
  unfold wd3 tok4
  after_results

end Cert.KernelIdeal.Hand.Launch

end
-- ==== Proof.KernelIdeal.HeadValsV.lean ====
import proofs.«203661_g84404697301628_cont_9to1_m_135_26_alg».proof.Proof.Pay
import proofs.«203661_g84404697301628_cont_9to1_m_135_26_alg».proof.Proof.KernelIdeal.TailSt
import proofs.«203661_g84404697301628_cont_9to1_m_135_26_alg».proof.Proof.KernelIdeal.TailRead
import proofs.«203661_g84404697301628_cont_9to1_m_135_26_alg».proof.Proof.KernelIdeal.Fund
import proofs.«203661_g84404697301628_cont_9to1_m_135_26_alg».proof.Proof.KernelIdeal.HeadVals
import Idealize.ShloMosaic.Lib.SparseCore.Launch
import Idealize.ShloMosaic.Lib.StableHlo.Run

/-! # The valuation after the fourth call, read at the regions' input arrays

The weights' transpose and the bias column are the head's, as values of the launch memory; each gathered array is what its
call left. -/

set_option maxRecDepth 16384

noncomputable section

namespace Cert.KernelIdeal.Hand.Launch

open Cert.KernelIdeal Cert.KernelIdeal.Gen Cert.KernelIdeal.Heads
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr)
open Idealize.ShloMosaic.Tactic

variable {F : FTy → Type} [FloatOps F]

local notation "𝕄" => MT nD τ sig (HIx 4) (Elt F) ℕ UU ℕ

open Idealize.ShloMosaic.StableHlo

variable (m : (ℓ : Loc nD τ sig) → Buf (Elt F) ℓ)

theorem Vp_v1 (d : Dev nD) :
    Vp m d (Proc.devRef .tc main_v1) = transpose S1000x32 [1, 0] (m ((SparseCore.T (τ := τ) d).loc main_arg3)) transposes_S32x1000_S1000x32_1_0 := by
  unfold Vp
  after_results
  rfl
theorem Vp_v2 (d : Dev nD) :
    Vp m d (Proc.devRef .tc main_v2) = shapeCast S1000x1 (m ((SparseCore.T (τ := τ) d).loc main_arg4)) shapeCasts_S1000_S1000x1 := by
  unfold Vp
  after_results
  rfl

variable (d : Dev nD) (f0 : Buf (Elt F) ((SparseCore.T (τ := τ) d).loc main_v6)) (f1 : Buf (Elt F) ((SparseCore.T (τ := τ) d).loc main_v8)) (f2 : Buf (Elt F) ((SparseCore.T (τ := τ) d).loc main_v10)) (f3 : Buf (Elt F) ((SparseCore.T (τ := τ) d).loc main_v12))

theorem Vd_v1 : Vd m d f0 f1 f2 f3 (Proc.devRef .tc main_v1) = Vp m d (Proc.devRef .tc main_v1) :=
  (Vd_of_ne m d f0 f1 f2 f3 main_v1 (by decide)).trans ((Vc_of_ne m d f0 f1 f2 main_v1 (by decide) (by decide)).trans
    ((Vb_of_ne m d f0 f1 main_v1 (by decide) (by decide)).trans (Va_of_ne m d f0 main_v1 (by decide) (by decide))))
theorem Vd_v2 : Vd m d f0 f1 f2 f3 (Proc.devRef .tc main_v2) = Vp m d (Proc.devRef .tc main_v2) :=
  (Vd_of_ne m d f0 f1 f2 f3 main_v2 (by decide)).trans ((Vc_of_ne m d f0 f1 f2 main_v2 (by decide) (by decide)).trans
    ((Vb_of_ne m d f0 f1 main_v2 (by decide) (by decide)).trans (Va_of_ne m d f0 main_v2 (by decide) (by decide))))

theorem Va_v6 : Va m d f0 (Proc.devRef .tc main_v6) = f0 := by
  unfold Va; simp only [StableHlo.after_cons, StableHlo.after_nil]
  rw [StableHlo.unary_result_ne _ _ _ _ _ _ (by decide), Function.update_self]
theorem Vb_v8 : Vb m d f0 f1 (Proc.devRef .tc main_v8) = f1 := by
  unfold Vb; simp only [StableHlo.after_cons, StableHlo.after_nil]
  rw [StableHlo.unary_result_ne _ _ _ _ _ _ (by decide), Function.update_self]
theorem Vc_v10 : Vc m d f0 f1 f2 (Proc.devRef .tc main_v10) = f2 := by
  unfold Vc; simp only [StableHlo.after_cons, StableHlo.after_nil]
  rw [StableHlo.unary_result_ne _ _ _ _ _ _ (by decide), Function.update_self]

theorem Vd_v6 : Vd m d f0 f1 f2 f3 (Proc.devRef .tc main_v6) = f0 :=
  (Vd_of_ne m d f0 f1 f2 f3 main_v6 (by decide)).trans ((Vc_of_ne m d f0 f1 f2 main_v6 (by decide) (by decide)).trans
    ((Vb_of_ne m d f0 f1 main_v6 (by decide) (by decide)).trans (Va_v6 m d f0)))
theorem Vd_v8 : Vd m d f0 f1 f2 f3 (Proc.devRef .tc main_v8) = f1 :=
  (Vd_of_ne m d f0 f1 f2 f3 main_v8 (by decide)).trans ((Vc_of_ne m d f0 f1 f2 main_v8 (by decide) (by decide)).trans (Vb_v8 m d f0 f1))
theorem Vd_v10 : Vd m d f0 f1 f2 f3 (Proc.devRef .tc main_v10) = f2 :=
  (Vd_of_ne m d f0 f1 f2 f3 main_v10 (by decide)).trans (Vc_v10 m d f0 f1 f2)
theorem Vd_v12 : Vd m d f0 f1 f2 f3 (Proc.devRef .tc main_v12) = f3 := by
  unfold Vd; rw [Function.update_self]

end Cert.KernelIdeal.Hand.Launch

end
-- ==== Proof.KRunSpec.lean ====
import proofs.«203661_g84404697301628_cont_9to1_m_135_26_alg».proof.Proof.KernelIdeal.KFrameV
import proofs.«203661_g84404697301628_cont_9to1_m_135_26_alg».proof.Proof.KernelIdeal.HeadValsV
import proofs.«203661_g84404697301628_cont_9to1_m_135_26_alg».proof.Proof.Bridge

/-! # The program's run over the extended reals: the returned buffer is the specification

Each SparseCore call leaves its result array at the gather of the padded table at the call's words; the four TensorCore
regions then compute, row by row, the product with the weights plus the bias; the closing transpose returns it. So in every
final memory the returned buffer holds the specification's function of the four argument arrays it reads, and the five
argument arrays are as launched. -/

set_option maxRecDepth 16384

noncomputable section

namespace Cert.KernelIdeal.Hand.Launch

open Cert.KernelIdeal Cert.KernelIdeal.Gen Cert.KernelIdeal.Heads Cert.KernelIdeal.Bridge
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable (m : (ℓ : Loc nD τ sig) → Buf (Elt Ideal) ℓ) (ρ : Dev nD → PrngReg)

/-! ## The calls' specifications -/

/-- Each call leaves its result array at the gather of the padded table at the call's words. -/
def SG0 (d : Dev nD) (o : Buf (Elt Ideal) ((SparseCore.T (τ := τ) d).loc main_v6)) : Prop := o = gathered1 (tb m d) (wd0 m d)
def SG1 (d : Dev nD) (o : Buf (Elt Ideal) ((SparseCore.T (τ := τ) d).loc main_v8)) : Prop := o = gathered1 (tb m d) (wd1 m d)
def SG2 (d : Dev nD) (o : Buf (Elt Ideal) ((SparseCore.T (τ := τ) d).loc main_v10)) : Prop := o = gathered2 (tb m d) (wd2 m d)
def SG3 (d : Dev nD) (o : Buf (Elt Ideal) ((SparseCore.T (τ := τ) d).loc main_v12)) : Prop := o = gathered4 (tb m d) (wd3 m d)

/-! ## From the final memory to the specification -/

theorem spec_of_fqM (c : Dev nD) (ms : MemSt nD τ sig (Elt Ideal)) (h : fqM m (SG0 m) (SG1 m) (SG2 m) (SG3 m) c ms) :
    ms.mem ((c.tc : Thread nD τ).loc main_v17)
        = Cert.Spec.logits (m ((c.tc : Thread nD τ).loc main_arg0)) (m ((c.tc : Thread nD τ).loc main_arg1)) (m ((c.tc : Thread nD τ).loc main_arg3)) (m ((c.tc : Thread nD τ).loc main_arg4))
      ∧ ms.mem ((c.tc : Thread nD τ).loc main_arg0) = m ((c.tc : Thread nD τ).loc main_arg0)
      ∧ ms.mem ((c.tc : Thread nD τ).loc main_arg1) = m ((c.tc : Thread nD τ).loc main_arg1)
      ∧ ms.mem ((c.tc : Thread nD τ).loc main_arg2) = m ((c.tc : Thread nD τ).loc main_arg2)
      ∧ ms.mem ((c.tc : Thread nD τ).loc main_arg3) = m ((c.tc : Thread nD τ).loc main_arg3)
      ∧ ms.mem ((c.tc : Thread nD τ).loc main_arg4) = m ((c.tc : Thread nD τ).loc main_arg4) := by
  obtain ⟨f0, f1, f2, f3, ⟨h0, h1, h2, h3⟩, hr⟩ := h
  refine ⟨?_, (hr (Proc.devRef .tc main_arg0) (by decide)).trans (kept_main_arg0 m c f0 f1 f2 f3),
    (hr (Proc.devRef .tc main_arg1) (by decide)).trans (kept_main_arg1 m c f0 f1 f2 f3),
    (hr (Proc.devRef .tc main_arg2) (by decide)).trans (kept_main_arg2 m c f0 f1 f2 f3),
    (hr (Proc.devRef .tc main_arg3) (by decide)).trans (kept_main_arg3 m c f0 f1 f2 f3),
    (hr (Proc.devRef .tc main_arg4) (by decide)).trans (kept_main_arg4 m c f0 f1 f2 f3)⟩
  refine (hr (Proc.devRef .tc main_v17) (by decide)).trans ?_
  refine (Wfin_v17 (Name := ℕ) (U := UU) (fun _ => Vd m c f0 f1 f2 f3) c).trans ?_
  have hv1 : tcOf (fun _ => Vd m c f0 f1 f2 f3) c main_v1 = transpose S1000x32 [1, 0] (m ((SparseCore.T (τ := τ) c).loc main_arg3)) transposes_S32x1000_S1000x32_1_0 :=
    (Vd_v1 m c f0 f1 f2 f3).trans (Vp_v1 m c)
  have hv2 : tcOf (fun _ => Vd m c f0 f1 f2 f3) c main_v2 = shapeCast S1000x1 (m ((SparseCore.T (τ := τ) c).loc main_arg4)) shapeCasts_S1000_S1000x1 :=
    (Vd_v2 m c f0 f1 f2 f3).trans (Vp_v2 m c)
  have hE0 : tcOf (fun _ => Vd m c f0 f1 f2 f3) c main_v6
      = gathered1 (pad S1000x128 ![0, 0] ![0, 96] ![0, 0] (m ((SparseCore.T (τ := τ) c).loc main_arg1)) (sitofp .f32 (constantI S_ 32 0#32) : FVec Ideal S_ .f32) pads_S1000x32_S1000x128_000_0960 h_S_)
          (extractStridedSlice S16384 ![0] (shapeCast S131072 (transpose S8x16384 [1, 0] (m ((SparseCore.T (τ := τ) c).loc main_arg0)) transposes_S16384x8_S8x16384_1_0) shapeCasts_S8x16384_S131072) slices_S131072_S16384_0) := by
    refine ((Vd_v6 m c f0 f1 f2 f3).trans h0).trans ?_
    rw [tb_eq, wd0_eq, tok4_eq]
  have hE1 : tcOf (fun _ => Vd m c f0 f1 f2 f3) c main_v8
      = gathered1 (pad S1000x128 ![0, 0] ![0, 96] ![0, 0] (m ((SparseCore.T (τ := τ) c).loc main_arg1)) (sitofp .f32 (constantI S_ 32 0#32) : FVec Ideal S_ .f32) pads_S1000x32_S1000x128_000_0960 h_S_)
          (extractStridedSlice S16384 ![16384] (shapeCast S131072 (transpose S8x16384 [1, 0] (m ((SparseCore.T (τ := τ) c).loc main_arg0)) transposes_S16384x8_S8x16384_1_0) shapeCasts_S8x16384_S131072) slices_S131072_S16384_16384) := by
    refine ((Vd_v8 m c f0 f1 f2 f3).trans h1).trans ?_
    rw [tb_eq, wd1_eq, tok4_eq]
  have hE2 : tcOf (fun _ => Vd m c f0 f1 f2 f3) c main_v10
      = gathered2 (pad S1000x128 ![0, 0] ![0, 96] ![0, 0] (m ((SparseCore.T (τ := τ) c).loc main_arg1)) (sitofp .f32 (constantI S_ 32 0#32) : FVec Ideal S_ .f32) pads_S1000x32_S1000x128_000_0960 h_S_)
          (extractStridedSlice S32768 ![32768] (shapeCast S131072 (transpose S8x16384 [1, 0] (m ((SparseCore.T (τ := τ) c).loc main_arg0)) transposes_S16384x8_S8x16384_1_0) shapeCasts_S8x16384_S131072) slices_S131072_S32768_32768) := by
    refine ((Vd_v10 m c f0 f1 f2 f3).trans h2).trans ?_
    rw [tb_eq, wd2_eq, tok4_eq]
  have hE3 : tcOf (fun _ => Vd m c f0 f1 f2 f3) c main_v12
      = gathered4 (pad S1000x128 ![0, 0] ![0, 96] ![0, 0] (m ((SparseCore.T (τ := τ) c).loc main_arg1)) (sitofp .f32 (constantI S_ 32 0#32) : FVec Ideal S_ .f32) pads_S1000x32_S1000x128_000_0960 h_S_)
          (extractStridedSlice S65536 ![65536] (shapeCast S131072 (transpose S8x16384 [1, 0] (m ((SparseCore.T (τ := τ) c).loc main_arg0)) transposes_S16384x8_S8x16384_1_0) shapeCasts_S8x16384_S131072) slices_S131072_S65536_65536) := by
    refine ((Vd_v12 m c f0 f1 f2 f3).trans h3).trans ?_
    rw [tb_eq, wd3_eq, tok4_eq]
  exact bridge (Ix := HIx 4) (Name := ℕ) (U := UU) (fun _ => Vd m c f0 f1 f2 f3) c (m ((SparseCore.T (τ := τ) c).loc main_arg0)) (m ((SparseCore.T (τ := τ) c).loc main_arg1))
    (m ((SparseCore.T (τ := τ) c).loc main_arg3)) (m ((SparseCore.T (τ := τ) c).loc main_arg4)) (sitofp .f32 (constantI S_ 32 0#32) : FVec Ideal S_ .f32)
    hv1 hv2 hE0 hE1 hE2 hE3

/-! ## The run -/

/-- The program runs and returns the specification's function of its arguments, the arguments unchanged: given the
    certificate's task obligations for the four gather kernels with contents tracked, and how each call's token words and
    result array are dealt to its vector subcores and gathered back at the gather of the table at the call's words. -/
theorem kernel_run_spec [∀ e, Nonempty (Elt Ideal e)]
    (Rgo Rtd : Fin 4 → Dev nD → Fin 2 → Fin 16 → sProp (MT nD τ sig (HIx 4) (Elt Ideal) ℕ UU ℕ))
    (hgo : ∀ q d c i, BI.Storable (upEmb : UEmb _ (MT nD τ sig (HIx 4) (Elt Ideal) ℕ UU ℕ)) (Rgo q d c i))
    (htd : ∀ q d c i, BI.Storable (upEmb : UEmb _ (MT nD τ sig (HIx 4) (Elt Ideal) ℕ UU ℕ)) (Rtd q d c i))
    (htile : ∀ q, (K (F := Ideal)).TileObl (D (F := Ideal)) 𝒱 (PV (tb m) Rgo Rtd) v₀ q)
    (rem0 : (d : Dev nD) → Buf (Elt Ideal) ((SparseCore.T (τ := τ) d).loc main_v6) → sProp (MT nD τ sig (HIx 4) (Elt Ideal) ℕ UU ℕ))
    (hdeal0 : ∀ (d : Dev nD) (o : Buf (Elt Ideal) ((SparseCore.T (τ := τ) d).loc main_v6)),
      iprop(((SparseCore.T (τ := τ) d).loc main_v5 ↦{fullShare} wd0 m d) ∗ ((SparseCore.T (τ := τ) d).loc main_v6 ↦{fullShare} o))
        ⊢ iprop((bigSep Finset.univ fun c : Fin 2 => bigSep Finset.univ fun i : Fin 16 => Rgo 0 d c i) ∗ rem0 d o))
    (hback0 : ∀ (d : Dev nD) (o : Buf (Elt Ideal) ((SparseCore.T (τ := τ) d).loc main_v6)),
      iprop((bigSep Finset.univ fun c : Fin 2 => bigSep Finset.univ fun i : Fin 16 => Rtd 0 d c i) ∗ rem0 d o)
        ⊢ iprop(((SparseCore.T (τ := τ) d).loc main_v5 ↦{fullShare} wd0 m d)
            ∗ ∃ o' : Buf (Elt Ideal) ((SparseCore.T (τ := τ) d).loc main_v6), ⌜SG0 m d o'⌝ ∗ (SparseCore.T (τ := τ) d).loc main_v6 ↦{fullShare} o'))
    (rem1 : (d : Dev nD) → Buf (Elt Ideal) ((SparseCore.T (τ := τ) d).loc main_v8) → sProp (MT nD τ sig (HIx 4) (Elt Ideal) ℕ UU ℕ))
    (hdeal1 : ∀ (d : Dev nD) (o : Buf (Elt Ideal) ((SparseCore.T (τ := τ) d).loc main_v8)),
      iprop(((SparseCore.T (τ := τ) d).loc main_v7 ↦{fullShare} wd1 m d) ∗ ((SparseCore.T (τ := τ) d).loc main_v8 ↦{fullShare} o))
        ⊢ iprop((bigSep Finset.univ fun c : Fin 2 => bigSep Finset.univ fun i : Fin 16 => Rgo 1 d c i) ∗ rem1 d o))
    (hback1 : ∀ (d : Dev nD) (o : Buf (Elt Ideal) ((SparseCore.T (τ := τ) d).loc main_v8)),
      iprop((bigSep Finset.univ fun c : Fin 2 => bigSep Finset.univ fun i : Fin 16 => Rtd 1 d c i) ∗ rem1 d o)
        ⊢ iprop(((SparseCore.T (τ := τ) d).loc main_v7 ↦{fullShare} wd1 m d)
            ∗ ∃ o' : Buf (Elt Ideal) ((SparseCore.T (τ := τ) d).loc main_v8), ⌜SG1 m d o'⌝ ∗ (SparseCore.T (τ := τ) d).loc main_v8 ↦{fullShare} o'))
    (rem2 : (d : Dev nD) → Buf (Elt Ideal) ((SparseCore.T (τ := τ) d).loc main_v10) → sProp (MT nD τ sig (HIx 4) (Elt Ideal) ℕ UU ℕ))
    (hdeal2 : ∀ (d : Dev nD) (o : Buf (Elt Ideal) ((SparseCore.T (τ := τ) d).loc main_v10)),
      iprop(((SparseCore.T (τ := τ) d).loc main_v9 ↦{fullShare} wd2 m d) ∗ ((SparseCore.T (τ := τ) d).loc main_v10 ↦{fullShare} o))
        ⊢ iprop((bigSep Finset.univ fun c : Fin 2 => bigSep Finset.univ fun i : Fin 16 => Rgo 2 d c i) ∗ rem2 d o))
    (hback2 : ∀ (d : Dev nD) (o : Buf (Elt Ideal) ((SparseCore.T (τ := τ) d).loc main_v10)),
      iprop((bigSep Finset.univ fun c : Fin 2 => bigSep Finset.univ fun i : Fin 16 => Rtd 2 d c i) ∗ rem2 d o)
        ⊢ iprop(((SparseCore.T (τ := τ) d).loc main_v9 ↦{fullShare} wd2 m d)
            ∗ ∃ o' : Buf (Elt Ideal) ((SparseCore.T (τ := τ) d).loc main_v10), ⌜SG2 m d o'⌝ ∗ (SparseCore.T (τ := τ) d).loc main_v10 ↦{fullShare} o'))
    (rem3 : (d : Dev nD) → Buf (Elt Ideal) ((SparseCore.T (τ := τ) d).loc main_v12) → sProp (MT nD τ sig (HIx 4) (Elt Ideal) ℕ UU ℕ))
    (hdeal3 : ∀ (d : Dev nD) (o : Buf (Elt Ideal) ((SparseCore.T (τ := τ) d).loc main_v12)),
      iprop(((SparseCore.T (τ := τ) d).loc main_v11 ↦{fullShare} wd3 m d) ∗ ((SparseCore.T (τ := τ) d).loc main_v12 ↦{fullShare} o))
        ⊢ iprop((bigSep Finset.univ fun c : Fin 2 => bigSep Finset.univ fun i : Fin 16 => Rgo 3 d c i) ∗ rem3 d o))
    (hback3 : ∀ (d : Dev nD) (o : Buf (Elt Ideal) ((SparseCore.T (τ := τ) d).loc main_v12)),
      iprop((bigSep Finset.univ fun c : Fin 2 => bigSep Finset.univ fun i : Fin 16 => Rtd 3 d c i) ∗ rem3 d o)
        ⊢ iprop(((SparseCore.T (τ := τ) d).loc main_v11 ↦{fullShare} wd3 m d)
            ∗ ∃ o' : Buf (Elt Ideal) ((SparseCore.T (τ := τ) d).loc main_v12), ⌜SG3 m d o'⌝ ∗ (SparseCore.T (τ := τ) d).loc main_v12 ↦{fullShare} o')) :
    θ_run (Cert.KernelIdeal.defs (F := Ideal)) (Cert.KernelIdeal.threads (F := Ideal)) ⟨m, fun _ => 0, ρ⟩ (fun r => ∀ c : Dev nD,
      r.2.mem ((c.tc : Thread nD τ).loc main_v17)
          = Cert.Spec.logits (m ((c.tc : Thread nD τ).loc main_arg0)) (m ((c.tc : Thread nD τ).loc main_arg1)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (Cert.KernelIdeal.defs (F := Ideal)) _ _).mono (fun r h c => spec_of_fqM m c r.2 (h c))
    (kernel_runV m ρ Rgo Rtd hgo htd htile (SG0 m) (SG1 m) (SG2 m) (SG3 m) rem0 hdeal0 hback0 rem1 hdeal1 hback1 rem2 hdeal2 hback2 rem3 hdeal3 hback3)

end Cert.KernelIdeal.Hand.Launch

end
-- ==== Proof.KRunSpecPt.lean ====
import proofs.«203661_g84404697301628_cont_9to1_m_135_26_alg».proof.Proof.KRunSpec

/-! # The calls' specifications, pointwise

A result array that holds, at every block `(t, n)` and coordinate `e`, column `e` of the table row the word at flat position
`t · 16384 + n` names, is the gather of the table at the words. -/

noncomputable section

namespace Cert.KernelIdeal.Hand.Launch

open Cert.KernelIdeal Cert.KernelIdeal.Gen Cert.KernelIdeal.Heads Cert.KernelIdeal.Bridge
open Idealize.ShloMosaic Idealize.ShloMosaic.TcCoe Idealize.ShloMosaic.ValueIdx
open Idealize.SL Idealize.SL.RA

variable (m : (ℓ : Loc nD τ sig) → Buf (Elt Ideal) ℓ)

theorem SG0_of_pointwise (d : Dev nD) (o' : Buf (Elt Ideal) ((SparseCore.T (τ := τ) d).loc main_v6))
    (h : ∀ (t : Fin 1) (n : Fin 16384) (e : Fin 32),
      (o' : S1x16384x32.Idx → EReal) (ix3 t n e)
        = (tb m d : S1000x128.Idx → EReal) (ix2 (Cert.Spec.row ((wd0 m d : S16384.Idx → BitVec 32)
            (ix1 (⟨t.val * 16384 + n.val, by have := t.isLt; have := n.isLt; omega⟩ : Fin 16384))))
          (⟨e.val, by have := e.isLt; omega⟩ : Fin 128))) :
    SG0 m d o' := by
  unfold SG0
  funext i
  rw [eq_ix3 i]
  exact (h _ _ _).trans (gathered1_apply _ _ _ _ _).symm

theorem SG1_of_pointwise (d : Dev nD) (o' : Buf (Elt Ideal) ((SparseCore.T (τ := τ) d).loc main_v8))
    (h : ∀ (t : Fin 1) (n : Fin 16384) (e : Fin 32),
      (o' : S1x16384x32.Idx → EReal) (ix3 t n e)
        = (tb m d : S1000x128.Idx → EReal) (ix2 (Cert.Spec.row ((wd1 m d : S16384.Idx → BitVec 32)
            (ix1 (⟨t.val * 16384 + n.val, by have := t.isLt; have := n.isLt; omega⟩ : Fin 16384))))
          (⟨e.val, by have := e.isLt; omega⟩ : Fin 128))) :
    SG1 m d o' := by
  unfold SG1
  funext i
  rw [eq_ix3 i]
  exact (h _ _ _).trans (gathered1_apply _ _ _ _ _).symm

theorem SG2_of_pointwise (d : Dev nD) (o' : Buf (Elt Ideal) ((SparseCore.T (τ := τ) d).loc main_v10))
    (h : ∀ (t : Fin 2) (n : Fin 16384) (e : Fin 32),
      (o' : S2x16384x32.Idx → EReal) (ix3 t n e)
        = (tb m d : S1000x128.Idx → EReal) (ix2 (Cert.Spec.row ((wd2 m d : S32768.Idx → BitVec 32)
            (ix1 (⟨t.val * 16384 + n.val, by have := t.isLt; have := n.isLt; omega⟩ : Fin 32768))))
          (⟨e.val, by have := e.isLt; omega⟩ : Fin 128))) :
    SG2 m d o' := by
  unfold SG2
  funext i
  rw [eq_ix3 i]
  exact (h _ _ _).trans (gathered2_apply _ _ _ _ _).symm

theorem SG3_of_pointwise (d : Dev nD) (o' : Buf (Elt Ideal) ((SparseCore.T (τ := τ) d).loc main_v12))
    (h : ∀ (t : Fin 4) (n : Fin 16384) (e : Fin 32),
      (o' : S4x16384x32.Idx → EReal) (ix3 t n e)
        = (tb m d : S1000x128.Idx → EReal) (ix2 (Cert.Spec.row ((wd3 m d : S65536.Idx → BitVec 32)
            (ix1 (⟨t.val * 16384 + n.val, by have := t.isLt; have := n.isLt; omega⟩ : Fin 65536))))
          (⟨e.val, by have := e.isLt; omega⟩ : Fin 128))) :
    SG3 m d o' := by
  unfold SG3
  funext i
  rw [eq_ix3 i]
  exact (h _ _ _).trans (gathered4_apply _ _ _ _ _).symm

end Cert.KernelIdeal.Hand.Launch

end
-- ==== Proof.RefHalf.lean ====
/-
  The reference half of the equality claim: under the kernel's precondition and the agreement of the two programs'
  argument arrays, the reference run ends with its result equal to `Spec.logits` of the KERNEL's arguments.
-/
import proofs.«203661_g84404697301628_cont_9to1_m_135_26_alg».proof.Defs
import proofs.«203661_g84404697301628_cont_9to1_m_135_26_alg».proof.Proof.RefSpec

noncomputable section

namespace Cert.RefSide

open Idealize.ShloMosaic Idealize.SL.Sem

theorem ref_half [hKernelIdeal : Cert.KernelIdeal.Facts] [hReferenceIdeal : Cert.ReferenceIdeal.Facts] [hPre_input_domain : Cert.Pre_input_domain.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (g' : Dev Cert.ReferenceIdeal.nD → PrngReg)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v9)
          = Cert.Spec.logits (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg3))
              (m ((c.tc : Thread Cert.KernelIdeal.nD Cert.KernelIdeal.τ).loc Cert.KernelIdeal.main_arg4))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)) := by
  have hpre' : Cert.Pre_ReferenceIdeal m' := by
    intro c
    obtain ⟨h0, h1, h2, h3, h4⟩ := hagree c
    rw [h0, h1, h2, h3, h4]
    exact hpre c
  refine (run_spec m' g' hpre').mono ?_
  intro r h c
  obtain ⟨hv, rest⟩ := h c
  obtain ⟨h0, h1, _, h3, h4⟩ := hagree c
  refine ⟨?_, rest⟩
  rw [hv, h0, h1, h3, h4]

end Cert.RefSide

end
-- ==== Proof.KernelIdeal.TileRun0.lean ====
/-
  One vector subcore's task in the first embedding-gather call, run to its end.

  The subcore at grid point (core, subcore) is worker `2·subcore + core`. It copies its 512 token words from the
  token list into a scratch, and then, four times: gathers the 128 table rows those words name into one half of a
  two-slot scratch (an indexed copy, legal because every word names a row of the 1000-row table), copies the first 32
  of each row's 128 columns into the matching half of a second two-slot scratch, and starts the copy of that half out
  to its 128 rows of the result. A slot's copy-out is waited for two trips later, just before the slot is written
  again, and the last two after the loop; so between its start and its wait nothing touches the copy's source or
  destination. Each copy is on a semaphore of the subcore's own with one copy in flight at a time.

  The loop's invariant says, before each of the four trips, which slot's copy-out is in flight and for which block of
  the result; a flying copy holds that block and the slot's half of the scratch until its wait returns them. The two
  halves of the scratch partition it (`crows_compl01`), which is what lets a half be held as "everything but the other
  half" while the other half is away.
-/
import proofs.«203661_g84404697301628_cont_9to1_m_135_26_alg».proof.Proof.KCommon

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [hK : Cert.KernelIdeal.Facts] [FloatOps F]

local notation "𝕄" => MT nD τ sig (HIx 4) (Elt F) ℕ UU ℕ

local notation "tblW" => (Memref.whole Cert.KernelIdeal.main_v0_scv : Memref Cert.KernelIdeal.sig Kind.scVector Space.hbm Cert.KernelIdeal.S1000x128 EltTy.f32)
local notation "idxW" => (Memref.whole Cert.KernelIdeal.main_v5_scv : Memref Cert.KernelIdeal.sig Kind.scVector Space.hbm Cert.KernelIdeal.S16384 EltTy.i32)
local notation "outW" => (Memref.whole Cert.KernelIdeal.main_v6_scv : Memref Cert.KernelIdeal.sig Kind.scVector Space.hbm Cert.KernelIdeal.S1x16384x32 EltTy.f32)
local notation "s0W" => (Memref.whole Cert.KernelIdeal.cc0_scratch0 : Memref Cert.KernelIdeal.sig Kind.scVector Space.vmem Cert.KernelIdeal.S512 EltTy.i32)
local notation "s1W" => (Memref.whole Cert.KernelIdeal.cc0_scratch1 : Memref Cert.KernelIdeal.sig Kind.scVector Space.vmem Cert.KernelIdeal.S2x128x128 EltTy.f32)
local notation "s2W" => (Memref.whole Cert.KernelIdeal.cc0_scratch2 : Memref Cert.KernelIdeal.sig Kind.scVector Space.vmem Cert.KernelIdeal.S2x128x32 EltTy.f32)

variable (d : Dev nD) (L : grid0.Coords)

abbrev cV (L : grid0.Coords) : Fin τ.nSC := (L 0).castLE hcore0
abbrev jV (L : grid0.Coords) : Fin τ.nSub := (L 1).castLE hsub0
/-- the vector subcore at grid point `L` -/
abbrev tile : Thread nD τ := V d (cV L) (jV L)

/-- the part of the token list this subcore fetches -/
abbrev idxSl (L : grid0.Coords) : Memref sig .scVector .hbm S512 .i32 := (idxW).slice (Rect.unit (s := S16384) (k0_off1 L) S512.size (k0_off1_inb L)) (fun _ => rfl)
/-- trip `t`'s 128 words of the fetched list -/
abbrev offsAt (t : Fin k0_t1_loop.trips) : Memref sig .scVector .vmem S128 .i32 :=
  (s0W).slice (Rect.unit (s := S512) (k0_off6 t) S128.size (k0_off6_inb t)) (fun _ => rfl)
/-- the 128 rows of the result trip `t` writes -/
abbrev outAt (L : grid0.Coords) (t : Fin k0_t1_loop.trips) : Memref sig .scVector .hbm S128x32 .f32 :=
  ((outW).slice (Rect.unit (s := S1x16384x32) (k0_off13 L t) S1x128x32.size (k0_off13_inb L t)) (fun _ => rfl)).squeeze S128x32 squeezes_S1x128x32_S128x32
/-- the half of the compact-rows scratch trip `t` fills and copies out -/
abbrev crowsAt (t : Fin k0_t1_loop.trips) : Memref sig .scVector .vmem S128x32 .f32 :=
  ((s2W).slice (Rect.unit (s := S2x128x32) (k0_off12 t) S1x128x32.size (k0_off12_inb t)) (fun _ => rfl)).squeeze S128x32 squeezes_S1x128x32_S128x32

def t0 : Fin k0_t1_loop.trips := ⟨0, by decide⟩
def t1 : Fin k0_t1_loop.trips := ⟨1, by decide⟩
def t2 : Fin k0_t1_loop.trips := ⟨2, by decide⟩
def t3 : Fin k0_t1_loop.trips := ⟨3, by decide⟩

/-- the two gather semaphores and the two write-back semaphores, by slot; the prologue's copy semaphore -/
local notation "gS0" => (⟨0, by decide⟩ : DmaSem Cert.KernelIdeal.sig)
local notation "gS1" => (⟨1, by decide⟩ : DmaSem Cert.KernelIdeal.sig)
local notation "wS0" => (⟨2, by decide⟩ : DmaSem Cert.KernelIdeal.sig)
local notation "wS1" => (⟨3, by decide⟩ : DmaSem Cert.KernelIdeal.sig)
local notation "pS" => (⟨4, by decide⟩ : DmaSem Cert.KernelIdeal.sig)

/-- every word of the fetched list names a row of the table -/
def InRange (g5 : Buf (Elt F) ((s0W).view.loc (tile d L))) : Prop :=
  ∀ (o : Fin 1 → Nat) (h : ∀ a, o a + S128.size a ≤ S512.size a) (x : S128.Idx),
    (((s0W).slice (Rect.unit (s := S512) o S128.size h) (fun _ => rfl)).view.read (Elt F) g5 x).toNat < S1000x128.size gathers_S1000x128_S128x128.axis

/-- a block of the result, at some contents -/
def outHeld (t : Fin k0_t1_loop.trips) : sProp 𝕄 :=
  iprop(∃ f, (outAt L t).view.loc (tile d L) ↦[(outAt L t).view.set]{fullShare} f)
/-- a half of the compact-rows scratch (the one trip `t` uses), at some contents -/
def crowsHeld (t : Fin k0_t1_loop.trips) : sProp 𝕄 :=
  iprop(∃ f, (s2W).view.loc (tile d L) ↦[Finset.univ \ (crowsAt t).view.set]{fullShare} f)
/-- slot `s` idle: its write-back semaphore at zero and its half of the scratch in hand -/
def slotFree (w : DmaSem sig) (t : Fin k0_t1_loop.trips) : sProp 𝕄 :=
  iprop(semVal (tile d L, SemLoc.dma w) 0 ∗ crowsHeld (F := F) d L t)
/-- slot `s` busy: trip `t`'s write-back in flight, carrying its block of the result and its half of the scratch -/
def slotBusy (w : DmaSem sig) (t : Fin k0_t1_loop.trips) : sProp 𝕄 :=
  iprop(∃ fo f, Transfers.Flight (countersEmb (U := UU)) (tile d L) (SemLoc.dma w) (default : HIx 4) 131072
    iprop(((outAt L t).view.loc (tile d L) ↦[(outAt L t).view.set]{fullShare} fo)
      ∗ ((s2W).view.loc (tile d L) ↦[(crowsAt t).view.set]{fullShare} f)))

/-- what every trip keeps: the wait evidence, the table's share, the fetched list (in range), the gathered-rows scratch,
    both gather semaphores at zero, and what the subcore owes with the waits recorded so far -/
def common (O : CellTallies nD τ sig (HIx 4)) (W : Waits sig (HIx 4)) (q : PosShare TreeShare)
    (ft : Buf (Elt F) ((tblW).view.loc (tile d L))) : sProp 𝕄 :=
  iprop(Transfers.MayWaits (tile d L) (none : HIx 4) O
    ∗ ((tblW).view.loc (tile d L) ↦{q} ft)
    ∗ (∃ g5, ⌜InRange (F := F) d L g5⌝ ∗ (s0W).view.loc (tile d L) ↦{fullShare} g5)
    ∗ (∃ r, (s1W).view.loc (tile d L) ↦{fullShare} r)
    ∗ semVal (tile d L, SemLoc.dma gS0) 0 ∗ semVal (tile d L, SemLoc.dma gS1) 0
    ∗ ∃ W', ⌜∀ p ∈ W', p ∈ W ∨ p.2 = none⌝ ∗ owes (tile d L) O W')

section Inv
variable (O : CellTallies nD τ sig (HIx 4)) (W : Waits sig (HIx 4)) (q : PosShare TreeShare) (ft : Buf (Elt F) ((tblW).view.loc (tile d L)))
/-- before trip 0: both slots idle, every block in hand -/
def inv0 : sProp 𝕄 := iprop(common d L O W q ft ∗ slotFree d L wS0 t1 ∗ slotFree d L wS1 t0 ∗ outHeld d L t0 ∗ outHeld d L t1 ∗ outHeld d L t2 ∗ outHeld d L t3)
/-- before trip 1: block 0 flying from slot 0 -/
def inv1 : sProp 𝕄 := iprop(common d L O W q ft ∗ slotBusy d L wS0 t0 ∗ slotFree d L wS1 t0 ∗ outHeld d L t1 ∗ outHeld d L t2 ∗ outHeld d L t3)
/-- before trip 2: blocks 0 and 1 flying -/
def inv2 : sProp 𝕄 := iprop(common d L O W q ft ∗ slotBusy d L wS0 t0 ∗ slotBusy d L wS1 t1 ∗ outHeld d L t2 ∗ outHeld d L t3)
/-- before trip 3: block 0 landed, blocks 2 and 1 flying -/
def inv3 : sProp 𝕄 := iprop(common d L O W q ft ∗ slotBusy d L wS0 t2 ∗ slotBusy d L wS1 t1 ∗ outHeld d L t0 ∗ outHeld d L t3)
/-- after trip 3: blocks 0 and 1 landed, blocks 2 and 3 flying -/
def inv4 : sProp 𝕄 := iprop(common d L O W q ft ∗ slotBusy d L wS0 t2 ∗ slotBusy d L wS1 t3 ∗ outHeld d L t0 ∗ outHeld d L t1)
/-- the outer loop's invariant before trip `k` -/
def invO (k : Nat) (_ : PUnit) : sProp 𝕄 :=
  match k with
  | 0 => inv0 d L O W q ft
  | 1 => inv1 d L O W q ft
  | 2 => inv2 d L O W q ft
  | 3 => inv3 d L O W q ft
  | _ => inv4 d L O W q ft
end Inv

/-- the compaction loop's invariant, contents untracked: the gathered rows and trip `t`'s half of the compact rows in hand -/
def invC (t : Fin k0_t1_loop.trips) (_ : Nat) (_ : PUnit) : sProp 𝕄 :=
  iprop((∃ r, (s1W).view.loc (tile d L) ↦{fullShare} r) ∗ crowsHeld (F := F) d L t)

/-- an element lies in trip `t`'s half of the compact-rows scratch exactly when each coordinate lies in the half's box -/
theorem mem_crowsAt (t : Fin k0_t1_loop.trips) (x : S2x128x32.Idx) :
    x ∈ (crowsAt t).view.set ↔ ∀ a, k0_off12 t a ≤ x a ∧ (x a : Nat) < k0_off12 t a + S1x128x32.size a := by
  have hs : ((crowsAt t).view.set : Finset S2x128x32.Idx)
      = (Rect.unit (s := S2x128x32) (k0_off12 t) S1x128x32.size (k0_off12_inb t)).set := by
    show (((View.whole cc0_scratch2).slice (Rect.unit (s := S2x128x32) (k0_off12 t) S1x128x32.size (k0_off12_inb t))).reshape S128x32 _).set = _
    rw [View.set_reshape, View.set_slice_whole]
  constructor
  · intro h; exact Rect.mem_set_unit.mp (hs ▸ h)
  · intro h; exact hs ▸ Rect.mem_set_unit.mpr h

/-- the two halves partition the scratch: what is not in the second half is the first half -/
theorem crows_compl01 : Finset.univ \ (crowsAt t1).view.set = (crowsAt t0).view.set := by
  ext x
  rw [Finset.mem_sdiff, mem_crowsAt, mem_crowsAt]
  simp only [Finset.mem_univ, true_and]
  have e0 : k0_off12 t0 = ![0, 0, 0] := by decide
  have e1 : k0_off12 t1 = ![1, 0, 0] := by decide
  rw [e0, e1]
  have h0 : (x 0 : Nat) < 2 := (x 0).isLt
  have h1 : (x 1 : Nat) < 128 := (x 1).isLt
  have h2 : (x 2 : Nat) < 32 := (x 2).isLt
  constructor
  · intro h a
    have hx0 : (x 0 : Nat) = 0 := by
      by_contra hne
      exact h (fun b => by
        match b with
        | ⟨0, _⟩ => exact ⟨by show 1 ≤ (x 0 : Nat); omega, by show (x 0 : Nat) < 1 + 1; omega⟩
        | ⟨1, _⟩ => exact ⟨Nat.zero_le _, by show (x 1 : Nat) < 0 + 128; omega⟩
        | ⟨2, _⟩ => exact ⟨Nat.zero_le _, by show (x 2 : Nat) < 0 + 32; omega⟩)
    match a with
    | ⟨0, _⟩ => exact ⟨Nat.zero_le _, by show (x 0 : Nat) < 0 + 1; omega⟩
    | ⟨1, _⟩ => exact ⟨Nat.zero_le _, by show (x 1 : Nat) < 0 + 128; omega⟩
    | ⟨2, _⟩ => exact ⟨Nat.zero_le _, by show (x 2 : Nat) < 0 + 32; omega⟩
  · intro h hc
    have a0 : (x 0 : Nat) < 0 + 1 := (h 0).2
    have b0 : 1 ≤ (x 0 : Nat) := (hc 0).1
    omega

/-- and what is not in the first half is the second -/
theorem crows_compl10 : Finset.univ \ (crowsAt t0).view.set = (crowsAt t1).view.set := by
  rw [← crows_compl01, sdiff_sdiff_right_self]
  exact inf_eq_right.mpr (Finset.subset_univ _)

theorem inb_w0 : ∀ a, (![0] : Fin 1 → Nat) a + S128.size a ≤ S512.size a := by decide
theorem inb_w128 : ∀ a, (![128] : Fin 1 → Nat) a + S128.size a ≤ S512.size a := by decide
theorem inb_w256 : ∀ a, (![256] : Fin 1 → Nat) a + S128.size a ≤ S512.size a := by decide
theorem inb_w384 : ∀ a, (![384] : Fin 1 → Nat) a + S128.size a ≤ S512.size a := by decide

theorem size_tbl : S1000x128.size gathers_S1000x128_S128x128.axis = 1000 := by decide

/-- One vector subcore's whole task for the first gather call: fetch its 512 token words, then four times gather 128 table
    rows, compact their first 32 columns, and start the block's write-back, waiting for a slot's previous write-back
    before reusing the slot; at the end wait for the last two. Every copy is the subcore's own on a semaphore nobody
    else touches, one in flight per semaphore; a write-back stays in flight across two trips of the loop, carried in the
    loop's invariant together with the block of the result and the half of the scratch it holds. Contents are not tracked
    here: the task ends, faults nowhere, and hands back what it was handed. -/
theorem tile_run0 (O : CellTallies nD τ sig (HIx 4)) (W : Waits sig (HIx 4)) (q : PosShare TreeShare)
    (ft : Buf (Elt F) ((tblW).view.loc (tile d L))) (fi : Buf (Elt F) ((idxSl L).view.loc (tile d L)))
    (hfi : ∀ y, (fi y).toNat < 1000) :
    iprop(Transfers.MayWaits (tile d L) (none : HIx 4) O
        ∗ ((tblW).view.loc (tile d L) ↦{q} ft)
        ∗ ((idxSl L).view.loc (tile d L) ↦[(idxSl L).view.set]{fullShare} fi)
        ∗ (∃ f5, (s0W).view.loc (tile d L) ↦{fullShare} f5)
        ∗ (∃ r, (s1W).view.loc (tile d L) ↦{fullShare} r)
        ∗ crowsHeld (F := F) d L t1 ∗ crowsHeld (F := F) d L t0
        ∗ outHeld (F := F) d L t0 ∗ outHeld (F := F) d L t1 ∗ outHeld (F := F) d L t2 ∗ outHeld (F := F) d L t3
        ∗ semVal (tile d L, SemLoc.dma gS0) 0 ∗ semVal (tile d L, SemLoc.dma gS1) 0
        ∗ semVal (tile d L, SemLoc.dma wS0) 0 ∗ semVal (tile d L, SemLoc.dma wS1) 0
        ∗ semVal (tile d L, SemLoc.dma pS) 0
        ∗ owes (tile d L) O W)
      ⊢ wp frame (wpE (defs₀ (F := F)) 𝒱₀ (tile d L) none) Set.univ
          (cc0_gather_kernel L tblW (Memref.isWhole_whole _) idxW (Memref.isWhole_whole _) outW (Memref.isWhole_whole _)
            s0W (Memref.isWhole_whole _) s1W (Memref.isWhole_whole _) s2W (Memref.isWhole_whole _) cc0_scratch3 cc0_scratch4 cc0_scoped0)
          (fun _ => iprop(((tblW).view.loc (tile d L) ↦{q} ft)
            ∗ ((idxSl L).view.loc (tile d L) ↦[(idxSl L).view.set]{fullShare} fi)
            ∗ (∃ f5, (s0W).view.loc (tile d L) ↦{fullShare} f5)
            ∗ (∃ r, (s1W).view.loc (tile d L) ↦{fullShare} r)
            ∗ (∃ f, (s2W).view.loc (tile d L) ↦[(crowsAt t2).view.set]{fullShare} f)
            ∗ (∃ f, (s2W).view.loc (tile d L) ↦[(crowsAt t3).view.set]{fullShare} f)
            ∗ outHeld (F := F) d L t0 ∗ outHeld (F := F) d L t1 ∗ outHeld (F := F) d L t2 ∗ outHeld (F := F) d L t3
            ∗ semVal (tile d L, SemLoc.dma gS0) 0 ∗ semVal (tile d L, SemLoc.dma gS1) 0
            ∗ semVal (tile d L, SemLoc.dma wS0) 0 ∗ semVal (tile d L, SemLoc.dma wS1) 0
            ∗ semVal (tile d L, SemLoc.dma pS) 0
            ∗ ∃ W', ⌜∀ p ∈ W', p ∈ W ∨ p.2 = none⌝ ∗ owes (tile d L) O W')) := by
  rw [cc0_gather_kernel_eq_skeleton]; unfold cc0_gather_kernel_skel
  iintro ⟨Hmw, Ht, Hi, ⟨%f5, H5⟩, H6, Hc0, Hc1, Ho0, Ho1, Ho2, Ho3, Hg0, Hg1, Hw0, Hw1, Hp, HO⟩
  sl_exec
  have h5 : InRange (F := F) d L (View.write (Elt F) (s0W).view f5 (tile_run0.sl.dma0 d L fi) Finset.univ) := by
    intro o h x
    rw [View.write_whole_univ, size_tbl]
    unfold tile_run0.sl.dma0
    simp only [View.read_apply]
    exact hfi _
  sl_for (invO d L O W q ft) $$ [Hmw Ht H5 H6 Hc0 Hc1 Ho0 Ho1 Ho2 Ho3 Hg0 Hg1 Hw0 Hw1 HO]
  case region =>
    intro k u
    obtain ⟨k, hk⟩ := k
    match k, hk with
    | k + 4, hk => exact absurd (Nat.lt_of_lt_of_le hk k0_t1_abs.2.1) (by omega)
    | 0, hk =>
      -- trip 0: slot 0 idle, nothing to wait for
      have k0_h1 : ¬ k0_cond1 t0 = 1#1 := by decide
      change inv0 d L O W q ft ⊢ wp frame (wpE (defs₀ (F := F)) 𝒱₀ (tile d L) none) Set.univ (tile_run0.sl.prog.body_1 L t0 u) (fun _ => inv1 d L O W q ft)
      unfold inv0 common slotFree outHeld crowsHeld
      iintro ⟨⟨Hmw, Ht, ⟨%g5, %hin, H5⟩, H6, Hg0, Hg1, %W', %hW', HO⟩, ⟨Hw0, Hc⟩, Hs1, ⟨%o0, Ho0⟩, Ho1, Ho2, Ho3⟩
      icases H6 with ⟨%r6, H6⟩
      icases Hc with ⟨%c0, Hc⟩
      have hinT : ∀ x, (((s0W).slice (Rect.unit (s := S512) ![0] S128.size inb_w0) (fun _ => rfl)).view.read (Elt F) g5 x).toNat
          < S1000x128.size gathers_S1000x128_S128x128.axis := hin ![0] inb_w0
      have hinK : ∀ x, ((offsAt t0).view.read (Elt F) g5 x).toNat < S1000x128.size gathers_S1000x128_S128x128.axis := hin _ _
      sl_exec
      sl_for (invC (F := F) d L t1) $$ [H6 Hc]
      case region =>
        intro j _
        unfold invC crowsHeld
        iintro ⟨⟨%r, H6⟩, ⟨%f, Hc⟩⟩
        sl_exec
        sl_step
        isplitl [H6]; · iexists _; iexact H6
        iexists _; iexact Hc
      · unfold invC crowsHeld
        isplitl [H6]; · iexists _; iexact H6
        iexists _; iexact Hc
      iintro %_ HI
      unfold invC crowsHeld
      icases HI with ⟨⟨%r, H6⟩, ⟨%f, Hc⟩⟩
      sl_exec
      sl_step
      iclear Hc
      unfold inv1 common slotBusy slotFree outHeld crowsHeld
      isplitl [Hmw Ht H5 H6 Hg0 Hg1 HO]
      · isplitl [Hmw]; · iexact Hmw
        isplitl [Ht]; · iexact Ht
        isplitl [H5]
        · iexists g5; isplitr
          · ipureintro; exact hin
          · iexact H5
        isplitl [H6]; · iexists _; iexact H6
        isplitl [Hg0]; · iexact Hg0
        isplitl [Hg1]; · iexact Hg1
        iexists (insert (SemLoc.dma gS0, (default : HIx 4)) W'); isplitr
        · ipureintro; intro p hp
          rcases Finset.mem_insert.mp hp with hp | hp
          · exact Or.inr (by subst hp; rfl)
          · exact hW' p hp
        · iexact HO
      isplitl [Hw0]; · iexists _, _; iexact Hw0
      isplitl [Hs1]; · iexact Hs1
      isplitl [Ho1]; · iexact Ho1
      isplitl [Ho2]; · iexact Ho2
      iexact Ho3
    | 1, hk =>
      -- trip 1: slot 1 idle, nothing to wait for
      have k0_h1 : ¬ k0_cond1 t1 = 1#1 := by decide
      change inv1 d L O W q ft ⊢ wp frame (wpE (defs₀ (F := F)) 𝒱₀ (tile d L) none) Set.univ (tile_run0.sl.prog.body_1 L t1 u) (fun _ => inv2 d L O W q ft)
      unfold inv1 common slotBusy slotFree outHeld crowsHeld
      iintro ⟨⟨Hmw, Ht, ⟨%g5, %hin, H5⟩, H6, Hg0, Hg1, %W', %hW', HO⟩, Hb0, ⟨Hw1, Hc⟩, ⟨%o1, Ho1⟩, Ho2, Ho3⟩
      icases H6 with ⟨%r6, H6⟩
      icases Hc with ⟨%c0, Hc⟩
      have hinT : ∀ x, (((s0W).slice (Rect.unit (s := S512) ![128] S128.size inb_w128) (fun _ => rfl)).view.read (Elt F) g5 x).toNat
          < S1000x128.size gathers_S1000x128_S128x128.axis := hin ![128] inb_w128
      have hinK : ∀ x, ((offsAt t1).view.read (Elt F) g5 x).toNat < S1000x128.size gathers_S1000x128_S128x128.axis := hin _ _
      sl_exec
      sl_for (invC (F := F) d L t0) $$ [H6 Hc]
      case region =>
        intro j _
        unfold invC crowsHeld
        iintro ⟨⟨%r, H6⟩, ⟨%f, Hc⟩⟩
        sl_exec
        sl_step
        isplitl [H6]; · iexists _; iexact H6
        iexists _; iexact Hc
      · unfold invC crowsHeld
        isplitl [H6]; · iexists _; iexact H6
        iexists _; iexact Hc
      iintro %_ HI
      unfold invC crowsHeld
      icases HI with ⟨⟨%r, H6⟩, ⟨%f, Hc⟩⟩
      sl_exec
      sl_step
      iclear Hc
      unfold inv2 common slotBusy outHeld
      isplitl [Hmw Ht H5 H6 Hg0 Hg1 HO]
      · isplitl [Hmw]; · iexact Hmw
        isplitl [Ht]; · iexact Ht
        isplitl [H5]
        · iexists g5; isplitr
          · ipureintro; exact hin
          · iexact H5
        isplitl [H6]; · iexists _; iexact H6
        isplitl [Hg0]; · iexact Hg0
        isplitl [Hg1]; · iexact Hg1
        iexists (insert (SemLoc.dma gS1, (default : HIx 4)) W'); isplitr
        · ipureintro; intro p hp
          rcases Finset.mem_insert.mp hp with hp | hp
          · exact Or.inr (by subst hp; rfl)
          · exact hW' p hp
        · iexact HO
      isplitl [Hb0]; · iexact Hb0
      isplitl [Hw1]; · iexists _, _; iexact Hw1
      isplitl [Ho2]; · iexact Ho2
      iexact Ho3
    | 2, hk =>
      -- trip 2: block 0's write-back is waited for, then slot 0 is reused
      have k0_h1 : k0_cond1 t2 = 1#1 := by decide
      change inv2 d L O W q ft ⊢ wp frame (wpE (defs₀ (F := F)) 𝒱₀ (tile d L) none) Set.univ (tile_run0.sl.prog.body_1 L t2 u) (fun _ => inv3 d L O W q ft)
      unfold inv2 common slotBusy outHeld
      iintro ⟨⟨Hmw, Ht, ⟨%g5, %hin, H5⟩, H6, Hg0, Hg1, %W', %hW', HO⟩, ⟨%fo0, %fc0, Hw0⟩, Hb1, ⟨%o2, Ho2⟩, Ho3⟩
      icases H6 with ⟨%r6, H6⟩
      have hinT : ∀ x, (((s0W).slice (Rect.unit (s := S512) ![256] S128.size inb_w256) (fun _ => rfl)).view.read (Elt F) g5 x).toNat
          < S1000x128.size gathers_S1000x128_S128x128.axis := hin ![256] inb_w256
      have hinK : ∀ x, ((offsAt t2).view.read (Elt F) g5 x).toNat < S1000x128.size gathers_S1000x128_S128x128.axis := hin _ _
      sl_exec
      ihave Hc := (Entails.of_eq (show ((s2W).view.loc (tile d L) ↦[(crowsAt t0).view.set]{fullShare} fc0 : sProp 𝕄)
          = ((s2W).view.loc (tile d L) ↦[Finset.univ \ (crowsAt t1).view.set]{fullShare} fc0) from by rw [crows_compl01])) $$ Hw0_src
      sl_for (invC (F := F) d L t1) $$ [H6 Hc]
      case region =>
        intro j _
        unfold invC crowsHeld
        iintro ⟨⟨%r, H6⟩, ⟨%f, Hc⟩⟩
        sl_exec
        sl_step
        isplitl [H6]; · iexists _; iexact H6
        iexists _; iexact Hc
      · unfold invC crowsHeld
        isplitl [H6]; · iexists _; iexact H6
        iexists _; iexact Hc
      iintro %_ HI
      unfold invC crowsHeld
      icases HI with ⟨⟨%r, H6⟩, ⟨%f, Hc⟩⟩
      sl_exec
      sl_step
      iclear Hc
      unfold inv3 common slotBusy outHeld
      isplitl [Hmw Ht H5 H6 Hg0 Hg1 HO]
      · isplitl [Hmw]; · iexact Hmw
        isplitl [Ht]; · iexact Ht
        isplitl [H5]
        · iexists g5; isplitr
          · ipureintro; exact hin
          · iexact H5
        isplitl [H6]; · iexists _; iexact H6
        isplitl [Hg0]; · iexact Hg0
        isplitl [Hg1]; · iexact Hg1
        iexists (insert (SemLoc.dma gS0, (default : HIx 4)) (insert (SemLoc.dma wS0, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hw0]; · iexists _, _; iexact Hw0
      isplitl [Hb1]; · iexact Hb1
      isplitl [Hw0_dst]; · iexists _; iexact Hw0_dst
      iexact Ho3
    | 3, hk =>
      -- trip 3: block 1's write-back is waited for, then slot 1 is reused
      have k0_h1 : k0_cond1 t3 = 1#1 := by decide
      change inv3 d L O W q ft ⊢ wp frame (wpE (defs₀ (F := F)) 𝒱₀ (tile d L) none) Set.univ (tile_run0.sl.prog.body_1 L t3 u) (fun _ => inv4 d L O W q ft)
      unfold inv3 common slotBusy outHeld
      iintro ⟨⟨Hmw, Ht, ⟨%g5, %hin, H5⟩, H6, Hg0, Hg1, %W', %hW', HO⟩, Hb0, ⟨%fo1, %fc1, Hw1⟩, Ho0, ⟨%o3, Ho3⟩⟩
      icases H6 with ⟨%r6, H6⟩
      have hinT : ∀ x, (((s0W).slice (Rect.unit (s := S512) ![384] S128.size inb_w384) (fun _ => rfl)).view.read (Elt F) g5 x).toNat
          < S1000x128.size gathers_S1000x128_S128x128.axis := hin ![384] inb_w384
      have hinK : ∀ x, ((offsAt t3).view.read (Elt F) g5 x).toNat < S1000x128.size gathers_S1000x128_S128x128.axis := hin _ _
      sl_exec
      ihave Hc := (Entails.of_eq (show ((s2W).view.loc (tile d L) ↦[(crowsAt t1).view.set]{fullShare} fc1 : sProp 𝕄)
          = ((s2W).view.loc (tile d L) ↦[Finset.univ \ (crowsAt t0).view.set]{fullShare} fc1) from by rw [crows_compl10])) $$ Hw1_src
      sl_for (invC (F := F) d L t0) $$ [H6 Hc]
      case region =>
        intro j _
        unfold invC crowsHeld
        iintro ⟨⟨%r, H6⟩, ⟨%f, Hc⟩⟩
        sl_exec
        sl_step
        isplitl [H6]; · iexists _; iexact H6
        iexists _; iexact Hc
      · unfold invC crowsHeld
        isplitl [H6]; · iexists _; iexact H6
        iexists _; iexact Hc
      iintro %_ HI
      unfold invC crowsHeld
      icases HI with ⟨⟨%r, H6⟩, ⟨%f, Hc⟩⟩
      sl_exec
      sl_step
      iclear Hc
      unfold inv4 common slotBusy outHeld
      isplitl [Hmw Ht H5 H6 Hg0 Hg1 HO]
      · isplitl [Hmw]; · iexact Hmw
        isplitl [Ht]; · iexact Ht
        isplitl [H5]
        · iexists g5; isplitr
          · ipureintro; exact hin
          · iexact H5
        isplitl [H6]; · iexists _; iexact H6
        isplitl [Hg0]; · iexact Hg0
        isplitl [Hg1]; · iexact Hg1
        iexists (insert (SemLoc.dma gS1, (default : HIx 4)) (insert (SemLoc.dma wS1, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hb0]; · iexact Hb0
      isplitl [Hw1]; · iexists _, _; iexact Hw1
      isplitl [Ho0]; · iexact Ho0
      iexists _; iexact Hw1_dst
  · -- before the first trip
    iapply (Entails.of_eq (show inv0 d L O W q ft = invO d L O W q ft 0 PUnit.unit from rfl))
    unfold inv0 common slotFree outHeld crowsHeld
    isplitl [Hmw Ht H5 H6 Hg0 Hg1 HO]
    · isplitl [Hmw]; · iexact Hmw
      isplitl [Ht]; · iexact Ht
      isplitl [H5]
      · iexists _; isplitr
        · ipureintro; exact h5
        · iexact H5
      isplitl [H6]; · iexact H6
      isplitl [Hg0]; · iexact Hg0
      isplitl [Hg1]; · iexact Hg1
      iexists (insert (SemLoc.dma pS, (default : HIx 4)) W); isplitr
      · ipureintro; intro p hp
        rcases Finset.mem_insert.mp hp with hp | hp
        · exact Or.inr (by subst hp; rfl)
        · exact Or.inl hp
      · iexact HO
    isplitl [Hw0 Hc0]; · isplitl [Hw0]; · iexact Hw0
                         iexact Hc0
    isplitl [Hw1 Hc1]; · isplitl [Hw1]; · iexact Hw1
                         iexact Hc1
    isplitl [Ho0]; · iexact Ho0
    isplitl [Ho1]; · iexact Ho1
    isplitl [Ho2]; · iexact Ho2
    iexact Ho3
  -- after the loop: the last two write-backs
  iintro %acc HI
  ihave HI' := (Entails.of_eq (show invO d L O W q ft (Scf.trips k0_t1_loop.lb k0_t1_loop.ub k0_t1_loop.st) acc = inv4 d L O W q ft from rfl)) $$ HI
  unfold inv4 common slotBusy outHeld
  icases HI' with ⟨⟨Hmw, Ht, ⟨%g5, %hin, H5⟩, H6, Hg0, Hg1, %W', %hW', HO⟩, ⟨%fo2, %fc2, Hw0⟩, ⟨%fo3, %fc3, Hw1⟩, Ho0, Ho1⟩
  sl_exec
  sl_step
  isplitl [Ht]; · iexact Ht
  isplitl [Hi]; · iexact Hi
  isplitl [H5]; · iexists _; iexact H5
  isplitl [H6]; · iexact H6
  isplitl [Hw0_src]; · iexists _; iexact Hw0_src
  isplitl [Hw1_src]; · iexists _; iexact Hw1_src
  isplitl [Ho0]; · iexact Ho0
  isplitl [Ho1]; · iexact Ho1
  isplitl [Hw0_dst]; · iexists _; iexact Hw0_dst
  isplitl [Hw1_dst]; · iexists _; iexact Hw1_dst
  isplitl [Hg0]; · iexact Hg0
  isplitl [Hg1]; · iexact Hg1
  isplitl [Hw0]; · iexact Hw0
  isplitl [Hw1]; · iexact Hw1
  isplitl [Hp]; · iexact Hp
  iexists (insert (SemLoc.dma wS1, (default : HIx 4)) (insert (SemLoc.dma wS0, (default : HIx 4)) W')); isplitr
  · ipureintro; intro p hp
    rcases Finset.mem_insert.mp hp with hp | hp
    · exact Or.inr (by subst hp; rfl)
    rcases Finset.mem_insert.mp hp with hp | hp
    · exact Or.inr (by subst hp; rfl)
    · exact hW' p hp
  · iexact HO

end Cert.KernelIdeal.Hand

end
-- ==== Proof.KernelIdeal.TileObl0.lean ====
/-
  The first gather call's task as the launch theorem wants it: from what a vector subcore is handed at the call — its
  share of the table, its slice of the token words, its blocks of the result — and its own scratch buffers and
  semaphores, to the same handed back. The subcore's scratch and semaphores are picked out of everything it owns, the
  two-slot compact-rows scratch is cut into its halves for the run and glued back afterwards, and the run itself is
  `tile_run0`.
-/
import proofs.«203661_g84404697301628_cont_9to1_m_135_26_alg».proof.Proof.KernelIdeal.TileRun0
import proofs.«203661_g84404697301628_cont_9to1_m_135_26_alg».proof.Proof.Pay
import Idealize.ShloMosaic.Lib.SparseCore.Ops

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [hK : Cert.KernelIdeal.Facts] [FloatOps F]

local notation "𝕄" => MT nD τ sig (HIx 4) (Elt F) ℕ UU ℕ

local notation "tblW" => (Memref.whole Cert.KernelIdeal.main_v0_scv : Memref Cert.KernelIdeal.sig Kind.scVector Space.hbm Cert.KernelIdeal.S1000x128 EltTy.f32)
local notation "idxW" => (Memref.whole Cert.KernelIdeal.main_v5_scv : Memref Cert.KernelIdeal.sig Kind.scVector Space.hbm Cert.KernelIdeal.S16384 EltTy.i32)
local notation "outW" => (Memref.whole Cert.KernelIdeal.main_v6_scv : Memref Cert.KernelIdeal.sig Kind.scVector Space.hbm Cert.KernelIdeal.S1x16384x32 EltTy.f32)
local notation "s0W" => (Memref.whole Cert.KernelIdeal.cc0_scratch0 : Memref Cert.KernelIdeal.sig Kind.scVector Space.vmem Cert.KernelIdeal.S512 EltTy.i32)
local notation "s1W" => (Memref.whole Cert.KernelIdeal.cc0_scratch1 : Memref Cert.KernelIdeal.sig Kind.scVector Space.vmem Cert.KernelIdeal.S2x128x128 EltTy.f32)
local notation "s2W" => (Memref.whole Cert.KernelIdeal.cc0_scratch2 : Memref Cert.KernelIdeal.sig Kind.scVector Space.vmem Cert.KernelIdeal.S2x128x32 EltTy.f32)
local notation "gS0" => (⟨0, by decide⟩ : DmaSem Cert.KernelIdeal.sig)
local notation "gS1" => (⟨1, by decide⟩ : DmaSem Cert.KernelIdeal.sig)
local notation "wS0" => (⟨2, by decide⟩ : DmaSem Cert.KernelIdeal.sig)
local notation "wS1" => (⟨3, by decide⟩ : DmaSem Cert.KernelIdeal.sig)
local notation "pS" => (⟨4, by decide⟩ : DmaSem Cert.KernelIdeal.sig)

/-- the first call's token words, as the TensorCore names them -/
abbrev idxLoc0 (d : Dev nD) : Loc nD τ sig := (SparseCore.T d).loc main_v5

/-- the grid point of subcore `i` of SparseCore `c` -/
def coords0 (c : Fin 2) (i : Fin 16) : grid0.Coords :=
  fun | 0 => c | 1 => i | ⟨_ + 2, h⟩ => absurd h (Nat.not_lt.2 (Nat.le_add_left _ _))

/-- what subcore `(c, i)` is handed for the first call besides the table: its slice of the token words, at the words
    `wd`, and its four blocks of the result, at some contents -/
def Rs0 (wd : (d : Dev nD) → Buf (Elt F) (idxLoc0 d)) (d : Dev nD) (c : Fin 2) (i : Fin 16) : sProp 𝕄 :=
  iprop(((idxSl (coords0 c i)).view.loc (tile d (coords0 c i)) ↦[(idxSl (coords0 c i)).view.set]{fullShare} wd d)
    ∗ outHeld (F := F) d (coords0 c i) t0 ∗ outHeld (F := F) d (coords0 c i) t1
    ∗ outHeld (F := F) d (coords0 c i) t2 ∗ outHeld (F := F) d (coords0 c i) t3)

section Tile

variable (d : Dev nD) (L : grid0.Coords)

omit [FloatOps F] in
theorem mem_own (k : DmaSem sig) (hk : (SemLoc.dma k : SemLoc sig).isScoped .scVector = true) :
    ((tile d L, SemLoc.dma k) : GSem nD τ sig) ∈ ownCells (sig := sig) (tile d L) :=
  (mem_ownCells (g := (tile d L, SemLoc.dma k))).mpr ⟨rfl, hk⟩
omit [FloatOps F] in
theorem ne_cell {k k' : DmaSem sig} (h : k ≠ k') : ((tile d L, SemLoc.dma k) : GSem nD τ sig) ≠ (tile d L, SemLoc.dma k') :=
  fun e => h (SemLoc.dma.inj (Prod.mk.inj e).2)

omit [FloatOps F] in
/-- the five semaphores this call uses are among the subcore's own: they, and the rest -/
theorem ownSems0_V0 :
    (ownSems0 (tile d L) : sProp 𝕄)
      = iprop(semVal (tile d L, SemLoc.dma gS0) 0 ∗ semVal (tile d L, SemLoc.dma gS1) 0 ∗ semVal (tile d L, SemLoc.dma wS0) 0
          ∗ semVal (tile d L, SemLoc.dma wS1) 0 ∗ semVal (tile d L, SemLoc.dma pS) 0
          ∗ bigSep ((((((ownCells (tile d L)).erase (tile d L, SemLoc.dma gS0)).erase (tile d L, SemLoc.dma gS1)).erase (tile d L, SemLoc.dma wS0)).erase
              (tile d L, SemLoc.dma wS1)).erase (tile d L, SemLoc.dma pS)) fun g => semVal g 0) := by
  unfold SparseCore.Cfg.ownSems0
  rw [SparseCore.bigSep_erase' (mem_own d L gS0 (by decide)),
    SparseCore.bigSep_erase' (Finset.mem_erase.mpr ⟨ne_cell d L (k := gS1) (k' := gS0) (by decide), mem_own d L gS1 (by decide)⟩),
    SparseCore.bigSep_erase' (Finset.mem_erase.mpr ⟨ne_cell d L (k := wS0) (k' := gS1) (by decide), Finset.mem_erase.mpr ⟨ne_cell d L (k := wS0) (k' := gS0) (by decide), mem_own d L wS0 (by decide)⟩⟩),
    SparseCore.bigSep_erase' (Finset.mem_erase.mpr ⟨ne_cell d L (k := wS1) (k' := wS0) (by decide), Finset.mem_erase.mpr ⟨ne_cell d L (k := wS1) (k' := gS1) (by decide), Finset.mem_erase.mpr ⟨ne_cell d L (k := wS1) (k' := gS0) (by decide), mem_own d L wS1 (by decide)⟩⟩⟩),
    SparseCore.bigSep_erase' (Finset.mem_erase.mpr ⟨ne_cell d L (k := pS) (k' := wS1) (by decide), Finset.mem_erase.mpr ⟨ne_cell d L (k := pS) (k' := wS0) (by decide), Finset.mem_erase.mpr ⟨ne_cell d L (k := pS) (k' := gS1) (by decide), Finset.mem_erase.mpr ⟨ne_cell d L (k := pS) (k' := gS0) (by decide), mem_own d L pS (by decide)⟩⟩⟩⟩)]

omit [FloatOps F] in
/-- the three scratch buffers are among the subcore's own: they, at some contents, and the rest -/
theorem ownBufs_V0 :
    (ownBufs (tile d L) : sProp 𝕄)
      = iprop((∃ f, (tile d L).loc cc0_scratch0 ↦{fullShare} f) ∗ (∃ f, (tile d L).loc cc0_scratch1 ↦{fullShare} f)
          ∗ (∃ f, (tile d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

omit [FloatOps F] in
/-- the compact-rows scratch, held whole, is its two halves (each as "all but the other") -/
theorem crows_split (f : Buf (Elt F) ((s2W).view.loc (tile d L))) :
    ((s2W).view.loc (tile d L) ↦[Finset.univ]{fullShare} f : sProp 𝕄)
      ⊢ iprop(((s2W).view.loc (tile d L) ↦[Finset.univ \ (crowsAt t1).view.set]{fullShare} f)
          ∗ ((s2W).view.loc (tile d L) ↦[Finset.univ \ (crowsAt t0).view.set]{fullShare} f)) := by
  have h : ((s2W).view.loc (tile d L) ↦[Finset.univ]{fullShare} f : sProp 𝕄)
      ⊢ iprop(((s2W).view.loc (tile d L) ↦[Finset.univ \ (crowsAt t1).view.set]{fullShare} f)
          ∗ ((s2W).view.loc (tile d L) ↦[Finset.univ \ (Finset.univ \ (crowsAt t1).view.set)]{fullShare} f)) :=
    (pointsTo_split_subset (Finset.subset_univ (Finset.univ \ (crowsAt t1).view.set))).1
  have e : Finset.univ \ (Finset.univ \ (crowsAt t1).view.set) = Finset.univ \ (crowsAt t0).view.set := by rw [crows_compl01]
  rw [e] at h
  exact h

omit [FloatOps F] in
theorem crows_set_20 : (crowsAt t2).view.set = (crowsAt t0).view.set :=
  Finset.ext fun x => by rw [mem_crowsAt, mem_crowsAt, show k0_off12 t2 = k0_off12 t0 from by decide]
omit [FloatOps F] in
theorem crows_set_31 : (crowsAt t3).view.set = (crowsAt t1).view.set :=
  Finset.ext fun x => by rw [mem_crowsAt, mem_crowsAt, show k0_off12 t3 = k0_off12 t1 from by decide]

omit [FloatOps F] in
/-- and the two halves, at whatever each holds, are the scratch whole again -/
theorem crows_join (f g : Buf (Elt F) ((s2W).view.loc (tile d L))) :
    iprop(((s2W).view.loc (tile d L) ↦[(crowsAt t2).view.set]{fullShare} f) ∗ ((s2W).view.loc (tile d L) ↦[(crowsAt t3).view.set]{fullShare} g))
      ⊢ (iprop(∃ h, (s2W).view.loc (tile d L) ↦[Finset.univ]{fullShare} h) : sProp 𝕄) := by
  rw [crows_set_20, crows_set_31]
  have hd : Disjoint (crowsAt t0).view.set (crowsAt t1).view.set := by
    rw [← crows_compl01]; exact Finset.sdiff_disjoint
  have hu : (crowsAt t0).view.set ∪ (crowsAt t1).view.set = Finset.univ := by
    rw [← crows_compl01]; exact Finset.sdiff_union_of_subset (Finset.subset_univ _)
  refine (pointsTo_join hd).trans ?_
  rw [hu]
  iintro H; iexists _; iexact H

/-- The task on one vector subcore, in the launch theorem's resources: the table's share, the subcore's words and blocks,
    and its own scoped storage in; the same out. -/
theorem tile_body0 (hF : (K (F := F)).Facts) (tb : (d : Dev nD) → Buf (Elt F) (tblLoc d)) (wd : (d : Dev nD) → Buf (Elt F) (idxLoc0 d))
    (hwd : ∀ d y, (wd d y).toNat < 1000) (q : PosShare TreeShare)
    (lv : GSem nD τ sig → HIx 4 → ℕ) (hlv : (K (F := F)).Refines lv)
    (O : CellTallies nD τ sig (HIx 4)) (W : Waits sig (HIx 4)) (hO : ∀ g, O g none = 0) :
    iprop(levAts (K (F := F)).L lv ∗ emp
        ∗ ((tblLoc d ↦{q} tb d)
            ∗ ((idxSl L).view.loc (tile d L) ↦[(idxSl L).view.set]{fullShare} wd d)
            ∗ outHeld (F := F) d L t0 ∗ outHeld (F := F) d L t1 ∗ outHeld (F := F) d L t2 ∗ outHeld (F := F) d L t3)
        ∗ scopedBufs (tile d L) ∗ scopedSems0 (tile d L) ∗ owes (tile d L) O W)
      ⊢ wp frame (wpE (defs₀ (F := F)) 𝒱₀ (tile d L) none) Set.univ
          (cc0_gather_kernel L tblW (Memref.isWhole_whole _) idxW (Memref.isWhole_whole _) outW (Memref.isWhole_whole _)
            s0W (Memref.isWhole_whole _) s1W (Memref.isWhole_whole _) s2W (Memref.isWhole_whole _) cc0_scratch3 cc0_scratch4 cc0_scoped0)
          fun _ => iprop(((tblLoc d ↦{q} tb d)
            ∗ ((idxSl L).view.loc (tile d L) ↦[(idxSl L).view.set]{fullShare} wd d)
            ∗ outHeld (F := F) d L t0 ∗ outHeld (F := F) d L t1 ∗ outHeld (F := F) d L t2 ∗ outHeld (F := F) d L t3)
            ∗ scopedBufs (tile d L) ∗ scopedSems0 (tile d L)
            ∗ ∃ W', ⌜∀ p ∈ W', p ∈ W ∨ p.2 = none⌝ ∗ owes (tile d L) O W') := by
  rw [(K (F := F)).scopedBufs_V hF d (cV L) (jV L), SparseCore.Cfg.scopedSems0_V (Val := Elt F) d (cV L) (jV L), ownSems0_V0, ownBufs_V0]
  iintro ⟨#Hlv, -, ⟨Ht, Hi, Ho0, Ho1, Ho2, Ho3⟩, ⟨H5, H6, ⟨%f7, H7⟩, Hbufs⟩, ⟨Hg0, Hg1, Hw0, Hw1, Hp, Hsems⟩, HO⟩
  ihave Hmw := ((K (F := F)).mayWaits_none (thr := tile d L) hO lv hlv) $$ Hlv
  ihave Hc := (crows_split (F := F) d L f7) $$ H7
  icases Hc with ⟨Hc1, Hc0⟩
  iapply (wp_wand_r frame (wpE (defs₀ (F := F)) 𝒱₀ (tile d L) none) Set.univ)
  isplitl [Hmw Ht Hi H5 H6 Hc0 Hc1 Ho0 Ho1 Ho2 Ho3 Hg0 Hg1 Hw0 Hw1 Hp HO]
  · iapply (tile_run0 (F := F) d L O W q (tb d) (wd d) (hwd d))
    isplitl [Hmw]; · iexact Hmw
    isplitl [Ht]; · iexact Ht
    isplitl [Hi]; · iexact Hi
    isplitl [H5]; · iexact H5
    isplitl [H6]; · iexact H6
    isplitl [Hc1]; · unfold crowsHeld; iexists _; iexact Hc1
    isplitl [Hc0]; · unfold crowsHeld; iexists _; iexact Hc0
    isplitl [Ho0]; · iexact Ho0
    isplitl [Ho1]; · iexact Ho1
    isplitl [Ho2]; · iexact Ho2
    isplitl [Ho3]; · iexact Ho3
    isplitl [Hg0]; · iexact Hg0
    isplitl [Hg1]; · iexact Hg1
    isplitl [Hw0]; · iexact Hw0
    isplitl [Hw1]; · iexact Hw1
    isplitl [Hp]; · iexact Hp
    iexact HO
  · iintro %a ⟨Ht, Hi, H5, H6, ⟨%c2, Hc2⟩, ⟨%c3, Hc3⟩, Ho0, Ho1, Ho2, Ho3, Hg0, Hg1, Hw0, Hw1, Hp, HO⟩
    ihave H7 := (crows_join (F := F) d L c2 c3) $$ [Hc2 Hc3]
    · isplitl [Hc2]; · iexact Hc2
      iexact Hc3
    isplitl [Ht Hi Ho0 Ho1 Ho2 Ho3]
    · isplitl [Ht]; · iexact Ht
      isplitl [Hi]; · iexact Hi
      isplitl [Ho0]; · iexact Ho0
      isplitl [Ho1]; · iexact Ho1
      isplitl [Ho2]; · iexact Ho2
      iexact Ho3
    isplitl [H5 H6 H7 Hbufs]
    · isplitl [H5]; · iexact H5
      isplitl [H6]; · iexact H6
      isplitl [H7]; · iexact H7
      iexact Hbufs
    isplitl [Hg0 Hg1 Hw0 Hw1 Hp Hsems]
    · isplitl [Hg0]; · iexact Hg0
      isplitl [Hg1]; · iexact Hg1
      isplitl [Hw0]; · iexact Hw0
      isplitl [Hw1]; · iexact Hw1
      isplitl [Hp]; · iexact Hp
      iexact Hsems
    iexact HO

end Tile

/-! ## The launch theorem's obligation for the first call -/

omit [FloatOps F] in
theorem defs₀_vector0 [FloatOps F] (c : Fin τ.nSC) (s : Fin τ.nSub) :
    defs₀ (F := F) (.scVector c s) 0 ()
      = SparseCore.onTile hcore0 hsub0 (fun c s => cc0_gather_kernel (coords0 c s) tblW (Memref.isWhole_whole _) idxW (Memref.isWhole_whole _)
          outW (Memref.isWhole_whole _) s0W (Memref.isWhole_whole _) s1W (Memref.isWhole_whole _) s2W (Memref.isWhole_whole _)
          cc0_scratch3 cc0_scratch4 cc0_scoped0) ⟨⟩ c s := rfl

omit [FloatOps F] in
theorem obl_post {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The first call's task obligation, for any family of subcore resources whose first-call member is `Rs0` at token
    words that all name table rows. -/
theorem tileObl0 (hF : (K (F := F)).Facts) (tb : (d : Dev nD) → Buf (Elt F) (tblLoc d)) (Rs : Fin 4 → Dev nD → Fin 2 → Fin 16 → sProp 𝕄)
    (wd : (d : Dev nD) → Buf (Elt F) (idxLoc0 d)) (hwd : ∀ d y, (wd d y).toNat < 1000)
    (hRs : ∀ d c i, Rs 0 d c i = Rs0 wd d c i)
    (lv : GSem nD τ sig → HIx 4 → ℕ) (hlv : (K (F := F)).Refines lv) :
    (K (F := F)).TileObl (D (F := F)) 𝒱 (P tb Rs) v₀ 0 lv := by
  intro d c i O W hO _ _
  simp only [show (P (F := F) tb Rs).ox = fun _ _ => 0 from rfl, add_zero]
  change iprop(levAts _ lv ∗ emp ∗ ((tblLoc d ↦{tileShare (Fin.cast (nCore_eq 0) c) (Fin.cast (nSub_eq 0) i)} tb d)
        ∗ Rs 0 d (Fin.cast (nCore_eq 0) c) (Fin.cast (nSub_eq 0) i)) ∗ _ ∗ _ ∗ _)
    ⊢ wp _ _ _ (Pipeline.liftProg (defs₀ (F := F) (.scVector ((K (F := F)).core 0 c) ((K (F := F)).sub 0 i)) 0 ()))
        (fun _ => iprop(((tblLoc d ↦{tileShare (Fin.cast (nCore_eq 0) c) (Fin.cast (nSub_eq 0) i)} tb d)
          ∗ Rs 0 d (Fin.cast (nCore_eq 0) c) (Fin.cast (nSub_eq 0) i)) ∗ _ ∗ _ ∗ _))
  rw [hRs]
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector0]; simp only [SparseCore.onTile, hc, and_self, ↓reduceDIte]
  unfold Rs0
  exact (tile_body0 (F := F) d (coords0 ⟨_, hc.1⟩ ⟨_, hc.2⟩) hF tb wd hwd _ lv hlv O W hO).trans (wp_mono frame _ _ fun _ => obl_post)

end Cert.KernelIdeal.Hand

end
-- ==== Proof.KernelIdeal.TileRun1.lean ====
/-
  One vector subcore's task in the second embedding-gather call, run to its end.

  The subcore at grid point (core, subcore) is worker `2·subcore + core`. It copies its 512 token words from the
  token list into a scratch, and then, four times: gathers the 128 table rows those words name into one half of a
  two-slot scratch (an indexed copy, legal because every word names a row of the 1000-row table), copies the first 32
  of each row's 128 columns into the matching half of a second two-slot scratch, and starts the copy of that half out
  to its 128 rows of the result. A slot's copy-out is waited for two trips later, just before the slot is written
  again, and the last two after the loop; so between its start and its wait nothing touches the copy's source or
  destination. Each copy is on a semaphore of the subcore's own with one copy in flight at a time.

  The loop's invariant says, before each of the four trips, which slot's copy-out is in flight and for which block of
  the result; a flying copy holds that block and the slot's half of the scratch until its wait returns them. The two
  halves of the scratch partition it (`crows_compl01`), which is what lets a half be held as "everything but the other
  half" while the other half is away; a trip's half is the first for an even trip and the second for an odd one
  (`crows_even`, `crows_odd`).
-/
import proofs.«203661_g84404697301628_cont_9to1_m_135_26_alg».proof.Proof.KCommon

noncomputable section

namespace Cert.KernelIdeal.Hand.C1

open Cert.KernelIdeal Cert.KernelIdeal.Gen Cert.KernelIdeal.Hand
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [hK : Cert.KernelIdeal.Facts] [FloatOps F]

local notation "𝕄" => MT nD τ sig (HIx 4) (Elt F) ℕ UU ℕ

local notation "tblW" => (Memref.whole Cert.KernelIdeal.main_v0_scv : Memref Cert.KernelIdeal.sig Kind.scVector Space.hbm Cert.KernelIdeal.S1000x128 EltTy.f32)
local notation "idxW" => (Memref.whole Cert.KernelIdeal.main_v7_scv : Memref Cert.KernelIdeal.sig Kind.scVector Space.hbm Cert.KernelIdeal.S16384 EltTy.i32)
local notation "outW" => (Memref.whole Cert.KernelIdeal.main_v8_scv : Memref Cert.KernelIdeal.sig Kind.scVector Space.hbm Cert.KernelIdeal.S1x16384x32 EltTy.f32)
local notation "s0W" => (Memref.whole Cert.KernelIdeal.cc1_scratch0 : Memref Cert.KernelIdeal.sig Kind.scVector Space.vmem Cert.KernelIdeal.S512 EltTy.i32)
local notation "s1W" => (Memref.whole Cert.KernelIdeal.cc1_scratch1 : Memref Cert.KernelIdeal.sig Kind.scVector Space.vmem Cert.KernelIdeal.S2x128x128 EltTy.f32)
local notation "s2W" => (Memref.whole Cert.KernelIdeal.cc1_scratch2 : Memref Cert.KernelIdeal.sig Kind.scVector Space.vmem Cert.KernelIdeal.S2x128x32 EltTy.f32)

variable (d : Dev nD) (L : grid1.Coords)

abbrev cV (L : grid1.Coords) : Fin τ.nSC := (L 0).castLE hcore1
abbrev jV (L : grid1.Coords) : Fin τ.nSub := (L 1).castLE hsub1
/-- the vector subcore at grid point `L` -/
abbrev tile : Thread nD τ := V d (cV L) (jV L)

/-- the part of the token list this subcore fetches -/
abbrev idxSl (L : grid1.Coords) : Memref sig .scVector .hbm S512 .i32 := (idxW).slice (Rect.unit (s := S16384) (k1_off1 L) S512.size (k1_off1_inb L)) (fun _ => rfl)
/-- trip `t`'s 128 words of the fetched list -/
abbrev offsAt (t : Fin k1_t1_loop.trips) : Memref sig .scVector .vmem S128 .i32 :=
  (s0W).slice (Rect.unit (s := S512) (k1_off6 t) S128.size (k1_off6_inb t)) (fun _ => rfl)
/-- the 128 rows of the result trip `t` writes -/
abbrev outAt (L : grid1.Coords) (t : Fin k1_t1_loop.trips) : Memref sig .scVector .hbm S128x32 .f32 :=
  ((outW).slice (Rect.unit (s := S1x16384x32) (k1_off13 L t) S1x128x32.size (k1_off13_inb L t)) (fun _ => rfl)).squeeze S128x32 squeezes_S1x128x32_S128x32
/-- the half of the compact-rows scratch trip `t` fills and copies out -/
abbrev crowsAt (t : Fin k1_t1_loop.trips) : Memref sig .scVector .vmem S128x32 .f32 :=
  ((s2W).slice (Rect.unit (s := S2x128x32) (k1_off12 t) S1x128x32.size (k1_off12_inb t)) (fun _ => rfl)).squeeze S128x32 squeezes_S1x128x32_S128x32

def t0 : Fin k1_t1_loop.trips := ⟨0, by decide⟩
def t1 : Fin k1_t1_loop.trips := ⟨1, by decide⟩
def t2 : Fin k1_t1_loop.trips := ⟨2, by decide⟩
def t3 : Fin k1_t1_loop.trips := ⟨3, by decide⟩

/-- the two gather semaphores and the two write-back semaphores, by slot; the prologue's copy semaphore -/
local notation "gS0" => (⟨5, by decide⟩ : DmaSem Cert.KernelIdeal.sig)
local notation "gS1" => (⟨6, by decide⟩ : DmaSem Cert.KernelIdeal.sig)
local notation "wS0" => (⟨7, by decide⟩ : DmaSem Cert.KernelIdeal.sig)
local notation "wS1" => (⟨8, by decide⟩ : DmaSem Cert.KernelIdeal.sig)
local notation "pS" => (⟨9, by decide⟩ : DmaSem Cert.KernelIdeal.sig)

/-- every word of the fetched list names a row of the table -/
def InRange (g5 : Buf (Elt F) ((s0W).view.loc (tile d L))) : Prop :=
  ∀ (o : Fin 1 → Nat) (h : ∀ a, o a + S128.size a ≤ S512.size a) (x : S128.Idx),
    (((s0W).slice (Rect.unit (s := S512) o S128.size h) (fun _ => rfl)).view.read (Elt F) g5 x).toNat < S1000x128.size gathers_S1000x128_S128x128.axis

/-- a block of the result, at some contents -/
def outHeld (t : Fin k1_t1_loop.trips) : sProp 𝕄 :=
  iprop(∃ f, (outAt L t).view.loc (tile d L) ↦[(outAt L t).view.set]{fullShare} f)
/-- a half of the compact-rows scratch (the one trip `t` uses), at some contents -/
def crowsHeld (t : Fin k1_t1_loop.trips) : sProp 𝕄 :=
  iprop(∃ f, (s2W).view.loc (tile d L) ↦[Finset.univ \ (crowsAt t).view.set]{fullShare} f)
/-- slot `s` idle: its write-back semaphore at zero and its half of the scratch in hand -/
def slotFree (w : DmaSem sig) (t : Fin k1_t1_loop.trips) : sProp 𝕄 :=
  iprop(semVal (tile d L, SemLoc.dma w) 0 ∗ crowsHeld (F := F) d L t)
/-- slot `s` busy: trip `t`'s write-back in flight, carrying its block of the result and its half of the scratch -/
def slotBusy (w : DmaSem sig) (t : Fin k1_t1_loop.trips) : sProp 𝕄 :=
  iprop(∃ fo f, Transfers.Flight (countersEmb (U := UU)) (tile d L) (SemLoc.dma w) (default : HIx 4) 131072
    iprop(((outAt L t).view.loc (tile d L) ↦[(outAt L t).view.set]{fullShare} fo)
      ∗ ((s2W).view.loc (tile d L) ↦[(crowsAt t).view.set]{fullShare} f)))

/-- what every trip keeps: the wait evidence, the table's share, the fetched list (in range), the gathered-rows scratch,
    both gather semaphores at zero, and what the subcore owes with the waits recorded so far -/
def common (O : CellTallies nD τ sig (HIx 4)) (W : Waits sig (HIx 4)) (q : PosShare TreeShare)
    (ft : Buf (Elt F) ((tblW).view.loc (tile d L))) : sProp 𝕄 :=
  iprop(Transfers.MayWaits (tile d L) (none : HIx 4) O
    ∗ ((tblW).view.loc (tile d L) ↦{q} ft)
    ∗ (∃ g5, ⌜InRange (F := F) d L g5⌝ ∗ (s0W).view.loc (tile d L) ↦{fullShare} g5)
    ∗ (∃ r, (s1W).view.loc (tile d L) ↦{fullShare} r)
    ∗ semVal (tile d L, SemLoc.dma gS0) 0 ∗ semVal (tile d L, SemLoc.dma gS1) 0
    ∗ ∃ W', ⌜∀ p ∈ W', p ∈ W ∨ p.2 = none⌝ ∗ owes (tile d L) O W')

section Inv
variable (O : CellTallies nD τ sig (HIx 4)) (W : Waits sig (HIx 4)) (q : PosShare TreeShare) (ft : Buf (Elt F) ((tblW).view.loc (tile d L)))
/-- before trip 0: both slots idle, every block in hand -/
def inv0 : sProp 𝕄 := iprop(common d L O W q ft ∗ slotFree d L wS0 t1 ∗ slotFree d L wS1 t0 ∗ outHeld d L t0 ∗ outHeld d L t1 ∗ outHeld d L t2 ∗ outHeld d L t3)
/-- before trip 1: block 0 flying, every other block in hand -/
def inv1 : sProp 𝕄 := iprop(common d L O W q ft ∗ slotBusy d L wS0 t0 ∗ slotFree d L wS1 t0 ∗ outHeld d L t1 ∗ outHeld d L t2 ∗ outHeld d L t3)
/-- before trip 2: blocks 0 and 1 flying, every other block in hand -/
def inv2 : sProp 𝕄 := iprop(common d L O W q ft ∗ slotBusy d L wS0 t0 ∗ slotBusy d L wS1 t1 ∗ outHeld d L t2 ∗ outHeld d L t3)
/-- before trip 3: blocks 1 and 2 flying, every other block in hand -/
def inv3 : sProp 𝕄 := iprop(common d L O W q ft ∗ slotBusy d L wS0 t2 ∗ slotBusy d L wS1 t1 ∗ outHeld d L t0 ∗ outHeld d L t3)
/-- after trip 3: blocks 2 and 3 flying, every other block in hand -/
def inv4 : sProp 𝕄 := iprop(common d L O W q ft ∗ slotBusy d L wS0 t2 ∗ slotBusy d L wS1 t3 ∗ outHeld d L t0 ∗ outHeld d L t1)
/-- the outer loop's invariant before trip `k` -/
def invO (k : Nat) (_ : PUnit) : sProp 𝕄 :=
  match k with
  | 0 => inv0 d L O W q ft
  | 1 => inv1 d L O W q ft
  | 2 => inv2 d L O W q ft
  | 3 => inv3 d L O W q ft
  | _ => inv4 d L O W q ft
end Inv

/-- the compaction loop's invariant, contents untracked: the gathered rows and trip `t`'s half of the compact rows in hand -/
def invC (t : Fin k1_t1_loop.trips) (_ : Nat) (_ : PUnit) : sProp 𝕄 :=
  iprop((∃ r, (s1W).view.loc (tile d L) ↦{fullShare} r) ∗ crowsHeld (F := F) d L t)

/-- an element lies in trip `t`'s half of the compact-rows scratch exactly when each coordinate lies in the half's box -/
theorem mem_crowsAt (t : Fin k1_t1_loop.trips) (x : S2x128x32.Idx) :
    x ∈ (crowsAt t).view.set ↔ ∀ a, k1_off12 t a ≤ x a ∧ (x a : Nat) < k1_off12 t a + S1x128x32.size a := by
  have hs : ((crowsAt t).view.set : Finset S2x128x32.Idx)
      = (Rect.unit (s := S2x128x32) (k1_off12 t) S1x128x32.size (k1_off12_inb t)).set := by
    show (((View.whole cc1_scratch2).slice (Rect.unit (s := S2x128x32) (k1_off12 t) S1x128x32.size (k1_off12_inb t))).reshape S128x32 _).set = _
    rw [View.set_reshape, View.set_slice_whole]
  constructor
  · intro h; exact Rect.mem_set_unit.mp (hs ▸ h)
  · intro h; exact hs ▸ Rect.mem_set_unit.mpr h

/-- the two halves partition the scratch: what is not in the second half is the first half -/
theorem crows_compl01 : Finset.univ \ (crowsAt t1).view.set = (crowsAt t0).view.set := by
  ext x
  rw [Finset.mem_sdiff, mem_crowsAt, mem_crowsAt]
  simp only [Finset.mem_univ, true_and]
  have e0 : k1_off12 t0 = ![0, 0, 0] := by decide
  have e1 : k1_off12 t1 = ![1, 0, 0] := by decide
  rw [e0, e1]
  have h0 : (x 0 : Nat) < 2 := (x 0).isLt
  have h1 : (x 1 : Nat) < 128 := (x 1).isLt
  have h2 : (x 2 : Nat) < 32 := (x 2).isLt
  constructor
  · intro h a
    have hx0 : (x 0 : Nat) = 0 := by
      by_contra hne
      exact h (fun b => by
        match b with
        | ⟨0, _⟩ => exact ⟨by show 1 ≤ (x 0 : Nat); omega, by show (x 0 : Nat) < 1 + 1; omega⟩
        | ⟨1, _⟩ => exact ⟨Nat.zero_le _, by show (x 1 : Nat) < 0 + 128; omega⟩
        | ⟨2, _⟩ => exact ⟨Nat.zero_le _, by show (x 2 : Nat) < 0 + 32; omega⟩)
    match a with
    | ⟨0, _⟩ => exact ⟨Nat.zero_le _, by show (x 0 : Nat) < 0 + 1; omega⟩
    | ⟨1, _⟩ => exact ⟨Nat.zero_le _, by show (x 1 : Nat) < 0 + 128; omega⟩
    | ⟨2, _⟩ => exact ⟨Nat.zero_le _, by show (x 2 : Nat) < 0 + 32; omega⟩
  · intro h hc
    have a0 : (x 0 : Nat) < 0 + 1 := (h 0).2
    have b0 : 1 ≤ (x 0 : Nat) := (hc 0).1
    omega

/-- and what is not in the first half is the second -/
theorem crows_compl10 : Finset.univ \ (crowsAt t0).view.set = (crowsAt t1).view.set := by
  rw [← crows_compl01, sdiff_sdiff_right_self]
  exact inf_eq_right.mpr (Finset.subset_univ _)

/-- two trips whose halves start at the same place use the same half -/
theorem crows_set_congr (t s : Fin k1_t1_loop.trips) (h : k1_off12 t = k1_off12 s) : (crowsAt t).view.set = (crowsAt s).view.set := by
  ext x
  rw [mem_crowsAt, mem_crowsAt, h]

/-- an even trip's half is the first: everything but the second -/
theorem crows_even (t : Fin k1_t1_loop.trips) (h : k1_off12 t = k1_off12 t0) :
    (crowsAt t).view.set = Finset.univ \ (crowsAt t1).view.set := by
  rw [crows_compl01]; exact crows_set_congr t t0 h
/-- an odd trip's half is the second: everything but the first -/
theorem crows_odd (t : Fin k1_t1_loop.trips) (h : k1_off12 t = k1_off12 t1) :
    (crowsAt t).view.set = Finset.univ \ (crowsAt t0).view.set := by
  rw [crows_compl10]; exact crows_set_congr t t1 h

theorem inb_w0 : ∀ a, (![0] : Fin 1 → Nat) a + S128.size a ≤ S512.size a := by decide
theorem inb_w128 : ∀ a, (![128] : Fin 1 → Nat) a + S128.size a ≤ S512.size a := by decide
theorem inb_w256 : ∀ a, (![256] : Fin 1 → Nat) a + S128.size a ≤ S512.size a := by decide
theorem inb_w384 : ∀ a, (![384] : Fin 1 → Nat) a + S128.size a ≤ S512.size a := by decide

theorem size_tbl : S1000x128.size gathers_S1000x128_S128x128.axis = 1000 := by decide

set_option maxHeartbeats 400000 in
/-- One vector subcore's whole task for the second gather call: fetch its 512 token words, then four times gather 128 table
    rows, compact their first 32 columns, and start the block's write-back, waiting for a slot's previous write-back
    before reusing the slot; at the end wait for the last two. Every copy is the subcore's own on a semaphore nobody
    else touches, one in flight per semaphore; a write-back stays in flight across two trips of the loop, carried in the
    loop's invariant together with the block of the result and the half of the scratch it holds. Contents are not tracked
    here: the task ends, faults nowhere, and hands back what it was handed. -/
theorem tile_run1 (O : CellTallies nD τ sig (HIx 4)) (W : Waits sig (HIx 4)) (q : PosShare TreeShare)
    (ft : Buf (Elt F) ((tblW).view.loc (tile d L))) (fi : Buf (Elt F) ((idxSl L).view.loc (tile d L)))
    (hfi : ∀ y, (fi y).toNat < 1000) :
    iprop(Transfers.MayWaits (tile d L) (none : HIx 4) O
        ∗ ((tblW).view.loc (tile d L) ↦{q} ft)
        ∗ ((idxSl L).view.loc (tile d L) ↦[(idxSl L).view.set]{fullShare} fi)
        ∗ (∃ f5, (s0W).view.loc (tile d L) ↦{fullShare} f5)
        ∗ (∃ r, (s1W).view.loc (tile d L) ↦{fullShare} r)
        ∗ crowsHeld (F := F) d L t1 ∗ crowsHeld (F := F) d L t0
        ∗ outHeld (F := F) d L t0 ∗ outHeld (F := F) d L t1 ∗ outHeld (F := F) d L t2 ∗ outHeld (F := F) d L t3
        ∗ semVal (tile d L, SemLoc.dma gS0) 0 ∗ semVal (tile d L, SemLoc.dma gS1) 0
        ∗ semVal (tile d L, SemLoc.dma wS0) 0 ∗ semVal (tile d L, SemLoc.dma wS1) 0
        ∗ semVal (tile d L, SemLoc.dma pS) 0
        ∗ owes (tile d L) O W)
      ⊢ wp frame (wpE (defs₀ (F := F)) 𝒱₀ (tile d L) none) Set.univ
          (cc1_gather_kernel L tblW (Memref.isWhole_whole _) idxW (Memref.isWhole_whole _) outW (Memref.isWhole_whole _)
            s0W (Memref.isWhole_whole _) s1W (Memref.isWhole_whole _) s2W (Memref.isWhole_whole _) cc1_scratch3 cc1_scratch4 cc1_scoped0)
          (fun _ => iprop(((tblW).view.loc (tile d L) ↦{q} ft)
            ∗ ((idxSl L).view.loc (tile d L) ↦[(idxSl L).view.set]{fullShare} fi)
            ∗ (∃ f5, (s0W).view.loc (tile d L) ↦{fullShare} f5)
            ∗ (∃ r, (s1W).view.loc (tile d L) ↦{fullShare} r)
            ∗ (∃ f, (s2W).view.loc (tile d L) ↦[(crowsAt t2).view.set]{fullShare} f)
            ∗ (∃ f, (s2W).view.loc (tile d L) ↦[(crowsAt t3).view.set]{fullShare} f)
            ∗ outHeld (F := F) d L t0 ∗ outHeld (F := F) d L t1 ∗ outHeld (F := F) d L t2 ∗ outHeld (F := F) d L t3
            ∗ semVal (tile d L, SemLoc.dma gS0) 0 ∗ semVal (tile d L, SemLoc.dma gS1) 0
            ∗ semVal (tile d L, SemLoc.dma wS0) 0 ∗ semVal (tile d L, SemLoc.dma wS1) 0
            ∗ semVal (tile d L, SemLoc.dma pS) 0
            ∗ ∃ W', ⌜∀ p ∈ W', p ∈ W ∨ p.2 = none⌝ ∗ owes (tile d L) O W')) := by
  rw [cc1_gather_kernel_eq_skeleton]; unfold cc1_gather_kernel_skel
  iintro ⟨Hmw, Ht, Hi, ⟨%f5, H5⟩, H6, Hc0, Hc1, Ho0, Ho1, Ho2, Ho3, Hg0, Hg1, Hw0, Hw1, Hp, HO⟩
  sl_exec
  have h5 : InRange (F := F) d L (View.write (Elt F) (s0W).view f5 (tile_run1.sl.dma0 d L fi) Finset.univ) := by
    intro o h x
    rw [View.write_whole_univ, size_tbl]
    unfold tile_run1.sl.dma0
    simp only [View.read_apply]
    exact hfi _
  sl_for (invO d L O W q ft) $$ [Hmw Ht H5 H6 Hc0 Hc1 Ho0 Ho1 Ho2 Ho3 Hg0 Hg1 Hw0 Hw1 HO]
  case region =>
    intro k u
    obtain ⟨k, hk⟩ := k
    match k, hk with
    | k + 4, hk => exact absurd (Nat.lt_of_lt_of_le hk k1_t1_abs.2.1) (by omega)
    | 0, hk =>
      -- trip 0: slot 0 idle, nothing to wait for
      have k1_h1 : ¬ k1_cond1 t0 = 1#1 := by decide
      change inv0 d L O W q ft ⊢ wp frame (wpE (defs₀ (F := F)) 𝒱₀ (tile d L) none) Set.univ (tile_run1.sl.prog.body_1 L t0 u) (fun _ => inv1 d L O W q ft)
      unfold inv0 common slotFree outHeld crowsHeld
      iintro ⟨⟨Hmw, Ht, ⟨%g5, %hin, H5⟩, H6, Hg0, Hg1, %W', %hW', HO⟩, ⟨Hw0, Hc⟩, Hs1, ⟨%o0, Ho0⟩, Ho1, Ho2, Ho3⟩
      icases H6 with ⟨%r6, H6⟩
      icases Hc with ⟨%c0, Hc⟩
      have hinT : ∀ x, (((s0W).slice (Rect.unit (s := S512) ![0] S128.size inb_w0) (fun _ => rfl)).view.read (Elt F) g5 x).toNat
          < S1000x128.size gathers_S1000x128_S128x128.axis := hin ![0] inb_w0
      have hinK : ∀ x, ((offsAt t0).view.read (Elt F) g5 x).toNat < S1000x128.size gathers_S1000x128_S128x128.axis := hin _ _
      sl_exec
      sl_for (invC (F := F) d L t1) $$ [H6 Hc]
      case region =>
        intro j _
        unfold invC crowsHeld
        iintro ⟨⟨%r, H6⟩, ⟨%f, Hc⟩⟩
        sl_exec
        sl_step
        isplitl [H6]; · iexists _; iexact H6
        iexists _; iexact Hc
      · unfold invC crowsHeld
        isplitl [H6]; · iexists _; iexact H6
        iexists _; iexact Hc
      iintro %_ HI
      unfold invC crowsHeld
      icases HI with ⟨⟨%r, H6⟩, ⟨%f, Hc⟩⟩
      sl_exec
      sl_step
      iclear Hc
      unfold inv1 common slotBusy slotFree outHeld crowsHeld
      isplitl [Hmw Ht H5 H6 Hg0 Hg1 HO]
      · isplitl [Hmw]; · iexact Hmw
        isplitl [Ht]; · iexact Ht
        isplitl [H5]
        · iexists g5; isplitr
          · ipureintro; exact hin
          · iexact H5
        isplitl [H6]; · iexists _; iexact H6
        isplitl [Hg0]; · iexact Hg0
        isplitl [Hg1]; · iexact Hg1
        iexists (insert (SemLoc.dma gS0, (default : HIx 4)) W'); isplitr
        · ipureintro; intro p hp
          rcases Finset.mem_insert.mp hp with hp | hp
          · exact Or.inr (by subst hp; rfl)
          · exact hW' p hp
        · iexact HO
      isplitl [Hw0]; · iexists _, _; iexact Hw0
      isplitl [Hs1]; · iexact Hs1
      isplitl [Ho1]; · iexact Ho1
      isplitl [Ho2]; · iexact Ho2
      iexact Ho3
    | 1, hk =>
      -- trip 1: slot 1 idle, nothing to wait for
      have k1_h1 : ¬ k1_cond1 t1 = 1#1 := by decide
      change inv1 d L O W q ft ⊢ wp frame (wpE (defs₀ (F := F)) 𝒱₀ (tile d L) none) Set.univ (tile_run1.sl.prog.body_1 L t1 u) (fun _ => inv2 d L O W q ft)
      unfold inv1 common slotBusy slotFree outHeld crowsHeld
      iintro ⟨⟨Hmw, Ht, ⟨%g5, %hin, H5⟩, H6, Hg0, Hg1, %W', %hW', HO⟩, Hb0, ⟨Hw1, Hc⟩, ⟨%o1, Ho1⟩, Ho2, Ho3⟩
      icases H6 with ⟨%r6, H6⟩
      icases Hc with ⟨%c0, Hc⟩
      have hinT : ∀ x, (((s0W).slice (Rect.unit (s := S512) ![128] S128.size inb_w128) (fun _ => rfl)).view.read (Elt F) g5 x).toNat
          < S1000x128.size gathers_S1000x128_S128x128.axis := hin ![128] inb_w128
      have hinK : ∀ x, ((offsAt t1).view.read (Elt F) g5 x).toNat < S1000x128.size gathers_S1000x128_S128x128.axis := hin _ _
      sl_exec
      sl_for (invC (F := F) d L t0) $$ [H6 Hc]
      case region =>
        intro j _
        unfold invC crowsHeld
        iintro ⟨⟨%r, H6⟩, ⟨%f, Hc⟩⟩
        sl_exec
        sl_step
        isplitl [H6]; · iexists _; iexact H6
        iexists _; iexact Hc
      · unfold invC crowsHeld
        isplitl [H6]; · iexists _; iexact H6
        iexists _; iexact Hc
      iintro %_ HI
      unfold invC crowsHeld
      icases HI with ⟨⟨%r, H6⟩, ⟨%f, Hc⟩⟩
      sl_exec
      sl_step
      iclear Hc
      unfold inv2 common slotBusy outHeld
      isplitl [Hmw Ht H5 H6 Hg0 Hg1 HO]
      · isplitl [Hmw]; · iexact Hmw
        isplitl [Ht]; · iexact Ht
        isplitl [H5]
        · iexists g5; isplitr
          · ipureintro; exact hin
          · iexact H5
        isplitl [H6]; · iexists _; iexact H6
        isplitl [Hg0]; · iexact Hg0
        isplitl [Hg1]; · iexact Hg1
        iexists (insert (SemLoc.dma gS1, (default : HIx 4)) W'); isplitr
        · ipureintro; intro p hp
          rcases Finset.mem_insert.mp hp with hp | hp
          · exact Or.inr (by subst hp; rfl)
          · exact hW' p hp
        · iexact HO
      isplitl [Hb0]; · iexact Hb0
      isplitl [Hw1]; · iexists _, _; iexact Hw1
      isplitl [Ho2]; · iexact Ho2
      iexact Ho3
    | 2, hk =>
      -- trip 2: block 0's write-back is waited for, then slot 0 is reused
      have k1_h1 : k1_cond1 t2 = 1#1 := by decide
      change inv2 d L O W q ft ⊢ wp frame (wpE (defs₀ (F := F)) 𝒱₀ (tile d L) none) Set.univ (tile_run1.sl.prog.body_1 L t2 u) (fun _ => inv3 d L O W q ft)
      unfold inv2 common slotBusy outHeld
      iintro ⟨⟨Hmw, Ht, ⟨%g5, %hin, H5⟩, H6, Hg0, Hg1, %W', %hW', HO⟩, ⟨%fo0, %fc0, Hw0⟩, Hb1, ⟨%o2, Ho2⟩, Ho3⟩
      icases H6 with ⟨%r6, H6⟩
      have hinT : ∀ x, (((s0W).slice (Rect.unit (s := S512) ![256] S128.size inb_w256) (fun _ => rfl)).view.read (Elt F) g5 x).toNat
          < S1000x128.size gathers_S1000x128_S128x128.axis := hin ![256] inb_w256
      have hinK : ∀ x, ((offsAt t2).view.read (Elt F) g5 x).toNat < S1000x128.size gathers_S1000x128_S128x128.axis := hin _ _
      sl_exec
      ihave Hc := (Entails.of_eq (show ((s2W).view.loc (tile d L) ↦[(crowsAt t0).view.set]{fullShare} fc0 : sProp 𝕄)
          = ((s2W).view.loc (tile d L) ↦[Finset.univ \ (crowsAt t1).view.set]{fullShare} fc0) from by rw [crows_even t0 (by decide)])) $$ Hw0_src
      sl_for (invC (F := F) d L t1) $$ [H6 Hc]
      case region =>
        intro j _
        unfold invC crowsHeld
        iintro ⟨⟨%r, H6⟩, ⟨%f, Hc⟩⟩
        sl_exec
        sl_step
        isplitl [H6]; · iexists _; iexact H6
        iexists _; iexact Hc
      · unfold invC crowsHeld
        isplitl [H6]; · iexists _; iexact H6
        iexists _; iexact Hc
      iintro %_ HI
      unfold invC crowsHeld
      icases HI with ⟨⟨%r, H6⟩, ⟨%f, Hc⟩⟩
      sl_exec
      sl_step
      iclear Hc
      unfold inv3 common slotBusy outHeld
      isplitl [Hmw Ht H5 H6 Hg0 Hg1 HO]
      · isplitl [Hmw]; · iexact Hmw
        isplitl [Ht]; · iexact Ht
        isplitl [H5]
        · iexists g5; isplitr
          · ipureintro; exact hin
          · iexact H5
        isplitl [H6]; · iexists _; iexact H6
        isplitl [Hg0]; · iexact Hg0
        isplitl [Hg1]; · iexact Hg1
        iexists (insert (SemLoc.dma gS0, (default : HIx 4)) (insert (SemLoc.dma wS0, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hw0]; · iexists _, _; iexact Hw0
      isplitl [Hb1]; · iexact Hb1
      isplitl [Hw0_dst]; · iexists _; iexact Hw0_dst
      iexact Ho3
    | 3, hk =>
      -- trip 3: block 1's write-back is waited for, then slot 1 is reused
      have k1_h1 : k1_cond1 t3 = 1#1 := by decide
      change inv3 d L O W q ft ⊢ wp frame (wpE (defs₀ (F := F)) 𝒱₀ (tile d L) none) Set.univ (tile_run1.sl.prog.body_1 L t3 u) (fun _ => inv4 d L O W q ft)
      unfold inv3 common slotBusy outHeld
      iintro ⟨⟨Hmw, Ht, ⟨%g5, %hin, H5⟩, H6, Hg0, Hg1, %W', %hW', HO⟩, Hb0, ⟨%fo1, %fc1, Hw1⟩, Ho0, ⟨%o3, Ho3⟩⟩
      icases H6 with ⟨%r6, H6⟩
      have hinT : ∀ x, (((s0W).slice (Rect.unit (s := S512) ![384] S128.size inb_w384) (fun _ => rfl)).view.read (Elt F) g5 x).toNat
          < S1000x128.size gathers_S1000x128_S128x128.axis := hin ![384] inb_w384
      have hinK : ∀ x, ((offsAt t3).view.read (Elt F) g5 x).toNat < S1000x128.size gathers_S1000x128_S128x128.axis := hin _ _
      sl_exec
      ihave Hc := (Entails.of_eq (show ((s2W).view.loc (tile d L) ↦[(crowsAt t1).view.set]{fullShare} fc1 : sProp 𝕄)
          = ((s2W).view.loc (tile d L) ↦[Finset.univ \ (crowsAt t0).view.set]{fullShare} fc1) from by rw [crows_odd t1 (by decide)])) $$ Hw1_src
      sl_for (invC (F := F) d L t0) $$ [H6 Hc]
      case region =>
        intro j _
        unfold invC crowsHeld
        iintro ⟨⟨%r, H6⟩, ⟨%f, Hc⟩⟩
        sl_exec
        sl_step
        isplitl [H6]; · iexists _; iexact H6
        iexists _; iexact Hc
      · unfold invC crowsHeld
        isplitl [H6]; · iexists _; iexact H6
        iexists _; iexact Hc
      iintro %_ HI
      unfold invC crowsHeld
      icases HI with ⟨⟨%r, H6⟩, ⟨%f, Hc⟩⟩
      sl_exec
      sl_step
      iclear Hc
      unfold inv4 common slotBusy outHeld
      isplitl [Hmw Ht H5 H6 Hg0 Hg1 HO]
      · isplitl [Hmw]; · iexact Hmw
        isplitl [Ht]; · iexact Ht
        isplitl [H5]
        · iexists g5; isplitr
          · ipureintro; exact hin
          · iexact H5
        isplitl [H6]; · iexists _; iexact H6
        isplitl [Hg0]; · iexact Hg0
        isplitl [Hg1]; · iexact Hg1
        iexists (insert (SemLoc.dma gS1, (default : HIx 4)) (insert (SemLoc.dma wS1, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hb0]; · iexact Hb0
      isplitl [Hw1]; · iexists _, _; iexact Hw1
      isplitl [Ho0]; · iexact Ho0
      iexists _; iexact Hw1_dst
  · -- before the first trip
    iapply (Entails.of_eq (show inv0 d L O W q ft = invO d L O W q ft 0 PUnit.unit from rfl))
    unfold inv0 common slotFree outHeld crowsHeld
    isplitl [Hmw Ht H5 H6 Hg0 Hg1 HO]
    · isplitl [Hmw]; · iexact Hmw
      isplitl [Ht]; · iexact Ht
      isplitl [H5]
      · iexists _; isplitr
        · ipureintro; exact h5
        · iexact H5
      isplitl [H6]; · iexact H6
      isplitl [Hg0]; · iexact Hg0
      isplitl [Hg1]; · iexact Hg1
      iexists (insert (SemLoc.dma pS, (default : HIx 4)) W); isplitr
      · ipureintro; intro p hp
        rcases Finset.mem_insert.mp hp with hp | hp
        · exact Or.inr (by subst hp; rfl)
        · exact Or.inl hp
      · iexact HO
    isplitl [Hw0 Hc0]; · isplitl [Hw0]; · iexact Hw0
                         iexact Hc0
    isplitl [Hw1 Hc1]; · isplitl [Hw1]; · iexact Hw1
                         iexact Hc1
    isplitl [Ho0]; · iexact Ho0
    isplitl [Ho1]; · iexact Ho1
    isplitl [Ho2]; · iexact Ho2
    iexact Ho3
  -- after the loop: the last two write-backs
  iintro %acc HI
  ihave HI' := (Entails.of_eq (show invO d L O W q ft (Scf.trips k1_t1_loop.lb k1_t1_loop.ub k1_t1_loop.st) acc = inv4 d L O W q ft from rfl)) $$ HI
  unfold inv4 common slotBusy outHeld
  icases HI' with ⟨⟨Hmw, Ht, ⟨%g5, %hin, H5⟩, H6, Hg0, Hg1, %W', %hW', HO⟩, ⟨%foA, %fcA, Hw0⟩, ⟨%foB, %fcB, Hw1⟩, Ho0, Ho1⟩
  sl_exec
  sl_step
  isplitl [Ht]; · iexact Ht
  isplitl [Hi]; · iexact Hi
  isplitl [H5]; · iexists _; iexact H5
  isplitl [H6]; · iexact H6
  isplitl [Hw0_src]; · iexists _; iexact Hw0_src
  isplitl [Hw1_src]; · iexists _; iexact Hw1_src
  isplitl [Ho0]; · iexact Ho0
  isplitl [Ho1]; · iexact Ho1
  isplitl [Hw0_dst]; · iexists _; iexact Hw0_dst
  isplitl [Hw1_dst]; · iexists _; iexact Hw1_dst
  isplitl [Hg0]; · iexact Hg0
  isplitl [Hg1]; · iexact Hg1
  isplitl [Hw0]; · iexact Hw0
  isplitl [Hw1]; · iexact Hw1
  isplitl [Hp]; · iexact Hp
  iexists (insert (SemLoc.dma wS1, (default : HIx 4)) (insert (SemLoc.dma wS0, (default : HIx 4)) W')); isplitr
  · ipureintro; intro p hp
    rcases Finset.mem_insert.mp hp with hp | hp
    · exact Or.inr (by subst hp; rfl)
    rcases Finset.mem_insert.mp hp with hp | hp
    · exact Or.inr (by subst hp; rfl)
    · exact hW' p hp
  · iexact HO

end Cert.KernelIdeal.Hand.C1

end
-- ==== Proof.KernelIdeal.TileObl1.lean ====
/-
  The second gather call's task as the launch theorem wants it: from what a vector subcore is handed at the call — its
  share of the table, its slice of the token words, its blocks of the result — and its own scratch buffers and
  semaphores, to the same handed back. The subcore's scratch and semaphores are picked out of everything it owns, the
  two-slot compact-rows scratch is cut into its halves for the run and glued back afterwards, and the run itself is
  `tile_run1`.
-/
import proofs.«203661_g84404697301628_cont_9to1_m_135_26_alg».proof.Proof.KernelIdeal.TileRun1
import proofs.«203661_g84404697301628_cont_9to1_m_135_26_alg».proof.Proof.Pay
import Idealize.ShloMosaic.Lib.SparseCore.Ops

noncomputable section

namespace Cert.KernelIdeal.Hand.C1

open Cert.KernelIdeal Cert.KernelIdeal.Gen Cert.KernelIdeal.Hand
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [hK : Cert.KernelIdeal.Facts] [FloatOps F]

local notation "𝕄" => MT nD τ sig (HIx 4) (Elt F) ℕ UU ℕ

local notation "tblW" => (Memref.whole Cert.KernelIdeal.main_v0_scv : Memref Cert.KernelIdeal.sig Kind.scVector Space.hbm Cert.KernelIdeal.S1000x128 EltTy.f32)
local notation "idxW" => (Memref.whole Cert.KernelIdeal.main_v7_scv : Memref Cert.KernelIdeal.sig Kind.scVector Space.hbm Cert.KernelIdeal.S16384 EltTy.i32)
local notation "outW" => (Memref.whole Cert.KernelIdeal.main_v8_scv : Memref Cert.KernelIdeal.sig Kind.scVector Space.hbm Cert.KernelIdeal.S1x16384x32 EltTy.f32)
local notation "s0W" => (Memref.whole Cert.KernelIdeal.cc1_scratch0 : Memref Cert.KernelIdeal.sig Kind.scVector Space.vmem Cert.KernelIdeal.S512 EltTy.i32)
local notation "s1W" => (Memref.whole Cert.KernelIdeal.cc1_scratch1 : Memref Cert.KernelIdeal.sig Kind.scVector Space.vmem Cert.KernelIdeal.S2x128x128 EltTy.f32)
local notation "s2W" => (Memref.whole Cert.KernelIdeal.cc1_scratch2 : Memref Cert.KernelIdeal.sig Kind.scVector Space.vmem Cert.KernelIdeal.S2x128x32 EltTy.f32)
local notation "gS0" => (⟨5, by decide⟩ : DmaSem Cert.KernelIdeal.sig)
local notation "gS1" => (⟨6, by decide⟩ : DmaSem Cert.KernelIdeal.sig)
local notation "wS0" => (⟨7, by decide⟩ : DmaSem Cert.KernelIdeal.sig)
local notation "wS1" => (⟨8, by decide⟩ : DmaSem Cert.KernelIdeal.sig)
local notation "pS" => (⟨9, by decide⟩ : DmaSem Cert.KernelIdeal.sig)

/-- the second call's token words, as the TensorCore names them -/
abbrev idxLoc1 (d : Dev nD) : Loc nD τ sig := (SparseCore.T d).loc main_v7

/-- the grid point of subcore `i` of SparseCore `c` -/
def coords1 (c : Fin 2) (i : Fin 16) : grid1.Coords :=
  fun | 0 => c | 1 => i | ⟨_ + 2, h⟩ => absurd h (Nat.not_lt.2 (Nat.le_add_left _ _))

/-- what subcore `(c, i)` is handed for the second call besides the table: its slice of the token words, at the words
    `wd`, and its four blocks of the result, at some contents -/
def Rs1 (wd : (d : Dev nD) → Buf (Elt F) (idxLoc1 d)) (d : Dev nD) (c : Fin 2) (i : Fin 16) : sProp 𝕄 :=
  iprop(((idxSl (coords1 c i)).view.loc (tile d (coords1 c i)) ↦[(idxSl (coords1 c i)).view.set]{fullShare} wd d)
    ∗ outHeld (F := F) d (coords1 c i) t0 ∗ outHeld (F := F) d (coords1 c i) t1
    ∗ outHeld (F := F) d (coords1 c i) t2 ∗ outHeld (F := F) d (coords1 c i) t3)

section Tile

variable (d : Dev nD) (L : grid1.Coords)

omit [FloatOps F] in
theorem mem_own (k : DmaSem sig) (hk : (SemLoc.dma k : SemLoc sig).isScoped .scVector = true) :
    ((tile d L, SemLoc.dma k) : GSem nD τ sig) ∈ ownCells (sig := sig) (tile d L) :=
  (mem_ownCells (g := (tile d L, SemLoc.dma k))).mpr ⟨rfl, hk⟩
omit [FloatOps F] in
theorem ne_cell {k k' : DmaSem sig} (h : k ≠ k') : ((tile d L, SemLoc.dma k) : GSem nD τ sig) ≠ (tile d L, SemLoc.dma k') :=
  fun e => h (SemLoc.dma.inj (Prod.mk.inj e).2)

omit [FloatOps F] in
/-- the five semaphores this call uses are among the subcore's own: they, and the rest -/
theorem ownSems0_V1 :
    (ownSems0 (tile d L) : sProp 𝕄)
      = iprop(semVal (tile d L, SemLoc.dma gS0) 0 ∗ semVal (tile d L, SemLoc.dma gS1) 0 ∗ semVal (tile d L, SemLoc.dma wS0) 0
          ∗ semVal (tile d L, SemLoc.dma wS1) 0 ∗ semVal (tile d L, SemLoc.dma pS) 0
          ∗ bigSep ((((((ownCells (tile d L)).erase (tile d L, SemLoc.dma gS0)).erase (tile d L, SemLoc.dma gS1)).erase (tile d L, SemLoc.dma wS0)).erase
              (tile d L, SemLoc.dma wS1)).erase (tile d L, SemLoc.dma pS)) fun g => semVal g 0) := by
  unfold SparseCore.Cfg.ownSems0
  rw [SparseCore.bigSep_erase' (mem_own d L gS0 (by decide)),
    SparseCore.bigSep_erase' (Finset.mem_erase.mpr ⟨ne_cell d L (k := gS1) (k' := gS0) (by decide), mem_own d L gS1 (by decide)⟩),
    SparseCore.bigSep_erase' (Finset.mem_erase.mpr ⟨ne_cell d L (k := wS0) (k' := gS1) (by decide), Finset.mem_erase.mpr ⟨ne_cell d L (k := wS0) (k' := gS0) (by decide), mem_own d L wS0 (by decide)⟩⟩),
    SparseCore.bigSep_erase' (Finset.mem_erase.mpr ⟨ne_cell d L (k := wS1) (k' := wS0) (by decide), Finset.mem_erase.mpr ⟨ne_cell d L (k := wS1) (k' := gS1) (by decide), Finset.mem_erase.mpr ⟨ne_cell d L (k := wS1) (k' := gS0) (by decide), mem_own d L wS1 (by decide)⟩⟩⟩),
    SparseCore.bigSep_erase' (Finset.mem_erase.mpr ⟨ne_cell d L (k := pS) (k' := wS1) (by decide), Finset.mem_erase.mpr ⟨ne_cell d L (k := pS) (k' := wS0) (by decide), Finset.mem_erase.mpr ⟨ne_cell d L (k := pS) (k' := gS1) (by decide), Finset.mem_erase.mpr ⟨ne_cell d L (k := pS) (k' := gS0) (by decide), mem_own d L pS (by decide)⟩⟩⟩⟩)]

omit [FloatOps F] in
/-- the three scratch buffers are among the subcore's own: they, at some contents, and the rest -/
theorem ownBufs_V1 :
    (ownBufs (tile d L) : sProp 𝕄)
      = iprop((∃ f, (tile d L).loc cc1_scratch0 ↦{fullShare} f) ∗ (∃ f, (tile d L).loc cc1_scratch1 ↦{fullShare} f)
          ∗ (∃ f, (tile d L).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩⟩)]

omit [FloatOps F] in
/-- the compact-rows scratch, held whole, is its two halves (each as "all but the other") -/
theorem crows_split (f : Buf (Elt F) ((s2W).view.loc (tile d L))) :
    ((s2W).view.loc (tile d L) ↦[Finset.univ]{fullShare} f : sProp 𝕄)
      ⊢ iprop(((s2W).view.loc (tile d L) ↦[Finset.univ \ (crowsAt t1).view.set]{fullShare} f)
          ∗ ((s2W).view.loc (tile d L) ↦[Finset.univ \ (crowsAt t0).view.set]{fullShare} f)) := by
  have h : ((s2W).view.loc (tile d L) ↦[Finset.univ]{fullShare} f : sProp 𝕄)
      ⊢ iprop(((s2W).view.loc (tile d L) ↦[Finset.univ \ (crowsAt t1).view.set]{fullShare} f)
          ∗ ((s2W).view.loc (tile d L) ↦[Finset.univ \ (Finset.univ \ (crowsAt t1).view.set)]{fullShare} f)) :=
    (pointsTo_split_subset (Finset.subset_univ (Finset.univ \ (crowsAt t1).view.set))).1
  have e : Finset.univ \ (Finset.univ \ (crowsAt t1).view.set) = Finset.univ \ (crowsAt t0).view.set := by rw [crows_compl01]
  rw [e] at h
  exact h

omit [FloatOps F] in
/-- the halves the run hands back are the first and the second -/
theorem crows_set_last0 : (crowsAt t2).view.set = (crowsAt t0).view.set := crows_set_congr t2 t0 (by decide)
omit [FloatOps F] in
theorem crows_set_last1 : (crowsAt t3).view.set = (crowsAt t1).view.set := crows_set_congr t3 t1 (by decide)

omit [FloatOps F] in
/-- and the two halves, at whatever each holds, are the scratch whole again -/
theorem crows_join (f g : Buf (Elt F) ((s2W).view.loc (tile d L))) :
    iprop(((s2W).view.loc (tile d L) ↦[(crowsAt t2).view.set]{fullShare} f) ∗ ((s2W).view.loc (tile d L) ↦[(crowsAt t3).view.set]{fullShare} g))
      ⊢ (iprop(∃ h, (s2W).view.loc (tile d L) ↦[Finset.univ]{fullShare} h) : sProp 𝕄) := by
  rw [crows_set_last0, crows_set_last1]
  have hd : Disjoint (crowsAt t0).view.set (crowsAt t1).view.set := by
    rw [← crows_compl01]; exact Finset.sdiff_disjoint
  have hu : (crowsAt t0).view.set ∪ (crowsAt t1).view.set = Finset.univ := by
    rw [← crows_compl01]; exact Finset.sdiff_union_of_subset (Finset.subset_univ _)
  refine (pointsTo_join hd).trans ?_
  rw [hu]
  iintro H; iexists _; iexact H

/-- The task on one vector subcore, in the launch theorem's resources: the table's share, the subcore's words and blocks,
    and its own scoped storage in; the same out. -/
theorem tile_body1 (hF : (K (F := F)).Facts) (tb : (d : Dev nD) → Buf (Elt F) (tblLoc d)) (wd : (d : Dev nD) → Buf (Elt F) (idxLoc1 d))
    (hwd : ∀ d y, (wd d y).toNat < 1000) (q : PosShare TreeShare)
    (lv : GSem nD τ sig → HIx 4 → ℕ) (hlv : (K (F := F)).Refines lv)
    (O : CellTallies nD τ sig (HIx 4)) (W : Waits sig (HIx 4)) (hO : ∀ g, O g none = 0) :
    iprop(levAts (K (F := F)).L lv ∗ emp
        ∗ ((tblLoc d ↦{q} tb d)
            ∗ ((idxSl L).view.loc (tile d L) ↦[(idxSl L).view.set]{fullShare} wd d)
            ∗ outHeld (F := F) d L t0 ∗ outHeld (F := F) d L t1 ∗ outHeld (F := F) d L t2 ∗ outHeld (F := F) d L t3)
        ∗ scopedBufs (tile d L) ∗ scopedSems0 (tile d L) ∗ owes (tile d L) O W)
      ⊢ wp frame (wpE (defs₀ (F := F)) 𝒱₀ (tile d L) none) Set.univ
          (cc1_gather_kernel L tblW (Memref.isWhole_whole _) idxW (Memref.isWhole_whole _) outW (Memref.isWhole_whole _)
            s0W (Memref.isWhole_whole _) s1W (Memref.isWhole_whole _) s2W (Memref.isWhole_whole _) cc1_scratch3 cc1_scratch4 cc1_scoped0)
          fun _ => iprop(((tblLoc d ↦{q} tb d)
            ∗ ((idxSl L).view.loc (tile d L) ↦[(idxSl L).view.set]{fullShare} wd d)
            ∗ outHeld (F := F) d L t0 ∗ outHeld (F := F) d L t1 ∗ outHeld (F := F) d L t2 ∗ outHeld (F := F) d L t3)
            ∗ scopedBufs (tile d L) ∗ scopedSems0 (tile d L)
            ∗ ∃ W', ⌜∀ p ∈ W', p ∈ W ∨ p.2 = none⌝ ∗ owes (tile d L) O W') := by
  rw [(K (F := F)).scopedBufs_V hF d (cV L) (jV L), SparseCore.Cfg.scopedSems0_V (Val := Elt F) d (cV L) (jV L), ownSems0_V1, ownBufs_V1]
  iintro ⟨#Hlv, -, ⟨Ht, Hi, Ho0, Ho1, Ho2, Ho3⟩, ⟨H5, H6, ⟨%f7, H7⟩, Hbufs⟩, ⟨Hg0, Hg1, Hw0, Hw1, Hp, Hsems⟩, HO⟩
  ihave Hmw := ((K (F := F)).mayWaits_none (thr := tile d L) hO lv hlv) $$ Hlv
  ihave Hc := (crows_split (F := F) d L f7) $$ H7
  icases Hc with ⟨Hc1, Hc0⟩
  iapply (wp_wand_r frame (wpE (defs₀ (F := F)) 𝒱₀ (tile d L) none) Set.univ)
  isplitl [Hmw Ht Hi H5 H6 Hc0 Hc1 Ho0 Ho1 Ho2 Ho3 Hg0 Hg1 Hw0 Hw1 Hp HO]
  · iapply (tile_run1 (F := F) d L O W q (tb d) (wd d) (hwd d))
    isplitl [Hmw]; · iexact Hmw
    isplitl [Ht]; · iexact Ht
    isplitl [Hi]; · iexact Hi
    isplitl [H5]; · iexact H5
    isplitl [H6]; · iexact H6
    isplitl [Hc1]; · unfold crowsHeld; iexists _; iexact Hc1
    isplitl [Hc0]; · unfold crowsHeld; iexists _; iexact Hc0
    isplitl [Ho0]; · iexact Ho0
    isplitl [Ho1]; · iexact Ho1
    isplitl [Ho2]; · iexact Ho2
    isplitl [Ho3]; · iexact Ho3
    isplitl [Hg0]; · iexact Hg0
    isplitl [Hg1]; · iexact Hg1
    isplitl [Hw0]; · iexact Hw0
    isplitl [Hw1]; · iexact Hw1
    isplitl [Hp]; · iexact Hp
    iexact HO
  · iintro %a ⟨Ht, Hi, H5, H6, ⟨%c2, Hc2⟩, ⟨%c3, Hc3⟩, Ho0, Ho1, Ho2, Ho3, Hg0, Hg1, Hw0, Hw1, Hp, HO⟩
    ihave H7 := (crows_join (F := F) d L c2 c3) $$ [Hc2 Hc3]
    · isplitl [Hc2]; · iexact Hc2
      iexact Hc3
    isplitl [Ht Hi Ho0 Ho1 Ho2 Ho3]
    · isplitl [Ht]; · iexact Ht
      isplitl [Hi]; · iexact Hi
      isplitl [Ho0]; · iexact Ho0
      isplitl [Ho1]; · iexact Ho1
      isplitl [Ho2]; · iexact Ho2
      iexact Ho3
    isplitl [H5 H6 H7 Hbufs]
    · isplitl [H5]; · iexact H5
      isplitl [H6]; · iexact H6
      isplitl [H7]; · iexact H7
      iexact Hbufs
    isplitl [Hg0 Hg1 Hw0 Hw1 Hp Hsems]
    · isplitl [Hg0]; · iexact Hg0
      isplitl [Hg1]; · iexact Hg1
      isplitl [Hw0]; · iexact Hw0
      isplitl [Hw1]; · iexact Hw1
      isplitl [Hp]; · iexact Hp
      iexact Hsems
    iexact HO

end Tile

/-! ## The launch theorem's obligation for the second call -/

omit [FloatOps F] in
theorem defs₀_vector1 [FloatOps F] (c : Fin τ.nSC) (s : Fin τ.nSub) :
    defs₀ (F := F) (.scVector c s) 1 ()
      = SparseCore.onTile hcore1 hsub1 (fun c s => cc1_gather_kernel (coords1 c s) tblW (Memref.isWhole_whole _) idxW (Memref.isWhole_whole _)
          outW (Memref.isWhole_whole _) s0W (Memref.isWhole_whole _) s1W (Memref.isWhole_whole _) s2W (Memref.isWhole_whole _)
          cc1_scratch3 cc1_scratch4 cc1_scoped0) ⟨⟩ c s := rfl

omit [FloatOps F] in
theorem obl_post {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The second call's task obligation, for any family of subcore resources whose member for this call is `Rs1` at token
    words that all name table rows. -/
theorem tileObl1 (hF : (K (F := F)).Facts) (tb : (d : Dev nD) → Buf (Elt F) (tblLoc d)) (Rs : Fin 4 → Dev nD → Fin 2 → Fin 16 → sProp 𝕄)
    (wd : (d : Dev nD) → Buf (Elt F) (idxLoc1 d)) (hwd : ∀ d y, (wd d y).toNat < 1000)
    (hRs : ∀ d c i, Rs 1 d c i = Rs1 wd d c i)
    (lv : GSem nD τ sig → HIx 4 → ℕ) (hlv : (K (F := F)).Refines lv) :
    (K (F := F)).TileObl (D (F := F)) 𝒱 (P tb Rs) v₀ 1 lv := by
  intro d c i O W hO _ _
  simp only [show (P (F := F) tb Rs).ox = fun _ _ => 0 from rfl, add_zero]
  change iprop(levAts _ lv ∗ emp ∗ ((tblLoc d ↦{tileShare (Fin.cast (nCore_eq 1) c) (Fin.cast (nSub_eq 1) i)} tb d)
        ∗ Rs 1 d (Fin.cast (nCore_eq 1) c) (Fin.cast (nSub_eq 1) i)) ∗ _ ∗ _ ∗ _)
    ⊢ wp _ _ _ (Pipeline.liftProg (defs₀ (F := F) (.scVector ((K (F := F)).core 1 c) ((K (F := F)).sub 1 i)) 1 ()))
        (fun _ => iprop(((tblLoc d ↦{tileShare (Fin.cast (nCore_eq 1) c) (Fin.cast (nSub_eq 1) i)} tb d)
          ∗ Rs 1 d (Fin.cast (nCore_eq 1) c) (Fin.cast (nSub_eq 1) i)) ∗ _ ∗ _ ∗ _))
  rw [hRs]
  refine BI.Entails.trans ?_ (Pipeline.wp_liftProg (D (F := F)) (Pipeline.defs_kernel pcfgs defs₀) 𝒱₀ _ Set.univ none _ _)
  have hc : ((K (F := F)).core 1 c).val < grid1.bound 0 ∧ ((K (F := F)).sub 1 i).val < grid1.bound 1 := ⟨c.isLt, i.isLt⟩
  rw [defs₀_vector1]; simp only [SparseCore.onTile, hc, and_self, ↓reduceDIte]
  unfold Rs1
  exact (tile_body1 (F := F) d (coords1 ⟨_, hc.1⟩ ⟨_, hc.2⟩) hF tb wd hwd _ lv hlv O W hO).trans (wp_mono frame _ _ fun _ => obl_post)

end Cert.KernelIdeal.Hand.C1

end
-- ==== Proof.KernelIdeal.TileRun2.lean ====
/-
  One vector subcore's task in the third embedding-gather call, run to its end.

  The subcore at grid point (core, subcore) is worker `2·subcore + core`. It copies its 1024 token words from the
  token list into a scratch, and then, eight times: gathers the 128 table rows those words name into one half of a
  two-slot scratch (an indexed copy, legal because every word names a row of the 1000-row table), copies the first 32
  of each row's 128 columns into the matching half of a second two-slot scratch, and starts the copy of that half out
  to its 128 rows of the result. A slot's copy-out is waited for two trips later, just before the slot is written
  again, and the last two after the loop; so between its start and its wait nothing touches the copy's source or
  destination. Each copy is on a semaphore of the subcore's own with one copy in flight at a time.

  The loop's invariant says, before each of the eight trips, which slot's copy-out is in flight and for which block of
  the result; a flying copy holds that block and the slot's half of the scratch until its wait returns them. The two
  halves of the scratch partition it (`crows_compl01`), which is what lets a half be held as "everything but the other
  half" while the other half is away; a trip's half is the first for an even trip and the second for an odd one
  (`crows_even`, `crows_odd`).
-/
import proofs.«203661_g84404697301628_cont_9to1_m_135_26_alg».proof.Proof.KCommon

noncomputable section

namespace Cert.KernelIdeal.Hand.C2

open Cert.KernelIdeal Cert.KernelIdeal.Gen Cert.KernelIdeal.Hand
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [hK : Cert.KernelIdeal.Facts] [FloatOps F]

local notation "𝕄" => MT nD τ sig (HIx 4) (Elt F) ℕ UU ℕ

local notation "tblW" => (Memref.whole Cert.KernelIdeal.main_v0_scv : Memref Cert.KernelIdeal.sig Kind.scVector Space.hbm Cert.KernelIdeal.S1000x128 EltTy.f32)
local notation "idxW" => (Memref.whole Cert.KernelIdeal.main_v9_scv : Memref Cert.KernelIdeal.sig Kind.scVector Space.hbm Cert.KernelIdeal.S32768 EltTy.i32)
local notation "outW" => (Memref.whole Cert.KernelIdeal.main_v10_scv : Memref Cert.KernelIdeal.sig Kind.scVector Space.hbm Cert.KernelIdeal.S2x16384x32 EltTy.f32)
local notation "s0W" => (Memref.whole Cert.KernelIdeal.cc2_scratch0 : Memref Cert.KernelIdeal.sig Kind.scVector Space.vmem Cert.KernelIdeal.S1024 EltTy.i32)
local notation "s1W" => (Memref.whole Cert.KernelIdeal.cc2_scratch1 : Memref Cert.KernelIdeal.sig Kind.scVector Space.vmem Cert.KernelIdeal.S2x128x128 EltTy.f32)
local notation "s2W" => (Memref.whole Cert.KernelIdeal.cc2_scratch2 : Memref Cert.KernelIdeal.sig Kind.scVector Space.vmem Cert.KernelIdeal.S2x128x32 EltTy.f32)

variable (d : Dev nD) (L : grid2.Coords)

abbrev cV (L : grid2.Coords) : Fin τ.nSC := (L 0).castLE hcore2
abbrev jV (L : grid2.Coords) : Fin τ.nSub := (L 1).castLE hsub2
/-- the vector subcore at grid point `L` -/
abbrev tile : Thread nD τ := V d (cV L) (jV L)

/-- the part of the token list this subcore fetches -/
abbrev idxSl (L : grid2.Coords) : Memref sig .scVector .hbm S1024 .i32 := (idxW).slice (Rect.unit (s := S32768) (k2_off1 L) S1024.size (k2_off1_inb L)) (fun _ => rfl)
/-- trip `t`'s 128 words of the fetched list -/
abbrev offsAt (t : Fin k2_t1_loop.trips) : Memref sig .scVector .vmem S128 .i32 :=
  (s0W).slice (Rect.unit (s := S1024) (k2_off6 t) S128.size (k2_off6_inb t)) (fun _ => rfl)
/-- the 128 rows of the result trip `t` writes -/
abbrev outAt (L : grid2.Coords) (t : Fin k2_t1_loop.trips) : Memref sig .scVector .hbm S128x32 .f32 :=
  ((outW).slice (Rect.unit (s := S2x16384x32) (k2_off13 L t) S1x128x32.size (k2_off13_inb L t)) (fun _ => rfl)).squeeze S128x32 squeezes_S1x128x32_S128x32
/-- the half of the compact-rows scratch trip `t` fills and copies out -/
abbrev crowsAt (t : Fin k2_t1_loop.trips) : Memref sig .scVector .vmem S128x32 .f32 :=
  ((s2W).slice (Rect.unit (s := S2x128x32) (k2_off12 t) S1x128x32.size (k2_off12_inb t)) (fun _ => rfl)).squeeze S128x32 squeezes_S1x128x32_S128x32

def t0 : Fin k2_t1_loop.trips := ⟨0, by decide⟩
def t1 : Fin k2_t1_loop.trips := ⟨1, by decide⟩
def t2 : Fin k2_t1_loop.trips := ⟨2, by decide⟩
def t3 : Fin k2_t1_loop.trips := ⟨3, by decide⟩
def t4 : Fin k2_t1_loop.trips := ⟨4, by decide⟩
def t5 : Fin k2_t1_loop.trips := ⟨5, by decide⟩
def t6 : Fin k2_t1_loop.trips := ⟨6, by decide⟩
def t7 : Fin k2_t1_loop.trips := ⟨7, by decide⟩

/-- the two gather semaphores and the two write-back semaphores, by slot; the prologue's copy semaphore -/
local notation "gS0" => (⟨10, by decide⟩ : DmaSem Cert.KernelIdeal.sig)
local notation "gS1" => (⟨11, by decide⟩ : DmaSem Cert.KernelIdeal.sig)
local notation "wS0" => (⟨12, by decide⟩ : DmaSem Cert.KernelIdeal.sig)
local notation "wS1" => (⟨13, by decide⟩ : DmaSem Cert.KernelIdeal.sig)
local notation "pS" => (⟨14, by decide⟩ : DmaSem Cert.KernelIdeal.sig)

/-- every word of the fetched list names a row of the table -/
def InRange (g5 : Buf (Elt F) ((s0W).view.loc (tile d L))) : Prop :=
  ∀ (o : Fin 1 → Nat) (h : ∀ a, o a + S128.size a ≤ S1024.size a) (x : S128.Idx),
    (((s0W).slice (Rect.unit (s := S1024) o S128.size h) (fun _ => rfl)).view.read (Elt F) g5 x).toNat < S1000x128.size gathers_S1000x128_S128x128.axis

/-- a block of the result, at some contents -/
def outHeld (t : Fin k2_t1_loop.trips) : sProp 𝕄 :=
  iprop(∃ f, (outAt L t).view.loc (tile d L) ↦[(outAt L t).view.set]{fullShare} f)
/-- a half of the compact-rows scratch (the one trip `t` uses), at some contents -/
def crowsHeld (t : Fin k2_t1_loop.trips) : sProp 𝕄 :=
  iprop(∃ f, (s2W).view.loc (tile d L) ↦[Finset.univ \ (crowsAt t).view.set]{fullShare} f)
/-- slot `s` idle: its write-back semaphore at zero and its half of the scratch in hand -/
def slotFree (w : DmaSem sig) (t : Fin k2_t1_loop.trips) : sProp 𝕄 :=
  iprop(semVal (tile d L, SemLoc.dma w) 0 ∗ crowsHeld (F := F) d L t)
/-- slot `s` busy: trip `t`'s write-back in flight, carrying its block of the result and its half of the scratch -/
def slotBusy (w : DmaSem sig) (t : Fin k2_t1_loop.trips) : sProp 𝕄 :=
  iprop(∃ fo f, Transfers.Flight (countersEmb (U := UU)) (tile d L) (SemLoc.dma w) (default : HIx 4) 131072
    iprop(((outAt L t).view.loc (tile d L) ↦[(outAt L t).view.set]{fullShare} fo)
      ∗ ((s2W).view.loc (tile d L) ↦[(crowsAt t).view.set]{fullShare} f)))

/-- what every trip keeps: the wait evidence, the table's share, the fetched list (in range), the gathered-rows scratch,
    both gather semaphores at zero, and what the subcore owes with the waits recorded so far -/
def common (O : CellTallies nD τ sig (HIx 4)) (W : Waits sig (HIx 4)) (q : PosShare TreeShare)
    (ft : Buf (Elt F) ((tblW).view.loc (tile d L))) : sProp 𝕄 :=
  iprop(Transfers.MayWaits (tile d L) (none : HIx 4) O
    ∗ ((tblW).view.loc (tile d L) ↦{q} ft)
    ∗ (∃ g5, ⌜InRange (F := F) d L g5⌝ ∗ (s0W).view.loc (tile d L) ↦{fullShare} g5)
    ∗ (∃ r, (s1W).view.loc (tile d L) ↦{fullShare} r)
    ∗ semVal (tile d L, SemLoc.dma gS0) 0 ∗ semVal (tile d L, SemLoc.dma gS1) 0
    ∗ ∃ W', ⌜∀ p ∈ W', p ∈ W ∨ p.2 = none⌝ ∗ owes (tile d L) O W')

section Inv
variable (O : CellTallies nD τ sig (HIx 4)) (W : Waits sig (HIx 4)) (q : PosShare TreeShare) (ft : Buf (Elt F) ((tblW).view.loc (tile d L)))
/-- before trip 0: both slots idle, every block in hand -/
def inv0 : sProp 𝕄 := iprop(common d L O W q ft ∗ slotFree d L wS0 t1 ∗ slotFree d L wS1 t0 ∗ outHeld d L t0 ∗ outHeld d L t1 ∗ outHeld d L t2 ∗ outHeld d L t3 ∗ outHeld d L t4 ∗ outHeld d L t5 ∗ outHeld d L t6 ∗ outHeld d L t7)
/-- before trip 1: block 0 flying, every other block in hand -/
def inv1 : sProp 𝕄 := iprop(common d L O W q ft ∗ slotBusy d L wS0 t0 ∗ slotFree d L wS1 t0 ∗ outHeld d L t1 ∗ outHeld d L t2 ∗ outHeld d L t3 ∗ outHeld d L t4 ∗ outHeld d L t5 ∗ outHeld d L t6 ∗ outHeld d L t7)
/-- before trip 2: blocks 0 and 1 flying, every other block in hand -/
def inv2 : sProp 𝕄 := iprop(common d L O W q ft ∗ slotBusy d L wS0 t0 ∗ slotBusy d L wS1 t1 ∗ outHeld d L t2 ∗ outHeld d L t3 ∗ outHeld d L t4 ∗ outHeld d L t5 ∗ outHeld d L t6 ∗ outHeld d L t7)
/-- before trip 3: blocks 1 and 2 flying, every other block in hand -/
def inv3 : sProp 𝕄 := iprop(common d L O W q ft ∗ slotBusy d L wS0 t2 ∗ slotBusy d L wS1 t1 ∗ outHeld d L t0 ∗ outHeld d L t3 ∗ outHeld d L t4 ∗ outHeld d L t5 ∗ outHeld d L t6 ∗ outHeld d L t7)
/-- before trip 4: blocks 2 and 3 flying, every other block in hand -/
def inv4 : sProp 𝕄 := iprop(common d L O W q ft ∗ slotBusy d L wS0 t2 ∗ slotBusy d L wS1 t3 ∗ outHeld d L t0 ∗ outHeld d L t1 ∗ outHeld d L t4 ∗ outHeld d L t5 ∗ outHeld d L t6 ∗ outHeld d L t7)
/-- before trip 5: blocks 3 and 4 flying, every other block in hand -/
def inv5 : sProp 𝕄 := iprop(common d L O W q ft ∗ slotBusy d L wS0 t4 ∗ slotBusy d L wS1 t3 ∗ outHeld d L t0 ∗ outHeld d L t1 ∗ outHeld d L t2 ∗ outHeld d L t5 ∗ outHeld d L t6 ∗ outHeld d L t7)
/-- before trip 6: blocks 4 and 5 flying, every other block in hand -/
def inv6 : sProp 𝕄 := iprop(common d L O W q ft ∗ slotBusy d L wS0 t4 ∗ slotBusy d L wS1 t5 ∗ outHeld d L t0 ∗ outHeld d L t1 ∗ outHeld d L t2 ∗ outHeld d L t3 ∗ outHeld d L t6 ∗ outHeld d L t7)
/-- before trip 7: blocks 5 and 6 flying, every other block in hand -/
def inv7 : sProp 𝕄 := iprop(common d L O W q ft ∗ slotBusy d L wS0 t6 ∗ slotBusy d L wS1 t5 ∗ outHeld d L t0 ∗ outHeld d L t1 ∗ outHeld d L t2 ∗ outHeld d L t3 ∗ outHeld d L t4 ∗ outHeld d L t7)
/-- after trip 7: blocks 6 and 7 flying, every other block in hand -/
def inv8 : sProp 𝕄 := iprop(common d L O W q ft ∗ slotBusy d L wS0 t6 ∗ slotBusy d L wS1 t7 ∗ outHeld d L t0 ∗ outHeld d L t1 ∗ outHeld d L t2 ∗ outHeld d L t3 ∗ outHeld d L t4 ∗ outHeld d L t5)
/-- the outer loop's invariant before trip `k` -/
def invO (k : Nat) (_ : PUnit) : sProp 𝕄 :=
  match k with
  | 0 => inv0 d L O W q ft
  | 1 => inv1 d L O W q ft
  | 2 => inv2 d L O W q ft
  | 3 => inv3 d L O W q ft
  | 4 => inv4 d L O W q ft
  | 5 => inv5 d L O W q ft
  | 6 => inv6 d L O W q ft
  | 7 => inv7 d L O W q ft
  | _ => inv8 d L O W q ft
end Inv

/-- the compaction loop's invariant, contents untracked: the gathered rows and trip `t`'s half of the compact rows in hand -/
def invC (t : Fin k2_t1_loop.trips) (_ : Nat) (_ : PUnit) : sProp 𝕄 :=
  iprop((∃ r, (s1W).view.loc (tile d L) ↦{fullShare} r) ∗ crowsHeld (F := F) d L t)

/-- an element lies in trip `t`'s half of the compact-rows scratch exactly when each coordinate lies in the half's box -/
theorem mem_crowsAt (t : Fin k2_t1_loop.trips) (x : S2x128x32.Idx) :
    x ∈ (crowsAt t).view.set ↔ ∀ a, k2_off12 t a ≤ x a ∧ (x a : Nat) < k2_off12 t a + S1x128x32.size a := by
  have hs : ((crowsAt t).view.set : Finset S2x128x32.Idx)
      = (Rect.unit (s := S2x128x32) (k2_off12 t) S1x128x32.size (k2_off12_inb t)).set := by
    show (((View.whole cc2_scratch2).slice (Rect.unit (s := S2x128x32) (k2_off12 t) S1x128x32.size (k2_off12_inb t))).reshape S128x32 _).set = _
    rw [View.set_reshape, View.set_slice_whole]
  constructor
  · intro h; exact Rect.mem_set_unit.mp (hs ▸ h)
  · intro h; exact hs ▸ Rect.mem_set_unit.mpr h

/-- the two halves partition the scratch: what is not in the second half is the first half -/
theorem crows_compl01 : Finset.univ \ (crowsAt t1).view.set = (crowsAt t0).view.set := by
  ext x
  rw [Finset.mem_sdiff, mem_crowsAt, mem_crowsAt]
  simp only [Finset.mem_univ, true_and]
  have e0 : k2_off12 t0 = ![0, 0, 0] := by decide
  have e1 : k2_off12 t1 = ![1, 0, 0] := by decide
  rw [e0, e1]
  have h0 : (x 0 : Nat) < 2 := (x 0).isLt
  have h1 : (x 1 : Nat) < 128 := (x 1).isLt
  have h2 : (x 2 : Nat) < 32 := (x 2).isLt
  constructor
  · intro h a
    have hx0 : (x 0 : Nat) = 0 := by
      by_contra hne
      exact h (fun b => by
        match b with
        | ⟨0, _⟩ => exact ⟨by show 1 ≤ (x 0 : Nat); omega, by show (x 0 : Nat) < 1 + 1; omega⟩
        | ⟨1, _⟩ => exact ⟨Nat.zero_le _, by show (x 1 : Nat) < 0 + 128; omega⟩
        | ⟨2, _⟩ => exact ⟨Nat.zero_le _, by show (x 2 : Nat) < 0 + 32; omega⟩)
    match a with
    | ⟨0, _⟩ => exact ⟨Nat.zero_le _, by show (x 0 : Nat) < 0 + 1; omega⟩
    | ⟨1, _⟩ => exact ⟨Nat.zero_le _, by show (x 1 : Nat) < 0 + 128; omega⟩
    | ⟨2, _⟩ => exact ⟨Nat.zero_le _, by show (x 2 : Nat) < 0 + 32; omega⟩
  · intro h hc
    have a0 : (x 0 : Nat) < 0 + 1 := (h 0).2
    have b0 : 1 ≤ (x 0 : Nat) := (hc 0).1
    omega

/-- and what is not in the first half is the second -/
theorem crows_compl10 : Finset.univ \ (crowsAt t0).view.set = (crowsAt t1).view.set := by
  rw [← crows_compl01, sdiff_sdiff_right_self]
  exact inf_eq_right.mpr (Finset.subset_univ _)

/-- two trips whose halves start at the same place use the same half -/
theorem crows_set_congr (t s : Fin k2_t1_loop.trips) (h : k2_off12 t = k2_off12 s) : (crowsAt t).view.set = (crowsAt s).view.set := by
  ext x
  rw [mem_crowsAt, mem_crowsAt, h]

/-- an even trip's half is the first: everything but the second -/
theorem crows_even (t : Fin k2_t1_loop.trips) (h : k2_off12 t = k2_off12 t0) :
    (crowsAt t).view.set = Finset.univ \ (crowsAt t1).view.set := by
  rw [crows_compl01]; exact crows_set_congr t t0 h
/-- an odd trip's half is the second: everything but the first -/
theorem crows_odd (t : Fin k2_t1_loop.trips) (h : k2_off12 t = k2_off12 t1) :
    (crowsAt t).view.set = Finset.univ \ (crowsAt t0).view.set := by
  rw [crows_compl10]; exact crows_set_congr t t1 h

theorem inb_w0 : ∀ a, (![0] : Fin 1 → Nat) a + S128.size a ≤ S1024.size a := by decide
theorem inb_w128 : ∀ a, (![128] : Fin 1 → Nat) a + S128.size a ≤ S1024.size a := by decide
theorem inb_w256 : ∀ a, (![256] : Fin 1 → Nat) a + S128.size a ≤ S1024.size a := by decide
theorem inb_w384 : ∀ a, (![384] : Fin 1 → Nat) a + S128.size a ≤ S1024.size a := by decide
theorem inb_w512 : ∀ a, (![512] : Fin 1 → Nat) a + S128.size a ≤ S1024.size a := by decide
theorem inb_w640 : ∀ a, (![640] : Fin 1 → Nat) a + S128.size a ≤ S1024.size a := by decide
theorem inb_w768 : ∀ a, (![768] : Fin 1 → Nat) a + S128.size a ≤ S1024.size a := by decide
theorem inb_w896 : ∀ a, (![896] : Fin 1 → Nat) a + S128.size a ≤ S1024.size a := by decide

theorem size_tbl : S1000x128.size gathers_S1000x128_S128x128.axis = 1000 := by decide

set_option maxHeartbeats 1200000 in
/-- One vector subcore's whole task for the third gather call: fetch its 1024 token words, then eight times gather 128 table
    rows, compact their first 32 columns, and start the block's write-back, waiting for a slot's previous write-back
    before reusing the slot; at the end wait for the last two. Every copy is the subcore's own on a semaphore nobody
    else touches, one in flight per semaphore; a write-back stays in flight across two trips of the loop, carried in the
    loop's invariant together with the block of the result and the half of the scratch it holds. Contents are not tracked
    here: the task ends, faults nowhere, and hands back what it was handed. -/
theorem tile_run2 (O : CellTallies nD τ sig (HIx 4)) (W : Waits sig (HIx 4)) (q : PosShare TreeShare)
    (ft : Buf (Elt F) ((tblW).view.loc (tile d L))) (fi : Buf (Elt F) ((idxSl L).view.loc (tile d L)))
    (hfi : ∀ y, (fi y).toNat < 1000) :
    iprop(Transfers.MayWaits (tile d L) (none : HIx 4) O
        ∗ ((tblW).view.loc (tile d L) ↦{q} ft)
        ∗ ((idxSl L).view.loc (tile d L) ↦[(idxSl L).view.set]{fullShare} fi)
        ∗ (∃ f5, (s0W).view.loc (tile d L) ↦{fullShare} f5)
        ∗ (∃ r, (s1W).view.loc (tile d L) ↦{fullShare} r)
        ∗ crowsHeld (F := F) d L t1 ∗ crowsHeld (F := F) d L t0
        ∗ outHeld (F := F) d L t0 ∗ outHeld (F := F) d L t1 ∗ outHeld (F := F) d L t2 ∗ outHeld (F := F) d L t3 ∗ outHeld (F := F) d L t4 ∗ outHeld (F := F) d L t5 ∗ outHeld (F := F) d L t6 ∗ outHeld (F := F) d L t7
        ∗ semVal (tile d L, SemLoc.dma gS0) 0 ∗ semVal (tile d L, SemLoc.dma gS1) 0
        ∗ semVal (tile d L, SemLoc.dma wS0) 0 ∗ semVal (tile d L, SemLoc.dma wS1) 0
        ∗ semVal (tile d L, SemLoc.dma pS) 0
        ∗ owes (tile d L) O W)
      ⊢ wp frame (wpE (defs₀ (F := F)) 𝒱₀ (tile d L) none) Set.univ
          (cc2_gather_kernel L tblW (Memref.isWhole_whole _) idxW (Memref.isWhole_whole _) outW (Memref.isWhole_whole _)
            s0W (Memref.isWhole_whole _) s1W (Memref.isWhole_whole _) s2W (Memref.isWhole_whole _) cc2_scratch3 cc2_scratch4 cc2_scoped0)
          (fun _ => iprop(((tblW).view.loc (tile d L) ↦{q} ft)
            ∗ ((idxSl L).view.loc (tile d L) ↦[(idxSl L).view.set]{fullShare} fi)
            ∗ (∃ f5, (s0W).view.loc (tile d L) ↦{fullShare} f5)
            ∗ (∃ r, (s1W).view.loc (tile d L) ↦{fullShare} r)
            ∗ (∃ f, (s2W).view.loc (tile d L) ↦[(crowsAt t6).view.set]{fullShare} f)
            ∗ (∃ f, (s2W).view.loc (tile d L) ↦[(crowsAt t7).view.set]{fullShare} f)
            ∗ outHeld (F := F) d L t0 ∗ outHeld (F := F) d L t1 ∗ outHeld (F := F) d L t2 ∗ outHeld (F := F) d L t3 ∗ outHeld (F := F) d L t4 ∗ outHeld (F := F) d L t5 ∗ outHeld (F := F) d L t6 ∗ outHeld (F := F) d L t7
            ∗ semVal (tile d L, SemLoc.dma gS0) 0 ∗ semVal (tile d L, SemLoc.dma gS1) 0
            ∗ semVal (tile d L, SemLoc.dma wS0) 0 ∗ semVal (tile d L, SemLoc.dma wS1) 0
            ∗ semVal (tile d L, SemLoc.dma pS) 0
            ∗ ∃ W', ⌜∀ p ∈ W', p ∈ W ∨ p.2 = none⌝ ∗ owes (tile d L) O W')) := by
  rw [cc2_gather_kernel_eq_skeleton]; unfold cc2_gather_kernel_skel
  iintro ⟨Hmw, Ht, Hi, ⟨%f5, H5⟩, H6, Hc0, Hc1, Ho0, Ho1, Ho2, Ho3, Ho4, Ho5, Ho6, Ho7, Hg0, Hg1, Hw0, Hw1, Hp, HO⟩
  sl_exec
  have h5 : InRange (F := F) d L (View.write (Elt F) (s0W).view f5 (tile_run2.sl.dma0 d L fi) Finset.univ) := by
    intro o h x
    rw [View.write_whole_univ, size_tbl]
    unfold tile_run2.sl.dma0
    simp only [View.read_apply]
    exact hfi _
  sl_for (invO d L O W q ft) $$ [Hmw Ht H5 H6 Hc0 Hc1 Ho0 Ho1 Ho2 Ho3 Ho4 Ho5 Ho6 Ho7 Hg0 Hg1 Hw0 Hw1 HO]
  case region =>
    intro k u
    obtain ⟨k, hk⟩ := k
    match k, hk with
    | k + 8, hk => exact absurd (Nat.lt_of_lt_of_le hk k2_t1_abs.2.1) (by omega)
    | 0, hk =>
      -- trip 0: slot 0 idle, nothing to wait for
      have k2_h1 : ¬ k2_cond1 t0 = 1#1 := by decide
      change inv0 d L O W q ft ⊢ wp frame (wpE (defs₀ (F := F)) 𝒱₀ (tile d L) none) Set.univ (tile_run2.sl.prog.body_1 L t0 u) (fun _ => inv1 d L O W q ft)
      unfold inv0 common slotFree outHeld crowsHeld
      iintro ⟨⟨Hmw, Ht, ⟨%g5, %hin, H5⟩, H6, Hg0, Hg1, %W', %hW', HO⟩, ⟨Hw0, Hc⟩, Hs1, ⟨%o0, Ho0⟩, Ho1, Ho2, Ho3, Ho4, Ho5, Ho6, Ho7⟩
      icases H6 with ⟨%r6, H6⟩
      icases Hc with ⟨%c0, Hc⟩
      have hinT : ∀ x, (((s0W).slice (Rect.unit (s := S1024) ![0] S128.size inb_w0) (fun _ => rfl)).view.read (Elt F) g5 x).toNat
          < S1000x128.size gathers_S1000x128_S128x128.axis := hin ![0] inb_w0
      have hinK : ∀ x, ((offsAt t0).view.read (Elt F) g5 x).toNat < S1000x128.size gathers_S1000x128_S128x128.axis := hin _ _
      sl_exec
      sl_for (invC (F := F) d L t1) $$ [H6 Hc]
      case region =>
        intro j _
        unfold invC crowsHeld
        iintro ⟨⟨%r, H6⟩, ⟨%f, Hc⟩⟩
        sl_exec
        sl_step
        isplitl [H6]; · iexists _; iexact H6
        iexists _; iexact Hc
      · unfold invC crowsHeld
        isplitl [H6]; · iexists _; iexact H6
        iexists _; iexact Hc
      iintro %_ HI
      unfold invC crowsHeld
      icases HI with ⟨⟨%r, H6⟩, ⟨%f, Hc⟩⟩
      sl_exec
      sl_step
      iclear Hc
      unfold inv1 common slotBusy slotFree outHeld crowsHeld
      isplitl [Hmw Ht H5 H6 Hg0 Hg1 HO]
      · isplitl [Hmw]; · iexact Hmw
        isplitl [Ht]; · iexact Ht
        isplitl [H5]
        · iexists g5; isplitr
          · ipureintro; exact hin
          · iexact H5
        isplitl [H6]; · iexists _; iexact H6
        isplitl [Hg0]; · iexact Hg0
        isplitl [Hg1]; · iexact Hg1
        iexists (insert (SemLoc.dma gS0, (default : HIx 4)) W'); isplitr
        · ipureintro; intro p hp
          rcases Finset.mem_insert.mp hp with hp | hp
          · exact Or.inr (by subst hp; rfl)
          · exact hW' p hp
        · iexact HO
      isplitl [Hw0]; · iexists _, _; iexact Hw0
      isplitl [Hs1]; · iexact Hs1
      isplitl [Ho1]; · iexact Ho1
      isplitl [Ho2]; · iexact Ho2
      isplitl [Ho3]; · iexact Ho3
      isplitl [Ho4]; · iexact Ho4
      isplitl [Ho5]; · iexact Ho5
      isplitl [Ho6]; · iexact Ho6
      iexact Ho7
    | 1, hk =>
      -- trip 1: slot 1 idle, nothing to wait for
      have k2_h1 : ¬ k2_cond1 t1 = 1#1 := by decide
      change inv1 d L O W q ft ⊢ wp frame (wpE (defs₀ (F := F)) 𝒱₀ (tile d L) none) Set.univ (tile_run2.sl.prog.body_1 L t1 u) (fun _ => inv2 d L O W q ft)
      unfold inv1 common slotBusy slotFree outHeld crowsHeld
      iintro ⟨⟨Hmw, Ht, ⟨%g5, %hin, H5⟩, H6, Hg0, Hg1, %W', %hW', HO⟩, Hb0, ⟨Hw1, Hc⟩, ⟨%o1, Ho1⟩, Ho2, Ho3, Ho4, Ho5, Ho6, Ho7⟩
      icases H6 with ⟨%r6, H6⟩
      icases Hc with ⟨%c0, Hc⟩
      have hinT : ∀ x, (((s0W).slice (Rect.unit (s := S1024) ![128] S128.size inb_w128) (fun _ => rfl)).view.read (Elt F) g5 x).toNat
          < S1000x128.size gathers_S1000x128_S128x128.axis := hin ![128] inb_w128
      have hinK : ∀ x, ((offsAt t1).view.read (Elt F) g5 x).toNat < S1000x128.size gathers_S1000x128_S128x128.axis := hin _ _
      sl_exec
      sl_for (invC (F := F) d L t0) $$ [H6 Hc]
      case region =>
        intro j _
        unfold invC crowsHeld
        iintro ⟨⟨%r, H6⟩, ⟨%f, Hc⟩⟩
        sl_exec
        sl_step
        isplitl [H6]; · iexists _; iexact H6
        iexists _; iexact Hc
      · unfold invC crowsHeld
        isplitl [H6]; · iexists _; iexact H6
        iexists _; iexact Hc
      iintro %_ HI
      unfold invC crowsHeld
      icases HI with ⟨⟨%r, H6⟩, ⟨%f, Hc⟩⟩
      sl_exec
      sl_step
      iclear Hc
      unfold inv2 common slotBusy outHeld
      isplitl [Hmw Ht H5 H6 Hg0 Hg1 HO]
      · isplitl [Hmw]; · iexact Hmw
        isplitl [Ht]; · iexact Ht
        isplitl [H5]
        · iexists g5; isplitr
          · ipureintro; exact hin
          · iexact H5
        isplitl [H6]; · iexists _; iexact H6
        isplitl [Hg0]; · iexact Hg0
        isplitl [Hg1]; · iexact Hg1
        iexists (insert (SemLoc.dma gS1, (default : HIx 4)) W'); isplitr
        · ipureintro; intro p hp
          rcases Finset.mem_insert.mp hp with hp | hp
          · exact Or.inr (by subst hp; rfl)
          · exact hW' p hp
        · iexact HO
      isplitl [Hb0]; · iexact Hb0
      isplitl [Hw1]; · iexists _, _; iexact Hw1
      isplitl [Ho2]; · iexact Ho2
      isplitl [Ho3]; · iexact Ho3
      isplitl [Ho4]; · iexact Ho4
      isplitl [Ho5]; · iexact Ho5
      isplitl [Ho6]; · iexact Ho6
      iexact Ho7
    | 2, hk =>
      -- trip 2: block 0's write-back is waited for, then slot 0 is reused
      have k2_h1 : k2_cond1 t2 = 1#1 := by decide
      change inv2 d L O W q ft ⊢ wp frame (wpE (defs₀ (F := F)) 𝒱₀ (tile d L) none) Set.univ (tile_run2.sl.prog.body_1 L t2 u) (fun _ => inv3 d L O W q ft)
      unfold inv2 common slotBusy outHeld
      iintro ⟨⟨Hmw, Ht, ⟨%g5, %hin, H5⟩, H6, Hg0, Hg1, %W', %hW', HO⟩, ⟨%fo0, %fc0, Hw0⟩, Hb1, ⟨%o2, Ho2⟩, Ho3, Ho4, Ho5, Ho6, Ho7⟩
      icases H6 with ⟨%r6, H6⟩
      have hinT : ∀ x, (((s0W).slice (Rect.unit (s := S1024) ![256] S128.size inb_w256) (fun _ => rfl)).view.read (Elt F) g5 x).toNat
          < S1000x128.size gathers_S1000x128_S128x128.axis := hin ![256] inb_w256
      have hinK : ∀ x, ((offsAt t2).view.read (Elt F) g5 x).toNat < S1000x128.size gathers_S1000x128_S128x128.axis := hin _ _
      sl_exec
      ihave Hc := (Entails.of_eq (show ((s2W).view.loc (tile d L) ↦[(crowsAt t0).view.set]{fullShare} fc0 : sProp 𝕄)
          = ((s2W).view.loc (tile d L) ↦[Finset.univ \ (crowsAt t1).view.set]{fullShare} fc0) from by rw [crows_even t0 (by decide)])) $$ Hw0_src
      sl_for (invC (F := F) d L t1) $$ [H6 Hc]
      case region =>
        intro j _
        unfold invC crowsHeld
        iintro ⟨⟨%r, H6⟩, ⟨%f, Hc⟩⟩
        sl_exec
        sl_step
        isplitl [H6]; · iexists _; iexact H6
        iexists _; iexact Hc
      · unfold invC crowsHeld
        isplitl [H6]; · iexists _; iexact H6
        iexists _; iexact Hc
      iintro %_ HI
      unfold invC crowsHeld
      icases HI with ⟨⟨%r, H6⟩, ⟨%f, Hc⟩⟩
      sl_exec
      sl_step
      iclear Hc
      unfold inv3 common slotBusy outHeld
      isplitl [Hmw Ht H5 H6 Hg0 Hg1 HO]
      · isplitl [Hmw]; · iexact Hmw
        isplitl [Ht]; · iexact Ht
        isplitl [H5]
        · iexists g5; isplitr
          · ipureintro; exact hin
          · iexact H5
        isplitl [H6]; · iexists _; iexact H6
        isplitl [Hg0]; · iexact Hg0
        isplitl [Hg1]; · iexact Hg1
        iexists (insert (SemLoc.dma gS0, (default : HIx 4)) (insert (SemLoc.dma wS0, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hw0]; · iexists _, _; iexact Hw0
      isplitl [Hb1]; · iexact Hb1
      isplitl [Hw0_dst]; · iexists _; iexact Hw0_dst
      isplitl [Ho3]; · iexact Ho3
      isplitl [Ho4]; · iexact Ho4
      isplitl [Ho5]; · iexact Ho5
      isplitl [Ho6]; · iexact Ho6
      iexact Ho7
    | 3, hk =>
      -- trip 3: block 1's write-back is waited for, then slot 1 is reused
      have k2_h1 : k2_cond1 t3 = 1#1 := by decide
      change inv3 d L O W q ft ⊢ wp frame (wpE (defs₀ (F := F)) 𝒱₀ (tile d L) none) Set.univ (tile_run2.sl.prog.body_1 L t3 u) (fun _ => inv4 d L O W q ft)
      unfold inv3 common slotBusy outHeld
      iintro ⟨⟨Hmw, Ht, ⟨%g5, %hin, H5⟩, H6, Hg0, Hg1, %W', %hW', HO⟩, Hb0, ⟨%fo1, %fc1, Hw1⟩, Ho0, ⟨%o3, Ho3⟩, Ho4, Ho5, Ho6, Ho7⟩
      icases H6 with ⟨%r6, H6⟩
      have hinT : ∀ x, (((s0W).slice (Rect.unit (s := S1024) ![384] S128.size inb_w384) (fun _ => rfl)).view.read (Elt F) g5 x).toNat
          < S1000x128.size gathers_S1000x128_S128x128.axis := hin ![384] inb_w384
      have hinK : ∀ x, ((offsAt t3).view.read (Elt F) g5 x).toNat < S1000x128.size gathers_S1000x128_S128x128.axis := hin _ _
      sl_exec
      ihave Hc := (Entails.of_eq (show ((s2W).view.loc (tile d L) ↦[(crowsAt t1).view.set]{fullShare} fc1 : sProp 𝕄)
          = ((s2W).view.loc (tile d L) ↦[Finset.univ \ (crowsAt t0).view.set]{fullShare} fc1) from by rw [crows_odd t1 (by decide)])) $$ Hw1_src
      sl_for (invC (F := F) d L t0) $$ [H6 Hc]
      case region =>
        intro j _
        unfold invC crowsHeld
        iintro ⟨⟨%r, H6⟩, ⟨%f, Hc⟩⟩
        sl_exec
        sl_step
        isplitl [H6]; · iexists _; iexact H6
        iexists _; iexact Hc
      · unfold invC crowsHeld
        isplitl [H6]; · iexists _; iexact H6
        iexists _; iexact Hc
      iintro %_ HI
      unfold invC crowsHeld
      icases HI with ⟨⟨%r, H6⟩, ⟨%f, Hc⟩⟩
      sl_exec
      sl_step
      iclear Hc
      unfold inv4 common slotBusy outHeld
      isplitl [Hmw Ht H5 H6 Hg0 Hg1 HO]
      · isplitl [Hmw]; · iexact Hmw
        isplitl [Ht]; · iexact Ht
        isplitl [H5]
        · iexists g5; isplitr
          · ipureintro; exact hin
          · iexact H5
        isplitl [H6]; · iexists _; iexact H6
        isplitl [Hg0]; · iexact Hg0
        isplitl [Hg1]; · iexact Hg1
        iexists (insert (SemLoc.dma gS1, (default : HIx 4)) (insert (SemLoc.dma wS1, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hb0]; · iexact Hb0
      isplitl [Hw1]; · iexists _, _; iexact Hw1
      isplitl [Ho0]; · iexact Ho0
      isplitl [Hw1_dst]; · iexists _; iexact Hw1_dst
      isplitl [Ho4]; · iexact Ho4
      isplitl [Ho5]; · iexact Ho5
      isplitl [Ho6]; · iexact Ho6
      iexact Ho7
    | 4, hk =>
      -- trip 4: block 2's write-back is waited for, then slot 0 is reused
      have k2_h1 : k2_cond1 t4 = 1#1 := by decide
      change inv4 d L O W q ft ⊢ wp frame (wpE (defs₀ (F := F)) 𝒱₀ (tile d L) none) Set.univ (tile_run2.sl.prog.body_1 L t4 u) (fun _ => inv5 d L O W q ft)
      unfold inv4 common slotBusy outHeld
      iintro ⟨⟨Hmw, Ht, ⟨%g5, %hin, H5⟩, H6, Hg0, Hg1, %W', %hW', HO⟩, ⟨%fo0, %fc0, Hw0⟩, Hb1, Ho0, Ho1, ⟨%o4, Ho4⟩, Ho5, Ho6, Ho7⟩
      icases H6 with ⟨%r6, H6⟩
      have hinT : ∀ x, (((s0W).slice (Rect.unit (s := S1024) ![512] S128.size inb_w512) (fun _ => rfl)).view.read (Elt F) g5 x).toNat
          < S1000x128.size gathers_S1000x128_S128x128.axis := hin ![512] inb_w512
      have hinK : ∀ x, ((offsAt t4).view.read (Elt F) g5 x).toNat < S1000x128.size gathers_S1000x128_S128x128.axis := hin _ _
      sl_exec
      ihave Hc := (Entails.of_eq (show ((s2W).view.loc (tile d L) ↦[(crowsAt t2).view.set]{fullShare} fc0 : sProp 𝕄)
          = ((s2W).view.loc (tile d L) ↦[Finset.univ \ (crowsAt t1).view.set]{fullShare} fc0) from by rw [crows_even t2 (by decide)])) $$ Hw0_src
      sl_for (invC (F := F) d L t1) $$ [H6 Hc]
      case region =>
        intro j _
        unfold invC crowsHeld
        iintro ⟨⟨%r, H6⟩, ⟨%f, Hc⟩⟩
        sl_exec
        sl_step
        isplitl [H6]; · iexists _; iexact H6
        iexists _; iexact Hc
      · unfold invC crowsHeld
        isplitl [H6]; · iexists _; iexact H6
        iexists _; iexact Hc
      iintro %_ HI
      unfold invC crowsHeld
      icases HI with ⟨⟨%r, H6⟩, ⟨%f, Hc⟩⟩
      sl_exec
      sl_step
      iclear Hc
      unfold inv5 common slotBusy outHeld
      isplitl [Hmw Ht H5 H6 Hg0 Hg1 HO]
      · isplitl [Hmw]; · iexact Hmw
        isplitl [Ht]; · iexact Ht
        isplitl [H5]
        · iexists g5; isplitr
          · ipureintro; exact hin
          · iexact H5
        isplitl [H6]; · iexists _; iexact H6
        isplitl [Hg0]; · iexact Hg0
        isplitl [Hg1]; · iexact Hg1
        iexists (insert (SemLoc.dma gS0, (default : HIx 4)) (insert (SemLoc.dma wS0, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hw0]; · iexists _, _; iexact Hw0
      isplitl [Hb1]; · iexact Hb1
      isplitl [Ho0]; · iexact Ho0
      isplitl [Ho1]; · iexact Ho1
      isplitl [Hw0_dst]; · iexists _; iexact Hw0_dst
      isplitl [Ho5]; · iexact Ho5
      isplitl [Ho6]; · iexact Ho6
      iexact Ho7
    | 5, hk =>
      -- trip 5: block 3's write-back is waited for, then slot 1 is reused
      have k2_h1 : k2_cond1 t5 = 1#1 := by decide
      change inv5 d L O W q ft ⊢ wp frame (wpE (defs₀ (F := F)) 𝒱₀ (tile d L) none) Set.univ (tile_run2.sl.prog.body_1 L t5 u) (fun _ => inv6 d L O W q ft)
      unfold inv5 common slotBusy outHeld
      iintro ⟨⟨Hmw, Ht, ⟨%g5, %hin, H5⟩, H6, Hg0, Hg1, %W', %hW', HO⟩, Hb0, ⟨%fo1, %fc1, Hw1⟩, Ho0, Ho1, Ho2, ⟨%o5, Ho5⟩, Ho6, Ho7⟩
      icases H6 with ⟨%r6, H6⟩
      have hinT : ∀ x, (((s0W).slice (Rect.unit (s := S1024) ![640] S128.size inb_w640) (fun _ => rfl)).view.read (Elt F) g5 x).toNat
          < S1000x128.size gathers_S1000x128_S128x128.axis := hin ![640] inb_w640
      have hinK : ∀ x, ((offsAt t5).view.read (Elt F) g5 x).toNat < S1000x128.size gathers_S1000x128_S128x128.axis := hin _ _
      sl_exec
      ihave Hc := (Entails.of_eq (show ((s2W).view.loc (tile d L) ↦[(crowsAt t3).view.set]{fullShare} fc1 : sProp 𝕄)
          = ((s2W).view.loc (tile d L) ↦[Finset.univ \ (crowsAt t0).view.set]{fullShare} fc1) from by rw [crows_odd t3 (by decide)])) $$ Hw1_src
      sl_for (invC (F := F) d L t0) $$ [H6 Hc]
      case region =>
        intro j _
        unfold invC crowsHeld
        iintro ⟨⟨%r, H6⟩, ⟨%f, Hc⟩⟩
        sl_exec
        sl_step
        isplitl [H6]; · iexists _; iexact H6
        iexists _; iexact Hc
      · unfold invC crowsHeld
        isplitl [H6]; · iexists _; iexact H6
        iexists _; iexact Hc
      iintro %_ HI
      unfold invC crowsHeld
      icases HI with ⟨⟨%r, H6⟩, ⟨%f, Hc⟩⟩
      sl_exec
      sl_step
      iclear Hc
      unfold inv6 common slotBusy outHeld
      isplitl [Hmw Ht H5 H6 Hg0 Hg1 HO]
      · isplitl [Hmw]; · iexact Hmw
        isplitl [Ht]; · iexact Ht
        isplitl [H5]
        · iexists g5; isplitr
          · ipureintro; exact hin
          · iexact H5
        isplitl [H6]; · iexists _; iexact H6
        isplitl [Hg0]; · iexact Hg0
        isplitl [Hg1]; · iexact Hg1
        iexists (insert (SemLoc.dma gS1, (default : HIx 4)) (insert (SemLoc.dma wS1, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hb0]; · iexact Hb0
      isplitl [Hw1]; · iexists _, _; iexact Hw1
      isplitl [Ho0]; · iexact Ho0
      isplitl [Ho1]; · iexact Ho1
      isplitl [Ho2]; · iexact Ho2
      isplitl [Hw1_dst]; · iexists _; iexact Hw1_dst
      isplitl [Ho6]; · iexact Ho6
      iexact Ho7
    | 6, hk =>
      -- trip 6: block 4's write-back is waited for, then slot 0 is reused
      have k2_h1 : k2_cond1 t6 = 1#1 := by decide
      change inv6 d L O W q ft ⊢ wp frame (wpE (defs₀ (F := F)) 𝒱₀ (tile d L) none) Set.univ (tile_run2.sl.prog.body_1 L t6 u) (fun _ => inv7 d L O W q ft)
      unfold inv6 common slotBusy outHeld
      iintro ⟨⟨Hmw, Ht, ⟨%g5, %hin, H5⟩, H6, Hg0, Hg1, %W', %hW', HO⟩, ⟨%fo0, %fc0, Hw0⟩, Hb1, Ho0, Ho1, Ho2, Ho3, ⟨%o6, Ho6⟩, Ho7⟩
      icases H6 with ⟨%r6, H6⟩
      have hinT : ∀ x, (((s0W).slice (Rect.unit (s := S1024) ![768] S128.size inb_w768) (fun _ => rfl)).view.read (Elt F) g5 x).toNat
          < S1000x128.size gathers_S1000x128_S128x128.axis := hin ![768] inb_w768
      have hinK : ∀ x, ((offsAt t6).view.read (Elt F) g5 x).toNat < S1000x128.size gathers_S1000x128_S128x128.axis := hin _ _
      sl_exec
      ihave Hc := (Entails.of_eq (show ((s2W).view.loc (tile d L) ↦[(crowsAt t4).view.set]{fullShare} fc0 : sProp 𝕄)
          = ((s2W).view.loc (tile d L) ↦[Finset.univ \ (crowsAt t1).view.set]{fullShare} fc0) from by rw [crows_even t4 (by decide)])) $$ Hw0_src
      sl_for (invC (F := F) d L t1) $$ [H6 Hc]
      case region =>
        intro j _
        unfold invC crowsHeld
        iintro ⟨⟨%r, H6⟩, ⟨%f, Hc⟩⟩
        sl_exec
        sl_step
        isplitl [H6]; · iexists _; iexact H6
        iexists _; iexact Hc
      · unfold invC crowsHeld
        isplitl [H6]; · iexists _; iexact H6
        iexists _; iexact Hc
      iintro %_ HI
      unfold invC crowsHeld
      icases HI with ⟨⟨%r, H6⟩, ⟨%f, Hc⟩⟩
      sl_exec
      sl_step
      iclear Hc
      unfold inv7 common slotBusy outHeld
      isplitl [Hmw Ht H5 H6 Hg0 Hg1 HO]
      · isplitl [Hmw]; · iexact Hmw
        isplitl [Ht]; · iexact Ht
        isplitl [H5]
        · iexists g5; isplitr
          · ipureintro; exact hin
          · iexact H5
        isplitl [H6]; · iexists _; iexact H6
        isplitl [Hg0]; · iexact Hg0
        isplitl [Hg1]; · iexact Hg1
        iexists (insert (SemLoc.dma gS0, (default : HIx 4)) (insert (SemLoc.dma wS0, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hw0]; · iexists _, _; iexact Hw0
      isplitl [Hb1]; · iexact Hb1
      isplitl [Ho0]; · iexact Ho0
      isplitl [Ho1]; · iexact Ho1
      isplitl [Ho2]; · iexact Ho2
      isplitl [Ho3]; · iexact Ho3
      isplitl [Hw0_dst]; · iexists _; iexact Hw0_dst
      iexact Ho7
    | 7, hk =>
      -- trip 7: block 5's write-back is waited for, then slot 1 is reused
      have k2_h1 : k2_cond1 t7 = 1#1 := by decide
      change inv7 d L O W q ft ⊢ wp frame (wpE (defs₀ (F := F)) 𝒱₀ (tile d L) none) Set.univ (tile_run2.sl.prog.body_1 L t7 u) (fun _ => inv8 d L O W q ft)
      unfold inv7 common slotBusy outHeld
      iintro ⟨⟨Hmw, Ht, ⟨%g5, %hin, H5⟩, H6, Hg0, Hg1, %W', %hW', HO⟩, Hb0, ⟨%fo1, %fc1, Hw1⟩, Ho0, Ho1, Ho2, Ho3, Ho4, ⟨%o7, Ho7⟩⟩
      icases H6 with ⟨%r6, H6⟩
      have hinT : ∀ x, (((s0W).slice (Rect.unit (s := S1024) ![896] S128.size inb_w896) (fun _ => rfl)).view.read (Elt F) g5 x).toNat
          < S1000x128.size gathers_S1000x128_S128x128.axis := hin ![896] inb_w896
      have hinK : ∀ x, ((offsAt t7).view.read (Elt F) g5 x).toNat < S1000x128.size gathers_S1000x128_S128x128.axis := hin _ _
      sl_exec
      ihave Hc := (Entails.of_eq (show ((s2W).view.loc (tile d L) ↦[(crowsAt t5).view.set]{fullShare} fc1 : sProp 𝕄)
          = ((s2W).view.loc (tile d L) ↦[Finset.univ \ (crowsAt t0).view.set]{fullShare} fc1) from by rw [crows_odd t5 (by decide)])) $$ Hw1_src
      sl_for (invC (F := F) d L t0) $$ [H6 Hc]
      case region =>
        intro j _
        unfold invC crowsHeld
        iintro ⟨⟨%r, H6⟩, ⟨%f, Hc⟩⟩
        sl_exec
        sl_step
        isplitl [H6]; · iexists _; iexact H6
        iexists _; iexact Hc
      · unfold invC crowsHeld
        isplitl [H6]; · iexists _; iexact H6
        iexists _; iexact Hc
      iintro %_ HI
      unfold invC crowsHeld
      icases HI with ⟨⟨%r, H6⟩, ⟨%f, Hc⟩⟩
      sl_exec
      sl_step
      iclear Hc
      unfold inv8 common slotBusy outHeld
      isplitl [Hmw Ht H5 H6 Hg0 Hg1 HO]
      · isplitl [Hmw]; · iexact Hmw
        isplitl [Ht]; · iexact Ht
        isplitl [H5]
        · iexists g5; isplitr
          · ipureintro; exact hin
          · iexact H5
        isplitl [H6]; · iexists _; iexact H6
        isplitl [Hg0]; · iexact Hg0
        isplitl [Hg1]; · iexact Hg1
        iexists (insert (SemLoc.dma gS1, (default : HIx 4)) (insert (SemLoc.dma wS1, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hb0]; · iexact Hb0
      isplitl [Hw1]; · iexists _, _; iexact Hw1
      isplitl [Ho0]; · iexact Ho0
      isplitl [Ho1]; · iexact Ho1
      isplitl [Ho2]; · iexact Ho2
      isplitl [Ho3]; · iexact Ho3
      isplitl [Ho4]; · iexact Ho4
      iexists _; iexact Hw1_dst
  · -- before the first trip
    iapply (Entails.of_eq (show inv0 d L O W q ft = invO d L O W q ft 0 PUnit.unit from rfl))
    unfold inv0 common slotFree outHeld crowsHeld
    isplitl [Hmw Ht H5 H6 Hg0 Hg1 HO]
    · isplitl [Hmw]; · iexact Hmw
      isplitl [Ht]; · iexact Ht
      isplitl [H5]
      · iexists _; isplitr
        · ipureintro; exact h5
        · iexact H5
      isplitl [H6]; · iexact H6
      isplitl [Hg0]; · iexact Hg0
      isplitl [Hg1]; · iexact Hg1
      iexists (insert (SemLoc.dma pS, (default : HIx 4)) W); isplitr
      · ipureintro; intro p hp
        rcases Finset.mem_insert.mp hp with hp | hp
        · exact Or.inr (by subst hp; rfl)
        · exact Or.inl hp
      · iexact HO
    isplitl [Hw0 Hc0]; · isplitl [Hw0]; · iexact Hw0
                         iexact Hc0
    isplitl [Hw1 Hc1]; · isplitl [Hw1]; · iexact Hw1
                         iexact Hc1
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    iexact Ho7
  -- after the loop: the last two write-backs
  iintro %acc HI
  ihave HI' := (Entails.of_eq (show invO d L O W q ft (Scf.trips k2_t1_loop.lb k2_t1_loop.ub k2_t1_loop.st) acc = inv8 d L O W q ft from rfl)) $$ HI
  unfold inv8 common slotBusy outHeld
  icases HI' with ⟨⟨Hmw, Ht, ⟨%g5, %hin, H5⟩, H6, Hg0, Hg1, %W', %hW', HO⟩, ⟨%foA, %fcA, Hw0⟩, ⟨%foB, %fcB, Hw1⟩, Ho0, Ho1, Ho2, Ho3, Ho4, Ho5⟩
  sl_exec
  sl_step
  isplitl [Ht]; · iexact Ht
  isplitl [Hi]; · iexact Hi
  isplitl [H5]; · iexists _; iexact H5
  isplitl [H6]; · iexact H6
  isplitl [Hw0_src]; · iexists _; iexact Hw0_src
  isplitl [Hw1_src]; · iexists _; iexact Hw1_src
  isplitl [Ho0]; · iexact Ho0
  isplitl [Ho1]; · iexact Ho1
  isplitl [Ho2]; · iexact Ho2
  isplitl [Ho3]; · iexact Ho3
  isplitl [Ho4]; · iexact Ho4
  isplitl [Ho5]; · iexact Ho5
  isplitl [Hw0_dst]; · iexists _; iexact Hw0_dst
  isplitl [Hw1_dst]; · iexists _; iexact Hw1_dst
  isplitl [Hg0]; · iexact Hg0
  isplitl [Hg1]; · iexact Hg1
  isplitl [Hw0]; · iexact Hw0
  isplitl [Hw1]; · iexact Hw1
  isplitl [Hp]; · iexact Hp
  iexists (insert (SemLoc.dma wS1, (default : HIx 4)) (insert (SemLoc.dma wS0, (default : HIx 4)) W')); isplitr
  · ipureintro; intro p hp
    rcases Finset.mem_insert.mp hp with hp | hp
    · exact Or.inr (by subst hp; rfl)
    rcases Finset.mem_insert.mp hp with hp | hp
    · exact Or.inr (by subst hp; rfl)
    · exact hW' p hp
  · iexact HO

end Cert.KernelIdeal.Hand.C2

end
-- ==== Proof.KernelIdeal.TileObl2.lean ====
/-
  The third gather call's task as the launch theorem wants it: from what a vector subcore is handed at the call — its
  share of the table, its slice of the token words, its blocks of the result — and its own scratch buffers and
  semaphores, to the same handed back. The subcore's scratch and semaphores are picked out of everything it owns, the
  two-slot compact-rows scratch is cut into its halves for the run and glued back afterwards, and the run itself is
  `tile_run2`.
-/
import proofs.«203661_g84404697301628_cont_9to1_m_135_26_alg».proof.Proof.KernelIdeal.TileRun2
import proofs.«203661_g84404697301628_cont_9to1_m_135_26_alg».proof.Proof.Pay
import Idealize.ShloMosaic.Lib.SparseCore.Ops

noncomputable section

namespace Cert.KernelIdeal.Hand.C2

open Cert.KernelIdeal Cert.KernelIdeal.Gen Cert.KernelIdeal.Hand
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [hK : Cert.KernelIdeal.Facts] [FloatOps F]

local notation "𝕄" => MT nD τ sig (HIx 4) (Elt F) ℕ UU ℕ

local notation "tblW" => (Memref.whole Cert.KernelIdeal.main_v0_scv : Memref Cert.KernelIdeal.sig Kind.scVector Space.hbm Cert.KernelIdeal.S1000x128 EltTy.f32)
local notation "idxW" => (Memref.whole Cert.KernelIdeal.main_v9_scv : Memref Cert.KernelIdeal.sig Kind.scVector Space.hbm Cert.KernelIdeal.S32768 EltTy.i32)
local notation "outW" => (Memref.whole Cert.KernelIdeal.main_v10_scv : Memref Cert.KernelIdeal.sig Kind.scVector Space.hbm Cert.KernelIdeal.S2x16384x32 EltTy.f32)
local notation "s0W" => (Memref.whole Cert.KernelIdeal.cc2_scratch0 : Memref Cert.KernelIdeal.sig Kind.scVector Space.vmem Cert.KernelIdeal.S1024 EltTy.i32)
local notation "s1W" => (Memref.whole Cert.KernelIdeal.cc2_scratch1 : Memref Cert.KernelIdeal.sig Kind.scVector Space.vmem Cert.KernelIdeal.S2x128x128 EltTy.f32)
local notation "s2W" => (Memref.whole Cert.KernelIdeal.cc2_scratch2 : Memref Cert.KernelIdeal.sig Kind.scVector Space.vmem Cert.KernelIdeal.S2x128x32 EltTy.f32)
local notation "gS0" => (⟨10, by decide⟩ : DmaSem Cert.KernelIdeal.sig)
local notation "gS1" => (⟨11, by decide⟩ : DmaSem Cert.KernelIdeal.sig)
local notation "wS0" => (⟨12, by decide⟩ : DmaSem Cert.KernelIdeal.sig)
local notation "wS1" => (⟨13, by decide⟩ : DmaSem Cert.KernelIdeal.sig)
local notation "pS" => (⟨14, by decide⟩ : DmaSem Cert.KernelIdeal.sig)

/-- the third call's token words, as the TensorCore names them -/
abbrev idxLoc2 (d : Dev nD) : Loc nD τ sig := (SparseCore.T d).loc main_v9

/-- the grid point of subcore `i` of SparseCore `c` -/
def coords2 (c : Fin 2) (i : Fin 16) : grid2.Coords :=
  fun | 0 => c | 1 => i | ⟨_ + 2, h⟩ => absurd h (Nat.not_lt.2 (Nat.le_add_left _ _))

/-- what subcore `(c, i)` is handed for the third call besides the table: its slice of the token words, at the words
    `wd`, and its eight blocks of the result, at some contents -/
def Rs2 (wd : (d : Dev nD) → Buf (Elt F) (idxLoc2 d)) (d : Dev nD) (c : Fin 2) (i : Fin 16) : sProp 𝕄 :=
  iprop(((idxSl (coords2 c i)).view.loc (tile d (coords2 c i)) ↦[(idxSl (coords2 c i)).view.set]{fullShare} wd d)
    ∗ outHeld (F := F) d (coords2 c i) t0 ∗ outHeld (F := F) d (coords2 c i) t1
    ∗ outHeld (F := F) d (coords2 c i) t2 ∗ outHeld (F := F) d (coords2 c i) t3
    ∗ outHeld (F := F) d (coords2 c i) t4 ∗ outHeld (F := F) d (coords2 c i) t5
    ∗ outHeld (F := F) d (coords2 c i) t6 ∗ outHeld (F := F) d (coords2 c i) t7)

section Tile

variable (d : Dev nD) (L : grid2.Coords)

omit [FloatOps F] in
theorem mem_own (k : DmaSem sig) (hk : (SemLoc.dma k : SemLoc sig).isScoped .scVector = true) :
    ((tile d L, SemLoc.dma k) : GSem nD τ sig) ∈ ownCells (sig := sig) (tile d L) :=
  (mem_ownCells (g := (tile d L, SemLoc.dma k))).mpr ⟨rfl, hk⟩
omit [FloatOps F] in
theorem ne_cell {k k' : DmaSem sig} (h : k ≠ k') : ((tile d L, SemLoc.dma k) : GSem nD τ sig) ≠ (tile d L, SemLoc.dma k') :=
  fun e => h (SemLoc.dma.inj (Prod.mk.inj e).2)

omit [FloatOps F] in
/-- the five semaphores this call uses are among the subcore's own: they, and the rest -/
theorem ownSems0_V2 :
    (ownSems0 (tile d L) : sProp 𝕄)
      = iprop(semVal (tile d L, SemLoc.dma gS0) 0 ∗ semVal (tile d L, SemLoc.dma gS1) 0 ∗ semVal (tile d L, SemLoc.dma wS0) 0
          ∗ semVal (tile d L, SemLoc.dma wS1) 0 ∗ semVal (tile d L, SemLoc.dma pS) 0
          ∗ bigSep ((((((ownCells (tile d L)).erase (tile d L, SemLoc.dma gS0)).erase (tile d L, SemLoc.dma gS1)).erase (tile d L, SemLoc.dma wS0)).erase
              (tile d L, SemLoc.dma wS1)).erase (tile d L, SemLoc.dma pS)) fun g => semVal g 0) := by
  unfold SparseCore.Cfg.ownSems0
  rw [SparseCore.bigSep_erase' (mem_own d L gS0 (by decide)),
    SparseCore.bigSep_erase' (Finset.mem_erase.mpr ⟨ne_cell d L (k := gS1) (k' := gS0) (by decide), mem_own d L gS1 (by decide)⟩),
    SparseCore.bigSep_erase' (Finset.mem_erase.mpr ⟨ne_cell d L (k := wS0) (k' := gS1) (by decide), Finset.mem_erase.mpr ⟨ne_cell d L (k := wS0) (k' := gS0) (by decide), mem_own d L wS0 (by decide)⟩⟩),
    SparseCore.bigSep_erase' (Finset.mem_erase.mpr ⟨ne_cell d L (k := wS1) (k' := wS0) (by decide), Finset.mem_erase.mpr ⟨ne_cell d L (k := wS1) (k' := gS1) (by decide), Finset.mem_erase.mpr ⟨ne_cell d L (k := wS1) (k' := gS0) (by decide), mem_own d L wS1 (by decide)⟩⟩⟩),
    SparseCore.bigSep_erase' (Finset.mem_erase.mpr ⟨ne_cell d L (k := pS) (k' := wS1) (by decide), Finset.mem_erase.mpr ⟨ne_cell d L (k := pS) (k' := wS0) (by decide), Finset.mem_erase.mpr ⟨ne_cell d L (k := pS) (k' := gS1) (by decide), Finset.mem_erase.mpr ⟨ne_cell d L (k := pS) (k' := gS0) (by decide), mem_own d L pS (by decide)⟩⟩⟩⟩)]

omit [FloatOps F] in
/-- the three scratch buffers are among the subcore's own: they, at some contents, and the rest -/
theorem ownBufs_V2 :
    (ownBufs (tile d L) : sProp 𝕄)
      = iprop((∃ f, (tile d L).loc cc2_scratch0 ↦{fullShare} f) ∗ (∃ f, (tile d L).loc cc2_scratch1 ↦{fullShare} f)
          ∗ (∃ f, (tile d L).loc cc2_scratch2 ↦{fullShare} f)
          ∗ bigSep ((((ownRefs (τ := τ) (.scVector (cV L) (jV L))).erase ((Proc.scVector (cV L) (jV L)).devRef cc2_scratch0)).erase
              ((Proc.scVector (cV L) (jV L)).devRef cc2_scratch1)).erase ((Proc.scVector (cV L) (jV L)).devRef cc2_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc2_scratch0) rfl)).trans ?_
  rw [SparseCore.bigSep_erase' (Finset.mem_erase.mpr ⟨fun e => absurd (Proc.devRef_injective _ e) (show (cc2_scratch1 : Ref sig .scVector) ≠ cc2_scratch0 by decide),
    SparseCore.Cfg.mem_ownRefs_of_owner (p := Proc.scVector (cV L) (jV L)) (b := (Proc.scVector (cV L) (jV L)).devRef cc2_scratch1) rfl⟩),
    SparseCore.bigSep_erase' (Finset.mem_erase.mpr ⟨fun e => absurd (Proc.devRef_injective _ e) (show (cc2_scratch2 : Ref sig .scVector) ≠ cc2_scratch1 by decide),
      Finset.mem_erase.mpr ⟨fun e => absurd (Proc.devRef_injective _ e) (show (cc2_scratch2 : Ref sig .scVector) ≠ cc2_scratch0 by decide),
    SparseCore.Cfg.mem_ownRefs_of_owner (p := Proc.scVector (cV L) (jV L)) (b := (Proc.scVector (cV L) (jV L)).devRef cc2_scratch2) rfl⟩⟩)]

omit [FloatOps F] in
/-- the compact-rows scratch, held whole, is its two halves (each as "all but the other") -/
theorem crows_split (f : Buf (Elt F) ((s2W).view.loc (tile d L))) :
    ((s2W).view.loc (tile d L) ↦[Finset.univ]{fullShare} f : sProp 𝕄)
      ⊢ iprop(((s2W).view.loc (tile d L) ↦[Finset.univ \ (crowsAt t1).view.set]{fullShare} f)
          ∗ ((s2W).view.loc (tile d L) ↦[Finset.univ \ (crowsAt t0).view.set]{fullShare} f)) := by
  have h : ((s2W).view.loc (tile d L) ↦[Finset.univ]{fullShare} f : sProp 𝕄)
      ⊢ iprop(((s2W).view.loc (tile d L) ↦[Finset.univ \ (crowsAt t1).view.set]{fullShare} f)
          ∗ ((s2W).view.loc (tile d L) ↦[Finset.univ \ (Finset.univ \ (crowsAt t1).view.set)]{fullShare} f)) :=
    (pointsTo_split_subset (Finset.subset_univ (Finset.univ \ (crowsAt t1).view.set))).1
  have e : Finset.univ \ (Finset.univ \ (crowsAt t1).view.set) = Finset.univ \ (crowsAt t0).view.set := by rw [crows_compl01]
  rw [e] at h
  exact h

omit [FloatOps F] in
/-- the halves the run hands back are the first and the second -/
theorem crows_set_last0 : (crowsAt t6).view.set = (crowsAt t0).view.set := crows_set_congr t6 t0 (by decide)
omit [FloatOps F] in
theorem crows_set_last1 : (crowsAt t7).view.set = (crowsAt t1).view.set := crows_set_congr t7 t1 (by decide)

omit [FloatOps F] in
/-- and the two halves, at whatever each holds, are the scratch whole again -/
theorem crows_join (f g : Buf (Elt F) ((s2W).view.loc (tile d L))) :
    iprop(((s2W).view.loc (tile d L) ↦[(crowsAt t6).view.set]{fullShare} f) ∗ ((s2W).view.loc (tile d L) ↦[(crowsAt t7).view.set]{fullShare} g))
      ⊢ (iprop(∃ h, (s2W).view.loc (tile d L) ↦[Finset.univ]{fullShare} h) : sProp 𝕄) := by
  rw [crows_set_last0, crows_set_last1]
  have hd : Disjoint (crowsAt t0).view.set (crowsAt t1).view.set := by
    rw [← crows_compl01]; exact Finset.sdiff_disjoint
  have hu : (crowsAt t0).view.set ∪ (crowsAt t1).view.set = Finset.univ := by
    rw [← crows_compl01]; exact Finset.sdiff_union_of_subset (Finset.subset_univ _)
  refine (pointsTo_join hd).trans ?_
  rw [hu]
  iintro H; iexists _; iexact H

/-- The task on one vector subcore, in the launch theorem's resources: the table's share, the subcore's words and blocks,
    and its own scoped storage in; the same out. -/
theorem tile_body2 (hF : (K (F := F)).Facts) (tb : (d : Dev nD) → Buf (Elt F) (tblLoc d)) (wd : (d : Dev nD) → Buf (Elt F) (idxLoc2 d))
    (hwd : ∀ d y, (wd d y).toNat < 1000) (q : PosShare TreeShare)
    (lv : GSem nD τ sig → HIx 4 → ℕ) (hlv : (K (F := F)).Refines lv)
    (O : CellTallies nD τ sig (HIx 4)) (W : Waits sig (HIx 4)) (hO : ∀ g, O g none = 0) :
    iprop(levAts (K (F := F)).L lv ∗ emp
        ∗ ((tblLoc d ↦{q} tb d)
            ∗ ((idxSl L).view.loc (tile d L) ↦[(idxSl L).view.set]{fullShare} wd d)
            ∗ outHeld (F := F) d L t0 ∗ outHeld (F := F) d L t1 ∗ outHeld (F := F) d L t2 ∗ outHeld (F := F) d L t3
            ∗ outHeld (F := F) d L t4 ∗ outHeld (F := F) d L t5 ∗ outHeld (F := F) d L t6 ∗ outHeld (F := F) d L t7)
        ∗ scopedBufs (tile d L) ∗ scopedSems0 (tile d L) ∗ owes (tile d L) O W)
      ⊢ wp frame (wpE (defs₀ (F := F)) 𝒱₀ (tile d L) none) Set.univ
          (cc2_gather_kernel L tblW (Memref.isWhole_whole _) idxW (Memref.isWhole_whole _) outW (Memref.isWhole_whole _)
            s0W (Memref.isWhole_whole _) s1W (Memref.isWhole_whole _) s2W (Memref.isWhole_whole _) cc2_scratch3 cc2_scratch4 cc2_scoped0)
          fun _ => iprop(((tblLoc d ↦{q} tb d)
            ∗ ((idxSl L).view.loc (tile d L) ↦[(idxSl L).view.set]{fullShare} wd d)
            ∗ outHeld (F := F) d L t0 ∗ outHeld (F := F) d L t1 ∗ outHeld (F := F) d L t2 ∗ outHeld (F := F) d L t3
            ∗ outHeld (F := F) d L t4 ∗ outHeld (F := F) d L t5 ∗ outHeld (F := F) d L t6 ∗ outHeld (F := F) d L t7)
            ∗ scopedBufs (tile d L) ∗ scopedSems0 (tile d L)
            ∗ ∃ W', ⌜∀ p ∈ W', p ∈ W ∨ p.2 = none⌝ ∗ owes (tile d L) O W') := by
  rw [(K (F := F)).scopedBufs_V hF d (cV L) (jV L), SparseCore.Cfg.scopedSems0_V (Val := Elt F) d (cV L) (jV L), ownSems0_V2, ownBufs_V2]
  iintro ⟨#Hlv, -, ⟨Ht, Hi, Ho0, Ho1, Ho2, Ho3, Ho4, Ho5, Ho6, Ho7⟩, ⟨H5, H6, ⟨%f7, H7⟩, Hbufs⟩, ⟨Hg0, Hg1, Hw0, Hw1, Hp, Hsems⟩, HO⟩
  ihave Hmw := ((K (F := F)).mayWaits_none (thr := tile d L) hO lv hlv) $$ Hlv
  ihave Hc := (crows_split (F := F) d L f7) $$ H7
  icases Hc with ⟨Hc1, Hc0⟩
  iapply (wp_wand_r frame (wpE (defs₀ (F := F)) 𝒱₀ (tile d L) none) Set.univ)
  isplitl [Hmw Ht Hi H5 H6 Hc0 Hc1 Ho0 Ho1 Ho2 Ho3 Ho4 Ho5 Ho6 Ho7 Hg0 Hg1 Hw0 Hw1 Hp HO]
  · iapply (tile_run2 (F := F) d L O W q (tb d) (wd d) (hwd d))
    isplitl [Hmw]; · iexact Hmw
    isplitl [Ht]; · iexact Ht
    isplitl [Hi]; · iexact Hi
    isplitl [H5]; · iexact H5
    isplitl [H6]; · iexact H6
    isplitl [Hc1]; · unfold crowsHeld; iexists _; iexact Hc1
    isplitl [Hc0]; · unfold crowsHeld; iexists _; iexact Hc0
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    isplitl [Ho7]; · iexact Ho7
    isplitl [Hg0]; · iexact Hg0
    isplitl [Hg1]; · iexact Hg1
    isplitl [Hw0]; · iexact Hw0
    isplitl [Hw1]; · iexact Hw1
    isplitl [Hp]; · iexact Hp
    iexact HO
  · iintro %a ⟨Ht, Hi, H5, H6, ⟨%c2, Hc2⟩, ⟨%c3, Hc3⟩, Ho0, Ho1, Ho2, Ho3, Ho4, Ho5, Ho6, Ho7, Hg0, Hg1, Hw0, Hw1, Hp, HO⟩
    ihave H7 := (crows_join (F := F) d L c2 c3) $$ [Hc2 Hc3]
    · isplitl [Hc2]; · iexact Hc2
      iexact Hc3
    isplitl [Ht Hi Ho0 Ho1 Ho2 Ho3 Ho4 Ho5 Ho6 Ho7]
    · isplitl [Ht]; · iexact Ht
      isplitl [Hi]; · iexact Hi
      isplitl [Ho0]; · iexact Ho0
      isplitl [Ho1]; · iexact Ho1
      isplitl [Ho2]; · iexact Ho2
      isplitl [Ho3]; · iexact Ho3
      isplitl [Ho4]; · iexact Ho4
      isplitl [Ho5]; · iexact Ho5
      isplitl [Ho6]; · iexact Ho6
      iexact Ho7
    isplitl [H5 H6 H7 Hbufs]
    · isplitl [H5]; · iexact H5
      isplitl [H6]; · iexact H6
      isplitl [H7]; · iexact H7
      iexact Hbufs
    isplitl [Hg0 Hg1 Hw0 Hw1 Hp Hsems]
    · isplitl [Hg0]; · iexact Hg0
      isplitl [Hg1]; · iexact Hg1
      isplitl [Hw0]; · iexact Hw0
      isplitl [Hw1]; · iexact Hw1
      isplitl [Hp]; · iexact Hp
      iexact Hsems
    iexact HO

end Tile

/-! ## The launch theorem's obligation for the third call -/

omit [FloatOps F] in
theorem defs₀_vector2 [FloatOps F] (c : Fin τ.nSC) (s : Fin τ.nSub) :
    defs₀ (F := F) (.scVector c s) 2 ()
      = SparseCore.onTile hcore2 hsub2 (fun c s => cc2_gather_kernel (coords2 c s) tblW (Memref.isWhole_whole _) idxW (Memref.isWhole_whole _)
          outW (Memref.isWhole_whole _) s0W (Memref.isWhole_whole _) s1W (Memref.isWhole_whole _) s2W (Memref.isWhole_whole _)
          cc2_scratch3 cc2_scratch4 cc2_scoped0) ⟨⟩ c s := rfl

omit [FloatOps F] in
theorem obl_post {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The third call's task obligation, for any family of subcore resources whose member for this call is `Rs2` at token
    words that all name table rows. -/
theorem tileObl2 (hF : (K (F := F)).Facts) (tb : (d : Dev nD) → Buf (Elt F) (tblLoc d)) (Rs : Fin 4 → Dev nD → Fin 2 → Fin 16 → sProp 𝕄)
    (wd : (d : Dev nD) → Buf (Elt F) (idxLoc2 d)) (hwd : ∀ d y, (wd d y).toNat < 1000)
    (hRs : ∀ d c i, Rs 2 d c i = Rs2 wd d c i)
    (lv : GSem nD τ sig → HIx 4 → ℕ) (hlv : (K (F := F)).Refines lv) :
    (K (F := F)).TileObl (D (F := F)) 𝒱 (P tb Rs) v₀ 2 lv := by
  intro d c i O W hO _ _
  simp only [show (P (F := F) tb Rs).ox = fun _ _ => 0 from rfl, add_zero]
  change iprop(levAts _ lv ∗ emp ∗ ((tblLoc d ↦{tileShare (Fin.cast (nCore_eq 2) c) (Fin.cast (nSub_eq 2) i)} tb d)
        ∗ Rs 2 d (Fin.cast (nCore_eq 2) c) (Fin.cast (nSub_eq 2) i)) ∗ _ ∗ _ ∗ _)
    ⊢ wp _ _ _ (Pipeline.liftProg (defs₀ (F := F) (.scVector ((K (F := F)).core 2 c) ((K (F := F)).sub 2 i)) 2 ()))
        (fun _ => iprop(((tblLoc d ↦{tileShare (Fin.cast (nCore_eq 2) c) (Fin.cast (nSub_eq 2) i)} tb d)
          ∗ Rs 2 d (Fin.cast (nCore_eq 2) c) (Fin.cast (nSub_eq 2) i)) ∗ _ ∗ _ ∗ _))
  rw [hRs]
  refine BI.Entails.trans ?_ (Pipeline.wp_liftProg (D (F := F)) (Pipeline.defs_kernel pcfgs defs₀) 𝒱₀ _ Set.univ none _ _)
  have hc : ((K (F := F)).core 2 c).val < grid2.bound 0 ∧ ((K (F := F)).sub 2 i).val < grid2.bound 1 := ⟨c.isLt, i.isLt⟩
  rw [defs₀_vector2]; simp only [SparseCore.onTile, hc, and_self, ↓reduceDIte]
  unfold Rs2
  exact (tile_body2 (F := F) d (coords2 ⟨_, hc.1⟩ ⟨_, hc.2⟩) hF tb wd hwd _ lv hlv O W hO).trans (wp_mono frame _ _ fun _ => obl_post)

end Cert.KernelIdeal.Hand.C2

end
-- ==== Proof.KernelIdeal.TileRun3.lean ====
/-
  One vector subcore's task in the fourth embedding-gather call, run to its end.

  The subcore at grid point (core, subcore) is worker `2·subcore + core`. It copies its 2048 token words from the
  token list into a scratch, and then, sixteen times: gathers the 128 table rows those words name into one half of a
  two-slot scratch (an indexed copy, legal because every word names a row of the 1000-row table), copies the first 32
  of each row's 128 columns into the matching half of a second two-slot scratch, and starts the copy of that half out
  to its 128 rows of the result. A slot's copy-out is waited for two trips later, just before the slot is written
  again, and the last two after the loop; so between its start and its wait nothing touches the copy's source or
  destination. Each copy is on a semaphore of the subcore's own with one copy in flight at a time.

  The loop's invariant says, before each of the sixteen trips, which slot's copy-out is in flight and for which block of
  the result; a flying copy holds that block and the slot's half of the scratch until its wait returns them. The two
  halves of the scratch partition it (`crows_compl01`), which is what lets a half be held as "everything but the other
  half" while the other half is away; a trip's half is the first for an even trip and the second for an odd one
  (`crows_even`, `crows_odd`).
-/
import proofs.«203661_g84404697301628_cont_9to1_m_135_26_alg».proof.Proof.KCommon

noncomputable section

namespace Cert.KernelIdeal.Hand.C3

open Cert.KernelIdeal Cert.KernelIdeal.Gen Cert.KernelIdeal.Hand
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [hK : Cert.KernelIdeal.Facts] [FloatOps F]

local notation "𝕄" => MT nD τ sig (HIx 4) (Elt F) ℕ UU ℕ

local notation "tblW" => (Memref.whole Cert.KernelIdeal.main_v0_scv : Memref Cert.KernelIdeal.sig Kind.scVector Space.hbm Cert.KernelIdeal.S1000x128 EltTy.f32)
local notation "idxW" => (Memref.whole Cert.KernelIdeal.main_v11_scv : Memref Cert.KernelIdeal.sig Kind.scVector Space.hbm Cert.KernelIdeal.S65536 EltTy.i32)
local notation "outW" => (Memref.whole Cert.KernelIdeal.main_v12_scv : Memref Cert.KernelIdeal.sig Kind.scVector Space.hbm Cert.KernelIdeal.S4x16384x32 EltTy.f32)
local notation "s0W" => (Memref.whole Cert.KernelIdeal.cc3_scratch0 : Memref Cert.KernelIdeal.sig Kind.scVector Space.vmem Cert.KernelIdeal.S2048 EltTy.i32)
local notation "s1W" => (Memref.whole Cert.KernelIdeal.cc3_scratch1 : Memref Cert.KernelIdeal.sig Kind.scVector Space.vmem Cert.KernelIdeal.S2x128x128 EltTy.f32)
local notation "s2W" => (Memref.whole Cert.KernelIdeal.cc3_scratch2 : Memref Cert.KernelIdeal.sig Kind.scVector Space.vmem Cert.KernelIdeal.S2x128x32 EltTy.f32)

variable (d : Dev nD) (L : grid3.Coords)

abbrev cV (L : grid3.Coords) : Fin τ.nSC := (L 0).castLE hcore3
abbrev jV (L : grid3.Coords) : Fin τ.nSub := (L 1).castLE hsub3
/-- the vector subcore at grid point `L` -/
abbrev tile : Thread nD τ := V d (cV L) (jV L)

/-- the part of the token list this subcore fetches -/
abbrev idxSl (L : grid3.Coords) : Memref sig .scVector .hbm S2048 .i32 := (idxW).slice (Rect.unit (s := S65536) (k3_off1 L) S2048.size (k3_off1_inb L)) (fun _ => rfl)
/-- trip `t`'s 128 words of the fetched list -/
abbrev offsAt (t : Fin k3_t1_loop.trips) : Memref sig .scVector .vmem S128 .i32 :=
  (s0W).slice (Rect.unit (s := S2048) (k3_off6 t) S128.size (k3_off6_inb t)) (fun _ => rfl)
/-- the 128 rows of the result trip `t` writes -/
abbrev outAt (L : grid3.Coords) (t : Fin k3_t1_loop.trips) : Memref sig .scVector .hbm S128x32 .f32 :=
  ((outW).slice (Rect.unit (s := S4x16384x32) (k3_off13 L t) S1x128x32.size (k3_off13_inb L t)) (fun _ => rfl)).squeeze S128x32 squeezes_S1x128x32_S128x32
/-- the half of the compact-rows scratch trip `t` fills and copies out -/
abbrev crowsAt (t : Fin k3_t1_loop.trips) : Memref sig .scVector .vmem S128x32 .f32 :=
  ((s2W).slice (Rect.unit (s := S2x128x32) (k3_off12 t) S1x128x32.size (k3_off12_inb t)) (fun _ => rfl)).squeeze S128x32 squeezes_S1x128x32_S128x32

def t0 : Fin k3_t1_loop.trips := ⟨0, by decide⟩
def t1 : Fin k3_t1_loop.trips := ⟨1, by decide⟩
def t2 : Fin k3_t1_loop.trips := ⟨2, by decide⟩
def t3 : Fin k3_t1_loop.trips := ⟨3, by decide⟩
def t4 : Fin k3_t1_loop.trips := ⟨4, by decide⟩
def t5 : Fin k3_t1_loop.trips := ⟨5, by decide⟩
def t6 : Fin k3_t1_loop.trips := ⟨6, by decide⟩
def t7 : Fin k3_t1_loop.trips := ⟨7, by decide⟩
def t8 : Fin k3_t1_loop.trips := ⟨8, by decide⟩
def t9 : Fin k3_t1_loop.trips := ⟨9, by decide⟩
def t10 : Fin k3_t1_loop.trips := ⟨10, by decide⟩
def t11 : Fin k3_t1_loop.trips := ⟨11, by decide⟩
def t12 : Fin k3_t1_loop.trips := ⟨12, by decide⟩
def t13 : Fin k3_t1_loop.trips := ⟨13, by decide⟩
def t14 : Fin k3_t1_loop.trips := ⟨14, by decide⟩
def t15 : Fin k3_t1_loop.trips := ⟨15, by decide⟩

/-- the two gather semaphores and the two write-back semaphores, by slot; the prologue's copy semaphore -/
local notation "gS0" => (⟨15, by decide⟩ : DmaSem Cert.KernelIdeal.sig)
local notation "gS1" => (⟨16, by decide⟩ : DmaSem Cert.KernelIdeal.sig)
local notation "wS0" => (⟨17, by decide⟩ : DmaSem Cert.KernelIdeal.sig)
local notation "wS1" => (⟨18, by decide⟩ : DmaSem Cert.KernelIdeal.sig)
local notation "pS" => (⟨19, by decide⟩ : DmaSem Cert.KernelIdeal.sig)

/-- every word of the fetched list names a row of the table -/
def InRange (g5 : Buf (Elt F) ((s0W).view.loc (tile d L))) : Prop :=
  ∀ (o : Fin 1 → Nat) (h : ∀ a, o a + S128.size a ≤ S2048.size a) (x : S128.Idx),
    (((s0W).slice (Rect.unit (s := S2048) o S128.size h) (fun _ => rfl)).view.read (Elt F) g5 x).toNat < S1000x128.size gathers_S1000x128_S128x128.axis

/-- a block of the result, at some contents -/
def outHeld (t : Fin k3_t1_loop.trips) : sProp 𝕄 :=
  iprop(∃ f, (outAt L t).view.loc (tile d L) ↦[(outAt L t).view.set]{fullShare} f)
/-- a half of the compact-rows scratch (the one trip `t` uses), at some contents -/
def crowsHeld (t : Fin k3_t1_loop.trips) : sProp 𝕄 :=
  iprop(∃ f, (s2W).view.loc (tile d L) ↦[Finset.univ \ (crowsAt t).view.set]{fullShare} f)
/-- slot `s` idle: its write-back semaphore at zero and its half of the scratch in hand -/
def slotFree (w : DmaSem sig) (t : Fin k3_t1_loop.trips) : sProp 𝕄 :=
  iprop(semVal (tile d L, SemLoc.dma w) 0 ∗ crowsHeld (F := F) d L t)
/-- slot `s` busy: trip `t`'s write-back in flight, carrying its block of the result and its half of the scratch -/
def slotBusy (w : DmaSem sig) (t : Fin k3_t1_loop.trips) : sProp 𝕄 :=
  iprop(∃ fo f, Transfers.Flight (countersEmb (U := UU)) (tile d L) (SemLoc.dma w) (default : HIx 4) 131072
    iprop(((outAt L t).view.loc (tile d L) ↦[(outAt L t).view.set]{fullShare} fo)
      ∗ ((s2W).view.loc (tile d L) ↦[(crowsAt t).view.set]{fullShare} f)))

/-- what every trip keeps: the wait evidence, the table's share, the fetched list (in range), the gathered-rows scratch,
    both gather semaphores at zero, and what the subcore owes with the waits recorded so far -/
def common (O : CellTallies nD τ sig (HIx 4)) (W : Waits sig (HIx 4)) (q : PosShare TreeShare)
    (ft : Buf (Elt F) ((tblW).view.loc (tile d L))) : sProp 𝕄 :=
  iprop(Transfers.MayWaits (tile d L) (none : HIx 4) O
    ∗ ((tblW).view.loc (tile d L) ↦{q} ft)
    ∗ (∃ g5, ⌜InRange (F := F) d L g5⌝ ∗ (s0W).view.loc (tile d L) ↦{fullShare} g5)
    ∗ (∃ r, (s1W).view.loc (tile d L) ↦{fullShare} r)
    ∗ semVal (tile d L, SemLoc.dma gS0) 0 ∗ semVal (tile d L, SemLoc.dma gS1) 0
    ∗ ∃ W', ⌜∀ p ∈ W', p ∈ W ∨ p.2 = none⌝ ∗ owes (tile d L) O W')

section Inv
variable (O : CellTallies nD τ sig (HIx 4)) (W : Waits sig (HIx 4)) (q : PosShare TreeShare) (ft : Buf (Elt F) ((tblW).view.loc (tile d L)))
/-- before trip 0: both slots idle, every block in hand -/
def inv0 : sProp 𝕄 := iprop(common d L O W q ft ∗ slotFree d L wS0 t1 ∗ slotFree d L wS1 t0 ∗ outHeld d L t0 ∗ outHeld d L t1 ∗ outHeld d L t2 ∗ outHeld d L t3 ∗ outHeld d L t4 ∗ outHeld d L t5 ∗ outHeld d L t6 ∗ outHeld d L t7 ∗ outHeld d L t8 ∗ outHeld d L t9 ∗ outHeld d L t10 ∗ outHeld d L t11 ∗ outHeld d L t12 ∗ outHeld d L t13 ∗ outHeld d L t14 ∗ outHeld d L t15)
/-- before trip 1: block 0 flying, every other block in hand -/
def inv1 : sProp 𝕄 := iprop(common d L O W q ft ∗ slotBusy d L wS0 t0 ∗ slotFree d L wS1 t0 ∗ outHeld d L t1 ∗ outHeld d L t2 ∗ outHeld d L t3 ∗ outHeld d L t4 ∗ outHeld d L t5 ∗ outHeld d L t6 ∗ outHeld d L t7 ∗ outHeld d L t8 ∗ outHeld d L t9 ∗ outHeld d L t10 ∗ outHeld d L t11 ∗ outHeld d L t12 ∗ outHeld d L t13 ∗ outHeld d L t14 ∗ outHeld d L t15)
/-- before trip 2: blocks 0 and 1 flying, every other block in hand -/
def inv2 : sProp 𝕄 := iprop(common d L O W q ft ∗ slotBusy d L wS0 t0 ∗ slotBusy d L wS1 t1 ∗ outHeld d L t2 ∗ outHeld d L t3 ∗ outHeld d L t4 ∗ outHeld d L t5 ∗ outHeld d L t6 ∗ outHeld d L t7 ∗ outHeld d L t8 ∗ outHeld d L t9 ∗ outHeld d L t10 ∗ outHeld d L t11 ∗ outHeld d L t12 ∗ outHeld d L t13 ∗ outHeld d L t14 ∗ outHeld d L t15)
/-- before trip 3: blocks 1 and 2 flying, every other block in hand -/
def inv3 : sProp 𝕄 := iprop(common d L O W q ft ∗ slotBusy d L wS0 t2 ∗ slotBusy d L wS1 t1 ∗ outHeld d L t0 ∗ outHeld d L t3 ∗ outHeld d L t4 ∗ outHeld d L t5 ∗ outHeld d L t6 ∗ outHeld d L t7 ∗ outHeld d L t8 ∗ outHeld d L t9 ∗ outHeld d L t10 ∗ outHeld d L t11 ∗ outHeld d L t12 ∗ outHeld d L t13 ∗ outHeld d L t14 ∗ outHeld d L t15)
/-- before trip 4: blocks 2 and 3 flying, every other block in hand -/
def inv4 : sProp 𝕄 := iprop(common d L O W q ft ∗ slotBusy d L wS0 t2 ∗ slotBusy d L wS1 t3 ∗ outHeld d L t0 ∗ outHeld d L t1 ∗ outHeld d L t4 ∗ outHeld d L t5 ∗ outHeld d L t6 ∗ outHeld d L t7 ∗ outHeld d L t8 ∗ outHeld d L t9 ∗ outHeld d L t10 ∗ outHeld d L t11 ∗ outHeld d L t12 ∗ outHeld d L t13 ∗ outHeld d L t14 ∗ outHeld d L t15)
/-- before trip 5: blocks 3 and 4 flying, every other block in hand -/
def inv5 : sProp 𝕄 := iprop(common d L O W q ft ∗ slotBusy d L wS0 t4 ∗ slotBusy d L wS1 t3 ∗ outHeld d L t0 ∗ outHeld d L t1 ∗ outHeld d L t2 ∗ outHeld d L t5 ∗ outHeld d L t6 ∗ outHeld d L t7 ∗ outHeld d L t8 ∗ outHeld d L t9 ∗ outHeld d L t10 ∗ outHeld d L t11 ∗ outHeld d L t12 ∗ outHeld d L t13 ∗ outHeld d L t14 ∗ outHeld d L t15)
/-- before trip 6: blocks 4 and 5 flying, every other block in hand -/
def inv6 : sProp 𝕄 := iprop(common d L O W q ft ∗ slotBusy d L wS0 t4 ∗ slotBusy d L wS1 t5 ∗ outHeld d L t0 ∗ outHeld d L t1 ∗ outHeld d L t2 ∗ outHeld d L t3 ∗ outHeld d L t6 ∗ outHeld d L t7 ∗ outHeld d L t8 ∗ outHeld d L t9 ∗ outHeld d L t10 ∗ outHeld d L t11 ∗ outHeld d L t12 ∗ outHeld d L t13 ∗ outHeld d L t14 ∗ outHeld d L t15)
/-- before trip 7: blocks 5 and 6 flying, every other block in hand -/
def inv7 : sProp 𝕄 := iprop(common d L O W q ft ∗ slotBusy d L wS0 t6 ∗ slotBusy d L wS1 t5 ∗ outHeld d L t0 ∗ outHeld d L t1 ∗ outHeld d L t2 ∗ outHeld d L t3 ∗ outHeld d L t4 ∗ outHeld d L t7 ∗ outHeld d L t8 ∗ outHeld d L t9 ∗ outHeld d L t10 ∗ outHeld d L t11 ∗ outHeld d L t12 ∗ outHeld d L t13 ∗ outHeld d L t14 ∗ outHeld d L t15)
/-- before trip 8: blocks 6 and 7 flying, every other block in hand -/
def inv8 : sProp 𝕄 := iprop(common d L O W q ft ∗ slotBusy d L wS0 t6 ∗ slotBusy d L wS1 t7 ∗ outHeld d L t0 ∗ outHeld d L t1 ∗ outHeld d L t2 ∗ outHeld d L t3 ∗ outHeld d L t4 ∗ outHeld d L t5 ∗ outHeld d L t8 ∗ outHeld d L t9 ∗ outHeld d L t10 ∗ outHeld d L t11 ∗ outHeld d L t12 ∗ outHeld d L t13 ∗ outHeld d L t14 ∗ outHeld d L t15)
/-- before trip 9: blocks 7 and 8 flying, every other block in hand -/
def inv9 : sProp 𝕄 := iprop(common d L O W q ft ∗ slotBusy d L wS0 t8 ∗ slotBusy d L wS1 t7 ∗ outHeld d L t0 ∗ outHeld d L t1 ∗ outHeld d L t2 ∗ outHeld d L t3 ∗ outHeld d L t4 ∗ outHeld d L t5 ∗ outHeld d L t6 ∗ outHeld d L t9 ∗ outHeld d L t10 ∗ outHeld d L t11 ∗ outHeld d L t12 ∗ outHeld d L t13 ∗ outHeld d L t14 ∗ outHeld d L t15)
/-- before trip 10: blocks 8 and 9 flying, every other block in hand -/
def inv10 : sProp 𝕄 := iprop(common d L O W q ft ∗ slotBusy d L wS0 t8 ∗ slotBusy d L wS1 t9 ∗ outHeld d L t0 ∗ outHeld d L t1 ∗ outHeld d L t2 ∗ outHeld d L t3 ∗ outHeld d L t4 ∗ outHeld d L t5 ∗ outHeld d L t6 ∗ outHeld d L t7 ∗ outHeld d L t10 ∗ outHeld d L t11 ∗ outHeld d L t12 ∗ outHeld d L t13 ∗ outHeld d L t14 ∗ outHeld d L t15)
/-- before trip 11: blocks 9 and 10 flying, every other block in hand -/
def inv11 : sProp 𝕄 := iprop(common d L O W q ft ∗ slotBusy d L wS0 t10 ∗ slotBusy d L wS1 t9 ∗ outHeld d L t0 ∗ outHeld d L t1 ∗ outHeld d L t2 ∗ outHeld d L t3 ∗ outHeld d L t4 ∗ outHeld d L t5 ∗ outHeld d L t6 ∗ outHeld d L t7 ∗ outHeld d L t8 ∗ outHeld d L t11 ∗ outHeld d L t12 ∗ outHeld d L t13 ∗ outHeld d L t14 ∗ outHeld d L t15)
/-- before trip 12: blocks 10 and 11 flying, every other block in hand -/
def inv12 : sProp 𝕄 := iprop(common d L O W q ft ∗ slotBusy d L wS0 t10 ∗ slotBusy d L wS1 t11 ∗ outHeld d L t0 ∗ outHeld d L t1 ∗ outHeld d L t2 ∗ outHeld d L t3 ∗ outHeld d L t4 ∗ outHeld d L t5 ∗ outHeld d L t6 ∗ outHeld d L t7 ∗ outHeld d L t8 ∗ outHeld d L t9 ∗ outHeld d L t12 ∗ outHeld d L t13 ∗ outHeld d L t14 ∗ outHeld d L t15)
/-- before trip 13: blocks 11 and 12 flying, every other block in hand -/
def inv13 : sProp 𝕄 := iprop(common d L O W q ft ∗ slotBusy d L wS0 t12 ∗ slotBusy d L wS1 t11 ∗ outHeld d L t0 ∗ outHeld d L t1 ∗ outHeld d L t2 ∗ outHeld d L t3 ∗ outHeld d L t4 ∗ outHeld d L t5 ∗ outHeld d L t6 ∗ outHeld d L t7 ∗ outHeld d L t8 ∗ outHeld d L t9 ∗ outHeld d L t10 ∗ outHeld d L t13 ∗ outHeld d L t14 ∗ outHeld d L t15)
/-- before trip 14: blocks 12 and 13 flying, every other block in hand -/
def inv14 : sProp 𝕄 := iprop(common d L O W q ft ∗ slotBusy d L wS0 t12 ∗ slotBusy d L wS1 t13 ∗ outHeld d L t0 ∗ outHeld d L t1 ∗ outHeld d L t2 ∗ outHeld d L t3 ∗ outHeld d L t4 ∗ outHeld d L t5 ∗ outHeld d L t6 ∗ outHeld d L t7 ∗ outHeld d L t8 ∗ outHeld d L t9 ∗ outHeld d L t10 ∗ outHeld d L t11 ∗ outHeld d L t14 ∗ outHeld d L t15)
/-- before trip 15: blocks 13 and 14 flying, every other block in hand -/
def inv15 : sProp 𝕄 := iprop(common d L O W q ft ∗ slotBusy d L wS0 t14 ∗ slotBusy d L wS1 t13 ∗ outHeld d L t0 ∗ outHeld d L t1 ∗ outHeld d L t2 ∗ outHeld d L t3 ∗ outHeld d L t4 ∗ outHeld d L t5 ∗ outHeld d L t6 ∗ outHeld d L t7 ∗ outHeld d L t8 ∗ outHeld d L t9 ∗ outHeld d L t10 ∗ outHeld d L t11 ∗ outHeld d L t12 ∗ outHeld d L t15)
/-- after trip 15: blocks 14 and 15 flying, every other block in hand -/
def inv16 : sProp 𝕄 := iprop(common d L O W q ft ∗ slotBusy d L wS0 t14 ∗ slotBusy d L wS1 t15 ∗ outHeld d L t0 ∗ outHeld d L t1 ∗ outHeld d L t2 ∗ outHeld d L t3 ∗ outHeld d L t4 ∗ outHeld d L t5 ∗ outHeld d L t6 ∗ outHeld d L t7 ∗ outHeld d L t8 ∗ outHeld d L t9 ∗ outHeld d L t10 ∗ outHeld d L t11 ∗ outHeld d L t12 ∗ outHeld d L t13)
/-- the outer loop's invariant before trip `k` -/
def invO (k : Nat) (_ : PUnit) : sProp 𝕄 :=
  match k with
  | 0 => inv0 d L O W q ft
  | 1 => inv1 d L O W q ft
  | 2 => inv2 d L O W q ft
  | 3 => inv3 d L O W q ft
  | 4 => inv4 d L O W q ft
  | 5 => inv5 d L O W q ft
  | 6 => inv6 d L O W q ft
  | 7 => inv7 d L O W q ft
  | 8 => inv8 d L O W q ft
  | 9 => inv9 d L O W q ft
  | 10 => inv10 d L O W q ft
  | 11 => inv11 d L O W q ft
  | 12 => inv12 d L O W q ft
  | 13 => inv13 d L O W q ft
  | 14 => inv14 d L O W q ft
  | 15 => inv15 d L O W q ft
  | _ => inv16 d L O W q ft
end Inv

/-- the compaction loop's invariant, contents untracked: the gathered rows and trip `t`'s half of the compact rows in hand -/
def invC (t : Fin k3_t1_loop.trips) (_ : Nat) (_ : PUnit) : sProp 𝕄 :=
  iprop((∃ r, (s1W).view.loc (tile d L) ↦{fullShare} r) ∗ crowsHeld (F := F) d L t)

/-- an element lies in trip `t`'s half of the compact-rows scratch exactly when each coordinate lies in the half's box -/
theorem mem_crowsAt (t : Fin k3_t1_loop.trips) (x : S2x128x32.Idx) :
    x ∈ (crowsAt t).view.set ↔ ∀ a, k3_off12 t a ≤ x a ∧ (x a : Nat) < k3_off12 t a + S1x128x32.size a := by
  have hs : ((crowsAt t).view.set : Finset S2x128x32.Idx)
      = (Rect.unit (s := S2x128x32) (k3_off12 t) S1x128x32.size (k3_off12_inb t)).set := by
    show (((View.whole cc3_scratch2).slice (Rect.unit (s := S2x128x32) (k3_off12 t) S1x128x32.size (k3_off12_inb t))).reshape S128x32 _).set = _
    rw [View.set_reshape, View.set_slice_whole]
  constructor
  · intro h; exact Rect.mem_set_unit.mp (hs ▸ h)
  · intro h; exact hs ▸ Rect.mem_set_unit.mpr h

/-- the two halves partition the scratch: what is not in the second half is the first half -/
theorem crows_compl01 : Finset.univ \ (crowsAt t1).view.set = (crowsAt t0).view.set := by
  ext x
  rw [Finset.mem_sdiff, mem_crowsAt, mem_crowsAt]
  simp only [Finset.mem_univ, true_and]
  have e0 : k3_off12 t0 = ![0, 0, 0] := by decide
  have e1 : k3_off12 t1 = ![1, 0, 0] := by decide
  rw [e0, e1]
  have h0 : (x 0 : Nat) < 2 := (x 0).isLt
  have h1 : (x 1 : Nat) < 128 := (x 1).isLt
  have h2 : (x 2 : Nat) < 32 := (x 2).isLt
  constructor
  · intro h a
    have hx0 : (x 0 : Nat) = 0 := by
      by_contra hne
      exact h (fun b => by
        match b with
        | ⟨0, _⟩ => exact ⟨by show 1 ≤ (x 0 : Nat); omega, by show (x 0 : Nat) < 1 + 1; omega⟩
        | ⟨1, _⟩ => exact ⟨Nat.zero_le _, by show (x 1 : Nat) < 0 + 128; omega⟩
        | ⟨2, _⟩ => exact ⟨Nat.zero_le _, by show (x 2 : Nat) < 0 + 32; omega⟩)
    match a with
    | ⟨0, _⟩ => exact ⟨Nat.zero_le _, by show (x 0 : Nat) < 0 + 1; omega⟩
    | ⟨1, _⟩ => exact ⟨Nat.zero_le _, by show (x 1 : Nat) < 0 + 128; omega⟩
    | ⟨2, _⟩ => exact ⟨Nat.zero_le _, by show (x 2 : Nat) < 0 + 32; omega⟩
  · intro h hc
    have a0 : (x 0 : Nat) < 0 + 1 := (h 0).2
    have b0 : 1 ≤ (x 0 : Nat) := (hc 0).1
    omega

/-- and what is not in the first half is the second -/
theorem crows_compl10 : Finset.univ \ (crowsAt t0).view.set = (crowsAt t1).view.set := by
  rw [← crows_compl01, sdiff_sdiff_right_self]
  exact inf_eq_right.mpr (Finset.subset_univ _)

/-- two trips whose halves start at the same place use the same half -/
theorem crows_set_congr (t s : Fin k3_t1_loop.trips) (h : k3_off12 t = k3_off12 s) : (crowsAt t).view.set = (crowsAt s).view.set := by
  ext x
  rw [mem_crowsAt, mem_crowsAt, h]

/-- an even trip's half is the first: everything but the second -/
theorem crows_even (t : Fin k3_t1_loop.trips) (h : k3_off12 t = k3_off12 t0) :
    (crowsAt t).view.set = Finset.univ \ (crowsAt t1).view.set := by
  rw [crows_compl01]; exact crows_set_congr t t0 h
/-- an odd trip's half is the second: everything but the first -/
theorem crows_odd (t : Fin k3_t1_loop.trips) (h : k3_off12 t = k3_off12 t1) :
    (crowsAt t).view.set = Finset.univ \ (crowsAt t0).view.set := by
  rw [crows_compl10]; exact crows_set_congr t t1 h

theorem inb_w0 : ∀ a, (![0] : Fin 1 → Nat) a + S128.size a ≤ S2048.size a := by decide
theorem inb_w128 : ∀ a, (![128] : Fin 1 → Nat) a + S128.size a ≤ S2048.size a := by decide
theorem inb_w256 : ∀ a, (![256] : Fin 1 → Nat) a + S128.size a ≤ S2048.size a := by decide
theorem inb_w384 : ∀ a, (![384] : Fin 1 → Nat) a + S128.size a ≤ S2048.size a := by decide
theorem inb_w512 : ∀ a, (![512] : Fin 1 → Nat) a + S128.size a ≤ S2048.size a := by decide
theorem inb_w640 : ∀ a, (![640] : Fin 1 → Nat) a + S128.size a ≤ S2048.size a := by decide
theorem inb_w768 : ∀ a, (![768] : Fin 1 → Nat) a + S128.size a ≤ S2048.size a := by decide
theorem inb_w896 : ∀ a, (![896] : Fin 1 → Nat) a + S128.size a ≤ S2048.size a := by decide
theorem inb_w1024 : ∀ a, (![1024] : Fin 1 → Nat) a + S128.size a ≤ S2048.size a := by decide
theorem inb_w1152 : ∀ a, (![1152] : Fin 1 → Nat) a + S128.size a ≤ S2048.size a := by decide
theorem inb_w1280 : ∀ a, (![1280] : Fin 1 → Nat) a + S128.size a ≤ S2048.size a := by decide
theorem inb_w1408 : ∀ a, (![1408] : Fin 1 → Nat) a + S128.size a ≤ S2048.size a := by decide
theorem inb_w1536 : ∀ a, (![1536] : Fin 1 → Nat) a + S128.size a ≤ S2048.size a := by decide
theorem inb_w1664 : ∀ a, (![1664] : Fin 1 → Nat) a + S128.size a ≤ S2048.size a := by decide
theorem inb_w1792 : ∀ a, (![1792] : Fin 1 → Nat) a + S128.size a ≤ S2048.size a := by decide
theorem inb_w1920 : ∀ a, (![1920] : Fin 1 → Nat) a + S128.size a ≤ S2048.size a := by decide

theorem size_tbl : S1000x128.size gathers_S1000x128_S128x128.axis = 1000 := by decide

set_option maxHeartbeats 2400000 in
/-- One vector subcore's whole task for the fourth gather call: fetch its 2048 token words, then sixteen times gather 128 table
    rows, compact their first 32 columns, and start the block's write-back, waiting for a slot's previous write-back
    before reusing the slot; at the end wait for the last two. Every copy is the subcore's own on a semaphore nobody
    else touches, one in flight per semaphore; a write-back stays in flight across two trips of the loop, carried in the
    loop's invariant together with the block of the result and the half of the scratch it holds. Contents are not tracked
    here: the task ends, faults nowhere, and hands back what it was handed. -/
theorem tile_run3 (O : CellTallies nD τ sig (HIx 4)) (W : Waits sig (HIx 4)) (q : PosShare TreeShare)
    (ft : Buf (Elt F) ((tblW).view.loc (tile d L))) (fi : Buf (Elt F) ((idxSl L).view.loc (tile d L)))
    (hfi : ∀ y, (fi y).toNat < 1000) :
    iprop(Transfers.MayWaits (tile d L) (none : HIx 4) O
        ∗ ((tblW).view.loc (tile d L) ↦{q} ft)
        ∗ ((idxSl L).view.loc (tile d L) ↦[(idxSl L).view.set]{fullShare} fi)
        ∗ (∃ f5, (s0W).view.loc (tile d L) ↦{fullShare} f5)
        ∗ (∃ r, (s1W).view.loc (tile d L) ↦{fullShare} r)
        ∗ crowsHeld (F := F) d L t1 ∗ crowsHeld (F := F) d L t0
        ∗ outHeld (F := F) d L t0 ∗ outHeld (F := F) d L t1 ∗ outHeld (F := F) d L t2 ∗ outHeld (F := F) d L t3 ∗ outHeld (F := F) d L t4 ∗ outHeld (F := F) d L t5 ∗ outHeld (F := F) d L t6 ∗ outHeld (F := F) d L t7 ∗ outHeld (F := F) d L t8 ∗ outHeld (F := F) d L t9 ∗ outHeld (F := F) d L t10 ∗ outHeld (F := F) d L t11 ∗ outHeld (F := F) d L t12 ∗ outHeld (F := F) d L t13 ∗ outHeld (F := F) d L t14 ∗ outHeld (F := F) d L t15
        ∗ semVal (tile d L, SemLoc.dma gS0) 0 ∗ semVal (tile d L, SemLoc.dma gS1) 0
        ∗ semVal (tile d L, SemLoc.dma wS0) 0 ∗ semVal (tile d L, SemLoc.dma wS1) 0
        ∗ semVal (tile d L, SemLoc.dma pS) 0
        ∗ owes (tile d L) O W)
      ⊢ wp frame (wpE (defs₀ (F := F)) 𝒱₀ (tile d L) none) Set.univ
          (cc3_gather_kernel L tblW (Memref.isWhole_whole _) idxW (Memref.isWhole_whole _) outW (Memref.isWhole_whole _)
            s0W (Memref.isWhole_whole _) s1W (Memref.isWhole_whole _) s2W (Memref.isWhole_whole _) cc3_scratch3 cc3_scratch4 cc3_scoped0)
          (fun _ => iprop(((tblW).view.loc (tile d L) ↦{q} ft)
            ∗ ((idxSl L).view.loc (tile d L) ↦[(idxSl L).view.set]{fullShare} fi)
            ∗ (∃ f5, (s0W).view.loc (tile d L) ↦{fullShare} f5)
            ∗ (∃ r, (s1W).view.loc (tile d L) ↦{fullShare} r)
            ∗ (∃ f, (s2W).view.loc (tile d L) ↦[(crowsAt t14).view.set]{fullShare} f)
            ∗ (∃ f, (s2W).view.loc (tile d L) ↦[(crowsAt t15).view.set]{fullShare} f)
            ∗ outHeld (F := F) d L t0 ∗ outHeld (F := F) d L t1 ∗ outHeld (F := F) d L t2 ∗ outHeld (F := F) d L t3 ∗ outHeld (F := F) d L t4 ∗ outHeld (F := F) d L t5 ∗ outHeld (F := F) d L t6 ∗ outHeld (F := F) d L t7 ∗ outHeld (F := F) d L t8 ∗ outHeld (F := F) d L t9 ∗ outHeld (F := F) d L t10 ∗ outHeld (F := F) d L t11 ∗ outHeld (F := F) d L t12 ∗ outHeld (F := F) d L t13 ∗ outHeld (F := F) d L t14 ∗ outHeld (F := F) d L t15
            ∗ semVal (tile d L, SemLoc.dma gS0) 0 ∗ semVal (tile d L, SemLoc.dma gS1) 0
            ∗ semVal (tile d L, SemLoc.dma wS0) 0 ∗ semVal (tile d L, SemLoc.dma wS1) 0
            ∗ semVal (tile d L, SemLoc.dma pS) 0
            ∗ ∃ W', ⌜∀ p ∈ W', p ∈ W ∨ p.2 = none⌝ ∗ owes (tile d L) O W')) := by
  rw [cc3_gather_kernel_eq_skeleton]; unfold cc3_gather_kernel_skel
  iintro ⟨Hmw, Ht, Hi, ⟨%f5, H5⟩, H6, Hc0, Hc1, Ho0, Ho1, Ho2, Ho3, Ho4, Ho5, Ho6, Ho7, Ho8, Ho9, Ho10, Ho11, Ho12, Ho13, Ho14, Ho15, Hg0, Hg1, Hw0, Hw1, Hp, HO⟩
  sl_exec
  have h5 : InRange (F := F) d L (View.write (Elt F) (s0W).view f5 (tile_run3.sl.dma0 d L fi) Finset.univ) := by
    intro o h x
    rw [View.write_whole_univ, size_tbl]
    unfold tile_run3.sl.dma0
    simp only [View.read_apply]
    exact hfi _
  sl_for (invO d L O W q ft) $$ [Hmw Ht H5 H6 Hc0 Hc1 Ho0 Ho1 Ho2 Ho3 Ho4 Ho5 Ho6 Ho7 Ho8 Ho9 Ho10 Ho11 Ho12 Ho13 Ho14 Ho15 Hg0 Hg1 Hw0 Hw1 HO]
  case region =>
    intro k u
    obtain ⟨k, hk⟩ := k
    match k, hk with
    | k + 16, hk => exact absurd (Nat.lt_of_lt_of_le hk k3_t1_abs.2.1) (by omega)
    | 0, hk =>
      -- trip 0: slot 0 idle, nothing to wait for
      have k3_h1 : ¬ k3_cond1 t0 = 1#1 := by decide
      change inv0 d L O W q ft ⊢ wp frame (wpE (defs₀ (F := F)) 𝒱₀ (tile d L) none) Set.univ (tile_run3.sl.prog.body_1 L t0 u) (fun _ => inv1 d L O W q ft)
      unfold inv0 common slotFree outHeld crowsHeld
      iintro ⟨⟨Hmw, Ht, ⟨%g5, %hin, H5⟩, H6, Hg0, Hg1, %W', %hW', HO⟩, ⟨Hw0, Hc⟩, Hs1, ⟨%o0, Ho0⟩, Ho1, Ho2, Ho3, Ho4, Ho5, Ho6, Ho7, Ho8, Ho9, Ho10, Ho11, Ho12, Ho13, Ho14, Ho15⟩
      icases H6 with ⟨%r6, H6⟩
      icases Hc with ⟨%c0, Hc⟩
      have hinT : ∀ x, (((s0W).slice (Rect.unit (s := S2048) ![0] S128.size inb_w0) (fun _ => rfl)).view.read (Elt F) g5 x).toNat
          < S1000x128.size gathers_S1000x128_S128x128.axis := hin ![0] inb_w0
      have hinK : ∀ x, ((offsAt t0).view.read (Elt F) g5 x).toNat < S1000x128.size gathers_S1000x128_S128x128.axis := hin _ _
      sl_exec
      sl_for (invC (F := F) d L t1) $$ [H6 Hc]
      case region =>
        intro j _
        unfold invC crowsHeld
        iintro ⟨⟨%r, H6⟩, ⟨%f, Hc⟩⟩
        sl_exec
        sl_step
        isplitl [H6]; · iexists _; iexact H6
        iexists _; iexact Hc
      · unfold invC crowsHeld
        isplitl [H6]; · iexists _; iexact H6
        iexists _; iexact Hc
      iintro %_ HI
      unfold invC crowsHeld
      icases HI with ⟨⟨%r, H6⟩, ⟨%f, Hc⟩⟩
      sl_exec
      sl_step
      iclear Hc
      unfold inv1 common slotBusy slotFree outHeld crowsHeld
      isplitl [Hmw Ht H5 H6 Hg0 Hg1 HO]
      · isplitl [Hmw]; · iexact Hmw
        isplitl [Ht]; · iexact Ht
        isplitl [H5]
        · iexists g5; isplitr
          · ipureintro; exact hin
          · iexact H5
        isplitl [H6]; · iexists _; iexact H6
        isplitl [Hg0]; · iexact Hg0
        isplitl [Hg1]; · iexact Hg1
        iexists (insert (SemLoc.dma gS0, (default : HIx 4)) W'); isplitr
        · ipureintro; intro p hp
          rcases Finset.mem_insert.mp hp with hp | hp
          · exact Or.inr (by subst hp; rfl)
          · exact hW' p hp
        · iexact HO
      isplitl [Hw0]; · iexists _, _; iexact Hw0
      isplitl [Hs1]; · iexact Hs1
      isplitl [Ho1]; · iexact Ho1
      isplitl [Ho2]; · iexact Ho2
      isplitl [Ho3]; · iexact Ho3
      isplitl [Ho4]; · iexact Ho4
      isplitl [Ho5]; · iexact Ho5
      isplitl [Ho6]; · iexact Ho6
      isplitl [Ho7]; · iexact Ho7
      isplitl [Ho8]; · iexact Ho8
      isplitl [Ho9]; · iexact Ho9
      isplitl [Ho10]; · iexact Ho10
      isplitl [Ho11]; · iexact Ho11
      isplitl [Ho12]; · iexact Ho12
      isplitl [Ho13]; · iexact Ho13
      isplitl [Ho14]; · iexact Ho14
      iexact Ho15
    | 1, hk =>
      -- trip 1: slot 1 idle, nothing to wait for
      have k3_h1 : ¬ k3_cond1 t1 = 1#1 := by decide
      change inv1 d L O W q ft ⊢ wp frame (wpE (defs₀ (F := F)) 𝒱₀ (tile d L) none) Set.univ (tile_run3.sl.prog.body_1 L t1 u) (fun _ => inv2 d L O W q ft)
      unfold inv1 common slotBusy slotFree outHeld crowsHeld
      iintro ⟨⟨Hmw, Ht, ⟨%g5, %hin, H5⟩, H6, Hg0, Hg1, %W', %hW', HO⟩, Hb0, ⟨Hw1, Hc⟩, ⟨%o1, Ho1⟩, Ho2, Ho3, Ho4, Ho5, Ho6, Ho7, Ho8, Ho9, Ho10, Ho11, Ho12, Ho13, Ho14, Ho15⟩
      icases H6 with ⟨%r6, H6⟩
      icases Hc with ⟨%c0, Hc⟩
      have hinT : ∀ x, (((s0W).slice (Rect.unit (s := S2048) ![128] S128.size inb_w128) (fun _ => rfl)).view.read (Elt F) g5 x).toNat
          < S1000x128.size gathers_S1000x128_S128x128.axis := hin ![128] inb_w128
      have hinK : ∀ x, ((offsAt t1).view.read (Elt F) g5 x).toNat < S1000x128.size gathers_S1000x128_S128x128.axis := hin _ _
      sl_exec
      sl_for (invC (F := F) d L t0) $$ [H6 Hc]
      case region =>
        intro j _
        unfold invC crowsHeld
        iintro ⟨⟨%r, H6⟩, ⟨%f, Hc⟩⟩
        sl_exec
        sl_step
        isplitl [H6]; · iexists _; iexact H6
        iexists _; iexact Hc
      · unfold invC crowsHeld
        isplitl [H6]; · iexists _; iexact H6
        iexists _; iexact Hc
      iintro %_ HI
      unfold invC crowsHeld
      icases HI with ⟨⟨%r, H6⟩, ⟨%f, Hc⟩⟩
      sl_exec
      sl_step
      iclear Hc
      unfold inv2 common slotBusy outHeld
      isplitl [Hmw Ht H5 H6 Hg0 Hg1 HO]
      · isplitl [Hmw]; · iexact Hmw
        isplitl [Ht]; · iexact Ht
        isplitl [H5]
        · iexists g5; isplitr
          · ipureintro; exact hin
          · iexact H5
        isplitl [H6]; · iexists _; iexact H6
        isplitl [Hg0]; · iexact Hg0
        isplitl [Hg1]; · iexact Hg1
        iexists (insert (SemLoc.dma gS1, (default : HIx 4)) W'); isplitr
        · ipureintro; intro p hp
          rcases Finset.mem_insert.mp hp with hp | hp
          · exact Or.inr (by subst hp; rfl)
          · exact hW' p hp
        · iexact HO
      isplitl [Hb0]; · iexact Hb0
      isplitl [Hw1]; · iexists _, _; iexact Hw1
      isplitl [Ho2]; · iexact Ho2
      isplitl [Ho3]; · iexact Ho3
      isplitl [Ho4]; · iexact Ho4
      isplitl [Ho5]; · iexact Ho5
      isplitl [Ho6]; · iexact Ho6
      isplitl [Ho7]; · iexact Ho7
      isplitl [Ho8]; · iexact Ho8
      isplitl [Ho9]; · iexact Ho9
      isplitl [Ho10]; · iexact Ho10
      isplitl [Ho11]; · iexact Ho11
      isplitl [Ho12]; · iexact Ho12
      isplitl [Ho13]; · iexact Ho13
      isplitl [Ho14]; · iexact Ho14
      iexact Ho15
    | 2, hk =>
      -- trip 2: block 0's write-back is waited for, then slot 0 is reused
      have k3_h1 : k3_cond1 t2 = 1#1 := by decide
      change inv2 d L O W q ft ⊢ wp frame (wpE (defs₀ (F := F)) 𝒱₀ (tile d L) none) Set.univ (tile_run3.sl.prog.body_1 L t2 u) (fun _ => inv3 d L O W q ft)
      unfold inv2 common slotBusy outHeld
      iintro ⟨⟨Hmw, Ht, ⟨%g5, %hin, H5⟩, H6, Hg0, Hg1, %W', %hW', HO⟩, ⟨%fo0, %fc0, Hw0⟩, Hb1, ⟨%o2, Ho2⟩, Ho3, Ho4, Ho5, Ho6, Ho7, Ho8, Ho9, Ho10, Ho11, Ho12, Ho13, Ho14, Ho15⟩
      icases H6 with ⟨%r6, H6⟩
      have hinT : ∀ x, (((s0W).slice (Rect.unit (s := S2048) ![256] S128.size inb_w256) (fun _ => rfl)).view.read (Elt F) g5 x).toNat
          < S1000x128.size gathers_S1000x128_S128x128.axis := hin ![256] inb_w256
      have hinK : ∀ x, ((offsAt t2).view.read (Elt F) g5 x).toNat < S1000x128.size gathers_S1000x128_S128x128.axis := hin _ _
      sl_exec
      ihave Hc := (Entails.of_eq (show ((s2W).view.loc (tile d L) ↦[(crowsAt t0).view.set]{fullShare} fc0 : sProp 𝕄)
          = ((s2W).view.loc (tile d L) ↦[Finset.univ \ (crowsAt t1).view.set]{fullShare} fc0) from by rw [crows_even t0 (by decide)])) $$ Hw0_src
      sl_for (invC (F := F) d L t1) $$ [H6 Hc]
      case region =>
        intro j _
        unfold invC crowsHeld
        iintro ⟨⟨%r, H6⟩, ⟨%f, Hc⟩⟩
        sl_exec
        sl_step
        isplitl [H6]; · iexists _; iexact H6
        iexists _; iexact Hc
      · unfold invC crowsHeld
        isplitl [H6]; · iexists _; iexact H6
        iexists _; iexact Hc
      iintro %_ HI
      unfold invC crowsHeld
      icases HI with ⟨⟨%r, H6⟩, ⟨%f, Hc⟩⟩
      sl_exec
      sl_step
      iclear Hc
      unfold inv3 common slotBusy outHeld
      isplitl [Hmw Ht H5 H6 Hg0 Hg1 HO]
      · isplitl [Hmw]; · iexact Hmw
        isplitl [Ht]; · iexact Ht
        isplitl [H5]
        · iexists g5; isplitr
          · ipureintro; exact hin
          · iexact H5
        isplitl [H6]; · iexists _; iexact H6
        isplitl [Hg0]; · iexact Hg0
        isplitl [Hg1]; · iexact Hg1
        iexists (insert (SemLoc.dma gS0, (default : HIx 4)) (insert (SemLoc.dma wS0, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hw0]; · iexists _, _; iexact Hw0
      isplitl [Hb1]; · iexact Hb1
      isplitl [Hw0_dst]; · iexists _; iexact Hw0_dst
      isplitl [Ho3]; · iexact Ho3
      isplitl [Ho4]; · iexact Ho4
      isplitl [Ho5]; · iexact Ho5
      isplitl [Ho6]; · iexact Ho6
      isplitl [Ho7]; · iexact Ho7
      isplitl [Ho8]; · iexact Ho8
      isplitl [Ho9]; · iexact Ho9
      isplitl [Ho10]; · iexact Ho10
      isplitl [Ho11]; · iexact Ho11
      isplitl [Ho12]; · iexact Ho12
      isplitl [Ho13]; · iexact Ho13
      isplitl [Ho14]; · iexact Ho14
      iexact Ho15
    | 3, hk =>
      -- trip 3: block 1's write-back is waited for, then slot 1 is reused
      have k3_h1 : k3_cond1 t3 = 1#1 := by decide
      change inv3 d L O W q ft ⊢ wp frame (wpE (defs₀ (F := F)) 𝒱₀ (tile d L) none) Set.univ (tile_run3.sl.prog.body_1 L t3 u) (fun _ => inv4 d L O W q ft)
      unfold inv3 common slotBusy outHeld
      iintro ⟨⟨Hmw, Ht, ⟨%g5, %hin, H5⟩, H6, Hg0, Hg1, %W', %hW', HO⟩, Hb0, ⟨%fo1, %fc1, Hw1⟩, Ho0, ⟨%o3, Ho3⟩, Ho4, Ho5, Ho6, Ho7, Ho8, Ho9, Ho10, Ho11, Ho12, Ho13, Ho14, Ho15⟩
      icases H6 with ⟨%r6, H6⟩
      have hinT : ∀ x, (((s0W).slice (Rect.unit (s := S2048) ![384] S128.size inb_w384) (fun _ => rfl)).view.read (Elt F) g5 x).toNat
          < S1000x128.size gathers_S1000x128_S128x128.axis := hin ![384] inb_w384
      have hinK : ∀ x, ((offsAt t3).view.read (Elt F) g5 x).toNat < S1000x128.size gathers_S1000x128_S128x128.axis := hin _ _
      sl_exec
      ihave Hc := (Entails.of_eq (show ((s2W).view.loc (tile d L) ↦[(crowsAt t1).view.set]{fullShare} fc1 : sProp 𝕄)
          = ((s2W).view.loc (tile d L) ↦[Finset.univ \ (crowsAt t0).view.set]{fullShare} fc1) from by rw [crows_odd t1 (by decide)])) $$ Hw1_src
      sl_for (invC (F := F) d L t0) $$ [H6 Hc]
      case region =>
        intro j _
        unfold invC crowsHeld
        iintro ⟨⟨%r, H6⟩, ⟨%f, Hc⟩⟩
        sl_exec
        sl_step
        isplitl [H6]; · iexists _; iexact H6
        iexists _; iexact Hc
      · unfold invC crowsHeld
        isplitl [H6]; · iexists _; iexact H6
        iexists _; iexact Hc
      iintro %_ HI
      unfold invC crowsHeld
      icases HI with ⟨⟨%r, H6⟩, ⟨%f, Hc⟩⟩
      sl_exec
      sl_step
      iclear Hc
      unfold inv4 common slotBusy outHeld
      isplitl [Hmw Ht H5 H6 Hg0 Hg1 HO]
      · isplitl [Hmw]; · iexact Hmw
        isplitl [Ht]; · iexact Ht
        isplitl [H5]
        · iexists g5; isplitr
          · ipureintro; exact hin
          · iexact H5
        isplitl [H6]; · iexists _; iexact H6
        isplitl [Hg0]; · iexact Hg0
        isplitl [Hg1]; · iexact Hg1
        iexists (insert (SemLoc.dma gS1, (default : HIx 4)) (insert (SemLoc.dma wS1, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hb0]; · iexact Hb0
      isplitl [Hw1]; · iexists _, _; iexact Hw1
      isplitl [Ho0]; · iexact Ho0
      isplitl [Hw1_dst]; · iexists _; iexact Hw1_dst
      isplitl [Ho4]; · iexact Ho4
      isplitl [Ho5]; · iexact Ho5
      isplitl [Ho6]; · iexact Ho6
      isplitl [Ho7]; · iexact Ho7
      isplitl [Ho8]; · iexact Ho8
      isplitl [Ho9]; · iexact Ho9
      isplitl [Ho10]; · iexact Ho10
      isplitl [Ho11]; · iexact Ho11
      isplitl [Ho12]; · iexact Ho12
      isplitl [Ho13]; · iexact Ho13
      isplitl [Ho14]; · iexact Ho14
      iexact Ho15
    | 4, hk =>
      -- trip 4: block 2's write-back is waited for, then slot 0 is reused
      have k3_h1 : k3_cond1 t4 = 1#1 := by decide
      change inv4 d L O W q ft ⊢ wp frame (wpE (defs₀ (F := F)) 𝒱₀ (tile d L) none) Set.univ (tile_run3.sl.prog.body_1 L t4 u) (fun _ => inv5 d L O W q ft)
      unfold inv4 common slotBusy outHeld
      iintro ⟨⟨Hmw, Ht, ⟨%g5, %hin, H5⟩, H6, Hg0, Hg1, %W', %hW', HO⟩, ⟨%fo0, %fc0, Hw0⟩, Hb1, Ho0, Ho1, ⟨%o4, Ho4⟩, Ho5, Ho6, Ho7, Ho8, Ho9, Ho10, Ho11, Ho12, Ho13, Ho14, Ho15⟩
      icases H6 with ⟨%r6, H6⟩
      have hinT : ∀ x, (((s0W).slice (Rect.unit (s := S2048) ![512] S128.size inb_w512) (fun _ => rfl)).view.read (Elt F) g5 x).toNat
          < S1000x128.size gathers_S1000x128_S128x128.axis := hin ![512] inb_w512
      have hinK : ∀ x, ((offsAt t4).view.read (Elt F) g5 x).toNat < S1000x128.size gathers_S1000x128_S128x128.axis := hin _ _
      sl_exec
      ihave Hc := (Entails.of_eq (show ((s2W).view.loc (tile d L) ↦[(crowsAt t2).view.set]{fullShare} fc0 : sProp 𝕄)
          = ((s2W).view.loc (tile d L) ↦[Finset.univ \ (crowsAt t1).view.set]{fullShare} fc0) from by rw [crows_even t2 (by decide)])) $$ Hw0_src
      sl_for (invC (F := F) d L t1) $$ [H6 Hc]
      case region =>
        intro j _
        unfold invC crowsHeld
        iintro ⟨⟨%r, H6⟩, ⟨%f, Hc⟩⟩
        sl_exec
        sl_step
        isplitl [H6]; · iexists _; iexact H6
        iexists _; iexact Hc
      · unfold invC crowsHeld
        isplitl [H6]; · iexists _; iexact H6
        iexists _; iexact Hc
      iintro %_ HI
      unfold invC crowsHeld
      icases HI with ⟨⟨%r, H6⟩, ⟨%f, Hc⟩⟩
      sl_exec
      sl_step
      iclear Hc
      unfold inv5 common slotBusy outHeld
      isplitl [Hmw Ht H5 H6 Hg0 Hg1 HO]
      · isplitl [Hmw]; · iexact Hmw
        isplitl [Ht]; · iexact Ht
        isplitl [H5]
        · iexists g5; isplitr
          · ipureintro; exact hin
          · iexact H5
        isplitl [H6]; · iexists _; iexact H6
        isplitl [Hg0]; · iexact Hg0
        isplitl [Hg1]; · iexact Hg1
        iexists (insert (SemLoc.dma gS0, (default : HIx 4)) (insert (SemLoc.dma wS0, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hw0]; · iexists _, _; iexact Hw0
      isplitl [Hb1]; · iexact Hb1
      isplitl [Ho0]; · iexact Ho0
      isplitl [Ho1]; · iexact Ho1
      isplitl [Hw0_dst]; · iexists _; iexact Hw0_dst
      isplitl [Ho5]; · iexact Ho5
      isplitl [Ho6]; · iexact Ho6
      isplitl [Ho7]; · iexact Ho7
      isplitl [Ho8]; · iexact Ho8
      isplitl [Ho9]; · iexact Ho9
      isplitl [Ho10]; · iexact Ho10
      isplitl [Ho11]; · iexact Ho11
      isplitl [Ho12]; · iexact Ho12
      isplitl [Ho13]; · iexact Ho13
      isplitl [Ho14]; · iexact Ho14
      iexact Ho15
    | 5, hk =>
      -- trip 5: block 3's write-back is waited for, then slot 1 is reused
      have k3_h1 : k3_cond1 t5 = 1#1 := by decide
      change inv5 d L O W q ft ⊢ wp frame (wpE (defs₀ (F := F)) 𝒱₀ (tile d L) none) Set.univ (tile_run3.sl.prog.body_1 L t5 u) (fun _ => inv6 d L O W q ft)
      unfold inv5 common slotBusy outHeld
      iintro ⟨⟨Hmw, Ht, ⟨%g5, %hin, H5⟩, H6, Hg0, Hg1, %W', %hW', HO⟩, Hb0, ⟨%fo1, %fc1, Hw1⟩, Ho0, Ho1, Ho2, ⟨%o5, Ho5⟩, Ho6, Ho7, Ho8, Ho9, Ho10, Ho11, Ho12, Ho13, Ho14, Ho15⟩
      icases H6 with ⟨%r6, H6⟩
      have hinT : ∀ x, (((s0W).slice (Rect.unit (s := S2048) ![640] S128.size inb_w640) (fun _ => rfl)).view.read (Elt F) g5 x).toNat
          < S1000x128.size gathers_S1000x128_S128x128.axis := hin ![640] inb_w640
      have hinK : ∀ x, ((offsAt t5).view.read (Elt F) g5 x).toNat < S1000x128.size gathers_S1000x128_S128x128.axis := hin _ _
      sl_exec
      ihave Hc := (Entails.of_eq (show ((s2W).view.loc (tile d L) ↦[(crowsAt t3).view.set]{fullShare} fc1 : sProp 𝕄)
          = ((s2W).view.loc (tile d L) ↦[Finset.univ \ (crowsAt t0).view.set]{fullShare} fc1) from by rw [crows_odd t3 (by decide)])) $$ Hw1_src
      sl_for (invC (F := F) d L t0) $$ [H6 Hc]
      case region =>
        intro j _
        unfold invC crowsHeld
        iintro ⟨⟨%r, H6⟩, ⟨%f, Hc⟩⟩
        sl_exec
        sl_step
        isplitl [H6]; · iexists _; iexact H6
        iexists _; iexact Hc
      · unfold invC crowsHeld
        isplitl [H6]; · iexists _; iexact H6
        iexists _; iexact Hc
      iintro %_ HI
      unfold invC crowsHeld
      icases HI with ⟨⟨%r, H6⟩, ⟨%f, Hc⟩⟩
      sl_exec
      sl_step
      iclear Hc
      unfold inv6 common slotBusy outHeld
      isplitl [Hmw Ht H5 H6 Hg0 Hg1 HO]
      · isplitl [Hmw]; · iexact Hmw
        isplitl [Ht]; · iexact Ht
        isplitl [H5]
        · iexists g5; isplitr
          · ipureintro; exact hin
          · iexact H5
        isplitl [H6]; · iexists _; iexact H6
        isplitl [Hg0]; · iexact Hg0
        isplitl [Hg1]; · iexact Hg1
        iexists (insert (SemLoc.dma gS1, (default : HIx 4)) (insert (SemLoc.dma wS1, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hb0]; · iexact Hb0
      isplitl [Hw1]; · iexists _, _; iexact Hw1
      isplitl [Ho0]; · iexact Ho0
      isplitl [Ho1]; · iexact Ho1
      isplitl [Ho2]; · iexact Ho2
      isplitl [Hw1_dst]; · iexists _; iexact Hw1_dst
      isplitl [Ho6]; · iexact Ho6
      isplitl [Ho7]; · iexact Ho7
      isplitl [Ho8]; · iexact Ho8
      isplitl [Ho9]; · iexact Ho9
      isplitl [Ho10]; · iexact Ho10
      isplitl [Ho11]; · iexact Ho11
      isplitl [Ho12]; · iexact Ho12
      isplitl [Ho13]; · iexact Ho13
      isplitl [Ho14]; · iexact Ho14
      iexact Ho15
    | 6, hk =>
      -- trip 6: block 4's write-back is waited for, then slot 0 is reused
      have k3_h1 : k3_cond1 t6 = 1#1 := by decide
      change inv6 d L O W q ft ⊢ wp frame (wpE (defs₀ (F := F)) 𝒱₀ (tile d L) none) Set.univ (tile_run3.sl.prog.body_1 L t6 u) (fun _ => inv7 d L O W q ft)
      unfold inv6 common slotBusy outHeld
      iintro ⟨⟨Hmw, Ht, ⟨%g5, %hin, H5⟩, H6, Hg0, Hg1, %W', %hW', HO⟩, ⟨%fo0, %fc0, Hw0⟩, Hb1, Ho0, Ho1, Ho2, Ho3, ⟨%o6, Ho6⟩, Ho7, Ho8, Ho9, Ho10, Ho11, Ho12, Ho13, Ho14, Ho15⟩
      icases H6 with ⟨%r6, H6⟩
      have hinT : ∀ x, (((s0W).slice (Rect.unit (s := S2048) ![768] S128.size inb_w768) (fun _ => rfl)).view.read (Elt F) g5 x).toNat
          < S1000x128.size gathers_S1000x128_S128x128.axis := hin ![768] inb_w768
      have hinK : ∀ x, ((offsAt t6).view.read (Elt F) g5 x).toNat < S1000x128.size gathers_S1000x128_S128x128.axis := hin _ _
      sl_exec
      ihave Hc := (Entails.of_eq (show ((s2W).view.loc (tile d L) ↦[(crowsAt t4).view.set]{fullShare} fc0 : sProp 𝕄)
          = ((s2W).view.loc (tile d L) ↦[Finset.univ \ (crowsAt t1).view.set]{fullShare} fc0) from by rw [crows_even t4 (by decide)])) $$ Hw0_src
      sl_for (invC (F := F) d L t1) $$ [H6 Hc]
      case region =>
        intro j _
        unfold invC crowsHeld
        iintro ⟨⟨%r, H6⟩, ⟨%f, Hc⟩⟩
        sl_exec
        sl_step
        isplitl [H6]; · iexists _; iexact H6
        iexists _; iexact Hc
      · unfold invC crowsHeld
        isplitl [H6]; · iexists _; iexact H6
        iexists _; iexact Hc
      iintro %_ HI
      unfold invC crowsHeld
      icases HI with ⟨⟨%r, H6⟩, ⟨%f, Hc⟩⟩
      sl_exec
      sl_step
      iclear Hc
      unfold inv7 common slotBusy outHeld
      isplitl [Hmw Ht H5 H6 Hg0 Hg1 HO]
      · isplitl [Hmw]; · iexact Hmw
        isplitl [Ht]; · iexact Ht
        isplitl [H5]
        · iexists g5; isplitr
          · ipureintro; exact hin
          · iexact H5
        isplitl [H6]; · iexists _; iexact H6
        isplitl [Hg0]; · iexact Hg0
        isplitl [Hg1]; · iexact Hg1
        iexists (insert (SemLoc.dma gS0, (default : HIx 4)) (insert (SemLoc.dma wS0, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hw0]; · iexists _, _; iexact Hw0
      isplitl [Hb1]; · iexact Hb1
      isplitl [Ho0]; · iexact Ho0
      isplitl [Ho1]; · iexact Ho1
      isplitl [Ho2]; · iexact Ho2
      isplitl [Ho3]; · iexact Ho3
      isplitl [Hw0_dst]; · iexists _; iexact Hw0_dst
      isplitl [Ho7]; · iexact Ho7
      isplitl [Ho8]; · iexact Ho8
      isplitl [Ho9]; · iexact Ho9
      isplitl [Ho10]; · iexact Ho10
      isplitl [Ho11]; · iexact Ho11
      isplitl [Ho12]; · iexact Ho12
      isplitl [Ho13]; · iexact Ho13
      isplitl [Ho14]; · iexact Ho14
      iexact Ho15
    | 7, hk =>
      -- trip 7: block 5's write-back is waited for, then slot 1 is reused
      have k3_h1 : k3_cond1 t7 = 1#1 := by decide
      change inv7 d L O W q ft ⊢ wp frame (wpE (defs₀ (F := F)) 𝒱₀ (tile d L) none) Set.univ (tile_run3.sl.prog.body_1 L t7 u) (fun _ => inv8 d L O W q ft)
      unfold inv7 common slotBusy outHeld
      iintro ⟨⟨Hmw, Ht, ⟨%g5, %hin, H5⟩, H6, Hg0, Hg1, %W', %hW', HO⟩, Hb0, ⟨%fo1, %fc1, Hw1⟩, Ho0, Ho1, Ho2, Ho3, Ho4, ⟨%o7, Ho7⟩, Ho8, Ho9, Ho10, Ho11, Ho12, Ho13, Ho14, Ho15⟩
      icases H6 with ⟨%r6, H6⟩
      have hinT : ∀ x, (((s0W).slice (Rect.unit (s := S2048) ![896] S128.size inb_w896) (fun _ => rfl)).view.read (Elt F) g5 x).toNat
          < S1000x128.size gathers_S1000x128_S128x128.axis := hin ![896] inb_w896
      have hinK : ∀ x, ((offsAt t7).view.read (Elt F) g5 x).toNat < S1000x128.size gathers_S1000x128_S128x128.axis := hin _ _
      sl_exec
      ihave Hc := (Entails.of_eq (show ((s2W).view.loc (tile d L) ↦[(crowsAt t5).view.set]{fullShare} fc1 : sProp 𝕄)
          = ((s2W).view.loc (tile d L) ↦[Finset.univ \ (crowsAt t0).view.set]{fullShare} fc1) from by rw [crows_odd t5 (by decide)])) $$ Hw1_src
      sl_for (invC (F := F) d L t0) $$ [H6 Hc]
      case region =>
        intro j _
        unfold invC crowsHeld
        iintro ⟨⟨%r, H6⟩, ⟨%f, Hc⟩⟩
        sl_exec
        sl_step
        isplitl [H6]; · iexists _; iexact H6
        iexists _; iexact Hc
      · unfold invC crowsHeld
        isplitl [H6]; · iexists _; iexact H6
        iexists _; iexact Hc
      iintro %_ HI
      unfold invC crowsHeld
      icases HI with ⟨⟨%r, H6⟩, ⟨%f, Hc⟩⟩
      sl_exec
      sl_step
      iclear Hc
      unfold inv8 common slotBusy outHeld
      isplitl [Hmw Ht H5 H6 Hg0 Hg1 HO]
      · isplitl [Hmw]; · iexact Hmw
        isplitl [Ht]; · iexact Ht
        isplitl [H5]
        · iexists g5; isplitr
          · ipureintro; exact hin
          · iexact H5
        isplitl [H6]; · iexists _; iexact H6
        isplitl [Hg0]; · iexact Hg0
        isplitl [Hg1]; · iexact Hg1
        iexists (insert (SemLoc.dma gS1, (default : HIx 4)) (insert (SemLoc.dma wS1, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hb0]; · iexact Hb0
      isplitl [Hw1]; · iexists _, _; iexact Hw1
      isplitl [Ho0]; · iexact Ho0
      isplitl [Ho1]; · iexact Ho1
      isplitl [Ho2]; · iexact Ho2
      isplitl [Ho3]; · iexact Ho3
      isplitl [Ho4]; · iexact Ho4
      isplitl [Hw1_dst]; · iexists _; iexact Hw1_dst
      isplitl [Ho8]; · iexact Ho8
      isplitl [Ho9]; · iexact Ho9
      isplitl [Ho10]; · iexact Ho10
      isplitl [Ho11]; · iexact Ho11
      isplitl [Ho12]; · iexact Ho12
      isplitl [Ho13]; · iexact Ho13
      isplitl [Ho14]; · iexact Ho14
      iexact Ho15
    | 8, hk =>
      -- trip 8: block 6's write-back is waited for, then slot 0 is reused
      have k3_h1 : k3_cond1 t8 = 1#1 := by decide
      change inv8 d L O W q ft ⊢ wp frame (wpE (defs₀ (F := F)) 𝒱₀ (tile d L) none) Set.univ (tile_run3.sl.prog.body_1 L t8 u) (fun _ => inv9 d L O W q ft)
      unfold inv8 common slotBusy outHeld
      iintro ⟨⟨Hmw, Ht, ⟨%g5, %hin, H5⟩, H6, Hg0, Hg1, %W', %hW', HO⟩, ⟨%fo0, %fc0, Hw0⟩, Hb1, Ho0, Ho1, Ho2, Ho3, Ho4, Ho5, ⟨%o8, Ho8⟩, Ho9, Ho10, Ho11, Ho12, Ho13, Ho14, Ho15⟩
      icases H6 with ⟨%r6, H6⟩
      have hinT : ∀ x, (((s0W).slice (Rect.unit (s := S2048) ![1024] S128.size inb_w1024) (fun _ => rfl)).view.read (Elt F) g5 x).toNat
          < S1000x128.size gathers_S1000x128_S128x128.axis := hin ![1024] inb_w1024
      have hinK : ∀ x, ((offsAt t8).view.read (Elt F) g5 x).toNat < S1000x128.size gathers_S1000x128_S128x128.axis := hin _ _
      sl_exec
      ihave Hc := (Entails.of_eq (show ((s2W).view.loc (tile d L) ↦[(crowsAt t6).view.set]{fullShare} fc0 : sProp 𝕄)
          = ((s2W).view.loc (tile d L) ↦[Finset.univ \ (crowsAt t1).view.set]{fullShare} fc0) from by rw [crows_even t6 (by decide)])) $$ Hw0_src
      sl_for (invC (F := F) d L t1) $$ [H6 Hc]
      case region =>
        intro j _
        unfold invC crowsHeld
        iintro ⟨⟨%r, H6⟩, ⟨%f, Hc⟩⟩
        sl_exec
        sl_step
        isplitl [H6]; · iexists _; iexact H6
        iexists _; iexact Hc
      · unfold invC crowsHeld
        isplitl [H6]; · iexists _; iexact H6
        iexists _; iexact Hc
      iintro %_ HI
      unfold invC crowsHeld
      icases HI with ⟨⟨%r, H6⟩, ⟨%f, Hc⟩⟩
      sl_exec
      sl_step
      iclear Hc
      unfold inv9 common slotBusy outHeld
      isplitl [Hmw Ht H5 H6 Hg0 Hg1 HO]
      · isplitl [Hmw]; · iexact Hmw
        isplitl [Ht]; · iexact Ht
        isplitl [H5]
        · iexists g5; isplitr
          · ipureintro; exact hin
          · iexact H5
        isplitl [H6]; · iexists _; iexact H6
        isplitl [Hg0]; · iexact Hg0
        isplitl [Hg1]; · iexact Hg1
        iexists (insert (SemLoc.dma gS0, (default : HIx 4)) (insert (SemLoc.dma wS0, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hw0]; · iexists _, _; iexact Hw0
      isplitl [Hb1]; · iexact Hb1
      isplitl [Ho0]; · iexact Ho0
      isplitl [Ho1]; · iexact Ho1
      isplitl [Ho2]; · iexact Ho2
      isplitl [Ho3]; · iexact Ho3
      isplitl [Ho4]; · iexact Ho4
      isplitl [Ho5]; · iexact Ho5
      isplitl [Hw0_dst]; · iexists _; iexact Hw0_dst
      isplitl [Ho9]; · iexact Ho9
      isplitl [Ho10]; · iexact Ho10
      isplitl [Ho11]; · iexact Ho11
      isplitl [Ho12]; · iexact Ho12
      isplitl [Ho13]; · iexact Ho13
      isplitl [Ho14]; · iexact Ho14
      iexact Ho15
    | 9, hk =>
      -- trip 9: block 7's write-back is waited for, then slot 1 is reused
      have k3_h1 : k3_cond1 t9 = 1#1 := by decide
      change inv9 d L O W q ft ⊢ wp frame (wpE (defs₀ (F := F)) 𝒱₀ (tile d L) none) Set.univ (tile_run3.sl.prog.body_1 L t9 u) (fun _ => inv10 d L O W q ft)
      unfold inv9 common slotBusy outHeld
      iintro ⟨⟨Hmw, Ht, ⟨%g5, %hin, H5⟩, H6, Hg0, Hg1, %W', %hW', HO⟩, Hb0, ⟨%fo1, %fc1, Hw1⟩, Ho0, Ho1, Ho2, Ho3, Ho4, Ho5, Ho6, ⟨%o9, Ho9⟩, Ho10, Ho11, Ho12, Ho13, Ho14, Ho15⟩
      icases H6 with ⟨%r6, H6⟩
      have hinT : ∀ x, (((s0W).slice (Rect.unit (s := S2048) ![1152] S128.size inb_w1152) (fun _ => rfl)).view.read (Elt F) g5 x).toNat
          < S1000x128.size gathers_S1000x128_S128x128.axis := hin ![1152] inb_w1152
      have hinK : ∀ x, ((offsAt t9).view.read (Elt F) g5 x).toNat < S1000x128.size gathers_S1000x128_S128x128.axis := hin _ _
      sl_exec
      ihave Hc := (Entails.of_eq (show ((s2W).view.loc (tile d L) ↦[(crowsAt t7).view.set]{fullShare} fc1 : sProp 𝕄)
          = ((s2W).view.loc (tile d L) ↦[Finset.univ \ (crowsAt t0).view.set]{fullShare} fc1) from by rw [crows_odd t7 (by decide)])) $$ Hw1_src
      sl_for (invC (F := F) d L t0) $$ [H6 Hc]
      case region =>
        intro j _
        unfold invC crowsHeld
        iintro ⟨⟨%r, H6⟩, ⟨%f, Hc⟩⟩
        sl_exec
        sl_step
        isplitl [H6]; · iexists _; iexact H6
        iexists _; iexact Hc
      · unfold invC crowsHeld
        isplitl [H6]; · iexists _; iexact H6
        iexists _; iexact Hc
      iintro %_ HI
      unfold invC crowsHeld
      icases HI with ⟨⟨%r, H6⟩, ⟨%f, Hc⟩⟩
      sl_exec
      sl_step
      iclear Hc
      unfold inv10 common slotBusy outHeld
      isplitl [Hmw Ht H5 H6 Hg0 Hg1 HO]
      · isplitl [Hmw]; · iexact Hmw
        isplitl [Ht]; · iexact Ht
        isplitl [H5]
        · iexists g5; isplitr
          · ipureintro; exact hin
          · iexact H5
        isplitl [H6]; · iexists _; iexact H6
        isplitl [Hg0]; · iexact Hg0
        isplitl [Hg1]; · iexact Hg1
        iexists (insert (SemLoc.dma gS1, (default : HIx 4)) (insert (SemLoc.dma wS1, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hb0]; · iexact Hb0
      isplitl [Hw1]; · iexists _, _; iexact Hw1
      isplitl [Ho0]; · iexact Ho0
      isplitl [Ho1]; · iexact Ho1
      isplitl [Ho2]; · iexact Ho2
      isplitl [Ho3]; · iexact Ho3
      isplitl [Ho4]; · iexact Ho4
      isplitl [Ho5]; · iexact Ho5
      isplitl [Ho6]; · iexact Ho6
      isplitl [Hw1_dst]; · iexists _; iexact Hw1_dst
      isplitl [Ho10]; · iexact Ho10
      isplitl [Ho11]; · iexact Ho11
      isplitl [Ho12]; · iexact Ho12
      isplitl [Ho13]; · iexact Ho13
      isplitl [Ho14]; · iexact Ho14
      iexact Ho15
    | 10, hk =>
      -- trip 10: block 8's write-back is waited for, then slot 0 is reused
      have k3_h1 : k3_cond1 t10 = 1#1 := by decide
      change inv10 d L O W q ft ⊢ wp frame (wpE (defs₀ (F := F)) 𝒱₀ (tile d L) none) Set.univ (tile_run3.sl.prog.body_1 L t10 u) (fun _ => inv11 d L O W q ft)
      unfold inv10 common slotBusy outHeld
      iintro ⟨⟨Hmw, Ht, ⟨%g5, %hin, H5⟩, H6, Hg0, Hg1, %W', %hW', HO⟩, ⟨%fo0, %fc0, Hw0⟩, Hb1, Ho0, Ho1, Ho2, Ho3, Ho4, Ho5, Ho6, Ho7, ⟨%o10, Ho10⟩, Ho11, Ho12, Ho13, Ho14, Ho15⟩
      icases H6 with ⟨%r6, H6⟩
      have hinT : ∀ x, (((s0W).slice (Rect.unit (s := S2048) ![1280] S128.size inb_w1280) (fun _ => rfl)).view.read (Elt F) g5 x).toNat
          < S1000x128.size gathers_S1000x128_S128x128.axis := hin ![1280] inb_w1280
      have hinK : ∀ x, ((offsAt t10).view.read (Elt F) g5 x).toNat < S1000x128.size gathers_S1000x128_S128x128.axis := hin _ _
      sl_exec
      ihave Hc := (Entails.of_eq (show ((s2W).view.loc (tile d L) ↦[(crowsAt t8).view.set]{fullShare} fc0 : sProp 𝕄)
          = ((s2W).view.loc (tile d L) ↦[Finset.univ \ (crowsAt t1).view.set]{fullShare} fc0) from by rw [crows_even t8 (by decide)])) $$ Hw0_src
      sl_for (invC (F := F) d L t1) $$ [H6 Hc]
      case region =>
        intro j _
        unfold invC crowsHeld
        iintro ⟨⟨%r, H6⟩, ⟨%f, Hc⟩⟩
        sl_exec
        sl_step
        isplitl [H6]; · iexists _; iexact H6
        iexists _; iexact Hc
      · unfold invC crowsHeld
        isplitl [H6]; · iexists _; iexact H6
        iexists _; iexact Hc
      iintro %_ HI
      unfold invC crowsHeld
      icases HI with ⟨⟨%r, H6⟩, ⟨%f, Hc⟩⟩
      sl_exec
      sl_step
      iclear Hc
      unfold inv11 common slotBusy outHeld
      isplitl [Hmw Ht H5 H6 Hg0 Hg1 HO]
      · isplitl [Hmw]; · iexact Hmw
        isplitl [Ht]; · iexact Ht
        isplitl [H5]
        · iexists g5; isplitr
          · ipureintro; exact hin
          · iexact H5
        isplitl [H6]; · iexists _; iexact H6
        isplitl [Hg0]; · iexact Hg0
        isplitl [Hg1]; · iexact Hg1
        iexists (insert (SemLoc.dma gS0, (default : HIx 4)) (insert (SemLoc.dma wS0, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hw0]; · iexists _, _; iexact Hw0
      isplitl [Hb1]; · iexact Hb1
      isplitl [Ho0]; · iexact Ho0
      isplitl [Ho1]; · iexact Ho1
      isplitl [Ho2]; · iexact Ho2
      isplitl [Ho3]; · iexact Ho3
      isplitl [Ho4]; · iexact Ho4
      isplitl [Ho5]; · iexact Ho5
      isplitl [Ho6]; · iexact Ho6
      isplitl [Ho7]; · iexact Ho7
      isplitl [Hw0_dst]; · iexists _; iexact Hw0_dst
      isplitl [Ho11]; · iexact Ho11
      isplitl [Ho12]; · iexact Ho12
      isplitl [Ho13]; · iexact Ho13
      isplitl [Ho14]; · iexact Ho14
      iexact Ho15
    | 11, hk =>
      -- trip 11: block 9's write-back is waited for, then slot 1 is reused
      have k3_h1 : k3_cond1 t11 = 1#1 := by decide
      change inv11 d L O W q ft ⊢ wp frame (wpE (defs₀ (F := F)) 𝒱₀ (tile d L) none) Set.univ (tile_run3.sl.prog.body_1 L t11 u) (fun _ => inv12 d L O W q ft)
      unfold inv11 common slotBusy outHeld
      iintro ⟨⟨Hmw, Ht, ⟨%g5, %hin, H5⟩, H6, Hg0, Hg1, %W', %hW', HO⟩, Hb0, ⟨%fo1, %fc1, Hw1⟩, Ho0, Ho1, Ho2, Ho3, Ho4, Ho5, Ho6, Ho7, Ho8, ⟨%o11, Ho11⟩, Ho12, Ho13, Ho14, Ho15⟩
      icases H6 with ⟨%r6, H6⟩
      have hinT : ∀ x, (((s0W).slice (Rect.unit (s := S2048) ![1408] S128.size inb_w1408) (fun _ => rfl)).view.read (Elt F) g5 x).toNat
          < S1000x128.size gathers_S1000x128_S128x128.axis := hin ![1408] inb_w1408
      have hinK : ∀ x, ((offsAt t11).view.read (Elt F) g5 x).toNat < S1000x128.size gathers_S1000x128_S128x128.axis := hin _ _
      sl_exec
      ihave Hc := (Entails.of_eq (show ((s2W).view.loc (tile d L) ↦[(crowsAt t9).view.set]{fullShare} fc1 : sProp 𝕄)
          = ((s2W).view.loc (tile d L) ↦[Finset.univ \ (crowsAt t0).view.set]{fullShare} fc1) from by rw [crows_odd t9 (by decide)])) $$ Hw1_src
      sl_for (invC (F := F) d L t0) $$ [H6 Hc]
      case region =>
        intro j _
        unfold invC crowsHeld
        iintro ⟨⟨%r, H6⟩, ⟨%f, Hc⟩⟩
        sl_exec
        sl_step
        isplitl [H6]; · iexists _; iexact H6
        iexists _; iexact Hc
      · unfold invC crowsHeld
        isplitl [H6]; · iexists _; iexact H6
        iexists _; iexact Hc
      iintro %_ HI
      unfold invC crowsHeld
      icases HI with ⟨⟨%r, H6⟩, ⟨%f, Hc⟩⟩
      sl_exec
      sl_step
      iclear Hc
      unfold inv12 common slotBusy outHeld
      isplitl [Hmw Ht H5 H6 Hg0 Hg1 HO]
      · isplitl [Hmw]; · iexact Hmw
        isplitl [Ht]; · iexact Ht
        isplitl [H5]
        · iexists g5; isplitr
          · ipureintro; exact hin
          · iexact H5
        isplitl [H6]; · iexists _; iexact H6
        isplitl [Hg0]; · iexact Hg0
        isplitl [Hg1]; · iexact Hg1
        iexists (insert (SemLoc.dma gS1, (default : HIx 4)) (insert (SemLoc.dma wS1, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hb0]; · iexact Hb0
      isplitl [Hw1]; · iexists _, _; iexact Hw1
      isplitl [Ho0]; · iexact Ho0
      isplitl [Ho1]; · iexact Ho1
      isplitl [Ho2]; · iexact Ho2
      isplitl [Ho3]; · iexact Ho3
      isplitl [Ho4]; · iexact Ho4
      isplitl [Ho5]; · iexact Ho5
      isplitl [Ho6]; · iexact Ho6
      isplitl [Ho7]; · iexact Ho7
      isplitl [Ho8]; · iexact Ho8
      isplitl [Hw1_dst]; · iexists _; iexact Hw1_dst
      isplitl [Ho12]; · iexact Ho12
      isplitl [Ho13]; · iexact Ho13
      isplitl [Ho14]; · iexact Ho14
      iexact Ho15
    | 12, hk =>
      -- trip 12: block 10's write-back is waited for, then slot 0 is reused
      have k3_h1 : k3_cond1 t12 = 1#1 := by decide
      change inv12 d L O W q ft ⊢ wp frame (wpE (defs₀ (F := F)) 𝒱₀ (tile d L) none) Set.univ (tile_run3.sl.prog.body_1 L t12 u) (fun _ => inv13 d L O W q ft)
      unfold inv12 common slotBusy outHeld
      iintro ⟨⟨Hmw, Ht, ⟨%g5, %hin, H5⟩, H6, Hg0, Hg1, %W', %hW', HO⟩, ⟨%fo0, %fc0, Hw0⟩, Hb1, Ho0, Ho1, Ho2, Ho3, Ho4, Ho5, Ho6, Ho7, Ho8, Ho9, ⟨%o12, Ho12⟩, Ho13, Ho14, Ho15⟩
      icases H6 with ⟨%r6, H6⟩
      have hinT : ∀ x, (((s0W).slice (Rect.unit (s := S2048) ![1536] S128.size inb_w1536) (fun _ => rfl)).view.read (Elt F) g5 x).toNat
          < S1000x128.size gathers_S1000x128_S128x128.axis := hin ![1536] inb_w1536
      have hinK : ∀ x, ((offsAt t12).view.read (Elt F) g5 x).toNat < S1000x128.size gathers_S1000x128_S128x128.axis := hin _ _
      sl_exec
      ihave Hc := (Entails.of_eq (show ((s2W).view.loc (tile d L) ↦[(crowsAt t10).view.set]{fullShare} fc0 : sProp 𝕄)
          = ((s2W).view.loc (tile d L) ↦[Finset.univ \ (crowsAt t1).view.set]{fullShare} fc0) from by rw [crows_even t10 (by decide)])) $$ Hw0_src
      sl_for (invC (F := F) d L t1) $$ [H6 Hc]
      case region =>
        intro j _
        unfold invC crowsHeld
        iintro ⟨⟨%r, H6⟩, ⟨%f, Hc⟩⟩
        sl_exec
        sl_step
        isplitl [H6]; · iexists _; iexact H6
        iexists _; iexact Hc
      · unfold invC crowsHeld
        isplitl [H6]; · iexists _; iexact H6
        iexists _; iexact Hc
      iintro %_ HI
      unfold invC crowsHeld
      icases HI with ⟨⟨%r, H6⟩, ⟨%f, Hc⟩⟩
      sl_exec
      sl_step
      iclear Hc
      unfold inv13 common slotBusy outHeld
      isplitl [Hmw Ht H5 H6 Hg0 Hg1 HO]
      · isplitl [Hmw]; · iexact Hmw
        isplitl [Ht]; · iexact Ht
        isplitl [H5]
        · iexists g5; isplitr
          · ipureintro; exact hin
          · iexact H5
        isplitl [H6]; · iexists _; iexact H6
        isplitl [Hg0]; · iexact Hg0
        isplitl [Hg1]; · iexact Hg1
        iexists (insert (SemLoc.dma gS0, (default : HIx 4)) (insert (SemLoc.dma wS0, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hw0]; · iexists _, _; iexact Hw0
      isplitl [Hb1]; · iexact Hb1
      isplitl [Ho0]; · iexact Ho0
      isplitl [Ho1]; · iexact Ho1
      isplitl [Ho2]; · iexact Ho2
      isplitl [Ho3]; · iexact Ho3
      isplitl [Ho4]; · iexact Ho4
      isplitl [Ho5]; · iexact Ho5
      isplitl [Ho6]; · iexact Ho6
      isplitl [Ho7]; · iexact Ho7
      isplitl [Ho8]; · iexact Ho8
      isplitl [Ho9]; · iexact Ho9
      isplitl [Hw0_dst]; · iexists _; iexact Hw0_dst
      isplitl [Ho13]; · iexact Ho13
      isplitl [Ho14]; · iexact Ho14
      iexact Ho15
    | 13, hk =>
      -- trip 13: block 11's write-back is waited for, then slot 1 is reused
      have k3_h1 : k3_cond1 t13 = 1#1 := by decide
      change inv13 d L O W q ft ⊢ wp frame (wpE (defs₀ (F := F)) 𝒱₀ (tile d L) none) Set.univ (tile_run3.sl.prog.body_1 L t13 u) (fun _ => inv14 d L O W q ft)
      unfold inv13 common slotBusy outHeld
      iintro ⟨⟨Hmw, Ht, ⟨%g5, %hin, H5⟩, H6, Hg0, Hg1, %W', %hW', HO⟩, Hb0, ⟨%fo1, %fc1, Hw1⟩, Ho0, Ho1, Ho2, Ho3, Ho4, Ho5, Ho6, Ho7, Ho8, Ho9, Ho10, ⟨%o13, Ho13⟩, Ho14, Ho15⟩
      icases H6 with ⟨%r6, H6⟩
      have hinT : ∀ x, (((s0W).slice (Rect.unit (s := S2048) ![1664] S128.size inb_w1664) (fun _ => rfl)).view.read (Elt F) g5 x).toNat
          < S1000x128.size gathers_S1000x128_S128x128.axis := hin ![1664] inb_w1664
      have hinK : ∀ x, ((offsAt t13).view.read (Elt F) g5 x).toNat < S1000x128.size gathers_S1000x128_S128x128.axis := hin _ _
      sl_exec
      ihave Hc := (Entails.of_eq (show ((s2W).view.loc (tile d L) ↦[(crowsAt t11).view.set]{fullShare} fc1 : sProp 𝕄)
          = ((s2W).view.loc (tile d L) ↦[Finset.univ \ (crowsAt t0).view.set]{fullShare} fc1) from by rw [crows_odd t11 (by decide)])) $$ Hw1_src
      sl_for (invC (F := F) d L t0) $$ [H6 Hc]
      case region =>
        intro j _
        unfold invC crowsHeld
        iintro ⟨⟨%r, H6⟩, ⟨%f, Hc⟩⟩
        sl_exec
        sl_step
        isplitl [H6]; · iexists _; iexact H6
        iexists _; iexact Hc
      · unfold invC crowsHeld
        isplitl [H6]; · iexists _; iexact H6
        iexists _; iexact Hc
      iintro %_ HI
      unfold invC crowsHeld
      icases HI with ⟨⟨%r, H6⟩, ⟨%f, Hc⟩⟩
      sl_exec
      sl_step
      iclear Hc
      unfold inv14 common slotBusy outHeld
      isplitl [Hmw Ht H5 H6 Hg0 Hg1 HO]
      · isplitl [Hmw]; · iexact Hmw
        isplitl [Ht]; · iexact Ht
        isplitl [H5]
        · iexists g5; isplitr
          · ipureintro; exact hin
          · iexact H5
        isplitl [H6]; · iexists _; iexact H6
        isplitl [Hg0]; · iexact Hg0
        isplitl [Hg1]; · iexact Hg1
        iexists (insert (SemLoc.dma gS1, (default : HIx 4)) (insert (SemLoc.dma wS1, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hb0]; · iexact Hb0
      isplitl [Hw1]; · iexists _, _; iexact Hw1
      isplitl [Ho0]; · iexact Ho0
      isplitl [Ho1]; · iexact Ho1
      isplitl [Ho2]; · iexact Ho2
      isplitl [Ho3]; · iexact Ho3
      isplitl [Ho4]; · iexact Ho4
      isplitl [Ho5]; · iexact Ho5
      isplitl [Ho6]; · iexact Ho6
      isplitl [Ho7]; · iexact Ho7
      isplitl [Ho8]; · iexact Ho8
      isplitl [Ho9]; · iexact Ho9
      isplitl [Ho10]; · iexact Ho10
      isplitl [Hw1_dst]; · iexists _; iexact Hw1_dst
      isplitl [Ho14]; · iexact Ho14
      iexact Ho15
    | 14, hk =>
      -- trip 14: block 12's write-back is waited for, then slot 0 is reused
      have k3_h1 : k3_cond1 t14 = 1#1 := by decide
      change inv14 d L O W q ft ⊢ wp frame (wpE (defs₀ (F := F)) 𝒱₀ (tile d L) none) Set.univ (tile_run3.sl.prog.body_1 L t14 u) (fun _ => inv15 d L O W q ft)
      unfold inv14 common slotBusy outHeld
      iintro ⟨⟨Hmw, Ht, ⟨%g5, %hin, H5⟩, H6, Hg0, Hg1, %W', %hW', HO⟩, ⟨%fo0, %fc0, Hw0⟩, Hb1, Ho0, Ho1, Ho2, Ho3, Ho4, Ho5, Ho6, Ho7, Ho8, Ho9, Ho10, Ho11, ⟨%o14, Ho14⟩, Ho15⟩
      icases H6 with ⟨%r6, H6⟩
      have hinT : ∀ x, (((s0W).slice (Rect.unit (s := S2048) ![1792] S128.size inb_w1792) (fun _ => rfl)).view.read (Elt F) g5 x).toNat
          < S1000x128.size gathers_S1000x128_S128x128.axis := hin ![1792] inb_w1792
      have hinK : ∀ x, ((offsAt t14).view.read (Elt F) g5 x).toNat < S1000x128.size gathers_S1000x128_S128x128.axis := hin _ _
      sl_exec
      ihave Hc := (Entails.of_eq (show ((s2W).view.loc (tile d L) ↦[(crowsAt t12).view.set]{fullShare} fc0 : sProp 𝕄)
          = ((s2W).view.loc (tile d L) ↦[Finset.univ \ (crowsAt t1).view.set]{fullShare} fc0) from by rw [crows_even t12 (by decide)])) $$ Hw0_src
      sl_for (invC (F := F) d L t1) $$ [H6 Hc]
      case region =>
        intro j _
        unfold invC crowsHeld
        iintro ⟨⟨%r, H6⟩, ⟨%f, Hc⟩⟩
        sl_exec
        sl_step
        isplitl [H6]; · iexists _; iexact H6
        iexists _; iexact Hc
      · unfold invC crowsHeld
        isplitl [H6]; · iexists _; iexact H6
        iexists _; iexact Hc
      iintro %_ HI
      unfold invC crowsHeld
      icases HI with ⟨⟨%r, H6⟩, ⟨%f, Hc⟩⟩
      sl_exec
      sl_step
      iclear Hc
      unfold inv15 common slotBusy outHeld
      isplitl [Hmw Ht H5 H6 Hg0 Hg1 HO]
      · isplitl [Hmw]; · iexact Hmw
        isplitl [Ht]; · iexact Ht
        isplitl [H5]
        · iexists g5; isplitr
          · ipureintro; exact hin
          · iexact H5
        isplitl [H6]; · iexists _; iexact H6
        isplitl [Hg0]; · iexact Hg0
        isplitl [Hg1]; · iexact Hg1
        iexists (insert (SemLoc.dma gS0, (default : HIx 4)) (insert (SemLoc.dma wS0, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hw0]; · iexists _, _; iexact Hw0
      isplitl [Hb1]; · iexact Hb1
      isplitl [Ho0]; · iexact Ho0
      isplitl [Ho1]; · iexact Ho1
      isplitl [Ho2]; · iexact Ho2
      isplitl [Ho3]; · iexact Ho3
      isplitl [Ho4]; · iexact Ho4
      isplitl [Ho5]; · iexact Ho5
      isplitl [Ho6]; · iexact Ho6
      isplitl [Ho7]; · iexact Ho7
      isplitl [Ho8]; · iexact Ho8
      isplitl [Ho9]; · iexact Ho9
      isplitl [Ho10]; · iexact Ho10
      isplitl [Ho11]; · iexact Ho11
      isplitl [Hw0_dst]; · iexists _; iexact Hw0_dst
      iexact Ho15
    | 15, hk =>
      -- trip 15: block 13's write-back is waited for, then slot 1 is reused
      have k3_h1 : k3_cond1 t15 = 1#1 := by decide
      change inv15 d L O W q ft ⊢ wp frame (wpE (defs₀ (F := F)) 𝒱₀ (tile d L) none) Set.univ (tile_run3.sl.prog.body_1 L t15 u) (fun _ => inv16 d L O W q ft)
      unfold inv15 common slotBusy outHeld
      iintro ⟨⟨Hmw, Ht, ⟨%g5, %hin, H5⟩, H6, Hg0, Hg1, %W', %hW', HO⟩, Hb0, ⟨%fo1, %fc1, Hw1⟩, Ho0, Ho1, Ho2, Ho3, Ho4, Ho5, Ho6, Ho7, Ho8, Ho9, Ho10, Ho11, Ho12, ⟨%o15, Ho15⟩⟩
      icases H6 with ⟨%r6, H6⟩
      have hinT : ∀ x, (((s0W).slice (Rect.unit (s := S2048) ![1920] S128.size inb_w1920) (fun _ => rfl)).view.read (Elt F) g5 x).toNat
          < S1000x128.size gathers_S1000x128_S128x128.axis := hin ![1920] inb_w1920
      have hinK : ∀ x, ((offsAt t15).view.read (Elt F) g5 x).toNat < S1000x128.size gathers_S1000x128_S128x128.axis := hin _ _
      sl_exec
      ihave Hc := (Entails.of_eq (show ((s2W).view.loc (tile d L) ↦[(crowsAt t13).view.set]{fullShare} fc1 : sProp 𝕄)
          = ((s2W).view.loc (tile d L) ↦[Finset.univ \ (crowsAt t0).view.set]{fullShare} fc1) from by rw [crows_odd t13 (by decide)])) $$ Hw1_src
      sl_for (invC (F := F) d L t0) $$ [H6 Hc]
      case region =>
        intro j _
        unfold invC crowsHeld
        iintro ⟨⟨%r, H6⟩, ⟨%f, Hc⟩⟩
        sl_exec
        sl_step
        isplitl [H6]; · iexists _; iexact H6
        iexists _; iexact Hc
      · unfold invC crowsHeld
        isplitl [H6]; · iexists _; iexact H6
        iexists _; iexact Hc
      iintro %_ HI
      unfold invC crowsHeld
      icases HI with ⟨⟨%r, H6⟩, ⟨%f, Hc⟩⟩
      sl_exec
      sl_step
      iclear Hc
      unfold inv16 common slotBusy outHeld
      isplitl [Hmw Ht H5 H6 Hg0 Hg1 HO]
      · isplitl [Hmw]; · iexact Hmw
        isplitl [Ht]; · iexact Ht
        isplitl [H5]
        · iexists g5; isplitr
          · ipureintro; exact hin
          · iexact H5
        isplitl [H6]; · iexists _; iexact H6
        isplitl [Hg0]; · iexact Hg0
        isplitl [Hg1]; · iexact Hg1
        iexists (insert (SemLoc.dma gS1, (default : HIx 4)) (insert (SemLoc.dma wS1, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hb0]; · iexact Hb0
      isplitl [Hw1]; · iexists _, _; iexact Hw1
      isplitl [Ho0]; · iexact Ho0
      isplitl [Ho1]; · iexact Ho1
      isplitl [Ho2]; · iexact Ho2
      isplitl [Ho3]; · iexact Ho3
      isplitl [Ho4]; · iexact Ho4
      isplitl [Ho5]; · iexact Ho5
      isplitl [Ho6]; · iexact Ho6
      isplitl [Ho7]; · iexact Ho7
      isplitl [Ho8]; · iexact Ho8
      isplitl [Ho9]; · iexact Ho9
      isplitl [Ho10]; · iexact Ho10
      isplitl [Ho11]; · iexact Ho11
      isplitl [Ho12]; · iexact Ho12
      iexists _; iexact Hw1_dst
  · -- before the first trip
    iapply (Entails.of_eq (show inv0 d L O W q ft = invO d L O W q ft 0 PUnit.unit from rfl))
    unfold inv0 common slotFree outHeld crowsHeld
    isplitl [Hmw Ht H5 H6 Hg0 Hg1 HO]
    · isplitl [Hmw]; · iexact Hmw
      isplitl [Ht]; · iexact Ht
      isplitl [H5]
      · iexists _; isplitr
        · ipureintro; exact h5
        · iexact H5
      isplitl [H6]; · iexact H6
      isplitl [Hg0]; · iexact Hg0
      isplitl [Hg1]; · iexact Hg1
      iexists (insert (SemLoc.dma pS, (default : HIx 4)) W); isplitr
      · ipureintro; intro p hp
        rcases Finset.mem_insert.mp hp with hp | hp
        · exact Or.inr (by subst hp; rfl)
        · exact Or.inl hp
      · iexact HO
    isplitl [Hw0 Hc0]; · isplitl [Hw0]; · iexact Hw0
                         iexact Hc0
    isplitl [Hw1 Hc1]; · isplitl [Hw1]; · iexact Hw1
                         iexact Hc1
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    isplitl [Ho7]; · iexact Ho7
    isplitl [Ho8]; · iexact Ho8
    isplitl [Ho9]; · iexact Ho9
    isplitl [Ho10]; · iexact Ho10
    isplitl [Ho11]; · iexact Ho11
    isplitl [Ho12]; · iexact Ho12
    isplitl [Ho13]; · iexact Ho13
    isplitl [Ho14]; · iexact Ho14
    iexact Ho15
  -- after the loop: the last two write-backs
  iintro %acc HI
  ihave HI' := (Entails.of_eq (show invO d L O W q ft (Scf.trips k3_t1_loop.lb k3_t1_loop.ub k3_t1_loop.st) acc = inv16 d L O W q ft from rfl)) $$ HI
  unfold inv16 common slotBusy outHeld
  icases HI' with ⟨⟨Hmw, Ht, ⟨%g5, %hin, H5⟩, H6, Hg0, Hg1, %W', %hW', HO⟩, ⟨%foA, %fcA, Hw0⟩, ⟨%foB, %fcB, Hw1⟩, Ho0, Ho1, Ho2, Ho3, Ho4, Ho5, Ho6, Ho7, Ho8, Ho9, Ho10, Ho11, Ho12, Ho13⟩
  sl_exec
  sl_step
  isplitl [Ht]; · iexact Ht
  isplitl [Hi]; · iexact Hi
  isplitl [H5]; · iexists _; iexact H5
  isplitl [H6]; · iexact H6
  isplitl [Hw0_src]; · iexists _; iexact Hw0_src
  isplitl [Hw1_src]; · iexists _; iexact Hw1_src
  isplitl [Ho0]; · iexact Ho0
  isplitl [Ho1]; · iexact Ho1
  isplitl [Ho2]; · iexact Ho2
  isplitl [Ho3]; · iexact Ho3
  isplitl [Ho4]; · iexact Ho4
  isplitl [Ho5]; · iexact Ho5
  isplitl [Ho6]; · iexact Ho6
  isplitl [Ho7]; · iexact Ho7
  isplitl [Ho8]; · iexact Ho8
  isplitl [Ho9]; · iexact Ho9
  isplitl [Ho10]; · iexact Ho10
  isplitl [Ho11]; · iexact Ho11
  isplitl [Ho12]; · iexact Ho12
  isplitl [Ho13]; · iexact Ho13
  isplitl [Hw0_dst]; · iexists _; iexact Hw0_dst
  isplitl [Hw1_dst]; · iexists _; iexact Hw1_dst
  isplitl [Hg0]; · iexact Hg0
  isplitl [Hg1]; · iexact Hg1
  isplitl [Hw0]; · iexact Hw0
  isplitl [Hw1]; · iexact Hw1
  isplitl [Hp]; · iexact Hp
  iexists (insert (SemLoc.dma wS1, (default : HIx 4)) (insert (SemLoc.dma wS0, (default : HIx 4)) W')); isplitr
  · ipureintro; intro p hp
    rcases Finset.mem_insert.mp hp with hp | hp
    · exact Or.inr (by subst hp; rfl)
    rcases Finset.mem_insert.mp hp with hp | hp
    · exact Or.inr (by subst hp; rfl)
    · exact hW' p hp
  · iexact HO

end Cert.KernelIdeal.Hand.C3

end
-- ==== Proof.KernelIdeal.TileObl3.lean ====
/-
  The fourth gather call's task as the launch theorem wants it: from what a vector subcore is handed at the call — its
  share of the table, its slice of the token words, its blocks of the result — and its own scratch buffers and
  semaphores, to the same handed back. The subcore's scratch and semaphores are picked out of everything it owns, the
  two-slot compact-rows scratch is cut into its halves for the run and glued back afterwards, and the run itself is
  `tile_run3`.
-/
import proofs.«203661_g84404697301628_cont_9to1_m_135_26_alg».proof.Proof.KernelIdeal.TileRun3
import proofs.«203661_g84404697301628_cont_9to1_m_135_26_alg».proof.Proof.Pay
import Idealize.ShloMosaic.Lib.SparseCore.Ops

noncomputable section

namespace Cert.KernelIdeal.Hand.C3

open Cert.KernelIdeal Cert.KernelIdeal.Gen Cert.KernelIdeal.Hand
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [hK : Cert.KernelIdeal.Facts] [FloatOps F]

local notation "𝕄" => MT nD τ sig (HIx 4) (Elt F) ℕ UU ℕ

local notation "tblW" => (Memref.whole Cert.KernelIdeal.main_v0_scv : Memref Cert.KernelIdeal.sig Kind.scVector Space.hbm Cert.KernelIdeal.S1000x128 EltTy.f32)
local notation "idxW" => (Memref.whole Cert.KernelIdeal.main_v11_scv : Memref Cert.KernelIdeal.sig Kind.scVector Space.hbm Cert.KernelIdeal.S65536 EltTy.i32)
local notation "outW" => (Memref.whole Cert.KernelIdeal.main_v12_scv : Memref Cert.KernelIdeal.sig Kind.scVector Space.hbm Cert.KernelIdeal.S4x16384x32 EltTy.f32)
local notation "s0W" => (Memref.whole Cert.KernelIdeal.cc3_scratch0 : Memref Cert.KernelIdeal.sig Kind.scVector Space.vmem Cert.KernelIdeal.S2048 EltTy.i32)
local notation "s1W" => (Memref.whole Cert.KernelIdeal.cc3_scratch1 : Memref Cert.KernelIdeal.sig Kind.scVector Space.vmem Cert.KernelIdeal.S2x128x128 EltTy.f32)
local notation "s2W" => (Memref.whole Cert.KernelIdeal.cc3_scratch2 : Memref Cert.KernelIdeal.sig Kind.scVector Space.vmem Cert.KernelIdeal.S2x128x32 EltTy.f32)
local notation "gS0" => (⟨15, by decide⟩ : DmaSem Cert.KernelIdeal.sig)
local notation "gS1" => (⟨16, by decide⟩ : DmaSem Cert.KernelIdeal.sig)
local notation "wS0" => (⟨17, by decide⟩ : DmaSem Cert.KernelIdeal.sig)
local notation "wS1" => (⟨18, by decide⟩ : DmaSem Cert.KernelIdeal.sig)
local notation "pS" => (⟨19, by decide⟩ : DmaSem Cert.KernelIdeal.sig)

/-- the fourth call's token words, as the TensorCore names them -/
abbrev idxLoc3 (d : Dev nD) : Loc nD τ sig := (SparseCore.T d).loc main_v11

/-- the grid point of subcore `i` of SparseCore `c` -/
def coords3 (c : Fin 2) (i : Fin 16) : grid3.Coords :=
  fun | 0 => c | 1 => i | ⟨_ + 2, h⟩ => absurd h (Nat.not_lt.2 (Nat.le_add_left _ _))

/-- what subcore `(c, i)` is handed for the fourth call besides the table: its slice of the token words, at the words
    `wd`, and its sixteen blocks of the result, at some contents -/
def Rs3 (wd : (d : Dev nD) → Buf (Elt F) (idxLoc3 d)) (d : Dev nD) (c : Fin 2) (i : Fin 16) : sProp 𝕄 :=
  iprop(((idxSl (coords3 c i)).view.loc (tile d (coords3 c i)) ↦[(idxSl (coords3 c i)).view.set]{fullShare} wd d)
    ∗ outHeld (F := F) d (coords3 c i) t0 ∗ outHeld (F := F) d (coords3 c i) t1
    ∗ outHeld (F := F) d (coords3 c i) t2 ∗ outHeld (F := F) d (coords3 c i) t3
    ∗ outHeld (F := F) d (coords3 c i) t4 ∗ outHeld (F := F) d (coords3 c i) t5
    ∗ outHeld (F := F) d (coords3 c i) t6 ∗ outHeld (F := F) d (coords3 c i) t7
    ∗ outHeld (F := F) d (coords3 c i) t8 ∗ outHeld (F := F) d (coords3 c i) t9
    ∗ outHeld (F := F) d (coords3 c i) t10 ∗ outHeld (F := F) d (coords3 c i) t11
    ∗ outHeld (F := F) d (coords3 c i) t12 ∗ outHeld (F := F) d (coords3 c i) t13
    ∗ outHeld (F := F) d (coords3 c i) t14 ∗ outHeld (F := F) d (coords3 c i) t15)

section Tile

variable (d : Dev nD) (L : grid3.Coords)

omit [FloatOps F] in
theorem mem_own (k : DmaSem sig) (hk : (SemLoc.dma k : SemLoc sig).isScoped .scVector = true) :
    ((tile d L, SemLoc.dma k) : GSem nD τ sig) ∈ ownCells (sig := sig) (tile d L) :=
  (mem_ownCells (g := (tile d L, SemLoc.dma k))).mpr ⟨rfl, hk⟩
omit [FloatOps F] in
theorem ne_cell {k k' : DmaSem sig} (h : k ≠ k') : ((tile d L, SemLoc.dma k) : GSem nD τ sig) ≠ (tile d L, SemLoc.dma k') :=
  fun e => h (SemLoc.dma.inj (Prod.mk.inj e).2)

omit [FloatOps F] in
/-- the five semaphores this call uses are among the subcore's own: they, and the rest -/
theorem ownSems0_V3 :
    (ownSems0 (tile d L) : sProp 𝕄)
      = iprop(semVal (tile d L, SemLoc.dma gS0) 0 ∗ semVal (tile d L, SemLoc.dma gS1) 0 ∗ semVal (tile d L, SemLoc.dma wS0) 0
          ∗ semVal (tile d L, SemLoc.dma wS1) 0 ∗ semVal (tile d L, SemLoc.dma pS) 0
          ∗ bigSep ((((((ownCells (tile d L)).erase (tile d L, SemLoc.dma gS0)).erase (tile d L, SemLoc.dma gS1)).erase (tile d L, SemLoc.dma wS0)).erase
              (tile d L, SemLoc.dma wS1)).erase (tile d L, SemLoc.dma pS)) fun g => semVal g 0) := by
  unfold SparseCore.Cfg.ownSems0
  rw [SparseCore.bigSep_erase' (mem_own d L gS0 (by decide)),
    SparseCore.bigSep_erase' (Finset.mem_erase.mpr ⟨ne_cell d L (k := gS1) (k' := gS0) (by decide), mem_own d L gS1 (by decide)⟩),
    SparseCore.bigSep_erase' (Finset.mem_erase.mpr ⟨ne_cell d L (k := wS0) (k' := gS1) (by decide), Finset.mem_erase.mpr ⟨ne_cell d L (k := wS0) (k' := gS0) (by decide), mem_own d L wS0 (by decide)⟩⟩),
    SparseCore.bigSep_erase' (Finset.mem_erase.mpr ⟨ne_cell d L (k := wS1) (k' := wS0) (by decide), Finset.mem_erase.mpr ⟨ne_cell d L (k := wS1) (k' := gS1) (by decide), Finset.mem_erase.mpr ⟨ne_cell d L (k := wS1) (k' := gS0) (by decide), mem_own d L wS1 (by decide)⟩⟩⟩),
    SparseCore.bigSep_erase' (Finset.mem_erase.mpr ⟨ne_cell d L (k := pS) (k' := wS1) (by decide), Finset.mem_erase.mpr ⟨ne_cell d L (k := pS) (k' := wS0) (by decide), Finset.mem_erase.mpr ⟨ne_cell d L (k := pS) (k' := gS1) (by decide), Finset.mem_erase.mpr ⟨ne_cell d L (k := pS) (k' := gS0) (by decide), mem_own d L pS (by decide)⟩⟩⟩⟩)]

omit [FloatOps F] in
/-- the three scratch buffers are among the subcore's own: they, at some contents, and the rest -/
theorem ownBufs_V3 :
    (ownBufs (tile d L) : sProp 𝕄)
      = iprop((∃ f, (tile d L).loc cc3_scratch0 ↦{fullShare} f) ∗ (∃ f, (tile d L).loc cc3_scratch1 ↦{fullShare} f)
          ∗ (∃ f, (tile d L).loc cc3_scratch2 ↦{fullShare} f)
          ∗ bigSep ((((ownRefs (τ := τ) (.scVector (cV L) (jV L))).erase ((Proc.scVector (cV L) (jV L)).devRef cc3_scratch0)).erase
              ((Proc.scVector (cV L) (jV L)).devRef cc3_scratch1)).erase ((Proc.scVector (cV L) (jV L)).devRef cc3_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc3_scratch0) rfl)).trans ?_
  rw [SparseCore.bigSep_erase' (Finset.mem_erase.mpr ⟨fun e => absurd (Proc.devRef_injective _ e) (show (cc3_scratch1 : Ref sig .scVector) ≠ cc3_scratch0 by decide),
    SparseCore.Cfg.mem_ownRefs_of_owner (p := Proc.scVector (cV L) (jV L)) (b := (Proc.scVector (cV L) (jV L)).devRef cc3_scratch1) rfl⟩),
    SparseCore.bigSep_erase' (Finset.mem_erase.mpr ⟨fun e => absurd (Proc.devRef_injective _ e) (show (cc3_scratch2 : Ref sig .scVector) ≠ cc3_scratch1 by decide),
      Finset.mem_erase.mpr ⟨fun e => absurd (Proc.devRef_injective _ e) (show (cc3_scratch2 : Ref sig .scVector) ≠ cc3_scratch0 by decide),
    SparseCore.Cfg.mem_ownRefs_of_owner (p := Proc.scVector (cV L) (jV L)) (b := (Proc.scVector (cV L) (jV L)).devRef cc3_scratch2) rfl⟩⟩)]

omit [FloatOps F] in
/-- the compact-rows scratch, held whole, is its two halves (each as "all but the other") -/
theorem crows_split (f : Buf (Elt F) ((s2W).view.loc (tile d L))) :
    ((s2W).view.loc (tile d L) ↦[Finset.univ]{fullShare} f : sProp 𝕄)
      ⊢ iprop(((s2W).view.loc (tile d L) ↦[Finset.univ \ (crowsAt t1).view.set]{fullShare} f)
          ∗ ((s2W).view.loc (tile d L) ↦[Finset.univ \ (crowsAt t0).view.set]{fullShare} f)) := by
  have h : ((s2W).view.loc (tile d L) ↦[Finset.univ]{fullShare} f : sProp 𝕄)
      ⊢ iprop(((s2W).view.loc (tile d L) ↦[Finset.univ \ (crowsAt t1).view.set]{fullShare} f)
          ∗ ((s2W).view.loc (tile d L) ↦[Finset.univ \ (Finset.univ \ (crowsAt t1).view.set)]{fullShare} f)) :=
    (pointsTo_split_subset (Finset.subset_univ (Finset.univ \ (crowsAt t1).view.set))).1
  have e : Finset.univ \ (Finset.univ \ (crowsAt t1).view.set) = Finset.univ \ (crowsAt t0).view.set := by rw [crows_compl01]
  rw [e] at h
  exact h

omit [FloatOps F] in
/-- the halves the run hands back are the first and the second -/
theorem crows_set_last0 : (crowsAt t14).view.set = (crowsAt t0).view.set := crows_set_congr t14 t0 (by decide)
omit [FloatOps F] in
theorem crows_set_last1 : (crowsAt t15).view.set = (crowsAt t1).view.set := crows_set_congr t15 t1 (by decide)

omit [FloatOps F] in
/-- and the two halves, at whatever each holds, are the scratch whole again -/
theorem crows_join (f g : Buf (Elt F) ((s2W).view.loc (tile d L))) :
    iprop(((s2W).view.loc (tile d L) ↦[(crowsAt t14).view.set]{fullShare} f) ∗ ((s2W).view.loc (tile d L) ↦[(crowsAt t15).view.set]{fullShare} g))
      ⊢ (iprop(∃ h, (s2W).view.loc (tile d L) ↦[Finset.univ]{fullShare} h) : sProp 𝕄) := by
  rw [crows_set_last0, crows_set_last1]
  have hd : Disjoint (crowsAt t0).view.set (crowsAt t1).view.set := by
    rw [← crows_compl01]; exact Finset.sdiff_disjoint
  have hu : (crowsAt t0).view.set ∪ (crowsAt t1).view.set = Finset.univ := by
    rw [← crows_compl01]; exact Finset.sdiff_union_of_subset (Finset.subset_univ _)
  refine (pointsTo_join hd).trans ?_
  rw [hu]
  iintro H; iexists _; iexact H

/-- The task on one vector subcore, in the launch theorem's resources: the table's share, the subcore's words and blocks,
    and its own scoped storage in; the same out. -/
theorem tile_body3 (hF : (K (F := F)).Facts) (tb : (d : Dev nD) → Buf (Elt F) (tblLoc d)) (wd : (d : Dev nD) → Buf (Elt F) (idxLoc3 d))
    (hwd : ∀ d y, (wd d y).toNat < 1000) (q : PosShare TreeShare)
    (lv : GSem nD τ sig → HIx 4 → ℕ) (hlv : (K (F := F)).Refines lv)
    (O : CellTallies nD τ sig (HIx 4)) (W : Waits sig (HIx 4)) (hO : ∀ g, O g none = 0) :
    iprop(levAts (K (F := F)).L lv ∗ emp
        ∗ ((tblLoc d ↦{q} tb d)
            ∗ ((idxSl L).view.loc (tile d L) ↦[(idxSl L).view.set]{fullShare} wd d)
            ∗ outHeld (F := F) d L t0 ∗ outHeld (F := F) d L t1 ∗ outHeld (F := F) d L t2 ∗ outHeld (F := F) d L t3
            ∗ outHeld (F := F) d L t4 ∗ outHeld (F := F) d L t5 ∗ outHeld (F := F) d L t6 ∗ outHeld (F := F) d L t7
            ∗ outHeld (F := F) d L t8 ∗ outHeld (F := F) d L t9 ∗ outHeld (F := F) d L t10 ∗ outHeld (F := F) d L t11
            ∗ outHeld (F := F) d L t12 ∗ outHeld (F := F) d L t13 ∗ outHeld (F := F) d L t14 ∗ outHeld (F := F) d L t15)
        ∗ scopedBufs (tile d L) ∗ scopedSems0 (tile d L) ∗ owes (tile d L) O W)
      ⊢ wp frame (wpE (defs₀ (F := F)) 𝒱₀ (tile d L) none) Set.univ
          (cc3_gather_kernel L tblW (Memref.isWhole_whole _) idxW (Memref.isWhole_whole _) outW (Memref.isWhole_whole _)
            s0W (Memref.isWhole_whole _) s1W (Memref.isWhole_whole _) s2W (Memref.isWhole_whole _) cc3_scratch3 cc3_scratch4 cc3_scoped0)
          fun _ => iprop(((tblLoc d ↦{q} tb d)
            ∗ ((idxSl L).view.loc (tile d L) ↦[(idxSl L).view.set]{fullShare} wd d)
            ∗ outHeld (F := F) d L t0 ∗ outHeld (F := F) d L t1 ∗ outHeld (F := F) d L t2 ∗ outHeld (F := F) d L t3
            ∗ outHeld (F := F) d L t4 ∗ outHeld (F := F) d L t5 ∗ outHeld (F := F) d L t6 ∗ outHeld (F := F) d L t7
            ∗ outHeld (F := F) d L t8 ∗ outHeld (F := F) d L t9 ∗ outHeld (F := F) d L t10 ∗ outHeld (F := F) d L t11
            ∗ outHeld (F := F) d L t12 ∗ outHeld (F := F) d L t13 ∗ outHeld (F := F) d L t14 ∗ outHeld (F := F) d L t15)
            ∗ scopedBufs (tile d L) ∗ scopedSems0 (tile d L)
            ∗ ∃ W', ⌜∀ p ∈ W', p ∈ W ∨ p.2 = none⌝ ∗ owes (tile d L) O W') := by
  rw [(K (F := F)).scopedBufs_V hF d (cV L) (jV L), SparseCore.Cfg.scopedSems0_V (Val := Elt F) d (cV L) (jV L), ownSems0_V3, ownBufs_V3]
  iintro ⟨#Hlv, -, ⟨Ht, Hi, Ho0, Ho1, Ho2, Ho3, Ho4, Ho5, Ho6, Ho7, Ho8, Ho9, Ho10, Ho11, Ho12, Ho13, Ho14, Ho15⟩, ⟨H5, H6, ⟨%f7, H7⟩, Hbufs⟩, ⟨Hg0, Hg1, Hw0, Hw1, Hp, Hsems⟩, HO⟩
  ihave Hmw := ((K (F := F)).mayWaits_none (thr := tile d L) hO lv hlv) $$ Hlv
  ihave Hc := (crows_split (F := F) d L f7) $$ H7
  icases Hc with ⟨Hc1, Hc0⟩
  iapply (wp_wand_r frame (wpE (defs₀ (F := F)) 𝒱₀ (tile d L) none) Set.univ)
  isplitl [Hmw Ht Hi H5 H6 Hc0 Hc1 Ho0 Ho1 Ho2 Ho3 Ho4 Ho5 Ho6 Ho7 Ho8 Ho9 Ho10 Ho11 Ho12 Ho13 Ho14 Ho15 Hg0 Hg1 Hw0 Hw1 Hp HO]
  · iapply (tile_run3 (F := F) d L O W q (tb d) (wd d) (hwd d))
    isplitl [Hmw]; · iexact Hmw
    isplitl [Ht]; · iexact Ht
    isplitl [Hi]; · iexact Hi
    isplitl [H5]; · iexact H5
    isplitl [H6]; · iexact H6
    isplitl [Hc1]; · unfold crowsHeld; iexists _; iexact Hc1
    isplitl [Hc0]; · unfold crowsHeld; iexists _; iexact Hc0
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    isplitl [Ho7]; · iexact Ho7
    isplitl [Ho8]; · iexact Ho8
    isplitl [Ho9]; · iexact Ho9
    isplitl [Ho10]; · iexact Ho10
    isplitl [Ho11]; · iexact Ho11
    isplitl [Ho12]; · iexact Ho12
    isplitl [Ho13]; · iexact Ho13
    isplitl [Ho14]; · iexact Ho14
    isplitl [Ho15]; · iexact Ho15
    isplitl [Hg0]; · iexact Hg0
    isplitl [Hg1]; · iexact Hg1
    isplitl [Hw0]; · iexact Hw0
    isplitl [Hw1]; · iexact Hw1
    isplitl [Hp]; · iexact Hp
    iexact HO
  · iintro %a ⟨Ht, Hi, H5, H6, ⟨%c2, Hc2⟩, ⟨%c3, Hc3⟩, Ho0, Ho1, Ho2, Ho3, Ho4, Ho5, Ho6, Ho7, Ho8, Ho9, Ho10, Ho11, Ho12, Ho13, Ho14, Ho15, Hg0, Hg1, Hw0, Hw1, Hp, HO⟩
    ihave H7 := (crows_join (F := F) d L c2 c3) $$ [Hc2 Hc3]
    · isplitl [Hc2]; · iexact Hc2
      iexact Hc3
    isplitl [Ht Hi Ho0 Ho1 Ho2 Ho3 Ho4 Ho5 Ho6 Ho7 Ho8 Ho9 Ho10 Ho11 Ho12 Ho13 Ho14 Ho15]
    · isplitl [Ht]; · iexact Ht
      isplitl [Hi]; · iexact Hi
      isplitl [Ho0]; · iexact Ho0
      isplitl [Ho1]; · iexact Ho1
      isplitl [Ho2]; · iexact Ho2
      isplitl [Ho3]; · iexact Ho3
      isplitl [Ho4]; · iexact Ho4
      isplitl [Ho5]; · iexact Ho5
      isplitl [Ho6]; · iexact Ho6
      isplitl [Ho7]; · iexact Ho7
      isplitl [Ho8]; · iexact Ho8
      isplitl [Ho9]; · iexact Ho9
      isplitl [Ho10]; · iexact Ho10
      isplitl [Ho11]; · iexact Ho11
      isplitl [Ho12]; · iexact Ho12
      isplitl [Ho13]; · iexact Ho13
      isplitl [Ho14]; · iexact Ho14
      iexact Ho15
    isplitl [H5 H6 H7 Hbufs]
    · isplitl [H5]; · iexact H5
      isplitl [H6]; · iexact H6
      isplitl [H7]; · iexact H7
      iexact Hbufs
    isplitl [Hg0 Hg1 Hw0 Hw1 Hp Hsems]
    · isplitl [Hg0]; · iexact Hg0
      isplitl [Hg1]; · iexact Hg1
      isplitl [Hw0]; · iexact Hw0
      isplitl [Hw1]; · iexact Hw1
      isplitl [Hp]; · iexact Hp
      iexact Hsems
    iexact HO

end Tile

/-! ## The launch theorem's obligation for the fourth call -/

omit [FloatOps F] in
theorem defs₀_vector3 [FloatOps F] (c : Fin τ.nSC) (s : Fin τ.nSub) :
    defs₀ (F := F) (.scVector c s) 3 ()
      = SparseCore.onTile hcore3 hsub3 (fun c s => cc3_gather_kernel (coords3 c s) tblW (Memref.isWhole_whole _) idxW (Memref.isWhole_whole _)
          outW (Memref.isWhole_whole _) s0W (Memref.isWhole_whole _) s1W (Memref.isWhole_whole _) s2W (Memref.isWhole_whole _)
          cc3_scratch3 cc3_scratch4 cc3_scoped0) ⟨⟩ c s := rfl

omit [FloatOps F] in
theorem obl_post {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The fourth call's task obligation, for any family of subcore resources whose member for this call is `Rs3` at token
    words that all name table rows. -/
theorem tileObl3 (hF : (K (F := F)).Facts) (tb : (d : Dev nD) → Buf (Elt F) (tblLoc d)) (Rs : Fin 4 → Dev nD → Fin 2 → Fin 16 → sProp 𝕄)
    (wd : (d : Dev nD) → Buf (Elt F) (idxLoc3 d)) (hwd : ∀ d y, (wd d y).toNat < 1000)
    (hRs : ∀ d c i, Rs 3 d c i = Rs3 wd d c i)
    (lv : GSem nD τ sig → HIx 4 → ℕ) (hlv : (K (F := F)).Refines lv) :
    (K (F := F)).TileObl (D (F := F)) 𝒱 (P tb Rs) v₀ 3 lv := by
  intro d c i O W hO _ _
  simp only [show (P (F := F) tb Rs).ox = fun _ _ => 0 from rfl, add_zero]
  change iprop(levAts _ lv ∗ emp ∗ ((tblLoc d ↦{tileShare (Fin.cast (nCore_eq 3) c) (Fin.cast (nSub_eq 3) i)} tb d)
        ∗ Rs 3 d (Fin.cast (nCore_eq 3) c) (Fin.cast (nSub_eq 3) i)) ∗ _ ∗ _ ∗ _)
    ⊢ wp _ _ _ (Pipeline.liftProg (defs₀ (F := F) (.scVector ((K (F := F)).core 3 c) ((K (F := F)).sub 3 i)) 3 ()))
        (fun _ => iprop(((tblLoc d ↦{tileShare (Fin.cast (nCore_eq 3) c) (Fin.cast (nSub_eq 3) i)} tb d)
          ∗ Rs 3 d (Fin.cast (nCore_eq 3) c) (Fin.cast (nSub_eq 3) i)) ∗ _ ∗ _ ∗ _))
  rw [hRs]
  refine BI.Entails.trans ?_ (Pipeline.wp_liftProg (D (F := F)) (Pipeline.defs_kernel pcfgs defs₀) 𝒱₀ _ Set.univ none _ _)
  have hc : ((K (F := F)).core 3 c).val < grid3.bound 0 ∧ ((K (F := F)).sub 3 i).val < grid3.bound 1 := ⟨c.isLt, i.isLt⟩
  rw [defs₀_vector3]; simp only [SparseCore.onTile, hc, and_self, ↓reduceDIte]
  unfold Rs3
  exact (tile_body3 (F := F) d (coords3 ⟨_, hc.1⟩ ⟨_, hc.2⟩) hF tb wd hwd _ lv hlv O W hO).trans (wp_mono frame _ _ fun _ => obl_post)

end Cert.KernelIdeal.Hand.C3

end
-- ==== Proof.KernelIdeal.TileOblAll.lean ====
/-
  The four gather calls' task obligations together. Each call hands a vector subcore its own slice of that call's
  token words and its own blocks of that call's result; the family of those resources over the four calls is a literal
  choice by call, and the launch theorem's obligation for every call follows from the call's own.
-/
import proofs.«203661_g84404697301628_cont_9to1_m_135_26_alg».proof.Proof.KernelIdeal.TileObl0
import proofs.«203661_g84404697301628_cont_9to1_m_135_26_alg».proof.Proof.KernelIdeal.TileObl1
import proofs.«203661_g84404697301628_cont_9to1_m_135_26_alg».proof.Proof.KernelIdeal.TileObl2
import proofs.«203661_g84404697301628_cont_9to1_m_135_26_alg».proof.Proof.KernelIdeal.TileObl3

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [hK : Cert.KernelIdeal.Facts] [FloatOps F]

local notation "𝕄" => MT nD τ sig (HIx 4) (Elt F) ℕ UU ℕ

/-- what a vector subcore is handed besides the table, by call: that call's words and blocks -/
def RsAll (wd0 : (d : Dev nD) → Buf (Elt F) (idxLoc0 d)) (wd1 : (d : Dev nD) → Buf (Elt F) (C1.idxLoc1 d))
    (wd2 : (d : Dev nD) → Buf (Elt F) (C2.idxLoc2 d)) (wd3 : (d : Dev nD) → Buf (Elt F) (C3.idxLoc3 d)) :
    Fin 4 → Dev nD → Fin 2 → Fin 16 → sProp 𝕄
  | 0 => Rs0 wd0
  | 1 => C1.Rs1 wd1
  | 2 => C2.Rs2 wd2
  | 3 => C3.Rs3 wd3

omit [FloatOps F] hK in
/-- a piece of a buffer at given contents, and at some contents, can be stored in a handshake's cell -/
theorem storable_at (ℓ : Loc nD τ sig) (I : Finset ℓ.ty.shape.Idx) (f : Buf (Elt F) ℓ) :
    BI.Storable (upEmb : UEmb _ 𝕄) (ℓ ↦[I]{fullShare} f : sProp 𝕄) := inferInstance
omit [FloatOps F] hK in
theorem storable_some (ℓ : Loc nD τ sig) (I : Finset ℓ.ty.shape.Idx) :
    BI.Storable (upEmb : UEmb _ 𝕄) (iprop(∃ f, ℓ ↦[I]{fullShare} f) : sProp 𝕄) := inferInstance

/-- each call's words and blocks can be stored in a handshake's cell -/
theorem RsAll_storable (wd0 : (d : Dev nD) → Buf (Elt F) (idxLoc0 d)) (wd1 : (d : Dev nD) → Buf (Elt F) (C1.idxLoc1 d))
    (wd2 : (d : Dev nD) → Buf (Elt F) (C2.idxLoc2 d)) (wd3 : (d : Dev nD) → Buf (Elt F) (C3.idxLoc3 d)) :
    ∀ q d c i, BI.Storable (upEmb : UEmb _ 𝕄) (RsAll wd0 wd1 wd2 wd3 q d c i) := by
  intro q d c i
  match q with
  | 0 =>
    show BI.Storable (upEmb : UEmb _ 𝕄) (Rs0 wd0 d c i)
    unfold Rs0
    haveI hpt : BI.Storable (upEmb : UEmb _ 𝕄) ((idxSl (coords0 c i)).view.loc (tile d (coords0 c i))
        ↦[(idxSl (coords0 c i)).view.set]{fullShare} wd0 d) := storable_at _ _ _
    haveI hout : ∀ t, BI.Storable (upEmb : UEmb _ 𝕄) (outHeld (F := F) d (coords0 c i) t) := fun t => by
      unfold outHeld; exact storable_some _ _
    infer_instance
  | 1 =>
    show BI.Storable (upEmb : UEmb _ 𝕄) (C1.Rs1 wd1 d c i)
    unfold C1.Rs1
    haveI hpt : BI.Storable (upEmb : UEmb _ 𝕄) ((C1.idxSl (C1.coords1 c i)).view.loc (C1.tile d (C1.coords1 c i))
        ↦[(C1.idxSl (C1.coords1 c i)).view.set]{fullShare} wd1 d) := storable_at _ _ _
    haveI hout : ∀ t, BI.Storable (upEmb : UEmb _ 𝕄) (C1.outHeld (F := F) d (C1.coords1 c i) t) := fun t => by
      unfold C1.outHeld; exact storable_some _ _
    infer_instance
  | 2 =>
    show BI.Storable (upEmb : UEmb _ 𝕄) (C2.Rs2 wd2 d c i)
    unfold C2.Rs2
    haveI hpt : BI.Storable (upEmb : UEmb _ 𝕄) ((C2.idxSl (C2.coords2 c i)).view.loc (C2.tile d (C2.coords2 c i))
        ↦[(C2.idxSl (C2.coords2 c i)).view.set]{fullShare} wd2 d) := storable_at _ _ _
    haveI hout : ∀ t, BI.Storable (upEmb : UEmb _ 𝕄) (C2.outHeld (F := F) d (C2.coords2 c i) t) := fun t => by
      unfold C2.outHeld; exact storable_some _ _
    infer_instance
  | 3 =>
    show BI.Storable (upEmb : UEmb _ 𝕄) (C3.Rs3 wd3 d c i)
    unfold C3.Rs3
    haveI hpt : BI.Storable (upEmb : UEmb _ 𝕄) ((C3.idxSl (C3.coords3 c i)).view.loc (C3.tile d (C3.coords3 c i))
        ↦[(C3.idxSl (C3.coords3 c i)).view.set]{fullShare} wd3 d) := storable_at _ _ _
    haveI hout : ∀ t, BI.Storable (upEmb : UEmb _ 𝕄) (C3.outHeld (F := F) d (C3.coords3 c i) t) := fun t => by
      unfold C3.outHeld; exact storable_some _ _
    infer_instance

/-- Every call's task obligation, at token words that all name table rows. -/
theorem tileObl_all (hF : (K (F := F)).Facts) (tb : (d : Dev nD) → Buf (Elt F) (tblLoc d))
    (wd0 : (d : Dev nD) → Buf (Elt F) (idxLoc0 d)) (wd1 : (d : Dev nD) → Buf (Elt F) (C1.idxLoc1 d))
    (wd2 : (d : Dev nD) → Buf (Elt F) (C2.idxLoc2 d)) (wd3 : (d : Dev nD) → Buf (Elt F) (C3.idxLoc3 d))
    (hwd0 : ∀ d y, (wd0 d y).toNat < 1000) (hwd1 : ∀ d y, (wd1 d y).toNat < 1000)
    (hwd2 : ∀ d y, (wd2 d y).toNat < 1000) (hwd3 : ∀ d y, (wd3 d y).toNat < 1000)
    (lv : GSem nD τ sig → HIx 4 → ℕ) (hlv : (K (F := F)).Refines lv) :
    ∀ q, (K (F := F)).TileObl (D (F := F)) 𝒱 (P tb (RsAll wd0 wd1 wd2 wd3)) v₀ q lv := by
  intro q
  match q with
  | 0 => exact tileObl0 hF tb (RsAll wd0 wd1 wd2 wd3) wd0 hwd0 (fun _ _ _ => rfl) lv hlv
  | 1 => exact C1.tileObl1 hF tb (RsAll wd0 wd1 wd2 wd3) wd1 hwd1 (fun _ _ _ => rfl) lv hlv
  | 2 => exact C2.tileObl2 hF tb (RsAll wd0 wd1 wd2 wd3) wd2 hwd2 (fun _ _ _ => rfl) lv hlv
  | 3 => exact C3.tileObl3 hF tb (RsAll wd0 wd1 wd2 wd3) wd3 hwd3 (fun _ _ _ => rfl) lv hlv

end Cert.KernelIdeal.Hand

end
-- ==== Proof.KernelIdeal.GatherValue.lean ====
/-
  What an indexed gather of table rows leaves, read at an entry: with 128 offset words `w`, row `r` of the
  destination is row `w r` of the source, column by column.
-/
import proofs.«203661_g84404697301628_cont_9to1_m_135_26_alg».proof.KernelIdeal
import proofs.«203661_g84404697301628_cont_9to1_m_135_26_alg».proof.Proof.Gen.KernelIdeal
import Idealize.ShloMosaic.Lib.SparseCore.Stream
import Idealize.ShloMosaic.Lib.ValueIdx

noncomputable section

namespace Cert.KernelIdeal.Hand

open Cert.KernelIdeal Cert.KernelIdeal.Gen
open Idealize.ShloMosaic Idealize.ShloMosaic.ValueIdx

variable {F : FTy → Type} [hK : Cert.KernelIdeal.Facts]

/-- entry `k` of a rank-1 list, in row-major order, is its entry at position `k` -/
theorem rowMajor_symm_S128 (k : Fin S128.numel) : S128.rowMajor.symm k = ix1 (⟨k.val, k.isLt⟩ : Fin 128) := by
  rw [Equiv.symm_apply_eq]
  apply Fin.ext
  rw [Shape.rowMajor_val_one]

/-- the gathered block at `(r, c)` is the source at `(w r, c)` -/
theorem gatherPayload_at (g : S1000x128.Idx → Elt F .f32) (w : S128.Idx → Elt F .i32)
    (hn : S128.numel = S128x128.size gathers_S1000x128_S128x128.axis')
    (hin : ∀ x, (w x).toNat < S1000x128.size gathers_S1000x128_S128x128.axis) (r : Fin 128) (c : Fin 128) :
    SparseCore.gatherPayload gathers_S1000x128_S128x128 g (SparseCore.rows w hn hin) (ix2 r c)
      = g (ix2 (⟨(w (ix1 r)).toNat, hin _⟩ : Fin 1000) c) := by
  unfold SparseCore.gatherPayload
  congr 1
  funext b
  match b with
  | ⟨0, _⟩ =>
    show gathers_S1000x128_S128x128.idx _ _ gathers_S1000x128_S128x128.axis = _
    rw [Shape.Gathers.idx_axis]
    unfold SparseCore.rows
    apply Fin.ext
    show (w (S128.rowMajor.symm _)).toNat = (w (ix1 r)).toNat
    rw [rowMajor_symm_S128]
    rfl
  | ⟨1, _⟩ =>
    apply Fin.ext
    rw [Shape.Gathers.idx_of_ne gathers_S1000x128_S128x128 _ _ ⟨1, by decide⟩ (by decide)]
    rfl

end Cert.KernelIdeal.Hand

end
-- ==== Proof.KernelIdeal.TileValue0.lean ====
/-
  Values in the first gather call's task: where the entries of a slot sit, and what the gathered-rows scratch holds
  after a gather.
-/
import proofs.«203661_g84404697301628_cont_9to1_m_135_26_alg».proof.Proof.KernelIdeal.GatherValue
import proofs.«203661_g84404697301628_cont_9to1_m_135_26_alg».proof.Proof.Gen.KernelIdeal.Skeleton
import Idealize.ShloMosaic.Lib.Pipeline.Value
import Idealize.ShloMosaic.Lib.Writes

noncomputable section

namespace Cert.KernelIdeal.Hand

open Cert.KernelIdeal Cert.KernelIdeal.Gen
open Idealize.ShloMosaic Idealize.ShloMosaic.ValueIdx

variable {F : FTy → Type} [hK : Cert.KernelIdeal.Facts]

local notation "s1W" => (Memref.whole Cert.KernelIdeal.cc0_scratch1 : Memref Cert.KernelIdeal.sig Kind.scVector Space.vmem Cert.KernelIdeal.S2x128x128 EltTy.f32)

/-- trip `t`'s half of the gathered-rows scratch -/
abbrev rowsAt (t : Fin k0_t1_loop.trips) : Memref sig .scVector .vmem S128x128 .f32 :=
  ((s1W).slice (Rect.unit (s := S2x128x128) (k0_off5 t) S1x128x128.size (k0_off5_inb t)) (fun _ => rfl)).squeeze S128x128 squeezes_S1x128x128_S128x128

/-- dropping the unit axis: entry `(r, c)` of a [128,128] block is entry `(0, r, c)` of the [1,128,128] one -/
theorem squeeze_idx (h : S128x128.numel = S1x128x128.numel) (r c : Fin 128) :
    Shape.reshapeEquiv h (ix2 r c) = (ix3 (0 : Fin 1) r c : S1x128x128.Idx) := by
  refine Shape.reshapeEquiv_eq_of_rowMajor h ?_
  rw [Shape.rowMajor_val_three, Shape.rowMajor_val_two]
  show ((0 : Fin 1).val * 128 + r.val) * 128 + c.val = r.val * 128 + c.val
  simp

/-- entry `(r, c)` of trip `t`'s half sits at `(t mod 2, r, c)` of the scratch -/
theorem rowsAt_emb (t : Fin k0_t1_loop.trips) (r c : Fin 128) :
    (rowsAt t).view.emb (ix2 r c) = (ix3 (⟨t.val % 2, Nat.mod_lt _ (by decide)⟩ : Fin 2) r c : S2x128x128.Idx) := by
  show (Rect.unit (s := S2x128x128) (k0_off5 t) S1x128x128.size (k0_off5_inb t)).emb (Shape.reshapeEquiv _ (ix2 r c)) = _
  rw [squeeze_idx]
  funext a
  apply Fin.ext
  match a with
  | ⟨0, _⟩ => show k0_off5 t 0 + 1 * (0 : Fin 1).val = t.val % 2; rw [k0_off5_eq]; rfl
  | ⟨1, _⟩ => show k0_off5 t 1 + 1 * r.val = r.val; rw [k0_off5_eq]; show 0 + 1 * r.val = r.val; omega
  | ⟨2, _⟩ => show k0_off5 t 2 + 1 * c.val = c.val; rw [k0_off5_eq]; show 0 + 1 * c.val = c.val; omega

/-- after a gather into trip `t`'s half, the scratch at `(t mod 2, r, c)` holds the gathered entry `(r, c)` -/
theorem rows_after_gather (t : Fin k0_t1_loop.trips) (r6 : S2x128x128.Idx → Elt F .f32) (p : S128x128.Idx → Elt F .f32) (r c : Fin 128) :
    (rowsAt t).view.write (Elt F) r6 p Finset.univ (ix3 (⟨t.val % 2, Nat.mod_lt _ (by decide)⟩ : Fin 2) r c) = p (ix2 r c) := by
  rw [← rowsAt_emb t r c, View.write_emb_of_mem _ _ (Finset.mem_univ _)]
  rfl

/-- the two reshapes around a 16-lane vector change nothing at an entry -/
theorem pay1_at (v : Vec F S1x1x16 .f32) (e : Fin 16) :
    k0_pay1 v (ix3 (0 : Fin 1) (0 : Fin 1) e) = v (ix3 (0 : Fin 1) (0 : Fin 1) e) := by
  unfold k0_pay1
  show shapeCast S1x1x16 (shapeCast S16 v shapeCasts_S1x1x16_S16) shapeCasts_S16_S1x1x16 (ix3 (0 : Fin 1) (0 : Fin 1) e) = _
  rw [shapeCast_apply _ _ (ix3 (0 : Fin 1) (0 : Fin 1) e) (ix1 e) (by rw [Shape.rowMajor_val_one, Shape.rowMajor_val_three]; simp),
    shapeCast_apply _ _ (ix1 e) (ix3 (0 : Fin 1) (0 : Fin 1) e) (by rw [Shape.rowMajor_val_one, Shape.rowMajor_val_three]; simp)]

theorem pay2_at (v : Vec F S1x1x16 .f32) (e : Fin 16) :
    k0_pay2 v (ix3 (0 : Fin 1) (0 : Fin 1) e) = v (ix3 (0 : Fin 1) (0 : Fin 1) e) := by
  unfold k0_pay2
  show shapeCast S1x1x16 (shapeCast S16 v shapeCasts_S1x1x16_S16) shapeCasts_S16_S1x1x16 (ix3 (0 : Fin 1) (0 : Fin 1) e) = _
  rw [shapeCast_apply _ _ (ix3 (0 : Fin 1) (0 : Fin 1) e) (ix1 e) (by rw [Shape.rowMajor_val_one, Shape.rowMajor_val_three]; simp),
    shapeCast_apply _ _ (ix1 e) (ix3 (0 : Fin 1) (0 : Fin 1) e) (by rw [Shape.rowMajor_val_one, Shape.rowMajor_val_three]; simp)]

/-- the first 16-lane load of row `j` reads the scratch at `(t mod 2, j, e)` -/
theorem load_lo_at (R6 : S2x128x128.Idx → Elt F .f32) (t : Fin k0_t1_loop.trips) (j : Fin k0_t2_loop.trips) (e : Fin 16) :
    (s1W).view.readAt (Elt F) (Rect.unit (s := S2x128x128) (k0_off8 t j) S1x1x16.size (k0_off8_inb t j)).toLoadRect R6 (ix3 (0 : Fin 1) (0 : Fin 1) e)
      = R6 (ix3 (⟨t.val % 2, Nat.mod_lt _ (by decide)⟩ : Fin 2) (⟨j.val, Nat.lt_of_lt_of_le j.isLt k0_t2_abs.2.1⟩ : Fin 128) (⟨e.val, by omega⟩ : Fin 128)) := by
  rw [View.readAt_apply]
  show R6 _ = R6 _
  congr 1
  funext a
  apply Fin.ext
  match a with
  | ⟨0, _⟩ => show k0_off8 t j 0 + 1 * (0 : Fin 1).val = t.val % 2; rw [k0_off8_eq]; rfl
  | ⟨1, _⟩ => show k0_off8 t j 1 + 1 * (0 : Fin 1).val = j.val; rw [k0_off8_eq]; show j.val + 1 * 0 = j.val; omega
  | ⟨2, _⟩ => show k0_off8 t j 2 + 1 * e.val = e.val; rw [k0_off8_eq]; show 0 + 1 * e.val = e.val; omega

/-- the second reads it at `(t mod 2, j, 16 + e)` -/
theorem load_hi_at (R6 : S2x128x128.Idx → Elt F .f32) (t : Fin k0_t1_loop.trips) (j : Fin k0_t2_loop.trips) (e : Fin 16) :
    (s1W).view.readAt (Elt F) (Rect.unit (s := S2x128x128) (k0_off10 t j) S1x1x16.size (k0_off10_inb t j)).toLoadRect R6 (ix3 (0 : Fin 1) (0 : Fin 1) e)
      = R6 (ix3 (⟨t.val % 2, Nat.mod_lt _ (by decide)⟩ : Fin 2) (⟨j.val, Nat.lt_of_lt_of_le j.isLt k0_t2_abs.2.1⟩ : Fin 128) (⟨16 + e.val, by omega⟩ : Fin 128)) := by
  rw [View.readAt_apply]
  show R6 _ = R6 _
  congr 1
  funext a
  apply Fin.ext
  match a with
  | ⟨0, _⟩ => show k0_off10 t j 0 + 1 * (0 : Fin 1).val = t.val % 2; rw [k0_off10_eq]; rfl
  | ⟨1, _⟩ => show k0_off10 t j 1 + 1 * (0 : Fin 1).val = j.val; rw [k0_off10_eq]; show j.val + 1 * 0 = j.val; omega
  | ⟨2, _⟩ => show k0_off10 t j 2 + 1 * e.val = 16 + e.val; rw [k0_off10_eq]; show 16 + 1 * e.val = 16 + e.val; omega

local notation "s2W" => (Memref.whole Cert.KernelIdeal.cc0_scratch2 : Memref Cert.KernelIdeal.sig Kind.scVector Space.vmem Cert.KernelIdeal.S2x128x32 EltTy.f32)

/-- the slot trip `t` uses -/
abbrev slotOf (t : Fin k0_t1_loop.trips) : Fin 2 := ⟨t.val % 2, Nat.mod_lt _ (by decide)⟩

/-- rows below `j` of trip `t`'s half of the compact rows hold the first 32 columns of the gathered rows -/
def Compacted (t : Fin k0_t1_loop.trips) (R6 : S2x128x128.Idx → Elt F .f32) (f : S2x128x32.Idx → Elt F .f32) (j : Nat) : Prop :=
  ∀ (r : Fin 128) (e : Fin 32), r.val < j → f (ix3 (slotOf t) r e) = R6 (ix3 (slotOf t) r (⟨e.val, by omega⟩ : Fin 128))

theorem compacted_zero (t : Fin k0_t1_loop.trips) (R6 : S2x128x128.Idx → Elt F .f32) (f : S2x128x32.Idx → Elt F .f32) : Compacted t R6 f 0 :=
  fun _ _ h => absurd h (Nat.not_lt_zero _)

/-- one trip of the compaction loop: row `j`'s two 16-lane stores extend the agreement to rows below `j + 1` -/
theorem compacted_step (t : Fin k0_t1_loop.trips) (j : Fin k0_t2_loop.trips) (R6 : S2x128x128.Idx → Elt F .f32) (f : S2x128x32.Idx → Elt F .f32)
    (h : Compacted t R6 f j.val) (p1 p2 : S1x1x16.Idx → Elt F .f32)
    (hp1 : ∀ e : Fin 16, p1 (ix3 (0 : Fin 1) (0 : Fin 1) e)
      = R6 (ix3 (slotOf t) (⟨j.val, Nat.lt_of_lt_of_le j.isLt k0_t2_abs.2.1⟩ : Fin 128) (⟨e.val, by omega⟩ : Fin 128)))
    (hp2 : ∀ e : Fin 16, p2 (ix3 (0 : Fin 1) (0 : Fin 1) e)
      = R6 (ix3 (slotOf t) (⟨j.val, Nat.lt_of_lt_of_le j.isLt k0_t2_abs.2.1⟩ : Fin 128) (⟨16 + e.val, by omega⟩ : Fin 128))) :
    Compacted t R6 ((s2W).view.writes (Elt F) f
      [⟨Rect.unit (s := S2x128x32) (k0_off11 t j) S1x1x16.size (k0_off11_inb t j), p2⟩,
       ⟨Rect.unit (s := S2x128x32) (k0_off9 t j) S1x1x16.size (k0_off9_inb t j), p1⟩]) (j.val + 1) := by
  intro r e hr
  have hj128 : j.val < 128 := Nat.lt_of_lt_of_le j.isLt k0_t2_abs.2.1
  have o9 : k0_off9 t j = ![t.val % 2, j.val, 0] := k0_off9_eq t j
  have o11 : k0_off11 t j = ![t.val % 2, j.val, 16] := k0_off11_eq t j
  have hrd : ∀ (g : S2x128x32.Idx → Elt F .f32) (y : S2x128x32.Idx), g y = (s2W).view.read (Elt F) g y := fun _ _ => rfl
  refine (hrd _ _).trans ?_
  by_cases hrj : r.val = j.val
  · by_cases he : 16 ≤ e.val
    · -- in the second store's box
      have hy : (ix3 (slotOf t) r e : S2x128x32.Idx)
          = (Rect.unit (s := S2x128x32) (k0_off11 t j) S1x1x16.size (k0_off11_inb t j)).emb (ix3 (0 : Fin 1) (0 : Fin 1) (⟨e.val - 16, by have := e.isLt; omega⟩ : Fin 16)) := by
        funext a; apply Fin.ext
        match a with
        | ⟨0, _⟩ => show t.val % 2 = k0_off11 t j 0 + 1 * (0 : Fin 1).val; rw [o11]; rfl
        | ⟨1, _⟩ => show r.val = k0_off11 t j 1 + 1 * (0 : Fin 1).val; rw [o11]; show r.val = j.val + 1 * 0; omega
        | ⟨2, _⟩ => show e.val = k0_off11 t j 2 + 1 * (e.val - 16); rw [o11]; show e.val = 16 + 1 * (e.val - 16); omega
      rw [hy, View.read_writes_cons_emb, hp2]
      congr 1
      funext a
      match a with
      | ⟨0, _⟩ => rfl
      | ⟨1, _⟩ => exact Fin.ext hrj.symm
      | ⟨2, _⟩ => exact Fin.ext (by show 16 + (e.val - 16) = e.val; omega)
    · -- below lane 16: not in the second store's box, in the first's
      have hnot : (ix3 (slotOf t) r e : S2x128x32.Idx) ∉ (Rect.unit (s := S2x128x32) (k0_off11 t j) S1x1x16.size (k0_off11_inb t j)).set := by
        rw [Rect.mem_set_unit]; intro hm
        have := (hm ⟨2, by decide⟩).1
        rw [o11] at this
        have h16 : 16 ≤ e.val := this
        omega
      have hy : (ix3 (slotOf t) r e : S2x128x32.Idx)
          = (Rect.unit (s := S2x128x32) (k0_off9 t j) S1x1x16.size (k0_off9_inb t j)).emb (ix3 (0 : Fin 1) (0 : Fin 1) (⟨e.val, by omega⟩ : Fin 16)) := by
        funext a; apply Fin.ext
        match a with
        | ⟨0, _⟩ => show t.val % 2 = k0_off9 t j 0 + 1 * (0 : Fin 1).val; rw [o9]; rfl
        | ⟨1, _⟩ => show r.val = k0_off9 t j 1 + 1 * (0 : Fin 1).val; rw [o9]; show r.val = j.val + 1 * 0; omega
        | ⟨2, _⟩ => show e.val = k0_off9 t j 2 + 1 * e.val; rw [o9]; show e.val = 0 + 1 * e.val; omega
      rw [View.writes_cons, View.read_slice_write_of_not_mem _ _ _ _ (by rw [Rect.map_emb_univ]; exact hnot), hy, View.read_writes_cons_emb, hp1]
      congr 1
      funext a
      match a with
      | ⟨0, _⟩ => rfl
      | ⟨1, _⟩ => exact Fin.ext hrj.symm
      | ⟨2, _⟩ => rfl
  · -- an earlier row: neither store touches it
    have hlt : r.val < j.val := by omega
    rw [View.read_writes_apply_of_forall_not_mem]
    · exact h r e hlt
    · intro p hp
      rw [List.mem_cons, List.mem_singleton] at hp
      rcases hp with rfl | rfl
      · rw [Rect.mem_set_unit]; intro hm
        have := (hm ⟨1, by decide⟩)
        rw [o11] at this
        have h1 : j.val ≤ r.val := this.1
        omega
      · rw [Rect.mem_set_unit]; intro hm
        have := (hm ⟨1, by decide⟩)
        rw [o9] at this
        have h1 : j.val ≤ r.val := this.1
        omega

end Cert.KernelIdeal.Hand

end
-- ==== Proof.KernelIdeal.BlockValue0.lean ====
/-
  What a block of the first call's result holds when it lands: from the compaction loop's agreement on all 128 rows,
  the gathered scratch's contents after the gather, and the gather's payload, row `r` of trip `t`'s block is the first
  32 columns of the table row that word `128·t + r` of the subcore's slice names.
-/
import proofs.«203661_g84404697301628_cont_9to1_m_135_26_alg».proof.Proof.KernelIdeal.TileRun0
import proofs.«203661_g84404697301628_cont_9to1_m_135_26_alg».proof.Proof.KernelIdeal.TileValue0
import proofs.«203661_g84404697301628_cont_9to1_m_135_26_alg».proof.Proof.Spec

noncomputable section

namespace Cert.KernelIdeal.Hand

open Cert.KernelIdeal Cert.KernelIdeal.Gen
open Idealize.ShloMosaic Idealize.ShloMosaic.ValueIdx
open Idealize.ShloMosaic.SparseCore (S V T)

variable {F : FTy → Type} [hK : Cert.KernelIdeal.Facts] [FloatOps F]

local notation "tblW" => (Memref.whole Cert.KernelIdeal.main_v0_scv : Memref Cert.KernelIdeal.sig Kind.scVector Space.hbm Cert.KernelIdeal.S1000x128 EltTy.f32)
local notation "s0W" => (Memref.whole Cert.KernelIdeal.cc0_scratch0 : Memref Cert.KernelIdeal.sig Kind.scVector Space.vmem Cert.KernelIdeal.S512 EltTy.i32)
local notation "s2W" => (Memref.whole Cert.KernelIdeal.cc0_scratch2 : Memref Cert.KernelIdeal.sig Kind.scVector Space.vmem Cert.KernelIdeal.S2x128x32 EltTy.f32)

/-- entry `(r, e)` of a [128,32] block is entry `(0, r, e)` of the [1,128,32] one -/
theorem squeeze_idx32 (h : S128x32.numel = S1x128x32.numel) (r : Fin 128) (e : Fin 32) :
    Shape.reshapeEquiv h (ix2 r e) = (ix3 (0 : Fin 1) r e : S1x128x32.Idx) := by
  refine Shape.reshapeEquiv_eq_of_rowMajor h ?_
  rw [Shape.rowMajor_val_three, Shape.rowMajor_val_two]
  show ((0 : Fin 1).val * 128 + r.val) * 32 + e.val = r.val * 32 + e.val
  simp

/-- entry `(r, e)` of trip `t`'s half of the compact rows sits at `(t mod 2, r, e)` of the scratch -/
theorem crowsAt_emb (t : Fin k0_t1_loop.trips) (r : Fin 128) (e : Fin 32) :
    (crowsAt t).view.emb (ix2 r e) = (ix3 (slotOf t) r e : S2x128x32.Idx) := by
  show (Rect.unit (s := S2x128x32) (k0_off12 t) S1x128x32.size (k0_off12_inb t)).emb (Shape.reshapeEquiv _ (ix2 r e)) = _
  rw [squeeze_idx32]
  funext a
  apply Fin.ext
  match a with
  | ⟨0, _⟩ => show k0_off12 t 0 + 1 * (0 : Fin 1).val = t.val % 2; rw [k0_off12_eq]; rfl
  | ⟨1, _⟩ => show k0_off12 t 1 + 1 * r.val = r.val; rw [k0_off12_eq]; show 0 + 1 * r.val = r.val; omega
  | ⟨2, _⟩ => show k0_off12 t 2 + 1 * e.val = e.val; rw [k0_off12_eq]; show 0 + 1 * e.val = e.val; omega

/-- the whole rectangle's positions are the positions -/
theorem whole_emb (x : S128x32.Idx) : (Rect.whole S128x32).emb x = x := by
  funext a; apply Fin.ext
  show 0 + 1 * (x a).val = (x a).val; omega

/-- the table read through its whole-extent slice is the table -/
theorem tbl_read (ft : S1000x128.Idx → Elt F .f32) (h : ∀ a, (![0, 0] : Fin 2 → Nat) a + S1000x128.size a ≤ S1000x128.size a) (x : S1000x128.Idx) :
    ((tblW).slice (Rect.unit (s := S1000x128) ![0, 0] S1000x128.size h) (fun _ => rfl)).view.read (Elt F) ft x = ft x := by
  show ft _ = ft x
  congr 1
  funext a; apply Fin.ext
  match a with
  | ⟨0, _⟩ => show 0 + 1 * (x 0).val = (x 0).val; omega
  | ⟨1, _⟩ => show 0 + 1 * (x 1).val = (x 1).val; omega

/-- the word by which trip `t` gathers its row `r` -/
def wordAt (g5 : S512.Idx → Elt F .i32) (t : Fin k0_t1_loop.trips) (r : Fin 128) : BitVec 32 := (offsAt t).view.read (Elt F) g5 (ix1 r)

/-- a block of the result holds, row by row, the first 32 columns of the table rows its words name -/
def BlkOK (d : Dev nD) (L : grid0.Coords) (ft : S1000x128.Idx → Elt F .f32) (g5 : S512.Idx → Elt F .i32) (t : Fin k0_t1_loop.trips)
    (fo : Buf (Elt F) ((outAt L t).view.loc (tile d L))) : Prop :=
  ∀ (r : Fin 128) (e : Fin 32), (outAt L t).view.read (Elt F) fo (ix2 r e)
    = ft (ix2 (Cert.Spec.row (wordAt (F := F) g5 t r)) (⟨e.val, by omega⟩ : Fin 128))

/-- THE BLOCK THAT LANDS: the compaction's agreement on all 128 rows, over the scratch as the gather left it, makes
    the copied-out block the table rows named by the words. -/
theorem blk_of_compacted (d : Dev nD) (L : grid0.Coords) (ft : S1000x128.Idx → Elt F .f32) (g5 : S512.Idx → Elt F .i32) (t : Fin k0_t1_loop.trips)
    (htb : ∀ a, (![0, 0] : Fin 2 → Nat) a + S1000x128.size a ≤ S1000x128.size a)
    (hn : S128.numel = S128x128.size gathers_S1000x128_S128x128.axis')
    (hin : ∀ x, ((offsAt t).view.read (Elt F) g5 x).toNat < S1000x128.size gathers_S1000x128_S128x128.axis)
    (r6 : S2x128x128.Idx → Elt F .f32) (f : S2x128x32.Idx → Elt F .f32) (o0 : Buf (Elt F) ((outAt L t).view.loc (tile d L)))
    (hC : Compacted t ((rowsAt t).view.write (Elt F) r6
      (SparseCore.gatherPayload gathers_S1000x128_S128x128
        (((tblW).slice (Rect.unit (s := S1000x128) ![0, 0] S1000x128.size htb) (fun _ => rfl)).view.read (Elt F) ft)
        (SparseCore.rows ((offsAt t).view.read (Elt F) g5) hn hin)) Finset.univ) f 128) :
    BlkOK d L ft g5 t ((outAt L t).view.writes (Elt F) o0
      [⟨Rect.whole S128x32, ReadAs.same.apply ((crowsAt t).view.read (Elt F) f)⟩]) := by
  intro r e
  have hw := View.read_writes_cons_emb (outAt L t).view o0 (Rect.whole S128x32)
    (ReadAs.same.apply ((crowsAt t).view.read (Elt F) f)) [] (ix2 r e)
  rw [whole_emb] at hw
  rw [hw]
  show (crowsAt t).view.read (Elt F) f (ix2 r e) = _
  have hrd : (crowsAt t).view.read (Elt F) f (ix2 r e) = f ((crowsAt t).view.emb (ix2 r e)) := rfl
  rw [hrd, crowsAt_emb, hC r e r.isLt, rows_after_gather, gatherPayload_at, tbl_read]
  have hx := hin (ix1 r)
  have hlt : ((offsAt t).view.read (Elt F) g5 (ix1 r)).toNat < 1000 := hx
  congr 1
  funext a
  match a with
  | ⟨0, _⟩ =>
    apply Fin.ext
    show ((offsAt t).view.read (Elt F) g5 (ix1 r)).toNat = (Cert.Spec.row (wordAt (F := F) g5 t r)).val
    unfold wordAt
    exact (Cert.Spec.row_val_of_le (by show ((offsAt t).view.read (Elt F) g5 (ix1 r)).toNat ≤ 999; omega)).symm
  | ⟨1, _⟩ => rfl

end Cert.KernelIdeal.Hand

end
-- ==== Proof.KernelIdeal.TileRunV0.lean ====
/-
  The first gather call's task with contents tracked: the same run as TileRun0.lean, but a write-back in flight now
  carries what its block will hold — the first 32 columns of the table rows named by the trip's 128 words — and a
  landed block is held with that fact. The compaction loop runs under `Compacted`: rows below `j` of the half agree
  with the gathered rows; at its end `blk_of_compacted` turns the agreement into the block's contents.
-/
import proofs.«203661_g84404697301628_cont_9to1_m_135_26_alg».proof.Proof.KernelIdeal.BlockValue0

noncomputable section

namespace Cert.KernelIdeal.Hand

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [hK : Cert.KernelIdeal.Facts] [FloatOps F]

local notation "𝕄" => MT nD τ sig (HIx 4) (Elt F) ℕ UU ℕ

local notation "tblW" => (Memref.whole Cert.KernelIdeal.main_v0_scv : Memref Cert.KernelIdeal.sig Kind.scVector Space.hbm Cert.KernelIdeal.S1000x128 EltTy.f32)
local notation "idxW" => (Memref.whole Cert.KernelIdeal.main_v5_scv : Memref Cert.KernelIdeal.sig Kind.scVector Space.hbm Cert.KernelIdeal.S16384 EltTy.i32)
local notation "outW" => (Memref.whole Cert.KernelIdeal.main_v6_scv : Memref Cert.KernelIdeal.sig Kind.scVector Space.hbm Cert.KernelIdeal.S1x16384x32 EltTy.f32)
local notation "s0W" => (Memref.whole Cert.KernelIdeal.cc0_scratch0 : Memref Cert.KernelIdeal.sig Kind.scVector Space.vmem Cert.KernelIdeal.S512 EltTy.i32)
local notation "s1W" => (Memref.whole Cert.KernelIdeal.cc0_scratch1 : Memref Cert.KernelIdeal.sig Kind.scVector Space.vmem Cert.KernelIdeal.S2x128x128 EltTy.f32)
local notation "s2W" => (Memref.whole Cert.KernelIdeal.cc0_scratch2 : Memref Cert.KernelIdeal.sig Kind.scVector Space.vmem Cert.KernelIdeal.S2x128x32 EltTy.f32)
local notation "gS0" => (⟨0, by decide⟩ : DmaSem Cert.KernelIdeal.sig)
local notation "gS1" => (⟨1, by decide⟩ : DmaSem Cert.KernelIdeal.sig)
local notation "wS0" => (⟨2, by decide⟩ : DmaSem Cert.KernelIdeal.sig)
local notation "wS1" => (⟨3, by decide⟩ : DmaSem Cert.KernelIdeal.sig)
local notation "pS" => (⟨4, by decide⟩ : DmaSem Cert.KernelIdeal.sig)

/-- a block of the result in hand, holding the table rows its words name -/
def outHeldV (d : Dev nD) (L : grid0.Coords) (ft : S1000x128.Idx → Elt F .f32) (g5 : S512.Idx → Elt F .i32) (t : Fin k0_t1_loop.trips) : sProp 𝕄 :=
  iprop(∃ fo, ((outAt L t).view.loc (tile d L) ↦[(outAt L t).view.set]{fullShare} fo) ∗ ⌜BlkOK (F := F) d L ft g5 t fo⌝)

/-- slot `w` busy with trip `t`'s write-back, whose block will hold the table rows its words name -/
def slotBusyV (d : Dev nD) (L : grid0.Coords) (ft : S1000x128.Idx → Elt F .f32) (g5 : S512.Idx → Elt F .i32) (w : DmaSem sig) (t : Fin k0_t1_loop.trips) : sProp 𝕄 :=
  iprop(∃ fo f, (Transfers.Flight (countersEmb (U := UU)) (tile d L) (SemLoc.dma w) (default : HIx 4) 131072
    iprop(((outAt L t).view.loc (tile d L) ↦[(outAt L t).view.set]{fullShare} fo)
      ∗ ((s2W).view.loc (tile d L) ↦[(crowsAt t).view.set]{fullShare} f))) ∗ ⌜BlkOK (F := F) d L ft g5 t fo⌝)

/-- what every trip keeps, the fetched list now at its known contents `g5` -/
def commonV (d : Dev nD) (L : grid0.Coords) (O : CellTallies nD τ sig (HIx 4)) (W : Waits sig (HIx 4)) (q : PosShare TreeShare)
    (ft : Buf (Elt F) ((tblW).view.loc (tile d L))) (g5 : Buf (Elt F) ((s0W).view.loc (tile d L))) : sProp 𝕄 :=
  iprop(Transfers.MayWaits (tile d L) (none : HIx 4) O
    ∗ ((tblW).view.loc (tile d L) ↦{q} ft)
    ∗ ((s0W).view.loc (tile d L) ↦{fullShare} g5)
    ∗ (∃ r, (s1W).view.loc (tile d L) ↦{fullShare} r)
    ∗ semVal (tile d L, SemLoc.dma gS0) 0 ∗ semVal (tile d L, SemLoc.dma gS1) 0
    ∗ ∃ W', ⌜∀ p ∈ W', p ∈ W ∨ p.2 = none⌝ ∗ owes (tile d L) O W')

def invV0 (d : Dev nD) (L : grid0.Coords) (O : CellTallies nD τ sig (HIx 4)) (W : Waits sig (HIx 4)) (q : PosShare TreeShare)
    (ft : Buf (Elt F) ((tblW).view.loc (tile d L))) (g5 : Buf (Elt F) ((s0W).view.loc (tile d L))) : sProp 𝕄 :=
  iprop(commonV d L O W q ft g5 ∗ slotFree d L wS0 t1 ∗ slotFree d L wS1 t0 ∗ outHeld d L t0 ∗ outHeld d L t1 ∗ outHeld d L t2 ∗ outHeld d L t3)
def invV1 (d : Dev nD) (L : grid0.Coords) (O : CellTallies nD τ sig (HIx 4)) (W : Waits sig (HIx 4)) (q : PosShare TreeShare)
    (ft : Buf (Elt F) ((tblW).view.loc (tile d L))) (g5 : Buf (Elt F) ((s0W).view.loc (tile d L))) : sProp 𝕄 :=
  iprop(commonV d L O W q ft g5 ∗ slotBusyV d L ft g5 wS0 t0 ∗ slotFree d L wS1 t0 ∗ outHeld d L t1 ∗ outHeld d L t2 ∗ outHeld d L t3)
def invV2 (d : Dev nD) (L : grid0.Coords) (O : CellTallies nD τ sig (HIx 4)) (W : Waits sig (HIx 4)) (q : PosShare TreeShare)
    (ft : Buf (Elt F) ((tblW).view.loc (tile d L))) (g5 : Buf (Elt F) ((s0W).view.loc (tile d L))) : sProp 𝕄 :=
  iprop(commonV d L O W q ft g5 ∗ slotBusyV d L ft g5 wS0 t0 ∗ slotBusyV d L ft g5 wS1 t1 ∗ outHeld d L t2 ∗ outHeld d L t3)
def invV3 (d : Dev nD) (L : grid0.Coords) (O : CellTallies nD τ sig (HIx 4)) (W : Waits sig (HIx 4)) (q : PosShare TreeShare)
    (ft : Buf (Elt F) ((tblW).view.loc (tile d L))) (g5 : Buf (Elt F) ((s0W).view.loc (tile d L))) : sProp 𝕄 :=
  iprop(commonV d L O W q ft g5 ∗ slotBusyV d L ft g5 wS0 t2 ∗ slotBusyV d L ft g5 wS1 t1 ∗ outHeldV d L ft g5 t0 ∗ outHeld d L t3)
def invV4 (d : Dev nD) (L : grid0.Coords) (O : CellTallies nD τ sig (HIx 4)) (W : Waits sig (HIx 4)) (q : PosShare TreeShare)
    (ft : Buf (Elt F) ((tblW).view.loc (tile d L))) (g5 : Buf (Elt F) ((s0W).view.loc (tile d L))) : sProp 𝕄 :=
  iprop(commonV d L O W q ft g5 ∗ slotBusyV d L ft g5 wS0 t2 ∗ slotBusyV d L ft g5 wS1 t3 ∗ outHeldV d L ft g5 t0 ∗ outHeldV d L ft g5 t1)
/-- the outer loop's invariant before trip `k`, with contents -/
def invOV (d : Dev nD) (L : grid0.Coords) (O : CellTallies nD τ sig (HIx 4)) (W : Waits sig (HIx 4)) (q : PosShare TreeShare)
    (ft : Buf (Elt F) ((tblW).view.loc (tile d L))) (g5 : Buf (Elt F) ((s0W).view.loc (tile d L))) (k : Nat) (_ : PUnit) : sProp 𝕄 :=
  match k with
  | 0 => invV0 d L O W q ft g5
  | 1 => invV1 d L O W q ft g5
  | 2 => invV2 d L O W q ft g5
  | 3 => invV3 d L O W q ft g5
  | _ => invV4 d L O W q ft g5

/-- the compaction loop's invariant with contents: the gathered rows fixed at `R6`; rows below `j` of trip `t`'s
    half of the compact rows (held as all but trip `o`'s half) agree with them -/
def invCV (d : Dev nD) (L : grid0.Coords) (t o : Fin k0_t1_loop.trips) (R6 : Buf (Elt F) ((s1W).view.loc (tile d L))) (j : Nat) (_ : PUnit) : sProp 𝕄 :=
  iprop(((s1W).view.loc (tile d L) ↦{fullShare} R6)
    ∗ ∃ f, ((s2W).view.loc (tile d L) ↦[Finset.univ \ (crowsAt o).view.set]{fullShare} f) ∗ ⌜Compacted (F := F) t R6 f j⌝)

/-- the fetched list: the subcore's slice of the token words, as the index scratch holds it -/
abbrev fetched (d : Dev nD) (L : grid0.Coords) (fi : Buf (Elt F) ((idxSl L).view.loc (tile d L))) : Buf (Elt F) ((s0W).view.loc (tile d L)) :=
  (idxSl L).view.read (Elt F) fi

variable (d : Dev nD) (L : grid0.Coords)

set_option maxHeartbeats 1600000 in
/-- The first call's task, contents tracked: what is handed back is each block at the table rows named by the
    subcore's words (`BlkOK`), the words being the subcore's slice of the token list as fetched. -/
theorem tile_run0v (O : CellTallies nD τ sig (HIx 4)) (W : Waits sig (HIx 4)) (q : PosShare TreeShare)
    (ft : Buf (Elt F) ((tblW).view.loc (tile d L))) (fi : Buf (Elt F) ((idxSl L).view.loc (tile d L)))
    (hfi : ∀ y, (fi y).toNat < 1000) :
    iprop(Transfers.MayWaits (tile d L) (none : HIx 4) O
        ∗ ((tblW).view.loc (tile d L) ↦{q} ft)
        ∗ ((idxSl L).view.loc (tile d L) ↦[(idxSl L).view.set]{fullShare} fi)
        ∗ (∃ f5, (s0W).view.loc (tile d L) ↦{fullShare} f5)
        ∗ (∃ r, (s1W).view.loc (tile d L) ↦{fullShare} r)
        ∗ crowsHeld (F := F) d L t1 ∗ crowsHeld (F := F) d L t0
        ∗ outHeld (F := F) d L t0 ∗ outHeld (F := F) d L t1 ∗ outHeld (F := F) d L t2 ∗ outHeld (F := F) d L t3
        ∗ semVal (tile d L, SemLoc.dma gS0) 0 ∗ semVal (tile d L, SemLoc.dma gS1) 0
        ∗ semVal (tile d L, SemLoc.dma wS0) 0 ∗ semVal (tile d L, SemLoc.dma wS1) 0
        ∗ semVal (tile d L, SemLoc.dma pS) 0
        ∗ owes (tile d L) O W)
      ⊢ wp frame (wpE (defs₀ (F := F)) 𝒱₀ (tile d L) none) Set.univ
          (cc0_gather_kernel L tblW (Memref.isWhole_whole _) idxW (Memref.isWhole_whole _) outW (Memref.isWhole_whole _)
            s0W (Memref.isWhole_whole _) s1W (Memref.isWhole_whole _) s2W (Memref.isWhole_whole _) cc0_scratch3 cc0_scratch4 cc0_scoped0)
          (fun _ => iprop(((tblW).view.loc (tile d L) ↦{q} ft)
            ∗ ((idxSl L).view.loc (tile d L) ↦[(idxSl L).view.set]{fullShare} fi)
            ∗ (∃ f5, (s0W).view.loc (tile d L) ↦{fullShare} f5)
            ∗ (∃ r, (s1W).view.loc (tile d L) ↦{fullShare} r)
            ∗ (∃ f, (s2W).view.loc (tile d L) ↦[(crowsAt t2).view.set]{fullShare} f)
            ∗ (∃ f, (s2W).view.loc (tile d L) ↦[(crowsAt t3).view.set]{fullShare} f)
            ∗ outHeldV (F := F) d L ft (fetched d L fi) t0 ∗ outHeldV (F := F) d L ft (fetched d L fi) t1 ∗ outHeldV (F := F) d L ft (fetched d L fi) t2 ∗ outHeldV (F := F) d L ft (fetched d L fi) t3
            ∗ semVal (tile d L, SemLoc.dma gS0) 0 ∗ semVal (tile d L, SemLoc.dma gS1) 0
            ∗ semVal (tile d L, SemLoc.dma wS0) 0 ∗ semVal (tile d L, SemLoc.dma wS1) 0
            ∗ semVal (tile d L, SemLoc.dma pS) 0
            ∗ ∃ W', ⌜∀ p ∈ W', p ∈ W ∨ p.2 = none⌝ ∗ owes (tile d L) O W')) := by
  rw [cc0_gather_kernel_eq_skeleton]; unfold cc0_gather_kernel_skel
  iintro ⟨Hmw, Ht, Hi, ⟨%f5, H5⟩, H6, Hc0, Hc1, Ho0, Ho1, Ho2, Ho3, Hg0, Hg1, Hw0, Hw1, Hp, HO⟩
  sl_exec
  have e5 : View.write (Elt F) (s0W).view f5 (tile_run0v.sl.dma0 d L fi) Finset.univ = (fetched d L fi) := by
    rw [View.write_whole_univ]; rfl
  rw [e5]
  have h5 : InRange (F := F) d L (fetched d L fi) := by
    intro o h x
    rw [size_tbl]
    simp only [View.read_apply]
    exact hfi _
  sl_for (invOV d L O W q ft (fetched d L fi)) $$ [Hmw Ht H5 H6 Hc0 Hc1 Ho0 Ho1 Ho2 Ho3 Hg0 Hg1 Hw0 Hw1 HO]
  case region =>
    intro k u
    obtain ⟨k, hk⟩ := k
    match k, hk with
    | k + 4, hk => exact absurd (Nat.lt_of_lt_of_le hk k0_t1_abs.2.1) (by omega)
    | 0, hk =>
      have k0_h1 : ¬ k0_cond1 t0 = 1#1 := by decide
      change invV0 d L O W q ft (fetched d L fi) ⊢ wp frame (wpE (defs₀ (F := F)) 𝒱₀ (tile d L) none) Set.univ (tile_run0v.sl.prog.body_1 L t0 u) (fun _ => invV1 d L O W q ft (fetched d L fi))
      unfold invV0 commonV slotFree outHeld crowsHeld
      iintro ⟨⟨Hmw, Ht, H5, H6, Hg0, Hg1, %W', %hW', HO⟩, ⟨Hw0, Hc⟩, Hs1, ⟨%o0, Ho0⟩, Ho1, Ho2, Ho3⟩
      icases H6 with ⟨%r6, H6⟩
      icases Hc with ⟨%c0, Hc⟩
      have hin := h5
      have hinT : ∀ x, (((s0W).slice (Rect.unit (s := S512) ![0] S128.size inb_w0) (fun _ => rfl)).view.read (Elt F) (fetched d L fi) x).toNat
          < S1000x128.size gathers_S1000x128_S128x128.axis := hin ![0] inb_w0
      have hinK : ∀ x, ((offsAt t0).view.read (Elt F) (fetched d L fi) x).toNat < S1000x128.size gathers_S1000x128_S128x128.axis := hin _ _
      sl_exec
      sl_for (invCV (F := F) d L t0 t1 (View.write (Elt F) (rowsAt t0).view r6 (tile_run0v.sl.gather0 d L ft fi hinK) Finset.univ)) $$ [H6 Hc]
      case region =>
        intro j _
        unfold invCV
        iintro ⟨H6, ⟨%f, Hc, %hC⟩⟩
        sl_exec
        sl_step
        isplitl [H6]; · iexact H6
        iexists _; isplitl [Hc]; · iexact Hc
        ipureintro
        exact compacted_step t0 j _ f hC _ _ (fun e => (pay1_at _ e).trans (load_lo_at _ t0 j e)) (fun e => (pay2_at _ e).trans (load_hi_at _ t0 j e))
      · unfold invCV
        isplitl [H6]; · iexact H6
        iexists _; isplitl [Hc]; · iexact Hc
        ipureintro; exact compacted_zero t0 _ _
      iintro %_ HI
      unfold invCV
      icases HI with ⟨H6, ⟨%f, Hc, %hC⟩⟩
      have hC128 : Compacted (F := F) t0 (View.write (Elt F) (rowsAt t0).view r6 (tile_run0v.sl.gather0 d L ft fi hinK) Finset.univ) f 128 := hC
      sl_exec
      sl_step
      iclear Hc
      have hblk : BlkOK (F := F) d L ft (fetched d L fi) t0 ((outAt L t0).view.writes (Elt F) o0 [⟨Rect.whole S128x32, tile_run0v.sl.dma0_1 d L f⟩]) :=
        blk_of_compacted d L ft (fetched d L fi) t0 _ _ hinK r6 f o0 hC128
      unfold invV1 commonV slotBusyV slotFree outHeld crowsHeld
      isplitl [Hmw Ht H5 H6 Hg0 Hg1 HO]
      · isplitl [Hmw]; · iexact Hmw
        isplitl [Ht]; · iexact Ht
        isplitl [H5]; · iexact H5
        isplitl [H6]; · iexists _; iexact H6
        isplitl [Hg0]; · iexact Hg0
        isplitl [Hg1]; · iexact Hg1
        iexists (insert (SemLoc.dma gS0, (default : HIx 4)) W'); isplitr
        · ipureintro; intro p hp
          rcases Finset.mem_insert.mp hp with hp | hp
          · exact Or.inr (by subst hp; rfl)
          · exact hW' p hp
        · iexact HO
      isplitl [Hw0]
      · iexists _, _; isplitl [Hw0]
        · iexact Hw0
        · ipureintro; exact hblk
      isplitl [Hs1]; · iexact Hs1
      isplitl [Ho1]; · iexact Ho1
      isplitl [Ho2]; · iexact Ho2
      iexact Ho3
    | 1, hk =>
      have k0_h1 : ¬ k0_cond1 t1 = 1#1 := by decide
      change invV1 d L O W q ft (fetched d L fi) ⊢ wp frame (wpE (defs₀ (F := F)) 𝒱₀ (tile d L) none) Set.univ (tile_run0v.sl.prog.body_1 L t1 u) (fun _ => invV2 d L O W q ft (fetched d L fi))
      unfold invV1 commonV slotBusyV slotFree outHeld crowsHeld
      iintro ⟨⟨Hmw, Ht, H5, H6, Hg0, Hg1, %W', %hW', HO⟩, Hb0, ⟨Hw1, Hc⟩, ⟨%o1, Ho1⟩, Ho2, Ho3⟩
      icases H6 with ⟨%r6, H6⟩
      icases Hc with ⟨%c0, Hc⟩
      have hin := h5
      have hinT : ∀ x, (((s0W).slice (Rect.unit (s := S512) ![128] S128.size inb_w128) (fun _ => rfl)).view.read (Elt F) (fetched d L fi) x).toNat
          < S1000x128.size gathers_S1000x128_S128x128.axis := hin ![128] inb_w128
      have hinK : ∀ x, ((offsAt t1).view.read (Elt F) (fetched d L fi) x).toNat < S1000x128.size gathers_S1000x128_S128x128.axis := hin _ _
      sl_exec
      sl_for (invCV (F := F) d L t1 t0 (View.write (Elt F) (rowsAt t1).view r6 (tile_run0v.sl.gather0_1 d L ft fi hinK) Finset.univ)) $$ [H6 Hc]
      case region =>
        intro j _
        unfold invCV
        iintro ⟨H6, ⟨%f, Hc, %hC⟩⟩
        sl_exec
        sl_step
        isplitl [H6]; · iexact H6
        iexists _; isplitl [Hc]; · iexact Hc
        ipureintro
        exact compacted_step t1 j _ f hC _ _ (fun e => (pay1_at _ e).trans (load_lo_at _ t1 j e)) (fun e => (pay2_at _ e).trans (load_hi_at _ t1 j e))
      · unfold invCV
        isplitl [H6]; · iexact H6
        iexists _; isplitl [Hc]; · iexact Hc
        ipureintro; exact compacted_zero t1 _ _
      iintro %_ HI
      unfold invCV
      icases HI with ⟨H6, ⟨%f, Hc, %hC⟩⟩
      have hC128 : Compacted (F := F) t1 (View.write (Elt F) (rowsAt t1).view r6 (tile_run0v.sl.gather0_1 d L ft fi hinK) Finset.univ) f 128 := hC
      sl_exec
      sl_step
      iclear Hc
      have hblk : BlkOK (F := F) d L ft (fetched d L fi) t1 ((outAt L t1).view.writes (Elt F) o1 [⟨Rect.whole S128x32, tile_run0v.sl.dma0_2 d L f⟩]) :=
        blk_of_compacted d L ft (fetched d L fi) t1 _ _ hinK r6 f o1 hC128
      unfold invV2 commonV slotBusyV outHeld
      isplitl [Hmw Ht H5 H6 Hg0 Hg1 HO]
      · isplitl [Hmw]; · iexact Hmw
        isplitl [Ht]; · iexact Ht
        isplitl [H5]; · iexact H5
        isplitl [H6]; · iexists _; iexact H6
        isplitl [Hg0]; · iexact Hg0
        isplitl [Hg1]; · iexact Hg1
        iexists (insert (SemLoc.dma gS1, (default : HIx 4)) W'); isplitr
        · ipureintro; intro p hp
          rcases Finset.mem_insert.mp hp with hp | hp
          · exact Or.inr (by subst hp; rfl)
          · exact hW' p hp
        · iexact HO
      isplitl [Hb0]; · iexact Hb0
      isplitl [Hw1]
      · iexists _, _; isplitl [Hw1]
        · iexact Hw1
        · ipureintro; exact hblk
      isplitl [Ho2]; · iexact Ho2
      iexact Ho3
    | 2, hk =>
      have k0_h1 : k0_cond1 t2 = 1#1 := by decide
      change invV2 d L O W q ft (fetched d L fi) ⊢ wp frame (wpE (defs₀ (F := F)) 𝒱₀ (tile d L) none) Set.univ (tile_run0v.sl.prog.body_1 L t2 u) (fun _ => invV3 d L O W q ft (fetched d L fi))
      unfold invV2 commonV slotBusyV outHeld
      iintro ⟨⟨Hmw, Ht, H5, H6, Hg0, Hg1, %W', %hW', HO⟩, ⟨%fo0, %fc0, Hw0, %hb0⟩, Hb1, ⟨%o2, Ho2⟩, Ho3⟩
      icases H6 with ⟨%r6, H6⟩
      have hin := h5
      have hinT : ∀ x, (((s0W).slice (Rect.unit (s := S512) ![256] S128.size inb_w256) (fun _ => rfl)).view.read (Elt F) (fetched d L fi) x).toNat
          < S1000x128.size gathers_S1000x128_S128x128.axis := hin ![256] inb_w256
      have hinK : ∀ x, ((offsAt t2).view.read (Elt F) (fetched d L fi) x).toNat < S1000x128.size gathers_S1000x128_S128x128.axis := hin _ _
      sl_exec
      ihave Hc := (Entails.of_eq (show ((s2W).view.loc (tile d L) ↦[(crowsAt t0).view.set]{fullShare} fc0 : sProp 𝕄)
          = ((s2W).view.loc (tile d L) ↦[Finset.univ \ (crowsAt t1).view.set]{fullShare} fc0) from by rw [crows_compl01])) $$ Hw0_src
      sl_for (invCV (F := F) d L t2 t1 (View.write (Elt F) (rowsAt t2).view r6 (tile_run0v.sl.gather0_2 d L ft fi hinK) Finset.univ)) $$ [H6 Hc]
      case region =>
        intro j _
        unfold invCV
        iintro ⟨H6, ⟨%f, Hc, %hC⟩⟩
        sl_exec
        sl_step
        isplitl [H6]; · iexact H6
        iexists _; isplitl [Hc]; · iexact Hc
        ipureintro
        exact compacted_step t2 j _ f hC _ _ (fun e => (pay1_at _ e).trans (load_lo_at _ t2 j e)) (fun e => (pay2_at _ e).trans (load_hi_at _ t2 j e))
      · unfold invCV
        isplitl [H6]; · iexact H6
        iexists _; isplitl [Hc]; · iexact Hc
        ipureintro; exact compacted_zero t2 _ _
      iintro %_ HI
      unfold invCV
      icases HI with ⟨H6, ⟨%f, Hc, %hC⟩⟩
      have hC128 : Compacted (F := F) t2 (View.write (Elt F) (rowsAt t2).view r6 (tile_run0v.sl.gather0_2 d L ft fi hinK) Finset.univ) f 128 := hC
      sl_exec
      sl_step
      iclear Hc
      have hblk : BlkOK (F := F) d L ft (fetched d L fi) t2 ((outAt L t2).view.writes (Elt F) o2 [⟨Rect.whole S128x32, tile_run0v.sl.dma0_3 d L f⟩]) :=
        blk_of_compacted d L ft (fetched d L fi) t2 _ _ hinK r6 f o2 hC128
      unfold invV3 commonV slotBusyV outHeldV outHeld
      isplitl [Hmw Ht H5 H6 Hg0 Hg1 HO]
      · isplitl [Hmw]; · iexact Hmw
        isplitl [Ht]; · iexact Ht
        isplitl [H5]; · iexact H5
        isplitl [H6]; · iexists _; iexact H6
        isplitl [Hg0]; · iexact Hg0
        isplitl [Hg1]; · iexact Hg1
        iexists (insert (SemLoc.dma gS0, (default : HIx 4)) (insert (SemLoc.dma wS0, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hw0]
      · iexists _, _; isplitl [Hw0]
        · iexact Hw0
        · ipureintro; exact hblk
      isplitl [Hb1]; · iexact Hb1
      isplitl [Hw0_dst]
      · iexists _; isplitl [Hw0_dst]
        · iexact Hw0_dst
        · ipureintro; exact hb0
      iexact Ho3
    | 3, hk =>
      have k0_h1 : k0_cond1 t3 = 1#1 := by decide
      change invV3 d L O W q ft (fetched d L fi) ⊢ wp frame (wpE (defs₀ (F := F)) 𝒱₀ (tile d L) none) Set.univ (tile_run0v.sl.prog.body_1 L t3 u) (fun _ => invV4 d L O W q ft (fetched d L fi))
      unfold invV3 commonV slotBusyV outHeldV outHeld
      iintro ⟨⟨Hmw, Ht, H5, H6, Hg0, Hg1, %W', %hW', HO⟩, Hb0, ⟨%fo1, %fc1, Hw1, %hb1⟩, Ho0, ⟨%o3, Ho3⟩⟩
      icases H6 with ⟨%r6, H6⟩
      have hin := h5
      have hinT : ∀ x, (((s0W).slice (Rect.unit (s := S512) ![384] S128.size inb_w384) (fun _ => rfl)).view.read (Elt F) (fetched d L fi) x).toNat
          < S1000x128.size gathers_S1000x128_S128x128.axis := hin ![384] inb_w384
      have hinK : ∀ x, ((offsAt t3).view.read (Elt F) (fetched d L fi) x).toNat < S1000x128.size gathers_S1000x128_S128x128.axis := hin _ _
      sl_exec
      ihave Hc := (Entails.of_eq (show ((s2W).view.loc (tile d L) ↦[(crowsAt t1).view.set]{fullShare} fc1 : sProp 𝕄)
          = ((s2W).view.loc (tile d L) ↦[Finset.univ \ (crowsAt t0).view.set]{fullShare} fc1) from by rw [crows_compl10])) $$ Hw1_src
      sl_for (invCV (F := F) d L t3 t0 (View.write (Elt F) (rowsAt t3).view r6 (tile_run0v.sl.gather0_3 d L ft fi hinK) Finset.univ)) $$ [H6 Hc]
      case region =>
        intro j _
        unfold invCV
        iintro ⟨H6, ⟨%f, Hc, %hC⟩⟩
        sl_exec
        sl_step
        isplitl [H6]; · iexact H6
        iexists _; isplitl [Hc]; · iexact Hc
        ipureintro
        exact compacted_step t3 j _ f hC _ _ (fun e => (pay1_at _ e).trans (load_lo_at _ t3 j e)) (fun e => (pay2_at _ e).trans (load_hi_at _ t3 j e))
      · unfold invCV
        isplitl [H6]; · iexact H6
        iexists _; isplitl [Hc]; · iexact Hc
        ipureintro; exact compacted_zero t3 _ _
      iintro %_ HI
      unfold invCV
      icases HI with ⟨H6, ⟨%f, Hc, %hC⟩⟩
      have hC128 : Compacted (F := F) t3 (View.write (Elt F) (rowsAt t3).view r6 (tile_run0v.sl.gather0_3 d L ft fi hinK) Finset.univ) f 128 := hC
      sl_exec
      sl_step
      iclear Hc
      have hblk : BlkOK (F := F) d L ft (fetched d L fi) t3 ((outAt L t3).view.writes (Elt F) o3 [⟨Rect.whole S128x32, tile_run0v.sl.dma0_4 d L f⟩]) :=
        blk_of_compacted d L ft (fetched d L fi) t3 _ _ hinK r6 f o3 hC128
      unfold invV4 commonV slotBusyV outHeldV
      isplitl [Hmw Ht H5 H6 Hg0 Hg1 HO]
      · isplitl [Hmw]; · iexact Hmw
        isplitl [Ht]; · iexact Ht
        isplitl [H5]; · iexact H5
        isplitl [H6]; · iexists _; iexact H6
        isplitl [Hg0]; · iexact Hg0
        isplitl [Hg1]; · iexact Hg1
        iexists (insert (SemLoc.dma gS1, (default : HIx 4)) (insert (SemLoc.dma wS1, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hb0]; · iexact Hb0
      isplitl [Hw1]
      · iexists _, _; isplitl [Hw1]
        · iexact Hw1
        · ipureintro; exact hblk
      isplitl [Ho0]; · iexact Ho0
      iexists _; isplitl [Hw1_dst]
      · iexact Hw1_dst
      · ipureintro; exact hb1
  · -- before the first trip
    iapply (Entails.of_eq (show invV0 d L O W q ft (fetched d L fi) = invOV d L O W q ft (fetched d L fi) 0 PUnit.unit from rfl))
    unfold invV0 commonV slotFree outHeld crowsHeld
    isplitl [Hmw Ht H5 H6 Hg0 Hg1 HO]
    · isplitl [Hmw]; · iexact Hmw
      isplitl [Ht]; · iexact Ht
      isplitl [H5]; · iexact H5
      isplitl [H6]; · iexact H6
      isplitl [Hg0]; · iexact Hg0
      isplitl [Hg1]; · iexact Hg1
      iexists (insert (SemLoc.dma pS, (default : HIx 4)) W); isplitr
      · ipureintro; intro p hp
        rcases Finset.mem_insert.mp hp with hp | hp
        · exact Or.inr (by subst hp; rfl)
        · exact Or.inl hp
      · iexact HO
    isplitl [Hw0 Hc0]
    · isplitl [Hw0]; · iexact Hw0
      iexact Hc0
    isplitl [Hw1 Hc1]
    · isplitl [Hw1]; · iexact Hw1
      iexact Hc1
    isplitl [Ho0]; · iexact Ho0
    isplitl [Ho1]; · iexact Ho1
    isplitl [Ho2]; · iexact Ho2
    iexact Ho3
  -- after the loop: the last two write-backs
  iintro %acc HI
  ihave HI' := (Entails.of_eq (show invOV d L O W q ft (fetched d L fi) (Scf.trips k0_t1_loop.lb k0_t1_loop.ub k0_t1_loop.st) acc = invV4 d L O W q ft (fetched d L fi) from rfl)) $$ HI
  unfold invV4 commonV slotBusyV outHeldV
  icases HI' with ⟨⟨Hmw, Ht, H5, H6, Hg0, Hg1, %W', %hW', HO⟩, ⟨%fo2, %fc2, Hw0, %hb2⟩, ⟨%fo3, %fc3, Hw1, %hb3⟩, Ho0, Ho1⟩
  sl_exec
  sl_step
  isplitl [Ht]; · iexact Ht
  isplitl [Hi]; · iexact Hi
  isplitl [H5]; · iexists _; iexact H5
  isplitl [H6]; · iexact H6
  isplitl [Hw0_src]; · iexists _; iexact Hw0_src
  isplitl [Hw1_src]; · iexists _; iexact Hw1_src
  isplitl [Ho0]; · iexact Ho0
  isplitl [Ho1]; · iexact Ho1
  isplitl [Hw0_dst]
  · iexists _; isplitl [Hw0_dst]
    · iexact Hw0_dst
    · ipureintro; exact hb2
  isplitl [Hw1_dst]
  · iexists _; isplitl [Hw1_dst]
    · iexact Hw1_dst
    · ipureintro; exact hb3
  isplitl [Hg0]; · iexact Hg0
  isplitl [Hg1]; · iexact Hg1
  isplitl [Hw0]; · iexact Hw0
  isplitl [Hw1]; · iexact Hw1
  isplitl [Hp]; · iexact Hp
  iexists (insert (SemLoc.dma wS1, (default : HIx 4)) (insert (SemLoc.dma wS0, (default : HIx 4)) W')); isplitr
  · ipureintro; intro p hp
    rcases Finset.mem_insert.mp hp with hp | hp
    · exact Or.inr (by subst hp; rfl)
    rcases Finset.mem_insert.mp hp with hp | hp
    · exact Or.inr (by subst hp; rfl)
    · exact hW' p hp
  · iexact HO

end Cert.KernelIdeal.Hand

end
-- ==== Proof.KernelIdeal.TileOblV0.lean ====
/-
  The first gather call's task as the launch theorem wants it, contents tracked: what a vector subcore hands back is
  its slice of the token words, unchanged, and each of its blocks of the result holding the table rows its words name.
  The run is `tile_run0v`; the subcore's scratch and semaphores are picked out and handed back as in the untracked
  obligation.
-/
import proofs.«203661_g84404697301628_cont_9to1_m_135_26_alg».proof.Proof.KernelIdeal.TileRunV0
import proofs.«203661_g84404697301628_cont_9to1_m_135_26_alg».proof.Proof.KernelIdeal.TileObl0
import proofs.«203661_g84404697301628_cont_9to1_m_135_26_alg».proof.Proof.PayV

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [hK : Cert.KernelIdeal.Facts] [FloatOps F]

local notation "𝕄" => MT nD τ sig (HIx 4) (Elt F) ℕ UU ℕ

local notation "tblW" => (Memref.whole Cert.KernelIdeal.main_v0_scv : Memref Cert.KernelIdeal.sig Kind.scVector Space.hbm Cert.KernelIdeal.S1000x128 EltTy.f32)
local notation "idxW" => (Memref.whole Cert.KernelIdeal.main_v5_scv : Memref Cert.KernelIdeal.sig Kind.scVector Space.hbm Cert.KernelIdeal.S16384 EltTy.i32)
local notation "outW" => (Memref.whole Cert.KernelIdeal.main_v6_scv : Memref Cert.KernelIdeal.sig Kind.scVector Space.hbm Cert.KernelIdeal.S1x16384x32 EltTy.f32)
local notation "s0W" => (Memref.whole Cert.KernelIdeal.cc0_scratch0 : Memref Cert.KernelIdeal.sig Kind.scVector Space.vmem Cert.KernelIdeal.S512 EltTy.i32)
local notation "s1W" => (Memref.whole Cert.KernelIdeal.cc0_scratch1 : Memref Cert.KernelIdeal.sig Kind.scVector Space.vmem Cert.KernelIdeal.S2x128x128 EltTy.f32)
local notation "s2W" => (Memref.whole Cert.KernelIdeal.cc0_scratch2 : Memref Cert.KernelIdeal.sig Kind.scVector Space.vmem Cert.KernelIdeal.S2x128x32 EltTy.f32)

/-- what subcore `(c, i)` hands back for the first call besides the table: its slice of the token words, at the words
    `wd`, and its blocks of the result, each holding the table rows (of the table `tbv`) its words name -/
def Rtd0 (tbv : (d : Dev nD) → Buf (Elt F) (tblLoc d)) (wd : (d : Dev nD) → Buf (Elt F) (idxLoc0 d)) (d : Dev nD) (c : Fin 2) (i : Fin 16) : sProp 𝕄 :=
  iprop(((idxSl (coords0 c i)).view.loc (tile d (coords0 c i)) ↦[(idxSl (coords0 c i)).view.set]{fullShare} wd d)
    ∗ outHeldV (F := F) d (coords0 c i) (tbv d) (fetched d (coords0 c i) (wd d)) t0
    ∗ outHeldV (F := F) d (coords0 c i) (tbv d) (fetched d (coords0 c i) (wd d)) t1
    ∗ outHeldV (F := F) d (coords0 c i) (tbv d) (fetched d (coords0 c i) (wd d)) t2
    ∗ outHeldV (F := F) d (coords0 c i) (tbv d) (fetched d (coords0 c i) (wd d)) t3)

section Tile

variable (d : Dev nD) (L : grid0.Coords)

/-- The task on one vector subcore with contents tracked, in the launch theorem's resources: the blocks go in at some
    contents and come back holding the table rows the subcore's words name. -/
theorem tile_body0v (hF : (K (F := F)).Facts) (tb : (d : Dev nD) → Buf (Elt F) (tblLoc d)) (wd : (d : Dev nD) → Buf (Elt F) (idxLoc0 d))
    (hwd : ∀ d y, (wd d y).toNat < 1000) (q : PosShare TreeShare)
    (lv : GSem nD τ sig → HIx 4 → ℕ) (hlv : (K (F := F)).Refines lv)
    (O : CellTallies nD τ sig (HIx 4)) (W : Waits sig (HIx 4)) (hO : ∀ g, O g none = 0) :
    iprop(levAts (K (F := F)).L lv ∗ emp
        ∗ ((tblLoc d ↦{q} tb d)
            ∗ ((idxSl L).view.loc (tile d L) ↦[(idxSl L).view.set]{fullShare} wd d)
            ∗ outHeld (F := F) d L t0 ∗ outHeld (F := F) d L t1 ∗ outHeld (F := F) d L t2 ∗ outHeld (F := F) d L t3)
        ∗ scopedBufs (tile d L) ∗ scopedSems0 (tile d L) ∗ owes (tile d L) O W)
      ⊢ wp frame (wpE (defs₀ (F := F)) 𝒱₀ (tile d L) none) Set.univ
          (cc0_gather_kernel L tblW (Memref.isWhole_whole _) idxW (Memref.isWhole_whole _) outW (Memref.isWhole_whole _)
            s0W (Memref.isWhole_whole _) s1W (Memref.isWhole_whole _) s2W (Memref.isWhole_whole _) cc0_scratch3 cc0_scratch4 cc0_scoped0)
          fun _ => iprop(((tblLoc d ↦{q} tb d)
            ∗ ((idxSl L).view.loc (tile d L) ↦[(idxSl L).view.set]{fullShare} wd d)
            ∗ outHeldV (F := F) d L (tb d) (fetched d L (wd d)) t0
            ∗ outHeldV (F := F) d L (tb d) (fetched d L (wd d)) t1
            ∗ outHeldV (F := F) d L (tb d) (fetched d L (wd d)) t2
            ∗ outHeldV (F := F) d L (tb d) (fetched d L (wd d)) t3)
            ∗ scopedBufs (tile d L) ∗ scopedSems0 (tile d L)
            ∗ ∃ W', ⌜∀ p ∈ W', p ∈ W ∨ p.2 = none⌝ ∗ owes (tile d L) O W') := by
  rw [(K (F := F)).scopedBufs_V hF d (cV L) (jV L), SparseCore.Cfg.scopedSems0_V (Val := Elt F) d (cV L) (jV L), ownSems0_V0, ownBufs_V0]
  iintro ⟨#Hlv, -, ⟨Ht, Hi, Ho0, Ho1, Ho2, Ho3⟩, ⟨H5, H6, ⟨%f7, H7⟩, Hbufs⟩, ⟨Hg0, Hg1, Hw0, Hw1, Hp, Hsems⟩, HO⟩
  ihave Hmw := ((K (F := F)).mayWaits_none (thr := tile d L) hO lv hlv) $$ Hlv
  ihave Hc := (crows_split (F := F) d L f7) $$ H7
  icases Hc with ⟨Hc1, Hc0⟩
  iapply (wp_wand_r frame (wpE (defs₀ (F := F)) 𝒱₀ (tile d L) none) Set.univ)
  isplitl [Hmw Ht Hi H5 H6 Hc0 Hc1 Ho0 Ho1 Ho2 Ho3 Hg0 Hg1 Hw0 Hw1 Hp HO]
  · iapply (tile_run0v (F := F) d L O W q (tb d) (wd d) (hwd d))
    isplitl [Hmw]; · iexact Hmw
    isplitl [Ht]; · iexact Ht
    isplitl [Hi]; · iexact Hi
    isplitl [H5]; · iexact H5
    isplitl [H6]; · iexact H6
    isplitl [Hc1]; · unfold crowsHeld; iexists _; iexact Hc1
    isplitl [Hc0]; · unfold crowsHeld; iexists _; iexact Hc0
    isplitl [Ho0]; · iexact Ho0
    isplitl [Ho1]; · iexact Ho1
    isplitl [Ho2]; · iexact Ho2
    isplitl [Ho3]; · iexact Ho3
    isplitl [Hg0]; · iexact Hg0
    isplitl [Hg1]; · iexact Hg1
    isplitl [Hw0]; · iexact Hw0
    isplitl [Hw1]; · iexact Hw1
    isplitl [Hp]; · iexact Hp
    iexact HO
  · iintro %a ⟨Ht, Hi, H5, H6, ⟨%c2, Hc2⟩, ⟨%c3, Hc3⟩, Ho0, Ho1, Ho2, Ho3, Hg0, Hg1, Hw0, Hw1, Hp, HO⟩
    ihave H7 := (crows_join (F := F) d L c2 c3) $$ [Hc2 Hc3]
    · isplitl [Hc2]; · iexact Hc2
      iexact Hc3
    isplitl [Ht Hi Ho0 Ho1 Ho2 Ho3]
    · isplitl [Ht]; · iexact Ht
      isplitl [Hi]; · iexact Hi
      isplitl [Ho0]; · iexact Ho0
      isplitl [Ho1]; · iexact Ho1
      isplitl [Ho2]; · iexact Ho2
      iexact Ho3
    isplitl [H5 H6 H7 Hbufs]
    · isplitl [H5]; · iexact H5
      isplitl [H6]; · iexact H6
      isplitl [H7]; · iexact H7
      iexact Hbufs
    isplitl [Hg0 Hg1 Hw0 Hw1 Hp Hsems]
    · isplitl [Hg0]; · iexact Hg0
      isplitl [Hg1]; · iexact Hg1
      isplitl [Hw0]; · iexact Hw0
      isplitl [Hw1]; · iexact Hw1
      isplitl [Hp]; · iexact Hp
      iexact Hsems
    iexact HO

end Tile

/-- The first call's task obligation with contents tracked: handed `Rs0`, the subcore hands back `Rtd0`. -/
theorem tileOblV0 (hF : (K (F := F)).Facts) (tb : (d : Dev nD) → Buf (Elt F) (tblLoc d)) (Rgo Rtd : Fin 4 → Dev nD → Fin 2 → Fin 16 → sProp 𝕄)
    (wd : (d : Dev nD) → Buf (Elt F) (idxLoc0 d)) (hwd : ∀ d y, (wd d y).toNat < 1000)
    (hgo : ∀ d c i, Rgo 0 d c i = Rs0 wd d c i) (htd : ∀ d c i, Rtd 0 d c i = Rtd0 tb wd d c i)
    (lv : GSem nD τ sig → HIx 4 → ℕ) (hlv : (K (F := F)).Refines lv) :
    (K (F := F)).TileObl (D (F := F)) 𝒱 (PV tb Rgo Rtd) v₀ 0 lv := by
  intro d c i O W hO _ _
  simp only [show (PV (F := F) tb Rgo Rtd).ox = fun _ _ => 0 from rfl, add_zero]
  change iprop(levAts _ lv ∗ emp ∗ ((tblLoc d ↦{tileShare (Fin.cast (nCore_eq 0) c) (Fin.cast (nSub_eq 0) i)} tb d)
        ∗ Rgo 0 d (Fin.cast (nCore_eq 0) c) (Fin.cast (nSub_eq 0) i)) ∗ _ ∗ _ ∗ _)
    ⊢ wp _ _ _ (Pipeline.liftProg (defs₀ (F := F) (.scVector ((K (F := F)).core 0 c) ((K (F := F)).sub 0 i)) 0 ()))
        (fun _ => iprop(((tblLoc d ↦{tileShare (Fin.cast (nCore_eq 0) c) (Fin.cast (nSub_eq 0) i)} tb d)
          ∗ Rtd 0 d (Fin.cast (nCore_eq 0) c) (Fin.cast (nSub_eq 0) i)) ∗ _ ∗ _ ∗ _))
  rw [hgo, htd]
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector0]; simp only [SparseCore.onTile, hc, and_self, ↓reduceDIte]
  unfold Rs0 Rtd0
  exact (tile_body0v (F := F) d (coords0 ⟨_, hc.1⟩ ⟨_, hc.2⟩) hF tb wd hwd _ lv hlv O W hO).trans (wp_mono frame _ _ fun _ => obl_post)

end Cert.KernelIdeal.Hand

end
-- ==== Proof.KernelIdeal.TileValue1.lean ====
/-
  Values in the second gather call's task: where the entries of a slot sit, and what the gathered-rows scratch holds
  after a gather.
-/
import proofs.«203661_g84404697301628_cont_9to1_m_135_26_alg».proof.Proof.KernelIdeal.GatherValue
import proofs.«203661_g84404697301628_cont_9to1_m_135_26_alg».proof.Proof.Gen.KernelIdeal.Skeleton
import Idealize.ShloMosaic.Lib.Pipeline.Value
import Idealize.ShloMosaic.Lib.Writes

noncomputable section

namespace Cert.KernelIdeal.Hand.C1

open Cert.KernelIdeal Cert.KernelIdeal.Gen Cert.KernelIdeal.Hand
open Idealize.ShloMosaic Idealize.ShloMosaic.ValueIdx

variable {F : FTy → Type} [hK : Cert.KernelIdeal.Facts]

local notation "s1W" => (Memref.whole Cert.KernelIdeal.cc1_scratch1 : Memref Cert.KernelIdeal.sig Kind.scVector Space.vmem Cert.KernelIdeal.S2x128x128 EltTy.f32)

/-- trip `t`'s half of the gathered-rows scratch -/
abbrev rowsAt (t : Fin k1_t1_loop.trips) : Memref sig .scVector .vmem S128x128 .f32 :=
  ((s1W).slice (Rect.unit (s := S2x128x128) (k1_off5 t) S1x128x128.size (k1_off5_inb t)) (fun _ => rfl)).squeeze S128x128 squeezes_S1x128x128_S128x128

/-- dropping the unit axis: entry `(r, c)` of a [128,128] block is entry `(0, r, c)` of the [1,128,128] one -/
theorem squeeze_idx (h : S128x128.numel = S1x128x128.numel) (r c : Fin 128) :
    Shape.reshapeEquiv h (ix2 r c) = (ix3 (0 : Fin 1) r c : S1x128x128.Idx) := by
  refine Shape.reshapeEquiv_eq_of_rowMajor h ?_
  rw [Shape.rowMajor_val_three, Shape.rowMajor_val_two]
  show ((0 : Fin 1).val * 128 + r.val) * 128 + c.val = r.val * 128 + c.val
  simp

/-- entry `(r, c)` of trip `t`'s half sits at `(t mod 2, r, c)` of the scratch -/
theorem rowsAt_emb (t : Fin k1_t1_loop.trips) (r c : Fin 128) :
    (rowsAt t).view.emb (ix2 r c) = (ix3 (⟨t.val % 2, Nat.mod_lt _ (by decide)⟩ : Fin 2) r c : S2x128x128.Idx) := by
  show (Rect.unit (s := S2x128x128) (k1_off5 t) S1x128x128.size (k1_off5_inb t)).emb (Shape.reshapeEquiv _ (ix2 r c)) = _
  rw [squeeze_idx]
  funext a
  apply Fin.ext
  match a with
  | ⟨0, _⟩ => show k1_off5 t 0 + 1 * (0 : Fin 1).val = t.val % 2; rw [k1_off5_eq]; rfl
  | ⟨1, _⟩ => show k1_off5 t 1 + 1 * r.val = r.val; rw [k1_off5_eq]; show 0 + 1 * r.val = r.val; omega
  | ⟨2, _⟩ => show k1_off5 t 2 + 1 * c.val = c.val; rw [k1_off5_eq]; show 0 + 1 * c.val = c.val; omega

/-- after a gather into trip `t`'s half, the scratch at `(t mod 2, r, c)` holds the gathered entry `(r, c)` -/
theorem rows_after_gather (t : Fin k1_t1_loop.trips) (r6 : S2x128x128.Idx → Elt F .f32) (p : S128x128.Idx → Elt F .f32) (r c : Fin 128) :
    (rowsAt t).view.write (Elt F) r6 p Finset.univ (ix3 (⟨t.val % 2, Nat.mod_lt _ (by decide)⟩ : Fin 2) r c) = p (ix2 r c) := by
  rw [← rowsAt_emb t r c, View.write_emb_of_mem _ _ (Finset.mem_univ _)]
  rfl

/-- the two reshapes around a 16-lane vector change nothing at an entry -/
theorem pay1_at (v : Vec F S1x1x16 .f32) (e : Fin 16) :
    k1_pay1 v (ix3 (0 : Fin 1) (0 : Fin 1) e) = v (ix3 (0 : Fin 1) (0 : Fin 1) e) := by
  unfold k1_pay1
  show shapeCast S1x1x16 (shapeCast S16 v shapeCasts_S1x1x16_S16) shapeCasts_S16_S1x1x16 (ix3 (0 : Fin 1) (0 : Fin 1) e) = _
  rw [shapeCast_apply _ _ (ix3 (0 : Fin 1) (0 : Fin 1) e) (ix1 e) (by rw [Shape.rowMajor_val_one, Shape.rowMajor_val_three]; simp),
    shapeCast_apply _ _ (ix1 e) (ix3 (0 : Fin 1) (0 : Fin 1) e) (by rw [Shape.rowMajor_val_one, Shape.rowMajor_val_three]; simp)]

theorem pay2_at (v : Vec F S1x1x16 .f32) (e : Fin 16) :
    k1_pay2 v (ix3 (0 : Fin 1) (0 : Fin 1) e) = v (ix3 (0 : Fin 1) (0 : Fin 1) e) := by
  unfold k1_pay2
  show shapeCast S1x1x16 (shapeCast S16 v shapeCasts_S1x1x16_S16) shapeCasts_S16_S1x1x16 (ix3 (0 : Fin 1) (0 : Fin 1) e) = _
  rw [shapeCast_apply _ _ (ix3 (0 : Fin 1) (0 : Fin 1) e) (ix1 e) (by rw [Shape.rowMajor_val_one, Shape.rowMajor_val_three]; simp),
    shapeCast_apply _ _ (ix1 e) (ix3 (0 : Fin 1) (0 : Fin 1) e) (by rw [Shape.rowMajor_val_one, Shape.rowMajor_val_three]; simp)]

/-- the first 16-lane load of row `j` reads the scratch at `(t mod 2, j, e)` -/
theorem load_lo_at (R6 : S2x128x128.Idx → Elt F .f32) (t : Fin k1_t1_loop.trips) (j : Fin k1_t2_loop.trips) (e : Fin 16) :
    (s1W).view.readAt (Elt F) (Rect.unit (s := S2x128x128) (k1_off8 t j) S1x1x16.size (k1_off8_inb t j)).toLoadRect R6 (ix3 (0 : Fin 1) (0 : Fin 1) e)
      = R6 (ix3 (⟨t.val % 2, Nat.mod_lt _ (by decide)⟩ : Fin 2) (⟨j.val, Nat.lt_of_lt_of_le j.isLt k1_t2_abs.2.1⟩ : Fin 128) (⟨e.val, by omega⟩ : Fin 128)) := by
  rw [View.readAt_apply]
  show R6 _ = R6 _
  congr 1
  funext a
  apply Fin.ext
  match a with
  | ⟨0, _⟩ => show k1_off8 t j 0 + 1 * (0 : Fin 1).val = t.val % 2; rw [k1_off8_eq]; rfl
  | ⟨1, _⟩ => show k1_off8 t j 1 + 1 * (0 : Fin 1).val = j.val; rw [k1_off8_eq]; show j.val + 1 * 0 = j.val; omega
  | ⟨2, _⟩ => show k1_off8 t j 2 + 1 * e.val = e.val; rw [k1_off8_eq]; show 0 + 1 * e.val = e.val; omega

/-- the second reads it at `(t mod 2, j, 16 + e)` -/
theorem load_hi_at (R6 : S2x128x128.Idx → Elt F .f32) (t : Fin k1_t1_loop.trips) (j : Fin k1_t2_loop.trips) (e : Fin 16) :
    (s1W).view.readAt (Elt F) (Rect.unit (s := S2x128x128) (k1_off10 t j) S1x1x16.size (k1_off10_inb t j)).toLoadRect R6 (ix3 (0 : Fin 1) (0 : Fin 1) e)
      = R6 (ix3 (⟨t.val % 2, Nat.mod_lt _ (by decide)⟩ : Fin 2) (⟨j.val, Nat.lt_of_lt_of_le j.isLt k1_t2_abs.2.1⟩ : Fin 128) (⟨16 + e.val, by omega⟩ : Fin 128)) := by
  rw [View.readAt_apply]
  show R6 _ = R6 _
  congr 1
  funext a
  apply Fin.ext
  match a with
  | ⟨0, _⟩ => show k1_off10 t j 0 + 1 * (0 : Fin 1).val = t.val % 2; rw [k1_off10_eq]; rfl
  | ⟨1, _⟩ => show k1_off10 t j 1 + 1 * (0 : Fin 1).val = j.val; rw [k1_off10_eq]; show j.val + 1 * 0 = j.val; omega
  | ⟨2, _⟩ => show k1_off10 t j 2 + 1 * e.val = 16 + e.val; rw [k1_off10_eq]; show 16 + 1 * e.val = 16 + e.val; omega

local notation "s2W" => (Memref.whole Cert.KernelIdeal.cc1_scratch2 : Memref Cert.KernelIdeal.sig Kind.scVector Space.vmem Cert.KernelIdeal.S2x128x32 EltTy.f32)

/-- the slot trip `t` uses -/
abbrev slotOf (t : Fin k1_t1_loop.trips) : Fin 2 := ⟨t.val % 2, Nat.mod_lt _ (by decide)⟩

/-- rows below `j` of trip `t`'s half of the compact rows hold the first 32 columns of the gathered rows -/
def Compacted (t : Fin k1_t1_loop.trips) (R6 : S2x128x128.Idx → Elt F .f32) (f : S2x128x32.Idx → Elt F .f32) (j : Nat) : Prop :=
  ∀ (r : Fin 128) (e : Fin 32), r.val < j → f (ix3 (slotOf t) r e) = R6 (ix3 (slotOf t) r (⟨e.val, by omega⟩ : Fin 128))

theorem compacted_zero (t : Fin k1_t1_loop.trips) (R6 : S2x128x128.Idx → Elt F .f32) (f : S2x128x32.Idx → Elt F .f32) : Compacted t R6 f 0 :=
  fun _ _ h => absurd h (Nat.not_lt_zero _)

/-- one trip of the compaction loop: row `j`'s two 16-lane stores extend the agreement to rows below `j + 1` -/
theorem compacted_step (t : Fin k1_t1_loop.trips) (j : Fin k1_t2_loop.trips) (R6 : S2x128x128.Idx → Elt F .f32) (f : S2x128x32.Idx → Elt F .f32)
    (h : Compacted t R6 f j.val) (p1 p2 : S1x1x16.Idx → Elt F .f32)
    (hp1 : ∀ e : Fin 16, p1 (ix3 (0 : Fin 1) (0 : Fin 1) e)
      = R6 (ix3 (slotOf t) (⟨j.val, Nat.lt_of_lt_of_le j.isLt k1_t2_abs.2.1⟩ : Fin 128) (⟨e.val, by omega⟩ : Fin 128)))
    (hp2 : ∀ e : Fin 16, p2 (ix3 (0 : Fin 1) (0 : Fin 1) e)
      = R6 (ix3 (slotOf t) (⟨j.val, Nat.lt_of_lt_of_le j.isLt k1_t2_abs.2.1⟩ : Fin 128) (⟨16 + e.val, by omega⟩ : Fin 128))) :
    Compacted t R6 ((s2W).view.writes (Elt F) f
      [⟨Rect.unit (s := S2x128x32) (k1_off11 t j) S1x1x16.size (k1_off11_inb t j), p2⟩,
       ⟨Rect.unit (s := S2x128x32) (k1_off9 t j) S1x1x16.size (k1_off9_inb t j), p1⟩]) (j.val + 1) := by
  intro r e hr
  have hj128 : j.val < 128 := Nat.lt_of_lt_of_le j.isLt k1_t2_abs.2.1
  have o9 : k1_off9 t j = ![t.val % 2, j.val, 0] := k1_off9_eq t j
  have o11 : k1_off11 t j = ![t.val % 2, j.val, 16] := k1_off11_eq t j
  have hrd : ∀ (g : S2x128x32.Idx → Elt F .f32) (y : S2x128x32.Idx), g y = (s2W).view.read (Elt F) g y := fun _ _ => rfl
  refine (hrd _ _).trans ?_
  by_cases hrj : r.val = j.val
  · by_cases he : 16 ≤ e.val
    · -- in the second store's box
      have hy : (ix3 (slotOf t) r e : S2x128x32.Idx)
          = (Rect.unit (s := S2x128x32) (k1_off11 t j) S1x1x16.size (k1_off11_inb t j)).emb (ix3 (0 : Fin 1) (0 : Fin 1) (⟨e.val - 16, by have := e.isLt; omega⟩ : Fin 16)) := by
        funext a; apply Fin.ext
        match a with
        | ⟨0, _⟩ => show t.val % 2 = k1_off11 t j 0 + 1 * (0 : Fin 1).val; rw [o11]; rfl
        | ⟨1, _⟩ => show r.val = k1_off11 t j 1 + 1 * (0 : Fin 1).val; rw [o11]; show r.val = j.val + 1 * 0; omega
        | ⟨2, _⟩ => show e.val = k1_off11 t j 2 + 1 * (e.val - 16); rw [o11]; show e.val = 16 + 1 * (e.val - 16); omega
      rw [hy, View.read_writes_cons_emb, hp2]
      congr 1
      funext a
      match a with
      | ⟨0, _⟩ => rfl
      | ⟨1, _⟩ => exact Fin.ext hrj.symm
      | ⟨2, _⟩ => exact Fin.ext (by show 16 + (e.val - 16) = e.val; omega)
    · -- below lane 16: not in the second store's box, in the first's
      have hnot : (ix3 (slotOf t) r e : S2x128x32.Idx) ∉ (Rect.unit (s := S2x128x32) (k1_off11 t j) S1x1x16.size (k1_off11_inb t j)).set := by
        rw [Rect.mem_set_unit]; intro hm
        have := (hm ⟨2, by decide⟩).1
        rw [o11] at this
        have h16 : 16 ≤ e.val := this
        omega
      have hy : (ix3 (slotOf t) r e : S2x128x32.Idx)
          = (Rect.unit (s := S2x128x32) (k1_off9 t j) S1x1x16.size (k1_off9_inb t j)).emb (ix3 (0 : Fin 1) (0 : Fin 1) (⟨e.val, by omega⟩ : Fin 16)) := by
        funext a; apply Fin.ext
        match a with
        | ⟨0, _⟩ => show t.val % 2 = k1_off9 t j 0 + 1 * (0 : Fin 1).val; rw [o9]; rfl
        | ⟨1, _⟩ => show r.val = k1_off9 t j 1 + 1 * (0 : Fin 1).val; rw [o9]; show r.val = j.val + 1 * 0; omega
        | ⟨2, _⟩ => show e.val = k1_off9 t j 2 + 1 * e.val; rw [o9]; show e.val = 0 + 1 * e.val; omega
      rw [View.writes_cons, View.read_slice_write_of_not_mem _ _ _ _ (by rw [Rect.map_emb_univ]; exact hnot), hy, View.read_writes_cons_emb, hp1]
      congr 1
      funext a
      match a with
      | ⟨0, _⟩ => rfl
      | ⟨1, _⟩ => exact Fin.ext hrj.symm
      | ⟨2, _⟩ => rfl
  · -- an earlier row: neither store touches it
    have hlt : r.val < j.val := by omega
    rw [View.read_writes_apply_of_forall_not_mem]
    · exact h r e hlt
    · intro p hp
      rw [List.mem_cons, List.mem_singleton] at hp
      rcases hp with rfl | rfl
      · rw [Rect.mem_set_unit]; intro hm
        have := (hm ⟨1, by decide⟩)
        rw [o11] at this
        have h1 : j.val ≤ r.val := this.1
        omega
      · rw [Rect.mem_set_unit]; intro hm
        have := (hm ⟨1, by decide⟩)
        rw [o9] at this
        have h1 : j.val ≤ r.val := this.1
        omega

end Cert.KernelIdeal.Hand.C1

end
-- ==== Proof.KernelIdeal.BlockValue1.lean ====
/-
  What a block of the second call's result holds when it lands: from the compaction loop's agreement on all 128 rows,
  the gathered scratch's contents after the gather, and the gather's payload, row `r` of trip `t`'s block is the first
  32 columns of the table row that word `128·t + r` of the subcore's slice names.
-/
import proofs.«203661_g84404697301628_cont_9to1_m_135_26_alg».proof.Proof.KernelIdeal.TileRun1
import proofs.«203661_g84404697301628_cont_9to1_m_135_26_alg».proof.Proof.KernelIdeal.TileValue1
import proofs.«203661_g84404697301628_cont_9to1_m_135_26_alg».proof.Proof.Spec

noncomputable section

namespace Cert.KernelIdeal.Hand.C1

open Cert.KernelIdeal Cert.KernelIdeal.Gen Cert.KernelIdeal.Hand
open Idealize.ShloMosaic Idealize.ShloMosaic.ValueIdx
open Idealize.ShloMosaic.SparseCore (S V T)

variable {F : FTy → Type} [hK : Cert.KernelIdeal.Facts] [FloatOps F]

local notation "tblW" => (Memref.whole Cert.KernelIdeal.main_v0_scv : Memref Cert.KernelIdeal.sig Kind.scVector Space.hbm Cert.KernelIdeal.S1000x128 EltTy.f32)
local notation "s0W" => (Memref.whole Cert.KernelIdeal.cc1_scratch0 : Memref Cert.KernelIdeal.sig Kind.scVector Space.vmem Cert.KernelIdeal.S512 EltTy.i32)
local notation "s2W" => (Memref.whole Cert.KernelIdeal.cc1_scratch2 : Memref Cert.KernelIdeal.sig Kind.scVector Space.vmem Cert.KernelIdeal.S2x128x32 EltTy.f32)

/-- entry `(r, e)` of a [128,32] block is entry `(0, r, e)` of the [1,128,32] one -/
theorem squeeze_idx32 (h : S128x32.numel = S1x128x32.numel) (r : Fin 128) (e : Fin 32) :
    Shape.reshapeEquiv h (ix2 r e) = (ix3 (0 : Fin 1) r e : S1x128x32.Idx) := by
  refine Shape.reshapeEquiv_eq_of_rowMajor h ?_
  rw [Shape.rowMajor_val_three, Shape.rowMajor_val_two]
  show ((0 : Fin 1).val * 128 + r.val) * 32 + e.val = r.val * 32 + e.val
  simp

/-- entry `(r, e)` of trip `t`'s half of the compact rows sits at `(t mod 2, r, e)` of the scratch -/
theorem crowsAt_emb (t : Fin k1_t1_loop.trips) (r : Fin 128) (e : Fin 32) :
    (crowsAt t).view.emb (ix2 r e) = (ix3 (slotOf t) r e : S2x128x32.Idx) := by
  show (Rect.unit (s := S2x128x32) (k1_off12 t) S1x128x32.size (k1_off12_inb t)).emb (Shape.reshapeEquiv _ (ix2 r e)) = _
  rw [squeeze_idx32]
  funext a
  apply Fin.ext
  match a with
  | ⟨0, _⟩ => show k1_off12 t 0 + 1 * (0 : Fin 1).val = t.val % 2; rw [k1_off12_eq]; rfl
  | ⟨1, _⟩ => show k1_off12 t 1 + 1 * r.val = r.val; rw [k1_off12_eq]; show 0 + 1 * r.val = r.val; omega
  | ⟨2, _⟩ => show k1_off12 t 2 + 1 * e.val = e.val; rw [k1_off12_eq]; show 0 + 1 * e.val = e.val; omega

/-- the whole rectangle's positions are the positions -/
theorem whole_emb (x : S128x32.Idx) : (Rect.whole S128x32).emb x = x := by
  funext a; apply Fin.ext
  show 0 + 1 * (x a).val = (x a).val; omega

/-- the table read through its whole-extent slice is the table -/
theorem tbl_read (ft : S1000x128.Idx → Elt F .f32) (h : ∀ a, (![0, 0] : Fin 2 → Nat) a + S1000x128.size a ≤ S1000x128.size a) (x : S1000x128.Idx) :
    ((tblW).slice (Rect.unit (s := S1000x128) ![0, 0] S1000x128.size h) (fun _ => rfl)).view.read (Elt F) ft x = ft x := by
  show ft _ = ft x
  congr 1
  funext a; apply Fin.ext
  match a with
  | ⟨0, _⟩ => show 0 + 1 * (x 0).val = (x 0).val; omega
  | ⟨1, _⟩ => show 0 + 1 * (x 1).val = (x 1).val; omega

/-- the word by which trip `t` gathers its row `r` -/
def wordAt (g5 : S512.Idx → Elt F .i32) (t : Fin k1_t1_loop.trips) (r : Fin 128) : BitVec 32 := (offsAt t).view.read (Elt F) g5 (ix1 r)

/-- a block of the result holds, row by row, the first 32 columns of the table rows its words name -/
def BlkOK (d : Dev nD) (L : grid1.Coords) (ft : S1000x128.Idx → Elt F .f32) (g5 : S512.Idx → Elt F .i32) (t : Fin k1_t1_loop.trips)
    (fo : Buf (Elt F) ((outAt L t).view.loc (tile d L))) : Prop :=
  ∀ (r : Fin 128) (e : Fin 32), (outAt L t).view.read (Elt F) fo (ix2 r e)
    = ft (ix2 (Cert.Spec.row (wordAt (F := F) g5 t r)) (⟨e.val, by omega⟩ : Fin 128))

/-- THE BLOCK THAT LANDS: the compaction's agreement on all 128 rows, over the scratch as the gather left it, makes
    the copied-out block the table rows named by the words. -/
theorem blk_of_compacted (d : Dev nD) (L : grid1.Coords) (ft : S1000x128.Idx → Elt F .f32) (g5 : S512.Idx → Elt F .i32) (t : Fin k1_t1_loop.trips)
    (htb : ∀ a, (![0, 0] : Fin 2 → Nat) a + S1000x128.size a ≤ S1000x128.size a)
    (hn : S128.numel = S128x128.size gathers_S1000x128_S128x128.axis')
    (hin : ∀ x, ((offsAt t).view.read (Elt F) g5 x).toNat < S1000x128.size gathers_S1000x128_S128x128.axis)
    (r6 : S2x128x128.Idx → Elt F .f32) (f : S2x128x32.Idx → Elt F .f32) (o0 : Buf (Elt F) ((outAt L t).view.loc (tile d L)))
    (hC : Compacted t ((rowsAt t).view.write (Elt F) r6
      (SparseCore.gatherPayload gathers_S1000x128_S128x128
        (((tblW).slice (Rect.unit (s := S1000x128) ![0, 0] S1000x128.size htb) (fun _ => rfl)).view.read (Elt F) ft)
        (SparseCore.rows ((offsAt t).view.read (Elt F) g5) hn hin)) Finset.univ) f 128) :
    BlkOK d L ft g5 t ((outAt L t).view.writes (Elt F) o0
      [⟨Rect.whole S128x32, ReadAs.same.apply ((crowsAt t).view.read (Elt F) f)⟩]) := by
  intro r e
  have hw := View.read_writes_cons_emb (outAt L t).view o0 (Rect.whole S128x32)
    (ReadAs.same.apply ((crowsAt t).view.read (Elt F) f)) [] (ix2 r e)
  rw [whole_emb] at hw
  rw [hw]
  show (crowsAt t).view.read (Elt F) f (ix2 r e) = _
  have hrd : (crowsAt t).view.read (Elt F) f (ix2 r e) = f ((crowsAt t).view.emb (ix2 r e)) := rfl
  rw [hrd, crowsAt_emb, hC r e r.isLt, rows_after_gather, gatherPayload_at, tbl_read]
  have hx := hin (ix1 r)
  have hlt : ((offsAt t).view.read (Elt F) g5 (ix1 r)).toNat < 1000 := hx
  congr 1
  funext a
  match a with
  | ⟨0, _⟩ =>
    apply Fin.ext
    show ((offsAt t).view.read (Elt F) g5 (ix1 r)).toNat = (Cert.Spec.row (wordAt (F := F) g5 t r)).val
    unfold wordAt
    exact (Cert.Spec.row_val_of_le (by show ((offsAt t).view.read (Elt F) g5 (ix1 r)).toNat ≤ 999; omega)).symm
  | ⟨1, _⟩ => rfl

end Cert.KernelIdeal.Hand.C1

end
-- ==== Proof.KernelIdeal.TileRunV1.lean ====
/-
  The second gather call's task with contents tracked: the same run as TileRun1.lean, but a write-back in flight now
  carries what its block will hold — the first 32 columns of the table rows named by the trip's 128 words — and a
  landed block is held with that fact. The compaction loop runs under `Compacted`: rows below `j` of the half agree
  with the gathered rows; at its end `blk_of_compacted` turns the agreement into the block's contents.
-/
import proofs.«203661_g84404697301628_cont_9to1_m_135_26_alg».proof.Proof.KernelIdeal.BlockValue1

noncomputable section

namespace Cert.KernelIdeal.Hand.C1

open Cert.KernelIdeal Cert.KernelIdeal.Gen Cert.KernelIdeal.Hand
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [hK : Cert.KernelIdeal.Facts] [FloatOps F]

local notation "𝕄" => MT nD τ sig (HIx 4) (Elt F) ℕ UU ℕ

local notation "tblW" => (Memref.whole Cert.KernelIdeal.main_v0_scv : Memref Cert.KernelIdeal.sig Kind.scVector Space.hbm Cert.KernelIdeal.S1000x128 EltTy.f32)
local notation "idxW" => (Memref.whole Cert.KernelIdeal.main_v7_scv : Memref Cert.KernelIdeal.sig Kind.scVector Space.hbm Cert.KernelIdeal.S16384 EltTy.i32)
local notation "outW" => (Memref.whole Cert.KernelIdeal.main_v8_scv : Memref Cert.KernelIdeal.sig Kind.scVector Space.hbm Cert.KernelIdeal.S1x16384x32 EltTy.f32)
local notation "s0W" => (Memref.whole Cert.KernelIdeal.cc1_scratch0 : Memref Cert.KernelIdeal.sig Kind.scVector Space.vmem Cert.KernelIdeal.S512 EltTy.i32)
local notation "s1W" => (Memref.whole Cert.KernelIdeal.cc1_scratch1 : Memref Cert.KernelIdeal.sig Kind.scVector Space.vmem Cert.KernelIdeal.S2x128x128 EltTy.f32)
local notation "s2W" => (Memref.whole Cert.KernelIdeal.cc1_scratch2 : Memref Cert.KernelIdeal.sig Kind.scVector Space.vmem Cert.KernelIdeal.S2x128x32 EltTy.f32)
local notation "gS0" => (⟨5, by decide⟩ : DmaSem Cert.KernelIdeal.sig)
local notation "gS1" => (⟨6, by decide⟩ : DmaSem Cert.KernelIdeal.sig)
local notation "wS0" => (⟨7, by decide⟩ : DmaSem Cert.KernelIdeal.sig)
local notation "wS1" => (⟨8, by decide⟩ : DmaSem Cert.KernelIdeal.sig)
local notation "pS" => (⟨9, by decide⟩ : DmaSem Cert.KernelIdeal.sig)

/-- a block of the result in hand, holding the table rows its words name -/
def outHeldV (d : Dev nD) (L : grid1.Coords) (ft : S1000x128.Idx → Elt F .f32) (g5 : S512.Idx → Elt F .i32) (t : Fin k1_t1_loop.trips) : sProp 𝕄 :=
  iprop(∃ fo, ((outAt L t).view.loc (tile d L) ↦[(outAt L t).view.set]{fullShare} fo) ∗ ⌜BlkOK (F := F) d L ft g5 t fo⌝)

/-- slot `w` busy with trip `t`'s write-back, whose block will hold the table rows its words name -/
def slotBusyV (d : Dev nD) (L : grid1.Coords) (ft : S1000x128.Idx → Elt F .f32) (g5 : S512.Idx → Elt F .i32) (w : DmaSem sig) (t : Fin k1_t1_loop.trips) : sProp 𝕄 :=
  iprop(∃ fo f, (Transfers.Flight (countersEmb (U := UU)) (tile d L) (SemLoc.dma w) (default : HIx 4) 131072
    iprop(((outAt L t).view.loc (tile d L) ↦[(outAt L t).view.set]{fullShare} fo)
      ∗ ((s2W).view.loc (tile d L) ↦[(crowsAt t).view.set]{fullShare} f))) ∗ ⌜BlkOK (F := F) d L ft g5 t fo⌝)

/-- what every trip keeps, the fetched list now at its known contents `g5` -/
def commonV (d : Dev nD) (L : grid1.Coords) (O : CellTallies nD τ sig (HIx 4)) (W : Waits sig (HIx 4)) (q : PosShare TreeShare)
    (ft : Buf (Elt F) ((tblW).view.loc (tile d L))) (g5 : Buf (Elt F) ((s0W).view.loc (tile d L))) : sProp 𝕄 :=
  iprop(Transfers.MayWaits (tile d L) (none : HIx 4) O
    ∗ ((tblW).view.loc (tile d L) ↦{q} ft)
    ∗ ((s0W).view.loc (tile d L) ↦{fullShare} g5)
    ∗ (∃ r, (s1W).view.loc (tile d L) ↦{fullShare} r)
    ∗ semVal (tile d L, SemLoc.dma gS0) 0 ∗ semVal (tile d L, SemLoc.dma gS1) 0
    ∗ ∃ W', ⌜∀ p ∈ W', p ∈ W ∨ p.2 = none⌝ ∗ owes (tile d L) O W')

def invV0 (d : Dev nD) (L : grid1.Coords) (O : CellTallies nD τ sig (HIx 4)) (W : Waits sig (HIx 4)) (q : PosShare TreeShare)
    (ft : Buf (Elt F) ((tblW).view.loc (tile d L))) (g5 : Buf (Elt F) ((s0W).view.loc (tile d L))) : sProp 𝕄 :=
  iprop(commonV d L O W q ft g5 ∗ slotFree d L wS0 t1 ∗ slotFree d L wS1 t0 ∗ outHeld d L t0 ∗ outHeld d L t1 ∗ outHeld d L t2 ∗ outHeld d L t3)
def invV1 (d : Dev nD) (L : grid1.Coords) (O : CellTallies nD τ sig (HIx 4)) (W : Waits sig (HIx 4)) (q : PosShare TreeShare)
    (ft : Buf (Elt F) ((tblW).view.loc (tile d L))) (g5 : Buf (Elt F) ((s0W).view.loc (tile d L))) : sProp 𝕄 :=
  iprop(commonV d L O W q ft g5 ∗ slotBusyV d L ft g5 wS0 t0 ∗ slotFree d L wS1 t0 ∗ outHeld d L t1 ∗ outHeld d L t2 ∗ outHeld d L t3)
def invV2 (d : Dev nD) (L : grid1.Coords) (O : CellTallies nD τ sig (HIx 4)) (W : Waits sig (HIx 4)) (q : PosShare TreeShare)
    (ft : Buf (Elt F) ((tblW).view.loc (tile d L))) (g5 : Buf (Elt F) ((s0W).view.loc (tile d L))) : sProp 𝕄 :=
  iprop(commonV d L O W q ft g5 ∗ slotBusyV d L ft g5 wS0 t0 ∗ slotBusyV d L ft g5 wS1 t1 ∗ outHeld d L t2 ∗ outHeld d L t3)
def invV3 (d : Dev nD) (L : grid1.Coords) (O : CellTallies nD τ sig (HIx 4)) (W : Waits sig (HIx 4)) (q : PosShare TreeShare)
    (ft : Buf (Elt F) ((tblW).view.loc (tile d L))) (g5 : Buf (Elt F) ((s0W).view.loc (tile d L))) : sProp 𝕄 :=
  iprop(commonV d L O W q ft g5 ∗ slotBusyV d L ft g5 wS0 t2 ∗ slotBusyV d L ft g5 wS1 t1 ∗ outHeldV d L ft g5 t0 ∗ outHeld d L t3)
def invV4 (d : Dev nD) (L : grid1.Coords) (O : CellTallies nD τ sig (HIx 4)) (W : Waits sig (HIx 4)) (q : PosShare TreeShare)
    (ft : Buf (Elt F) ((tblW).view.loc (tile d L))) (g5 : Buf (Elt F) ((s0W).view.loc (tile d L))) : sProp 𝕄 :=
  iprop(commonV d L O W q ft g5 ∗ slotBusyV d L ft g5 wS0 t2 ∗ slotBusyV d L ft g5 wS1 t3 ∗ outHeldV d L ft g5 t0 ∗ outHeldV d L ft g5 t1)
/-- the outer loop's invariant before trip `k`, with contents -/
def invOV (d : Dev nD) (L : grid1.Coords) (O : CellTallies nD τ sig (HIx 4)) (W : Waits sig (HIx 4)) (q : PosShare TreeShare)
    (ft : Buf (Elt F) ((tblW).view.loc (tile d L))) (g5 : Buf (Elt F) ((s0W).view.loc (tile d L))) (k : Nat) (_ : PUnit) : sProp 𝕄 :=
  match k with
  | 0 => invV0 d L O W q ft g5
  | 1 => invV1 d L O W q ft g5
  | 2 => invV2 d L O W q ft g5
  | 3 => invV3 d L O W q ft g5
  | _ => invV4 d L O W q ft g5

/-- the compaction loop's invariant with contents: the gathered rows fixed at `R6`; rows below `j` of trip `t`'s
    half of the compact rows (held as all but trip `o`'s half) agree with them -/
def invCV (d : Dev nD) (L : grid1.Coords) (t o : Fin k1_t1_loop.trips) (R6 : Buf (Elt F) ((s1W).view.loc (tile d L))) (j : Nat) (_ : PUnit) : sProp 𝕄 :=
  iprop(((s1W).view.loc (tile d L) ↦{fullShare} R6)
    ∗ ∃ f, ((s2W).view.loc (tile d L) ↦[Finset.univ \ (crowsAt o).view.set]{fullShare} f) ∗ ⌜Compacted (F := F) t R6 f j⌝)

/-- the fetched list: the subcore's slice of the token words, as the index scratch holds it -/
abbrev fetched (d : Dev nD) (L : grid1.Coords) (fi : Buf (Elt F) ((idxSl L).view.loc (tile d L))) : Buf (Elt F) ((s0W).view.loc (tile d L)) :=
  (idxSl L).view.read (Elt F) fi

variable (d : Dev nD) (L : grid1.Coords)

set_option maxHeartbeats 1600000 in
/-- The second call's task, contents tracked: what is handed back is each block at the table rows named by the
    subcore's words (`BlkOK`), the words being the subcore's slice of the token list as fetched. -/
theorem tile_run1v (O : CellTallies nD τ sig (HIx 4)) (W : Waits sig (HIx 4)) (q : PosShare TreeShare)
    (ft : Buf (Elt F) ((tblW).view.loc (tile d L))) (fi : Buf (Elt F) ((idxSl L).view.loc (tile d L)))
    (hfi : ∀ y, (fi y).toNat < 1000) :
    iprop(Transfers.MayWaits (tile d L) (none : HIx 4) O
        ∗ ((tblW).view.loc (tile d L) ↦{q} ft)
        ∗ ((idxSl L).view.loc (tile d L) ↦[(idxSl L).view.set]{fullShare} fi)
        ∗ (∃ f5, (s0W).view.loc (tile d L) ↦{fullShare} f5)
        ∗ (∃ r, (s1W).view.loc (tile d L) ↦{fullShare} r)
        ∗ crowsHeld (F := F) d L t1 ∗ crowsHeld (F := F) d L t0
        ∗ outHeld (F := F) d L t0 ∗ outHeld (F := F) d L t1 ∗ outHeld (F := F) d L t2 ∗ outHeld (F := F) d L t3
        ∗ semVal (tile d L, SemLoc.dma gS0) 0 ∗ semVal (tile d L, SemLoc.dma gS1) 0
        ∗ semVal (tile d L, SemLoc.dma wS0) 0 ∗ semVal (tile d L, SemLoc.dma wS1) 0
        ∗ semVal (tile d L, SemLoc.dma pS) 0
        ∗ owes (tile d L) O W)
      ⊢ wp frame (wpE (defs₀ (F := F)) 𝒱₀ (tile d L) none) Set.univ
          (cc1_gather_kernel L tblW (Memref.isWhole_whole _) idxW (Memref.isWhole_whole _) outW (Memref.isWhole_whole _)
            s0W (Memref.isWhole_whole _) s1W (Memref.isWhole_whole _) s2W (Memref.isWhole_whole _) cc1_scratch3 cc1_scratch4 cc1_scoped0)
          (fun _ => iprop(((tblW).view.loc (tile d L) ↦{q} ft)
            ∗ ((idxSl L).view.loc (tile d L) ↦[(idxSl L).view.set]{fullShare} fi)
            ∗ (∃ f5, (s0W).view.loc (tile d L) ↦{fullShare} f5)
            ∗ (∃ r, (s1W).view.loc (tile d L) ↦{fullShare} r)
            ∗ (∃ f, (s2W).view.loc (tile d L) ↦[(crowsAt t2).view.set]{fullShare} f)
            ∗ (∃ f, (s2W).view.loc (tile d L) ↦[(crowsAt t3).view.set]{fullShare} f)
            ∗ outHeldV (F := F) d L ft (fetched d L fi) t0 ∗ outHeldV (F := F) d L ft (fetched d L fi) t1 ∗ outHeldV (F := F) d L ft (fetched d L fi) t2 ∗ outHeldV (F := F) d L ft (fetched d L fi) t3
            ∗ semVal (tile d L, SemLoc.dma gS0) 0 ∗ semVal (tile d L, SemLoc.dma gS1) 0
            ∗ semVal (tile d L, SemLoc.dma wS0) 0 ∗ semVal (tile d L, SemLoc.dma wS1) 0
            ∗ semVal (tile d L, SemLoc.dma pS) 0
            ∗ ∃ W', ⌜∀ p ∈ W', p ∈ W ∨ p.2 = none⌝ ∗ owes (tile d L) O W')) := by
  rw [cc1_gather_kernel_eq_skeleton]; unfold cc1_gather_kernel_skel
  iintro ⟨Hmw, Ht, Hi, ⟨%f5, H5⟩, H6, Hc0, Hc1, Ho0, Ho1, Ho2, Ho3, Hg0, Hg1, Hw0, Hw1, Hp, HO⟩
  sl_exec
  have e5 : View.write (Elt F) (s0W).view f5 (tile_run1v.sl.dma0 d L fi) Finset.univ = (fetched d L fi) := by
    rw [View.write_whole_univ]; rfl
  rw [e5]
  have h5 : InRange (F := F) d L (fetched d L fi) := by
    intro o h x
    rw [size_tbl]
    simp only [View.read_apply]
    exact hfi _
  sl_for (invOV d L O W q ft (fetched d L fi)) $$ [Hmw Ht H5 H6 Hc0 Hc1 Ho0 Ho1 Ho2 Ho3 Hg0 Hg1 Hw0 Hw1 HO]
  case region =>
    intro k u
    obtain ⟨k, hk⟩ := k
    match k, hk with
    | k + 4, hk => exact absurd (Nat.lt_of_lt_of_le hk k1_t1_abs.2.1) (by omega)
    | 0, hk =>
      have k1_h1 : ¬ k1_cond1 t0 = 1#1 := by decide
      change invV0 d L O W q ft (fetched d L fi) ⊢ wp frame (wpE (defs₀ (F := F)) 𝒱₀ (tile d L) none) Set.univ (tile_run1v.sl.prog.body_1 L t0 u) (fun _ => invV1 d L O W q ft (fetched d L fi))
      unfold invV0 commonV slotFree outHeld crowsHeld
      iintro ⟨⟨Hmw, Ht, H5, H6, Hg0, Hg1, %W', %hW', HO⟩, ⟨Hw0, Hc⟩, Hs1, ⟨%o0, Ho0⟩, Ho1, Ho2, Ho3⟩
      icases H6 with ⟨%r6, H6⟩
      icases Hc with ⟨%c0, Hc⟩
      have hin := h5
      have hinT : ∀ x, (((s0W).slice (Rect.unit (s := S512) ![0] S128.size inb_w0) (fun _ => rfl)).view.read (Elt F) (fetched d L fi) x).toNat
          < S1000x128.size gathers_S1000x128_S128x128.axis := hin ![0] inb_w0
      have hinK : ∀ x, ((offsAt t0).view.read (Elt F) (fetched d L fi) x).toNat < S1000x128.size gathers_S1000x128_S128x128.axis := hin _ _
      sl_exec
      sl_for (invCV (F := F) d L t0 t1 (View.write (Elt F) (rowsAt t0).view r6 (tile_run1v.sl.gather0 d L ft fi hinK) Finset.univ)) $$ [H6 Hc]
      case region =>
        intro j _
        unfold invCV
        iintro ⟨H6, ⟨%f, Hc, %hC⟩⟩
        sl_exec
        sl_step
        isplitl [H6]; · iexact H6
        iexists _; isplitl [Hc]; · iexact Hc
        ipureintro
        exact compacted_step t0 j _ f hC _ _ (fun e => (pay1_at _ e).trans (load_lo_at _ t0 j e)) (fun e => (pay2_at _ e).trans (load_hi_at _ t0 j e))
      · unfold invCV
        isplitl [H6]; · iexact H6
        iexists _; isplitl [Hc]; · iexact Hc
        ipureintro; exact compacted_zero t0 _ _
      iintro %_ HI
      unfold invCV
      icases HI with ⟨H6, ⟨%f, Hc, %hC⟩⟩
      have hC128 : Compacted (F := F) t0 (View.write (Elt F) (rowsAt t0).view r6 (tile_run1v.sl.gather0 d L ft fi hinK) Finset.univ) f 128 := hC
      sl_exec
      sl_step
      iclear Hc
      have hblk : BlkOK (F := F) d L ft (fetched d L fi) t0 ((outAt L t0).view.writes (Elt F) o0 [⟨Rect.whole S128x32, tile_run1v.sl.dma0_1 d L f⟩]) :=
        blk_of_compacted d L ft (fetched d L fi) t0 _ _ hinK r6 f o0 hC128
      unfold invV1 commonV slotBusyV slotFree outHeld crowsHeld
      isplitl [Hmw Ht H5 H6 Hg0 Hg1 HO]
      · isplitl [Hmw]; · iexact Hmw
        isplitl [Ht]; · iexact Ht
        isplitl [H5]; · iexact H5
        isplitl [H6]; · iexists _; iexact H6
        isplitl [Hg0]; · iexact Hg0
        isplitl [Hg1]; · iexact Hg1
        iexists (insert (SemLoc.dma gS0, (default : HIx 4)) W'); isplitr
        · ipureintro; intro p hp
          rcases Finset.mem_insert.mp hp with hp | hp
          · exact Or.inr (by subst hp; rfl)
          · exact hW' p hp
        · iexact HO
      isplitl [Hw0]
      · iexists _, _; isplitl [Hw0]
        · iexact Hw0
        · ipureintro; exact hblk
      isplitl [Hs1]; · iexact Hs1
      isplitl [Ho1]; · iexact Ho1
      isplitl [Ho2]; · iexact Ho2
      iexact Ho3
    | 1, hk =>
      have k1_h1 : ¬ k1_cond1 t1 = 1#1 := by decide
      change invV1 d L O W q ft (fetched d L fi) ⊢ wp frame (wpE (defs₀ (F := F)) 𝒱₀ (tile d L) none) Set.univ (tile_run1v.sl.prog.body_1 L t1 u) (fun _ => invV2 d L O W q ft (fetched d L fi))
      unfold invV1 commonV slotBusyV slotFree outHeld crowsHeld
      iintro ⟨⟨Hmw, Ht, H5, H6, Hg0, Hg1, %W', %hW', HO⟩, Hb0, ⟨Hw1, Hc⟩, ⟨%o1, Ho1⟩, Ho2, Ho3⟩
      icases H6 with ⟨%r6, H6⟩
      icases Hc with ⟨%c0, Hc⟩
      have hin := h5
      have hinT : ∀ x, (((s0W).slice (Rect.unit (s := S512) ![128] S128.size inb_w128) (fun _ => rfl)).view.read (Elt F) (fetched d L fi) x).toNat
          < S1000x128.size gathers_S1000x128_S128x128.axis := hin ![128] inb_w128
      have hinK : ∀ x, ((offsAt t1).view.read (Elt F) (fetched d L fi) x).toNat < S1000x128.size gathers_S1000x128_S128x128.axis := hin _ _
      sl_exec
      sl_for (invCV (F := F) d L t1 t0 (View.write (Elt F) (rowsAt t1).view r6 (tile_run1v.sl.gather0_1 d L ft fi hinK) Finset.univ)) $$ [H6 Hc]
      case region =>
        intro j _
        unfold invCV
        iintro ⟨H6, ⟨%f, Hc, %hC⟩⟩
        sl_exec
        sl_step
        isplitl [H6]; · iexact H6
        iexists _; isplitl [Hc]; · iexact Hc
        ipureintro
        exact compacted_step t1 j _ f hC _ _ (fun e => (pay1_at _ e).trans (load_lo_at _ t1 j e)) (fun e => (pay2_at _ e).trans (load_hi_at _ t1 j e))
      · unfold invCV
        isplitl [H6]; · iexact H6
        iexists _; isplitl [Hc]; · iexact Hc
        ipureintro; exact compacted_zero t1 _ _
      iintro %_ HI
      unfold invCV
      icases HI with ⟨H6, ⟨%f, Hc, %hC⟩⟩
      have hC128 : Compacted (F := F) t1 (View.write (Elt F) (rowsAt t1).view r6 (tile_run1v.sl.gather0_1 d L ft fi hinK) Finset.univ) f 128 := hC
      sl_exec
      sl_step
      iclear Hc
      have hblk : BlkOK (F := F) d L ft (fetched d L fi) t1 ((outAt L t1).view.writes (Elt F) o1 [⟨Rect.whole S128x32, tile_run1v.sl.dma0_2 d L f⟩]) :=
        blk_of_compacted d L ft (fetched d L fi) t1 _ _ hinK r6 f o1 hC128
      unfold invV2 commonV slotBusyV outHeld
      isplitl [Hmw Ht H5 H6 Hg0 Hg1 HO]
      · isplitl [Hmw]; · iexact Hmw
        isplitl [Ht]; · iexact Ht
        isplitl [H5]; · iexact H5
        isplitl [H6]; · iexists _; iexact H6
        isplitl [Hg0]; · iexact Hg0
        isplitl [Hg1]; · iexact Hg1
        iexists (insert (SemLoc.dma gS1, (default : HIx 4)) W'); isplitr
        · ipureintro; intro p hp
          rcases Finset.mem_insert.mp hp with hp | hp
          · exact Or.inr (by subst hp; rfl)
          · exact hW' p hp
        · iexact HO
      isplitl [Hb0]; · iexact Hb0
      isplitl [Hw1]
      · iexists _, _; isplitl [Hw1]
        · iexact Hw1
        · ipureintro; exact hblk
      isplitl [Ho2]; · iexact Ho2
      iexact Ho3
    | 2, hk =>
      have k1_h1 : k1_cond1 t2 = 1#1 := by decide
      change invV2 d L O W q ft (fetched d L fi) ⊢ wp frame (wpE (defs₀ (F := F)) 𝒱₀ (tile d L) none) Set.univ (tile_run1v.sl.prog.body_1 L t2 u) (fun _ => invV3 d L O W q ft (fetched d L fi))
      unfold invV2 commonV slotBusyV outHeld
      iintro ⟨⟨Hmw, Ht, H5, H6, Hg0, Hg1, %W', %hW', HO⟩, ⟨%fo0, %fc0, Hw0, %hb0⟩, Hb1, ⟨%o2, Ho2⟩, Ho3⟩
      icases H6 with ⟨%r6, H6⟩
      have hin := h5
      have hinT : ∀ x, (((s0W).slice (Rect.unit (s := S512) ![256] S128.size inb_w256) (fun _ => rfl)).view.read (Elt F) (fetched d L fi) x).toNat
          < S1000x128.size gathers_S1000x128_S128x128.axis := hin ![256] inb_w256
      have hinK : ∀ x, ((offsAt t2).view.read (Elt F) (fetched d L fi) x).toNat < S1000x128.size gathers_S1000x128_S128x128.axis := hin _ _
      sl_exec
      ihave Hc := (Entails.of_eq (show ((s2W).view.loc (tile d L) ↦[(crowsAt t0).view.set]{fullShare} fc0 : sProp 𝕄)
          = ((s2W).view.loc (tile d L) ↦[Finset.univ \ (crowsAt t1).view.set]{fullShare} fc0) from by rw [crows_even t0 (by decide)])) $$ Hw0_src
      sl_for (invCV (F := F) d L t2 t1 (View.write (Elt F) (rowsAt t2).view r6 (tile_run1v.sl.gather0_2 d L ft fi hinK) Finset.univ)) $$ [H6 Hc]
      case region =>
        intro j _
        unfold invCV
        iintro ⟨H6, ⟨%f, Hc, %hC⟩⟩
        sl_exec
        sl_step
        isplitl [H6]; · iexact H6
        iexists _; isplitl [Hc]; · iexact Hc
        ipureintro
        exact compacted_step t2 j _ f hC _ _ (fun e => (pay1_at _ e).trans (load_lo_at _ t2 j e)) (fun e => (pay2_at _ e).trans (load_hi_at _ t2 j e))
      · unfold invCV
        isplitl [H6]; · iexact H6
        iexists _; isplitl [Hc]; · iexact Hc
        ipureintro; exact compacted_zero t2 _ _
      iintro %_ HI
      unfold invCV
      icases HI with ⟨H6, ⟨%f, Hc, %hC⟩⟩
      have hC128 : Compacted (F := F) t2 (View.write (Elt F) (rowsAt t2).view r6 (tile_run1v.sl.gather0_2 d L ft fi hinK) Finset.univ) f 128 := hC
      sl_exec
      sl_step
      iclear Hc
      have hblk : BlkOK (F := F) d L ft (fetched d L fi) t2 ((outAt L t2).view.writes (Elt F) o2 [⟨Rect.whole S128x32, tile_run1v.sl.dma0_3 d L f⟩]) :=
        blk_of_compacted d L ft (fetched d L fi) t2 _ _ hinK r6 f o2 hC128
      unfold invV3 commonV slotBusyV outHeldV outHeld
      isplitl [Hmw Ht H5 H6 Hg0 Hg1 HO]
      · isplitl [Hmw]; · iexact Hmw
        isplitl [Ht]; · iexact Ht
        isplitl [H5]; · iexact H5
        isplitl [H6]; · iexists _; iexact H6
        isplitl [Hg0]; · iexact Hg0
        isplitl [Hg1]; · iexact Hg1
        iexists (insert (SemLoc.dma gS0, (default : HIx 4)) (insert (SemLoc.dma wS0, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hw0]
      · iexists _, _; isplitl [Hw0]
        · iexact Hw0
        · ipureintro; exact hblk
      isplitl [Hb1]; · iexact Hb1
      isplitl [Hw0_dst]
      · iexists _; isplitl [Hw0_dst]
        · iexact Hw0_dst
        · ipureintro; exact hb0
      iexact Ho3
    | 3, hk =>
      have k1_h1 : k1_cond1 t3 = 1#1 := by decide
      change invV3 d L O W q ft (fetched d L fi) ⊢ wp frame (wpE (defs₀ (F := F)) 𝒱₀ (tile d L) none) Set.univ (tile_run1v.sl.prog.body_1 L t3 u) (fun _ => invV4 d L O W q ft (fetched d L fi))
      unfold invV3 commonV slotBusyV outHeldV outHeld
      iintro ⟨⟨Hmw, Ht, H5, H6, Hg0, Hg1, %W', %hW', HO⟩, Hb0, ⟨%fo1, %fc1, Hw1, %hb1⟩, Ho0, ⟨%o3, Ho3⟩⟩
      icases H6 with ⟨%r6, H6⟩
      have hin := h5
      have hinT : ∀ x, (((s0W).slice (Rect.unit (s := S512) ![384] S128.size inb_w384) (fun _ => rfl)).view.read (Elt F) (fetched d L fi) x).toNat
          < S1000x128.size gathers_S1000x128_S128x128.axis := hin ![384] inb_w384
      have hinK : ∀ x, ((offsAt t3).view.read (Elt F) (fetched d L fi) x).toNat < S1000x128.size gathers_S1000x128_S128x128.axis := hin _ _
      sl_exec
      ihave Hc := (Entails.of_eq (show ((s2W).view.loc (tile d L) ↦[(crowsAt t1).view.set]{fullShare} fc1 : sProp 𝕄)
          = ((s2W).view.loc (tile d L) ↦[Finset.univ \ (crowsAt t0).view.set]{fullShare} fc1) from by rw [crows_odd t1 (by decide)])) $$ Hw1_src
      sl_for (invCV (F := F) d L t3 t0 (View.write (Elt F) (rowsAt t3).view r6 (tile_run1v.sl.gather0_3 d L ft fi hinK) Finset.univ)) $$ [H6 Hc]
      case region =>
        intro j _
        unfold invCV
        iintro ⟨H6, ⟨%f, Hc, %hC⟩⟩
        sl_exec
        sl_step
        isplitl [H6]; · iexact H6
        iexists _; isplitl [Hc]; · iexact Hc
        ipureintro
        exact compacted_step t3 j _ f hC _ _ (fun e => (pay1_at _ e).trans (load_lo_at _ t3 j e)) (fun e => (pay2_at _ e).trans (load_hi_at _ t3 j e))
      · unfold invCV
        isplitl [H6]; · iexact H6
        iexists _; isplitl [Hc]; · iexact Hc
        ipureintro; exact compacted_zero t3 _ _
      iintro %_ HI
      unfold invCV
      icases HI with ⟨H6, ⟨%f, Hc, %hC⟩⟩
      have hC128 : Compacted (F := F) t3 (View.write (Elt F) (rowsAt t3).view r6 (tile_run1v.sl.gather0_3 d L ft fi hinK) Finset.univ) f 128 := hC
      sl_exec
      sl_step
      iclear Hc
      have hblk : BlkOK (F := F) d L ft (fetched d L fi) t3 ((outAt L t3).view.writes (Elt F) o3 [⟨Rect.whole S128x32, tile_run1v.sl.dma0_4 d L f⟩]) :=
        blk_of_compacted d L ft (fetched d L fi) t3 _ _ hinK r6 f o3 hC128
      unfold invV4 commonV slotBusyV outHeldV
      isplitl [Hmw Ht H5 H6 Hg0 Hg1 HO]
      · isplitl [Hmw]; · iexact Hmw
        isplitl [Ht]; · iexact Ht
        isplitl [H5]; · iexact H5
        isplitl [H6]; · iexists _; iexact H6
        isplitl [Hg0]; · iexact Hg0
        isplitl [Hg1]; · iexact Hg1
        iexists (insert (SemLoc.dma gS1, (default : HIx 4)) (insert (SemLoc.dma wS1, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hb0]; · iexact Hb0
      isplitl [Hw1]
      · iexists _, _; isplitl [Hw1]
        · iexact Hw1
        · ipureintro; exact hblk
      isplitl [Ho0]; · iexact Ho0
      iexists _; isplitl [Hw1_dst]
      · iexact Hw1_dst
      · ipureintro; exact hb1
  · -- before the first trip
    iapply (Entails.of_eq (show invV0 d L O W q ft (fetched d L fi) = invOV d L O W q ft (fetched d L fi) 0 PUnit.unit from rfl))
    unfold invV0 commonV slotFree outHeld crowsHeld
    isplitl [Hmw Ht H5 H6 Hg0 Hg1 HO]
    · isplitl [Hmw]; · iexact Hmw
      isplitl [Ht]; · iexact Ht
      isplitl [H5]; · iexact H5
      isplitl [H6]; · iexact H6
      isplitl [Hg0]; · iexact Hg0
      isplitl [Hg1]; · iexact Hg1
      iexists (insert (SemLoc.dma pS, (default : HIx 4)) W); isplitr
      · ipureintro; intro p hp
        rcases Finset.mem_insert.mp hp with hp | hp
        · exact Or.inr (by subst hp; rfl)
        · exact Or.inl hp
      · iexact HO
    isplitl [Hw0 Hc0]
    · isplitl [Hw0]; · iexact Hw0
      iexact Hc0
    isplitl [Hw1 Hc1]
    · isplitl [Hw1]; · iexact Hw1
      iexact Hc1
    isplitl [Ho0]; · iexact Ho0
    isplitl [Ho1]; · iexact Ho1
    isplitl [Ho2]; · iexact Ho2
    iexact Ho3
  -- after the loop: the last two write-backs
  iintro %acc HI
  ihave HI' := (Entails.of_eq (show invOV d L O W q ft (fetched d L fi) (Scf.trips k1_t1_loop.lb k1_t1_loop.ub k1_t1_loop.st) acc = invV4 d L O W q ft (fetched d L fi) from rfl)) $$ HI
  unfold invV4 commonV slotBusyV outHeldV
  icases HI' with ⟨⟨Hmw, Ht, H5, H6, Hg0, Hg1, %W', %hW', HO⟩, ⟨%foA, %fcA, Hw0, %hbA⟩, ⟨%foB, %fcB, Hw1, %hbB⟩, Ho0, Ho1⟩
  sl_exec
  sl_step
  isplitl [Ht]; · iexact Ht
  isplitl [Hi]; · iexact Hi
  isplitl [H5]; · iexists _; iexact H5
  isplitl [H6]; · iexact H6
  isplitl [Hw0_src]; · iexists _; iexact Hw0_src
  isplitl [Hw1_src]; · iexists _; iexact Hw1_src
  isplitl [Ho0]; · iexact Ho0
  isplitl [Ho1]; · iexact Ho1
  isplitl [Hw0_dst]
  · iexists _; isplitl [Hw0_dst]
    · iexact Hw0_dst
    · ipureintro; exact hbA
  isplitl [Hw1_dst]
  · iexists _; isplitl [Hw1_dst]
    · iexact Hw1_dst
    · ipureintro; exact hbB
  isplitl [Hg0]; · iexact Hg0
  isplitl [Hg1]; · iexact Hg1
  isplitl [Hw0]; · iexact Hw0
  isplitl [Hw1]; · iexact Hw1
  isplitl [Hp]; · iexact Hp
  iexists (insert (SemLoc.dma wS1, (default : HIx 4)) (insert (SemLoc.dma wS0, (default : HIx 4)) W')); isplitr
  · ipureintro; intro p hp
    rcases Finset.mem_insert.mp hp with hp | hp
    · exact Or.inr (by subst hp; rfl)
    rcases Finset.mem_insert.mp hp with hp | hp
    · exact Or.inr (by subst hp; rfl)
    · exact hW' p hp
  · iexact HO

end Cert.KernelIdeal.Hand.C1

end
-- ==== Proof.KernelIdeal.TileOblV1.lean ====
/-
  The second gather call's task as the launch theorem wants it, contents tracked: what a vector subcore hands back is
  its slice of the token words, unchanged, and each of its blocks of the result holding the table rows its words name.
  The run is `tile_run1v`; the subcore's scratch and semaphores are picked out and handed back as in the untracked
  obligation.
-/
import proofs.«203661_g84404697301628_cont_9to1_m_135_26_alg».proof.Proof.KernelIdeal.TileRunV1
import proofs.«203661_g84404697301628_cont_9to1_m_135_26_alg».proof.Proof.KernelIdeal.TileObl1
import proofs.«203661_g84404697301628_cont_9to1_m_135_26_alg».proof.Proof.PayV

noncomputable section

namespace Cert.KernelIdeal.Hand.C1

open Cert.KernelIdeal Cert.KernelIdeal.Gen Cert.KernelIdeal.Hand
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [hK : Cert.KernelIdeal.Facts] [FloatOps F]

local notation "𝕄" => MT nD τ sig (HIx 4) (Elt F) ℕ UU ℕ

local notation "tblW" => (Memref.whole Cert.KernelIdeal.main_v0_scv : Memref Cert.KernelIdeal.sig Kind.scVector Space.hbm Cert.KernelIdeal.S1000x128 EltTy.f32)
local notation "idxW" => (Memref.whole Cert.KernelIdeal.main_v7_scv : Memref Cert.KernelIdeal.sig Kind.scVector Space.hbm Cert.KernelIdeal.S16384 EltTy.i32)
local notation "outW" => (Memref.whole Cert.KernelIdeal.main_v8_scv : Memref Cert.KernelIdeal.sig Kind.scVector Space.hbm Cert.KernelIdeal.S1x16384x32 EltTy.f32)
local notation "s0W" => (Memref.whole Cert.KernelIdeal.cc1_scratch0 : Memref Cert.KernelIdeal.sig Kind.scVector Space.vmem Cert.KernelIdeal.S512 EltTy.i32)
local notation "s1W" => (Memref.whole Cert.KernelIdeal.cc1_scratch1 : Memref Cert.KernelIdeal.sig Kind.scVector Space.vmem Cert.KernelIdeal.S2x128x128 EltTy.f32)
local notation "s2W" => (Memref.whole Cert.KernelIdeal.cc1_scratch2 : Memref Cert.KernelIdeal.sig Kind.scVector Space.vmem Cert.KernelIdeal.S2x128x32 EltTy.f32)

/-- what subcore `(c, i)` hands back for the second call besides the table: its slice of the token words, at the words
    `wd`, and its blocks of the result, each holding the table rows (of the table `tbv`) its words name -/
def Rtd1 (tbv : (d : Dev nD) → Buf (Elt F) (tblLoc d)) (wd : (d : Dev nD) → Buf (Elt F) (idxLoc1 d)) (d : Dev nD) (c : Fin 2) (i : Fin 16) : sProp 𝕄 :=
  iprop(((idxSl (coords1 c i)).view.loc (tile d (coords1 c i)) ↦[(idxSl (coords1 c i)).view.set]{fullShare} wd d)
    ∗ outHeldV (F := F) d (coords1 c i) (tbv d) (fetched d (coords1 c i) (wd d)) t0
    ∗ outHeldV (F := F) d (coords1 c i) (tbv d) (fetched d (coords1 c i) (wd d)) t1
    ∗ outHeldV (F := F) d (coords1 c i) (tbv d) (fetched d (coords1 c i) (wd d)) t2
    ∗ outHeldV (F := F) d (coords1 c i) (tbv d) (fetched d (coords1 c i) (wd d)) t3)

section Tile

variable (d : Dev nD) (L : grid1.Coords)

/-- The task on one vector subcore with contents tracked, in the launch theorem's resources: the blocks go in at some
    contents and come back holding the table rows the subcore's words name. -/
theorem tile_body1v (hF : (K (F := F)).Facts) (tb : (d : Dev nD) → Buf (Elt F) (tblLoc d)) (wd : (d : Dev nD) → Buf (Elt F) (idxLoc1 d))
    (hwd : ∀ d y, (wd d y).toNat < 1000) (q : PosShare TreeShare)
    (lv : GSem nD τ sig → HIx 4 → ℕ) (hlv : (K (F := F)).Refines lv)
    (O : CellTallies nD τ sig (HIx 4)) (W : Waits sig (HIx 4)) (hO : ∀ g, O g none = 0) :
    iprop(levAts (K (F := F)).L lv ∗ emp
        ∗ ((tblLoc d ↦{q} tb d)
            ∗ ((idxSl L).view.loc (tile d L) ↦[(idxSl L).view.set]{fullShare} wd d)
            ∗ outHeld (F := F) d L t0 ∗ outHeld (F := F) d L t1 ∗ outHeld (F := F) d L t2 ∗ outHeld (F := F) d L t3)
        ∗ scopedBufs (tile d L) ∗ scopedSems0 (tile d L) ∗ owes (tile d L) O W)
      ⊢ wp frame (wpE (defs₀ (F := F)) 𝒱₀ (tile d L) none) Set.univ
          (cc1_gather_kernel L tblW (Memref.isWhole_whole _) idxW (Memref.isWhole_whole _) outW (Memref.isWhole_whole _)
            s0W (Memref.isWhole_whole _) s1W (Memref.isWhole_whole _) s2W (Memref.isWhole_whole _) cc1_scratch3 cc1_scratch4 cc1_scoped0)
          fun _ => iprop(((tblLoc d ↦{q} tb d)
            ∗ ((idxSl L).view.loc (tile d L) ↦[(idxSl L).view.set]{fullShare} wd d)
            ∗ outHeldV (F := F) d L (tb d) (fetched d L (wd d)) t0
            ∗ outHeldV (F := F) d L (tb d) (fetched d L (wd d)) t1
            ∗ outHeldV (F := F) d L (tb d) (fetched d L (wd d)) t2
            ∗ outHeldV (F := F) d L (tb d) (fetched d L (wd d)) t3)
            ∗ scopedBufs (tile d L) ∗ scopedSems0 (tile d L)
            ∗ ∃ W', ⌜∀ p ∈ W', p ∈ W ∨ p.2 = none⌝ ∗ owes (tile d L) O W') := by
  rw [(K (F := F)).scopedBufs_V hF d (cV L) (jV L), SparseCore.Cfg.scopedSems0_V (Val := Elt F) d (cV L) (jV L), ownSems0_V1, ownBufs_V1]
  iintro ⟨#Hlv, -, ⟨Ht, Hi, Ho0, Ho1, Ho2, Ho3⟩, ⟨H5, H6, ⟨%f7, H7⟩, Hbufs⟩, ⟨Hg0, Hg1, Hw0, Hw1, Hp, Hsems⟩, HO⟩
  ihave Hmw := ((K (F := F)).mayWaits_none (thr := tile d L) hO lv hlv) $$ Hlv
  ihave Hc := (crows_split (F := F) d L f7) $$ H7
  icases Hc with ⟨Hc1, Hc0⟩
  iapply (wp_wand_r frame (wpE (defs₀ (F := F)) 𝒱₀ (tile d L) none) Set.univ)
  isplitl [Hmw Ht Hi H5 H6 Hc0 Hc1 Ho0 Ho1 Ho2 Ho3 Hg0 Hg1 Hw0 Hw1 Hp HO]
  · iapply (tile_run1v (F := F) d L O W q (tb d) (wd d) (hwd d))
    isplitl [Hmw]; · iexact Hmw
    isplitl [Ht]; · iexact Ht
    isplitl [Hi]; · iexact Hi
    isplitl [H5]; · iexact H5
    isplitl [H6]; · iexact H6
    isplitl [Hc1]; · unfold crowsHeld; iexists _; iexact Hc1
    isplitl [Hc0]; · unfold crowsHeld; iexists _; iexact Hc0
    isplitl [Ho0]; · iexact Ho0
    isplitl [Ho1]; · iexact Ho1
    isplitl [Ho2]; · iexact Ho2
    isplitl [Ho3]; · iexact Ho3
    isplitl [Hg0]; · iexact Hg0
    isplitl [Hg1]; · iexact Hg1
    isplitl [Hw0]; · iexact Hw0
    isplitl [Hw1]; · iexact Hw1
    isplitl [Hp]; · iexact Hp
    iexact HO
  · iintro %a ⟨Ht, Hi, H5, H6, ⟨%c2, Hc2⟩, ⟨%c3, Hc3⟩, Ho0, Ho1, Ho2, Ho3, Hg0, Hg1, Hw0, Hw1, Hp, HO⟩
    ihave H7 := (crows_join (F := F) d L c2 c3) $$ [Hc2 Hc3]
    · isplitl [Hc2]; · iexact Hc2
      iexact Hc3
    isplitl [Ht Hi Ho0 Ho1 Ho2 Ho3]
    · isplitl [Ht]; · iexact Ht
      isplitl [Hi]; · iexact Hi
      isplitl [Ho0]; · iexact Ho0
      isplitl [Ho1]; · iexact Ho1
      isplitl [Ho2]; · iexact Ho2
      iexact Ho3
    isplitl [H5 H6 H7 Hbufs]
    · isplitl [H5]; · iexact H5
      isplitl [H6]; · iexact H6
      isplitl [H7]; · iexact H7
      iexact Hbufs
    isplitl [Hg0 Hg1 Hw0 Hw1 Hp Hsems]
    · isplitl [Hg0]; · iexact Hg0
      isplitl [Hg1]; · iexact Hg1
      isplitl [Hw0]; · iexact Hw0
      isplitl [Hw1]; · iexact Hw1
      isplitl [Hp]; · iexact Hp
      iexact Hsems
    iexact HO

end Tile

/-- The second call's task obligation with contents tracked: handed `Rs1`, the subcore hands back `Rtd1`. -/
theorem tileOblV1 (hF : (K (F := F)).Facts) (tb : (d : Dev nD) → Buf (Elt F) (tblLoc d)) (Rgo Rtd : Fin 4 → Dev nD → Fin 2 → Fin 16 → sProp 𝕄)
    (wd : (d : Dev nD) → Buf (Elt F) (idxLoc1 d)) (hwd : ∀ d y, (wd d y).toNat < 1000)
    (hgo : ∀ d c i, Rgo 1 d c i = Rs1 wd d c i) (htd : ∀ d c i, Rtd 1 d c i = Rtd1 tb wd d c i)
    (lv : GSem nD τ sig → HIx 4 → ℕ) (hlv : (K (F := F)).Refines lv) :
    (K (F := F)).TileObl (D (F := F)) 𝒱 (PV tb Rgo Rtd) v₀ 1 lv := by
  intro d c i O W hO _ _
  simp only [show (PV (F := F) tb Rgo Rtd).ox = fun _ _ => 0 from rfl, add_zero]
  change iprop(levAts _ lv ∗ emp ∗ ((tblLoc d ↦{tileShare (Fin.cast (nCore_eq 1) c) (Fin.cast (nSub_eq 1) i)} tb d)
        ∗ Rgo 1 d (Fin.cast (nCore_eq 1) c) (Fin.cast (nSub_eq 1) i)) ∗ _ ∗ _ ∗ _)
    ⊢ wp _ _ _ (Pipeline.liftProg (defs₀ (F := F) (.scVector ((K (F := F)).core 1 c) ((K (F := F)).sub 1 i)) 1 ()))
        (fun _ => iprop(((tblLoc d ↦{tileShare (Fin.cast (nCore_eq 1) c) (Fin.cast (nSub_eq 1) i)} tb d)
          ∗ Rtd 1 d (Fin.cast (nCore_eq 1) c) (Fin.cast (nSub_eq 1) i)) ∗ _ ∗ _ ∗ _))
  rw [hgo, htd]
  refine BI.Entails.trans ?_ (Pipeline.wp_liftProg (D (F := F)) (Pipeline.defs_kernel pcfgs defs₀) 𝒱₀ _ Set.univ none _ _)
  have hc : ((K (F := F)).core 1 c).val < grid1.bound 0 ∧ ((K (F := F)).sub 1 i).val < grid1.bound 1 := ⟨c.isLt, i.isLt⟩
  rw [defs₀_vector1]; simp only [SparseCore.onTile, hc, and_self, ↓reduceDIte]
  unfold Rs1 Rtd1
  exact (tile_body1v (F := F) d (coords1 ⟨_, hc.1⟩ ⟨_, hc.2⟩) hF tb wd hwd _ lv hlv O W hO).trans (wp_mono frame _ _ fun _ => obl_post)

end Cert.KernelIdeal.Hand.C1

end
-- ==== Proof.KernelIdeal.TileValue2.lean ====
/-
  Values in the third gather call's task: where the entries of a slot sit, and what the gathered-rows scratch holds
  after a gather.
-/
import proofs.«203661_g84404697301628_cont_9to1_m_135_26_alg».proof.Proof.KernelIdeal.GatherValue
import proofs.«203661_g84404697301628_cont_9to1_m_135_26_alg».proof.Proof.Gen.KernelIdeal.Skeleton
import Idealize.ShloMosaic.Lib.Pipeline.Value
import Idealize.ShloMosaic.Lib.Writes

noncomputable section

namespace Cert.KernelIdeal.Hand.C2

open Cert.KernelIdeal Cert.KernelIdeal.Gen Cert.KernelIdeal.Hand
open Idealize.ShloMosaic Idealize.ShloMosaic.ValueIdx

variable {F : FTy → Type} [hK : Cert.KernelIdeal.Facts]

local notation "s1W" => (Memref.whole Cert.KernelIdeal.cc2_scratch1 : Memref Cert.KernelIdeal.sig Kind.scVector Space.vmem Cert.KernelIdeal.S2x128x128 EltTy.f32)

/-- trip `t`'s half of the gathered-rows scratch -/
abbrev rowsAt (t : Fin k2_t1_loop.trips) : Memref sig .scVector .vmem S128x128 .f32 :=
  ((s1W).slice (Rect.unit (s := S2x128x128) (k2_off5 t) S1x128x128.size (k2_off5_inb t)) (fun _ => rfl)).squeeze S128x128 squeezes_S1x128x128_S128x128

/-- dropping the unit axis: entry `(r, c)` of a [128,128] block is entry `(0, r, c)` of the [1,128,128] one -/
theorem squeeze_idx (h : S128x128.numel = S1x128x128.numel) (r c : Fin 128) :
    Shape.reshapeEquiv h (ix2 r c) = (ix3 (0 : Fin 1) r c : S1x128x128.Idx) := by
  refine Shape.reshapeEquiv_eq_of_rowMajor h ?_
  rw [Shape.rowMajor_val_three, Shape.rowMajor_val_two]
  show ((0 : Fin 1).val * 128 + r.val) * 128 + c.val = r.val * 128 + c.val
  simp

/-- entry `(r, c)` of trip `t`'s half sits at `(t mod 2, r, c)` of the scratch -/
theorem rowsAt_emb (t : Fin k2_t1_loop.trips) (r c : Fin 128) :
    (rowsAt t).view.emb (ix2 r c) = (ix3 (⟨t.val % 2, Nat.mod_lt _ (by decide)⟩ : Fin 2) r c : S2x128x128.Idx) := by
  show (Rect.unit (s := S2x128x128) (k2_off5 t) S1x128x128.size (k2_off5_inb t)).emb (Shape.reshapeEquiv _ (ix2 r c)) = _
  rw [squeeze_idx]
  funext a
  apply Fin.ext
  match a with
  | ⟨0, _⟩ => show k2_off5 t 0 + 1 * (0 : Fin 1).val = t.val % 2; rw [k2_off5_eq]; rfl
  | ⟨1, _⟩ => show k2_off5 t 1 + 1 * r.val = r.val; rw [k2_off5_eq]; show 0 + 1 * r.val = r.val; omega
  | ⟨2, _⟩ => show k2_off5 t 2 + 1 * c.val = c.val; rw [k2_off5_eq]; show 0 + 1 * c.val = c.val; omega

/-- after a gather into trip `t`'s half, the scratch at `(t mod 2, r, c)` holds the gathered entry `(r, c)` -/
theorem rows_after_gather (t : Fin k2_t1_loop.trips) (r6 : S2x128x128.Idx → Elt F .f32) (p : S128x128.Idx → Elt F .f32) (r c : Fin 128) :
    (rowsAt t).view.write (Elt F) r6 p Finset.univ (ix3 (⟨t.val % 2, Nat.mod_lt _ (by decide)⟩ : Fin 2) r c) = p (ix2 r c) := by
  rw [← rowsAt_emb t r c, View.write_emb_of_mem _ _ (Finset.mem_univ _)]
  rfl

/-- the two reshapes around a 16-lane vector change nothing at an entry -/
theorem pay1_at (v : Vec F S1x1x16 .f32) (e : Fin 16) :
    k2_pay1 v (ix3 (0 : Fin 1) (0 : Fin 1) e) = v (ix3 (0 : Fin 1) (0 : Fin 1) e) := by
  unfold k2_pay1
  show shapeCast S1x1x16 (shapeCast S16 v shapeCasts_S1x1x16_S16) shapeCasts_S16_S1x1x16 (ix3 (0 : Fin 1) (0 : Fin 1) e) = _
  rw [shapeCast_apply _ _ (ix3 (0 : Fin 1) (0 : Fin 1) e) (ix1 e) (by rw [Shape.rowMajor_val_one, Shape.rowMajor_val_three]; simp),
    shapeCast_apply _ _ (ix1 e) (ix3 (0 : Fin 1) (0 : Fin 1) e) (by rw [Shape.rowMajor_val_one, Shape.rowMajor_val_three]; simp)]

theorem pay2_at (v : Vec F S1x1x16 .f32) (e : Fin 16) :
    k2_pay2 v (ix3 (0 : Fin 1) (0 : Fin 1) e) = v (ix3 (0 : Fin 1) (0 : Fin 1) e) := by
  unfold k2_pay2
  show shapeCast S1x1x16 (shapeCast S16 v shapeCasts_S1x1x16_S16) shapeCasts_S16_S1x1x16 (ix3 (0 : Fin 1) (0 : Fin 1) e) = _
  rw [shapeCast_apply _ _ (ix3 (0 : Fin 1) (0 : Fin 1) e) (ix1 e) (by rw [Shape.rowMajor_val_one, Shape.rowMajor_val_three]; simp),
    shapeCast_apply _ _ (ix1 e) (ix3 (0 : Fin 1) (0 : Fin 1) e) (by rw [Shape.rowMajor_val_one, Shape.rowMajor_val_three]; simp)]

/-- the first 16-lane load of row `j` reads the scratch at `(t mod 2, j, e)` -/
theorem load_lo_at (R6 : S2x128x128.Idx → Elt F .f32) (t : Fin k2_t1_loop.trips) (j : Fin k2_t2_loop.trips) (e : Fin 16) :
    (s1W).view.readAt (Elt F) (Rect.unit (s := S2x128x128) (k2_off8 t j) S1x1x16.size (k2_off8_inb t j)).toLoadRect R6 (ix3 (0 : Fin 1) (0 : Fin 1) e)
      = R6 (ix3 (⟨t.val % 2, Nat.mod_lt _ (by decide)⟩ : Fin 2) (⟨j.val, Nat.lt_of_lt_of_le j.isLt k2_t2_abs.2.1⟩ : Fin 128) (⟨e.val, by omega⟩ : Fin 128)) := by
  rw [View.readAt_apply]
  show R6 _ = R6 _
  congr 1
  funext a
  apply Fin.ext
  match a with
  | ⟨0, _⟩ => show k2_off8 t j 0 + 1 * (0 : Fin 1).val = t.val % 2; rw [k2_off8_eq]; rfl
  | ⟨1, _⟩ => show k2_off8 t j 1 + 1 * (0 : Fin 1).val = j.val; rw [k2_off8_eq]; show j.val + 1 * 0 = j.val; omega
  | ⟨2, _⟩ => show k2_off8 t j 2 + 1 * e.val = e.val; rw [k2_off8_eq]; show 0 + 1 * e.val = e.val; omega

/-- the second reads it at `(t mod 2, j, 16 + e)` -/
theorem load_hi_at (R6 : S2x128x128.Idx → Elt F .f32) (t : Fin k2_t1_loop.trips) (j : Fin k2_t2_loop.trips) (e : Fin 16) :
    (s1W).view.readAt (Elt F) (Rect.unit (s := S2x128x128) (k2_off10 t j) S1x1x16.size (k2_off10_inb t j)).toLoadRect R6 (ix3 (0 : Fin 1) (0 : Fin 1) e)
      = R6 (ix3 (⟨t.val % 2, Nat.mod_lt _ (by decide)⟩ : Fin 2) (⟨j.val, Nat.lt_of_lt_of_le j.isLt k2_t2_abs.2.1⟩ : Fin 128) (⟨16 + e.val, by omega⟩ : Fin 128)) := by
  rw [View.readAt_apply]
  show R6 _ = R6 _
  congr 1
  funext a
  apply Fin.ext
  match a with
  | ⟨0, _⟩ => show k2_off10 t j 0 + 1 * (0 : Fin 1).val = t.val % 2; rw [k2_off10_eq]; rfl
  | ⟨1, _⟩ => show k2_off10 t j 1 + 1 * (0 : Fin 1).val = j.val; rw [k2_off10_eq]; show j.val + 1 * 0 = j.val; omega
  | ⟨2, _⟩ => show k2_off10 t j 2 + 1 * e.val = 16 + e.val; rw [k2_off10_eq]; show 16 + 1 * e.val = 16 + e.val; omega

local notation "s2W" => (Memref.whole Cert.KernelIdeal.cc2_scratch2 : Memref Cert.KernelIdeal.sig Kind.scVector Space.vmem Cert.KernelIdeal.S2x128x32 EltTy.f32)

/-- the slot trip `t` uses -/
abbrev slotOf (t : Fin k2_t1_loop.trips) : Fin 2 := ⟨t.val % 2, Nat.mod_lt _ (by decide)⟩

/-- rows below `j` of trip `t`'s half of the compact rows hold the first 32 columns of the gathered rows -/
def Compacted (t : Fin k2_t1_loop.trips) (R6 : S2x128x128.Idx → Elt F .f32) (f : S2x128x32.Idx → Elt F .f32) (j : Nat) : Prop :=
  ∀ (r : Fin 128) (e : Fin 32), r.val < j → f (ix3 (slotOf t) r e) = R6 (ix3 (slotOf t) r (⟨e.val, by omega⟩ : Fin 128))

theorem compacted_zero (t : Fin k2_t1_loop.trips) (R6 : S2x128x128.Idx → Elt F .f32) (f : S2x128x32.Idx → Elt F .f32) : Compacted t R6 f 0 :=
  fun _ _ h => absurd h (Nat.not_lt_zero _)

/-- one trip of the compaction loop: row `j`'s two 16-lane stores extend the agreement to rows below `j + 1` -/
theorem compacted_step (t : Fin k2_t1_loop.trips) (j : Fin k2_t2_loop.trips) (R6 : S2x128x128.Idx → Elt F .f32) (f : S2x128x32.Idx → Elt F .f32)
    (h : Compacted t R6 f j.val) (p1 p2 : S1x1x16.Idx → Elt F .f32)
    (hp1 : ∀ e : Fin 16, p1 (ix3 (0 : Fin 1) (0 : Fin 1) e)
      = R6 (ix3 (slotOf t) (⟨j.val, Nat.lt_of_lt_of_le j.isLt k2_t2_abs.2.1⟩ : Fin 128) (⟨e.val, by omega⟩ : Fin 128)))
    (hp2 : ∀ e : Fin 16, p2 (ix3 (0 : Fin 1) (0 : Fin 1) e)
      = R6 (ix3 (slotOf t) (⟨j.val, Nat.lt_of_lt_of_le j.isLt k2_t2_abs.2.1⟩ : Fin 128) (⟨16 + e.val, by omega⟩ : Fin 128))) :
    Compacted t R6 ((s2W).view.writes (Elt F) f
      [⟨Rect.unit (s := S2x128x32) (k2_off11 t j) S1x1x16.size (k2_off11_inb t j), p2⟩,
       ⟨Rect.unit (s := S2x128x32) (k2_off9 t j) S1x1x16.size (k2_off9_inb t j), p1⟩]) (j.val + 1) := by
  intro r e hr
  have hj128 : j.val < 128 := Nat.lt_of_lt_of_le j.isLt k2_t2_abs.2.1
  have o9 : k2_off9 t j = ![t.val % 2, j.val, 0] := k2_off9_eq t j
  have o11 : k2_off11 t j = ![t.val % 2, j.val, 16] := k2_off11_eq t j
  have hrd : ∀ (g : S2x128x32.Idx → Elt F .f32) (y : S2x128x32.Idx), g y = (s2W).view.read (Elt F) g y := fun _ _ => rfl
  refine (hrd _ _).trans ?_
  by_cases hrj : r.val = j.val
  · by_cases he : 16 ≤ e.val
    · -- in the second store's box
      have hy : (ix3 (slotOf t) r e : S2x128x32.Idx)
          = (Rect.unit (s := S2x128x32) (k2_off11 t j) S1x1x16.size (k2_off11_inb t j)).emb (ix3 (0 : Fin 1) (0 : Fin 1) (⟨e.val - 16, by have := e.isLt; omega⟩ : Fin 16)) := by
        funext a; apply Fin.ext
        match a with
        | ⟨0, _⟩ => show t.val % 2 = k2_off11 t j 0 + 1 * (0 : Fin 1).val; rw [o11]; rfl
        | ⟨1, _⟩ => show r.val = k2_off11 t j 1 + 1 * (0 : Fin 1).val; rw [o11]; show r.val = j.val + 1 * 0; omega
        | ⟨2, _⟩ => show e.val = k2_off11 t j 2 + 1 * (e.val - 16); rw [o11]; show e.val = 16 + 1 * (e.val - 16); omega
      rw [hy, View.read_writes_cons_emb, hp2]
      congr 1
      funext a
      match a with
      | ⟨0, _⟩ => rfl
      | ⟨1, _⟩ => exact Fin.ext hrj.symm
      | ⟨2, _⟩ => exact Fin.ext (by show 16 + (e.val - 16) = e.val; omega)
    · -- below lane 16: not in the second store's box, in the first's
      have hnot : (ix3 (slotOf t) r e : S2x128x32.Idx) ∉ (Rect.unit (s := S2x128x32) (k2_off11 t j) S1x1x16.size (k2_off11_inb t j)).set := by
        rw [Rect.mem_set_unit]; intro hm
        have := (hm ⟨2, by decide⟩).1
        rw [o11] at this
        have h16 : 16 ≤ e.val := this
        omega
      have hy : (ix3 (slotOf t) r e : S2x128x32.Idx)
          = (Rect.unit (s := S2x128x32) (k2_off9 t j) S1x1x16.size (k2_off9_inb t j)).emb (ix3 (0 : Fin 1) (0 : Fin 1) (⟨e.val, by omega⟩ : Fin 16)) := by
        funext a; apply Fin.ext
        match a with
        | ⟨0, _⟩ => show t.val % 2 = k2_off9 t j 0 + 1 * (0 : Fin 1).val; rw [o9]; rfl
        | ⟨1, _⟩ => show r.val = k2_off9 t j 1 + 1 * (0 : Fin 1).val; rw [o9]; show r.val = j.val + 1 * 0; omega
        | ⟨2, _⟩ => show e.val = k2_off9 t j 2 + 1 * e.val; rw [o9]; show e.val = 0 + 1 * e.val; omega
      rw [View.writes_cons, View.read_slice_write_of_not_mem _ _ _ _ (by rw [Rect.map_emb_univ]; exact hnot), hy, View.read_writes_cons_emb, hp1]
      congr 1
      funext a
      match a with
      | ⟨0, _⟩ => rfl
      | ⟨1, _⟩ => exact Fin.ext hrj.symm
      | ⟨2, _⟩ => rfl
  · -- an earlier row: neither store touches it
    have hlt : r.val < j.val := by omega
    rw [View.read_writes_apply_of_forall_not_mem]
    · exact h r e hlt
    · intro p hp
      rw [List.mem_cons, List.mem_singleton] at hp
      rcases hp with rfl | rfl
      · rw [Rect.mem_set_unit]; intro hm
        have := (hm ⟨1, by decide⟩)
        rw [o11] at this
        have h1 : j.val ≤ r.val := this.1
        omega
      · rw [Rect.mem_set_unit]; intro hm
        have := (hm ⟨1, by decide⟩)
        rw [o9] at this
        have h1 : j.val ≤ r.val := this.1
        omega

end Cert.KernelIdeal.Hand.C2

end
-- ==== Proof.KernelIdeal.BlockValue2.lean ====
/-
  What a block of the third call's result holds when it lands: from the compaction loop's agreement on all 128 rows,
  the gathered scratch's contents after the gather, and the gather's payload, row `r` of trip `t`'s block is the first
  32 columns of the table row that word `128·t + r` of the subcore's slice names.
-/
import proofs.«203661_g84404697301628_cont_9to1_m_135_26_alg».proof.Proof.KernelIdeal.TileRun2
import proofs.«203661_g84404697301628_cont_9to1_m_135_26_alg».proof.Proof.KernelIdeal.TileValue2
import proofs.«203661_g84404697301628_cont_9to1_m_135_26_alg».proof.Proof.Spec

noncomputable section

namespace Cert.KernelIdeal.Hand.C2

open Cert.KernelIdeal Cert.KernelIdeal.Gen Cert.KernelIdeal.Hand
open Idealize.ShloMosaic Idealize.ShloMosaic.ValueIdx
open Idealize.ShloMosaic.SparseCore (S V T)

variable {F : FTy → Type} [hK : Cert.KernelIdeal.Facts] [FloatOps F]

local notation "tblW" => (Memref.whole Cert.KernelIdeal.main_v0_scv : Memref Cert.KernelIdeal.sig Kind.scVector Space.hbm Cert.KernelIdeal.S1000x128 EltTy.f32)
local notation "s0W" => (Memref.whole Cert.KernelIdeal.cc2_scratch0 : Memref Cert.KernelIdeal.sig Kind.scVector Space.vmem Cert.KernelIdeal.S1024 EltTy.i32)
local notation "s2W" => (Memref.whole Cert.KernelIdeal.cc2_scratch2 : Memref Cert.KernelIdeal.sig Kind.scVector Space.vmem Cert.KernelIdeal.S2x128x32 EltTy.f32)

/-- entry `(r, e)` of a [128,32] block is entry `(0, r, e)` of the [1,128,32] one -/
theorem squeeze_idx32 (h : S128x32.numel = S1x128x32.numel) (r : Fin 128) (e : Fin 32) :
    Shape.reshapeEquiv h (ix2 r e) = (ix3 (0 : Fin 1) r e : S1x128x32.Idx) := by
  refine Shape.reshapeEquiv_eq_of_rowMajor h ?_
  rw [Shape.rowMajor_val_three, Shape.rowMajor_val_two]
  show ((0 : Fin 1).val * 128 + r.val) * 32 + e.val = r.val * 32 + e.val
  simp

/-- entry `(r, e)` of trip `t`'s half of the compact rows sits at `(t mod 2, r, e)` of the scratch -/
theorem crowsAt_emb (t : Fin k2_t1_loop.trips) (r : Fin 128) (e : Fin 32) :
    (crowsAt t).view.emb (ix2 r e) = (ix3 (slotOf t) r e : S2x128x32.Idx) := by
  show (Rect.unit (s := S2x128x32) (k2_off12 t) S1x128x32.size (k2_off12_inb t)).emb (Shape.reshapeEquiv _ (ix2 r e)) = _
  rw [squeeze_idx32]
  funext a
  apply Fin.ext
  match a with
  | ⟨0, _⟩ => show k2_off12 t 0 + 1 * (0 : Fin 1).val = t.val % 2; rw [k2_off12_eq]; rfl
  | ⟨1, _⟩ => show k2_off12 t 1 + 1 * r.val = r.val; rw [k2_off12_eq]; show 0 + 1 * r.val = r.val; omega
  | ⟨2, _⟩ => show k2_off12 t 2 + 1 * e.val = e.val; rw [k2_off12_eq]; show 0 + 1 * e.val = e.val; omega

/-- the whole rectangle's positions are the positions -/
theorem whole_emb (x : S128x32.Idx) : (Rect.whole S128x32).emb x = x := by
  funext a; apply Fin.ext
  show 0 + 1 * (x a).val = (x a).val; omega

/-- the table read through its whole-extent slice is the table -/
theorem tbl_read (ft : S1000x128.Idx → Elt F .f32) (h : ∀ a, (![0, 0] : Fin 2 → Nat) a + S1000x128.size a ≤ S1000x128.size a) (x : S1000x128.Idx) :
    ((tblW).slice (Rect.unit (s := S1000x128) ![0, 0] S1000x128.size h) (fun _ => rfl)).view.read (Elt F) ft x = ft x := by
  show ft _ = ft x
  congr 1
  funext a; apply Fin.ext
  match a with
  | ⟨0, _⟩ => show 0 + 1 * (x 0).val = (x 0).val; omega
  | ⟨1, _⟩ => show 0 + 1 * (x 1).val = (x 1).val; omega

/-- the word by which trip `t` gathers its row `r` -/
def wordAt (g5 : S1024.Idx → Elt F .i32) (t : Fin k2_t1_loop.trips) (r : Fin 128) : BitVec 32 := (offsAt t).view.read (Elt F) g5 (ix1 r)

/-- a block of the result holds, row by row, the first 32 columns of the table rows its words name -/
def BlkOK (d : Dev nD) (L : grid2.Coords) (ft : S1000x128.Idx → Elt F .f32) (g5 : S1024.Idx → Elt F .i32) (t : Fin k2_t1_loop.trips)
    (fo : Buf (Elt F) ((outAt L t).view.loc (tile d L))) : Prop :=
  ∀ (r : Fin 128) (e : Fin 32), (outAt L t).view.read (Elt F) fo (ix2 r e)
    = ft (ix2 (Cert.Spec.row (wordAt (F := F) g5 t r)) (⟨e.val, by omega⟩ : Fin 128))

/-- THE BLOCK THAT LANDS: the compaction's agreement on all 128 rows, over the scratch as the gather left it, makes
    the copied-out block the table rows named by the words. -/
theorem blk_of_compacted (d : Dev nD) (L : grid2.Coords) (ft : S1000x128.Idx → Elt F .f32) (g5 : S1024.Idx → Elt F .i32) (t : Fin k2_t1_loop.trips)
    (htb : ∀ a, (![0, 0] : Fin 2 → Nat) a + S1000x128.size a ≤ S1000x128.size a)
    (hn : S128.numel = S128x128.size gathers_S1000x128_S128x128.axis')
    (hin : ∀ x, ((offsAt t).view.read (Elt F) g5 x).toNat < S1000x128.size gathers_S1000x128_S128x128.axis)
    (r6 : S2x128x128.Idx → Elt F .f32) (f : S2x128x32.Idx → Elt F .f32) (o0 : Buf (Elt F) ((outAt L t).view.loc (tile d L)))
    (hC : Compacted t ((rowsAt t).view.write (Elt F) r6
      (SparseCore.gatherPayload gathers_S1000x128_S128x128
        (((tblW).slice (Rect.unit (s := S1000x128) ![0, 0] S1000x128.size htb) (fun _ => rfl)).view.read (Elt F) ft)
        (SparseCore.rows ((offsAt t).view.read (Elt F) g5) hn hin)) Finset.univ) f 128) :
    BlkOK d L ft g5 t ((outAt L t).view.writes (Elt F) o0
      [⟨Rect.whole S128x32, ReadAs.same.apply ((crowsAt t).view.read (Elt F) f)⟩]) := by
  intro r e
  have hw := View.read_writes_cons_emb (outAt L t).view o0 (Rect.whole S128x32)
    (ReadAs.same.apply ((crowsAt t).view.read (Elt F) f)) [] (ix2 r e)
  rw [whole_emb] at hw
  rw [hw]
  show (crowsAt t).view.read (Elt F) f (ix2 r e) = _
  have hrd : (crowsAt t).view.read (Elt F) f (ix2 r e) = f ((crowsAt t).view.emb (ix2 r e)) := rfl
  rw [hrd, crowsAt_emb, hC r e r.isLt, rows_after_gather, gatherPayload_at, tbl_read]
  have hx := hin (ix1 r)
  have hlt : ((offsAt t).view.read (Elt F) g5 (ix1 r)).toNat < 1000 := hx
  congr 1
  funext a
  match a with
  | ⟨0, _⟩ =>
    apply Fin.ext
    show ((offsAt t).view.read (Elt F) g5 (ix1 r)).toNat = (Cert.Spec.row (wordAt (F := F) g5 t r)).val
    unfold wordAt
    exact (Cert.Spec.row_val_of_le (by show ((offsAt t).view.read (Elt F) g5 (ix1 r)).toNat ≤ 999; omega)).symm
  | ⟨1, _⟩ => rfl

end Cert.KernelIdeal.Hand.C2

end
-- ==== Proof.KernelIdeal.TileRunV2.lean ====
/-
  The third gather call's task with contents tracked: the same run as TileRun2.lean, but a write-back in flight now
  carries what its block will hold — the first 32 columns of the table rows named by the trip's 128 words — and a
  landed block is held with that fact. The compaction loop runs under `Compacted`: rows below `j` of the half agree
  with the gathered rows; at its end `blk_of_compacted` turns the agreement into the block's contents.
-/
import proofs.«203661_g84404697301628_cont_9to1_m_135_26_alg».proof.Proof.KernelIdeal.BlockValue2

noncomputable section

namespace Cert.KernelIdeal.Hand.C2

open Cert.KernelIdeal Cert.KernelIdeal.Gen Cert.KernelIdeal.Hand
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [hK : Cert.KernelIdeal.Facts] [FloatOps F]

local notation "𝕄" => MT nD τ sig (HIx 4) (Elt F) ℕ UU ℕ

local notation "tblW" => (Memref.whole Cert.KernelIdeal.main_v0_scv : Memref Cert.KernelIdeal.sig Kind.scVector Space.hbm Cert.KernelIdeal.S1000x128 EltTy.f32)
local notation "idxW" => (Memref.whole Cert.KernelIdeal.main_v9_scv : Memref Cert.KernelIdeal.sig Kind.scVector Space.hbm Cert.KernelIdeal.S32768 EltTy.i32)
local notation "outW" => (Memref.whole Cert.KernelIdeal.main_v10_scv : Memref Cert.KernelIdeal.sig Kind.scVector Space.hbm Cert.KernelIdeal.S2x16384x32 EltTy.f32)
local notation "s0W" => (Memref.whole Cert.KernelIdeal.cc2_scratch0 : Memref Cert.KernelIdeal.sig Kind.scVector Space.vmem Cert.KernelIdeal.S1024 EltTy.i32)
local notation "s1W" => (Memref.whole Cert.KernelIdeal.cc2_scratch1 : Memref Cert.KernelIdeal.sig Kind.scVector Space.vmem Cert.KernelIdeal.S2x128x128 EltTy.f32)
local notation "s2W" => (Memref.whole Cert.KernelIdeal.cc2_scratch2 : Memref Cert.KernelIdeal.sig Kind.scVector Space.vmem Cert.KernelIdeal.S2x128x32 EltTy.f32)
local notation "gS0" => (⟨10, by decide⟩ : DmaSem Cert.KernelIdeal.sig)
local notation "gS1" => (⟨11, by decide⟩ : DmaSem Cert.KernelIdeal.sig)
local notation "wS0" => (⟨12, by decide⟩ : DmaSem Cert.KernelIdeal.sig)
local notation "wS1" => (⟨13, by decide⟩ : DmaSem Cert.KernelIdeal.sig)
local notation "pS" => (⟨14, by decide⟩ : DmaSem Cert.KernelIdeal.sig)

/-- a block of the result in hand, holding the table rows its words name -/
def outHeldV (d : Dev nD) (L : grid2.Coords) (ft : S1000x128.Idx → Elt F .f32) (g5 : S1024.Idx → Elt F .i32) (t : Fin k2_t1_loop.trips) : sProp 𝕄 :=
  iprop(∃ fo, ((outAt L t).view.loc (tile d L) ↦[(outAt L t).view.set]{fullShare} fo) ∗ ⌜BlkOK (F := F) d L ft g5 t fo⌝)

/-- slot `w` busy with trip `t`'s write-back, whose block will hold the table rows its words name -/
def slotBusyV (d : Dev nD) (L : grid2.Coords) (ft : S1000x128.Idx → Elt F .f32) (g5 : S1024.Idx → Elt F .i32) (w : DmaSem sig) (t : Fin k2_t1_loop.trips) : sProp 𝕄 :=
  iprop(∃ fo f, (Transfers.Flight (countersEmb (U := UU)) (tile d L) (SemLoc.dma w) (default : HIx 4) 131072
    iprop(((outAt L t).view.loc (tile d L) ↦[(outAt L t).view.set]{fullShare} fo)
      ∗ ((s2W).view.loc (tile d L) ↦[(crowsAt t).view.set]{fullShare} f))) ∗ ⌜BlkOK (F := F) d L ft g5 t fo⌝)

/-- what every trip keeps, the fetched list now at its known contents `g5` -/
def commonV (d : Dev nD) (L : grid2.Coords) (O : CellTallies nD τ sig (HIx 4)) (W : Waits sig (HIx 4)) (q : PosShare TreeShare)
    (ft : Buf (Elt F) ((tblW).view.loc (tile d L))) (g5 : Buf (Elt F) ((s0W).view.loc (tile d L))) : sProp 𝕄 :=
  iprop(Transfers.MayWaits (tile d L) (none : HIx 4) O
    ∗ ((tblW).view.loc (tile d L) ↦{q} ft)
    ∗ ((s0W).view.loc (tile d L) ↦{fullShare} g5)
    ∗ (∃ r, (s1W).view.loc (tile d L) ↦{fullShare} r)
    ∗ semVal (tile d L, SemLoc.dma gS0) 0 ∗ semVal (tile d L, SemLoc.dma gS1) 0
    ∗ ∃ W', ⌜∀ p ∈ W', p ∈ W ∨ p.2 = none⌝ ∗ owes (tile d L) O W')

def invV0 (d : Dev nD) (L : grid2.Coords) (O : CellTallies nD τ sig (HIx 4)) (W : Waits sig (HIx 4)) (q : PosShare TreeShare)
    (ft : Buf (Elt F) ((tblW).view.loc (tile d L))) (g5 : Buf (Elt F) ((s0W).view.loc (tile d L))) : sProp 𝕄 :=
  iprop(commonV d L O W q ft g5 ∗ slotFree d L wS0 t1 ∗ slotFree d L wS1 t0 ∗ outHeld d L t0 ∗ outHeld d L t1 ∗ outHeld d L t2 ∗ outHeld d L t3 ∗ outHeld d L t4 ∗ outHeld d L t5 ∗ outHeld d L t6 ∗ outHeld d L t7)
def invV1 (d : Dev nD) (L : grid2.Coords) (O : CellTallies nD τ sig (HIx 4)) (W : Waits sig (HIx 4)) (q : PosShare TreeShare)
    (ft : Buf (Elt F) ((tblW).view.loc (tile d L))) (g5 : Buf (Elt F) ((s0W).view.loc (tile d L))) : sProp 𝕄 :=
  iprop(commonV d L O W q ft g5 ∗ slotBusyV d L ft g5 wS0 t0 ∗ slotFree d L wS1 t0 ∗ outHeld d L t1 ∗ outHeld d L t2 ∗ outHeld d L t3 ∗ outHeld d L t4 ∗ outHeld d L t5 ∗ outHeld d L t6 ∗ outHeld d L t7)
def invV2 (d : Dev nD) (L : grid2.Coords) (O : CellTallies nD τ sig (HIx 4)) (W : Waits sig (HIx 4)) (q : PosShare TreeShare)
    (ft : Buf (Elt F) ((tblW).view.loc (tile d L))) (g5 : Buf (Elt F) ((s0W).view.loc (tile d L))) : sProp 𝕄 :=
  iprop(commonV d L O W q ft g5 ∗ slotBusyV d L ft g5 wS0 t0 ∗ slotBusyV d L ft g5 wS1 t1 ∗ outHeld d L t2 ∗ outHeld d L t3 ∗ outHeld d L t4 ∗ outHeld d L t5 ∗ outHeld d L t6 ∗ outHeld d L t7)
def invV3 (d : Dev nD) (L : grid2.Coords) (O : CellTallies nD τ sig (HIx 4)) (W : Waits sig (HIx 4)) (q : PosShare TreeShare)
    (ft : Buf (Elt F) ((tblW).view.loc (tile d L))) (g5 : Buf (Elt F) ((s0W).view.loc (tile d L))) : sProp 𝕄 :=
  iprop(commonV d L O W q ft g5 ∗ slotBusyV d L ft g5 wS0 t2 ∗ slotBusyV d L ft g5 wS1 t1 ∗ outHeldV d L ft g5 t0 ∗ outHeld d L t3 ∗ outHeld d L t4 ∗ outHeld d L t5 ∗ outHeld d L t6 ∗ outHeld d L t7)
def invV4 (d : Dev nD) (L : grid2.Coords) (O : CellTallies nD τ sig (HIx 4)) (W : Waits sig (HIx 4)) (q : PosShare TreeShare)
    (ft : Buf (Elt F) ((tblW).view.loc (tile d L))) (g5 : Buf (Elt F) ((s0W).view.loc (tile d L))) : sProp 𝕄 :=
  iprop(commonV d L O W q ft g5 ∗ slotBusyV d L ft g5 wS0 t2 ∗ slotBusyV d L ft g5 wS1 t3 ∗ outHeldV d L ft g5 t0 ∗ outHeldV d L ft g5 t1 ∗ outHeld d L t4 ∗ outHeld d L t5 ∗ outHeld d L t6 ∗ outHeld d L t7)
def invV5 (d : Dev nD) (L : grid2.Coords) (O : CellTallies nD τ sig (HIx 4)) (W : Waits sig (HIx 4)) (q : PosShare TreeShare)
    (ft : Buf (Elt F) ((tblW).view.loc (tile d L))) (g5 : Buf (Elt F) ((s0W).view.loc (tile d L))) : sProp 𝕄 :=
  iprop(commonV d L O W q ft g5 ∗ slotBusyV d L ft g5 wS0 t4 ∗ slotBusyV d L ft g5 wS1 t3 ∗ outHeldV d L ft g5 t0 ∗ outHeldV d L ft g5 t1 ∗ outHeldV d L ft g5 t2 ∗ outHeld d L t5 ∗ outHeld d L t6 ∗ outHeld d L t7)
def invV6 (d : Dev nD) (L : grid2.Coords) (O : CellTallies nD τ sig (HIx 4)) (W : Waits sig (HIx 4)) (q : PosShare TreeShare)
    (ft : Buf (Elt F) ((tblW).view.loc (tile d L))) (g5 : Buf (Elt F) ((s0W).view.loc (tile d L))) : sProp 𝕄 :=
  iprop(commonV d L O W q ft g5 ∗ slotBusyV d L ft g5 wS0 t4 ∗ slotBusyV d L ft g5 wS1 t5 ∗ outHeldV d L ft g5 t0 ∗ outHeldV d L ft g5 t1 ∗ outHeldV d L ft g5 t2 ∗ outHeldV d L ft g5 t3 ∗ outHeld d L t6 ∗ outHeld d L t7)
def invV7 (d : Dev nD) (L : grid2.Coords) (O : CellTallies nD τ sig (HIx 4)) (W : Waits sig (HIx 4)) (q : PosShare TreeShare)
    (ft : Buf (Elt F) ((tblW).view.loc (tile d L))) (g5 : Buf (Elt F) ((s0W).view.loc (tile d L))) : sProp 𝕄 :=
  iprop(commonV d L O W q ft g5 ∗ slotBusyV d L ft g5 wS0 t6 ∗ slotBusyV d L ft g5 wS1 t5 ∗ outHeldV d L ft g5 t0 ∗ outHeldV d L ft g5 t1 ∗ outHeldV d L ft g5 t2 ∗ outHeldV d L ft g5 t3 ∗ outHeldV d L ft g5 t4 ∗ outHeld d L t7)
def invV8 (d : Dev nD) (L : grid2.Coords) (O : CellTallies nD τ sig (HIx 4)) (W : Waits sig (HIx 4)) (q : PosShare TreeShare)
    (ft : Buf (Elt F) ((tblW).view.loc (tile d L))) (g5 : Buf (Elt F) ((s0W).view.loc (tile d L))) : sProp 𝕄 :=
  iprop(commonV d L O W q ft g5 ∗ slotBusyV d L ft g5 wS0 t6 ∗ slotBusyV d L ft g5 wS1 t7 ∗ outHeldV d L ft g5 t0 ∗ outHeldV d L ft g5 t1 ∗ outHeldV d L ft g5 t2 ∗ outHeldV d L ft g5 t3 ∗ outHeldV d L ft g5 t4 ∗ outHeldV d L ft g5 t5)
/-- the outer loop's invariant before trip `k`, with contents -/
def invOV (d : Dev nD) (L : grid2.Coords) (O : CellTallies nD τ sig (HIx 4)) (W : Waits sig (HIx 4)) (q : PosShare TreeShare)
    (ft : Buf (Elt F) ((tblW).view.loc (tile d L))) (g5 : Buf (Elt F) ((s0W).view.loc (tile d L))) (k : Nat) (_ : PUnit) : sProp 𝕄 :=
  match k with
  | 0 => invV0 d L O W q ft g5
  | 1 => invV1 d L O W q ft g5
  | 2 => invV2 d L O W q ft g5
  | 3 => invV3 d L O W q ft g5
  | 4 => invV4 d L O W q ft g5
  | 5 => invV5 d L O W q ft g5
  | 6 => invV6 d L O W q ft g5
  | 7 => invV7 d L O W q ft g5
  | _ => invV8 d L O W q ft g5

/-- the compaction loop's invariant with contents: the gathered rows fixed at `R6`; rows below `j` of trip `t`'s
    half of the compact rows (held as all but trip `o`'s half) agree with them -/
def invCV (d : Dev nD) (L : grid2.Coords) (t o : Fin k2_t1_loop.trips) (R6 : Buf (Elt F) ((s1W).view.loc (tile d L))) (j : Nat) (_ : PUnit) : sProp 𝕄 :=
  iprop(((s1W).view.loc (tile d L) ↦{fullShare} R6)
    ∗ ∃ f, ((s2W).view.loc (tile d L) ↦[Finset.univ \ (crowsAt o).view.set]{fullShare} f) ∗ ⌜Compacted (F := F) t R6 f j⌝)

/-- the fetched list: the subcore's slice of the token words, as the index scratch holds it -/
abbrev fetched (d : Dev nD) (L : grid2.Coords) (fi : Buf (Elt F) ((idxSl L).view.loc (tile d L))) : Buf (Elt F) ((s0W).view.loc (tile d L)) :=
  (idxSl L).view.read (Elt F) fi

variable (d : Dev nD) (L : grid2.Coords)

set_option maxHeartbeats 3200000 in
/-- The third call's task, contents tracked: what is handed back is each block at the table rows named by the
    subcore's words (`BlkOK`), the words being the subcore's slice of the token list as fetched. -/
theorem tile_run2v (O : CellTallies nD τ sig (HIx 4)) (W : Waits sig (HIx 4)) (q : PosShare TreeShare)
    (ft : Buf (Elt F) ((tblW).view.loc (tile d L))) (fi : Buf (Elt F) ((idxSl L).view.loc (tile d L)))
    (hfi : ∀ y, (fi y).toNat < 1000) :
    iprop(Transfers.MayWaits (tile d L) (none : HIx 4) O
        ∗ ((tblW).view.loc (tile d L) ↦{q} ft)
        ∗ ((idxSl L).view.loc (tile d L) ↦[(idxSl L).view.set]{fullShare} fi)
        ∗ (∃ f5, (s0W).view.loc (tile d L) ↦{fullShare} f5)
        ∗ (∃ r, (s1W).view.loc (tile d L) ↦{fullShare} r)
        ∗ crowsHeld (F := F) d L t1 ∗ crowsHeld (F := F) d L t0
        ∗ outHeld (F := F) d L t0 ∗ outHeld (F := F) d L t1 ∗ outHeld (F := F) d L t2 ∗ outHeld (F := F) d L t3 ∗ outHeld (F := F) d L t4 ∗ outHeld (F := F) d L t5 ∗ outHeld (F := F) d L t6 ∗ outHeld (F := F) d L t7
        ∗ semVal (tile d L, SemLoc.dma gS0) 0 ∗ semVal (tile d L, SemLoc.dma gS1) 0
        ∗ semVal (tile d L, SemLoc.dma wS0) 0 ∗ semVal (tile d L, SemLoc.dma wS1) 0
        ∗ semVal (tile d L, SemLoc.dma pS) 0
        ∗ owes (tile d L) O W)
      ⊢ wp frame (wpE (defs₀ (F := F)) 𝒱₀ (tile d L) none) Set.univ
          (cc2_gather_kernel L tblW (Memref.isWhole_whole _) idxW (Memref.isWhole_whole _) outW (Memref.isWhole_whole _)
            s0W (Memref.isWhole_whole _) s1W (Memref.isWhole_whole _) s2W (Memref.isWhole_whole _) cc2_scratch3 cc2_scratch4 cc2_scoped0)
          (fun _ => iprop(((tblW).view.loc (tile d L) ↦{q} ft)
            ∗ ((idxSl L).view.loc (tile d L) ↦[(idxSl L).view.set]{fullShare} fi)
            ∗ (∃ f5, (s0W).view.loc (tile d L) ↦{fullShare} f5)
            ∗ (∃ r, (s1W).view.loc (tile d L) ↦{fullShare} r)
            ∗ (∃ f, (s2W).view.loc (tile d L) ↦[(crowsAt t6).view.set]{fullShare} f)
            ∗ (∃ f, (s2W).view.loc (tile d L) ↦[(crowsAt t7).view.set]{fullShare} f)
            ∗ outHeldV (F := F) d L ft (fetched d L fi) t0 ∗ outHeldV (F := F) d L ft (fetched d L fi) t1 ∗ outHeldV (F := F) d L ft (fetched d L fi) t2 ∗ outHeldV (F := F) d L ft (fetched d L fi) t3 ∗ outHeldV (F := F) d L ft (fetched d L fi) t4 ∗ outHeldV (F := F) d L ft (fetched d L fi) t5 ∗ outHeldV (F := F) d L ft (fetched d L fi) t6 ∗ outHeldV (F := F) d L ft (fetched d L fi) t7
            ∗ semVal (tile d L, SemLoc.dma gS0) 0 ∗ semVal (tile d L, SemLoc.dma gS1) 0
            ∗ semVal (tile d L, SemLoc.dma wS0) 0 ∗ semVal (tile d L, SemLoc.dma wS1) 0
            ∗ semVal (tile d L, SemLoc.dma pS) 0
            ∗ ∃ W', ⌜∀ p ∈ W', p ∈ W ∨ p.2 = none⌝ ∗ owes (tile d L) O W')) := by
  rw [cc2_gather_kernel_eq_skeleton]; unfold cc2_gather_kernel_skel
  iintro ⟨Hmw, Ht, Hi, ⟨%f5, H5⟩, H6, Hc0, Hc1, Ho0, Ho1, Ho2, Ho3, Ho4, Ho5, Ho6, Ho7, Hg0, Hg1, Hw0, Hw1, Hp, HO⟩
  sl_exec
  have e5 : View.write (Elt F) (s0W).view f5 (tile_run2v.sl.dma0 d L fi) Finset.univ = (fetched d L fi) := by
    rw [View.write_whole_univ]; rfl
  rw [e5]
  have h5 : InRange (F := F) d L (fetched d L fi) := by
    intro o h x
    rw [size_tbl]
    simp only [View.read_apply]
    exact hfi _
  sl_for (invOV d L O W q ft (fetched d L fi)) $$ [Hmw Ht H5 H6 Hc0 Hc1 Ho0 Ho1 Ho2 Ho3 Ho4 Ho5 Ho6 Ho7 Hg0 Hg1 Hw0 Hw1 HO]
  case region =>
    intro k u
    obtain ⟨k, hk⟩ := k
    match k, hk with
    | k + 8, hk => exact absurd (Nat.lt_of_lt_of_le hk k2_t1_abs.2.1) (by omega)
    | 0, hk =>
      have k2_h1 : ¬ k2_cond1 t0 = 1#1 := by decide
      change invV0 d L O W q ft (fetched d L fi) ⊢ wp frame (wpE (defs₀ (F := F)) 𝒱₀ (tile d L) none) Set.univ (tile_run2v.sl.prog.body_1 L t0 u) (fun _ => invV1 d L O W q ft (fetched d L fi))
      unfold invV0 commonV slotFree outHeld crowsHeld
      iintro ⟨⟨Hmw, Ht, H5, H6, Hg0, Hg1, %W', %hW', HO⟩, ⟨Hw0, Hc⟩, Hs1, ⟨%o0, Ho0⟩, Ho1, Ho2, Ho3, Ho4, Ho5, Ho6, Ho7⟩
      icases H6 with ⟨%r6, H6⟩
      icases Hc with ⟨%c0, Hc⟩
      have hin := h5
      have hinT : ∀ x, (((s0W).slice (Rect.unit (s := S1024) ![0] S128.size inb_w0) (fun _ => rfl)).view.read (Elt F) (fetched d L fi) x).toNat
          < S1000x128.size gathers_S1000x128_S128x128.axis := hin ![0] inb_w0
      have hinK : ∀ x, ((offsAt t0).view.read (Elt F) (fetched d L fi) x).toNat < S1000x128.size gathers_S1000x128_S128x128.axis := hin _ _
      sl_exec
      sl_for (invCV (F := F) d L t0 t1 (View.write (Elt F) (rowsAt t0).view r6 (tile_run2v.sl.gather0 d L ft fi hinK) Finset.univ)) $$ [H6 Hc]
      case region =>
        intro j _
        unfold invCV
        iintro ⟨H6, ⟨%f, Hc, %hC⟩⟩
        sl_exec
        sl_step
        isplitl [H6]; · iexact H6
        iexists _; isplitl [Hc]; · iexact Hc
        ipureintro
        exact compacted_step t0 j _ f hC _ _ (fun e => (pay1_at _ e).trans (load_lo_at _ t0 j e)) (fun e => (pay2_at _ e).trans (load_hi_at _ t0 j e))
      · unfold invCV
        isplitl [H6]; · iexact H6
        iexists _; isplitl [Hc]; · iexact Hc
        ipureintro; exact compacted_zero t0 _ _
      iintro %_ HI
      unfold invCV
      icases HI with ⟨H6, ⟨%f, Hc, %hC⟩⟩
      have hC128 : Compacted (F := F) t0 (View.write (Elt F) (rowsAt t0).view r6 (tile_run2v.sl.gather0 d L ft fi hinK) Finset.univ) f 128 := hC
      sl_exec
      sl_step
      iclear Hc
      have hblk : BlkOK (F := F) d L ft (fetched d L fi) t0 ((outAt L t0).view.writes (Elt F) o0 [⟨Rect.whole S128x32, tile_run2v.sl.dma0_1 d L f⟩]) :=
        blk_of_compacted d L ft (fetched d L fi) t0 _ _ hinK r6 f o0 hC128
      unfold invV1 commonV slotBusyV slotFree outHeld crowsHeld
      isplitl [Hmw Ht H5 H6 Hg0 Hg1 HO]
      · isplitl [Hmw]; · iexact Hmw
        isplitl [Ht]; · iexact Ht
        isplitl [H5]; · iexact H5
        isplitl [H6]; · iexists _; iexact H6
        isplitl [Hg0]; · iexact Hg0
        isplitl [Hg1]; · iexact Hg1
        iexists (insert (SemLoc.dma gS0, (default : HIx 4)) W'); isplitr
        · ipureintro; intro p hp
          rcases Finset.mem_insert.mp hp with hp | hp
          · exact Or.inr (by subst hp; rfl)
          · exact hW' p hp
        · iexact HO
      isplitl [Hw0]
      · iexists _, _; isplitl [Hw0]
        · iexact Hw0
        · ipureintro; exact hblk
      isplitl [Hs1]; · iexact Hs1
      isplitl [Ho1]; · iexact Ho1
      isplitl [Ho2]; · iexact Ho2
      isplitl [Ho3]; · iexact Ho3
      isplitl [Ho4]; · iexact Ho4
      isplitl [Ho5]; · iexact Ho5
      isplitl [Ho6]; · iexact Ho6
      iexact Ho7
    | 1, hk =>
      have k2_h1 : ¬ k2_cond1 t1 = 1#1 := by decide
      change invV1 d L O W q ft (fetched d L fi) ⊢ wp frame (wpE (defs₀ (F := F)) 𝒱₀ (tile d L) none) Set.univ (tile_run2v.sl.prog.body_1 L t1 u) (fun _ => invV2 d L O W q ft (fetched d L fi))
      unfold invV1 commonV slotBusyV slotFree outHeld crowsHeld
      iintro ⟨⟨Hmw, Ht, H5, H6, Hg0, Hg1, %W', %hW', HO⟩, Hb0, ⟨Hw1, Hc⟩, ⟨%o1, Ho1⟩, Ho2, Ho3, Ho4, Ho5, Ho6, Ho7⟩
      icases H6 with ⟨%r6, H6⟩
      icases Hc with ⟨%c0, Hc⟩
      have hin := h5
      have hinT : ∀ x, (((s0W).slice (Rect.unit (s := S1024) ![128] S128.size inb_w128) (fun _ => rfl)).view.read (Elt F) (fetched d L fi) x).toNat
          < S1000x128.size gathers_S1000x128_S128x128.axis := hin ![128] inb_w128
      have hinK : ∀ x, ((offsAt t1).view.read (Elt F) (fetched d L fi) x).toNat < S1000x128.size gathers_S1000x128_S128x128.axis := hin _ _
      sl_exec
      sl_for (invCV (F := F) d L t1 t0 (View.write (Elt F) (rowsAt t1).view r6 (tile_run2v.sl.gather0_1 d L ft fi hinK) Finset.univ)) $$ [H6 Hc]
      case region =>
        intro j _
        unfold invCV
        iintro ⟨H6, ⟨%f, Hc, %hC⟩⟩
        sl_exec
        sl_step
        isplitl [H6]; · iexact H6
        iexists _; isplitl [Hc]; · iexact Hc
        ipureintro
        exact compacted_step t1 j _ f hC _ _ (fun e => (pay1_at _ e).trans (load_lo_at _ t1 j e)) (fun e => (pay2_at _ e).trans (load_hi_at _ t1 j e))
      · unfold invCV
        isplitl [H6]; · iexact H6
        iexists _; isplitl [Hc]; · iexact Hc
        ipureintro; exact compacted_zero t1 _ _
      iintro %_ HI
      unfold invCV
      icases HI with ⟨H6, ⟨%f, Hc, %hC⟩⟩
      have hC128 : Compacted (F := F) t1 (View.write (Elt F) (rowsAt t1).view r6 (tile_run2v.sl.gather0_1 d L ft fi hinK) Finset.univ) f 128 := hC
      sl_exec
      sl_step
      iclear Hc
      have hblk : BlkOK (F := F) d L ft (fetched d L fi) t1 ((outAt L t1).view.writes (Elt F) o1 [⟨Rect.whole S128x32, tile_run2v.sl.dma0_2 d L f⟩]) :=
        blk_of_compacted d L ft (fetched d L fi) t1 _ _ hinK r6 f o1 hC128
      unfold invV2 commonV slotBusyV outHeld
      isplitl [Hmw Ht H5 H6 Hg0 Hg1 HO]
      · isplitl [Hmw]; · iexact Hmw
        isplitl [Ht]; · iexact Ht
        isplitl [H5]; · iexact H5
        isplitl [H6]; · iexists _; iexact H6
        isplitl [Hg0]; · iexact Hg0
        isplitl [Hg1]; · iexact Hg1
        iexists (insert (SemLoc.dma gS1, (default : HIx 4)) W'); isplitr
        · ipureintro; intro p hp
          rcases Finset.mem_insert.mp hp with hp | hp
          · exact Or.inr (by subst hp; rfl)
          · exact hW' p hp
        · iexact HO
      isplitl [Hb0]; · iexact Hb0
      isplitl [Hw1]
      · iexists _, _; isplitl [Hw1]
        · iexact Hw1
        · ipureintro; exact hblk
      isplitl [Ho2]; · iexact Ho2
      isplitl [Ho3]; · iexact Ho3
      isplitl [Ho4]; · iexact Ho4
      isplitl [Ho5]; · iexact Ho5
      isplitl [Ho6]; · iexact Ho6
      iexact Ho7
    | 2, hk =>
      have k2_h1 : k2_cond1 t2 = 1#1 := by decide
      change invV2 d L O W q ft (fetched d L fi) ⊢ wp frame (wpE (defs₀ (F := F)) 𝒱₀ (tile d L) none) Set.univ (tile_run2v.sl.prog.body_1 L t2 u) (fun _ => invV3 d L O W q ft (fetched d L fi))
      unfold invV2 commonV slotBusyV outHeld
      iintro ⟨⟨Hmw, Ht, H5, H6, Hg0, Hg1, %W', %hW', HO⟩, ⟨%fo0, %fc0, Hw0, %hb0⟩, Hb1, ⟨%o2, Ho2⟩, Ho3, Ho4, Ho5, Ho6, Ho7⟩
      icases H6 with ⟨%r6, H6⟩
      have hin := h5
      have hinT : ∀ x, (((s0W).slice (Rect.unit (s := S1024) ![256] S128.size inb_w256) (fun _ => rfl)).view.read (Elt F) (fetched d L fi) x).toNat
          < S1000x128.size gathers_S1000x128_S128x128.axis := hin ![256] inb_w256
      have hinK : ∀ x, ((offsAt t2).view.read (Elt F) (fetched d L fi) x).toNat < S1000x128.size gathers_S1000x128_S128x128.axis := hin _ _
      sl_exec
      ihave Hc := (Entails.of_eq (show ((s2W).view.loc (tile d L) ↦[(crowsAt t0).view.set]{fullShare} fc0 : sProp 𝕄)
          = ((s2W).view.loc (tile d L) ↦[Finset.univ \ (crowsAt t1).view.set]{fullShare} fc0) from by rw [crows_even t0 (by decide)])) $$ Hw0_src
      sl_for (invCV (F := F) d L t2 t1 (View.write (Elt F) (rowsAt t2).view r6 (tile_run2v.sl.gather0_2 d L ft fi hinK) Finset.univ)) $$ [H6 Hc]
      case region =>
        intro j _
        unfold invCV
        iintro ⟨H6, ⟨%f, Hc, %hC⟩⟩
        sl_exec
        sl_step
        isplitl [H6]; · iexact H6
        iexists _; isplitl [Hc]; · iexact Hc
        ipureintro
        exact compacted_step t2 j _ f hC _ _ (fun e => (pay1_at _ e).trans (load_lo_at _ t2 j e)) (fun e => (pay2_at _ e).trans (load_hi_at _ t2 j e))
      · unfold invCV
        isplitl [H6]; · iexact H6
        iexists _; isplitl [Hc]; · iexact Hc
        ipureintro; exact compacted_zero t2 _ _
      iintro %_ HI
      unfold invCV
      icases HI with ⟨H6, ⟨%f, Hc, %hC⟩⟩
      have hC128 : Compacted (F := F) t2 (View.write (Elt F) (rowsAt t2).view r6 (tile_run2v.sl.gather0_2 d L ft fi hinK) Finset.univ) f 128 := hC
      sl_exec
      sl_step
      iclear Hc
      have hblk : BlkOK (F := F) d L ft (fetched d L fi) t2 ((outAt L t2).view.writes (Elt F) o2 [⟨Rect.whole S128x32, tile_run2v.sl.dma0_3 d L f⟩]) :=
        blk_of_compacted d L ft (fetched d L fi) t2 _ _ hinK r6 f o2 hC128
      unfold invV3 commonV slotBusyV outHeldV outHeld
      isplitl [Hmw Ht H5 H6 Hg0 Hg1 HO]
      · isplitl [Hmw]; · iexact Hmw
        isplitl [Ht]; · iexact Ht
        isplitl [H5]; · iexact H5
        isplitl [H6]; · iexists _; iexact H6
        isplitl [Hg0]; · iexact Hg0
        isplitl [Hg1]; · iexact Hg1
        iexists (insert (SemLoc.dma gS0, (default : HIx 4)) (insert (SemLoc.dma wS0, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hw0]
      · iexists _, _; isplitl [Hw0]
        · iexact Hw0
        · ipureintro; exact hblk
      isplitl [Hb1]; · iexact Hb1
      isplitl [Hw0_dst]
      · iexists _; isplitl [Hw0_dst]
        · iexact Hw0_dst
        · ipureintro; exact hb0
      isplitl [Ho3]; · iexact Ho3
      isplitl [Ho4]; · iexact Ho4
      isplitl [Ho5]; · iexact Ho5
      isplitl [Ho6]; · iexact Ho6
      iexact Ho7
    | 3, hk =>
      have k2_h1 : k2_cond1 t3 = 1#1 := by decide
      change invV3 d L O W q ft (fetched d L fi) ⊢ wp frame (wpE (defs₀ (F := F)) 𝒱₀ (tile d L) none) Set.univ (tile_run2v.sl.prog.body_1 L t3 u) (fun _ => invV4 d L O W q ft (fetched d L fi))
      unfold invV3 commonV slotBusyV outHeldV outHeld
      iintro ⟨⟨Hmw, Ht, H5, H6, Hg0, Hg1, %W', %hW', HO⟩, Hb0, ⟨%fo1, %fc1, Hw1, %hb1⟩, Ho0, ⟨%o3, Ho3⟩, Ho4, Ho5, Ho6, Ho7⟩
      icases H6 with ⟨%r6, H6⟩
      have hin := h5
      have hinT : ∀ x, (((s0W).slice (Rect.unit (s := S1024) ![384] S128.size inb_w384) (fun _ => rfl)).view.read (Elt F) (fetched d L fi) x).toNat
          < S1000x128.size gathers_S1000x128_S128x128.axis := hin ![384] inb_w384
      have hinK : ∀ x, ((offsAt t3).view.read (Elt F) (fetched d L fi) x).toNat < S1000x128.size gathers_S1000x128_S128x128.axis := hin _ _
      sl_exec
      ihave Hc := (Entails.of_eq (show ((s2W).view.loc (tile d L) ↦[(crowsAt t1).view.set]{fullShare} fc1 : sProp 𝕄)
          = ((s2W).view.loc (tile d L) ↦[Finset.univ \ (crowsAt t0).view.set]{fullShare} fc1) from by rw [crows_odd t1 (by decide)])) $$ Hw1_src
      sl_for (invCV (F := F) d L t3 t0 (View.write (Elt F) (rowsAt t3).view r6 (tile_run2v.sl.gather0_3 d L ft fi hinK) Finset.univ)) $$ [H6 Hc]
      case region =>
        intro j _
        unfold invCV
        iintro ⟨H6, ⟨%f, Hc, %hC⟩⟩
        sl_exec
        sl_step
        isplitl [H6]; · iexact H6
        iexists _; isplitl [Hc]; · iexact Hc
        ipureintro
        exact compacted_step t3 j _ f hC _ _ (fun e => (pay1_at _ e).trans (load_lo_at _ t3 j e)) (fun e => (pay2_at _ e).trans (load_hi_at _ t3 j e))
      · unfold invCV
        isplitl [H6]; · iexact H6
        iexists _; isplitl [Hc]; · iexact Hc
        ipureintro; exact compacted_zero t3 _ _
      iintro %_ HI
      unfold invCV
      icases HI with ⟨H6, ⟨%f, Hc, %hC⟩⟩
      have hC128 : Compacted (F := F) t3 (View.write (Elt F) (rowsAt t3).view r6 (tile_run2v.sl.gather0_3 d L ft fi hinK) Finset.univ) f 128 := hC
      sl_exec
      sl_step
      iclear Hc
      have hblk : BlkOK (F := F) d L ft (fetched d L fi) t3 ((outAt L t3).view.writes (Elt F) o3 [⟨Rect.whole S128x32, tile_run2v.sl.dma0_4 d L f⟩]) :=
        blk_of_compacted d L ft (fetched d L fi) t3 _ _ hinK r6 f o3 hC128
      unfold invV4 commonV slotBusyV outHeldV outHeld
      isplitl [Hmw Ht H5 H6 Hg0 Hg1 HO]
      · isplitl [Hmw]; · iexact Hmw
        isplitl [Ht]; · iexact Ht
        isplitl [H5]; · iexact H5
        isplitl [H6]; · iexists _; iexact H6
        isplitl [Hg0]; · iexact Hg0
        isplitl [Hg1]; · iexact Hg1
        iexists (insert (SemLoc.dma gS1, (default : HIx 4)) (insert (SemLoc.dma wS1, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hb0]; · iexact Hb0
      isplitl [Hw1]
      · iexists _, _; isplitl [Hw1]
        · iexact Hw1
        · ipureintro; exact hblk
      isplitl [Ho0]; · iexact Ho0
      isplitl [Hw1_dst]
      · iexists _; isplitl [Hw1_dst]
        · iexact Hw1_dst
        · ipureintro; exact hb1
      isplitl [Ho4]; · iexact Ho4
      isplitl [Ho5]; · iexact Ho5
      isplitl [Ho6]; · iexact Ho6
      iexact Ho7
    | 4, hk =>
      have k2_h1 : k2_cond1 t4 = 1#1 := by decide
      change invV4 d L O W q ft (fetched d L fi) ⊢ wp frame (wpE (defs₀ (F := F)) 𝒱₀ (tile d L) none) Set.univ (tile_run2v.sl.prog.body_1 L t4 u) (fun _ => invV5 d L O W q ft (fetched d L fi))
      unfold invV4 commonV slotBusyV outHeldV outHeld
      iintro ⟨⟨Hmw, Ht, H5, H6, Hg0, Hg1, %W', %hW', HO⟩, ⟨%fo0, %fc0, Hw0, %hb0⟩, Hb1, Ho0, Ho1, ⟨%o4, Ho4⟩, Ho5, Ho6, Ho7⟩
      icases H6 with ⟨%r6, H6⟩
      have hin := h5
      have hinT : ∀ x, (((s0W).slice (Rect.unit (s := S1024) ![512] S128.size inb_w512) (fun _ => rfl)).view.read (Elt F) (fetched d L fi) x).toNat
          < S1000x128.size gathers_S1000x128_S128x128.axis := hin ![512] inb_w512
      have hinK : ∀ x, ((offsAt t4).view.read (Elt F) (fetched d L fi) x).toNat < S1000x128.size gathers_S1000x128_S128x128.axis := hin _ _
      sl_exec
      ihave Hc := (Entails.of_eq (show ((s2W).view.loc (tile d L) ↦[(crowsAt t2).view.set]{fullShare} fc0 : sProp 𝕄)
          = ((s2W).view.loc (tile d L) ↦[Finset.univ \ (crowsAt t1).view.set]{fullShare} fc0) from by rw [crows_even t2 (by decide)])) $$ Hw0_src
      sl_for (invCV (F := F) d L t4 t1 (View.write (Elt F) (rowsAt t4).view r6 (tile_run2v.sl.gather0_4 d L ft fi hinK) Finset.univ)) $$ [H6 Hc]
      case region =>
        intro j _
        unfold invCV
        iintro ⟨H6, ⟨%f, Hc, %hC⟩⟩
        sl_exec
        sl_step
        isplitl [H6]; · iexact H6
        iexists _; isplitl [Hc]; · iexact Hc
        ipureintro
        exact compacted_step t4 j _ f hC _ _ (fun e => (pay1_at _ e).trans (load_lo_at _ t4 j e)) (fun e => (pay2_at _ e).trans (load_hi_at _ t4 j e))
      · unfold invCV
        isplitl [H6]; · iexact H6
        iexists _; isplitl [Hc]; · iexact Hc
        ipureintro; exact compacted_zero t4 _ _
      iintro %_ HI
      unfold invCV
      icases HI with ⟨H6, ⟨%f, Hc, %hC⟩⟩
      have hC128 : Compacted (F := F) t4 (View.write (Elt F) (rowsAt t4).view r6 (tile_run2v.sl.gather0_4 d L ft fi hinK) Finset.univ) f 128 := hC
      sl_exec
      sl_step
      iclear Hc
      have hblk : BlkOK (F := F) d L ft (fetched d L fi) t4 ((outAt L t4).view.writes (Elt F) o4 [⟨Rect.whole S128x32, tile_run2v.sl.dma0_5 d L f⟩]) :=
        blk_of_compacted d L ft (fetched d L fi) t4 _ _ hinK r6 f o4 hC128
      unfold invV5 commonV slotBusyV outHeldV outHeld
      isplitl [Hmw Ht H5 H6 Hg0 Hg1 HO]
      · isplitl [Hmw]; · iexact Hmw
        isplitl [Ht]; · iexact Ht
        isplitl [H5]; · iexact H5
        isplitl [H6]; · iexists _; iexact H6
        isplitl [Hg0]; · iexact Hg0
        isplitl [Hg1]; · iexact Hg1
        iexists (insert (SemLoc.dma gS0, (default : HIx 4)) (insert (SemLoc.dma wS0, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hw0]
      · iexists _, _; isplitl [Hw0]
        · iexact Hw0
        · ipureintro; exact hblk
      isplitl [Hb1]; · iexact Hb1
      isplitl [Ho0]; · iexact Ho0
      isplitl [Ho1]; · iexact Ho1
      isplitl [Hw0_dst]
      · iexists _; isplitl [Hw0_dst]
        · iexact Hw0_dst
        · ipureintro; exact hb0
      isplitl [Ho5]; · iexact Ho5
      isplitl [Ho6]; · iexact Ho6
      iexact Ho7
    | 5, hk =>
      have k2_h1 : k2_cond1 t5 = 1#1 := by decide
      change invV5 d L O W q ft (fetched d L fi) ⊢ wp frame (wpE (defs₀ (F := F)) 𝒱₀ (tile d L) none) Set.univ (tile_run2v.sl.prog.body_1 L t5 u) (fun _ => invV6 d L O W q ft (fetched d L fi))
      unfold invV5 commonV slotBusyV outHeldV outHeld
      iintro ⟨⟨Hmw, Ht, H5, H6, Hg0, Hg1, %W', %hW', HO⟩, Hb0, ⟨%fo1, %fc1, Hw1, %hb1⟩, Ho0, Ho1, Ho2, ⟨%o5, Ho5⟩, Ho6, Ho7⟩
      icases H6 with ⟨%r6, H6⟩
      have hin := h5
      have hinT : ∀ x, (((s0W).slice (Rect.unit (s := S1024) ![640] S128.size inb_w640) (fun _ => rfl)).view.read (Elt F) (fetched d L fi) x).toNat
          < S1000x128.size gathers_S1000x128_S128x128.axis := hin ![640] inb_w640
      have hinK : ∀ x, ((offsAt t5).view.read (Elt F) (fetched d L fi) x).toNat < S1000x128.size gathers_S1000x128_S128x128.axis := hin _ _
      sl_exec
      ihave Hc := (Entails.of_eq (show ((s2W).view.loc (tile d L) ↦[(crowsAt t3).view.set]{fullShare} fc1 : sProp 𝕄)
          = ((s2W).view.loc (tile d L) ↦[Finset.univ \ (crowsAt t0).view.set]{fullShare} fc1) from by rw [crows_odd t3 (by decide)])) $$ Hw1_src
      sl_for (invCV (F := F) d L t5 t0 (View.write (Elt F) (rowsAt t5).view r6 (tile_run2v.sl.gather0_5 d L ft fi hinK) Finset.univ)) $$ [H6 Hc]
      case region =>
        intro j _
        unfold invCV
        iintro ⟨H6, ⟨%f, Hc, %hC⟩⟩
        sl_exec
        sl_step
        isplitl [H6]; · iexact H6
        iexists _; isplitl [Hc]; · iexact Hc
        ipureintro
        exact compacted_step t5 j _ f hC _ _ (fun e => (pay1_at _ e).trans (load_lo_at _ t5 j e)) (fun e => (pay2_at _ e).trans (load_hi_at _ t5 j e))
      · unfold invCV
        isplitl [H6]; · iexact H6
        iexists _; isplitl [Hc]; · iexact Hc
        ipureintro; exact compacted_zero t5 _ _
      iintro %_ HI
      unfold invCV
      icases HI with ⟨H6, ⟨%f, Hc, %hC⟩⟩
      have hC128 : Compacted (F := F) t5 (View.write (Elt F) (rowsAt t5).view r6 (tile_run2v.sl.gather0_5 d L ft fi hinK) Finset.univ) f 128 := hC
      sl_exec
      sl_step
      iclear Hc
      have hblk : BlkOK (F := F) d L ft (fetched d L fi) t5 ((outAt L t5).view.writes (Elt F) o5 [⟨Rect.whole S128x32, tile_run2v.sl.dma0_6 d L f⟩]) :=
        blk_of_compacted d L ft (fetched d L fi) t5 _ _ hinK r6 f o5 hC128
      unfold invV6 commonV slotBusyV outHeldV outHeld
      isplitl [Hmw Ht H5 H6 Hg0 Hg1 HO]
      · isplitl [Hmw]; · iexact Hmw
        isplitl [Ht]; · iexact Ht
        isplitl [H5]; · iexact H5
        isplitl [H6]; · iexists _; iexact H6
        isplitl [Hg0]; · iexact Hg0
        isplitl [Hg1]; · iexact Hg1
        iexists (insert (SemLoc.dma gS1, (default : HIx 4)) (insert (SemLoc.dma wS1, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hb0]; · iexact Hb0
      isplitl [Hw1]
      · iexists _, _; isplitl [Hw1]
        · iexact Hw1
        · ipureintro; exact hblk
      isplitl [Ho0]; · iexact Ho0
      isplitl [Ho1]; · iexact Ho1
      isplitl [Ho2]; · iexact Ho2
      isplitl [Hw1_dst]
      · iexists _; isplitl [Hw1_dst]
        · iexact Hw1_dst
        · ipureintro; exact hb1
      isplitl [Ho6]; · iexact Ho6
      iexact Ho7
    | 6, hk =>
      have k2_h1 : k2_cond1 t6 = 1#1 := by decide
      change invV6 d L O W q ft (fetched d L fi) ⊢ wp frame (wpE (defs₀ (F := F)) 𝒱₀ (tile d L) none) Set.univ (tile_run2v.sl.prog.body_1 L t6 u) (fun _ => invV7 d L O W q ft (fetched d L fi))
      unfold invV6 commonV slotBusyV outHeldV outHeld
      iintro ⟨⟨Hmw, Ht, H5, H6, Hg0, Hg1, %W', %hW', HO⟩, ⟨%fo0, %fc0, Hw0, %hb0⟩, Hb1, Ho0, Ho1, Ho2, Ho3, ⟨%o6, Ho6⟩, Ho7⟩
      icases H6 with ⟨%r6, H6⟩
      have hin := h5
      have hinT : ∀ x, (((s0W).slice (Rect.unit (s := S1024) ![768] S128.size inb_w768) (fun _ => rfl)).view.read (Elt F) (fetched d L fi) x).toNat
          < S1000x128.size gathers_S1000x128_S128x128.axis := hin ![768] inb_w768
      have hinK : ∀ x, ((offsAt t6).view.read (Elt F) (fetched d L fi) x).toNat < S1000x128.size gathers_S1000x128_S128x128.axis := hin _ _
      sl_exec
      ihave Hc := (Entails.of_eq (show ((s2W).view.loc (tile d L) ↦[(crowsAt t4).view.set]{fullShare} fc0 : sProp 𝕄)
          = ((s2W).view.loc (tile d L) ↦[Finset.univ \ (crowsAt t1).view.set]{fullShare} fc0) from by rw [crows_even t4 (by decide)])) $$ Hw0_src
      sl_for (invCV (F := F) d L t6 t1 (View.write (Elt F) (rowsAt t6).view r6 (tile_run2v.sl.gather0_6 d L ft fi hinK) Finset.univ)) $$ [H6 Hc]
      case region =>
        intro j _
        unfold invCV
        iintro ⟨H6, ⟨%f, Hc, %hC⟩⟩
        sl_exec
        sl_step
        isplitl [H6]; · iexact H6
        iexists _; isplitl [Hc]; · iexact Hc
        ipureintro
        exact compacted_step t6 j _ f hC _ _ (fun e => (pay1_at _ e).trans (load_lo_at _ t6 j e)) (fun e => (pay2_at _ e).trans (load_hi_at _ t6 j e))
      · unfold invCV
        isplitl [H6]; · iexact H6
        iexists _; isplitl [Hc]; · iexact Hc
        ipureintro; exact compacted_zero t6 _ _
      iintro %_ HI
      unfold invCV
      icases HI with ⟨H6, ⟨%f, Hc, %hC⟩⟩
      have hC128 : Compacted (F := F) t6 (View.write (Elt F) (rowsAt t6).view r6 (tile_run2v.sl.gather0_6 d L ft fi hinK) Finset.univ) f 128 := hC
      sl_exec
      sl_step
      iclear Hc
      have hblk : BlkOK (F := F) d L ft (fetched d L fi) t6 ((outAt L t6).view.writes (Elt F) o6 [⟨Rect.whole S128x32, tile_run2v.sl.dma0_7 d L f⟩]) :=
        blk_of_compacted d L ft (fetched d L fi) t6 _ _ hinK r6 f o6 hC128
      unfold invV7 commonV slotBusyV outHeldV outHeld
      isplitl [Hmw Ht H5 H6 Hg0 Hg1 HO]
      · isplitl [Hmw]; · iexact Hmw
        isplitl [Ht]; · iexact Ht
        isplitl [H5]; · iexact H5
        isplitl [H6]; · iexists _; iexact H6
        isplitl [Hg0]; · iexact Hg0
        isplitl [Hg1]; · iexact Hg1
        iexists (insert (SemLoc.dma gS0, (default : HIx 4)) (insert (SemLoc.dma wS0, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hw0]
      · iexists _, _; isplitl [Hw0]
        · iexact Hw0
        · ipureintro; exact hblk
      isplitl [Hb1]; · iexact Hb1
      isplitl [Ho0]; · iexact Ho0
      isplitl [Ho1]; · iexact Ho1
      isplitl [Ho2]; · iexact Ho2
      isplitl [Ho3]; · iexact Ho3
      isplitl [Hw0_dst]
      · iexists _; isplitl [Hw0_dst]
        · iexact Hw0_dst
        · ipureintro; exact hb0
      iexact Ho7
    | 7, hk =>
      have k2_h1 : k2_cond1 t7 = 1#1 := by decide
      change invV7 d L O W q ft (fetched d L fi) ⊢ wp frame (wpE (defs₀ (F := F)) 𝒱₀ (tile d L) none) Set.univ (tile_run2v.sl.prog.body_1 L t7 u) (fun _ => invV8 d L O W q ft (fetched d L fi))
      unfold invV7 commonV slotBusyV outHeldV outHeld
      iintro ⟨⟨Hmw, Ht, H5, H6, Hg0, Hg1, %W', %hW', HO⟩, Hb0, ⟨%fo1, %fc1, Hw1, %hb1⟩, Ho0, Ho1, Ho2, Ho3, Ho4, ⟨%o7, Ho7⟩⟩
      icases H6 with ⟨%r6, H6⟩
      have hin := h5
      have hinT : ∀ x, (((s0W).slice (Rect.unit (s := S1024) ![896] S128.size inb_w896) (fun _ => rfl)).view.read (Elt F) (fetched d L fi) x).toNat
          < S1000x128.size gathers_S1000x128_S128x128.axis := hin ![896] inb_w896
      have hinK : ∀ x, ((offsAt t7).view.read (Elt F) (fetched d L fi) x).toNat < S1000x128.size gathers_S1000x128_S128x128.axis := hin _ _
      sl_exec
      ihave Hc := (Entails.of_eq (show ((s2W).view.loc (tile d L) ↦[(crowsAt t5).view.set]{fullShare} fc1 : sProp 𝕄)
          = ((s2W).view.loc (tile d L) ↦[Finset.univ \ (crowsAt t0).view.set]{fullShare} fc1) from by rw [crows_odd t5 (by decide)])) $$ Hw1_src
      sl_for (invCV (F := F) d L t7 t0 (View.write (Elt F) (rowsAt t7).view r6 (tile_run2v.sl.gather0_7 d L ft fi hinK) Finset.univ)) $$ [H6 Hc]
      case region =>
        intro j _
        unfold invCV
        iintro ⟨H6, ⟨%f, Hc, %hC⟩⟩
        sl_exec
        sl_step
        isplitl [H6]; · iexact H6
        iexists _; isplitl [Hc]; · iexact Hc
        ipureintro
        exact compacted_step t7 j _ f hC _ _ (fun e => (pay1_at _ e).trans (load_lo_at _ t7 j e)) (fun e => (pay2_at _ e).trans (load_hi_at _ t7 j e))
      · unfold invCV
        isplitl [H6]; · iexact H6
        iexists _; isplitl [Hc]; · iexact Hc
        ipureintro; exact compacted_zero t7 _ _
      iintro %_ HI
      unfold invCV
      icases HI with ⟨H6, ⟨%f, Hc, %hC⟩⟩
      have hC128 : Compacted (F := F) t7 (View.write (Elt F) (rowsAt t7).view r6 (tile_run2v.sl.gather0_7 d L ft fi hinK) Finset.univ) f 128 := hC
      sl_exec
      sl_step
      iclear Hc
      have hblk : BlkOK (F := F) d L ft (fetched d L fi) t7 ((outAt L t7).view.writes (Elt F) o7 [⟨Rect.whole S128x32, tile_run2v.sl.dma0_8 d L f⟩]) :=
        blk_of_compacted d L ft (fetched d L fi) t7 _ _ hinK r6 f o7 hC128
      unfold invV8 commonV slotBusyV outHeldV
      isplitl [Hmw Ht H5 H6 Hg0 Hg1 HO]
      · isplitl [Hmw]; · iexact Hmw
        isplitl [Ht]; · iexact Ht
        isplitl [H5]; · iexact H5
        isplitl [H6]; · iexists _; iexact H6
        isplitl [Hg0]; · iexact Hg0
        isplitl [Hg1]; · iexact Hg1
        iexists (insert (SemLoc.dma gS1, (default : HIx 4)) (insert (SemLoc.dma wS1, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hb0]; · iexact Hb0
      isplitl [Hw1]
      · iexists _, _; isplitl [Hw1]
        · iexact Hw1
        · ipureintro; exact hblk
      isplitl [Ho0]; · iexact Ho0
      isplitl [Ho1]; · iexact Ho1
      isplitl [Ho2]; · iexact Ho2
      isplitl [Ho3]; · iexact Ho3
      isplitl [Ho4]; · iexact Ho4
      iexists _; isplitl [Hw1_dst]
      · iexact Hw1_dst
      · ipureintro; exact hb1
  · -- before the first trip
    iapply (Entails.of_eq (show invV0 d L O W q ft (fetched d L fi) = invOV d L O W q ft (fetched d L fi) 0 PUnit.unit from rfl))
    unfold invV0 commonV slotFree outHeld crowsHeld
    isplitl [Hmw Ht H5 H6 Hg0 Hg1 HO]
    · isplitl [Hmw]; · iexact Hmw
      isplitl [Ht]; · iexact Ht
      isplitl [H5]; · iexact H5
      isplitl [H6]; · iexact H6
      isplitl [Hg0]; · iexact Hg0
      isplitl [Hg1]; · iexact Hg1
      iexists (insert (SemLoc.dma pS, (default : HIx 4)) W); isplitr
      · ipureintro; intro p hp
        rcases Finset.mem_insert.mp hp with hp | hp
        · exact Or.inr (by subst hp; rfl)
        · exact Or.inl hp
      · iexact HO
    isplitl [Hw0 Hc0]
    · isplitl [Hw0]; · iexact Hw0
      iexact Hc0
    isplitl [Hw1 Hc1]
    · isplitl [Hw1]; · iexact Hw1
      iexact Hc1
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    iexact Ho7
  -- after the loop: the last two write-backs
  iintro %acc HI
  ihave HI' := (Entails.of_eq (show invOV d L O W q ft (fetched d L fi) (Scf.trips k2_t1_loop.lb k2_t1_loop.ub k2_t1_loop.st) acc = invV8 d L O W q ft (fetched d L fi) from rfl)) $$ HI
  unfold invV8 commonV slotBusyV outHeldV
  icases HI' with ⟨⟨Hmw, Ht, H5, H6, Hg0, Hg1, %W', %hW', HO⟩, ⟨%foA, %fcA, Hw0, %hbA⟩, ⟨%foB, %fcB, Hw1, %hbB⟩, Ho0, Ho1, Ho2, Ho3, Ho4, Ho5⟩
  sl_exec
  sl_step
  isplitl [Ht]; · iexact Ht
  isplitl [Hi]; · iexact Hi
  isplitl [H5]; · iexists _; iexact H5
  isplitl [H6]; · iexact H6
  isplitl [Hw0_src]; · iexists _; iexact Hw0_src
  isplitl [Hw1_src]; · iexists _; iexact Hw1_src
  isplitl [Ho0]; · iexact Ho0
  isplitl [Ho1]; · iexact Ho1
  isplitl [Ho2]; · iexact Ho2
  isplitl [Ho3]; · iexact Ho3
  isplitl [Ho4]; · iexact Ho4
  isplitl [Ho5]; · iexact Ho5
  isplitl [Hw0_dst]
  · iexists _; isplitl [Hw0_dst]
    · iexact Hw0_dst
    · ipureintro; exact hbA
  isplitl [Hw1_dst]
  · iexists _; isplitl [Hw1_dst]
    · iexact Hw1_dst
    · ipureintro; exact hbB
  isplitl [Hg0]; · iexact Hg0
  isplitl [Hg1]; · iexact Hg1
  isplitl [Hw0]; · iexact Hw0
  isplitl [Hw1]; · iexact Hw1
  isplitl [Hp]; · iexact Hp
  iexists (insert (SemLoc.dma wS1, (default : HIx 4)) (insert (SemLoc.dma wS0, (default : HIx 4)) W')); isplitr
  · ipureintro; intro p hp
    rcases Finset.mem_insert.mp hp with hp | hp
    · exact Or.inr (by subst hp; rfl)
    rcases Finset.mem_insert.mp hp with hp | hp
    · exact Or.inr (by subst hp; rfl)
    · exact hW' p hp
  · iexact HO

end Cert.KernelIdeal.Hand.C2

end
-- ==== Proof.KernelIdeal.TileOblV2.lean ====
/-
  The third gather call's task as the launch theorem wants it, contents tracked: what a vector subcore hands back is
  its slice of the token words, unchanged, and each of its blocks of the result holding the table rows its words name.
  The run is `tile_run2v`; the subcore's scratch and semaphores are picked out and handed back as in the untracked
  obligation.
-/
import proofs.«203661_g84404697301628_cont_9to1_m_135_26_alg».proof.Proof.KernelIdeal.TileRunV2
import proofs.«203661_g84404697301628_cont_9to1_m_135_26_alg».proof.Proof.KernelIdeal.TileObl2
import proofs.«203661_g84404697301628_cont_9to1_m_135_26_alg».proof.Proof.PayV

noncomputable section

namespace Cert.KernelIdeal.Hand.C2

open Cert.KernelIdeal Cert.KernelIdeal.Gen Cert.KernelIdeal.Hand
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [hK : Cert.KernelIdeal.Facts] [FloatOps F]

local notation "𝕄" => MT nD τ sig (HIx 4) (Elt F) ℕ UU ℕ

local notation "tblW" => (Memref.whole Cert.KernelIdeal.main_v0_scv : Memref Cert.KernelIdeal.sig Kind.scVector Space.hbm Cert.KernelIdeal.S1000x128 EltTy.f32)
local notation "idxW" => (Memref.whole Cert.KernelIdeal.main_v9_scv : Memref Cert.KernelIdeal.sig Kind.scVector Space.hbm Cert.KernelIdeal.S32768 EltTy.i32)
local notation "outW" => (Memref.whole Cert.KernelIdeal.main_v10_scv : Memref Cert.KernelIdeal.sig Kind.scVector Space.hbm Cert.KernelIdeal.S2x16384x32 EltTy.f32)
local notation "s0W" => (Memref.whole Cert.KernelIdeal.cc2_scratch0 : Memref Cert.KernelIdeal.sig Kind.scVector Space.vmem Cert.KernelIdeal.S1024 EltTy.i32)
local notation "s1W" => (Memref.whole Cert.KernelIdeal.cc2_scratch1 : Memref Cert.KernelIdeal.sig Kind.scVector Space.vmem Cert.KernelIdeal.S2x128x128 EltTy.f32)
local notation "s2W" => (Memref.whole Cert.KernelIdeal.cc2_scratch2 : Memref Cert.KernelIdeal.sig Kind.scVector Space.vmem Cert.KernelIdeal.S2x128x32 EltTy.f32)

/-- what subcore `(c, i)` hands back for the third call besides the table: its slice of the token words, at the words
    `wd`, and its blocks of the result, each holding the table rows (of the table `tbv`) its words name -/
def Rtd2 (tbv : (d : Dev nD) → Buf (Elt F) (tblLoc d)) (wd : (d : Dev nD) → Buf (Elt F) (idxLoc2 d)) (d : Dev nD) (c : Fin 2) (i : Fin 16) : sProp 𝕄 :=
  iprop(((idxSl (coords2 c i)).view.loc (tile d (coords2 c i)) ↦[(idxSl (coords2 c i)).view.set]{fullShare} wd d)
    ∗ outHeldV (F := F) d (coords2 c i) (tbv d) (fetched d (coords2 c i) (wd d)) t0
    ∗ outHeldV (F := F) d (coords2 c i) (tbv d) (fetched d (coords2 c i) (wd d)) t1
    ∗ outHeldV (F := F) d (coords2 c i) (tbv d) (fetched d (coords2 c i) (wd d)) t2
    ∗ outHeldV (F := F) d (coords2 c i) (tbv d) (fetched d (coords2 c i) (wd d)) t3
    ∗ outHeldV (F := F) d (coords2 c i) (tbv d) (fetched d (coords2 c i) (wd d)) t4
    ∗ outHeldV (F := F) d (coords2 c i) (tbv d) (fetched d (coords2 c i) (wd d)) t5
    ∗ outHeldV (F := F) d (coords2 c i) (tbv d) (fetched d (coords2 c i) (wd d)) t6
    ∗ outHeldV (F := F) d (coords2 c i) (tbv d) (fetched d (coords2 c i) (wd d)) t7)

section Tile

variable (d : Dev nD) (L : grid2.Coords)

/-- The task on one vector subcore with contents tracked, in the launch theorem's resources: the blocks go in at some
    contents and come back holding the table rows the subcore's words name. -/
theorem tile_body2v (hF : (K (F := F)).Facts) (tb : (d : Dev nD) → Buf (Elt F) (tblLoc d)) (wd : (d : Dev nD) → Buf (Elt F) (idxLoc2 d))
    (hwd : ∀ d y, (wd d y).toNat < 1000) (q : PosShare TreeShare)
    (lv : GSem nD τ sig → HIx 4 → ℕ) (hlv : (K (F := F)).Refines lv)
    (O : CellTallies nD τ sig (HIx 4)) (W : Waits sig (HIx 4)) (hO : ∀ g, O g none = 0) :
    iprop(levAts (K (F := F)).L lv ∗ emp
        ∗ ((tblLoc d ↦{q} tb d)
            ∗ ((idxSl L).view.loc (tile d L) ↦[(idxSl L).view.set]{fullShare} wd d)
            ∗ outHeld (F := F) d L t0 ∗ outHeld (F := F) d L t1 ∗ outHeld (F := F) d L t2 ∗ outHeld (F := F) d L t3
            ∗ outHeld (F := F) d L t4 ∗ outHeld (F := F) d L t5 ∗ outHeld (F := F) d L t6 ∗ outHeld (F := F) d L t7)
        ∗ scopedBufs (tile d L) ∗ scopedSems0 (tile d L) ∗ owes (tile d L) O W)
      ⊢ wp frame (wpE (defs₀ (F := F)) 𝒱₀ (tile d L) none) Set.univ
          (cc2_gather_kernel L tblW (Memref.isWhole_whole _) idxW (Memref.isWhole_whole _) outW (Memref.isWhole_whole _)
            s0W (Memref.isWhole_whole _) s1W (Memref.isWhole_whole _) s2W (Memref.isWhole_whole _) cc2_scratch3 cc2_scratch4 cc2_scoped0)
          fun _ => iprop(((tblLoc d ↦{q} tb d)
            ∗ ((idxSl L).view.loc (tile d L) ↦[(idxSl L).view.set]{fullShare} wd d)
            ∗ outHeldV (F := F) d L (tb d) (fetched d L (wd d)) t0
            ∗ outHeldV (F := F) d L (tb d) (fetched d L (wd d)) t1
            ∗ outHeldV (F := F) d L (tb d) (fetched d L (wd d)) t2
            ∗ outHeldV (F := F) d L (tb d) (fetched d L (wd d)) t3
            ∗ outHeldV (F := F) d L (tb d) (fetched d L (wd d)) t4
            ∗ outHeldV (F := F) d L (tb d) (fetched d L (wd d)) t5
            ∗ outHeldV (F := F) d L (tb d) (fetched d L (wd d)) t6
            ∗ outHeldV (F := F) d L (tb d) (fetched d L (wd d)) t7)
            ∗ scopedBufs (tile d L) ∗ scopedSems0 (tile d L)
            ∗ ∃ W', ⌜∀ p ∈ W', p ∈ W ∨ p.2 = none⌝ ∗ owes (tile d L) O W') := by
  rw [(K (F := F)).scopedBufs_V hF d (cV L) (jV L), SparseCore.Cfg.scopedSems0_V (Val := Elt F) d (cV L) (jV L), ownSems0_V2, ownBufs_V2]
  iintro ⟨#Hlv, -, ⟨Ht, Hi, Ho0, Ho1, Ho2, Ho3, Ho4, Ho5, Ho6, Ho7⟩, ⟨H5, H6, ⟨%f7, H7⟩, Hbufs⟩, ⟨Hg0, Hg1, Hw0, Hw1, Hp, Hsems⟩, HO⟩
  ihave Hmw := ((K (F := F)).mayWaits_none (thr := tile d L) hO lv hlv) $$ Hlv
  ihave Hc := (crows_split (F := F) d L f7) $$ H7
  icases Hc with ⟨Hc1, Hc0⟩
  iapply (wp_wand_r frame (wpE (defs₀ (F := F)) 𝒱₀ (tile d L) none) Set.univ)
  isplitl [Hmw Ht Hi H5 H6 Hc0 Hc1 Ho0 Ho1 Ho2 Ho3 Ho4 Ho5 Ho6 Ho7 Hg0 Hg1 Hw0 Hw1 Hp HO]
  · iapply (tile_run2v (F := F) d L O W q (tb d) (wd d) (hwd d))
    isplitl [Hmw]; · iexact Hmw
    isplitl [Ht]; · iexact Ht
    isplitl [Hi]; · iexact Hi
    isplitl [H5]; · iexact H5
    isplitl [H6]; · iexact H6
    isplitl [Hc1]; · unfold crowsHeld; iexists _; iexact Hc1
    isplitl [Hc0]; · unfold crowsHeld; iexists _; iexact Hc0
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    isplitl [Ho7]; · iexact Ho7
    isplitl [Hg0]; · iexact Hg0
    isplitl [Hg1]; · iexact Hg1
    isplitl [Hw0]; · iexact Hw0
    isplitl [Hw1]; · iexact Hw1
    isplitl [Hp]; · iexact Hp
    iexact HO
  · iintro %a ⟨Ht, Hi, H5, H6, ⟨%c2, Hc2⟩, ⟨%c3, Hc3⟩, Ho0, Ho1, Ho2, Ho3, Ho4, Ho5, Ho6, Ho7, Hg0, Hg1, Hw0, Hw1, Hp, HO⟩
    ihave H7 := (crows_join (F := F) d L c2 c3) $$ [Hc2 Hc3]
    · isplitl [Hc2]; · iexact Hc2
      iexact Hc3
    isplitl [Ht Hi Ho0 Ho1 Ho2 Ho3 Ho4 Ho5 Ho6 Ho7]
    · isplitl [Ht]; · iexact Ht
      isplitl [Hi]; · iexact Hi
      isplitl [Ho0]; · iexact Ho0
      isplitl [Ho1]; · iexact Ho1
      isplitl [Ho2]; · iexact Ho2
      isplitl [Ho3]; · iexact Ho3
      isplitl [Ho4]; · iexact Ho4
      isplitl [Ho5]; · iexact Ho5
      isplitl [Ho6]; · iexact Ho6
      iexact Ho7
    isplitl [H5 H6 H7 Hbufs]
    · isplitl [H5]; · iexact H5
      isplitl [H6]; · iexact H6
      isplitl [H7]; · iexact H7
      iexact Hbufs
    isplitl [Hg0 Hg1 Hw0 Hw1 Hp Hsems]
    · isplitl [Hg0]; · iexact Hg0
      isplitl [Hg1]; · iexact Hg1
      isplitl [Hw0]; · iexact Hw0
      isplitl [Hw1]; · iexact Hw1
      isplitl [Hp]; · iexact Hp
      iexact Hsems
    iexact HO

end Tile

/-- The third call's task obligation with contents tracked: handed `Rs2`, the subcore hands back `Rtd2`. -/
theorem tileOblV2 (hF : (K (F := F)).Facts) (tb : (d : Dev nD) → Buf (Elt F) (tblLoc d)) (Rgo Rtd : Fin 4 → Dev nD → Fin 2 → Fin 16 → sProp 𝕄)
    (wd : (d : Dev nD) → Buf (Elt F) (idxLoc2 d)) (hwd : ∀ d y, (wd d y).toNat < 1000)
    (hgo : ∀ d c i, Rgo 2 d c i = Rs2 wd d c i) (htd : ∀ d c i, Rtd 2 d c i = Rtd2 tb wd d c i)
    (lv : GSem nD τ sig → HIx 4 → ℕ) (hlv : (K (F := F)).Refines lv) :
    (K (F := F)).TileObl (D (F := F)) 𝒱 (PV tb Rgo Rtd) v₀ 2 lv := by
  intro d c i O W hO _ _
  simp only [show (PV (F := F) tb Rgo Rtd).ox = fun _ _ => 0 from rfl, add_zero]
  change iprop(levAts _ lv ∗ emp ∗ ((tblLoc d ↦{tileShare (Fin.cast (nCore_eq 2) c) (Fin.cast (nSub_eq 2) i)} tb d)
        ∗ Rgo 2 d (Fin.cast (nCore_eq 2) c) (Fin.cast (nSub_eq 2) i)) ∗ _ ∗ _ ∗ _)
    ⊢ wp _ _ _ (Pipeline.liftProg (defs₀ (F := F) (.scVector ((K (F := F)).core 2 c) ((K (F := F)).sub 2 i)) 2 ()))
        (fun _ => iprop(((tblLoc d ↦{tileShare (Fin.cast (nCore_eq 2) c) (Fin.cast (nSub_eq 2) i)} tb d)
          ∗ Rtd 2 d (Fin.cast (nCore_eq 2) c) (Fin.cast (nSub_eq 2) i)) ∗ _ ∗ _ ∗ _))
  rw [hgo, htd]
  refine BI.Entails.trans ?_ (Pipeline.wp_liftProg (D (F := F)) (Pipeline.defs_kernel pcfgs defs₀) 𝒱₀ _ Set.univ none _ _)
  have hc : ((K (F := F)).core 2 c).val < grid2.bound 0 ∧ ((K (F := F)).sub 2 i).val < grid2.bound 1 := ⟨c.isLt, i.isLt⟩
  rw [defs₀_vector2]; simp only [SparseCore.onTile, hc, and_self, ↓reduceDIte]
  unfold Rs2 Rtd2
  exact (tile_body2v (F := F) d (coords2 ⟨_, hc.1⟩ ⟨_, hc.2⟩) hF tb wd hwd _ lv hlv O W hO).trans (wp_mono frame _ _ fun _ => obl_post)

end Cert.KernelIdeal.Hand.C2

end
-- ==== Proof.KernelIdeal.TileValue3.lean ====
/-
  Values in the fourth gather call's task: where the entries of a slot sit, and what the gathered-rows scratch holds
  after a gather.
-/
import proofs.«203661_g84404697301628_cont_9to1_m_135_26_alg».proof.Proof.KernelIdeal.GatherValue
import proofs.«203661_g84404697301628_cont_9to1_m_135_26_alg».proof.Proof.Gen.KernelIdeal.Skeleton
import Idealize.ShloMosaic.Lib.Pipeline.Value
import Idealize.ShloMosaic.Lib.Writes

noncomputable section

namespace Cert.KernelIdeal.Hand.C3

open Cert.KernelIdeal Cert.KernelIdeal.Gen Cert.KernelIdeal.Hand
open Idealize.ShloMosaic Idealize.ShloMosaic.ValueIdx

variable {F : FTy → Type} [hK : Cert.KernelIdeal.Facts]

local notation "s1W" => (Memref.whole Cert.KernelIdeal.cc3_scratch1 : Memref Cert.KernelIdeal.sig Kind.scVector Space.vmem Cert.KernelIdeal.S2x128x128 EltTy.f32)

/-- trip `t`'s half of the gathered-rows scratch -/
abbrev rowsAt (t : Fin k3_t1_loop.trips) : Memref sig .scVector .vmem S128x128 .f32 :=
  ((s1W).slice (Rect.unit (s := S2x128x128) (k3_off5 t) S1x128x128.size (k3_off5_inb t)) (fun _ => rfl)).squeeze S128x128 squeezes_S1x128x128_S128x128

/-- dropping the unit axis: entry `(r, c)` of a [128,128] block is entry `(0, r, c)` of the [1,128,128] one -/
theorem squeeze_idx (h : S128x128.numel = S1x128x128.numel) (r c : Fin 128) :
    Shape.reshapeEquiv h (ix2 r c) = (ix3 (0 : Fin 1) r c : S1x128x128.Idx) := by
  refine Shape.reshapeEquiv_eq_of_rowMajor h ?_
  rw [Shape.rowMajor_val_three, Shape.rowMajor_val_two]
  show ((0 : Fin 1).val * 128 + r.val) * 128 + c.val = r.val * 128 + c.val
  simp

/-- entry `(r, c)` of trip `t`'s half sits at `(t mod 2, r, c)` of the scratch -/
theorem rowsAt_emb (t : Fin k3_t1_loop.trips) (r c : Fin 128) :
    (rowsAt t).view.emb (ix2 r c) = (ix3 (⟨t.val % 2, Nat.mod_lt _ (by decide)⟩ : Fin 2) r c : S2x128x128.Idx) := by
  show (Rect.unit (s := S2x128x128) (k3_off5 t) S1x128x128.size (k3_off5_inb t)).emb (Shape.reshapeEquiv _ (ix2 r c)) = _
  rw [squeeze_idx]
  funext a
  apply Fin.ext
  match a with
  | ⟨0, _⟩ => show k3_off5 t 0 + 1 * (0 : Fin 1).val = t.val % 2; rw [k3_off5_eq]; rfl
  | ⟨1, _⟩ => show k3_off5 t 1 + 1 * r.val = r.val; rw [k3_off5_eq]; show 0 + 1 * r.val = r.val; omega
  | ⟨2, _⟩ => show k3_off5 t 2 + 1 * c.val = c.val; rw [k3_off5_eq]; show 0 + 1 * c.val = c.val; omega

/-- after a gather into trip `t`'s half, the scratch at `(t mod 2, r, c)` holds the gathered entry `(r, c)` -/
theorem rows_after_gather (t : Fin k3_t1_loop.trips) (r6 : S2x128x128.Idx → Elt F .f32) (p : S128x128.Idx → Elt F .f32) (r c : Fin 128) :
    (rowsAt t).view.write (Elt F) r6 p Finset.univ (ix3 (⟨t.val % 2, Nat.mod_lt _ (by decide)⟩ : Fin 2) r c) = p (ix2 r c) := by
  rw [← rowsAt_emb t r c, View.write_emb_of_mem _ _ (Finset.mem_univ _)]
  rfl

/-- the two reshapes around a 16-lane vector change nothing at an entry -/
theorem pay1_at (v : Vec F S1x1x16 .f32) (e : Fin 16) :
    k3_pay1 v (ix3 (0 : Fin 1) (0 : Fin 1) e) = v (ix3 (0 : Fin 1) (0 : Fin 1) e) := by
  unfold k3_pay1
  show shapeCast S1x1x16 (shapeCast S16 v shapeCasts_S1x1x16_S16) shapeCasts_S16_S1x1x16 (ix3 (0 : Fin 1) (0 : Fin 1) e) = _
  rw [shapeCast_apply _ _ (ix3 (0 : Fin 1) (0 : Fin 1) e) (ix1 e) (by rw [Shape.rowMajor_val_one, Shape.rowMajor_val_three]; simp),
    shapeCast_apply _ _ (ix1 e) (ix3 (0 : Fin 1) (0 : Fin 1) e) (by rw [Shape.rowMajor_val_one, Shape.rowMajor_val_three]; simp)]

theorem pay2_at (v : Vec F S1x1x16 .f32) (e : Fin 16) :
    k3_pay2 v (ix3 (0 : Fin 1) (0 : Fin 1) e) = v (ix3 (0 : Fin 1) (0 : Fin 1) e) := by
  unfold k3_pay2
  show shapeCast S1x1x16 (shapeCast S16 v shapeCasts_S1x1x16_S16) shapeCasts_S16_S1x1x16 (ix3 (0 : Fin 1) (0 : Fin 1) e) = _
  rw [shapeCast_apply _ _ (ix3 (0 : Fin 1) (0 : Fin 1) e) (ix1 e) (by rw [Shape.rowMajor_val_one, Shape.rowMajor_val_three]; simp),
    shapeCast_apply _ _ (ix1 e) (ix3 (0 : Fin 1) (0 : Fin 1) e) (by rw [Shape.rowMajor_val_one, Shape.rowMajor_val_three]; simp)]

/-- the first 16-lane load of row `j` reads the scratch at `(t mod 2, j, e)` -/
theorem load_lo_at (R6 : S2x128x128.Idx → Elt F .f32) (t : Fin k3_t1_loop.trips) (j : Fin k3_t2_loop.trips) (e : Fin 16) :
    (s1W).view.readAt (Elt F) (Rect.unit (s := S2x128x128) (k3_off8 t j) S1x1x16.size (k3_off8_inb t j)).toLoadRect R6 (ix3 (0 : Fin 1) (0 : Fin 1) e)
      = R6 (ix3 (⟨t.val % 2, Nat.mod_lt _ (by decide)⟩ : Fin 2) (⟨j.val, Nat.lt_of_lt_of_le j.isLt k3_t2_abs.2.1⟩ : Fin 128) (⟨e.val, by omega⟩ : Fin 128)) := by
  rw [View.readAt_apply]
  show R6 _ = R6 _
  congr 1
  funext a
  apply Fin.ext
  match a with
  | ⟨0, _⟩ => show k3_off8 t j 0 + 1 * (0 : Fin 1).val = t.val % 2; rw [k3_off8_eq]; rfl
  | ⟨1, _⟩ => show k3_off8 t j 1 + 1 * (0 : Fin 1).val = j.val; rw [k3_off8_eq]; show j.val + 1 * 0 = j.val; omega
  | ⟨2, _⟩ => show k3_off8 t j 2 + 1 * e.val = e.val; rw [k3_off8_eq]; show 0 + 1 * e.val = e.val; omega

/-- the second reads it at `(t mod 2, j, 16 + e)` -/
theorem load_hi_at (R6 : S2x128x128.Idx → Elt F .f32) (t : Fin k3_t1_loop.trips) (j : Fin k3_t2_loop.trips) (e : Fin 16) :
    (s1W).view.readAt (Elt F) (Rect.unit (s := S2x128x128) (k3_off10 t j) S1x1x16.size (k3_off10_inb t j)).toLoadRect R6 (ix3 (0 : Fin 1) (0 : Fin 1) e)
      = R6 (ix3 (⟨t.val % 2, Nat.mod_lt _ (by decide)⟩ : Fin 2) (⟨j.val, Nat.lt_of_lt_of_le j.isLt k3_t2_abs.2.1⟩ : Fin 128) (⟨16 + e.val, by omega⟩ : Fin 128)) := by
  rw [View.readAt_apply]
  show R6 _ = R6 _
  congr 1
  funext a
  apply Fin.ext
  match a with
  | ⟨0, _⟩ => show k3_off10 t j 0 + 1 * (0 : Fin 1).val = t.val % 2; rw [k3_off10_eq]; rfl
  | ⟨1, _⟩ => show k3_off10 t j 1 + 1 * (0 : Fin 1).val = j.val; rw [k3_off10_eq]; show j.val + 1 * 0 = j.val; omega
  | ⟨2, _⟩ => show k3_off10 t j 2 + 1 * e.val = 16 + e.val; rw [k3_off10_eq]; show 16 + 1 * e.val = 16 + e.val; omega

local notation "s2W" => (Memref.whole Cert.KernelIdeal.cc3_scratch2 : Memref Cert.KernelIdeal.sig Kind.scVector Space.vmem Cert.KernelIdeal.S2x128x32 EltTy.f32)

/-- the slot trip `t` uses -/
abbrev slotOf (t : Fin k3_t1_loop.trips) : Fin 2 := ⟨t.val % 2, Nat.mod_lt _ (by decide)⟩

/-- rows below `j` of trip `t`'s half of the compact rows hold the first 32 columns of the gathered rows -/
def Compacted (t : Fin k3_t1_loop.trips) (R6 : S2x128x128.Idx → Elt F .f32) (f : S2x128x32.Idx → Elt F .f32) (j : Nat) : Prop :=
  ∀ (r : Fin 128) (e : Fin 32), r.val < j → f (ix3 (slotOf t) r e) = R6 (ix3 (slotOf t) r (⟨e.val, by omega⟩ : Fin 128))

theorem compacted_zero (t : Fin k3_t1_loop.trips) (R6 : S2x128x128.Idx → Elt F .f32) (f : S2x128x32.Idx → Elt F .f32) : Compacted t R6 f 0 :=
  fun _ _ h => absurd h (Nat.not_lt_zero _)

/-- one trip of the compaction loop: row `j`'s two 16-lane stores extend the agreement to rows below `j + 1` -/
theorem compacted_step (t : Fin k3_t1_loop.trips) (j : Fin k3_t2_loop.trips) (R6 : S2x128x128.Idx → Elt F .f32) (f : S2x128x32.Idx → Elt F .f32)
    (h : Compacted t R6 f j.val) (p1 p2 : S1x1x16.Idx → Elt F .f32)
    (hp1 : ∀ e : Fin 16, p1 (ix3 (0 : Fin 1) (0 : Fin 1) e)
      = R6 (ix3 (slotOf t) (⟨j.val, Nat.lt_of_lt_of_le j.isLt k3_t2_abs.2.1⟩ : Fin 128) (⟨e.val, by omega⟩ : Fin 128)))
    (hp2 : ∀ e : Fin 16, p2 (ix3 (0 : Fin 1) (0 : Fin 1) e)
      = R6 (ix3 (slotOf t) (⟨j.val, Nat.lt_of_lt_of_le j.isLt k3_t2_abs.2.1⟩ : Fin 128) (⟨16 + e.val, by omega⟩ : Fin 128))) :
    Compacted t R6 ((s2W).view.writes (Elt F) f
      [⟨Rect.unit (s := S2x128x32) (k3_off11 t j) S1x1x16.size (k3_off11_inb t j), p2⟩,
       ⟨Rect.unit (s := S2x128x32) (k3_off9 t j) S1x1x16.size (k3_off9_inb t j), p1⟩]) (j.val + 1) := by
  intro r e hr
  have hj128 : j.val < 128 := Nat.lt_of_lt_of_le j.isLt k3_t2_abs.2.1
  have o9 : k3_off9 t j = ![t.val % 2, j.val, 0] := k3_off9_eq t j
  have o11 : k3_off11 t j = ![t.val % 2, j.val, 16] := k3_off11_eq t j
  have hrd : ∀ (g : S2x128x32.Idx → Elt F .f32) (y : S2x128x32.Idx), g y = (s2W).view.read (Elt F) g y := fun _ _ => rfl
  refine (hrd _ _).trans ?_
  by_cases hrj : r.val = j.val
  · by_cases he : 16 ≤ e.val
    · -- in the second store's box
      have hy : (ix3 (slotOf t) r e : S2x128x32.Idx)
          = (Rect.unit (s := S2x128x32) (k3_off11 t j) S1x1x16.size (k3_off11_inb t j)).emb (ix3 (0 : Fin 1) (0 : Fin 1) (⟨e.val - 16, by have := e.isLt; omega⟩ : Fin 16)) := by
        funext a; apply Fin.ext
        match a with
        | ⟨0, _⟩ => show t.val % 2 = k3_off11 t j 0 + 1 * (0 : Fin 1).val; rw [o11]; rfl
        | ⟨1, _⟩ => show r.val = k3_off11 t j 1 + 1 * (0 : Fin 1).val; rw [o11]; show r.val = j.val + 1 * 0; omega
        | ⟨2, _⟩ => show e.val = k3_off11 t j 2 + 1 * (e.val - 16); rw [o11]; show e.val = 16 + 1 * (e.val - 16); omega
      rw [hy, View.read_writes_cons_emb, hp2]
      congr 1
      funext a
      match a with
      | ⟨0, _⟩ => rfl
      | ⟨1, _⟩ => exact Fin.ext hrj.symm
      | ⟨2, _⟩ => exact Fin.ext (by show 16 + (e.val - 16) = e.val; omega)
    · -- below lane 16: not in the second store's box, in the first's
      have hnot : (ix3 (slotOf t) r e : S2x128x32.Idx) ∉ (Rect.unit (s := S2x128x32) (k3_off11 t j) S1x1x16.size (k3_off11_inb t j)).set := by
        rw [Rect.mem_set_unit]; intro hm
        have := (hm ⟨2, by decide⟩).1
        rw [o11] at this
        have h16 : 16 ≤ e.val := this
        omega
      have hy : (ix3 (slotOf t) r e : S2x128x32.Idx)
          = (Rect.unit (s := S2x128x32) (k3_off9 t j) S1x1x16.size (k3_off9_inb t j)).emb (ix3 (0 : Fin 1) (0 : Fin 1) (⟨e.val, by omega⟩ : Fin 16)) := by
        funext a; apply Fin.ext
        match a with
        | ⟨0, _⟩ => show t.val % 2 = k3_off9 t j 0 + 1 * (0 : Fin 1).val; rw [o9]; rfl
        | ⟨1, _⟩ => show r.val = k3_off9 t j 1 + 1 * (0 : Fin 1).val; rw [o9]; show r.val = j.val + 1 * 0; omega
        | ⟨2, _⟩ => show e.val = k3_off9 t j 2 + 1 * e.val; rw [o9]; show e.val = 0 + 1 * e.val; omega
      rw [View.writes_cons, View.read_slice_write_of_not_mem _ _ _ _ (by rw [Rect.map_emb_univ]; exact hnot), hy, View.read_writes_cons_emb, hp1]
      congr 1
      funext a
      match a with
      | ⟨0, _⟩ => rfl
      | ⟨1, _⟩ => exact Fin.ext hrj.symm
      | ⟨2, _⟩ => rfl
  · -- an earlier row: neither store touches it
    have hlt : r.val < j.val := by omega
    rw [View.read_writes_apply_of_forall_not_mem]
    · exact h r e hlt
    · intro p hp
      rw [List.mem_cons, List.mem_singleton] at hp
      rcases hp with rfl | rfl
      · rw [Rect.mem_set_unit]; intro hm
        have := (hm ⟨1, by decide⟩)
        rw [o11] at this
        have h1 : j.val ≤ r.val := this.1
        omega
      · rw [Rect.mem_set_unit]; intro hm
        have := (hm ⟨1, by decide⟩)
        rw [o9] at this
        have h1 : j.val ≤ r.val := this.1
        omega

end Cert.KernelIdeal.Hand.C3

end
-- ==== Proof.KernelIdeal.BlockValue3.lean ====
/-
  What a block of the fourth call's result holds when it lands: from the compaction loop's agreement on all 128 rows,
  the gathered scratch's contents after the gather, and the gather's payload, row `r` of trip `t`'s block is the first
  32 columns of the table row that word `128·t + r` of the subcore's slice names.
-/
import proofs.«203661_g84404697301628_cont_9to1_m_135_26_alg».proof.Proof.KernelIdeal.TileRun3
import proofs.«203661_g84404697301628_cont_9to1_m_135_26_alg».proof.Proof.KernelIdeal.TileValue3
import proofs.«203661_g84404697301628_cont_9to1_m_135_26_alg».proof.Proof.Spec

noncomputable section

namespace Cert.KernelIdeal.Hand.C3

open Cert.KernelIdeal Cert.KernelIdeal.Gen Cert.KernelIdeal.Hand
open Idealize.ShloMosaic Idealize.ShloMosaic.ValueIdx
open Idealize.ShloMosaic.SparseCore (S V T)

variable {F : FTy → Type} [hK : Cert.KernelIdeal.Facts] [FloatOps F]

local notation "tblW" => (Memref.whole Cert.KernelIdeal.main_v0_scv : Memref Cert.KernelIdeal.sig Kind.scVector Space.hbm Cert.KernelIdeal.S1000x128 EltTy.f32)
local notation "s0W" => (Memref.whole Cert.KernelIdeal.cc3_scratch0 : Memref Cert.KernelIdeal.sig Kind.scVector Space.vmem Cert.KernelIdeal.S2048 EltTy.i32)
local notation "s2W" => (Memref.whole Cert.KernelIdeal.cc3_scratch2 : Memref Cert.KernelIdeal.sig Kind.scVector Space.vmem Cert.KernelIdeal.S2x128x32 EltTy.f32)

/-- entry `(r, e)` of a [128,32] block is entry `(0, r, e)` of the [1,128,32] one -/
theorem squeeze_idx32 (h : S128x32.numel = S1x128x32.numel) (r : Fin 128) (e : Fin 32) :
    Shape.reshapeEquiv h (ix2 r e) = (ix3 (0 : Fin 1) r e : S1x128x32.Idx) := by
  refine Shape.reshapeEquiv_eq_of_rowMajor h ?_
  rw [Shape.rowMajor_val_three, Shape.rowMajor_val_two]
  show ((0 : Fin 1).val * 128 + r.val) * 32 + e.val = r.val * 32 + e.val
  simp

/-- entry `(r, e)` of trip `t`'s half of the compact rows sits at `(t mod 2, r, e)` of the scratch -/
theorem crowsAt_emb (t : Fin k3_t1_loop.trips) (r : Fin 128) (e : Fin 32) :
    (crowsAt t).view.emb (ix2 r e) = (ix3 (slotOf t) r e : S2x128x32.Idx) := by
  show (Rect.unit (s := S2x128x32) (k3_off12 t) S1x128x32.size (k3_off12_inb t)).emb (Shape.reshapeEquiv _ (ix2 r e)) = _
  rw [squeeze_idx32]
  funext a
  apply Fin.ext
  match a with
  | ⟨0, _⟩ => show k3_off12 t 0 + 1 * (0 : Fin 1).val = t.val % 2; rw [k3_off12_eq]; rfl
  | ⟨1, _⟩ => show k3_off12 t 1 + 1 * r.val = r.val; rw [k3_off12_eq]; show 0 + 1 * r.val = r.val; omega
  | ⟨2, _⟩ => show k3_off12 t 2 + 1 * e.val = e.val; rw [k3_off12_eq]; show 0 + 1 * e.val = e.val; omega

/-- the whole rectangle's positions are the positions -/
theorem whole_emb (x : S128x32.Idx) : (Rect.whole S128x32).emb x = x := by
  funext a; apply Fin.ext
  show 0 + 1 * (x a).val = (x a).val; omega

/-- the table read through its whole-extent slice is the table -/
theorem tbl_read (ft : S1000x128.Idx → Elt F .f32) (h : ∀ a, (![0, 0] : Fin 2 → Nat) a + S1000x128.size a ≤ S1000x128.size a) (x : S1000x128.Idx) :
    ((tblW).slice (Rect.unit (s := S1000x128) ![0, 0] S1000x128.size h) (fun _ => rfl)).view.read (Elt F) ft x = ft x := by
  show ft _ = ft x
  congr 1
  funext a; apply Fin.ext
  match a with
  | ⟨0, _⟩ => show 0 + 1 * (x 0).val = (x 0).val; omega
  | ⟨1, _⟩ => show 0 + 1 * (x 1).val = (x 1).val; omega

/-- the word by which trip `t` gathers its row `r` -/
def wordAt (g5 : S2048.Idx → Elt F .i32) (t : Fin k3_t1_loop.trips) (r : Fin 128) : BitVec 32 := (offsAt t).view.read (Elt F) g5 (ix1 r)

/-- a block of the result holds, row by row, the first 32 columns of the table rows its words name -/
def BlkOK (d : Dev nD) (L : grid3.Coords) (ft : S1000x128.Idx → Elt F .f32) (g5 : S2048.Idx → Elt F .i32) (t : Fin k3_t1_loop.trips)
    (fo : Buf (Elt F) ((outAt L t).view.loc (tile d L))) : Prop :=
  ∀ (r : Fin 128) (e : Fin 32), (outAt L t).view.read (Elt F) fo (ix2 r e)
    = ft (ix2 (Cert.Spec.row (wordAt (F := F) g5 t r)) (⟨e.val, by omega⟩ : Fin 128))

/-- THE BLOCK THAT LANDS: the compaction's agreement on all 128 rows, over the scratch as the gather left it, makes
    the copied-out block the table rows named by the words. -/
theorem blk_of_compacted (d : Dev nD) (L : grid3.Coords) (ft : S1000x128.Idx → Elt F .f32) (g5 : S2048.Idx → Elt F .i32) (t : Fin k3_t1_loop.trips)
    (htb : ∀ a, (![0, 0] : Fin 2 → Nat) a + S1000x128.size a ≤ S1000x128.size a)
    (hn : S128.numel = S128x128.size gathers_S1000x128_S128x128.axis')
    (hin : ∀ x, ((offsAt t).view.read (Elt F) g5 x).toNat < S1000x128.size gathers_S1000x128_S128x128.axis)
    (r6 : S2x128x128.Idx → Elt F .f32) (f : S2x128x32.Idx → Elt F .f32) (o0 : Buf (Elt F) ((outAt L t).view.loc (tile d L)))
    (hC : Compacted t ((rowsAt t).view.write (Elt F) r6
      (SparseCore.gatherPayload gathers_S1000x128_S128x128
        (((tblW).slice (Rect.unit (s := S1000x128) ![0, 0] S1000x128.size htb) (fun _ => rfl)).view.read (Elt F) ft)
        (SparseCore.rows ((offsAt t).view.read (Elt F) g5) hn hin)) Finset.univ) f 128) :
    BlkOK d L ft g5 t ((outAt L t).view.writes (Elt F) o0
      [⟨Rect.whole S128x32, ReadAs.same.apply ((crowsAt t).view.read (Elt F) f)⟩]) := by
  intro r e
  have hw := View.read_writes_cons_emb (outAt L t).view o0 (Rect.whole S128x32)
    (ReadAs.same.apply ((crowsAt t).view.read (Elt F) f)) [] (ix2 r e)
  rw [whole_emb] at hw
  rw [hw]
  show (crowsAt t).view.read (Elt F) f (ix2 r e) = _
  have hrd : (crowsAt t).view.read (Elt F) f (ix2 r e) = f ((crowsAt t).view.emb (ix2 r e)) := rfl
  rw [hrd, crowsAt_emb, hC r e r.isLt, rows_after_gather, gatherPayload_at, tbl_read]
  have hx := hin (ix1 r)
  have hlt : ((offsAt t).view.read (Elt F) g5 (ix1 r)).toNat < 1000 := hx
  congr 1
  funext a
  match a with
  | ⟨0, _⟩ =>
    apply Fin.ext
    show ((offsAt t).view.read (Elt F) g5 (ix1 r)).toNat = (Cert.Spec.row (wordAt (F := F) g5 t r)).val
    unfold wordAt
    exact (Cert.Spec.row_val_of_le (by show ((offsAt t).view.read (Elt F) g5 (ix1 r)).toNat ≤ 999; omega)).symm
  | ⟨1, _⟩ => rfl

end Cert.KernelIdeal.Hand.C3

end
-- ==== Proof.KernelIdeal.TileRunV3.lean ====
/-
  The fourth gather call's task with contents tracked: the same run as TileRun3.lean, but a write-back in flight now
  carries what its block will hold — the first 32 columns of the table rows named by the trip's 128 words — and a
  landed block is held with that fact. The compaction loop runs under `Compacted`: rows below `j` of the half agree
  with the gathered rows; at its end `blk_of_compacted` turns the agreement into the block's contents.
-/
import proofs.«203661_g84404697301628_cont_9to1_m_135_26_alg».proof.Proof.KernelIdeal.BlockValue3

noncomputable section

namespace Cert.KernelIdeal.Hand.C3

open Cert.KernelIdeal Cert.KernelIdeal.Gen Cert.KernelIdeal.Hand
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [hK : Cert.KernelIdeal.Facts] [FloatOps F]

local notation "𝕄" => MT nD τ sig (HIx 4) (Elt F) ℕ UU ℕ

local notation "tblW" => (Memref.whole Cert.KernelIdeal.main_v0_scv : Memref Cert.KernelIdeal.sig Kind.scVector Space.hbm Cert.KernelIdeal.S1000x128 EltTy.f32)
local notation "idxW" => (Memref.whole Cert.KernelIdeal.main_v11_scv : Memref Cert.KernelIdeal.sig Kind.scVector Space.hbm Cert.KernelIdeal.S65536 EltTy.i32)
local notation "outW" => (Memref.whole Cert.KernelIdeal.main_v12_scv : Memref Cert.KernelIdeal.sig Kind.scVector Space.hbm Cert.KernelIdeal.S4x16384x32 EltTy.f32)
local notation "s0W" => (Memref.whole Cert.KernelIdeal.cc3_scratch0 : Memref Cert.KernelIdeal.sig Kind.scVector Space.vmem Cert.KernelIdeal.S2048 EltTy.i32)
local notation "s1W" => (Memref.whole Cert.KernelIdeal.cc3_scratch1 : Memref Cert.KernelIdeal.sig Kind.scVector Space.vmem Cert.KernelIdeal.S2x128x128 EltTy.f32)
local notation "s2W" => (Memref.whole Cert.KernelIdeal.cc3_scratch2 : Memref Cert.KernelIdeal.sig Kind.scVector Space.vmem Cert.KernelIdeal.S2x128x32 EltTy.f32)
local notation "gS0" => (⟨15, by decide⟩ : DmaSem Cert.KernelIdeal.sig)
local notation "gS1" => (⟨16, by decide⟩ : DmaSem Cert.KernelIdeal.sig)
local notation "wS0" => (⟨17, by decide⟩ : DmaSem Cert.KernelIdeal.sig)
local notation "wS1" => (⟨18, by decide⟩ : DmaSem Cert.KernelIdeal.sig)
local notation "pS" => (⟨19, by decide⟩ : DmaSem Cert.KernelIdeal.sig)

/-- a block of the result in hand, holding the table rows its words name -/
def outHeldV (d : Dev nD) (L : grid3.Coords) (ft : S1000x128.Idx → Elt F .f32) (g5 : S2048.Idx → Elt F .i32) (t : Fin k3_t1_loop.trips) : sProp 𝕄 :=
  iprop(∃ fo, ((outAt L t).view.loc (tile d L) ↦[(outAt L t).view.set]{fullShare} fo) ∗ ⌜BlkOK (F := F) d L ft g5 t fo⌝)

/-- slot `w` busy with trip `t`'s write-back, whose block will hold the table rows its words name -/
def slotBusyV (d : Dev nD) (L : grid3.Coords) (ft : S1000x128.Idx → Elt F .f32) (g5 : S2048.Idx → Elt F .i32) (w : DmaSem sig) (t : Fin k3_t1_loop.trips) : sProp 𝕄 :=
  iprop(∃ fo f, (Transfers.Flight (countersEmb (U := UU)) (tile d L) (SemLoc.dma w) (default : HIx 4) 131072
    iprop(((outAt L t).view.loc (tile d L) ↦[(outAt L t).view.set]{fullShare} fo)
      ∗ ((s2W).view.loc (tile d L) ↦[(crowsAt t).view.set]{fullShare} f))) ∗ ⌜BlkOK (F := F) d L ft g5 t fo⌝)

/-- what every trip keeps, the fetched list now at its known contents `g5` -/
def commonV (d : Dev nD) (L : grid3.Coords) (O : CellTallies nD τ sig (HIx 4)) (W : Waits sig (HIx 4)) (q : PosShare TreeShare)
    (ft : Buf (Elt F) ((tblW).view.loc (tile d L))) (g5 : Buf (Elt F) ((s0W).view.loc (tile d L))) : sProp 𝕄 :=
  iprop(Transfers.MayWaits (tile d L) (none : HIx 4) O
    ∗ ((tblW).view.loc (tile d L) ↦{q} ft)
    ∗ ((s0W).view.loc (tile d L) ↦{fullShare} g5)
    ∗ (∃ r, (s1W).view.loc (tile d L) ↦{fullShare} r)
    ∗ semVal (tile d L, SemLoc.dma gS0) 0 ∗ semVal (tile d L, SemLoc.dma gS1) 0
    ∗ ∃ W', ⌜∀ p ∈ W', p ∈ W ∨ p.2 = none⌝ ∗ owes (tile d L) O W')

def invV0 (d : Dev nD) (L : grid3.Coords) (O : CellTallies nD τ sig (HIx 4)) (W : Waits sig (HIx 4)) (q : PosShare TreeShare)
    (ft : Buf (Elt F) ((tblW).view.loc (tile d L))) (g5 : Buf (Elt F) ((s0W).view.loc (tile d L))) : sProp 𝕄 :=
  iprop(commonV d L O W q ft g5 ∗ slotFree d L wS0 t1 ∗ slotFree d L wS1 t0 ∗ outHeld d L t0 ∗ outHeld d L t1 ∗ outHeld d L t2 ∗ outHeld d L t3 ∗ outHeld d L t4 ∗ outHeld d L t5 ∗ outHeld d L t6 ∗ outHeld d L t7 ∗ outHeld d L t8 ∗ outHeld d L t9 ∗ outHeld d L t10 ∗ outHeld d L t11 ∗ outHeld d L t12 ∗ outHeld d L t13 ∗ outHeld d L t14 ∗ outHeld d L t15)
def invV1 (d : Dev nD) (L : grid3.Coords) (O : CellTallies nD τ sig (HIx 4)) (W : Waits sig (HIx 4)) (q : PosShare TreeShare)
    (ft : Buf (Elt F) ((tblW).view.loc (tile d L))) (g5 : Buf (Elt F) ((s0W).view.loc (tile d L))) : sProp 𝕄 :=
  iprop(commonV d L O W q ft g5 ∗ slotBusyV d L ft g5 wS0 t0 ∗ slotFree d L wS1 t0 ∗ outHeld d L t1 ∗ outHeld d L t2 ∗ outHeld d L t3 ∗ outHeld d L t4 ∗ outHeld d L t5 ∗ outHeld d L t6 ∗ outHeld d L t7 ∗ outHeld d L t8 ∗ outHeld d L t9 ∗ outHeld d L t10 ∗ outHeld d L t11 ∗ outHeld d L t12 ∗ outHeld d L t13 ∗ outHeld d L t14 ∗ outHeld d L t15)
def invV2 (d : Dev nD) (L : grid3.Coords) (O : CellTallies nD τ sig (HIx 4)) (W : Waits sig (HIx 4)) (q : PosShare TreeShare)
    (ft : Buf (Elt F) ((tblW).view.loc (tile d L))) (g5 : Buf (Elt F) ((s0W).view.loc (tile d L))) : sProp 𝕄 :=
  iprop(commonV d L O W q ft g5 ∗ slotBusyV d L ft g5 wS0 t0 ∗ slotBusyV d L ft g5 wS1 t1 ∗ outHeld d L t2 ∗ outHeld d L t3 ∗ outHeld d L t4 ∗ outHeld d L t5 ∗ outHeld d L t6 ∗ outHeld d L t7 ∗ outHeld d L t8 ∗ outHeld d L t9 ∗ outHeld d L t10 ∗ outHeld d L t11 ∗ outHeld d L t12 ∗ outHeld d L t13 ∗ outHeld d L t14 ∗ outHeld d L t15)
def invV3 (d : Dev nD) (L : grid3.Coords) (O : CellTallies nD τ sig (HIx 4)) (W : Waits sig (HIx 4)) (q : PosShare TreeShare)
    (ft : Buf (Elt F) ((tblW).view.loc (tile d L))) (g5 : Buf (Elt F) ((s0W).view.loc (tile d L))) : sProp 𝕄 :=
  iprop(commonV d L O W q ft g5 ∗ slotBusyV d L ft g5 wS0 t2 ∗ slotBusyV d L ft g5 wS1 t1 ∗ outHeldV d L ft g5 t0 ∗ outHeld d L t3 ∗ outHeld d L t4 ∗ outHeld d L t5 ∗ outHeld d L t6 ∗ outHeld d L t7 ∗ outHeld d L t8 ∗ outHeld d L t9 ∗ outHeld d L t10 ∗ outHeld d L t11 ∗ outHeld d L t12 ∗ outHeld d L t13 ∗ outHeld d L t14 ∗ outHeld d L t15)
def invV4 (d : Dev nD) (L : grid3.Coords) (O : CellTallies nD τ sig (HIx 4)) (W : Waits sig (HIx 4)) (q : PosShare TreeShare)
    (ft : Buf (Elt F) ((tblW).view.loc (tile d L))) (g5 : Buf (Elt F) ((s0W).view.loc (tile d L))) : sProp 𝕄 :=
  iprop(commonV d L O W q ft g5 ∗ slotBusyV d L ft g5 wS0 t2 ∗ slotBusyV d L ft g5 wS1 t3 ∗ outHeldV d L ft g5 t0 ∗ outHeldV d L ft g5 t1 ∗ outHeld d L t4 ∗ outHeld d L t5 ∗ outHeld d L t6 ∗ outHeld d L t7 ∗ outHeld d L t8 ∗ outHeld d L t9 ∗ outHeld d L t10 ∗ outHeld d L t11 ∗ outHeld d L t12 ∗ outHeld d L t13 ∗ outHeld d L t14 ∗ outHeld d L t15)
def invV5 (d : Dev nD) (L : grid3.Coords) (O : CellTallies nD τ sig (HIx 4)) (W : Waits sig (HIx 4)) (q : PosShare TreeShare)
    (ft : Buf (Elt F) ((tblW).view.loc (tile d L))) (g5 : Buf (Elt F) ((s0W).view.loc (tile d L))) : sProp 𝕄 :=
  iprop(commonV d L O W q ft g5 ∗ slotBusyV d L ft g5 wS0 t4 ∗ slotBusyV d L ft g5 wS1 t3 ∗ outHeldV d L ft g5 t0 ∗ outHeldV d L ft g5 t1 ∗ outHeldV d L ft g5 t2 ∗ outHeld d L t5 ∗ outHeld d L t6 ∗ outHeld d L t7 ∗ outHeld d L t8 ∗ outHeld d L t9 ∗ outHeld d L t10 ∗ outHeld d L t11 ∗ outHeld d L t12 ∗ outHeld d L t13 ∗ outHeld d L t14 ∗ outHeld d L t15)
def invV6 (d : Dev nD) (L : grid3.Coords) (O : CellTallies nD τ sig (HIx 4)) (W : Waits sig (HIx 4)) (q : PosShare TreeShare)
    (ft : Buf (Elt F) ((tblW).view.loc (tile d L))) (g5 : Buf (Elt F) ((s0W).view.loc (tile d L))) : sProp 𝕄 :=
  iprop(commonV d L O W q ft g5 ∗ slotBusyV d L ft g5 wS0 t4 ∗ slotBusyV d L ft g5 wS1 t5 ∗ outHeldV d L ft g5 t0 ∗ outHeldV d L ft g5 t1 ∗ outHeldV d L ft g5 t2 ∗ outHeldV d L ft g5 t3 ∗ outHeld d L t6 ∗ outHeld d L t7 ∗ outHeld d L t8 ∗ outHeld d L t9 ∗ outHeld d L t10 ∗ outHeld d L t11 ∗ outHeld d L t12 ∗ outHeld d L t13 ∗ outHeld d L t14 ∗ outHeld d L t15)
def invV7 (d : Dev nD) (L : grid3.Coords) (O : CellTallies nD τ sig (HIx 4)) (W : Waits sig (HIx 4)) (q : PosShare TreeShare)
    (ft : Buf (Elt F) ((tblW).view.loc (tile d L))) (g5 : Buf (Elt F) ((s0W).view.loc (tile d L))) : sProp 𝕄 :=
  iprop(commonV d L O W q ft g5 ∗ slotBusyV d L ft g5 wS0 t6 ∗ slotBusyV d L ft g5 wS1 t5 ∗ outHeldV d L ft g5 t0 ∗ outHeldV d L ft g5 t1 ∗ outHeldV d L ft g5 t2 ∗ outHeldV d L ft g5 t3 ∗ outHeldV d L ft g5 t4 ∗ outHeld d L t7 ∗ outHeld d L t8 ∗ outHeld d L t9 ∗ outHeld d L t10 ∗ outHeld d L t11 ∗ outHeld d L t12 ∗ outHeld d L t13 ∗ outHeld d L t14 ∗ outHeld d L t15)
def invV8 (d : Dev nD) (L : grid3.Coords) (O : CellTallies nD τ sig (HIx 4)) (W : Waits sig (HIx 4)) (q : PosShare TreeShare)
    (ft : Buf (Elt F) ((tblW).view.loc (tile d L))) (g5 : Buf (Elt F) ((s0W).view.loc (tile d L))) : sProp 𝕄 :=
  iprop(commonV d L O W q ft g5 ∗ slotBusyV d L ft g5 wS0 t6 ∗ slotBusyV d L ft g5 wS1 t7 ∗ outHeldV d L ft g5 t0 ∗ outHeldV d L ft g5 t1 ∗ outHeldV d L ft g5 t2 ∗ outHeldV d L ft g5 t3 ∗ outHeldV d L ft g5 t4 ∗ outHeldV d L ft g5 t5 ∗ outHeld d L t8 ∗ outHeld d L t9 ∗ outHeld d L t10 ∗ outHeld d L t11 ∗ outHeld d L t12 ∗ outHeld d L t13 ∗ outHeld d L t14 ∗ outHeld d L t15)
def invV9 (d : Dev nD) (L : grid3.Coords) (O : CellTallies nD τ sig (HIx 4)) (W : Waits sig (HIx 4)) (q : PosShare TreeShare)
    (ft : Buf (Elt F) ((tblW).view.loc (tile d L))) (g5 : Buf (Elt F) ((s0W).view.loc (tile d L))) : sProp 𝕄 :=
  iprop(commonV d L O W q ft g5 ∗ slotBusyV d L ft g5 wS0 t8 ∗ slotBusyV d L ft g5 wS1 t7 ∗ outHeldV d L ft g5 t0 ∗ outHeldV d L ft g5 t1 ∗ outHeldV d L ft g5 t2 ∗ outHeldV d L ft g5 t3 ∗ outHeldV d L ft g5 t4 ∗ outHeldV d L ft g5 t5 ∗ outHeldV d L ft g5 t6 ∗ outHeld d L t9 ∗ outHeld d L t10 ∗ outHeld d L t11 ∗ outHeld d L t12 ∗ outHeld d L t13 ∗ outHeld d L t14 ∗ outHeld d L t15)
def invV10 (d : Dev nD) (L : grid3.Coords) (O : CellTallies nD τ sig (HIx 4)) (W : Waits sig (HIx 4)) (q : PosShare TreeShare)
    (ft : Buf (Elt F) ((tblW).view.loc (tile d L))) (g5 : Buf (Elt F) ((s0W).view.loc (tile d L))) : sProp 𝕄 :=
  iprop(commonV d L O W q ft g5 ∗ slotBusyV d L ft g5 wS0 t8 ∗ slotBusyV d L ft g5 wS1 t9 ∗ outHeldV d L ft g5 t0 ∗ outHeldV d L ft g5 t1 ∗ outHeldV d L ft g5 t2 ∗ outHeldV d L ft g5 t3 ∗ outHeldV d L ft g5 t4 ∗ outHeldV d L ft g5 t5 ∗ outHeldV d L ft g5 t6 ∗ outHeldV d L ft g5 t7 ∗ outHeld d L t10 ∗ outHeld d L t11 ∗ outHeld d L t12 ∗ outHeld d L t13 ∗ outHeld d L t14 ∗ outHeld d L t15)
def invV11 (d : Dev nD) (L : grid3.Coords) (O : CellTallies nD τ sig (HIx 4)) (W : Waits sig (HIx 4)) (q : PosShare TreeShare)
    (ft : Buf (Elt F) ((tblW).view.loc (tile d L))) (g5 : Buf (Elt F) ((s0W).view.loc (tile d L))) : sProp 𝕄 :=
  iprop(commonV d L O W q ft g5 ∗ slotBusyV d L ft g5 wS0 t10 ∗ slotBusyV d L ft g5 wS1 t9 ∗ outHeldV d L ft g5 t0 ∗ outHeldV d L ft g5 t1 ∗ outHeldV d L ft g5 t2 ∗ outHeldV d L ft g5 t3 ∗ outHeldV d L ft g5 t4 ∗ outHeldV d L ft g5 t5 ∗ outHeldV d L ft g5 t6 ∗ outHeldV d L ft g5 t7 ∗ outHeldV d L ft g5 t8 ∗ outHeld d L t11 ∗ outHeld d L t12 ∗ outHeld d L t13 ∗ outHeld d L t14 ∗ outHeld d L t15)
def invV12 (d : Dev nD) (L : grid3.Coords) (O : CellTallies nD τ sig (HIx 4)) (W : Waits sig (HIx 4)) (q : PosShare TreeShare)
    (ft : Buf (Elt F) ((tblW).view.loc (tile d L))) (g5 : Buf (Elt F) ((s0W).view.loc (tile d L))) : sProp 𝕄 :=
  iprop(commonV d L O W q ft g5 ∗ slotBusyV d L ft g5 wS0 t10 ∗ slotBusyV d L ft g5 wS1 t11 ∗ outHeldV d L ft g5 t0 ∗ outHeldV d L ft g5 t1 ∗ outHeldV d L ft g5 t2 ∗ outHeldV d L ft g5 t3 ∗ outHeldV d L ft g5 t4 ∗ outHeldV d L ft g5 t5 ∗ outHeldV d L ft g5 t6 ∗ outHeldV d L ft g5 t7 ∗ outHeldV d L ft g5 t8 ∗ outHeldV d L ft g5 t9 ∗ outHeld d L t12 ∗ outHeld d L t13 ∗ outHeld d L t14 ∗ outHeld d L t15)
def invV13 (d : Dev nD) (L : grid3.Coords) (O : CellTallies nD τ sig (HIx 4)) (W : Waits sig (HIx 4)) (q : PosShare TreeShare)
    (ft : Buf (Elt F) ((tblW).view.loc (tile d L))) (g5 : Buf (Elt F) ((s0W).view.loc (tile d L))) : sProp 𝕄 :=
  iprop(commonV d L O W q ft g5 ∗ slotBusyV d L ft g5 wS0 t12 ∗ slotBusyV d L ft g5 wS1 t11 ∗ outHeldV d L ft g5 t0 ∗ outHeldV d L ft g5 t1 ∗ outHeldV d L ft g5 t2 ∗ outHeldV d L ft g5 t3 ∗ outHeldV d L ft g5 t4 ∗ outHeldV d L ft g5 t5 ∗ outHeldV d L ft g5 t6 ∗ outHeldV d L ft g5 t7 ∗ outHeldV d L ft g5 t8 ∗ outHeldV d L ft g5 t9 ∗ outHeldV d L ft g5 t10 ∗ outHeld d L t13 ∗ outHeld d L t14 ∗ outHeld d L t15)
def invV14 (d : Dev nD) (L : grid3.Coords) (O : CellTallies nD τ sig (HIx 4)) (W : Waits sig (HIx 4)) (q : PosShare TreeShare)
    (ft : Buf (Elt F) ((tblW).view.loc (tile d L))) (g5 : Buf (Elt F) ((s0W).view.loc (tile d L))) : sProp 𝕄 :=
  iprop(commonV d L O W q ft g5 ∗ slotBusyV d L ft g5 wS0 t12 ∗ slotBusyV d L ft g5 wS1 t13 ∗ outHeldV d L ft g5 t0 ∗ outHeldV d L ft g5 t1 ∗ outHeldV d L ft g5 t2 ∗ outHeldV d L ft g5 t3 ∗ outHeldV d L ft g5 t4 ∗ outHeldV d L ft g5 t5 ∗ outHeldV d L ft g5 t6 ∗ outHeldV d L ft g5 t7 ∗ outHeldV d L ft g5 t8 ∗ outHeldV d L ft g5 t9 ∗ outHeldV d L ft g5 t10 ∗ outHeldV d L ft g5 t11 ∗ outHeld d L t14 ∗ outHeld d L t15)
def invV15 (d : Dev nD) (L : grid3.Coords) (O : CellTallies nD τ sig (HIx 4)) (W : Waits sig (HIx 4)) (q : PosShare TreeShare)
    (ft : Buf (Elt F) ((tblW).view.loc (tile d L))) (g5 : Buf (Elt F) ((s0W).view.loc (tile d L))) : sProp 𝕄 :=
  iprop(commonV d L O W q ft g5 ∗ slotBusyV d L ft g5 wS0 t14 ∗ slotBusyV d L ft g5 wS1 t13 ∗ outHeldV d L ft g5 t0 ∗ outHeldV d L ft g5 t1 ∗ outHeldV d L ft g5 t2 ∗ outHeldV d L ft g5 t3 ∗ outHeldV d L ft g5 t4 ∗ outHeldV d L ft g5 t5 ∗ outHeldV d L ft g5 t6 ∗ outHeldV d L ft g5 t7 ∗ outHeldV d L ft g5 t8 ∗ outHeldV d L ft g5 t9 ∗ outHeldV d L ft g5 t10 ∗ outHeldV d L ft g5 t11 ∗ outHeldV d L ft g5 t12 ∗ outHeld d L t15)
def invV16 (d : Dev nD) (L : grid3.Coords) (O : CellTallies nD τ sig (HIx 4)) (W : Waits sig (HIx 4)) (q : PosShare TreeShare)
    (ft : Buf (Elt F) ((tblW).view.loc (tile d L))) (g5 : Buf (Elt F) ((s0W).view.loc (tile d L))) : sProp 𝕄 :=
  iprop(commonV d L O W q ft g5 ∗ slotBusyV d L ft g5 wS0 t14 ∗ slotBusyV d L ft g5 wS1 t15 ∗ outHeldV d L ft g5 t0 ∗ outHeldV d L ft g5 t1 ∗ outHeldV d L ft g5 t2 ∗ outHeldV d L ft g5 t3 ∗ outHeldV d L ft g5 t4 ∗ outHeldV d L ft g5 t5 ∗ outHeldV d L ft g5 t6 ∗ outHeldV d L ft g5 t7 ∗ outHeldV d L ft g5 t8 ∗ outHeldV d L ft g5 t9 ∗ outHeldV d L ft g5 t10 ∗ outHeldV d L ft g5 t11 ∗ outHeldV d L ft g5 t12 ∗ outHeldV d L ft g5 t13)
/-- the outer loop's invariant before trip `k`, with contents -/
def invOV (d : Dev nD) (L : grid3.Coords) (O : CellTallies nD τ sig (HIx 4)) (W : Waits sig (HIx 4)) (q : PosShare TreeShare)
    (ft : Buf (Elt F) ((tblW).view.loc (tile d L))) (g5 : Buf (Elt F) ((s0W).view.loc (tile d L))) (k : Nat) (_ : PUnit) : sProp 𝕄 :=
  match k with
  | 0 => invV0 d L O W q ft g5
  | 1 => invV1 d L O W q ft g5
  | 2 => invV2 d L O W q ft g5
  | 3 => invV3 d L O W q ft g5
  | 4 => invV4 d L O W q ft g5
  | 5 => invV5 d L O W q ft g5
  | 6 => invV6 d L O W q ft g5
  | 7 => invV7 d L O W q ft g5
  | 8 => invV8 d L O W q ft g5
  | 9 => invV9 d L O W q ft g5
  | 10 => invV10 d L O W q ft g5
  | 11 => invV11 d L O W q ft g5
  | 12 => invV12 d L O W q ft g5
  | 13 => invV13 d L O W q ft g5
  | 14 => invV14 d L O W q ft g5
  | 15 => invV15 d L O W q ft g5
  | _ => invV16 d L O W q ft g5

/-- the compaction loop's invariant with contents: the gathered rows fixed at `R6`; rows below `j` of trip `t`'s
    half of the compact rows (held as all but trip `o`'s half) agree with them -/
def invCV (d : Dev nD) (L : grid3.Coords) (t o : Fin k3_t1_loop.trips) (R6 : Buf (Elt F) ((s1W).view.loc (tile d L))) (j : Nat) (_ : PUnit) : sProp 𝕄 :=
  iprop(((s1W).view.loc (tile d L) ↦{fullShare} R6)
    ∗ ∃ f, ((s2W).view.loc (tile d L) ↦[Finset.univ \ (crowsAt o).view.set]{fullShare} f) ∗ ⌜Compacted (F := F) t R6 f j⌝)

/-- the fetched list: the subcore's slice of the token words, as the index scratch holds it -/
abbrev fetched (d : Dev nD) (L : grid3.Coords) (fi : Buf (Elt F) ((idxSl L).view.loc (tile d L))) : Buf (Elt F) ((s0W).view.loc (tile d L)) :=
  (idxSl L).view.read (Elt F) fi

variable (d : Dev nD) (L : grid3.Coords)

set_option maxHeartbeats 6400000 in
/-- The fourth call's task, contents tracked: what is handed back is each block at the table rows named by the
    subcore's words (`BlkOK`), the words being the subcore's slice of the token list as fetched. -/
theorem tile_run3v (O : CellTallies nD τ sig (HIx 4)) (W : Waits sig (HIx 4)) (q : PosShare TreeShare)
    (ft : Buf (Elt F) ((tblW).view.loc (tile d L))) (fi : Buf (Elt F) ((idxSl L).view.loc (tile d L)))
    (hfi : ∀ y, (fi y).toNat < 1000) :
    iprop(Transfers.MayWaits (tile d L) (none : HIx 4) O
        ∗ ((tblW).view.loc (tile d L) ↦{q} ft)
        ∗ ((idxSl L).view.loc (tile d L) ↦[(idxSl L).view.set]{fullShare} fi)
        ∗ (∃ f5, (s0W).view.loc (tile d L) ↦{fullShare} f5)
        ∗ (∃ r, (s1W).view.loc (tile d L) ↦{fullShare} r)
        ∗ crowsHeld (F := F) d L t1 ∗ crowsHeld (F := F) d L t0
        ∗ outHeld (F := F) d L t0 ∗ outHeld (F := F) d L t1 ∗ outHeld (F := F) d L t2 ∗ outHeld (F := F) d L t3 ∗ outHeld (F := F) d L t4 ∗ outHeld (F := F) d L t5 ∗ outHeld (F := F) d L t6 ∗ outHeld (F := F) d L t7 ∗ outHeld (F := F) d L t8 ∗ outHeld (F := F) d L t9 ∗ outHeld (F := F) d L t10 ∗ outHeld (F := F) d L t11 ∗ outHeld (F := F) d L t12 ∗ outHeld (F := F) d L t13 ∗ outHeld (F := F) d L t14 ∗ outHeld (F := F) d L t15
        ∗ semVal (tile d L, SemLoc.dma gS0) 0 ∗ semVal (tile d L, SemLoc.dma gS1) 0
        ∗ semVal (tile d L, SemLoc.dma wS0) 0 ∗ semVal (tile d L, SemLoc.dma wS1) 0
        ∗ semVal (tile d L, SemLoc.dma pS) 0
        ∗ owes (tile d L) O W)
      ⊢ wp frame (wpE (defs₀ (F := F)) 𝒱₀ (tile d L) none) Set.univ
          (cc3_gather_kernel L tblW (Memref.isWhole_whole _) idxW (Memref.isWhole_whole _) outW (Memref.isWhole_whole _)
            s0W (Memref.isWhole_whole _) s1W (Memref.isWhole_whole _) s2W (Memref.isWhole_whole _) cc3_scratch3 cc3_scratch4 cc3_scoped0)
          (fun _ => iprop(((tblW).view.loc (tile d L) ↦{q} ft)
            ∗ ((idxSl L).view.loc (tile d L) ↦[(idxSl L).view.set]{fullShare} fi)
            ∗ (∃ f5, (s0W).view.loc (tile d L) ↦{fullShare} f5)
            ∗ (∃ r, (s1W).view.loc (tile d L) ↦{fullShare} r)
            ∗ (∃ f, (s2W).view.loc (tile d L) ↦[(crowsAt t14).view.set]{fullShare} f)
            ∗ (∃ f, (s2W).view.loc (tile d L) ↦[(crowsAt t15).view.set]{fullShare} f)
            ∗ outHeldV (F := F) d L ft (fetched d L fi) t0 ∗ outHeldV (F := F) d L ft (fetched d L fi) t1 ∗ outHeldV (F := F) d L ft (fetched d L fi) t2 ∗ outHeldV (F := F) d L ft (fetched d L fi) t3 ∗ outHeldV (F := F) d L ft (fetched d L fi) t4 ∗ outHeldV (F := F) d L ft (fetched d L fi) t5 ∗ outHeldV (F := F) d L ft (fetched d L fi) t6 ∗ outHeldV (F := F) d L ft (fetched d L fi) t7 ∗ outHeldV (F := F) d L ft (fetched d L fi) t8 ∗ outHeldV (F := F) d L ft (fetched d L fi) t9 ∗ outHeldV (F := F) d L ft (fetched d L fi) t10 ∗ outHeldV (F := F) d L ft (fetched d L fi) t11 ∗ outHeldV (F := F) d L ft (fetched d L fi) t12 ∗ outHeldV (F := F) d L ft (fetched d L fi) t13 ∗ outHeldV (F := F) d L ft (fetched d L fi) t14 ∗ outHeldV (F := F) d L ft (fetched d L fi) t15
            ∗ semVal (tile d L, SemLoc.dma gS0) 0 ∗ semVal (tile d L, SemLoc.dma gS1) 0
            ∗ semVal (tile d L, SemLoc.dma wS0) 0 ∗ semVal (tile d L, SemLoc.dma wS1) 0
            ∗ semVal (tile d L, SemLoc.dma pS) 0
            ∗ ∃ W', ⌜∀ p ∈ W', p ∈ W ∨ p.2 = none⌝ ∗ owes (tile d L) O W')) := by
  rw [cc3_gather_kernel_eq_skeleton]; unfold cc3_gather_kernel_skel
  iintro ⟨Hmw, Ht, Hi, ⟨%f5, H5⟩, H6, Hc0, Hc1, Ho0, Ho1, Ho2, Ho3, Ho4, Ho5, Ho6, Ho7, Ho8, Ho9, Ho10, Ho11, Ho12, Ho13, Ho14, Ho15, Hg0, Hg1, Hw0, Hw1, Hp, HO⟩
  sl_exec
  have e5 : View.write (Elt F) (s0W).view f5 (tile_run3v.sl.dma0 d L fi) Finset.univ = (fetched d L fi) := by
    rw [View.write_whole_univ]; rfl
  rw [e5]
  have h5 : InRange (F := F) d L (fetched d L fi) := by
    intro o h x
    rw [size_tbl]
    simp only [View.read_apply]
    exact hfi _
  sl_for (invOV d L O W q ft (fetched d L fi)) $$ [Hmw Ht H5 H6 Hc0 Hc1 Ho0 Ho1 Ho2 Ho3 Ho4 Ho5 Ho6 Ho7 Ho8 Ho9 Ho10 Ho11 Ho12 Ho13 Ho14 Ho15 Hg0 Hg1 Hw0 Hw1 HO]
  case region =>
    intro k u
    obtain ⟨k, hk⟩ := k
    match k, hk with
    | k + 16, hk => exact absurd (Nat.lt_of_lt_of_le hk k3_t1_abs.2.1) (by omega)
    | 0, hk =>
      have k3_h1 : ¬ k3_cond1 t0 = 1#1 := by decide
      change invV0 d L O W q ft (fetched d L fi) ⊢ wp frame (wpE (defs₀ (F := F)) 𝒱₀ (tile d L) none) Set.univ (tile_run3v.sl.prog.body_1 L t0 u) (fun _ => invV1 d L O W q ft (fetched d L fi))
      unfold invV0 commonV slotFree outHeld crowsHeld
      iintro ⟨⟨Hmw, Ht, H5, H6, Hg0, Hg1, %W', %hW', HO⟩, ⟨Hw0, Hc⟩, Hs1, ⟨%o0, Ho0⟩, Ho1, Ho2, Ho3, Ho4, Ho5, Ho6, Ho7, Ho8, Ho9, Ho10, Ho11, Ho12, Ho13, Ho14, Ho15⟩
      icases H6 with ⟨%r6, H6⟩
      icases Hc with ⟨%c0, Hc⟩
      have hin := h5
      have hinT : ∀ x, (((s0W).slice (Rect.unit (s := S2048) ![0] S128.size inb_w0) (fun _ => rfl)).view.read (Elt F) (fetched d L fi) x).toNat
          < S1000x128.size gathers_S1000x128_S128x128.axis := hin ![0] inb_w0
      have hinK : ∀ x, ((offsAt t0).view.read (Elt F) (fetched d L fi) x).toNat < S1000x128.size gathers_S1000x128_S128x128.axis := hin _ _
      sl_exec
      sl_for (invCV (F := F) d L t0 t1 (View.write (Elt F) (rowsAt t0).view r6 (tile_run3v.sl.gather0 d L ft fi hinK) Finset.univ)) $$ [H6 Hc]
      case region =>
        intro j _
        unfold invCV
        iintro ⟨H6, ⟨%f, Hc, %hC⟩⟩
        sl_exec
        sl_step
        isplitl [H6]; · iexact H6
        iexists _; isplitl [Hc]; · iexact Hc
        ipureintro
        exact compacted_step t0 j _ f hC _ _ (fun e => (pay1_at _ e).trans (load_lo_at _ t0 j e)) (fun e => (pay2_at _ e).trans (load_hi_at _ t0 j e))
      · unfold invCV
        isplitl [H6]; · iexact H6
        iexists _; isplitl [Hc]; · iexact Hc
        ipureintro; exact compacted_zero t0 _ _
      iintro %_ HI
      unfold invCV
      icases HI with ⟨H6, ⟨%f, Hc, %hC⟩⟩
      have hC128 : Compacted (F := F) t0 (View.write (Elt F) (rowsAt t0).view r6 (tile_run3v.sl.gather0 d L ft fi hinK) Finset.univ) f 128 := hC
      sl_exec
      sl_step
      iclear Hc
      have hblk : BlkOK (F := F) d L ft (fetched d L fi) t0 ((outAt L t0).view.writes (Elt F) o0 [⟨Rect.whole S128x32, tile_run3v.sl.dma0_1 d L f⟩]) :=
        blk_of_compacted d L ft (fetched d L fi) t0 _ _ hinK r6 f o0 hC128
      unfold invV1 commonV slotBusyV slotFree outHeld crowsHeld
      isplitl [Hmw Ht H5 H6 Hg0 Hg1 HO]
      · isplitl [Hmw]; · iexact Hmw
        isplitl [Ht]; · iexact Ht
        isplitl [H5]; · iexact H5
        isplitl [H6]; · iexists _; iexact H6
        isplitl [Hg0]; · iexact Hg0
        isplitl [Hg1]; · iexact Hg1
        iexists (insert (SemLoc.dma gS0, (default : HIx 4)) W'); isplitr
        · ipureintro; intro p hp
          rcases Finset.mem_insert.mp hp with hp | hp
          · exact Or.inr (by subst hp; rfl)
          · exact hW' p hp
        · iexact HO
      isplitl [Hw0]
      · iexists _, _; isplitl [Hw0]
        · iexact Hw0
        · ipureintro; exact hblk
      isplitl [Hs1]; · iexact Hs1
      isplitl [Ho1]; · iexact Ho1
      isplitl [Ho2]; · iexact Ho2
      isplitl [Ho3]; · iexact Ho3
      isplitl [Ho4]; · iexact Ho4
      isplitl [Ho5]; · iexact Ho5
      isplitl [Ho6]; · iexact Ho6
      isplitl [Ho7]; · iexact Ho7
      isplitl [Ho8]; · iexact Ho8
      isplitl [Ho9]; · iexact Ho9
      isplitl [Ho10]; · iexact Ho10
      isplitl [Ho11]; · iexact Ho11
      isplitl [Ho12]; · iexact Ho12
      isplitl [Ho13]; · iexact Ho13
      isplitl [Ho14]; · iexact Ho14
      iexact Ho15
    | 1, hk =>
      have k3_h1 : ¬ k3_cond1 t1 = 1#1 := by decide
      change invV1 d L O W q ft (fetched d L fi) ⊢ wp frame (wpE (defs₀ (F := F)) 𝒱₀ (tile d L) none) Set.univ (tile_run3v.sl.prog.body_1 L t1 u) (fun _ => invV2 d L O W q ft (fetched d L fi))
      unfold invV1 commonV slotBusyV slotFree outHeld crowsHeld
      iintro ⟨⟨Hmw, Ht, H5, H6, Hg0, Hg1, %W', %hW', HO⟩, Hb0, ⟨Hw1, Hc⟩, ⟨%o1, Ho1⟩, Ho2, Ho3, Ho4, Ho5, Ho6, Ho7, Ho8, Ho9, Ho10, Ho11, Ho12, Ho13, Ho14, Ho15⟩
      icases H6 with ⟨%r6, H6⟩
      icases Hc with ⟨%c0, Hc⟩
      have hin := h5
      have hinT : ∀ x, (((s0W).slice (Rect.unit (s := S2048) ![128] S128.size inb_w128) (fun _ => rfl)).view.read (Elt F) (fetched d L fi) x).toNat
          < S1000x128.size gathers_S1000x128_S128x128.axis := hin ![128] inb_w128
      have hinK : ∀ x, ((offsAt t1).view.read (Elt F) (fetched d L fi) x).toNat < S1000x128.size gathers_S1000x128_S128x128.axis := hin _ _
      sl_exec
      sl_for (invCV (F := F) d L t1 t0 (View.write (Elt F) (rowsAt t1).view r6 (tile_run3v.sl.gather0_1 d L ft fi hinK) Finset.univ)) $$ [H6 Hc]
      case region =>
        intro j _
        unfold invCV
        iintro ⟨H6, ⟨%f, Hc, %hC⟩⟩
        sl_exec
        sl_step
        isplitl [H6]; · iexact H6
        iexists _; isplitl [Hc]; · iexact Hc
        ipureintro
        exact compacted_step t1 j _ f hC _ _ (fun e => (pay1_at _ e).trans (load_lo_at _ t1 j e)) (fun e => (pay2_at _ e).trans (load_hi_at _ t1 j e))
      · unfold invCV
        isplitl [H6]; · iexact H6
        iexists _; isplitl [Hc]; · iexact Hc
        ipureintro; exact compacted_zero t1 _ _
      iintro %_ HI
      unfold invCV
      icases HI with ⟨H6, ⟨%f, Hc, %hC⟩⟩
      have hC128 : Compacted (F := F) t1 (View.write (Elt F) (rowsAt t1).view r6 (tile_run3v.sl.gather0_1 d L ft fi hinK) Finset.univ) f 128 := hC
      sl_exec
      sl_step
      iclear Hc
      have hblk : BlkOK (F := F) d L ft (fetched d L fi) t1 ((outAt L t1).view.writes (Elt F) o1 [⟨Rect.whole S128x32, tile_run3v.sl.dma0_2 d L f⟩]) :=
        blk_of_compacted d L ft (fetched d L fi) t1 _ _ hinK r6 f o1 hC128
      unfold invV2 commonV slotBusyV outHeld
      isplitl [Hmw Ht H5 H6 Hg0 Hg1 HO]
      · isplitl [Hmw]; · iexact Hmw
        isplitl [Ht]; · iexact Ht
        isplitl [H5]; · iexact H5
        isplitl [H6]; · iexists _; iexact H6
        isplitl [Hg0]; · iexact Hg0
        isplitl [Hg1]; · iexact Hg1
        iexists (insert (SemLoc.dma gS1, (default : HIx 4)) W'); isplitr
        · ipureintro; intro p hp
          rcases Finset.mem_insert.mp hp with hp | hp
          · exact Or.inr (by subst hp; rfl)
          · exact hW' p hp
        · iexact HO
      isplitl [Hb0]; · iexact Hb0
      isplitl [Hw1]
      · iexists _, _; isplitl [Hw1]
        · iexact Hw1
        · ipureintro; exact hblk
      isplitl [Ho2]; · iexact Ho2
      isplitl [Ho3]; · iexact Ho3
      isplitl [Ho4]; · iexact Ho4
      isplitl [Ho5]; · iexact Ho5
      isplitl [Ho6]; · iexact Ho6
      isplitl [Ho7]; · iexact Ho7
      isplitl [Ho8]; · iexact Ho8
      isplitl [Ho9]; · iexact Ho9
      isplitl [Ho10]; · iexact Ho10
      isplitl [Ho11]; · iexact Ho11
      isplitl [Ho12]; · iexact Ho12
      isplitl [Ho13]; · iexact Ho13
      isplitl [Ho14]; · iexact Ho14
      iexact Ho15
    | 2, hk =>
      have k3_h1 : k3_cond1 t2 = 1#1 := by decide
      change invV2 d L O W q ft (fetched d L fi) ⊢ wp frame (wpE (defs₀ (F := F)) 𝒱₀ (tile d L) none) Set.univ (tile_run3v.sl.prog.body_1 L t2 u) (fun _ => invV3 d L O W q ft (fetched d L fi))
      unfold invV2 commonV slotBusyV outHeld
      iintro ⟨⟨Hmw, Ht, H5, H6, Hg0, Hg1, %W', %hW', HO⟩, ⟨%fo0, %fc0, Hw0, %hb0⟩, Hb1, ⟨%o2, Ho2⟩, Ho3, Ho4, Ho5, Ho6, Ho7, Ho8, Ho9, Ho10, Ho11, Ho12, Ho13, Ho14, Ho15⟩
      icases H6 with ⟨%r6, H6⟩
      have hin := h5
      have hinT : ∀ x, (((s0W).slice (Rect.unit (s := S2048) ![256] S128.size inb_w256) (fun _ => rfl)).view.read (Elt F) (fetched d L fi) x).toNat
          < S1000x128.size gathers_S1000x128_S128x128.axis := hin ![256] inb_w256
      have hinK : ∀ x, ((offsAt t2).view.read (Elt F) (fetched d L fi) x).toNat < S1000x128.size gathers_S1000x128_S128x128.axis := hin _ _
      sl_exec
      ihave Hc := (Entails.of_eq (show ((s2W).view.loc (tile d L) ↦[(crowsAt t0).view.set]{fullShare} fc0 : sProp 𝕄)
          = ((s2W).view.loc (tile d L) ↦[Finset.univ \ (crowsAt t1).view.set]{fullShare} fc0) from by rw [crows_even t0 (by decide)])) $$ Hw0_src
      sl_for (invCV (F := F) d L t2 t1 (View.write (Elt F) (rowsAt t2).view r6 (tile_run3v.sl.gather0_2 d L ft fi hinK) Finset.univ)) $$ [H6 Hc]
      case region =>
        intro j _
        unfold invCV
        iintro ⟨H6, ⟨%f, Hc, %hC⟩⟩
        sl_exec
        sl_step
        isplitl [H6]; · iexact H6
        iexists _; isplitl [Hc]; · iexact Hc
        ipureintro
        exact compacted_step t2 j _ f hC _ _ (fun e => (pay1_at _ e).trans (load_lo_at _ t2 j e)) (fun e => (pay2_at _ e).trans (load_hi_at _ t2 j e))
      · unfold invCV
        isplitl [H6]; · iexact H6
        iexists _; isplitl [Hc]; · iexact Hc
        ipureintro; exact compacted_zero t2 _ _
      iintro %_ HI
      unfold invCV
      icases HI with ⟨H6, ⟨%f, Hc, %hC⟩⟩
      have hC128 : Compacted (F := F) t2 (View.write (Elt F) (rowsAt t2).view r6 (tile_run3v.sl.gather0_2 d L ft fi hinK) Finset.univ) f 128 := hC
      sl_exec
      sl_step
      iclear Hc
      have hblk : BlkOK (F := F) d L ft (fetched d L fi) t2 ((outAt L t2).view.writes (Elt F) o2 [⟨Rect.whole S128x32, tile_run3v.sl.dma0_3 d L f⟩]) :=
        blk_of_compacted d L ft (fetched d L fi) t2 _ _ hinK r6 f o2 hC128
      unfold invV3 commonV slotBusyV outHeldV outHeld
      isplitl [Hmw Ht H5 H6 Hg0 Hg1 HO]
      · isplitl [Hmw]; · iexact Hmw
        isplitl [Ht]; · iexact Ht
        isplitl [H5]; · iexact H5
        isplitl [H6]; · iexists _; iexact H6
        isplitl [Hg0]; · iexact Hg0
        isplitl [Hg1]; · iexact Hg1
        iexists (insert (SemLoc.dma gS0, (default : HIx 4)) (insert (SemLoc.dma wS0, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hw0]
      · iexists _, _; isplitl [Hw0]
        · iexact Hw0
        · ipureintro; exact hblk
      isplitl [Hb1]; · iexact Hb1
      isplitl [Hw0_dst]
      · iexists _; isplitl [Hw0_dst]
        · iexact Hw0_dst
        · ipureintro; exact hb0
      isplitl [Ho3]; · iexact Ho3
      isplitl [Ho4]; · iexact Ho4
      isplitl [Ho5]; · iexact Ho5
      isplitl [Ho6]; · iexact Ho6
      isplitl [Ho7]; · iexact Ho7
      isplitl [Ho8]; · iexact Ho8
      isplitl [Ho9]; · iexact Ho9
      isplitl [Ho10]; · iexact Ho10
      isplitl [Ho11]; · iexact Ho11
      isplitl [Ho12]; · iexact Ho12
      isplitl [Ho13]; · iexact Ho13
      isplitl [Ho14]; · iexact Ho14
      iexact Ho15
    | 3, hk =>
      have k3_h1 : k3_cond1 t3 = 1#1 := by decide
      change invV3 d L O W q ft (fetched d L fi) ⊢ wp frame (wpE (defs₀ (F := F)) 𝒱₀ (tile d L) none) Set.univ (tile_run3v.sl.prog.body_1 L t3 u) (fun _ => invV4 d L O W q ft (fetched d L fi))
      unfold invV3 commonV slotBusyV outHeldV outHeld
      iintro ⟨⟨Hmw, Ht, H5, H6, Hg0, Hg1, %W', %hW', HO⟩, Hb0, ⟨%fo1, %fc1, Hw1, %hb1⟩, Ho0, ⟨%o3, Ho3⟩, Ho4, Ho5, Ho6, Ho7, Ho8, Ho9, Ho10, Ho11, Ho12, Ho13, Ho14, Ho15⟩
      icases H6 with ⟨%r6, H6⟩
      have hin := h5
      have hinT : ∀ x, (((s0W).slice (Rect.unit (s := S2048) ![384] S128.size inb_w384) (fun _ => rfl)).view.read (Elt F) (fetched d L fi) x).toNat
          < S1000x128.size gathers_S1000x128_S128x128.axis := hin ![384] inb_w384
      have hinK : ∀ x, ((offsAt t3).view.read (Elt F) (fetched d L fi) x).toNat < S1000x128.size gathers_S1000x128_S128x128.axis := hin _ _
      sl_exec
      ihave Hc := (Entails.of_eq (show ((s2W).view.loc (tile d L) ↦[(crowsAt t1).view.set]{fullShare} fc1 : sProp 𝕄)
          = ((s2W).view.loc (tile d L) ↦[Finset.univ \ (crowsAt t0).view.set]{fullShare} fc1) from by rw [crows_odd t1 (by decide)])) $$ Hw1_src
      sl_for (invCV (F := F) d L t3 t0 (View.write (Elt F) (rowsAt t3).view r6 (tile_run3v.sl.gather0_3 d L ft fi hinK) Finset.univ)) $$ [H6 Hc]
      case region =>
        intro j _
        unfold invCV
        iintro ⟨H6, ⟨%f, Hc, %hC⟩⟩
        sl_exec
        sl_step
        isplitl [H6]; · iexact H6
        iexists _; isplitl [Hc]; · iexact Hc
        ipureintro
        exact compacted_step t3 j _ f hC _ _ (fun e => (pay1_at _ e).trans (load_lo_at _ t3 j e)) (fun e => (pay2_at _ e).trans (load_hi_at _ t3 j e))
      · unfold invCV
        isplitl [H6]; · iexact H6
        iexists _; isplitl [Hc]; · iexact Hc
        ipureintro; exact compacted_zero t3 _ _
      iintro %_ HI
      unfold invCV
      icases HI with ⟨H6, ⟨%f, Hc, %hC⟩⟩
      have hC128 : Compacted (F := F) t3 (View.write (Elt F) (rowsAt t3).view r6 (tile_run3v.sl.gather0_3 d L ft fi hinK) Finset.univ) f 128 := hC
      sl_exec
      sl_step
      iclear Hc
      have hblk : BlkOK (F := F) d L ft (fetched d L fi) t3 ((outAt L t3).view.writes (Elt F) o3 [⟨Rect.whole S128x32, tile_run3v.sl.dma0_4 d L f⟩]) :=
        blk_of_compacted d L ft (fetched d L fi) t3 _ _ hinK r6 f o3 hC128
      unfold invV4 commonV slotBusyV outHeldV outHeld
      isplitl [Hmw Ht H5 H6 Hg0 Hg1 HO]
      · isplitl [Hmw]; · iexact Hmw
        isplitl [Ht]; · iexact Ht
        isplitl [H5]; · iexact H5
        isplitl [H6]; · iexists _; iexact H6
        isplitl [Hg0]; · iexact Hg0
        isplitl [Hg1]; · iexact Hg1
        iexists (insert (SemLoc.dma gS1, (default : HIx 4)) (insert (SemLoc.dma wS1, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hb0]; · iexact Hb0
      isplitl [Hw1]
      · iexists _, _; isplitl [Hw1]
        · iexact Hw1
        · ipureintro; exact hblk
      isplitl [Ho0]; · iexact Ho0
      isplitl [Hw1_dst]
      · iexists _; isplitl [Hw1_dst]
        · iexact Hw1_dst
        · ipureintro; exact hb1
      isplitl [Ho4]; · iexact Ho4
      isplitl [Ho5]; · iexact Ho5
      isplitl [Ho6]; · iexact Ho6
      isplitl [Ho7]; · iexact Ho7
      isplitl [Ho8]; · iexact Ho8
      isplitl [Ho9]; · iexact Ho9
      isplitl [Ho10]; · iexact Ho10
      isplitl [Ho11]; · iexact Ho11
      isplitl [Ho12]; · iexact Ho12
      isplitl [Ho13]; · iexact Ho13
      isplitl [Ho14]; · iexact Ho14
      iexact Ho15
    | 4, hk =>
      have k3_h1 : k3_cond1 t4 = 1#1 := by decide
      change invV4 d L O W q ft (fetched d L fi) ⊢ wp frame (wpE (defs₀ (F := F)) 𝒱₀ (tile d L) none) Set.univ (tile_run3v.sl.prog.body_1 L t4 u) (fun _ => invV5 d L O W q ft (fetched d L fi))
      unfold invV4 commonV slotBusyV outHeldV outHeld
      iintro ⟨⟨Hmw, Ht, H5, H6, Hg0, Hg1, %W', %hW', HO⟩, ⟨%fo0, %fc0, Hw0, %hb0⟩, Hb1, Ho0, Ho1, ⟨%o4, Ho4⟩, Ho5, Ho6, Ho7, Ho8, Ho9, Ho10, Ho11, Ho12, Ho13, Ho14, Ho15⟩
      icases H6 with ⟨%r6, H6⟩
      have hin := h5
      have hinT : ∀ x, (((s0W).slice (Rect.unit (s := S2048) ![512] S128.size inb_w512) (fun _ => rfl)).view.read (Elt F) (fetched d L fi) x).toNat
          < S1000x128.size gathers_S1000x128_S128x128.axis := hin ![512] inb_w512
      have hinK : ∀ x, ((offsAt t4).view.read (Elt F) (fetched d L fi) x).toNat < S1000x128.size gathers_S1000x128_S128x128.axis := hin _ _
      sl_exec
      ihave Hc := (Entails.of_eq (show ((s2W).view.loc (tile d L) ↦[(crowsAt t2).view.set]{fullShare} fc0 : sProp 𝕄)
          = ((s2W).view.loc (tile d L) ↦[Finset.univ \ (crowsAt t1).view.set]{fullShare} fc0) from by rw [crows_even t2 (by decide)])) $$ Hw0_src
      sl_for (invCV (F := F) d L t4 t1 (View.write (Elt F) (rowsAt t4).view r6 (tile_run3v.sl.gather0_4 d L ft fi hinK) Finset.univ)) $$ [H6 Hc]
      case region =>
        intro j _
        unfold invCV
        iintro ⟨H6, ⟨%f, Hc, %hC⟩⟩
        sl_exec
        sl_step
        isplitl [H6]; · iexact H6
        iexists _; isplitl [Hc]; · iexact Hc
        ipureintro
        exact compacted_step t4 j _ f hC _ _ (fun e => (pay1_at _ e).trans (load_lo_at _ t4 j e)) (fun e => (pay2_at _ e).trans (load_hi_at _ t4 j e))
      · unfold invCV
        isplitl [H6]; · iexact H6
        iexists _; isplitl [Hc]; · iexact Hc
        ipureintro; exact compacted_zero t4 _ _
      iintro %_ HI
      unfold invCV
      icases HI with ⟨H6, ⟨%f, Hc, %hC⟩⟩
      have hC128 : Compacted (F := F) t4 (View.write (Elt F) (rowsAt t4).view r6 (tile_run3v.sl.gather0_4 d L ft fi hinK) Finset.univ) f 128 := hC
      sl_exec
      sl_step
      iclear Hc
      have hblk : BlkOK (F := F) d L ft (fetched d L fi) t4 ((outAt L t4).view.writes (Elt F) o4 [⟨Rect.whole S128x32, tile_run3v.sl.dma0_5 d L f⟩]) :=
        blk_of_compacted d L ft (fetched d L fi) t4 _ _ hinK r6 f o4 hC128
      unfold invV5 commonV slotBusyV outHeldV outHeld
      isplitl [Hmw Ht H5 H6 Hg0 Hg1 HO]
      · isplitl [Hmw]; · iexact Hmw
        isplitl [Ht]; · iexact Ht
        isplitl [H5]; · iexact H5
        isplitl [H6]; · iexists _; iexact H6
        isplitl [Hg0]; · iexact Hg0
        isplitl [Hg1]; · iexact Hg1
        iexists (insert (SemLoc.dma gS0, (default : HIx 4)) (insert (SemLoc.dma wS0, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hw0]
      · iexists _, _; isplitl [Hw0]
        · iexact Hw0
        · ipureintro; exact hblk
      isplitl [Hb1]; · iexact Hb1
      isplitl [Ho0]; · iexact Ho0
      isplitl [Ho1]; · iexact Ho1
      isplitl [Hw0_dst]
      · iexists _; isplitl [Hw0_dst]
        · iexact Hw0_dst
        · ipureintro; exact hb0
      isplitl [Ho5]; · iexact Ho5
      isplitl [Ho6]; · iexact Ho6
      isplitl [Ho7]; · iexact Ho7
      isplitl [Ho8]; · iexact Ho8
      isplitl [Ho9]; · iexact Ho9
      isplitl [Ho10]; · iexact Ho10
      isplitl [Ho11]; · iexact Ho11
      isplitl [Ho12]; · iexact Ho12
      isplitl [Ho13]; · iexact Ho13
      isplitl [Ho14]; · iexact Ho14
      iexact Ho15
    | 5, hk =>
      have k3_h1 : k3_cond1 t5 = 1#1 := by decide
      change invV5 d L O W q ft (fetched d L fi) ⊢ wp frame (wpE (defs₀ (F := F)) 𝒱₀ (tile d L) none) Set.univ (tile_run3v.sl.prog.body_1 L t5 u) (fun _ => invV6 d L O W q ft (fetched d L fi))
      unfold invV5 commonV slotBusyV outHeldV outHeld
      iintro ⟨⟨Hmw, Ht, H5, H6, Hg0, Hg1, %W', %hW', HO⟩, Hb0, ⟨%fo1, %fc1, Hw1, %hb1⟩, Ho0, Ho1, Ho2, ⟨%o5, Ho5⟩, Ho6, Ho7, Ho8, Ho9, Ho10, Ho11, Ho12, Ho13, Ho14, Ho15⟩
      icases H6 with ⟨%r6, H6⟩
      have hin := h5
      have hinT : ∀ x, (((s0W).slice (Rect.unit (s := S2048) ![640] S128.size inb_w640) (fun _ => rfl)).view.read (Elt F) (fetched d L fi) x).toNat
          < S1000x128.size gathers_S1000x128_S128x128.axis := hin ![640] inb_w640
      have hinK : ∀ x, ((offsAt t5).view.read (Elt F) (fetched d L fi) x).toNat < S1000x128.size gathers_S1000x128_S128x128.axis := hin _ _
      sl_exec
      ihave Hc := (Entails.of_eq (show ((s2W).view.loc (tile d L) ↦[(crowsAt t3).view.set]{fullShare} fc1 : sProp 𝕄)
          = ((s2W).view.loc (tile d L) ↦[Finset.univ \ (crowsAt t0).view.set]{fullShare} fc1) from by rw [crows_odd t3 (by decide)])) $$ Hw1_src
      sl_for (invCV (F := F) d L t5 t0 (View.write (Elt F) (rowsAt t5).view r6 (tile_run3v.sl.gather0_5 d L ft fi hinK) Finset.univ)) $$ [H6 Hc]
      case region =>
        intro j _
        unfold invCV
        iintro ⟨H6, ⟨%f, Hc, %hC⟩⟩
        sl_exec
        sl_step
        isplitl [H6]; · iexact H6
        iexists _; isplitl [Hc]; · iexact Hc
        ipureintro
        exact compacted_step t5 j _ f hC _ _ (fun e => (pay1_at _ e).trans (load_lo_at _ t5 j e)) (fun e => (pay2_at _ e).trans (load_hi_at _ t5 j e))
      · unfold invCV
        isplitl [H6]; · iexact H6
        iexists _; isplitl [Hc]; · iexact Hc
        ipureintro; exact compacted_zero t5 _ _
      iintro %_ HI
      unfold invCV
      icases HI with ⟨H6, ⟨%f, Hc, %hC⟩⟩
      have hC128 : Compacted (F := F) t5 (View.write (Elt F) (rowsAt t5).view r6 (tile_run3v.sl.gather0_5 d L ft fi hinK) Finset.univ) f 128 := hC
      sl_exec
      sl_step
      iclear Hc
      have hblk : BlkOK (F := F) d L ft (fetched d L fi) t5 ((outAt L t5).view.writes (Elt F) o5 [⟨Rect.whole S128x32, tile_run3v.sl.dma0_6 d L f⟩]) :=
        blk_of_compacted d L ft (fetched d L fi) t5 _ _ hinK r6 f o5 hC128
      unfold invV6 commonV slotBusyV outHeldV outHeld
      isplitl [Hmw Ht H5 H6 Hg0 Hg1 HO]
      · isplitl [Hmw]; · iexact Hmw
        isplitl [Ht]; · iexact Ht
        isplitl [H5]; · iexact H5
        isplitl [H6]; · iexists _; iexact H6
        isplitl [Hg0]; · iexact Hg0
        isplitl [Hg1]; · iexact Hg1
        iexists (insert (SemLoc.dma gS1, (default : HIx 4)) (insert (SemLoc.dma wS1, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hb0]; · iexact Hb0
      isplitl [Hw1]
      · iexists _, _; isplitl [Hw1]
        · iexact Hw1
        · ipureintro; exact hblk
      isplitl [Ho0]; · iexact Ho0
      isplitl [Ho1]; · iexact Ho1
      isplitl [Ho2]; · iexact Ho2
      isplitl [Hw1_dst]
      · iexists _; isplitl [Hw1_dst]
        · iexact Hw1_dst
        · ipureintro; exact hb1
      isplitl [Ho6]; · iexact Ho6
      isplitl [Ho7]; · iexact Ho7
      isplitl [Ho8]; · iexact Ho8
      isplitl [Ho9]; · iexact Ho9
      isplitl [Ho10]; · iexact Ho10
      isplitl [Ho11]; · iexact Ho11
      isplitl [Ho12]; · iexact Ho12
      isplitl [Ho13]; · iexact Ho13
      isplitl [Ho14]; · iexact Ho14
      iexact Ho15
    | 6, hk =>
      have k3_h1 : k3_cond1 t6 = 1#1 := by decide
      change invV6 d L O W q ft (fetched d L fi) ⊢ wp frame (wpE (defs₀ (F := F)) 𝒱₀ (tile d L) none) Set.univ (tile_run3v.sl.prog.body_1 L t6 u) (fun _ => invV7 d L O W q ft (fetched d L fi))
      unfold invV6 commonV slotBusyV outHeldV outHeld
      iintro ⟨⟨Hmw, Ht, H5, H6, Hg0, Hg1, %W', %hW', HO⟩, ⟨%fo0, %fc0, Hw0, %hb0⟩, Hb1, Ho0, Ho1, Ho2, Ho3, ⟨%o6, Ho6⟩, Ho7, Ho8, Ho9, Ho10, Ho11, Ho12, Ho13, Ho14, Ho15⟩
      icases H6 with ⟨%r6, H6⟩
      have hin := h5
      have hinT : ∀ x, (((s0W).slice (Rect.unit (s := S2048) ![768] S128.size inb_w768) (fun _ => rfl)).view.read (Elt F) (fetched d L fi) x).toNat
          < S1000x128.size gathers_S1000x128_S128x128.axis := hin ![768] inb_w768
      have hinK : ∀ x, ((offsAt t6).view.read (Elt F) (fetched d L fi) x).toNat < S1000x128.size gathers_S1000x128_S128x128.axis := hin _ _
      sl_exec
      ihave Hc := (Entails.of_eq (show ((s2W).view.loc (tile d L) ↦[(crowsAt t4).view.set]{fullShare} fc0 : sProp 𝕄)
          = ((s2W).view.loc (tile d L) ↦[Finset.univ \ (crowsAt t1).view.set]{fullShare} fc0) from by rw [crows_even t4 (by decide)])) $$ Hw0_src
      sl_for (invCV (F := F) d L t6 t1 (View.write (Elt F) (rowsAt t6).view r6 (tile_run3v.sl.gather0_6 d L ft fi hinK) Finset.univ)) $$ [H6 Hc]
      case region =>
        intro j _
        unfold invCV
        iintro ⟨H6, ⟨%f, Hc, %hC⟩⟩
        sl_exec
        sl_step
        isplitl [H6]; · iexact H6
        iexists _; isplitl [Hc]; · iexact Hc
        ipureintro
        exact compacted_step t6 j _ f hC _ _ (fun e => (pay1_at _ e).trans (load_lo_at _ t6 j e)) (fun e => (pay2_at _ e).trans (load_hi_at _ t6 j e))
      · unfold invCV
        isplitl [H6]; · iexact H6
        iexists _; isplitl [Hc]; · iexact Hc
        ipureintro; exact compacted_zero t6 _ _
      iintro %_ HI
      unfold invCV
      icases HI with ⟨H6, ⟨%f, Hc, %hC⟩⟩
      have hC128 : Compacted (F := F) t6 (View.write (Elt F) (rowsAt t6).view r6 (tile_run3v.sl.gather0_6 d L ft fi hinK) Finset.univ) f 128 := hC
      sl_exec
      sl_step
      iclear Hc
      have hblk : BlkOK (F := F) d L ft (fetched d L fi) t6 ((outAt L t6).view.writes (Elt F) o6 [⟨Rect.whole S128x32, tile_run3v.sl.dma0_7 d L f⟩]) :=
        blk_of_compacted d L ft (fetched d L fi) t6 _ _ hinK r6 f o6 hC128
      unfold invV7 commonV slotBusyV outHeldV outHeld
      isplitl [Hmw Ht H5 H6 Hg0 Hg1 HO]
      · isplitl [Hmw]; · iexact Hmw
        isplitl [Ht]; · iexact Ht
        isplitl [H5]; · iexact H5
        isplitl [H6]; · iexists _; iexact H6
        isplitl [Hg0]; · iexact Hg0
        isplitl [Hg1]; · iexact Hg1
        iexists (insert (SemLoc.dma gS0, (default : HIx 4)) (insert (SemLoc.dma wS0, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hw0]
      · iexists _, _; isplitl [Hw0]
        · iexact Hw0
        · ipureintro; exact hblk
      isplitl [Hb1]; · iexact Hb1
      isplitl [Ho0]; · iexact Ho0
      isplitl [Ho1]; · iexact Ho1
      isplitl [Ho2]; · iexact Ho2
      isplitl [Ho3]; · iexact Ho3
      isplitl [Hw0_dst]
      · iexists _; isplitl [Hw0_dst]
        · iexact Hw0_dst
        · ipureintro; exact hb0
      isplitl [Ho7]; · iexact Ho7
      isplitl [Ho8]; · iexact Ho8
      isplitl [Ho9]; · iexact Ho9
      isplitl [Ho10]; · iexact Ho10
      isplitl [Ho11]; · iexact Ho11
      isplitl [Ho12]; · iexact Ho12
      isplitl [Ho13]; · iexact Ho13
      isplitl [Ho14]; · iexact Ho14
      iexact Ho15
    | 7, hk =>
      have k3_h1 : k3_cond1 t7 = 1#1 := by decide
      change invV7 d L O W q ft (fetched d L fi) ⊢ wp frame (wpE (defs₀ (F := F)) 𝒱₀ (tile d L) none) Set.univ (tile_run3v.sl.prog.body_1 L t7 u) (fun _ => invV8 d L O W q ft (fetched d L fi))
      unfold invV7 commonV slotBusyV outHeldV outHeld
      iintro ⟨⟨Hmw, Ht, H5, H6, Hg0, Hg1, %W', %hW', HO⟩, Hb0, ⟨%fo1, %fc1, Hw1, %hb1⟩, Ho0, Ho1, Ho2, Ho3, Ho4, ⟨%o7, Ho7⟩, Ho8, Ho9, Ho10, Ho11, Ho12, Ho13, Ho14, Ho15⟩
      icases H6 with ⟨%r6, H6⟩
      have hin := h5
      have hinT : ∀ x, (((s0W).slice (Rect.unit (s := S2048) ![896] S128.size inb_w896) (fun _ => rfl)).view.read (Elt F) (fetched d L fi) x).toNat
          < S1000x128.size gathers_S1000x128_S128x128.axis := hin ![896] inb_w896
      have hinK : ∀ x, ((offsAt t7).view.read (Elt F) (fetched d L fi) x).toNat < S1000x128.size gathers_S1000x128_S128x128.axis := hin _ _
      sl_exec
      ihave Hc := (Entails.of_eq (show ((s2W).view.loc (tile d L) ↦[(crowsAt t5).view.set]{fullShare} fc1 : sProp 𝕄)
          = ((s2W).view.loc (tile d L) ↦[Finset.univ \ (crowsAt t0).view.set]{fullShare} fc1) from by rw [crows_odd t5 (by decide)])) $$ Hw1_src
      sl_for (invCV (F := F) d L t7 t0 (View.write (Elt F) (rowsAt t7).view r6 (tile_run3v.sl.gather0_7 d L ft fi hinK) Finset.univ)) $$ [H6 Hc]
      case region =>
        intro j _
        unfold invCV
        iintro ⟨H6, ⟨%f, Hc, %hC⟩⟩
        sl_exec
        sl_step
        isplitl [H6]; · iexact H6
        iexists _; isplitl [Hc]; · iexact Hc
        ipureintro
        exact compacted_step t7 j _ f hC _ _ (fun e => (pay1_at _ e).trans (load_lo_at _ t7 j e)) (fun e => (pay2_at _ e).trans (load_hi_at _ t7 j e))
      · unfold invCV
        isplitl [H6]; · iexact H6
        iexists _; isplitl [Hc]; · iexact Hc
        ipureintro; exact compacted_zero t7 _ _
      iintro %_ HI
      unfold invCV
      icases HI with ⟨H6, ⟨%f, Hc, %hC⟩⟩
      have hC128 : Compacted (F := F) t7 (View.write (Elt F) (rowsAt t7).view r6 (tile_run3v.sl.gather0_7 d L ft fi hinK) Finset.univ) f 128 := hC
      sl_exec
      sl_step
      iclear Hc
      have hblk : BlkOK (F := F) d L ft (fetched d L fi) t7 ((outAt L t7).view.writes (Elt F) o7 [⟨Rect.whole S128x32, tile_run3v.sl.dma0_8 d L f⟩]) :=
        blk_of_compacted d L ft (fetched d L fi) t7 _ _ hinK r6 f o7 hC128
      unfold invV8 commonV slotBusyV outHeldV outHeld
      isplitl [Hmw Ht H5 H6 Hg0 Hg1 HO]
      · isplitl [Hmw]; · iexact Hmw
        isplitl [Ht]; · iexact Ht
        isplitl [H5]; · iexact H5
        isplitl [H6]; · iexists _; iexact H6
        isplitl [Hg0]; · iexact Hg0
        isplitl [Hg1]; · iexact Hg1
        iexists (insert (SemLoc.dma gS1, (default : HIx 4)) (insert (SemLoc.dma wS1, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hb0]; · iexact Hb0
      isplitl [Hw1]
      · iexists _, _; isplitl [Hw1]
        · iexact Hw1
        · ipureintro; exact hblk
      isplitl [Ho0]; · iexact Ho0
      isplitl [Ho1]; · iexact Ho1
      isplitl [Ho2]; · iexact Ho2
      isplitl [Ho3]; · iexact Ho3
      isplitl [Ho4]; · iexact Ho4
      isplitl [Hw1_dst]
      · iexists _; isplitl [Hw1_dst]
        · iexact Hw1_dst
        · ipureintro; exact hb1
      isplitl [Ho8]; · iexact Ho8
      isplitl [Ho9]; · iexact Ho9
      isplitl [Ho10]; · iexact Ho10
      isplitl [Ho11]; · iexact Ho11
      isplitl [Ho12]; · iexact Ho12
      isplitl [Ho13]; · iexact Ho13
      isplitl [Ho14]; · iexact Ho14
      iexact Ho15
    | 8, hk =>
      have k3_h1 : k3_cond1 t8 = 1#1 := by decide
      change invV8 d L O W q ft (fetched d L fi) ⊢ wp frame (wpE (defs₀ (F := F)) 𝒱₀ (tile d L) none) Set.univ (tile_run3v.sl.prog.body_1 L t8 u) (fun _ => invV9 d L O W q ft (fetched d L fi))
      unfold invV8 commonV slotBusyV outHeldV outHeld
      iintro ⟨⟨Hmw, Ht, H5, H6, Hg0, Hg1, %W', %hW', HO⟩, ⟨%fo0, %fc0, Hw0, %hb0⟩, Hb1, Ho0, Ho1, Ho2, Ho3, Ho4, Ho5, ⟨%o8, Ho8⟩, Ho9, Ho10, Ho11, Ho12, Ho13, Ho14, Ho15⟩
      icases H6 with ⟨%r6, H6⟩
      have hin := h5
      have hinT : ∀ x, (((s0W).slice (Rect.unit (s := S2048) ![1024] S128.size inb_w1024) (fun _ => rfl)).view.read (Elt F) (fetched d L fi) x).toNat
          < S1000x128.size gathers_S1000x128_S128x128.axis := hin ![1024] inb_w1024
      have hinK : ∀ x, ((offsAt t8).view.read (Elt F) (fetched d L fi) x).toNat < S1000x128.size gathers_S1000x128_S128x128.axis := hin _ _
      sl_exec
      ihave Hc := (Entails.of_eq (show ((s2W).view.loc (tile d L) ↦[(crowsAt t6).view.set]{fullShare} fc0 : sProp 𝕄)
          = ((s2W).view.loc (tile d L) ↦[Finset.univ \ (crowsAt t1).view.set]{fullShare} fc0) from by rw [crows_even t6 (by decide)])) $$ Hw0_src
      sl_for (invCV (F := F) d L t8 t1 (View.write (Elt F) (rowsAt t8).view r6 (tile_run3v.sl.gather0_8 d L ft fi hinK) Finset.univ)) $$ [H6 Hc]
      case region =>
        intro j _
        unfold invCV
        iintro ⟨H6, ⟨%f, Hc, %hC⟩⟩
        sl_exec
        sl_step
        isplitl [H6]; · iexact H6
        iexists _; isplitl [Hc]; · iexact Hc
        ipureintro
        exact compacted_step t8 j _ f hC _ _ (fun e => (pay1_at _ e).trans (load_lo_at _ t8 j e)) (fun e => (pay2_at _ e).trans (load_hi_at _ t8 j e))
      · unfold invCV
        isplitl [H6]; · iexact H6
        iexists _; isplitl [Hc]; · iexact Hc
        ipureintro; exact compacted_zero t8 _ _
      iintro %_ HI
      unfold invCV
      icases HI with ⟨H6, ⟨%f, Hc, %hC⟩⟩
      have hC128 : Compacted (F := F) t8 (View.write (Elt F) (rowsAt t8).view r6 (tile_run3v.sl.gather0_8 d L ft fi hinK) Finset.univ) f 128 := hC
      sl_exec
      sl_step
      iclear Hc
      have hblk : BlkOK (F := F) d L ft (fetched d L fi) t8 ((outAt L t8).view.writes (Elt F) o8 [⟨Rect.whole S128x32, tile_run3v.sl.dma0_9 d L f⟩]) :=
        blk_of_compacted d L ft (fetched d L fi) t8 _ _ hinK r6 f o8 hC128
      unfold invV9 commonV slotBusyV outHeldV outHeld
      isplitl [Hmw Ht H5 H6 Hg0 Hg1 HO]
      · isplitl [Hmw]; · iexact Hmw
        isplitl [Ht]; · iexact Ht
        isplitl [H5]; · iexact H5
        isplitl [H6]; · iexists _; iexact H6
        isplitl [Hg0]; · iexact Hg0
        isplitl [Hg1]; · iexact Hg1
        iexists (insert (SemLoc.dma gS0, (default : HIx 4)) (insert (SemLoc.dma wS0, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hw0]
      · iexists _, _; isplitl [Hw0]
        · iexact Hw0
        · ipureintro; exact hblk
      isplitl [Hb1]; · iexact Hb1
      isplitl [Ho0]; · iexact Ho0
      isplitl [Ho1]; · iexact Ho1
      isplitl [Ho2]; · iexact Ho2
      isplitl [Ho3]; · iexact Ho3
      isplitl [Ho4]; · iexact Ho4
      isplitl [Ho5]; · iexact Ho5
      isplitl [Hw0_dst]
      · iexists _; isplitl [Hw0_dst]
        · iexact Hw0_dst
        · ipureintro; exact hb0
      isplitl [Ho9]; · iexact Ho9
      isplitl [Ho10]; · iexact Ho10
      isplitl [Ho11]; · iexact Ho11
      isplitl [Ho12]; · iexact Ho12
      isplitl [Ho13]; · iexact Ho13
      isplitl [Ho14]; · iexact Ho14
      iexact Ho15
    | 9, hk =>
      have k3_h1 : k3_cond1 t9 = 1#1 := by decide
      change invV9 d L O W q ft (fetched d L fi) ⊢ wp frame (wpE (defs₀ (F := F)) 𝒱₀ (tile d L) none) Set.univ (tile_run3v.sl.prog.body_1 L t9 u) (fun _ => invV10 d L O W q ft (fetched d L fi))
      unfold invV9 commonV slotBusyV outHeldV outHeld
      iintro ⟨⟨Hmw, Ht, H5, H6, Hg0, Hg1, %W', %hW', HO⟩, Hb0, ⟨%fo1, %fc1, Hw1, %hb1⟩, Ho0, Ho1, Ho2, Ho3, Ho4, Ho5, Ho6, ⟨%o9, Ho9⟩, Ho10, Ho11, Ho12, Ho13, Ho14, Ho15⟩
      icases H6 with ⟨%r6, H6⟩
      have hin := h5
      have hinT : ∀ x, (((s0W).slice (Rect.unit (s := S2048) ![1152] S128.size inb_w1152) (fun _ => rfl)).view.read (Elt F) (fetched d L fi) x).toNat
          < S1000x128.size gathers_S1000x128_S128x128.axis := hin ![1152] inb_w1152
      have hinK : ∀ x, ((offsAt t9).view.read (Elt F) (fetched d L fi) x).toNat < S1000x128.size gathers_S1000x128_S128x128.axis := hin _ _
      sl_exec
      ihave Hc := (Entails.of_eq (show ((s2W).view.loc (tile d L) ↦[(crowsAt t7).view.set]{fullShare} fc1 : sProp 𝕄)
          = ((s2W).view.loc (tile d L) ↦[Finset.univ \ (crowsAt t0).view.set]{fullShare} fc1) from by rw [crows_odd t7 (by decide)])) $$ Hw1_src
      sl_for (invCV (F := F) d L t9 t0 (View.write (Elt F) (rowsAt t9).view r6 (tile_run3v.sl.gather0_9 d L ft fi hinK) Finset.univ)) $$ [H6 Hc]
      case region =>
        intro j _
        unfold invCV
        iintro ⟨H6, ⟨%f, Hc, %hC⟩⟩
        sl_exec
        sl_step
        isplitl [H6]; · iexact H6
        iexists _; isplitl [Hc]; · iexact Hc
        ipureintro
        exact compacted_step t9 j _ f hC _ _ (fun e => (pay1_at _ e).trans (load_lo_at _ t9 j e)) (fun e => (pay2_at _ e).trans (load_hi_at _ t9 j e))
      · unfold invCV
        isplitl [H6]; · iexact H6
        iexists _; isplitl [Hc]; · iexact Hc
        ipureintro; exact compacted_zero t9 _ _
      iintro %_ HI
      unfold invCV
      icases HI with ⟨H6, ⟨%f, Hc, %hC⟩⟩
      have hC128 : Compacted (F := F) t9 (View.write (Elt F) (rowsAt t9).view r6 (tile_run3v.sl.gather0_9 d L ft fi hinK) Finset.univ) f 128 := hC
      sl_exec
      sl_step
      iclear Hc
      have hblk : BlkOK (F := F) d L ft (fetched d L fi) t9 ((outAt L t9).view.writes (Elt F) o9 [⟨Rect.whole S128x32, tile_run3v.sl.dma0_10 d L f⟩]) :=
        blk_of_compacted d L ft (fetched d L fi) t9 _ _ hinK r6 f o9 hC128
      unfold invV10 commonV slotBusyV outHeldV outHeld
      isplitl [Hmw Ht H5 H6 Hg0 Hg1 HO]
      · isplitl [Hmw]; · iexact Hmw
        isplitl [Ht]; · iexact Ht
        isplitl [H5]; · iexact H5
        isplitl [H6]; · iexists _; iexact H6
        isplitl [Hg0]; · iexact Hg0
        isplitl [Hg1]; · iexact Hg1
        iexists (insert (SemLoc.dma gS1, (default : HIx 4)) (insert (SemLoc.dma wS1, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hb0]; · iexact Hb0
      isplitl [Hw1]
      · iexists _, _; isplitl [Hw1]
        · iexact Hw1
        · ipureintro; exact hblk
      isplitl [Ho0]; · iexact Ho0
      isplitl [Ho1]; · iexact Ho1
      isplitl [Ho2]; · iexact Ho2
      isplitl [Ho3]; · iexact Ho3
      isplitl [Ho4]; · iexact Ho4
      isplitl [Ho5]; · iexact Ho5
      isplitl [Ho6]; · iexact Ho6
      isplitl [Hw1_dst]
      · iexists _; isplitl [Hw1_dst]
        · iexact Hw1_dst
        · ipureintro; exact hb1
      isplitl [Ho10]; · iexact Ho10
      isplitl [Ho11]; · iexact Ho11
      isplitl [Ho12]; · iexact Ho12
      isplitl [Ho13]; · iexact Ho13
      isplitl [Ho14]; · iexact Ho14
      iexact Ho15
    | 10, hk =>
      have k3_h1 : k3_cond1 t10 = 1#1 := by decide
      change invV10 d L O W q ft (fetched d L fi) ⊢ wp frame (wpE (defs₀ (F := F)) 𝒱₀ (tile d L) none) Set.univ (tile_run3v.sl.prog.body_1 L t10 u) (fun _ => invV11 d L O W q ft (fetched d L fi))
      unfold invV10 commonV slotBusyV outHeldV outHeld
      iintro ⟨⟨Hmw, Ht, H5, H6, Hg0, Hg1, %W', %hW', HO⟩, ⟨%fo0, %fc0, Hw0, %hb0⟩, Hb1, Ho0, Ho1, Ho2, Ho3, Ho4, Ho5, Ho6, Ho7, ⟨%o10, Ho10⟩, Ho11, Ho12, Ho13, Ho14, Ho15⟩
      icases H6 with ⟨%r6, H6⟩
      have hin := h5
      have hinT : ∀ x, (((s0W).slice (Rect.unit (s := S2048) ![1280] S128.size inb_w1280) (fun _ => rfl)).view.read (Elt F) (fetched d L fi) x).toNat
          < S1000x128.size gathers_S1000x128_S128x128.axis := hin ![1280] inb_w1280
      have hinK : ∀ x, ((offsAt t10).view.read (Elt F) (fetched d L fi) x).toNat < S1000x128.size gathers_S1000x128_S128x128.axis := hin _ _
      sl_exec
      ihave Hc := (Entails.of_eq (show ((s2W).view.loc (tile d L) ↦[(crowsAt t8).view.set]{fullShare} fc0 : sProp 𝕄)
          = ((s2W).view.loc (tile d L) ↦[Finset.univ \ (crowsAt t1).view.set]{fullShare} fc0) from by rw [crows_even t8 (by decide)])) $$ Hw0_src
      sl_for (invCV (F := F) d L t10 t1 (View.write (Elt F) (rowsAt t10).view r6 (tile_run3v.sl.gather0_10 d L ft fi hinK) Finset.univ)) $$ [H6 Hc]
      case region =>
        intro j _
        unfold invCV
        iintro ⟨H6, ⟨%f, Hc, %hC⟩⟩
        sl_exec
        sl_step
        isplitl [H6]; · iexact H6
        iexists _; isplitl [Hc]; · iexact Hc
        ipureintro
        exact compacted_step t10 j _ f hC _ _ (fun e => (pay1_at _ e).trans (load_lo_at _ t10 j e)) (fun e => (pay2_at _ e).trans (load_hi_at _ t10 j e))
      · unfold invCV
        isplitl [H6]; · iexact H6
        iexists _; isplitl [Hc]; · iexact Hc
        ipureintro; exact compacted_zero t10 _ _
      iintro %_ HI
      unfold invCV
      icases HI with ⟨H6, ⟨%f, Hc, %hC⟩⟩
      have hC128 : Compacted (F := F) t10 (View.write (Elt F) (rowsAt t10).view r6 (tile_run3v.sl.gather0_10 d L ft fi hinK) Finset.univ) f 128 := hC
      sl_exec
      sl_step
      iclear Hc
      have hblk : BlkOK (F := F) d L ft (fetched d L fi) t10 ((outAt L t10).view.writes (Elt F) o10 [⟨Rect.whole S128x32, tile_run3v.sl.dma0_11 d L f⟩]) :=
        blk_of_compacted d L ft (fetched d L fi) t10 _ _ hinK r6 f o10 hC128
      unfold invV11 commonV slotBusyV outHeldV outHeld
      isplitl [Hmw Ht H5 H6 Hg0 Hg1 HO]
      · isplitl [Hmw]; · iexact Hmw
        isplitl [Ht]; · iexact Ht
        isplitl [H5]; · iexact H5
        isplitl [H6]; · iexists _; iexact H6
        isplitl [Hg0]; · iexact Hg0
        isplitl [Hg1]; · iexact Hg1
        iexists (insert (SemLoc.dma gS0, (default : HIx 4)) (insert (SemLoc.dma wS0, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hw0]
      · iexists _, _; isplitl [Hw0]
        · iexact Hw0
        · ipureintro; exact hblk
      isplitl [Hb1]; · iexact Hb1
      isplitl [Ho0]; · iexact Ho0
      isplitl [Ho1]; · iexact Ho1
      isplitl [Ho2]; · iexact Ho2
      isplitl [Ho3]; · iexact Ho3
      isplitl [Ho4]; · iexact Ho4
      isplitl [Ho5]; · iexact Ho5
      isplitl [Ho6]; · iexact Ho6
      isplitl [Ho7]; · iexact Ho7
      isplitl [Hw0_dst]
      · iexists _; isplitl [Hw0_dst]
        · iexact Hw0_dst
        · ipureintro; exact hb0
      isplitl [Ho11]; · iexact Ho11
      isplitl [Ho12]; · iexact Ho12
      isplitl [Ho13]; · iexact Ho13
      isplitl [Ho14]; · iexact Ho14
      iexact Ho15
    | 11, hk =>
      have k3_h1 : k3_cond1 t11 = 1#1 := by decide
      change invV11 d L O W q ft (fetched d L fi) ⊢ wp frame (wpE (defs₀ (F := F)) 𝒱₀ (tile d L) none) Set.univ (tile_run3v.sl.prog.body_1 L t11 u) (fun _ => invV12 d L O W q ft (fetched d L fi))
      unfold invV11 commonV slotBusyV outHeldV outHeld
      iintro ⟨⟨Hmw, Ht, H5, H6, Hg0, Hg1, %W', %hW', HO⟩, Hb0, ⟨%fo1, %fc1, Hw1, %hb1⟩, Ho0, Ho1, Ho2, Ho3, Ho4, Ho5, Ho6, Ho7, Ho8, ⟨%o11, Ho11⟩, Ho12, Ho13, Ho14, Ho15⟩
      icases H6 with ⟨%r6, H6⟩
      have hin := h5
      have hinT : ∀ x, (((s0W).slice (Rect.unit (s := S2048) ![1408] S128.size inb_w1408) (fun _ => rfl)).view.read (Elt F) (fetched d L fi) x).toNat
          < S1000x128.size gathers_S1000x128_S128x128.axis := hin ![1408] inb_w1408
      have hinK : ∀ x, ((offsAt t11).view.read (Elt F) (fetched d L fi) x).toNat < S1000x128.size gathers_S1000x128_S128x128.axis := hin _ _
      sl_exec
      ihave Hc := (Entails.of_eq (show ((s2W).view.loc (tile d L) ↦[(crowsAt t9).view.set]{fullShare} fc1 : sProp 𝕄)
          = ((s2W).view.loc (tile d L) ↦[Finset.univ \ (crowsAt t0).view.set]{fullShare} fc1) from by rw [crows_odd t9 (by decide)])) $$ Hw1_src
      sl_for (invCV (F := F) d L t11 t0 (View.write (Elt F) (rowsAt t11).view r6 (tile_run3v.sl.gather0_11 d L ft fi hinK) Finset.univ)) $$ [H6 Hc]
      case region =>
        intro j _
        unfold invCV
        iintro ⟨H6, ⟨%f, Hc, %hC⟩⟩
        sl_exec
        sl_step
        isplitl [H6]; · iexact H6
        iexists _; isplitl [Hc]; · iexact Hc
        ipureintro
        exact compacted_step t11 j _ f hC _ _ (fun e => (pay1_at _ e).trans (load_lo_at _ t11 j e)) (fun e => (pay2_at _ e).trans (load_hi_at _ t11 j e))
      · unfold invCV
        isplitl [H6]; · iexact H6
        iexists _; isplitl [Hc]; · iexact Hc
        ipureintro; exact compacted_zero t11 _ _
      iintro %_ HI
      unfold invCV
      icases HI with ⟨H6, ⟨%f, Hc, %hC⟩⟩
      have hC128 : Compacted (F := F) t11 (View.write (Elt F) (rowsAt t11).view r6 (tile_run3v.sl.gather0_11 d L ft fi hinK) Finset.univ) f 128 := hC
      sl_exec
      sl_step
      iclear Hc
      have hblk : BlkOK (F := F) d L ft (fetched d L fi) t11 ((outAt L t11).view.writes (Elt F) o11 [⟨Rect.whole S128x32, tile_run3v.sl.dma0_12 d L f⟩]) :=
        blk_of_compacted d L ft (fetched d L fi) t11 _ _ hinK r6 f o11 hC128
      unfold invV12 commonV slotBusyV outHeldV outHeld
      isplitl [Hmw Ht H5 H6 Hg0 Hg1 HO]
      · isplitl [Hmw]; · iexact Hmw
        isplitl [Ht]; · iexact Ht
        isplitl [H5]; · iexact H5
        isplitl [H6]; · iexists _; iexact H6
        isplitl [Hg0]; · iexact Hg0
        isplitl [Hg1]; · iexact Hg1
        iexists (insert (SemLoc.dma gS1, (default : HIx 4)) (insert (SemLoc.dma wS1, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hb0]; · iexact Hb0
      isplitl [Hw1]
      · iexists _, _; isplitl [Hw1]
        · iexact Hw1
        · ipureintro; exact hblk
      isplitl [Ho0]; · iexact Ho0
      isplitl [Ho1]; · iexact Ho1
      isplitl [Ho2]; · iexact Ho2
      isplitl [Ho3]; · iexact Ho3
      isplitl [Ho4]; · iexact Ho4
      isplitl [Ho5]; · iexact Ho5
      isplitl [Ho6]; · iexact Ho6
      isplitl [Ho7]; · iexact Ho7
      isplitl [Ho8]; · iexact Ho8
      isplitl [Hw1_dst]
      · iexists _; isplitl [Hw1_dst]
        · iexact Hw1_dst
        · ipureintro; exact hb1
      isplitl [Ho12]; · iexact Ho12
      isplitl [Ho13]; · iexact Ho13
      isplitl [Ho14]; · iexact Ho14
      iexact Ho15
    | 12, hk =>
      have k3_h1 : k3_cond1 t12 = 1#1 := by decide
      change invV12 d L O W q ft (fetched d L fi) ⊢ wp frame (wpE (defs₀ (F := F)) 𝒱₀ (tile d L) none) Set.univ (tile_run3v.sl.prog.body_1 L t12 u) (fun _ => invV13 d L O W q ft (fetched d L fi))
      unfold invV12 commonV slotBusyV outHeldV outHeld
      iintro ⟨⟨Hmw, Ht, H5, H6, Hg0, Hg1, %W', %hW', HO⟩, ⟨%fo0, %fc0, Hw0, %hb0⟩, Hb1, Ho0, Ho1, Ho2, Ho3, Ho4, Ho5, Ho6, Ho7, Ho8, Ho9, ⟨%o12, Ho12⟩, Ho13, Ho14, Ho15⟩
      icases H6 with ⟨%r6, H6⟩
      have hin := h5
      have hinT : ∀ x, (((s0W).slice (Rect.unit (s := S2048) ![1536] S128.size inb_w1536) (fun _ => rfl)).view.read (Elt F) (fetched d L fi) x).toNat
          < S1000x128.size gathers_S1000x128_S128x128.axis := hin ![1536] inb_w1536
      have hinK : ∀ x, ((offsAt t12).view.read (Elt F) (fetched d L fi) x).toNat < S1000x128.size gathers_S1000x128_S128x128.axis := hin _ _
      sl_exec
      ihave Hc := (Entails.of_eq (show ((s2W).view.loc (tile d L) ↦[(crowsAt t10).view.set]{fullShare} fc0 : sProp 𝕄)
          = ((s2W).view.loc (tile d L) ↦[Finset.univ \ (crowsAt t1).view.set]{fullShare} fc0) from by rw [crows_even t10 (by decide)])) $$ Hw0_src
      sl_for (invCV (F := F) d L t12 t1 (View.write (Elt F) (rowsAt t12).view r6 (tile_run3v.sl.gather0_12 d L ft fi hinK) Finset.univ)) $$ [H6 Hc]
      case region =>
        intro j _
        unfold invCV
        iintro ⟨H6, ⟨%f, Hc, %hC⟩⟩
        sl_exec
        sl_step
        isplitl [H6]; · iexact H6
        iexists _; isplitl [Hc]; · iexact Hc
        ipureintro
        exact compacted_step t12 j _ f hC _ _ (fun e => (pay1_at _ e).trans (load_lo_at _ t12 j e)) (fun e => (pay2_at _ e).trans (load_hi_at _ t12 j e))
      · unfold invCV
        isplitl [H6]; · iexact H6
        iexists _; isplitl [Hc]; · iexact Hc
        ipureintro; exact compacted_zero t12 _ _
      iintro %_ HI
      unfold invCV
      icases HI with ⟨H6, ⟨%f, Hc, %hC⟩⟩
      have hC128 : Compacted (F := F) t12 (View.write (Elt F) (rowsAt t12).view r6 (tile_run3v.sl.gather0_12 d L ft fi hinK) Finset.univ) f 128 := hC
      sl_exec
      sl_step
      iclear Hc
      have hblk : BlkOK (F := F) d L ft (fetched d L fi) t12 ((outAt L t12).view.writes (Elt F) o12 [⟨Rect.whole S128x32, tile_run3v.sl.dma0_13 d L f⟩]) :=
        blk_of_compacted d L ft (fetched d L fi) t12 _ _ hinK r6 f o12 hC128
      unfold invV13 commonV slotBusyV outHeldV outHeld
      isplitl [Hmw Ht H5 H6 Hg0 Hg1 HO]
      · isplitl [Hmw]; · iexact Hmw
        isplitl [Ht]; · iexact Ht
        isplitl [H5]; · iexact H5
        isplitl [H6]; · iexists _; iexact H6
        isplitl [Hg0]; · iexact Hg0
        isplitl [Hg1]; · iexact Hg1
        iexists (insert (SemLoc.dma gS0, (default : HIx 4)) (insert (SemLoc.dma wS0, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hw0]
      · iexists _, _; isplitl [Hw0]
        · iexact Hw0
        · ipureintro; exact hblk
      isplitl [Hb1]; · iexact Hb1
      isplitl [Ho0]; · iexact Ho0
      isplitl [Ho1]; · iexact Ho1
      isplitl [Ho2]; · iexact Ho2
      isplitl [Ho3]; · iexact Ho3
      isplitl [Ho4]; · iexact Ho4
      isplitl [Ho5]; · iexact Ho5
      isplitl [Ho6]; · iexact Ho6
      isplitl [Ho7]; · iexact Ho7
      isplitl [Ho8]; · iexact Ho8
      isplitl [Ho9]; · iexact Ho9
      isplitl [Hw0_dst]
      · iexists _; isplitl [Hw0_dst]
        · iexact Hw0_dst
        · ipureintro; exact hb0
      isplitl [Ho13]; · iexact Ho13
      isplitl [Ho14]; · iexact Ho14
      iexact Ho15
    | 13, hk =>
      have k3_h1 : k3_cond1 t13 = 1#1 := by decide
      change invV13 d L O W q ft (fetched d L fi) ⊢ wp frame (wpE (defs₀ (F := F)) 𝒱₀ (tile d L) none) Set.univ (tile_run3v.sl.prog.body_1 L t13 u) (fun _ => invV14 d L O W q ft (fetched d L fi))
      unfold invV13 commonV slotBusyV outHeldV outHeld
      iintro ⟨⟨Hmw, Ht, H5, H6, Hg0, Hg1, %W', %hW', HO⟩, Hb0, ⟨%fo1, %fc1, Hw1, %hb1⟩, Ho0, Ho1, Ho2, Ho3, Ho4, Ho5, Ho6, Ho7, Ho8, Ho9, Ho10, ⟨%o13, Ho13⟩, Ho14, Ho15⟩
      icases H6 with ⟨%r6, H6⟩
      have hin := h5
      have hinT : ∀ x, (((s0W).slice (Rect.unit (s := S2048) ![1664] S128.size inb_w1664) (fun _ => rfl)).view.read (Elt F) (fetched d L fi) x).toNat
          < S1000x128.size gathers_S1000x128_S128x128.axis := hin ![1664] inb_w1664
      have hinK : ∀ x, ((offsAt t13).view.read (Elt F) (fetched d L fi) x).toNat < S1000x128.size gathers_S1000x128_S128x128.axis := hin _ _
      sl_exec
      ihave Hc := (Entails.of_eq (show ((s2W).view.loc (tile d L) ↦[(crowsAt t11).view.set]{fullShare} fc1 : sProp 𝕄)
          = ((s2W).view.loc (tile d L) ↦[Finset.univ \ (crowsAt t0).view.set]{fullShare} fc1) from by rw [crows_odd t11 (by decide)])) $$ Hw1_src
      sl_for (invCV (F := F) d L t13 t0 (View.write (Elt F) (rowsAt t13).view r6 (tile_run3v.sl.gather0_13 d L ft fi hinK) Finset.univ)) $$ [H6 Hc]
      case region =>
        intro j _
        unfold invCV
        iintro ⟨H6, ⟨%f, Hc, %hC⟩⟩
        sl_exec
        sl_step
        isplitl [H6]; · iexact H6
        iexists _; isplitl [Hc]; · iexact Hc
        ipureintro
        exact compacted_step t13 j _ f hC _ _ (fun e => (pay1_at _ e).trans (load_lo_at _ t13 j e)) (fun e => (pay2_at _ e).trans (load_hi_at _ t13 j e))
      · unfold invCV
        isplitl [H6]; · iexact H6
        iexists _; isplitl [Hc]; · iexact Hc
        ipureintro; exact compacted_zero t13 _ _
      iintro %_ HI
      unfold invCV
      icases HI with ⟨H6, ⟨%f, Hc, %hC⟩⟩
      have hC128 : Compacted (F := F) t13 (View.write (Elt F) (rowsAt t13).view r6 (tile_run3v.sl.gather0_13 d L ft fi hinK) Finset.univ) f 128 := hC
      sl_exec
      sl_step
      iclear Hc
      have hblk : BlkOK (F := F) d L ft (fetched d L fi) t13 ((outAt L t13).view.writes (Elt F) o13 [⟨Rect.whole S128x32, tile_run3v.sl.dma0_14 d L f⟩]) :=
        blk_of_compacted d L ft (fetched d L fi) t13 _ _ hinK r6 f o13 hC128
      unfold invV14 commonV slotBusyV outHeldV outHeld
      isplitl [Hmw Ht H5 H6 Hg0 Hg1 HO]
      · isplitl [Hmw]; · iexact Hmw
        isplitl [Ht]; · iexact Ht
        isplitl [H5]; · iexact H5
        isplitl [H6]; · iexists _; iexact H6
        isplitl [Hg0]; · iexact Hg0
        isplitl [Hg1]; · iexact Hg1
        iexists (insert (SemLoc.dma gS1, (default : HIx 4)) (insert (SemLoc.dma wS1, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hb0]; · iexact Hb0
      isplitl [Hw1]
      · iexists _, _; isplitl [Hw1]
        · iexact Hw1
        · ipureintro; exact hblk
      isplitl [Ho0]; · iexact Ho0
      isplitl [Ho1]; · iexact Ho1
      isplitl [Ho2]; · iexact Ho2
      isplitl [Ho3]; · iexact Ho3
      isplitl [Ho4]; · iexact Ho4
      isplitl [Ho5]; · iexact Ho5
      isplitl [Ho6]; · iexact Ho6
      isplitl [Ho7]; · iexact Ho7
      isplitl [Ho8]; · iexact Ho8
      isplitl [Ho9]; · iexact Ho9
      isplitl [Ho10]; · iexact Ho10
      isplitl [Hw1_dst]
      · iexists _; isplitl [Hw1_dst]
        · iexact Hw1_dst
        · ipureintro; exact hb1
      isplitl [Ho14]; · iexact Ho14
      iexact Ho15
    | 14, hk =>
      have k3_h1 : k3_cond1 t14 = 1#1 := by decide
      change invV14 d L O W q ft (fetched d L fi) ⊢ wp frame (wpE (defs₀ (F := F)) 𝒱₀ (tile d L) none) Set.univ (tile_run3v.sl.prog.body_1 L t14 u) (fun _ => invV15 d L O W q ft (fetched d L fi))
      unfold invV14 commonV slotBusyV outHeldV outHeld
      iintro ⟨⟨Hmw, Ht, H5, H6, Hg0, Hg1, %W', %hW', HO⟩, ⟨%fo0, %fc0, Hw0, %hb0⟩, Hb1, Ho0, Ho1, Ho2, Ho3, Ho4, Ho5, Ho6, Ho7, Ho8, Ho9, Ho10, Ho11, ⟨%o14, Ho14⟩, Ho15⟩
      icases H6 with ⟨%r6, H6⟩
      have hin := h5
      have hinT : ∀ x, (((s0W).slice (Rect.unit (s := S2048) ![1792] S128.size inb_w1792) (fun _ => rfl)).view.read (Elt F) (fetched d L fi) x).toNat
          < S1000x128.size gathers_S1000x128_S128x128.axis := hin ![1792] inb_w1792
      have hinK : ∀ x, ((offsAt t14).view.read (Elt F) (fetched d L fi) x).toNat < S1000x128.size gathers_S1000x128_S128x128.axis := hin _ _
      sl_exec
      ihave Hc := (Entails.of_eq (show ((s2W).view.loc (tile d L) ↦[(crowsAt t12).view.set]{fullShare} fc0 : sProp 𝕄)
          = ((s2W).view.loc (tile d L) ↦[Finset.univ \ (crowsAt t1).view.set]{fullShare} fc0) from by rw [crows_even t12 (by decide)])) $$ Hw0_src
      sl_for (invCV (F := F) d L t14 t1 (View.write (Elt F) (rowsAt t14).view r6 (tile_run3v.sl.gather0_14 d L ft fi hinK) Finset.univ)) $$ [H6 Hc]
      case region =>
        intro j _
        unfold invCV
        iintro ⟨H6, ⟨%f, Hc, %hC⟩⟩
        sl_exec
        sl_step
        isplitl [H6]; · iexact H6
        iexists _; isplitl [Hc]; · iexact Hc
        ipureintro
        exact compacted_step t14 j _ f hC _ _ (fun e => (pay1_at _ e).trans (load_lo_at _ t14 j e)) (fun e => (pay2_at _ e).trans (load_hi_at _ t14 j e))
      · unfold invCV
        isplitl [H6]; · iexact H6
        iexists _; isplitl [Hc]; · iexact Hc
        ipureintro; exact compacted_zero t14 _ _
      iintro %_ HI
      unfold invCV
      icases HI with ⟨H6, ⟨%f, Hc, %hC⟩⟩
      have hC128 : Compacted (F := F) t14 (View.write (Elt F) (rowsAt t14).view r6 (tile_run3v.sl.gather0_14 d L ft fi hinK) Finset.univ) f 128 := hC
      sl_exec
      sl_step
      iclear Hc
      have hblk : BlkOK (F := F) d L ft (fetched d L fi) t14 ((outAt L t14).view.writes (Elt F) o14 [⟨Rect.whole S128x32, tile_run3v.sl.dma0_15 d L f⟩]) :=
        blk_of_compacted d L ft (fetched d L fi) t14 _ _ hinK r6 f o14 hC128
      unfold invV15 commonV slotBusyV outHeldV outHeld
      isplitl [Hmw Ht H5 H6 Hg0 Hg1 HO]
      · isplitl [Hmw]; · iexact Hmw
        isplitl [Ht]; · iexact Ht
        isplitl [H5]; · iexact H5
        isplitl [H6]; · iexists _; iexact H6
        isplitl [Hg0]; · iexact Hg0
        isplitl [Hg1]; · iexact Hg1
        iexists (insert (SemLoc.dma gS0, (default : HIx 4)) (insert (SemLoc.dma wS0, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hw0]
      · iexists _, _; isplitl [Hw0]
        · iexact Hw0
        · ipureintro; exact hblk
      isplitl [Hb1]; · iexact Hb1
      isplitl [Ho0]; · iexact Ho0
      isplitl [Ho1]; · iexact Ho1
      isplitl [Ho2]; · iexact Ho2
      isplitl [Ho3]; · iexact Ho3
      isplitl [Ho4]; · iexact Ho4
      isplitl [Ho5]; · iexact Ho5
      isplitl [Ho6]; · iexact Ho6
      isplitl [Ho7]; · iexact Ho7
      isplitl [Ho8]; · iexact Ho8
      isplitl [Ho9]; · iexact Ho9
      isplitl [Ho10]; · iexact Ho10
      isplitl [Ho11]; · iexact Ho11
      isplitl [Hw0_dst]
      · iexists _; isplitl [Hw0_dst]
        · iexact Hw0_dst
        · ipureintro; exact hb0
      iexact Ho15
    | 15, hk =>
      have k3_h1 : k3_cond1 t15 = 1#1 := by decide
      change invV15 d L O W q ft (fetched d L fi) ⊢ wp frame (wpE (defs₀ (F := F)) 𝒱₀ (tile d L) none) Set.univ (tile_run3v.sl.prog.body_1 L t15 u) (fun _ => invV16 d L O W q ft (fetched d L fi))
      unfold invV15 commonV slotBusyV outHeldV outHeld
      iintro ⟨⟨Hmw, Ht, H5, H6, Hg0, Hg1, %W', %hW', HO⟩, Hb0, ⟨%fo1, %fc1, Hw1, %hb1⟩, Ho0, Ho1, Ho2, Ho3, Ho4, Ho5, Ho6, Ho7, Ho8, Ho9, Ho10, Ho11, Ho12, ⟨%o15, Ho15⟩⟩
      icases H6 with ⟨%r6, H6⟩
      have hin := h5
      have hinT : ∀ x, (((s0W).slice (Rect.unit (s := S2048) ![1920] S128.size inb_w1920) (fun _ => rfl)).view.read (Elt F) (fetched d L fi) x).toNat
          < S1000x128.size gathers_S1000x128_S128x128.axis := hin ![1920] inb_w1920
      have hinK : ∀ x, ((offsAt t15).view.read (Elt F) (fetched d L fi) x).toNat < S1000x128.size gathers_S1000x128_S128x128.axis := hin _ _
      sl_exec
      ihave Hc := (Entails.of_eq (show ((s2W).view.loc (tile d L) ↦[(crowsAt t13).view.set]{fullShare} fc1 : sProp 𝕄)
          = ((s2W).view.loc (tile d L) ↦[Finset.univ \ (crowsAt t0).view.set]{fullShare} fc1) from by rw [crows_odd t13 (by decide)])) $$ Hw1_src
      sl_for (invCV (F := F) d L t15 t0 (View.write (Elt F) (rowsAt t15).view r6 (tile_run3v.sl.gather0_15 d L ft fi hinK) Finset.univ)) $$ [H6 Hc]
      case region =>
        intro j _
        unfold invCV
        iintro ⟨H6, ⟨%f, Hc, %hC⟩⟩
        sl_exec
        sl_step
        isplitl [H6]; · iexact H6
        iexists _; isplitl [Hc]; · iexact Hc
        ipureintro
        exact compacted_step t15 j _ f hC _ _ (fun e => (pay1_at _ e).trans (load_lo_at _ t15 j e)) (fun e => (pay2_at _ e).trans (load_hi_at _ t15 j e))
      · unfold invCV
        isplitl [H6]; · iexact H6
        iexists _; isplitl [Hc]; · iexact Hc
        ipureintro; exact compacted_zero t15 _ _
      iintro %_ HI
      unfold invCV
      icases HI with ⟨H6, ⟨%f, Hc, %hC⟩⟩
      have hC128 : Compacted (F := F) t15 (View.write (Elt F) (rowsAt t15).view r6 (tile_run3v.sl.gather0_15 d L ft fi hinK) Finset.univ) f 128 := hC
      sl_exec
      sl_step
      iclear Hc
      have hblk : BlkOK (F := F) d L ft (fetched d L fi) t15 ((outAt L t15).view.writes (Elt F) o15 [⟨Rect.whole S128x32, tile_run3v.sl.dma0_16 d L f⟩]) :=
        blk_of_compacted d L ft (fetched d L fi) t15 _ _ hinK r6 f o15 hC128
      unfold invV16 commonV slotBusyV outHeldV
      isplitl [Hmw Ht H5 H6 Hg0 Hg1 HO]
      · isplitl [Hmw]; · iexact Hmw
        isplitl [Ht]; · iexact Ht
        isplitl [H5]; · iexact H5
        isplitl [H6]; · iexists _; iexact H6
        isplitl [Hg0]; · iexact Hg0
        isplitl [Hg1]; · iexact Hg1
        iexists (insert (SemLoc.dma gS1, (default : HIx 4)) (insert (SemLoc.dma wS1, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hb0]; · iexact Hb0
      isplitl [Hw1]
      · iexists _, _; isplitl [Hw1]
        · iexact Hw1
        · ipureintro; exact hblk
      isplitl [Ho0]; · iexact Ho0
      isplitl [Ho1]; · iexact Ho1
      isplitl [Ho2]; · iexact Ho2
      isplitl [Ho3]; · iexact Ho3
      isplitl [Ho4]; · iexact Ho4
      isplitl [Ho5]; · iexact Ho5
      isplitl [Ho6]; · iexact Ho6
      isplitl [Ho7]; · iexact Ho7
      isplitl [Ho8]; · iexact Ho8
      isplitl [Ho9]; · iexact Ho9
      isplitl [Ho10]; · iexact Ho10
      isplitl [Ho11]; · iexact Ho11
      isplitl [Ho12]; · iexact Ho12
      iexists _; isplitl [Hw1_dst]
      · iexact Hw1_dst
      · ipureintro; exact hb1
  · -- before the first trip
    iapply (Entails.of_eq (show invV0 d L O W q ft (fetched d L fi) = invOV d L O W q ft (fetched d L fi) 0 PUnit.unit from rfl))
    unfold invV0 commonV slotFree outHeld crowsHeld
    isplitl [Hmw Ht H5 H6 Hg0 Hg1 HO]
    · isplitl [Hmw]; · iexact Hmw
      isplitl [Ht]; · iexact Ht
      isplitl [H5]; · iexact H5
      isplitl [H6]; · iexact H6
      isplitl [Hg0]; · iexact Hg0
      isplitl [Hg1]; · iexact Hg1
      iexists (insert (SemLoc.dma pS, (default : HIx 4)) W); isplitr
      · ipureintro; intro p hp
        rcases Finset.mem_insert.mp hp with hp | hp
        · exact Or.inr (by subst hp; rfl)
        · exact Or.inl hp
      · iexact HO
    isplitl [Hw0 Hc0]
    · isplitl [Hw0]; · iexact Hw0
      iexact Hc0
    isplitl [Hw1 Hc1]
    · isplitl [Hw1]; · iexact Hw1
      iexact Hc1
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    isplitl [Ho7]; · iexact Ho7
    isplitl [Ho8]; · iexact Ho8
    isplitl [Ho9]; · iexact Ho9
    isplitl [Ho10]; · iexact Ho10
    isplitl [Ho11]; · iexact Ho11
    isplitl [Ho12]; · iexact Ho12
    isplitl [Ho13]; · iexact Ho13
    isplitl [Ho14]; · iexact Ho14
    iexact Ho15
  -- after the loop: the last two write-backs
  iintro %acc HI
  ihave HI' := (Entails.of_eq (show invOV d L O W q ft (fetched d L fi) (Scf.trips k3_t1_loop.lb k3_t1_loop.ub k3_t1_loop.st) acc = invV16 d L O W q ft (fetched d L fi) from rfl)) $$ HI
  unfold invV16 commonV slotBusyV outHeldV
  icases HI' with ⟨⟨Hmw, Ht, H5, H6, Hg0, Hg1, %W', %hW', HO⟩, ⟨%foA, %fcA, Hw0, %hbA⟩, ⟨%foB, %fcB, Hw1, %hbB⟩, Ho0, Ho1, Ho2, Ho3, Ho4, Ho5, Ho6, Ho7, Ho8, Ho9, Ho10, Ho11, Ho12, Ho13⟩
  sl_exec
  sl_step
  isplitl [Ht]; · iexact Ht
  isplitl [Hi]; · iexact Hi
  isplitl [H5]; · iexists _; iexact H5
  isplitl [H6]; · iexact H6
  isplitl [Hw0_src]; · iexists _; iexact Hw0_src
  isplitl [Hw1_src]; · iexists _; iexact Hw1_src
  isplitl [Ho0]; · iexact Ho0
  isplitl [Ho1]; · iexact Ho1
  isplitl [Ho2]; · iexact Ho2
  isplitl [Ho3]; · iexact Ho3
  isplitl [Ho4]; · iexact Ho4
  isplitl [Ho5]; · iexact Ho5
  isplitl [Ho6]; · iexact Ho6
  isplitl [Ho7]; · iexact Ho7
  isplitl [Ho8]; · iexact Ho8
  isplitl [Ho9]; · iexact Ho9
  isplitl [Ho10]; · iexact Ho10
  isplitl [Ho11]; · iexact Ho11
  isplitl [Ho12]; · iexact Ho12
  isplitl [Ho13]; · iexact Ho13
  isplitl [Hw0_dst]
  · iexists _; isplitl [Hw0_dst]
    · iexact Hw0_dst
    · ipureintro; exact hbA
  isplitl [Hw1_dst]
  · iexists _; isplitl [Hw1_dst]
    · iexact Hw1_dst
    · ipureintro; exact hbB
  isplitl [Hg0]; · iexact Hg0
  isplitl [Hg1]; · iexact Hg1
  isplitl [Hw0]; · iexact Hw0
  isplitl [Hw1]; · iexact Hw1
  isplitl [Hp]; · iexact Hp
  iexists (insert (SemLoc.dma wS1, (default : HIx 4)) (insert (SemLoc.dma wS0, (default : HIx 4)) W')); isplitr
  · ipureintro; intro p hp
    rcases Finset.mem_insert.mp hp with hp | hp
    · exact Or.inr (by subst hp; rfl)
    rcases Finset.mem_insert.mp hp with hp | hp
    · exact Or.inr (by subst hp; rfl)
    · exact hW' p hp
  · iexact HO

end Cert.KernelIdeal.Hand.C3

end
-- ==== Proof.KernelIdeal.TileOblV3.lean ====
/-
  The fourth gather call's task as the launch theorem wants it, contents tracked: what a vector subcore hands back is
  its slice of the token words, unchanged, and each of its blocks of the result holding the table rows its words name.
  The run is `tile_run3v`; the subcore's scratch and semaphores are picked out and handed back as in the untracked
  obligation.
-/
import proofs.«203661_g84404697301628_cont_9to1_m_135_26_alg».proof.Proof.KernelIdeal.TileRunV3
import proofs.«203661_g84404697301628_cont_9to1_m_135_26_alg».proof.Proof.KernelIdeal.TileObl3
import proofs.«203661_g84404697301628_cont_9to1_m_135_26_alg».proof.Proof.PayV

noncomputable section

namespace Cert.KernelIdeal.Hand.C3

open Cert.KernelIdeal Cert.KernelIdeal.Gen Cert.KernelIdeal.Hand
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [hK : Cert.KernelIdeal.Facts] [FloatOps F]

local notation "𝕄" => MT nD τ sig (HIx 4) (Elt F) ℕ UU ℕ

local notation "tblW" => (Memref.whole Cert.KernelIdeal.main_v0_scv : Memref Cert.KernelIdeal.sig Kind.scVector Space.hbm Cert.KernelIdeal.S1000x128 EltTy.f32)
local notation "idxW" => (Memref.whole Cert.KernelIdeal.main_v11_scv : Memref Cert.KernelIdeal.sig Kind.scVector Space.hbm Cert.KernelIdeal.S65536 EltTy.i32)
local notation "outW" => (Memref.whole Cert.KernelIdeal.main_v12_scv : Memref Cert.KernelIdeal.sig Kind.scVector Space.hbm Cert.KernelIdeal.S4x16384x32 EltTy.f32)
local notation "s0W" => (Memref.whole Cert.KernelIdeal.cc3_scratch0 : Memref Cert.KernelIdeal.sig Kind.scVector Space.vmem Cert.KernelIdeal.S2048 EltTy.i32)
local notation "s1W" => (Memref.whole Cert.KernelIdeal.cc3_scratch1 : Memref Cert.KernelIdeal.sig Kind.scVector Space.vmem Cert.KernelIdeal.S2x128x128 EltTy.f32)
local notation "s2W" => (Memref.whole Cert.KernelIdeal.cc3_scratch2 : Memref Cert.KernelIdeal.sig Kind.scVector Space.vmem Cert.KernelIdeal.S2x128x32 EltTy.f32)

/-- what subcore `(c, i)` hands back for the fourth call besides the table: its slice of the token words, at the words
    `wd`, and its blocks of the result, each holding the table rows (of the table `tbv`) its words name -/
def Rtd3 (tbv : (d : Dev nD) → Buf (Elt F) (tblLoc d)) (wd : (d : Dev nD) → Buf (Elt F) (idxLoc3 d)) (d : Dev nD) (c : Fin 2) (i : Fin 16) : sProp 𝕄 :=
  iprop(((idxSl (coords3 c i)).view.loc (tile d (coords3 c i)) ↦[(idxSl (coords3 c i)).view.set]{fullShare} wd d)
    ∗ outHeldV (F := F) d (coords3 c i) (tbv d) (fetched d (coords3 c i) (wd d)) t0
    ∗ outHeldV (F := F) d (coords3 c i) (tbv d) (fetched d (coords3 c i) (wd d)) t1
    ∗ outHeldV (F := F) d (coords3 c i) (tbv d) (fetched d (coords3 c i) (wd d)) t2
    ∗ outHeldV (F := F) d (coords3 c i) (tbv d) (fetched d (coords3 c i) (wd d)) t3
    ∗ outHeldV (F := F) d (coords3 c i) (tbv d) (fetched d (coords3 c i) (wd d)) t4
    ∗ outHeldV (F := F) d (coords3 c i) (tbv d) (fetched d (coords3 c i) (wd d)) t5
    ∗ outHeldV (F := F) d (coords3 c i) (tbv d) (fetched d (coords3 c i) (wd d)) t6
    ∗ outHeldV (F := F) d (coords3 c i) (tbv d) (fetched d (coords3 c i) (wd d)) t7
    ∗ outHeldV (F := F) d (coords3 c i) (tbv d) (fetched d (coords3 c i) (wd d)) t8
    ∗ outHeldV (F := F) d (coords3 c i) (tbv d) (fetched d (coords3 c i) (wd d)) t9
    ∗ outHeldV (F := F) d (coords3 c i) (tbv d) (fetched d (coords3 c i) (wd d)) t10
    ∗ outHeldV (F := F) d (coords3 c i) (tbv d) (fetched d (coords3 c i) (wd d)) t11
    ∗ outHeldV (F := F) d (coords3 c i) (tbv d) (fetched d (coords3 c i) (wd d)) t12
    ∗ outHeldV (F := F) d (coords3 c i) (tbv d) (fetched d (coords3 c i) (wd d)) t13
    ∗ outHeldV (F := F) d (coords3 c i) (tbv d) (fetched d (coords3 c i) (wd d)) t14
    ∗ outHeldV (F := F) d (coords3 c i) (tbv d) (fetched d (coords3 c i) (wd d)) t15)

section Tile

variable (d : Dev nD) (L : grid3.Coords)

set_option maxHeartbeats 1600000 in
/-- The task on one vector subcore with contents tracked, in the launch theorem's resources: the blocks go in at some
    contents and come back holding the table rows the subcore's words name. -/
theorem tile_body3v (hF : (K (F := F)).Facts) (tb : (d : Dev nD) → Buf (Elt F) (tblLoc d)) (wd : (d : Dev nD) → Buf (Elt F) (idxLoc3 d))
    (hwd : ∀ d y, (wd d y).toNat < 1000) (q : PosShare TreeShare)
    (lv : GSem nD τ sig → HIx 4 → ℕ) (hlv : (K (F := F)).Refines lv)
    (O : CellTallies nD τ sig (HIx 4)) (W : Waits sig (HIx 4)) (hO : ∀ g, O g none = 0) :
    iprop(levAts (K (F := F)).L lv ∗ emp
        ∗ ((tblLoc d ↦{q} tb d)
            ∗ ((idxSl L).view.loc (tile d L) ↦[(idxSl L).view.set]{fullShare} wd d)
            ∗ outHeld (F := F) d L t0 ∗ outHeld (F := F) d L t1 ∗ outHeld (F := F) d L t2 ∗ outHeld (F := F) d L t3
            ∗ outHeld (F := F) d L t4 ∗ outHeld (F := F) d L t5 ∗ outHeld (F := F) d L t6 ∗ outHeld (F := F) d L t7
            ∗ outHeld (F := F) d L t8 ∗ outHeld (F := F) d L t9 ∗ outHeld (F := F) d L t10 ∗ outHeld (F := F) d L t11
            ∗ outHeld (F := F) d L t12 ∗ outHeld (F := F) d L t13 ∗ outHeld (F := F) d L t14 ∗ outHeld (F := F) d L t15)
        ∗ scopedBufs (tile d L) ∗ scopedSems0 (tile d L) ∗ owes (tile d L) O W)
      ⊢ wp frame (wpE (defs₀ (F := F)) 𝒱₀ (tile d L) none) Set.univ
          (cc3_gather_kernel L tblW (Memref.isWhole_whole _) idxW (Memref.isWhole_whole _) outW (Memref.isWhole_whole _)
            s0W (Memref.isWhole_whole _) s1W (Memref.isWhole_whole _) s2W (Memref.isWhole_whole _) cc3_scratch3 cc3_scratch4 cc3_scoped0)
          fun _ => iprop(((tblLoc d ↦{q} tb d)
            ∗ ((idxSl L).view.loc (tile d L) ↦[(idxSl L).view.set]{fullShare} wd d)
            ∗ outHeldV (F := F) d L (tb d) (fetched d L (wd d)) t0
            ∗ outHeldV (F := F) d L (tb d) (fetched d L (wd d)) t1
            ∗ outHeldV (F := F) d L (tb d) (fetched d L (wd d)) t2
            ∗ outHeldV (F := F) d L (tb d) (fetched d L (wd d)) t3
            ∗ outHeldV (F := F) d L (tb d) (fetched d L (wd d)) t4
            ∗ outHeldV (F := F) d L (tb d) (fetched d L (wd d)) t5
            ∗ outHeldV (F := F) d L (tb d) (fetched d L (wd d)) t6
            ∗ outHeldV (F := F) d L (tb d) (fetched d L (wd d)) t7
            ∗ outHeldV (F := F) d L (tb d) (fetched d L (wd d)) t8
            ∗ outHeldV (F := F) d L (tb d) (fetched d L (wd d)) t9
            ∗ outHeldV (F := F) d L (tb d) (fetched d L (wd d)) t10
            ∗ outHeldV (F := F) d L (tb d) (fetched d L (wd d)) t11
            ∗ outHeldV (F := F) d L (tb d) (fetched d L (wd d)) t12
            ∗ outHeldV (F := F) d L (tb d) (fetched d L (wd d)) t13
            ∗ outHeldV (F := F) d L (tb d) (fetched d L (wd d)) t14
            ∗ outHeldV (F := F) d L (tb d) (fetched d L (wd d)) t15)
            ∗ scopedBufs (tile d L) ∗ scopedSems0 (tile d L)
            ∗ ∃ W', ⌜∀ p ∈ W', p ∈ W ∨ p.2 = none⌝ ∗ owes (tile d L) O W') := by
  rw [(K (F := F)).scopedBufs_V hF d (cV L) (jV L), SparseCore.Cfg.scopedSems0_V (Val := Elt F) d (cV L) (jV L), ownSems0_V3, ownBufs_V3]
  iintro ⟨#Hlv, -, ⟨Ht, Hi, Ho0, Ho1, Ho2, Ho3, Ho4, Ho5, Ho6, Ho7, Ho8, Ho9, Ho10, Ho11, Ho12, Ho13, Ho14, Ho15⟩, ⟨H5, H6, ⟨%f7, H7⟩, Hbufs⟩, ⟨Hg0, Hg1, Hw0, Hw1, Hp, Hsems⟩, HO⟩
  ihave Hmw := ((K (F := F)).mayWaits_none (thr := tile d L) hO lv hlv) $$ Hlv
  ihave Hc := (crows_split (F := F) d L f7) $$ H7
  icases Hc with ⟨Hc1, Hc0⟩
  iapply (wp_wand_r frame (wpE (defs₀ (F := F)) 𝒱₀ (tile d L) none) Set.univ)
  isplitl [Hmw Ht Hi H5 H6 Hc0 Hc1 Ho0 Ho1 Ho2 Ho3 Ho4 Ho5 Ho6 Ho7 Ho8 Ho9 Ho10 Ho11 Ho12 Ho13 Ho14 Ho15 Hg0 Hg1 Hw0 Hw1 Hp HO]
  · iapply (tile_run3v (F := F) d L O W q (tb d) (wd d) (hwd d))
    isplitl [Hmw]; · iexact Hmw
    isplitl [Ht]; · iexact Ht
    isplitl [Hi]; · iexact Hi
    isplitl [H5]; · iexact H5
    isplitl [H6]; · iexact H6
    isplitl [Hc1]; · unfold crowsHeld; iexists _; iexact Hc1
    isplitl [Hc0]; · unfold crowsHeld; iexists _; iexact Hc0
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    isplitl [Ho7]; · iexact Ho7
    isplitl [Ho8]; · iexact Ho8
    isplitl [Ho9]; · iexact Ho9
    isplitl [Ho10]; · iexact Ho10
    isplitl [Ho11]; · iexact Ho11
    isplitl [Ho12]; · iexact Ho12
    isplitl [Ho13]; · iexact Ho13
    isplitl [Ho14]; · iexact Ho14
    isplitl [Ho15]; · iexact Ho15
    isplitl [Hg0]; · iexact Hg0
    isplitl [Hg1]; · iexact Hg1
    isplitl [Hw0]; · iexact Hw0
    isplitl [Hw1]; · iexact Hw1
    isplitl [Hp]; · iexact Hp
    iexact HO
  · iintro %a ⟨Ht, Hi, H5, H6, ⟨%c2, Hc2⟩, ⟨%c3, Hc3⟩, Ho0, Ho1, Ho2, Ho3, Ho4, Ho5, Ho6, Ho7, Ho8, Ho9, Ho10, Ho11, Ho12, Ho13, Ho14, Ho15, Hg0, Hg1, Hw0, Hw1, Hp, HO⟩
    ihave H7 := (crows_join (F := F) d L c2 c3) $$ [Hc2 Hc3]
    · isplitl [Hc2]; · iexact Hc2
      iexact Hc3
    isplitl [Ht Hi Ho0 Ho1 Ho2 Ho3 Ho4 Ho5 Ho6 Ho7 Ho8 Ho9 Ho10 Ho11 Ho12 Ho13 Ho14 Ho15]
    · isplitl [Ht]; · iexact Ht
      isplitl [Hi]; · iexact Hi
      isplitl [Ho0]; · iexact Ho0
      isplitl [Ho1]; · iexact Ho1
      isplitl [Ho2]; · iexact Ho2
      isplitl [Ho3]; · iexact Ho3
      isplitl [Ho4]; · iexact Ho4
      isplitl [Ho5]; · iexact Ho5
      isplitl [Ho6]; · iexact Ho6
      isplitl [Ho7]; · iexact Ho7
      isplitl [Ho8]; · iexact Ho8
      isplitl [Ho9]; · iexact Ho9
      isplitl [Ho10]; · iexact Ho10
      isplitl [Ho11]; · iexact Ho11
      isplitl [Ho12]; · iexact Ho12
      isplitl [Ho13]; · iexact Ho13
      isplitl [Ho14]; · iexact Ho14
      iexact Ho15
    isplitl [H5 H6 H7 Hbufs]
    · isplitl [H5]; · iexact H5
      isplitl [H6]; · iexact H6
      isplitl [H7]; · iexact H7
      iexact Hbufs
    isplitl [Hg0 Hg1 Hw0 Hw1 Hp Hsems]
    · isplitl [Hg0]; · iexact Hg0
      isplitl [Hg1]; · iexact Hg1
      isplitl [Hw0]; · iexact Hw0
      isplitl [Hw1]; · iexact Hw1
      isplitl [Hp]; · iexact Hp
      iexact Hsems
    iexact HO

end Tile

set_option maxHeartbeats 1600000 in
/-- The fourth call's task obligation with contents tracked: handed `Rs3`, the subcore hands back `Rtd3`. -/
theorem tileOblV3 (hF : (K (F := F)).Facts) (tb : (d : Dev nD) → Buf (Elt F) (tblLoc d)) (Rgo Rtd : Fin 4 → Dev nD → Fin 2 → Fin 16 → sProp 𝕄)
    (wd : (d : Dev nD) → Buf (Elt F) (idxLoc3 d)) (hwd : ∀ d y, (wd d y).toNat < 1000)
    (hgo : ∀ d c i, Rgo 3 d c i = Rs3 wd d c i) (htd : ∀ d c i, Rtd 3 d c i = Rtd3 tb wd d c i)
    (lv : GSem nD τ sig → HIx 4 → ℕ) (hlv : (K (F := F)).Refines lv) :
    (K (F := F)).TileObl (D (F := F)) 𝒱 (PV tb Rgo Rtd) v₀ 3 lv := by
  intro d c i O W hO _ _
  simp only [show (PV (F := F) tb Rgo Rtd).ox = fun _ _ => 0 from rfl, add_zero]
  change iprop(levAts _ lv ∗ emp ∗ ((tblLoc d ↦{tileShare (Fin.cast (nCore_eq 3) c) (Fin.cast (nSub_eq 3) i)} tb d)
        ∗ Rgo 3 d (Fin.cast (nCore_eq 3) c) (Fin.cast (nSub_eq 3) i)) ∗ _ ∗ _ ∗ _)
    ⊢ wp _ _ _ (Pipeline.liftProg (defs₀ (F := F) (.scVector ((K (F := F)).core 3 c) ((K (F := F)).sub 3 i)) 3 ()))
        (fun _ => iprop(((tblLoc d ↦{tileShare (Fin.cast (nCore_eq 3) c) (Fin.cast (nSub_eq 3) i)} tb d)
          ∗ Rtd 3 d (Fin.cast (nCore_eq 3) c) (Fin.cast (nSub_eq 3) i)) ∗ _ ∗ _ ∗ _))
  rw [hgo, htd]
  refine BI.Entails.trans ?_ (Pipeline.wp_liftProg (D (F := F)) (Pipeline.defs_kernel pcfgs defs₀) 𝒱₀ _ Set.univ none _ _)
  have hc : ((K (F := F)).core 3 c).val < grid3.bound 0 ∧ ((K (F := F)).sub 3 i).val < grid3.bound 1 := ⟨c.isLt, i.isLt⟩
  rw [defs₀_vector3]; simp only [SparseCore.onTile, hc, and_self, ↓reduceDIte]
  unfold Rs3 Rtd3
  exact (tile_body3v (F := F) d (coords3 ⟨_, hc.1⟩ ⟨_, hc.2⟩) hF tb wd hwd _ lv hlv O W hO).trans (wp_mono frame _ _ fun _ => obl_post)

end Cert.KernelIdeal.Hand.C3

end
-- ==== Proof.KernelIdeal.TileOblAllV.lean ====
/-
  The four gather calls' task obligations together, contents tracked: what a subcore is handed is, by call, that call's
  words and blocks at some contents; what it hands back is the words and the blocks holding the table rows the words
  name. The launch theorem's obligation for every call follows from the call's own.
-/
import proofs.«203661_g84404697301628_cont_9to1_m_135_26_alg».proof.Proof.KernelIdeal.TileOblAll
import proofs.«203661_g84404697301628_cont_9to1_m_135_26_alg».proof.Proof.KernelIdeal.TileOblV0
import proofs.«203661_g84404697301628_cont_9to1_m_135_26_alg».proof.Proof.KernelIdeal.TileOblV1
import proofs.«203661_g84404697301628_cont_9to1_m_135_26_alg».proof.Proof.KernelIdeal.TileOblV2
import proofs.«203661_g84404697301628_cont_9to1_m_135_26_alg».proof.Proof.KernelIdeal.TileOblV3

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [hK : Cert.KernelIdeal.Facts] [FloatOps F]

local notation "𝕄" => MT nD τ sig (HIx 4) (Elt F) ℕ UU ℕ

/-- what a vector subcore hands back besides the table, by call: that call's words and its blocks at the gathered rows -/
def RtdAll (tb : (d : Dev nD) → Buf (Elt F) (tblLoc d))
    (wd0 : (d : Dev nD) → Buf (Elt F) (idxLoc0 d)) (wd1 : (d : Dev nD) → Buf (Elt F) (C1.idxLoc1 d))
    (wd2 : (d : Dev nD) → Buf (Elt F) (C2.idxLoc2 d)) (wd3 : (d : Dev nD) → Buf (Elt F) (C3.idxLoc3 d)) :
    Fin 4 → Dev nD → Fin 2 → Fin 16 → sProp 𝕄
  | 0 => Rtd0 tb wd0
  | 1 => C1.Rtd1 tb wd1
  | 2 => C2.Rtd2 tb wd2
  | 3 => C3.Rtd3 tb wd3

omit [FloatOps F] hK in
/-- a piece of a buffer at some contents about which a fact is known can be stored in a handshake's cell -/
theorem storable_some_with (ℓ : Loc nD τ sig) (I : Finset ℓ.ty.shape.Idx) (φ : Buf (Elt F) ℓ → Prop) :
    BI.Storable (upEmb : UEmb _ 𝕄) (iprop(∃ f, (ℓ ↦[I]{fullShare} f) ∗ ⌜φ f⌝) : sProp 𝕄) := inferInstance

/-- each call's handed-back words and blocks can be stored in a handshake's cell -/
theorem RtdAll_storable (tb : (d : Dev nD) → Buf (Elt F) (tblLoc d))
    (wd0 : (d : Dev nD) → Buf (Elt F) (idxLoc0 d)) (wd1 : (d : Dev nD) → Buf (Elt F) (C1.idxLoc1 d))
    (wd2 : (d : Dev nD) → Buf (Elt F) (C2.idxLoc2 d)) (wd3 : (d : Dev nD) → Buf (Elt F) (C3.idxLoc3 d)) :
    ∀ q d c i, BI.Storable (upEmb : UEmb _ 𝕄) (RtdAll tb wd0 wd1 wd2 wd3 q d c i) := by
  intro q d c i
  match q with
  | 0 =>
    show BI.Storable (upEmb : UEmb _ 𝕄) (Rtd0 tb wd0 d c i)
    unfold Rtd0
    haveI hpt : BI.Storable (upEmb : UEmb _ 𝕄) ((idxSl (coords0 c i)).view.loc (tile d (coords0 c i))
        ↦[(idxSl (coords0 c i)).view.set]{fullShare} wd0 d) := storable_at _ _ _
    haveI hout : ∀ t, BI.Storable (upEmb : UEmb _ 𝕄) (outHeldV (F := F) d (coords0 c i) (tb d) (fetched d (coords0 c i) (wd0 d)) t) := fun t => by
      unfold outHeldV; exact storable_some_with _ _ _
    infer_instance
  | 1 =>
    show BI.Storable (upEmb : UEmb _ 𝕄) (C1.Rtd1 tb wd1 d c i)
    unfold C1.Rtd1
    haveI hpt : BI.Storable (upEmb : UEmb _ 𝕄) ((C1.idxSl (C1.coords1 c i)).view.loc (C1.tile d (C1.coords1 c i))
        ↦[(C1.idxSl (C1.coords1 c i)).view.set]{fullShare} wd1 d) := storable_at _ _ _
    haveI hout : ∀ t, BI.Storable (upEmb : UEmb _ 𝕄) (C1.outHeldV (F := F) d (C1.coords1 c i) (tb d) (C1.fetched d (C1.coords1 c i) (wd1 d)) t) := fun t => by
      unfold C1.outHeldV; exact storable_some_with _ _ _
    infer_instance
  | 2 =>
    show BI.Storable (upEmb : UEmb _ 𝕄) (C2.Rtd2 tb wd2 d c i)
    unfold C2.Rtd2
    haveI hpt : BI.Storable (upEmb : UEmb _ 𝕄) ((C2.idxSl (C2.coords2 c i)).view.loc (C2.tile d (C2.coords2 c i))
        ↦[(C2.idxSl (C2.coords2 c i)).view.set]{fullShare} wd2 d) := storable_at _ _ _
    haveI hout : ∀ t, BI.Storable (upEmb : UEmb _ 𝕄) (C2.outHeldV (F := F) d (C2.coords2 c i) (tb d) (C2.fetched d (C2.coords2 c i) (wd2 d)) t) := fun t => by
      unfold C2.outHeldV; exact storable_some_with _ _ _
    infer_instance
  | 3 =>
    show BI.Storable (upEmb : UEmb _ 𝕄) (C3.Rtd3 tb wd3 d c i)
    unfold C3.Rtd3
    haveI hpt : BI.Storable (upEmb : UEmb _ 𝕄) ((C3.idxSl (C3.coords3 c i)).view.loc (C3.tile d (C3.coords3 c i))
        ↦[(C3.idxSl (C3.coords3 c i)).view.set]{fullShare} wd3 d) := storable_at _ _ _
    haveI hout : ∀ t, BI.Storable (upEmb : UEmb _ 𝕄) (C3.outHeldV (F := F) d (C3.coords3 c i) (tb d) (C3.fetched d (C3.coords3 c i) (wd3 d)) t) := fun t => by
      unfold C3.outHeldV; exact storable_some_with _ _ _
    infer_instance

/-- Every call's task obligation with contents tracked, at token words that all name table rows. -/
theorem tileObl_allV (hF : (K (F := F)).Facts) (tb : (d : Dev nD) → Buf (Elt F) (tblLoc d))
    (wd0 : (d : Dev nD) → Buf (Elt F) (idxLoc0 d)) (wd1 : (d : Dev nD) → Buf (Elt F) (C1.idxLoc1 d))
    (wd2 : (d : Dev nD) → Buf (Elt F) (C2.idxLoc2 d)) (wd3 : (d : Dev nD) → Buf (Elt F) (C3.idxLoc3 d))
    (hwd0 : ∀ d y, (wd0 d y).toNat < 1000) (hwd1 : ∀ d y, (wd1 d y).toNat < 1000)
    (hwd2 : ∀ d y, (wd2 d y).toNat < 1000) (hwd3 : ∀ d y, (wd3 d y).toNat < 1000)
    (lv : GSem nD τ sig → HIx 4 → ℕ) (hlv : (K (F := F)).Refines lv) :
    ∀ q, (K (F := F)).TileObl (D (F := F)) 𝒱 (PV tb (RsAll wd0 wd1 wd2 wd3) (RtdAll tb wd0 wd1 wd2 wd3)) v₀ q lv := by
  intro q
  match q with
  | 0 => exact tileOblV0 hF tb (RsAll wd0 wd1 wd2 wd3) (RtdAll tb wd0 wd1 wd2 wd3) wd0 hwd0 (fun _ _ _ => rfl) (fun _ _ _ => rfl) lv hlv
  | 1 => exact C1.tileOblV1 hF tb (RsAll wd0 wd1 wd2 wd3) (RtdAll tb wd0 wd1 wd2 wd3) wd1 hwd1 (fun _ _ _ => rfl) (fun _ _ _ => rfl) lv hlv
  | 2 => exact C2.tileOblV2 hF tb (RsAll wd0 wd1 wd2 wd3) (RtdAll tb wd0 wd1 wd2 wd3) wd2 hwd2 (fun _ _ _ => rfl) (fun _ _ _ => rfl) lv hlv
  | 3 => exact C3.tileOblV3 hF tb (RsAll wd0 wd1 wd2 wd3) (RtdAll tb wd0 wd1 wd2 wd3) wd3 hwd3 (fun _ _ _ => rfl) (fun _ _ _ => rfl) lv hlv

end Cert.KernelIdeal.Hand

end
-- ==== Proof.KernelIdeal.Deal0.lean ====
/-
  How the TensorCore deals the first gather call's two arrays to the thirty-two vector subcores, and takes them back.

  Subcore `i` of SparseCore `c` is worker `w = 2·i + c`. It reads token words `512·w … 512·w + 511` and, in trip `t`,
  writes rows `512·w + 128·t … 512·w + 128·t + 127` of the result. Distinct workers' word slices start at least 512
  apart and distinct (worker, trip) blocks at least 128 rows apart, so the slices are pairwise disjoint and so are the
  blocks; that is all the deal needs. Whatever of the two arrays no subcore is handed stays with the TensorCore across
  the call and is glued back afterwards, so no covering argument is used here.
-/
import proofs.«203661_g84404697301628_cont_9to1_m_135_26_alg».proof.Proof.KernelIdeal.TileObl0
import proofs.«203661_g84404697301628_cont_9to1_m_135_26_alg».proof.Proof.Gen.KernelIdeal.Launch

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [hK : Cert.KernelIdeal.Facts]

local notation "𝕄" => MT nD τ sig (HIx 4) (Elt F) ℕ UU ℕ

local notation "tblW" => (Memref.whole Cert.KernelIdeal.main_v0_scv : Memref Cert.KernelIdeal.sig Kind.scVector Space.hbm Cert.KernelIdeal.S1000x128 EltTy.f32)
local notation "idxW" => (Memref.whole Cert.KernelIdeal.main_v5_scv : Memref Cert.KernelIdeal.sig Kind.scVector Space.hbm Cert.KernelIdeal.S16384 EltTy.i32)
local notation "outW" => (Memref.whole Cert.KernelIdeal.main_v6_scv : Memref Cert.KernelIdeal.sig Kind.scVector Space.hbm Cert.KernelIdeal.S1x16384x32 EltTy.f32)
local notation "s0W" => (Memref.whole Cert.KernelIdeal.cc0_scratch0 : Memref Cert.KernelIdeal.sig Kind.scVector Space.vmem Cert.KernelIdeal.S512 EltTy.i32)
local notation "s1W" => (Memref.whole Cert.KernelIdeal.cc0_scratch1 : Memref Cert.KernelIdeal.sig Kind.scVector Space.vmem Cert.KernelIdeal.S2x128x128 EltTy.f32)
local notation "s2W" => (Memref.whole Cert.KernelIdeal.cc0_scratch2 : Memref Cert.KernelIdeal.sig Kind.scVector Space.vmem Cert.KernelIdeal.S2x128x32 EltTy.f32)
local notation "gS0" => (⟨0, by decide⟩ : DmaSem Cert.KernelIdeal.sig)
local notation "gS1" => (⟨1, by decide⟩ : DmaSem Cert.KernelIdeal.sig)
local notation "wS0" => (⟨2, by decide⟩ : DmaSem Cert.KernelIdeal.sig)
local notation "wS1" => (⟨3, by decide⟩ : DmaSem Cert.KernelIdeal.sig)
local notation "pS" => (⟨4, by decide⟩ : DmaSem Cert.KernelIdeal.sig)

/-- worker number of subcore `i` of SparseCore `c`: it fetches words `512·w … 512·w + 511` and writes rows
    `512·w + 128·t … ` of the result in trip `t` -/
def wid (p : Fin 2 × Fin 16) : Nat := 2 * p.2.val + p.1.val

theorem wid_inj {p p' : Fin 2 × Fin 16} (h : wid p = wid p') : p = p' := by
  unfold wid at h
  have h1 := p.1.isLt; have h2 := p'.1.isLt
  exact Prod.ext (Fin.ext (by omega)) (Fin.ext (by omega))

/-- where a subcore's slice of the token words starts; where trip `t`'s block of the result starts -/
theorem off1_closed : ∀ L : grid0.Coords, k0_off1 L 0 = 512 * (2 * (L 1).val + (L 0).val) := by decide +kernel
theorem off13_closed : ∀ (L : grid0.Coords) (t : Fin k0_t1_loop.trips), k0_off13 L t 1 = 512 * (2 * (L 1).val + (L 0).val) + 128 * t.val := by
  decide +kernel

/-- a subcore's slice of the token words, as a set of positions -/
def idxSet (p : Fin 2 × Fin 16) : Finset S16384.Idx := (idxSl (coords0 p.1 p.2)).view.set

theorem idxSet_eq (p : Fin 2 × Fin 16) :
    idxSet p = (Rect.unit (s := S16384) (k0_off1 (coords0 p.1 p.2)) S512.size (k0_off1_inb _)).set :=
  View.set_slice_whole _ _

/-- different subcores' slices are disjoint: they start 512 apart -/
theorem idxSet_disjoint : ∀ p ∈ (Finset.univ : Finset (Fin 2 × Fin 16)), ∀ p' ∈ (Finset.univ : Finset (Fin 2 × Fin 16)), p ≠ p' →
    Disjoint (idxSet p) (idxSet p') := by
  intro p _ p' _ hne
  rw [idxSet_eq, idxSet_eq]
  refine Rect.unit_disjoint 0 ?_
  rw [off1_closed, off1_closed]
  have hw : wid p ≠ wid p' := fun e => hne (wid_inj e)
  unfold wid at hw
  show 512 * (2 * p.2.val + p.1.val) + 512 ≤ 512 * (2 * p'.2.val + p'.1.val) ∨ 512 * (2 * p'.2.val + p'.1.val) + 512 ≤ 512 * (2 * p.2.val + p.1.val)
  omega

/-- the four trips, by number -/
def tr : Fin 4 → Fin k0_t1_loop.trips := ![t0, t1, t2, t3]

/-- trip `j`'s block of a subcore's rows of the result, as a set of positions -/
def outSet (x : (Fin 2 × Fin 16) × Fin 4) : Finset S1x16384x32.Idx := (outAt (coords0 x.1.1 x.1.2) (tr x.2)).view.set

theorem outSet_eq (x : (Fin 2 × Fin 16) × Fin 4) :
    outSet x = (Rect.unit (s := S1x16384x32) (k0_off13 (coords0 x.1.1 x.1.2) (tr x.2)) S1x128x32.size (k0_off13_inb _ _)).set := by
  show (((View.whole main_v6_scv).slice (Rect.unit (s := S1x16384x32) (k0_off13 (coords0 x.1.1 x.1.2) (tr x.2)) S1x128x32.size (k0_off13_inb _ _))).reshape S128x32 _).set = _
  rw [View.set_reshape, View.set_slice_whole]

theorem tr_val (j : Fin 4) : (tr j).val = j.val := by
  match j with
  | 0 => rfl
  | 1 => rfl
  | 2 => rfl
  | 3 => rfl

/-- different blocks are disjoint: they start 128 rows apart -/
theorem outSet_disjoint : ∀ x ∈ (Finset.univ : Finset ((Fin 2 × Fin 16) × Fin 4)), ∀ x' ∈ (Finset.univ : Finset ((Fin 2 × Fin 16) × Fin 4)), x ≠ x' →
    Disjoint (outSet x) (outSet x') := by
  intro x _ x' _ hne
  rw [outSet_eq, outSet_eq]
  refine Rect.unit_disjoint 1 ?_
  rw [off13_closed, off13_closed, tr_val, tr_val]
  have hj := x.2.isLt; have hj' := x'.2.isLt
  have hw : 4 * wid x.1 + x.2.val ≠ 4 * wid x'.1 + x'.2.val := by
    intro e
    have e1 : wid x.1 = wid x'.1 := by omega
    have e2 : x.2.val = x'.2.val := by omega
    exact hne (Prod.ext (wid_inj e1) (Fin.ext e2))
  unfold wid at hw
  show 512 * (2 * x.1.2.val + x.1.1.val) + 128 * x.2.val + 128 ≤ 512 * (2 * x'.1.2.val + x'.1.1.val) + 128 * x'.2.val
    ∨ 512 * (2 * x'.1.2.val + x'.1.1.val) + 128 * x'.2.val + 128 ≤ 512 * (2 * x.1.2.val + x.1.1.val) + 128 * x.2.val
  omega

variable [FloatOps F]

/-- the first call's result, as the TensorCore names it -/
abbrev outLoc0 (d : Dev nD) : Loc nD τ sig := (SparseCore.T d).loc main_v6

/-- what no subcore is handed of the two arrays -/
def rem0 (wd : (d : Dev nD) → Buf (Elt F) (idxLoc0 d)) (d : Dev nD) (o : Buf (Elt F) (outLoc0 d)) : sProp 𝕄 :=
  iprop((idxLoc0 d ↦[Finset.univ \ Finset.univ.biUnion idxSet]{fullShare} wd d)
    ∗ (outLoc0 d ↦[Finset.univ \ Finset.univ.biUnion outSet]{fullShare} o))

omit [FloatOps F] in
/-- the token words: the subcores' slices and the rest -/
theorem idx_cut (d : Dev nD) (w : Buf (Elt F) (idxLoc0 d)) :
    (idxLoc0 d ↦[Finset.univ]{fullShare} w : sProp 𝕄)
      ⊣⊢ iprop((bigSep Finset.univ fun p : Fin 2 × Fin 16 => idxLoc0 d ↦[idxSet p]{fullShare} w)
          ∗ (idxLoc0 d ↦[Finset.univ \ Finset.univ.biUnion idxSet]{fullShare} w)) := by
  rw [← pointsTo_biUnion Finset.univ (ℓ := idxLoc0 d) (q := fullShare) (f := w) idxSet idxSet_disjoint]
  exact pointsTo_split_subset (Finset.subset_univ _)

omit [FloatOps F] in
/-- the result: the blocks and the rest -/
theorem out_cut (d : Dev nD) (o : Buf (Elt F) (outLoc0 d)) :
    (outLoc0 d ↦[Finset.univ]{fullShare} o : sProp 𝕄)
      ⊣⊢ iprop((bigSep Finset.univ fun x : (Fin 2 × Fin 16) × Fin 4 => outLoc0 d ↦[outSet x]{fullShare} o)
          ∗ (outLoc0 d ↦[Finset.univ \ Finset.univ.biUnion outSet]{fullShare} o)) := by
  rw [← pointsTo_biUnion Finset.univ (ℓ := outLoc0 d) (q := fullShare) (f := o) outSet outSet_disjoint]
  exact pointsTo_split_subset (Finset.subset_univ _)

/-- a subcore's part, by its pieces -/
theorem Rs0_eq (wd : (d : Dev nD) → Buf (Elt F) (idxLoc0 d)) (d : Dev nD) (p : Fin 2 × Fin 16) :
    Rs0 wd d p.1 p.2 = iprop((idxLoc0 d ↦[idxSet p]{fullShare} wd d)
      ∗ bigSep Finset.univ fun j : Fin 4 => iprop(∃ f, outLoc0 d ↦[outSet (p, j)]{fullShare} f)) := by
  rw [bigSep_W4]
  rfl

omit [FloatOps F] in
theorem some_contents (d : Dev nD) (I : Finset S1x16384x32.Idx) (o : Buf (Elt F) (outLoc0 d)) :
    (outLoc0 d ↦[I]{fullShare} o : sProp 𝕄) ⊢ iprop(∃ f, outLoc0 d ↦[I]{fullShare} f) := by
  iintro H; iexists _; iexact H

/-- THE DEAL: the token words and the result, whole, are every subcore's part and the rest -/
theorem deal0 (wd : (d : Dev nD) → Buf (Elt F) (idxLoc0 d)) (d : Dev nD) (o : Buf (Elt F) (outLoc0 d)) :
    iprop((idxLoc0 d ↦[Finset.univ]{fullShare} wd d) ∗ (outLoc0 d ↦[Finset.univ]{fullShare} o))
      ⊢ iprop((bigSep Finset.univ fun c : Fin 2 => bigSep Finset.univ fun i : Fin 16 => Rs0 wd d c i) ∗ rem0 wd d o) := by
  rw [← SparseCore.bigSep_product Finset.univ Finset.univ (fun p : Fin 2 × Fin 16 => Rs0 wd d p.1 p.2), Finset.univ_product_univ,
    bigSep_congr (fun p _ => Rs0_eq wd d p), bigSep_sep',
    ← SparseCore.bigSep_product Finset.univ Finset.univ (fun x : (Fin 2 × Fin 16) × Fin 4 => iprop(∃ f, outLoc0 d ↦[outSet x]{fullShare} f)),
    Finset.univ_product_univ]
  unfold rem0
  have hmono : (bigSep (Finset.univ : Finset ((Fin 2 × Fin 16) × Fin 4)) fun x => (outLoc0 d ↦[outSet x]{fullShare} o : sProp 𝕄))
      ⊢ bigSep (Finset.univ : Finset ((Fin 2 × Fin 16) × Fin 4)) fun x => iprop(∃ f, outLoc0 d ↦[outSet x]{fullShare} f) :=
    bigSep_mono fun x _ => some_contents d (outSet x) o
  iintro ⟨Hi, Ho⟩
  ihave Hi' := (idx_cut (F := F) d (wd d)).1 $$ Hi
  icases Hi' with ⟨Hi, Hir⟩
  ihave Ho' := (out_cut (F := F) d o).1 $$ Ho
  icases Ho' with ⟨Ho, Hor⟩
  isplitl [Hi Ho]
  · isplitl [Hi]; · iexact Hi
    iapply hmono; iexact Ho
  · isplitl [Hir]; · iexact Hir
    iexact Hor

/-- AND BACK: every subcore's part and the rest are the token words, unchanged, and the result at some contents -/
theorem back0 (wd : (d : Dev nD) → Buf (Elt F) (idxLoc0 d)) (d : Dev nD) (o : Buf (Elt F) (outLoc0 d)) :
    iprop((bigSep Finset.univ fun c : Fin 2 => bigSep Finset.univ fun i : Fin 16 => Rs0 wd d c i) ∗ rem0 wd d o)
      ⊢ iprop((idxLoc0 d ↦[Finset.univ]{fullShare} wd d) ∗ ∃ o', outLoc0 d ↦[Finset.univ]{fullShare} o') := by
  rw [← SparseCore.bigSep_product Finset.univ Finset.univ (fun p : Fin 2 × Fin 16 => Rs0 wd d p.1 p.2), Finset.univ_product_univ,
    bigSep_congr (fun p _ => Rs0_eq wd d p), bigSep_sep',
    ← SparseCore.bigSep_product Finset.univ Finset.univ (fun x : (Fin 2 × Fin 16) × Fin 4 => iprop(∃ f, outLoc0 d ↦[outSet x]{fullShare} f)),
    Finset.univ_product_univ]
  unfold rem0
  iintro ⟨⟨Hi, Ho⟩, Hir, Hor⟩
  isplitl [Hi Hir]
  · iapply (idx_cut (F := F) d (wd d)).2
    isplitl [Hi]; · iexact Hi
    iexact Hir
  · ihave H1 := (bigSep_exists_pi Finset.univ (fun (x : (Fin 2 × Fin 16) × Fin 4) (f : Buf (Elt F) (outLoc0 d)) =>
      (outLoc0 d ↦[outSet x]{fullShare} f : sProp 𝕄))) $$ Ho
    icases H1 with ⟨%fs, H1⟩
    ihave H2 := (pointsTo_biUnion_join Finset.univ outSet fs o outSet_disjoint) $$ H1
    icases H2 with ⟨%g, -, Hg⟩
    ihave H3 := (pointsTo_join_subset (ℓ := outLoc0 d) (I := Finset.univ.biUnion outSet) (S := Finset.univ) (q := fullShare) (f := o) (g := g) (Finset.subset_univ _)) $$ [Hg Hor]
    · isplitl [Hg]; · iexact Hg
      iexact Hor
    iexists _; iexact H3

end Cert.KernelIdeal.Hand

end
-- ==== Proof.KernelIdeal.DealGeo1.lean ====
/-
  Gather call 1: where each vector subcore's slice of the token words and each of its blocks of the result lie, and
  that they are pairwise disjoint. Subcore `i` of SparseCore `c` is worker `w = 2·i + c`; it reads words
  `512·w … 512·w + 511` and in trip `t` writes the 128 rows starting at row `(w mod 32)·512 + 128·t` of
  slab `w / 32` of the result.
-/
import proofs.«203661_g84404697301628_cont_9to1_m_135_26_alg».proof.KernelIdeal
import proofs.«203661_g84404697301628_cont_9to1_m_135_26_alg».proof.Proof.Gen.KernelIdeal
import Idealize.ShloMosaic.Lib.ValueIdx

noncomputable section

namespace Cert.KernelIdeal.Hand.D1

open Cert.KernelIdeal Cert.KernelIdeal.Gen
open Idealize.ShloMosaic

variable [hK : Cert.KernelIdeal.Facts]

def coords (c : Fin 2) (i : Fin 16) : grid1.Coords :=
  fun | 0 => c | 1 => i | ⟨_ + 2, h⟩ => absurd h (Nat.not_lt.2 (Nat.le_add_left _ _))

def wid (p : Fin 2 × Fin 16) : Nat := 2 * p.2.val + p.1.val

theorem wid_inj {p p' : Fin 2 × Fin 16} (h : wid p = wid p') : p = p' := by
  unfold wid at h
  have h1 := p.1.isLt; have h2 := p'.1.isLt
  exact Prod.ext (Fin.ext (by omega)) (Fin.ext (by omega))

theorem wid_lt (p : Fin 2 × Fin 16) : wid p < 32 := by
  unfold wid; have h1 := p.1.isLt; have h2 := p.2.isLt; omega

theorem off1_closed : ∀ L : grid1.Coords, k1_off1 L 0 = 512 * (2 * (L 1).val + (L 0).val) := by decide +kernel
theorem off13_closed0 : ∀ (L : grid1.Coords) (t : Fin k1_t1_loop.trips), k1_off13 L t 0 = (2 * (L 1).val + (L 0).val) / 32 := by
  decide +kernel
theorem off13_closed1 : ∀ (L : grid1.Coords) (t : Fin k1_t1_loop.trips),
    k1_off13 L t 1 = ((2 * (L 1).val + (L 0).val) % 32) * 512 + 128 * t.val := by
  decide +kernel

/-- a subcore's slice of the token words, as a set of positions -/
def idxSet (p : Fin 2 × Fin 16) : Finset S16384.Idx :=
  (Rect.unit (s := S16384) (k1_off1 (coords p.1 p.2)) S512.size (k1_off1_inb _)).set

theorem idxSet_disjoint : ∀ p ∈ (Finset.univ : Finset (Fin 2 × Fin 16)), ∀ p' ∈ (Finset.univ : Finset (Fin 2 × Fin 16)), p ≠ p' →
    Disjoint (idxSet p) (idxSet p') := by
  intro p _ p' _ hne
  unfold idxSet
  refine Rect.unit_disjoint 0 ?_
  rw [off1_closed, off1_closed]
  have hw : wid p ≠ wid p' := fun e => hne (wid_inj e)
  unfold wid at hw
  show 512 * (2 * p.2.val + p.1.val) + 512 ≤ 512 * (2 * p'.2.val + p'.1.val) ∨ 512 * (2 * p'.2.val + p'.1.val) + 512 ≤ 512 * (2 * p.2.val + p.1.val)
  omega

/-- the trips, by number -/
def tr : Fin 4 → Fin k1_t1_loop.trips
  | ⟨0, _⟩ => ⟨0, by decide⟩
  | ⟨1, _⟩ => ⟨1, by decide⟩
  | ⟨2, _⟩ => ⟨2, by decide⟩
  | ⟨3, _⟩ => ⟨3, by decide⟩
  | ⟨_ + 4, h⟩ => absurd h (Nat.not_lt.2 (Nat.le_add_left _ _))

theorem tr_val (j : Fin 4) : (tr j).val = j.val := by
  match j with
  | ⟨0, _⟩ => rfl
  | ⟨1, _⟩ => rfl
  | ⟨2, _⟩ => rfl
  | ⟨3, _⟩ => rfl
  | ⟨_ + 4, h⟩ => exact absurd h (Nat.not_lt.2 (Nat.le_add_left _ _))

/-- trip `j`'s block of a subcore's rows of the result, as a set of positions -/
def outSet (x : (Fin 2 × Fin 16) × Fin 4) : Finset S1x16384x32.Idx :=
  (Rect.unit (s := S1x16384x32) (k1_off13 (coords x.1.1 x.1.2) (tr x.2)) S1x128x32.size (k1_off13_inb _ _)).set

theorem outSet_disjoint : ∀ x ∈ (Finset.univ : Finset ((Fin 2 × Fin 16) × Fin 4)), ∀ x' ∈ (Finset.univ : Finset ((Fin 2 × Fin 16) × Fin 4)), x ≠ x' →
    Disjoint (outSet x) (outSet x') := by
  intro x _ x' _ hne
  unfold outSet
  have hj := x.2.isLt; have hj' := x'.2.isLt
  have hwl := wid_lt x.1; have hwl' := wid_lt x'.1
  by_cases hs : wid x.1 / 32 = wid x'.1 / 32
  · -- the same slab: the row offsets are at least 128 apart
    refine Rect.unit_disjoint 1 ?_
    rw [off13_closed1, off13_closed1, tr_val, tr_val]
    have hw : 4 * (wid x.1 % 32) + x.2.val ≠ 4 * (wid x'.1 % 32) + x'.2.val := by
      intro e
      have e1 : wid x.1 % 32 = wid x'.1 % 32 := by omega
      have e2 : x.2.val = x'.2.val := by omega
      have e3 : wid x.1 = wid x'.1 := by omega
      exact hne (Prod.ext (wid_inj e3) (Fin.ext e2))
    unfold wid at hw hs
    show ((2 * x.1.2.val + x.1.1.val) % 32) * 512 + 128 * x.2.val + 128 ≤ ((2 * x'.1.2.val + x'.1.1.val) % 32) * 512 + 128 * x'.2.val
      ∨ ((2 * x'.1.2.val + x'.1.1.val) % 32) * 512 + 128 * x'.2.val + 128 ≤ ((2 * x.1.2.val + x.1.1.val) % 32) * 512 + 128 * x.2.val
    omega
  · -- different slabs
    refine Rect.unit_disjoint 0 ?_
    rw [off13_closed0, off13_closed0]
    unfold wid at hs
    show (2 * x.1.2.val + x.1.1.val) / 32 + 1 ≤ (2 * x'.1.2.val + x'.1.1.val) / 32 ∨ (2 * x'.1.2.val + x'.1.1.val) / 32 + 1 ≤ (2 * x.1.2.val + x.1.1.val) / 32
    omega

end Cert.KernelIdeal.Hand.D1

end
-- ==== Proof.KernelIdeal.Deal1.lean ====
/-
  How the TensorCore deals the second gather call's two arrays to the thirty-two vector subcores, and takes them back.

  Each subcore is handed its own slice of the call's token words and its own four blocks of the call's result. The
  slices are pairwise disjoint and so are the blocks (where they lie is the geometry module's); that is all the deal
  needs. Whatever of the two arrays no subcore is handed stays with the TensorCore across the call and is glued back
  afterwards, so no covering argument is used here.
-/
import proofs.«203661_g84404697301628_cont_9to1_m_135_26_alg».proof.Proof.KernelIdeal.TileObl1
import proofs.«203661_g84404697301628_cont_9to1_m_135_26_alg».proof.Proof.KernelIdeal.DealGeo1

noncomputable section

namespace Cert.KernelIdeal.Hand.C1

open Cert.KernelIdeal Cert.KernelIdeal.Gen Cert.KernelIdeal.Hand
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [hK : Cert.KernelIdeal.Facts]

local notation "𝕄" => MT nD τ sig (HIx 4) (Elt F) ℕ UU ℕ

/-- a subcore's slice of the token words, as a set of positions -/
def idxSet (p : Fin 2 × Fin 16) : Finset S16384.Idx := (idxSl (coords1 p.1 p.2)).view.set

/-- it is the geometry module's slice -/
theorem idxSet_eq (p : Fin 2 × Fin 16) : idxSet p = D1.idxSet p :=
  View.set_slice_whole _ _

/-- different subcores' slices are disjoint -/
theorem idxSet_disjoint : ∀ p ∈ (Finset.univ : Finset (Fin 2 × Fin 16)), ∀ p' ∈ (Finset.univ : Finset (Fin 2 × Fin 16)), p ≠ p' →
    Disjoint (idxSet p) (idxSet p') := by
  intro p hp p' hp' hne
  rw [idxSet_eq, idxSet_eq]
  exact D1.idxSet_disjoint p hp p' hp' hne

/-- trip `j`'s block of a subcore's rows of the result, as a set of positions -/
def outSet (x : (Fin 2 × Fin 16) × Fin 4) : Finset S1x16384x32.Idx := (outAt (coords1 x.1.1 x.1.2) (D1.tr x.2)).view.set

/-- it is the geometry module's block -/
theorem outSet_eq (x : (Fin 2 × Fin 16) × Fin 4) : outSet x = D1.outSet x := by
  show (((View.whole main_v8_scv).slice (Rect.unit (s := S1x16384x32) (k1_off13 (coords1 x.1.1 x.1.2) (D1.tr x.2)) S1x128x32.size (k1_off13_inb _ _))).reshape S128x32 _).set = _
  rw [View.set_reshape, View.set_slice_whole]
  rfl

/-- different blocks are disjoint -/
theorem outSet_disjoint : ∀ x ∈ (Finset.univ : Finset ((Fin 2 × Fin 16) × Fin 4)), ∀ x' ∈ (Finset.univ : Finset ((Fin 2 × Fin 16) × Fin 4)), x ≠ x' →
    Disjoint (outSet x) (outSet x') := by
  intro x hx x' hx' hne
  rw [outSet_eq, outSet_eq]
  exact D1.outSet_disjoint x hx x' hx' hne

/-- the four blocks conjoined one by one -/
theorem bigSep_W4 {M : Type} [URA M] (Φ : Fin 4 → sProp M) :
    bigSep Finset.univ Φ = iprop(Φ (0 : Fin 4) ∗ Φ (1 : Fin 4) ∗ Φ (2 : Fin 4) ∗ Φ (3 : Fin 4)) :=
  bigSep_univ_eq_bigSepL [(0 : Fin 4), (1 : Fin 4), (2 : Fin 4), (3 : Fin 4)] (by decide) (by decide) Φ

variable [FloatOps F]

/-- the second call's result, as the TensorCore names it -/
abbrev outLoc1 (d : Dev nD) : Loc nD τ sig := (SparseCore.T d).loc main_v8

/-- what no subcore is handed of the two arrays -/
def rem1 (wd : (d : Dev nD) → Buf (Elt F) (idxLoc1 d)) (d : Dev nD) (o : Buf (Elt F) (outLoc1 d)) : sProp 𝕄 :=
  iprop((idxLoc1 d ↦[Finset.univ \ Finset.univ.biUnion idxSet]{fullShare} wd d)
    ∗ (outLoc1 d ↦[Finset.univ \ Finset.univ.biUnion outSet]{fullShare} o))

omit [FloatOps F] in
/-- the token words: the subcores' slices and the rest -/
theorem idx_cut (d : Dev nD) (w : Buf (Elt F) (idxLoc1 d)) :
    (idxLoc1 d ↦[Finset.univ]{fullShare} w : sProp 𝕄)
      ⊣⊢ iprop((bigSep Finset.univ fun p : Fin 2 × Fin 16 => idxLoc1 d ↦[idxSet p]{fullShare} w)
          ∗ (idxLoc1 d ↦[Finset.univ \ Finset.univ.biUnion idxSet]{fullShare} w)) := by
  rw [← pointsTo_biUnion Finset.univ (ℓ := idxLoc1 d) (q := fullShare) (f := w) idxSet idxSet_disjoint]
  exact pointsTo_split_subset (Finset.subset_univ _)

omit [FloatOps F] in
/-- the result: the blocks and the rest -/
theorem out_cut (d : Dev nD) (o : Buf (Elt F) (outLoc1 d)) :
    (outLoc1 d ↦[Finset.univ]{fullShare} o : sProp 𝕄)
      ⊣⊢ iprop((bigSep Finset.univ fun x : (Fin 2 × Fin 16) × Fin 4 => outLoc1 d ↦[outSet x]{fullShare} o)
          ∗ (outLoc1 d ↦[Finset.univ \ Finset.univ.biUnion outSet]{fullShare} o)) := by
  rw [← pointsTo_biUnion Finset.univ (ℓ := outLoc1 d) (q := fullShare) (f := o) outSet outSet_disjoint]
  exact pointsTo_split_subset (Finset.subset_univ _)

/-- a subcore's part, by its pieces -/
theorem Rs1_eq (wd : (d : Dev nD) → Buf (Elt F) (idxLoc1 d)) (d : Dev nD) (p : Fin 2 × Fin 16) :
    Rs1 wd d p.1 p.2 = iprop((idxLoc1 d ↦[idxSet p]{fullShare} wd d)
      ∗ bigSep Finset.univ fun j : Fin 4 => iprop(∃ f, outLoc1 d ↦[outSet (p, j)]{fullShare} f)) := by
  rw [bigSep_W4]
  rfl

omit [FloatOps F] in
theorem some_contents (d : Dev nD) (I : Finset S1x16384x32.Idx) (o : Buf (Elt F) (outLoc1 d)) :
    (outLoc1 d ↦[I]{fullShare} o : sProp 𝕄) ⊢ iprop(∃ f, outLoc1 d ↦[I]{fullShare} f) := by
  iintro H; iexists _; iexact H

/-- THE DEAL: the token words and the result, whole, are every subcore's part and the rest -/
theorem deal1 (wd : (d : Dev nD) → Buf (Elt F) (idxLoc1 d)) (d : Dev nD) (o : Buf (Elt F) (outLoc1 d)) :
    iprop((idxLoc1 d ↦[Finset.univ]{fullShare} wd d) ∗ (outLoc1 d ↦[Finset.univ]{fullShare} o))
      ⊢ iprop((bigSep Finset.univ fun c : Fin 2 => bigSep Finset.univ fun i : Fin 16 => Rs1 wd d c i) ∗ rem1 wd d o) := by
  rw [← SparseCore.bigSep_product Finset.univ Finset.univ (fun p : Fin 2 × Fin 16 => Rs1 wd d p.1 p.2), Finset.univ_product_univ,
    bigSep_congr (fun p _ => Rs1_eq wd d p), bigSep_sep',
    ← SparseCore.bigSep_product Finset.univ Finset.univ (fun x : (Fin 2 × Fin 16) × Fin 4 => iprop(∃ f, outLoc1 d ↦[outSet x]{fullShare} f)),
    Finset.univ_product_univ]
  unfold rem1
  have hmono : (bigSep (Finset.univ : Finset ((Fin 2 × Fin 16) × Fin 4)) fun x => (outLoc1 d ↦[outSet x]{fullShare} o : sProp 𝕄))
      ⊢ bigSep (Finset.univ : Finset ((Fin 2 × Fin 16) × Fin 4)) fun x => iprop(∃ f, outLoc1 d ↦[outSet x]{fullShare} f) :=
    bigSep_mono fun x _ => some_contents d (outSet x) o
  iintro ⟨Hi, Ho⟩
  ihave Hi' := (idx_cut (F := F) d (wd d)).1 $$ Hi
  icases Hi' with ⟨Hi, Hir⟩
  ihave Ho' := (out_cut (F := F) d o).1 $$ Ho
  icases Ho' with ⟨Ho, Hor⟩
  isplitl [Hi Ho]
  · isplitl [Hi]; · iexact Hi
    iapply hmono; iexact Ho
  · isplitl [Hir]; · iexact Hir
    iexact Hor

/-- AND BACK: every subcore's part and the rest are the token words, unchanged, and the result at some contents -/
theorem back1 (wd : (d : Dev nD) → Buf (Elt F) (idxLoc1 d)) (d : Dev nD) (o : Buf (Elt F) (outLoc1 d)) :
    iprop((bigSep Finset.univ fun c : Fin 2 => bigSep Finset.univ fun i : Fin 16 => Rs1 wd d c i) ∗ rem1 wd d o)
      ⊢ iprop((idxLoc1 d ↦[Finset.univ]{fullShare} wd d) ∗ ∃ o', outLoc1 d ↦[Finset.univ]{fullShare} o') := by
  rw [← SparseCore.bigSep_product Finset.univ Finset.univ (fun p : Fin 2 × Fin 16 => Rs1 wd d p.1 p.2), Finset.univ_product_univ,
    bigSep_congr (fun p _ => Rs1_eq wd d p), bigSep_sep',
    ← SparseCore.bigSep_product Finset.univ Finset.univ (fun x : (Fin 2 × Fin 16) × Fin 4 => iprop(∃ f, outLoc1 d ↦[outSet x]{fullShare} f)),
    Finset.univ_product_univ]
  unfold rem1
  iintro ⟨⟨Hi, Ho⟩, Hir, Hor⟩
  isplitl [Hi Hir]
  · iapply (idx_cut (F := F) d (wd d)).2
    isplitl [Hi]; · iexact Hi
    iexact Hir
  · ihave H1 := (bigSep_exists_pi Finset.univ (fun (x : (Fin 2 × Fin 16) × Fin 4) (f : Buf (Elt F) (outLoc1 d)) =>
      (outLoc1 d ↦[outSet x]{fullShare} f : sProp 𝕄))) $$ Ho
    icases H1 with ⟨%fs, H1⟩
    ihave H2 := (pointsTo_biUnion_join Finset.univ outSet fs o outSet_disjoint) $$ H1
    icases H2 with ⟨%g, -, Hg⟩
    ihave H3 := (pointsTo_join_subset (ℓ := outLoc1 d) (I := Finset.univ.biUnion outSet) (S := Finset.univ) (q := fullShare) (f := o) (g := g) (Finset.subset_univ _)) $$ [Hg Hor]
    · isplitl [Hg]; · iexact Hg
      iexact Hor
    iexists _; iexact H3

end Cert.KernelIdeal.Hand.C1

end
-- ==== Proof.KernelIdeal.DealGeo2.lean ====
/-
  Gather call 2: where each vector subcore's slice of the token words and each of its blocks of the result lie, and
  that they are pairwise disjoint. Subcore `i` of SparseCore `c` is worker `w = 2·i + c`; it reads words
  `1024·w … 1024·w + 1023` and in trip `t` writes the 128 rows starting at row `(w mod 16)·1024 + 128·t` of
  slab `w / 16` of the result.
-/
import proofs.«203661_g84404697301628_cont_9to1_m_135_26_alg».proof.KernelIdeal
import proofs.«203661_g84404697301628_cont_9to1_m_135_26_alg».proof.Proof.Gen.KernelIdeal
import Idealize.ShloMosaic.Lib.ValueIdx

noncomputable section

namespace Cert.KernelIdeal.Hand.D2

open Cert.KernelIdeal Cert.KernelIdeal.Gen
open Idealize.ShloMosaic

variable [hK : Cert.KernelIdeal.Facts]

def coords (c : Fin 2) (i : Fin 16) : grid2.Coords :=
  fun | 0 => c | 1 => i | ⟨_ + 2, h⟩ => absurd h (Nat.not_lt.2 (Nat.le_add_left _ _))

def wid (p : Fin 2 × Fin 16) : Nat := 2 * p.2.val + p.1.val

theorem wid_inj {p p' : Fin 2 × Fin 16} (h : wid p = wid p') : p = p' := by
  unfold wid at h
  have h1 := p.1.isLt; have h2 := p'.1.isLt
  exact Prod.ext (Fin.ext (by omega)) (Fin.ext (by omega))

theorem wid_lt (p : Fin 2 × Fin 16) : wid p < 32 := by
  unfold wid; have h1 := p.1.isLt; have h2 := p.2.isLt; omega

theorem off1_closed : ∀ L : grid2.Coords, k2_off1 L 0 = 1024 * (2 * (L 1).val + (L 0).val) := by decide +kernel
theorem off13_closed0 : ∀ (L : grid2.Coords) (t : Fin k2_t1_loop.trips), k2_off13 L t 0 = (2 * (L 1).val + (L 0).val) / 16 := by
  decide +kernel
theorem off13_closed1 : ∀ (L : grid2.Coords) (t : Fin k2_t1_loop.trips),
    k2_off13 L t 1 = ((2 * (L 1).val + (L 0).val) % 16) * 1024 + 128 * t.val := by
  decide +kernel

/-- a subcore's slice of the token words, as a set of positions -/
def idxSet (p : Fin 2 × Fin 16) : Finset S32768.Idx :=
  (Rect.unit (s := S32768) (k2_off1 (coords p.1 p.2)) S1024.size (k2_off1_inb _)).set

theorem idxSet_disjoint : ∀ p ∈ (Finset.univ : Finset (Fin 2 × Fin 16)), ∀ p' ∈ (Finset.univ : Finset (Fin 2 × Fin 16)), p ≠ p' →
    Disjoint (idxSet p) (idxSet p') := by
  intro p _ p' _ hne
  unfold idxSet
  refine Rect.unit_disjoint 0 ?_
  rw [off1_closed, off1_closed]
  have hw : wid p ≠ wid p' := fun e => hne (wid_inj e)
  unfold wid at hw
  show 1024 * (2 * p.2.val + p.1.val) + 1024 ≤ 1024 * (2 * p'.2.val + p'.1.val) ∨ 1024 * (2 * p'.2.val + p'.1.val) + 1024 ≤ 1024 * (2 * p.2.val + p.1.val)
  omega

/-- the trips, by number -/
def tr : Fin 8 → Fin k2_t1_loop.trips
  | ⟨0, _⟩ => ⟨0, by decide⟩
  | ⟨1, _⟩ => ⟨1, by decide⟩
  | ⟨2, _⟩ => ⟨2, by decide⟩
  | ⟨3, _⟩ => ⟨3, by decide⟩
  | ⟨4, _⟩ => ⟨4, by decide⟩
  | ⟨5, _⟩ => ⟨5, by decide⟩
  | ⟨6, _⟩ => ⟨6, by decide⟩
  | ⟨7, _⟩ => ⟨7, by decide⟩
  | ⟨_ + 8, h⟩ => absurd h (Nat.not_lt.2 (Nat.le_add_left _ _))

theorem tr_val (j : Fin 8) : (tr j).val = j.val := by
  match j with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨_ + 8, h⟩ => exact absurd h (Nat.not_lt.2 (Nat.le_add_left _ _))

/-- trip `j`'s block of a subcore's rows of the result, as a set of positions -/
def outSet (x : (Fin 2 × Fin 16) × Fin 8) : Finset S2x16384x32.Idx :=
  (Rect.unit (s := S2x16384x32) (k2_off13 (coords x.1.1 x.1.2) (tr x.2)) S1x128x32.size (k2_off13_inb _ _)).set

theorem outSet_disjoint : ∀ x ∈ (Finset.univ : Finset ((Fin 2 × Fin 16) × Fin 8)), ∀ x' ∈ (Finset.univ : Finset ((Fin 2 × Fin 16) × Fin 8)), x ≠ x' →
    Disjoint (outSet x) (outSet x') := by
  intro x _ x' _ hne
  unfold outSet
  have hj := x.2.isLt; have hj' := x'.2.isLt
  have hwl := wid_lt x.1; have hwl' := wid_lt x'.1
  by_cases hs : wid x.1 / 16 = wid x'.1 / 16
  · -- the same slab: the row offsets are at least 128 apart
    refine Rect.unit_disjoint 1 ?_
    rw [off13_closed1, off13_closed1, tr_val, tr_val]
    have hw : 8 * (wid x.1 % 16) + x.2.val ≠ 8 * (wid x'.1 % 16) + x'.2.val := by
      intro e
      have e1 : wid x.1 % 16 = wid x'.1 % 16 := by omega
      have e2 : x.2.val = x'.2.val := by omega
      have e3 : wid x.1 = wid x'.1 := by omega
      exact hne (Prod.ext (wid_inj e3) (Fin.ext e2))
    unfold wid at hw hs
    show ((2 * x.1.2.val + x.1.1.val) % 16) * 1024 + 128 * x.2.val + 128 ≤ ((2 * x'.1.2.val + x'.1.1.val) % 16) * 1024 + 128 * x'.2.val
      ∨ ((2 * x'.1.2.val + x'.1.1.val) % 16) * 1024 + 128 * x'.2.val + 128 ≤ ((2 * x.1.2.val + x.1.1.val) % 16) * 1024 + 128 * x.2.val
    omega
  · -- different slabs
    refine Rect.unit_disjoint 0 ?_
    rw [off13_closed0, off13_closed0]
    unfold wid at hs
    show (2 * x.1.2.val + x.1.1.val) / 16 + 1 ≤ (2 * x'.1.2.val + x'.1.1.val) / 16 ∨ (2 * x'.1.2.val + x'.1.1.val) / 16 + 1 ≤ (2 * x.1.2.val + x.1.1.val) / 16
    omega

end Cert.KernelIdeal.Hand.D2

end
-- ==== Proof.KernelIdeal.Deal2.lean ====
/-
  How the TensorCore deals the third gather call's two arrays to the thirty-two vector subcores, and takes them back.

  Each subcore is handed its own slice of the call's token words and its own eight blocks of the call's result. The
  slices are pairwise disjoint and so are the blocks (where they lie is the geometry module's); that is all the deal
  needs. Whatever of the two arrays no subcore is handed stays with the TensorCore across the call and is glued back
  afterwards, so no covering argument is used here.
-/
import proofs.«203661_g84404697301628_cont_9to1_m_135_26_alg».proof.Proof.KernelIdeal.TileObl2
import proofs.«203661_g84404697301628_cont_9to1_m_135_26_alg».proof.Proof.KernelIdeal.DealGeo2

noncomputable section

namespace Cert.KernelIdeal.Hand.C2

open Cert.KernelIdeal Cert.KernelIdeal.Gen Cert.KernelIdeal.Hand
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [hK : Cert.KernelIdeal.Facts]

local notation "𝕄" => MT nD τ sig (HIx 4) (Elt F) ℕ UU ℕ

/-- a subcore's slice of the token words, as a set of positions -/
def idxSet (p : Fin 2 × Fin 16) : Finset S32768.Idx := (idxSl (coords2 p.1 p.2)).view.set

/-- it is the geometry module's slice -/
theorem idxSet_eq (p : Fin 2 × Fin 16) : idxSet p = D2.idxSet p :=
  View.set_slice_whole _ _

/-- different subcores' slices are disjoint -/
theorem idxSet_disjoint : ∀ p ∈ (Finset.univ : Finset (Fin 2 × Fin 16)), ∀ p' ∈ (Finset.univ : Finset (Fin 2 × Fin 16)), p ≠ p' →
    Disjoint (idxSet p) (idxSet p') := by
  intro p hp p' hp' hne
  rw [idxSet_eq, idxSet_eq]
  exact D2.idxSet_disjoint p hp p' hp' hne

/-- trip `j`'s block of a subcore's rows of the result, as a set of positions -/
def outSet (x : (Fin 2 × Fin 16) × Fin 8) : Finset S2x16384x32.Idx := (outAt (coords2 x.1.1 x.1.2) (D2.tr x.2)).view.set

/-- it is the geometry module's block -/
theorem outSet_eq (x : (Fin 2 × Fin 16) × Fin 8) : outSet x = D2.outSet x := by
  show (((View.whole main_v10_scv).slice (Rect.unit (s := S2x16384x32) (k2_off13 (coords2 x.1.1 x.1.2) (D2.tr x.2)) S1x128x32.size (k2_off13_inb _ _))).reshape S128x32 _).set = _
  rw [View.set_reshape, View.set_slice_whole]
  rfl

/-- different blocks are disjoint -/
theorem outSet_disjoint : ∀ x ∈ (Finset.univ : Finset ((Fin 2 × Fin 16) × Fin 8)), ∀ x' ∈ (Finset.univ : Finset ((Fin 2 × Fin 16) × Fin 8)), x ≠ x' →
    Disjoint (outSet x) (outSet x') := by
  intro x hx x' hx' hne
  rw [outSet_eq, outSet_eq]
  exact D2.outSet_disjoint x hx x' hx' hne

/-- the eight blocks conjoined one by one -/
theorem bigSep_W8 {M : Type} [URA M] (Φ : Fin 8 → sProp M) :
    bigSep Finset.univ Φ = iprop(Φ (0 : Fin 8) ∗ Φ (1 : Fin 8) ∗ Φ (2 : Fin 8) ∗ Φ (3 : Fin 8) ∗ Φ (4 : Fin 8) ∗ Φ (5 : Fin 8) ∗ Φ (6 : Fin 8) ∗ Φ (7 : Fin 8)) :=
  bigSep_univ_eq_bigSepL [(0 : Fin 8), (1 : Fin 8), (2 : Fin 8), (3 : Fin 8), (4 : Fin 8), (5 : Fin 8), (6 : Fin 8), (7 : Fin 8)] (by decide) (by decide) Φ

variable [FloatOps F]

/-- the third call's result, as the TensorCore names it -/
abbrev outLoc2 (d : Dev nD) : Loc nD τ sig := (SparseCore.T d).loc main_v10

/-- what no subcore is handed of the two arrays -/
def rem2 (wd : (d : Dev nD) → Buf (Elt F) (idxLoc2 d)) (d : Dev nD) (o : Buf (Elt F) (outLoc2 d)) : sProp 𝕄 :=
  iprop((idxLoc2 d ↦[Finset.univ \ Finset.univ.biUnion idxSet]{fullShare} wd d)
    ∗ (outLoc2 d ↦[Finset.univ \ Finset.univ.biUnion outSet]{fullShare} o))

omit [FloatOps F] in
/-- the token words: the subcores' slices and the rest -/
theorem idx_cut (d : Dev nD) (w : Buf (Elt F) (idxLoc2 d)) :
    (idxLoc2 d ↦[Finset.univ]{fullShare} w : sProp 𝕄)
      ⊣⊢ iprop((bigSep Finset.univ fun p : Fin 2 × Fin 16 => idxLoc2 d ↦[idxSet p]{fullShare} w)
          ∗ (idxLoc2 d ↦[Finset.univ \ Finset.univ.biUnion idxSet]{fullShare} w)) := by
  rw [← pointsTo_biUnion Finset.univ (ℓ := idxLoc2 d) (q := fullShare) (f := w) idxSet idxSet_disjoint]
  exact pointsTo_split_subset (Finset.subset_univ _)

omit [FloatOps F] in
/-- the result: the blocks and the rest -/
theorem out_cut (d : Dev nD) (o : Buf (Elt F) (outLoc2 d)) :
    (outLoc2 d ↦[Finset.univ]{fullShare} o : sProp 𝕄)
      ⊣⊢ iprop((bigSep Finset.univ fun x : (Fin 2 × Fin 16) × Fin 8 => outLoc2 d ↦[outSet x]{fullShare} o)
          ∗ (outLoc2 d ↦[Finset.univ \ Finset.univ.biUnion outSet]{fullShare} o)) := by
  rw [← pointsTo_biUnion Finset.univ (ℓ := outLoc2 d) (q := fullShare) (f := o) outSet outSet_disjoint]
  exact pointsTo_split_subset (Finset.subset_univ _)

/-- a subcore's part, by its pieces -/
theorem Rs2_eq (wd : (d : Dev nD) → Buf (Elt F) (idxLoc2 d)) (d : Dev nD) (p : Fin 2 × Fin 16) :
    Rs2 wd d p.1 p.2 = iprop((idxLoc2 d ↦[idxSet p]{fullShare} wd d)
      ∗ bigSep Finset.univ fun j : Fin 8 => iprop(∃ f, outLoc2 d ↦[outSet (p, j)]{fullShare} f)) := by
  rw [bigSep_W8]
  rfl

omit [FloatOps F] in
theorem some_contents (d : Dev nD) (I : Finset S2x16384x32.Idx) (o : Buf (Elt F) (outLoc2 d)) :
    (outLoc2 d ↦[I]{fullShare} o : sProp 𝕄) ⊢ iprop(∃ f, outLoc2 d ↦[I]{fullShare} f) := by
  iintro H; iexists _; iexact H

/-- THE DEAL: the token words and the result, whole, are every subcore's part and the rest -/
theorem deal2 (wd : (d : Dev nD) → Buf (Elt F) (idxLoc2 d)) (d : Dev nD) (o : Buf (Elt F) (outLoc2 d)) :
    iprop((idxLoc2 d ↦[Finset.univ]{fullShare} wd d) ∗ (outLoc2 d ↦[Finset.univ]{fullShare} o))
      ⊢ iprop((bigSep Finset.univ fun c : Fin 2 => bigSep Finset.univ fun i : Fin 16 => Rs2 wd d c i) ∗ rem2 wd d o) := by
  rw [← SparseCore.bigSep_product Finset.univ Finset.univ (fun p : Fin 2 × Fin 16 => Rs2 wd d p.1 p.2), Finset.univ_product_univ,
    bigSep_congr (fun p _ => Rs2_eq wd d p), bigSep_sep',
    ← SparseCore.bigSep_product Finset.univ Finset.univ (fun x : (Fin 2 × Fin 16) × Fin 8 => iprop(∃ f, outLoc2 d ↦[outSet x]{fullShare} f)),
    Finset.univ_product_univ]
  unfold rem2
  have hmono : (bigSep (Finset.univ : Finset ((Fin 2 × Fin 16) × Fin 8)) fun x => (outLoc2 d ↦[outSet x]{fullShare} o : sProp 𝕄))
      ⊢ bigSep (Finset.univ : Finset ((Fin 2 × Fin 16) × Fin 8)) fun x => iprop(∃ f, outLoc2 d ↦[outSet x]{fullShare} f) :=
    bigSep_mono fun x _ => some_contents d (outSet x) o
  iintro ⟨Hi, Ho⟩
  ihave Hi' := (idx_cut (F := F) d (wd d)).1 $$ Hi
  icases Hi' with ⟨Hi, Hir⟩
  ihave Ho' := (out_cut (F := F) d o).1 $$ Ho
  icases Ho' with ⟨Ho, Hor⟩
  isplitl [Hi Ho]
  · isplitl [Hi]; · iexact Hi
    iapply hmono; iexact Ho
  · isplitl [Hir]; · iexact Hir
    iexact Hor

/-- AND BACK: every subcore's part and the rest are the token words, unchanged, and the result at some contents -/
theorem back2 (wd : (d : Dev nD) → Buf (Elt F) (idxLoc2 d)) (d : Dev nD) (o : Buf (Elt F) (outLoc2 d)) :
    iprop((bigSep Finset.univ fun c : Fin 2 => bigSep Finset.univ fun i : Fin 16 => Rs2 wd d c i) ∗ rem2 wd d o)
      ⊢ iprop((idxLoc2 d ↦[Finset.univ]{fullShare} wd d) ∗ ∃ o', outLoc2 d ↦[Finset.univ]{fullShare} o') := by
  rw [← SparseCore.bigSep_product Finset.univ Finset.univ (fun p : Fin 2 × Fin 16 => Rs2 wd d p.1 p.2), Finset.univ_product_univ,
    bigSep_congr (fun p _ => Rs2_eq wd d p), bigSep_sep',
    ← SparseCore.bigSep_product Finset.univ Finset.univ (fun x : (Fin 2 × Fin 16) × Fin 8 => iprop(∃ f, outLoc2 d ↦[outSet x]{fullShare} f)),
    Finset.univ_product_univ]
  unfold rem2
  iintro ⟨⟨Hi, Ho⟩, Hir, Hor⟩
  isplitl [Hi Hir]
  · iapply (idx_cut (F := F) d (wd d)).2
    isplitl [Hi]; · iexact Hi
    iexact Hir
  · ihave H1 := (bigSep_exists_pi Finset.univ (fun (x : (Fin 2 × Fin 16) × Fin 8) (f : Buf (Elt F) (outLoc2 d)) =>
      (outLoc2 d ↦[outSet x]{fullShare} f : sProp 𝕄))) $$ Ho
    icases H1 with ⟨%fs, H1⟩
    ihave H2 := (pointsTo_biUnion_join Finset.univ outSet fs o outSet_disjoint) $$ H1
    icases H2 with ⟨%g, -, Hg⟩
    ihave H3 := (pointsTo_join_subset (ℓ := outLoc2 d) (I := Finset.univ.biUnion outSet) (S := Finset.univ) (q := fullShare) (f := o) (g := g) (Finset.subset_univ _)) $$ [Hg Hor]
    · isplitl [Hg]; · iexact Hg
      iexact Hor
    iexists _; iexact H3

end Cert.KernelIdeal.Hand.C2

end
-- ==== Proof.KernelIdeal.DealGeo3.lean ====
/-
  Gather call 3: where each vector subcore's slice of the token words and each of its blocks of the result lie, and
  that they are pairwise disjoint. Subcore `i` of SparseCore `c` is worker `w = 2·i + c`; it reads words
  `2048·w … 2048·w + 2047` and in trip `t` writes the 128 rows starting at row `(w mod 8)·2048 + 128·t` of
  slab `w / 8` of the result.
-/
import proofs.«203661_g84404697301628_cont_9to1_m_135_26_alg».proof.KernelIdeal
import proofs.«203661_g84404697301628_cont_9to1_m_135_26_alg».proof.Proof.Gen.KernelIdeal
import Idealize.ShloMosaic.Lib.ValueIdx

noncomputable section

namespace Cert.KernelIdeal.Hand.D3

open Cert.KernelIdeal Cert.KernelIdeal.Gen
open Idealize.ShloMosaic

variable [hK : Cert.KernelIdeal.Facts]

def coords (c : Fin 2) (i : Fin 16) : grid3.Coords :=
  fun | 0 => c | 1 => i | ⟨_ + 2, h⟩ => absurd h (Nat.not_lt.2 (Nat.le_add_left _ _))

def wid (p : Fin 2 × Fin 16) : Nat := 2 * p.2.val + p.1.val

theorem wid_inj {p p' : Fin 2 × Fin 16} (h : wid p = wid p') : p = p' := by
  unfold wid at h
  have h1 := p.1.isLt; have h2 := p'.1.isLt
  exact Prod.ext (Fin.ext (by omega)) (Fin.ext (by omega))

theorem wid_lt (p : Fin 2 × Fin 16) : wid p < 32 := by
  unfold wid; have h1 := p.1.isLt; have h2 := p.2.isLt; omega

theorem off1_closed : ∀ L : grid3.Coords, k3_off1 L 0 = 2048 * (2 * (L 1).val + (L 0).val) := by decide +kernel
theorem off13_closed0 : ∀ (L : grid3.Coords) (t : Fin k3_t1_loop.trips), k3_off13 L t 0 = (2 * (L 1).val + (L 0).val) / 8 := by
  decide +kernel
theorem off13_closed1 : ∀ (L : grid3.Coords) (t : Fin k3_t1_loop.trips),
    k3_off13 L t 1 = ((2 * (L 1).val + (L 0).val) % 8) * 2048 + 128 * t.val := by
  decide +kernel

/-- a subcore's slice of the token words, as a set of positions -/
def idxSet (p : Fin 2 × Fin 16) : Finset S65536.Idx :=
  (Rect.unit (s := S65536) (k3_off1 (coords p.1 p.2)) S2048.size (k3_off1_inb _)).set

theorem idxSet_disjoint : ∀ p ∈ (Finset.univ : Finset (Fin 2 × Fin 16)), ∀ p' ∈ (Finset.univ : Finset (Fin 2 × Fin 16)), p ≠ p' →
    Disjoint (idxSet p) (idxSet p') := by
  intro p _ p' _ hne
  unfold idxSet
  refine Rect.unit_disjoint 0 ?_
  rw [off1_closed, off1_closed]
  have hw : wid p ≠ wid p' := fun e => hne (wid_inj e)
  unfold wid at hw
  show 2048 * (2 * p.2.val + p.1.val) + 2048 ≤ 2048 * (2 * p'.2.val + p'.1.val) ∨ 2048 * (2 * p'.2.val + p'.1.val) + 2048 ≤ 2048 * (2 * p.2.val + p.1.val)
  omega

/-- the trips, by number -/
def tr : Fin 16 → Fin k3_t1_loop.trips
  | ⟨0, _⟩ => ⟨0, by decide⟩
  | ⟨1, _⟩ => ⟨1, by decide⟩
  | ⟨2, _⟩ => ⟨2, by decide⟩
  | ⟨3, _⟩ => ⟨3, by decide⟩
  | ⟨4, _⟩ => ⟨4, by decide⟩
  | ⟨5, _⟩ => ⟨5, by decide⟩
  | ⟨6, _⟩ => ⟨6, by decide⟩
  | ⟨7, _⟩ => ⟨7, by decide⟩
  | ⟨8, _⟩ => ⟨8, by decide⟩
  | ⟨9, _⟩ => ⟨9, by decide⟩
  | ⟨10, _⟩ => ⟨10, by decide⟩
  | ⟨11, _⟩ => ⟨11, by decide⟩
  | ⟨12, _⟩ => ⟨12, by decide⟩
  | ⟨13, _⟩ => ⟨13, by decide⟩
  | ⟨14, _⟩ => ⟨14, by decide⟩
  | ⟨15, _⟩ => ⟨15, by decide⟩
  | ⟨_ + 16, h⟩ => absurd h (Nat.not_lt.2 (Nat.le_add_left _ _))

theorem tr_val (j : Fin 16) : (tr j).val = j.val := by
  match j with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl
  | ⟨10, _⟩ => rfl
  | ⟨11, _⟩ => rfl
  | ⟨12, _⟩ => rfl
  | ⟨13, _⟩ => rfl
  | ⟨14, _⟩ => rfl
  | ⟨15, _⟩ => rfl
  | ⟨_ + 16, h⟩ => exact absurd h (Nat.not_lt.2 (Nat.le_add_left _ _))

/-- trip `j`'s block of a subcore's rows of the result, as a set of positions -/
def outSet (x : (Fin 2 × Fin 16) × Fin 16) : Finset S4x16384x32.Idx :=
  (Rect.unit (s := S4x16384x32) (k3_off13 (coords x.1.1 x.1.2) (tr x.2)) S1x128x32.size (k3_off13_inb _ _)).set

theorem outSet_disjoint : ∀ x ∈ (Finset.univ : Finset ((Fin 2 × Fin 16) × Fin 16)), ∀ x' ∈ (Finset.univ : Finset ((Fin 2 × Fin 16) × Fin 16)), x ≠ x' →
    Disjoint (outSet x) (outSet x') := by
  intro x _ x' _ hne
  unfold outSet
  have hj := x.2.isLt; have hj' := x'.2.isLt
  have hwl := wid_lt x.1; have hwl' := wid_lt x'.1
  by_cases hs : wid x.1 / 8 = wid x'.1 / 8
  · -- the same slab: the row offsets are at least 128 apart
    refine Rect.unit_disjoint 1 ?_
    rw [off13_closed1, off13_closed1, tr_val, tr_val]
    have hw : 16 * (wid x.1 % 8) + x.2.val ≠ 16 * (wid x'.1 % 8) + x'.2.val := by
      intro e
      have e1 : wid x.1 % 8 = wid x'.1 % 8 := by omega
      have e2 : x.2.val = x'.2.val := by omega
      have e3 : wid x.1 = wid x'.1 := by omega
      exact hne (Prod.ext (wid_inj e3) (Fin.ext e2))
    unfold wid at hw hs
    show ((2 * x.1.2.val + x.1.1.val) % 8) * 2048 + 128 * x.2.val + 128 ≤ ((2 * x'.1.2.val + x'.1.1.val) % 8) * 2048 + 128 * x'.2.val
      ∨ ((2 * x'.1.2.val + x'.1.1.val) % 8) * 2048 + 128 * x'.2.val + 128 ≤ ((2 * x.1.2.val + x.1.1.val) % 8) * 2048 + 128 * x.2.val
    omega
  · -- different slabs
    refine Rect.unit_disjoint 0 ?_
    rw [off13_closed0, off13_closed0]
    unfold wid at hs
    show (2 * x.1.2.val + x.1.1.val) / 8 + 1 ≤ (2 * x'.1.2.val + x'.1.1.val) / 8 ∨ (2 * x'.1.2.val + x'.1.1.val) / 8 + 1 ≤ (2 * x.1.2.val + x.1.1.val) / 8
    omega

end Cert.KernelIdeal.Hand.D3

end
-- ==== Proof.KernelIdeal.Deal3.lean ====
/-
  How the TensorCore deals the fourth gather call's two arrays to the thirty-two vector subcores, and takes them back.

  Each subcore is handed its own slice of the call's token words and its own sixteen blocks of the call's result. The
  slices are pairwise disjoint and so are the blocks (where they lie is the geometry module's); that is all the deal
  needs. Whatever of the two arrays no subcore is handed stays with the TensorCore across the call and is glued back
  afterwards, so no covering argument is used here.
-/
import proofs.«203661_g84404697301628_cont_9to1_m_135_26_alg».proof.Proof.KernelIdeal.TileObl3
import proofs.«203661_g84404697301628_cont_9to1_m_135_26_alg».proof.Proof.KernelIdeal.DealGeo3

noncomputable section

namespace Cert.KernelIdeal.Hand.C3

open Cert.KernelIdeal Cert.KernelIdeal.Gen Cert.KernelIdeal.Hand
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [hK : Cert.KernelIdeal.Facts]

local notation "𝕄" => MT nD τ sig (HIx 4) (Elt F) ℕ UU ℕ

/-- a subcore's slice of the token words, as a set of positions -/
def idxSet (p : Fin 2 × Fin 16) : Finset S65536.Idx := (idxSl (coords3 p.1 p.2)).view.set

/-- it is the geometry module's slice -/
theorem idxSet_eq (p : Fin 2 × Fin 16) : idxSet p = D3.idxSet p :=
  View.set_slice_whole _ _

/-- different subcores' slices are disjoint -/
theorem idxSet_disjoint : ∀ p ∈ (Finset.univ : Finset (Fin 2 × Fin 16)), ∀ p' ∈ (Finset.univ : Finset (Fin 2 × Fin 16)), p ≠ p' →
    Disjoint (idxSet p) (idxSet p') := by
  intro p hp p' hp' hne
  rw [idxSet_eq, idxSet_eq]
  exact D3.idxSet_disjoint p hp p' hp' hne

/-- trip `j`'s block of a subcore's rows of the result, as a set of positions -/
def outSet (x : (Fin 2 × Fin 16) × Fin 16) : Finset S4x16384x32.Idx := (outAt (coords3 x.1.1 x.1.2) (D3.tr x.2)).view.set

/-- it is the geometry module's block -/
theorem outSet_eq (x : (Fin 2 × Fin 16) × Fin 16) : outSet x = D3.outSet x := by
  show (((View.whole main_v12_scv).slice (Rect.unit (s := S4x16384x32) (k3_off13 (coords3 x.1.1 x.1.2) (D3.tr x.2)) S1x128x32.size (k3_off13_inb _ _))).reshape S128x32 _).set = _
  rw [View.set_reshape, View.set_slice_whole]
  rfl

/-- different blocks are disjoint -/
theorem outSet_disjoint : ∀ x ∈ (Finset.univ : Finset ((Fin 2 × Fin 16) × Fin 16)), ∀ x' ∈ (Finset.univ : Finset ((Fin 2 × Fin 16) × Fin 16)), x ≠ x' →
    Disjoint (outSet x) (outSet x') := by
  intro x hx x' hx' hne
  rw [outSet_eq, outSet_eq]
  exact D3.outSet_disjoint x hx x' hx' hne

/-- the sixteen blocks conjoined one by one -/
theorem bigSep_W16 {M : Type} [URA M] (Φ : Fin 16 → sProp M) :
    bigSep Finset.univ Φ = iprop(Φ (0 : Fin 16) ∗ Φ (1 : Fin 16) ∗ Φ (2 : Fin 16) ∗ Φ (3 : Fin 16) ∗ Φ (4 : Fin 16) ∗ Φ (5 : Fin 16) ∗ Φ (6 : Fin 16) ∗ Φ (7 : Fin 16) ∗ Φ (8 : Fin 16) ∗ Φ (9 : Fin 16) ∗ Φ (10 : Fin 16) ∗ Φ (11 : Fin 16) ∗ Φ (12 : Fin 16) ∗ Φ (13 : Fin 16) ∗ Φ (14 : Fin 16) ∗ Φ (15 : Fin 16)) :=
  bigSep_univ_eq_bigSepL [(0 : Fin 16), (1 : Fin 16), (2 : Fin 16), (3 : Fin 16), (4 : Fin 16), (5 : Fin 16), (6 : Fin 16), (7 : Fin 16), (8 : Fin 16), (9 : Fin 16), (10 : Fin 16), (11 : Fin 16), (12 : Fin 16), (13 : Fin 16), (14 : Fin 16), (15 : Fin 16)] (by decide) (by decide) Φ

variable [FloatOps F]

/-- the fourth call's result, as the TensorCore names it -/
abbrev outLoc3 (d : Dev nD) : Loc nD τ sig := (SparseCore.T d).loc main_v12

/-- what no subcore is handed of the two arrays -/
def rem3 (wd : (d : Dev nD) → Buf (Elt F) (idxLoc3 d)) (d : Dev nD) (o : Buf (Elt F) (outLoc3 d)) : sProp 𝕄 :=
  iprop((idxLoc3 d ↦[Finset.univ \ Finset.univ.biUnion idxSet]{fullShare} wd d)
    ∗ (outLoc3 d ↦[Finset.univ \ Finset.univ.biUnion outSet]{fullShare} o))

omit [FloatOps F] in
/-- the token words: the subcores' slices and the rest -/
theorem idx_cut (d : Dev nD) (w : Buf (Elt F) (idxLoc3 d)) :
    (idxLoc3 d ↦[Finset.univ]{fullShare} w : sProp 𝕄)
      ⊣⊢ iprop((bigSep Finset.univ fun p : Fin 2 × Fin 16 => idxLoc3 d ↦[idxSet p]{fullShare} w)
          ∗ (idxLoc3 d ↦[Finset.univ \ Finset.univ.biUnion idxSet]{fullShare} w)) := by
  rw [← pointsTo_biUnion Finset.univ (ℓ := idxLoc3 d) (q := fullShare) (f := w) idxSet idxSet_disjoint]
  exact pointsTo_split_subset (Finset.subset_univ _)

omit [FloatOps F] in
/-- the result: the blocks and the rest -/
theorem out_cut (d : Dev nD) (o : Buf (Elt F) (outLoc3 d)) :
    (outLoc3 d ↦[Finset.univ]{fullShare} o : sProp 𝕄)
      ⊣⊢ iprop((bigSep Finset.univ fun x : (Fin 2 × Fin 16) × Fin 16 => outLoc3 d ↦[outSet x]{fullShare} o)
          ∗ (outLoc3 d ↦[Finset.univ \ Finset.univ.biUnion outSet]{fullShare} o)) := by
  rw [← pointsTo_biUnion Finset.univ (ℓ := outLoc3 d) (q := fullShare) (f := o) outSet outSet_disjoint]
  exact pointsTo_split_subset (Finset.subset_univ _)

/-- a subcore's part, by its pieces -/
theorem Rs3_eq (wd : (d : Dev nD) → Buf (Elt F) (idxLoc3 d)) (d : Dev nD) (p : Fin 2 × Fin 16) :
    Rs3 wd d p.1 p.2 = iprop((idxLoc3 d ↦[idxSet p]{fullShare} wd d)
      ∗ bigSep Finset.univ fun j : Fin 16 => iprop(∃ f, outLoc3 d ↦[outSet (p, j)]{fullShare} f)) := by
  rw [bigSep_W16]
  rfl

omit [FloatOps F] in
theorem some_contents (d : Dev nD) (I : Finset S4x16384x32.Idx) (o : Buf (Elt F) (outLoc3 d)) :
    (outLoc3 d ↦[I]{fullShare} o : sProp 𝕄) ⊢ iprop(∃ f, outLoc3 d ↦[I]{fullShare} f) := by
  iintro H; iexists _; iexact H

/-- THE DEAL: the token words and the result, whole, are every subcore's part and the rest -/
theorem deal3 (wd : (d : Dev nD) → Buf (Elt F) (idxLoc3 d)) (d : Dev nD) (o : Buf (Elt F) (outLoc3 d)) :
    iprop((idxLoc3 d ↦[Finset.univ]{fullShare} wd d) ∗ (outLoc3 d ↦[Finset.univ]{fullShare} o))
      ⊢ iprop((bigSep Finset.univ fun c : Fin 2 => bigSep Finset.univ fun i : Fin 16 => Rs3 wd d c i) ∗ rem3 wd d o) := by
  rw [← SparseCore.bigSep_product Finset.univ Finset.univ (fun p : Fin 2 × Fin 16 => Rs3 wd d p.1 p.2), Finset.univ_product_univ,
    bigSep_congr (fun p _ => Rs3_eq wd d p), bigSep_sep',
    ← SparseCore.bigSep_product Finset.univ Finset.univ (fun x : (Fin 2 × Fin 16) × Fin 16 => iprop(∃ f, outLoc3 d ↦[outSet x]{fullShare} f)),
    Finset.univ_product_univ]
  unfold rem3
  have hmono : (bigSep (Finset.univ : Finset ((Fin 2 × Fin 16) × Fin 16)) fun x => (outLoc3 d ↦[outSet x]{fullShare} o : sProp 𝕄))
      ⊢ bigSep (Finset.univ : Finset ((Fin 2 × Fin 16) × Fin 16)) fun x => iprop(∃ f, outLoc3 d ↦[outSet x]{fullShare} f) :=
    bigSep_mono fun x _ => some_contents d (outSet x) o
  iintro ⟨Hi, Ho⟩
  ihave Hi' := (idx_cut (F := F) d (wd d)).1 $$ Hi
  icases Hi' with ⟨Hi, Hir⟩
  ihave Ho' := (out_cut (F := F) d o).1 $$ Ho
  icases Ho' with ⟨Ho, Hor⟩
  isplitl [Hi Ho]
  · isplitl [Hi]; · iexact Hi
    iapply hmono; iexact Ho
  · isplitl [Hir]; · iexact Hir
    iexact Hor

/-- AND BACK: every subcore's part and the rest are the token words, unchanged, and the result at some contents -/
theorem back3 (wd : (d : Dev nD) → Buf (Elt F) (idxLoc3 d)) (d : Dev nD) (o : Buf (Elt F) (outLoc3 d)) :
    iprop((bigSep Finset.univ fun c : Fin 2 => bigSep Finset.univ fun i : Fin 16 => Rs3 wd d c i) ∗ rem3 wd d o)
      ⊢ iprop((idxLoc3 d ↦[Finset.univ]{fullShare} wd d) ∗ ∃ o', outLoc3 d ↦[Finset.univ]{fullShare} o') := by
  rw [← SparseCore.bigSep_product Finset.univ Finset.univ (fun p : Fin 2 × Fin 16 => Rs3 wd d p.1 p.2), Finset.univ_product_univ,
    bigSep_congr (fun p _ => Rs3_eq wd d p), bigSep_sep',
    ← SparseCore.bigSep_product Finset.univ Finset.univ (fun x : (Fin 2 × Fin 16) × Fin 16 => iprop(∃ f, outLoc3 d ↦[outSet x]{fullShare} f)),
    Finset.univ_product_univ]
  unfold rem3
  iintro ⟨⟨Hi, Ho⟩, Hir, Hor⟩
  isplitl [Hi Hir]
  · iapply (idx_cut (F := F) d (wd d)).2
    isplitl [Hi]; · iexact Hi
    iexact Hir
  · ihave H1 := (bigSep_exists_pi Finset.univ (fun (x : (Fin 2 × Fin 16) × Fin 16) (f : Buf (Elt F) (outLoc3 d)) =>
      (outLoc3 d ↦[outSet x]{fullShare} f : sProp 𝕄))) $$ Ho
    icases H1 with ⟨%fs, H1⟩
    ihave H2 := (pointsTo_biUnion_join Finset.univ outSet fs o outSet_disjoint) $$ H1
    icases H2 with ⟨%g, -, Hg⟩
    ihave H3 := (pointsTo_join_subset (ℓ := outLoc3 d) (I := Finset.univ.biUnion outSet) (S := Finset.univ) (q := fullShare) (f := o) (g := g) (Finset.subset_univ _)) $$ [Hg Hor]
    · isplitl [Hg]; · iexact Hg
      iexact Hor
    iexists _; iexact H3

end Cert.KernelIdeal.Hand.C3

end
-- ==== Proof.KernelIdeal.ValueJoin.lean ====
/-
  Blocks of a buffer that each agree with one function, glued into the whole buffer at that function.

  If a buffer is held in pairwise disjoint blocks, each at contents that agree on the block with one function `G` of
  the position, the blocks together are their union held at `G`; when every position lies in some block the union is
  the whole buffer, so the buffer is held whole at contents equal to `G` everywhere, and whatever was held of the
  positions outside every block is nothing.
-/
import proofs.«203661_g84404697301628_cont_9to1_m_135_26_alg».proof.Proof.KCommon

noncomputable section

namespace Cert.KernelIdeal.Hand

open Cert.KernelIdeal
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 4) (Elt F) ℕ UU ℕ

/-- a block at contents that agree with `G` on it is the block at `G` -/
theorem block_at_fun {ℓ : Loc nD τ sig} (I : Finset (Idx ℓ)) (q : PosShare TreeShare) (G : Buf (Elt F) ℓ) :
    (iprop(∃ f : Buf (Elt F) ℓ, ⌜∀ i ∈ I, f i = G i⌝ ∗ (ℓ ↦[I]{q} f)) : sProp 𝕄) ⊢ (ℓ ↦[I]{q} G) := by
  iintro ⟨%f, %hf, H⟩
  iapply (Entails.of_eq (pointsTo_congr (ℓ := ℓ) (q := q) hf))
  iexact H

/-- THE VALUE JOIN: pairwise disjoint blocks that cover the buffer, each agreeing with `G`, and the (empty) rest, are
    the buffer whole at contents equal to `G` everywhere -/
theorem value_join {T : Type} [DecidableEq T] {ℓ : Loc nD τ sig} (S : Finset T) (K : T → Finset (Idx ℓ))
    (hdis : ∀ t ∈ S, ∀ t' ∈ S, t ≠ t' → Disjoint (K t) (K t')) (hcover : ∀ y : Idx ℓ, ∃ t ∈ S, y ∈ K t)
    (q : PosShare TreeShare) (G : Buf (Elt F) ℓ) (o : Buf (Elt F) ℓ) :
    (iprop((bigSep S fun t => iprop(∃ f : Buf (Elt F) ℓ, ⌜∀ i ∈ K t, f i = G i⌝ ∗ (ℓ ↦[K t]{q} f)))
        ∗ (ℓ ↦[Finset.univ \ S.biUnion K]{q} o)) : sProp 𝕄)
      ⊢ iprop(∃ o' : Buf (Elt F) ℓ, ⌜∀ y, o' y = G y⌝ ∗ (ℓ ↦[Finset.univ]{q} o')) := by
  have hU : S.biUnion K = Finset.univ :=
    Finset.eq_univ_iff_forall.mpr fun y => by
      obtain ⟨t, ht, hy⟩ := hcover y
      exact Finset.mem_biUnion.mpr ⟨t, ht, hy⟩
  have hb : (bigSep S fun t => iprop(∃ f : Buf (Elt F) ℓ, ⌜∀ i ∈ K t, f i = G i⌝ ∗ (ℓ ↦[K t]{q} f)) : sProp 𝕄)
      ⊢ bigSep S fun t => (ℓ ↦[K t]{q} G : sProp 𝕄) :=
    bigSep_mono fun t _ => block_at_fun (K t) q G
  have hj : (bigSep S fun t => (ℓ ↦[K t]{q} G : sProp 𝕄)) = (ℓ ↦[Finset.univ]{q} G) := by
    rw [← pointsTo_biUnion S (ℓ := ℓ) (q := q) (f := G) K hdis, hU]
  iintro ⟨Hb, -⟩
  ihave H1 := hb $$ Hb
  ihave H2 := (Entails.of_eq hj) $$ H1
  iexists G
  isplitr
  · ipureintro; intro y; rfl
  · iexact H2

end Cert.KernelIdeal.Hand

end
-- ==== Proof.KernelIdeal.ValueGeo0.lean ====
/-
  The first gather call's result, position by position: every position lies in exactly one subcore's block, and where
  a block's entry and a subcore's word sit in the whole arrays.

  Subcore `i` of SparseCore `c` is worker `w = 2·i + c`. Its words are `512·w … 512·w + 511` of the call's
  token words, and in trip `j` it writes rows `(w mod 32)·512 + 128·j …` of slab `w / 32` of the result; since
  `32·512 = 16384`, row `ρ` of slab `s` is flat position `s·16384 + ρ`, which for the block's row `r` is the
  position `512·w + 128·j + r` of the word that names it. Blocks that each agree with one function of the position
  therefore glue to the whole result at that function.
-/
import proofs.«203661_g84404697301628_cont_9to1_m_135_26_alg».proof.Proof.KernelIdeal.Deal0
import proofs.«203661_g84404697301628_cont_9to1_m_135_26_alg».proof.Proof.KernelIdeal.ValueJoin
import proofs.«203661_g84404697301628_cont_9to1_m_135_26_alg».proof.Proof.Spec
import Idealize.ShloMosaic.Lib.ValueIdx

noncomputable section

namespace Cert.KernelIdeal.Hand

open Cert.KernelIdeal Cert.KernelIdeal.Gen Cert.KernelIdeal.Hand
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [hK : Cert.KernelIdeal.Facts]

local notation "𝕄" => MT nD τ sig (HIx 4) (Elt F) ℕ UU ℕ

/-! ## Where the blocks and the slices start -/

theorem off13_0 : ∀ (L : grid0.Coords) (t : Fin k0_t1_loop.trips), k0_off13 L t 0 = (2 * (L 1).val + (L 0).val) / 32 := by
  decide +kernel
theorem off13_1 : ∀ (L : grid0.Coords) (t : Fin k0_t1_loop.trips), k0_off13 L t 1 = ((2 * (L 1).val + (L 0).val) % 32) * 512 + 128 * t.val := by
  decide +kernel
theorem off13_2 : ∀ (L : grid0.Coords) (t : Fin k0_t1_loop.trips), k0_off13 L t 2 = 0 := by
  decide +kernel
theorem off1_0 : ∀ L : grid0.Coords, k0_off1 L 0 = 512 * (2 * (L 1).val + (L 0).val) := by decide +kernel

/-- a block as a box of positions -/
theorem outSet_rect (x : (Fin 2 × Fin 16) × Fin 4) :
    outSet x = (Rect.unit (s := S1x16384x32) (k0_off13 (coords0 x.1.1 x.1.2) (tr x.2)) S1x128x32.size (k0_off13_inb _ _)).set :=
  outSet_eq x

/-- a position lies in worker `w`'s trip-`j` block exactly when its slab is `w / 32` and its row is one of the block's 128 -/
theorem mem_outSet (x : (Fin 2 × Fin 16) × Fin 4) (y : S1x16384x32.Idx) :
    y ∈ outSet x ↔ (y 0).val = (2 * x.1.2.val + x.1.1.val) / 32
      ∧ ((2 * x.1.2.val + x.1.1.val) % 32) * 512 + 128 * x.2.val ≤ (y 1).val ∧ (y 1).val < ((2 * x.1.2.val + x.1.1.val) % 32) * 512 + 128 * x.2.val + 128 := by
  have c0 : ((coords0 x.1.1 x.1.2) 0).val = x.1.1.val := rfl
  have c1 : ((coords0 x.1.1 x.1.2) 1).val = x.1.2.val := rfl
  have e0 := off13_0 (coords0 x.1.1 x.1.2) (tr x.2)
  have e1 := off13_1 (coords0 x.1.1 x.1.2) (tr x.2)
  have e2 := off13_2 (coords0 x.1.1 x.1.2) (tr x.2)
  rw [c0, c1] at e0 e1
  rw [tr_val] at e1
  have h2 : (y 2).val < 32 := (y 2).isLt
  rw [outSet_rect, Rect.mem_set_unit]
  constructor
  · intro h
    have a0 : k0_off13 (coords0 x.1.1 x.1.2) (tr x.2) 0 ≤ (y 0).val ∧ (y 0).val < k0_off13 (coords0 x.1.1 x.1.2) (tr x.2) 0 + 1 := h 0
    have a1 : k0_off13 (coords0 x.1.1 x.1.2) (tr x.2) 1 ≤ (y 1).val ∧ (y 1).val < k0_off13 (coords0 x.1.1 x.1.2) (tr x.2) 1 + 128 := h 1
    rw [e0] at a0
    rw [e1] at a1
    omega
  · intro h a
    match a with
    | ⟨0, _⟩ =>
      show k0_off13 (coords0 x.1.1 x.1.2) (tr x.2) 0 ≤ (y 0).val ∧ (y 0).val < k0_off13 (coords0 x.1.1 x.1.2) (tr x.2) 0 + 1
      rw [e0]; omega
    | ⟨1, _⟩ =>
      show k0_off13 (coords0 x.1.1 x.1.2) (tr x.2) 1 ≤ (y 1).val ∧ (y 1).val < k0_off13 (coords0 x.1.1 x.1.2) (tr x.2) 1 + 128
      rw [e1]; omega
    | ⟨2, _⟩ =>
      show k0_off13 (coords0 x.1.1 x.1.2) (tr x.2) 2 ≤ (y 2).val ∧ (y 2).val < k0_off13 (coords0 x.1.1 x.1.2) (tr x.2) 2 + 32
      rw [e2]; omega

/-! ## The cover -/

/-- every position of the result lies in some subcore's block -/
theorem out_cover0 (y : S1x16384x32.Idx) : ∃ x : (Fin 2 × Fin 16) × Fin 4, y ∈ outSet x := by
  have h0 : (y 0).val < 1 := (y 0).isLt
  have h1 : (y 1).val < 16384 := (y 1).isLt
  obtain ⟨w, hw⟩ : ∃ w, w = (y 0).val * 32 + (y 1).val / 512 := ⟨_, rfl⟩
  have hw32 : w < 32 := by omega
  refine ⟨((⟨w % 2, Nat.mod_lt _ (by decide)⟩, ⟨w / 2, by omega⟩), ⟨((y 1).val % 512) / 128, by omega⟩), (mem_outSet _ y).2 ?_⟩
  dsimp only
  refine ⟨?_, ?_, ?_⟩ <;> omega

theorem outSet_univ0 : (Finset.univ : Finset ((Fin 2 × Fin 16) × Fin 4)).biUnion outSet = Finset.univ :=
  Finset.eq_univ_iff_forall.mpr fun y => by
    obtain ⟨x, hx⟩ := out_cover0 y
    exact Finset.mem_biUnion.mpr ⟨x, Finset.mem_univ _, hx⟩

/-! ## Positions -/

/-- dropping the unit axis: entry `(r, e)` of a [128,32] block is entry `(0, r, e)` of the [1,128,32] one -/
theorem squeeze_out_idx (h : S128x32.numel = S1x128x32.numel) (r : Fin 128) (e : Fin 32) :
    Shape.reshapeEquiv h (ix2 r e) = (ix3 (0 : Fin 1) r e : S1x128x32.Idx) := by
  refine Shape.reshapeEquiv_eq_of_rowMajor h ?_
  rw [Shape.rowMajor_val_three, Shape.rowMajor_val_two]
  show ((0 : Fin 1).val * 128 + r.val) * 32 + e.val = r.val * 32 + e.val
  simp

/-- entry `(r, e)` of worker `w`'s trip-`j` block sits at slab `w / 32`, row `(w mod 32)·512 + 128·j + r`, lane `e` -/
theorem outAt_emb0 (p : Fin 2 × Fin 16) (j : Fin 4) (r : Fin 128) (e : Fin 32) :
    (outAt (coords0 p.1 p.2) (tr j)).view.emb (ix2 r e)
      = (ix3 (⟨(2 * p.2.val + p.1.val) / 32, by have := p.1.isLt; have := p.2.isLt; have := j.isLt; have := r.isLt; omega⟩ : Fin 1)
          (⟨((2 * p.2.val + p.1.val) % 32) * 512 + 128 * j.val + r.val, by have := p.1.isLt; have := p.2.isLt; have := j.isLt; have := r.isLt; omega⟩ : Fin 16384) e : S1x16384x32.Idx) := by
  have c0 : ((coords0 p.1 p.2) 0).val = p.1.val := rfl
  have c1 : ((coords0 p.1 p.2) 1).val = p.2.val := rfl
  have e0 := off13_0 (coords0 p.1 p.2) (tr j)
  have e1 := off13_1 (coords0 p.1 p.2) (tr j)
  have e2 := off13_2 (coords0 p.1 p.2) (tr j)
  rw [c0, c1] at e0 e1
  rw [tr_val] at e1
  show (Rect.unit (s := S1x16384x32) (k0_off13 (coords0 p.1 p.2) (tr j)) S1x128x32.size (k0_off13_inb _ _)).emb (Shape.reshapeEquiv _ (ix2 r e)) = _
  rw [squeeze_out_idx]
  funext a
  apply Fin.ext
  match a with
  | ⟨0, _⟩ => show k0_off13 (coords0 p.1 p.2) (tr j) 0 + 1 * (0 : Fin 1).val = (2 * p.2.val + p.1.val) / 32; rw [e0]; show _ + 1 * 0 = _; omega
  | ⟨1, _⟩ => show k0_off13 (coords0 p.1 p.2) (tr j) 1 + 1 * r.val = ((2 * p.2.val + p.1.val) % 32) * 512 + 128 * j.val + r.val; rw [e1]; omega
  | ⟨2, _⟩ => show k0_off13 (coords0 p.1 p.2) (tr j) 2 + 1 * e.val = e.val; rw [e2]; omega

/-- word `128·j + r` of worker `w`'s slice is word `512·w + 128·j + r` of the call's token words -/
theorem idxSl_emb0 (p : Fin 2 × Fin 16) (j : Fin 4) (r : Fin 128) :
    (idxSl (coords0 p.1 p.2)).view.emb (ix1 (⟨128 * j.val + r.val, by have := j.isLt; have := r.isLt; omega⟩ : Fin 512))
      = (ix1 (⟨512 * (2 * p.2.val + p.1.val) + 128 * j.val + r.val, by have := p.1.isLt; have := p.2.isLt; have := j.isLt; have := r.isLt; omega⟩ : Fin 16384) : S16384.Idx) := by
  have c0 : ((coords0 p.1 p.2) 0).val = p.1.val := rfl
  have c1 : ((coords0 p.1 p.2) 1).val = p.2.val := rfl
  have e0 := off1_0 (coords0 p.1 p.2)
  rw [c0, c1] at e0
  show (Rect.unit (s := S16384) (k0_off1 (coords0 p.1 p.2)) S512.size (k0_off1_inb _)).emb (ix1 (⟨128 * j.val + r.val, _⟩ : Fin 512)) = _
  funext a
  apply Fin.ext
  match a with
  | ⟨0, _⟩ => show k0_off1 (coords0 p.1 p.2) 0 + 1 * (128 * j.val + r.val) = 512 * (2 * p.2.val + p.1.val) + 128 * j.val + r.val; rw [e0]; omega

/-- the block's row, as a flat position of the result, is the position of the word that names it -/
theorem flat_pos0 (w j r : Nat) : (w / 32) * 16384 + ((w % 32) * 512 + 128 * j + r) = 512 * w + 128 * j + r := by
  omega

/-! ## The join -/

/-- contents that agree with `G` at every entry of a block, read through the block's view, agree with it on the block -/
theorem agrees_on_block (G : S1x16384x32.Idx → Elt F .f32) (d : Dev nD) (x : (Fin 2 × Fin 16) × Fin 4) (f : Buf (Elt F) (outLoc0 d))
    (h : ∀ (r : Fin 128) (e : Fin 32), (outAt (coords0 x.1.1 x.1.2) (tr x.2)).view.read (Elt F) f (ix2 r e)
      = G ((outAt (coords0 x.1.1 x.1.2) (tr x.2)).view.emb (ix2 r e))) :
    ∀ i ∈ outSet x, f i = G i := by
  intro i hi
  obtain ⟨z, -, rfl⟩ := Finset.mem_map.mp hi
  obtain ⟨r, e, rfl⟩ : ∃ (r : Fin 128) (e : Fin 32), z = ix2 r e := ⟨z 0, z 1, eq_ix2 z⟩
  exact h r e

variable [FloatOps F]

/-- THE VALUE JOIN for this call: the blocks, each at contents that read `G` of the position at every entry, and the
    rest, are the result whole at contents equal to `G` everywhere -/
theorem out_join0 (G : S1x16384x32.Idx → Elt F .f32) (d : Dev nD) (o : Buf (Elt F) (outLoc0 d)) :
    (iprop((bigSep Finset.univ fun x : (Fin 2 × Fin 16) × Fin 4 => iprop(∃ f : Buf (Elt F) (outLoc0 d),
          ⌜∀ (r : Fin 128) (e : Fin 32), (outAt (coords0 x.1.1 x.1.2) (tr x.2)).view.read (Elt F) f (ix2 r e)
            = G ((outAt (coords0 x.1.1 x.1.2) (tr x.2)).view.emb (ix2 r e))⌝
          ∗ (outLoc0 d ↦[outSet x]{fullShare} f)))
        ∗ (outLoc0 d ↦[Finset.univ \ Finset.univ.biUnion outSet]{fullShare} o)) : sProp 𝕄)
      ⊢ iprop(∃ o' : Buf (Elt F) (outLoc0 d), ⌜∀ y, o' y = G y⌝ ∗ (outLoc0 d ↦[Finset.univ]{fullShare} o')) := by
  have hblock : ∀ x : (Fin 2 × Fin 16) × Fin 4, (iprop(∃ f : Buf (Elt F) (outLoc0 d),
        ⌜∀ (r : Fin 128) (e : Fin 32), (outAt (coords0 x.1.1 x.1.2) (tr x.2)).view.read (Elt F) f (ix2 r e)
          = G ((outAt (coords0 x.1.1 x.1.2) (tr x.2)).view.emb (ix2 r e))⌝
        ∗ (outLoc0 d ↦[outSet x]{fullShare} f)) : sProp 𝕄)
      ⊢ iprop(∃ f : Buf (Elt F) (outLoc0 d), ⌜∀ i ∈ outSet x, f i = G i⌝ ∗ (outLoc0 d ↦[outSet x]{fullShare} f)) := fun x => by
    iintro ⟨%f, %hf, H⟩
    iexists f
    isplitr
    · ipureintro; exact agrees_on_block G d x f hf
    · iexact H
  exact (sep_mono_l (bigSep_mono fun x _ => hblock x)).trans (value_join (F := F) (ℓ := outLoc0 d) Finset.univ outSet outSet_disjoint
    (fun y => by obtain ⟨x, hx⟩ := out_cover0 y; exact ⟨x, Finset.mem_univ _, hx⟩) fullShare G o)

/-! ## The specified result, and what it asks of a block -/

/-- the specified result: position (t, n, e) holds lane e of the table row the word at flat position t·16384 + n names -/
def specG0 (tbv : S1000x128.Idx → Elt F .f32) (wd : S16384.Idx → BitVec 32) : S1x16384x32.Idx → Elt F .f32 :=
  fun y => tbv (ix2 (Cert.Spec.row (wd (ix1 (⟨(y 0).val * 16384 + (y 1).val, by
      have h0 : (y 0).val < 1 := (y 0).isLt
      have h1 : (y 1).val < 16384 := (y 1).isLt
      omega⟩ : Fin 16384))))
    (⟨(y 2).val, by have h2 : (y 2).val < 32 := (y 2).isLt; omega⟩ : Fin 128))

/-- the call's value specification, by coordinates -/
def SpecQ0 (tbv : S1000x128.Idx → Elt F .f32) (wd : S16384.Idx → BitVec 32) (o' : S1x16384x32.Idx → Elt F .f32) : Prop :=
  ∀ (t : Fin 1) (n : Fin 16384) (e : Fin 32),
    o' (ix3 t n e) = tbv (ix2 (Cert.Spec.row (wd (ix1 (⟨t.val * 16384 + n.val, by have := t.isLt; have := n.isLt; omega⟩ : Fin 16384))))
      (⟨e.val, by have := e.isLt; omega⟩ : Fin 128))

theorem specQ_iff0 (tbv : S1000x128.Idx → Elt F .f32) (wd : S16384.Idx → BitVec 32) (o' : S1x16384x32.Idx → Elt F .f32) :
    (∀ y, o' y = specG0 tbv wd y) ↔ SpecQ0 tbv wd o' := by
  constructor
  · intro h t n e; exact h (ix3 t n e)
  · intro h y
    obtain ⟨t, n, e, rfl⟩ : ∃ (t : Fin 1) (n : Fin 16384) (e : Fin 32), y = ix3 t n e := ⟨y 0, y 1, y 2, eq_ix3 y⟩
    exact h t n e

/-- at entry (r, e) of worker w's trip-j block the specification asks for lane e of the table row named by the
    word at position 128·j + r of the worker's own slice -/
theorem specG_block0 (tbv : S1000x128.Idx → Elt F .f32) (wd : S16384.Idx → BitVec 32) (p : Fin 2 × Fin 16) (j : Fin 4) (r : Fin 128) (e : Fin 32) :
    specG0 tbv wd ((outAt (coords0 p.1 p.2) (tr j)).view.emb (ix2 r e))
      = tbv (ix2 (Cert.Spec.row (wd ((idxSl (coords0 p.1 p.2)).view.emb (ix1 (⟨128 * j.val + r.val, by have := j.isLt; have := r.isLt; omega⟩ : Fin 512)))))
          (⟨e.val, by have := e.isLt; omega⟩ : Fin 128)) := by
  rw [outAt_emb0, idxSl_emb0]
  have hpos : (⟨((2 * p.2.val + p.1.val) / 32) * 16384 + (((2 * p.2.val + p.1.val) % 32) * 512 + 128 * j.val + r.val), by have := p.1.isLt; have := p.2.isLt; have := j.isLt; have := r.isLt; omega⟩ : Fin 16384)
      = ⟨512 * (2 * p.2.val + p.1.val) + 128 * j.val + r.val, by have := p.1.isLt; have := p.2.isLt; have := j.isLt; have := r.isLt; omega⟩ := Fin.ext (flat_pos0 _ _ _)
  show tbv (ix2 (Cert.Spec.row (wd (ix1 (⟨((2 * p.2.val + p.1.val) / 32) * 16384 + (((2 * p.2.val + p.1.val) % 32) * 512 + 128 * j.val + r.val), _⟩ : Fin 16384))))
    (⟨e.val, _⟩ : Fin 128)) = _
  rw [hpos]

end Cert.KernelIdeal.Hand

end
-- ==== Proof.KernelIdeal.DealV0.lean ====
/-
  Taking the first gather call's arrays back with their contents: each subcore hands back its blocks holding the
  table rows its words name; a block's word at row `r` of trip `j` is word `128·j + r` of the subcore's slice, which
  is the word at the block's own flat position, so every block agrees with the specified result on its positions; the
  blocks cover the result, so the result comes back whole at the specified contents, and the token words unchanged.
-/
import proofs.«203661_g84404697301628_cont_9to1_m_135_26_alg».proof.Proof.KernelIdeal.TileOblV0
import proofs.«203661_g84404697301628_cont_9to1_m_135_26_alg».proof.Proof.KernelIdeal.ValueGeo0

noncomputable section

namespace Cert.KernelIdeal.Hand

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [hK : Cert.KernelIdeal.Facts] [FloatOps F]

local notation "𝕄" => MT nD τ sig (HIx 4) (Elt F) ℕ UU ℕ

/-- the word by which trip `j` gathers its row `r` is word `128·j + r` of the subcore's slice of the token words -/
theorem wordAt_block (d : Dev nD) (p : Fin 2 × Fin 16) (j : Fin 4) (wdv : Buf (Elt F) (idxLoc0 d)) (r : Fin 128) :
    wordAt (F := F) (fetched d (coords0 p.1 p.2) wdv) (tr j) r
      = wdv ((idxSl (coords0 p.1 p.2)).view.emb (ix1 (⟨128 * j.val + r.val, by have := j.isLt; have := r.isLt; omega⟩ : Fin 512))) := by
  have he : (offsAt (tr j)).view.emb (ix1 r) = (ix1 (⟨128 * j.val + r.val, by have := j.isLt; have := r.isLt; omega⟩ : Fin 512) : S512.Idx) := by
    show (Rect.unit (s := S512) (k0_off6 (tr j)) S128.size (k0_off6_inb (tr j))).emb (ix1 r) = _
    funext a
    apply Fin.ext
    match a with
    | ⟨0, _⟩ =>
      show k0_off6 (tr j) 0 + 1 * r.val = 128 * j.val + r.val
      rw [k0_off6_eq]
      show 128 * (tr j).val + 1 * r.val = 128 * j.val + r.val
      rw [tr_val]; omega
  show wdv ((idxSl (coords0 p.1 p.2)).view.emb ((offsAt (tr j)).view.emb (ix1 r))) = _
  rw [he]

/-- what a handed-back block is known to hold -/
def blkV (tbv : (d : Dev nD) → Buf (Elt F) (tblLoc d)) (wd : (d : Dev nD) → Buf (Elt F) (idxLoc0 d)) (d : Dev nD) (x : (Fin 2 × Fin 16) × Fin 4)
    (f : Buf (Elt F) (outLoc0 d)) : Prop :=
  BlkOK (F := F) d (coords0 x.1.1 x.1.2) (tbv d) (fetched d (coords0 x.1.1 x.1.2) (wd d)) (tr x.2) f

/-- a subcore's handed-back part, by its pieces -/
theorem Rtd0_eq (tbv : (d : Dev nD) → Buf (Elt F) (tblLoc d)) (wd : (d : Dev nD) → Buf (Elt F) (idxLoc0 d)) (d : Dev nD) (p : Fin 2 × Fin 16) :
    Rtd0 tbv wd d p.1 p.2 = iprop((idxLoc0 d ↦[idxSet p]{fullShare} wd d)
      ∗ bigSep Finset.univ fun j : Fin 4 => iprop(∃ f : Buf (Elt F) (outLoc0 d), (outLoc0 d ↦[outSet (p, j)]{fullShare} f) ∗ ⌜blkV tbv wd d (p, j) f⌝)) := by
  rw [bigSep_W4]
  rfl

/-- a handed-back block agrees with the specified result at every entry -/
theorem blk_spec (tbv : (d : Dev nD) → Buf (Elt F) (tblLoc d)) (wd : (d : Dev nD) → Buf (Elt F) (idxLoc0 d)) (d : Dev nD) (x : (Fin 2 × Fin 16) × Fin 4)
    (f : Buf (Elt F) (outLoc0 d)) (hb : blkV tbv wd d x f) (r : Fin 128) (e : Fin 32) :
    (outAt (coords0 x.1.1 x.1.2) (tr x.2)).view.read (Elt F) f (ix2 r e)
      = specG0 (tbv d) (wd d) ((outAt (coords0 x.1.1 x.1.2) (tr x.2)).view.emb (ix2 r e)) := by
  rw [specG_block0 (tbv d) (wd d) x.1 x.2 r e, ← wordAt_block d x.1 x.2 (wd d) r]
  exact hb r e

/-- AND BACK, WITH CONTENTS: every subcore's handed-back part and the rest are the token words, unchanged, and the result
    whole at the specified contents -/
theorem backV0 (tbv : (d : Dev nD) → Buf (Elt F) (tblLoc d)) (wd : (d : Dev nD) → Buf (Elt F) (idxLoc0 d)) (d : Dev nD) (o : Buf (Elt F) (outLoc0 d)) :
    iprop((bigSep Finset.univ fun c : Fin 2 => bigSep Finset.univ fun i : Fin 16 => Rtd0 tbv wd d c i) ∗ rem0 wd d o)
      ⊢ iprop((idxLoc0 d ↦[Finset.univ]{fullShare} wd d)
          ∗ ∃ o' : Buf (Elt F) (outLoc0 d), ⌜SpecQ0 (tbv d) (wd d) o'⌝ ∗ (outLoc0 d ↦[Finset.univ]{fullShare} o')) := by
  rw [← SparseCore.bigSep_product Finset.univ Finset.univ (fun p : Fin 2 × Fin 16 => Rtd0 tbv wd d p.1 p.2), Finset.univ_product_univ,
    bigSep_congr (fun p _ => Rtd0_eq tbv wd d p), bigSep_sep',
    ← SparseCore.bigSep_product Finset.univ Finset.univ (fun x : (Fin 2 × Fin 16) × Fin 4 => iprop(∃ f : Buf (Elt F) (outLoc0 d), (outLoc0 d ↦[outSet x]{fullShare} f) ∗ ⌜blkV tbv wd d x f⌝)),
    Finset.univ_product_univ]
  unfold rem0
  have hconv : ∀ x : (Fin 2 × Fin 16) × Fin 4, (iprop(∃ f : Buf (Elt F) (outLoc0 d), (outLoc0 d ↦[outSet x]{fullShare} f) ∗ ⌜blkV tbv wd d x f⌝) : sProp 𝕄)
      ⊢ iprop(∃ f : Buf (Elt F) (outLoc0 d),
          ⌜∀ (r : Fin 128) (e : Fin 32), (outAt (coords0 x.1.1 x.1.2) (tr x.2)).view.read (Elt F) f (ix2 r e)
            = specG0 (tbv d) (wd d) ((outAt (coords0 x.1.1 x.1.2) (tr x.2)).view.emb (ix2 r e))⌝
          ∗ (outLoc0 d ↦[outSet x]{fullShare} f)) := fun x => by
    iintro ⟨%f, H, %hb⟩
    iexists f
    isplitr
    · ipureintro; exact fun r e => blk_spec tbv wd d x f hb r e
    · iexact H
  have hjoin : (iprop((bigSep Finset.univ fun x : (Fin 2 × Fin 16) × Fin 4 => iprop(∃ f : Buf (Elt F) (outLoc0 d), (outLoc0 d ↦[outSet x]{fullShare} f) ∗ ⌜blkV tbv wd d x f⌝))
        ∗ (outLoc0 d ↦[Finset.univ \ Finset.univ.biUnion outSet]{fullShare} o)) : sProp 𝕄)
      ⊢ iprop(∃ o' : Buf (Elt F) (outLoc0 d), ⌜∀ y, o' y = specG0 (tbv d) (wd d) y⌝ ∗ (outLoc0 d ↦[Finset.univ]{fullShare} o')) :=
    (sep_mono_l (bigSep_mono fun x _ => hconv x)).trans (out_join0 (F := F) (specG0 (tbv d) (wd d)) d o)
  iintro ⟨⟨Hi, Ho⟩, Hir, Hor⟩
  isplitl [Hi Hir]
  · iapply (idx_cut (F := F) d (wd d)).2
    isplitl [Hi]; · iexact Hi
    iexact Hir
  · ihave H := hjoin $$ [Ho Hor]
    · isplitl [Ho]; · iexact Ho
      iexact Hor
    icases H with ⟨%o', %ho', H⟩
    iexists o'
    isplitr
    · ipureintro; exact (specQ_iff0 (tbv d) (wd d) o').1 ho'
    · iexact H

end Cert.KernelIdeal.Hand

end
-- ==== Proof.KernelIdeal.ValueGeo1.lean ====
/-
  The second gather call's result, position by position: every position lies in exactly one subcore's block, and where
  a block's entry and a subcore's word sit in the whole arrays.

  Subcore `i` of SparseCore `c` is worker `w = 2·i + c`. Its words are `512·w … 512·w + 511` of the call's
  token words, and in trip `j` it writes rows `(w mod 32)·512 + 128·j …` of slab `w / 32` of the result; since
  `32·512 = 16384`, row `ρ` of slab `s` is flat position `s·16384 + ρ`, which for the block's row `r` is the
  position `512·w + 128·j + r` of the word that names it. Blocks that each agree with one function of the position
  therefore glue to the whole result at that function.
-/
import proofs.«203661_g84404697301628_cont_9to1_m_135_26_alg».proof.Proof.KernelIdeal.Deal1
import proofs.«203661_g84404697301628_cont_9to1_m_135_26_alg».proof.Proof.KernelIdeal.ValueJoin
import proofs.«203661_g84404697301628_cont_9to1_m_135_26_alg».proof.Proof.Spec
import Idealize.ShloMosaic.Lib.ValueIdx

noncomputable section

namespace Cert.KernelIdeal.Hand.C1

open Cert.KernelIdeal Cert.KernelIdeal.Gen Cert.KernelIdeal.Hand
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [hK : Cert.KernelIdeal.Facts]

local notation "𝕄" => MT nD τ sig (HIx 4) (Elt F) ℕ UU ℕ

/-! ## Where the blocks and the slices start -/

theorem off13_0 : ∀ (L : grid1.Coords) (t : Fin k1_t1_loop.trips), k1_off13 L t 0 = (2 * (L 1).val + (L 0).val) / 32 := by
  decide +kernel
theorem off13_1 : ∀ (L : grid1.Coords) (t : Fin k1_t1_loop.trips), k1_off13 L t 1 = ((2 * (L 1).val + (L 0).val) % 32) * 512 + 128 * t.val := by
  decide +kernel
theorem off13_2 : ∀ (L : grid1.Coords) (t : Fin k1_t1_loop.trips), k1_off13 L t 2 = 0 := by
  decide +kernel
theorem off1_0 : ∀ L : grid1.Coords, k1_off1 L 0 = 512 * (2 * (L 1).val + (L 0).val) := by decide +kernel

/-- a block as a box of positions -/
theorem outSet_rect (x : (Fin 2 × Fin 16) × Fin 4) :
    outSet x = (Rect.unit (s := S1x16384x32) (k1_off13 (coords1 x.1.1 x.1.2) (D1.tr x.2)) S1x128x32.size (k1_off13_inb _ _)).set :=
  (outSet_eq x).trans rfl

/-- a position lies in worker `w`'s trip-`j` block exactly when its slab is `w / 32` and its row is one of the block's 128 -/
theorem mem_outSet (x : (Fin 2 × Fin 16) × Fin 4) (y : S1x16384x32.Idx) :
    y ∈ outSet x ↔ (y 0).val = (2 * x.1.2.val + x.1.1.val) / 32
      ∧ ((2 * x.1.2.val + x.1.1.val) % 32) * 512 + 128 * x.2.val ≤ (y 1).val ∧ (y 1).val < ((2 * x.1.2.val + x.1.1.val) % 32) * 512 + 128 * x.2.val + 128 := by
  have c0 : ((coords1 x.1.1 x.1.2) 0).val = x.1.1.val := rfl
  have c1 : ((coords1 x.1.1 x.1.2) 1).val = x.1.2.val := rfl
  have e0 := off13_0 (coords1 x.1.1 x.1.2) (D1.tr x.2)
  have e1 := off13_1 (coords1 x.1.1 x.1.2) (D1.tr x.2)
  have e2 := off13_2 (coords1 x.1.1 x.1.2) (D1.tr x.2)
  rw [c0, c1] at e0 e1
  rw [D1.tr_val] at e1
  have h2 : (y 2).val < 32 := (y 2).isLt
  rw [outSet_rect, Rect.mem_set_unit]
  constructor
  · intro h
    have a0 : k1_off13 (coords1 x.1.1 x.1.2) (D1.tr x.2) 0 ≤ (y 0).val ∧ (y 0).val < k1_off13 (coords1 x.1.1 x.1.2) (D1.tr x.2) 0 + 1 := h 0
    have a1 : k1_off13 (coords1 x.1.1 x.1.2) (D1.tr x.2) 1 ≤ (y 1).val ∧ (y 1).val < k1_off13 (coords1 x.1.1 x.1.2) (D1.tr x.2) 1 + 128 := h 1
    rw [e0] at a0
    rw [e1] at a1
    omega
  · intro h a
    match a with
    | ⟨0, _⟩ =>
      show k1_off13 (coords1 x.1.1 x.1.2) (D1.tr x.2) 0 ≤ (y 0).val ∧ (y 0).val < k1_off13 (coords1 x.1.1 x.1.2) (D1.tr x.2) 0 + 1
      rw [e0]; omega
    | ⟨1, _⟩ =>
      show k1_off13 (coords1 x.1.1 x.1.2) (D1.tr x.2) 1 ≤ (y 1).val ∧ (y 1).val < k1_off13 (coords1 x.1.1 x.1.2) (D1.tr x.2) 1 + 128
      rw [e1]; omega
    | ⟨2, _⟩ =>
      show k1_off13 (coords1 x.1.1 x.1.2) (D1.tr x.2) 2 ≤ (y 2).val ∧ (y 2).val < k1_off13 (coords1 x.1.1 x.1.2) (D1.tr x.2) 2 + 32
      rw [e2]; omega

/-! ## The cover -/

/-- every position of the result lies in some subcore's block -/
theorem out_cover1 (y : S1x16384x32.Idx) : ∃ x : (Fin 2 × Fin 16) × Fin 4, y ∈ outSet x := by
  have h0 : (y 0).val < 1 := (y 0).isLt
  have h1 : (y 1).val < 16384 := (y 1).isLt
  obtain ⟨w, hw⟩ : ∃ w, w = (y 0).val * 32 + (y 1).val / 512 := ⟨_, rfl⟩
  have hw32 : w < 32 := by omega
  refine ⟨((⟨w % 2, Nat.mod_lt _ (by decide)⟩, ⟨w / 2, by omega⟩), ⟨((y 1).val % 512) / 128, by omega⟩), (mem_outSet _ y).2 ?_⟩
  dsimp only
  refine ⟨?_, ?_, ?_⟩ <;> omega

theorem outSet_univ1 : (Finset.univ : Finset ((Fin 2 × Fin 16) × Fin 4)).biUnion outSet = Finset.univ :=
  Finset.eq_univ_iff_forall.mpr fun y => by
    obtain ⟨x, hx⟩ := out_cover1 y
    exact Finset.mem_biUnion.mpr ⟨x, Finset.mem_univ _, hx⟩

/-! ## Positions -/

/-- dropping the unit axis: entry `(r, e)` of a [128,32] block is entry `(0, r, e)` of the [1,128,32] one -/
theorem squeeze_out_idx (h : S128x32.numel = S1x128x32.numel) (r : Fin 128) (e : Fin 32) :
    Shape.reshapeEquiv h (ix2 r e) = (ix3 (0 : Fin 1) r e : S1x128x32.Idx) := by
  refine Shape.reshapeEquiv_eq_of_rowMajor h ?_
  rw [Shape.rowMajor_val_three, Shape.rowMajor_val_two]
  show ((0 : Fin 1).val * 128 + r.val) * 32 + e.val = r.val * 32 + e.val
  simp

/-- entry `(r, e)` of worker `w`'s trip-`j` block sits at slab `w / 32`, row `(w mod 32)·512 + 128·j + r`, lane `e` -/
theorem outAt_emb1 (p : Fin 2 × Fin 16) (j : Fin 4) (r : Fin 128) (e : Fin 32) :
    (outAt (coords1 p.1 p.2) (D1.tr j)).view.emb (ix2 r e)
      = (ix3 (⟨(2 * p.2.val + p.1.val) / 32, by have := p.1.isLt; have := p.2.isLt; have := j.isLt; have := r.isLt; omega⟩ : Fin 1)
          (⟨((2 * p.2.val + p.1.val) % 32) * 512 + 128 * j.val + r.val, by have := p.1.isLt; have := p.2.isLt; have := j.isLt; have := r.isLt; omega⟩ : Fin 16384) e : S1x16384x32.Idx) := by
  have c0 : ((coords1 p.1 p.2) 0).val = p.1.val := rfl
  have c1 : ((coords1 p.1 p.2) 1).val = p.2.val := rfl
  have e0 := off13_0 (coords1 p.1 p.2) (D1.tr j)
  have e1 := off13_1 (coords1 p.1 p.2) (D1.tr j)
  have e2 := off13_2 (coords1 p.1 p.2) (D1.tr j)
  rw [c0, c1] at e0 e1
  rw [D1.tr_val] at e1
  show (Rect.unit (s := S1x16384x32) (k1_off13 (coords1 p.1 p.2) (D1.tr j)) S1x128x32.size (k1_off13_inb _ _)).emb (Shape.reshapeEquiv _ (ix2 r e)) = _
  rw [squeeze_out_idx]
  funext a
  apply Fin.ext
  match a with
  | ⟨0, _⟩ => show k1_off13 (coords1 p.1 p.2) (D1.tr j) 0 + 1 * (0 : Fin 1).val = (2 * p.2.val + p.1.val) / 32; rw [e0]; show _ + 1 * 0 = _; omega
  | ⟨1, _⟩ => show k1_off13 (coords1 p.1 p.2) (D1.tr j) 1 + 1 * r.val = ((2 * p.2.val + p.1.val) % 32) * 512 + 128 * j.val + r.val; rw [e1]; omega
  | ⟨2, _⟩ => show k1_off13 (coords1 p.1 p.2) (D1.tr j) 2 + 1 * e.val = e.val; rw [e2]; omega

/-- word `128·j + r` of worker `w`'s slice is word `512·w + 128·j + r` of the call's token words -/
theorem idxSl_emb1 (p : Fin 2 × Fin 16) (j : Fin 4) (r : Fin 128) :
    (idxSl (coords1 p.1 p.2)).view.emb (ix1 (⟨128 * j.val + r.val, by have := j.isLt; have := r.isLt; omega⟩ : Fin 512))
      = (ix1 (⟨512 * (2 * p.2.val + p.1.val) + 128 * j.val + r.val, by have := p.1.isLt; have := p.2.isLt; have := j.isLt; have := r.isLt; omega⟩ : Fin 16384) : S16384.Idx) := by
  have c0 : ((coords1 p.1 p.2) 0).val = p.1.val := rfl
  have c1 : ((coords1 p.1 p.2) 1).val = p.2.val := rfl
  have e0 := off1_0 (coords1 p.1 p.2)
  rw [c0, c1] at e0
  show (Rect.unit (s := S16384) (k1_off1 (coords1 p.1 p.2)) S512.size (k1_off1_inb _)).emb (ix1 (⟨128 * j.val + r.val, _⟩ : Fin 512)) = _
  funext a
  apply Fin.ext
  match a with
  | ⟨0, _⟩ => show k1_off1 (coords1 p.1 p.2) 0 + 1 * (128 * j.val + r.val) = 512 * (2 * p.2.val + p.1.val) + 128 * j.val + r.val; rw [e0]; omega

/-- the block's row, as a flat position of the result, is the position of the word that names it -/
theorem flat_pos1 (w j r : Nat) : (w / 32) * 16384 + ((w % 32) * 512 + 128 * j + r) = 512 * w + 128 * j + r := by
  omega

/-! ## The join -/

/-- contents that agree with `G` at every entry of a block, read through the block's view, agree with it on the block -/
theorem agrees_on_block (G : S1x16384x32.Idx → Elt F .f32) (d : Dev nD) (x : (Fin 2 × Fin 16) × Fin 4) (f : Buf (Elt F) (outLoc1 d))
    (h : ∀ (r : Fin 128) (e : Fin 32), (outAt (coords1 x.1.1 x.1.2) (D1.tr x.2)).view.read (Elt F) f (ix2 r e)
      = G ((outAt (coords1 x.1.1 x.1.2) (D1.tr x.2)).view.emb (ix2 r e))) :
    ∀ i ∈ outSet x, f i = G i := by
  intro i hi
  obtain ⟨z, -, rfl⟩ := Finset.mem_map.mp hi
  obtain ⟨r, e, rfl⟩ : ∃ (r : Fin 128) (e : Fin 32), z = ix2 r e := ⟨z 0, z 1, eq_ix2 z⟩
  exact h r e

variable [FloatOps F]

/-- THE VALUE JOIN for this call: the blocks, each at contents that read `G` of the position at every entry, and the
    rest, are the result whole at contents equal to `G` everywhere -/
theorem out_join1 (G : S1x16384x32.Idx → Elt F .f32) (d : Dev nD) (o : Buf (Elt F) (outLoc1 d)) :
    (iprop((bigSep Finset.univ fun x : (Fin 2 × Fin 16) × Fin 4 => iprop(∃ f : Buf (Elt F) (outLoc1 d),
          ⌜∀ (r : Fin 128) (e : Fin 32), (outAt (coords1 x.1.1 x.1.2) (D1.tr x.2)).view.read (Elt F) f (ix2 r e)
            = G ((outAt (coords1 x.1.1 x.1.2) (D1.tr x.2)).view.emb (ix2 r e))⌝
          ∗ (outLoc1 d ↦[outSet x]{fullShare} f)))
        ∗ (outLoc1 d ↦[Finset.univ \ Finset.univ.biUnion outSet]{fullShare} o)) : sProp 𝕄)
      ⊢ iprop(∃ o' : Buf (Elt F) (outLoc1 d), ⌜∀ y, o' y = G y⌝ ∗ (outLoc1 d ↦[Finset.univ]{fullShare} o')) := by
  have hblock : ∀ x : (Fin 2 × Fin 16) × Fin 4, (iprop(∃ f : Buf (Elt F) (outLoc1 d),
        ⌜∀ (r : Fin 128) (e : Fin 32), (outAt (coords1 x.1.1 x.1.2) (D1.tr x.2)).view.read (Elt F) f (ix2 r e)
          = G ((outAt (coords1 x.1.1 x.1.2) (D1.tr x.2)).view.emb (ix2 r e))⌝
        ∗ (outLoc1 d ↦[outSet x]{fullShare} f)) : sProp 𝕄)
      ⊢ iprop(∃ f : Buf (Elt F) (outLoc1 d), ⌜∀ i ∈ outSet x, f i = G i⌝ ∗ (outLoc1 d ↦[outSet x]{fullShare} f)) := fun x => by
    iintro ⟨%f, %hf, H⟩
    iexists f
    isplitr
    · ipureintro; exact agrees_on_block G d x f hf
    · iexact H
  exact (sep_mono_l (bigSep_mono fun x _ => hblock x)).trans (value_join (F := F) (ℓ := outLoc1 d) Finset.univ outSet outSet_disjoint
    (fun y => by obtain ⟨x, hx⟩ := out_cover1 y; exact ⟨x, Finset.mem_univ _, hx⟩) fullShare G o)

/-! ## The specified result, and what it asks of a block -/

/-- the specified result: position (t, n, e) holds lane e of the table row the word at flat position t·16384 + n names -/
def specG1 (tbv : S1000x128.Idx → Elt F .f32) (wd : S16384.Idx → BitVec 32) : S1x16384x32.Idx → Elt F .f32 :=
  fun y => tbv (ix2 (Cert.Spec.row (wd (ix1 (⟨(y 0).val * 16384 + (y 1).val, by
      have h0 : (y 0).val < 1 := (y 0).isLt
      have h1 : (y 1).val < 16384 := (y 1).isLt
      omega⟩ : Fin 16384))))
    (⟨(y 2).val, by have h2 : (y 2).val < 32 := (y 2).isLt; omega⟩ : Fin 128))

/-- the call's value specification, by coordinates -/
def SpecQ1 (tbv : S1000x128.Idx → Elt F .f32) (wd : S16384.Idx → BitVec 32) (o' : S1x16384x32.Idx → Elt F .f32) : Prop :=
  ∀ (t : Fin 1) (n : Fin 16384) (e : Fin 32),
    o' (ix3 t n e) = tbv (ix2 (Cert.Spec.row (wd (ix1 (⟨t.val * 16384 + n.val, by have := t.isLt; have := n.isLt; omega⟩ : Fin 16384))))
      (⟨e.val, by have := e.isLt; omega⟩ : Fin 128))

theorem specQ_iff1 (tbv : S1000x128.Idx → Elt F .f32) (wd : S16384.Idx → BitVec 32) (o' : S1x16384x32.Idx → Elt F .f32) :
    (∀ y, o' y = specG1 tbv wd y) ↔ SpecQ1 tbv wd o' := by
  constructor
  · intro h t n e; exact h (ix3 t n e)
  · intro h y
    obtain ⟨t, n, e, rfl⟩ : ∃ (t : Fin 1) (n : Fin 16384) (e : Fin 32), y = ix3 t n e := ⟨y 0, y 1, y 2, eq_ix3 y⟩
    exact h t n e

/-- at entry (r, e) of worker w's trip-j block the specification asks for lane e of the table row named by the
    word at position 128·j + r of the worker's own slice -/
theorem specG_block1 (tbv : S1000x128.Idx → Elt F .f32) (wd : S16384.Idx → BitVec 32) (p : Fin 2 × Fin 16) (j : Fin 4) (r : Fin 128) (e : Fin 32) :
    specG1 tbv wd ((outAt (coords1 p.1 p.2) (D1.tr j)).view.emb (ix2 r e))
      = tbv (ix2 (Cert.Spec.row (wd ((idxSl (coords1 p.1 p.2)).view.emb (ix1 (⟨128 * j.val + r.val, by have := j.isLt; have := r.isLt; omega⟩ : Fin 512)))))
          (⟨e.val, by have := e.isLt; omega⟩ : Fin 128)) := by
  rw [outAt_emb1, idxSl_emb1]
  have hpos : (⟨((2 * p.2.val + p.1.val) / 32) * 16384 + (((2 * p.2.val + p.1.val) % 32) * 512 + 128 * j.val + r.val), by have := p.1.isLt; have := p.2.isLt; have := j.isLt; have := r.isLt; omega⟩ : Fin 16384)
      = ⟨512 * (2 * p.2.val + p.1.val) + 128 * j.val + r.val, by have := p.1.isLt; have := p.2.isLt; have := j.isLt; have := r.isLt; omega⟩ := Fin.ext (flat_pos1 _ _ _)
  show tbv (ix2 (Cert.Spec.row (wd (ix1 (⟨((2 * p.2.val + p.1.val) / 32) * 16384 + (((2 * p.2.val + p.1.val) % 32) * 512 + 128 * j.val + r.val), _⟩ : Fin 16384))))
    (⟨e.val, _⟩ : Fin 128)) = _
  rw [hpos]

end Cert.KernelIdeal.Hand.C1

end
-- ==== Proof.KernelIdeal.DealV1.lean ====
/-
  Taking the second gather call's arrays back with their contents: each subcore hands back its blocks holding the
  table rows its words name; a block's word at row `r` of trip `j` is word `128·j + r` of the subcore's slice, which
  is the word at the block's own flat position, so every block agrees with the specified result on its positions; the
  blocks cover the result, so the result comes back whole at the specified contents, and the token words unchanged.
-/
import proofs.«203661_g84404697301628_cont_9to1_m_135_26_alg».proof.Proof.KernelIdeal.TileOblV1
import proofs.«203661_g84404697301628_cont_9to1_m_135_26_alg».proof.Proof.KernelIdeal.ValueGeo1

noncomputable section

namespace Cert.KernelIdeal.Hand.C1

open Cert.KernelIdeal Cert.KernelIdeal.Gen Cert.KernelIdeal.Hand
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [hK : Cert.KernelIdeal.Facts] [FloatOps F]

local notation "𝕄" => MT nD τ sig (HIx 4) (Elt F) ℕ UU ℕ

/-- the word by which trip `j` gathers its row `r` is word `128·j + r` of the subcore's slice of the token words -/
theorem wordAt_block (d : Dev nD) (p : Fin 2 × Fin 16) (j : Fin 4) (wdv : Buf (Elt F) (idxLoc1 d)) (r : Fin 128) :
    wordAt (F := F) (fetched d (coords1 p.1 p.2) wdv) (D1.tr j) r
      = wdv ((idxSl (coords1 p.1 p.2)).view.emb (ix1 (⟨128 * j.val + r.val, by have := j.isLt; have := r.isLt; omega⟩ : Fin 512))) := by
  have he : (offsAt (D1.tr j)).view.emb (ix1 r) = (ix1 (⟨128 * j.val + r.val, by have := j.isLt; have := r.isLt; omega⟩ : Fin 512) : S512.Idx) := by
    show (Rect.unit (s := S512) (k1_off6 (D1.tr j)) S128.size (k1_off6_inb (D1.tr j))).emb (ix1 r) = _
    funext a
    apply Fin.ext
    match a with
    | ⟨0, _⟩ =>
      show k1_off6 (D1.tr j) 0 + 1 * r.val = 128 * j.val + r.val
      rw [k1_off6_eq]
      show 128 * (D1.tr j).val + 1 * r.val = 128 * j.val + r.val
      rw [D1.tr_val]; omega
  show wdv ((idxSl (coords1 p.1 p.2)).view.emb ((offsAt (D1.tr j)).view.emb (ix1 r))) = _
  rw [he]

/-- what a handed-back block is known to hold -/
def blkV (tbv : (d : Dev nD) → Buf (Elt F) (tblLoc d)) (wd : (d : Dev nD) → Buf (Elt F) (idxLoc1 d)) (d : Dev nD) (x : (Fin 2 × Fin 16) × Fin 4)
    (f : Buf (Elt F) (outLoc1 d)) : Prop :=
  BlkOK (F := F) d (coords1 x.1.1 x.1.2) (tbv d) (fetched d (coords1 x.1.1 x.1.2) (wd d)) (D1.tr x.2) f

/-- a subcore's handed-back part, by its pieces -/
theorem Rtd1_eq (tbv : (d : Dev nD) → Buf (Elt F) (tblLoc d)) (wd : (d : Dev nD) → Buf (Elt F) (idxLoc1 d)) (d : Dev nD) (p : Fin 2 × Fin 16) :
    Rtd1 tbv wd d p.1 p.2 = iprop((idxLoc1 d ↦[idxSet p]{fullShare} wd d)
      ∗ bigSep Finset.univ fun j : Fin 4 => iprop(∃ f : Buf (Elt F) (outLoc1 d), (outLoc1 d ↦[outSet (p, j)]{fullShare} f) ∗ ⌜blkV tbv wd d (p, j) f⌝)) := by
  rw [bigSep_W4]
  rfl

/-- a handed-back block agrees with the specified result at every entry -/
theorem blk_spec (tbv : (d : Dev nD) → Buf (Elt F) (tblLoc d)) (wd : (d : Dev nD) → Buf (Elt F) (idxLoc1 d)) (d : Dev nD) (x : (Fin 2 × Fin 16) × Fin 4)
    (f : Buf (Elt F) (outLoc1 d)) (hb : blkV tbv wd d x f) (r : Fin 128) (e : Fin 32) :
    (outAt (coords1 x.1.1 x.1.2) (D1.tr x.2)).view.read (Elt F) f (ix2 r e)
      = specG1 (tbv d) (wd d) ((outAt (coords1 x.1.1 x.1.2) (D1.tr x.2)).view.emb (ix2 r e)) := by
  rw [specG_block1 (tbv d) (wd d) x.1 x.2 r e, ← wordAt_block d x.1 x.2 (wd d) r]
  exact hb r e

/-- AND BACK, WITH CONTENTS: every subcore's handed-back part and the rest are the token words, unchanged, and the result
    whole at the specified contents -/
theorem backV1 (tbv : (d : Dev nD) → Buf (Elt F) (tblLoc d)) (wd : (d : Dev nD) → Buf (Elt F) (idxLoc1 d)) (d : Dev nD) (o : Buf (Elt F) (outLoc1 d)) :
    iprop((bigSep Finset.univ fun c : Fin 2 => bigSep Finset.univ fun i : Fin 16 => Rtd1 tbv wd d c i) ∗ rem1 wd d o)
      ⊢ iprop((idxLoc1 d ↦[Finset.univ]{fullShare} wd d)
          ∗ ∃ o' : Buf (Elt F) (outLoc1 d), ⌜SpecQ1 (tbv d) (wd d) o'⌝ ∗ (outLoc1 d ↦[Finset.univ]{fullShare} o')) := by
  rw [← SparseCore.bigSep_product Finset.univ Finset.univ (fun p : Fin 2 × Fin 16 => Rtd1 tbv wd d p.1 p.2), Finset.univ_product_univ,
    bigSep_congr (fun p _ => Rtd1_eq tbv wd d p), bigSep_sep',
    ← SparseCore.bigSep_product Finset.univ Finset.univ (fun x : (Fin 2 × Fin 16) × Fin 4 => iprop(∃ f : Buf (Elt F) (outLoc1 d), (outLoc1 d ↦[outSet x]{fullShare} f) ∗ ⌜blkV tbv wd d x f⌝)),
    Finset.univ_product_univ]
  unfold rem1
  have hconv : ∀ x : (Fin 2 × Fin 16) × Fin 4, (iprop(∃ f : Buf (Elt F) (outLoc1 d), (outLoc1 d ↦[outSet x]{fullShare} f) ∗ ⌜blkV tbv wd d x f⌝) : sProp 𝕄)
      ⊢ iprop(∃ f : Buf (Elt F) (outLoc1 d),
          ⌜∀ (r : Fin 128) (e : Fin 32), (outAt (coords1 x.1.1 x.1.2) (D1.tr x.2)).view.read (Elt F) f (ix2 r e)
            = specG1 (tbv d) (wd d) ((outAt (coords1 x.1.1 x.1.2) (D1.tr x.2)).view.emb (ix2 r e))⌝
          ∗ (outLoc1 d ↦[outSet x]{fullShare} f)) := fun x => by
    iintro ⟨%f, H, %hb⟩
    iexists f
    isplitr
    · ipureintro; exact fun r e => blk_spec tbv wd d x f hb r e
    · iexact H
  have hjoin : (iprop((bigSep Finset.univ fun x : (Fin 2 × Fin 16) × Fin 4 => iprop(∃ f : Buf (Elt F) (outLoc1 d), (outLoc1 d ↦[outSet x]{fullShare} f) ∗ ⌜blkV tbv wd d x f⌝))
        ∗ (outLoc1 d ↦[Finset.univ \ Finset.univ.biUnion outSet]{fullShare} o)) : sProp 𝕄)
      ⊢ iprop(∃ o' : Buf (Elt F) (outLoc1 d), ⌜∀ y, o' y = specG1 (tbv d) (wd d) y⌝ ∗ (outLoc1 d ↦[Finset.univ]{fullShare} o')) :=
    (sep_mono_l (bigSep_mono fun x _ => hconv x)).trans (out_join1 (F := F) (specG1 (tbv d) (wd d)) d o)
  iintro ⟨⟨Hi, Ho⟩, Hir, Hor⟩
  isplitl [Hi Hir]
  · iapply (idx_cut (F := F) d (wd d)).2
    isplitl [Hi]; · iexact Hi
    iexact Hir
  · ihave H := hjoin $$ [Ho Hor]
    · isplitl [Ho]; · iexact Ho
      iexact Hor
    icases H with ⟨%o', %ho', H⟩
    iexists o'
    isplitr
    · ipureintro; exact (specQ_iff1 (tbv d) (wd d) o').1 ho'
    · iexact H

end Cert.KernelIdeal.Hand.C1

end
-- ==== Proof.KernelIdeal.ValueGeo2.lean ====
/-
  The third gather call's result, position by position: every position lies in exactly one subcore's block, and where
  a block's entry and a subcore's word sit in the whole arrays.

  Subcore `i` of SparseCore `c` is worker `w = 2·i + c`. Its words are `1024·w … 1024·w + 1023` of the call's
  token words, and in trip `j` it writes rows `(w mod 16)·1024 + 128·j …` of slab `w / 16` of the result; since
  `16·1024 = 16384`, row `ρ` of slab `s` is flat position `s·16384 + ρ`, which for the block's row `r` is the
  position `1024·w + 128·j + r` of the word that names it. Blocks that each agree with one function of the position
  therefore glue to the whole result at that function.
-/
import proofs.«203661_g84404697301628_cont_9to1_m_135_26_alg».proof.Proof.KernelIdeal.Deal2
import proofs.«203661_g84404697301628_cont_9to1_m_135_26_alg».proof.Proof.KernelIdeal.ValueJoin
import proofs.«203661_g84404697301628_cont_9to1_m_135_26_alg».proof.Proof.Spec
import Idealize.ShloMosaic.Lib.ValueIdx

noncomputable section

namespace Cert.KernelIdeal.Hand.C2

open Cert.KernelIdeal Cert.KernelIdeal.Gen Cert.KernelIdeal.Hand
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [hK : Cert.KernelIdeal.Facts]

local notation "𝕄" => MT nD τ sig (HIx 4) (Elt F) ℕ UU ℕ

/-! ## Where the blocks and the slices start -/

theorem off13_0 : ∀ (L : grid2.Coords) (t : Fin k2_t1_loop.trips), k2_off13 L t 0 = (2 * (L 1).val + (L 0).val) / 16 := by
  decide +kernel
theorem off13_1 : ∀ (L : grid2.Coords) (t : Fin k2_t1_loop.trips), k2_off13 L t 1 = ((2 * (L 1).val + (L 0).val) % 16) * 1024 + 128 * t.val := by
  decide +kernel
theorem off13_2 : ∀ (L : grid2.Coords) (t : Fin k2_t1_loop.trips), k2_off13 L t 2 = 0 := by
  decide +kernel
theorem off1_0 : ∀ L : grid2.Coords, k2_off1 L 0 = 1024 * (2 * (L 1).val + (L 0).val) := by decide +kernel

/-- a block as a box of positions -/
theorem outSet_rect (x : (Fin 2 × Fin 16) × Fin 8) :
    outSet x = (Rect.unit (s := S2x16384x32) (k2_off13 (coords2 x.1.1 x.1.2) (D2.tr x.2)) S1x128x32.size (k2_off13_inb _ _)).set :=
  (outSet_eq x).trans rfl

/-- a position lies in worker `w`'s trip-`j` block exactly when its slab is `w / 16` and its row is one of the block's 128 -/
theorem mem_outSet (x : (Fin 2 × Fin 16) × Fin 8) (y : S2x16384x32.Idx) :
    y ∈ outSet x ↔ (y 0).val = (2 * x.1.2.val + x.1.1.val) / 16
      ∧ ((2 * x.1.2.val + x.1.1.val) % 16) * 1024 + 128 * x.2.val ≤ (y 1).val ∧ (y 1).val < ((2 * x.1.2.val + x.1.1.val) % 16) * 1024 + 128 * x.2.val + 128 := by
  have c0 : ((coords2 x.1.1 x.1.2) 0).val = x.1.1.val := rfl
  have c1 : ((coords2 x.1.1 x.1.2) 1).val = x.1.2.val := rfl
  have e0 := off13_0 (coords2 x.1.1 x.1.2) (D2.tr x.2)
  have e1 := off13_1 (coords2 x.1.1 x.1.2) (D2.tr x.2)
  have e2 := off13_2 (coords2 x.1.1 x.1.2) (D2.tr x.2)
  rw [c0, c1] at e0 e1
  rw [D2.tr_val] at e1
  have h2 : (y 2).val < 32 := (y 2).isLt
  rw [outSet_rect, Rect.mem_set_unit]
  constructor
  · intro h
    have a0 : k2_off13 (coords2 x.1.1 x.1.2) (D2.tr x.2) 0 ≤ (y 0).val ∧ (y 0).val < k2_off13 (coords2 x.1.1 x.1.2) (D2.tr x.2) 0 + 1 := h 0
    have a1 : k2_off13 (coords2 x.1.1 x.1.2) (D2.tr x.2) 1 ≤ (y 1).val ∧ (y 1).val < k2_off13 (coords2 x.1.1 x.1.2) (D2.tr x.2) 1 + 128 := h 1
    rw [e0] at a0
    rw [e1] at a1
    omega
  · intro h a
    match a with
    | ⟨0, _⟩ =>
      show k2_off13 (coords2 x.1.1 x.1.2) (D2.tr x.2) 0 ≤ (y 0).val ∧ (y 0).val < k2_off13 (coords2 x.1.1 x.1.2) (D2.tr x.2) 0 + 1
      rw [e0]; omega
    | ⟨1, _⟩ =>
      show k2_off13 (coords2 x.1.1 x.1.2) (D2.tr x.2) 1 ≤ (y 1).val ∧ (y 1).val < k2_off13 (coords2 x.1.1 x.1.2) (D2.tr x.2) 1 + 128
      rw [e1]; omega
    | ⟨2, _⟩ =>
      show k2_off13 (coords2 x.1.1 x.1.2) (D2.tr x.2) 2 ≤ (y 2).val ∧ (y 2).val < k2_off13 (coords2 x.1.1 x.1.2) (D2.tr x.2) 2 + 32
      rw [e2]; omega

/-! ## The cover -/

/-- every position of the result lies in some subcore's block -/
theorem out_cover2 (y : S2x16384x32.Idx) : ∃ x : (Fin 2 × Fin 16) × Fin 8, y ∈ outSet x := by
  have h0 : (y 0).val < 2 := (y 0).isLt
  have h1 : (y 1).val < 16384 := (y 1).isLt
  obtain ⟨w, hw⟩ : ∃ w, w = (y 0).val * 16 + (y 1).val / 1024 := ⟨_, rfl⟩
  have hw32 : w < 32 := by omega
  refine ⟨((⟨w % 2, Nat.mod_lt _ (by decide)⟩, ⟨w / 2, by omega⟩), ⟨((y 1).val % 1024) / 128, by omega⟩), (mem_outSet _ y).2 ?_⟩
  dsimp only
  refine ⟨?_, ?_, ?_⟩ <;> omega

theorem outSet_univ2 : (Finset.univ : Finset ((Fin 2 × Fin 16) × Fin 8)).biUnion outSet = Finset.univ :=
  Finset.eq_univ_iff_forall.mpr fun y => by
    obtain ⟨x, hx⟩ := out_cover2 y
    exact Finset.mem_biUnion.mpr ⟨x, Finset.mem_univ _, hx⟩

/-! ## Positions -/

/-- dropping the unit axis: entry `(r, e)` of a [128,32] block is entry `(0, r, e)` of the [1,128,32] one -/
theorem squeeze_out_idx (h : S128x32.numel = S1x128x32.numel) (r : Fin 128) (e : Fin 32) :
    Shape.reshapeEquiv h (ix2 r e) = (ix3 (0 : Fin 1) r e : S1x128x32.Idx) := by
  refine Shape.reshapeEquiv_eq_of_rowMajor h ?_
  rw [Shape.rowMajor_val_three, Shape.rowMajor_val_two]
  show ((0 : Fin 1).val * 128 + r.val) * 32 + e.val = r.val * 32 + e.val
  simp

/-- entry `(r, e)` of worker `w`'s trip-`j` block sits at slab `w / 16`, row `(w mod 16)·1024 + 128·j + r`, lane `e` -/
theorem outAt_emb2 (p : Fin 2 × Fin 16) (j : Fin 8) (r : Fin 128) (e : Fin 32) :
    (outAt (coords2 p.1 p.2) (D2.tr j)).view.emb (ix2 r e)
      = (ix3 (⟨(2 * p.2.val + p.1.val) / 16, by have := p.1.isLt; have := p.2.isLt; have := j.isLt; have := r.isLt; omega⟩ : Fin 2)
          (⟨((2 * p.2.val + p.1.val) % 16) * 1024 + 128 * j.val + r.val, by have := p.1.isLt; have := p.2.isLt; have := j.isLt; have := r.isLt; omega⟩ : Fin 16384) e : S2x16384x32.Idx) := by
  have c0 : ((coords2 p.1 p.2) 0).val = p.1.val := rfl
  have c1 : ((coords2 p.1 p.2) 1).val = p.2.val := rfl
  have e0 := off13_0 (coords2 p.1 p.2) (D2.tr j)
  have e1 := off13_1 (coords2 p.1 p.2) (D2.tr j)
  have e2 := off13_2 (coords2 p.1 p.2) (D2.tr j)
  rw [c0, c1] at e0 e1
  rw [D2.tr_val] at e1
  show (Rect.unit (s := S2x16384x32) (k2_off13 (coords2 p.1 p.2) (D2.tr j)) S1x128x32.size (k2_off13_inb _ _)).emb (Shape.reshapeEquiv _ (ix2 r e)) = _
  rw [squeeze_out_idx]
  funext a
  apply Fin.ext
  match a with
  | ⟨0, _⟩ => show k2_off13 (coords2 p.1 p.2) (D2.tr j) 0 + 1 * (0 : Fin 1).val = (2 * p.2.val + p.1.val) / 16; rw [e0]; show _ + 1 * 0 = _; omega
  | ⟨1, _⟩ => show k2_off13 (coords2 p.1 p.2) (D2.tr j) 1 + 1 * r.val = ((2 * p.2.val + p.1.val) % 16) * 1024 + 128 * j.val + r.val; rw [e1]; omega
  | ⟨2, _⟩ => show k2_off13 (coords2 p.1 p.2) (D2.tr j) 2 + 1 * e.val = e.val; rw [e2]; omega

/-- word `128·j + r` of worker `w`'s slice is word `1024·w + 128·j + r` of the call's token words -/
theorem idxSl_emb2 (p : Fin 2 × Fin 16) (j : Fin 8) (r : Fin 128) :
    (idxSl (coords2 p.1 p.2)).view.emb (ix1 (⟨128 * j.val + r.val, by have := j.isLt; have := r.isLt; omega⟩ : Fin 1024))
      = (ix1 (⟨1024 * (2 * p.2.val + p.1.val) + 128 * j.val + r.val, by have := p.1.isLt; have := p.2.isLt; have := j.isLt; have := r.isLt; omega⟩ : Fin 32768) : S32768.Idx) := by
  have c0 : ((coords2 p.1 p.2) 0).val = p.1.val := rfl
  have c1 : ((coords2 p.1 p.2) 1).val = p.2.val := rfl
  have e0 := off1_0 (coords2 p.1 p.2)
  rw [c0, c1] at e0
  show (Rect.unit (s := S32768) (k2_off1 (coords2 p.1 p.2)) S1024.size (k2_off1_inb _)).emb (ix1 (⟨128 * j.val + r.val, _⟩ : Fin 1024)) = _
  funext a
  apply Fin.ext
  match a with
  | ⟨0, _⟩ => show k2_off1 (coords2 p.1 p.2) 0 + 1 * (128 * j.val + r.val) = 1024 * (2 * p.2.val + p.1.val) + 128 * j.val + r.val; rw [e0]; omega

/-- the block's row, as a flat position of the result, is the position of the word that names it -/
theorem flat_pos2 (w j r : Nat) : (w / 16) * 16384 + ((w % 16) * 1024 + 128 * j + r) = 1024 * w + 128 * j + r := by
  omega

/-! ## The join -/

/-- contents that agree with `G` at every entry of a block, read through the block's view, agree with it on the block -/
theorem agrees_on_block (G : S2x16384x32.Idx → Elt F .f32) (d : Dev nD) (x : (Fin 2 × Fin 16) × Fin 8) (f : Buf (Elt F) (outLoc2 d))
    (h : ∀ (r : Fin 128) (e : Fin 32), (outAt (coords2 x.1.1 x.1.2) (D2.tr x.2)).view.read (Elt F) f (ix2 r e)
      = G ((outAt (coords2 x.1.1 x.1.2) (D2.tr x.2)).view.emb (ix2 r e))) :
    ∀ i ∈ outSet x, f i = G i := by
  intro i hi
  obtain ⟨z, -, rfl⟩ := Finset.mem_map.mp hi
  obtain ⟨r, e, rfl⟩ : ∃ (r : Fin 128) (e : Fin 32), z = ix2 r e := ⟨z 0, z 1, eq_ix2 z⟩
  exact h r e

variable [FloatOps F]

/-- THE VALUE JOIN for this call: the blocks, each at contents that read `G` of the position at every entry, and the
    rest, are the result whole at contents equal to `G` everywhere -/
theorem out_join2 (G : S2x16384x32.Idx → Elt F .f32) (d : Dev nD) (o : Buf (Elt F) (outLoc2 d)) :
    (iprop((bigSep Finset.univ fun x : (Fin 2 × Fin 16) × Fin 8 => iprop(∃ f : Buf (Elt F) (outLoc2 d),
          ⌜∀ (r : Fin 128) (e : Fin 32), (outAt (coords2 x.1.1 x.1.2) (D2.tr x.2)).view.read (Elt F) f (ix2 r e)
            = G ((outAt (coords2 x.1.1 x.1.2) (D2.tr x.2)).view.emb (ix2 r e))⌝
          ∗ (outLoc2 d ↦[outSet x]{fullShare} f)))
        ∗ (outLoc2 d ↦[Finset.univ \ Finset.univ.biUnion outSet]{fullShare} o)) : sProp 𝕄)
      ⊢ iprop(∃ o' : Buf (Elt F) (outLoc2 d), ⌜∀ y, o' y = G y⌝ ∗ (outLoc2 d ↦[Finset.univ]{fullShare} o')) := by
  have hblock : ∀ x : (Fin 2 × Fin 16) × Fin 8, (iprop(∃ f : Buf (Elt F) (outLoc2 d),
        ⌜∀ (r : Fin 128) (e : Fin 32), (outAt (coords2 x.1.1 x.1.2) (D2.tr x.2)).view.read (Elt F) f (ix2 r e)
          = G ((outAt (coords2 x.1.1 x.1.2) (D2.tr x.2)).view.emb (ix2 r e))⌝
        ∗ (outLoc2 d ↦[outSet x]{fullShare} f)) : sProp 𝕄)
      ⊢ iprop(∃ f : Buf (Elt F) (outLoc2 d), ⌜∀ i ∈ outSet x, f i = G i⌝ ∗ (outLoc2 d ↦[outSet x]{fullShare} f)) := fun x => by
    iintro ⟨%f, %hf, H⟩
    iexists f
    isplitr
    · ipureintro; exact agrees_on_block G d x f hf
    · iexact H
  exact (sep_mono_l (bigSep_mono fun x _ => hblock x)).trans (value_join (F := F) (ℓ := outLoc2 d) Finset.univ outSet outSet_disjoint
    (fun y => by obtain ⟨x, hx⟩ := out_cover2 y; exact ⟨x, Finset.mem_univ _, hx⟩) fullShare G o)

/-! ## The specified result, and what it asks of a block -/

/-- the specified result: position (t, n, e) holds lane e of the table row the word at flat position t·16384 + n names -/
def specG2 (tbv : S1000x128.Idx → Elt F .f32) (wd : S32768.Idx → BitVec 32) : S2x16384x32.Idx → Elt F .f32 :=
  fun y => tbv (ix2 (Cert.Spec.row (wd (ix1 (⟨(y 0).val * 16384 + (y 1).val, by
      have h0 : (y 0).val < 2 := (y 0).isLt
      have h1 : (y 1).val < 16384 := (y 1).isLt
      omega⟩ : Fin 32768))))
    (⟨(y 2).val, by have h2 : (y 2).val < 32 := (y 2).isLt; omega⟩ : Fin 128))

/-- the call's value specification, by coordinates -/
def SpecQ2 (tbv : S1000x128.Idx → Elt F .f32) (wd : S32768.Idx → BitVec 32) (o' : S2x16384x32.Idx → Elt F .f32) : Prop :=
  ∀ (t : Fin 2) (n : Fin 16384) (e : Fin 32),
    o' (ix3 t n e) = tbv (ix2 (Cert.Spec.row (wd (ix1 (⟨t.val * 16384 + n.val, by have := t.isLt; have := n.isLt; omega⟩ : Fin 32768))))
      (⟨e.val, by have := e.isLt; omega⟩ : Fin 128))

theorem specQ_iff2 (tbv : S1000x128.Idx → Elt F .f32) (wd : S32768.Idx → BitVec 32) (o' : S2x16384x32.Idx → Elt F .f32) :
    (∀ y, o' y = specG2 tbv wd y) ↔ SpecQ2 tbv wd o' := by
  constructor
  · intro h t n e; exact h (ix3 t n e)
  · intro h y
    obtain ⟨t, n, e, rfl⟩ : ∃ (t : Fin 2) (n : Fin 16384) (e : Fin 32), y = ix3 t n e := ⟨y 0, y 1, y 2, eq_ix3 y⟩
    exact h t n e

/-- at entry (r, e) of worker w's trip-j block the specification asks for lane e of the table row named by the
    word at position 128·j + r of the worker's own slice -/
theorem specG_block2 (tbv : S1000x128.Idx → Elt F .f32) (wd : S32768.Idx → BitVec 32) (p : Fin 2 × Fin 16) (j : Fin 8) (r : Fin 128) (e : Fin 32) :
    specG2 tbv wd ((outAt (coords2 p.1 p.2) (D2.tr j)).view.emb (ix2 r e))
      = tbv (ix2 (Cert.Spec.row (wd ((idxSl (coords2 p.1 p.2)).view.emb (ix1 (⟨128 * j.val + r.val, by have := j.isLt; have := r.isLt; omega⟩ : Fin 1024)))))
          (⟨e.val, by have := e.isLt; omega⟩ : Fin 128)) := by
  rw [outAt_emb2, idxSl_emb2]
  have hpos : (⟨((2 * p.2.val + p.1.val) / 16) * 16384 + (((2 * p.2.val + p.1.val) % 16) * 1024 + 128 * j.val + r.val), by have := p.1.isLt; have := p.2.isLt; have := j.isLt; have := r.isLt; omega⟩ : Fin 32768)
      = ⟨1024 * (2 * p.2.val + p.1.val) + 128 * j.val + r.val, by have := p.1.isLt; have := p.2.isLt; have := j.isLt; have := r.isLt; omega⟩ := Fin.ext (flat_pos2 _ _ _)
  show tbv (ix2 (Cert.Spec.row (wd (ix1 (⟨((2 * p.2.val + p.1.val) / 16) * 16384 + (((2 * p.2.val + p.1.val) % 16) * 1024 + 128 * j.val + r.val), _⟩ : Fin 32768))))
    (⟨e.val, _⟩ : Fin 128)) = _
  rw [hpos]

end Cert.KernelIdeal.Hand.C2

end
-- ==== Proof.KernelIdeal.DealV2.lean ====
/-
  Taking the third gather call's arrays back with their contents: each subcore hands back its blocks holding the
  table rows its words name; a block's word at row `r` of trip `j` is word `128·j + r` of the subcore's slice, which
  is the word at the block's own flat position, so every block agrees with the specified result on its positions; the
  blocks cover the result, so the result comes back whole at the specified contents, and the token words unchanged.
-/
import proofs.«203661_g84404697301628_cont_9to1_m_135_26_alg».proof.Proof.KernelIdeal.TileOblV2
import proofs.«203661_g84404697301628_cont_9to1_m_135_26_alg».proof.Proof.KernelIdeal.ValueGeo2

noncomputable section

namespace Cert.KernelIdeal.Hand.C2

open Cert.KernelIdeal Cert.KernelIdeal.Gen Cert.KernelIdeal.Hand
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [hK : Cert.KernelIdeal.Facts] [FloatOps F]

local notation "𝕄" => MT nD τ sig (HIx 4) (Elt F) ℕ UU ℕ

/-- the word by which trip `j` gathers its row `r` is word `128·j + r` of the subcore's slice of the token words -/
theorem wordAt_block (d : Dev nD) (p : Fin 2 × Fin 16) (j : Fin 8) (wdv : Buf (Elt F) (idxLoc2 d)) (r : Fin 128) :
    wordAt (F := F) (fetched d (coords2 p.1 p.2) wdv) (D2.tr j) r
      = wdv ((idxSl (coords2 p.1 p.2)).view.emb (ix1 (⟨128 * j.val + r.val, by have := j.isLt; have := r.isLt; omega⟩ : Fin 1024))) := by
  have he : (offsAt (D2.tr j)).view.emb (ix1 r) = (ix1 (⟨128 * j.val + r.val, by have := j.isLt; have := r.isLt; omega⟩ : Fin 1024) : S1024.Idx) := by
    show (Rect.unit (s := S1024) (k2_off6 (D2.tr j)) S128.size (k2_off6_inb (D2.tr j))).emb (ix1 r) = _
    funext a
    apply Fin.ext
    match a with
    | ⟨0, _⟩ =>
      show k2_off6 (D2.tr j) 0 + 1 * r.val = 128 * j.val + r.val
      rw [k2_off6_eq]
      show 128 * (D2.tr j).val + 1 * r.val = 128 * j.val + r.val
      rw [D2.tr_val]; omega
  show wdv ((idxSl (coords2 p.1 p.2)).view.emb ((offsAt (D2.tr j)).view.emb (ix1 r))) = _
  rw [he]

/-- what a handed-back block is known to hold -/
def blkV (tbv : (d : Dev nD) → Buf (Elt F) (tblLoc d)) (wd : (d : Dev nD) → Buf (Elt F) (idxLoc2 d)) (d : Dev nD) (x : (Fin 2 × Fin 16) × Fin 8)
    (f : Buf (Elt F) (outLoc2 d)) : Prop :=
  BlkOK (F := F) d (coords2 x.1.1 x.1.2) (tbv d) (fetched d (coords2 x.1.1 x.1.2) (wd d)) (D2.tr x.2) f

/-- a subcore's handed-back part, by its pieces -/
theorem Rtd2_eq (tbv : (d : Dev nD) → Buf (Elt F) (tblLoc d)) (wd : (d : Dev nD) → Buf (Elt F) (idxLoc2 d)) (d : Dev nD) (p : Fin 2 × Fin 16) :
    Rtd2 tbv wd d p.1 p.2 = iprop((idxLoc2 d ↦[idxSet p]{fullShare} wd d)
      ∗ bigSep Finset.univ fun j : Fin 8 => iprop(∃ f : Buf (Elt F) (outLoc2 d), (outLoc2 d ↦[outSet (p, j)]{fullShare} f) ∗ ⌜blkV tbv wd d (p, j) f⌝)) := by
  rw [bigSep_W8]
  rfl

/-- a handed-back block agrees with the specified result at every entry -/
theorem blk_spec (tbv : (d : Dev nD) → Buf (Elt F) (tblLoc d)) (wd : (d : Dev nD) → Buf (Elt F) (idxLoc2 d)) (d : Dev nD) (x : (Fin 2 × Fin 16) × Fin 8)
    (f : Buf (Elt F) (outLoc2 d)) (hb : blkV tbv wd d x f) (r : Fin 128) (e : Fin 32) :
    (outAt (coords2 x.1.1 x.1.2) (D2.tr x.2)).view.read (Elt F) f (ix2 r e)
      = specG2 (tbv d) (wd d) ((outAt (coords2 x.1.1 x.1.2) (D2.tr x.2)).view.emb (ix2 r e)) := by
  rw [specG_block2 (tbv d) (wd d) x.1 x.2 r e, ← wordAt_block d x.1 x.2 (wd d) r]
  exact hb r e

/-- AND BACK, WITH CONTENTS: every subcore's handed-back part and the rest are the token words, unchanged, and the result
    whole at the specified contents -/
theorem backV2 (tbv : (d : Dev nD) → Buf (Elt F) (tblLoc d)) (wd : (d : Dev nD) → Buf (Elt F) (idxLoc2 d)) (d : Dev nD) (o : Buf (Elt F) (outLoc2 d)) :
    iprop((bigSep Finset.univ fun c : Fin 2 => bigSep Finset.univ fun i : Fin 16 => Rtd2 tbv wd d c i) ∗ rem2 wd d o)
      ⊢ iprop((idxLoc2 d ↦[Finset.univ]{fullShare} wd d)
          ∗ ∃ o' : Buf (Elt F) (outLoc2 d), ⌜SpecQ2 (tbv d) (wd d) o'⌝ ∗ (outLoc2 d ↦[Finset.univ]{fullShare} o')) := by
  rw [← SparseCore.bigSep_product Finset.univ Finset.univ (fun p : Fin 2 × Fin 16 => Rtd2 tbv wd d p.1 p.2), Finset.univ_product_univ,
    bigSep_congr (fun p _ => Rtd2_eq tbv wd d p), bigSep_sep',
    ← SparseCore.bigSep_product Finset.univ Finset.univ (fun x : (Fin 2 × Fin 16) × Fin 8 => iprop(∃ f : Buf (Elt F) (outLoc2 d), (outLoc2 d ↦[outSet x]{fullShare} f) ∗ ⌜blkV tbv wd d x f⌝)),
    Finset.univ_product_univ]
  unfold rem2
  have hconv : ∀ x : (Fin 2 × Fin 16) × Fin 8, (iprop(∃ f : Buf (Elt F) (outLoc2 d), (outLoc2 d ↦[outSet x]{fullShare} f) ∗ ⌜blkV tbv wd d x f⌝) : sProp 𝕄)
      ⊢ iprop(∃ f : Buf (Elt F) (outLoc2 d),
          ⌜∀ (r : Fin 128) (e : Fin 32), (outAt (coords2 x.1.1 x.1.2) (D2.tr x.2)).view.read (Elt F) f (ix2 r e)
            = specG2 (tbv d) (wd d) ((outAt (coords2 x.1.1 x.1.2) (D2.tr x.2)).view.emb (ix2 r e))⌝
          ∗ (outLoc2 d ↦[outSet x]{fullShare} f)) := fun x => by
    iintro ⟨%f, H, %hb⟩
    iexists f
    isplitr
    · ipureintro; exact fun r e => blk_spec tbv wd d x f hb r e
    · iexact H
  have hjoin : (iprop((bigSep Finset.univ fun x : (Fin 2 × Fin 16) × Fin 8 => iprop(∃ f : Buf (Elt F) (outLoc2 d), (outLoc2 d ↦[outSet x]{fullShare} f) ∗ ⌜blkV tbv wd d x f⌝))
        ∗ (outLoc2 d ↦[Finset.univ \ Finset.univ.biUnion outSet]{fullShare} o)) : sProp 𝕄)
      ⊢ iprop(∃ o' : Buf (Elt F) (outLoc2 d), ⌜∀ y, o' y = specG2 (tbv d) (wd d) y⌝ ∗ (outLoc2 d ↦[Finset.univ]{fullShare} o')) :=
    (sep_mono_l (bigSep_mono fun x _ => hconv x)).trans (out_join2 (F := F) (specG2 (tbv d) (wd d)) d o)
  iintro ⟨⟨Hi, Ho⟩, Hir, Hor⟩
  isplitl [Hi Hir]
  · iapply (idx_cut (F := F) d (wd d)).2
    isplitl [Hi]; · iexact Hi
    iexact Hir
  · ihave H := hjoin $$ [Ho Hor]
    · isplitl [Ho]; · iexact Ho
      iexact Hor
    icases H with ⟨%o', %ho', H⟩
    iexists o'
    isplitr
    · ipureintro; exact (specQ_iff2 (tbv d) (wd d) o').1 ho'
    · iexact H

end Cert.KernelIdeal.Hand.C2

end
-- ==== Proof.KernelIdeal.ValueGeo3.lean ====
/-
  The fourth gather call's result, position by position: every position lies in exactly one subcore's block, and where
  a block's entry and a subcore's word sit in the whole arrays.

  Subcore `i` of SparseCore `c` is worker `w = 2·i + c`. Its words are `2048·w … 2048·w + 2047` of the call's
  token words, and in trip `j` it writes rows `(w mod 8)·2048 + 128·j …` of slab `w / 8` of the result; since
  `8·2048 = 16384`, row `ρ` of slab `s` is flat position `s·16384 + ρ`, which for the block's row `r` is the
  position `2048·w + 128·j + r` of the word that names it. Blocks that each agree with one function of the position
  therefore glue to the whole result at that function.
-/
import proofs.«203661_g84404697301628_cont_9to1_m_135_26_alg».proof.Proof.KernelIdeal.Deal3
import proofs.«203661_g84404697301628_cont_9to1_m_135_26_alg».proof.Proof.KernelIdeal.ValueJoin
import proofs.«203661_g84404697301628_cont_9to1_m_135_26_alg».proof.Proof.Spec
import Idealize.ShloMosaic.Lib.ValueIdx

noncomputable section

namespace Cert.KernelIdeal.Hand.C3

open Cert.KernelIdeal Cert.KernelIdeal.Gen Cert.KernelIdeal.Hand
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [hK : Cert.KernelIdeal.Facts]

local notation "𝕄" => MT nD τ sig (HIx 4) (Elt F) ℕ UU ℕ

/-! ## Where the blocks and the slices start -/

theorem off13_0 : ∀ (L : grid3.Coords) (t : Fin k3_t1_loop.trips), k3_off13 L t 0 = (2 * (L 1).val + (L 0).val) / 8 := by
  decide +kernel
theorem off13_1 : ∀ (L : grid3.Coords) (t : Fin k3_t1_loop.trips), k3_off13 L t 1 = ((2 * (L 1).val + (L 0).val) % 8) * 2048 + 128 * t.val := by
  decide +kernel
theorem off13_2 : ∀ (L : grid3.Coords) (t : Fin k3_t1_loop.trips), k3_off13 L t 2 = 0 := by
  decide +kernel
theorem off1_0 : ∀ L : grid3.Coords, k3_off1 L 0 = 2048 * (2 * (L 1).val + (L 0).val) := by decide +kernel

/-- a block as a box of positions -/
theorem outSet_rect (x : (Fin 2 × Fin 16) × Fin 16) :
    outSet x = (Rect.unit (s := S4x16384x32) (k3_off13 (coords3 x.1.1 x.1.2) (D3.tr x.2)) S1x128x32.size (k3_off13_inb _ _)).set :=
  (outSet_eq x).trans rfl

/-- a position lies in worker `w`'s trip-`j` block exactly when its slab is `w / 8` and its row is one of the block's 128 -/
theorem mem_outSet (x : (Fin 2 × Fin 16) × Fin 16) (y : S4x16384x32.Idx) :
    y ∈ outSet x ↔ (y 0).val = (2 * x.1.2.val + x.1.1.val) / 8
      ∧ ((2 * x.1.2.val + x.1.1.val) % 8) * 2048 + 128 * x.2.val ≤ (y 1).val ∧ (y 1).val < ((2 * x.1.2.val + x.1.1.val) % 8) * 2048 + 128 * x.2.val + 128 := by
  have c0 : ((coords3 x.1.1 x.1.2) 0).val = x.1.1.val := rfl
  have c1 : ((coords3 x.1.1 x.1.2) 1).val = x.1.2.val := rfl
  have e0 := off13_0 (coords3 x.1.1 x.1.2) (D3.tr x.2)
  have e1 := off13_1 (coords3 x.1.1 x.1.2) (D3.tr x.2)
  have e2 := off13_2 (coords3 x.1.1 x.1.2) (D3.tr x.2)
  rw [c0, c1] at e0 e1
  rw [D3.tr_val] at e1
  have h2 : (y 2).val < 32 := (y 2).isLt
  rw [outSet_rect, Rect.mem_set_unit]
  constructor
  · intro h
    have a0 : k3_off13 (coords3 x.1.1 x.1.2) (D3.tr x.2) 0 ≤ (y 0).val ∧ (y 0).val < k3_off13 (coords3 x.1.1 x.1.2) (D3.tr x.2) 0 + 1 := h 0
    have a1 : k3_off13 (coords3 x.1.1 x.1.2) (D3.tr x.2) 1 ≤ (y 1).val ∧ (y 1).val < k3_off13 (coords3 x.1.1 x.1.2) (D3.tr x.2) 1 + 128 := h 1
    rw [e0] at a0
    rw [e1] at a1
    omega
  · intro h a
    match a with
    | ⟨0, _⟩ =>
      show k3_off13 (coords3 x.1.1 x.1.2) (D3.tr x.2) 0 ≤ (y 0).val ∧ (y 0).val < k3_off13 (coords3 x.1.1 x.1.2) (D3.tr x.2) 0 + 1
      rw [e0]; omega
    | ⟨1, _⟩ =>
      show k3_off13 (coords3 x.1.1 x.1.2) (D3.tr x.2) 1 ≤ (y 1).val ∧ (y 1).val < k3_off13 (coords3 x.1.1 x.1.2) (D3.tr x.2) 1 + 128
      rw [e1]; omega
    | ⟨2, _⟩ =>
      show k3_off13 (coords3 x.1.1 x.1.2) (D3.tr x.2) 2 ≤ (y 2).val ∧ (y 2).val < k3_off13 (coords3 x.1.1 x.1.2) (D3.tr x.2) 2 + 32
      rw [e2]; omega

/-! ## The cover -/

/-- every position of the result lies in some subcore's block -/
theorem out_cover3 (y : S4x16384x32.Idx) : ∃ x : (Fin 2 × Fin 16) × Fin 16, y ∈ outSet x := by
  have h0 : (y 0).val < 4 := (y 0).isLt
  have h1 : (y 1).val < 16384 := (y 1).isLt
  obtain ⟨w, hw⟩ : ∃ w, w = (y 0).val * 8 + (y 1).val / 2048 := ⟨_, rfl⟩
  have hw32 : w < 32 := by omega
  refine ⟨((⟨w % 2, Nat.mod_lt _ (by decide)⟩, ⟨w / 2, by omega⟩), ⟨((y 1).val % 2048) / 128, by omega⟩), (mem_outSet _ y).2 ?_⟩
  dsimp only
  refine ⟨?_, ?_, ?_⟩ <;> omega

theorem outSet_univ3 : (Finset.univ : Finset ((Fin 2 × Fin 16) × Fin 16)).biUnion outSet = Finset.univ :=
  Finset.eq_univ_iff_forall.mpr fun y => by
    obtain ⟨x, hx⟩ := out_cover3 y
    exact Finset.mem_biUnion.mpr ⟨x, Finset.mem_univ _, hx⟩

/-! ## Positions -/

/-- dropping the unit axis: entry `(r, e)` of a [128,32] block is entry `(0, r, e)` of the [1,128,32] one -/
theorem squeeze_out_idx (h : S128x32.numel = S1x128x32.numel) (r : Fin 128) (e : Fin 32) :
    Shape.reshapeEquiv h (ix2 r e) = (ix3 (0 : Fin 1) r e : S1x128x32.Idx) := by
  refine Shape.reshapeEquiv_eq_of_rowMajor h ?_
  rw [Shape.rowMajor_val_three, Shape.rowMajor_val_two]
  show ((0 : Fin 1).val * 128 + r.val) * 32 + e.val = r.val * 32 + e.val
  simp

/-- entry `(r, e)` of worker `w`'s trip-`j` block sits at slab `w / 8`, row `(w mod 8)·2048 + 128·j + r`, lane `e` -/
theorem outAt_emb3 (p : Fin 2 × Fin 16) (j : Fin 16) (r : Fin 128) (e : Fin 32) :
    (outAt (coords3 p.1 p.2) (D3.tr j)).view.emb (ix2 r e)
      = (ix3 (⟨(2 * p.2.val + p.1.val) / 8, by have := p.1.isLt; have := p.2.isLt; have := j.isLt; have := r.isLt; omega⟩ : Fin 4)
          (⟨((2 * p.2.val + p.1.val) % 8) * 2048 + 128 * j.val + r.val, by have := p.1.isLt; have := p.2.isLt; have := j.isLt; have := r.isLt; omega⟩ : Fin 16384) e : S4x16384x32.Idx) := by
  have c0 : ((coords3 p.1 p.2) 0).val = p.1.val := rfl
  have c1 : ((coords3 p.1 p.2) 1).val = p.2.val := rfl
  have e0 := off13_0 (coords3 p.1 p.2) (D3.tr j)
  have e1 := off13_1 (coords3 p.1 p.2) (D3.tr j)
  have e2 := off13_2 (coords3 p.1 p.2) (D3.tr j)
  rw [c0, c1] at e0 e1
  rw [D3.tr_val] at e1
  show (Rect.unit (s := S4x16384x32) (k3_off13 (coords3 p.1 p.2) (D3.tr j)) S1x128x32.size (k3_off13_inb _ _)).emb (Shape.reshapeEquiv _ (ix2 r e)) = _
  rw [squeeze_out_idx]
  funext a
  apply Fin.ext
  match a with
  | ⟨0, _⟩ => show k3_off13 (coords3 p.1 p.2) (D3.tr j) 0 + 1 * (0 : Fin 1).val = (2 * p.2.val + p.1.val) / 8; rw [e0]; show _ + 1 * 0 = _; omega
  | ⟨1, _⟩ => show k3_off13 (coords3 p.1 p.2) (D3.tr j) 1 + 1 * r.val = ((2 * p.2.val + p.1.val) % 8) * 2048 + 128 * j.val + r.val; rw [e1]; omega
  | ⟨2, _⟩ => show k3_off13 (coords3 p.1 p.2) (D3.tr j) 2 + 1 * e.val = e.val; rw [e2]; omega

/-- word `128·j + r` of worker `w`'s slice is word `2048·w + 128·j + r` of the call's token words -/
theorem idxSl_emb3 (p : Fin 2 × Fin 16) (j : Fin 16) (r : Fin 128) :
    (idxSl (coords3 p.1 p.2)).view.emb (ix1 (⟨128 * j.val + r.val, by have := j.isLt; have := r.isLt; omega⟩ : Fin 2048))
      = (ix1 (⟨2048 * (2 * p.2.val + p.1.val) + 128 * j.val + r.val, by have := p.1.isLt; have := p.2.isLt; have := j.isLt; have := r.isLt; omega⟩ : Fin 65536) : S65536.Idx) := by
  have c0 : ((coords3 p.1 p.2) 0).val = p.1.val := rfl
  have c1 : ((coords3 p.1 p.2) 1).val = p.2.val := rfl
  have e0 := off1_0 (coords3 p.1 p.2)
  rw [c0, c1] at e0
  show (Rect.unit (s := S65536) (k3_off1 (coords3 p.1 p.2)) S2048.size (k3_off1_inb _)).emb (ix1 (⟨128 * j.val + r.val, _⟩ : Fin 2048)) = _
  funext a
  apply Fin.ext
  match a with
  | ⟨0, _⟩ => show k3_off1 (coords3 p.1 p.2) 0 + 1 * (128 * j.val + r.val) = 2048 * (2 * p.2.val + p.1.val) + 128 * j.val + r.val; rw [e0]; omega

/-- the block's row, as a flat position of the result, is the position of the word that names it -/
theorem flat_pos3 (w j r : Nat) : (w / 8) * 16384 + ((w % 8) * 2048 + 128 * j + r) = 2048 * w + 128 * j + r := by
  omega

/-! ## The join -/

/-- contents that agree with `G` at every entry of a block, read through the block's view, agree with it on the block -/
theorem agrees_on_block (G : S4x16384x32.Idx → Elt F .f32) (d : Dev nD) (x : (Fin 2 × Fin 16) × Fin 16) (f : Buf (Elt F) (outLoc3 d))
    (h : ∀ (r : Fin 128) (e : Fin 32), (outAt (coords3 x.1.1 x.1.2) (D3.tr x.2)).view.read (Elt F) f (ix2 r e)
      = G ((outAt (coords3 x.1.1 x.1.2) (D3.tr x.2)).view.emb (ix2 r e))) :
    ∀ i ∈ outSet x, f i = G i := by
  intro i hi
  obtain ⟨z, -, rfl⟩ := Finset.mem_map.mp hi
  obtain ⟨r, e, rfl⟩ : ∃ (r : Fin 128) (e : Fin 32), z = ix2 r e := ⟨z 0, z 1, eq_ix2 z⟩
  exact h r e

variable [FloatOps F]

/-- THE VALUE JOIN for this call: the blocks, each at contents that read `G` of the position at every entry, and the
    rest, are the result whole at contents equal to `G` everywhere -/
theorem out_join3 (G : S4x16384x32.Idx → Elt F .f32) (d : Dev nD) (o : Buf (Elt F) (outLoc3 d)) :
    (iprop((bigSep Finset.univ fun x : (Fin 2 × Fin 16) × Fin 16 => iprop(∃ f : Buf (Elt F) (outLoc3 d),
          ⌜∀ (r : Fin 128) (e : Fin 32), (outAt (coords3 x.1.1 x.1.2) (D3.tr x.2)).view.read (Elt F) f (ix2 r e)
            = G ((outAt (coords3 x.1.1 x.1.2) (D3.tr x.2)).view.emb (ix2 r e))⌝
          ∗ (outLoc3 d ↦[outSet x]{fullShare} f)))
        ∗ (outLoc3 d ↦[Finset.univ \ Finset.univ.biUnion outSet]{fullShare} o)) : sProp 𝕄)
      ⊢ iprop(∃ o' : Buf (Elt F) (outLoc3 d), ⌜∀ y, o' y = G y⌝ ∗ (outLoc3 d ↦[Finset.univ]{fullShare} o')) := by
  have hblock : ∀ x : (Fin 2 × Fin 16) × Fin 16, (iprop(∃ f : Buf (Elt F) (outLoc3 d),
        ⌜∀ (r : Fin 128) (e : Fin 32), (outAt (coords3 x.1.1 x.1.2) (D3.tr x.2)).view.read (Elt F) f (ix2 r e)
          = G ((outAt (coords3 x.1.1 x.1.2) (D3.tr x.2)).view.emb (ix2 r e))⌝
        ∗ (outLoc3 d ↦[outSet x]{fullShare} f)) : sProp 𝕄)
      ⊢ iprop(∃ f : Buf (Elt F) (outLoc3 d), ⌜∀ i ∈ outSet x, f i = G i⌝ ∗ (outLoc3 d ↦[outSet x]{fullShare} f)) := fun x => by
    iintro ⟨%f, %hf, H⟩
    iexists f
    isplitr
    · ipureintro; exact agrees_on_block G d x f hf
    · iexact H
  exact (sep_mono_l (bigSep_mono fun x _ => hblock x)).trans (value_join (F := F) (ℓ := outLoc3 d) Finset.univ outSet outSet_disjoint
    (fun y => by obtain ⟨x, hx⟩ := out_cover3 y; exact ⟨x, Finset.mem_univ _, hx⟩) fullShare G o)

/-! ## The specified result, and what it asks of a block -/

/-- the specified result: position (t, n, e) holds lane e of the table row the word at flat position t·16384 + n names -/
def specG3 (tbv : S1000x128.Idx → Elt F .f32) (wd : S65536.Idx → BitVec 32) : S4x16384x32.Idx → Elt F .f32 :=
  fun y => tbv (ix2 (Cert.Spec.row (wd (ix1 (⟨(y 0).val * 16384 + (y 1).val, by
      have h0 : (y 0).val < 4 := (y 0).isLt
      have h1 : (y 1).val < 16384 := (y 1).isLt
      omega⟩ : Fin 65536))))
    (⟨(y 2).val, by have h2 : (y 2).val < 32 := (y 2).isLt; omega⟩ : Fin 128))

/-- the call's value specification, by coordinates -/
def SpecQ3 (tbv : S1000x128.Idx → Elt F .f32) (wd : S65536.Idx → BitVec 32) (o' : S4x16384x32.Idx → Elt F .f32) : Prop :=
  ∀ (t : Fin 4) (n : Fin 16384) (e : Fin 32),
    o' (ix3 t n e) = tbv (ix2 (Cert.Spec.row (wd (ix1 (⟨t.val * 16384 + n.val, by have := t.isLt; have := n.isLt; omega⟩ : Fin 65536))))
      (⟨e.val, by have := e.isLt; omega⟩ : Fin 128))

theorem specQ_iff3 (tbv : S1000x128.Idx → Elt F .f32) (wd : S65536.Idx → BitVec 32) (o' : S4x16384x32.Idx → Elt F .f32) :
    (∀ y, o' y = specG3 tbv wd y) ↔ SpecQ3 tbv wd o' := by
  constructor
  · intro h t n e; exact h (ix3 t n e)
  · intro h y
    obtain ⟨t, n, e, rfl⟩ : ∃ (t : Fin 4) (n : Fin 16384) (e : Fin 32), y = ix3 t n e := ⟨y 0, y 1, y 2, eq_ix3 y⟩
    exact h t n e

/-- at entry (r, e) of worker w's trip-j block the specification asks for lane e of the table row named by the
    word at position 128·j + r of the worker's own slice -/
theorem specG_block3 (tbv : S1000x128.Idx → Elt F .f32) (wd : S65536.Idx → BitVec 32) (p : Fin 2 × Fin 16) (j : Fin 16) (r : Fin 128) (e : Fin 32) :
    specG3 tbv wd ((outAt (coords3 p.1 p.2) (D3.tr j)).view.emb (ix2 r e))
      = tbv (ix2 (Cert.Spec.row (wd ((idxSl (coords3 p.1 p.2)).view.emb (ix1 (⟨128 * j.val + r.val, by have := j.isLt; have := r.isLt; omega⟩ : Fin 2048)))))
          (⟨e.val, by have := e.isLt; omega⟩ : Fin 128)) := by
  rw [outAt_emb3, idxSl_emb3]
  have hpos : (⟨((2 * p.2.val + p.1.val) / 8) * 16384 + (((2 * p.2.val + p.1.val) % 8) * 2048 + 128 * j.val + r.val), by have := p.1.isLt; have := p.2.isLt; have := j.isLt; have := r.isLt; omega⟩ : Fin 65536)
      = ⟨2048 * (2 * p.2.val + p.1.val) + 128 * j.val + r.val, by have := p.1.isLt; have := p.2.isLt; have := j.isLt; have := r.isLt; omega⟩ := Fin.ext (flat_pos3 _ _ _)
  show tbv (ix2 (Cert.Spec.row (wd (ix1 (⟨((2 * p.2.val + p.1.val) / 8) * 16384 + (((2 * p.2.val + p.1.val) % 8) * 2048 + 128 * j.val + r.val), _⟩ : Fin 65536))))
    (⟨e.val, _⟩ : Fin 128)) = _
  rw [hpos]

end Cert.KernelIdeal.Hand.C3

end
-- ==== Proof.KernelIdeal.DealV3.lean ====
/-
  Taking the fourth gather call's arrays back with their contents: each subcore hands back its blocks holding the
  table rows its words name; a block's word at row `r` of trip `j` is word `128·j + r` of the subcore's slice, which
  is the word at the block's own flat position, so every block agrees with the specified result on its positions; the
  blocks cover the result, so the result comes back whole at the specified contents, and the token words unchanged.
-/
import proofs.«203661_g84404697301628_cont_9to1_m_135_26_alg».proof.Proof.KernelIdeal.TileOblV3
import proofs.«203661_g84404697301628_cont_9to1_m_135_26_alg».proof.Proof.KernelIdeal.ValueGeo3

noncomputable section

namespace Cert.KernelIdeal.Hand.C3

open Cert.KernelIdeal Cert.KernelIdeal.Gen Cert.KernelIdeal.Hand
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [hK : Cert.KernelIdeal.Facts] [FloatOps F]

local notation "𝕄" => MT nD τ sig (HIx 4) (Elt F) ℕ UU ℕ

/-- the word by which trip `j` gathers its row `r` is word `128·j + r` of the subcore's slice of the token words -/
theorem wordAt_block (d : Dev nD) (p : Fin 2 × Fin 16) (j : Fin 16) (wdv : Buf (Elt F) (idxLoc3 d)) (r : Fin 128) :
    wordAt (F := F) (fetched d (coords3 p.1 p.2) wdv) (D3.tr j) r
      = wdv ((idxSl (coords3 p.1 p.2)).view.emb (ix1 (⟨128 * j.val + r.val, by have := j.isLt; have := r.isLt; omega⟩ : Fin 2048))) := by
  have he : (offsAt (D3.tr j)).view.emb (ix1 r) = (ix1 (⟨128 * j.val + r.val, by have := j.isLt; have := r.isLt; omega⟩ : Fin 2048) : S2048.Idx) := by
    show (Rect.unit (s := S2048) (k3_off6 (D3.tr j)) S128.size (k3_off6_inb (D3.tr j))).emb (ix1 r) = _
    funext a
    apply Fin.ext
    match a with
    | ⟨0, _⟩ =>
      show k3_off6 (D3.tr j) 0 + 1 * r.val = 128 * j.val + r.val
      rw [k3_off6_eq]
      show 128 * (D3.tr j).val + 1 * r.val = 128 * j.val + r.val
      rw [D3.tr_val]; omega
  show wdv ((idxSl (coords3 p.1 p.2)).view.emb ((offsAt (D3.tr j)).view.emb (ix1 r))) = _
  rw [he]

/-- what a handed-back block is known to hold -/
def blkV (tbv : (d : Dev nD) → Buf (Elt F) (tblLoc d)) (wd : (d : Dev nD) → Buf (Elt F) (idxLoc3 d)) (d : Dev nD) (x : (Fin 2 × Fin 16) × Fin 16)
    (f : Buf (Elt F) (outLoc3 d)) : Prop :=
  BlkOK (F := F) d (coords3 x.1.1 x.1.2) (tbv d) (fetched d (coords3 x.1.1 x.1.2) (wd d)) (D3.tr x.2) f

/-- a subcore's handed-back part, by its pieces -/
theorem Rtd3_eq (tbv : (d : Dev nD) → Buf (Elt F) (tblLoc d)) (wd : (d : Dev nD) → Buf (Elt F) (idxLoc3 d)) (d : Dev nD) (p : Fin 2 × Fin 16) :
    Rtd3 tbv wd d p.1 p.2 = iprop((idxLoc3 d ↦[idxSet p]{fullShare} wd d)
      ∗ bigSep Finset.univ fun j : Fin 16 => iprop(∃ f : Buf (Elt F) (outLoc3 d), (outLoc3 d ↦[outSet (p, j)]{fullShare} f) ∗ ⌜blkV tbv wd d (p, j) f⌝)) := by
  rw [bigSep_W16]
  rfl

/-- a handed-back block agrees with the specified result at every entry -/
theorem blk_spec (tbv : (d : Dev nD) → Buf (Elt F) (tblLoc d)) (wd : (d : Dev nD) → Buf (Elt F) (idxLoc3 d)) (d : Dev nD) (x : (Fin 2 × Fin 16) × Fin 16)
    (f : Buf (Elt F) (outLoc3 d)) (hb : blkV tbv wd d x f) (r : Fin 128) (e : Fin 32) :
    (outAt (coords3 x.1.1 x.1.2) (D3.tr x.2)).view.read (Elt F) f (ix2 r e)
      = specG3 (tbv d) (wd d) ((outAt (coords3 x.1.1 x.1.2) (D3.tr x.2)).view.emb (ix2 r e)) := by
  rw [specG_block3 (tbv d) (wd d) x.1 x.2 r e, ← wordAt_block d x.1 x.2 (wd d) r]
  exact hb r e

/-- AND BACK, WITH CONTENTS: every subcore's handed-back part and the rest are the token words, unchanged, and the result
    whole at the specified contents -/
theorem backV3 (tbv : (d : Dev nD) → Buf (Elt F) (tblLoc d)) (wd : (d : Dev nD) → Buf (Elt F) (idxLoc3 d)) (d : Dev nD) (o : Buf (Elt F) (outLoc3 d)) :
    iprop((bigSep Finset.univ fun c : Fin 2 => bigSep Finset.univ fun i : Fin 16 => Rtd3 tbv wd d c i) ∗ rem3 wd d o)
      ⊢ iprop((idxLoc3 d ↦[Finset.univ]{fullShare} wd d)
          ∗ ∃ o' : Buf (Elt F) (outLoc3 d), ⌜SpecQ3 (tbv d) (wd d) o'⌝ ∗ (outLoc3 d ↦[Finset.univ]{fullShare} o')) := by
  rw [← SparseCore.bigSep_product Finset.univ Finset.univ (fun p : Fin 2 × Fin 16 => Rtd3 tbv wd d p.1 p.2), Finset.univ_product_univ,
    bigSep_congr (fun p _ => Rtd3_eq tbv wd d p), bigSep_sep',
    ← SparseCore.bigSep_product Finset.univ Finset.univ (fun x : (Fin 2 × Fin 16) × Fin 16 => iprop(∃ f : Buf (Elt F) (outLoc3 d), (outLoc3 d ↦[outSet x]{fullShare} f) ∗ ⌜blkV tbv wd d x f⌝)),
    Finset.univ_product_univ]
  unfold rem3
  have hconv : ∀ x : (Fin 2 × Fin 16) × Fin 16, (iprop(∃ f : Buf (Elt F) (outLoc3 d), (outLoc3 d ↦[outSet x]{fullShare} f) ∗ ⌜blkV tbv wd d x f⌝) : sProp 𝕄)
      ⊢ iprop(∃ f : Buf (Elt F) (outLoc3 d),
          ⌜∀ (r : Fin 128) (e : Fin 32), (outAt (coords3 x.1.1 x.1.2) (D3.tr x.2)).view.read (Elt F) f (ix2 r e)
            = specG3 (tbv d) (wd d) ((outAt (coords3 x.1.1 x.1.2) (D3.tr x.2)).view.emb (ix2 r e))⌝
          ∗ (outLoc3 d ↦[outSet x]{fullShare} f)) := fun x => by
    iintro ⟨%f, H, %hb⟩
    iexists f
    isplitr
    · ipureintro; exact fun r e => blk_spec tbv wd d x f hb r e
    · iexact H
  have hjoin : (iprop((bigSep Finset.univ fun x : (Fin 2 × Fin 16) × Fin 16 => iprop(∃ f : Buf (Elt F) (outLoc3 d), (outLoc3 d ↦[outSet x]{fullShare} f) ∗ ⌜blkV tbv wd d x f⌝))
        ∗ (outLoc3 d ↦[Finset.univ \ Finset.univ.biUnion outSet]{fullShare} o)) : sProp 𝕄)
      ⊢ iprop(∃ o' : Buf (Elt F) (outLoc3 d), ⌜∀ y, o' y = specG3 (tbv d) (wd d) y⌝ ∗ (outLoc3 d ↦[Finset.univ]{fullShare} o')) :=
    (sep_mono_l (bigSep_mono fun x _ => hconv x)).trans (out_join3 (F := F) (specG3 (tbv d) (wd d)) d o)
  iintro ⟨⟨Hi, Ho⟩, Hir, Hor⟩
  isplitl [Hi Hir]
  · iapply (idx_cut (F := F) d (wd d)).2
    isplitl [Hi]; · iexact Hi
    iexact Hir
  · ihave H := hjoin $$ [Ho Hor]
    · isplitl [Ho]; · iexact Ho
      iexact Hor
    icases H with ⟨%o', %ho', H⟩
    iexists o'
    isplitr
    · ipureintro; exact (specQ_iff3 (tbv d) (wd d) o').1 ho'
    · iexact H

end Cert.KernelIdeal.Hand.C3

end
-- ==== Proof.KernelIdeal.WordsRead.lean ====
/-
  The token words a gather call is given, read at a position.

  The host prefix transposes the token words and flattens them, so flat position `p` holds the word
  `idx (p mod 16384, p div 16384)`, and cuts the flat list into the four runs the calls take, at positions `0 …`,
  `16384 …`, `32768 …`, `65536 …`. A call over the run starting at token position `s₀` thus sees, at its flat
  position `t · 16384 + n`, the word `idx (n, s₀ + t)`.
-/
import proofs.«203661_g84404697301628_cont_9to1_m_135_26_alg».proof.KernelIdeal
import Idealize.ShloMosaic.Lib.ValueLayout
import Idealize.ShloMosaic.Lib.ValueIdx

noncomputable section

namespace Cert.KernelIdeal.Hand.Launch

open Cert.KernelIdeal Cert.KernelIdeal.Facts₀ Idealize.ShloMosaic Idealize.ShloMosaic.ValueIdx

variable [hK : Cert.KernelIdeal.Facts] {α : Type}

/-- The transposed token words at `(t, n)` are the words at `(n, t)`. -/
theorem idxT_apply (idx : S16384x8.Idx → α) (t : Fin 8) (n : Fin 16384) :
    transpose S8x16384 [1, 0] idx transposes_S16384x8_S8x16384_1_0 (ix2 t n) = idx (ix2 n t) :=
  transpose_ix2_apply idx transposes_S16384x8_S8x16384_1_0 t n

/-- The flattened transposed words at flat position `p`: the word of sequence `p mod 16384` at token position
    `p div 16384`. -/
theorem flat_apply (idx : S16384x8.Idx → α) (p : Fin 131072) :
    shapeCast S131072 (transpose S8x16384 [1, 0] idx transposes_S16384x8_S8x16384_1_0) shapeCasts_S8x16384_S131072 (ix1 p)
      = idx (ix2 (⟨p.val % 16384, Nat.mod_lt _ (by decide)⟩ : Fin 16384) (⟨p.val / 16384, by have := p.isLt; omega⟩ : Fin 8)) := by
  rw [shapeCast_apply _ shapeCasts_S8x16384_S131072 (ix1 p)
    (ix2 (⟨p.val / 16384, by have := p.isLt; omega⟩ : Fin 8) (⟨p.val % 16384, Nat.mod_lt _ (by decide)⟩ : Fin 16384)) (by
      rw [Shape.rowMajor_val_one, Shape.rowMajor_val_two]
      show p.val / 16384 * 16384 + p.val % 16384 = p.val
      omega)]
  exact idxT_apply idx _ _

/-- The first run (token position 0) at position `n`. -/
theorem words0_apply (idx : S16384x8.Idx → α) (n : Fin 16384) :
    extractStridedSlice S16384 ![0]
        (shapeCast S131072 (transpose S8x16384 [1, 0] idx transposes_S16384x8_S8x16384_1_0) shapeCasts_S8x16384_S131072)
        slices_S131072_S16384_0 (ix1 n)
      = idx (ix2 n (0 : Fin 8)) := by
  rw [extractStridedSlice_apply _ _ slices_S131072_S16384_0 (ix1 n) (ix1 (⟨n.val, by have := n.isLt; omega⟩ : Fin 131072)) fun a => by
    match a with
    | ⟨0, _⟩ => show n.val = 0 + n.val; omega]
  rw [flat_apply]
  have hn : n.val < 16384 := n.isLt
  exact congrArg₂ (fun x y => idx (ix2 x y)) (Fin.ext (by show n.val % 16384 = n.val; omega))
    (Fin.ext (by show n.val / 16384 = 0; omega))

/-- The second run (token position 1) at position `n`. -/
theorem words1_apply (idx : S16384x8.Idx → α) (n : Fin 16384) :
    extractStridedSlice S16384 ![16384]
        (shapeCast S131072 (transpose S8x16384 [1, 0] idx transposes_S16384x8_S8x16384_1_0) shapeCasts_S8x16384_S131072)
        slices_S131072_S16384_16384 (ix1 n)
      = idx (ix2 n (1 : Fin 8)) := by
  rw [extractStridedSlice_apply _ _ slices_S131072_S16384_16384 (ix1 n) (ix1 (⟨16384 + n.val, by have := n.isLt; omega⟩ : Fin 131072)) fun a => by
    match a with
    | ⟨0, _⟩ => rfl]
  rw [flat_apply]
  have hn : n.val < 16384 := n.isLt
  exact congrArg₂ (fun x y => idx (ix2 x y)) (Fin.ext (by show (16384 + n.val) % 16384 = n.val; omega))
    (Fin.ext (by show (16384 + n.val) / 16384 = 1; omega))

/-- The first and second runs at the flat position `t · 16384 + n` of a one-position run (`t = 0`): the form the
    longer runs' readings below have. -/
theorem words0_at (idx : S16384x8.Idx → α) (t : Fin 1) (n : Fin 16384) :
    extractStridedSlice S16384 ![0]
        (shapeCast S131072 (transpose S8x16384 [1, 0] idx transposes_S16384x8_S8x16384_1_0) shapeCasts_S8x16384_S131072)
        slices_S131072_S16384_0 (ix1 (⟨t.val * 16384 + n.val, by have := t.isLt; have := n.isLt; omega⟩ : Fin 16384))
      = idx (ix2 n (⟨0 + t.val, by have := t.isLt; omega⟩ : Fin 8)) := by
  have ht : t.val = 0 := by have := t.isLt; omega
  have hp : (⟨t.val * 16384 + n.val, by have := n.isLt; omega⟩ : Fin 16384) = n := Fin.ext (by show t.val * 16384 + n.val = n.val; omega)
  rw [hp, words0_apply]
  exact congrArg (fun s => idx (ix2 n s)) (Fin.ext (by show 0 = 0 + t.val; omega))
theorem words1_at (idx : S16384x8.Idx → α) (t : Fin 1) (n : Fin 16384) :
    extractStridedSlice S16384 ![16384]
        (shapeCast S131072 (transpose S8x16384 [1, 0] idx transposes_S16384x8_S8x16384_1_0) shapeCasts_S8x16384_S131072)
        slices_S131072_S16384_16384 (ix1 (⟨t.val * 16384 + n.val, by have := t.isLt; have := n.isLt; omega⟩ : Fin 16384))
      = idx (ix2 n (⟨1 + t.val, by have := t.isLt; omega⟩ : Fin 8)) := by
  have ht : t.val = 0 := by have := t.isLt; omega
  have hp : (⟨t.val * 16384 + n.val, by have := n.isLt; omega⟩ : Fin 16384) = n := Fin.ext (by show t.val * 16384 + n.val = n.val; omega)
  rw [hp, words1_apply]
  exact congrArg (fun s => idx (ix2 n s)) (Fin.ext (by show 1 = 1 + t.val; omega))

/-- The third run (token positions 2 and 3) at position `t · 16384 + n`. -/
theorem words2_apply (idx : S16384x8.Idx → α) (t : Fin 2) (n : Fin 16384) :
    extractStridedSlice S32768 ![32768]
        (shapeCast S131072 (transpose S8x16384 [1, 0] idx transposes_S16384x8_S8x16384_1_0) shapeCasts_S8x16384_S131072)
        slices_S131072_S32768_32768 (ix1 (⟨t.val * 16384 + n.val, by have := t.isLt; have := n.isLt; omega⟩ : Fin 32768))
      = idx (ix2 n (⟨2 + t.val, by have := t.isLt; omega⟩ : Fin 8)) := by
  have ht : t.val < 2 := t.isLt
  have hn : n.val < 16384 := n.isLt
  rw [extractStridedSlice_apply _ _ slices_S131072_S32768_32768 _ (ix1 (⟨32768 + (t.val * 16384 + n.val), by omega⟩ : Fin 131072)) fun a => by
    match a with
    | ⟨0, _⟩ => rfl]
  rw [flat_apply]
  exact congrArg₂ (fun x y => idx (ix2 x y)) (Fin.ext (by show (32768 + (t.val * 16384 + n.val)) % 16384 = n.val; omega))
    (Fin.ext (by show (32768 + (t.val * 16384 + n.val)) / 16384 = 2 + t.val; omega))

/-- The fourth run (token positions 4 to 7) at position `t · 16384 + n`. -/
theorem words3_apply (idx : S16384x8.Idx → α) (t : Fin 4) (n : Fin 16384) :
    extractStridedSlice S65536 ![65536]
        (shapeCast S131072 (transpose S8x16384 [1, 0] idx transposes_S16384x8_S8x16384_1_0) shapeCasts_S8x16384_S131072)
        slices_S131072_S65536_65536 (ix1 (⟨t.val * 16384 + n.val, by have := t.isLt; have := n.isLt; omega⟩ : Fin 65536))
      = idx (ix2 n (⟨4 + t.val, by have := t.isLt; omega⟩ : Fin 8)) := by
  have ht : t.val < 4 := t.isLt
  have hn : n.val < 16384 := n.isLt
  rw [extractStridedSlice_apply _ _ slices_S131072_S65536_65536 _ (ix1 (⟨65536 + (t.val * 16384 + n.val), by omega⟩ : Fin 131072)) fun a => by
    match a with
    | ⟨0, _⟩ => rfl]
  rw [flat_apply]
  exact congrArg₂ (fun x y => idx (ix2 x y)) (Fin.ext (by show (65536 + (t.val * 16384 + n.val)) % 16384 = n.val; omega))
    (Fin.ext (by show (65536 + (t.val * 16384 + n.val)) / 16384 = 4 + t.val; omega))

end Cert.KernelIdeal.Hand.Launch

end
-- ==== Proof.WordRange.lean ====
/-
  A token word in the precondition's signed range `0 ≤ w ≤ 999` names a row of the 1000-row table.
-/
import Mathlib.Data.BitVec

namespace Cert.KernelIdeal.Hand

/-- read unsigned, a 32-bit word whose signed value lies in `[0, 999]` is below 1000 -/
theorem toNat_lt_of_signed_range (w : BitVec 32) (h : 0 ≤ w.toInt ∧ w.toInt ≤ 999) : w.toNat < 1000 := by
  have hw := w.isLt
  rw [BitVec.toInt_eq_toNat_cond] at h
  split at h <;> omega

end Cert.KernelIdeal.Hand
-- ==== Proof.KernelIdeal.WordsRange.lean ====
/-
  Every token word a gather call is given names a row of the table.

  The host prefix transposes and flattens the token words and cuts the flat list into the four runs the calls take,
  so each word of a run is one of the launch's token words; the precondition says every token word lies in `[0, 999]`
  read signed, and such a word read unsigned is below 1000.
-/
import proofs.«203661_g84404697301628_cont_9to1_m_135_26_alg».proof.Proof.KernelIdeal.HeadOps
import proofs.«203661_g84404697301628_cont_9to1_m_135_26_alg».proof.Proof.KernelIdeal.WordsRead
import proofs.«203661_g84404697301628_cont_9to1_m_135_26_alg».proof.Proof.RefPre
import proofs.«203661_g84404697301628_cont_9to1_m_135_26_alg».proof.Proof.WordRange

set_option maxRecDepth 16384

noncomputable section

namespace Cert.KernelIdeal.Hand.Launch

open Cert.KernelIdeal Cert.KernelIdeal.Gen
open Idealize.ShloMosaic Idealize.ShloMosaic.TcCoe Idealize.ShloMosaic.ValueIdx Idealize.ShloMosaic.StableHlo

variable {F : FTy → Type} [FloatOps F]

/-- the flattened transposed token words, as the host prefix leaves them -/
theorem pre_v4 (V : Valuation τ sig (Elt F)) :
    StableHlo.after (preOps (F := F)) V (Proc.devRef .tc main_v4)
      = shapeCast S131072 (transpose S8x16384 [1, 0] (V (Proc.devRef .tc main_arg0)) transposes_S16384x8_S8x16384_1_0) shapeCasts_S8x16384_S131072 := by
  after_results_simp
  rfl

/-- the first run -/
theorem pre_v5 (V : Valuation τ sig (Elt F)) :
    StableHlo.after (preOps (F := F)) V (Proc.devRef .tc main_v5)
      = extractStridedSlice S16384 ![0]
          (shapeCast S131072 (transpose S8x16384 [1, 0] (V (Proc.devRef .tc main_arg0)) transposes_S16384x8_S8x16384_1_0) shapeCasts_S8x16384_S131072)
          slices_S131072_S16384_0 := by
  after_results_simp
  rfl

/-- the later runs: a slice of the flat list a valuation holds, and so of the host prefix's -/
theorem slice1_of (W : Valuation τ sig (Elt F)) :
    StableHlo.after (sliceOps1 (F := F)) W (Proc.devRef .tc main_v7)
      = extractStridedSlice S16384 ![16384] (W (Proc.devRef .tc main_v4)) slices_S131072_S16384_16384 := by
  simp only [StableHlo.after_cons, StableHlo.after_nil]
  rw [StableHlo.unary_result]
theorem slice1_v7 (V : Valuation τ sig (Elt F)) :
    StableHlo.after (sliceOps1 (F := F)) (StableHlo.after (preOps (F := F)) V) (Proc.devRef .tc main_v7)
      = extractStridedSlice S16384 ![16384]
          (shapeCast S131072 (transpose S8x16384 [1, 0] (V (Proc.devRef .tc main_arg0)) transposes_S16384x8_S8x16384_1_0) shapeCasts_S8x16384_S131072)
          slices_S131072_S16384_16384 := by
  rw [slice1_of, pre_v4]
theorem slice2_of (W : Valuation τ sig (Elt F)) :
    StableHlo.after (sliceOps2 (F := F)) W (Proc.devRef .tc main_v9)
      = extractStridedSlice S32768 ![32768] (W (Proc.devRef .tc main_v4)) slices_S131072_S32768_32768 := by
  simp only [StableHlo.after_cons, StableHlo.after_nil]
  rw [StableHlo.unary_result]
theorem slice2_v9 (V : Valuation τ sig (Elt F)) :
    StableHlo.after (sliceOps2 (F := F)) (StableHlo.after (preOps (F := F)) V) (Proc.devRef .tc main_v9)
      = extractStridedSlice S32768 ![32768]
          (shapeCast S131072 (transpose S8x16384 [1, 0] (V (Proc.devRef .tc main_arg0)) transposes_S16384x8_S8x16384_1_0) shapeCasts_S8x16384_S131072)
          slices_S131072_S32768_32768 := by
  rw [slice2_of, pre_v4]
theorem slice3_of (W : Valuation τ sig (Elt F)) :
    StableHlo.after (sliceOps3 (F := F)) W (Proc.devRef .tc main_v11)
      = extractStridedSlice S65536 ![65536] (W (Proc.devRef .tc main_v4)) slices_S131072_S65536_65536 := by
  simp only [StableHlo.after_cons, StableHlo.after_nil]
  rw [StableHlo.unary_result]
theorem slice3_v11 (V : Valuation τ sig (Elt F)) :
    StableHlo.after (sliceOps3 (F := F)) (StableHlo.after (preOps (F := F)) V) (Proc.devRef .tc main_v11)
      = extractStridedSlice S65536 ![65536]
          (shapeCast S131072 (transpose S8x16384 [1, 0] (V (Proc.devRef .tc main_arg0)) transposes_S16384x8_S8x16384_1_0) shapeCasts_S8x16384_S131072)
          slices_S131072_S65536_65536 := by
  rw [slice3_of, pre_v4]

section Range
variable (V : Valuation τ sig (Elt F))
  (hidx : ∀ i, 0 ≤ (V (Proc.devRef .tc main_arg0) i).toInt ∧ (V (Proc.devRef .tc main_arg0) i).toInt ≤ 999)
include hidx

/-- every word of the first run names a table row -/
theorem words0_lt (y : S16384.Idx) : (StableHlo.after (preOps (F := F)) V (Proc.devRef .tc main_v5) y).toNat < 1000 := by
  obtain ⟨n, rfl⟩ : ∃ n : Fin 16384, y = ix1 n := ⟨y 0, eq_ix1 y⟩
  rw [pre_v5, words0_apply]
  exact toNat_lt_of_signed_range _ (hidx _)

/-- every word of the second run names a table row -/
theorem words1_lt (y : S16384.Idx) :
    (StableHlo.after (sliceOps1 (F := F)) (StableHlo.after (preOps (F := F)) V) (Proc.devRef .tc main_v7) y).toNat < 1000 := by
  obtain ⟨n, rfl⟩ : ∃ n : Fin 16384, y = ix1 n := ⟨y 0, eq_ix1 y⟩
  rw [slice1_v7, words1_apply]
  exact toNat_lt_of_signed_range _ (hidx _)

/-- every word of the third run names a table row -/
theorem words2_lt (y : S32768.Idx) :
    (StableHlo.after (sliceOps2 (F := F)) (StableHlo.after (preOps (F := F)) V) (Proc.devRef .tc main_v9) y).toNat < 1000 := by
  obtain ⟨p, rfl⟩ : ∃ p : Fin 32768, y = ix1 p := ⟨y 0, eq_ix1 y⟩
  have hp : p.val < 32768 := p.isLt
  have e : (ix1 p : S32768.Idx) = ix1 (⟨(⟨p.val / 16384, by omega⟩ : Fin 2).val * 16384 + (⟨p.val % 16384, Nat.mod_lt _ (by decide)⟩ : Fin 16384).val, by
      show p.val / 16384 * 16384 + p.val % 16384 < 32768; omega⟩ : Fin 32768) :=
    congrArg (ix1 (n := 32768)) (Fin.ext (by show p.val = p.val / 16384 * 16384 + p.val % 16384; omega))
  rw [slice2_v9, e, words2_apply]
  exact toNat_lt_of_signed_range _ (hidx _)

/-- every word of the fourth run names a table row -/
theorem words3_lt (y : S65536.Idx) :
    (StableHlo.after (sliceOps3 (F := F)) (StableHlo.after (preOps (F := F)) V) (Proc.devRef .tc main_v11) y).toNat < 1000 := by
  obtain ⟨p, rfl⟩ : ∃ p : Fin 65536, y = ix1 p := ⟨y 0, eq_ix1 y⟩
  have hp : p.val < 65536 := p.isLt
  have e : (ix1 p : S65536.Idx) = ix1 (⟨(⟨p.val / 16384, by omega⟩ : Fin 4).val * 16384 + (⟨p.val % 16384, Nat.mod_lt _ (by decide)⟩ : Fin 16384).val, by
      show p.val / 16384 * 16384 + p.val % 16384 < 65536; omega⟩ : Fin 65536) :=
    congrArg (ix1 (n := 65536)) (Fin.ext (by show p.val = p.val / 16384 * 16384 + p.val % 16384; omega))
  rw [slice3_v11, e, words3_apply]
  exact toNat_lt_of_signed_range _ (hidx _)

end Range

/-! ## From the precondition -/

section Pre
variable [hPre_input_domain : Cert.Pre_input_domain.Facts] (m : (ℓ : Loc nD τ sig) → Buf (Elt F) ℓ)
  (hpre : ∀ c : Dev nD, Cert.Pre_input_domain.fn (F := F) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) = fun _ => 1#1)
include hpre

/-- the launch's token words are in range on every device -/
theorem launch_idx_range (d : Dev nD) (i : S16384x8.Idx) :
    0 ≤ (m (d, Proc.devRef .tc main_arg0) i).toInt ∧ (m (d, Proc.devRef .tc main_arg0) i).toInt ≤ 999 :=
  Cert.RefSide.idx_range _ _ _ _ _ (hpre d) i

/-- each call's token words, as values of the launch memory, all name table rows -/
theorem hwd0 (d : Dev nD) (y : S16384.Idx) :
    (StableHlo.after (preOps (F := F)) (fun b => m (d, b)) (Proc.devRef .tc main_v5) y).toNat < 1000 :=
  words0_lt (fun b => m (d, b)) (launch_idx_range m hpre d) y
theorem hwd1 (d : Dev nD) (y : S16384.Idx) :
    (StableHlo.after (sliceOps1 (F := F)) (StableHlo.after (preOps (F := F)) (fun b => m (d, b))) (Proc.devRef .tc main_v7) y).toNat < 1000 :=
  words1_lt (fun b => m (d, b)) (launch_idx_range m hpre d) y
theorem hwd2 (d : Dev nD) (y : S32768.Idx) :
    (StableHlo.after (sliceOps2 (F := F)) (StableHlo.after (preOps (F := F)) (fun b => m (d, b))) (Proc.devRef .tc main_v9) y).toNat < 1000 :=
  words2_lt (fun b => m (d, b)) (launch_idx_range m hpre d) y
theorem hwd3 (d : Dev nD) (y : S65536.Idx) :
    (StableHlo.after (sliceOps3 (F := F)) (StableHlo.after (preOps (F := F)) (fun b => m (d, b))) (Proc.devRef .tc main_v11) y).toNat < 1000 :=
  words3_lt (fun b => m (d, b)) (launch_idx_range m hpre d) y

end Pre

end Cert.KernelIdeal.Hand.Launch

end
-- ==== Proof.AlgebraicClaim.lean ====
/-
  The equality claim, assembled. Both programs end with `Spec.logits` of the kernel's argument arrays: the reference by
  its run read operation by operation (`ref_half`), the kernel by the launch with contents tracked (`kernel_run_spec`):
  each gather call hands back, block by block, the table rows its words name; dealt back to the TensorCore the blocks
  are the whole gathered slab; the four regions multiply the slabs by the transposed weights and add the bias; and the
  final transpose is `Spec.logits`.
-/
import proofs.«203661_g84404697301628_cont_9to1_m_135_26_alg».proof.Defs
import proofs.«203661_g84404697301628_cont_9to1_m_135_26_alg».proof.Proof.KRunSpec
import proofs.«203661_g84404697301628_cont_9to1_m_135_26_alg».proof.Proof.KRunSpecPt
import proofs.«203661_g84404697301628_cont_9to1_m_135_26_alg».proof.Proof.RefHalf
import proofs.«203661_g84404697301628_cont_9to1_m_135_26_alg».proof.Proof.KernelIdeal.TileOblAllV
import proofs.«203661_g84404697301628_cont_9to1_m_135_26_alg».proof.Proof.KernelIdeal.Deal0
import proofs.«203661_g84404697301628_cont_9to1_m_135_26_alg».proof.Proof.KernelIdeal.Deal1
import proofs.«203661_g84404697301628_cont_9to1_m_135_26_alg».proof.Proof.KernelIdeal.Deal2
import proofs.«203661_g84404697301628_cont_9to1_m_135_26_alg».proof.Proof.KernelIdeal.Deal3
import proofs.«203661_g84404697301628_cont_9to1_m_135_26_alg».proof.Proof.KernelIdeal.DealV0
import proofs.«203661_g84404697301628_cont_9to1_m_135_26_alg».proof.Proof.KernelIdeal.DealV1
import proofs.«203661_g84404697301628_cont_9to1_m_135_26_alg».proof.Proof.KernelIdeal.DealV2
import proofs.«203661_g84404697301628_cont_9to1_m_135_26_alg».proof.Proof.KernelIdeal.DealV3
import proofs.«203661_g84404697301628_cont_9to1_m_135_26_alg».proof.Proof.KernelIdeal.WordsRange

noncomputable section

namespace Cert.KernelIdeal.Hand.Launch

open Cert.KernelIdeal Cert.KernelIdeal.Gen Cert.KernelIdeal.Hand
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

/-- a pure fact under an existential and a separating conjunct may be weakened -/
theorem spec_map {M : Type} [URA M] {α : Type} {A : sProp M} {P Q : α → Prop} {B : α → sProp M} (h : ∀ a, P a → Q a) :
    iprop(A ∗ ∃ a, ⌜P a⌝ ∗ B a) ⊢ iprop(A ∗ ∃ a, ⌜Q a⌝ ∗ B a) := by
  iintro ⟨HA, %a, %hp, HB⟩
  isplitl [HA]; · iexact HA
  iexists a; isplitr
  · ipureintro; exact h a hp
  · iexact HB

/-- Under the precondition and the agreement of the argument arrays, both programs end with the same result. -/
theorem algebraic_claim [hKernelIdeal : Cert.KernelIdeal.Facts] [hReferenceIdeal : Cert.ReferenceIdeal.Facts]
    [hPre_input_domain : Cert.Pre_input_domain.Facts] : Cert.algebraic_KernelIdeal_ReferenceIdeal := by
  intro m g m' g' hpre hagree
  refine ⟨fun c => Cert.Spec.logits (m ((c.tc : Thread nD τ).loc main_arg0)) (m ((c.tc : Thread nD τ).loc main_arg1))
      (m ((c.tc : Thread nD τ).loc main_arg3)) (m ((c.tc : Thread nD τ).loc main_arg4)), ?_, Cert.RefSide.ref_half m m' g' hpre hagree⟩
  have h0 : ∀ d y, (wd0 m d y).toNat < 1000 := fun d y => by unfold wd0 Vp V0; exact hwd0 m hpre d y
  have h1 : ∀ d y, (wd1 m d y).toNat < 1000 := fun d y => by unfold wd1 Vp V0; exact hwd1 m hpre d y
  have h2 : ∀ d y, (wd2 m d y).toNat < 1000 := fun d y => by unfold wd2 Vp V0; exact hwd2 m hpre d y
  have h3 : ∀ d y, (wd3 m d y).toNat < 1000 := fun d y => by unfold wd3 Vp V0; exact hwd3 m hpre d y
  exact kernel_run_spec m g (RsAll (wd0 m) (wd1 m) (wd2 m) (wd3 m)) (RtdAll (tb m) (wd0 m) (wd1 m) (wd2 m) (wd3 m))
    (RsAll_storable (wd0 m) (wd1 m) (wd2 m) (wd3 m)) (RtdAll_storable (tb m) (wd0 m) (wd1 m) (wd2 m) (wd3 m))
    (tileObl_allV facts (tb m) (wd0 m) (wd1 m) (wd2 m) (wd3 m) h0 h1 h2 h3 _ (by sl_refines_lev))
    (rem0 (wd0 m)) (deal0 (wd0 m))
    (fun d o => (backV0 (tb m) (wd0 m) d o).trans (spec_map fun o' h => SG0_of_pointwise m d o' h))
    (C1.rem1 (wd1 m)) (C1.deal1 (wd1 m))
    (fun d o => (C1.backV1 (tb m) (wd1 m) d o).trans (spec_map fun o' h => SG1_of_pointwise m d o' h))
    (C2.rem2 (wd2 m)) (C2.deal2 (wd2 m))
    (fun d o => (C2.backV2 (tb m) (wd2 m) d o).trans (spec_map fun o' h => SG2_of_pointwise m d o' h))
    (C3.rem3 (wd3 m)) (C3.deal3 (wd3 m))
    (fun d o => (C3.backV3 (tb m) (wd3 m) d o).trans (spec_map fun o' h => SG3_of_pointwise m d o' h))

end Cert.KernelIdeal.Hand.Launch

end
-- ==== Proof.KernelIdeal.FrameClaim.lean ====
/-
  The kernel program's frame claim, assembled: the launch theorem's run of the program (four SparseCore gather calls,
  four TensorCore regions) at the concrete resources — every vector subcore's slice of its call's token words and its
  blocks of the call's result — with the four task obligations, the four deals, and the fact that every token word a
  call sees names a row of the table, which is the precondition's range on the token ids read through @main's
  transpose, flattening and slices.
-/
import proofs.«203661_g84404697301628_cont_9to1_m_135_26_alg».proof.Defs
import proofs.«203661_g84404697301628_cont_9to1_m_135_26_alg».proof.Proof.KernelIdeal.KFrame
import proofs.«203661_g84404697301628_cont_9to1_m_135_26_alg».proof.Proof.KernelIdeal.TileOblAll
import proofs.«203661_g84404697301628_cont_9to1_m_135_26_alg».proof.Proof.KernelIdeal.Deal0
import proofs.«203661_g84404697301628_cont_9to1_m_135_26_alg».proof.Proof.KernelIdeal.Deal1
import proofs.«203661_g84404697301628_cont_9to1_m_135_26_alg».proof.Proof.KernelIdeal.Deal2
import proofs.«203661_g84404697301628_cont_9to1_m_135_26_alg».proof.Proof.KernelIdeal.Deal3
import proofs.«203661_g84404697301628_cont_9to1_m_135_26_alg».proof.Proof.KernelIdeal.WordsRange

noncomputable section

namespace Cert.KernelIdeal.Hand.Launch

open Cert.KernelIdeal Cert.KernelIdeal.Gen Cert.KernelIdeal.Hand
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.Sem

/-- The program runs to its end on every weakly fair schedule, faults nowhere, and leaves its five argument arrays as
    they were. -/
theorem frame_claim [hKernelIdeal : Cert.KernelIdeal.Facts] [hPre_input_domain : Cert.Pre_input_domain.Facts] :
    Cert.frame_KernelIdeal := by
  intro m g hpre
  have h0 : ∀ d y, (wd0 m d y).toNat < 1000 := fun d y => by unfold wd0 Vp V0; exact hwd0 m hpre d y
  have h1 : ∀ d y, (wd1 m d y).toNat < 1000 := fun d y => by unfold wd1 Vp V0; exact hwd1 m hpre d y
  have h2 : ∀ d y, (wd2 m d y).toNat < 1000 := fun d y => by unfold wd2 Vp V0; exact hwd2 m hpre d y
  have h3 : ∀ d y, (wd3 m d y).toNat < 1000 := fun d y => by unfold wd3 Vp V0; exact hwd3 m hpre d y
  exact kernel_frame m g (RsAll (wd0 m) (wd1 m) (wd2 m) (wd3 m)) (RsAll_storable (wd0 m) (wd1 m) (wd2 m) (wd3 m))
    (tileObl_all facts (tb m) (wd0 m) (wd1 m) (wd2 m) (wd3 m) h0 h1 h2 h3 _ (by sl_refines_lev))
    (rem0 (wd0 m)) (deal0 (wd0 m)) (back0 (wd0 m))
    (C1.rem1 (wd1 m)) (C1.deal1 (wd1 m)) (C1.back1 (wd1 m))
    (C2.rem2 (wd2 m)) (C2.deal2 (wd2 m)) (C2.back2 (wd2 m))
    (C3.rem3 (wd3 m)) (C3.deal3 (wd3 m)) (C3.back3 (wd3 m))

end Cert.KernelIdeal.Hand.Launch

end
-- ==== Proof.Kernel.KCommon.lean ====
/-
  The kernel program as the SparseCore launch theorem sees it, and the resource algebra its proof is carried in.

  @main on the TensorCore makes four SparseCore calls (the embedding gathers for token positions 0, 1, 2–3 and 4–7)
  and then enters four TensorCore regions (the vocabulary projection of each gathered slab). Three kinds of ghost
  state are needed side by side: the rounds of the four launch handshakes; the rounds of the TensorCore regions'
  staging cells; and plain exclusive counters for the copies a vector subcore issues and waits for on semaphores
  nobody else touches (one copy in flight per semaphore, so no schedule is needed for them).
-/
import proofs.«203661_g84404697301628_cont_9to1_m_135_26_alg».proof.Kernel
import proofs.«203661_g84404697301628_cont_9to1_m_135_26_alg».proof.Proof.Gen.Kernel
import proofs.«203661_g84404697301628_cont_9to1_m_135_26_alg».proof.Proof.Gen.Kernel.Skeleton
import Idealize.ShloMosaic.Lib.SparseCore.Launch
import Idealize.ShloMosaic.Lib.StableHlo.Run
import Idealize.ShloMosaic.Lib.Pipeline.Kit
import Idealize.ShloMosaic.Lib.Tactic

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [hK : Cert.Kernel.Facts]

/-! ## The program as the launch theorem sees it -/

abbrev ΛP : Labels := Pipeline.Sig Λ₀ (Fin 4) fun p => (pcfgs (F := F) p).Adm
abbrev K : SparseCore.Cfg τ sig (ΛP (F := F)) 4 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The launch handshakes' rounds. -/
abbrev UH : Type := URounds (GSem nD τ sig) ℕ
/-- The TensorCore regions' staging cells' rounds. -/
abbrev UP : Type := URounds (GSem nD τ sig) Unit
/-- Handshakes, staging cells, and the exclusive counters of the vector subcores' own copies. -/
abbrev UU : Type := UH × (UP × Counters)

/-- The handshakes' rounds library: the left factor. -/
abbrev EH : Emb UH (MT nD τ sig (HIx 4) (Elt F) ℕ UU ℕ) := embL

end Cert.Kernel.Hand

end
-- ==== Proof.Kernel.Pay.lean ====
/-
  What the four launch handshakes carry, and how a SparseCore's share is dealt to its sixteen vector subcores.

  Every call reads the same padded embedding table: the TensorCore lends each of the two SparseCores half of its
  share of the table, and a SparseCore lends each of its sixteen vector subcores a sixteenth of that. Besides the
  table a vector subcore is handed its own slice of the call's token words and its own blocks of the call's result;
  those differ from call to call and are kept abstract here (`Rs q d c i`), so that the split below is proved once for
  all four calls: it only cuts the table's share.
-/
import proofs.«203661_g84404697301628_cont_9to1_m_135_26_alg».proof.Proof.Kernel.KCommon

noncomputable section

namespace Cert.Kernel.Hand

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [hK : Cert.Kernel.Facts]

local notation "𝕄" => MT nD τ sig (HIx 4) (Elt F) ℕ UU ℕ

/-- the padded table, as the TensorCore names it -/
abbrev tblLoc (d : Dev nD) : Loc nD τ sig := (SparseCore.T d).loc main_v0

/-- a SparseCore's share of the table (half), and a vector subcore's (a sixteenth of that) -/
abbrev coreShare (c : Fin 2) : PosShare TreeShare := pieceOf fullShare 2 (by decide) c
abbrev tileShare (c : Fin 2) (i : Fin 16) : PosShare TreeShare := pieceOf (coreShare c) 16 (by decide) i

theorem nCore_eq (q : Fin 4) : (K (F := F)).nCore q = 2 := by
  match q with
  | 0 => rfl
  | 1 => rfl
  | 2 => rfl
  | 3 => rfl
theorem nSub_eq (q : Fin 4) : (K (F := F)).nSub q = 16 := by
  match q with
  | 0 => rfl
  | 1 => rfl
  | 2 => rfl
  | 3 => rfl

/-- what a vector subcore is handed and hands back: its share of the table and its own words and blocks -/
def tileRes (tb : (d : Dev nD) → Buf (Elt F) (tblLoc d)) (Rs : Fin 4 → Dev nD → Fin 2 → Fin 16 → sProp 𝕄) (q : Fin 4) (d : Dev nD) (c : Fin 2) (i : Fin 16) : sProp 𝕄 :=
  iprop((tblLoc d ↦{tileShare c i} tb d) ∗ Rs q d c i)
/-- what a SparseCore is handed and hands back: its share of the table and its subcores' words and blocks -/
def coreRes (tb : (d : Dev nD) → Buf (Elt F) (tblLoc d)) (Rs : Fin 4 → Dev nD → Fin 2 → Fin 16 → sProp 𝕄) (q : Fin 4) (d : Dev nD) (c : Fin 2) : sProp 𝕄 :=
  iprop((tblLoc d ↦{coreShare c} tb d) ∗ bigSep Finset.univ fun i : Fin 16 => Rs q d c i)

/-- The handshakes' payloads: the same both ways (contents of the result are not tracked here); no kernel consumes
    anything of the launch's. -/
def P (tb : (d : Dev nD) → Buf (Elt F) (tblLoc d)) (Rs : Fin 4 → Dev nD → Fin 2 → Fin 16 → sProp 𝕄) : (K (F := F)).Pay (nD := nD) (Val := Elt F) (Name := ℕ) (U := UU) where
  st := fun q d c => coreRes tb Rs q d (Fin.cast (nCore_eq q) c)
  dn := fun q d c => coreRes tb Rs q d (Fin.cast (nCore_eq q) c)
  go := fun q d c i => tileRes tb Rs q d (Fin.cast (nCore_eq q) c) (Fin.cast (nSub_eq q) i)
  td := fun q d c i => tileRes tb Rs q d (Fin.cast (nCore_eq q) c) (Fin.cast (nSub_eq q) i)
  x := fun _ _ => iprop(emp)

/-- the payloads can be stored in a handshake's cell when the subcores' own parts can -/
@[reducible] def P_storable (tb : (d : Dev nD) → Buf (Elt F) (tblLoc d)) (Rs : Fin 4 → Dev nD → Fin 2 → Fin 16 → sProp 𝕄) (hR : ∀ q d c i, BI.Storable (upEmb : UEmb _ 𝕄) (Rs q d c i)) : (P (F := F) tb Rs).IsStorable where
  st _ _ _ := by haveI := hR; unfold P coreRes; infer_instance
  dn _ _ _ := by haveI := hR; unfold P coreRes; infer_instance
  go _ _ _ _ := by haveI := hR; unfold P tileRes; infer_instance
  td _ _ _ _ := by haveI := hR; unfold P tileRes; infer_instance

theorem bigSep_tasks (q : Fin 4) (Φ : Fin 16 → sProp 𝕄) :
    (bigSep Finset.univ fun i : Fin ((K (F := F)).nSub q) => Φ (Fin.cast (nSub_eq q) i)) = bigSep Finset.univ Φ := by
  match q with
  | 0 => exact bigSep_congr fun _ _ => congrArg Φ (Fin.ext rfl)
  | 1 => exact bigSep_congr fun _ _ => congrArg Φ (Fin.ext rfl)
  | 2 => exact bigSep_congr fun _ _ => congrArg Φ (Fin.ext rfl)
  | 3 => exact bigSep_congr fun _ _ => congrArg Φ (Fin.ext rfl)

/-- A SparseCore's payload is its sixteen subcores' payloads, and back: only the table's share is cut. -/
theorem vecSplit (tb : (d : Dev nD) → Buf (Elt F) (tblLoc d)) (Rs : Fin 4 → Dev nD → Fin 2 → Fin 16 → sProp 𝕄) (q : Fin 4) : (K (F := F)).VecSplit' (P tb Rs) q := by
  intro d c
  show coreRes tb Rs q d (Fin.cast (nCore_eq q) c) ⊢ |={Set.univ}=> iprop(
      (bigSep Finset.univ fun i : Fin ((K (F := F)).nSub q) => tileRes tb Rs q d (Fin.cast (nCore_eq q) c) (Fin.cast (nSub_eq q) i))
      ∗ ((bigSep Finset.univ fun i : Fin ((K (F := F)).nSub q) => tileRes tb Rs q d (Fin.cast (nCore_eq q) c) (Fin.cast (nSub_eq q) i))
          -∗ coreRes tb Rs q d (Fin.cast (nCore_eq q) c)))
  rw [bigSep_tasks (F := F) q (fun i => tileRes tb Rs q d (Fin.cast (nCore_eq q) c) i)]
  unfold coreRes tileRes
  rw [bigSep_sep', pointsTo_piecesOf Finset.univ (tb d) (show 0 < 16 by decide) (coreShare (Fin.cast (nCore_eq q) c))]
  iintro H; imodintro
  isplitl [H]; · iexact H
  iintro H; iexact H

end Cert.Kernel.Hand

end
-- ==== Proof.Kernel.Body4.lean ====
import proofs.«203661_g84404697301628_cont_9to1_m_135_26_alg».proof.Proof.Gen.Kernel.Launch
import proofs.«203661_g84404697301628_cont_9to1_m_135_26_alg».proof.Proof.Gen.Kernel.Skeleton
import proofs.«203661_g84404697301628_cont_9to1_m_135_26_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # TensorCore region of pipeline `cfg4`: the body half

The region's windows: 0 the embedding block `[1, 8192, 32]`, 1 the weight block `[200, 32]`, 2 the bias column block
`[200, 1]` (inputs), 3 the result block `[1, 200, 8192]` (output). The body loads the three input buffers whole and
stores one payload over the whole output buffer. Everything is stated at a parameter `V` (the TensorCore's buffer
contents when the region is entered) and at ANY ambient resource model: index type `Ix`, invariant names `Name`, user
algebra `U`, levels `ℕ`. -/

set_option maxRecDepth 16384

noncomputable section

namespace Cert.Kernel.Heads

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U]

local notation "𝕄" => MT nD τ sig Ix (Elt F) Name U ℕ

variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is `V`'s and whose body leaves the block in place: an unfetched input's block index has not moved. -/
theorem before4_0_of {c : Dev nD} (dat : Dat τ (Elt F) Ix Name U ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any proof
    data whose array is `V`'s and whose body leaves the block in place: an unfetched input's block index has not moved. -/
theorem before4_1_of {c : Dev nD} (dat : Dat τ (Elt F) Ix Name U ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for any proof
    data whose array is `V`'s and whose body leaves the block in place: an unfetched input's block index has not moved. -/
theorem before4_2_of {c : Dev nD} (dat : Dat τ (Elt F) Ix Name U ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each buffer whole -/

abbrev r4_e : Rect S1x8192x32 := Rect.unit (s := S1x8192x32) ![0, 0, 0] S1x8192x32.size inb_S1x8192x32_S1x8192x32_0_0_0
abbrev r4_w : Rect S200x32 := Rect.unit (s := S200x32) ![0, 0] S200x32.size inb_S200x32_S200x32_0_0
abbrev r4_b : Rect S200x1 := Rect.unit (s := S200x1) ![0, 0] S200x1.size inb_S200x1_S200x1_0_0
abbrev r4_o : Rect S1x200x8192 := Rect.unit (s := S1x200x8192) ![0, 0, 0] S1x200x8192.size inb_S1x200x8192_S1x200x8192_0_0_0

/-! ## What the body leaves in the output window's buffer -/

/-- Window 3's staging buffer after the body, from the input windows' blocks `x0` (embedding), `x1` (weights), `x2` (bias
    column): its one store, over the whole buffer, of the skeleton's payload of the three loads. -/
def out4_3 (x0 : Vec F S1x8192x32 .f32) (x1 : Vec F S200x32 .f32) (x2 : Vec F S200x1 .f32) : Vec F S1x200x8192 .f32 :=
  View.canon [⟨r4_o, k4_pay1 (View.ld x1 r4_w) (View.ld x0 r4_e) (View.ld x2 r4_b)⟩]

/-- The one store tiles the buffer, so it covers it. -/
theorem cover4_3 (p0 : Vec F S1x200x8192 .f32) (y : S1x200x8192.Idx) :
    ∃ pc ∈ ([⟨r4_o, p0⟩] : List (View.Piece (Elt F) S1x200x8192 .f32)), y ∈ pc.1.set :=
  View.cover_of_tiled [⟨r4_o, p0⟩] S1x200x8192.size (by rfl) y

/-! ## The body's triple -/

set_option maxHeartbeats 1000000 in
/-- The kernel body on whole staging memrefs, the inputs' at read contents `x0 x1 x2` and the output's at anything, runs to
    the continuation holding the inputs' as they were and the output's at `out4_3` of the inputs'. -/
theorem sound_kernel4 (c : Dev nD) (E : Set Name) (i : grid4.Coords)
    (arg3 : Memref sig .tc .vmem S1x8192x32 .f32) (harg3 : arg3.IsWhole) (arg4 : Memref sig .tc .vmem S200x32 .f32) (harg4 : arg4.IsWhole)
    (arg5 : Memref sig .tc .vmem S200x1 .f32) (harg5 : arg5.IsWhole)
    (arg6 : Memref sig .tc .vmem S1x200x8192 .f32) (harg6 : arg6.IsWhole)
    (x0 : Vec F S1x8192x32 .f32) (x1 : Vec F S200x32 .f32) (x2 : Vec F S200x1 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out4_3 x0 x1 x2)) -∗ K ⟨⟩))
      ⊢ wp frame (wpE (defs₀ (F := F)) Variants.none c none) E (cc4__head_body i arg3 harg3 arg4 harg4 arg5 harg5 arg6 harg6) K := by
  simp only [cc4__head_body_eq_skeleton]; unfold cc4__head_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

end Cert.Kernel.Heads

end
-- ==== Proof.Kernel.Dat4.lean ====
import proofs.«203661_g84404697301628_cont_9to1_m_135_26_alg».proof.Proof.Kernel.Body4

/-! # TensorCore region of pipeline `cfg4`: the proof data and the body obligation

The pipeline's proof data at the entry contents `V`: the arrays as entered; after the body at a point each input's buffer
at its block and the output's at `out4_3` of the three input blocks; the invariant is the scoped buffers no window stages
and the generator register, untouched; nothing owed; full shares. Then the body obligation at a generic point. -/

set_option maxRecDepth 16384

noncomputable section

namespace Cert.Kernel.Heads

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U]

local notation "𝕄" => MT nD τ sig Ix (Elt F) Name U ℕ

variable (V : (c : Dev nD) → (b : Ref sig .tc) → Buf (Elt F) ((c : Thread nD τ).loc b))

/-! ## The pipeline's proof data -/

/-- The invariant between points: the core's scoped buffers that are no staging buffer, at some contents each, and its
    generator register at some state (the body uses neither). -/
def inv4 (c : Dev nD) : sProp 𝕄 :=
  iprop(Pipeline.scopedRest (Ix := Ix) (Name := Name) (U := U) (Lvl := ℕ) (Val := Elt F) spec4 c ∗ ∃ r, prngReg c r)

/-- The proof data of the pipeline on core `c`. -/
def dat4 (c : Dev nD) : Dat τ (Elt F) Ix Name U ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := inv4 (Ix := Ix) (Name := Name) (U := U) c
  q _ := fullShare
  owed _ := 0

/-- The proof data's arrays are the region-entry contents. -/
theorem A_eq4 (c : Dev nD) (w : Fin cfg4.W) : (dat4 (Ix := Ix) (Name := Name) (U := U) V c).A w = V c (Pipeline.arrRef spec4 w) := by
  dsimp only [dat4]

/-- What the body leaves, window by window. -/
theorem after4_0 (c : Dev nD) (t : Fin cfg4.N) : (dat4 (Ix := Ix) (Name := Name) (U := U) V c).after 0 t = iblk4 V c 0 t := by dsimp only [dat4]
theorem after4_1 (c : Dev nD) (t : Fin cfg4.N) : (dat4 (Ix := Ix) (Name := Name) (U := U) V c).after 1 t = iblk4 V c 1 t := by dsimp only [dat4]
theorem after4_2 (c : Dev nD) (t : Fin cfg4.N) : (dat4 (Ix := Ix) (Name := Name) (U := U) V c).after 2 t = iblk4 V c 2 t := by dsimp only [dat4]
theorem after4_3 (c : Dev nD) (t : Fin cfg4.N) :
    (dat4 (Ix := Ix) (Name := Name) (U := U) V c).after 3 t = out4_3 (iblk4 V c 0 t) (iblk4 V c 1 t) (iblk4 V c 2 t) := by dsimp only [dat4]

/-- Each input's current staging buffer holds its block at every point, fetched there or not. -/
theorem before4_0 (c : Dev nD) (t : Fin cfg4.N) (d) : (dat4 (Ix := Ix) (Name := Name) (U := U) V c).before 0 t d = iblk4 V c 0 t :=
  before4_0_of V (dat4 (Ix := Ix) (Name := Name) (U := U) V c) (A_eq4 V c 0) (after4_0 V c) t d
theorem before4_1 (c : Dev nD) (t : Fin cfg4.N) (d) : (dat4 (Ix := Ix) (Name := Name) (U := U) V c).before 1 t d = iblk4 V c 1 t :=
  before4_1_of V (dat4 (Ix := Ix) (Name := Name) (U := U) V c) (A_eq4 V c 1) (after4_1 V c) t d
theorem before4_2 (c : Dev nD) (t : Fin cfg4.N) (d) : (dat4 (Ix := Ix) (Name := Name) (U := U) V c).before 2 t d = iblk4 V c 2 t :=
  before4_2_of V (dat4 (Ix := Ix) (Name := Name) (U := U) V c) (A_eq4 V c 2) (after4_2 V c) t d

/-! ## The body obligation, at a generic point -/

/-- What the body is called with at point `t` (the obligation's precondition, the windows one by one), -/
def bodyPre4 (ι : Ix) (c : Dev nD) (t : Fin cfg4.N) : sProp 𝕄 :=
  iprop((dat4 (Ix := Ix) (Name := Name) (U := U) V c).Φ t.castSucc ∗ (dat4 (Ix := Ix) (Name := Name) (U := U) V c).owesAt ι t.castSucc
    ∗ (∃ d, owns (c : Thread nD τ) (st4_0 t) fullShare ((dat4 (Ix := Ix) (Name := Name) (U := U) V c).before 0 t d))
    ∗ (∃ d, owns (c : Thread nD τ) (st4_1 t) fullShare ((dat4 (Ix := Ix) (Name := Name) (U := U) V c).before 1 t d))
    ∗ (∃ d, owns (c : Thread nD τ) (st4_2 t) fullShare ((dat4 (Ix := Ix) (Name := Name) (U := U) V c).before 2 t d))
    ∗ (∃ d, owns (c : Thread nD τ) (st4_3 t) fullShare ((dat4 (Ix := Ix) (Name := Name) (U := U) V c).before 3 t d)))

/-- and what it returns. -/
def bodyPost4 (ι : Ix) (c : Dev nD) (t : Fin cfg4.N) : sProp 𝕄 :=
  iprop((dat4 (Ix := Ix) (Name := Name) (U := U) V c).Φ t.succ ∗ (dat4 (Ix := Ix) (Name := Name) (U := U) V c).owesAt ι t.succ
    ∗ owns (c : Thread nD τ) (st4_0 t) fullShare ((dat4 (Ix := Ix) (Name := Name) (U := U) V c).after 0 t)
    ∗ owns (c : Thread nD τ) (st4_1 t) fullShare ((dat4 (Ix := Ix) (Name := Name) (U := U) V c).after 1 t)
    ∗ owns (c : Thread nD τ) (st4_2 t) fullShare ((dat4 (Ix := Ix) (Name := Name) (U := U) V c).after 2 t)
    ∗ owns (c : Thread nD τ) (st4_3 t) fullShare ((dat4 (Ix := Ix) (Name := Name) (U := U) V c).after 3 t))

/-- The body at any point: the inputs' memrefs hold their blocks, so the body's triple applies; the invariant and the
    core's `owes` pass through unread. -/
theorem sound_body4 (ι : Ix) (c : Dev nD) (t : Fin cfg4.N) :
    bodyPre4 (Ix := Ix) (Name := Name) (U := U) V ι c t
      ⊢ wp frame (wpE (defs₀ (F := F)) Variants.none c none) Set.univ (bodyAt4 t) (fun _ => bodyPost4 (Ix := Ix) (Name := Name) (U := U) V ι c t) := by
  unfold bodyPre4 bodyPost4 bodyAt4
  simp only [before4_0, before4_1, before4_2]
  rw [show (dat4 (Ix := Ix) (Name := Name) (U := U) V c).Φ t.succ = (dat4 (Ix := Ix) (Name := Name) (U := U) V c).Φ t.castSucc from rfl,
    show (dat4 (Ix := Ix) (Name := Name) (U := U) V c).owesAt ι t.succ = (dat4 (Ix := Ix) (Name := Name) (U := U) V c).owesAt ι t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (ι : Ix) (c : Dev nD) :
    BodyObligation (dat4 (F := F) (Ix := Ix) (Name := Name) (U := U) V c) (defs₀ (F := F)) Variants.none ι Set.univ := fun t => by
  rw [bigSep_W4, bigSep_W4]
  exact sound_body4 V ι c t

end Cert.Kernel.Heads

end
-- ==== Proof.Kernel.Body5.lean ====
import proofs.«203661_g84404697301628_cont_9to1_m_135_26_alg».proof.Proof.Gen.Kernel.Launch
import proofs.«203661_g84404697301628_cont_9to1_m_135_26_alg».proof.Proof.Gen.Kernel.Skeleton
import proofs.«203661_g84404697301628_cont_9to1_m_135_26_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # TensorCore region of pipeline `cfg5`: the body half

The region's windows: 0 the embedding block `[1, 8192, 32]`, 1 the weight block `[200, 32]`, 2 the bias column block
`[200, 1]` (inputs), 3 the result block `[1, 200, 8192]` (output). The body loads the three input buffers whole and
stores one payload over the whole output buffer. Everything is stated at a parameter `V` (the TensorCore's buffer
contents when the region is entered) and at ANY ambient resource model: index type `Ix`, invariant names `Name`, user
algebra `U`, levels `ℕ`. -/

set_option maxRecDepth 16384

noncomputable section

namespace Cert.Kernel.Heads

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U]

local notation "𝕄" => MT nD τ sig Ix (Elt F) Name U ℕ

variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s and whose body leaves the block in place: an unfetched input's block index has not moved. -/
theorem before5_0_of {c : Dev nD} (dat : Dat τ (Elt F) Ix Name U ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is `V`'s and whose body leaves the block in place: an unfetched input's block index has not moved. -/
theorem before5_1_of {c : Dev nD} (dat : Dat τ (Elt F) Ix Name U ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is `V`'s and whose body leaves the block in place: an unfetched input's block index has not moved. -/
theorem before5_2_of {c : Dev nD} (dat : Dat τ (Elt F) Ix Name U ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer whole -/

abbrev r5_e : Rect S1x8192x32 := Rect.unit (s := S1x8192x32) ![0, 0, 0] S1x8192x32.size inb_S1x8192x32_S1x8192x32_0_0_0
abbrev r5_w : Rect S200x32 := Rect.unit (s := S200x32) ![0, 0] S200x32.size inb_S200x32_S200x32_0_0
abbrev r5_b : Rect S200x1 := Rect.unit (s := S200x1) ![0, 0] S200x1.size inb_S200x1_S200x1_0_0
abbrev r5_o : Rect S1x200x8192 := Rect.unit (s := S1x200x8192) ![0, 0, 0] S1x200x8192.size inb_S1x200x8192_S1x200x8192_0_0_0

/-! ## What the body leaves in the output window's buffer -/

/-- Window 3's staging buffer after the body, from the input windows' blocks `x0` (embedding), `x1` (weights), `x2` (bias
    column): its one store, over the whole buffer, of the skeleton's payload of the three loads. -/
def out5_3 (x0 : Vec F S1x8192x32 .f32) (x1 : Vec F S200x32 .f32) (x2 : Vec F S200x1 .f32) : Vec F S1x200x8192 .f32 :=
  View.canon [⟨r5_o, k5_pay1 (View.ld x1 r5_w) (View.ld x0 r5_e) (View.ld x2 r5_b)⟩]

/-- The one store tiles the buffer, so it covers it. -/
theorem cover5_3 (p0 : Vec F S1x200x8192 .f32) (y : S1x200x8192.Idx) :
    ∃ pc ∈ ([⟨r5_o, p0⟩] : List (View.Piece (Elt F) S1x200x8192 .f32)), y ∈ pc.1.set :=
  View.cover_of_tiled [⟨r5_o, p0⟩] S1x200x8192.size (by rfl) y

/-! ## The body's triple -/

set_option maxHeartbeats 1000000 in
/-- The kernel body on whole staging memrefs, the inputs' at read contents `x0 x1 x2` and the output's at anything, runs to
    the continuation holding the inputs' as they were and the output's at `out5_3` of the inputs'. -/
theorem sound_kernel5 (c : Dev nD) (E : Set Name) (i : grid5.Coords)
    (arg3 : Memref sig .tc .vmem S1x8192x32 .f32) (harg3 : arg3.IsWhole) (arg4 : Memref sig .tc .vmem S200x32 .f32) (harg4 : arg4.IsWhole)
    (arg5 : Memref sig .tc .vmem S200x1 .f32) (harg5 : arg5.IsWhole) (arg6 : Memref sig .tc .hbm S8x1000x16384 .f32) (harg6 : arg6.IsWhole)
    (arg7 : Memref sig .tc .vmem S1x200x8192 .f32) (harg7 : arg7.IsWhole)
    (x0 : Vec F S1x8192x32 .f32) (x1 : Vec F S200x32 .f32) (x2 : Vec F S200x1 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg7 fullShare (out5_3 x0 x1 x2)) -∗ K ⟨⟩))
      ⊢ wp frame (wpE (defs₀ (F := F)) Variants.none c none) E (cc5__head_body_alias i arg3 harg3 arg4 harg4 arg5 harg5 arg6 harg6 arg7 harg7) K := by
  simp only [cc5__head_body_alias_eq_skeleton]; unfold cc5__head_body_alias_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

end Cert.Kernel.Heads

end
-- ==== Proof.Kernel.Dat5.lean ====
import proofs.«203661_g84404697301628_cont_9to1_m_135_26_alg».proof.Proof.Kernel.Body5

/-! # TensorCore region of pipeline `cfg5`: the proof data and the body obligation

The pipeline's proof data at the entry contents `V`: the arrays as entered; after the body at a point each input's buffer
at its block and the output's at `out5_3` of the three input blocks; the invariant is the scoped buffers no window stages
and the generator register, untouched; nothing owed; full shares. Then the body obligation at a generic point. -/

set_option maxRecDepth 16384

noncomputable section

namespace Cert.Kernel.Heads

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U]

local notation "𝕄" => MT nD τ sig Ix (Elt F) Name U ℕ

variable (V : (c : Dev nD) → (b : Ref sig .tc) → Buf (Elt F) ((c : Thread nD τ).loc b))

/-! ## The pipeline's proof data -/

/-- The invariant between points: the core's scoped buffers that are no staging buffer, at some contents each, and its
    generator register at some state (the body uses neither). -/
def inv5 (c : Dev nD) : sProp 𝕄 :=
  iprop(Pipeline.scopedRest (Ix := Ix) (Name := Name) (U := U) (Lvl := ℕ) (Val := Elt F) spec5 c ∗ ∃ r, prngReg c r)

/-- The proof data of the pipeline on core `c`. -/
def dat5 (c : Dev nD) : Dat τ (Elt F) Ix Name U ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := inv5 (Ix := Ix) (Name := Name) (U := U) c
  q _ := fullShare
  owed _ := 0

/-- The proof data's arrays are the region-entry contents. -/
theorem A_eq5 (c : Dev nD) (w : Fin cfg5.W) : (dat5 (Ix := Ix) (Name := Name) (U := U) V c).A w = V c (Pipeline.arrRef spec5 w) := by
  dsimp only [dat5]

/-- What the body leaves, window by window. -/
theorem after5_0 (c : Dev nD) (t : Fin cfg5.N) : (dat5 (Ix := Ix) (Name := Name) (U := U) V c).after 0 t = iblk5 V c 0 t := by dsimp only [dat5]
theorem after5_1 (c : Dev nD) (t : Fin cfg5.N) : (dat5 (Ix := Ix) (Name := Name) (U := U) V c).after 1 t = iblk5 V c 1 t := by dsimp only [dat5]
theorem after5_2 (c : Dev nD) (t : Fin cfg5.N) : (dat5 (Ix := Ix) (Name := Name) (U := U) V c).after 2 t = iblk5 V c 2 t := by dsimp only [dat5]
theorem after5_3 (c : Dev nD) (t : Fin cfg5.N) :
    (dat5 (Ix := Ix) (Name := Name) (U := U) V c).after 3 t = out5_3 (iblk5 V c 0 t) (iblk5 V c 1 t) (iblk5 V c 2 t) := by dsimp only [dat5]

/-- Each input's current staging buffer holds its block at every point, fetched there or not. -/
theorem before5_0 (c : Dev nD) (t : Fin cfg5.N) (d) : (dat5 (Ix := Ix) (Name := Name) (U := U) V c).before 0 t d = iblk5 V c 0 t :=
  before5_0_of V (dat5 (Ix := Ix) (Name := Name) (U := U) V c) (A_eq5 V c 0) (after5_0 V c) t d
theorem before5_1 (c : Dev nD) (t : Fin cfg5.N) (d) : (dat5 (Ix := Ix) (Name := Name) (U := U) V c).before 1 t d = iblk5 V c 1 t :=
  before5_1_of V (dat5 (Ix := Ix) (Name := Name) (U := U) V c) (A_eq5 V c 1) (after5_1 V c) t d
theorem before5_2 (c : Dev nD) (t : Fin cfg5.N) (d) : (dat5 (Ix := Ix) (Name := Name) (U := U) V c).before 2 t d = iblk5 V c 2 t :=
  before5_2_of V (dat5 (Ix := Ix) (Name := Name) (U := U) V c) (A_eq5 V c 2) (after5_2 V c) t d

/-! ## The body obligation, at a generic point -/

/-- What the body is called with at point `t` (the obligation's precondition, the windows one by one), -/
def bodyPre5 (ι : Ix) (c : Dev nD) (t : Fin cfg5.N) : sProp 𝕄 :=
  iprop((dat5 (Ix := Ix) (Name := Name) (U := U) V c).Φ t.castSucc ∗ (dat5 (Ix := Ix) (Name := Name) (U := U) V c).owesAt ι t.castSucc
    ∗ (∃ d, owns (c : Thread nD τ) (st5_0 t) fullShare ((dat5 (Ix := Ix) (Name := Name) (U := U) V c).before 0 t d))
    ∗ (∃ d, owns (c : Thread nD τ) (st5_1 t) fullShare ((dat5 (Ix := Ix) (Name := Name) (U := U) V c).before 1 t d))
    ∗ (∃ d, owns (c : Thread nD τ) (st5_2 t) fullShare ((dat5 (Ix := Ix) (Name := Name) (U := U) V c).before 2 t d))
    ∗ (∃ d, owns (c : Thread nD τ) (st5_3 t) fullShare ((dat5 (Ix := Ix) (Name := Name) (U := U) V c).before 3 t d)))

/-- and what it returns. -/
def bodyPost5 (ι : Ix) (c : Dev nD) (t : Fin cfg5.N) : sProp 𝕄 :=
  iprop((dat5 (Ix := Ix) (Name := Name) (U := U) V c).Φ t.succ ∗ (dat5 (Ix := Ix) (Name := Name) (U := U) V c).owesAt ι t.succ
    ∗ owns (c : Thread nD τ) (st5_0 t) fullShare ((dat5 (Ix := Ix) (Name := Name) (U := U) V c).after 0 t)
    ∗ owns (c : Thread nD τ) (st5_1 t) fullShare ((dat5 (Ix := Ix) (Name := Name) (U := U) V c).after 1 t)
    ∗ owns (c : Thread nD τ) (st5_2 t) fullShare ((dat5 (Ix := Ix) (Name := Name) (U := U) V c).after 2 t)
    ∗ owns (c : Thread nD τ) (st5_3 t) fullShare ((dat5 (Ix := Ix) (Name := Name) (U := U) V c).after 3 t))

/-- The body at any point: the inputs' memrefs hold their blocks, so the body's triple applies; the invariant and the
    core's `owes` pass through unread. -/
theorem sound_body5 (ι : Ix) (c : Dev nD) (t : Fin cfg5.N) :
    bodyPre5 (Ix := Ix) (Name := Name) (U := U) V ι c t
      ⊢ wp frame (wpE (defs₀ (F := F)) Variants.none c none) Set.univ (bodyAt5 t) (fun _ => bodyPost5 (Ix := Ix) (Name := Name) (U := U) V ι c t) := by
  unfold bodyPre5 bodyPost5 bodyAt5
  simp only [before5_0, before5_1, before5_2]
  rw [show (dat5 (Ix := Ix) (Name := Name) (U := U) V c).Φ t.succ = (dat5 (Ix := Ix) (Name := Name) (U := U) V c).Φ t.castSucc from rfl,
    show (dat5 (Ix := Ix) (Name := Name) (U := U) V c).owesAt ι t.succ = (dat5 (Ix := Ix) (Name := Name) (U := U) V c).owesAt ι t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation5 (ι : Ix) (c : Dev nD) :
    BodyObligation (dat5 (F := F) (Ix := Ix) (Name := Name) (U := U) V c) (defs₀ (F := F)) Variants.none ι Set.univ := fun t => by
  rw [bigSep_W5, bigSep_W5]
  exact sound_body5 V ι c t

end Cert.Kernel.Heads

end
-- ==== Proof.Kernel.Body6.lean ====
import proofs.«203661_g84404697301628_cont_9to1_m_135_26_alg».proof.Proof.Gen.Kernel.Launch
import proofs.«203661_g84404697301628_cont_9to1_m_135_26_alg».proof.Proof.Gen.Kernel.Skeleton
import proofs.«203661_g84404697301628_cont_9to1_m_135_26_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # TensorCore region of pipeline `cfg6`: the body half

The region's windows: 0 the embedding block `[1, 8192, 32]`, 1 the weight block `[200, 32]`, 2 the bias column block
`[200, 1]` (inputs), 3 the result block `[1, 200, 8192]` (output). The body loads the three input buffers whole and
stores one payload over the whole output buffer. Everything is stated at a parameter `V` (the TensorCore's buffer
contents when the region is entered) and at ANY ambient resource model: index type `Ix`, invariant names `Name`, user
algebra `U`, levels `ℕ`. -/

set_option maxRecDepth 16384

noncomputable section

namespace Cert.Kernel.Heads

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U]

local notation "𝕄" => MT nD τ sig Ix (Elt F) Name U ℕ

variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for any proof
    data whose array is `V`'s and whose body leaves the block in place: an unfetched input's block index has not moved. -/
theorem before6_0_of {c : Dev nD} (dat : Dat τ (Elt F) Ix Name U ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not, for any proof
    data whose array is `V`'s and whose body leaves the block in place: an unfetched input's block index has not moved. -/
theorem before6_1_of {c : Dev nD} (dat : Dat τ (Elt F) Ix Name U ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not, for any proof
    data whose array is `V`'s and whose body leaves the block in place: an unfetched input's block index has not moved. -/
theorem before6_2_of {c : Dev nD} (dat : Dat τ (Elt F) Ix Name U ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each buffer whole -/

abbrev r6_e : Rect S1x8192x32 := Rect.unit (s := S1x8192x32) ![0, 0, 0] S1x8192x32.size inb_S1x8192x32_S1x8192x32_0_0_0
abbrev r6_w : Rect S200x32 := Rect.unit (s := S200x32) ![0, 0] S200x32.size inb_S200x32_S200x32_0_0
abbrev r6_b : Rect S200x1 := Rect.unit (s := S200x1) ![0, 0] S200x1.size inb_S200x1_S200x1_0_0
abbrev r6_o : Rect S1x200x8192 := Rect.unit (s := S1x200x8192) ![0, 0, 0] S1x200x8192.size inb_S1x200x8192_S1x200x8192_0_0_0

/-! ## What the body leaves in the output window's buffer -/

/-- Window 3's staging buffer after the body, from the input windows' blocks `x0` (embedding), `x1` (weights), `x2` (bias
    column): its one store, over the whole buffer, of the skeleton's payload of the three loads. -/
def out6_3 (x0 : Vec F S1x8192x32 .f32) (x1 : Vec F S200x32 .f32) (x2 : Vec F S200x1 .f32) : Vec F S1x200x8192 .f32 :=
  View.canon [⟨r6_o, k6_pay1 (View.ld x1 r6_w) (View.ld x0 r6_e) (View.ld x2 r6_b)⟩]

/-- The one store tiles the buffer, so it covers it. -/
theorem cover6_3 (p0 : Vec F S1x200x8192 .f32) (y : S1x200x8192.Idx) :
    ∃ pc ∈ ([⟨r6_o, p0⟩] : List (View.Piece (Elt F) S1x200x8192 .f32)), y ∈ pc.1.set :=
  View.cover_of_tiled [⟨r6_o, p0⟩] S1x200x8192.size (by rfl) y

/-! ## The body's triple -/

set_option maxHeartbeats 1000000 in
/-- The kernel body on whole staging memrefs, the inputs' at read contents `x0 x1 x2` and the output's at anything, runs to
    the continuation holding the inputs' as they were and the output's at `out6_3` of the inputs'. -/
theorem sound_kernel6 (c : Dev nD) (E : Set Name) (i : grid6.Coords)
    (arg3 : Memref sig .tc .vmem S1x8192x32 .f32) (harg3 : arg3.IsWhole) (arg4 : Memref sig .tc .vmem S200x32 .f32) (harg4 : arg4.IsWhole)
    (arg5 : Memref sig .tc .vmem S200x1 .f32) (harg5 : arg5.IsWhole) (arg6 : Memref sig .tc .hbm S8x1000x16384 .f32) (harg6 : arg6.IsWhole)
    (arg7 : Memref sig .tc .vmem S1x200x8192 .f32) (harg7 : arg7.IsWhole)
    (x0 : Vec F S1x8192x32 .f32) (x1 : Vec F S200x32 .f32) (x2 : Vec F S200x1 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg7 fullShare (out6_3 x0 x1 x2)) -∗ K ⟨⟩))
      ⊢ wp frame (wpE (defs₀ (F := F)) Variants.none c none) E (cc6__head_body_alias i arg3 harg3 arg4 harg4 arg5 harg5 arg6 harg6 arg7 harg7) K := by
  simp only [cc6__head_body_alias_eq_skeleton]; unfold cc6__head_body_alias_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

end Cert.Kernel.Heads

end
-- ==== Proof.Kernel.Dat6.lean ====
import proofs.«203661_g84404697301628_cont_9to1_m_135_26_alg».proof.Proof.Kernel.Body6

/-! # TensorCore region of pipeline `cfg6`: the proof data and the body obligation

The pipeline's proof data at the entry contents `V`: the arrays as entered; after the body at a point each input's buffer
at its block and the output's at `out6_3` of the three input blocks; the invariant is the scoped buffers no window stages
and the generator register, untouched; nothing owed; full shares. Then the body obligation at a generic point. -/

set_option maxRecDepth 16384

noncomputable section

namespace Cert.Kernel.Heads

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U]

local notation "𝕄" => MT nD τ sig Ix (Elt F) Name U ℕ

variable (V : (c : Dev nD) → (b : Ref sig .tc) → Buf (Elt F) ((c : Thread nD τ).loc b))

/-! ## The pipeline's proof data -/

/-- The invariant between points: the core's scoped buffers that are no staging buffer, at some contents each, and its
    generator register at some state (the body uses neither). -/
def inv6 (c : Dev nD) : sProp 𝕄 :=
  iprop(Pipeline.scopedRest (Ix := Ix) (Name := Name) (U := U) (Lvl := ℕ) (Val := Elt F) spec6 c ∗ ∃ r, prngReg c r)

/-- The proof data of the pipeline on core `c`. -/
def dat6 (c : Dev nD) : Dat τ (Elt F) Ix Name U ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := inv6 (Ix := Ix) (Name := Name) (U := U) c
  q _ := fullShare
  owed _ := 0

/-- The proof data's arrays are the region-entry contents. -/
theorem A_eq6 (c : Dev nD) (w : Fin cfg6.W) : (dat6 (Ix := Ix) (Name := Name) (U := U) V c).A w = V c (Pipeline.arrRef spec6 w) := by
  dsimp only [dat6]

/-- What the body leaves, window by window. -/
theorem after6_0 (c : Dev nD) (t : Fin cfg6.N) : (dat6 (Ix := Ix) (Name := Name) (U := U) V c).after 0 t = iblk6 V c 0 t := by dsimp only [dat6]
theorem after6_1 (c : Dev nD) (t : Fin cfg6.N) : (dat6 (Ix := Ix) (Name := Name) (U := U) V c).after 1 t = iblk6 V c 1 t := by dsimp only [dat6]
theorem after6_2 (c : Dev nD) (t : Fin cfg6.N) : (dat6 (Ix := Ix) (Name := Name) (U := U) V c).after 2 t = iblk6 V c 2 t := by dsimp only [dat6]
theorem after6_3 (c : Dev nD) (t : Fin cfg6.N) :
    (dat6 (Ix := Ix) (Name := Name) (U := U) V c).after 3 t = out6_3 (iblk6 V c 0 t) (iblk6 V c 1 t) (iblk6 V c 2 t) := by dsimp only [dat6]

/-- Each input's current staging buffer holds its block at every point, fetched there or not. -/
theorem before6_0 (c : Dev nD) (t : Fin cfg6.N) (d) : (dat6 (Ix := Ix) (Name := Name) (U := U) V c).before 0 t d = iblk6 V c 0 t :=
  before6_0_of V (dat6 (Ix := Ix) (Name := Name) (U := U) V c) (A_eq6 V c 0) (after6_0 V c) t d
theorem before6_1 (c : Dev nD) (t : Fin cfg6.N) (d) : (dat6 (Ix := Ix) (Name := Name) (U := U) V c).before 1 t d = iblk6 V c 1 t :=
  before6_1_of V (dat6 (Ix := Ix) (Name := Name) (U := U) V c) (A_eq6 V c 1) (after6_1 V c) t d
theorem before6_2 (c : Dev nD) (t : Fin cfg6.N) (d) : (dat6 (Ix := Ix) (Name := Name) (U := U) V c).before 2 t d = iblk6 V c 2 t :=
  before6_2_of V (dat6 (Ix := Ix) (Name := Name) (U := U) V c) (A_eq6 V c 2) (after6_2 V c) t d

/-! ## The body obligation, at a generic point -/

/-- What the body is called with at point `t` (the obligation's precondition, the windows one by one), -/
def bodyPre6 (ι : Ix) (c : Dev nD) (t : Fin cfg6.N) : sProp 𝕄 :=
  iprop((dat6 (Ix := Ix) (Name := Name) (U := U) V c).Φ t.castSucc ∗ (dat6 (Ix := Ix) (Name := Name) (U := U) V c).owesAt ι t.castSucc
    ∗ (∃ d, owns (c : Thread nD τ) (st6_0 t) fullShare ((dat6 (Ix := Ix) (Name := Name) (U := U) V c).before 0 t d))
    ∗ (∃ d, owns (c : Thread nD τ) (st6_1 t) fullShare ((dat6 (Ix := Ix) (Name := Name) (U := U) V c).before 1 t d))
    ∗ (∃ d, owns (c : Thread nD τ) (st6_2 t) fullShare ((dat6 (Ix := Ix) (Name := Name) (U := U) V c).before 2 t d))
    ∗ (∃ d, owns (c : Thread nD τ) (st6_3 t) fullShare ((dat6 (Ix := Ix) (Name := Name) (U := U) V c).before 3 t d)))

/-- and what it returns. -/
def bodyPost6 (ι : Ix) (c : Dev nD) (t : Fin cfg6.N) : sProp 𝕄 :=
  iprop((dat6 (Ix := Ix) (Name := Name) (U := U) V c).Φ t.succ ∗ (dat6 (Ix := Ix) (Name := Name) (U := U) V c).owesAt ι t.succ
    ∗ owns (c : Thread nD τ) (st6_0 t) fullShare ((dat6 (Ix := Ix) (Name := Name) (U := U) V c).after 0 t)
    ∗ owns (c : Thread nD τ) (st6_1 t) fullShare ((dat6 (Ix := Ix) (Name := Name) (U := U) V c).after 1 t)
    ∗ owns (c : Thread nD τ) (st6_2 t) fullShare ((dat6 (Ix := Ix) (Name := Name) (U := U) V c).after 2 t)
    ∗ owns (c : Thread nD τ) (st6_3 t) fullShare ((dat6 (Ix := Ix) (Name := Name) (U := U) V c).after 3 t))

/-- The body at any point: the inputs' memrefs hold their blocks, so the body's triple applies; the invariant and the
    core's `owes` pass through unread. -/
theorem sound_body6 (ι : Ix) (c : Dev nD) (t : Fin cfg6.N) :
    bodyPre6 (Ix := Ix) (Name := Name) (U := U) V ι c t
      ⊢ wp frame (wpE (defs₀ (F := F)) Variants.none c none) Set.univ (bodyAt6 t) (fun _ => bodyPost6 (Ix := Ix) (Name := Name) (U := U) V ι c t) := by
  unfold bodyPre6 bodyPost6 bodyAt6
  simp only [before6_0, before6_1, before6_2]
  rw [show (dat6 (Ix := Ix) (Name := Name) (U := U) V c).Φ t.succ = (dat6 (Ix := Ix) (Name := Name) (U := U) V c).Φ t.castSucc from rfl,
    show (dat6 (Ix := Ix) (Name := Name) (U := U) V c).owesAt ι t.succ = (dat6 (Ix := Ix) (Name := Name) (U := U) V c).owesAt ι t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation6 (ι : Ix) (c : Dev nD) :
    BodyObligation (dat6 (F := F) (Ix := Ix) (Name := Name) (U := U) V c) (defs₀ (F := F)) Variants.none ι Set.univ := fun t => by
  rw [bigSep_W6, bigSep_W6]
  exact sound_body6 V ι c t

end Cert.Kernel.Heads

end
-- ==== Proof.Kernel.Body7.lean ====
import proofs.«203661_g84404697301628_cont_9to1_m_135_26_alg».proof.Proof.Gen.Kernel.Launch
import proofs.«203661_g84404697301628_cont_9to1_m_135_26_alg».proof.Proof.Gen.Kernel.Skeleton
import proofs.«203661_g84404697301628_cont_9to1_m_135_26_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # TensorCore region of pipeline `cfg7`: the body half

The region's windows: 0 the embedding block `[1, 8192, 32]`, 1 the weight block `[200, 32]`, 2 the bias column block
`[200, 1]` (inputs), 3 the result block `[1, 200, 8192]` (output). The body loads the three input buffers whole and
stores one payload over the whole output buffer. Everything is stated at a parameter `V` (the TensorCore's buffer
contents when the region is entered) and at ANY ambient resource model: index type `Ix`, invariant names `Name`, user
algebra `U`, levels `ℕ`. -/

set_option maxRecDepth 16384

noncomputable section

namespace Cert.Kernel.Heads

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U]

local notation "𝕄" => MT nD τ sig Ix (Elt F) Name U ℕ

variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for any proof
    data whose array is `V`'s and whose body leaves the block in place: an unfetched input's block index has not moved. -/
theorem before7_0_of {c : Dev nD} (dat : Dat τ (Elt F) Ix Name U ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not, for any proof
    data whose array is `V`'s and whose body leaves the block in place: an unfetched input's block index has not moved. -/
theorem before7_1_of {c : Dev nD} (dat : Dat τ (Elt F) Ix Name U ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not, for any proof
    data whose array is `V`'s and whose body leaves the block in place: an unfetched input's block index has not moved. -/
theorem before7_2_of {c : Dev nD} (dat : Dat τ (Elt F) Ix Name U ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: each buffer whole -/

abbrev r7_e : Rect S1x8192x32 := Rect.unit (s := S1x8192x32) ![0, 0, 0] S1x8192x32.size inb_S1x8192x32_S1x8192x32_0_0_0
abbrev r7_w : Rect S200x32 := Rect.unit (s := S200x32) ![0, 0] S200x32.size inb_S200x32_S200x32_0_0
abbrev r7_b : Rect S200x1 := Rect.unit (s := S200x1) ![0, 0] S200x1.size inb_S200x1_S200x1_0_0
abbrev r7_o : Rect S1x200x8192 := Rect.unit (s := S1x200x8192) ![0, 0, 0] S1x200x8192.size inb_S1x200x8192_S1x200x8192_0_0_0

/-! ## What the body leaves in the output window's buffer -/

/-- Window 3's staging buffer after the body, from the input windows' blocks `x0` (embedding), `x1` (weights), `x2` (bias
    column): its one store, over the whole buffer, of the skeleton's payload of the three loads. -/
def out7_3 (x0 : Vec F S1x8192x32 .f32) (x1 : Vec F S200x32 .f32) (x2 : Vec F S200x1 .f32) : Vec F S1x200x8192 .f32 :=
  View.canon [⟨r7_o, k7_pay1 (View.ld x1 r7_w) (View.ld x0 r7_e) (View.ld x2 r7_b)⟩]

/-- The one store tiles the buffer, so it covers it. -/
theorem cover7_3 (p0 : Vec F S1x200x8192 .f32) (y : S1x200x8192.Idx) :
    ∃ pc ∈ ([⟨r7_o, p0⟩] : List (View.Piece (Elt F) S1x200x8192 .f32)), y ∈ pc.1.set :=
  View.cover_of_tiled [⟨r7_o, p0⟩] S1x200x8192.size (by rfl) y

/-! ## The body's triple -/

set_option maxHeartbeats 1000000 in
/-- The kernel body on whole staging memrefs, the inputs' at read contents `x0 x1 x2` and the output's at anything, runs to
    the continuation holding the inputs' as they were and the output's at `out7_3` of the inputs'. -/
theorem sound_kernel7 (c : Dev nD) (E : Set Name) (i : grid7.Coords)
    (arg3 : Memref sig .tc .vmem S1x8192x32 .f32) (harg3 : arg3.IsWhole) (arg4 : Memref sig .tc .vmem S200x32 .f32) (harg4 : arg4.IsWhole)
    (arg5 : Memref sig .tc .vmem S200x1 .f32) (harg5 : arg5.IsWhole) (arg6 : Memref sig .tc .hbm S8x1000x16384 .f32) (harg6 : arg6.IsWhole)
    (arg7 : Memref sig .tc .vmem S1x200x8192 .f32) (harg7 : arg7.IsWhole)
    (x0 : Vec F S1x8192x32 .f32) (x1 : Vec F S200x32 .f32) (x2 : Vec F S200x1 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg7 fullShare (out7_3 x0 x1 x2)) -∗ K ⟨⟩))
      ⊢ wp frame (wpE (defs₀ (F := F)) Variants.none c none) E (cc7__head_body_alias i arg3 harg3 arg4 harg4 arg5 harg5 arg6 harg6 arg7 harg7) K := by
  simp only [cc7__head_body_alias_eq_skeleton]; unfold cc7__head_body_alias_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_3 _)

end Cert.Kernel.Heads

end
-- ==== Proof.Kernel.Dat7.lean ====
import proofs.«203661_g84404697301628_cont_9to1_m_135_26_alg».proof.Proof.Kernel.Body7

/-! # TensorCore region of pipeline `cfg7`: the proof data and the body obligation

The pipeline's proof data at the entry contents `V`: the arrays as entered; after the body at a point each input's buffer
at its block and the output's at `out7_3` of the three input blocks; the invariant is the scoped buffers no window stages
and the generator register, untouched; nothing owed; full shares. Then the body obligation at a generic point. -/

set_option maxRecDepth 16384

noncomputable section

namespace Cert.Kernel.Heads

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U]

local notation "𝕄" => MT nD τ sig Ix (Elt F) Name U ℕ

variable (V : (c : Dev nD) → (b : Ref sig .tc) → Buf (Elt F) ((c : Thread nD τ).loc b))

/-! ## The pipeline's proof data -/

/-- The invariant between points: the core's scoped buffers that are no staging buffer, at some contents each, and its
    generator register at some state (the body uses neither). -/
def inv7 (c : Dev nD) : sProp 𝕄 :=
  iprop(Pipeline.scopedRest (Ix := Ix) (Name := Name) (U := U) (Lvl := ℕ) (Val := Elt F) spec7 c ∗ ∃ r, prngReg c r)

/-- The proof data of the pipeline on core `c`. -/
def dat7 (c : Dev nD) : Dat τ (Elt F) Ix Name U ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := inv7 (Ix := Ix) (Name := Name) (U := U) c
  q _ := fullShare
  owed _ := 0

/-- The proof data's arrays are the region-entry contents. -/
theorem A_eq7 (c : Dev nD) (w : Fin cfg7.W) : (dat7 (Ix := Ix) (Name := Name) (U := U) V c).A w = V c (Pipeline.arrRef spec7 w) := by
  dsimp only [dat7]

/-- What the body leaves, window by window. -/
theorem after7_0 (c : Dev nD) (t : Fin cfg7.N) : (dat7 (Ix := Ix) (Name := Name) (U := U) V c).after 0 t = iblk7 V c 0 t := by dsimp only [dat7]
theorem after7_1 (c : Dev nD) (t : Fin cfg7.N) : (dat7 (Ix := Ix) (Name := Name) (U := U) V c).after 1 t = iblk7 V c 1 t := by dsimp only [dat7]
theorem after7_2 (c : Dev nD) (t : Fin cfg7.N) : (dat7 (Ix := Ix) (Name := Name) (U := U) V c).after 2 t = iblk7 V c 2 t := by dsimp only [dat7]
theorem after7_3 (c : Dev nD) (t : Fin cfg7.N) :
    (dat7 (Ix := Ix) (Name := Name) (U := U) V c).after 3 t = out7_3 (iblk7 V c 0 t) (iblk7 V c 1 t) (iblk7 V c 2 t) := by dsimp only [dat7]

/-- Each input's current staging buffer holds its block at every point, fetched there or not. -/
theorem before7_0 (c : Dev nD) (t : Fin cfg7.N) (d) : (dat7 (Ix := Ix) (Name := Name) (U := U) V c).before 0 t d = iblk7 V c 0 t :=
  before7_0_of V (dat7 (Ix := Ix) (Name := Name) (U := U) V c) (A_eq7 V c 0) (after7_0 V c) t d
theorem before7_1 (c : Dev nD) (t : Fin cfg7.N) (d) : (dat7 (Ix := Ix) (Name := Name) (U := U) V c).before 1 t d = iblk7 V c 1 t :=
  before7_1_of V (dat7 (Ix := Ix) (Name := Name) (U := U) V c) (A_eq7 V c 1) (after7_1 V c) t d
theorem before7_2 (c : Dev nD) (t : Fin cfg7.N) (d) : (dat7 (Ix := Ix) (Name := Name) (U := U) V c).before 2 t d = iblk7 V c 2 t :=
  before7_2_of V (dat7 (Ix := Ix) (Name := Name) (U := U) V c) (A_eq7 V c 2) (after7_2 V c) t d

/-! ## The body obligation, at a generic point -/

/-- What the body is called with at point `t` (the obligation's precondition, the windows one by one), -/
def bodyPre7 (ι : Ix) (c : Dev nD) (t : Fin cfg7.N) : sProp 𝕄 :=
  iprop((dat7 (Ix := Ix) (Name := Name) (U := U) V c).Φ t.castSucc ∗ (dat7 (Ix := Ix) (Name := Name) (U := U) V c).owesAt ι t.castSucc
    ∗ (∃ d, owns (c : Thread nD τ) (st7_0 t) fullShare ((dat7 (Ix := Ix) (Name := Name) (U := U) V c).before 0 t d))
    ∗ (∃ d, owns (c : Thread nD τ) (st7_1 t) fullShare ((dat7 (Ix := Ix) (Name := Name) (U := U) V c).before 1 t d))
    ∗ (∃ d, owns (c : Thread nD τ) (st7_2 t) fullShare ((dat7 (Ix := Ix) (Name := Name) (U := U) V c).before 2 t d))
    ∗ (∃ d, owns (c : Thread nD τ) (st7_3 t) fullShare ((dat7 (Ix := Ix) (Name := Name) (U := U) V c).before 3 t d)))

/-- and what it returns. -/
def bodyPost7 (ι : Ix) (c : Dev nD) (t : Fin cfg7.N) : sProp 𝕄 :=
  iprop((dat7 (Ix := Ix) (Name := Name) (U := U) V c).Φ t.succ ∗ (dat7 (Ix := Ix) (Name := Name) (U := U) V c).owesAt ι t.succ
    ∗ owns (c : Thread nD τ) (st7_0 t) fullShare ((dat7 (Ix := Ix) (Name := Name) (U := U) V c).after 0 t)
    ∗ owns (c : Thread nD τ) (st7_1 t) fullShare ((dat7 (Ix := Ix) (Name := Name) (U := U) V c).after 1 t)
    ∗ owns (c : Thread nD τ) (st7_2 t) fullShare ((dat7 (Ix := Ix) (Name := Name) (U := U) V c).after 2 t)
    ∗ owns (c : Thread nD τ) (st7_3 t) fullShare ((dat7 (Ix := Ix) (Name := Name) (U := U) V c).after 3 t))

/-- The body at any point: the inputs' memrefs hold their blocks, so the body's triple applies; the invariant and the
    core's `owes` pass through unread. -/
theorem sound_body7 (ι : Ix) (c : Dev nD) (t : Fin cfg7.N) :
    bodyPre7 (Ix := Ix) (Name := Name) (U := U) V ι c t
      ⊢ wp frame (wpE (defs₀ (F := F)) Variants.none c none) Set.univ (bodyAt7 t) (fun _ => bodyPost7 (Ix := Ix) (Name := Name) (U := U) V ι c t) := by
  unfold bodyPre7 bodyPost7 bodyAt7
  simp only [before7_0, before7_1, before7_2]
  rw [show (dat7 (Ix := Ix) (Name := Name) (U := U) V c).Φ t.succ = (dat7 (Ix := Ix) (Name := Name) (U := U) V c).Φ t.castSucc from rfl,
    show (dat7 (Ix := Ix) (Name := Name) (U := U) V c).owesAt ι t.succ = (dat7 (Ix := Ix) (Name := Name) (U := U) V c).owesAt ι t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ _ _ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation7 (ι : Ix) (c : Dev nD) :
    BodyObligation (dat7 (F := F) (Ix := Ix) (Name := Name) (U := U) V c) (defs₀ (F := F)) Variants.none ι Set.univ := fun t => by
  rw [bigSep_W7, bigSep_W7]
  exact sound_body7 V ι c t

end Cert.Kernel.Heads

end
-- ==== Proof.Kernel.Family.lean ====
import proofs.«203661_g84404697301628_cont_9to1_m_135_26_alg».proof.Proof.Kernel.Dat4
import proofs.«203661_g84404697301628_cont_9to1_m_135_26_alg».proof.Proof.Kernel.Dat5
import proofs.«203661_g84404697301628_cont_9to1_m_135_26_alg».proof.Proof.Kernel.Dat6
import proofs.«203661_g84404697301628_cont_9to1_m_135_26_alg».proof.Proof.Kernel.Dat7

/-! # The four TensorCore regions: the proof data family and the boundary contents

The regions are entered from the contents `W4 W5 W6 W7` of the core's buffers (parameters: what @main's host stretches
leave). Each region's proof data is stated at its entry contents read at the TensorCore's references; a region leaves its
arrays at what its write-backs fold to and every other buffer as entered. -/

set_option maxRecDepth 16384

noncomputable section

namespace Cert.Kernel.Heads

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U]

local notation "𝕄" => MT nD τ sig Ix (Elt F) Name U ℕ

variable (W4 W5 W6 W7 : Dev nD → Valuation τ sig (Elt F))

/-- A boundary's contents read at the TensorCore's references (what a region's proof data take). -/
abbrev tcOf (W : Dev nD → Valuation τ sig (Elt F)) : (c : Dev nD) → (b : Ref sig .tc) → Buf (Elt F) ((c : Thread nD τ).loc b) :=
  fun c b => W c b

/-- The prefetched tables' admissible contents: no pipeline has a table. -/
abbrev adm : (p : Fin 4) → (pcfgs (F := F) p).Adm := fun p => (cfgs p).toPCfg_adm

/-- Every pipeline's proof data, each at its region's entry contents: a literal `match` on the pipeline. -/
def pdats : (p : Fin 4) → (c : Dev nD) → Dat τ (Elt F) Ix Name U ℕ (Pipeline.pin (pcfgs (F := F)) adm p) c
  | ⟨0, _⟩ => fun c => dat4 (tcOf W4) c
  | ⟨1, _⟩ => fun c => dat5 (tcOf W5) c
  | ⟨2, _⟩ => fun c => dat6 (tcOf W6) c
  | ⟨3, _⟩ => fun c => dat7 (tcOf W7) c

/-- What rides beside the buffers through a region: the core's generator register at some state and its `owes`, at nothing. -/
abbrev R (c : Dev nD) : sProp 𝕄 :=
  iprop((∃ r, prngReg c r) ∗ ∃ W, owes (c : Thread nD τ) (0 : CellTallies nD τ sig Ix) W)

/-! ## Region of pipeline `cfg4`: the contents it leaves -/

/-- At the region's exit: its arrays at what the pipeline leaves (the inputs as entered, the output's write-backs folded),
    every other buffer as entered. -/
def exit4 (W : Dev nD → Valuation τ sig (Elt F)) (c : Dev nD) : Valuation τ sig (Elt F) :=
  Pipeline.withArrays spec4 c (W c) fun w => (dat4 (Ix := Ix) (Name := Name) (U := U) (tcOf W) c).arrAt w cfg4.N
theorem exit4_arr (W : Dev nD → Valuation τ sig (Elt F)) (c : Dev nD) (w : Fin cfg4.W) :
    exit4 (Ix := Ix) (Name := Name) (U := U) W c (Proc.devRef .tc (Pipeline.arrRef spec4 w)) = (dat4 (Ix := Ix) (Name := Name) (U := U) (tcOf W) c).arrAt w cfg4.N := by
  unfold exit4; exact Pipeline.withArrays_arr spec4 launch4.win.arr_inj c _ _ w
theorem exit4_of_ne (W : Dev nD → Valuation τ sig (Elt F)) (c : Dev nD) (b : Ref sig .tc) (hb : ∀ w, Pipeline.arrRef spec4 w ≠ b) :
    exit4 (Ix := Ix) (Name := Name) (U := U) W c (Proc.devRef .tc b) = W c (Proc.devRef .tc b) := by
  unfold exit4; exact Pipeline.withArrays_of_ne spec4 c _ _ b hb
/-- At the exit each of the region's arrays holds what the pipeline leaves, and every other buffer what it held at entry. -/
theorem hF4 (W : Dev nD → Valuation τ sig (Elt F)) (c : Dev nD) (w : Fin cfg4.W) :
    (dat4 (Ix := Ix) (Name := Name) (U := U) (tcOf W) c).arrAt w cfg4.N = tcOf (exit4 (Ix := Ix) (Name := Name) (U := U) W) c (Pipeline.arrRef spec4 w) :=
  (exit4_arr W c w).symm
theorem hrest4 (W : Dev nD → Valuation τ sig (Elt F)) (c : Dev nD) :
    ∀ b, b ∉ Finset.univ.image (Pipeline.arrRef spec4) → tcOf (exit4 (Ix := Ix) (Name := Name) (U := U) W) c b = tcOf W c b :=
  fun b hb => exit4_of_ne W c b fun w e => hb (Finset.mem_image.mpr ⟨w, Finset.mem_univ _, e⟩)

/-! ## Region of pipeline `cfg5`: the contents it leaves -/

/-- At the region's exit: its arrays at what the pipeline leaves (the inputs as entered, the output's write-backs folded),
    every other buffer as entered. -/
def exit5 (W : Dev nD → Valuation τ sig (Elt F)) (c : Dev nD) : Valuation τ sig (Elt F) :=
  Pipeline.withArrays spec5 c (W c) fun w => (dat5 (Ix := Ix) (Name := Name) (U := U) (tcOf W) c).arrAt w cfg5.N
theorem exit5_arr (W : Dev nD → Valuation τ sig (Elt F)) (c : Dev nD) (w : Fin cfg5.W) :
    exit5 (Ix := Ix) (Name := Name) (U := U) W c (Proc.devRef .tc (Pipeline.arrRef spec5 w)) = (dat5 (Ix := Ix) (Name := Name) (U := U) (tcOf W) c).arrAt w cfg5.N := by
  unfold exit5; exact Pipeline.withArrays_arr spec5 launch5.win.arr_inj c _ _ w
theorem exit5_of_ne (W : Dev nD → Valuation τ sig (Elt F)) (c : Dev nD) (b : Ref sig .tc) (hb : ∀ w, Pipeline.arrRef spec5 w ≠ b) :
    exit5 (Ix := Ix) (Name := Name) (U := U) W c (Proc.devRef .tc b) = W c (Proc.devRef .tc b) := by
  unfold exit5; exact Pipeline.withArrays_of_ne spec5 c _ _ b hb
/-- At the exit each of the region's arrays holds what the pipeline leaves, and every other buffer what it held at entry. -/
theorem hF5 (W : Dev nD → Valuation τ sig (Elt F)) (c : Dev nD) (w : Fin cfg5.W) :
    (dat5 (Ix := Ix) (Name := Name) (U := U) (tcOf W) c).arrAt w cfg5.N = tcOf (exit5 (Ix := Ix) (Name := Name) (U := U) W) c (Pipeline.arrRef spec5 w) :=
  (exit5_arr W c w).symm
theorem hrest5 (W : Dev nD → Valuation τ sig (Elt F)) (c : Dev nD) :
    ∀ b, b ∉ Finset.univ.image (Pipeline.arrRef spec5) → tcOf (exit5 (Ix := Ix) (Name := Name) (U := U) W) c b = tcOf W c b :=
  fun b hb => exit5_of_ne W c b fun w e => hb (Finset.mem_image.mpr ⟨w, Finset.mem_univ _, e⟩)

/-! ## Region of pipeline `cfg6`: the contents it leaves -/

/-- At the region's exit: its arrays at what the pipeline leaves (the inputs as entered, the output's write-backs folded),
    every other buffer as entered. -/
def exit6 (W : Dev nD → Valuation τ sig (Elt F)) (c : Dev nD) : Valuation τ sig (Elt F) :=
  Pipeline.withArrays spec6 c (W c) fun w => (dat6 (Ix := Ix) (Name := Name) (U := U) (tcOf W) c).arrAt w cfg6.N
theorem exit6_arr (W : Dev nD → Valuation τ sig (Elt F)) (c : Dev nD) (w : Fin cfg6.W) :
    exit6 (Ix := Ix) (Name := Name) (U := U) W c (Proc.devRef .tc (Pipeline.arrRef spec6 w)) = (dat6 (Ix := Ix) (Name := Name) (U := U) (tcOf W) c).arrAt w cfg6.N := by
  unfold exit6; exact Pipeline.withArrays_arr spec6 launch6.win.arr_inj c _ _ w
theorem exit6_of_ne (W : Dev nD → Valuation τ sig (Elt F)) (c : Dev nD) (b : Ref sig .tc) (hb : ∀ w, Pipeline.arrRef spec6 w ≠ b) :
    exit6 (Ix := Ix) (Name := Name) (U := U) W c (Proc.devRef .tc b) = W c (Proc.devRef .tc b) := by
  unfold exit6; exact Pipeline.withArrays_of_ne spec6 c _ _ b hb
/-- At the exit each of the region's arrays holds what the pipeline leaves, and every other buffer what it held at entry. -/
theorem hF6 (W : Dev nD → Valuation τ sig (Elt F)) (c : Dev nD) (w : Fin cfg6.W) :
    (dat6 (Ix := Ix) (Name := Name) (U := U) (tcOf W) c).arrAt w cfg6.N = tcOf (exit6 (Ix := Ix) (Name := Name) (U := U) W) c (Pipeline.arrRef spec6 w) :=
  (exit6_arr W c w).symm
theorem hrest6 (W : Dev nD → Valuation τ sig (Elt F)) (c : Dev nD) :
    ∀ b, b ∉ Finset.univ.image (Pipeline.arrRef spec6) → tcOf (exit6 (Ix := Ix) (Name := Name) (U := U) W) c b = tcOf W c b :=
  fun b hb => exit6_of_ne W c b fun w e => hb (Finset.mem_image.mpr ⟨w, Finset.mem_univ _, e⟩)

/-! ## Region of pipeline `cfg7`: the contents it leaves -/

/-- At the region's exit: its arrays at what the pipeline leaves (the inputs as entered, the output's write-backs folded),
    every other buffer as entered. -/
def exit7 (W : Dev nD → Valuation τ sig (Elt F)) (c : Dev nD) : Valuation τ sig (Elt F) :=
  Pipeline.withArrays spec7 c (W c) fun w => (dat7 (Ix := Ix) (Name := Name) (U := U) (tcOf W) c).arrAt w cfg7.N
theorem exit7_arr (W : Dev nD → Valuation τ sig (Elt F)) (c : Dev nD) (w : Fin cfg7.W) :
    exit7 (Ix := Ix) (Name := Name) (U := U) W c (Proc.devRef .tc (Pipeline.arrRef spec7 w)) = (dat7 (Ix := Ix) (Name := Name) (U := U) (tcOf W) c).arrAt w cfg7.N := by
  unfold exit7; exact Pipeline.withArrays_arr spec7 launch7.win.arr_inj c _ _ w
theorem exit7_of_ne (W : Dev nD → Valuation τ sig (Elt F)) (c : Dev nD) (b : Ref sig .tc) (hb : ∀ w, Pipeline.arrRef spec7 w ≠ b) :
    exit7 (Ix := Ix) (Name := Name) (U := U) W c (Proc.devRef .tc b) = W c (Proc.devRef .tc b) := by
  unfold exit7; exact Pipeline.withArrays_of_ne spec7 c _ _ b hb
/-- At the exit each of the region's arrays holds what the pipeline leaves, and every other buffer what it held at entry. -/
theorem hF7 (W : Dev nD → Valuation τ sig (Elt F)) (c : Dev nD) (w : Fin cfg7.W) :
    (dat7 (Ix := Ix) (Name := Name) (U := U) (tcOf W) c).arrAt w cfg7.N = tcOf (exit7 (Ix := Ix) (Name := Name) (U := U) W) c (Pipeline.arrRef spec7 w) :=
  (exit7_arr W c w).symm
theorem hrest7 (W : Dev nD → Valuation τ sig (Elt F)) (c : Dev nD) :
    ∀ b, b ∉ Finset.univ.image (Pipeline.arrRef spec7) → tcOf (exit7 (Ix := Ix) (Name := Name) (U := U) W) c b = tcOf W c b :=
  fun b hb => exit7_of_ne W c b fun w e => hb (Finset.mem_image.mpr ⟨w, Finset.mem_univ _, e⟩)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Heads

end
-- ==== Proof.Kernel.DatB4.lean ====
import proofs.«203661_g84404697301628_cont_9to1_m_135_26_alg».proof.Proof.Kernel.Dat4
import Idealize.ShloMosaic.Lib.Pipeline.Value

/-! # Pipeline `cfg4`: the proof data with the core's recorded pairs bounded

The proof data of the region with, besides, a bound `B c` on the (cell, index) pairs the core's waits have recorded before
the region: the body takes on no new unit, so the bound is the same at every point, and the region hands the core's `owes`
back with its recorded pairs within the bound and the pipeline's own waits' pairs. The arrays' contents are the unbounded
data's. -/

set_option maxRecDepth 16384

noncomputable section

namespace Cert.Kernel.Heads

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U]

local notation "𝕄" => MT nD τ sig Ix (Elt F) Name U ℕ

variable (V : (c : Dev nD) → (b : Ref sig .tc) → Buf (Elt F) ((c : Thread nD τ).loc b))

variable (B : Dev nD → Set (SemLoc sig × Ix))

/-- The proof data of the pipeline on core `c`, the recorded pairs within `B c`. -/
def datB4 (c : Dev nD) : Dat τ (Elt F) Ix Name U ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := inv4 (Ix := Ix) (Name := Name) (U := U) c
  q _ := fullShare
  owed _ := 0
  recorded _ := B c

theorem A_eqB4 (c : Dev nD) (w : Fin cfg4.W) : (datB4 (Ix := Ix) (Name := Name) (U := U) V B c).A w = V c (Pipeline.arrRef spec4 w) := by
  dsimp only [datB4]

theorem afterB4_0 (c : Dev nD) (t : Fin cfg4.N) : (datB4 (Ix := Ix) (Name := Name) (U := U) V B c).after 0 t = iblk4 V c 0 t := by dsimp only [datB4]
theorem afterB4_1 (c : Dev nD) (t : Fin cfg4.N) : (datB4 (Ix := Ix) (Name := Name) (U := U) V B c).after 1 t = iblk4 V c 1 t := by dsimp only [datB4]
theorem afterB4_2 (c : Dev nD) (t : Fin cfg4.N) : (datB4 (Ix := Ix) (Name := Name) (U := U) V B c).after 2 t = iblk4 V c 2 t := by dsimp only [datB4]
theorem afterB4_3 (c : Dev nD) (t : Fin cfg4.N) :
    (datB4 (Ix := Ix) (Name := Name) (U := U) V B c).after 3 t = out4_3 (iblk4 V c 0 t) (iblk4 V c 1 t) (iblk4 V c 2 t) := by dsimp only [datB4]

theorem beforeB4_0 (c : Dev nD) (t : Fin cfg4.N) (d) : (datB4 (Ix := Ix) (Name := Name) (U := U) V B c).before 0 t d = iblk4 V c 0 t :=
  before4_0_of V (datB4 (Ix := Ix) (Name := Name) (U := U) V B c) (A_eqB4 V B c 0) (afterB4_0 V B c) t d
theorem beforeB4_1 (c : Dev nD) (t : Fin cfg4.N) (d) : (datB4 (Ix := Ix) (Name := Name) (U := U) V B c).before 1 t d = iblk4 V c 1 t :=
  before4_1_of V (datB4 (Ix := Ix) (Name := Name) (U := U) V B c) (A_eqB4 V B c 1) (afterB4_1 V B c) t d
theorem beforeB4_2 (c : Dev nD) (t : Fin cfg4.N) (d) : (datB4 (Ix := Ix) (Name := Name) (U := U) V B c).before 2 t d = iblk4 V c 2 t :=
  before4_2_of V (datB4 (Ix := Ix) (Name := Name) (U := U) V B c) (A_eqB4 V B c 2) (afterB4_2 V B c) t d

/-- The arrays after the write-backs below `n` are the unbounded data's: they are computed from the entry contents and
    what the body leaves, which are the same. -/
theorem arrAtB4 (c : Dev nD) (w : Fin cfg4.W) :
    ∀ n, (datB4 (Ix := Ix) (Name := Name) (U := U) V B c).arrAt w n = (dat4 (Ix := Ix) (Name := Name) (U := U) V c).arrAt w n
  | 0 => rfl
  | n + 1 => by
    funext i
    rw [Pipeline.Dat.arrAt_succ_apply, Pipeline.Dat.arrAt_succ_apply, arrAtB4 c w n]
    rfl

def bodyPreB4 (ι : Ix) (c : Dev nD) (t : Fin cfg4.N) : sProp 𝕄 :=
  iprop((datB4 (Ix := Ix) (Name := Name) (U := U) V B c).Φ t.castSucc ∗ (datB4 (Ix := Ix) (Name := Name) (U := U) V B c).owesAt ι t.castSucc
    ∗ (∃ d, owns (c : Thread nD τ) (st4_0 t) fullShare ((datB4 (Ix := Ix) (Name := Name) (U := U) V B c).before 0 t d))
    ∗ (∃ d, owns (c : Thread nD τ) (st4_1 t) fullShare ((datB4 (Ix := Ix) (Name := Name) (U := U) V B c).before 1 t d))
    ∗ (∃ d, owns (c : Thread nD τ) (st4_2 t) fullShare ((datB4 (Ix := Ix) (Name := Name) (U := U) V B c).before 2 t d))
    ∗ (∃ d, owns (c : Thread nD τ) (st4_3 t) fullShare ((datB4 (Ix := Ix) (Name := Name) (U := U) V B c).before 3 t d)))

def bodyPostB4 (ι : Ix) (c : Dev nD) (t : Fin cfg4.N) : sProp 𝕄 :=
  iprop((datB4 (Ix := Ix) (Name := Name) (U := U) V B c).Φ t.succ ∗ (datB4 (Ix := Ix) (Name := Name) (U := U) V B c).owesAt ι t.succ
    ∗ owns (c : Thread nD τ) (st4_0 t) fullShare ((datB4 (Ix := Ix) (Name := Name) (U := U) V B c).after 0 t)
    ∗ owns (c : Thread nD τ) (st4_1 t) fullShare ((datB4 (Ix := Ix) (Name := Name) (U := U) V B c).after 1 t)
    ∗ owns (c : Thread nD τ) (st4_2 t) fullShare ((datB4 (Ix := Ix) (Name := Name) (U := U) V B c).after 2 t)
    ∗ owns (c : Thread nD τ) (st4_3 t) fullShare ((datB4 (Ix := Ix) (Name := Name) (U := U) V B c).after 3 t))

theorem sound_bodyB4 (ι : Ix) (c : Dev nD) (t : Fin cfg4.N) :
    bodyPreB4 (Ix := Ix) (Name := Name) (U := U) V B ι c t
      ⊢ wp frame (wpE (defs₀ (F := F)) Variants.none c none) Set.univ (bodyAt4 t) (fun _ => bodyPostB4 (Ix := Ix) (Name := Name) (U := U) V B ι c t) := by
  unfold bodyPreB4 bodyPostB4 bodyAt4
  simp only [beforeB4_0, beforeB4_1, beforeB4_2]
  rw [show (datB4 (Ix := Ix) (Name := Name) (U := U) V B c).Φ t.succ = (datB4 (Ix := Ix) (Name := Name) (U := U) V B c).Φ t.castSucc from rfl,
    show (datB4 (Ix := Ix) (Name := Name) (U := U) V B c).owesAt ι t.succ = (datB4 (Ix := Ix) (Name := Name) (U := U) V B c).owesAt ι t.castSucc from rfl,
    afterB4_0, afterB4_1, afterB4_2, afterB4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for the bounded data, at every point. -/
theorem body_obligationB4 (ι : Ix) (c : Dev nD) :
    BodyObligation (datB4 (F := F) (Ix := Ix) (Name := Name) (U := U) V B c) (defs₀ (F := F)) Variants.none ι Set.univ := fun t => by
  rw [bigSep_W4, bigSep_W4]
  exact sound_bodyB4 V B ι c t

end Cert.Kernel.Heads

end
-- ==== Proof.Kernel.DatB5.lean ====
import proofs.«203661_g84404697301628_cont_9to1_m_135_26_alg».proof.Proof.Kernel.Dat5
import Idealize.ShloMosaic.Lib.Pipeline.Value

/-! # Pipeline `cfg5`: the proof data with the core's recorded pairs bounded

The proof data of the region with, besides, a bound `B c` on the (cell, index) pairs the core's waits have recorded before
the region: the body takes on no new unit, so the bound is the same at every point, and the region hands the core's `owes`
back with its recorded pairs within the bound and the pipeline's own waits' pairs. The arrays' contents are the unbounded
data's. -/

set_option maxRecDepth 16384

noncomputable section

namespace Cert.Kernel.Heads

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U]

local notation "𝕄" => MT nD τ sig Ix (Elt F) Name U ℕ

variable (V : (c : Dev nD) → (b : Ref sig .tc) → Buf (Elt F) ((c : Thread nD τ).loc b))

variable (B : Dev nD → Set (SemLoc sig × Ix))

/-- The proof data of the pipeline on core `c`, the recorded pairs within `B c`. -/
def datB5 (c : Dev nD) : Dat τ (Elt F) Ix Name U ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := inv5 (Ix := Ix) (Name := Name) (U := U) c
  q _ := fullShare
  owed _ := 0
  recorded _ := B c

theorem A_eqB5 (c : Dev nD) (w : Fin cfg5.W) : (datB5 (Ix := Ix) (Name := Name) (U := U) V B c).A w = V c (Pipeline.arrRef spec5 w) := by
  dsimp only [datB5]

theorem afterB5_0 (c : Dev nD) (t : Fin cfg5.N) : (datB5 (Ix := Ix) (Name := Name) (U := U) V B c).after 0 t = iblk5 V c 0 t := by dsimp only [datB5]
theorem afterB5_1 (c : Dev nD) (t : Fin cfg5.N) : (datB5 (Ix := Ix) (Name := Name) (U := U) V B c).after 1 t = iblk5 V c 1 t := by dsimp only [datB5]
theorem afterB5_2 (c : Dev nD) (t : Fin cfg5.N) : (datB5 (Ix := Ix) (Name := Name) (U := U) V B c).after 2 t = iblk5 V c 2 t := by dsimp only [datB5]
theorem afterB5_3 (c : Dev nD) (t : Fin cfg5.N) :
    (datB5 (Ix := Ix) (Name := Name) (U := U) V B c).after 3 t = out5_3 (iblk5 V c 0 t) (iblk5 V c 1 t) (iblk5 V c 2 t) := by dsimp only [datB5]

theorem beforeB5_0 (c : Dev nD) (t : Fin cfg5.N) (d) : (datB5 (Ix := Ix) (Name := Name) (U := U) V B c).before 0 t d = iblk5 V c 0 t :=
  before5_0_of V (datB5 (Ix := Ix) (Name := Name) (U := U) V B c) (A_eqB5 V B c 0) (afterB5_0 V B c) t d
theorem beforeB5_1 (c : Dev nD) (t : Fin cfg5.N) (d) : (datB5 (Ix := Ix) (Name := Name) (U := U) V B c).before 1 t d = iblk5 V c 1 t :=
  before5_1_of V (datB5 (Ix := Ix) (Name := Name) (U := U) V B c) (A_eqB5 V B c 1) (afterB5_1 V B c) t d
theorem beforeB5_2 (c : Dev nD) (t : Fin cfg5.N) (d) : (datB5 (Ix := Ix) (Name := Name) (U := U) V B c).before 2 t d = iblk5 V c 2 t :=
  before5_2_of V (datB5 (Ix := Ix) (Name := Name) (U := U) V B c) (A_eqB5 V B c 2) (afterB5_2 V B c) t d

/-- The arrays after the write-backs below `n` are the unbounded data's: they are computed from the entry contents and
    what the body leaves, which are the same. -/
theorem arrAtB5 (c : Dev nD) (w : Fin cfg5.W) :
    ∀ n, (datB5 (Ix := Ix) (Name := Name) (U := U) V B c).arrAt w n = (dat5 (Ix := Ix) (Name := Name) (U := U) V c).arrAt w n
  | 0 => rfl
  | n + 1 => by
    funext i
    rw [Pipeline.Dat.arrAt_succ_apply, Pipeline.Dat.arrAt_succ_apply, arrAtB5 c w n]
    rfl

def bodyPreB5 (ι : Ix) (c : Dev nD) (t : Fin cfg5.N) : sProp 𝕄 :=
  iprop((datB5 (Ix := Ix) (Name := Name) (U := U) V B c).Φ t.castSucc ∗ (datB5 (Ix := Ix) (Name := Name) (U := U) V B c).owesAt ι t.castSucc
    ∗ (∃ d, owns (c : Thread nD τ) (st5_0 t) fullShare ((datB5 (Ix := Ix) (Name := Name) (U := U) V B c).before 0 t d))
    ∗ (∃ d, owns (c : Thread nD τ) (st5_1 t) fullShare ((datB5 (Ix := Ix) (Name := Name) (U := U) V B c).before 1 t d))
    ∗ (∃ d, owns (c : Thread nD τ) (st5_2 t) fullShare ((datB5 (Ix := Ix) (Name := Name) (U := U) V B c).before 2 t d))
    ∗ (∃ d, owns (c : Thread nD τ) (st5_3 t) fullShare ((datB5 (Ix := Ix) (Name := Name) (U := U) V B c).before 3 t d)))

def bodyPostB5 (ι : Ix) (c : Dev nD) (t : Fin cfg5.N) : sProp 𝕄 :=
  iprop((datB5 (Ix := Ix) (Name := Name) (U := U) V B c).Φ t.succ ∗ (datB5 (Ix := Ix) (Name := Name) (U := U) V B c).owesAt ι t.succ
    ∗ owns (c : Thread nD τ) (st5_0 t) fullShare ((datB5 (Ix := Ix) (Name := Name) (U := U) V B c).after 0 t)
    ∗ owns (c : Thread nD τ) (st5_1 t) fullShare ((datB5 (Ix := Ix) (Name := Name) (U := U) V B c).after 1 t)
    ∗ owns (c : Thread nD τ) (st5_2 t) fullShare ((datB5 (Ix := Ix) (Name := Name) (U := U) V B c).after 2 t)
    ∗ owns (c : Thread nD τ) (st5_3 t) fullShare ((datB5 (Ix := Ix) (Name := Name) (U := U) V B c).after 3 t))

theorem sound_bodyB5 (ι : Ix) (c : Dev nD) (t : Fin cfg5.N) :
    bodyPreB5 (Ix := Ix) (Name := Name) (U := U) V B ι c t
      ⊢ wp frame (wpE (defs₀ (F := F)) Variants.none c none) Set.univ (bodyAt5 t) (fun _ => bodyPostB5 (Ix := Ix) (Name := Name) (U := U) V B ι c t) := by
  unfold bodyPreB5 bodyPostB5 bodyAt5
  simp only [beforeB5_0, beforeB5_1, beforeB5_2]
  rw [show (datB5 (Ix := Ix) (Name := Name) (U := U) V B c).Φ t.succ = (datB5 (Ix := Ix) (Name := Name) (U := U) V B c).Φ t.castSucc from rfl,
    show (datB5 (Ix := Ix) (Name := Name) (U := U) V B c).owesAt ι t.succ = (datB5 (Ix := Ix) (Name := Name) (U := U) V B c).owesAt ι t.castSucc from rfl,
    afterB5_0, afterB5_1, afterB5_2, afterB5_3]
  iintro ⟨HΦ, Ho, ⟨%d0, H0⟩, ⟨%d1, H1⟩, ⟨%d2, H2⟩, ⟨%d3, H3⟩⟩
  iapply (sound_kernel5 c Set.univ _ _ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for the bounded data, at every point. -/
theorem body_obligationB5 (ι : Ix) (c : Dev nD) :
    BodyObligation (datB5 (F := F) (Ix := Ix) (Name := Name) (U := U) V B c) (defs₀ (F := F)) Variants.none ι Set.univ := fun t => by
  rw [bigSep_W5, bigSep_W5]
  exact sound_bodyB5 V B ι c t

end Cert.Kernel.Heads

end
-- ==== Proof.Kernel.DatB6.lean ====
import proofs.«203661_g84404697301628_cont_9to1_m_135_26_alg».proof.Proof.Kernel.Dat6
import Idealize.ShloMosaic.Lib.Pipeline.Value

/-! # Pipeline `cfg6`: the proof data with the core's recorded pairs bounded

The proof data of the region with, besides, a bound `B c` on the (cell, index) pairs the core's waits have recorded before
the region: the body takes on no new unit, so the bound is the same at every point, and the region hands the core's `owes`
back with its recorded pairs within the bound and the pipeline's own waits' pairs. The arrays' contents are the unbounded
data's. -/

set_option maxRecDepth 16384

noncomputable section

namespace Cert.Kernel.Heads

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U]

local notation "𝕄" => MT nD τ sig Ix (Elt F) Name U ℕ

variable (V : (c : Dev nD) → (b : Ref sig .tc) → Buf (Elt F) ((c : Thread nD τ).loc b))

variable (B : Dev nD → Set (SemLoc sig × Ix))

/-- The proof data of the pipeline on core `c`, the recorded pairs within `B c`. -/
def datB6 (c : Dev nD) : Dat τ (Elt F) Ix Name U ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := inv6 (Ix := Ix) (Name := Name) (U := U) c
  q _ := fullShare
  owed _ := 0
  recorded _ := B c

theorem A_eqB6 (c : Dev nD) (w : Fin cfg6.W) : (datB6 (Ix := Ix) (Name := Name) (U := U) V B c).A w = V c (Pipeline.arrRef spec6 w) := by
  dsimp only [datB6]

theorem afterB6_0 (c : Dev nD) (t : Fin cfg6.N) : (datB6 (Ix := Ix) (Name := Name) (U := U) V B c).after 0 t = iblk6 V c 0 t := by dsimp only [datB6]
theorem afterB6_1 (c : Dev nD) (t : Fin cfg6.N) : (datB6 (Ix := Ix) (Name := Name) (U := U) V B c).after 1 t = iblk6 V c 1 t := by dsimp only [datB6]
theorem afterB6_2 (c : Dev nD) (t : Fin cfg6.N) : (datB6 (Ix := Ix) (Name := Name) (U := U) V B c).after 2 t = iblk6 V c 2 t := by dsimp only [datB6]
theorem afterB6_3 (c : Dev nD) (t : Fin cfg6.N) :
    (datB6 (Ix := Ix) (Name := Name) (U := U) V B c).after 3 t = out6_3 (iblk6 V c 0 t) (iblk6 V c 1 t) (iblk6 V c 2 t) := by dsimp only [datB6]

theorem beforeB6_0 (c : Dev nD) (t : Fin cfg6.N) (d) : (datB6 (Ix := Ix) (Name := Name) (U := U) V B c).before 0 t d = iblk6 V c 0 t :=
  before6_0_of V (datB6 (Ix := Ix) (Name := Name) (U := U) V B c) (A_eqB6 V B c 0) (afterB6_0 V B c) t d
theorem beforeB6_1 (c : Dev nD) (t : Fin cfg6.N) (d) : (datB6 (Ix := Ix) (Name := Name) (U := U) V B c).before 1 t d = iblk6 V c 1 t :=
  before6_1_of V (datB6 (Ix := Ix) (Name := Name) (U := U) V B c) (A_eqB6 V B c 1) (afterB6_1 V B c) t d
theorem beforeB6_2 (c : Dev nD) (t : Fin cfg6.N) (d) : (datB6 (Ix := Ix) (Name := Name) (U := U) V B c).before 2 t d = iblk6 V c 2 t :=
  before6_2_of V (datB6 (Ix := Ix) (Name := Name) (U := U) V B c) (A_eqB6 V B c 2) (afterB6_2 V B c) t d

/-- The arrays after the write-backs below `n` are the unbounded data's: they are computed from the entry contents and
    what the body leaves, which are the same. -/
theorem arrAtB6 (c : Dev nD) (w : Fin cfg6.W) :
    ∀ n, (datB6 (Ix := Ix) (Name := Name) (U := U) V B c).arrAt w n = (dat6 (Ix := Ix) (Name := Name) (U := U) V c).arrAt w n
  | 0 => rfl
  | n + 1 => by
    funext i
    rw [Pipeline.Dat.arrAt_succ_apply, Pipeline.Dat.arrAt_succ_apply, arrAtB6 c w n]
    rfl

def bodyPreB6 (ι : Ix) (c : Dev nD) (t : Fin cfg6.N) : sProp 𝕄 :=
  iprop((datB6 (Ix := Ix) (Name := Name) (U := U) V B c).Φ t.castSucc ∗ (datB6 (Ix := Ix) (Name := Name) (U := U) V B c).owesAt ι t.castSucc
    ∗ (∃ d, owns (c : Thread nD τ) (st6_0 t) fullShare ((datB6 (Ix := Ix) (Name := Name) (U := U) V B c).before 0 t d))
    ∗ (∃ d, owns (c : Thread nD τ) (st6_1 t) fullShare ((datB6 (Ix := Ix) (Name := Name) (U := U) V B c).before 1 t d))
    ∗ (∃ d, owns (c : Thread nD τ) (st6_2 t) fullShare ((datB6 (Ix := Ix) (Name := Name) (U := U) V B c).before 2 t d))
    ∗ (∃ d, owns (c : Thread nD τ) (st6_3 t) fullShare ((datB6 (Ix := Ix) (Name := Name) (U := U) V B c).before 3 t d)))

def bodyPostB6 (ι : Ix) (c : Dev nD) (t : Fin cfg6.N) : sProp 𝕄 :=
  iprop((datB6 (Ix := Ix) (Name := Name) (U := U) V B c).Φ t.succ ∗ (datB6 (Ix := Ix) (Name := Name) (U := U) V B c).owesAt ι t.succ
    ∗ owns (c : Thread nD τ) (st6_0 t) fullShare ((datB6 (Ix := Ix) (Name := Name) (U := U) V B c).after 0 t)
    ∗ owns (c : Thread nD τ) (st6_1 t) fullShare ((datB6 (Ix := Ix) (Name := Name) (U := U) V B c).after 1 t)
    ∗ owns (c : Thread nD τ) (st6_2 t) fullShare ((datB6 (Ix := Ix) (Name := Name) (U := U) V B c).after 2 t)
    ∗ owns (c : Thread nD τ) (st6_3 t) fullShare ((datB6 (Ix := Ix) (Name := Name) (U := U) V B c).after 3 t))

theorem sound_bodyB6 (ι : Ix) (c : Dev nD) (t : Fin cfg6.N) :
    bodyPreB6 (Ix := Ix) (Name := Name) (U := U) V B ι c t
      ⊢ wp frame (wpE (defs₀ (F := F)) Variants.none c none) Set.univ (bodyAt6 t) (fun _ => bodyPostB6 (Ix := Ix) (Name := Name) (U := U) V B ι c t) := by
  unfold bodyPreB6 bodyPostB6 bodyAt6
  simp only [beforeB6_0, beforeB6_1, beforeB6_2]
  rw [show (datB6 (Ix := Ix) (Name := Name) (U := U) V B c).Φ t.succ = (datB6 (Ix := Ix) (Name := Name) (U := U) V B c).Φ t.castSucc from rfl,
    show (datB6 (Ix := Ix) (Name := Name) (U := U) V B c).owesAt ι t.succ = (datB6 (Ix := Ix) (Name := Name) (U := U) V B c).owesAt ι t.castSucc from rfl,
    afterB6_0, afterB6_1, afterB6_2, afterB6_3]
  iintro ⟨HΦ, Ho, ⟨%d0, H0⟩, ⟨%d1, H1⟩, ⟨%d2, H2⟩, ⟨%d3, H3⟩⟩
  iapply (sound_kernel6 c Set.univ _ _ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for the bounded data, at every point. -/
theorem body_obligationB6 (ι : Ix) (c : Dev nD) :
    BodyObligation (datB6 (F := F) (Ix := Ix) (Name := Name) (U := U) V B c) (defs₀ (F := F)) Variants.none ι Set.univ := fun t => by
  rw [bigSep_W6, bigSep_W6]
  exact sound_bodyB6 V B ι c t

end Cert.Kernel.Heads

end
-- ==== Proof.Kernel.DatB7.lean ====
import proofs.«203661_g84404697301628_cont_9to1_m_135_26_alg».proof.Proof.Kernel.Dat7
import Idealize.ShloMosaic.Lib.Pipeline.Value

/-! # Pipeline `cfg7`: the proof data with the core's recorded pairs bounded

The proof data of the region with, besides, a bound `B c` on the (cell, index) pairs the core's waits have recorded before
the region: the body takes on no new unit, so the bound is the same at every point, and the region hands the core's `owes`
back with its recorded pairs within the bound and the pipeline's own waits' pairs. The arrays' contents are the unbounded
data's. -/

set_option maxRecDepth 16384

noncomputable section

namespace Cert.Kernel.Heads

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U]

local notation "𝕄" => MT nD τ sig Ix (Elt F) Name U ℕ

variable (V : (c : Dev nD) → (b : Ref sig .tc) → Buf (Elt F) ((c : Thread nD τ).loc b))

variable (B : Dev nD → Set (SemLoc sig × Ix))

/-- The proof data of the pipeline on core `c`, the recorded pairs within `B c`. -/
def datB7 (c : Dev nD) : Dat τ (Elt F) Ix Name U ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := inv7 (Ix := Ix) (Name := Name) (U := U) c
  q _ := fullShare
  owed _ := 0
  recorded _ := B c

theorem A_eqB7 (c : Dev nD) (w : Fin cfg7.W) : (datB7 (Ix := Ix) (Name := Name) (U := U) V B c).A w = V c (Pipeline.arrRef spec7 w) := by
  dsimp only [datB7]

theorem afterB7_0 (c : Dev nD) (t : Fin cfg7.N) : (datB7 (Ix := Ix) (Name := Name) (U := U) V B c).after 0 t = iblk7 V c 0 t := by dsimp only [datB7]
theorem afterB7_1 (c : Dev nD) (t : Fin cfg7.N) : (datB7 (Ix := Ix) (Name := Name) (U := U) V B c).after 1 t = iblk7 V c 1 t := by dsimp only [datB7]
theorem afterB7_2 (c : Dev nD) (t : Fin cfg7.N) : (datB7 (Ix := Ix) (Name := Name) (U := U) V B c).after 2 t = iblk7 V c 2 t := by dsimp only [datB7]
theorem afterB7_3 (c : Dev nD) (t : Fin cfg7.N) :
    (datB7 (Ix := Ix) (Name := Name) (U := U) V B c).after 3 t = out7_3 (iblk7 V c 0 t) (iblk7 V c 1 t) (iblk7 V c 2 t) := by dsimp only [datB7]

theorem beforeB7_0 (c : Dev nD) (t : Fin cfg7.N) (d) : (datB7 (Ix := Ix) (Name := Name) (U := U) V B c).before 0 t d = iblk7 V c 0 t :=
  before7_0_of V (datB7 (Ix := Ix) (Name := Name) (U := U) V B c) (A_eqB7 V B c 0) (afterB7_0 V B c) t d
theorem beforeB7_1 (c : Dev nD) (t : Fin cfg7.N) (d) : (datB7 (Ix := Ix) (Name := Name) (U := U) V B c).before 1 t d = iblk7 V c 1 t :=
  before7_1_of V (datB7 (Ix := Ix) (Name := Name) (U := U) V B c) (A_eqB7 V B c 1) (afterB7_1 V B c) t d
theorem beforeB7_2 (c : Dev nD) (t : Fin cfg7.N) (d) : (datB7 (Ix := Ix) (Name := Name) (U := U) V B c).before 2 t d = iblk7 V c 2 t :=
  before7_2_of V (datB7 (Ix := Ix) (Name := Name) (U := U) V B c) (A_eqB7 V B c 2) (afterB7_2 V B c) t d

/-- The arrays after the write-backs below `n` are the unbounded data's: they are computed from the entry contents and
    what the body leaves, which are the same. -/
theorem arrAtB7 (c : Dev nD) (w : Fin cfg7.W) :
    ∀ n, (datB7 (Ix := Ix) (Name := Name) (U := U) V B c).arrAt w n = (dat7 (Ix := Ix) (Name := Name) (U := U) V c).arrAt w n
  | 0 => rfl
  | n + 1 => by
    funext i
    rw [Pipeline.Dat.arrAt_succ_apply, Pipeline.Dat.arrAt_succ_apply, arrAtB7 c w n]
    rfl

def bodyPreB7 (ι : Ix) (c : Dev nD) (t : Fin cfg7.N) : sProp 𝕄 :=
  iprop((datB7 (Ix := Ix) (Name := Name) (U := U) V B c).Φ t.castSucc ∗ (datB7 (Ix := Ix) (Name := Name) (U := U) V B c).owesAt ι t.castSucc
    ∗ (∃ d, owns (c : Thread nD τ) (st7_0 t) fullShare ((datB7 (Ix := Ix) (Name := Name) (U := U) V B c).before 0 t d))
    ∗ (∃ d, owns (c : Thread nD τ) (st7_1 t) fullShare ((datB7 (Ix := Ix) (Name := Name) (U := U) V B c).before 1 t d))
    ∗ (∃ d, owns (c : Thread nD τ) (st7_2 t) fullShare ((datB7 (Ix := Ix) (Name := Name) (U := U) V B c).before 2 t d))
    ∗ (∃ d, owns (c : Thread nD τ) (st7_3 t) fullShare ((datB7 (Ix := Ix) (Name := Name) (U := U) V B c).before 3 t d)))

def bodyPostB7 (ι : Ix) (c : Dev nD) (t : Fin cfg7.N) : sProp 𝕄 :=
  iprop((datB7 (Ix := Ix) (Name := Name) (U := U) V B c).Φ t.succ ∗ (datB7 (Ix := Ix) (Name := Name) (U := U) V B c).owesAt ι t.succ
    ∗ owns (c : Thread nD τ) (st7_0 t) fullShare ((datB7 (Ix := Ix) (Name := Name) (U := U) V B c).after 0 t)
    ∗ owns (c : Thread nD τ) (st7_1 t) fullShare ((datB7 (Ix := Ix) (Name := Name) (U := U) V B c).after 1 t)
    ∗ owns (c : Thread nD τ) (st7_2 t) fullShare ((datB7 (Ix := Ix) (Name := Name) (U := U) V B c).after 2 t)
    ∗ owns (c : Thread nD τ) (st7_3 t) fullShare ((datB7 (Ix := Ix) (Name := Name) (U := U) V B c).after 3 t))

theorem sound_bodyB7 (ι : Ix) (c : Dev nD) (t : Fin cfg7.N) :
    bodyPreB7 (Ix := Ix) (Name := Name) (U := U) V B ι c t
      ⊢ wp frame (wpE (defs₀ (F := F)) Variants.none c none) Set.univ (bodyAt7 t) (fun _ => bodyPostB7 (Ix := Ix) (Name := Name) (U := U) V B ι c t) := by
  unfold bodyPreB7 bodyPostB7 bodyAt7
  simp only [beforeB7_0, beforeB7_1, beforeB7_2]
  rw [show (datB7 (Ix := Ix) (Name := Name) (U := U) V B c).Φ t.succ = (datB7 (Ix := Ix) (Name := Name) (U := U) V B c).Φ t.castSucc from rfl,
    show (datB7 (Ix := Ix) (Name := Name) (U := U) V B c).owesAt ι t.succ = (datB7 (Ix := Ix) (Name := Name) (U := U) V B c).owesAt ι t.castSucc from rfl,
    afterB7_0, afterB7_1, afterB7_2, afterB7_3]
  iintro ⟨HΦ, Ho, ⟨%d0, H0⟩, ⟨%d1, H1⟩, ⟨%d2, H2⟩, ⟨%d3, H3⟩⟩
  iapply (sound_kernel7 c Set.univ _ _ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for the bounded data, at every point. -/
theorem body_obligationB7 (ι : Ix) (c : Dev nD) :
    BodyObligation (datB7 (F := F) (Ix := Ix) (Name := Name) (U := U) V B c) (defs₀ (F := F)) Variants.none ι Set.univ := fun t => by
  rw [bigSep_W7, bigSep_W7]
  exact sound_bodyB7 V B ι c t

end Cert.Kernel.Heads

end
-- ==== Proof.Kernel.FamilyB.lean ====
import proofs.«203661_g84404697301628_cont_9to1_m_135_26_alg».proof.Proof.Kernel.Family
import proofs.«203661_g84404697301628_cont_9to1_m_135_26_alg».proof.Proof.Kernel.DatB4
import proofs.«203661_g84404697301628_cont_9to1_m_135_26_alg».proof.Proof.Kernel.DatB5
import proofs.«203661_g84404697301628_cont_9to1_m_135_26_alg».proof.Proof.Kernel.DatB6
import proofs.«203661_g84404697301628_cont_9to1_m_135_26_alg».proof.Proof.Kernel.DatB7

/-! # The four regions' proof data with the core's recorded pairs bounded

The family of the bounded proof data, each at its region's entry contents, and the thread state's rider: the generator
register at some state and the core owing nothing, its recorded pairs within `B c`. The contents a region leaves are the
unbounded data's (`exitK`). -/

set_option maxRecDepth 16384

noncomputable section

namespace Cert.Kernel.Heads

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U]

local notation "𝕄" => MT nD τ sig Ix (Elt F) Name U ℕ

variable (B : Dev nD → Set (SemLoc sig × Ix))
variable (W4 W5 W6 W7 : Dev nD → Valuation τ sig (Elt F))

/-- Every pipeline's bounded proof data, each at its region's entry contents: a literal `match` on the pipeline. -/
def pdatsB : (p : Fin 4) → (c : Dev nD) → Dat τ (Elt F) Ix Name U ℕ (Pipeline.pin (pcfgs (F := F)) adm p) c
  | ⟨0, _⟩ => fun c => datB4 (tcOf W4) B c
  | ⟨1, _⟩ => fun c => datB5 (tcOf W5) B c
  | ⟨2, _⟩ => fun c => datB6 (tcOf W6) B c
  | ⟨3, _⟩ => fun c => datB7 (tcOf W7) B c

/-- What rides beside the buffers through a region: the core's generator register at some state and its `owes`, at
    nothing, with its recorded pairs within `B c`. -/
abbrev RB (c : Dev nD) : sProp 𝕄 :=
  iprop((∃ r, prngReg c r) ∗ Pipeline.owesWithin (Name := Name) (U := U) (Lvl := ℕ) (Val := Elt F) c (0 : CellTallies nD τ sig Ix) (B c))

/-- At the exit of the region of pipeline `cfg4` each of its arrays holds what the bounded data's write-backs leave. -/
theorem hFB4 (W : Dev nD → Valuation τ sig (Elt F)) (c : Dev nD) (w : Fin cfg4.W) :
    (datB4 (Ix := Ix) (Name := Name) (U := U) (tcOf W) B c).arrAt w cfg4.N = tcOf (exit4 (Ix := Ix) (Name := Name) (U := U) W) c (Pipeline.arrRef spec4 w) :=
  (arrAtB4 (tcOf W) B c w cfg4.N).trans (hF4 W c w)

/-- At the exit of the region of pipeline `cfg5` each of its arrays holds what the bounded data's write-backs leave. -/
theorem hFB5 (W : Dev nD → Valuation τ sig (Elt F)) (c : Dev nD) (w : Fin cfg5.W) :
    (datB5 (Ix := Ix) (Name := Name) (U := U) (tcOf W) B c).arrAt w cfg5.N = tcOf (exit5 (Ix := Ix) (Name := Name) (U := U) W) c (Pipeline.arrRef spec5 w) :=
  (arrAtB5 (tcOf W) B c w cfg5.N).trans (hF5 W c w)

/-- At the exit of the region of pipeline `cfg6` each of its arrays holds what the bounded data's write-backs leave. -/
theorem hFB6 (W : Dev nD → Valuation τ sig (Elt F)) (c : Dev nD) (w : Fin cfg6.W) :
    (datB6 (Ix := Ix) (Name := Name) (U := U) (tcOf W) B c).arrAt w cfg6.N = tcOf (exit6 (Ix := Ix) (Name := Name) (U := U) W) c (Pipeline.arrRef spec6 w) :=
  (arrAtB6 (tcOf W) B c w cfg6.N).trans (hF6 W c w)

/-- At the exit of the region of pipeline `cfg7` each of its arrays holds what the bounded data's write-backs leave. -/
theorem hFB7 (W : Dev nD → Valuation τ sig (Elt F)) (c : Dev nD) (w : Fin cfg7.W) :
    (datB7 (Ix := Ix) (Name := Name) (U := U) (tcOf W) B c).arrAt w cfg7.N = tcOf (exit7 (Ix := Ix) (Name := Name) (U := U) W) c (Pipeline.arrRef spec7 w) :=
  (arrAtB7 (tcOf W) B c w cfg7.N).trans (hF7 W c w)

end Cert.Kernel.Heads

end
-- ==== Proof.Kernel.RegB4.lean ====
import proofs.«203661_g84404697301628_cont_9to1_m_135_26_alg».proof.Proof.Kernel.FamilyB

/-! # The region of pipeline `cfg4` as a segment, the core's recorded pairs bounded

As the unbounded segment, over the thread state "every unscoped buffer at the boundary's contents, the generator register,
the core owing nothing with its recorded pairs within `B c`": the pipeline's own waits record pairs of its staging cells at
the index `ι`, which `B c` holds (`hB`), so the bound comes back as it went in. -/

set_option maxRecDepth 16384

noncomputable section

namespace Cert.Kernel.Heads

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U]

local notation "𝕄" => MT nD τ sig Ix (Elt F) Name U ℕ

variable (B : Dev nD → Set (SemLoc sig × Ix))
variable (W4 W5 W6 W7 : Dev nD → Valuation τ sig (Elt F))

set_option backward.isDefEq.respectTransparency.types false in
def regB4 (ι : Ix) (L : GSem nD τ sig → Finset Ix) (lv : GSem nD τ sig → Ix → ℕ) (hB : ∀ c, cfg4.waitPairs ι ⊆ B c) :
    Pipeline.RegionSeg (pcfgs (F := F)) adm (pdatsB (Ix := Ix) (Name := Name) (U := U) B W4 W5 W6 W7) ι defs₀ Variants.none L lv 0 where
  win := launch4.win.to₀
  block_pos := launch4.block_pos
  stage_whole := launch4.stage_whole
  K := PEmpty
  osem k := k.elim
  ho := Pipeline.OwnSemFacts.none _
  hbody c := (body_obligationB4 (Ix := Ix) (Name := Name) (U := U) (tcOf W4) B ι c).loose
  hwaits := Pipeline.hwaits_of_owed_zero _ _ _ _ L lv 0 fun _ _ => rfl
  pre c := iprop(StableHlo.held (c : Thread nD τ) (Pipeline.ucRefs τ sig) (W4 c) ∗ RB (Ix := Ix) (Name := Name) (U := U) B c)
  post c := iprop(StableHlo.held (c : Thread nD τ) (Pipeline.ucRefs τ sig) (exit4 (Ix := Ix) (Name := Name) (U := U) W4 c) ∗ RB (Ix := Ix) (Name := Name) (U := U) B c)
  X c := iprop(∃ r, prngReg c r)
  Y c := iprop(∃ r, prngReg c r)
  Z c := Pipeline.unscopedRest (Ix := Ix) (Name := Name) (U := U) (Lvl := ℕ) spec4 c (tcOf W4 c)
  hentry c := by
    rw [Pipeline.ownSems0_none]
    have hsplit := Pipeline.arrays_of_unscopedBufs (p := 0) (pcfgs (F := F)) adm (pdatsB (Ix := Ix) (Name := Name) (U := U) B W4 W5 W6 W7) launch4.win launch4.arr_whole c
      ((pdatsB (Ix := Ix) (Name := Name) (U := U) B W4 W5 W6 W7 0 c).share_full fun _ => rfl) (tcOf W4 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt
      iapply (Pipeline.owesWithin_mono (c : Dev nD) (0 : CellTallies nD τ sig Ix)
        (show B c ⊆ (pdatsB (Ix := Ix) (Name := Name) (U := U) B W4 W5 W6 W7 0 c).bound ι 0 from Set.subset_union_left))
      iexact HO
    isplitl [Hp]; · iexact Hp
    iexact Hrest
  hin c := by
    rw [show (pdatsB (Ix := Ix) (Name := Name) (U := U) B W4 W5 W6 W7 0 c).Φ 0 = inv4 (Ix := Ix) (Name := Name) (U := U) c from rfl]; unfold inv4
    iintro ⟨Hp, -, Hr⟩
    isplitl [Hr]; · iexact Hr
    iexact Hp
  hout c := by
    rw [Pipeline.ownSems0_none, show (pdatsB (Ix := Ix) (Name := Name) (U := U) B W4 W5 W6 W7 0 c).Φ (Fin.last _) = inv4 (Ix := Ix) (Name := Name) (U := U) c from rfl]; unfold inv4
    iintro ⟨Hr, Hp⟩
    isplitl [Hp]; · iexact Hp
    isplitr; · iempintro
    iexact Hr
  hexit c := by
    have hjoin := Pipeline.unscopedBufs_of_arrays (p := 0) (pcfgs (F := F)) adm (Ix := Ix) (Name := Name) (U := U) (Lvl := ℕ)
      launch4.win launch4.arr_whole c (pdatsB (Ix := Ix) (Name := Name) (U := U) B W4 W5 W6 W7) ((pdatsB (Ix := Ix) (Name := Name) (U := U) B W4 W5 W6 W7 0 c).share_full fun _ => rfl)
      (tcOf W4 c) (tcOf (exit4 (Ix := Ix) (Name := Name) (U := U) W4) c) ((pdatsB (Ix := Ix) (Name := Name) (U := U) B W4 W5 W6 W7 0 c).arrAt · cfg4.N) (hFB4 B W4 c) (hrest4 W4 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt
    iapply (Pipeline.owesWithin_mono (c : Dev nD) (0 : CellTallies nD τ sig Ix)
      (show (pdatsB (Ix := Ix) (Name := Name) (U := U) B W4 W5 W6 W7 0 c).bound ι (Fin.last _) ⊆ B c from Set.union_subset (le_refl _) (hB c)))
    iexact HO

end Cert.Kernel.Heads

end
-- ==== Proof.Kernel.RegB5.lean ====
import proofs.«203661_g84404697301628_cont_9to1_m_135_26_alg».proof.Proof.Kernel.FamilyB

/-! # The region of pipeline `cfg5` as a segment, the core's recorded pairs bounded

As the unbounded segment, over the thread state "every unscoped buffer at the boundary's contents, the generator register,
the core owing nothing with its recorded pairs within `B c`": the pipeline's own waits record pairs of its staging cells at
the index `ι`, which `B c` holds (`hB`), so the bound comes back as it went in. -/

set_option maxRecDepth 16384

noncomputable section

namespace Cert.Kernel.Heads

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U]

local notation "𝕄" => MT nD τ sig Ix (Elt F) Name U ℕ

variable (B : Dev nD → Set (SemLoc sig × Ix))
variable (W4 W5 W6 W7 : Dev nD → Valuation τ sig (Elt F))

set_option backward.isDefEq.respectTransparency.types false in
def regB5 (ι : Ix) (L : GSem nD τ sig → Finset Ix) (lv : GSem nD τ sig → Ix → ℕ) (hB : ∀ c, cfg5.waitPairs ι ⊆ B c) :
    Pipeline.RegionSeg (pcfgs (F := F)) adm (pdatsB (Ix := Ix) (Name := Name) (U := U) B W4 W5 W6 W7) ι defs₀ Variants.none L lv 1 where
  win := launch5.win.to₀
  block_pos := launch5.block_pos
  stage_whole := launch5.stage_whole
  K := PEmpty
  osem k := k.elim
  ho := Pipeline.OwnSemFacts.none _
  hbody c := (body_obligationB5 (Ix := Ix) (Name := Name) (U := U) (tcOf W5) B ι c).loose
  hwaits := Pipeline.hwaits_of_owed_zero _ _ _ _ L lv 1 fun _ _ => rfl
  pre c := iprop(StableHlo.held (c : Thread nD τ) (Pipeline.ucRefs τ sig) (W5 c) ∗ RB (Ix := Ix) (Name := Name) (U := U) B c)
  post c := iprop(StableHlo.held (c : Thread nD τ) (Pipeline.ucRefs τ sig) (exit5 (Ix := Ix) (Name := Name) (U := U) W5 c) ∗ RB (Ix := Ix) (Name := Name) (U := U) B c)
  X c := iprop(∃ r, prngReg c r)
  Y c := iprop(∃ r, prngReg c r)
  Z c := Pipeline.unscopedRest (Ix := Ix) (Name := Name) (U := U) (Lvl := ℕ) spec5 c (tcOf W5 c)
  hentry c := by
    rw [Pipeline.ownSems0_none]
    have hsplit := Pipeline.arrays_of_unscopedBufs (p := 1) (pcfgs (F := F)) adm (pdatsB (Ix := Ix) (Name := Name) (U := U) B W4 W5 W6 W7) launch5.win launch5.arr_whole c
      ((pdatsB (Ix := Ix) (Name := Name) (U := U) B W4 W5 W6 W7 1 c).share_full fun _ => rfl) (tcOf W5 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt
      iapply (Pipeline.owesWithin_mono (c : Dev nD) (0 : CellTallies nD τ sig Ix)
        (show B c ⊆ (pdatsB (Ix := Ix) (Name := Name) (U := U) B W4 W5 W6 W7 1 c).bound ι 0 from Set.subset_union_left))
      iexact HO
    isplitl [Hp]; · iexact Hp
    iexact Hrest
  hin c := by
    rw [show (pdatsB (Ix := Ix) (Name := Name) (U := U) B W4 W5 W6 W7 1 c).Φ 0 = inv5 (Ix := Ix) (Name := Name) (U := U) c from rfl]; unfold inv5
    iintro ⟨Hp, -, Hr⟩
    isplitl [Hr]; · iexact Hr
    iexact Hp
  hout c := by
    rw [Pipeline.ownSems0_none, show (pdatsB (Ix := Ix) (Name := Name) (U := U) B W4 W5 W6 W7 1 c).Φ (Fin.last _) = inv5 (Ix := Ix) (Name := Name) (U := U) c from rfl]; unfold inv5
    iintro ⟨Hr, Hp⟩
    isplitl [Hp]; · iexact Hp
    isplitr; · iempintro
    iexact Hr
  hexit c := by
    have hjoin := Pipeline.unscopedBufs_of_arrays (p := 1) (pcfgs (F := F)) adm (Ix := Ix) (Name := Name) (U := U) (Lvl := ℕ)
      launch5.win launch5.arr_whole c (pdatsB (Ix := Ix) (Name := Name) (U := U) B W4 W5 W6 W7) ((pdatsB (Ix := Ix) (Name := Name) (U := U) B W4 W5 W6 W7 1 c).share_full fun _ => rfl)
      (tcOf W5 c) (tcOf (exit5 (Ix := Ix) (Name := Name) (U := U) W5) c) ((pdatsB (Ix := Ix) (Name := Name) (U := U) B W4 W5 W6 W7 1 c).arrAt · cfg5.N) (hFB5 B W5 c) (hrest5 W5 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt
    iapply (Pipeline.owesWithin_mono (c : Dev nD) (0 : CellTallies nD τ sig Ix)
      (show (pdatsB (Ix := Ix) (Name := Name) (U := U) B W4 W5 W6 W7 1 c).bound ι (Fin.last _) ⊆ B c from Set.union_subset (le_refl _) (hB c)))
    iexact HO

end Cert.Kernel.Heads

end
-- ==== Proof.Kernel.RegB6.lean ====
import proofs.«203661_g84404697301628_cont_9to1_m_135_26_alg».proof.Proof.Kernel.FamilyB

/-! # The region of pipeline `cfg6` as a segment, the core's recorded pairs bounded

As the unbounded segment, over the thread state "every unscoped buffer at the boundary's contents, the generator register,
the core owing nothing with its recorded pairs within `B c`": the pipeline's own waits record pairs of its staging cells at
the index `ι`, which `B c` holds (`hB`), so the bound comes back as it went in. -/

set_option maxRecDepth 16384

noncomputable section

namespace Cert.Kernel.Heads

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U]

local notation "𝕄" => MT nD τ sig Ix (Elt F) Name U ℕ

variable (B : Dev nD → Set (SemLoc sig × Ix))
variable (W4 W5 W6 W7 : Dev nD → Valuation τ sig (Elt F))

set_option backward.isDefEq.respectTransparency.types false in
def regB6 (ι : Ix) (L : GSem nD τ sig → Finset Ix) (lv : GSem nD τ sig → Ix → ℕ) (hB : ∀ c, cfg6.waitPairs ι ⊆ B c) :
    Pipeline.RegionSeg (pcfgs (F := F)) adm (pdatsB (Ix := Ix) (Name := Name) (U := U) B W4 W5 W6 W7) ι defs₀ Variants.none L lv 2 where
  win := launch6.win.to₀
  block_pos := launch6.block_pos
  stage_whole := launch6.stage_whole
  K := PEmpty
  osem k := k.elim
  ho := Pipeline.OwnSemFacts.none _
  hbody c := (body_obligationB6 (Ix := Ix) (Name := Name) (U := U) (tcOf W6) B ι c).loose
  hwaits := Pipeline.hwaits_of_owed_zero _ _ _ _ L lv 2 fun _ _ => rfl
  pre c := iprop(StableHlo.held (c : Thread nD τ) (Pipeline.ucRefs τ sig) (W6 c) ∗ RB (Ix := Ix) (Name := Name) (U := U) B c)
  post c := iprop(StableHlo.held (c : Thread nD τ) (Pipeline.ucRefs τ sig) (exit6 (Ix := Ix) (Name := Name) (U := U) W6 c) ∗ RB (Ix := Ix) (Name := Name) (U := U) B c)
  X c := iprop(∃ r, prngReg c r)
  Y c := iprop(∃ r, prngReg c r)
  Z c := Pipeline.unscopedRest (Ix := Ix) (Name := Name) (U := U) (Lvl := ℕ) spec6 c (tcOf W6 c)
  hentry c := by
    rw [Pipeline.ownSems0_none]
    have hsplit := Pipeline.arrays_of_unscopedBufs (p := 2) (pcfgs (F := F)) adm (pdatsB (Ix := Ix) (Name := Name) (U := U) B W4 W5 W6 W7) launch6.win launch6.arr_whole c
      ((pdatsB (Ix := Ix) (Name := Name) (U := U) B W4 W5 W6 W7 2 c).share_full fun _ => rfl) (tcOf W6 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt
      iapply (Pipeline.owesWithin_mono (c : Dev nD) (0 : CellTallies nD τ sig Ix)
        (show B c ⊆ (pdatsB (Ix := Ix) (Name := Name) (U := U) B W4 W5 W6 W7 2 c).bound ι 0 from Set.subset_union_left))
      iexact HO
    isplitl [Hp]; · iexact Hp
    iexact Hrest
  hin c := by
    rw [show (pdatsB (Ix := Ix) (Name := Name) (U := U) B W4 W5 W6 W7 2 c).Φ 0 = inv6 (Ix := Ix) (Name := Name) (U := U) c from rfl]; unfold inv6
    iintro ⟨Hp, -, Hr⟩
    isplitl [Hr]; · iexact Hr
    iexact Hp
  hout c := by
    rw [Pipeline.ownSems0_none, show (pdatsB (Ix := Ix) (Name := Name) (U := U) B W4 W5 W6 W7 2 c).Φ (Fin.last _) = inv6 (Ix := Ix) (Name := Name) (U := U) c from rfl]; unfold inv6
    iintro ⟨Hr, Hp⟩
    isplitl [Hp]; · iexact Hp
    isplitr; · iempintro
    iexact Hr
  hexit c := by
    have hjoin := Pipeline.unscopedBufs_of_arrays (p := 2) (pcfgs (F := F)) adm (Ix := Ix) (Name := Name) (U := U) (Lvl := ℕ)
      launch6.win launch6.arr_whole c (pdatsB (Ix := Ix) (Name := Name) (U := U) B W4 W5 W6 W7) ((pdatsB (Ix := Ix) (Name := Name) (U := U) B W4 W5 W6 W7 2 c).share_full fun _ => rfl)
      (tcOf W6 c) (tcOf (exit6 (Ix := Ix) (Name := Name) (U := U) W6) c) ((pdatsB (Ix := Ix) (Name := Name) (U := U) B W4 W5 W6 W7 2 c).arrAt · cfg6.N) (hFB6 B W6 c) (hrest6 W6 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt
    iapply (Pipeline.owesWithin_mono (c : Dev nD) (0 : CellTallies nD τ sig Ix)
      (show (pdatsB (Ix := Ix) (Name := Name) (U := U) B W4 W5 W6 W7 2 c).bound ι (Fin.last _) ⊆ B c from Set.union_subset (le_refl _) (hB c)))
    iexact HO

end Cert.Kernel.Heads

end
-- ==== Proof.Kernel.RegB7.lean ====
import proofs.«203661_g84404697301628_cont_9to1_m_135_26_alg».proof.Proof.Kernel.FamilyB

/-! # The region of pipeline `cfg7` as a segment, the core's recorded pairs bounded

As the unbounded segment, over the thread state "every unscoped buffer at the boundary's contents, the generator register,
the core owing nothing with its recorded pairs within `B c`": the pipeline's own waits record pairs of its staging cells at
the index `ι`, which `B c` holds (`hB`), so the bound comes back as it went in. -/

set_option maxRecDepth 16384

noncomputable section

namespace Cert.Kernel.Heads

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U]

local notation "𝕄" => MT nD τ sig Ix (Elt F) Name U ℕ

variable (B : Dev nD → Set (SemLoc sig × Ix))
variable (W4 W5 W6 W7 : Dev nD → Valuation τ sig (Elt F))

set_option backward.isDefEq.respectTransparency.types false in
def regB7 (ι : Ix) (L : GSem nD τ sig → Finset Ix) (lv : GSem nD τ sig → Ix → ℕ) (hB : ∀ c, cfg7.waitPairs ι ⊆ B c) :
    Pipeline.RegionSeg (pcfgs (F := F)) adm (pdatsB (Ix := Ix) (Name := Name) (U := U) B W4 W5 W6 W7) ι defs₀ Variants.none L lv 3 where
  win := launch7.win.to₀
  block_pos := launch7.block_pos
  stage_whole := launch7.stage_whole
  K := PEmpty
  osem k := k.elim
  ho := Pipeline.OwnSemFacts.none _
  hbody c := (body_obligationB7 (Ix := Ix) (Name := Name) (U := U) (tcOf W7) B ι c).loose
  hwaits := Pipeline.hwaits_of_owed_zero _ _ _ _ L lv 3 fun _ _ => rfl
  pre c := iprop(StableHlo.held (c : Thread nD τ) (Pipeline.ucRefs τ sig) (W7 c) ∗ RB (Ix := Ix) (Name := Name) (U := U) B c)
  post c := iprop(StableHlo.held (c : Thread nD τ) (Pipeline.ucRefs τ sig) (exit7 (Ix := Ix) (Name := Name) (U := U) W7 c) ∗ RB (Ix := Ix) (Name := Name) (U := U) B c)
  X c := iprop(∃ r, prngReg c r)
  Y c := iprop(∃ r, prngReg c r)
  Z c := Pipeline.unscopedRest (Ix := Ix) (Name := Name) (U := U) (Lvl := ℕ) spec7 c (tcOf W7 c)
  hentry c := by
    rw [Pipeline.ownSems0_none]
    have hsplit := Pipeline.arrays_of_unscopedBufs (p := 3) (pcfgs (F := F)) adm (pdatsB (Ix := Ix) (Name := Name) (U := U) B W4 W5 W6 W7) launch7.win launch7.arr_whole c
      ((pdatsB (Ix := Ix) (Name := Name) (U := U) B W4 W5 W6 W7 3 c).share_full fun _ => rfl) (tcOf W7 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt
      iapply (Pipeline.owesWithin_mono (c : Dev nD) (0 : CellTallies nD τ sig Ix)
        (show B c ⊆ (pdatsB (Ix := Ix) (Name := Name) (U := U) B W4 W5 W6 W7 3 c).bound ι 0 from Set.subset_union_left))
      iexact HO
    isplitl [Hp]; · iexact Hp
    iexact Hrest
  hin c := by
    rw [show (pdatsB (Ix := Ix) (Name := Name) (U := U) B W4 W5 W6 W7 3 c).Φ 0 = inv7 (Ix := Ix) (Name := Name) (U := U) c from rfl]; unfold inv7
    iintro ⟨Hp, -, Hr⟩
    isplitl [Hr]; · iexact Hr
    iexact Hp
  hout c := by
    rw [Pipeline.ownSems0_none, show (pdatsB (Ix := Ix) (Name := Name) (U := U) B W4 W5 W6 W7 3 c).Φ (Fin.last _) = inv7 (Ix := Ix) (Name := Name) (U := U) c from rfl]; unfold inv7
    iintro ⟨Hr, Hp⟩
    isplitl [Hp]; · iexact Hp
    isplitr; · iempintro
    iexact Hr
  hexit c := by
    have hjoin := Pipeline.unscopedBufs_of_arrays (p := 3) (pcfgs (F := F)) adm (Ix := Ix) (Name := Name) (U := U) (Lvl := ℕ)
      launch7.win launch7.arr_whole c (pdatsB (Ix := Ix) (Name := Name) (U := U) B W4 W5 W6 W7) ((pdatsB (Ix := Ix) (Name := Name) (U := U) B W4 W5 W6 W7 3 c).share_full fun _ => rfl)
      (tcOf W7 c) (tcOf (exit7 (Ix := Ix) (Name := Name) (U := U) W7) c) ((pdatsB (Ix := Ix) (Name := Name) (U := U) B W4 W5 W6 W7 3 c).arrAt · cfg7.N) (hFB7 B W7 c) (hrest7 W7 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt
    iapply (Pipeline.owesWithin_mono (c : Dev nD) (0 : CellTallies nD τ sig Ix)
      (show (pdatsB (Ix := Ix) (Name := Name) (U := U) B W4 W5 W6 W7 3 c).bound ι (Fin.last _) ⊆ B c from Set.union_subset (le_refl _) (hB c)))
    iexact HO

end Cert.Kernel.Heads

end
-- ==== Proof.Kernel.Inputs.lean ====
import proofs.«203661_g84404697301628_cont_9to1_m_135_26_alg».proof.Proof.Kernel.Family

/-! # A region leaves its input arrays as entered

An input window's array is never written back, so at a region's exit it holds its entry contents; and every buffer that is
none of the region's arrays is as entered (`exitK_of_ne`). -/

set_option maxRecDepth 16384

noncomputable section

namespace Cert.Kernel.Heads

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U]

local notation "𝕄" => MT nD τ sig Ix (Elt F) Name U ℕ

/-- At the exit of the region of pipeline `cfg4`, an input window's array holds its entry contents. -/
theorem exit4_input (W : Dev nD → Valuation τ sig (Elt F)) (c : Dev nD) (w : Fin cfg4.W) (hw : (cfg4.win w).isOut = false) :
    exit4 (Ix := Ix) (Name := Name) (U := U) W c (Proc.devRef .tc (Pipeline.arrRef spec4 w)) = W c (Proc.devRef .tc (Pipeline.arrRef spec4 w)) :=
  (exit4_arr W c w).trans (((dat4 (Ix := Ix) (Name := Name) (U := U) (tcOf W) c).arrAt_in w hw _).trans (A_eq4 (tcOf W) c w))

/-- At the exit of the region of pipeline `cfg5`, an input window's array holds its entry contents. -/
theorem exit5_input (W : Dev nD → Valuation τ sig (Elt F)) (c : Dev nD) (w : Fin cfg5.W) (hw : (cfg5.win w).isOut = false) :
    exit5 (Ix := Ix) (Name := Name) (U := U) W c (Proc.devRef .tc (Pipeline.arrRef spec5 w)) = W c (Proc.devRef .tc (Pipeline.arrRef spec5 w)) :=
  (exit5_arr W c w).trans (((dat5 (Ix := Ix) (Name := Name) (U := U) (tcOf W) c).arrAt_in w hw _).trans (A_eq5 (tcOf W) c w))

/-- At the exit of the region of pipeline `cfg6`, an input window's array holds its entry contents. -/
theorem exit6_input (W : Dev nD → Valuation τ sig (Elt F)) (c : Dev nD) (w : Fin cfg6.W) (hw : (cfg6.win w).isOut = false) :
    exit6 (Ix := Ix) (Name := Name) (U := U) W c (Proc.devRef .tc (Pipeline.arrRef spec6 w)) = W c (Proc.devRef .tc (Pipeline.arrRef spec6 w)) :=
  (exit6_arr W c w).trans (((dat6 (Ix := Ix) (Name := Name) (U := U) (tcOf W) c).arrAt_in w hw _).trans (A_eq6 (tcOf W) c w))

/-- At the exit of the region of pipeline `cfg7`, an input window's array holds its entry contents. -/
theorem exit7_input (W : Dev nD → Valuation τ sig (Elt F)) (c : Dev nD) (w : Fin cfg7.W) (hw : (cfg7.win w).isOut = false) :
    exit7 (Ix := Ix) (Name := Name) (U := U) W c (Proc.devRef .tc (Pipeline.arrRef spec7 w)) = W c (Proc.devRef .tc (Pipeline.arrRef spec7 w)) :=
  (exit7_arr W c w).trans (((dat7 (Ix := Ix) (Name := Name) (U := U) (tcOf W) c).arrAt_in w hw _).trans (A_eq7 (tcOf W) c w))

end Cert.Kernel.Heads

end
-- ==== Proof.Kernel.Chain.lean ====
import proofs.«203661_g84404697301628_cont_9to1_m_135_26_alg».proof.Proof.Kernel.Inputs

/-! # The four regions composed through @main's three copies

From the contents `W4` the first region is entered from: each later region is entered from what the region before it left,
after @main's copy of that region's result array into the next result's buffer. The weight, bias and embedding arrays are
read back through the chain to `W4`; each result buffer is read back to the result before it. -/

set_option maxRecDepth 16384

noncomputable section

namespace Cert.Kernel.Heads

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U]

local notation "𝕄" => MT nD τ sig Ix (Elt F) Name U ℕ

variable (W4 : Dev nD → Valuation τ sig (Elt F))

/-- @main's copy of one region's result into the next region's result buffer. -/
abbrev copy5 : List (HloOp τ sig (Elt F)) := [StableHlo.unary main_v13 main_v14 id]
abbrev copy6 : List (HloOp τ sig (Elt F)) := [StableHlo.unary main_v14 main_v15 id]
abbrev copy7 : List (HloOp τ sig (Elt F)) := [StableHlo.unary main_v15 main_v16 id]

/-- The contents the second, third and fourth regions are entered from, and what the last one leaves. -/
def W5 : Dev nD → Valuation τ sig (Elt F) := fun c => StableHlo.after (copy5 (F := F)) (exit4 (Ix := Ix) (Name := Name) (U := U) W4 c)
def W6 : Dev nD → Valuation τ sig (Elt F) := fun c => StableHlo.after (copy6 (F := F)) (exit5 (Ix := Ix) (Name := Name) (U := U) (W5 (Ix := Ix) (Name := Name) (U := U) W4) c)
def W7 : Dev nD → Valuation τ sig (Elt F) := fun c => StableHlo.after (copy7 (F := F)) (exit6 (Ix := Ix) (Name := Name) (U := U) (W6 (Ix := Ix) (Name := Name) (U := U) W4) c)
def Wend : Dev nD → Valuation τ sig (Elt F) := exit7 (Ix := Ix) (Name := Name) (U := U) (W7 (Ix := Ix) (Name := Name) (U := U) W4)

/-! ## A copy moves one buffer and leaves the others -/

theorem W5_of_ne (c : Dev nD) (b : Ref sig .tc) (hb : b ≠ main_v14) :
    W5 (Ix := Ix) (Name := Name) (U := U) W4 c (Proc.devRef .tc b) = exit4 (Ix := Ix) (Name := Name) (U := U) W4 c (Proc.devRef .tc b) := by
  unfold W5; simp only [StableHlo.after_cons, StableHlo.after_nil]
  exact StableHlo.unary_result_ne _ _ _ _ _ _ hb
theorem W5_result (c : Dev nD) :
    W5 (Ix := Ix) (Name := Name) (U := U) W4 c (Proc.devRef .tc main_v14) = exit4 (Ix := Ix) (Name := Name) (U := U) W4 c (Proc.devRef .tc main_v13) := by
  unfold W5; simp only [StableHlo.after_cons, StableHlo.after_nil]
  exact StableHlo.unary_result _ _ _ _ _ _

theorem W6_of_ne (c : Dev nD) (b : Ref sig .tc) (hb : b ≠ main_v15) :
    W6 (Ix := Ix) (Name := Name) (U := U) W4 c (Proc.devRef .tc b) = exit5 (Ix := Ix) (Name := Name) (U := U) (W5 (Ix := Ix) (Name := Name) (U := U) W4) c (Proc.devRef .tc b) := by
  unfold W6; simp only [StableHlo.after_cons, StableHlo.after_nil]
  exact StableHlo.unary_result_ne _ _ _ _ _ _ hb
theorem W6_result (c : Dev nD) :
    W6 (Ix := Ix) (Name := Name) (U := U) W4 c (Proc.devRef .tc main_v15) = exit5 (Ix := Ix) (Name := Name) (U := U) (W5 (Ix := Ix) (Name := Name) (U := U) W4) c (Proc.devRef .tc main_v14) := by
  unfold W6; simp only [StableHlo.after_cons, StableHlo.after_nil]
  exact StableHlo.unary_result _ _ _ _ _ _

theorem W7_of_ne (c : Dev nD) (b : Ref sig .tc) (hb : b ≠ main_v16) :
    W7 (Ix := Ix) (Name := Name) (U := U) W4 c (Proc.devRef .tc b) = exit6 (Ix := Ix) (Name := Name) (U := U) (W6 (Ix := Ix) (Name := Name) (U := U) W4) c (Proc.devRef .tc b) := by
  unfold W7; simp only [StableHlo.after_cons, StableHlo.after_nil]
  exact StableHlo.unary_result_ne _ _ _ _ _ _ hb
theorem W7_result (c : Dev nD) :
    W7 (Ix := Ix) (Name := Name) (U := U) W4 c (Proc.devRef .tc main_v16) = exit6 (Ix := Ix) (Name := Name) (U := U) (W6 (Ix := Ix) (Name := Name) (U := U) W4) c (Proc.devRef .tc main_v15) := by
  unfold W7; simp only [StableHlo.after_cons, StableHlo.after_nil]
  exact StableHlo.unary_result _ _ _ _ _ _

/-! ## The input arrays, read back to `W4` -/

/-- The weight array and the bias column: an input of every region. -/
theorem W5_v1 (c : Dev nD) : tcOf (W5 (Ix := Ix) (Name := Name) (U := U) W4) c main_v1 = tcOf W4 c main_v1 :=
  (W5_of_ne W4 c main_v1 (by decide)).trans (exit4_input W4 c 1 rfl)
theorem W5_v2 (c : Dev nD) : tcOf (W5 (Ix := Ix) (Name := Name) (U := U) W4) c main_v2 = tcOf W4 c main_v2 :=
  (W5_of_ne W4 c main_v2 (by decide)).trans (exit4_input W4 c 2 rfl)
theorem W6_v1 (c : Dev nD) : tcOf (W6 (Ix := Ix) (Name := Name) (U := U) W4) c main_v1 = tcOf W4 c main_v1 :=
  ((W6_of_ne W4 c main_v1 (by decide)).trans (exit5_input (W5 (Ix := Ix) (Name := Name) (U := U) W4) c 1 rfl)).trans (W5_v1 W4 c)
theorem W6_v2 (c : Dev nD) : tcOf (W6 (Ix := Ix) (Name := Name) (U := U) W4) c main_v2 = tcOf W4 c main_v2 :=
  ((W6_of_ne W4 c main_v2 (by decide)).trans (exit5_input (W5 (Ix := Ix) (Name := Name) (U := U) W4) c 2 rfl)).trans (W5_v2 W4 c)
theorem W7_v1 (c : Dev nD) : tcOf (W7 (Ix := Ix) (Name := Name) (U := U) W4) c main_v1 = tcOf W4 c main_v1 :=
  ((W7_of_ne W4 c main_v1 (by decide)).trans (exit6_input (W6 (Ix := Ix) (Name := Name) (U := U) W4) c 1 rfl)).trans (W6_v1 W4 c)
theorem W7_v2 (c : Dev nD) : tcOf (W7 (Ix := Ix) (Name := Name) (U := U) W4) c main_v2 = tcOf W4 c main_v2 :=
  ((W7_of_ne W4 c main_v2 (by decide)).trans (exit6_input (W6 (Ix := Ix) (Name := Name) (U := U) W4) c 2 rfl)).trans (W6_v2 W4 c)

/-- The later regions' embedding arrays: no earlier region's array, no copy's target. -/
theorem W5_v8 (c : Dev nD) : tcOf (W5 (Ix := Ix) (Name := Name) (U := U) W4) c main_v8 = tcOf W4 c main_v8 :=
  (W5_of_ne W4 c main_v8 (by decide)).trans (exit4_of_ne W4 c main_v8 (by decide))
theorem W5_v10 (c : Dev nD) : tcOf (W5 (Ix := Ix) (Name := Name) (U := U) W4) c main_v10 = tcOf W4 c main_v10 :=
  (W5_of_ne W4 c main_v10 (by decide)).trans (exit4_of_ne W4 c main_v10 (by decide))
theorem W5_v12 (c : Dev nD) : tcOf (W5 (Ix := Ix) (Name := Name) (U := U) W4) c main_v12 = tcOf W4 c main_v12 :=
  (W5_of_ne W4 c main_v12 (by decide)).trans (exit4_of_ne W4 c main_v12 (by decide))
theorem W6_v10 (c : Dev nD) : tcOf (W6 (Ix := Ix) (Name := Name) (U := U) W4) c main_v10 = tcOf W4 c main_v10 :=
  ((W6_of_ne W4 c main_v10 (by decide)).trans (exit5_of_ne (W5 (Ix := Ix) (Name := Name) (U := U) W4) c main_v10 (by decide))).trans (W5_v10 W4 c)
theorem W6_v12 (c : Dev nD) : tcOf (W6 (Ix := Ix) (Name := Name) (U := U) W4) c main_v12 = tcOf W4 c main_v12 :=
  ((W6_of_ne W4 c main_v12 (by decide)).trans (exit5_of_ne (W5 (Ix := Ix) (Name := Name) (U := U) W4) c main_v12 (by decide))).trans (W5_v12 W4 c)
theorem W7_v12 (c : Dev nD) : tcOf (W7 (Ix := Ix) (Name := Name) (U := U) W4) c main_v12 = tcOf W4 c main_v12 :=
  ((W7_of_ne W4 c main_v12 (by decide)).trans (exit6_of_ne (W6 (Ix := Ix) (Name := Name) (U := U) W4) c main_v12 (by decide))).trans (W6_v12 W4 c)

/-! ## Each result buffer, read back to the region before -/

theorem W5_v14 (c : Dev nD) : tcOf (W5 (Ix := Ix) (Name := Name) (U := U) W4) c main_v14 = (dat4 (Ix := Ix) (Name := Name) (U := U) (tcOf W4) c).arrAt 3 cfg4.N :=
  (W5_result W4 c).trans (exit4_arr W4 c 3)
theorem W6_v15 (c : Dev nD) : tcOf (W6 (Ix := Ix) (Name := Name) (U := U) W4) c main_v15 = (dat5 (Ix := Ix) (Name := Name) (U := U) (tcOf (W5 (Ix := Ix) (Name := Name) (U := U) W4)) c).arrAt 3 cfg5.N :=
  (W6_result W4 c).trans (exit5_arr (W5 (Ix := Ix) (Name := Name) (U := U) W4) c 3)
theorem W7_v16 (c : Dev nD) : tcOf (W7 (Ix := Ix) (Name := Name) (U := U) W4) c main_v16 = (dat6 (Ix := Ix) (Name := Name) (U := U) (tcOf (W6 (Ix := Ix) (Name := Name) (U := U) W4)) c).arrAt 3 cfg6.N :=
  (W7_result W4 c).trans (exit6_arr (W6 (Ix := Ix) (Name := Name) (U := U) W4) c 3)
theorem Wend_v16 (c : Dev nD) : tcOf (Wend (Ix := Ix) (Name := Name) (U := U) W4) c main_v16 = (dat7 (Ix := Ix) (Name := Name) (U := U) (tcOf (W7 (Ix := Ix) (Name := Name) (U := U) W4)) c).arrAt 3 cfg7.N :=
  exit7_arr (W7 (Ix := Ix) (Name := Name) (U := U) W4) c 3

end Cert.Kernel.Heads

end
-- ==== Proof.Kernel.Tail.lean ====
import proofs.«203661_g84404697301628_cont_9to1_m_135_26_alg».proof.Proof.Kernel.RegB4
import proofs.«203661_g84404697301628_cont_9to1_m_135_26_alg».proof.Proof.Kernel.RegB5
import proofs.«203661_g84404697301628_cont_9to1_m_135_26_alg».proof.Proof.Kernel.RegB6
import proofs.«203661_g84404697301628_cont_9to1_m_135_26_alg».proof.Proof.Kernel.RegB7
import proofs.«203661_g84404697301628_cont_9to1_m_135_26_alg».proof.Proof.Kernel.Chain
import Idealize.ShloMosaic.Lib.SparseCore.Threads

/-! # The TensorCore's tail of @main: the four regions and the copies between them, under the extended body table

After its four SparseCore calls @main enters the four TensorCore regions, copying each result into the next result's buffer
between them, and transposes the last result. That tail is the lifted run of eight segments — a region, a copy, a region, a
copy, a region, a copy, a region, the transpose —, so its triple is the segments' run lifted to the extended table: from the
region boundary, every unscoped buffer at contents `W4`, the generator register, the core owing nothing with its recorded
pairs within `B d`, the level facts and the four pipelines' ghost state, to the same at the contents after the transpose. -/

set_option maxRecDepth 16384

noncomputable section

namespace Cert.Kernel.Heads

open Cert.Kernel Cert.Kernel.Gen
open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## @main, cut before the first region -/

/-- @main from its first region on. -/
def tailProg (d : Dev nD) : Prog (TpuEff nD τ sig (Elt F) (SparseCore.Sig (Pipeline.Sig Λ₀ (Fin 4) fun p => (pcfgs (F := F) p).Adm) 4) .tc) PUnit := do
  Prog.lift (.customCall (SparseCore.inner (Pipeline.entry 0)) ())
  hlo rfl (StableHlo.unary main_v13 main_v14 id) (fun _ => .ret ⟨⟩)
  Prog.lift (.customCall (SparseCore.inner (Pipeline.entry 1)) ())
  hlo rfl (StableHlo.unary main_v14 main_v15 id) (fun _ => .ret ⟨⟩)
  Prog.lift (.customCall (SparseCore.inner (Pipeline.entry 2)) ())
  hlo rfl (StableHlo.unary main_v15 main_v16 id) (fun _ => .ret ⟨⟩)
  Prog.lift (.customCall (SparseCore.inner (Pipeline.entry 3)) ())
  hlo rfl (StableHlo.unary main_v16 main_v17 ((transpose S16384x8x1000 [2, 0, 1] · transposes_S8x1000x16384_S16384x8x1000_2_0_1) : (⟨S8x1000x16384, .f32⟩ : BufTy).Contents (Elt F) → (⟨S16384x8x1000, .f32⟩ : BufTy).Contents (Elt F))) (fun _ => .ret ⟨⟩)
  pure ⟨⟩

/-- @main up to its fourth SparseCore call, continued by `k`. -/
def headProg (d : Dev nD) (k : Prog (TpuEff nD τ sig (Elt F) (SparseCore.Sig (Pipeline.Sig Λ₀ (Fin 4) fun p => (pcfgs (F := F) p).Adm) 4) .tc) PUnit) : Prog (TpuEff nD τ sig (Elt F) (SparseCore.Sig (Pipeline.Sig Λ₀ (Fin 4) fun p => (pcfgs (F := F) p).Adm) 4) .tc) PUnit := do
  hlo rfl (StableHlo.nullary main_c (constantI S_ 32 0#32)) (fun _ => .ret ⟨⟩)
  fn_pad.body (.of main_arg1) (.of main_c) main_call0
  hlo rfl (StableHlo.unary main_arg3 main_v1 ((transpose S1000x32 [1, 0] · transposes_S32x1000_S1000x32_1_0) : (⟨S32x1000, .f32⟩ : BufTy).Contents (Elt F) → (⟨S1000x32, .f32⟩ : BufTy).Contents (Elt F))) (fun _ => .ret ⟨⟩)
  hlo rfl (StableHlo.reshape main_arg4 main_v2 rfl shapeCasts_S1000_S1000x1) (fun _ => .ret ⟨⟩)
  hlo rfl (StableHlo.unary main_arg0 main_v3 ((transpose S8x16384 [1, 0] · transposes_S16384x8_S8x16384_1_0) : (⟨S16384x8, .i32⟩ : BufTy).Contents (Elt F) → (⟨S8x16384, .i32⟩ : BufTy).Contents (Elt F))) (fun _ => .ret ⟨⟩)
  hlo rfl (StableHlo.reshape main_v3 main_v4 rfl shapeCasts_S8x16384_S131072) (fun _ => .ret ⟨⟩)
  hlo rfl (StableHlo.unary main_v4 main_v5 ((extractStridedSlice S16384 ![0] · slices_S131072_S16384_0) : (⟨S131072, .i32⟩ : BufTy).Contents (Elt F) → (⟨S16384, .i32⟩ : BufTy).Contents (Elt F))) (fun _ => .ret ⟨⟩)
  sc.run d 0
  hlo rfl (StableHlo.unary main_v4 main_v7 ((extractStridedSlice S16384 ![16384] · slices_S131072_S16384_16384) : (⟨S131072, .i32⟩ : BufTy).Contents (Elt F) → (⟨S16384, .i32⟩ : BufTy).Contents (Elt F))) (fun _ => .ret ⟨⟩)
  sc.run d 1
  hlo rfl (StableHlo.unary main_v4 main_v9 ((extractStridedSlice S32768 ![32768] · slices_S131072_S32768_32768) : (⟨S131072, .i32⟩ : BufTy).Contents (Elt F) → (⟨S32768, .i32⟩ : BufTy).Contents (Elt F))) (fun _ => .ret ⟨⟩)
  sc.run d 2
  hlo rfl (StableHlo.unary main_v4 main_v11 ((extractStridedSlice S65536 ![65536] · slices_S131072_S65536_65536) : (⟨S131072, .i32⟩ : BufTy).Contents (Elt F) → (⟨S65536, .i32⟩ : BufTy).Contents (Elt F))) (fun _ => .ret ⟨⟩)
  sc.run d 3
  k

/-- @main is its head continued by its tail. -/
theorem main_split (d : Dev nD) : main (F := F) d = headProg d (tailProg d) := rfl

/-! ## The tail as segments -/

variable {Name : Type} [DecidableEq Name] {U : Type} [URA U]

local notation "𝕄" => MT nD τ sig (HIx 4) (Elt F) Name U ℕ

variable (L : GSem nD τ sig → Finset (HIx 4)) (lv : GSem nD τ sig → HIx 4 → ℕ)
variable (B : Dev nD → Set (SemLoc sig × HIx 4))
variable (W4 : Dev nD → Valuation τ sig (Elt F))

/-- The closing transpose of the last result. -/
abbrev lastOps : List (HloOp τ sig (Elt F)) :=
  [StableHlo.unary main_v16 main_v17 ((transpose S16384x8x1000 [2, 0, 1] · transposes_S8x1000x16384_S16384x8x1000_2_0_1) : (⟨S8x1000x16384, .f32⟩ : BufTy).Contents (Elt F) → (⟨S16384x8x1000, .f32⟩ : BufTy).Contents (Elt F))]

/-- The contents after the tail. -/
def Wfin : Dev nD → Valuation τ sig (Elt F) := fun c => StableHlo.after (lastOps (F := F)) (Wend (Ix := HIx 4) (Name := Name) (U := U) W4 c)

theorem copy5_sub : (copy5 : List (HloOp τ sig (Elt F))).Forall fun op => op.bufs ⊆ StableHlo.tcRefs τ sig := StableHlo.unary_bufs_sub ..
theorem copy6_sub : (copy6 : List (HloOp τ sig (Elt F))).Forall fun op => op.bufs ⊆ StableHlo.tcRefs τ sig := StableHlo.unary_bufs_sub ..
theorem copy7_sub : (copy7 : List (HloOp τ sig (Elt F))).Forall fun op => op.bufs ⊆ StableHlo.tcRefs τ sig := StableHlo.unary_bufs_sub ..
theorem lastOps_sub : (lastOps : List (HloOp τ sig (Elt F))).Forall fun op => op.bufs ⊆ StableHlo.tcRefs τ sig := StableHlo.unary_bufs_sub ..
theorem copy5_fresh : (copy5 : List (HloOp τ sig (Elt F))).Forall fun op => op.fresh = ∅ := by simp only [List.Forall]; repeat' constructor
theorem copy6_fresh : (copy6 : List (HloOp τ sig (Elt F))).Forall fun op => op.fresh = ∅ := by simp only [List.Forall]; repeat' constructor
theorem copy7_fresh : (copy7 : List (HloOp τ sig (Elt F))).Forall fun op => op.fresh = ∅ := by simp only [List.Forall]; repeat' constructor
theorem lastOps_fresh : (lastOps : List (HloOp τ sig (Elt F))).Forall fun op => op.fresh = ∅ := by simp only [List.Forall]; repeat' constructor

/-- A stretch of host operations as a segment over the unscoped references from the contents `W`, the rider beside. -/
abbrev hsegB (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := Name) (U := U) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W (RB (Ix := HIx 4) (Name := Name) (U := U) B)

variable (hB : ∀ (p : Fin 4) (c : Dev nD), (cfgs p).waitPairs (none : HIx 4) ⊆ B c)

/-- The tail's eight segments, in order. -/
def tailSegs : List (Pipeline.Seg (pcfgs (F := F)) adm (pdatsB (Ix := HIx 4) (Name := Name) (U := U) B W4 (W5 (Ix := HIx 4) (Name := Name) (U := U) W4) (W6 (Ix := HIx 4) (Name := Name) (U := U) W4) (W7 (Ix := HIx 4) (Name := Name) (U := U) W4)) (none : HIx 4) defs₀ Variants.none L lv) :=
  [ .region (regB4 (Ix := HIx 4) (Name := Name) (U := U) B W4 (W5 (Ix := HIx 4) (Name := Name) (U := U) W4) (W6 (Ix := HIx 4) (Name := Name) (U := U) W4) (W7 (Ix := HIx 4) (Name := Name) (U := U) W4) none L lv (hB 0)),
    .host (hsegB L lv B copy5 copy5_sub copy5_fresh (exit4 (Ix := HIx 4) (Name := Name) (U := U) W4)),
    .region (regB5 (Ix := HIx 4) (Name := Name) (U := U) B W4 (W5 (Ix := HIx 4) (Name := Name) (U := U) W4) (W6 (Ix := HIx 4) (Name := Name) (U := U) W4) (W7 (Ix := HIx 4) (Name := Name) (U := U) W4) none L lv (hB 1)),
    .host (hsegB L lv B copy6 copy6_sub copy6_fresh (exit5 (Ix := HIx 4) (Name := Name) (U := U) (W5 (Ix := HIx 4) (Name := Name) (U := U) W4))),
    .region (regB6 (Ix := HIx 4) (Name := Name) (U := U) B W4 (W5 (Ix := HIx 4) (Name := Name) (U := U) W4) (W6 (Ix := HIx 4) (Name := Name) (U := U) W4) (W7 (Ix := HIx 4) (Name := Name) (U := U) W4) none L lv (hB 2)),
    .host (hsegB L lv B copy7 copy7_sub copy7_fresh (exit6 (Ix := HIx 4) (Name := Name) (U := U) (W6 (Ix := HIx 4) (Name := Name) (U := U) W4))),
    .region (regB7 (Ix := HIx 4) (Name := Name) (U := U) B W4 (W5 (Ix := HIx 4) (Name := Name) (U := U) W4) (W6 (Ix := HIx 4) (Name := Name) (U := U) W4) (W7 (Ix := HIx 4) (Name := Name) (U := U) W4) none L lv (hB 3)),
    .host (hsegB L lv B lastOps lastOps_sub lastOps_fresh (Wend (Ix := HIx 4) (Name := Name) (U := U) W4)) ]

/-- The tail IS the lifted run of its segments. -/
theorem tail_run (d : Dev nD) :
    tailProg (F := F) d = SparseCore.liftProg (Pipeline.Seg.run (tailSegs (Name := Name) (U := U) L lv B W4 hB)) := by
  chain_rfl

/-! ## The tail's triple -/

variable [Infinite Name]
variable (EP : Emb (URounds (GSem nD τ sig) Unit) (MT nD τ sig (HIx 4) (Elt F) Name U ℕ))
  [EP.LandsIn (upEmb : UEmb _ (MT nD τ sig (HIx 4) (Elt F) Name U ℕ))]

include hB in
set_option backward.isDefEq.respectTransparency.types false in
/-- From the region boundary, every unscoped buffer at `W4 d`, the rider, the level facts and the four pipelines' ghost
    state, the tail runs under the extended body table to the boundary, every unscoped buffer at `Wfin W4 d` and the rider. -/
theorem wp_tail [∀ e, Nonempty (Elt F e)] (d : Dev nD) (Φ : PUnit → sProp 𝕄) :
    iprop((iprop(boundary (T d) ∗ StableHlo.held (T d) (Pipeline.ucRefs τ sig) (Wfin (Name := Name) (U := U) W4 d) ∗ RB (Ix := HIx 4) (Name := Name) (U := U) B d) -∗ Φ ⟨⟩)
        ∗ boundary (T d) ∗ (StableHlo.held (T d) (Pipeline.ucRefs τ sig) (W4 d) ∗ RB (Ix := HIx 4) (Name := Name) (U := U) B d) ∗ levAts L lv
        ∗ Pipeline.ghostOn (pcfgs (F := F)) adm EP Finset.univ d)
      ⊢ wp frame (wpE ((sc (F := F)).defs (Pipeline.defs pcfgs defs₀)) (Variants.lift Variants.none) (T d) none) Set.univ (tailProg (F := F) d) Φ := by
  rw [tail_run (Name := Name) (U := U) L lv B W4 hB d]
  refine BI.Entails.trans ?_ ((sc (F := F)).wp_liftProg (Pipeline.defs pcfgs defs₀) (Variants.lift Variants.none) (T d) Set.univ none _ Φ)
  exact Pipeline.wp_segs (pcfgs (F := F)) adm (pdatsB (Ix := HIx 4) (Name := Name) (U := U) B W4 (W5 (Ix := HIx 4) (Name := Name) (U := U) W4) (W6 (Ix := HIx 4) (Name := Name) (U := U) W4) (W7 (Ix := HIx 4) (Name := Name) (U := U) W4)) (none : HIx 4) cellOf_inj EP defs₀ Variants.none L lv d
    (tailSegs (Name := Name) (U := U) L lv B W4 hB) Finset.univ
    (fun c => iprop(StableHlo.held (c : Thread nD τ) (Pipeline.ucRefs τ sig) (W4 c) ∗ RB (Ix := HIx 4) (Name := Name) (U := U) B c))
    (fun c => iprop(StableHlo.held (c : Thread nD τ) (Pipeline.ucRefs τ sig) (Wfin (Name := Name) (U := U) W4 c) ∗ RB (Ix := HIx 4) (Name := Name) (U := U) B c))
    (by simp only [tailSegs, Pipeline.Seg.pipes_host, Pipeline.Seg.pipes_region, Pipeline.Seg.pipes_nil]; decide)
    (fun p _ => Finset.mem_univ p)
    ⟨fun _ => .rfl, fun _ => .rfl, fun _ => .rfl, fun _ => .rfl, fun _ => .rfl, fun _ => .rfl, fun _ => .rfl, fun _ => .rfl, fun _ => .rfl⟩

end Cert.Kernel.Heads

end
-- ==== Proof.Kernel.TailSt.lean ====
import proofs.«203661_g84404697301628_cont_9to1_m_135_26_alg».proof.Proof.Kernel.Tail

/-! # The tail's triple from and to the TensorCore's handshake state after the last SparseCore call

After its last SparseCore call the TensorCore owes nothing, its recorded pairs all at or below the last call's band; the
regions' own waits record pairs of their staging cells at the index `none`, level 0. So the handshake state goes through the
tail unchanged, but for the recorded set growing within the same bound. -/

set_option maxRecDepth 16384

noncomputable section

namespace Cert.Kernel.Heads

open Cert.Kernel Cert.Kernel.Gen
open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Name : Type} [DecidableEq Name] [Infinite Name] {U : Type} [URA U]

local notation "𝕄" => MT nD τ sig (HIx 4) (Elt F) Name U ℕ

/-- The pairs at or below the last call's band, on device `d`'s TensorCore. -/
def bandB (d : Dev nD) : Set (SemLoc sig × HIx 4) := {p | (sc (F := F)).lev (T d, p.1) p.2 ≤ 8 * 4}

/-- The regions' staging cells' pairs, at the index `none`, are within it. -/
theorem waitPairs_bandB (p : Fin 4) (d : Dev nD) : (cfgs p).waitPairs (none : HIx 4) ⊆ bandB (F := F) d := by
  rintro _ ⟨w, s, rfl⟩
  exact Nat.zero_le _

variable (lv : GSem nD τ sig → HIx 4 → ℕ)
variable (W4 : Dev nD → Valuation τ sig (Elt F))
variable (EH : Emb (URounds (GSem nD τ sig) ℕ) (MT nD τ sig (HIx 4) (Elt F) Name U ℕ))
variable (EP : Emb (URounds (GSem nD τ sig) Unit) (MT nD τ sig (HIx 4) (Elt F) Name U ℕ))
  [EP.LandsIn (upEmb : UEmb _ (MT nD τ sig (HIx 4) (Elt F) Name U ℕ))]

/-- The tail from the TensorCore's state after the fourth call (`tcSt … 4`), the region boundary, every unscoped buffer at
    `W4 d`, the generator register, the level facts and the four pipelines' ghost state, to the same handshake state, the
    boundary, the buffers at `Wfin W4 d` and the generator register. -/
theorem wp_tail_tcSt [∀ e, Nonempty (Elt F e)] (d : Dev nD) (Φ : PUnit → sProp 𝕄) :
    iprop((sc (F := F)).tcSt EH d 4 ∗ boundary (T d) ∗ StableHlo.held (T d) (Pipeline.ucRefs τ sig) (W4 d) ∗ (∃ r, prngReg d r)
        ∗ levAts (sc (F := F)).L lv ∗ Pipeline.ghostOn (pcfgs (F := F)) adm EP Finset.univ d
        ∗ (iprop((sc (F := F)).tcSt EH d 4 ∗ boundary (T d) ∗ StableHlo.held (T d) (Pipeline.ucRefs τ sig) (Wfin (Name := Name) (U := U) W4 d) ∗ (∃ r, prngReg d r)) -∗ Φ ⟨⟩))
      ⊢ wp frame (wpE ((sc (F := F)).defs (Pipeline.defs pcfgs defs₀)) (Variants.lift Variants.none) (T d) none) Set.univ (tailProg (F := F) d) Φ := by
  unfold SparseCore.Cfg.tcSt
  rw [(sc (F := F)).Otc_end d (le_refl 4)]
  iintro ⟨⟨⟨%W, %hW, HO⟩, Hrest⟩, Hbd, Hh, Hp, Hlev, Hg, Hk⟩
  iapply (wp_tail (sc (F := F)).L lv (bandB (F := F)) W4 (waitPairs_bandB (F := F)) EP d Φ)
  isplitl [Hk Hrest]
  · iintro ⟨Hbd, Hh, Hp, ⟨%W', %hW', HO⟩⟩
    iapply Hk
    isplitl [HO Hrest]
    · isplitl [HO]
      · iexists W'; isplitr
        · ipureintro; exact fun p hp => hW' (Finset.mem_coe.mpr hp)
        iexact HO
      iexact Hrest
    isplitl [Hbd]; · iexact Hbd
    isplitl [Hh]; · iexact Hh
    iexact Hp
  isplitl [Hbd]; · iexact Hbd
  isplitl [Hh Hp HO]
  · isplitl [Hh]; · iexact Hh
    isplitl [Hp]; · iexact Hp
    iexists W; isplitr
    · ipureintro; exact fun p hp => hW p (Finset.mem_coe.mp hp)
    iexact HO
  isplitl [Hlev]; · iexact Hlev
  iexact Hg

end Cert.Kernel.Heads

end
-- ==== Proof.Kernel.TailRead.lean ====
import proofs.«203661_g84404697301628_cont_9to1_m_135_26_alg».proof.Proof.Kernel.Tail
import Idealize.ShloMosaic.Lib.Pipeline.Value
import Idealize.ShloMosaic.Lib.ValueIdx

/-! # The contents after the tail, read

The closing transpose writes the returned buffer `[16384, 8, 1000]` from the last result `[8, 1000, 16384]`: entry `(n, r, v)`
is the result's entry `(r, v, n)`; every other buffer is as the last region left it. -/

noncomputable section

namespace Cert.Kernel.Heads

open Cert.Kernel Cert.Kernel.Gen
open Idealize.ShloMosaic Idealize.ShloMosaic.TcCoe Idealize.ShloMosaic.ValueIdx
open Idealize.ShloMosaic.SparseCore.Cfg (HIx)
open Idealize.SL Idealize.SL.RA

variable {F : FTy → Type} [FloatOps F]
variable {Name : Type} [DecidableEq Name] {U : Type} [URA U]
variable (W4 : Dev nD → Valuation τ sig (Elt F))

/-- An `[a, b, c]` array transposed by `[2, 0, 1]` reads, at `(n, r, v)`, the operand at `(r, v, n)`. -/
theorem transpose_ix3_201_apply {α : Type} {a b c : ℕ} (x : (⟨3, ![a, b, c]⟩ : Shape).Idx → α)
    (h : (⟨3, ![a, b, c]⟩ : Shape).Transposes [2, 0, 1] ⟨3, ![c, a, b]⟩) (n : Fin c) (r : Fin a) (v : Fin b) :
    transpose ⟨3, ![c, a, b]⟩ [2, 0, 1] x h (ix3 n r v) = x (ix3 r v n) :=
  transpose_apply _ x h _ _ fun d => match d with | ⟨0, _⟩ => rfl | ⟨1, _⟩ => rfl | ⟨2, _⟩ => rfl

/-- The returned buffer after the tail is the transpose of the last result. -/
theorem Wfin_v17 (c : Dev nD) :
    tcOf (Wfin (Name := Name) (U := U) W4) c main_v17
      = transpose S16384x8x1000 [2, 0, 1] (tcOf (Wend (Ix := HIx 4) (Name := Name) (U := U) W4) c main_v16) transposes_S8x1000x16384_S16384x8x1000_2_0_1 := by
  show Wfin (Name := Name) (U := U) W4 c (Proc.devRef .tc main_v17) = _
  unfold Wfin; simp only [StableHlo.after_cons, StableHlo.after_nil]
  exact StableHlo.unary_result _ _ _ _ _ _

/-- Entry `(n, r, v)` of the returned buffer is entry `(r, v, n)` of the last result. -/
theorem Wfin_v17_apply (c : Dev nD) (n : Fin 16384) (r : Fin 8) (v : Fin 1000) :
    tcOf (Wfin (Name := Name) (U := U) W4) c main_v17 (ix3 n r v) = tcOf (Wend (Ix := HIx 4) (Name := Name) (U := U) W4) c main_v16 (ix3 r v n) := by
  rw [Wfin_v17]
  exact transpose_ix3_201_apply _ _ n r v

/-- Every other buffer is as the last region left it. -/
theorem Wfin_of_ne (c : Dev nD) (b : Ref sig .tc) (hb : b ≠ main_v17) :
    Wfin (Name := Name) (U := U) W4 c (Proc.devRef .tc b) = Wend (Ix := HIx 4) (Name := Name) (U := U) W4 c (Proc.devRef .tc b) := by
  unfold Wfin; simp only [StableHlo.after_cons, StableHlo.after_nil]
  exact StableHlo.unary_result_ne _ _ _ _ _ _ hb

end Cert.Kernel.Heads

end
-- ==== Proof.Kernel.Fund.lean ====
import proofs.«203661_g84404697301628_cont_9to1_m_135_26_alg».proof.Proof.Kernel.Family
import Idealize.ShloMosaic.Lib.Pipeline.Sound
import Idealize.ShloMosaic.Lib.Pipeline.Regions
import Idealize.ShloMosaic.Lib.Pipeline.Kit

/-! # The TensorCore regions' staging cells, funded at launch

The rounds library's launch element over the four pipelines' staging cells, owned through an embedding `EP` of that library's
algebra, funds on every device the four pipelines' ghost state (each cell's launch state, its owner's position at round 0,
round 0 reached, and the duty tokens of the transfers the loops issue): what a region's entry consumes. And the embedding for
an algebra that holds the cells' rounds as the MIDDLE component of `A × (rounds × C)`. -/

noncomputable section

namespace Cert.Kernel.Heads

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {Name : Type} [DecidableEq Name]

section Fund

variable {U : Type} [URA U]
variable (EP : Emb (URounds (GSem nD τ sig) Unit) (MT nD τ sig Ix (Elt F) Name U ℕ))

/-- The launch element of the staging cells' rounds funds every device's ghost state of the four pipelines. -/
theorem fund_regions :
    (BI.own (EP (initOf (Pipeline.cells cfgs cellOf_inj) (Pipeline.launchToks cfgs cellOf_inj))) : sProp (MT nD τ sig Ix (Elt F) Name U ℕ))
      ⊢ iprop(|==> bigSep Finset.univ fun d : Dev nD => Pipeline.ghostOn (pcfgs (F := F)) adm EP Finset.univ d) := by
  refine (Pipeline.fund_ghost (Pipeline.pin (pcfgs (F := F)) adm) EP cellOf_inj).trans (BI.bupd_mono ?_)
  unfold Pipeline.ghostOn Pipeline.PerCore.ghostOn
  simp only [BI.bigSep_sep']
  exact BI.Entails.refl _

end Fund

section Middle

variable {A C : Type} [URA A] [URA C]

/-- The staging cells' rounds as the middle component of `A × (rounds × C)`, embedded. -/
def embMid : Emb (URounds (GSem nD τ sig) Unit) (MT nD τ sig Ix (Elt F) Name (A × (URounds (GSem nD τ sig) Unit × C)) ℕ) :=
  (Emb.inl : Emb (URounds (GSem nD τ sig) Unit) (URounds (GSem nD τ sig) Unit × C)).trans embR

instance embMid_landsIn :
    (embMid (F := F) (Ix := Ix) (Name := Name) (A := A) (C := C)).LandsIn
      (upEmb : UEmb _ (MT nD τ sig Ix (Elt F) Name (A × (URounds (GSem nD τ sig) Unit × C)) ℕ)) := by
  unfold embMid; infer_instance

/-- The last component of `A × (rounds × C)`, embedded. -/
def embLast : Emb C (MT nD τ sig Ix (Elt F) Name (A × (URounds (GSem nD τ sig) Unit × C)) ℕ) :=
  (Emb.inr : Emb C (URounds (GSem nD τ sig) Unit × C)).trans embR

/-- Owning a triple `(a, (r, c))` of the user component is owning each part through its embedding. -/
theorem ownU_triple (a : A) (r : URounds (GSem nD τ sig) Unit) (c : C) :
    (ownU (a, (r, c)) : sProp (MT nD τ sig Ix (Elt F) Name (A × (URounds (GSem nD τ sig) Unit × C)) ℕ))
      ⊢ iprop(BI.own ((embL : Emb A (MT nD τ sig Ix (Elt F) Name (A × (URounds (GSem nD τ sig) Unit × C)) ℕ)) a) ∗ BI.own (embMid (F := F) (Ix := Ix) (Name := Name) (A := A) (C := C) r) ∗ BI.own (embLast (F := F) (Ix := Ix) (Name := Name) (A := A) (C := C) c)) := by
  refine (ownU_pair a (r, c)).trans (BI.sep_mono (BI.Entails.refl _) ?_)
  exact own_pair_emb (embR : Emb (URounds (GSem nD τ sig) Unit × C) (MT nD τ sig Ix (Elt F) Name (A × (URounds (GSem nD τ sig) Unit × C)) ℕ)) r c

end Middle

end Cert.Kernel.Heads

end
-- ==== Proof.Kernel.HeadOps.lean ====
import proofs.«203661_g84404697301628_cont_9to1_m_135_26_alg».proof.Proof.Kernel.Pay
import proofs.«203661_g84404697301628_cont_9to1_m_135_26_alg».proof.Proof.Kernel.TailSt
import proofs.«203661_g84404697301628_cont_9to1_m_135_26_alg».proof.Proof.Kernel.TailRead
import proofs.«203661_g84404697301628_cont_9to1_m_135_26_alg».proof.Proof.Kernel.Fund
import Idealize.ShloMosaic.Lib.SparseCore.Launch
import Idealize.ShloMosaic.Lib.StableHlo.Run

/-! # @main's head: the host stretches between the SparseCore calls, and the contents they leave

@main up to its fourth SparseCore call is a stretch of eight host operations (a constant; the table's padding, a conversion and
a pad; the weights' transpose; the bias' reshape; the tokens' transpose, reshape and first slice), the first call, and three
times a slice of the tokens and a call. The TensorCore's unscoped buffers are followed at a valuation: the launch memory, each
stretch's `StableHlo.after`, each call's result array updated to whatever the call left. -/

set_option maxRecDepth 16384

noncomputable section

namespace Cert.Kernel.Hand.Launch

open Cert.Kernel Cert.Kernel.Gen Cert.Kernel.Heads
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr)
open Idealize.ShloMosaic.Tactic

variable {F : FTy → Type} [FloatOps F]

local notation "𝕄" => MT nD τ sig (HIx 4) (Elt F) ℕ UU ℕ

/-! ## The stretches -/

/-- The eight host operations before the first call. -/
abbrev preOps : List (HloOp τ sig (Elt F)) :=
  [ StableHlo.nullary main_c (constantI S_ 32 0#32),
    StableHlo.TRef.unary (.of main_c : StableHlo.TRef sig ⟨S_, .i32⟩) main_call0.v0 (sitofp .f32),
    StableHlo.TRef.binary (.of main_arg1 : StableHlo.TRef sig ⟨S1000x32, .f32⟩) main_call0.v0 main_call0.v1 (fun x v => pad S1000x128 ![0, 0] ![0, 96] ![0, 0] x v pads_S1000x32_S1000x128_000_0960 h_S_),
    StableHlo.unary main_arg3 main_v1 ((transpose S1000x32 [1, 0] · transposes_S32x1000_S1000x32_1_0) : (⟨S32x1000, .f32⟩ : BufTy).Contents (Elt F) → (⟨S1000x32, .f32⟩ : BufTy).Contents (Elt F)),
    StableHlo.reshape main_arg4 main_v2 rfl shapeCasts_S1000_S1000x1,
    StableHlo.unary main_arg0 main_v3 ((transpose S8x16384 [1, 0] · transposes_S16384x8_S8x16384_1_0) : (⟨S16384x8, .i32⟩ : BufTy).Contents (Elt F) → (⟨S8x16384, .i32⟩ : BufTy).Contents (Elt F)),
    StableHlo.reshape main_v3 main_v4 rfl shapeCasts_S8x16384_S131072,
    StableHlo.unary main_v4 main_v5 ((extractStridedSlice S16384 ![0] · slices_S131072_S16384_0) : (⟨S131072, .i32⟩ : BufTy).Contents (Elt F) → (⟨S16384, .i32⟩ : BufTy).Contents (Elt F)) ]
/-- The slice of the tokens before each later call. -/
abbrev sliceOps1 : List (HloOp τ sig (Elt F)) := [ StableHlo.unary main_v4 main_v7 ((extractStridedSlice S16384 ![16384] · slices_S131072_S16384_16384) : (⟨S131072, .i32⟩ : BufTy).Contents (Elt F) → (⟨S16384, .i32⟩ : BufTy).Contents (Elt F)) ]
abbrev sliceOps2 : List (HloOp τ sig (Elt F)) := [ StableHlo.unary main_v4 main_v9 ((extractStridedSlice S32768 ![32768] · slices_S131072_S32768_32768) : (⟨S131072, .i32⟩ : BufTy).Contents (Elt F) → (⟨S32768, .i32⟩ : BufTy).Contents (Elt F)) ]
abbrev sliceOps3 : List (HloOp τ sig (Elt F)) := [ StableHlo.unary main_v4 main_v11 ((extractStridedSlice S65536 ![65536] · slices_S131072_S65536_65536) : (⟨S131072, .i32⟩ : BufTy).Contents (Elt F) → (⟨S65536, .i32⟩ : BufTy).Contents (Elt F)) ]

theorem preOps_sub : (preOps : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.reshape_bufs_sub ..,
    StableHlo.unary_bufs_sub .., StableHlo.reshape_bufs_sub .., StableHlo.unary_bufs_sub ..⟩
theorem sliceOps1_sub : (sliceOps1 : List (HloOp τ sig (Elt F))).Forall fun op => op.bufs ⊆ StableHlo.tcRefs τ sig := StableHlo.unary_bufs_sub ..
theorem sliceOps2_sub : (sliceOps2 : List (HloOp τ sig (Elt F))).Forall fun op => op.bufs ⊆ StableHlo.tcRefs τ sig := StableHlo.unary_bufs_sub ..
theorem sliceOps3_sub : (sliceOps3 : List (HloOp τ sig (Elt F))).Forall fun op => op.bufs ⊆ StableHlo.tcRefs τ sig := StableHlo.unary_bufs_sub ..
theorem preOps_fresh : (preOps : List (HloOp τ sig (Elt F))).Forall fun op => op.fresh = ∅ := by simp only [List.Forall]; repeat' constructor
theorem sliceOps1_fresh : (sliceOps1 : List (HloOp τ sig (Elt F))).Forall fun op => op.fresh = ∅ := by simp only [List.Forall]; repeat' constructor
theorem sliceOps2_fresh : (sliceOps2 : List (HloOp τ sig (Elt F))).Forall fun op => op.fresh = ∅ := by simp only [List.Forall]; repeat' constructor
theorem sliceOps3_fresh : (sliceOps3 : List (HloOp τ sig (Elt F))).Forall fun op => op.fresh = ∅ := by simp only [List.Forall]; repeat' constructor

/-- A stretch's operations touch unscoped TensorCore references only. -/
theorem sub_uc {ops : List (HloOp τ sig (Elt F))} (h : ops.Forall fun op => op.bufs ⊆ StableHlo.tcRefs τ sig) :
    ∀ op ∈ ops, op.bufs ⊆ Pipeline.ucRefs τ sig :=
  fun op hop => Pipeline.sub_ucRefs op ((List.forall_iff_forall_mem.mp h) op hop)

/-- @main's head is the stretches and the calls in order, continued by `k`. -/
theorem head_chain (d : Dev nD) (k : Prog (TpuEff nD τ sig (Elt F) (SparseCore.Sig (Pipeline.Sig Λ₀ (Fin 4) fun p => (pcfgs (F := F) p).Adm) 4) .tc) PUnit) :
    headProg (F := F) d k
      = (StableHlo.seq preOps >>= fun _ => sc.run d 0 >>= fun _ => StableHlo.seq sliceOps1 >>= fun _ => sc.run d 1 >>= fun _ =>
          StableHlo.seq sliceOps2 >>= fun _ => sc.run d 2 >>= fun _ => StableHlo.seq sliceOps3 >>= fun _ => sc.run d 3 >>= fun _ => k) := by
  chain_rfl

end Cert.Kernel.Hand.Launch

end
-- ==== Proof.Kernel.CallStep.lean ====
import proofs.«203661_g84404697301628_cont_9to1_m_135_26_alg».proof.Proof.Kernel.Pay
import proofs.«203661_g84404697301628_cont_9to1_m_135_26_alg».proof.Proof.Kernel.TailSt
import proofs.«203661_g84404697301628_cont_9to1_m_135_26_alg».proof.Proof.Kernel.TailRead
import proofs.«203661_g84404697301628_cont_9to1_m_135_26_alg».proof.Proof.Kernel.Fund
import proofs.«203661_g84404697301628_cont_9to1_m_135_26_alg».proof.Proof.Kernel.HeadOps
import Idealize.ShloMosaic.Lib.SparseCore.Launch
import Idealize.ShloMosaic.Lib.StableHlo.Run

/-! # The TensorCore at one SparseCore call

At call `q` the TensorCore lends the padded table, half to each SparseCore, and hands over the call's token list and result
array — dealt to the thirty-two vector subcores by the certificate's `hdeal` —; it gets the table back whole, the token list
at the same contents and the result array at whatever the call left (`hback`). The other unscoped buffers are untouched, so
the valuation after the call is the one before it with the result array updated. -/

set_option maxRecDepth 16384

noncomputable section

namespace Cert.Kernel.Hand.Launch

open Cert.Kernel Cert.Kernel.Gen Cert.Kernel.Heads
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr)
open Idealize.ShloMosaic.Tactic

variable {F : FTy → Type} [FloatOps F]

local notation "𝕄" => MT nD τ sig (HIx 4) (Elt F) ℕ UU ℕ

variable (tbv : (d : Dev nD) → Buf (Elt F) (tblLoc d))
  (Rs : Fin 4 → Dev nD → Fin 2 → Fin 16 → sProp (MT nD τ sig (HIx 4) (Elt F) ℕ UU ℕ))

/-- A family over the call's SparseCores is one over `Fin 2`. -/
theorem bigSep_cores (q : Fin 4) (Φ : Fin 2 → sProp 𝕄) :
    (bigSep Finset.univ fun c : Fin ((K (F := F)).nCore q) => Φ (Fin.cast (nCore_eq q) c)) = bigSep Finset.univ Φ := by
  match q with
  | 0 => exact bigSep_congr fun _ _ => congrArg Φ (Fin.ext rfl)
  | 1 => exact bigSep_congr fun _ _ => congrArg Φ (Fin.ext rfl)
  | 2 => exact bigSep_congr fun _ _ => congrArg Φ (Fin.ext rfl)
  | 3 => exact bigSep_congr fun _ _ => congrArg Φ (Fin.ext rfl)

/-- What call `q` takes for its SparseCores, and hands back: the table whole and every vector subcore's own part. -/
theorem cores_eq (q : Fin 4) (d : Dev nD) :
    (bigSep Finset.univ fun c : Fin ((K (F := F)).nCore q) => coreRes tbv Rs q d (Fin.cast (nCore_eq q) c))
      = iprop((tblLoc d ↦{fullShare} tbv d) ∗ bigSep Finset.univ fun c : Fin 2 => bigSep Finset.univ fun i : Fin 16 => Rs q d c i) := by
  rw [bigSep_cores (F := F) q (fun c => coreRes tbv Rs q d c)]
  unfold coreRes
  rw [bigSep_sep', ← pointsTo_piecesOf Finset.univ (tbv d) (show 0 < 2 by decide) fullShare]

/-- The same, spelt as the handshakes' payloads. -/
theorem st_eq (q : Fin 4) (d : Dev nD) :
    (bigSep Finset.univ fun c : Fin ((K (F := F)).nCore q) => (P tbv Rs).st q d c)
      = iprop((tblLoc d ↦{fullShare} tbv d) ∗ bigSep Finset.univ fun c : Fin 2 => bigSep Finset.univ fun i : Fin 16 => Rs q d c i) :=
  cores_eq tbv Rs q d
theorem dn_eq (q : Fin 4) (d : Dev nD) :
    (bigSep Finset.univ fun c : Fin ((K (F := F)).nCore q) => (P tbv Rs).dn q d c)
      = iprop((tblLoc d ↦{fullShare} tbv d) ∗ bigSep Finset.univ fun c : Fin 2 => bigSep Finset.univ fun i : Fin 16 => Rs q d c i) :=
  cores_eq tbv Rs q d

/-- Three distinct references' buffers out of a set held at a valuation. -/
theorem held_three (d : Dev nD) (a b c : Ref sig .tc) (hab : a ≠ b) (hac : a ≠ c) (hbc : b ≠ c) (W : Valuation τ sig (Elt F)) :
    (held (SparseCore.T d) ({Proc.devRef .tc a, Proc.devRef .tc b, Proc.devRef .tc c} : Finset (DevRef τ sig)) W : sProp 𝕄)
      = iprop(((SparseCore.T d).loc a ↦{fullShare} W (Proc.devRef .tc a)) ∗ ((SparseCore.T d).loc b ↦{fullShare} W (Proc.devRef .tc b))
          ∗ ((SparseCore.T d).loc c ↦{fullShare} W (Proc.devRef .tc c))) := by
  unfold held
  rw [SparseCore.bigSep_insert' (by
      simp only [Finset.mem_insert, Finset.mem_singleton, not_or]
      exact ⟨StableHlo.devRef_ne_of_ne hab, StableHlo.devRef_ne_of_ne hac⟩),
    SparseCore.bigSep_insert' (by simp only [Finset.mem_singleton]; exact StableHlo.devRef_ne_of_ne hbc), bigSep_singleton]

/-- The TensorCore at call `q`, its unscoped buffers held at `W`: to the next handshake state and the buffers at `W` with
    the result array updated. -/
theorem wp_call (κ : GSem nD τ sig → ℕ) (d : Dev nD) (q : Fin 4) (tok res : Ref sig .tc)
    (hmem : ({Proc.devRef .tc main_v0, Proc.devRef .tc tok, Proc.devRef .tc res} : Finset (DevRef τ sig)) ⊆ Pipeline.ucRefs τ sig)
    (h01 : main_v0 ≠ tok) (h02 : main_v0 ≠ res) (h12 : tok ≠ res)
    (W : Valuation τ sig (Elt F)) (hW : W (Proc.devRef .tc main_v0) = tbv d) (Rem : sProp 𝕄)
    (hdeal : iprop(((SparseCore.T d).loc tok ↦{fullShare} W (Proc.devRef .tc tok)) ∗ ((SparseCore.T d).loc res ↦{fullShare} W (Proc.devRef .tc res)))
        ⊢ iprop((bigSep Finset.univ fun c : Fin 2 => bigSep Finset.univ fun i : Fin 16 => Rs q d c i) ∗ Rem))
    (hback : iprop((bigSep Finset.univ fun c : Fin 2 => bigSep Finset.univ fun i : Fin 16 => Rs q d c i) ∗ Rem)
        ⊢ iprop(((SparseCore.T d).loc tok ↦{fullShare} W (Proc.devRef .tc tok)) ∗ ∃ f : Buf (Elt F) ((SparseCore.T d).loc res), (SparseCore.T d).loc res ↦{fullShare} f))
    (Φ : PUnit → sProp 𝕄) :
    iprop((K (F := F)).ctx EH (P tbv Rs) κ ∗ (K (F := F)).tcSt EH d q.val ∗ held (SparseCore.T d) (Pipeline.ucRefs τ sig) W
        ∗ ((∃ f : Buf (Elt F) ((SparseCore.T d).loc res), (K (F := F)).tcSt EH d (q.val + 1)
              ∗ held (SparseCore.T d) (Pipeline.ucRefs τ sig) (Function.update W (Proc.devRef .tc res) f)) -∗ Φ ⟨⟩))
      ⊢ wp frame (wpE ((K (F := F)).defs (D (F := F))) 𝒱 (SparseCore.T d) none) Set.univ ((K (F := F)).run d q) Φ := by
  rw [held_sub_split (SparseCore.T d) hmem W, held_three d main_v0 tok res h01 h02 h12 W, hW]
  iintro ⟨#Hctx, Hst, ⟨⟨Htb, Htok, Hres⟩, Hrest⟩, Hk⟩
  ihave Hd := (hdeal) $$ [Htok Hres]
  · isplitl [Htok]; · iexact Htok
    iexact Hres
  icases Hd with ⟨HRs, Hrem⟩
  iapply ((K (F := F)).wp_run (D (F := F)) 𝒱 (EH := EH) (P := P tbv Rs) κ d q)
  isplitr; · iexact Hctx
  isplitl [Hst]; · iexact Hst
  isplitl [Htb HRs]
  · rw [st_eq]
    isplitl [Htb]; · iexact Htb
    iexact HRs
  iintro ⟨Hst, Hdn⟩
  ihave Hdn' := (Entails.of_eq (dn_eq tbv Rs q d)) $$ Hdn
  icases Hdn' with ⟨Htb, HR⟩
  ihave H := (hback) $$ [HR Hrem]
  · isplitl [HR]; · iexact HR
    iexact Hrem
  icases H with ⟨Htok, %f, Hres⟩
  iapply Hk
  iexists f
  isplitl [Hst]; · iexact Hst
  rw [held_sub_split (SparseCore.T d) hmem (Function.update W (Proc.devRef .tc res) f),
    held_three d main_v0 tok res h01 h02 h12 (Function.update W (Proc.devRef .tc res) f),
    Function.update_of_ne (StableHlo.devRef_ne_of_ne h02), Function.update_of_ne (StableHlo.devRef_ne_of_ne h12), Function.update_self, hW,
    held_congr (SparseCore.T d) (V := Function.update W (Proc.devRef .tc res) f) (V' := W) (fun b hb => Function.update_of_ne (fun e => by
      subst e
      exact (Finset.mem_sdiff.mp hb).2 (Finset.mem_insert_of_mem (Finset.mem_insert_of_mem (Finset.mem_singleton_self _)))) _ _)]
  isplitl [Htb Htok Hres]
  · isplitl [Htb]; · iexact Htb
    isplitl [Htok]; · iexact Htok
    iexact Hres
  iexact Hrest

end Cert.Kernel.Hand.Launch

end
-- ==== Proof.Kernel.HeadRun.lean ====
import proofs.«203661_g84404697301628_cont_9to1_m_135_26_alg».proof.Proof.Kernel.Pay
import proofs.«203661_g84404697301628_cont_9to1_m_135_26_alg».proof.Proof.Kernel.TailSt
import proofs.«203661_g84404697301628_cont_9to1_m_135_26_alg».proof.Proof.Kernel.TailRead
import proofs.«203661_g84404697301628_cont_9to1_m_135_26_alg».proof.Proof.Kernel.Fund
import proofs.«203661_g84404697301628_cont_9to1_m_135_26_alg».proof.Proof.Kernel.CallStep
import Idealize.ShloMosaic.Lib.SparseCore.Launch
import Idealize.ShloMosaic.Lib.StableHlo.Run

/-! # @main on the TensorCore, whole

The valuations the TensorCore's unscoped buffers are held at through @main's head — the launch memory, the eight host
operations, then per call the result array at whatever the call left and the next slice of the tokens —, the table and each
call's token words as values of the launch memory alone, and @main's triple for the launch theorem: the head's stretches and
calls, then the tail, the five argument arrays kept at their launch contents. -/

set_option maxRecDepth 16384

noncomputable section

namespace Cert.Kernel.Hand.Launch

open Cert.Kernel Cert.Kernel.Gen Cert.Kernel.Heads
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr)
open Idealize.ShloMosaic.Tactic

variable {F : FTy → Type} [FloatOps F]

local notation "𝕄" => MT nD τ sig (HIx 4) (Elt F) ℕ UU ℕ

variable (m : (ℓ : Loc nD τ sig) → Buf (Elt F) ℓ)

/-! ## The valuations -/

/-- The launch contents. -/
def V0 (d : Dev nD) : Valuation τ sig (Elt F) := fun b => m (d, b)
/-- Before the first call. -/
def Vp (d : Dev nD) : Valuation τ sig (Elt F) := StableHlo.after (preOps (F := F)) (V0 m d)
/-- Before the second, third and fourth calls, the earlier calls' result arrays at `f0`, `f1`, `f2`; and after the fourth. -/
def Va (d : Dev nD) (f0 : Buf (Elt F) ((SparseCore.T (τ := τ) d).loc main_v6)) : Valuation τ sig (Elt F) :=
  StableHlo.after (sliceOps1 (F := F)) (Function.update (Vp m d) (Proc.devRef .tc main_v6) f0)
def Vb (d : Dev nD) (f0 : Buf (Elt F) ((SparseCore.T (τ := τ) d).loc main_v6)) (f1 : Buf (Elt F) ((SparseCore.T (τ := τ) d).loc main_v8)) : Valuation τ sig (Elt F) :=
  StableHlo.after (sliceOps2 (F := F)) (Function.update (Va m d f0) (Proc.devRef .tc main_v8) f1)
def Vc (d : Dev nD) (f0 : Buf (Elt F) ((SparseCore.T (τ := τ) d).loc main_v6)) (f1 : Buf (Elt F) ((SparseCore.T (τ := τ) d).loc main_v8)) (f2 : Buf (Elt F) ((SparseCore.T (τ := τ) d).loc main_v10)) : Valuation τ sig (Elt F) :=
  StableHlo.after (sliceOps3 (F := F)) (Function.update (Vb m d f0 f1) (Proc.devRef .tc main_v10) f2)
def Vd (d : Dev nD) (f0 : Buf (Elt F) ((SparseCore.T (τ := τ) d).loc main_v6)) (f1 : Buf (Elt F) ((SparseCore.T (τ := τ) d).loc main_v8)) (f2 : Buf (Elt F) ((SparseCore.T (τ := τ) d).loc main_v10)) (f3 : Buf (Elt F) ((SparseCore.T (τ := τ) d).loc main_v12)) : Valuation τ sig (Elt F) :=
  Function.update (Vc m d f0 f1 f2) (Proc.devRef .tc main_v12) f3

/-- The padded table, and each call's token words: values of the launch memory alone. -/
def tb (d : Dev nD) : Buf (Elt F) (tblLoc d) := Vp m d (Proc.devRef .tc main_v0)
def wd0 (d : Dev nD) : Buf (Elt F) ((SparseCore.T (τ := τ) d).loc main_v5) := Vp m d (Proc.devRef .tc main_v5)
def wd1 (d : Dev nD) : Buf (Elt F) ((SparseCore.T (τ := τ) d).loc main_v7) := StableHlo.after (sliceOps1 (F := F)) (Vp m d) (Proc.devRef .tc main_v7)
def wd2 (d : Dev nD) : Buf (Elt F) ((SparseCore.T (τ := τ) d).loc main_v9) := StableHlo.after (sliceOps2 (F := F)) (Vp m d) (Proc.devRef .tc main_v9)
def wd3 (d : Dev nD) : Buf (Elt F) ((SparseCore.T (τ := τ) d).loc main_v11) := StableHlo.after (sliceOps3 (F := F)) (Vp m d) (Proc.devRef .tc main_v11)

/-! ## Reading the valuations back -/

theorem Va_of_ne (d : Dev nD) (f0 : Buf (Elt F) ((SparseCore.T (τ := τ) d).loc main_v6)) (b : Ref sig .tc) (h6 : b ≠ main_v6) (h7 : b ≠ main_v7) :
    Va m d f0 (Proc.devRef .tc b) = Vp m d (Proc.devRef .tc b) := by
  unfold Va; simp only [StableHlo.after_cons, StableHlo.after_nil]
  rw [StableHlo.unary_result_ne _ _ _ _ _ _ h7, Function.update_of_ne (StableHlo.devRef_ne_of_ne h6)]
theorem Vb_of_ne (d : Dev nD) (f0 : Buf (Elt F) ((SparseCore.T (τ := τ) d).loc main_v6)) (f1 : Buf (Elt F) ((SparseCore.T (τ := τ) d).loc main_v8)) (b : Ref sig .tc) (h8 : b ≠ main_v8) (h9 : b ≠ main_v9) :
    Vb m d f0 f1 (Proc.devRef .tc b) = Va m d f0 (Proc.devRef .tc b) := by
  unfold Vb; simp only [StableHlo.after_cons, StableHlo.after_nil]
  rw [StableHlo.unary_result_ne _ _ _ _ _ _ h9, Function.update_of_ne (StableHlo.devRef_ne_of_ne h8)]
theorem Vc_of_ne (d : Dev nD) (f0 : Buf (Elt F) ((SparseCore.T (τ := τ) d).loc main_v6)) (f1 : Buf (Elt F) ((SparseCore.T (τ := τ) d).loc main_v8)) (f2 : Buf (Elt F) ((SparseCore.T (τ := τ) d).loc main_v10)) (b : Ref sig .tc)
    (h10 : b ≠ main_v10) (h11 : b ≠ main_v11) : Vc m d f0 f1 f2 (Proc.devRef .tc b) = Vb m d f0 f1 (Proc.devRef .tc b) := by
  unfold Vc; simp only [StableHlo.after_cons, StableHlo.after_nil]
  rw [StableHlo.unary_result_ne _ _ _ _ _ _ h11, Function.update_of_ne (StableHlo.devRef_ne_of_ne h10)]
theorem Vd_of_ne (d : Dev nD) (f0 : Buf (Elt F) ((SparseCore.T (τ := τ) d).loc main_v6)) (f1 : Buf (Elt F) ((SparseCore.T (τ := τ) d).loc main_v8)) (f2 : Buf (Elt F) ((SparseCore.T (τ := τ) d).loc main_v10)) (f3 : Buf (Elt F) ((SparseCore.T (τ := τ) d).loc main_v12)) (b : Ref sig .tc)
    (h12 : b ≠ main_v12) : Vd m d f0 f1 f2 f3 (Proc.devRef .tc b) = Vc m d f0 f1 f2 (Proc.devRef .tc b) := by
  unfold Vd; rw [Function.update_of_ne (StableHlo.devRef_ne_of_ne h12)]

/-- The table is the same before every call. -/
theorem Va_tb (d : Dev nD) (f0 : Buf (Elt F) ((SparseCore.T (τ := τ) d).loc main_v6)) : Va m d f0 (Proc.devRef .tc main_v0) = tb m d :=
  Va_of_ne m d f0 main_v0 (by decide) (by decide)
theorem Vb_tb (d : Dev nD) (f0 : Buf (Elt F) ((SparseCore.T (τ := τ) d).loc main_v6)) (f1 : Buf (Elt F) ((SparseCore.T (τ := τ) d).loc main_v8)) : Vb m d f0 f1 (Proc.devRef .tc main_v0) = tb m d :=
  (Vb_of_ne m d f0 f1 main_v0 (by decide) (by decide)).trans (Va_tb m d f0)
theorem Vc_tb (d : Dev nD) (f0 : Buf (Elt F) ((SparseCore.T (τ := τ) d).loc main_v6)) (f1 : Buf (Elt F) ((SparseCore.T (τ := τ) d).loc main_v8)) (f2 : Buf (Elt F) ((SparseCore.T (τ := τ) d).loc main_v10)) : Vc m d f0 f1 f2 (Proc.devRef .tc main_v0) = tb m d :=
  (Vc_of_ne m d f0 f1 f2 main_v0 (by decide) (by decide)).trans (Vb_tb m d f0 f1)

/-- Each call's token words are the slice of the tokens as the head left them, whatever the earlier calls left. -/
theorem Va_wd (d : Dev nD) (f0 : Buf (Elt F) ((SparseCore.T (τ := τ) d).loc main_v6)) : Va m d f0 (Proc.devRef .tc main_v7) = wd1 m d := by
  unfold Va wd1; simp only [StableHlo.after_cons, StableHlo.after_nil]
  rw [StableHlo.unary_result, StableHlo.unary_result, Function.update_of_ne (StableHlo.devRef_ne_of_ne (by decide))]
theorem Vb_wd (d : Dev nD) (f0 : Buf (Elt F) ((SparseCore.T (τ := τ) d).loc main_v6)) (f1 : Buf (Elt F) ((SparseCore.T (τ := τ) d).loc main_v8)) : Vb m d f0 f1 (Proc.devRef .tc main_v9) = wd2 m d := by
  unfold Vb wd2; simp only [StableHlo.after_cons, StableHlo.after_nil]
  rw [StableHlo.unary_result, StableHlo.unary_result, Function.update_of_ne (StableHlo.devRef_ne_of_ne (by decide)),
    Va_of_ne m d f0 main_v4 (by decide) (by decide)]
theorem Vc_wd (d : Dev nD) (f0 : Buf (Elt F) ((SparseCore.T (τ := τ) d).loc main_v6)) (f1 : Buf (Elt F) ((SparseCore.T (τ := τ) d).loc main_v8)) (f2 : Buf (Elt F) ((SparseCore.T (τ := τ) d).loc main_v10)) : Vc m d f0 f1 f2 (Proc.devRef .tc main_v11) = wd3 m d := by
  unfold Vc wd3; simp only [StableHlo.after_cons, StableHlo.after_nil]
  rw [StableHlo.unary_result, StableHlo.unary_result, Function.update_of_ne (StableHlo.devRef_ne_of_ne (by decide)),
    Vb_of_ne m d f0 f1 main_v4 (by decide) (by decide), Va_of_ne m d f0 main_v4 (by decide) (by decide)]

/-- No host operation of the head writes `main_arg0`. -/
theorem Vp_main_arg0 (d : Dev nD) : Vp m d (Proc.devRef .tc main_arg0) = V0 m d (Proc.devRef .tc main_arg0) :=
  StableHlo.after_of_forall_not_mem (b := Proc.devRef .tc main_arg0) _ _ (List.forall_iff_forall_mem.mp (by
    simp only [preOps, List.Forall, StableHlo.nullary_writes, StableHlo.unary_writes, StableHlo.binary_writes, StableHlo.reshape_writes, Finset.mem_singleton]
    repeat' apply And.intro
    all_goals exact StableHlo.devRef_ne_of_ne (by decide)))
/-- Nor does anything after it: `main_arg0` ends at its launch contents. -/
theorem kept_main_arg0 (d : Dev nD) (f0 : Buf (Elt F) ((SparseCore.T (τ := τ) d).loc main_v6)) (f1 : Buf (Elt F) ((SparseCore.T (τ := τ) d).loc main_v8)) (f2 : Buf (Elt F) ((SparseCore.T (τ := τ) d).loc main_v10)) (f3 : Buf (Elt F) ((SparseCore.T (τ := τ) d).loc main_v12)) :
    Wfin (Name := ℕ) (U := UU) (fun _ => Vd m d f0 f1 f2 f3) d (Proc.devRef .tc main_arg0) = V0 m d (Proc.devRef .tc main_arg0) :=
  calc Wfin (Name := ℕ) (U := UU) (fun _ => Vd m d f0 f1 f2 f3) d (Proc.devRef .tc main_arg0)
    _ = Wend (Ix := HIx 4) (Name := ℕ) (U := UU) (fun _ => Vd m d f0 f1 f2 f3) d (Proc.devRef .tc main_arg0) := Wfin_of_ne _ d main_arg0 (by decide)
    _ = W7 (Ix := HIx 4) (Name := ℕ) (U := UU) (fun _ => Vd m d f0 f1 f2 f3) d (Proc.devRef .tc main_arg0) := exit7_of_ne _ d main_arg0 (by decide)
    _ = exit6 (Ix := HIx 4) (Name := ℕ) (U := UU) (W6 (Ix := HIx 4) (Name := ℕ) (U := UU) (fun _ => Vd m d f0 f1 f2 f3)) d (Proc.devRef .tc main_arg0) := W7_of_ne _ d main_arg0 (by decide)
    _ = W6 (Ix := HIx 4) (Name := ℕ) (U := UU) (fun _ => Vd m d f0 f1 f2 f3) d (Proc.devRef .tc main_arg0) := exit6_of_ne _ d main_arg0 (by decide)
    _ = exit5 (Ix := HIx 4) (Name := ℕ) (U := UU) (W5 (Ix := HIx 4) (Name := ℕ) (U := UU) (fun _ => Vd m d f0 f1 f2 f3)) d (Proc.devRef .tc main_arg0) := W6_of_ne _ d main_arg0 (by decide)
    _ = W5 (Ix := HIx 4) (Name := ℕ) (U := UU) (fun _ => Vd m d f0 f1 f2 f3) d (Proc.devRef .tc main_arg0) := exit5_of_ne _ d main_arg0 (by decide)
    _ = exit4 (Ix := HIx 4) (Name := ℕ) (U := UU) (fun _ => Vd m d f0 f1 f2 f3) d (Proc.devRef .tc main_arg0) := W5_of_ne _ d main_arg0 (by decide)
    _ = Vd m d f0 f1 f2 f3 (Proc.devRef .tc main_arg0) := exit4_of_ne _ d main_arg0 (by decide)
    _ = Vc m d f0 f1 f2 (Proc.devRef .tc main_arg0) := Vd_of_ne m d f0 f1 f2 f3 main_arg0 (by decide)
    _ = Vb m d f0 f1 (Proc.devRef .tc main_arg0) := Vc_of_ne m d f0 f1 f2 main_arg0 (by decide) (by decide)
    _ = Va m d f0 (Proc.devRef .tc main_arg0) := Vb_of_ne m d f0 f1 main_arg0 (by decide) (by decide)
    _ = Vp m d (Proc.devRef .tc main_arg0) := Va_of_ne m d f0 main_arg0 (by decide) (by decide)
    _ = V0 m d (Proc.devRef .tc main_arg0) := Vp_main_arg0 m d

/-- No host operation of the head writes `main_arg1`. -/
theorem Vp_main_arg1 (d : Dev nD) : Vp m d (Proc.devRef .tc main_arg1) = V0 m d (Proc.devRef .tc main_arg1) :=
  StableHlo.after_of_forall_not_mem (b := Proc.devRef .tc main_arg1) _ _ (List.forall_iff_forall_mem.mp (by
    simp only [preOps, List.Forall, StableHlo.nullary_writes, StableHlo.unary_writes, StableHlo.binary_writes, StableHlo.reshape_writes, Finset.mem_singleton]
    repeat' apply And.intro
    all_goals exact StableHlo.devRef_ne_of_ne (by decide)))
/-- Nor does anything after it: `main_arg1` ends at its launch contents. -/
theorem kept_main_arg1 (d : Dev nD) (f0 : Buf (Elt F) ((SparseCore.T (τ := τ) d).loc main_v6)) (f1 : Buf (Elt F) ((SparseCore.T (τ := τ) d).loc main_v8)) (f2 : Buf (Elt F) ((SparseCore.T (τ := τ) d).loc main_v10)) (f3 : Buf (Elt F) ((SparseCore.T (τ := τ) d).loc main_v12)) :
    Wfin (Name := ℕ) (U := UU) (fun _ => Vd m d f0 f1 f2 f3) d (Proc.devRef .tc main_arg1) = V0 m d (Proc.devRef .tc main_arg1) :=
  calc Wfin (Name := ℕ) (U := UU) (fun _ => Vd m d f0 f1 f2 f3) d (Proc.devRef .tc main_arg1)
    _ = Wend (Ix := HIx 4) (Name := ℕ) (U := UU) (fun _ => Vd m d f0 f1 f2 f3) d (Proc.devRef .tc main_arg1) := Wfin_of_ne _ d main_arg1 (by decide)
    _ = W7 (Ix := HIx 4) (Name := ℕ) (U := UU) (fun _ => Vd m d f0 f1 f2 f3) d (Proc.devRef .tc main_arg1) := exit7_of_ne _ d main_arg1 (by decide)
    _ = exit6 (Ix := HIx 4) (Name := ℕ) (U := UU) (W6 (Ix := HIx 4) (Name := ℕ) (U := UU) (fun _ => Vd m d f0 f1 f2 f3)) d (Proc.devRef .tc main_arg1) := W7_of_ne _ d main_arg1 (by decide)
    _ = W6 (Ix := HIx 4) (Name := ℕ) (U := UU) (fun _ => Vd m d f0 f1 f2 f3) d (Proc.devRef .tc main_arg1) := exit6_of_ne _ d main_arg1 (by decide)
    _ = exit5 (Ix := HIx 4) (Name := ℕ) (U := UU) (W5 (Ix := HIx 4) (Name := ℕ) (U := UU) (fun _ => Vd m d f0 f1 f2 f3)) d (Proc.devRef .tc main_arg1) := W6_of_ne _ d main_arg1 (by decide)
    _ = W5 (Ix := HIx 4) (Name := ℕ) (U := UU) (fun _ => Vd m d f0 f1 f2 f3) d (Proc.devRef .tc main_arg1) := exit5_of_ne _ d main_arg1 (by decide)
    _ = exit4 (Ix := HIx 4) (Name := ℕ) (U := UU) (fun _ => Vd m d f0 f1 f2 f3) d (Proc.devRef .tc main_arg1) := W5_of_ne _ d main_arg1 (by decide)
    _ = Vd m d f0 f1 f2 f3 (Proc.devRef .tc main_arg1) := exit4_of_ne _ d main_arg1 (by decide)
    _ = Vc m d f0 f1 f2 (Proc.devRef .tc main_arg1) := Vd_of_ne m d f0 f1 f2 f3 main_arg1 (by decide)
    _ = Vb m d f0 f1 (Proc.devRef .tc main_arg1) := Vc_of_ne m d f0 f1 f2 main_arg1 (by decide) (by decide)
    _ = Va m d f0 (Proc.devRef .tc main_arg1) := Vb_of_ne m d f0 f1 main_arg1 (by decide) (by decide)
    _ = Vp m d (Proc.devRef .tc main_arg1) := Va_of_ne m d f0 main_arg1 (by decide) (by decide)
    _ = V0 m d (Proc.devRef .tc main_arg1) := Vp_main_arg1 m d

/-- No host operation of the head writes `main_arg2`. -/
theorem Vp_main_arg2 (d : Dev nD) : Vp m d (Proc.devRef .tc main_arg2) = V0 m d (Proc.devRef .tc main_arg2) :=
  StableHlo.after_of_forall_not_mem (b := Proc.devRef .tc main_arg2) _ _ (List.forall_iff_forall_mem.mp (by
    simp only [preOps, List.Forall, StableHlo.nullary_writes, StableHlo.unary_writes, StableHlo.binary_writes, StableHlo.reshape_writes, Finset.mem_singleton]
    repeat' apply And.intro
    all_goals exact StableHlo.devRef_ne_of_ne (by decide)))
/-- Nor does anything after it: `main_arg2` ends at its launch contents. -/
theorem kept_main_arg2 (d : Dev nD) (f0 : Buf (Elt F) ((SparseCore.T (τ := τ) d).loc main_v6)) (f1 : Buf (Elt F) ((SparseCore.T (τ := τ) d).loc main_v8)) (f2 : Buf (Elt F) ((SparseCore.T (τ := τ) d).loc main_v10)) (f3 : Buf (Elt F) ((SparseCore.T (τ := τ) d).loc main_v12)) :
    Wfin (Name := ℕ) (U := UU) (fun _ => Vd m d f0 f1 f2 f3) d (Proc.devRef .tc main_arg2) = V0 m d (Proc.devRef .tc main_arg2) :=
  calc Wfin (Name := ℕ) (U := UU) (fun _ => Vd m d f0 f1 f2 f3) d (Proc.devRef .tc main_arg2)
    _ = Wend (Ix := HIx 4) (Name := ℕ) (U := UU) (fun _ => Vd m d f0 f1 f2 f3) d (Proc.devRef .tc main_arg2) := Wfin_of_ne _ d main_arg2 (by decide)
    _ = W7 (Ix := HIx 4) (Name := ℕ) (U := UU) (fun _ => Vd m d f0 f1 f2 f3) d (Proc.devRef .tc main_arg2) := exit7_of_ne _ d main_arg2 (by decide)
    _ = exit6 (Ix := HIx 4) (Name := ℕ) (U := UU) (W6 (Ix := HIx 4) (Name := ℕ) (U := UU) (fun _ => Vd m d f0 f1 f2 f3)) d (Proc.devRef .tc main_arg2) := W7_of_ne _ d main_arg2 (by decide)
    _ = W6 (Ix := HIx 4) (Name := ℕ) (U := UU) (fun _ => Vd m d f0 f1 f2 f3) d (Proc.devRef .tc main_arg2) := exit6_of_ne _ d main_arg2 (by decide)
    _ = exit5 (Ix := HIx 4) (Name := ℕ) (U := UU) (W5 (Ix := HIx 4) (Name := ℕ) (U := UU) (fun _ => Vd m d f0 f1 f2 f3)) d (Proc.devRef .tc main_arg2) := W6_of_ne _ d main_arg2 (by decide)
    _ = W5 (Ix := HIx 4) (Name := ℕ) (U := UU) (fun _ => Vd m d f0 f1 f2 f3) d (Proc.devRef .tc main_arg2) := exit5_of_ne _ d main_arg2 (by decide)
    _ = exit4 (Ix := HIx 4) (Name := ℕ) (U := UU) (fun _ => Vd m d f0 f1 f2 f3) d (Proc.devRef .tc main_arg2) := W5_of_ne _ d main_arg2 (by decide)
    _ = Vd m d f0 f1 f2 f3 (Proc.devRef .tc main_arg2) := exit4_of_ne _ d main_arg2 (by decide)
    _ = Vc m d f0 f1 f2 (Proc.devRef .tc main_arg2) := Vd_of_ne m d f0 f1 f2 f3 main_arg2 (by decide)
    _ = Vb m d f0 f1 (Proc.devRef .tc main_arg2) := Vc_of_ne m d f0 f1 f2 main_arg2 (by decide) (by decide)
    _ = Va m d f0 (Proc.devRef .tc main_arg2) := Vb_of_ne m d f0 f1 main_arg2 (by decide) (by decide)
    _ = Vp m d (Proc.devRef .tc main_arg2) := Va_of_ne m d f0 main_arg2 (by decide) (by decide)
    _ = V0 m d (Proc.devRef .tc main_arg2) := Vp_main_arg2 m d

/-- No host operation of the head writes `main_arg3`. -/
theorem Vp_main_arg3 (d : Dev nD) : Vp m d (Proc.devRef .tc main_arg3) = V0 m d (Proc.devRef .tc main_arg3) :=
  StableHlo.after_of_forall_not_mem (b := Proc.devRef .tc main_arg3) _ _ (List.forall_iff_forall_mem.mp (by
    simp only [preOps, List.Forall, StableHlo.nullary_writes, StableHlo.unary_writes, StableHlo.binary_writes, StableHlo.reshape_writes, Finset.mem_singleton]
    repeat' apply And.intro
    all_goals exact StableHlo.devRef_ne_of_ne (by decide)))
/-- Nor does anything after it: `main_arg3` ends at its launch contents. -/
theorem kept_main_arg3 (d : Dev nD) (f0 : Buf (Elt F) ((SparseCore.T (τ := τ) d).loc main_v6)) (f1 : Buf (Elt F) ((SparseCore.T (τ := τ) d).loc main_v8)) (f2 : Buf (Elt F) ((SparseCore.T (τ := τ) d).loc main_v10)) (f3 : Buf (Elt F) ((SparseCore.T (τ := τ) d).loc main_v12)) :
    Wfin (Name := ℕ) (U := UU) (fun _ => Vd m d f0 f1 f2 f3) d (Proc.devRef .tc main_arg3) = V0 m d (Proc.devRef .tc main_arg3) :=
  calc Wfin (Name := ℕ) (U := UU) (fun _ => Vd m d f0 f1 f2 f3) d (Proc.devRef .tc main_arg3)
    _ = Wend (Ix := HIx 4) (Name := ℕ) (U := UU) (fun _ => Vd m d f0 f1 f2 f3) d (Proc.devRef .tc main_arg3) := Wfin_of_ne _ d main_arg3 (by decide)
    _ = W7 (Ix := HIx 4) (Name := ℕ) (U := UU) (fun _ => Vd m d f0 f1 f2 f3) d (Proc.devRef .tc main_arg3) := exit7_of_ne _ d main_arg3 (by decide)
    _ = exit6 (Ix := HIx 4) (Name := ℕ) (U := UU) (W6 (Ix := HIx 4) (Name := ℕ) (U := UU) (fun _ => Vd m d f0 f1 f2 f3)) d (Proc.devRef .tc main_arg3) := W7_of_ne _ d main_arg3 (by decide)
    _ = W6 (Ix := HIx 4) (Name := ℕ) (U := UU) (fun _ => Vd m d f0 f1 f2 f3) d (Proc.devRef .tc main_arg3) := exit6_of_ne _ d main_arg3 (by decide)
    _ = exit5 (Ix := HIx 4) (Name := ℕ) (U := UU) (W5 (Ix := HIx 4) (Name := ℕ) (U := UU) (fun _ => Vd m d f0 f1 f2 f3)) d (Proc.devRef .tc main_arg3) := W6_of_ne _ d main_arg3 (by decide)
    _ = W5 (Ix := HIx 4) (Name := ℕ) (U := UU) (fun _ => Vd m d f0 f1 f2 f3) d (Proc.devRef .tc main_arg3) := exit5_of_ne _ d main_arg3 (by decide)
    _ = exit4 (Ix := HIx 4) (Name := ℕ) (U := UU) (fun _ => Vd m d f0 f1 f2 f3) d (Proc.devRef .tc main_arg3) := W5_of_ne _ d main_arg3 (by decide)
    _ = Vd m d f0 f1 f2 f3 (Proc.devRef .tc main_arg3) := exit4_of_ne _ d main_arg3 (by decide)
    _ = Vc m d f0 f1 f2 (Proc.devRef .tc main_arg3) := Vd_of_ne m d f0 f1 f2 f3 main_arg3 (by decide)
    _ = Vb m d f0 f1 (Proc.devRef .tc main_arg3) := Vc_of_ne m d f0 f1 f2 main_arg3 (by decide) (by decide)
    _ = Va m d f0 (Proc.devRef .tc main_arg3) := Vb_of_ne m d f0 f1 main_arg3 (by decide) (by decide)
    _ = Vp m d (Proc.devRef .tc main_arg3) := Va_of_ne m d f0 main_arg3 (by decide) (by decide)
    _ = V0 m d (Proc.devRef .tc main_arg3) := Vp_main_arg3 m d

/-- No host operation of the head writes `main_arg4`. -/
theorem Vp_main_arg4 (d : Dev nD) : Vp m d (Proc.devRef .tc main_arg4) = V0 m d (Proc.devRef .tc main_arg4) :=
  StableHlo.after_of_forall_not_mem (b := Proc.devRef .tc main_arg4) _ _ (List.forall_iff_forall_mem.mp (by
    simp only [preOps, List.Forall, StableHlo.nullary_writes, StableHlo.unary_writes, StableHlo.binary_writes, StableHlo.reshape_writes, Finset.mem_singleton]
    repeat' apply And.intro
    all_goals exact StableHlo.devRef_ne_of_ne (by decide)))
/-- Nor does anything after it: `main_arg4` ends at its launch contents. -/
theorem kept_main_arg4 (d : Dev nD) (f0 : Buf (Elt F) ((SparseCore.T (τ := τ) d).loc main_v6)) (f1 : Buf (Elt F) ((SparseCore.T (τ := τ) d).loc main_v8)) (f2 : Buf (Elt F) ((SparseCore.T (τ := τ) d).loc main_v10)) (f3 : Buf (Elt F) ((SparseCore.T (τ := τ) d).loc main_v12)) :
    Wfin (Name := ℕ) (U := UU) (fun _ => Vd m d f0 f1 f2 f3) d (Proc.devRef .tc main_arg4) = V0 m d (Proc.devRef .tc main_arg4) :=
  calc Wfin (Name := ℕ) (U := UU) (fun _ => Vd m d f0 f1 f2 f3) d (Proc.devRef .tc main_arg4)
    _ = Wend (Ix := HIx 4) (Name := ℕ) (U := UU) (fun _ => Vd m d f0 f1 f2 f3) d (Proc.devRef .tc main_arg4) := Wfin_of_ne _ d main_arg4 (by decide)
    _ = W7 (Ix := HIx 4) (Name := ℕ) (U := UU) (fun _ => Vd m d f0 f1 f2 f3) d (Proc.devRef .tc main_arg4) := exit7_of_ne _ d main_arg4 (by decide)
    _ = exit6 (Ix := HIx 4) (Name := ℕ) (U := UU) (W6 (Ix := HIx 4) (Name := ℕ) (U := UU) (fun _ => Vd m d f0 f1 f2 f3)) d (Proc.devRef .tc main_arg4) := W7_of_ne _ d main_arg4 (by decide)
    _ = W6 (Ix := HIx 4) (Name := ℕ) (U := UU) (fun _ => Vd m d f0 f1 f2 f3) d (Proc.devRef .tc main_arg4) := exit6_of_ne _ d main_arg4 (by decide)
    _ = exit5 (Ix := HIx 4) (Name := ℕ) (U := UU) (W5 (Ix := HIx 4) (Name := ℕ) (U := UU) (fun _ => Vd m d f0 f1 f2 f3)) d (Proc.devRef .tc main_arg4) := W6_of_ne _ d main_arg4 (by decide)
    _ = W5 (Ix := HIx 4) (Name := ℕ) (U := UU) (fun _ => Vd m d f0 f1 f2 f3) d (Proc.devRef .tc main_arg4) := exit5_of_ne _ d main_arg4 (by decide)
    _ = exit4 (Ix := HIx 4) (Name := ℕ) (U := UU) (fun _ => Vd m d f0 f1 f2 f3) d (Proc.devRef .tc main_arg4) := W5_of_ne _ d main_arg4 (by decide)
    _ = Vd m d f0 f1 f2 f3 (Proc.devRef .tc main_arg4) := exit4_of_ne _ d main_arg4 (by decide)
    _ = Vc m d f0 f1 f2 (Proc.devRef .tc main_arg4) := Vd_of_ne m d f0 f1 f2 f3 main_arg4 (by decide)
    _ = Vb m d f0 f1 (Proc.devRef .tc main_arg4) := Vc_of_ne m d f0 f1 f2 main_arg4 (by decide) (by decide)
    _ = Va m d f0 (Proc.devRef .tc main_arg4) := Vb_of_ne m d f0 f1 main_arg4 (by decide) (by decide)
    _ = Vp m d (Proc.devRef .tc main_arg4) := Va_of_ne m d f0 main_arg4 (by decide) (by decide)
    _ = V0 m d (Proc.devRef .tc main_arg4) := Vp_main_arg4 m d

end Cert.Kernel.Hand.Launch

end
-- ==== Proof.Kernel.HeadMain.lean ====
import proofs.«203661_g84404697301628_cont_9to1_m_135_26_alg».proof.Proof.Kernel.Pay
import proofs.«203661_g84404697301628_cont_9to1_m_135_26_alg».proof.Proof.Kernel.TailSt
import proofs.«203661_g84404697301628_cont_9to1_m_135_26_alg».proof.Proof.Kernel.TailRead
import proofs.«203661_g84404697301628_cont_9to1_m_135_26_alg».proof.Proof.Kernel.Fund
import proofs.«203661_g84404697301628_cont_9to1_m_135_26_alg».proof.Proof.Kernel.HeadRun
import Idealize.ShloMosaic.Lib.SparseCore.Launch
import Idealize.ShloMosaic.Lib.StableHlo.Run

/-! # @main's triple for the launch theorem

From the launch's deal to the TensorCore — the handshake state before the first call, the region boundary, the unscoped buffers
at the launch contents, the generator register — and the four pipelines' ghost state: the head's stretches by the host
operations' sequence rule, each call by the library's rule for the TensorCore at a call (the table lent, the call's token words
and result array dealt by the certificate's hypotheses), the tail by its triple; the five argument arrays are never written. -/

set_option maxRecDepth 16384

noncomputable section

namespace Cert.Kernel.Hand.Launch

open Cert.Kernel Cert.Kernel.Gen Cert.Kernel.Heads
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr)
open Idealize.ShloMosaic.Tactic

variable {F : FTy → Type} [FloatOps F]

local notation "𝕄" => MT nD τ sig (HIx 4) (Elt F) ℕ UU ℕ

variable (m : (ℓ : Loc nD τ sig) → Buf (Elt F) ℓ) (ρ : Dev nD → PrngReg)

/-- The staging cells' rounds library: the middle factor of the algebra. -/
abbrev EPm : Emb UP (MT nD τ sig (HIx 4) (Elt F) ℕ UU ℕ) := embMid (F := F) (Ix := HIx 4) (Name := ℕ) (A := UH) (C := Counters)

/-- The argument arrays. -/
abbrev argRefs : Finset (DevRef τ sig) :=
  {(Proc.devRef .tc main_arg0), (Proc.devRef .tc main_arg1), (Proc.devRef .tc main_arg2), (Proc.devRef .tc main_arg3), (Proc.devRef .tc main_arg4)}

/-- What @main leaves the claim: the five argument arrays at their launch contents. -/
abbrev FIN (d : Dev nD) : sProp 𝕄 := held (SparseCore.T (τ := τ) d) argRefs (V0 m d)

/-- What the launch element leaves @main's proof: the four pipelines' ghost state. -/
abbrev GG (d : Dev nD) : sProp 𝕄 := Pipeline.ghostOn (pcfgs (F := F)) adm (EPm (F := F)) Finset.univ d

theorem argRefs_sub : (argRefs : Finset (DevRef τ sig)) ⊆ Pipeline.ucRefs τ sig := by
  intro b hb
  simp only [argRefs, Finset.mem_insert, Finset.mem_singleton] at hb
  rcases hb with rfl | rfl | rfl | rfl | rfl <;> exact mem_uc _ (by decide)

/-- The arguments end as launched. -/
theorem kept_args (d : Dev nD) (f0 : Buf (Elt F) ((SparseCore.T (τ := τ) d).loc main_v6)) (f1 : Buf (Elt F) ((SparseCore.T (τ := τ) d).loc main_v8)) (f2 : Buf (Elt F) ((SparseCore.T (τ := τ) d).loc main_v10)) (f3 : Buf (Elt F) ((SparseCore.T (τ := τ) d).loc main_v12)) :
    ∀ b ∈ (argRefs : Finset (DevRef τ sig)), Wfin (Name := ℕ) (U := UU) (fun _ => Vd m d f0 f1 f2 f3) d b = V0 m d b := by
  intro b hb
  simp only [argRefs, Finset.mem_insert, Finset.mem_singleton] at hb
  rcases hb with rfl | rfl | rfl | rfl | rfl
  · exact kept_main_arg0 m d f0 f1 f2 f3
  · exact kept_main_arg1 m d f0 f1 f2 f3
  · exact kept_main_arg2 m d f0 f1 f2 f3
  · exact kept_main_arg3 m d f0 f1 f2 f3
  · exact kept_main_arg4 m d f0 f1 f2 f3

set_option maxHeartbeats 1000000 in
/-- @main on device `d`'s TensorCore. -/
theorem hmain [∀ e, Nonempty (Elt F e)] (Rs : Fin 4 → Dev nD → Fin 2 → Fin 16 → sProp (MT nD τ sig (HIx 4) (Elt F) ℕ UU ℕ))
    (rem0 : (d : Dev nD) → Buf (Elt F) ((SparseCore.T (τ := τ) d).loc main_v6) → sProp (MT nD τ sig (HIx 4) (Elt F) ℕ UU ℕ))
    (hdeal0 : ∀ (d : Dev nD) (o : Buf (Elt F) ((SparseCore.T (τ := τ) d).loc main_v6)),
      iprop(((SparseCore.T (τ := τ) d).loc main_v5 ↦{fullShare} wd0 m d) ∗ ((SparseCore.T (τ := τ) d).loc main_v6 ↦{fullShare} o))
        ⊢ iprop((bigSep Finset.univ fun c : Fin 2 => bigSep Finset.univ fun i : Fin 16 => Rs 0 d c i) ∗ rem0 d o))
    (hback0 : ∀ (d : Dev nD) (o : Buf (Elt F) ((SparseCore.T (τ := τ) d).loc main_v6)),
      iprop((bigSep Finset.univ fun c : Fin 2 => bigSep Finset.univ fun i : Fin 16 => Rs 0 d c i) ∗ rem0 d o)
        ⊢ iprop(((SparseCore.T (τ := τ) d).loc main_v5 ↦{fullShare} wd0 m d) ∗ ∃ o' : Buf (Elt F) ((SparseCore.T (τ := τ) d).loc main_v6), (SparseCore.T (τ := τ) d).loc main_v6 ↦{fullShare} o'))
    (rem1 : (d : Dev nD) → Buf (Elt F) ((SparseCore.T (τ := τ) d).loc main_v8) → sProp (MT nD τ sig (HIx 4) (Elt F) ℕ UU ℕ))
    (hdeal1 : ∀ (d : Dev nD) (o : Buf (Elt F) ((SparseCore.T (τ := τ) d).loc main_v8)),
      iprop(((SparseCore.T (τ := τ) d).loc main_v7 ↦{fullShare} wd1 m d) ∗ ((SparseCore.T (τ := τ) d).loc main_v8 ↦{fullShare} o))
        ⊢ iprop((bigSep Finset.univ fun c : Fin 2 => bigSep Finset.univ fun i : Fin 16 => Rs 1 d c i) ∗ rem1 d o))
    (hback1 : ∀ (d : Dev nD) (o : Buf (Elt F) ((SparseCore.T (τ := τ) d).loc main_v8)),
      iprop((bigSep Finset.univ fun c : Fin 2 => bigSep Finset.univ fun i : Fin 16 => Rs 1 d c i) ∗ rem1 d o)
        ⊢ iprop(((SparseCore.T (τ := τ) d).loc main_v7 ↦{fullShare} wd1 m d) ∗ ∃ o' : Buf (Elt F) ((SparseCore.T (τ := τ) d).loc main_v8), (SparseCore.T (τ := τ) d).loc main_v8 ↦{fullShare} o'))
    (rem2 : (d : Dev nD) → Buf (Elt F) ((SparseCore.T (τ := τ) d).loc main_v10) → sProp (MT nD τ sig (HIx 4) (Elt F) ℕ UU ℕ))
    (hdeal2 : ∀ (d : Dev nD) (o : Buf (Elt F) ((SparseCore.T (τ := τ) d).loc main_v10)),
      iprop(((SparseCore.T (τ := τ) d).loc main_v9 ↦{fullShare} wd2 m d) ∗ ((SparseCore.T (τ := τ) d).loc main_v10 ↦{fullShare} o))
        ⊢ iprop((bigSep Finset.univ fun c : Fin 2 => bigSep Finset.univ fun i : Fin 16 => Rs 2 d c i) ∗ rem2 d o))
    (hback2 : ∀ (d : Dev nD) (o : Buf (Elt F) ((SparseCore.T (τ := τ) d).loc main_v10)),
      iprop((bigSep Finset.univ fun c : Fin 2 => bigSep Finset.univ fun i : Fin 16 => Rs 2 d c i) ∗ rem2 d o)
        ⊢ iprop(((SparseCore.T (τ := τ) d).loc main_v9 ↦{fullShare} wd2 m d) ∗ ∃ o' : Buf (Elt F) ((SparseCore.T (τ := τ) d).loc main_v10), (SparseCore.T (τ := τ) d).loc main_v10 ↦{fullShare} o'))
    (rem3 : (d : Dev nD) → Buf (Elt F) ((SparseCore.T (τ := τ) d).loc main_v12) → sProp (MT nD τ sig (HIx 4) (Elt F) ℕ UU ℕ))
    (hdeal3 : ∀ (d : Dev nD) (o : Buf (Elt F) ((SparseCore.T (τ := τ) d).loc main_v12)),
      iprop(((SparseCore.T (τ := τ) d).loc main_v11 ↦{fullShare} wd3 m d) ∗ ((SparseCore.T (τ := τ) d).loc main_v12 ↦{fullShare} o))
        ⊢ iprop((bigSep Finset.univ fun c : Fin 2 => bigSep Finset.univ fun i : Fin 16 => Rs 3 d c i) ∗ rem3 d o))
    (hback3 : ∀ (d : Dev nD) (o : Buf (Elt F) ((SparseCore.T (τ := τ) d).loc main_v12)),
      iprop((bigSep Finset.univ fun c : Fin 2 => bigSep Finset.univ fun i : Fin 16 => Rs 3 d c i) ∗ rem3 d o)
        ⊢ iprop(((SparseCore.T (τ := τ) d).loc main_v11 ↦{fullShare} wd3 m d) ∗ ∃ o' : Buf (Elt F) ((SparseCore.T (τ := τ) d).loc main_v12), (SparseCore.T (τ := τ) d).loc main_v12 ↦{fullShare} o'))
    (κ : GSem nD τ sig → ℕ) (d : Dev nD) :
    iprop((K (F := F)).ctx EH (P (tb m) Rs) κ ∗ (K (F := F)).tcSt EH d 0 ∗ (K (F := F)).tcRes m ρ d ∗ GG (F := F) d)
      ⊢ wp frame (wpE ((K (F := F)).defs (D (F := F))) 𝒱 (SparseCore.T (τ := τ) d) none) Set.univ (main (F := F) d)
          fun _ => iprop((K (F := F)).tcSt EH d 4 ∗ FIN m d) := by
  unfold SparseCore.Cfg.tcRes
  rw [show (unscopedBufs d (fun b => m ((SparseCore.T (τ := τ) d).loc b)) : sProp 𝕄) = held (SparseCore.T (τ := τ) d) (Pipeline.ucRefs τ sig) (V0 m d)
    from Pipeline.unscopedBufs_held d (V0 m d), main_split, head_chain]
  iintro ⟨#Hctx, Hst, ⟨Hb, Hheld, -, Hprng⟩, Hg⟩
  -- the eight host operations, then the first call
  iapply (StableHlo.wp_seq (defs := (K (F := F)).defs (D (F := F))) 𝒱 none Set.univ d (Pipeline.ucRefs τ sig) _ preOps (sub_uc preOps_sub)
      (fun op h => (List.forall_iff_forall_mem.mp preOps_fresh) op h) (V0 m d)) $$ [Hb Hheld]
  · isplitl [Hb]; · iexact Hb
    iexact Hheld
  iintro ⟨Hb, Hheld⟩
  rw [wp_bind]
  iapply (wp_call (tb m) Rs κ d 0 main_v5 main_v6 (by decide) (by decide) (by decide) (by decide) (Vp m d) (rfl) (rem0 d ((Vp m d) (Proc.devRef .tc main_v6)))
      (by exact hdeal0 d _) (by exact hback0 d _) _)
  isplitr; · iexact Hctx
  isplitl [Hst]; · iexact Hst
  isplitl [Hheld]; · iexact Hheld
  iintro ⟨%f0, Hst, Hheld⟩
  -- the second slice and call
  iapply (StableHlo.wp_seq (defs := (K (F := F)).defs (D (F := F))) 𝒱 none Set.univ d (Pipeline.ucRefs τ sig) _ sliceOps1 (sub_uc sliceOps1_sub)
      (fun op h => (List.forall_iff_forall_mem.mp sliceOps1_fresh) op h) (Function.update (Vp m d) (Proc.devRef .tc main_v6) f0)) $$ [Hb Hheld]
  · isplitl [Hb]; · iexact Hb
    iexact Hheld
  iintro ⟨Hb, Hheld⟩
  rw [wp_bind]
  iapply (wp_call (tb m) Rs κ d 1 main_v7 main_v8 (by decide) (by decide) (by decide) (by decide) (Va m d f0) (Va_tb m d f0) (rem1 d ((Va m d f0) (Proc.devRef .tc main_v8)))
      (by rw [Va_wd]; exact hdeal1 d _) (by rw [Va_wd]; exact hback1 d _) _)
  isplitr; · iexact Hctx
  isplitl [Hst]; · iexact Hst
  isplitl [Hheld]; · iexact Hheld
  iintro ⟨%f1, Hst, Hheld⟩
  -- the third
  iapply (StableHlo.wp_seq (defs := (K (F := F)).defs (D (F := F))) 𝒱 none Set.univ d (Pipeline.ucRefs τ sig) _ sliceOps2 (sub_uc sliceOps2_sub)
      (fun op h => (List.forall_iff_forall_mem.mp sliceOps2_fresh) op h) (Function.update (Va m d f0) (Proc.devRef .tc main_v8) f1)) $$ [Hb Hheld]
  · isplitl [Hb]; · iexact Hb
    iexact Hheld
  iintro ⟨Hb, Hheld⟩
  rw [wp_bind]
  iapply (wp_call (tb m) Rs κ d 2 main_v9 main_v10 (by decide) (by decide) (by decide) (by decide) (Vb m d f0 f1) (Vb_tb m d f0 f1) (rem2 d ((Vb m d f0 f1) (Proc.devRef .tc main_v10)))
      (by rw [Vb_wd]; exact hdeal2 d _) (by rw [Vb_wd]; exact hback2 d _) _)
  isplitr; · iexact Hctx
  isplitl [Hst]; · iexact Hst
  isplitl [Hheld]; · iexact Hheld
  iintro ⟨%f2, Hst, Hheld⟩
  -- the fourth
  iapply (StableHlo.wp_seq (defs := (K (F := F)).defs (D (F := F))) 𝒱 none Set.univ d (Pipeline.ucRefs τ sig) _ sliceOps3 (sub_uc sliceOps3_sub)
      (fun op h => (List.forall_iff_forall_mem.mp sliceOps3_fresh) op h) (Function.update (Vb m d f0 f1) (Proc.devRef .tc main_v10) f2)) $$ [Hb Hheld]
  · isplitl [Hb]; · iexact Hb
    iexact Hheld
  iintro ⟨Hb, Hheld⟩
  rw [wp_bind]
  iapply (wp_call (tb m) Rs κ d 3 main_v11 main_v12 (by decide) (by decide) (by decide) (by decide) (Vc m d f0 f1 f2) (Vc_tb m d f0 f1 f2) (rem3 d ((Vc m d f0 f1 f2) (Proc.devRef .tc main_v12)))
      (by rw [Vc_wd]; exact hdeal3 d _) (by rw [Vc_wd]; exact hback3 d _) _)
  isplitr; · iexact Hctx
  isplitl [Hst]; · iexact Hst
  isplitl [Hheld]; · iexact Hheld
  iintro ⟨%f3, Hst, Hheld⟩
  -- the tail: the four regions, the copies, the transpose
  iapply (wp_tail_tcSt (K (F := F)).lev (fun _ => Vd m d f0 f1 f2 f3) EH (EPm (F := F)) d _)
  isplitl [Hst]; · iexact Hst
  isplitl [Hb]; · iexact Hb
  isplitl [Hheld]; · iexact Hheld
  isplitl [Hprng]; · iexists _; iexact Hprng
  isplitr; · iapply (SparseCore.Cfg.ctx_levAts κ); iexact Hctx
  isplitl [Hg]; · iexact Hg
  iintro ⟨Hst, -, Hheld, -⟩
  isplitl [Hst]; · iexact Hst
  ihave Hh := (Entails.of_eq (held_sub_split (SparseCore.T (τ := τ) d) argRefs_sub (Wfin (Name := ℕ) (U := UU) (fun _ => Vd m d f0 f1 f2 f3) d))) $$ Hheld
  icases Hh with ⟨Ha, -⟩
  ihave Ha' := (Entails.of_eq (held_congr (SparseCore.T (τ := τ) d) (kept_args m d f0 f1 f2 f3))) $$ Ha
  iexact Ha'

end Cert.Kernel.Hand.Launch

end
-- ==== Proof.Kernel.KFrame.lean ====
import proofs.«203661_g84404697301628_cont_9to1_m_135_26_alg».proof.Proof.Kernel.Pay
import proofs.«203661_g84404697301628_cont_9to1_m_135_26_alg».proof.Proof.Kernel.TailSt
import proofs.«203661_g84404697301628_cont_9to1_m_135_26_alg».proof.Proof.Kernel.TailRead
import proofs.«203661_g84404697301628_cont_9to1_m_135_26_alg».proof.Proof.Kernel.Fund
import proofs.«203661_g84404697301628_cont_9to1_m_135_26_alg».proof.Proof.Kernel.HeadMain
import Idealize.ShloMosaic.Lib.SparseCore.Launch
import Idealize.ShloMosaic.Lib.StableHlo.Run

/-! # The program's run: the launch theorem applied

The launch element — the handshakes' rounds, the staging cells' rounds, nothing for the counters —, the final read of the five
argument arrays, and the SparseCore launch theorem at this program: four vector-subcore calls (the certificate's task
obligations, hypotheses here), @main's triple, every kernel's split of a SparseCore's payload among its subcores. -/

set_option maxRecDepth 16384

noncomputable section

namespace Cert.Kernel.Hand.Launch

open Cert.Kernel Cert.Kernel.Gen Cert.Kernel.Heads
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr)
open Idealize.ShloMosaic.Tactic

variable {F : FTy → Type} [FloatOps F]

local notation "𝕄" => MT nD τ sig (HIx 4) (Elt F) ℕ UU ℕ

variable (m : (ℓ : Loc nD τ sig) → Buf (Elt F) ℓ) (ρ : Dev nD → PrngReg)

/-! ## The launch element -/

/-- The handshakes' rounds, the staging cells' rounds, no counter. -/
def u₀ : UU :=
  (initOf (K (F := F)).hsCells (K (F := F)).hsToks, (initOf (Pipeline.cells cfgs cellOf_inj) (Pipeline.launchToks cfgs cellOf_inj), 1))

theorem bigSep_emp' {I : Type} (s : Finset I) : (bigSep s fun _ => iprop(emp)) = (iprop(emp) : sProp 𝕄) := bigSep_emp_const s

theorem hu₀ (Rs : Fin 4 → Dev nD → Fin 2 → Fin 16 → sProp (MT nD τ sig (HIx 4) (Elt F) ℕ UU ℕ)) :
    (ownU (u₀ (F := F)) : sProp 𝕄)
      ⊢ |={Set.univ}=> iprop(BI.own (EH (initOf (K (F := F)).hsCells (K (F := F)).hsToks)) ∗ (bigSep Finset.univ fun d : Dev nD => GG (F := F) d)
          ∗ bigSep Finset.univ fun thr : Thread nD τ => bigSep Finset.univ fun q : Fin 4 => (P (tb m) Rs).x q thr) := by
  unfold u₀
  iintro Hu
  ihave H := (ownU_triple (F := F) (Ix := HIx 4) (Name := ℕ) (A := UH) (C := Counters) _ _ _) $$ Hu
  icases H with ⟨HH, HP, -⟩
  imod (fund_regions (F := F) (EPm (F := F))) $$ HP with HG
  imodintro
  isplitl [HH]; · iexact HH
  isplitl [HG]; · iexact HG
  unfold P; dsimp only
  rw [show (bigSep Finset.univ fun _ : Thread nD τ => bigSep Finset.univ fun _ : Fin 4 => (iprop(emp) : sProp 𝕄)) = iprop(emp) from by
    rw [bigSep_congr fun _ _ => bigSep_emp' _, bigSep_emp']]
  iempintro

/-! ## The final read -/

def fq (d : Dev nD) (s' : Phys nD τ sig (Elt F)) : Prop :=
  s'.mem.mem ((SparseCore.T (τ := τ) d).loc main_arg0) = m ((SparseCore.T (τ := τ) d).loc main_arg0)
  ∧ s'.mem.mem ((SparseCore.T (τ := τ) d).loc main_arg1) = m ((SparseCore.T (τ := τ) d).loc main_arg1)
  ∧ s'.mem.mem ((SparseCore.T (τ := τ) d).loc main_arg2) = m ((SparseCore.T (τ := τ) d).loc main_arg2)
  ∧ s'.mem.mem ((SparseCore.T (τ := τ) d).loc main_arg3) = m ((SparseCore.T (τ := τ) d).loc main_arg3)
  ∧ s'.mem.mem ((SparseCore.T (τ := τ) d).loc main_arg4) = m ((SparseCore.T (τ := τ) d).loc main_arg4)

theorem read_arg (d : Dev nD) (s' : Phys nD τ sig (Elt F)) (a : Ref sig .tc) :
    iprop(((SparseCore.T (τ := τ) d).loc a ↦{fullShare} m ((SparseCore.T (τ := τ) d).loc a)) ∗ SI s') ⊢ (⌜s'.mem.mem ((SparseCore.T (τ := τ) d).loc a) = m ((SparseCore.T (τ := τ) d).loc a)⌝ : sProp 𝕄) := by
  iintro ⟨Hx, HSI⟩
  ihave H := (SI_pointsTo_agree (st := s') (ℓ := (SparseCore.T (τ := τ) d).loc a) (I := Finset.univ) (q := fullShare) (f := m ((SparseCore.T (τ := τ) d).loc a))) $$ [HSI Hx]
  · isplitl [HSI] <;> iassumption
  icases H with %hx
  ipureintro; exact funext fun i => hx i (Finset.mem_univ i)

/-- One argument array read off the final state. -/
theorem hfin_at (d : Dev nD) (s' : Phys nD τ sig (Elt F)) (a : Ref sig .tc) (ha : Proc.devRef .tc a ∈ (argRefs : Finset (DevRef τ sig))) :
    iprop(FIN m d ∗ SI s') ⊢ (⌜s'.mem.mem ((SparseCore.T (τ := τ) d).loc a) = m ((SparseCore.T (τ := τ) d).loc a)⌝ : sProp 𝕄) := by
  unfold FIN held
  rw [SparseCore.bigSep_erase' ha]
  iintro ⟨⟨Hx, -⟩, HSI⟩
  iapply (read_arg m d s' a)
  isplitl [Hx]; · iexact Hx
  iexact HSI

/-- Two pure consequences of one assertion are one. -/
theorem pure_both {A : sProp 𝕄} {a b : Prop} (h : A ⊢ (⌜a⌝ : sProp 𝕄)) (h' : A ⊢ (⌜b⌝ : sProp 𝕄)) : A ⊢ (⌜a ∧ b⌝ : sProp 𝕄) :=
  fun x hx => ⟨h x hx, h' x hx⟩

theorem hfin (d : Dev nD) (s' : Phys nD τ sig (Elt F)) : iprop(FIN m d ∗ SI s') ⊢ (⌜fq m d s'⌝ : sProp 𝕄) :=
  pure_both (hfin_at m d s' main_arg0 (by decide)) (pure_both (hfin_at m d s' main_arg1 (by decide)) (pure_both (hfin_at m d s' main_arg2 (by decide))
    (pure_both (hfin_at m d s' main_arg3 (by decide)) (hfin_at m d s' main_arg4 (by decide)))))

/-! ## The run -/

/-- Every call is a vector-subcore call. -/
theorem kind_vec (q : Fin 4) : (K (F := F)).kind q = .scVector := by
  match q with
  | 0 => rfl
  | 1 => rfl
  | 2 => rfl
  | 3 => rfl

/-- The program runs — terminates, nothing faulting, no handshake unanswered — and its five argument arrays end unchanged,
    given the certificate's task obligations for the four gather kernels and how each call's token words and result array are
    dealt to its vector subcores and gathered back. -/
theorem kernel_frame [∀ e, Nonempty (Elt F e)] (Rs : Fin 4 → Dev nD → Fin 2 → Fin 16 → sProp (MT nD τ sig (HIx 4) (Elt F) ℕ UU ℕ))
    (hR : ∀ q d c i, BI.Storable (upEmb : UEmb _ 𝕄) (Rs q d c i))
    (htile : ∀ q, (K (F := F)).TileObl (D (F := F)) 𝒱 (P (tb m) Rs) v₀ q)
    (rem0 : (d : Dev nD) → Buf (Elt F) ((SparseCore.T (τ := τ) d).loc main_v6) → sProp (MT nD τ sig (HIx 4) (Elt F) ℕ UU ℕ))
    (hdeal0 : ∀ (d : Dev nD) (o : Buf (Elt F) ((SparseCore.T (τ := τ) d).loc main_v6)),
      iprop(((SparseCore.T (τ := τ) d).loc main_v5 ↦{fullShare} wd0 m d) ∗ ((SparseCore.T (τ := τ) d).loc main_v6 ↦{fullShare} o))
        ⊢ iprop((bigSep Finset.univ fun c : Fin 2 => bigSep Finset.univ fun i : Fin 16 => Rs 0 d c i) ∗ rem0 d o))
    (hback0 : ∀ (d : Dev nD) (o : Buf (Elt F) ((SparseCore.T (τ := τ) d).loc main_v6)),
      iprop((bigSep Finset.univ fun c : Fin 2 => bigSep Finset.univ fun i : Fin 16 => Rs 0 d c i) ∗ rem0 d o)
        ⊢ iprop(((SparseCore.T (τ := τ) d).loc main_v5 ↦{fullShare} wd0 m d) ∗ ∃ o' : Buf (Elt F) ((SparseCore.T (τ := τ) d).loc main_v6), (SparseCore.T (τ := τ) d).loc main_v6 ↦{fullShare} o'))
    (rem1 : (d : Dev nD) → Buf (Elt F) ((SparseCore.T (τ := τ) d).loc main_v8) → sProp (MT nD τ sig (HIx 4) (Elt F) ℕ UU ℕ))
    (hdeal1 : ∀ (d : Dev nD) (o : Buf (Elt F) ((SparseCore.T (τ := τ) d).loc main_v8)),
      iprop(((SparseCore.T (τ := τ) d).loc main_v7 ↦{fullShare} wd1 m d) ∗ ((SparseCore.T (τ := τ) d).loc main_v8 ↦{fullShare} o))
        ⊢ iprop((bigSep Finset.univ fun c : Fin 2 => bigSep Finset.univ fun i : Fin 16 => Rs 1 d c i) ∗ rem1 d o))
    (hback1 : ∀ (d : Dev nD) (o : Buf (Elt F) ((SparseCore.T (τ := τ) d).loc main_v8)),
      iprop((bigSep Finset.univ fun c : Fin 2 => bigSep Finset.univ fun i : Fin 16 => Rs 1 d c i) ∗ rem1 d o)
        ⊢ iprop(((SparseCore.T (τ := τ) d).loc main_v7 ↦{fullShare} wd1 m d) ∗ ∃ o' : Buf (Elt F) ((SparseCore.T (τ := τ) d).loc main_v8), (SparseCore.T (τ := τ) d).loc main_v8 ↦{fullShare} o'))
    (rem2 : (d : Dev nD) → Buf (Elt F) ((SparseCore.T (τ := τ) d).loc main_v10) → sProp (MT nD τ sig (HIx 4) (Elt F) ℕ UU ℕ))
    (hdeal2 : ∀ (d : Dev nD) (o : Buf (Elt F) ((SparseCore.T (τ := τ) d).loc main_v10)),
      iprop(((SparseCore.T (τ := τ) d).loc main_v9 ↦{fullShare} wd2 m d) ∗ ((SparseCore.T (τ := τ) d).loc main_v10 ↦{fullShare} o))
        ⊢ iprop((bigSep Finset.univ fun c : Fin 2 => bigSep Finset.univ fun i : Fin 16 => Rs 2 d c i) ∗ rem2 d o))
    (hback2 : ∀ (d : Dev nD) (o : Buf (Elt F) ((SparseCore.T (τ := τ) d).loc main_v10)),
      iprop((bigSep Finset.univ fun c : Fin 2 => bigSep Finset.univ fun i : Fin 16 => Rs 2 d c i) ∗ rem2 d o)
        ⊢ iprop(((SparseCore.T (τ := τ) d).loc main_v9 ↦{fullShare} wd2 m d) ∗ ∃ o' : Buf (Elt F) ((SparseCore.T (τ := τ) d).loc main_v10), (SparseCore.T (τ := τ) d).loc main_v10 ↦{fullShare} o'))
    (rem3 : (d : Dev nD) → Buf (Elt F) ((SparseCore.T (τ := τ) d).loc main_v12) → sProp (MT nD τ sig (HIx 4) (Elt F) ℕ UU ℕ))
    (hdeal3 : ∀ (d : Dev nD) (o : Buf (Elt F) ((SparseCore.T (τ := τ) d).loc main_v12)),
      iprop(((SparseCore.T (τ := τ) d).loc main_v11 ↦{fullShare} wd3 m d) ∗ ((SparseCore.T (τ := τ) d).loc main_v12 ↦{fullShare} o))
        ⊢ iprop((bigSep Finset.univ fun c : Fin 2 => bigSep Finset.univ fun i : Fin 16 => Rs 3 d c i) ∗ rem3 d o))
    (hback3 : ∀ (d : Dev nD) (o : Buf (Elt F) ((SparseCore.T (τ := τ) d).loc main_v12)),
      iprop((bigSep Finset.univ fun c : Fin 2 => bigSep Finset.univ fun i : Fin 16 => Rs 3 d c i) ∗ rem3 d o)
        ⊢ iprop(((SparseCore.T (τ := τ) d).loc main_v11 ↦{fullShare} wd3 m d) ∗ ∃ o' : Buf (Elt F) ((SparseCore.T (τ := τ) d).loc main_v12), (SparseCore.T (τ := τ) d).loc main_v12 ↦{fullShare} o')) :
    θ_run (Cert.Kernel.defs (F := F)) (Cert.Kernel.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  haveI := P_storable (F := F) (tb m) Rs hR
  SparseCore.Cfg.θ_run_sc (K := K (F := F)) (D := D (F := F)) (𝒱 := 𝒱) (EH := EH) (P := P (tb m) Rs) facts v₀
    (fun q hq => absurd ((kind_vec (F := F) q).symm.trans hq) (by decide))
    (fun q _ => htile q)
    (fun q _ => SparseCore.Cfg.VecSplit.of_plain (vecSplit (tb m) Rs q))
    m ρ main (GG (F := F)) (FIN m) (u₀ (F := F)) (sep_elim_left.trans (hu₀ m Rs))
    (hmain m ρ Rs rem0 hdeal0 hback0 rem1 hdeal1 hback1 rem2 hdeal2 hback2 rem3 hdeal3 hback3)
    (fq m) (hfin m) _ (fun _ h c => h c)

end Cert.Kernel.Hand.Launch

end
-- ==== Proof.Kernel.TileRun0.lean ====
/-
  One vector subcore's task in the first embedding-gather call, run to its end.

  The subcore at grid point (core, subcore) is worker `2·subcore + core`. It copies its 512 token words from the
  token list into a scratch, and then, four times: gathers the 128 table rows those words name into one half of a
  two-slot scratch (an indexed copy, legal because every word names a row of the 1000-row table), copies the first 32
  of each row's 128 columns into the matching half of a second two-slot scratch, and starts the copy of that half out
  to its 128 rows of the result. A slot's copy-out is waited for two trips later, just before the slot is written
  again, and the last two after the loop; so between its start and its wait nothing touches the copy's source or
  destination. Each copy is on a semaphore of the subcore's own with one copy in flight at a time.

  The loop's invariant says, before each of the four trips, which slot's copy-out is in flight and for which block of
  the result; a flying copy holds that block and the slot's half of the scratch until its wait returns them. The two
  halves of the scratch partition it (`crows_compl01`), which is what lets a half be held as "everything but the other
  half" while the other half is away.
-/
import proofs.«203661_g84404697301628_cont_9to1_m_135_26_alg».proof.Proof.Kernel.KCommon

noncomputable section

namespace Cert.Kernel.Hand

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [hK : Cert.Kernel.Facts] [FloatOps F]

local notation "𝕄" => MT nD τ sig (HIx 4) (Elt F) ℕ UU ℕ

local notation "tblW" => (Memref.whole Cert.Kernel.main_v0_scv : Memref Cert.Kernel.sig Kind.scVector Space.hbm Cert.Kernel.S1000x128 EltTy.f32)
local notation "idxW" => (Memref.whole Cert.Kernel.main_v5_scv : Memref Cert.Kernel.sig Kind.scVector Space.hbm Cert.Kernel.S16384 EltTy.i32)
local notation "outW" => (Memref.whole Cert.Kernel.main_v6_scv : Memref Cert.Kernel.sig Kind.scVector Space.hbm Cert.Kernel.S1x16384x32 EltTy.f32)
local notation "s0W" => (Memref.whole Cert.Kernel.cc0_scratch0 : Memref Cert.Kernel.sig Kind.scVector Space.vmem Cert.Kernel.S512 EltTy.i32)
local notation "s1W" => (Memref.whole Cert.Kernel.cc0_scratch1 : Memref Cert.Kernel.sig Kind.scVector Space.vmem Cert.Kernel.S2x128x128 EltTy.f32)
local notation "s2W" => (Memref.whole Cert.Kernel.cc0_scratch2 : Memref Cert.Kernel.sig Kind.scVector Space.vmem Cert.Kernel.S2x128x32 EltTy.f32)

variable (d : Dev nD) (L : grid0.Coords)

abbrev cV (L : grid0.Coords) : Fin τ.nSC := (L 0).castLE hcore0
abbrev jV (L : grid0.Coords) : Fin τ.nSub := (L 1).castLE hsub0
/-- the vector subcore at grid point `L` -/
abbrev tile : Thread nD τ := V d (cV L) (jV L)

/-- the part of the token list this subcore fetches -/
abbrev idxSl (L : grid0.Coords) : Memref sig .scVector .hbm S512 .i32 := (idxW).slice (Rect.unit (s := S16384) (k0_off1 L) S512.size (k0_off1_inb L)) (fun _ => rfl)
/-- trip `t`'s 128 words of the fetched list -/
abbrev offsAt (t : Fin k0_t1_loop.trips) : Memref sig .scVector .vmem S128 .i32 :=
  (s0W).slice (Rect.unit (s := S512) (k0_off6 t) S128.size (k0_off6_inb t)) (fun _ => rfl)
/-- the 128 rows of the result trip `t` writes -/
abbrev outAt (L : grid0.Coords) (t : Fin k0_t1_loop.trips) : Memref sig .scVector .hbm S128x32 .f32 :=
  ((outW).slice (Rect.unit (s := S1x16384x32) (k0_off13 L t) S1x128x32.size (k0_off13_inb L t)) (fun _ => rfl)).squeeze S128x32 squeezes_S1x128x32_S128x32
/-- the half of the compact-rows scratch trip `t` fills and copies out -/
abbrev crowsAt (t : Fin k0_t1_loop.trips) : Memref sig .scVector .vmem S128x32 .f32 :=
  ((s2W).slice (Rect.unit (s := S2x128x32) (k0_off12 t) S1x128x32.size (k0_off12_inb t)) (fun _ => rfl)).squeeze S128x32 squeezes_S1x128x32_S128x32

def t0 : Fin k0_t1_loop.trips := ⟨0, by decide⟩
def t1 : Fin k0_t1_loop.trips := ⟨1, by decide⟩
def t2 : Fin k0_t1_loop.trips := ⟨2, by decide⟩
def t3 : Fin k0_t1_loop.trips := ⟨3, by decide⟩

/-- the two gather semaphores and the two write-back semaphores, by slot; the prologue's copy semaphore -/
local notation "gS0" => (⟨0, by decide⟩ : DmaSem Cert.Kernel.sig)
local notation "gS1" => (⟨1, by decide⟩ : DmaSem Cert.Kernel.sig)
local notation "wS0" => (⟨2, by decide⟩ : DmaSem Cert.Kernel.sig)
local notation "wS1" => (⟨3, by decide⟩ : DmaSem Cert.Kernel.sig)
local notation "pS" => (⟨4, by decide⟩ : DmaSem Cert.Kernel.sig)

/-- every word of the fetched list names a row of the table -/
def InRange (g5 : Buf (Elt F) ((s0W).view.loc (tile d L))) : Prop :=
  ∀ (o : Fin 1 → Nat) (h : ∀ a, o a + S128.size a ≤ S512.size a) (x : S128.Idx),
    (((s0W).slice (Rect.unit (s := S512) o S128.size h) (fun _ => rfl)).view.read (Elt F) g5 x).toNat < S1000x128.size gathers_S1000x128_S128x128.axis

/-- a block of the result, at some contents -/
def outHeld (t : Fin k0_t1_loop.trips) : sProp 𝕄 :=
  iprop(∃ f, (outAt L t).view.loc (tile d L) ↦[(outAt L t).view.set]{fullShare} f)
/-- a half of the compact-rows scratch (the one trip `t` uses), at some contents -/
def crowsHeld (t : Fin k0_t1_loop.trips) : sProp 𝕄 :=
  iprop(∃ f, (s2W).view.loc (tile d L) ↦[Finset.univ \ (crowsAt t).view.set]{fullShare} f)
/-- slot `s` idle: its write-back semaphore at zero and its half of the scratch in hand -/
def slotFree (w : DmaSem sig) (t : Fin k0_t1_loop.trips) : sProp 𝕄 :=
  iprop(semVal (tile d L, SemLoc.dma w) 0 ∗ crowsHeld (F := F) d L t)
/-- slot `s` busy: trip `t`'s write-back in flight, carrying its block of the result and its half of the scratch -/
def slotBusy (w : DmaSem sig) (t : Fin k0_t1_loop.trips) : sProp 𝕄 :=
  iprop(∃ fo f, Transfers.Flight (countersEmb (U := UU)) (tile d L) (SemLoc.dma w) (default : HIx 4) 131072
    iprop(((outAt L t).view.loc (tile d L) ↦[(outAt L t).view.set]{fullShare} fo)
      ∗ ((s2W).view.loc (tile d L) ↦[(crowsAt t).view.set]{fullShare} f)))

/-- what every trip keeps: the wait evidence, the table's share, the fetched list (in range), the gathered-rows scratch,
    both gather semaphores at zero, and what the subcore owes with the waits recorded so far -/
def common (O : CellTallies nD τ sig (HIx 4)) (W : Waits sig (HIx 4)) (q : PosShare TreeShare)
    (ft : Buf (Elt F) ((tblW).view.loc (tile d L))) : sProp 𝕄 :=
  iprop(Transfers.MayWaits (tile d L) (none : HIx 4) O
    ∗ ((tblW).view.loc (tile d L) ↦{q} ft)
    ∗ (∃ g5, ⌜InRange (F := F) d L g5⌝ ∗ (s0W).view.loc (tile d L) ↦{fullShare} g5)
    ∗ (∃ r, (s1W).view.loc (tile d L) ↦{fullShare} r)
    ∗ semVal (tile d L, SemLoc.dma gS0) 0 ∗ semVal (tile d L, SemLoc.dma gS1) 0
    ∗ ∃ W', ⌜∀ p ∈ W', p ∈ W ∨ p.2 = none⌝ ∗ owes (tile d L) O W')

section Inv
variable (O : CellTallies nD τ sig (HIx 4)) (W : Waits sig (HIx 4)) (q : PosShare TreeShare) (ft : Buf (Elt F) ((tblW).view.loc (tile d L)))
/-- before trip 0: both slots idle, every block in hand -/
def inv0 : sProp 𝕄 := iprop(common d L O W q ft ∗ slotFree d L wS0 t1 ∗ slotFree d L wS1 t0 ∗ outHeld d L t0 ∗ outHeld d L t1 ∗ outHeld d L t2 ∗ outHeld d L t3)
/-- before trip 1: block 0 flying from slot 0 -/
def inv1 : sProp 𝕄 := iprop(common d L O W q ft ∗ slotBusy d L wS0 t0 ∗ slotFree d L wS1 t0 ∗ outHeld d L t1 ∗ outHeld d L t2 ∗ outHeld d L t3)
/-- before trip 2: blocks 0 and 1 flying -/
def inv2 : sProp 𝕄 := iprop(common d L O W q ft ∗ slotBusy d L wS0 t0 ∗ slotBusy d L wS1 t1 ∗ outHeld d L t2 ∗ outHeld d L t3)
/-- before trip 3: block 0 landed, blocks 2 and 1 flying -/
def inv3 : sProp 𝕄 := iprop(common d L O W q ft ∗ slotBusy d L wS0 t2 ∗ slotBusy d L wS1 t1 ∗ outHeld d L t0 ∗ outHeld d L t3)
/-- after trip 3: blocks 0 and 1 landed, blocks 2 and 3 flying -/
def inv4 : sProp 𝕄 := iprop(common d L O W q ft ∗ slotBusy d L wS0 t2 ∗ slotBusy d L wS1 t3 ∗ outHeld d L t0 ∗ outHeld d L t1)
/-- the outer loop's invariant before trip `k` -/
def invO (k : Nat) (_ : PUnit) : sProp 𝕄 :=
  match k with
  | 0 => inv0 d L O W q ft
  | 1 => inv1 d L O W q ft
  | 2 => inv2 d L O W q ft
  | 3 => inv3 d L O W q ft
  | _ => inv4 d L O W q ft
end Inv

/-- the compaction loop's invariant, contents untracked: the gathered rows and trip `t`'s half of the compact rows in hand -/
def invC (t : Fin k0_t1_loop.trips) (_ : Nat) (_ : PUnit) : sProp 𝕄 :=
  iprop((∃ r, (s1W).view.loc (tile d L) ↦{fullShare} r) ∗ crowsHeld (F := F) d L t)

/-- an element lies in trip `t`'s half of the compact-rows scratch exactly when each coordinate lies in the half's box -/
theorem mem_crowsAt (t : Fin k0_t1_loop.trips) (x : S2x128x32.Idx) :
    x ∈ (crowsAt t).view.set ↔ ∀ a, k0_off12 t a ≤ x a ∧ (x a : Nat) < k0_off12 t a + S1x128x32.size a := by
  have hs : ((crowsAt t).view.set : Finset S2x128x32.Idx)
      = (Rect.unit (s := S2x128x32) (k0_off12 t) S1x128x32.size (k0_off12_inb t)).set := by
    show (((View.whole cc0_scratch2).slice (Rect.unit (s := S2x128x32) (k0_off12 t) S1x128x32.size (k0_off12_inb t))).reshape S128x32 _).set = _
    rw [View.set_reshape, View.set_slice_whole]
  constructor
  · intro h; exact Rect.mem_set_unit.mp (hs ▸ h)
  · intro h; exact hs ▸ Rect.mem_set_unit.mpr h

/-- the two halves partition the scratch: what is not in the second half is the first half -/
theorem crows_compl01 : Finset.univ \ (crowsAt t1).view.set = (crowsAt t0).view.set := by
  ext x
  rw [Finset.mem_sdiff, mem_crowsAt, mem_crowsAt]
  simp only [Finset.mem_univ, true_and]
  have e0 : k0_off12 t0 = ![0, 0, 0] := by decide
  have e1 : k0_off12 t1 = ![1, 0, 0] := by decide
  rw [e0, e1]
  have h0 : (x 0 : Nat) < 2 := (x 0).isLt
  have h1 : (x 1 : Nat) < 128 := (x 1).isLt
  have h2 : (x 2 : Nat) < 32 := (x 2).isLt
  constructor
  · intro h a
    have hx0 : (x 0 : Nat) = 0 := by
      by_contra hne
      exact h (fun b => by
        match b with
        | ⟨0, _⟩ => exact ⟨by show 1 ≤ (x 0 : Nat); omega, by show (x 0 : Nat) < 1 + 1; omega⟩
        | ⟨1, _⟩ => exact ⟨Nat.zero_le _, by show (x 1 : Nat) < 0 + 128; omega⟩
        | ⟨2, _⟩ => exact ⟨Nat.zero_le _, by show (x 2 : Nat) < 0 + 32; omega⟩)
    match a with
    | ⟨0, _⟩ => exact ⟨Nat.zero_le _, by show (x 0 : Nat) < 0 + 1; omega⟩
    | ⟨1, _⟩ => exact ⟨Nat.zero_le _, by show (x 1 : Nat) < 0 + 128; omega⟩
    | ⟨2, _⟩ => exact ⟨Nat.zero_le _, by show (x 2 : Nat) < 0 + 32; omega⟩
  · intro h hc
    have a0 : (x 0 : Nat) < 0 + 1 := (h 0).2
    have b0 : 1 ≤ (x 0 : Nat) := (hc 0).1
    omega

/-- and what is not in the first half is the second -/
theorem crows_compl10 : Finset.univ \ (crowsAt t0).view.set = (crowsAt t1).view.set := by
  rw [← crows_compl01, sdiff_sdiff_right_self]
  exact inf_eq_right.mpr (Finset.subset_univ _)

theorem inb_w0 : ∀ a, (![0] : Fin 1 → Nat) a + S128.size a ≤ S512.size a := by decide
theorem inb_w128 : ∀ a, (![128] : Fin 1 → Nat) a + S128.size a ≤ S512.size a := by decide
theorem inb_w256 : ∀ a, (![256] : Fin 1 → Nat) a + S128.size a ≤ S512.size a := by decide
theorem inb_w384 : ∀ a, (![384] : Fin 1 → Nat) a + S128.size a ≤ S512.size a := by decide

theorem size_tbl : S1000x128.size gathers_S1000x128_S128x128.axis = 1000 := by decide

/-- One vector subcore's whole task for the first gather call: fetch its 512 token words, then four times gather 128 table
    rows, compact their first 32 columns, and start the block's write-back, waiting for a slot's previous write-back
    before reusing the slot; at the end wait for the last two. Every copy is the subcore's own on a semaphore nobody
    else touches, one in flight per semaphore; a write-back stays in flight across two trips of the loop, carried in the
    loop's invariant together with the block of the result and the half of the scratch it holds. Contents are not tracked
    here: the task ends, faults nowhere, and hands back what it was handed. -/
theorem tile_run0 (O : CellTallies nD τ sig (HIx 4)) (W : Waits sig (HIx 4)) (q : PosShare TreeShare)
    (ft : Buf (Elt F) ((tblW).view.loc (tile d L))) (fi : Buf (Elt F) ((idxSl L).view.loc (tile d L)))
    (hfi : ∀ y, (fi y).toNat < 1000) :
    iprop(Transfers.MayWaits (tile d L) (none : HIx 4) O
        ∗ ((tblW).view.loc (tile d L) ↦{q} ft)
        ∗ ((idxSl L).view.loc (tile d L) ↦[(idxSl L).view.set]{fullShare} fi)
        ∗ (∃ f5, (s0W).view.loc (tile d L) ↦{fullShare} f5)
        ∗ (∃ r, (s1W).view.loc (tile d L) ↦{fullShare} r)
        ∗ crowsHeld (F := F) d L t1 ∗ crowsHeld (F := F) d L t0
        ∗ outHeld (F := F) d L t0 ∗ outHeld (F := F) d L t1 ∗ outHeld (F := F) d L t2 ∗ outHeld (F := F) d L t3
        ∗ semVal (tile d L, SemLoc.dma gS0) 0 ∗ semVal (tile d L, SemLoc.dma gS1) 0
        ∗ semVal (tile d L, SemLoc.dma wS0) 0 ∗ semVal (tile d L, SemLoc.dma wS1) 0
        ∗ semVal (tile d L, SemLoc.dma pS) 0
        ∗ owes (tile d L) O W)
      ⊢ wp frame (wpE (defs₀ (F := F)) 𝒱₀ (tile d L) none) Set.univ
          (cc0_gather_kernel L tblW (Memref.isWhole_whole _) idxW (Memref.isWhole_whole _) outW (Memref.isWhole_whole _)
            s0W (Memref.isWhole_whole _) s1W (Memref.isWhole_whole _) s2W (Memref.isWhole_whole _) cc0_scratch3 cc0_scratch4 cc0_scoped0)
          (fun _ => iprop(((tblW).view.loc (tile d L) ↦{q} ft)
            ∗ ((idxSl L).view.loc (tile d L) ↦[(idxSl L).view.set]{fullShare} fi)
            ∗ (∃ f5, (s0W).view.loc (tile d L) ↦{fullShare} f5)
            ∗ (∃ r, (s1W).view.loc (tile d L) ↦{fullShare} r)
            ∗ (∃ f, (s2W).view.loc (tile d L) ↦[(crowsAt t2).view.set]{fullShare} f)
            ∗ (∃ f, (s2W).view.loc (tile d L) ↦[(crowsAt t3).view.set]{fullShare} f)
            ∗ outHeld (F := F) d L t0 ∗ outHeld (F := F) d L t1 ∗ outHeld (F := F) d L t2 ∗ outHeld (F := F) d L t3
            ∗ semVal (tile d L, SemLoc.dma gS0) 0 ∗ semVal (tile d L, SemLoc.dma gS1) 0
            ∗ semVal (tile d L, SemLoc.dma wS0) 0 ∗ semVal (tile d L, SemLoc.dma wS1) 0
            ∗ semVal (tile d L, SemLoc.dma pS) 0
            ∗ ∃ W', ⌜∀ p ∈ W', p ∈ W ∨ p.2 = none⌝ ∗ owes (tile d L) O W')) := by
  rw [cc0_gather_kernel_eq_skeleton]; unfold cc0_gather_kernel_skel
  iintro ⟨Hmw, Ht, Hi, ⟨%f5, H5⟩, H6, Hc0, Hc1, Ho0, Ho1, Ho2, Ho3, Hg0, Hg1, Hw0, Hw1, Hp, HO⟩
  sl_exec
  have h5 : InRange (F := F) d L (View.write (Elt F) (s0W).view f5 (tile_run0.sl.dma0 d L fi) Finset.univ) := by
    intro o h x
    rw [View.write_whole_univ, size_tbl]
    unfold tile_run0.sl.dma0
    simp only [View.read_apply]
    exact hfi _
  sl_for (invO d L O W q ft) $$ [Hmw Ht H5 H6 Hc0 Hc1 Ho0 Ho1 Ho2 Ho3 Hg0 Hg1 Hw0 Hw1 HO]
  case region =>
    intro k u
    obtain ⟨k, hk⟩ := k
    match k, hk with
    | k + 4, hk => exact absurd (Nat.lt_of_lt_of_le hk k0_t1_abs.2.1) (by omega)
    | 0, hk =>
      -- trip 0: slot 0 idle, nothing to wait for
      have k0_h1 : ¬ k0_cond1 t0 = 1#1 := by decide
      change inv0 d L O W q ft ⊢ wp frame (wpE (defs₀ (F := F)) 𝒱₀ (tile d L) none) Set.univ (tile_run0.sl.prog.body_1 L t0 u) (fun _ => inv1 d L O W q ft)
      unfold inv0 common slotFree outHeld crowsHeld
      iintro ⟨⟨Hmw, Ht, ⟨%g5, %hin, H5⟩, H6, Hg0, Hg1, %W', %hW', HO⟩, ⟨Hw0, Hc⟩, Hs1, ⟨%o0, Ho0⟩, Ho1, Ho2, Ho3⟩
      icases H6 with ⟨%r6, H6⟩
      icases Hc with ⟨%c0, Hc⟩
      have hinT : ∀ x, (((s0W).slice (Rect.unit (s := S512) ![0] S128.size inb_w0) (fun _ => rfl)).view.read (Elt F) g5 x).toNat
          < S1000x128.size gathers_S1000x128_S128x128.axis := hin ![0] inb_w0
      have hinK : ∀ x, ((offsAt t0).view.read (Elt F) g5 x).toNat < S1000x128.size gathers_S1000x128_S128x128.axis := hin _ _
      sl_exec
      sl_for (invC (F := F) d L t1) $$ [H6 Hc]
      case region =>
        intro j _
        unfold invC crowsHeld
        iintro ⟨⟨%r, H6⟩, ⟨%f, Hc⟩⟩
        sl_exec
        sl_step
        isplitl [H6]; · iexists _; iexact H6
        iexists _; iexact Hc
      · unfold invC crowsHeld
        isplitl [H6]; · iexists _; iexact H6
        iexists _; iexact Hc
      iintro %_ HI
      unfold invC crowsHeld
      icases HI with ⟨⟨%r, H6⟩, ⟨%f, Hc⟩⟩
      sl_exec
      sl_step
      iclear Hc
      unfold inv1 common slotBusy slotFree outHeld crowsHeld
      isplitl [Hmw Ht H5 H6 Hg0 Hg1 HO]
      · isplitl [Hmw]; · iexact Hmw
        isplitl [Ht]; · iexact Ht
        isplitl [H5]
        · iexists g5; isplitr
          · ipureintro; exact hin
          · iexact H5
        isplitl [H6]; · iexists _; iexact H6
        isplitl [Hg0]; · iexact Hg0
        isplitl [Hg1]; · iexact Hg1
        iexists (insert (SemLoc.dma gS0, (default : HIx 4)) W'); isplitr
        · ipureintro; intro p hp
          rcases Finset.mem_insert.mp hp with hp | hp
          · exact Or.inr (by subst hp; rfl)
          · exact hW' p hp
        · iexact HO
      isplitl [Hw0]; · iexists _, _; iexact Hw0
      isplitl [Hs1]; · iexact Hs1
      isplitl [Ho1]; · iexact Ho1
      isplitl [Ho2]; · iexact Ho2
      iexact Ho3
    | 1, hk =>
      -- trip 1: slot 1 idle, nothing to wait for
      have k0_h1 : ¬ k0_cond1 t1 = 1#1 := by decide
      change inv1 d L O W q ft ⊢ wp frame (wpE (defs₀ (F := F)) 𝒱₀ (tile d L) none) Set.univ (tile_run0.sl.prog.body_1 L t1 u) (fun _ => inv2 d L O W q ft)
      unfold inv1 common slotBusy slotFree outHeld crowsHeld
      iintro ⟨⟨Hmw, Ht, ⟨%g5, %hin, H5⟩, H6, Hg0, Hg1, %W', %hW', HO⟩, Hb0, ⟨Hw1, Hc⟩, ⟨%o1, Ho1⟩, Ho2, Ho3⟩
      icases H6 with ⟨%r6, H6⟩
      icases Hc with ⟨%c0, Hc⟩
      have hinT : ∀ x, (((s0W).slice (Rect.unit (s := S512) ![128] S128.size inb_w128) (fun _ => rfl)).view.read (Elt F) g5 x).toNat
          < S1000x128.size gathers_S1000x128_S128x128.axis := hin ![128] inb_w128
      have hinK : ∀ x, ((offsAt t1).view.read (Elt F) g5 x).toNat < S1000x128.size gathers_S1000x128_S128x128.axis := hin _ _
      sl_exec
      sl_for (invC (F := F) d L t0) $$ [H6 Hc]
      case region =>
        intro j _
        unfold invC crowsHeld
        iintro ⟨⟨%r, H6⟩, ⟨%f, Hc⟩⟩
        sl_exec
        sl_step
        isplitl [H6]; · iexists _; iexact H6
        iexists _; iexact Hc
      · unfold invC crowsHeld
        isplitl [H6]; · iexists _; iexact H6
        iexists _; iexact Hc
      iintro %_ HI
      unfold invC crowsHeld
      icases HI with ⟨⟨%r, H6⟩, ⟨%f, Hc⟩⟩
      sl_exec
      sl_step
      iclear Hc
      unfold inv2 common slotBusy outHeld
      isplitl [Hmw Ht H5 H6 Hg0 Hg1 HO]
      · isplitl [Hmw]; · iexact Hmw
        isplitl [Ht]; · iexact Ht
        isplitl [H5]
        · iexists g5; isplitr
          · ipureintro; exact hin
          · iexact H5
        isplitl [H6]; · iexists _; iexact H6
        isplitl [Hg0]; · iexact Hg0
        isplitl [Hg1]; · iexact Hg1
        iexists (insert (SemLoc.dma gS1, (default : HIx 4)) W'); isplitr
        · ipureintro; intro p hp
          rcases Finset.mem_insert.mp hp with hp | hp
          · exact Or.inr (by subst hp; rfl)
          · exact hW' p hp
        · iexact HO
      isplitl [Hb0]; · iexact Hb0
      isplitl [Hw1]; · iexists _, _; iexact Hw1
      isplitl [Ho2]; · iexact Ho2
      iexact Ho3
    | 2, hk =>
      -- trip 2: block 0's write-back is waited for, then slot 0 is reused
      have k0_h1 : k0_cond1 t2 = 1#1 := by decide
      change inv2 d L O W q ft ⊢ wp frame (wpE (defs₀ (F := F)) 𝒱₀ (tile d L) none) Set.univ (tile_run0.sl.prog.body_1 L t2 u) (fun _ => inv3 d L O W q ft)
      unfold inv2 common slotBusy outHeld
      iintro ⟨⟨Hmw, Ht, ⟨%g5, %hin, H5⟩, H6, Hg0, Hg1, %W', %hW', HO⟩, ⟨%fo0, %fc0, Hw0⟩, Hb1, ⟨%o2, Ho2⟩, Ho3⟩
      icases H6 with ⟨%r6, H6⟩
      have hinT : ∀ x, (((s0W).slice (Rect.unit (s := S512) ![256] S128.size inb_w256) (fun _ => rfl)).view.read (Elt F) g5 x).toNat
          < S1000x128.size gathers_S1000x128_S128x128.axis := hin ![256] inb_w256
      have hinK : ∀ x, ((offsAt t2).view.read (Elt F) g5 x).toNat < S1000x128.size gathers_S1000x128_S128x128.axis := hin _ _
      sl_exec
      ihave Hc := (Entails.of_eq (show ((s2W).view.loc (tile d L) ↦[(crowsAt t0).view.set]{fullShare} fc0 : sProp 𝕄)
          = ((s2W).view.loc (tile d L) ↦[Finset.univ \ (crowsAt t1).view.set]{fullShare} fc0) from by rw [crows_compl01])) $$ Hw0_src
      sl_for (invC (F := F) d L t1) $$ [H6 Hc]
      case region =>
        intro j _
        unfold invC crowsHeld
        iintro ⟨⟨%r, H6⟩, ⟨%f, Hc⟩⟩
        sl_exec
        sl_step
        isplitl [H6]; · iexists _; iexact H6
        iexists _; iexact Hc
      · unfold invC crowsHeld
        isplitl [H6]; · iexists _; iexact H6
        iexists _; iexact Hc
      iintro %_ HI
      unfold invC crowsHeld
      icases HI with ⟨⟨%r, H6⟩, ⟨%f, Hc⟩⟩
      sl_exec
      sl_step
      iclear Hc
      unfold inv3 common slotBusy outHeld
      isplitl [Hmw Ht H5 H6 Hg0 Hg1 HO]
      · isplitl [Hmw]; · iexact Hmw
        isplitl [Ht]; · iexact Ht
        isplitl [H5]
        · iexists g5; isplitr
          · ipureintro; exact hin
          · iexact H5
        isplitl [H6]; · iexists _; iexact H6
        isplitl [Hg0]; · iexact Hg0
        isplitl [Hg1]; · iexact Hg1
        iexists (insert (SemLoc.dma gS0, (default : HIx 4)) (insert (SemLoc.dma wS0, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hw0]; · iexists _, _; iexact Hw0
      isplitl [Hb1]; · iexact Hb1
      isplitl [Hw0_dst]; · iexists _; iexact Hw0_dst
      iexact Ho3
    | 3, hk =>
      -- trip 3: block 1's write-back is waited for, then slot 1 is reused
      have k0_h1 : k0_cond1 t3 = 1#1 := by decide
      change inv3 d L O W q ft ⊢ wp frame (wpE (defs₀ (F := F)) 𝒱₀ (tile d L) none) Set.univ (tile_run0.sl.prog.body_1 L t3 u) (fun _ => inv4 d L O W q ft)
      unfold inv3 common slotBusy outHeld
      iintro ⟨⟨Hmw, Ht, ⟨%g5, %hin, H5⟩, H6, Hg0, Hg1, %W', %hW', HO⟩, Hb0, ⟨%fo1, %fc1, Hw1⟩, Ho0, ⟨%o3, Ho3⟩⟩
      icases H6 with ⟨%r6, H6⟩
      have hinT : ∀ x, (((s0W).slice (Rect.unit (s := S512) ![384] S128.size inb_w384) (fun _ => rfl)).view.read (Elt F) g5 x).toNat
          < S1000x128.size gathers_S1000x128_S128x128.axis := hin ![384] inb_w384
      have hinK : ∀ x, ((offsAt t3).view.read (Elt F) g5 x).toNat < S1000x128.size gathers_S1000x128_S128x128.axis := hin _ _
      sl_exec
      ihave Hc := (Entails.of_eq (show ((s2W).view.loc (tile d L) ↦[(crowsAt t1).view.set]{fullShare} fc1 : sProp 𝕄)
          = ((s2W).view.loc (tile d L) ↦[Finset.univ \ (crowsAt t0).view.set]{fullShare} fc1) from by rw [crows_compl10])) $$ Hw1_src
      sl_for (invC (F := F) d L t0) $$ [H6 Hc]
      case region =>
        intro j _
        unfold invC crowsHeld
        iintro ⟨⟨%r, H6⟩, ⟨%f, Hc⟩⟩
        sl_exec
        sl_step
        isplitl [H6]; · iexists _; iexact H6
        iexists _; iexact Hc
      · unfold invC crowsHeld
        isplitl [H6]; · iexists _; iexact H6
        iexists _; iexact Hc
      iintro %_ HI
      unfold invC crowsHeld
      icases HI with ⟨⟨%r, H6⟩, ⟨%f, Hc⟩⟩
      sl_exec
      sl_step
      iclear Hc
      unfold inv4 common slotBusy outHeld
      isplitl [Hmw Ht H5 H6 Hg0 Hg1 HO]
      · isplitl [Hmw]; · iexact Hmw
        isplitl [Ht]; · iexact Ht
        isplitl [H5]
        · iexists g5; isplitr
          · ipureintro; exact hin
          · iexact H5
        isplitl [H6]; · iexists _; iexact H6
        isplitl [Hg0]; · iexact Hg0
        isplitl [Hg1]; · iexact Hg1
        iexists (insert (SemLoc.dma gS1, (default : HIx 4)) (insert (SemLoc.dma wS1, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hb0]; · iexact Hb0
      isplitl [Hw1]; · iexists _, _; iexact Hw1
      isplitl [Ho0]; · iexact Ho0
      iexists _; iexact Hw1_dst
  · -- before the first trip
    iapply (Entails.of_eq (show inv0 d L O W q ft = invO d L O W q ft 0 PUnit.unit from rfl))
    unfold inv0 common slotFree outHeld crowsHeld
    isplitl [Hmw Ht H5 H6 Hg0 Hg1 HO]
    · isplitl [Hmw]; · iexact Hmw
      isplitl [Ht]; · iexact Ht
      isplitl [H5]
      · iexists _; isplitr
        · ipureintro; exact h5
        · iexact H5
      isplitl [H6]; · iexact H6
      isplitl [Hg0]; · iexact Hg0
      isplitl [Hg1]; · iexact Hg1
      iexists (insert (SemLoc.dma pS, (default : HIx 4)) W); isplitr
      · ipureintro; intro p hp
        rcases Finset.mem_insert.mp hp with hp | hp
        · exact Or.inr (by subst hp; rfl)
        · exact Or.inl hp
      · iexact HO
    isplitl [Hw0 Hc0]; · isplitl [Hw0]; · iexact Hw0
                         iexact Hc0
    isplitl [Hw1 Hc1]; · isplitl [Hw1]; · iexact Hw1
                         iexact Hc1
    isplitl [Ho0]; · iexact Ho0
    isplitl [Ho1]; · iexact Ho1
    isplitl [Ho2]; · iexact Ho2
    iexact Ho3
  -- after the loop: the last two write-backs
  iintro %acc HI
  ihave HI' := (Entails.of_eq (show invO d L O W q ft (Scf.trips k0_t1_loop.lb k0_t1_loop.ub k0_t1_loop.st) acc = inv4 d L O W q ft from rfl)) $$ HI
  unfold inv4 common slotBusy outHeld
  icases HI' with ⟨⟨Hmw, Ht, ⟨%g5, %hin, H5⟩, H6, Hg0, Hg1, %W', %hW', HO⟩, ⟨%fo2, %fc2, Hw0⟩, ⟨%fo3, %fc3, Hw1⟩, Ho0, Ho1⟩
  sl_exec
  sl_step
  isplitl [Ht]; · iexact Ht
  isplitl [Hi]; · iexact Hi
  isplitl [H5]; · iexists _; iexact H5
  isplitl [H6]; · iexact H6
  isplitl [Hw0_src]; · iexists _; iexact Hw0_src
  isplitl [Hw1_src]; · iexists _; iexact Hw1_src
  isplitl [Ho0]; · iexact Ho0
  isplitl [Ho1]; · iexact Ho1
  isplitl [Hw0_dst]; · iexists _; iexact Hw0_dst
  isplitl [Hw1_dst]; · iexists _; iexact Hw1_dst
  isplitl [Hg0]; · iexact Hg0
  isplitl [Hg1]; · iexact Hg1
  isplitl [Hw0]; · iexact Hw0
  isplitl [Hw1]; · iexact Hw1
  isplitl [Hp]; · iexact Hp
  iexists (insert (SemLoc.dma wS1, (default : HIx 4)) (insert (SemLoc.dma wS0, (default : HIx 4)) W')); isplitr
  · ipureintro; intro p hp
    rcases Finset.mem_insert.mp hp with hp | hp
    · exact Or.inr (by subst hp; rfl)
    rcases Finset.mem_insert.mp hp with hp | hp
    · exact Or.inr (by subst hp; rfl)
    · exact hW' p hp
  · iexact HO

end Cert.Kernel.Hand

end
-- ==== Proof.Kernel.TileObl0.lean ====
/-
  The first gather call's task as the launch theorem wants it: from what a vector subcore is handed at the call — its
  share of the table, its slice of the token words, its blocks of the result — and its own scratch buffers and
  semaphores, to the same handed back. The subcore's scratch and semaphores are picked out of everything it owns, the
  two-slot compact-rows scratch is cut into its halves for the run and glued back afterwards, and the run itself is
  `tile_run0`.
-/
import proofs.«203661_g84404697301628_cont_9to1_m_135_26_alg».proof.Proof.Kernel.TileRun0
import proofs.«203661_g84404697301628_cont_9to1_m_135_26_alg».proof.Proof.Kernel.Pay
import Idealize.ShloMosaic.Lib.SparseCore.Ops

noncomputable section

namespace Cert.Kernel.Hand

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [hK : Cert.Kernel.Facts] [FloatOps F]

local notation "𝕄" => MT nD τ sig (HIx 4) (Elt F) ℕ UU ℕ

local notation "tblW" => (Memref.whole Cert.Kernel.main_v0_scv : Memref Cert.Kernel.sig Kind.scVector Space.hbm Cert.Kernel.S1000x128 EltTy.f32)
local notation "idxW" => (Memref.whole Cert.Kernel.main_v5_scv : Memref Cert.Kernel.sig Kind.scVector Space.hbm Cert.Kernel.S16384 EltTy.i32)
local notation "outW" => (Memref.whole Cert.Kernel.main_v6_scv : Memref Cert.Kernel.sig Kind.scVector Space.hbm Cert.Kernel.S1x16384x32 EltTy.f32)
local notation "s0W" => (Memref.whole Cert.Kernel.cc0_scratch0 : Memref Cert.Kernel.sig Kind.scVector Space.vmem Cert.Kernel.S512 EltTy.i32)
local notation "s1W" => (Memref.whole Cert.Kernel.cc0_scratch1 : Memref Cert.Kernel.sig Kind.scVector Space.vmem Cert.Kernel.S2x128x128 EltTy.f32)
local notation "s2W" => (Memref.whole Cert.Kernel.cc0_scratch2 : Memref Cert.Kernel.sig Kind.scVector Space.vmem Cert.Kernel.S2x128x32 EltTy.f32)
local notation "gS0" => (⟨0, by decide⟩ : DmaSem Cert.Kernel.sig)
local notation "gS1" => (⟨1, by decide⟩ : DmaSem Cert.Kernel.sig)
local notation "wS0" => (⟨2, by decide⟩ : DmaSem Cert.Kernel.sig)
local notation "wS1" => (⟨3, by decide⟩ : DmaSem Cert.Kernel.sig)
local notation "pS" => (⟨4, by decide⟩ : DmaSem Cert.Kernel.sig)

/-- the first call's token words, as the TensorCore names them -/
abbrev idxLoc0 (d : Dev nD) : Loc nD τ sig := (SparseCore.T d).loc main_v5

/-- the grid point of subcore `i` of SparseCore `c` -/
def coords0 (c : Fin 2) (i : Fin 16) : grid0.Coords :=
  fun | 0 => c | 1 => i | ⟨_ + 2, h⟩ => absurd h (Nat.not_lt.2 (Nat.le_add_left _ _))

/-- what subcore `(c, i)` is handed for the first call besides the table: its slice of the token words, at the words
    `wd`, and its four blocks of the result, at some contents -/
def Rs0 (wd : (d : Dev nD) → Buf (Elt F) (idxLoc0 d)) (d : Dev nD) (c : Fin 2) (i : Fin 16) : sProp 𝕄 :=
  iprop(((idxSl (coords0 c i)).view.loc (tile d (coords0 c i)) ↦[(idxSl (coords0 c i)).view.set]{fullShare} wd d)
    ∗ outHeld (F := F) d (coords0 c i) t0 ∗ outHeld (F := F) d (coords0 c i) t1
    ∗ outHeld (F := F) d (coords0 c i) t2 ∗ outHeld (F := F) d (coords0 c i) t3)

section Tile

variable (d : Dev nD) (L : grid0.Coords)

omit [FloatOps F] in
theorem mem_own (k : DmaSem sig) (hk : (SemLoc.dma k : SemLoc sig).isScoped .scVector = true) :
    ((tile d L, SemLoc.dma k) : GSem nD τ sig) ∈ ownCells (sig := sig) (tile d L) :=
  (mem_ownCells (g := (tile d L, SemLoc.dma k))).mpr ⟨rfl, hk⟩
omit [FloatOps F] in
theorem ne_cell {k k' : DmaSem sig} (h : k ≠ k') : ((tile d L, SemLoc.dma k) : GSem nD τ sig) ≠ (tile d L, SemLoc.dma k') :=
  fun e => h (SemLoc.dma.inj (Prod.mk.inj e).2)

omit [FloatOps F] in
/-- the five semaphores this call uses are among the subcore's own: they, and the rest -/
theorem ownSems0_V0 :
    (ownSems0 (tile d L) : sProp 𝕄)
      = iprop(semVal (tile d L, SemLoc.dma gS0) 0 ∗ semVal (tile d L, SemLoc.dma gS1) 0 ∗ semVal (tile d L, SemLoc.dma wS0) 0
          ∗ semVal (tile d L, SemLoc.dma wS1) 0 ∗ semVal (tile d L, SemLoc.dma pS) 0
          ∗ bigSep ((((((ownCells (tile d L)).erase (tile d L, SemLoc.dma gS0)).erase (tile d L, SemLoc.dma gS1)).erase (tile d L, SemLoc.dma wS0)).erase
              (tile d L, SemLoc.dma wS1)).erase (tile d L, SemLoc.dma pS)) fun g => semVal g 0) := by
  unfold SparseCore.Cfg.ownSems0
  rw [SparseCore.bigSep_erase' (mem_own d L gS0 (by decide)),
    SparseCore.bigSep_erase' (Finset.mem_erase.mpr ⟨ne_cell d L (k := gS1) (k' := gS0) (by decide), mem_own d L gS1 (by decide)⟩),
    SparseCore.bigSep_erase' (Finset.mem_erase.mpr ⟨ne_cell d L (k := wS0) (k' := gS1) (by decide), Finset.mem_erase.mpr ⟨ne_cell d L (k := wS0) (k' := gS0) (by decide), mem_own d L wS0 (by decide)⟩⟩),
    SparseCore.bigSep_erase' (Finset.mem_erase.mpr ⟨ne_cell d L (k := wS1) (k' := wS0) (by decide), Finset.mem_erase.mpr ⟨ne_cell d L (k := wS1) (k' := gS1) (by decide), Finset.mem_erase.mpr ⟨ne_cell d L (k := wS1) (k' := gS0) (by decide), mem_own d L wS1 (by decide)⟩⟩⟩),
    SparseCore.bigSep_erase' (Finset.mem_erase.mpr ⟨ne_cell d L (k := pS) (k' := wS1) (by decide), Finset.mem_erase.mpr ⟨ne_cell d L (k := pS) (k' := wS0) (by decide), Finset.mem_erase.mpr ⟨ne_cell d L (k := pS) (k' := gS1) (by decide), Finset.mem_erase.mpr ⟨ne_cell d L (k := pS) (k' := gS0) (by decide), mem_own d L pS (by decide)⟩⟩⟩⟩)]

omit [FloatOps F] in
/-- the three scratch buffers are among the subcore's own: they, at some contents, and the rest -/
theorem ownBufs_V0 :
    (ownBufs (tile d L) : sProp 𝕄)
      = iprop((∃ f, (tile d L).loc cc0_scratch0 ↦{fullShare} f) ∗ (∃ f, (tile d L).loc cc0_scratch1 ↦{fullShare} f)
          ∗ (∃ f, (tile d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

omit [FloatOps F] in
/-- the compact-rows scratch, held whole, is its two halves (each as "all but the other") -/
theorem crows_split (f : Buf (Elt F) ((s2W).view.loc (tile d L))) :
    ((s2W).view.loc (tile d L) ↦[Finset.univ]{fullShare} f : sProp 𝕄)
      ⊢ iprop(((s2W).view.loc (tile d L) ↦[Finset.univ \ (crowsAt t1).view.set]{fullShare} f)
          ∗ ((s2W).view.loc (tile d L) ↦[Finset.univ \ (crowsAt t0).view.set]{fullShare} f)) := by
  have h : ((s2W).view.loc (tile d L) ↦[Finset.univ]{fullShare} f : sProp 𝕄)
      ⊢ iprop(((s2W).view.loc (tile d L) ↦[Finset.univ \ (crowsAt t1).view.set]{fullShare} f)
          ∗ ((s2W).view.loc (tile d L) ↦[Finset.univ \ (Finset.univ \ (crowsAt t1).view.set)]{fullShare} f)) :=
    (pointsTo_split_subset (Finset.subset_univ (Finset.univ \ (crowsAt t1).view.set))).1
  have e : Finset.univ \ (Finset.univ \ (crowsAt t1).view.set) = Finset.univ \ (crowsAt t0).view.set := by rw [crows_compl01]
  rw [e] at h
  exact h

omit [FloatOps F] in
theorem crows_set_20 : (crowsAt t2).view.set = (crowsAt t0).view.set :=
  Finset.ext fun x => by rw [mem_crowsAt, mem_crowsAt, show k0_off12 t2 = k0_off12 t0 from by decide]
omit [FloatOps F] in
theorem crows_set_31 : (crowsAt t3).view.set = (crowsAt t1).view.set :=
  Finset.ext fun x => by rw [mem_crowsAt, mem_crowsAt, show k0_off12 t3 = k0_off12 t1 from by decide]

omit [FloatOps F] in
/-- and the two halves, at whatever each holds, are the scratch whole again -/
theorem crows_join (f g : Buf (Elt F) ((s2W).view.loc (tile d L))) :
    iprop(((s2W).view.loc (tile d L) ↦[(crowsAt t2).view.set]{fullShare} f) ∗ ((s2W).view.loc (tile d L) ↦[(crowsAt t3).view.set]{fullShare} g))
      ⊢ (iprop(∃ h, (s2W).view.loc (tile d L) ↦[Finset.univ]{fullShare} h) : sProp 𝕄) := by
  rw [crows_set_20, crows_set_31]
  have hd : Disjoint (crowsAt t0).view.set (crowsAt t1).view.set := by
    rw [← crows_compl01]; exact Finset.sdiff_disjoint
  have hu : (crowsAt t0).view.set ∪ (crowsAt t1).view.set = Finset.univ := by
    rw [← crows_compl01]; exact Finset.sdiff_union_of_subset (Finset.subset_univ _)
  refine (pointsTo_join hd).trans ?_
  rw [hu]
  iintro H; iexists _; iexact H

/-- The task on one vector subcore, in the launch theorem's resources: the table's share, the subcore's words and blocks,
    and its own scoped storage in; the same out. -/
theorem tile_body0 (hF : (K (F := F)).Facts) (tb : (d : Dev nD) → Buf (Elt F) (tblLoc d)) (wd : (d : Dev nD) → Buf (Elt F) (idxLoc0 d))
    (hwd : ∀ d y, (wd d y).toNat < 1000) (q : PosShare TreeShare)
    (lv : GSem nD τ sig → HIx 4 → ℕ) (hlv : (K (F := F)).Refines lv)
    (O : CellTallies nD τ sig (HIx 4)) (W : Waits sig (HIx 4)) (hO : ∀ g, O g none = 0) :
    iprop(levAts (K (F := F)).L lv ∗ emp
        ∗ ((tblLoc d ↦{q} tb d)
            ∗ ((idxSl L).view.loc (tile d L) ↦[(idxSl L).view.set]{fullShare} wd d)
            ∗ outHeld (F := F) d L t0 ∗ outHeld (F := F) d L t1 ∗ outHeld (F := F) d L t2 ∗ outHeld (F := F) d L t3)
        ∗ scopedBufs (tile d L) ∗ scopedSems0 (tile d L) ∗ owes (tile d L) O W)
      ⊢ wp frame (wpE (defs₀ (F := F)) 𝒱₀ (tile d L) none) Set.univ
          (cc0_gather_kernel L tblW (Memref.isWhole_whole _) idxW (Memref.isWhole_whole _) outW (Memref.isWhole_whole _)
            s0W (Memref.isWhole_whole _) s1W (Memref.isWhole_whole _) s2W (Memref.isWhole_whole _) cc0_scratch3 cc0_scratch4 cc0_scoped0)
          fun _ => iprop(((tblLoc d ↦{q} tb d)
            ∗ ((idxSl L).view.loc (tile d L) ↦[(idxSl L).view.set]{fullShare} wd d)
            ∗ outHeld (F := F) d L t0 ∗ outHeld (F := F) d L t1 ∗ outHeld (F := F) d L t2 ∗ outHeld (F := F) d L t3)
            ∗ scopedBufs (tile d L) ∗ scopedSems0 (tile d L)
            ∗ ∃ W', ⌜∀ p ∈ W', p ∈ W ∨ p.2 = none⌝ ∗ owes (tile d L) O W') := by
  rw [(K (F := F)).scopedBufs_V hF d (cV L) (jV L), SparseCore.Cfg.scopedSems0_V (Val := Elt F) d (cV L) (jV L), ownSems0_V0, ownBufs_V0]
  iintro ⟨#Hlv, -, ⟨Ht, Hi, Ho0, Ho1, Ho2, Ho3⟩, ⟨H5, H6, ⟨%f7, H7⟩, Hbufs⟩, ⟨Hg0, Hg1, Hw0, Hw1, Hp, Hsems⟩, HO⟩
  ihave Hmw := ((K (F := F)).mayWaits_none (thr := tile d L) hO lv hlv) $$ Hlv
  ihave Hc := (crows_split (F := F) d L f7) $$ H7
  icases Hc with ⟨Hc1, Hc0⟩
  iapply (wp_wand_r frame (wpE (defs₀ (F := F)) 𝒱₀ (tile d L) none) Set.univ)
  isplitl [Hmw Ht Hi H5 H6 Hc0 Hc1 Ho0 Ho1 Ho2 Ho3 Hg0 Hg1 Hw0 Hw1 Hp HO]
  · iapply (tile_run0 (F := F) d L O W q (tb d) (wd d) (hwd d))
    isplitl [Hmw]; · iexact Hmw
    isplitl [Ht]; · iexact Ht
    isplitl [Hi]; · iexact Hi
    isplitl [H5]; · iexact H5
    isplitl [H6]; · iexact H6
    isplitl [Hc1]; · unfold crowsHeld; iexists _; iexact Hc1
    isplitl [Hc0]; · unfold crowsHeld; iexists _; iexact Hc0
    isplitl [Ho0]; · iexact Ho0
    isplitl [Ho1]; · iexact Ho1
    isplitl [Ho2]; · iexact Ho2
    isplitl [Ho3]; · iexact Ho3
    isplitl [Hg0]; · iexact Hg0
    isplitl [Hg1]; · iexact Hg1
    isplitl [Hw0]; · iexact Hw0
    isplitl [Hw1]; · iexact Hw1
    isplitl [Hp]; · iexact Hp
    iexact HO
  · iintro %a ⟨Ht, Hi, H5, H6, ⟨%c2, Hc2⟩, ⟨%c3, Hc3⟩, Ho0, Ho1, Ho2, Ho3, Hg0, Hg1, Hw0, Hw1, Hp, HO⟩
    ihave H7 := (crows_join (F := F) d L c2 c3) $$ [Hc2 Hc3]
    · isplitl [Hc2]; · iexact Hc2
      iexact Hc3
    isplitl [Ht Hi Ho0 Ho1 Ho2 Ho3]
    · isplitl [Ht]; · iexact Ht
      isplitl [Hi]; · iexact Hi
      isplitl [Ho0]; · iexact Ho0
      isplitl [Ho1]; · iexact Ho1
      isplitl [Ho2]; · iexact Ho2
      iexact Ho3
    isplitl [H5 H6 H7 Hbufs]
    · isplitl [H5]; · iexact H5
      isplitl [H6]; · iexact H6
      isplitl [H7]; · iexact H7
      iexact Hbufs
    isplitl [Hg0 Hg1 Hw0 Hw1 Hp Hsems]
    · isplitl [Hg0]; · iexact Hg0
      isplitl [Hg1]; · iexact Hg1
      isplitl [Hw0]; · iexact Hw0
      isplitl [Hw1]; · iexact Hw1
      isplitl [Hp]; · iexact Hp
      iexact Hsems
    iexact HO

end Tile

/-! ## The launch theorem's obligation for the first call -/

omit [FloatOps F] in
theorem defs₀_vector0 [FloatOps F] (c : Fin τ.nSC) (s : Fin τ.nSub) :
    defs₀ (F := F) (.scVector c s) 0 ()
      = SparseCore.onTile hcore0 hsub0 (fun c s => cc0_gather_kernel (coords0 c s) tblW (Memref.isWhole_whole _) idxW (Memref.isWhole_whole _)
          outW (Memref.isWhole_whole _) s0W (Memref.isWhole_whole _) s1W (Memref.isWhole_whole _) s2W (Memref.isWhole_whole _)
          cc0_scratch3 cc0_scratch4 cc0_scoped0) ⟨⟩ c s := rfl

omit [FloatOps F] in
theorem obl_post {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The first call's task obligation, for any family of subcore resources whose first-call member is `Rs0` at token
    words that all name table rows. -/
theorem tileObl0 (hF : (K (F := F)).Facts) (tb : (d : Dev nD) → Buf (Elt F) (tblLoc d)) (Rs : Fin 4 → Dev nD → Fin 2 → Fin 16 → sProp 𝕄)
    (wd : (d : Dev nD) → Buf (Elt F) (idxLoc0 d)) (hwd : ∀ d y, (wd d y).toNat < 1000)
    (hRs : ∀ d c i, Rs 0 d c i = Rs0 wd d c i)
    (lv : GSem nD τ sig → HIx 4 → ℕ) (hlv : (K (F := F)).Refines lv) :
    (K (F := F)).TileObl (D (F := F)) 𝒱 (P tb Rs) v₀ 0 lv := by
  intro d c i O W hO _ _
  simp only [show (P (F := F) tb Rs).ox = fun _ _ => 0 from rfl, add_zero]
  change iprop(levAts _ lv ∗ emp ∗ ((tblLoc d ↦{tileShare (Fin.cast (nCore_eq 0) c) (Fin.cast (nSub_eq 0) i)} tb d)
        ∗ Rs 0 d (Fin.cast (nCore_eq 0) c) (Fin.cast (nSub_eq 0) i)) ∗ _ ∗ _ ∗ _)
    ⊢ wp _ _ _ (Pipeline.liftProg (defs₀ (F := F) (.scVector ((K (F := F)).core 0 c) ((K (F := F)).sub 0 i)) 0 ()))
        (fun _ => iprop(((tblLoc d ↦{tileShare (Fin.cast (nCore_eq 0) c) (Fin.cast (nSub_eq 0) i)} tb d)
          ∗ Rs 0 d (Fin.cast (nCore_eq 0) c) (Fin.cast (nSub_eq 0) i)) ∗ _ ∗ _ ∗ _))
  rw [hRs]
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector0]; simp only [SparseCore.onTile, hc, and_self, ↓reduceDIte]
  unfold Rs0
  exact (tile_body0 (F := F) d (coords0 ⟨_, hc.1⟩ ⟨_, hc.2⟩) hF tb wd hwd _ lv hlv O W hO).trans (wp_mono frame _ _ fun _ => obl_post)

end Cert.Kernel.Hand

end
-- ==== Proof.Kernel.TileRun1.lean ====
/-
  One vector subcore's task in the second embedding-gather call, run to its end.

  The subcore at grid point (core, subcore) is worker `2·subcore + core`. It copies its 512 token words from the
  token list into a scratch, and then, four times: gathers the 128 table rows those words name into one half of a
  two-slot scratch (an indexed copy, legal because every word names a row of the 1000-row table), copies the first 32
  of each row's 128 columns into the matching half of a second two-slot scratch, and starts the copy of that half out
  to its 128 rows of the result. A slot's copy-out is waited for two trips later, just before the slot is written
  again, and the last two after the loop; so between its start and its wait nothing touches the copy's source or
  destination. Each copy is on a semaphore of the subcore's own with one copy in flight at a time.

  The loop's invariant says, before each of the four trips, which slot's copy-out is in flight and for which block of
  the result; a flying copy holds that block and the slot's half of the scratch until its wait returns them. The two
  halves of the scratch partition it (`crows_compl01`), which is what lets a half be held as "everything but the other
  half" while the other half is away; a trip's half is the first for an even trip and the second for an odd one
  (`crows_even`, `crows_odd`).
-/
import proofs.«203661_g84404697301628_cont_9to1_m_135_26_alg».proof.Proof.Kernel.KCommon

noncomputable section

namespace Cert.Kernel.Hand.C1

open Cert.Kernel Cert.Kernel.Gen Cert.Kernel.Hand
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [hK : Cert.Kernel.Facts] [FloatOps F]

local notation "𝕄" => MT nD τ sig (HIx 4) (Elt F) ℕ UU ℕ

local notation "tblW" => (Memref.whole Cert.Kernel.main_v0_scv : Memref Cert.Kernel.sig Kind.scVector Space.hbm Cert.Kernel.S1000x128 EltTy.f32)
local notation "idxW" => (Memref.whole Cert.Kernel.main_v7_scv : Memref Cert.Kernel.sig Kind.scVector Space.hbm Cert.Kernel.S16384 EltTy.i32)
local notation "outW" => (Memref.whole Cert.Kernel.main_v8_scv : Memref Cert.Kernel.sig Kind.scVector Space.hbm Cert.Kernel.S1x16384x32 EltTy.f32)
local notation "s0W" => (Memref.whole Cert.Kernel.cc1_scratch0 : Memref Cert.Kernel.sig Kind.scVector Space.vmem Cert.Kernel.S512 EltTy.i32)
local notation "s1W" => (Memref.whole Cert.Kernel.cc1_scratch1 : Memref Cert.Kernel.sig Kind.scVector Space.vmem Cert.Kernel.S2x128x128 EltTy.f32)
local notation "s2W" => (Memref.whole Cert.Kernel.cc1_scratch2 : Memref Cert.Kernel.sig Kind.scVector Space.vmem Cert.Kernel.S2x128x32 EltTy.f32)

variable (d : Dev nD) (L : grid1.Coords)

abbrev cV (L : grid1.Coords) : Fin τ.nSC := (L 0).castLE hcore1
abbrev jV (L : grid1.Coords) : Fin τ.nSub := (L 1).castLE hsub1
/-- the vector subcore at grid point `L` -/
abbrev tile : Thread nD τ := V d (cV L) (jV L)

/-- the part of the token list this subcore fetches -/
abbrev idxSl (L : grid1.Coords) : Memref sig .scVector .hbm S512 .i32 := (idxW).slice (Rect.unit (s := S16384) (k1_off1 L) S512.size (k1_off1_inb L)) (fun _ => rfl)
/-- trip `t`'s 128 words of the fetched list -/
abbrev offsAt (t : Fin k1_t1_loop.trips) : Memref sig .scVector .vmem S128 .i32 :=
  (s0W).slice (Rect.unit (s := S512) (k1_off6 t) S128.size (k1_off6_inb t)) (fun _ => rfl)
/-- the 128 rows of the result trip `t` writes -/
abbrev outAt (L : grid1.Coords) (t : Fin k1_t1_loop.trips) : Memref sig .scVector .hbm S128x32 .f32 :=
  ((outW).slice (Rect.unit (s := S1x16384x32) (k1_off13 L t) S1x128x32.size (k1_off13_inb L t)) (fun _ => rfl)).squeeze S128x32 squeezes_S1x128x32_S128x32
/-- the half of the compact-rows scratch trip `t` fills and copies out -/
abbrev crowsAt (t : Fin k1_t1_loop.trips) : Memref sig .scVector .vmem S128x32 .f32 :=
  ((s2W).slice (Rect.unit (s := S2x128x32) (k1_off12 t) S1x128x32.size (k1_off12_inb t)) (fun _ => rfl)).squeeze S128x32 squeezes_S1x128x32_S128x32

def t0 : Fin k1_t1_loop.trips := ⟨0, by decide⟩
def t1 : Fin k1_t1_loop.trips := ⟨1, by decide⟩
def t2 : Fin k1_t1_loop.trips := ⟨2, by decide⟩
def t3 : Fin k1_t1_loop.trips := ⟨3, by decide⟩

/-- the two gather semaphores and the two write-back semaphores, by slot; the prologue's copy semaphore -/
local notation "gS0" => (⟨5, by decide⟩ : DmaSem Cert.Kernel.sig)
local notation "gS1" => (⟨6, by decide⟩ : DmaSem Cert.Kernel.sig)
local notation "wS0" => (⟨7, by decide⟩ : DmaSem Cert.Kernel.sig)
local notation "wS1" => (⟨8, by decide⟩ : DmaSem Cert.Kernel.sig)
local notation "pS" => (⟨9, by decide⟩ : DmaSem Cert.Kernel.sig)

/-- every word of the fetched list names a row of the table -/
def InRange (g5 : Buf (Elt F) ((s0W).view.loc (tile d L))) : Prop :=
  ∀ (o : Fin 1 → Nat) (h : ∀ a, o a + S128.size a ≤ S512.size a) (x : S128.Idx),
    (((s0W).slice (Rect.unit (s := S512) o S128.size h) (fun _ => rfl)).view.read (Elt F) g5 x).toNat < S1000x128.size gathers_S1000x128_S128x128.axis

/-- a block of the result, at some contents -/
def outHeld (t : Fin k1_t1_loop.trips) : sProp 𝕄 :=
  iprop(∃ f, (outAt L t).view.loc (tile d L) ↦[(outAt L t).view.set]{fullShare} f)
/-- a half of the compact-rows scratch (the one trip `t` uses), at some contents -/
def crowsHeld (t : Fin k1_t1_loop.trips) : sProp 𝕄 :=
  iprop(∃ f, (s2W).view.loc (tile d L) ↦[Finset.univ \ (crowsAt t).view.set]{fullShare} f)
/-- slot `s` idle: its write-back semaphore at zero and its half of the scratch in hand -/
def slotFree (w : DmaSem sig) (t : Fin k1_t1_loop.trips) : sProp 𝕄 :=
  iprop(semVal (tile d L, SemLoc.dma w) 0 ∗ crowsHeld (F := F) d L t)
/-- slot `s` busy: trip `t`'s write-back in flight, carrying its block of the result and its half of the scratch -/
def slotBusy (w : DmaSem sig) (t : Fin k1_t1_loop.trips) : sProp 𝕄 :=
  iprop(∃ fo f, Transfers.Flight (countersEmb (U := UU)) (tile d L) (SemLoc.dma w) (default : HIx 4) 131072
    iprop(((outAt L t).view.loc (tile d L) ↦[(outAt L t).view.set]{fullShare} fo)
      ∗ ((s2W).view.loc (tile d L) ↦[(crowsAt t).view.set]{fullShare} f)))

/-- what every trip keeps: the wait evidence, the table's share, the fetched list (in range), the gathered-rows scratch,
    both gather semaphores at zero, and what the subcore owes with the waits recorded so far -/
def common (O : CellTallies nD τ sig (HIx 4)) (W : Waits sig (HIx 4)) (q : PosShare TreeShare)
    (ft : Buf (Elt F) ((tblW).view.loc (tile d L))) : sProp 𝕄 :=
  iprop(Transfers.MayWaits (tile d L) (none : HIx 4) O
    ∗ ((tblW).view.loc (tile d L) ↦{q} ft)
    ∗ (∃ g5, ⌜InRange (F := F) d L g5⌝ ∗ (s0W).view.loc (tile d L) ↦{fullShare} g5)
    ∗ (∃ r, (s1W).view.loc (tile d L) ↦{fullShare} r)
    ∗ semVal (tile d L, SemLoc.dma gS0) 0 ∗ semVal (tile d L, SemLoc.dma gS1) 0
    ∗ ∃ W', ⌜∀ p ∈ W', p ∈ W ∨ p.2 = none⌝ ∗ owes (tile d L) O W')

section Inv
variable (O : CellTallies nD τ sig (HIx 4)) (W : Waits sig (HIx 4)) (q : PosShare TreeShare) (ft : Buf (Elt F) ((tblW).view.loc (tile d L)))
/-- before trip 0: both slots idle, every block in hand -/
def inv0 : sProp 𝕄 := iprop(common d L O W q ft ∗ slotFree d L wS0 t1 ∗ slotFree d L wS1 t0 ∗ outHeld d L t0 ∗ outHeld d L t1 ∗ outHeld d L t2 ∗ outHeld d L t3)
/-- before trip 1: block 0 flying, every other block in hand -/
def inv1 : sProp 𝕄 := iprop(common d L O W q ft ∗ slotBusy d L wS0 t0 ∗ slotFree d L wS1 t0 ∗ outHeld d L t1 ∗ outHeld d L t2 ∗ outHeld d L t3)
/-- before trip 2: blocks 0 and 1 flying, every other block in hand -/
def inv2 : sProp 𝕄 := iprop(common d L O W q ft ∗ slotBusy d L wS0 t0 ∗ slotBusy d L wS1 t1 ∗ outHeld d L t2 ∗ outHeld d L t3)
/-- before trip 3: blocks 1 and 2 flying, every other block in hand -/
def inv3 : sProp 𝕄 := iprop(common d L O W q ft ∗ slotBusy d L wS0 t2 ∗ slotBusy d L wS1 t1 ∗ outHeld d L t0 ∗ outHeld d L t3)
/-- after trip 3: blocks 2 and 3 flying, every other block in hand -/
def inv4 : sProp 𝕄 := iprop(common d L O W q ft ∗ slotBusy d L wS0 t2 ∗ slotBusy d L wS1 t3 ∗ outHeld d L t0 ∗ outHeld d L t1)
/-- the outer loop's invariant before trip `k` -/
def invO (k : Nat) (_ : PUnit) : sProp 𝕄 :=
  match k with
  | 0 => inv0 d L O W q ft
  | 1 => inv1 d L O W q ft
  | 2 => inv2 d L O W q ft
  | 3 => inv3 d L O W q ft
  | _ => inv4 d L O W q ft
end Inv

/-- the compaction loop's invariant, contents untracked: the gathered rows and trip `t`'s half of the compact rows in hand -/
def invC (t : Fin k1_t1_loop.trips) (_ : Nat) (_ : PUnit) : sProp 𝕄 :=
  iprop((∃ r, (s1W).view.loc (tile d L) ↦{fullShare} r) ∗ crowsHeld (F := F) d L t)

/-- an element lies in trip `t`'s half of the compact-rows scratch exactly when each coordinate lies in the half's box -/
theorem mem_crowsAt (t : Fin k1_t1_loop.trips) (x : S2x128x32.Idx) :
    x ∈ (crowsAt t).view.set ↔ ∀ a, k1_off12 t a ≤ x a ∧ (x a : Nat) < k1_off12 t a + S1x128x32.size a := by
  have hs : ((crowsAt t).view.set : Finset S2x128x32.Idx)
      = (Rect.unit (s := S2x128x32) (k1_off12 t) S1x128x32.size (k1_off12_inb t)).set := by
    show (((View.whole cc1_scratch2).slice (Rect.unit (s := S2x128x32) (k1_off12 t) S1x128x32.size (k1_off12_inb t))).reshape S128x32 _).set = _
    rw [View.set_reshape, View.set_slice_whole]
  constructor
  · intro h; exact Rect.mem_set_unit.mp (hs ▸ h)
  · intro h; exact hs ▸ Rect.mem_set_unit.mpr h

/-- the two halves partition the scratch: what is not in the second half is the first half -/
theorem crows_compl01 : Finset.univ \ (crowsAt t1).view.set = (crowsAt t0).view.set := by
  ext x
  rw [Finset.mem_sdiff, mem_crowsAt, mem_crowsAt]
  simp only [Finset.mem_univ, true_and]
  have e0 : k1_off12 t0 = ![0, 0, 0] := by decide
  have e1 : k1_off12 t1 = ![1, 0, 0] := by decide
  rw [e0, e1]
  have h0 : (x 0 : Nat) < 2 := (x 0).isLt
  have h1 : (x 1 : Nat) < 128 := (x 1).isLt
  have h2 : (x 2 : Nat) < 32 := (x 2).isLt
  constructor
  · intro h a
    have hx0 : (x 0 : Nat) = 0 := by
      by_contra hne
      exact h (fun b => by
        match b with
        | ⟨0, _⟩ => exact ⟨by show 1 ≤ (x 0 : Nat); omega, by show (x 0 : Nat) < 1 + 1; omega⟩
        | ⟨1, _⟩ => exact ⟨Nat.zero_le _, by show (x 1 : Nat) < 0 + 128; omega⟩
        | ⟨2, _⟩ => exact ⟨Nat.zero_le _, by show (x 2 : Nat) < 0 + 32; omega⟩)
    match a with
    | ⟨0, _⟩ => exact ⟨Nat.zero_le _, by show (x 0 : Nat) < 0 + 1; omega⟩
    | ⟨1, _⟩ => exact ⟨Nat.zero_le _, by show (x 1 : Nat) < 0 + 128; omega⟩
    | ⟨2, _⟩ => exact ⟨Nat.zero_le _, by show (x 2 : Nat) < 0 + 32; omega⟩
  · intro h hc
    have a0 : (x 0 : Nat) < 0 + 1 := (h 0).2
    have b0 : 1 ≤ (x 0 : Nat) := (hc 0).1
    omega

/-- and what is not in the first half is the second -/
theorem crows_compl10 : Finset.univ \ (crowsAt t0).view.set = (crowsAt t1).view.set := by
  rw [← crows_compl01, sdiff_sdiff_right_self]
  exact inf_eq_right.mpr (Finset.subset_univ _)

/-- two trips whose halves start at the same place use the same half -/
theorem crows_set_congr (t s : Fin k1_t1_loop.trips) (h : k1_off12 t = k1_off12 s) : (crowsAt t).view.set = (crowsAt s).view.set := by
  ext x
  rw [mem_crowsAt, mem_crowsAt, h]

/-- an even trip's half is the first: everything but the second -/
theorem crows_even (t : Fin k1_t1_loop.trips) (h : k1_off12 t = k1_off12 t0) :
    (crowsAt t).view.set = Finset.univ \ (crowsAt t1).view.set := by
  rw [crows_compl01]; exact crows_set_congr t t0 h
/-- an odd trip's half is the second: everything but the first -/
theorem crows_odd (t : Fin k1_t1_loop.trips) (h : k1_off12 t = k1_off12 t1) :
    (crowsAt t).view.set = Finset.univ \ (crowsAt t0).view.set := by
  rw [crows_compl10]; exact crows_set_congr t t1 h

theorem inb_w0 : ∀ a, (![0] : Fin 1 → Nat) a + S128.size a ≤ S512.size a := by decide
theorem inb_w128 : ∀ a, (![128] : Fin 1 → Nat) a + S128.size a ≤ S512.size a := by decide
theorem inb_w256 : ∀ a, (![256] : Fin 1 → Nat) a + S128.size a ≤ S512.size a := by decide
theorem inb_w384 : ∀ a, (![384] : Fin 1 → Nat) a + S128.size a ≤ S512.size a := by decide

theorem size_tbl : S1000x128.size gathers_S1000x128_S128x128.axis = 1000 := by decide

set_option maxHeartbeats 400000 in
/-- One vector subcore's whole task for the second gather call: fetch its 512 token words, then four times gather 128 table
    rows, compact their first 32 columns, and start the block's write-back, waiting for a slot's previous write-back
    before reusing the slot; at the end wait for the last two. Every copy is the subcore's own on a semaphore nobody
    else touches, one in flight per semaphore; a write-back stays in flight across two trips of the loop, carried in the
    loop's invariant together with the block of the result and the half of the scratch it holds. Contents are not tracked
    here: the task ends, faults nowhere, and hands back what it was handed. -/
theorem tile_run1 (O : CellTallies nD τ sig (HIx 4)) (W : Waits sig (HIx 4)) (q : PosShare TreeShare)
    (ft : Buf (Elt F) ((tblW).view.loc (tile d L))) (fi : Buf (Elt F) ((idxSl L).view.loc (tile d L)))
    (hfi : ∀ y, (fi y).toNat < 1000) :
    iprop(Transfers.MayWaits (tile d L) (none : HIx 4) O
        ∗ ((tblW).view.loc (tile d L) ↦{q} ft)
        ∗ ((idxSl L).view.loc (tile d L) ↦[(idxSl L).view.set]{fullShare} fi)
        ∗ (∃ f5, (s0W).view.loc (tile d L) ↦{fullShare} f5)
        ∗ (∃ r, (s1W).view.loc (tile d L) ↦{fullShare} r)
        ∗ crowsHeld (F := F) d L t1 ∗ crowsHeld (F := F) d L t0
        ∗ outHeld (F := F) d L t0 ∗ outHeld (F := F) d L t1 ∗ outHeld (F := F) d L t2 ∗ outHeld (F := F) d L t3
        ∗ semVal (tile d L, SemLoc.dma gS0) 0 ∗ semVal (tile d L, SemLoc.dma gS1) 0
        ∗ semVal (tile d L, SemLoc.dma wS0) 0 ∗ semVal (tile d L, SemLoc.dma wS1) 0
        ∗ semVal (tile d L, SemLoc.dma pS) 0
        ∗ owes (tile d L) O W)
      ⊢ wp frame (wpE (defs₀ (F := F)) 𝒱₀ (tile d L) none) Set.univ
          (cc1_gather_kernel L tblW (Memref.isWhole_whole _) idxW (Memref.isWhole_whole _) outW (Memref.isWhole_whole _)
            s0W (Memref.isWhole_whole _) s1W (Memref.isWhole_whole _) s2W (Memref.isWhole_whole _) cc1_scratch3 cc1_scratch4 cc1_scoped0)
          (fun _ => iprop(((tblW).view.loc (tile d L) ↦{q} ft)
            ∗ ((idxSl L).view.loc (tile d L) ↦[(idxSl L).view.set]{fullShare} fi)
            ∗ (∃ f5, (s0W).view.loc (tile d L) ↦{fullShare} f5)
            ∗ (∃ r, (s1W).view.loc (tile d L) ↦{fullShare} r)
            ∗ (∃ f, (s2W).view.loc (tile d L) ↦[(crowsAt t2).view.set]{fullShare} f)
            ∗ (∃ f, (s2W).view.loc (tile d L) ↦[(crowsAt t3).view.set]{fullShare} f)
            ∗ outHeld (F := F) d L t0 ∗ outHeld (F := F) d L t1 ∗ outHeld (F := F) d L t2 ∗ outHeld (F := F) d L t3
            ∗ semVal (tile d L, SemLoc.dma gS0) 0 ∗ semVal (tile d L, SemLoc.dma gS1) 0
            ∗ semVal (tile d L, SemLoc.dma wS0) 0 ∗ semVal (tile d L, SemLoc.dma wS1) 0
            ∗ semVal (tile d L, SemLoc.dma pS) 0
            ∗ ∃ W', ⌜∀ p ∈ W', p ∈ W ∨ p.2 = none⌝ ∗ owes (tile d L) O W')) := by
  rw [cc1_gather_kernel_eq_skeleton]; unfold cc1_gather_kernel_skel
  iintro ⟨Hmw, Ht, Hi, ⟨%f5, H5⟩, H6, Hc0, Hc1, Ho0, Ho1, Ho2, Ho3, Hg0, Hg1, Hw0, Hw1, Hp, HO⟩
  sl_exec
  have h5 : InRange (F := F) d L (View.write (Elt F) (s0W).view f5 (tile_run1.sl.dma0 d L fi) Finset.univ) := by
    intro o h x
    rw [View.write_whole_univ, size_tbl]
    unfold tile_run1.sl.dma0
    simp only [View.read_apply]
    exact hfi _
  sl_for (invO d L O W q ft) $$ [Hmw Ht H5 H6 Hc0 Hc1 Ho0 Ho1 Ho2 Ho3 Hg0 Hg1 Hw0 Hw1 HO]
  case region =>
    intro k u
    obtain ⟨k, hk⟩ := k
    match k, hk with
    | k + 4, hk => exact absurd (Nat.lt_of_lt_of_le hk k1_t1_abs.2.1) (by omega)
    | 0, hk =>
      -- trip 0: slot 0 idle, nothing to wait for
      have k1_h1 : ¬ k1_cond1 t0 = 1#1 := by decide
      change inv0 d L O W q ft ⊢ wp frame (wpE (defs₀ (F := F)) 𝒱₀ (tile d L) none) Set.univ (tile_run1.sl.prog.body_1 L t0 u) (fun _ => inv1 d L O W q ft)
      unfold inv0 common slotFree outHeld crowsHeld
      iintro ⟨⟨Hmw, Ht, ⟨%g5, %hin, H5⟩, H6, Hg0, Hg1, %W', %hW', HO⟩, ⟨Hw0, Hc⟩, Hs1, ⟨%o0, Ho0⟩, Ho1, Ho2, Ho3⟩
      icases H6 with ⟨%r6, H6⟩
      icases Hc with ⟨%c0, Hc⟩
      have hinT : ∀ x, (((s0W).slice (Rect.unit (s := S512) ![0] S128.size inb_w0) (fun _ => rfl)).view.read (Elt F) g5 x).toNat
          < S1000x128.size gathers_S1000x128_S128x128.axis := hin ![0] inb_w0
      have hinK : ∀ x, ((offsAt t0).view.read (Elt F) g5 x).toNat < S1000x128.size gathers_S1000x128_S128x128.axis := hin _ _
      sl_exec
      sl_for (invC (F := F) d L t1) $$ [H6 Hc]
      case region =>
        intro j _
        unfold invC crowsHeld
        iintro ⟨⟨%r, H6⟩, ⟨%f, Hc⟩⟩
        sl_exec
        sl_step
        isplitl [H6]; · iexists _; iexact H6
        iexists _; iexact Hc
      · unfold invC crowsHeld
        isplitl [H6]; · iexists _; iexact H6
        iexists _; iexact Hc
      iintro %_ HI
      unfold invC crowsHeld
      icases HI with ⟨⟨%r, H6⟩, ⟨%f, Hc⟩⟩
      sl_exec
      sl_step
      iclear Hc
      unfold inv1 common slotBusy slotFree outHeld crowsHeld
      isplitl [Hmw Ht H5 H6 Hg0 Hg1 HO]
      · isplitl [Hmw]; · iexact Hmw
        isplitl [Ht]; · iexact Ht
        isplitl [H5]
        · iexists g5; isplitr
          · ipureintro; exact hin
          · iexact H5
        isplitl [H6]; · iexists _; iexact H6
        isplitl [Hg0]; · iexact Hg0
        isplitl [Hg1]; · iexact Hg1
        iexists (insert (SemLoc.dma gS0, (default : HIx 4)) W'); isplitr
        · ipureintro; intro p hp
          rcases Finset.mem_insert.mp hp with hp | hp
          · exact Or.inr (by subst hp; rfl)
          · exact hW' p hp
        · iexact HO
      isplitl [Hw0]; · iexists _, _; iexact Hw0
      isplitl [Hs1]; · iexact Hs1
      isplitl [Ho1]; · iexact Ho1
      isplitl [Ho2]; · iexact Ho2
      iexact Ho3
    | 1, hk =>
      -- trip 1: slot 1 idle, nothing to wait for
      have k1_h1 : ¬ k1_cond1 t1 = 1#1 := by decide
      change inv1 d L O W q ft ⊢ wp frame (wpE (defs₀ (F := F)) 𝒱₀ (tile d L) none) Set.univ (tile_run1.sl.prog.body_1 L t1 u) (fun _ => inv2 d L O W q ft)
      unfold inv1 common slotBusy slotFree outHeld crowsHeld
      iintro ⟨⟨Hmw, Ht, ⟨%g5, %hin, H5⟩, H6, Hg0, Hg1, %W', %hW', HO⟩, Hb0, ⟨Hw1, Hc⟩, ⟨%o1, Ho1⟩, Ho2, Ho3⟩
      icases H6 with ⟨%r6, H6⟩
      icases Hc with ⟨%c0, Hc⟩
      have hinT : ∀ x, (((s0W).slice (Rect.unit (s := S512) ![128] S128.size inb_w128) (fun _ => rfl)).view.read (Elt F) g5 x).toNat
          < S1000x128.size gathers_S1000x128_S128x128.axis := hin ![128] inb_w128
      have hinK : ∀ x, ((offsAt t1).view.read (Elt F) g5 x).toNat < S1000x128.size gathers_S1000x128_S128x128.axis := hin _ _
      sl_exec
      sl_for (invC (F := F) d L t0) $$ [H6 Hc]
      case region =>
        intro j _
        unfold invC crowsHeld
        iintro ⟨⟨%r, H6⟩, ⟨%f, Hc⟩⟩
        sl_exec
        sl_step
        isplitl [H6]; · iexists _; iexact H6
        iexists _; iexact Hc
      · unfold invC crowsHeld
        isplitl [H6]; · iexists _; iexact H6
        iexists _; iexact Hc
      iintro %_ HI
      unfold invC crowsHeld
      icases HI with ⟨⟨%r, H6⟩, ⟨%f, Hc⟩⟩
      sl_exec
      sl_step
      iclear Hc
      unfold inv2 common slotBusy outHeld
      isplitl [Hmw Ht H5 H6 Hg0 Hg1 HO]
      · isplitl [Hmw]; · iexact Hmw
        isplitl [Ht]; · iexact Ht
        isplitl [H5]
        · iexists g5; isplitr
          · ipureintro; exact hin
          · iexact H5
        isplitl [H6]; · iexists _; iexact H6
        isplitl [Hg0]; · iexact Hg0
        isplitl [Hg1]; · iexact Hg1
        iexists (insert (SemLoc.dma gS1, (default : HIx 4)) W'); isplitr
        · ipureintro; intro p hp
          rcases Finset.mem_insert.mp hp with hp | hp
          · exact Or.inr (by subst hp; rfl)
          · exact hW' p hp
        · iexact HO
      isplitl [Hb0]; · iexact Hb0
      isplitl [Hw1]; · iexists _, _; iexact Hw1
      isplitl [Ho2]; · iexact Ho2
      iexact Ho3
    | 2, hk =>
      -- trip 2: block 0's write-back is waited for, then slot 0 is reused
      have k1_h1 : k1_cond1 t2 = 1#1 := by decide
      change inv2 d L O W q ft ⊢ wp frame (wpE (defs₀ (F := F)) 𝒱₀ (tile d L) none) Set.univ (tile_run1.sl.prog.body_1 L t2 u) (fun _ => inv3 d L O W q ft)
      unfold inv2 common slotBusy outHeld
      iintro ⟨⟨Hmw, Ht, ⟨%g5, %hin, H5⟩, H6, Hg0, Hg1, %W', %hW', HO⟩, ⟨%fo0, %fc0, Hw0⟩, Hb1, ⟨%o2, Ho2⟩, Ho3⟩
      icases H6 with ⟨%r6, H6⟩
      have hinT : ∀ x, (((s0W).slice (Rect.unit (s := S512) ![256] S128.size inb_w256) (fun _ => rfl)).view.read (Elt F) g5 x).toNat
          < S1000x128.size gathers_S1000x128_S128x128.axis := hin ![256] inb_w256
      have hinK : ∀ x, ((offsAt t2).view.read (Elt F) g5 x).toNat < S1000x128.size gathers_S1000x128_S128x128.axis := hin _ _
      sl_exec
      ihave Hc := (Entails.of_eq (show ((s2W).view.loc (tile d L) ↦[(crowsAt t0).view.set]{fullShare} fc0 : sProp 𝕄)
          = ((s2W).view.loc (tile d L) ↦[Finset.univ \ (crowsAt t1).view.set]{fullShare} fc0) from by rw [crows_even t0 (by decide)])) $$ Hw0_src
      sl_for (invC (F := F) d L t1) $$ [H6 Hc]
      case region =>
        intro j _
        unfold invC crowsHeld
        iintro ⟨⟨%r, H6⟩, ⟨%f, Hc⟩⟩
        sl_exec
        sl_step
        isplitl [H6]; · iexists _; iexact H6
        iexists _; iexact Hc
      · unfold invC crowsHeld
        isplitl [H6]; · iexists _; iexact H6
        iexists _; iexact Hc
      iintro %_ HI
      unfold invC crowsHeld
      icases HI with ⟨⟨%r, H6⟩, ⟨%f, Hc⟩⟩
      sl_exec
      sl_step
      iclear Hc
      unfold inv3 common slotBusy outHeld
      isplitl [Hmw Ht H5 H6 Hg0 Hg1 HO]
      · isplitl [Hmw]; · iexact Hmw
        isplitl [Ht]; · iexact Ht
        isplitl [H5]
        · iexists g5; isplitr
          · ipureintro; exact hin
          · iexact H5
        isplitl [H6]; · iexists _; iexact H6
        isplitl [Hg0]; · iexact Hg0
        isplitl [Hg1]; · iexact Hg1
        iexists (insert (SemLoc.dma gS0, (default : HIx 4)) (insert (SemLoc.dma wS0, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hw0]; · iexists _, _; iexact Hw0
      isplitl [Hb1]; · iexact Hb1
      isplitl [Hw0_dst]; · iexists _; iexact Hw0_dst
      iexact Ho3
    | 3, hk =>
      -- trip 3: block 1's write-back is waited for, then slot 1 is reused
      have k1_h1 : k1_cond1 t3 = 1#1 := by decide
      change inv3 d L O W q ft ⊢ wp frame (wpE (defs₀ (F := F)) 𝒱₀ (tile d L) none) Set.univ (tile_run1.sl.prog.body_1 L t3 u) (fun _ => inv4 d L O W q ft)
      unfold inv3 common slotBusy outHeld
      iintro ⟨⟨Hmw, Ht, ⟨%g5, %hin, H5⟩, H6, Hg0, Hg1, %W', %hW', HO⟩, Hb0, ⟨%fo1, %fc1, Hw1⟩, Ho0, ⟨%o3, Ho3⟩⟩
      icases H6 with ⟨%r6, H6⟩
      have hinT : ∀ x, (((s0W).slice (Rect.unit (s := S512) ![384] S128.size inb_w384) (fun _ => rfl)).view.read (Elt F) g5 x).toNat
          < S1000x128.size gathers_S1000x128_S128x128.axis := hin ![384] inb_w384
      have hinK : ∀ x, ((offsAt t3).view.read (Elt F) g5 x).toNat < S1000x128.size gathers_S1000x128_S128x128.axis := hin _ _
      sl_exec
      ihave Hc := (Entails.of_eq (show ((s2W).view.loc (tile d L) ↦[(crowsAt t1).view.set]{fullShare} fc1 : sProp 𝕄)
          = ((s2W).view.loc (tile d L) ↦[Finset.univ \ (crowsAt t0).view.set]{fullShare} fc1) from by rw [crows_odd t1 (by decide)])) $$ Hw1_src
      sl_for (invC (F := F) d L t0) $$ [H6 Hc]
      case region =>
        intro j _
        unfold invC crowsHeld
        iintro ⟨⟨%r, H6⟩, ⟨%f, Hc⟩⟩
        sl_exec
        sl_step
        isplitl [H6]; · iexists _; iexact H6
        iexists _; iexact Hc
      · unfold invC crowsHeld
        isplitl [H6]; · iexists _; iexact H6
        iexists _; iexact Hc
      iintro %_ HI
      unfold invC crowsHeld
      icases HI with ⟨⟨%r, H6⟩, ⟨%f, Hc⟩⟩
      sl_exec
      sl_step
      iclear Hc
      unfold inv4 common slotBusy outHeld
      isplitl [Hmw Ht H5 H6 Hg0 Hg1 HO]
      · isplitl [Hmw]; · iexact Hmw
        isplitl [Ht]; · iexact Ht
        isplitl [H5]
        · iexists g5; isplitr
          · ipureintro; exact hin
          · iexact H5
        isplitl [H6]; · iexists _; iexact H6
        isplitl [Hg0]; · iexact Hg0
        isplitl [Hg1]; · iexact Hg1
        iexists (insert (SemLoc.dma gS1, (default : HIx 4)) (insert (SemLoc.dma wS1, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hb0]; · iexact Hb0
      isplitl [Hw1]; · iexists _, _; iexact Hw1
      isplitl [Ho0]; · iexact Ho0
      iexists _; iexact Hw1_dst
  · -- before the first trip
    iapply (Entails.of_eq (show inv0 d L O W q ft = invO d L O W q ft 0 PUnit.unit from rfl))
    unfold inv0 common slotFree outHeld crowsHeld
    isplitl [Hmw Ht H5 H6 Hg0 Hg1 HO]
    · isplitl [Hmw]; · iexact Hmw
      isplitl [Ht]; · iexact Ht
      isplitl [H5]
      · iexists _; isplitr
        · ipureintro; exact h5
        · iexact H5
      isplitl [H6]; · iexact H6
      isplitl [Hg0]; · iexact Hg0
      isplitl [Hg1]; · iexact Hg1
      iexists (insert (SemLoc.dma pS, (default : HIx 4)) W); isplitr
      · ipureintro; intro p hp
        rcases Finset.mem_insert.mp hp with hp | hp
        · exact Or.inr (by subst hp; rfl)
        · exact Or.inl hp
      · iexact HO
    isplitl [Hw0 Hc0]; · isplitl [Hw0]; · iexact Hw0
                         iexact Hc0
    isplitl [Hw1 Hc1]; · isplitl [Hw1]; · iexact Hw1
                         iexact Hc1
    isplitl [Ho0]; · iexact Ho0
    isplitl [Ho1]; · iexact Ho1
    isplitl [Ho2]; · iexact Ho2
    iexact Ho3
  -- after the loop: the last two write-backs
  iintro %acc HI
  ihave HI' := (Entails.of_eq (show invO d L O W q ft (Scf.trips k1_t1_loop.lb k1_t1_loop.ub k1_t1_loop.st) acc = inv4 d L O W q ft from rfl)) $$ HI
  unfold inv4 common slotBusy outHeld
  icases HI' with ⟨⟨Hmw, Ht, ⟨%g5, %hin, H5⟩, H6, Hg0, Hg1, %W', %hW', HO⟩, ⟨%foA, %fcA, Hw0⟩, ⟨%foB, %fcB, Hw1⟩, Ho0, Ho1⟩
  sl_exec
  sl_step
  isplitl [Ht]; · iexact Ht
  isplitl [Hi]; · iexact Hi
  isplitl [H5]; · iexists _; iexact H5
  isplitl [H6]; · iexact H6
  isplitl [Hw0_src]; · iexists _; iexact Hw0_src
  isplitl [Hw1_src]; · iexists _; iexact Hw1_src
  isplitl [Ho0]; · iexact Ho0
  isplitl [Ho1]; · iexact Ho1
  isplitl [Hw0_dst]; · iexists _; iexact Hw0_dst
  isplitl [Hw1_dst]; · iexists _; iexact Hw1_dst
  isplitl [Hg0]; · iexact Hg0
  isplitl [Hg1]; · iexact Hg1
  isplitl [Hw0]; · iexact Hw0
  isplitl [Hw1]; · iexact Hw1
  isplitl [Hp]; · iexact Hp
  iexists (insert (SemLoc.dma wS1, (default : HIx 4)) (insert (SemLoc.dma wS0, (default : HIx 4)) W')); isplitr
  · ipureintro; intro p hp
    rcases Finset.mem_insert.mp hp with hp | hp
    · exact Or.inr (by subst hp; rfl)
    rcases Finset.mem_insert.mp hp with hp | hp
    · exact Or.inr (by subst hp; rfl)
    · exact hW' p hp
  · iexact HO

end Cert.Kernel.Hand.C1

end
-- ==== Proof.Kernel.TileObl1.lean ====
/-
  The second gather call's task as the launch theorem wants it: from what a vector subcore is handed at the call — its
  share of the table, its slice of the token words, its blocks of the result — and its own scratch buffers and
  semaphores, to the same handed back. The subcore's scratch and semaphores are picked out of everything it owns, the
  two-slot compact-rows scratch is cut into its halves for the run and glued back afterwards, and the run itself is
  `tile_run1`.
-/
import proofs.«203661_g84404697301628_cont_9to1_m_135_26_alg».proof.Proof.Kernel.TileRun1
import proofs.«203661_g84404697301628_cont_9to1_m_135_26_alg».proof.Proof.Kernel.Pay
import Idealize.ShloMosaic.Lib.SparseCore.Ops

noncomputable section

namespace Cert.Kernel.Hand.C1

open Cert.Kernel Cert.Kernel.Gen Cert.Kernel.Hand
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [hK : Cert.Kernel.Facts] [FloatOps F]

local notation "𝕄" => MT nD τ sig (HIx 4) (Elt F) ℕ UU ℕ

local notation "tblW" => (Memref.whole Cert.Kernel.main_v0_scv : Memref Cert.Kernel.sig Kind.scVector Space.hbm Cert.Kernel.S1000x128 EltTy.f32)
local notation "idxW" => (Memref.whole Cert.Kernel.main_v7_scv : Memref Cert.Kernel.sig Kind.scVector Space.hbm Cert.Kernel.S16384 EltTy.i32)
local notation "outW" => (Memref.whole Cert.Kernel.main_v8_scv : Memref Cert.Kernel.sig Kind.scVector Space.hbm Cert.Kernel.S1x16384x32 EltTy.f32)
local notation "s0W" => (Memref.whole Cert.Kernel.cc1_scratch0 : Memref Cert.Kernel.sig Kind.scVector Space.vmem Cert.Kernel.S512 EltTy.i32)
local notation "s1W" => (Memref.whole Cert.Kernel.cc1_scratch1 : Memref Cert.Kernel.sig Kind.scVector Space.vmem Cert.Kernel.S2x128x128 EltTy.f32)
local notation "s2W" => (Memref.whole Cert.Kernel.cc1_scratch2 : Memref Cert.Kernel.sig Kind.scVector Space.vmem Cert.Kernel.S2x128x32 EltTy.f32)
local notation "gS0" => (⟨5, by decide⟩ : DmaSem Cert.Kernel.sig)
local notation "gS1" => (⟨6, by decide⟩ : DmaSem Cert.Kernel.sig)
local notation "wS0" => (⟨7, by decide⟩ : DmaSem Cert.Kernel.sig)
local notation "wS1" => (⟨8, by decide⟩ : DmaSem Cert.Kernel.sig)
local notation "pS" => (⟨9, by decide⟩ : DmaSem Cert.Kernel.sig)

/-- the second call's token words, as the TensorCore names them -/
abbrev idxLoc1 (d : Dev nD) : Loc nD τ sig := (SparseCore.T d).loc main_v7

/-- the grid point of subcore `i` of SparseCore `c` -/
def coords1 (c : Fin 2) (i : Fin 16) : grid1.Coords :=
  fun | 0 => c | 1 => i | ⟨_ + 2, h⟩ => absurd h (Nat.not_lt.2 (Nat.le_add_left _ _))

/-- what subcore `(c, i)` is handed for the second call besides the table: its slice of the token words, at the words
    `wd`, and its four blocks of the result, at some contents -/
def Rs1 (wd : (d : Dev nD) → Buf (Elt F) (idxLoc1 d)) (d : Dev nD) (c : Fin 2) (i : Fin 16) : sProp 𝕄 :=
  iprop(((idxSl (coords1 c i)).view.loc (tile d (coords1 c i)) ↦[(idxSl (coords1 c i)).view.set]{fullShare} wd d)
    ∗ outHeld (F := F) d (coords1 c i) t0 ∗ outHeld (F := F) d (coords1 c i) t1
    ∗ outHeld (F := F) d (coords1 c i) t2 ∗ outHeld (F := F) d (coords1 c i) t3)

section Tile

variable (d : Dev nD) (L : grid1.Coords)

omit [FloatOps F] in
theorem mem_own (k : DmaSem sig) (hk : (SemLoc.dma k : SemLoc sig).isScoped .scVector = true) :
    ((tile d L, SemLoc.dma k) : GSem nD τ sig) ∈ ownCells (sig := sig) (tile d L) :=
  (mem_ownCells (g := (tile d L, SemLoc.dma k))).mpr ⟨rfl, hk⟩
omit [FloatOps F] in
theorem ne_cell {k k' : DmaSem sig} (h : k ≠ k') : ((tile d L, SemLoc.dma k) : GSem nD τ sig) ≠ (tile d L, SemLoc.dma k') :=
  fun e => h (SemLoc.dma.inj (Prod.mk.inj e).2)

omit [FloatOps F] in
/-- the five semaphores this call uses are among the subcore's own: they, and the rest -/
theorem ownSems0_V1 :
    (ownSems0 (tile d L) : sProp 𝕄)
      = iprop(semVal (tile d L, SemLoc.dma gS0) 0 ∗ semVal (tile d L, SemLoc.dma gS1) 0 ∗ semVal (tile d L, SemLoc.dma wS0) 0
          ∗ semVal (tile d L, SemLoc.dma wS1) 0 ∗ semVal (tile d L, SemLoc.dma pS) 0
          ∗ bigSep ((((((ownCells (tile d L)).erase (tile d L, SemLoc.dma gS0)).erase (tile d L, SemLoc.dma gS1)).erase (tile d L, SemLoc.dma wS0)).erase
              (tile d L, SemLoc.dma wS1)).erase (tile d L, SemLoc.dma pS)) fun g => semVal g 0) := by
  unfold SparseCore.Cfg.ownSems0
  rw [SparseCore.bigSep_erase' (mem_own d L gS0 (by decide)),
    SparseCore.bigSep_erase' (Finset.mem_erase.mpr ⟨ne_cell d L (k := gS1) (k' := gS0) (by decide), mem_own d L gS1 (by decide)⟩),
    SparseCore.bigSep_erase' (Finset.mem_erase.mpr ⟨ne_cell d L (k := wS0) (k' := gS1) (by decide), Finset.mem_erase.mpr ⟨ne_cell d L (k := wS0) (k' := gS0) (by decide), mem_own d L wS0 (by decide)⟩⟩),
    SparseCore.bigSep_erase' (Finset.mem_erase.mpr ⟨ne_cell d L (k := wS1) (k' := wS0) (by decide), Finset.mem_erase.mpr ⟨ne_cell d L (k := wS1) (k' := gS1) (by decide), Finset.mem_erase.mpr ⟨ne_cell d L (k := wS1) (k' := gS0) (by decide), mem_own d L wS1 (by decide)⟩⟩⟩),
    SparseCore.bigSep_erase' (Finset.mem_erase.mpr ⟨ne_cell d L (k := pS) (k' := wS1) (by decide), Finset.mem_erase.mpr ⟨ne_cell d L (k := pS) (k' := wS0) (by decide), Finset.mem_erase.mpr ⟨ne_cell d L (k := pS) (k' := gS1) (by decide), Finset.mem_erase.mpr ⟨ne_cell d L (k := pS) (k' := gS0) (by decide), mem_own d L pS (by decide)⟩⟩⟩⟩)]

omit [FloatOps F] in
/-- the three scratch buffers are among the subcore's own: they, at some contents, and the rest -/
theorem ownBufs_V1 :
    (ownBufs (tile d L) : sProp 𝕄)
      = iprop((∃ f, (tile d L).loc cc1_scratch0 ↦{fullShare} f) ∗ (∃ f, (tile d L).loc cc1_scratch1 ↦{fullShare} f)
          ∗ (∃ f, (tile d L).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩⟩)]

omit [FloatOps F] in
/-- the compact-rows scratch, held whole, is its two halves (each as "all but the other") -/
theorem crows_split (f : Buf (Elt F) ((s2W).view.loc (tile d L))) :
    ((s2W).view.loc (tile d L) ↦[Finset.univ]{fullShare} f : sProp 𝕄)
      ⊢ iprop(((s2W).view.loc (tile d L) ↦[Finset.univ \ (crowsAt t1).view.set]{fullShare} f)
          ∗ ((s2W).view.loc (tile d L) ↦[Finset.univ \ (crowsAt t0).view.set]{fullShare} f)) := by
  have h : ((s2W).view.loc (tile d L) ↦[Finset.univ]{fullShare} f : sProp 𝕄)
      ⊢ iprop(((s2W).view.loc (tile d L) ↦[Finset.univ \ (crowsAt t1).view.set]{fullShare} f)
          ∗ ((s2W).view.loc (tile d L) ↦[Finset.univ \ (Finset.univ \ (crowsAt t1).view.set)]{fullShare} f)) :=
    (pointsTo_split_subset (Finset.subset_univ (Finset.univ \ (crowsAt t1).view.set))).1
  have e : Finset.univ \ (Finset.univ \ (crowsAt t1).view.set) = Finset.univ \ (crowsAt t0).view.set := by rw [crows_compl01]
  rw [e] at h
  exact h

omit [FloatOps F] in
/-- the halves the run hands back are the first and the second -/
theorem crows_set_last0 : (crowsAt t2).view.set = (crowsAt t0).view.set := crows_set_congr t2 t0 (by decide)
omit [FloatOps F] in
theorem crows_set_last1 : (crowsAt t3).view.set = (crowsAt t1).view.set := crows_set_congr t3 t1 (by decide)

omit [FloatOps F] in
/-- and the two halves, at whatever each holds, are the scratch whole again -/
theorem crows_join (f g : Buf (Elt F) ((s2W).view.loc (tile d L))) :
    iprop(((s2W).view.loc (tile d L) ↦[(crowsAt t2).view.set]{fullShare} f) ∗ ((s2W).view.loc (tile d L) ↦[(crowsAt t3).view.set]{fullShare} g))
      ⊢ (iprop(∃ h, (s2W).view.loc (tile d L) ↦[Finset.univ]{fullShare} h) : sProp 𝕄) := by
  rw [crows_set_last0, crows_set_last1]
  have hd : Disjoint (crowsAt t0).view.set (crowsAt t1).view.set := by
    rw [← crows_compl01]; exact Finset.sdiff_disjoint
  have hu : (crowsAt t0).view.set ∪ (crowsAt t1).view.set = Finset.univ := by
    rw [← crows_compl01]; exact Finset.sdiff_union_of_subset (Finset.subset_univ _)
  refine (pointsTo_join hd).trans ?_
  rw [hu]
  iintro H; iexists _; iexact H

/-- The task on one vector subcore, in the launch theorem's resources: the table's share, the subcore's words and blocks,
    and its own scoped storage in; the same out. -/
theorem tile_body1 (hF : (K (F := F)).Facts) (tb : (d : Dev nD) → Buf (Elt F) (tblLoc d)) (wd : (d : Dev nD) → Buf (Elt F) (idxLoc1 d))
    (hwd : ∀ d y, (wd d y).toNat < 1000) (q : PosShare TreeShare)
    (lv : GSem nD τ sig → HIx 4 → ℕ) (hlv : (K (F := F)).Refines lv)
    (O : CellTallies nD τ sig (HIx 4)) (W : Waits sig (HIx 4)) (hO : ∀ g, O g none = 0) :
    iprop(levAts (K (F := F)).L lv ∗ emp
        ∗ ((tblLoc d ↦{q} tb d)
            ∗ ((idxSl L).view.loc (tile d L) ↦[(idxSl L).view.set]{fullShare} wd d)
            ∗ outHeld (F := F) d L t0 ∗ outHeld (F := F) d L t1 ∗ outHeld (F := F) d L t2 ∗ outHeld (F := F) d L t3)
        ∗ scopedBufs (tile d L) ∗ scopedSems0 (tile d L) ∗ owes (tile d L) O W)
      ⊢ wp frame (wpE (defs₀ (F := F)) 𝒱₀ (tile d L) none) Set.univ
          (cc1_gather_kernel L tblW (Memref.isWhole_whole _) idxW (Memref.isWhole_whole _) outW (Memref.isWhole_whole _)
            s0W (Memref.isWhole_whole _) s1W (Memref.isWhole_whole _) s2W (Memref.isWhole_whole _) cc1_scratch3 cc1_scratch4 cc1_scoped0)
          fun _ => iprop(((tblLoc d ↦{q} tb d)
            ∗ ((idxSl L).view.loc (tile d L) ↦[(idxSl L).view.set]{fullShare} wd d)
            ∗ outHeld (F := F) d L t0 ∗ outHeld (F := F) d L t1 ∗ outHeld (F := F) d L t2 ∗ outHeld (F := F) d L t3)
            ∗ scopedBufs (tile d L) ∗ scopedSems0 (tile d L)
            ∗ ∃ W', ⌜∀ p ∈ W', p ∈ W ∨ p.2 = none⌝ ∗ owes (tile d L) O W') := by
  rw [(K (F := F)).scopedBufs_V hF d (cV L) (jV L), SparseCore.Cfg.scopedSems0_V (Val := Elt F) d (cV L) (jV L), ownSems0_V1, ownBufs_V1]
  iintro ⟨#Hlv, -, ⟨Ht, Hi, Ho0, Ho1, Ho2, Ho3⟩, ⟨H5, H6, ⟨%f7, H7⟩, Hbufs⟩, ⟨Hg0, Hg1, Hw0, Hw1, Hp, Hsems⟩, HO⟩
  ihave Hmw := ((K (F := F)).mayWaits_none (thr := tile d L) hO lv hlv) $$ Hlv
  ihave Hc := (crows_split (F := F) d L f7) $$ H7
  icases Hc with ⟨Hc1, Hc0⟩
  iapply (wp_wand_r frame (wpE (defs₀ (F := F)) 𝒱₀ (tile d L) none) Set.univ)
  isplitl [Hmw Ht Hi H5 H6 Hc0 Hc1 Ho0 Ho1 Ho2 Ho3 Hg0 Hg1 Hw0 Hw1 Hp HO]
  · iapply (tile_run1 (F := F) d L O W q (tb d) (wd d) (hwd d))
    isplitl [Hmw]; · iexact Hmw
    isplitl [Ht]; · iexact Ht
    isplitl [Hi]; · iexact Hi
    isplitl [H5]; · iexact H5
    isplitl [H6]; · iexact H6
    isplitl [Hc1]; · unfold crowsHeld; iexists _; iexact Hc1
    isplitl [Hc0]; · unfold crowsHeld; iexists _; iexact Hc0
    isplitl [Ho0]; · iexact Ho0
    isplitl [Ho1]; · iexact Ho1
    isplitl [Ho2]; · iexact Ho2
    isplitl [Ho3]; · iexact Ho3
    isplitl [Hg0]; · iexact Hg0
    isplitl [Hg1]; · iexact Hg1
    isplitl [Hw0]; · iexact Hw0
    isplitl [Hw1]; · iexact Hw1
    isplitl [Hp]; · iexact Hp
    iexact HO
  · iintro %a ⟨Ht, Hi, H5, H6, ⟨%c2, Hc2⟩, ⟨%c3, Hc3⟩, Ho0, Ho1, Ho2, Ho3, Hg0, Hg1, Hw0, Hw1, Hp, HO⟩
    ihave H7 := (crows_join (F := F) d L c2 c3) $$ [Hc2 Hc3]
    · isplitl [Hc2]; · iexact Hc2
      iexact Hc3
    isplitl [Ht Hi Ho0 Ho1 Ho2 Ho3]
    · isplitl [Ht]; · iexact Ht
      isplitl [Hi]; · iexact Hi
      isplitl [Ho0]; · iexact Ho0
      isplitl [Ho1]; · iexact Ho1
      isplitl [Ho2]; · iexact Ho2
      iexact Ho3
    isplitl [H5 H6 H7 Hbufs]
    · isplitl [H5]; · iexact H5
      isplitl [H6]; · iexact H6
      isplitl [H7]; · iexact H7
      iexact Hbufs
    isplitl [Hg0 Hg1 Hw0 Hw1 Hp Hsems]
    · isplitl [Hg0]; · iexact Hg0
      isplitl [Hg1]; · iexact Hg1
      isplitl [Hw0]; · iexact Hw0
      isplitl [Hw1]; · iexact Hw1
      isplitl [Hp]; · iexact Hp
      iexact Hsems
    iexact HO

end Tile

/-! ## The launch theorem's obligation for the second call -/

omit [FloatOps F] in
theorem defs₀_vector1 [FloatOps F] (c : Fin τ.nSC) (s : Fin τ.nSub) :
    defs₀ (F := F) (.scVector c s) 1 ()
      = SparseCore.onTile hcore1 hsub1 (fun c s => cc1_gather_kernel (coords1 c s) tblW (Memref.isWhole_whole _) idxW (Memref.isWhole_whole _)
          outW (Memref.isWhole_whole _) s0W (Memref.isWhole_whole _) s1W (Memref.isWhole_whole _) s2W (Memref.isWhole_whole _)
          cc1_scratch3 cc1_scratch4 cc1_scoped0) ⟨⟩ c s := rfl

omit [FloatOps F] in
theorem obl_post {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The second call's task obligation, for any family of subcore resources whose member for this call is `Rs1` at token
    words that all name table rows. -/
theorem tileObl1 (hF : (K (F := F)).Facts) (tb : (d : Dev nD) → Buf (Elt F) (tblLoc d)) (Rs : Fin 4 → Dev nD → Fin 2 → Fin 16 → sProp 𝕄)
    (wd : (d : Dev nD) → Buf (Elt F) (idxLoc1 d)) (hwd : ∀ d y, (wd d y).toNat < 1000)
    (hRs : ∀ d c i, Rs 1 d c i = Rs1 wd d c i)
    (lv : GSem nD τ sig → HIx 4 → ℕ) (hlv : (K (F := F)).Refines lv) :
    (K (F := F)).TileObl (D (F := F)) 𝒱 (P tb Rs) v₀ 1 lv := by
  intro d c i O W hO _ _
  simp only [show (P (F := F) tb Rs).ox = fun _ _ => 0 from rfl, add_zero]
  change iprop(levAts _ lv ∗ emp ∗ ((tblLoc d ↦{tileShare (Fin.cast (nCore_eq 1) c) (Fin.cast (nSub_eq 1) i)} tb d)
        ∗ Rs 1 d (Fin.cast (nCore_eq 1) c) (Fin.cast (nSub_eq 1) i)) ∗ _ ∗ _ ∗ _)
    ⊢ wp _ _ _ (Pipeline.liftProg (defs₀ (F := F) (.scVector ((K (F := F)).core 1 c) ((K (F := F)).sub 1 i)) 1 ()))
        (fun _ => iprop(((tblLoc d ↦{tileShare (Fin.cast (nCore_eq 1) c) (Fin.cast (nSub_eq 1) i)} tb d)
          ∗ Rs 1 d (Fin.cast (nCore_eq 1) c) (Fin.cast (nSub_eq 1) i)) ∗ _ ∗ _ ∗ _))
  rw [hRs]
  refine BI.Entails.trans ?_ (Pipeline.wp_liftProg (D (F := F)) (Pipeline.defs_kernel pcfgs defs₀) 𝒱₀ _ Set.univ none _ _)
  have hc : ((K (F := F)).core 1 c).val < grid1.bound 0 ∧ ((K (F := F)).sub 1 i).val < grid1.bound 1 := ⟨c.isLt, i.isLt⟩
  rw [defs₀_vector1]; simp only [SparseCore.onTile, hc, and_self, ↓reduceDIte]
  unfold Rs1
  exact (tile_body1 (F := F) d (coords1 ⟨_, hc.1⟩ ⟨_, hc.2⟩) hF tb wd hwd _ lv hlv O W hO).trans (wp_mono frame _ _ fun _ => obl_post)

end Cert.Kernel.Hand.C1

end
-- ==== Proof.Kernel.TileRun2.lean ====
/-
  One vector subcore's task in the third embedding-gather call, run to its end.

  The subcore at grid point (core, subcore) is worker `2·subcore + core`. It copies its 1024 token words from the
  token list into a scratch, and then, eight times: gathers the 128 table rows those words name into one half of a
  two-slot scratch (an indexed copy, legal because every word names a row of the 1000-row table), copies the first 32
  of each row's 128 columns into the matching half of a second two-slot scratch, and starts the copy of that half out
  to its 128 rows of the result. A slot's copy-out is waited for two trips later, just before the slot is written
  again, and the last two after the loop; so between its start and its wait nothing touches the copy's source or
  destination. Each copy is on a semaphore of the subcore's own with one copy in flight at a time.

  The loop's invariant says, before each of the eight trips, which slot's copy-out is in flight and for which block of
  the result; a flying copy holds that block and the slot's half of the scratch until its wait returns them. The two
  halves of the scratch partition it (`crows_compl01`), which is what lets a half be held as "everything but the other
  half" while the other half is away; a trip's half is the first for an even trip and the second for an odd one
  (`crows_even`, `crows_odd`).
-/
import proofs.«203661_g84404697301628_cont_9to1_m_135_26_alg».proof.Proof.Kernel.KCommon

noncomputable section

namespace Cert.Kernel.Hand.C2

open Cert.Kernel Cert.Kernel.Gen Cert.Kernel.Hand
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [hK : Cert.Kernel.Facts] [FloatOps F]

local notation "𝕄" => MT nD τ sig (HIx 4) (Elt F) ℕ UU ℕ

local notation "tblW" => (Memref.whole Cert.Kernel.main_v0_scv : Memref Cert.Kernel.sig Kind.scVector Space.hbm Cert.Kernel.S1000x128 EltTy.f32)
local notation "idxW" => (Memref.whole Cert.Kernel.main_v9_scv : Memref Cert.Kernel.sig Kind.scVector Space.hbm Cert.Kernel.S32768 EltTy.i32)
local notation "outW" => (Memref.whole Cert.Kernel.main_v10_scv : Memref Cert.Kernel.sig Kind.scVector Space.hbm Cert.Kernel.S2x16384x32 EltTy.f32)
local notation "s0W" => (Memref.whole Cert.Kernel.cc2_scratch0 : Memref Cert.Kernel.sig Kind.scVector Space.vmem Cert.Kernel.S1024 EltTy.i32)
local notation "s1W" => (Memref.whole Cert.Kernel.cc2_scratch1 : Memref Cert.Kernel.sig Kind.scVector Space.vmem Cert.Kernel.S2x128x128 EltTy.f32)
local notation "s2W" => (Memref.whole Cert.Kernel.cc2_scratch2 : Memref Cert.Kernel.sig Kind.scVector Space.vmem Cert.Kernel.S2x128x32 EltTy.f32)

variable (d : Dev nD) (L : grid2.Coords)

abbrev cV (L : grid2.Coords) : Fin τ.nSC := (L 0).castLE hcore2
abbrev jV (L : grid2.Coords) : Fin τ.nSub := (L 1).castLE hsub2
/-- the vector subcore at grid point `L` -/
abbrev tile : Thread nD τ := V d (cV L) (jV L)

/-- the part of the token list this subcore fetches -/
abbrev idxSl (L : grid2.Coords) : Memref sig .scVector .hbm S1024 .i32 := (idxW).slice (Rect.unit (s := S32768) (k2_off1 L) S1024.size (k2_off1_inb L)) (fun _ => rfl)
/-- trip `t`'s 128 words of the fetched list -/
abbrev offsAt (t : Fin k2_t1_loop.trips) : Memref sig .scVector .vmem S128 .i32 :=
  (s0W).slice (Rect.unit (s := S1024) (k2_off6 t) S128.size (k2_off6_inb t)) (fun _ => rfl)
/-- the 128 rows of the result trip `t` writes -/
abbrev outAt (L : grid2.Coords) (t : Fin k2_t1_loop.trips) : Memref sig .scVector .hbm S128x32 .f32 :=
  ((outW).slice (Rect.unit (s := S2x16384x32) (k2_off13 L t) S1x128x32.size (k2_off13_inb L t)) (fun _ => rfl)).squeeze S128x32 squeezes_S1x128x32_S128x32
/-- the half of the compact-rows scratch trip `t` fills and copies out -/
abbrev crowsAt (t : Fin k2_t1_loop.trips) : Memref sig .scVector .vmem S128x32 .f32 :=
  ((s2W).slice (Rect.unit (s := S2x128x32) (k2_off12 t) S1x128x32.size (k2_off12_inb t)) (fun _ => rfl)).squeeze S128x32 squeezes_S1x128x32_S128x32

def t0 : Fin k2_t1_loop.trips := ⟨0, by decide⟩
def t1 : Fin k2_t1_loop.trips := ⟨1, by decide⟩
def t2 : Fin k2_t1_loop.trips := ⟨2, by decide⟩
def t3 : Fin k2_t1_loop.trips := ⟨3, by decide⟩
def t4 : Fin k2_t1_loop.trips := ⟨4, by decide⟩
def t5 : Fin k2_t1_loop.trips := ⟨5, by decide⟩
def t6 : Fin k2_t1_loop.trips := ⟨6, by decide⟩
def t7 : Fin k2_t1_loop.trips := ⟨7, by decide⟩

/-- the two gather semaphores and the two write-back semaphores, by slot; the prologue's copy semaphore -/
local notation "gS0" => (⟨10, by decide⟩ : DmaSem Cert.Kernel.sig)
local notation "gS1" => (⟨11, by decide⟩ : DmaSem Cert.Kernel.sig)
local notation "wS0" => (⟨12, by decide⟩ : DmaSem Cert.Kernel.sig)
local notation "wS1" => (⟨13, by decide⟩ : DmaSem Cert.Kernel.sig)
local notation "pS" => (⟨14, by decide⟩ : DmaSem Cert.Kernel.sig)

/-- every word of the fetched list names a row of the table -/
def InRange (g5 : Buf (Elt F) ((s0W).view.loc (tile d L))) : Prop :=
  ∀ (o : Fin 1 → Nat) (h : ∀ a, o a + S128.size a ≤ S1024.size a) (x : S128.Idx),
    (((s0W).slice (Rect.unit (s := S1024) o S128.size h) (fun _ => rfl)).view.read (Elt F) g5 x).toNat < S1000x128.size gathers_S1000x128_S128x128.axis

/-- a block of the result, at some contents -/
def outHeld (t : Fin k2_t1_loop.trips) : sProp 𝕄 :=
  iprop(∃ f, (outAt L t).view.loc (tile d L) ↦[(outAt L t).view.set]{fullShare} f)
/-- a half of the compact-rows scratch (the one trip `t` uses), at some contents -/
def crowsHeld (t : Fin k2_t1_loop.trips) : sProp 𝕄 :=
  iprop(∃ f, (s2W).view.loc (tile d L) ↦[Finset.univ \ (crowsAt t).view.set]{fullShare} f)
/-- slot `s` idle: its write-back semaphore at zero and its half of the scratch in hand -/
def slotFree (w : DmaSem sig) (t : Fin k2_t1_loop.trips) : sProp 𝕄 :=
  iprop(semVal (tile d L, SemLoc.dma w) 0 ∗ crowsHeld (F := F) d L t)
/-- slot `s` busy: trip `t`'s write-back in flight, carrying its block of the result and its half of the scratch -/
def slotBusy (w : DmaSem sig) (t : Fin k2_t1_loop.trips) : sProp 𝕄 :=
  iprop(∃ fo f, Transfers.Flight (countersEmb (U := UU)) (tile d L) (SemLoc.dma w) (default : HIx 4) 131072
    iprop(((outAt L t).view.loc (tile d L) ↦[(outAt L t).view.set]{fullShare} fo)
      ∗ ((s2W).view.loc (tile d L) ↦[(crowsAt t).view.set]{fullShare} f)))

/-- what every trip keeps: the wait evidence, the table's share, the fetched list (in range), the gathered-rows scratch,
    both gather semaphores at zero, and what the subcore owes with the waits recorded so far -/
def common (O : CellTallies nD τ sig (HIx 4)) (W : Waits sig (HIx 4)) (q : PosShare TreeShare)
    (ft : Buf (Elt F) ((tblW).view.loc (tile d L))) : sProp 𝕄 :=
  iprop(Transfers.MayWaits (tile d L) (none : HIx 4) O
    ∗ ((tblW).view.loc (tile d L) ↦{q} ft)
    ∗ (∃ g5, ⌜InRange (F := F) d L g5⌝ ∗ (s0W).view.loc (tile d L) ↦{fullShare} g5)
    ∗ (∃ r, (s1W).view.loc (tile d L) ↦{fullShare} r)
    ∗ semVal (tile d L, SemLoc.dma gS0) 0 ∗ semVal (tile d L, SemLoc.dma gS1) 0
    ∗ ∃ W', ⌜∀ p ∈ W', p ∈ W ∨ p.2 = none⌝ ∗ owes (tile d L) O W')

section Inv
variable (O : CellTallies nD τ sig (HIx 4)) (W : Waits sig (HIx 4)) (q : PosShare TreeShare) (ft : Buf (Elt F) ((tblW).view.loc (tile d L)))
/-- before trip 0: both slots idle, every block in hand -/
def inv0 : sProp 𝕄 := iprop(common d L O W q ft ∗ slotFree d L wS0 t1 ∗ slotFree d L wS1 t0 ∗ outHeld d L t0 ∗ outHeld d L t1 ∗ outHeld d L t2 ∗ outHeld d L t3 ∗ outHeld d L t4 ∗ outHeld d L t5 ∗ outHeld d L t6 ∗ outHeld d L t7)
/-- before trip 1: block 0 flying, every other block in hand -/
def inv1 : sProp 𝕄 := iprop(common d L O W q ft ∗ slotBusy d L wS0 t0 ∗ slotFree d L wS1 t0 ∗ outHeld d L t1 ∗ outHeld d L t2 ∗ outHeld d L t3 ∗ outHeld d L t4 ∗ outHeld d L t5 ∗ outHeld d L t6 ∗ outHeld d L t7)
/-- before trip 2: blocks 0 and 1 flying, every other block in hand -/
def inv2 : sProp 𝕄 := iprop(common d L O W q ft ∗ slotBusy d L wS0 t0 ∗ slotBusy d L wS1 t1 ∗ outHeld d L t2 ∗ outHeld d L t3 ∗ outHeld d L t4 ∗ outHeld d L t5 ∗ outHeld d L t6 ∗ outHeld d L t7)
/-- before trip 3: blocks 1 and 2 flying, every other block in hand -/
def inv3 : sProp 𝕄 := iprop(common d L O W q ft ∗ slotBusy d L wS0 t2 ∗ slotBusy d L wS1 t1 ∗ outHeld d L t0 ∗ outHeld d L t3 ∗ outHeld d L t4 ∗ outHeld d L t5 ∗ outHeld d L t6 ∗ outHeld d L t7)
/-- before trip 4: blocks 2 and 3 flying, every other block in hand -/
def inv4 : sProp 𝕄 := iprop(common d L O W q ft ∗ slotBusy d L wS0 t2 ∗ slotBusy d L wS1 t3 ∗ outHeld d L t0 ∗ outHeld d L t1 ∗ outHeld d L t4 ∗ outHeld d L t5 ∗ outHeld d L t6 ∗ outHeld d L t7)
/-- before trip 5: blocks 3 and 4 flying, every other block in hand -/
def inv5 : sProp 𝕄 := iprop(common d L O W q ft ∗ slotBusy d L wS0 t4 ∗ slotBusy d L wS1 t3 ∗ outHeld d L t0 ∗ outHeld d L t1 ∗ outHeld d L t2 ∗ outHeld d L t5 ∗ outHeld d L t6 ∗ outHeld d L t7)
/-- before trip 6: blocks 4 and 5 flying, every other block in hand -/
def inv6 : sProp 𝕄 := iprop(common d L O W q ft ∗ slotBusy d L wS0 t4 ∗ slotBusy d L wS1 t5 ∗ outHeld d L t0 ∗ outHeld d L t1 ∗ outHeld d L t2 ∗ outHeld d L t3 ∗ outHeld d L t6 ∗ outHeld d L t7)
/-- before trip 7: blocks 5 and 6 flying, every other block in hand -/
def inv7 : sProp 𝕄 := iprop(common d L O W q ft ∗ slotBusy d L wS0 t6 ∗ slotBusy d L wS1 t5 ∗ outHeld d L t0 ∗ outHeld d L t1 ∗ outHeld d L t2 ∗ outHeld d L t3 ∗ outHeld d L t4 ∗ outHeld d L t7)
/-- after trip 7: blocks 6 and 7 flying, every other block in hand -/
def inv8 : sProp 𝕄 := iprop(common d L O W q ft ∗ slotBusy d L wS0 t6 ∗ slotBusy d L wS1 t7 ∗ outHeld d L t0 ∗ outHeld d L t1 ∗ outHeld d L t2 ∗ outHeld d L t3 ∗ outHeld d L t4 ∗ outHeld d L t5)
/-- the outer loop's invariant before trip `k` -/
def invO (k : Nat) (_ : PUnit) : sProp 𝕄 :=
  match k with
  | 0 => inv0 d L O W q ft
  | 1 => inv1 d L O W q ft
  | 2 => inv2 d L O W q ft
  | 3 => inv3 d L O W q ft
  | 4 => inv4 d L O W q ft
  | 5 => inv5 d L O W q ft
  | 6 => inv6 d L O W q ft
  | 7 => inv7 d L O W q ft
  | _ => inv8 d L O W q ft
end Inv

/-- the compaction loop's invariant, contents untracked: the gathered rows and trip `t`'s half of the compact rows in hand -/
def invC (t : Fin k2_t1_loop.trips) (_ : Nat) (_ : PUnit) : sProp 𝕄 :=
  iprop((∃ r, (s1W).view.loc (tile d L) ↦{fullShare} r) ∗ crowsHeld (F := F) d L t)

/-- an element lies in trip `t`'s half of the compact-rows scratch exactly when each coordinate lies in the half's box -/
theorem mem_crowsAt (t : Fin k2_t1_loop.trips) (x : S2x128x32.Idx) :
    x ∈ (crowsAt t).view.set ↔ ∀ a, k2_off12 t a ≤ x a ∧ (x a : Nat) < k2_off12 t a + S1x128x32.size a := by
  have hs : ((crowsAt t).view.set : Finset S2x128x32.Idx)
      = (Rect.unit (s := S2x128x32) (k2_off12 t) S1x128x32.size (k2_off12_inb t)).set := by
    show (((View.whole cc2_scratch2).slice (Rect.unit (s := S2x128x32) (k2_off12 t) S1x128x32.size (k2_off12_inb t))).reshape S128x32 _).set = _
    rw [View.set_reshape, View.set_slice_whole]
  constructor
  · intro h; exact Rect.mem_set_unit.mp (hs ▸ h)
  · intro h; exact hs ▸ Rect.mem_set_unit.mpr h

/-- the two halves partition the scratch: what is not in the second half is the first half -/
theorem crows_compl01 : Finset.univ \ (crowsAt t1).view.set = (crowsAt t0).view.set := by
  ext x
  rw [Finset.mem_sdiff, mem_crowsAt, mem_crowsAt]
  simp only [Finset.mem_univ, true_and]
  have e0 : k2_off12 t0 = ![0, 0, 0] := by decide
  have e1 : k2_off12 t1 = ![1, 0, 0] := by decide
  rw [e0, e1]
  have h0 : (x 0 : Nat) < 2 := (x 0).isLt
  have h1 : (x 1 : Nat) < 128 := (x 1).isLt
  have h2 : (x 2 : Nat) < 32 := (x 2).isLt
  constructor
  · intro h a
    have hx0 : (x 0 : Nat) = 0 := by
      by_contra hne
      exact h (fun b => by
        match b with
        | ⟨0, _⟩ => exact ⟨by show 1 ≤ (x 0 : Nat); omega, by show (x 0 : Nat) < 1 + 1; omega⟩
        | ⟨1, _⟩ => exact ⟨Nat.zero_le _, by show (x 1 : Nat) < 0 + 128; omega⟩
        | ⟨2, _⟩ => exact ⟨Nat.zero_le _, by show (x 2 : Nat) < 0 + 32; omega⟩)
    match a with
    | ⟨0, _⟩ => exact ⟨Nat.zero_le _, by show (x 0 : Nat) < 0 + 1; omega⟩
    | ⟨1, _⟩ => exact ⟨Nat.zero_le _, by show (x 1 : Nat) < 0 + 128; omega⟩
    | ⟨2, _⟩ => exact ⟨Nat.zero_le _, by show (x 2 : Nat) < 0 + 32; omega⟩
  · intro h hc
    have a0 : (x 0 : Nat) < 0 + 1 := (h 0).2
    have b0 : 1 ≤ (x 0 : Nat) := (hc 0).1
    omega

/-- and what is not in the first half is the second -/
theorem crows_compl10 : Finset.univ \ (crowsAt t0).view.set = (crowsAt t1).view.set := by
  rw [← crows_compl01, sdiff_sdiff_right_self]
  exact inf_eq_right.mpr (Finset.subset_univ _)

/-- two trips whose halves start at the same place use the same half -/
theorem crows_set_congr (t s : Fin k2_t1_loop.trips) (h : k2_off12 t = k2_off12 s) : (crowsAt t).view.set = (crowsAt s).view.set := by
  ext x
  rw [mem_crowsAt, mem_crowsAt, h]

/-- an even trip's half is the first: everything but the second -/
theorem crows_even (t : Fin k2_t1_loop.trips) (h : k2_off12 t = k2_off12 t0) :
    (crowsAt t).view.set = Finset.univ \ (crowsAt t1).view.set := by
  rw [crows_compl01]; exact crows_set_congr t t0 h
/-- an odd trip's half is the second: everything but the first -/
theorem crows_odd (t : Fin k2_t1_loop.trips) (h : k2_off12 t = k2_off12 t1) :
    (crowsAt t).view.set = Finset.univ \ (crowsAt t0).view.set := by
  rw [crows_compl10]; exact crows_set_congr t t1 h

theorem inb_w0 : ∀ a, (![0] : Fin 1 → Nat) a + S128.size a ≤ S1024.size a := by decide
theorem inb_w128 : ∀ a, (![128] : Fin 1 → Nat) a + S128.size a ≤ S1024.size a := by decide
theorem inb_w256 : ∀ a, (![256] : Fin 1 → Nat) a + S128.size a ≤ S1024.size a := by decide
theorem inb_w384 : ∀ a, (![384] : Fin 1 → Nat) a + S128.size a ≤ S1024.size a := by decide
theorem inb_w512 : ∀ a, (![512] : Fin 1 → Nat) a + S128.size a ≤ S1024.size a := by decide
theorem inb_w640 : ∀ a, (![640] : Fin 1 → Nat) a + S128.size a ≤ S1024.size a := by decide
theorem inb_w768 : ∀ a, (![768] : Fin 1 → Nat) a + S128.size a ≤ S1024.size a := by decide
theorem inb_w896 : ∀ a, (![896] : Fin 1 → Nat) a + S128.size a ≤ S1024.size a := by decide

theorem size_tbl : S1000x128.size gathers_S1000x128_S128x128.axis = 1000 := by decide

set_option maxHeartbeats 1200000 in
/-- One vector subcore's whole task for the third gather call: fetch its 1024 token words, then eight times gather 128 table
    rows, compact their first 32 columns, and start the block's write-back, waiting for a slot's previous write-back
    before reusing the slot; at the end wait for the last two. Every copy is the subcore's own on a semaphore nobody
    else touches, one in flight per semaphore; a write-back stays in flight across two trips of the loop, carried in the
    loop's invariant together with the block of the result and the half of the scratch it holds. Contents are not tracked
    here: the task ends, faults nowhere, and hands back what it was handed. -/
theorem tile_run2 (O : CellTallies nD τ sig (HIx 4)) (W : Waits sig (HIx 4)) (q : PosShare TreeShare)
    (ft : Buf (Elt F) ((tblW).view.loc (tile d L))) (fi : Buf (Elt F) ((idxSl L).view.loc (tile d L)))
    (hfi : ∀ y, (fi y).toNat < 1000) :
    iprop(Transfers.MayWaits (tile d L) (none : HIx 4) O
        ∗ ((tblW).view.loc (tile d L) ↦{q} ft)
        ∗ ((idxSl L).view.loc (tile d L) ↦[(idxSl L).view.set]{fullShare} fi)
        ∗ (∃ f5, (s0W).view.loc (tile d L) ↦{fullShare} f5)
        ∗ (∃ r, (s1W).view.loc (tile d L) ↦{fullShare} r)
        ∗ crowsHeld (F := F) d L t1 ∗ crowsHeld (F := F) d L t0
        ∗ outHeld (F := F) d L t0 ∗ outHeld (F := F) d L t1 ∗ outHeld (F := F) d L t2 ∗ outHeld (F := F) d L t3 ∗ outHeld (F := F) d L t4 ∗ outHeld (F := F) d L t5 ∗ outHeld (F := F) d L t6 ∗ outHeld (F := F) d L t7
        ∗ semVal (tile d L, SemLoc.dma gS0) 0 ∗ semVal (tile d L, SemLoc.dma gS1) 0
        ∗ semVal (tile d L, SemLoc.dma wS0) 0 ∗ semVal (tile d L, SemLoc.dma wS1) 0
        ∗ semVal (tile d L, SemLoc.dma pS) 0
        ∗ owes (tile d L) O W)
      ⊢ wp frame (wpE (defs₀ (F := F)) 𝒱₀ (tile d L) none) Set.univ
          (cc2_gather_kernel L tblW (Memref.isWhole_whole _) idxW (Memref.isWhole_whole _) outW (Memref.isWhole_whole _)
            s0W (Memref.isWhole_whole _) s1W (Memref.isWhole_whole _) s2W (Memref.isWhole_whole _) cc2_scratch3 cc2_scratch4 cc2_scoped0)
          (fun _ => iprop(((tblW).view.loc (tile d L) ↦{q} ft)
            ∗ ((idxSl L).view.loc (tile d L) ↦[(idxSl L).view.set]{fullShare} fi)
            ∗ (∃ f5, (s0W).view.loc (tile d L) ↦{fullShare} f5)
            ∗ (∃ r, (s1W).view.loc (tile d L) ↦{fullShare} r)
            ∗ (∃ f, (s2W).view.loc (tile d L) ↦[(crowsAt t6).view.set]{fullShare} f)
            ∗ (∃ f, (s2W).view.loc (tile d L) ↦[(crowsAt t7).view.set]{fullShare} f)
            ∗ outHeld (F := F) d L t0 ∗ outHeld (F := F) d L t1 ∗ outHeld (F := F) d L t2 ∗ outHeld (F := F) d L t3 ∗ outHeld (F := F) d L t4 ∗ outHeld (F := F) d L t5 ∗ outHeld (F := F) d L t6 ∗ outHeld (F := F) d L t7
            ∗ semVal (tile d L, SemLoc.dma gS0) 0 ∗ semVal (tile d L, SemLoc.dma gS1) 0
            ∗ semVal (tile d L, SemLoc.dma wS0) 0 ∗ semVal (tile d L, SemLoc.dma wS1) 0
            ∗ semVal (tile d L, SemLoc.dma pS) 0
            ∗ ∃ W', ⌜∀ p ∈ W', p ∈ W ∨ p.2 = none⌝ ∗ owes (tile d L) O W')) := by
  rw [cc2_gather_kernel_eq_skeleton]; unfold cc2_gather_kernel_skel
  iintro ⟨Hmw, Ht, Hi, ⟨%f5, H5⟩, H6, Hc0, Hc1, Ho0, Ho1, Ho2, Ho3, Ho4, Ho5, Ho6, Ho7, Hg0, Hg1, Hw0, Hw1, Hp, HO⟩
  sl_exec
  have h5 : InRange (F := F) d L (View.write (Elt F) (s0W).view f5 (tile_run2.sl.dma0 d L fi) Finset.univ) := by
    intro o h x
    rw [View.write_whole_univ, size_tbl]
    unfold tile_run2.sl.dma0
    simp only [View.read_apply]
    exact hfi _
  sl_for (invO d L O W q ft) $$ [Hmw Ht H5 H6 Hc0 Hc1 Ho0 Ho1 Ho2 Ho3 Ho4 Ho5 Ho6 Ho7 Hg0 Hg1 Hw0 Hw1 HO]
  case region =>
    intro k u
    obtain ⟨k, hk⟩ := k
    match k, hk with
    | k + 8, hk => exact absurd (Nat.lt_of_lt_of_le hk k2_t1_abs.2.1) (by omega)
    | 0, hk =>
      -- trip 0: slot 0 idle, nothing to wait for
      have k2_h1 : ¬ k2_cond1 t0 = 1#1 := by decide
      change inv0 d L O W q ft ⊢ wp frame (wpE (defs₀ (F := F)) 𝒱₀ (tile d L) none) Set.univ (tile_run2.sl.prog.body_1 L t0 u) (fun _ => inv1 d L O W q ft)
      unfold inv0 common slotFree outHeld crowsHeld
      iintro ⟨⟨Hmw, Ht, ⟨%g5, %hin, H5⟩, H6, Hg0, Hg1, %W', %hW', HO⟩, ⟨Hw0, Hc⟩, Hs1, ⟨%o0, Ho0⟩, Ho1, Ho2, Ho3, Ho4, Ho5, Ho6, Ho7⟩
      icases H6 with ⟨%r6, H6⟩
      icases Hc with ⟨%c0, Hc⟩
      have hinT : ∀ x, (((s0W).slice (Rect.unit (s := S1024) ![0] S128.size inb_w0) (fun _ => rfl)).view.read (Elt F) g5 x).toNat
          < S1000x128.size gathers_S1000x128_S128x128.axis := hin ![0] inb_w0
      have hinK : ∀ x, ((offsAt t0).view.read (Elt F) g5 x).toNat < S1000x128.size gathers_S1000x128_S128x128.axis := hin _ _
      sl_exec
      sl_for (invC (F := F) d L t1) $$ [H6 Hc]
      case region =>
        intro j _
        unfold invC crowsHeld
        iintro ⟨⟨%r, H6⟩, ⟨%f, Hc⟩⟩
        sl_exec
        sl_step
        isplitl [H6]; · iexists _; iexact H6
        iexists _; iexact Hc
      · unfold invC crowsHeld
        isplitl [H6]; · iexists _; iexact H6
        iexists _; iexact Hc
      iintro %_ HI
      unfold invC crowsHeld
      icases HI with ⟨⟨%r, H6⟩, ⟨%f, Hc⟩⟩
      sl_exec
      sl_step
      iclear Hc
      unfold inv1 common slotBusy slotFree outHeld crowsHeld
      isplitl [Hmw Ht H5 H6 Hg0 Hg1 HO]
      · isplitl [Hmw]; · iexact Hmw
        isplitl [Ht]; · iexact Ht
        isplitl [H5]
        · iexists g5; isplitr
          · ipureintro; exact hin
          · iexact H5
        isplitl [H6]; · iexists _; iexact H6
        isplitl [Hg0]; · iexact Hg0
        isplitl [Hg1]; · iexact Hg1
        iexists (insert (SemLoc.dma gS0, (default : HIx 4)) W'); isplitr
        · ipureintro; intro p hp
          rcases Finset.mem_insert.mp hp with hp | hp
          · exact Or.inr (by subst hp; rfl)
          · exact hW' p hp
        · iexact HO
      isplitl [Hw0]; · iexists _, _; iexact Hw0
      isplitl [Hs1]; · iexact Hs1
      isplitl [Ho1]; · iexact Ho1
      isplitl [Ho2]; · iexact Ho2
      isplitl [Ho3]; · iexact Ho3
      isplitl [Ho4]; · iexact Ho4
      isplitl [Ho5]; · iexact Ho5
      isplitl [Ho6]; · iexact Ho6
      iexact Ho7
    | 1, hk =>
      -- trip 1: slot 1 idle, nothing to wait for
      have k2_h1 : ¬ k2_cond1 t1 = 1#1 := by decide
      change inv1 d L O W q ft ⊢ wp frame (wpE (defs₀ (F := F)) 𝒱₀ (tile d L) none) Set.univ (tile_run2.sl.prog.body_1 L t1 u) (fun _ => inv2 d L O W q ft)
      unfold inv1 common slotBusy slotFree outHeld crowsHeld
      iintro ⟨⟨Hmw, Ht, ⟨%g5, %hin, H5⟩, H6, Hg0, Hg1, %W', %hW', HO⟩, Hb0, ⟨Hw1, Hc⟩, ⟨%o1, Ho1⟩, Ho2, Ho3, Ho4, Ho5, Ho6, Ho7⟩
      icases H6 with ⟨%r6, H6⟩
      icases Hc with ⟨%c0, Hc⟩
      have hinT : ∀ x, (((s0W).slice (Rect.unit (s := S1024) ![128] S128.size inb_w128) (fun _ => rfl)).view.read (Elt F) g5 x).toNat
          < S1000x128.size gathers_S1000x128_S128x128.axis := hin ![128] inb_w128
      have hinK : ∀ x, ((offsAt t1).view.read (Elt F) g5 x).toNat < S1000x128.size gathers_S1000x128_S128x128.axis := hin _ _
      sl_exec
      sl_for (invC (F := F) d L t0) $$ [H6 Hc]
      case region =>
        intro j _
        unfold invC crowsHeld
        iintro ⟨⟨%r, H6⟩, ⟨%f, Hc⟩⟩
        sl_exec
        sl_step
        isplitl [H6]; · iexists _; iexact H6
        iexists _; iexact Hc
      · unfold invC crowsHeld
        isplitl [H6]; · iexists _; iexact H6
        iexists _; iexact Hc
      iintro %_ HI
      unfold invC crowsHeld
      icases HI with ⟨⟨%r, H6⟩, ⟨%f, Hc⟩⟩
      sl_exec
      sl_step
      iclear Hc
      unfold inv2 common slotBusy outHeld
      isplitl [Hmw Ht H5 H6 Hg0 Hg1 HO]
      · isplitl [Hmw]; · iexact Hmw
        isplitl [Ht]; · iexact Ht
        isplitl [H5]
        · iexists g5; isplitr
          · ipureintro; exact hin
          · iexact H5
        isplitl [H6]; · iexists _; iexact H6
        isplitl [Hg0]; · iexact Hg0
        isplitl [Hg1]; · iexact Hg1
        iexists (insert (SemLoc.dma gS1, (default : HIx 4)) W'); isplitr
        · ipureintro; intro p hp
          rcases Finset.mem_insert.mp hp with hp | hp
          · exact Or.inr (by subst hp; rfl)
          · exact hW' p hp
        · iexact HO
      isplitl [Hb0]; · iexact Hb0
      isplitl [Hw1]; · iexists _, _; iexact Hw1
      isplitl [Ho2]; · iexact Ho2
      isplitl [Ho3]; · iexact Ho3
      isplitl [Ho4]; · iexact Ho4
      isplitl [Ho5]; · iexact Ho5
      isplitl [Ho6]; · iexact Ho6
      iexact Ho7
    | 2, hk =>
      -- trip 2: block 0's write-back is waited for, then slot 0 is reused
      have k2_h1 : k2_cond1 t2 = 1#1 := by decide
      change inv2 d L O W q ft ⊢ wp frame (wpE (defs₀ (F := F)) 𝒱₀ (tile d L) none) Set.univ (tile_run2.sl.prog.body_1 L t2 u) (fun _ => inv3 d L O W q ft)
      unfold inv2 common slotBusy outHeld
      iintro ⟨⟨Hmw, Ht, ⟨%g5, %hin, H5⟩, H6, Hg0, Hg1, %W', %hW', HO⟩, ⟨%fo0, %fc0, Hw0⟩, Hb1, ⟨%o2, Ho2⟩, Ho3, Ho4, Ho5, Ho6, Ho7⟩
      icases H6 with ⟨%r6, H6⟩
      have hinT : ∀ x, (((s0W).slice (Rect.unit (s := S1024) ![256] S128.size inb_w256) (fun _ => rfl)).view.read (Elt F) g5 x).toNat
          < S1000x128.size gathers_S1000x128_S128x128.axis := hin ![256] inb_w256
      have hinK : ∀ x, ((offsAt t2).view.read (Elt F) g5 x).toNat < S1000x128.size gathers_S1000x128_S128x128.axis := hin _ _
      sl_exec
      ihave Hc := (Entails.of_eq (show ((s2W).view.loc (tile d L) ↦[(crowsAt t0).view.set]{fullShare} fc0 : sProp 𝕄)
          = ((s2W).view.loc (tile d L) ↦[Finset.univ \ (crowsAt t1).view.set]{fullShare} fc0) from by rw [crows_even t0 (by decide)])) $$ Hw0_src
      sl_for (invC (F := F) d L t1) $$ [H6 Hc]
      case region =>
        intro j _
        unfold invC crowsHeld
        iintro ⟨⟨%r, H6⟩, ⟨%f, Hc⟩⟩
        sl_exec
        sl_step
        isplitl [H6]; · iexists _; iexact H6
        iexists _; iexact Hc
      · unfold invC crowsHeld
        isplitl [H6]; · iexists _; iexact H6
        iexists _; iexact Hc
      iintro %_ HI
      unfold invC crowsHeld
      icases HI with ⟨⟨%r, H6⟩, ⟨%f, Hc⟩⟩
      sl_exec
      sl_step
      iclear Hc
      unfold inv3 common slotBusy outHeld
      isplitl [Hmw Ht H5 H6 Hg0 Hg1 HO]
      · isplitl [Hmw]; · iexact Hmw
        isplitl [Ht]; · iexact Ht
        isplitl [H5]
        · iexists g5; isplitr
          · ipureintro; exact hin
          · iexact H5
        isplitl [H6]; · iexists _; iexact H6
        isplitl [Hg0]; · iexact Hg0
        isplitl [Hg1]; · iexact Hg1
        iexists (insert (SemLoc.dma gS0, (default : HIx 4)) (insert (SemLoc.dma wS0, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hw0]; · iexists _, _; iexact Hw0
      isplitl [Hb1]; · iexact Hb1
      isplitl [Hw0_dst]; · iexists _; iexact Hw0_dst
      isplitl [Ho3]; · iexact Ho3
      isplitl [Ho4]; · iexact Ho4
      isplitl [Ho5]; · iexact Ho5
      isplitl [Ho6]; · iexact Ho6
      iexact Ho7
    | 3, hk =>
      -- trip 3: block 1's write-back is waited for, then slot 1 is reused
      have k2_h1 : k2_cond1 t3 = 1#1 := by decide
      change inv3 d L O W q ft ⊢ wp frame (wpE (defs₀ (F := F)) 𝒱₀ (tile d L) none) Set.univ (tile_run2.sl.prog.body_1 L t3 u) (fun _ => inv4 d L O W q ft)
      unfold inv3 common slotBusy outHeld
      iintro ⟨⟨Hmw, Ht, ⟨%g5, %hin, H5⟩, H6, Hg0, Hg1, %W', %hW', HO⟩, Hb0, ⟨%fo1, %fc1, Hw1⟩, Ho0, ⟨%o3, Ho3⟩, Ho4, Ho5, Ho6, Ho7⟩
      icases H6 with ⟨%r6, H6⟩
      have hinT : ∀ x, (((s0W).slice (Rect.unit (s := S1024) ![384] S128.size inb_w384) (fun _ => rfl)).view.read (Elt F) g5 x).toNat
          < S1000x128.size gathers_S1000x128_S128x128.axis := hin ![384] inb_w384
      have hinK : ∀ x, ((offsAt t3).view.read (Elt F) g5 x).toNat < S1000x128.size gathers_S1000x128_S128x128.axis := hin _ _
      sl_exec
      ihave Hc := (Entails.of_eq (show ((s2W).view.loc (tile d L) ↦[(crowsAt t1).view.set]{fullShare} fc1 : sProp 𝕄)
          = ((s2W).view.loc (tile d L) ↦[Finset.univ \ (crowsAt t0).view.set]{fullShare} fc1) from by rw [crows_odd t1 (by decide)])) $$ Hw1_src
      sl_for (invC (F := F) d L t0) $$ [H6 Hc]
      case region =>
        intro j _
        unfold invC crowsHeld
        iintro ⟨⟨%r, H6⟩, ⟨%f, Hc⟩⟩
        sl_exec
        sl_step
        isplitl [H6]; · iexists _; iexact H6
        iexists _; iexact Hc
      · unfold invC crowsHeld
        isplitl [H6]; · iexists _; iexact H6
        iexists _; iexact Hc
      iintro %_ HI
      unfold invC crowsHeld
      icases HI with ⟨⟨%r, H6⟩, ⟨%f, Hc⟩⟩
      sl_exec
      sl_step
      iclear Hc
      unfold inv4 common slotBusy outHeld
      isplitl [Hmw Ht H5 H6 Hg0 Hg1 HO]
      · isplitl [Hmw]; · iexact Hmw
        isplitl [Ht]; · iexact Ht
        isplitl [H5]
        · iexists g5; isplitr
          · ipureintro; exact hin
          · iexact H5
        isplitl [H6]; · iexists _; iexact H6
        isplitl [Hg0]; · iexact Hg0
        isplitl [Hg1]; · iexact Hg1
        iexists (insert (SemLoc.dma gS1, (default : HIx 4)) (insert (SemLoc.dma wS1, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hb0]; · iexact Hb0
      isplitl [Hw1]; · iexists _, _; iexact Hw1
      isplitl [Ho0]; · iexact Ho0
      isplitl [Hw1_dst]; · iexists _; iexact Hw1_dst
      isplitl [Ho4]; · iexact Ho4
      isplitl [Ho5]; · iexact Ho5
      isplitl [Ho6]; · iexact Ho6
      iexact Ho7
    | 4, hk =>
      -- trip 4: block 2's write-back is waited for, then slot 0 is reused
      have k2_h1 : k2_cond1 t4 = 1#1 := by decide
      change inv4 d L O W q ft ⊢ wp frame (wpE (defs₀ (F := F)) 𝒱₀ (tile d L) none) Set.univ (tile_run2.sl.prog.body_1 L t4 u) (fun _ => inv5 d L O W q ft)
      unfold inv4 common slotBusy outHeld
      iintro ⟨⟨Hmw, Ht, ⟨%g5, %hin, H5⟩, H6, Hg0, Hg1, %W', %hW', HO⟩, ⟨%fo0, %fc0, Hw0⟩, Hb1, Ho0, Ho1, ⟨%o4, Ho4⟩, Ho5, Ho6, Ho7⟩
      icases H6 with ⟨%r6, H6⟩
      have hinT : ∀ x, (((s0W).slice (Rect.unit (s := S1024) ![512] S128.size inb_w512) (fun _ => rfl)).view.read (Elt F) g5 x).toNat
          < S1000x128.size gathers_S1000x128_S128x128.axis := hin ![512] inb_w512
      have hinK : ∀ x, ((offsAt t4).view.read (Elt F) g5 x).toNat < S1000x128.size gathers_S1000x128_S128x128.axis := hin _ _
      sl_exec
      ihave Hc := (Entails.of_eq (show ((s2W).view.loc (tile d L) ↦[(crowsAt t2).view.set]{fullShare} fc0 : sProp 𝕄)
          = ((s2W).view.loc (tile d L) ↦[Finset.univ \ (crowsAt t1).view.set]{fullShare} fc0) from by rw [crows_even t2 (by decide)])) $$ Hw0_src
      sl_for (invC (F := F) d L t1) $$ [H6 Hc]
      case region =>
        intro j _
        unfold invC crowsHeld
        iintro ⟨⟨%r, H6⟩, ⟨%f, Hc⟩⟩
        sl_exec
        sl_step
        isplitl [H6]; · iexists _; iexact H6
        iexists _; iexact Hc
      · unfold invC crowsHeld
        isplitl [H6]; · iexists _; iexact H6
        iexists _; iexact Hc
      iintro %_ HI
      unfold invC crowsHeld
      icases HI with ⟨⟨%r, H6⟩, ⟨%f, Hc⟩⟩
      sl_exec
      sl_step
      iclear Hc
      unfold inv5 common slotBusy outHeld
      isplitl [Hmw Ht H5 H6 Hg0 Hg1 HO]
      · isplitl [Hmw]; · iexact Hmw
        isplitl [Ht]; · iexact Ht
        isplitl [H5]
        · iexists g5; isplitr
          · ipureintro; exact hin
          · iexact H5
        isplitl [H6]; · iexists _; iexact H6
        isplitl [Hg0]; · iexact Hg0
        isplitl [Hg1]; · iexact Hg1
        iexists (insert (SemLoc.dma gS0, (default : HIx 4)) (insert (SemLoc.dma wS0, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hw0]; · iexists _, _; iexact Hw0
      isplitl [Hb1]; · iexact Hb1
      isplitl [Ho0]; · iexact Ho0
      isplitl [Ho1]; · iexact Ho1
      isplitl [Hw0_dst]; · iexists _; iexact Hw0_dst
      isplitl [Ho5]; · iexact Ho5
      isplitl [Ho6]; · iexact Ho6
      iexact Ho7
    | 5, hk =>
      -- trip 5: block 3's write-back is waited for, then slot 1 is reused
      have k2_h1 : k2_cond1 t5 = 1#1 := by decide
      change inv5 d L O W q ft ⊢ wp frame (wpE (defs₀ (F := F)) 𝒱₀ (tile d L) none) Set.univ (tile_run2.sl.prog.body_1 L t5 u) (fun _ => inv6 d L O W q ft)
      unfold inv5 common slotBusy outHeld
      iintro ⟨⟨Hmw, Ht, ⟨%g5, %hin, H5⟩, H6, Hg0, Hg1, %W', %hW', HO⟩, Hb0, ⟨%fo1, %fc1, Hw1⟩, Ho0, Ho1, Ho2, ⟨%o5, Ho5⟩, Ho6, Ho7⟩
      icases H6 with ⟨%r6, H6⟩
      have hinT : ∀ x, (((s0W).slice (Rect.unit (s := S1024) ![640] S128.size inb_w640) (fun _ => rfl)).view.read (Elt F) g5 x).toNat
          < S1000x128.size gathers_S1000x128_S128x128.axis := hin ![640] inb_w640
      have hinK : ∀ x, ((offsAt t5).view.read (Elt F) g5 x).toNat < S1000x128.size gathers_S1000x128_S128x128.axis := hin _ _
      sl_exec
      ihave Hc := (Entails.of_eq (show ((s2W).view.loc (tile d L) ↦[(crowsAt t3).view.set]{fullShare} fc1 : sProp 𝕄)
          = ((s2W).view.loc (tile d L) ↦[Finset.univ \ (crowsAt t0).view.set]{fullShare} fc1) from by rw [crows_odd t3 (by decide)])) $$ Hw1_src
      sl_for (invC (F := F) d L t0) $$ [H6 Hc]
      case region =>
        intro j _
        unfold invC crowsHeld
        iintro ⟨⟨%r, H6⟩, ⟨%f, Hc⟩⟩
        sl_exec
        sl_step
        isplitl [H6]; · iexists _; iexact H6
        iexists _; iexact Hc
      · unfold invC crowsHeld
        isplitl [H6]; · iexists _; iexact H6
        iexists _; iexact Hc
      iintro %_ HI
      unfold invC crowsHeld
      icases HI with ⟨⟨%r, H6⟩, ⟨%f, Hc⟩⟩
      sl_exec
      sl_step
      iclear Hc
      unfold inv6 common slotBusy outHeld
      isplitl [Hmw Ht H5 H6 Hg0 Hg1 HO]
      · isplitl [Hmw]; · iexact Hmw
        isplitl [Ht]; · iexact Ht
        isplitl [H5]
        · iexists g5; isplitr
          · ipureintro; exact hin
          · iexact H5
        isplitl [H6]; · iexists _; iexact H6
        isplitl [Hg0]; · iexact Hg0
        isplitl [Hg1]; · iexact Hg1
        iexists (insert (SemLoc.dma gS1, (default : HIx 4)) (insert (SemLoc.dma wS1, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hb0]; · iexact Hb0
      isplitl [Hw1]; · iexists _, _; iexact Hw1
      isplitl [Ho0]; · iexact Ho0
      isplitl [Ho1]; · iexact Ho1
      isplitl [Ho2]; · iexact Ho2
      isplitl [Hw1_dst]; · iexists _; iexact Hw1_dst
      isplitl [Ho6]; · iexact Ho6
      iexact Ho7
    | 6, hk =>
      -- trip 6: block 4's write-back is waited for, then slot 0 is reused
      have k2_h1 : k2_cond1 t6 = 1#1 := by decide
      change inv6 d L O W q ft ⊢ wp frame (wpE (defs₀ (F := F)) 𝒱₀ (tile d L) none) Set.univ (tile_run2.sl.prog.body_1 L t6 u) (fun _ => inv7 d L O W q ft)
      unfold inv6 common slotBusy outHeld
      iintro ⟨⟨Hmw, Ht, ⟨%g5, %hin, H5⟩, H6, Hg0, Hg1, %W', %hW', HO⟩, ⟨%fo0, %fc0, Hw0⟩, Hb1, Ho0, Ho1, Ho2, Ho3, ⟨%o6, Ho6⟩, Ho7⟩
      icases H6 with ⟨%r6, H6⟩
      have hinT : ∀ x, (((s0W).slice (Rect.unit (s := S1024) ![768] S128.size inb_w768) (fun _ => rfl)).view.read (Elt F) g5 x).toNat
          < S1000x128.size gathers_S1000x128_S128x128.axis := hin ![768] inb_w768
      have hinK : ∀ x, ((offsAt t6).view.read (Elt F) g5 x).toNat < S1000x128.size gathers_S1000x128_S128x128.axis := hin _ _
      sl_exec
      ihave Hc := (Entails.of_eq (show ((s2W).view.loc (tile d L) ↦[(crowsAt t4).view.set]{fullShare} fc0 : sProp 𝕄)
          = ((s2W).view.loc (tile d L) ↦[Finset.univ \ (crowsAt t1).view.set]{fullShare} fc0) from by rw [crows_even t4 (by decide)])) $$ Hw0_src
      sl_for (invC (F := F) d L t1) $$ [H6 Hc]
      case region =>
        intro j _
        unfold invC crowsHeld
        iintro ⟨⟨%r, H6⟩, ⟨%f, Hc⟩⟩
        sl_exec
        sl_step
        isplitl [H6]; · iexists _; iexact H6
        iexists _; iexact Hc
      · unfold invC crowsHeld
        isplitl [H6]; · iexists _; iexact H6
        iexists _; iexact Hc
      iintro %_ HI
      unfold invC crowsHeld
      icases HI with ⟨⟨%r, H6⟩, ⟨%f, Hc⟩⟩
      sl_exec
      sl_step
      iclear Hc
      unfold inv7 common slotBusy outHeld
      isplitl [Hmw Ht H5 H6 Hg0 Hg1 HO]
      · isplitl [Hmw]; · iexact Hmw
        isplitl [Ht]; · iexact Ht
        isplitl [H5]
        · iexists g5; isplitr
          · ipureintro; exact hin
          · iexact H5
        isplitl [H6]; · iexists _; iexact H6
        isplitl [Hg0]; · iexact Hg0
        isplitl [Hg1]; · iexact Hg1
        iexists (insert (SemLoc.dma gS0, (default : HIx 4)) (insert (SemLoc.dma wS0, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hw0]; · iexists _, _; iexact Hw0
      isplitl [Hb1]; · iexact Hb1
      isplitl [Ho0]; · iexact Ho0
      isplitl [Ho1]; · iexact Ho1
      isplitl [Ho2]; · iexact Ho2
      isplitl [Ho3]; · iexact Ho3
      isplitl [Hw0_dst]; · iexists _; iexact Hw0_dst
      iexact Ho7
    | 7, hk =>
      -- trip 7: block 5's write-back is waited for, then slot 1 is reused
      have k2_h1 : k2_cond1 t7 = 1#1 := by decide
      change inv7 d L O W q ft ⊢ wp frame (wpE (defs₀ (F := F)) 𝒱₀ (tile d L) none) Set.univ (tile_run2.sl.prog.body_1 L t7 u) (fun _ => inv8 d L O W q ft)
      unfold inv7 common slotBusy outHeld
      iintro ⟨⟨Hmw, Ht, ⟨%g5, %hin, H5⟩, H6, Hg0, Hg1, %W', %hW', HO⟩, Hb0, ⟨%fo1, %fc1, Hw1⟩, Ho0, Ho1, Ho2, Ho3, Ho4, ⟨%o7, Ho7⟩⟩
      icases H6 with ⟨%r6, H6⟩
      have hinT : ∀ x, (((s0W).slice (Rect.unit (s := S1024) ![896] S128.size inb_w896) (fun _ => rfl)).view.read (Elt F) g5 x).toNat
          < S1000x128.size gathers_S1000x128_S128x128.axis := hin ![896] inb_w896
      have hinK : ∀ x, ((offsAt t7).view.read (Elt F) g5 x).toNat < S1000x128.size gathers_S1000x128_S128x128.axis := hin _ _
      sl_exec
      ihave Hc := (Entails.of_eq (show ((s2W).view.loc (tile d L) ↦[(crowsAt t5).view.set]{fullShare} fc1 : sProp 𝕄)
          = ((s2W).view.loc (tile d L) ↦[Finset.univ \ (crowsAt t0).view.set]{fullShare} fc1) from by rw [crows_odd t5 (by decide)])) $$ Hw1_src
      sl_for (invC (F := F) d L t0) $$ [H6 Hc]
      case region =>
        intro j _
        unfold invC crowsHeld
        iintro ⟨⟨%r, H6⟩, ⟨%f, Hc⟩⟩
        sl_exec
        sl_step
        isplitl [H6]; · iexists _; iexact H6
        iexists _; iexact Hc
      · unfold invC crowsHeld
        isplitl [H6]; · iexists _; iexact H6
        iexists _; iexact Hc
      iintro %_ HI
      unfold invC crowsHeld
      icases HI with ⟨⟨%r, H6⟩, ⟨%f, Hc⟩⟩
      sl_exec
      sl_step
      iclear Hc
      unfold inv8 common slotBusy outHeld
      isplitl [Hmw Ht H5 H6 Hg0 Hg1 HO]
      · isplitl [Hmw]; · iexact Hmw
        isplitl [Ht]; · iexact Ht
        isplitl [H5]
        · iexists g5; isplitr
          · ipureintro; exact hin
          · iexact H5
        isplitl [H6]; · iexists _; iexact H6
        isplitl [Hg0]; · iexact Hg0
        isplitl [Hg1]; · iexact Hg1
        iexists (insert (SemLoc.dma gS1, (default : HIx 4)) (insert (SemLoc.dma wS1, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hb0]; · iexact Hb0
      isplitl [Hw1]; · iexists _, _; iexact Hw1
      isplitl [Ho0]; · iexact Ho0
      isplitl [Ho1]; · iexact Ho1
      isplitl [Ho2]; · iexact Ho2
      isplitl [Ho3]; · iexact Ho3
      isplitl [Ho4]; · iexact Ho4
      iexists _; iexact Hw1_dst
  · -- before the first trip
    iapply (Entails.of_eq (show inv0 d L O W q ft = invO d L O W q ft 0 PUnit.unit from rfl))
    unfold inv0 common slotFree outHeld crowsHeld
    isplitl [Hmw Ht H5 H6 Hg0 Hg1 HO]
    · isplitl [Hmw]; · iexact Hmw
      isplitl [Ht]; · iexact Ht
      isplitl [H5]
      · iexists _; isplitr
        · ipureintro; exact h5
        · iexact H5
      isplitl [H6]; · iexact H6
      isplitl [Hg0]; · iexact Hg0
      isplitl [Hg1]; · iexact Hg1
      iexists (insert (SemLoc.dma pS, (default : HIx 4)) W); isplitr
      · ipureintro; intro p hp
        rcases Finset.mem_insert.mp hp with hp | hp
        · exact Or.inr (by subst hp; rfl)
        · exact Or.inl hp
      · iexact HO
    isplitl [Hw0 Hc0]; · isplitl [Hw0]; · iexact Hw0
                         iexact Hc0
    isplitl [Hw1 Hc1]; · isplitl [Hw1]; · iexact Hw1
                         iexact Hc1
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    iexact Ho7
  -- after the loop: the last two write-backs
  iintro %acc HI
  ihave HI' := (Entails.of_eq (show invO d L O W q ft (Scf.trips k2_t1_loop.lb k2_t1_loop.ub k2_t1_loop.st) acc = inv8 d L O W q ft from rfl)) $$ HI
  unfold inv8 common slotBusy outHeld
  icases HI' with ⟨⟨Hmw, Ht, ⟨%g5, %hin, H5⟩, H6, Hg0, Hg1, %W', %hW', HO⟩, ⟨%foA, %fcA, Hw0⟩, ⟨%foB, %fcB, Hw1⟩, Ho0, Ho1, Ho2, Ho3, Ho4, Ho5⟩
  sl_exec
  sl_step
  isplitl [Ht]; · iexact Ht
  isplitl [Hi]; · iexact Hi
  isplitl [H5]; · iexists _; iexact H5
  isplitl [H6]; · iexact H6
  isplitl [Hw0_src]; · iexists _; iexact Hw0_src
  isplitl [Hw1_src]; · iexists _; iexact Hw1_src
  isplitl [Ho0]; · iexact Ho0
  isplitl [Ho1]; · iexact Ho1
  isplitl [Ho2]; · iexact Ho2
  isplitl [Ho3]; · iexact Ho3
  isplitl [Ho4]; · iexact Ho4
  isplitl [Ho5]; · iexact Ho5
  isplitl [Hw0_dst]; · iexists _; iexact Hw0_dst
  isplitl [Hw1_dst]; · iexists _; iexact Hw1_dst
  isplitl [Hg0]; · iexact Hg0
  isplitl [Hg1]; · iexact Hg1
  isplitl [Hw0]; · iexact Hw0
  isplitl [Hw1]; · iexact Hw1
  isplitl [Hp]; · iexact Hp
  iexists (insert (SemLoc.dma wS1, (default : HIx 4)) (insert (SemLoc.dma wS0, (default : HIx 4)) W')); isplitr
  · ipureintro; intro p hp
    rcases Finset.mem_insert.mp hp with hp | hp
    · exact Or.inr (by subst hp; rfl)
    rcases Finset.mem_insert.mp hp with hp | hp
    · exact Or.inr (by subst hp; rfl)
    · exact hW' p hp
  · iexact HO

end Cert.Kernel.Hand.C2

end
-- ==== Proof.Kernel.TileObl2.lean ====
/-
  The third gather call's task as the launch theorem wants it: from what a vector subcore is handed at the call — its
  share of the table, its slice of the token words, its blocks of the result — and its own scratch buffers and
  semaphores, to the same handed back. The subcore's scratch and semaphores are picked out of everything it owns, the
  two-slot compact-rows scratch is cut into its halves for the run and glued back afterwards, and the run itself is
  `tile_run2`.
-/
import proofs.«203661_g84404697301628_cont_9to1_m_135_26_alg».proof.Proof.Kernel.TileRun2
import proofs.«203661_g84404697301628_cont_9to1_m_135_26_alg».proof.Proof.Kernel.Pay
import Idealize.ShloMosaic.Lib.SparseCore.Ops

noncomputable section

namespace Cert.Kernel.Hand.C2

open Cert.Kernel Cert.Kernel.Gen Cert.Kernel.Hand
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [hK : Cert.Kernel.Facts] [FloatOps F]

local notation "𝕄" => MT nD τ sig (HIx 4) (Elt F) ℕ UU ℕ

local notation "tblW" => (Memref.whole Cert.Kernel.main_v0_scv : Memref Cert.Kernel.sig Kind.scVector Space.hbm Cert.Kernel.S1000x128 EltTy.f32)
local notation "idxW" => (Memref.whole Cert.Kernel.main_v9_scv : Memref Cert.Kernel.sig Kind.scVector Space.hbm Cert.Kernel.S32768 EltTy.i32)
local notation "outW" => (Memref.whole Cert.Kernel.main_v10_scv : Memref Cert.Kernel.sig Kind.scVector Space.hbm Cert.Kernel.S2x16384x32 EltTy.f32)
local notation "s0W" => (Memref.whole Cert.Kernel.cc2_scratch0 : Memref Cert.Kernel.sig Kind.scVector Space.vmem Cert.Kernel.S1024 EltTy.i32)
local notation "s1W" => (Memref.whole Cert.Kernel.cc2_scratch1 : Memref Cert.Kernel.sig Kind.scVector Space.vmem Cert.Kernel.S2x128x128 EltTy.f32)
local notation "s2W" => (Memref.whole Cert.Kernel.cc2_scratch2 : Memref Cert.Kernel.sig Kind.scVector Space.vmem Cert.Kernel.S2x128x32 EltTy.f32)
local notation "gS0" => (⟨10, by decide⟩ : DmaSem Cert.Kernel.sig)
local notation "gS1" => (⟨11, by decide⟩ : DmaSem Cert.Kernel.sig)
local notation "wS0" => (⟨12, by decide⟩ : DmaSem Cert.Kernel.sig)
local notation "wS1" => (⟨13, by decide⟩ : DmaSem Cert.Kernel.sig)
local notation "pS" => (⟨14, by decide⟩ : DmaSem Cert.Kernel.sig)

/-- the third call's token words, as the TensorCore names them -/
abbrev idxLoc2 (d : Dev nD) : Loc nD τ sig := (SparseCore.T d).loc main_v9

/-- the grid point of subcore `i` of SparseCore `c` -/
def coords2 (c : Fin 2) (i : Fin 16) : grid2.Coords :=
  fun | 0 => c | 1 => i | ⟨_ + 2, h⟩ => absurd h (Nat.not_lt.2 (Nat.le_add_left _ _))

/-- what subcore `(c, i)` is handed for the third call besides the table: its slice of the token words, at the words
    `wd`, and its eight blocks of the result, at some contents -/
def Rs2 (wd : (d : Dev nD) → Buf (Elt F) (idxLoc2 d)) (d : Dev nD) (c : Fin 2) (i : Fin 16) : sProp 𝕄 :=
  iprop(((idxSl (coords2 c i)).view.loc (tile d (coords2 c i)) ↦[(idxSl (coords2 c i)).view.set]{fullShare} wd d)
    ∗ outHeld (F := F) d (coords2 c i) t0 ∗ outHeld (F := F) d (coords2 c i) t1
    ∗ outHeld (F := F) d (coords2 c i) t2 ∗ outHeld (F := F) d (coords2 c i) t3
    ∗ outHeld (F := F) d (coords2 c i) t4 ∗ outHeld (F := F) d (coords2 c i) t5
    ∗ outHeld (F := F) d (coords2 c i) t6 ∗ outHeld (F := F) d (coords2 c i) t7)

section Tile

variable (d : Dev nD) (L : grid2.Coords)

omit [FloatOps F] in
theorem mem_own (k : DmaSem sig) (hk : (SemLoc.dma k : SemLoc sig).isScoped .scVector = true) :
    ((tile d L, SemLoc.dma k) : GSem nD τ sig) ∈ ownCells (sig := sig) (tile d L) :=
  (mem_ownCells (g := (tile d L, SemLoc.dma k))).mpr ⟨rfl, hk⟩
omit [FloatOps F] in
theorem ne_cell {k k' : DmaSem sig} (h : k ≠ k') : ((tile d L, SemLoc.dma k) : GSem nD τ sig) ≠ (tile d L, SemLoc.dma k') :=
  fun e => h (SemLoc.dma.inj (Prod.mk.inj e).2)

omit [FloatOps F] in
/-- the five semaphores this call uses are among the subcore's own: they, and the rest -/
theorem ownSems0_V2 :
    (ownSems0 (tile d L) : sProp 𝕄)
      = iprop(semVal (tile d L, SemLoc.dma gS0) 0 ∗ semVal (tile d L, SemLoc.dma gS1) 0 ∗ semVal (tile d L, SemLoc.dma wS0) 0
          ∗ semVal (tile d L, SemLoc.dma wS1) 0 ∗ semVal (tile d L, SemLoc.dma pS) 0
          ∗ bigSep ((((((ownCells (tile d L)).erase (tile d L, SemLoc.dma gS0)).erase (tile d L, SemLoc.dma gS1)).erase (tile d L, SemLoc.dma wS0)).erase
              (tile d L, SemLoc.dma wS1)).erase (tile d L, SemLoc.dma pS)) fun g => semVal g 0) := by
  unfold SparseCore.Cfg.ownSems0
  rw [SparseCore.bigSep_erase' (mem_own d L gS0 (by decide)),
    SparseCore.bigSep_erase' (Finset.mem_erase.mpr ⟨ne_cell d L (k := gS1) (k' := gS0) (by decide), mem_own d L gS1 (by decide)⟩),
    SparseCore.bigSep_erase' (Finset.mem_erase.mpr ⟨ne_cell d L (k := wS0) (k' := gS1) (by decide), Finset.mem_erase.mpr ⟨ne_cell d L (k := wS0) (k' := gS0) (by decide), mem_own d L wS0 (by decide)⟩⟩),
    SparseCore.bigSep_erase' (Finset.mem_erase.mpr ⟨ne_cell d L (k := wS1) (k' := wS0) (by decide), Finset.mem_erase.mpr ⟨ne_cell d L (k := wS1) (k' := gS1) (by decide), Finset.mem_erase.mpr ⟨ne_cell d L (k := wS1) (k' := gS0) (by decide), mem_own d L wS1 (by decide)⟩⟩⟩),
    SparseCore.bigSep_erase' (Finset.mem_erase.mpr ⟨ne_cell d L (k := pS) (k' := wS1) (by decide), Finset.mem_erase.mpr ⟨ne_cell d L (k := pS) (k' := wS0) (by decide), Finset.mem_erase.mpr ⟨ne_cell d L (k := pS) (k' := gS1) (by decide), Finset.mem_erase.mpr ⟨ne_cell d L (k := pS) (k' := gS0) (by decide), mem_own d L pS (by decide)⟩⟩⟩⟩)]

omit [FloatOps F] in
/-- the three scratch buffers are among the subcore's own: they, at some contents, and the rest -/
theorem ownBufs_V2 :
    (ownBufs (tile d L) : sProp 𝕄)
      = iprop((∃ f, (tile d L).loc cc2_scratch0 ↦{fullShare} f) ∗ (∃ f, (tile d L).loc cc2_scratch1 ↦{fullShare} f)
          ∗ (∃ f, (tile d L).loc cc2_scratch2 ↦{fullShare} f)
          ∗ bigSep ((((ownRefs (τ := τ) (.scVector (cV L) (jV L))).erase ((Proc.scVector (cV L) (jV L)).devRef cc2_scratch0)).erase
              ((Proc.scVector (cV L) (jV L)).devRef cc2_scratch1)).erase ((Proc.scVector (cV L) (jV L)).devRef cc2_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc2_scratch0) rfl)).trans ?_
  rw [SparseCore.bigSep_erase' (Finset.mem_erase.mpr ⟨fun e => absurd (Proc.devRef_injective _ e) (show (cc2_scratch1 : Ref sig .scVector) ≠ cc2_scratch0 by decide),
    SparseCore.Cfg.mem_ownRefs_of_owner (p := Proc.scVector (cV L) (jV L)) (b := (Proc.scVector (cV L) (jV L)).devRef cc2_scratch1) rfl⟩),
    SparseCore.bigSep_erase' (Finset.mem_erase.mpr ⟨fun e => absurd (Proc.devRef_injective _ e) (show (cc2_scratch2 : Ref sig .scVector) ≠ cc2_scratch1 by decide),
      Finset.mem_erase.mpr ⟨fun e => absurd (Proc.devRef_injective _ e) (show (cc2_scratch2 : Ref sig .scVector) ≠ cc2_scratch0 by decide),
    SparseCore.Cfg.mem_ownRefs_of_owner (p := Proc.scVector (cV L) (jV L)) (b := (Proc.scVector (cV L) (jV L)).devRef cc2_scratch2) rfl⟩⟩)]

omit [FloatOps F] in
/-- the compact-rows scratch, held whole, is its two halves (each as "all but the other") -/
theorem crows_split (f : Buf (Elt F) ((s2W).view.loc (tile d L))) :
    ((s2W).view.loc (tile d L) ↦[Finset.univ]{fullShare} f : sProp 𝕄)
      ⊢ iprop(((s2W).view.loc (tile d L) ↦[Finset.univ \ (crowsAt t1).view.set]{fullShare} f)
          ∗ ((s2W).view.loc (tile d L) ↦[Finset.univ \ (crowsAt t0).view.set]{fullShare} f)) := by
  have h : ((s2W).view.loc (tile d L) ↦[Finset.univ]{fullShare} f : sProp 𝕄)
      ⊢ iprop(((s2W).view.loc (tile d L) ↦[Finset.univ \ (crowsAt t1).view.set]{fullShare} f)
          ∗ ((s2W).view.loc (tile d L) ↦[Finset.univ \ (Finset.univ \ (crowsAt t1).view.set)]{fullShare} f)) :=
    (pointsTo_split_subset (Finset.subset_univ (Finset.univ \ (crowsAt t1).view.set))).1
  have e : Finset.univ \ (Finset.univ \ (crowsAt t1).view.set) = Finset.univ \ (crowsAt t0).view.set := by rw [crows_compl01]
  rw [e] at h
  exact h

omit [FloatOps F] in
/-- the halves the run hands back are the first and the second -/
theorem crows_set_last0 : (crowsAt t6).view.set = (crowsAt t0).view.set := crows_set_congr t6 t0 (by decide)
omit [FloatOps F] in
theorem crows_set_last1 : (crowsAt t7).view.set = (crowsAt t1).view.set := crows_set_congr t7 t1 (by decide)

omit [FloatOps F] in
/-- and the two halves, at whatever each holds, are the scratch whole again -/
theorem crows_join (f g : Buf (Elt F) ((s2W).view.loc (tile d L))) :
    iprop(((s2W).view.loc (tile d L) ↦[(crowsAt t6).view.set]{fullShare} f) ∗ ((s2W).view.loc (tile d L) ↦[(crowsAt t7).view.set]{fullShare} g))
      ⊢ (iprop(∃ h, (s2W).view.loc (tile d L) ↦[Finset.univ]{fullShare} h) : sProp 𝕄) := by
  rw [crows_set_last0, crows_set_last1]
  have hd : Disjoint (crowsAt t0).view.set (crowsAt t1).view.set := by
    rw [← crows_compl01]; exact Finset.sdiff_disjoint
  have hu : (crowsAt t0).view.set ∪ (crowsAt t1).view.set = Finset.univ := by
    rw [← crows_compl01]; exact Finset.sdiff_union_of_subset (Finset.subset_univ _)
  refine (pointsTo_join hd).trans ?_
  rw [hu]
  iintro H; iexists _; iexact H

/-- The task on one vector subcore, in the launch theorem's resources: the table's share, the subcore's words and blocks,
    and its own scoped storage in; the same out. -/
theorem tile_body2 (hF : (K (F := F)).Facts) (tb : (d : Dev nD) → Buf (Elt F) (tblLoc d)) (wd : (d : Dev nD) → Buf (Elt F) (idxLoc2 d))
    (hwd : ∀ d y, (wd d y).toNat < 1000) (q : PosShare TreeShare)
    (lv : GSem nD τ sig → HIx 4 → ℕ) (hlv : (K (F := F)).Refines lv)
    (O : CellTallies nD τ sig (HIx 4)) (W : Waits sig (HIx 4)) (hO : ∀ g, O g none = 0) :
    iprop(levAts (K (F := F)).L lv ∗ emp
        ∗ ((tblLoc d ↦{q} tb d)
            ∗ ((idxSl L).view.loc (tile d L) ↦[(idxSl L).view.set]{fullShare} wd d)
            ∗ outHeld (F := F) d L t0 ∗ outHeld (F := F) d L t1 ∗ outHeld (F := F) d L t2 ∗ outHeld (F := F) d L t3
            ∗ outHeld (F := F) d L t4 ∗ outHeld (F := F) d L t5 ∗ outHeld (F := F) d L t6 ∗ outHeld (F := F) d L t7)
        ∗ scopedBufs (tile d L) ∗ scopedSems0 (tile d L) ∗ owes (tile d L) O W)
      ⊢ wp frame (wpE (defs₀ (F := F)) 𝒱₀ (tile d L) none) Set.univ
          (cc2_gather_kernel L tblW (Memref.isWhole_whole _) idxW (Memref.isWhole_whole _) outW (Memref.isWhole_whole _)
            s0W (Memref.isWhole_whole _) s1W (Memref.isWhole_whole _) s2W (Memref.isWhole_whole _) cc2_scratch3 cc2_scratch4 cc2_scoped0)
          fun _ => iprop(((tblLoc d ↦{q} tb d)
            ∗ ((idxSl L).view.loc (tile d L) ↦[(idxSl L).view.set]{fullShare} wd d)
            ∗ outHeld (F := F) d L t0 ∗ outHeld (F := F) d L t1 ∗ outHeld (F := F) d L t2 ∗ outHeld (F := F) d L t3
            ∗ outHeld (F := F) d L t4 ∗ outHeld (F := F) d L t5 ∗ outHeld (F := F) d L t6 ∗ outHeld (F := F) d L t7)
            ∗ scopedBufs (tile d L) ∗ scopedSems0 (tile d L)
            ∗ ∃ W', ⌜∀ p ∈ W', p ∈ W ∨ p.2 = none⌝ ∗ owes (tile d L) O W') := by
  rw [(K (F := F)).scopedBufs_V hF d (cV L) (jV L), SparseCore.Cfg.scopedSems0_V (Val := Elt F) d (cV L) (jV L), ownSems0_V2, ownBufs_V2]
  iintro ⟨#Hlv, -, ⟨Ht, Hi, Ho0, Ho1, Ho2, Ho3, Ho4, Ho5, Ho6, Ho7⟩, ⟨H5, H6, ⟨%f7, H7⟩, Hbufs⟩, ⟨Hg0, Hg1, Hw0, Hw1, Hp, Hsems⟩, HO⟩
  ihave Hmw := ((K (F := F)).mayWaits_none (thr := tile d L) hO lv hlv) $$ Hlv
  ihave Hc := (crows_split (F := F) d L f7) $$ H7
  icases Hc with ⟨Hc1, Hc0⟩
  iapply (wp_wand_r frame (wpE (defs₀ (F := F)) 𝒱₀ (tile d L) none) Set.univ)
  isplitl [Hmw Ht Hi H5 H6 Hc0 Hc1 Ho0 Ho1 Ho2 Ho3 Ho4 Ho5 Ho6 Ho7 Hg0 Hg1 Hw0 Hw1 Hp HO]
  · iapply (tile_run2 (F := F) d L O W q (tb d) (wd d) (hwd d))
    isplitl [Hmw]; · iexact Hmw
    isplitl [Ht]; · iexact Ht
    isplitl [Hi]; · iexact Hi
    isplitl [H5]; · iexact H5
    isplitl [H6]; · iexact H6
    isplitl [Hc1]; · unfold crowsHeld; iexists _; iexact Hc1
    isplitl [Hc0]; · unfold crowsHeld; iexists _; iexact Hc0
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    isplitl [Ho7]; · iexact Ho7
    isplitl [Hg0]; · iexact Hg0
    isplitl [Hg1]; · iexact Hg1
    isplitl [Hw0]; · iexact Hw0
    isplitl [Hw1]; · iexact Hw1
    isplitl [Hp]; · iexact Hp
    iexact HO
  · iintro %a ⟨Ht, Hi, H5, H6, ⟨%c2, Hc2⟩, ⟨%c3, Hc3⟩, Ho0, Ho1, Ho2, Ho3, Ho4, Ho5, Ho6, Ho7, Hg0, Hg1, Hw0, Hw1, Hp, HO⟩
    ihave H7 := (crows_join (F := F) d L c2 c3) $$ [Hc2 Hc3]
    · isplitl [Hc2]; · iexact Hc2
      iexact Hc3
    isplitl [Ht Hi Ho0 Ho1 Ho2 Ho3 Ho4 Ho5 Ho6 Ho7]
    · isplitl [Ht]; · iexact Ht
      isplitl [Hi]; · iexact Hi
      isplitl [Ho0]; · iexact Ho0
      isplitl [Ho1]; · iexact Ho1
      isplitl [Ho2]; · iexact Ho2
      isplitl [Ho3]; · iexact Ho3
      isplitl [Ho4]; · iexact Ho4
      isplitl [Ho5]; · iexact Ho5
      isplitl [Ho6]; · iexact Ho6
      iexact Ho7
    isplitl [H5 H6 H7 Hbufs]
    · isplitl [H5]; · iexact H5
      isplitl [H6]; · iexact H6
      isplitl [H7]; · iexact H7
      iexact Hbufs
    isplitl [Hg0 Hg1 Hw0 Hw1 Hp Hsems]
    · isplitl [Hg0]; · iexact Hg0
      isplitl [Hg1]; · iexact Hg1
      isplitl [Hw0]; · iexact Hw0
      isplitl [Hw1]; · iexact Hw1
      isplitl [Hp]; · iexact Hp
      iexact Hsems
    iexact HO

end Tile

/-! ## The launch theorem's obligation for the third call -/

omit [FloatOps F] in
theorem defs₀_vector2 [FloatOps F] (c : Fin τ.nSC) (s : Fin τ.nSub) :
    defs₀ (F := F) (.scVector c s) 2 ()
      = SparseCore.onTile hcore2 hsub2 (fun c s => cc2_gather_kernel (coords2 c s) tblW (Memref.isWhole_whole _) idxW (Memref.isWhole_whole _)
          outW (Memref.isWhole_whole _) s0W (Memref.isWhole_whole _) s1W (Memref.isWhole_whole _) s2W (Memref.isWhole_whole _)
          cc2_scratch3 cc2_scratch4 cc2_scoped0) ⟨⟩ c s := rfl

omit [FloatOps F] in
theorem obl_post {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The third call's task obligation, for any family of subcore resources whose member for this call is `Rs2` at token
    words that all name table rows. -/
theorem tileObl2 (hF : (K (F := F)).Facts) (tb : (d : Dev nD) → Buf (Elt F) (tblLoc d)) (Rs : Fin 4 → Dev nD → Fin 2 → Fin 16 → sProp 𝕄)
    (wd : (d : Dev nD) → Buf (Elt F) (idxLoc2 d)) (hwd : ∀ d y, (wd d y).toNat < 1000)
    (hRs : ∀ d c i, Rs 2 d c i = Rs2 wd d c i)
    (lv : GSem nD τ sig → HIx 4 → ℕ) (hlv : (K (F := F)).Refines lv) :
    (K (F := F)).TileObl (D (F := F)) 𝒱 (P tb Rs) v₀ 2 lv := by
  intro d c i O W hO _ _
  simp only [show (P (F := F) tb Rs).ox = fun _ _ => 0 from rfl, add_zero]
  change iprop(levAts _ lv ∗ emp ∗ ((tblLoc d ↦{tileShare (Fin.cast (nCore_eq 2) c) (Fin.cast (nSub_eq 2) i)} tb d)
        ∗ Rs 2 d (Fin.cast (nCore_eq 2) c) (Fin.cast (nSub_eq 2) i)) ∗ _ ∗ _ ∗ _)
    ⊢ wp _ _ _ (Pipeline.liftProg (defs₀ (F := F) (.scVector ((K (F := F)).core 2 c) ((K (F := F)).sub 2 i)) 2 ()))
        (fun _ => iprop(((tblLoc d ↦{tileShare (Fin.cast (nCore_eq 2) c) (Fin.cast (nSub_eq 2) i)} tb d)
          ∗ Rs 2 d (Fin.cast (nCore_eq 2) c) (Fin.cast (nSub_eq 2) i)) ∗ _ ∗ _ ∗ _))
  rw [hRs]
  refine BI.Entails.trans ?_ (Pipeline.wp_liftProg (D (F := F)) (Pipeline.defs_kernel pcfgs defs₀) 𝒱₀ _ Set.univ none _ _)
  have hc : ((K (F := F)).core 2 c).val < grid2.bound 0 ∧ ((K (F := F)).sub 2 i).val < grid2.bound 1 := ⟨c.isLt, i.isLt⟩
  rw [defs₀_vector2]; simp only [SparseCore.onTile, hc, and_self, ↓reduceDIte]
  unfold Rs2
  exact (tile_body2 (F := F) d (coords2 ⟨_, hc.1⟩ ⟨_, hc.2⟩) hF tb wd hwd _ lv hlv O W hO).trans (wp_mono frame _ _ fun _ => obl_post)

end Cert.Kernel.Hand.C2

end
-- ==== Proof.Kernel.TileRun3.lean ====
/-
  One vector subcore's task in the fourth embedding-gather call, run to its end.

  The subcore at grid point (core, subcore) is worker `2·subcore + core`. It copies its 2048 token words from the
  token list into a scratch, and then, sixteen times: gathers the 128 table rows those words name into one half of a
  two-slot scratch (an indexed copy, legal because every word names a row of the 1000-row table), copies the first 32
  of each row's 128 columns into the matching half of a second two-slot scratch, and starts the copy of that half out
  to its 128 rows of the result. A slot's copy-out is waited for two trips later, just before the slot is written
  again, and the last two after the loop; so between its start and its wait nothing touches the copy's source or
  destination. Each copy is on a semaphore of the subcore's own with one copy in flight at a time.

  The loop's invariant says, before each of the sixteen trips, which slot's copy-out is in flight and for which block of
  the result; a flying copy holds that block and the slot's half of the scratch until its wait returns them. The two
  halves of the scratch partition it (`crows_compl01`), which is what lets a half be held as "everything but the other
  half" while the other half is away; a trip's half is the first for an even trip and the second for an odd one
  (`crows_even`, `crows_odd`).
-/
import proofs.«203661_g84404697301628_cont_9to1_m_135_26_alg».proof.Proof.Kernel.KCommon

noncomputable section

namespace Cert.Kernel.Hand.C3

open Cert.Kernel Cert.Kernel.Gen Cert.Kernel.Hand
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [hK : Cert.Kernel.Facts] [FloatOps F]

local notation "𝕄" => MT nD τ sig (HIx 4) (Elt F) ℕ UU ℕ

local notation "tblW" => (Memref.whole Cert.Kernel.main_v0_scv : Memref Cert.Kernel.sig Kind.scVector Space.hbm Cert.Kernel.S1000x128 EltTy.f32)
local notation "idxW" => (Memref.whole Cert.Kernel.main_v11_scv : Memref Cert.Kernel.sig Kind.scVector Space.hbm Cert.Kernel.S65536 EltTy.i32)
local notation "outW" => (Memref.whole Cert.Kernel.main_v12_scv : Memref Cert.Kernel.sig Kind.scVector Space.hbm Cert.Kernel.S4x16384x32 EltTy.f32)
local notation "s0W" => (Memref.whole Cert.Kernel.cc3_scratch0 : Memref Cert.Kernel.sig Kind.scVector Space.vmem Cert.Kernel.S2048 EltTy.i32)
local notation "s1W" => (Memref.whole Cert.Kernel.cc3_scratch1 : Memref Cert.Kernel.sig Kind.scVector Space.vmem Cert.Kernel.S2x128x128 EltTy.f32)
local notation "s2W" => (Memref.whole Cert.Kernel.cc3_scratch2 : Memref Cert.Kernel.sig Kind.scVector Space.vmem Cert.Kernel.S2x128x32 EltTy.f32)

variable (d : Dev nD) (L : grid3.Coords)

abbrev cV (L : grid3.Coords) : Fin τ.nSC := (L 0).castLE hcore3
abbrev jV (L : grid3.Coords) : Fin τ.nSub := (L 1).castLE hsub3
/-- the vector subcore at grid point `L` -/
abbrev tile : Thread nD τ := V d (cV L) (jV L)

/-- the part of the token list this subcore fetches -/
abbrev idxSl (L : grid3.Coords) : Memref sig .scVector .hbm S2048 .i32 := (idxW).slice (Rect.unit (s := S65536) (k3_off1 L) S2048.size (k3_off1_inb L)) (fun _ => rfl)
/-- trip `t`'s 128 words of the fetched list -/
abbrev offsAt (t : Fin k3_t1_loop.trips) : Memref sig .scVector .vmem S128 .i32 :=
  (s0W).slice (Rect.unit (s := S2048) (k3_off6 t) S128.size (k3_off6_inb t)) (fun _ => rfl)
/-- the 128 rows of the result trip `t` writes -/
abbrev outAt (L : grid3.Coords) (t : Fin k3_t1_loop.trips) : Memref sig .scVector .hbm S128x32 .f32 :=
  ((outW).slice (Rect.unit (s := S4x16384x32) (k3_off13 L t) S1x128x32.size (k3_off13_inb L t)) (fun _ => rfl)).squeeze S128x32 squeezes_S1x128x32_S128x32
/-- the half of the compact-rows scratch trip `t` fills and copies out -/
abbrev crowsAt (t : Fin k3_t1_loop.trips) : Memref sig .scVector .vmem S128x32 .f32 :=
  ((s2W).slice (Rect.unit (s := S2x128x32) (k3_off12 t) S1x128x32.size (k3_off12_inb t)) (fun _ => rfl)).squeeze S128x32 squeezes_S1x128x32_S128x32

def t0 : Fin k3_t1_loop.trips := ⟨0, by decide⟩
def t1 : Fin k3_t1_loop.trips := ⟨1, by decide⟩
def t2 : Fin k3_t1_loop.trips := ⟨2, by decide⟩
def t3 : Fin k3_t1_loop.trips := ⟨3, by decide⟩
def t4 : Fin k3_t1_loop.trips := ⟨4, by decide⟩
def t5 : Fin k3_t1_loop.trips := ⟨5, by decide⟩
def t6 : Fin k3_t1_loop.trips := ⟨6, by decide⟩
def t7 : Fin k3_t1_loop.trips := ⟨7, by decide⟩
def t8 : Fin k3_t1_loop.trips := ⟨8, by decide⟩
def t9 : Fin k3_t1_loop.trips := ⟨9, by decide⟩
def t10 : Fin k3_t1_loop.trips := ⟨10, by decide⟩
def t11 : Fin k3_t1_loop.trips := ⟨11, by decide⟩
def t12 : Fin k3_t1_loop.trips := ⟨12, by decide⟩
def t13 : Fin k3_t1_loop.trips := ⟨13, by decide⟩
def t14 : Fin k3_t1_loop.trips := ⟨14, by decide⟩
def t15 : Fin k3_t1_loop.trips := ⟨15, by decide⟩

/-- the two gather semaphores and the two write-back semaphores, by slot; the prologue's copy semaphore -/
local notation "gS0" => (⟨15, by decide⟩ : DmaSem Cert.Kernel.sig)
local notation "gS1" => (⟨16, by decide⟩ : DmaSem Cert.Kernel.sig)
local notation "wS0" => (⟨17, by decide⟩ : DmaSem Cert.Kernel.sig)
local notation "wS1" => (⟨18, by decide⟩ : DmaSem Cert.Kernel.sig)
local notation "pS" => (⟨19, by decide⟩ : DmaSem Cert.Kernel.sig)

/-- every word of the fetched list names a row of the table -/
def InRange (g5 : Buf (Elt F) ((s0W).view.loc (tile d L))) : Prop :=
  ∀ (o : Fin 1 → Nat) (h : ∀ a, o a + S128.size a ≤ S2048.size a) (x : S128.Idx),
    (((s0W).slice (Rect.unit (s := S2048) o S128.size h) (fun _ => rfl)).view.read (Elt F) g5 x).toNat < S1000x128.size gathers_S1000x128_S128x128.axis

/-- a block of the result, at some contents -/
def outHeld (t : Fin k3_t1_loop.trips) : sProp 𝕄 :=
  iprop(∃ f, (outAt L t).view.loc (tile d L) ↦[(outAt L t).view.set]{fullShare} f)
/-- a half of the compact-rows scratch (the one trip `t` uses), at some contents -/
def crowsHeld (t : Fin k3_t1_loop.trips) : sProp 𝕄 :=
  iprop(∃ f, (s2W).view.loc (tile d L) ↦[Finset.univ \ (crowsAt t).view.set]{fullShare} f)
/-- slot `s` idle: its write-back semaphore at zero and its half of the scratch in hand -/
def slotFree (w : DmaSem sig) (t : Fin k3_t1_loop.trips) : sProp 𝕄 :=
  iprop(semVal (tile d L, SemLoc.dma w) 0 ∗ crowsHeld (F := F) d L t)
/-- slot `s` busy: trip `t`'s write-back in flight, carrying its block of the result and its half of the scratch -/
def slotBusy (w : DmaSem sig) (t : Fin k3_t1_loop.trips) : sProp 𝕄 :=
  iprop(∃ fo f, Transfers.Flight (countersEmb (U := UU)) (tile d L) (SemLoc.dma w) (default : HIx 4) 131072
    iprop(((outAt L t).view.loc (tile d L) ↦[(outAt L t).view.set]{fullShare} fo)
      ∗ ((s2W).view.loc (tile d L) ↦[(crowsAt t).view.set]{fullShare} f)))

/-- what every trip keeps: the wait evidence, the table's share, the fetched list (in range), the gathered-rows scratch,
    both gather semaphores at zero, and what the subcore owes with the waits recorded so far -/
def common (O : CellTallies nD τ sig (HIx 4)) (W : Waits sig (HIx 4)) (q : PosShare TreeShare)
    (ft : Buf (Elt F) ((tblW).view.loc (tile d L))) : sProp 𝕄 :=
  iprop(Transfers.MayWaits (tile d L) (none : HIx 4) O
    ∗ ((tblW).view.loc (tile d L) ↦{q} ft)
    ∗ (∃ g5, ⌜InRange (F := F) d L g5⌝ ∗ (s0W).view.loc (tile d L) ↦{fullShare} g5)
    ∗ (∃ r, (s1W).view.loc (tile d L) ↦{fullShare} r)
    ∗ semVal (tile d L, SemLoc.dma gS0) 0 ∗ semVal (tile d L, SemLoc.dma gS1) 0
    ∗ ∃ W', ⌜∀ p ∈ W', p ∈ W ∨ p.2 = none⌝ ∗ owes (tile d L) O W')

section Inv
variable (O : CellTallies nD τ sig (HIx 4)) (W : Waits sig (HIx 4)) (q : PosShare TreeShare) (ft : Buf (Elt F) ((tblW).view.loc (tile d L)))
/-- before trip 0: both slots idle, every block in hand -/
def inv0 : sProp 𝕄 := iprop(common d L O W q ft ∗ slotFree d L wS0 t1 ∗ slotFree d L wS1 t0 ∗ outHeld d L t0 ∗ outHeld d L t1 ∗ outHeld d L t2 ∗ outHeld d L t3 ∗ outHeld d L t4 ∗ outHeld d L t5 ∗ outHeld d L t6 ∗ outHeld d L t7 ∗ outHeld d L t8 ∗ outHeld d L t9 ∗ outHeld d L t10 ∗ outHeld d L t11 ∗ outHeld d L t12 ∗ outHeld d L t13 ∗ outHeld d L t14 ∗ outHeld d L t15)
/-- before trip 1: block 0 flying, every other block in hand -/
def inv1 : sProp 𝕄 := iprop(common d L O W q ft ∗ slotBusy d L wS0 t0 ∗ slotFree d L wS1 t0 ∗ outHeld d L t1 ∗ outHeld d L t2 ∗ outHeld d L t3 ∗ outHeld d L t4 ∗ outHeld d L t5 ∗ outHeld d L t6 ∗ outHeld d L t7 ∗ outHeld d L t8 ∗ outHeld d L t9 ∗ outHeld d L t10 ∗ outHeld d L t11 ∗ outHeld d L t12 ∗ outHeld d L t13 ∗ outHeld d L t14 ∗ outHeld d L t15)
/-- before trip 2: blocks 0 and 1 flying, every other block in hand -/
def inv2 : sProp 𝕄 := iprop(common d L O W q ft ∗ slotBusy d L wS0 t0 ∗ slotBusy d L wS1 t1 ∗ outHeld d L t2 ∗ outHeld d L t3 ∗ outHeld d L t4 ∗ outHeld d L t5 ∗ outHeld d L t6 ∗ outHeld d L t7 ∗ outHeld d L t8 ∗ outHeld d L t9 ∗ outHeld d L t10 ∗ outHeld d L t11 ∗ outHeld d L t12 ∗ outHeld d L t13 ∗ outHeld d L t14 ∗ outHeld d L t15)
/-- before trip 3: blocks 1 and 2 flying, every other block in hand -/
def inv3 : sProp 𝕄 := iprop(common d L O W q ft ∗ slotBusy d L wS0 t2 ∗ slotBusy d L wS1 t1 ∗ outHeld d L t0 ∗ outHeld d L t3 ∗ outHeld d L t4 ∗ outHeld d L t5 ∗ outHeld d L t6 ∗ outHeld d L t7 ∗ outHeld d L t8 ∗ outHeld d L t9 ∗ outHeld d L t10 ∗ outHeld d L t11 ∗ outHeld d L t12 ∗ outHeld d L t13 ∗ outHeld d L t14 ∗ outHeld d L t15)
/-- before trip 4: blocks 2 and 3 flying, every other block in hand -/
def inv4 : sProp 𝕄 := iprop(common d L O W q ft ∗ slotBusy d L wS0 t2 ∗ slotBusy d L wS1 t3 ∗ outHeld d L t0 ∗ outHeld d L t1 ∗ outHeld d L t4 ∗ outHeld d L t5 ∗ outHeld d L t6 ∗ outHeld d L t7 ∗ outHeld d L t8 ∗ outHeld d L t9 ∗ outHeld d L t10 ∗ outHeld d L t11 ∗ outHeld d L t12 ∗ outHeld d L t13 ∗ outHeld d L t14 ∗ outHeld d L t15)
/-- before trip 5: blocks 3 and 4 flying, every other block in hand -/
def inv5 : sProp 𝕄 := iprop(common d L O W q ft ∗ slotBusy d L wS0 t4 ∗ slotBusy d L wS1 t3 ∗ outHeld d L t0 ∗ outHeld d L t1 ∗ outHeld d L t2 ∗ outHeld d L t5 ∗ outHeld d L t6 ∗ outHeld d L t7 ∗ outHeld d L t8 ∗ outHeld d L t9 ∗ outHeld d L t10 ∗ outHeld d L t11 ∗ outHeld d L t12 ∗ outHeld d L t13 ∗ outHeld d L t14 ∗ outHeld d L t15)
/-- before trip 6: blocks 4 and 5 flying, every other block in hand -/
def inv6 : sProp 𝕄 := iprop(common d L O W q ft ∗ slotBusy d L wS0 t4 ∗ slotBusy d L wS1 t5 ∗ outHeld d L t0 ∗ outHeld d L t1 ∗ outHeld d L t2 ∗ outHeld d L t3 ∗ outHeld d L t6 ∗ outHeld d L t7 ∗ outHeld d L t8 ∗ outHeld d L t9 ∗ outHeld d L t10 ∗ outHeld d L t11 ∗ outHeld d L t12 ∗ outHeld d L t13 ∗ outHeld d L t14 ∗ outHeld d L t15)
/-- before trip 7: blocks 5 and 6 flying, every other block in hand -/
def inv7 : sProp 𝕄 := iprop(common d L O W q ft ∗ slotBusy d L wS0 t6 ∗ slotBusy d L wS1 t5 ∗ outHeld d L t0 ∗ outHeld d L t1 ∗ outHeld d L t2 ∗ outHeld d L t3 ∗ outHeld d L t4 ∗ outHeld d L t7 ∗ outHeld d L t8 ∗ outHeld d L t9 ∗ outHeld d L t10 ∗ outHeld d L t11 ∗ outHeld d L t12 ∗ outHeld d L t13 ∗ outHeld d L t14 ∗ outHeld d L t15)
/-- before trip 8: blocks 6 and 7 flying, every other block in hand -/
def inv8 : sProp 𝕄 := iprop(common d L O W q ft ∗ slotBusy d L wS0 t6 ∗ slotBusy d L wS1 t7 ∗ outHeld d L t0 ∗ outHeld d L t1 ∗ outHeld d L t2 ∗ outHeld d L t3 ∗ outHeld d L t4 ∗ outHeld d L t5 ∗ outHeld d L t8 ∗ outHeld d L t9 ∗ outHeld d L t10 ∗ outHeld d L t11 ∗ outHeld d L t12 ∗ outHeld d L t13 ∗ outHeld d L t14 ∗ outHeld d L t15)
/-- before trip 9: blocks 7 and 8 flying, every other block in hand -/
def inv9 : sProp 𝕄 := iprop(common d L O W q ft ∗ slotBusy d L wS0 t8 ∗ slotBusy d L wS1 t7 ∗ outHeld d L t0 ∗ outHeld d L t1 ∗ outHeld d L t2 ∗ outHeld d L t3 ∗ outHeld d L t4 ∗ outHeld d L t5 ∗ outHeld d L t6 ∗ outHeld d L t9 ∗ outHeld d L t10 ∗ outHeld d L t11 ∗ outHeld d L t12 ∗ outHeld d L t13 ∗ outHeld d L t14 ∗ outHeld d L t15)
/-- before trip 10: blocks 8 and 9 flying, every other block in hand -/
def inv10 : sProp 𝕄 := iprop(common d L O W q ft ∗ slotBusy d L wS0 t8 ∗ slotBusy d L wS1 t9 ∗ outHeld d L t0 ∗ outHeld d L t1 ∗ outHeld d L t2 ∗ outHeld d L t3 ∗ outHeld d L t4 ∗ outHeld d L t5 ∗ outHeld d L t6 ∗ outHeld d L t7 ∗ outHeld d L t10 ∗ outHeld d L t11 ∗ outHeld d L t12 ∗ outHeld d L t13 ∗ outHeld d L t14 ∗ outHeld d L t15)
/-- before trip 11: blocks 9 and 10 flying, every other block in hand -/
def inv11 : sProp 𝕄 := iprop(common d L O W q ft ∗ slotBusy d L wS0 t10 ∗ slotBusy d L wS1 t9 ∗ outHeld d L t0 ∗ outHeld d L t1 ∗ outHeld d L t2 ∗ outHeld d L t3 ∗ outHeld d L t4 ∗ outHeld d L t5 ∗ outHeld d L t6 ∗ outHeld d L t7 ∗ outHeld d L t8 ∗ outHeld d L t11 ∗ outHeld d L t12 ∗ outHeld d L t13 ∗ outHeld d L t14 ∗ outHeld d L t15)
/-- before trip 12: blocks 10 and 11 flying, every other block in hand -/
def inv12 : sProp 𝕄 := iprop(common d L O W q ft ∗ slotBusy d L wS0 t10 ∗ slotBusy d L wS1 t11 ∗ outHeld d L t0 ∗ outHeld d L t1 ∗ outHeld d L t2 ∗ outHeld d L t3 ∗ outHeld d L t4 ∗ outHeld d L t5 ∗ outHeld d L t6 ∗ outHeld d L t7 ∗ outHeld d L t8 ∗ outHeld d L t9 ∗ outHeld d L t12 ∗ outHeld d L t13 ∗ outHeld d L t14 ∗ outHeld d L t15)
/-- before trip 13: blocks 11 and 12 flying, every other block in hand -/
def inv13 : sProp 𝕄 := iprop(common d L O W q ft ∗ slotBusy d L wS0 t12 ∗ slotBusy d L wS1 t11 ∗ outHeld d L t0 ∗ outHeld d L t1 ∗ outHeld d L t2 ∗ outHeld d L t3 ∗ outHeld d L t4 ∗ outHeld d L t5 ∗ outHeld d L t6 ∗ outHeld d L t7 ∗ outHeld d L t8 ∗ outHeld d L t9 ∗ outHeld d L t10 ∗ outHeld d L t13 ∗ outHeld d L t14 ∗ outHeld d L t15)
/-- before trip 14: blocks 12 and 13 flying, every other block in hand -/
def inv14 : sProp 𝕄 := iprop(common d L O W q ft ∗ slotBusy d L wS0 t12 ∗ slotBusy d L wS1 t13 ∗ outHeld d L t0 ∗ outHeld d L t1 ∗ outHeld d L t2 ∗ outHeld d L t3 ∗ outHeld d L t4 ∗ outHeld d L t5 ∗ outHeld d L t6 ∗ outHeld d L t7 ∗ outHeld d L t8 ∗ outHeld d L t9 ∗ outHeld d L t10 ∗ outHeld d L t11 ∗ outHeld d L t14 ∗ outHeld d L t15)
/-- before trip 15: blocks 13 and 14 flying, every other block in hand -/
def inv15 : sProp 𝕄 := iprop(common d L O W q ft ∗ slotBusy d L wS0 t14 ∗ slotBusy d L wS1 t13 ∗ outHeld d L t0 ∗ outHeld d L t1 ∗ outHeld d L t2 ∗ outHeld d L t3 ∗ outHeld d L t4 ∗ outHeld d L t5 ∗ outHeld d L t6 ∗ outHeld d L t7 ∗ outHeld d L t8 ∗ outHeld d L t9 ∗ outHeld d L t10 ∗ outHeld d L t11 ∗ outHeld d L t12 ∗ outHeld d L t15)
/-- after trip 15: blocks 14 and 15 flying, every other block in hand -/
def inv16 : sProp 𝕄 := iprop(common d L O W q ft ∗ slotBusy d L wS0 t14 ∗ slotBusy d L wS1 t15 ∗ outHeld d L t0 ∗ outHeld d L t1 ∗ outHeld d L t2 ∗ outHeld d L t3 ∗ outHeld d L t4 ∗ outHeld d L t5 ∗ outHeld d L t6 ∗ outHeld d L t7 ∗ outHeld d L t8 ∗ outHeld d L t9 ∗ outHeld d L t10 ∗ outHeld d L t11 ∗ outHeld d L t12 ∗ outHeld d L t13)
/-- the outer loop's invariant before trip `k` -/
def invO (k : Nat) (_ : PUnit) : sProp 𝕄 :=
  match k with
  | 0 => inv0 d L O W q ft
  | 1 => inv1 d L O W q ft
  | 2 => inv2 d L O W q ft
  | 3 => inv3 d L O W q ft
  | 4 => inv4 d L O W q ft
  | 5 => inv5 d L O W q ft
  | 6 => inv6 d L O W q ft
  | 7 => inv7 d L O W q ft
  | 8 => inv8 d L O W q ft
  | 9 => inv9 d L O W q ft
  | 10 => inv10 d L O W q ft
  | 11 => inv11 d L O W q ft
  | 12 => inv12 d L O W q ft
  | 13 => inv13 d L O W q ft
  | 14 => inv14 d L O W q ft
  | 15 => inv15 d L O W q ft
  | _ => inv16 d L O W q ft
end Inv

/-- the compaction loop's invariant, contents untracked: the gathered rows and trip `t`'s half of the compact rows in hand -/
def invC (t : Fin k3_t1_loop.trips) (_ : Nat) (_ : PUnit) : sProp 𝕄 :=
  iprop((∃ r, (s1W).view.loc (tile d L) ↦{fullShare} r) ∗ crowsHeld (F := F) d L t)

/-- an element lies in trip `t`'s half of the compact-rows scratch exactly when each coordinate lies in the half's box -/
theorem mem_crowsAt (t : Fin k3_t1_loop.trips) (x : S2x128x32.Idx) :
    x ∈ (crowsAt t).view.set ↔ ∀ a, k3_off12 t a ≤ x a ∧ (x a : Nat) < k3_off12 t a + S1x128x32.size a := by
  have hs : ((crowsAt t).view.set : Finset S2x128x32.Idx)
      = (Rect.unit (s := S2x128x32) (k3_off12 t) S1x128x32.size (k3_off12_inb t)).set := by
    show (((View.whole cc3_scratch2).slice (Rect.unit (s := S2x128x32) (k3_off12 t) S1x128x32.size (k3_off12_inb t))).reshape S128x32 _).set = _
    rw [View.set_reshape, View.set_slice_whole]
  constructor
  · intro h; exact Rect.mem_set_unit.mp (hs ▸ h)
  · intro h; exact hs ▸ Rect.mem_set_unit.mpr h

/-- the two halves partition the scratch: what is not in the second half is the first half -/
theorem crows_compl01 : Finset.univ \ (crowsAt t1).view.set = (crowsAt t0).view.set := by
  ext x
  rw [Finset.mem_sdiff, mem_crowsAt, mem_crowsAt]
  simp only [Finset.mem_univ, true_and]
  have e0 : k3_off12 t0 = ![0, 0, 0] := by decide
  have e1 : k3_off12 t1 = ![1, 0, 0] := by decide
  rw [e0, e1]
  have h0 : (x 0 : Nat) < 2 := (x 0).isLt
  have h1 : (x 1 : Nat) < 128 := (x 1).isLt
  have h2 : (x 2 : Nat) < 32 := (x 2).isLt
  constructor
  · intro h a
    have hx0 : (x 0 : Nat) = 0 := by
      by_contra hne
      exact h (fun b => by
        match b with
        | ⟨0, _⟩ => exact ⟨by show 1 ≤ (x 0 : Nat); omega, by show (x 0 : Nat) < 1 + 1; omega⟩
        | ⟨1, _⟩ => exact ⟨Nat.zero_le _, by show (x 1 : Nat) < 0 + 128; omega⟩
        | ⟨2, _⟩ => exact ⟨Nat.zero_le _, by show (x 2 : Nat) < 0 + 32; omega⟩)
    match a with
    | ⟨0, _⟩ => exact ⟨Nat.zero_le _, by show (x 0 : Nat) < 0 + 1; omega⟩
    | ⟨1, _⟩ => exact ⟨Nat.zero_le _, by show (x 1 : Nat) < 0 + 128; omega⟩
    | ⟨2, _⟩ => exact ⟨Nat.zero_le _, by show (x 2 : Nat) < 0 + 32; omega⟩
  · intro h hc
    have a0 : (x 0 : Nat) < 0 + 1 := (h 0).2
    have b0 : 1 ≤ (x 0 : Nat) := (hc 0).1
    omega

/-- and what is not in the first half is the second -/
theorem crows_compl10 : Finset.univ \ (crowsAt t0).view.set = (crowsAt t1).view.set := by
  rw [← crows_compl01, sdiff_sdiff_right_self]
  exact inf_eq_right.mpr (Finset.subset_univ _)

/-- two trips whose halves start at the same place use the same half -/
theorem crows_set_congr (t s : Fin k3_t1_loop.trips) (h : k3_off12 t = k3_off12 s) : (crowsAt t).view.set = (crowsAt s).view.set := by
  ext x
  rw [mem_crowsAt, mem_crowsAt, h]

/-- an even trip's half is the first: everything but the second -/
theorem crows_even (t : Fin k3_t1_loop.trips) (h : k3_off12 t = k3_off12 t0) :
    (crowsAt t).view.set = Finset.univ \ (crowsAt t1).view.set := by
  rw [crows_compl01]; exact crows_set_congr t t0 h
/-- an odd trip's half is the second: everything but the first -/
theorem crows_odd (t : Fin k3_t1_loop.trips) (h : k3_off12 t = k3_off12 t1) :
    (crowsAt t).view.set = Finset.univ \ (crowsAt t0).view.set := by
  rw [crows_compl10]; exact crows_set_congr t t1 h

theorem inb_w0 : ∀ a, (![0] : Fin 1 → Nat) a + S128.size a ≤ S2048.size a := by decide
theorem inb_w128 : ∀ a, (![128] : Fin 1 → Nat) a + S128.size a ≤ S2048.size a := by decide
theorem inb_w256 : ∀ a, (![256] : Fin 1 → Nat) a + S128.size a ≤ S2048.size a := by decide
theorem inb_w384 : ∀ a, (![384] : Fin 1 → Nat) a + S128.size a ≤ S2048.size a := by decide
theorem inb_w512 : ∀ a, (![512] : Fin 1 → Nat) a + S128.size a ≤ S2048.size a := by decide
theorem inb_w640 : ∀ a, (![640] : Fin 1 → Nat) a + S128.size a ≤ S2048.size a := by decide
theorem inb_w768 : ∀ a, (![768] : Fin 1 → Nat) a + S128.size a ≤ S2048.size a := by decide
theorem inb_w896 : ∀ a, (![896] : Fin 1 → Nat) a + S128.size a ≤ S2048.size a := by decide
theorem inb_w1024 : ∀ a, (![1024] : Fin 1 → Nat) a + S128.size a ≤ S2048.size a := by decide
theorem inb_w1152 : ∀ a, (![1152] : Fin 1 → Nat) a + S128.size a ≤ S2048.size a := by decide
theorem inb_w1280 : ∀ a, (![1280] : Fin 1 → Nat) a + S128.size a ≤ S2048.size a := by decide
theorem inb_w1408 : ∀ a, (![1408] : Fin 1 → Nat) a + S128.size a ≤ S2048.size a := by decide
theorem inb_w1536 : ∀ a, (![1536] : Fin 1 → Nat) a + S128.size a ≤ S2048.size a := by decide
theorem inb_w1664 : ∀ a, (![1664] : Fin 1 → Nat) a + S128.size a ≤ S2048.size a := by decide
theorem inb_w1792 : ∀ a, (![1792] : Fin 1 → Nat) a + S128.size a ≤ S2048.size a := by decide
theorem inb_w1920 : ∀ a, (![1920] : Fin 1 → Nat) a + S128.size a ≤ S2048.size a := by decide

theorem size_tbl : S1000x128.size gathers_S1000x128_S128x128.axis = 1000 := by decide

set_option maxHeartbeats 2400000 in
/-- One vector subcore's whole task for the fourth gather call: fetch its 2048 token words, then sixteen times gather 128 table
    rows, compact their first 32 columns, and start the block's write-back, waiting for a slot's previous write-back
    before reusing the slot; at the end wait for the last two. Every copy is the subcore's own on a semaphore nobody
    else touches, one in flight per semaphore; a write-back stays in flight across two trips of the loop, carried in the
    loop's invariant together with the block of the result and the half of the scratch it holds. Contents are not tracked
    here: the task ends, faults nowhere, and hands back what it was handed. -/
theorem tile_run3 (O : CellTallies nD τ sig (HIx 4)) (W : Waits sig (HIx 4)) (q : PosShare TreeShare)
    (ft : Buf (Elt F) ((tblW).view.loc (tile d L))) (fi : Buf (Elt F) ((idxSl L).view.loc (tile d L)))
    (hfi : ∀ y, (fi y).toNat < 1000) :
    iprop(Transfers.MayWaits (tile d L) (none : HIx 4) O
        ∗ ((tblW).view.loc (tile d L) ↦{q} ft)
        ∗ ((idxSl L).view.loc (tile d L) ↦[(idxSl L).view.set]{fullShare} fi)
        ∗ (∃ f5, (s0W).view.loc (tile d L) ↦{fullShare} f5)
        ∗ (∃ r, (s1W).view.loc (tile d L) ↦{fullShare} r)
        ∗ crowsHeld (F := F) d L t1 ∗ crowsHeld (F := F) d L t0
        ∗ outHeld (F := F) d L t0 ∗ outHeld (F := F) d L t1 ∗ outHeld (F := F) d L t2 ∗ outHeld (F := F) d L t3 ∗ outHeld (F := F) d L t4 ∗ outHeld (F := F) d L t5 ∗ outHeld (F := F) d L t6 ∗ outHeld (F := F) d L t7 ∗ outHeld (F := F) d L t8 ∗ outHeld (F := F) d L t9 ∗ outHeld (F := F) d L t10 ∗ outHeld (F := F) d L t11 ∗ outHeld (F := F) d L t12 ∗ outHeld (F := F) d L t13 ∗ outHeld (F := F) d L t14 ∗ outHeld (F := F) d L t15
        ∗ semVal (tile d L, SemLoc.dma gS0) 0 ∗ semVal (tile d L, SemLoc.dma gS1) 0
        ∗ semVal (tile d L, SemLoc.dma wS0) 0 ∗ semVal (tile d L, SemLoc.dma wS1) 0
        ∗ semVal (tile d L, SemLoc.dma pS) 0
        ∗ owes (tile d L) O W)
      ⊢ wp frame (wpE (defs₀ (F := F)) 𝒱₀ (tile d L) none) Set.univ
          (cc3_gather_kernel L tblW (Memref.isWhole_whole _) idxW (Memref.isWhole_whole _) outW (Memref.isWhole_whole _)
            s0W (Memref.isWhole_whole _) s1W (Memref.isWhole_whole _) s2W (Memref.isWhole_whole _) cc3_scratch3 cc3_scratch4 cc3_scoped0)
          (fun _ => iprop(((tblW).view.loc (tile d L) ↦{q} ft)
            ∗ ((idxSl L).view.loc (tile d L) ↦[(idxSl L).view.set]{fullShare} fi)
            ∗ (∃ f5, (s0W).view.loc (tile d L) ↦{fullShare} f5)
            ∗ (∃ r, (s1W).view.loc (tile d L) ↦{fullShare} r)
            ∗ (∃ f, (s2W).view.loc (tile d L) ↦[(crowsAt t14).view.set]{fullShare} f)
            ∗ (∃ f, (s2W).view.loc (tile d L) ↦[(crowsAt t15).view.set]{fullShare} f)
            ∗ outHeld (F := F) d L t0 ∗ outHeld (F := F) d L t1 ∗ outHeld (F := F) d L t2 ∗ outHeld (F := F) d L t3 ∗ outHeld (F := F) d L t4 ∗ outHeld (F := F) d L t5 ∗ outHeld (F := F) d L t6 ∗ outHeld (F := F) d L t7 ∗ outHeld (F := F) d L t8 ∗ outHeld (F := F) d L t9 ∗ outHeld (F := F) d L t10 ∗ outHeld (F := F) d L t11 ∗ outHeld (F := F) d L t12 ∗ outHeld (F := F) d L t13 ∗ outHeld (F := F) d L t14 ∗ outHeld (F := F) d L t15
            ∗ semVal (tile d L, SemLoc.dma gS0) 0 ∗ semVal (tile d L, SemLoc.dma gS1) 0
            ∗ semVal (tile d L, SemLoc.dma wS0) 0 ∗ semVal (tile d L, SemLoc.dma wS1) 0
            ∗ semVal (tile d L, SemLoc.dma pS) 0
            ∗ ∃ W', ⌜∀ p ∈ W', p ∈ W ∨ p.2 = none⌝ ∗ owes (tile d L) O W')) := by
  rw [cc3_gather_kernel_eq_skeleton]; unfold cc3_gather_kernel_skel
  iintro ⟨Hmw, Ht, Hi, ⟨%f5, H5⟩, H6, Hc0, Hc1, Ho0, Ho1, Ho2, Ho3, Ho4, Ho5, Ho6, Ho7, Ho8, Ho9, Ho10, Ho11, Ho12, Ho13, Ho14, Ho15, Hg0, Hg1, Hw0, Hw1, Hp, HO⟩
  sl_exec
  have h5 : InRange (F := F) d L (View.write (Elt F) (s0W).view f5 (tile_run3.sl.dma0 d L fi) Finset.univ) := by
    intro o h x
    rw [View.write_whole_univ, size_tbl]
    unfold tile_run3.sl.dma0
    simp only [View.read_apply]
    exact hfi _
  sl_for (invO d L O W q ft) $$ [Hmw Ht H5 H6 Hc0 Hc1 Ho0 Ho1 Ho2 Ho3 Ho4 Ho5 Ho6 Ho7 Ho8 Ho9 Ho10 Ho11 Ho12 Ho13 Ho14 Ho15 Hg0 Hg1 Hw0 Hw1 HO]
  case region =>
    intro k u
    obtain ⟨k, hk⟩ := k
    match k, hk with
    | k + 16, hk => exact absurd (Nat.lt_of_lt_of_le hk k3_t1_abs.2.1) (by omega)
    | 0, hk =>
      -- trip 0: slot 0 idle, nothing to wait for
      have k3_h1 : ¬ k3_cond1 t0 = 1#1 := by decide
      change inv0 d L O W q ft ⊢ wp frame (wpE (defs₀ (F := F)) 𝒱₀ (tile d L) none) Set.univ (tile_run3.sl.prog.body_1 L t0 u) (fun _ => inv1 d L O W q ft)
      unfold inv0 common slotFree outHeld crowsHeld
      iintro ⟨⟨Hmw, Ht, ⟨%g5, %hin, H5⟩, H6, Hg0, Hg1, %W', %hW', HO⟩, ⟨Hw0, Hc⟩, Hs1, ⟨%o0, Ho0⟩, Ho1, Ho2, Ho3, Ho4, Ho5, Ho6, Ho7, Ho8, Ho9, Ho10, Ho11, Ho12, Ho13, Ho14, Ho15⟩
      icases H6 with ⟨%r6, H6⟩
      icases Hc with ⟨%c0, Hc⟩
      have hinT : ∀ x, (((s0W).slice (Rect.unit (s := S2048) ![0] S128.size inb_w0) (fun _ => rfl)).view.read (Elt F) g5 x).toNat
          < S1000x128.size gathers_S1000x128_S128x128.axis := hin ![0] inb_w0
      have hinK : ∀ x, ((offsAt t0).view.read (Elt F) g5 x).toNat < S1000x128.size gathers_S1000x128_S128x128.axis := hin _ _
      sl_exec
      sl_for (invC (F := F) d L t1) $$ [H6 Hc]
      case region =>
        intro j _
        unfold invC crowsHeld
        iintro ⟨⟨%r, H6⟩, ⟨%f, Hc⟩⟩
        sl_exec
        sl_step
        isplitl [H6]; · iexists _; iexact H6
        iexists _; iexact Hc
      · unfold invC crowsHeld
        isplitl [H6]; · iexists _; iexact H6
        iexists _; iexact Hc
      iintro %_ HI
      unfold invC crowsHeld
      icases HI with ⟨⟨%r, H6⟩, ⟨%f, Hc⟩⟩
      sl_exec
      sl_step
      iclear Hc
      unfold inv1 common slotBusy slotFree outHeld crowsHeld
      isplitl [Hmw Ht H5 H6 Hg0 Hg1 HO]
      · isplitl [Hmw]; · iexact Hmw
        isplitl [Ht]; · iexact Ht
        isplitl [H5]
        · iexists g5; isplitr
          · ipureintro; exact hin
          · iexact H5
        isplitl [H6]; · iexists _; iexact H6
        isplitl [Hg0]; · iexact Hg0
        isplitl [Hg1]; · iexact Hg1
        iexists (insert (SemLoc.dma gS0, (default : HIx 4)) W'); isplitr
        · ipureintro; intro p hp
          rcases Finset.mem_insert.mp hp with hp | hp
          · exact Or.inr (by subst hp; rfl)
          · exact hW' p hp
        · iexact HO
      isplitl [Hw0]; · iexists _, _; iexact Hw0
      isplitl [Hs1]; · iexact Hs1
      isplitl [Ho1]; · iexact Ho1
      isplitl [Ho2]; · iexact Ho2
      isplitl [Ho3]; · iexact Ho3
      isplitl [Ho4]; · iexact Ho4
      isplitl [Ho5]; · iexact Ho5
      isplitl [Ho6]; · iexact Ho6
      isplitl [Ho7]; · iexact Ho7
      isplitl [Ho8]; · iexact Ho8
      isplitl [Ho9]; · iexact Ho9
      isplitl [Ho10]; · iexact Ho10
      isplitl [Ho11]; · iexact Ho11
      isplitl [Ho12]; · iexact Ho12
      isplitl [Ho13]; · iexact Ho13
      isplitl [Ho14]; · iexact Ho14
      iexact Ho15
    | 1, hk =>
      -- trip 1: slot 1 idle, nothing to wait for
      have k3_h1 : ¬ k3_cond1 t1 = 1#1 := by decide
      change inv1 d L O W q ft ⊢ wp frame (wpE (defs₀ (F := F)) 𝒱₀ (tile d L) none) Set.univ (tile_run3.sl.prog.body_1 L t1 u) (fun _ => inv2 d L O W q ft)
      unfold inv1 common slotBusy slotFree outHeld crowsHeld
      iintro ⟨⟨Hmw, Ht, ⟨%g5, %hin, H5⟩, H6, Hg0, Hg1, %W', %hW', HO⟩, Hb0, ⟨Hw1, Hc⟩, ⟨%o1, Ho1⟩, Ho2, Ho3, Ho4, Ho5, Ho6, Ho7, Ho8, Ho9, Ho10, Ho11, Ho12, Ho13, Ho14, Ho15⟩
      icases H6 with ⟨%r6, H6⟩
      icases Hc with ⟨%c0, Hc⟩
      have hinT : ∀ x, (((s0W).slice (Rect.unit (s := S2048) ![128] S128.size inb_w128) (fun _ => rfl)).view.read (Elt F) g5 x).toNat
          < S1000x128.size gathers_S1000x128_S128x128.axis := hin ![128] inb_w128
      have hinK : ∀ x, ((offsAt t1).view.read (Elt F) g5 x).toNat < S1000x128.size gathers_S1000x128_S128x128.axis := hin _ _
      sl_exec
      sl_for (invC (F := F) d L t0) $$ [H6 Hc]
      case region =>
        intro j _
        unfold invC crowsHeld
        iintro ⟨⟨%r, H6⟩, ⟨%f, Hc⟩⟩
        sl_exec
        sl_step
        isplitl [H6]; · iexists _; iexact H6
        iexists _; iexact Hc
      · unfold invC crowsHeld
        isplitl [H6]; · iexists _; iexact H6
        iexists _; iexact Hc
      iintro %_ HI
      unfold invC crowsHeld
      icases HI with ⟨⟨%r, H6⟩, ⟨%f, Hc⟩⟩
      sl_exec
      sl_step
      iclear Hc
      unfold inv2 common slotBusy outHeld
      isplitl [Hmw Ht H5 H6 Hg0 Hg1 HO]
      · isplitl [Hmw]; · iexact Hmw
        isplitl [Ht]; · iexact Ht
        isplitl [H5]
        · iexists g5; isplitr
          · ipureintro; exact hin
          · iexact H5
        isplitl [H6]; · iexists _; iexact H6
        isplitl [Hg0]; · iexact Hg0
        isplitl [Hg1]; · iexact Hg1
        iexists (insert (SemLoc.dma gS1, (default : HIx 4)) W'); isplitr
        · ipureintro; intro p hp
          rcases Finset.mem_insert.mp hp with hp | hp
          · exact Or.inr (by subst hp; rfl)
          · exact hW' p hp
        · iexact HO
      isplitl [Hb0]; · iexact Hb0
      isplitl [Hw1]; · iexists _, _; iexact Hw1
      isplitl [Ho2]; · iexact Ho2
      isplitl [Ho3]; · iexact Ho3
      isplitl [Ho4]; · iexact Ho4
      isplitl [Ho5]; · iexact Ho5
      isplitl [Ho6]; · iexact Ho6
      isplitl [Ho7]; · iexact Ho7
      isplitl [Ho8]; · iexact Ho8
      isplitl [Ho9]; · iexact Ho9
      isplitl [Ho10]; · iexact Ho10
      isplitl [Ho11]; · iexact Ho11
      isplitl [Ho12]; · iexact Ho12
      isplitl [Ho13]; · iexact Ho13
      isplitl [Ho14]; · iexact Ho14
      iexact Ho15
    | 2, hk =>
      -- trip 2: block 0's write-back is waited for, then slot 0 is reused
      have k3_h1 : k3_cond1 t2 = 1#1 := by decide
      change inv2 d L O W q ft ⊢ wp frame (wpE (defs₀ (F := F)) 𝒱₀ (tile d L) none) Set.univ (tile_run3.sl.prog.body_1 L t2 u) (fun _ => inv3 d L O W q ft)
      unfold inv2 common slotBusy outHeld
      iintro ⟨⟨Hmw, Ht, ⟨%g5, %hin, H5⟩, H6, Hg0, Hg1, %W', %hW', HO⟩, ⟨%fo0, %fc0, Hw0⟩, Hb1, ⟨%o2, Ho2⟩, Ho3, Ho4, Ho5, Ho6, Ho7, Ho8, Ho9, Ho10, Ho11, Ho12, Ho13, Ho14, Ho15⟩
      icases H6 with ⟨%r6, H6⟩
      have hinT : ∀ x, (((s0W).slice (Rect.unit (s := S2048) ![256] S128.size inb_w256) (fun _ => rfl)).view.read (Elt F) g5 x).toNat
          < S1000x128.size gathers_S1000x128_S128x128.axis := hin ![256] inb_w256
      have hinK : ∀ x, ((offsAt t2).view.read (Elt F) g5 x).toNat < S1000x128.size gathers_S1000x128_S128x128.axis := hin _ _
      sl_exec
      ihave Hc := (Entails.of_eq (show ((s2W).view.loc (tile d L) ↦[(crowsAt t0).view.set]{fullShare} fc0 : sProp 𝕄)
          = ((s2W).view.loc (tile d L) ↦[Finset.univ \ (crowsAt t1).view.set]{fullShare} fc0) from by rw [crows_even t0 (by decide)])) $$ Hw0_src
      sl_for (invC (F := F) d L t1) $$ [H6 Hc]
      case region =>
        intro j _
        unfold invC crowsHeld
        iintro ⟨⟨%r, H6⟩, ⟨%f, Hc⟩⟩
        sl_exec
        sl_step
        isplitl [H6]; · iexists _; iexact H6
        iexists _; iexact Hc
      · unfold invC crowsHeld
        isplitl [H6]; · iexists _; iexact H6
        iexists _; iexact Hc
      iintro %_ HI
      unfold invC crowsHeld
      icases HI with ⟨⟨%r, H6⟩, ⟨%f, Hc⟩⟩
      sl_exec
      sl_step
      iclear Hc
      unfold inv3 common slotBusy outHeld
      isplitl [Hmw Ht H5 H6 Hg0 Hg1 HO]
      · isplitl [Hmw]; · iexact Hmw
        isplitl [Ht]; · iexact Ht
        isplitl [H5]
        · iexists g5; isplitr
          · ipureintro; exact hin
          · iexact H5
        isplitl [H6]; · iexists _; iexact H6
        isplitl [Hg0]; · iexact Hg0
        isplitl [Hg1]; · iexact Hg1
        iexists (insert (SemLoc.dma gS0, (default : HIx 4)) (insert (SemLoc.dma wS0, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hw0]; · iexists _, _; iexact Hw0
      isplitl [Hb1]; · iexact Hb1
      isplitl [Hw0_dst]; · iexists _; iexact Hw0_dst
      isplitl [Ho3]; · iexact Ho3
      isplitl [Ho4]; · iexact Ho4
      isplitl [Ho5]; · iexact Ho5
      isplitl [Ho6]; · iexact Ho6
      isplitl [Ho7]; · iexact Ho7
      isplitl [Ho8]; · iexact Ho8
      isplitl [Ho9]; · iexact Ho9
      isplitl [Ho10]; · iexact Ho10
      isplitl [Ho11]; · iexact Ho11
      isplitl [Ho12]; · iexact Ho12
      isplitl [Ho13]; · iexact Ho13
      isplitl [Ho14]; · iexact Ho14
      iexact Ho15
    | 3, hk =>
      -- trip 3: block 1's write-back is waited for, then slot 1 is reused
      have k3_h1 : k3_cond1 t3 = 1#1 := by decide
      change inv3 d L O W q ft ⊢ wp frame (wpE (defs₀ (F := F)) 𝒱₀ (tile d L) none) Set.univ (tile_run3.sl.prog.body_1 L t3 u) (fun _ => inv4 d L O W q ft)
      unfold inv3 common slotBusy outHeld
      iintro ⟨⟨Hmw, Ht, ⟨%g5, %hin, H5⟩, H6, Hg0, Hg1, %W', %hW', HO⟩, Hb0, ⟨%fo1, %fc1, Hw1⟩, Ho0, ⟨%o3, Ho3⟩, Ho4, Ho5, Ho6, Ho7, Ho8, Ho9, Ho10, Ho11, Ho12, Ho13, Ho14, Ho15⟩
      icases H6 with ⟨%r6, H6⟩
      have hinT : ∀ x, (((s0W).slice (Rect.unit (s := S2048) ![384] S128.size inb_w384) (fun _ => rfl)).view.read (Elt F) g5 x).toNat
          < S1000x128.size gathers_S1000x128_S128x128.axis := hin ![384] inb_w384
      have hinK : ∀ x, ((offsAt t3).view.read (Elt F) g5 x).toNat < S1000x128.size gathers_S1000x128_S128x128.axis := hin _ _
      sl_exec
      ihave Hc := (Entails.of_eq (show ((s2W).view.loc (tile d L) ↦[(crowsAt t1).view.set]{fullShare} fc1 : sProp 𝕄)
          = ((s2W).view.loc (tile d L) ↦[Finset.univ \ (crowsAt t0).view.set]{fullShare} fc1) from by rw [crows_odd t1 (by decide)])) $$ Hw1_src
      sl_for (invC (F := F) d L t0) $$ [H6 Hc]
      case region =>
        intro j _
        unfold invC crowsHeld
        iintro ⟨⟨%r, H6⟩, ⟨%f, Hc⟩⟩
        sl_exec
        sl_step
        isplitl [H6]; · iexists _; iexact H6
        iexists _; iexact Hc
      · unfold invC crowsHeld
        isplitl [H6]; · iexists _; iexact H6
        iexists _; iexact Hc
      iintro %_ HI
      unfold invC crowsHeld
      icases HI with ⟨⟨%r, H6⟩, ⟨%f, Hc⟩⟩
      sl_exec
      sl_step
      iclear Hc
      unfold inv4 common slotBusy outHeld
      isplitl [Hmw Ht H5 H6 Hg0 Hg1 HO]
      · isplitl [Hmw]; · iexact Hmw
        isplitl [Ht]; · iexact Ht
        isplitl [H5]
        · iexists g5; isplitr
          · ipureintro; exact hin
          · iexact H5
        isplitl [H6]; · iexists _; iexact H6
        isplitl [Hg0]; · iexact Hg0
        isplitl [Hg1]; · iexact Hg1
        iexists (insert (SemLoc.dma gS1, (default : HIx 4)) (insert (SemLoc.dma wS1, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hb0]; · iexact Hb0
      isplitl [Hw1]; · iexists _, _; iexact Hw1
      isplitl [Ho0]; · iexact Ho0
      isplitl [Hw1_dst]; · iexists _; iexact Hw1_dst
      isplitl [Ho4]; · iexact Ho4
      isplitl [Ho5]; · iexact Ho5
      isplitl [Ho6]; · iexact Ho6
      isplitl [Ho7]; · iexact Ho7
      isplitl [Ho8]; · iexact Ho8
      isplitl [Ho9]; · iexact Ho9
      isplitl [Ho10]; · iexact Ho10
      isplitl [Ho11]; · iexact Ho11
      isplitl [Ho12]; · iexact Ho12
      isplitl [Ho13]; · iexact Ho13
      isplitl [Ho14]; · iexact Ho14
      iexact Ho15
    | 4, hk =>
      -- trip 4: block 2's write-back is waited for, then slot 0 is reused
      have k3_h1 : k3_cond1 t4 = 1#1 := by decide
      change inv4 d L O W q ft ⊢ wp frame (wpE (defs₀ (F := F)) 𝒱₀ (tile d L) none) Set.univ (tile_run3.sl.prog.body_1 L t4 u) (fun _ => inv5 d L O W q ft)
      unfold inv4 common slotBusy outHeld
      iintro ⟨⟨Hmw, Ht, ⟨%g5, %hin, H5⟩, H6, Hg0, Hg1, %W', %hW', HO⟩, ⟨%fo0, %fc0, Hw0⟩, Hb1, Ho0, Ho1, ⟨%o4, Ho4⟩, Ho5, Ho6, Ho7, Ho8, Ho9, Ho10, Ho11, Ho12, Ho13, Ho14, Ho15⟩
      icases H6 with ⟨%r6, H6⟩
      have hinT : ∀ x, (((s0W).slice (Rect.unit (s := S2048) ![512] S128.size inb_w512) (fun _ => rfl)).view.read (Elt F) g5 x).toNat
          < S1000x128.size gathers_S1000x128_S128x128.axis := hin ![512] inb_w512
      have hinK : ∀ x, ((offsAt t4).view.read (Elt F) g5 x).toNat < S1000x128.size gathers_S1000x128_S128x128.axis := hin _ _
      sl_exec
      ihave Hc := (Entails.of_eq (show ((s2W).view.loc (tile d L) ↦[(crowsAt t2).view.set]{fullShare} fc0 : sProp 𝕄)
          = ((s2W).view.loc (tile d L) ↦[Finset.univ \ (crowsAt t1).view.set]{fullShare} fc0) from by rw [crows_even t2 (by decide)])) $$ Hw0_src
      sl_for (invC (F := F) d L t1) $$ [H6 Hc]
      case region =>
        intro j _
        unfold invC crowsHeld
        iintro ⟨⟨%r, H6⟩, ⟨%f, Hc⟩⟩
        sl_exec
        sl_step
        isplitl [H6]; · iexists _; iexact H6
        iexists _; iexact Hc
      · unfold invC crowsHeld
        isplitl [H6]; · iexists _; iexact H6
        iexists _; iexact Hc
      iintro %_ HI
      unfold invC crowsHeld
      icases HI with ⟨⟨%r, H6⟩, ⟨%f, Hc⟩⟩
      sl_exec
      sl_step
      iclear Hc
      unfold inv5 common slotBusy outHeld
      isplitl [Hmw Ht H5 H6 Hg0 Hg1 HO]
      · isplitl [Hmw]; · iexact Hmw
        isplitl [Ht]; · iexact Ht
        isplitl [H5]
        · iexists g5; isplitr
          · ipureintro; exact hin
          · iexact H5
        isplitl [H6]; · iexists _; iexact H6
        isplitl [Hg0]; · iexact Hg0
        isplitl [Hg1]; · iexact Hg1
        iexists (insert (SemLoc.dma gS0, (default : HIx 4)) (insert (SemLoc.dma wS0, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hw0]; · iexists _, _; iexact Hw0
      isplitl [Hb1]; · iexact Hb1
      isplitl [Ho0]; · iexact Ho0
      isplitl [Ho1]; · iexact Ho1
      isplitl [Hw0_dst]; · iexists _; iexact Hw0_dst
      isplitl [Ho5]; · iexact Ho5
      isplitl [Ho6]; · iexact Ho6
      isplitl [Ho7]; · iexact Ho7
      isplitl [Ho8]; · iexact Ho8
      isplitl [Ho9]; · iexact Ho9
      isplitl [Ho10]; · iexact Ho10
      isplitl [Ho11]; · iexact Ho11
      isplitl [Ho12]; · iexact Ho12
      isplitl [Ho13]; · iexact Ho13
      isplitl [Ho14]; · iexact Ho14
      iexact Ho15
    | 5, hk =>
      -- trip 5: block 3's write-back is waited for, then slot 1 is reused
      have k3_h1 : k3_cond1 t5 = 1#1 := by decide
      change inv5 d L O W q ft ⊢ wp frame (wpE (defs₀ (F := F)) 𝒱₀ (tile d L) none) Set.univ (tile_run3.sl.prog.body_1 L t5 u) (fun _ => inv6 d L O W q ft)
      unfold inv5 common slotBusy outHeld
      iintro ⟨⟨Hmw, Ht, ⟨%g5, %hin, H5⟩, H6, Hg0, Hg1, %W', %hW', HO⟩, Hb0, ⟨%fo1, %fc1, Hw1⟩, Ho0, Ho1, Ho2, ⟨%o5, Ho5⟩, Ho6, Ho7, Ho8, Ho9, Ho10, Ho11, Ho12, Ho13, Ho14, Ho15⟩
      icases H6 with ⟨%r6, H6⟩
      have hinT : ∀ x, (((s0W).slice (Rect.unit (s := S2048) ![640] S128.size inb_w640) (fun _ => rfl)).view.read (Elt F) g5 x).toNat
          < S1000x128.size gathers_S1000x128_S128x128.axis := hin ![640] inb_w640
      have hinK : ∀ x, ((offsAt t5).view.read (Elt F) g5 x).toNat < S1000x128.size gathers_S1000x128_S128x128.axis := hin _ _
      sl_exec
      ihave Hc := (Entails.of_eq (show ((s2W).view.loc (tile d L) ↦[(crowsAt t3).view.set]{fullShare} fc1 : sProp 𝕄)
          = ((s2W).view.loc (tile d L) ↦[Finset.univ \ (crowsAt t0).view.set]{fullShare} fc1) from by rw [crows_odd t3 (by decide)])) $$ Hw1_src
      sl_for (invC (F := F) d L t0) $$ [H6 Hc]
      case region =>
        intro j _
        unfold invC crowsHeld
        iintro ⟨⟨%r, H6⟩, ⟨%f, Hc⟩⟩
        sl_exec
        sl_step
        isplitl [H6]; · iexists _; iexact H6
        iexists _; iexact Hc
      · unfold invC crowsHeld
        isplitl [H6]; · iexists _; iexact H6
        iexists _; iexact Hc
      iintro %_ HI
      unfold invC crowsHeld
      icases HI with ⟨⟨%r, H6⟩, ⟨%f, Hc⟩⟩
      sl_exec
      sl_step
      iclear Hc
      unfold inv6 common slotBusy outHeld
      isplitl [Hmw Ht H5 H6 Hg0 Hg1 HO]
      · isplitl [Hmw]; · iexact Hmw
        isplitl [Ht]; · iexact Ht
        isplitl [H5]
        · iexists g5; isplitr
          · ipureintro; exact hin
          · iexact H5
        isplitl [H6]; · iexists _; iexact H6
        isplitl [Hg0]; · iexact Hg0
        isplitl [Hg1]; · iexact Hg1
        iexists (insert (SemLoc.dma gS1, (default : HIx 4)) (insert (SemLoc.dma wS1, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hb0]; · iexact Hb0
      isplitl [Hw1]; · iexists _, _; iexact Hw1
      isplitl [Ho0]; · iexact Ho0
      isplitl [Ho1]; · iexact Ho1
      isplitl [Ho2]; · iexact Ho2
      isplitl [Hw1_dst]; · iexists _; iexact Hw1_dst
      isplitl [Ho6]; · iexact Ho6
      isplitl [Ho7]; · iexact Ho7
      isplitl [Ho8]; · iexact Ho8
      isplitl [Ho9]; · iexact Ho9
      isplitl [Ho10]; · iexact Ho10
      isplitl [Ho11]; · iexact Ho11
      isplitl [Ho12]; · iexact Ho12
      isplitl [Ho13]; · iexact Ho13
      isplitl [Ho14]; · iexact Ho14
      iexact Ho15
    | 6, hk =>
      -- trip 6: block 4's write-back is waited for, then slot 0 is reused
      have k3_h1 : k3_cond1 t6 = 1#1 := by decide
      change inv6 d L O W q ft ⊢ wp frame (wpE (defs₀ (F := F)) 𝒱₀ (tile d L) none) Set.univ (tile_run3.sl.prog.body_1 L t6 u) (fun _ => inv7 d L O W q ft)
      unfold inv6 common slotBusy outHeld
      iintro ⟨⟨Hmw, Ht, ⟨%g5, %hin, H5⟩, H6, Hg0, Hg1, %W', %hW', HO⟩, ⟨%fo0, %fc0, Hw0⟩, Hb1, Ho0, Ho1, Ho2, Ho3, ⟨%o6, Ho6⟩, Ho7, Ho8, Ho9, Ho10, Ho11, Ho12, Ho13, Ho14, Ho15⟩
      icases H6 with ⟨%r6, H6⟩
      have hinT : ∀ x, (((s0W).slice (Rect.unit (s := S2048) ![768] S128.size inb_w768) (fun _ => rfl)).view.read (Elt F) g5 x).toNat
          < S1000x128.size gathers_S1000x128_S128x128.axis := hin ![768] inb_w768
      have hinK : ∀ x, ((offsAt t6).view.read (Elt F) g5 x).toNat < S1000x128.size gathers_S1000x128_S128x128.axis := hin _ _
      sl_exec
      ihave Hc := (Entails.of_eq (show ((s2W).view.loc (tile d L) ↦[(crowsAt t4).view.set]{fullShare} fc0 : sProp 𝕄)
          = ((s2W).view.loc (tile d L) ↦[Finset.univ \ (crowsAt t1).view.set]{fullShare} fc0) from by rw [crows_even t4 (by decide)])) $$ Hw0_src
      sl_for (invC (F := F) d L t1) $$ [H6 Hc]
      case region =>
        intro j _
        unfold invC crowsHeld
        iintro ⟨⟨%r, H6⟩, ⟨%f, Hc⟩⟩
        sl_exec
        sl_step
        isplitl [H6]; · iexists _; iexact H6
        iexists _; iexact Hc
      · unfold invC crowsHeld
        isplitl [H6]; · iexists _; iexact H6
        iexists _; iexact Hc
      iintro %_ HI
      unfold invC crowsHeld
      icases HI with ⟨⟨%r, H6⟩, ⟨%f, Hc⟩⟩
      sl_exec
      sl_step
      iclear Hc
      unfold inv7 common slotBusy outHeld
      isplitl [Hmw Ht H5 H6 Hg0 Hg1 HO]
      · isplitl [Hmw]; · iexact Hmw
        isplitl [Ht]; · iexact Ht
        isplitl [H5]
        · iexists g5; isplitr
          · ipureintro; exact hin
          · iexact H5
        isplitl [H6]; · iexists _; iexact H6
        isplitl [Hg0]; · iexact Hg0
        isplitl [Hg1]; · iexact Hg1
        iexists (insert (SemLoc.dma gS0, (default : HIx 4)) (insert (SemLoc.dma wS0, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hw0]; · iexists _, _; iexact Hw0
      isplitl [Hb1]; · iexact Hb1
      isplitl [Ho0]; · iexact Ho0
      isplitl [Ho1]; · iexact Ho1
      isplitl [Ho2]; · iexact Ho2
      isplitl [Ho3]; · iexact Ho3
      isplitl [Hw0_dst]; · iexists _; iexact Hw0_dst
      isplitl [Ho7]; · iexact Ho7
      isplitl [Ho8]; · iexact Ho8
      isplitl [Ho9]; · iexact Ho9
      isplitl [Ho10]; · iexact Ho10
      isplitl [Ho11]; · iexact Ho11
      isplitl [Ho12]; · iexact Ho12
      isplitl [Ho13]; · iexact Ho13
      isplitl [Ho14]; · iexact Ho14
      iexact Ho15
    | 7, hk =>
      -- trip 7: block 5's write-back is waited for, then slot 1 is reused
      have k3_h1 : k3_cond1 t7 = 1#1 := by decide
      change inv7 d L O W q ft ⊢ wp frame (wpE (defs₀ (F := F)) 𝒱₀ (tile d L) none) Set.univ (tile_run3.sl.prog.body_1 L t7 u) (fun _ => inv8 d L O W q ft)
      unfold inv7 common slotBusy outHeld
      iintro ⟨⟨Hmw, Ht, ⟨%g5, %hin, H5⟩, H6, Hg0, Hg1, %W', %hW', HO⟩, Hb0, ⟨%fo1, %fc1, Hw1⟩, Ho0, Ho1, Ho2, Ho3, Ho4, ⟨%o7, Ho7⟩, Ho8, Ho9, Ho10, Ho11, Ho12, Ho13, Ho14, Ho15⟩
      icases H6 with ⟨%r6, H6⟩
      have hinT : ∀ x, (((s0W).slice (Rect.unit (s := S2048) ![896] S128.size inb_w896) (fun _ => rfl)).view.read (Elt F) g5 x).toNat
          < S1000x128.size gathers_S1000x128_S128x128.axis := hin ![896] inb_w896
      have hinK : ∀ x, ((offsAt t7).view.read (Elt F) g5 x).toNat < S1000x128.size gathers_S1000x128_S128x128.axis := hin _ _
      sl_exec
      ihave Hc := (Entails.of_eq (show ((s2W).view.loc (tile d L) ↦[(crowsAt t5).view.set]{fullShare} fc1 : sProp 𝕄)
          = ((s2W).view.loc (tile d L) ↦[Finset.univ \ (crowsAt t0).view.set]{fullShare} fc1) from by rw [crows_odd t5 (by decide)])) $$ Hw1_src
      sl_for (invC (F := F) d L t0) $$ [H6 Hc]
      case region =>
        intro j _
        unfold invC crowsHeld
        iintro ⟨⟨%r, H6⟩, ⟨%f, Hc⟩⟩
        sl_exec
        sl_step
        isplitl [H6]; · iexists _; iexact H6
        iexists _; iexact Hc
      · unfold invC crowsHeld
        isplitl [H6]; · iexists _; iexact H6
        iexists _; iexact Hc
      iintro %_ HI
      unfold invC crowsHeld
      icases HI with ⟨⟨%r, H6⟩, ⟨%f, Hc⟩⟩
      sl_exec
      sl_step
      iclear Hc
      unfold inv8 common slotBusy outHeld
      isplitl [Hmw Ht H5 H6 Hg0 Hg1 HO]
      · isplitl [Hmw]; · iexact Hmw
        isplitl [Ht]; · iexact Ht
        isplitl [H5]
        · iexists g5; isplitr
          · ipureintro; exact hin
          · iexact H5
        isplitl [H6]; · iexists _; iexact H6
        isplitl [Hg0]; · iexact Hg0
        isplitl [Hg1]; · iexact Hg1
        iexists (insert (SemLoc.dma gS1, (default : HIx 4)) (insert (SemLoc.dma wS1, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hb0]; · iexact Hb0
      isplitl [Hw1]; · iexists _, _; iexact Hw1
      isplitl [Ho0]; · iexact Ho0
      isplitl [Ho1]; · iexact Ho1
      isplitl [Ho2]; · iexact Ho2
      isplitl [Ho3]; · iexact Ho3
      isplitl [Ho4]; · iexact Ho4
      isplitl [Hw1_dst]; · iexists _; iexact Hw1_dst
      isplitl [Ho8]; · iexact Ho8
      isplitl [Ho9]; · iexact Ho9
      isplitl [Ho10]; · iexact Ho10
      isplitl [Ho11]; · iexact Ho11
      isplitl [Ho12]; · iexact Ho12
      isplitl [Ho13]; · iexact Ho13
      isplitl [Ho14]; · iexact Ho14
      iexact Ho15
    | 8, hk =>
      -- trip 8: block 6's write-back is waited for, then slot 0 is reused
      have k3_h1 : k3_cond1 t8 = 1#1 := by decide
      change inv8 d L O W q ft ⊢ wp frame (wpE (defs₀ (F := F)) 𝒱₀ (tile d L) none) Set.univ (tile_run3.sl.prog.body_1 L t8 u) (fun _ => inv9 d L O W q ft)
      unfold inv8 common slotBusy outHeld
      iintro ⟨⟨Hmw, Ht, ⟨%g5, %hin, H5⟩, H6, Hg0, Hg1, %W', %hW', HO⟩, ⟨%fo0, %fc0, Hw0⟩, Hb1, Ho0, Ho1, Ho2, Ho3, Ho4, Ho5, ⟨%o8, Ho8⟩, Ho9, Ho10, Ho11, Ho12, Ho13, Ho14, Ho15⟩
      icases H6 with ⟨%r6, H6⟩
      have hinT : ∀ x, (((s0W).slice (Rect.unit (s := S2048) ![1024] S128.size inb_w1024) (fun _ => rfl)).view.read (Elt F) g5 x).toNat
          < S1000x128.size gathers_S1000x128_S128x128.axis := hin ![1024] inb_w1024
      have hinK : ∀ x, ((offsAt t8).view.read (Elt F) g5 x).toNat < S1000x128.size gathers_S1000x128_S128x128.axis := hin _ _
      sl_exec
      ihave Hc := (Entails.of_eq (show ((s2W).view.loc (tile d L) ↦[(crowsAt t6).view.set]{fullShare} fc0 : sProp 𝕄)
          = ((s2W).view.loc (tile d L) ↦[Finset.univ \ (crowsAt t1).view.set]{fullShare} fc0) from by rw [crows_even t6 (by decide)])) $$ Hw0_src
      sl_for (invC (F := F) d L t1) $$ [H6 Hc]
      case region =>
        intro j _
        unfold invC crowsHeld
        iintro ⟨⟨%r, H6⟩, ⟨%f, Hc⟩⟩
        sl_exec
        sl_step
        isplitl [H6]; · iexists _; iexact H6
        iexists _; iexact Hc
      · unfold invC crowsHeld
        isplitl [H6]; · iexists _; iexact H6
        iexists _; iexact Hc
      iintro %_ HI
      unfold invC crowsHeld
      icases HI with ⟨⟨%r, H6⟩, ⟨%f, Hc⟩⟩
      sl_exec
      sl_step
      iclear Hc
      unfold inv9 common slotBusy outHeld
      isplitl [Hmw Ht H5 H6 Hg0 Hg1 HO]
      · isplitl [Hmw]; · iexact Hmw
        isplitl [Ht]; · iexact Ht
        isplitl [H5]
        · iexists g5; isplitr
          · ipureintro; exact hin
          · iexact H5
        isplitl [H6]; · iexists _; iexact H6
        isplitl [Hg0]; · iexact Hg0
        isplitl [Hg1]; · iexact Hg1
        iexists (insert (SemLoc.dma gS0, (default : HIx 4)) (insert (SemLoc.dma wS0, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hw0]; · iexists _, _; iexact Hw0
      isplitl [Hb1]; · iexact Hb1
      isplitl [Ho0]; · iexact Ho0
      isplitl [Ho1]; · iexact Ho1
      isplitl [Ho2]; · iexact Ho2
      isplitl [Ho3]; · iexact Ho3
      isplitl [Ho4]; · iexact Ho4
      isplitl [Ho5]; · iexact Ho5
      isplitl [Hw0_dst]; · iexists _; iexact Hw0_dst
      isplitl [Ho9]; · iexact Ho9
      isplitl [Ho10]; · iexact Ho10
      isplitl [Ho11]; · iexact Ho11
      isplitl [Ho12]; · iexact Ho12
      isplitl [Ho13]; · iexact Ho13
      isplitl [Ho14]; · iexact Ho14
      iexact Ho15
    | 9, hk =>
      -- trip 9: block 7's write-back is waited for, then slot 1 is reused
      have k3_h1 : k3_cond1 t9 = 1#1 := by decide
      change inv9 d L O W q ft ⊢ wp frame (wpE (defs₀ (F := F)) 𝒱₀ (tile d L) none) Set.univ (tile_run3.sl.prog.body_1 L t9 u) (fun _ => inv10 d L O W q ft)
      unfold inv9 common slotBusy outHeld
      iintro ⟨⟨Hmw, Ht, ⟨%g5, %hin, H5⟩, H6, Hg0, Hg1, %W', %hW', HO⟩, Hb0, ⟨%fo1, %fc1, Hw1⟩, Ho0, Ho1, Ho2, Ho3, Ho4, Ho5, Ho6, ⟨%o9, Ho9⟩, Ho10, Ho11, Ho12, Ho13, Ho14, Ho15⟩
      icases H6 with ⟨%r6, H6⟩
      have hinT : ∀ x, (((s0W).slice (Rect.unit (s := S2048) ![1152] S128.size inb_w1152) (fun _ => rfl)).view.read (Elt F) g5 x).toNat
          < S1000x128.size gathers_S1000x128_S128x128.axis := hin ![1152] inb_w1152
      have hinK : ∀ x, ((offsAt t9).view.read (Elt F) g5 x).toNat < S1000x128.size gathers_S1000x128_S128x128.axis := hin _ _
      sl_exec
      ihave Hc := (Entails.of_eq (show ((s2W).view.loc (tile d L) ↦[(crowsAt t7).view.set]{fullShare} fc1 : sProp 𝕄)
          = ((s2W).view.loc (tile d L) ↦[Finset.univ \ (crowsAt t0).view.set]{fullShare} fc1) from by rw [crows_odd t7 (by decide)])) $$ Hw1_src
      sl_for (invC (F := F) d L t0) $$ [H6 Hc]
      case region =>
        intro j _
        unfold invC crowsHeld
        iintro ⟨⟨%r, H6⟩, ⟨%f, Hc⟩⟩
        sl_exec
        sl_step
        isplitl [H6]; · iexists _; iexact H6
        iexists _; iexact Hc
      · unfold invC crowsHeld
        isplitl [H6]; · iexists _; iexact H6
        iexists _; iexact Hc
      iintro %_ HI
      unfold invC crowsHeld
      icases HI with ⟨⟨%r, H6⟩, ⟨%f, Hc⟩⟩
      sl_exec
      sl_step
      iclear Hc
      unfold inv10 common slotBusy outHeld
      isplitl [Hmw Ht H5 H6 Hg0 Hg1 HO]
      · isplitl [Hmw]; · iexact Hmw
        isplitl [Ht]; · iexact Ht
        isplitl [H5]
        · iexists g5; isplitr
          · ipureintro; exact hin
          · iexact H5
        isplitl [H6]; · iexists _; iexact H6
        isplitl [Hg0]; · iexact Hg0
        isplitl [Hg1]; · iexact Hg1
        iexists (insert (SemLoc.dma gS1, (default : HIx 4)) (insert (SemLoc.dma wS1, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hb0]; · iexact Hb0
      isplitl [Hw1]; · iexists _, _; iexact Hw1
      isplitl [Ho0]; · iexact Ho0
      isplitl [Ho1]; · iexact Ho1
      isplitl [Ho2]; · iexact Ho2
      isplitl [Ho3]; · iexact Ho3
      isplitl [Ho4]; · iexact Ho4
      isplitl [Ho5]; · iexact Ho5
      isplitl [Ho6]; · iexact Ho6
      isplitl [Hw1_dst]; · iexists _; iexact Hw1_dst
      isplitl [Ho10]; · iexact Ho10
      isplitl [Ho11]; · iexact Ho11
      isplitl [Ho12]; · iexact Ho12
      isplitl [Ho13]; · iexact Ho13
      isplitl [Ho14]; · iexact Ho14
      iexact Ho15
    | 10, hk =>
      -- trip 10: block 8's write-back is waited for, then slot 0 is reused
      have k3_h1 : k3_cond1 t10 = 1#1 := by decide
      change inv10 d L O W q ft ⊢ wp frame (wpE (defs₀ (F := F)) 𝒱₀ (tile d L) none) Set.univ (tile_run3.sl.prog.body_1 L t10 u) (fun _ => inv11 d L O W q ft)
      unfold inv10 common slotBusy outHeld
      iintro ⟨⟨Hmw, Ht, ⟨%g5, %hin, H5⟩, H6, Hg0, Hg1, %W', %hW', HO⟩, ⟨%fo0, %fc0, Hw0⟩, Hb1, Ho0, Ho1, Ho2, Ho3, Ho4, Ho5, Ho6, Ho7, ⟨%o10, Ho10⟩, Ho11, Ho12, Ho13, Ho14, Ho15⟩
      icases H6 with ⟨%r6, H6⟩
      have hinT : ∀ x, (((s0W).slice (Rect.unit (s := S2048) ![1280] S128.size inb_w1280) (fun _ => rfl)).view.read (Elt F) g5 x).toNat
          < S1000x128.size gathers_S1000x128_S128x128.axis := hin ![1280] inb_w1280
      have hinK : ∀ x, ((offsAt t10).view.read (Elt F) g5 x).toNat < S1000x128.size gathers_S1000x128_S128x128.axis := hin _ _
      sl_exec
      ihave Hc := (Entails.of_eq (show ((s2W).view.loc (tile d L) ↦[(crowsAt t8).view.set]{fullShare} fc0 : sProp 𝕄)
          = ((s2W).view.loc (tile d L) ↦[Finset.univ \ (crowsAt t1).view.set]{fullShare} fc0) from by rw [crows_even t8 (by decide)])) $$ Hw0_src
      sl_for (invC (F := F) d L t1) $$ [H6 Hc]
      case region =>
        intro j _
        unfold invC crowsHeld
        iintro ⟨⟨%r, H6⟩, ⟨%f, Hc⟩⟩
        sl_exec
        sl_step
        isplitl [H6]; · iexists _; iexact H6
        iexists _; iexact Hc
      · unfold invC crowsHeld
        isplitl [H6]; · iexists _; iexact H6
        iexists _; iexact Hc
      iintro %_ HI
      unfold invC crowsHeld
      icases HI with ⟨⟨%r, H6⟩, ⟨%f, Hc⟩⟩
      sl_exec
      sl_step
      iclear Hc
      unfold inv11 common slotBusy outHeld
      isplitl [Hmw Ht H5 H6 Hg0 Hg1 HO]
      · isplitl [Hmw]; · iexact Hmw
        isplitl [Ht]; · iexact Ht
        isplitl [H5]
        · iexists g5; isplitr
          · ipureintro; exact hin
          · iexact H5
        isplitl [H6]; · iexists _; iexact H6
        isplitl [Hg0]; · iexact Hg0
        isplitl [Hg1]; · iexact Hg1
        iexists (insert (SemLoc.dma gS0, (default : HIx 4)) (insert (SemLoc.dma wS0, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hw0]; · iexists _, _; iexact Hw0
      isplitl [Hb1]; · iexact Hb1
      isplitl [Ho0]; · iexact Ho0
      isplitl [Ho1]; · iexact Ho1
      isplitl [Ho2]; · iexact Ho2
      isplitl [Ho3]; · iexact Ho3
      isplitl [Ho4]; · iexact Ho4
      isplitl [Ho5]; · iexact Ho5
      isplitl [Ho6]; · iexact Ho6
      isplitl [Ho7]; · iexact Ho7
      isplitl [Hw0_dst]; · iexists _; iexact Hw0_dst
      isplitl [Ho11]; · iexact Ho11
      isplitl [Ho12]; · iexact Ho12
      isplitl [Ho13]; · iexact Ho13
      isplitl [Ho14]; · iexact Ho14
      iexact Ho15
    | 11, hk =>
      -- trip 11: block 9's write-back is waited for, then slot 1 is reused
      have k3_h1 : k3_cond1 t11 = 1#1 := by decide
      change inv11 d L O W q ft ⊢ wp frame (wpE (defs₀ (F := F)) 𝒱₀ (tile d L) none) Set.univ (tile_run3.sl.prog.body_1 L t11 u) (fun _ => inv12 d L O W q ft)
      unfold inv11 common slotBusy outHeld
      iintro ⟨⟨Hmw, Ht, ⟨%g5, %hin, H5⟩, H6, Hg0, Hg1, %W', %hW', HO⟩, Hb0, ⟨%fo1, %fc1, Hw1⟩, Ho0, Ho1, Ho2, Ho3, Ho4, Ho5, Ho6, Ho7, Ho8, ⟨%o11, Ho11⟩, Ho12, Ho13, Ho14, Ho15⟩
      icases H6 with ⟨%r6, H6⟩
      have hinT : ∀ x, (((s0W).slice (Rect.unit (s := S2048) ![1408] S128.size inb_w1408) (fun _ => rfl)).view.read (Elt F) g5 x).toNat
          < S1000x128.size gathers_S1000x128_S128x128.axis := hin ![1408] inb_w1408
      have hinK : ∀ x, ((offsAt t11).view.read (Elt F) g5 x).toNat < S1000x128.size gathers_S1000x128_S128x128.axis := hin _ _
      sl_exec
      ihave Hc := (Entails.of_eq (show ((s2W).view.loc (tile d L) ↦[(crowsAt t9).view.set]{fullShare} fc1 : sProp 𝕄)
          = ((s2W).view.loc (tile d L) ↦[Finset.univ \ (crowsAt t0).view.set]{fullShare} fc1) from by rw [crows_odd t9 (by decide)])) $$ Hw1_src
      sl_for (invC (F := F) d L t0) $$ [H6 Hc]
      case region =>
        intro j _
        unfold invC crowsHeld
        iintro ⟨⟨%r, H6⟩, ⟨%f, Hc⟩⟩
        sl_exec
        sl_step
        isplitl [H6]; · iexists _; iexact H6
        iexists _; iexact Hc
      · unfold invC crowsHeld
        isplitl [H6]; · iexists _; iexact H6
        iexists _; iexact Hc
      iintro %_ HI
      unfold invC crowsHeld
      icases HI with ⟨⟨%r, H6⟩, ⟨%f, Hc⟩⟩
      sl_exec
      sl_step
      iclear Hc
      unfold inv12 common slotBusy outHeld
      isplitl [Hmw Ht H5 H6 Hg0 Hg1 HO]
      · isplitl [Hmw]; · iexact Hmw
        isplitl [Ht]; · iexact Ht
        isplitl [H5]
        · iexists g5; isplitr
          · ipureintro; exact hin
          · iexact H5
        isplitl [H6]; · iexists _; iexact H6
        isplitl [Hg0]; · iexact Hg0
        isplitl [Hg1]; · iexact Hg1
        iexists (insert (SemLoc.dma gS1, (default : HIx 4)) (insert (SemLoc.dma wS1, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hb0]; · iexact Hb0
      isplitl [Hw1]; · iexists _, _; iexact Hw1
      isplitl [Ho0]; · iexact Ho0
      isplitl [Ho1]; · iexact Ho1
      isplitl [Ho2]; · iexact Ho2
      isplitl [Ho3]; · iexact Ho3
      isplitl [Ho4]; · iexact Ho4
      isplitl [Ho5]; · iexact Ho5
      isplitl [Ho6]; · iexact Ho6
      isplitl [Ho7]; · iexact Ho7
      isplitl [Ho8]; · iexact Ho8
      isplitl [Hw1_dst]; · iexists _; iexact Hw1_dst
      isplitl [Ho12]; · iexact Ho12
      isplitl [Ho13]; · iexact Ho13
      isplitl [Ho14]; · iexact Ho14
      iexact Ho15
    | 12, hk =>
      -- trip 12: block 10's write-back is waited for, then slot 0 is reused
      have k3_h1 : k3_cond1 t12 = 1#1 := by decide
      change inv12 d L O W q ft ⊢ wp frame (wpE (defs₀ (F := F)) 𝒱₀ (tile d L) none) Set.univ (tile_run3.sl.prog.body_1 L t12 u) (fun _ => inv13 d L O W q ft)
      unfold inv12 common slotBusy outHeld
      iintro ⟨⟨Hmw, Ht, ⟨%g5, %hin, H5⟩, H6, Hg0, Hg1, %W', %hW', HO⟩, ⟨%fo0, %fc0, Hw0⟩, Hb1, Ho0, Ho1, Ho2, Ho3, Ho4, Ho5, Ho6, Ho7, Ho8, Ho9, ⟨%o12, Ho12⟩, Ho13, Ho14, Ho15⟩
      icases H6 with ⟨%r6, H6⟩
      have hinT : ∀ x, (((s0W).slice (Rect.unit (s := S2048) ![1536] S128.size inb_w1536) (fun _ => rfl)).view.read (Elt F) g5 x).toNat
          < S1000x128.size gathers_S1000x128_S128x128.axis := hin ![1536] inb_w1536
      have hinK : ∀ x, ((offsAt t12).view.read (Elt F) g5 x).toNat < S1000x128.size gathers_S1000x128_S128x128.axis := hin _ _
      sl_exec
      ihave Hc := (Entails.of_eq (show ((s2W).view.loc (tile d L) ↦[(crowsAt t10).view.set]{fullShare} fc0 : sProp 𝕄)
          = ((s2W).view.loc (tile d L) ↦[Finset.univ \ (crowsAt t1).view.set]{fullShare} fc0) from by rw [crows_even t10 (by decide)])) $$ Hw0_src
      sl_for (invC (F := F) d L t1) $$ [H6 Hc]
      case region =>
        intro j _
        unfold invC crowsHeld
        iintro ⟨⟨%r, H6⟩, ⟨%f, Hc⟩⟩
        sl_exec
        sl_step
        isplitl [H6]; · iexists _; iexact H6
        iexists _; iexact Hc
      · unfold invC crowsHeld
        isplitl [H6]; · iexists _; iexact H6
        iexists _; iexact Hc
      iintro %_ HI
      unfold invC crowsHeld
      icases HI with ⟨⟨%r, H6⟩, ⟨%f, Hc⟩⟩
      sl_exec
      sl_step
      iclear Hc
      unfold inv13 common slotBusy outHeld
      isplitl [Hmw Ht H5 H6 Hg0 Hg1 HO]
      · isplitl [Hmw]; · iexact Hmw
        isplitl [Ht]; · iexact Ht
        isplitl [H5]
        · iexists g5; isplitr
          · ipureintro; exact hin
          · iexact H5
        isplitl [H6]; · iexists _; iexact H6
        isplitl [Hg0]; · iexact Hg0
        isplitl [Hg1]; · iexact Hg1
        iexists (insert (SemLoc.dma gS0, (default : HIx 4)) (insert (SemLoc.dma wS0, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hw0]; · iexists _, _; iexact Hw0
      isplitl [Hb1]; · iexact Hb1
      isplitl [Ho0]; · iexact Ho0
      isplitl [Ho1]; · iexact Ho1
      isplitl [Ho2]; · iexact Ho2
      isplitl [Ho3]; · iexact Ho3
      isplitl [Ho4]; · iexact Ho4
      isplitl [Ho5]; · iexact Ho5
      isplitl [Ho6]; · iexact Ho6
      isplitl [Ho7]; · iexact Ho7
      isplitl [Ho8]; · iexact Ho8
      isplitl [Ho9]; · iexact Ho9
      isplitl [Hw0_dst]; · iexists _; iexact Hw0_dst
      isplitl [Ho13]; · iexact Ho13
      isplitl [Ho14]; · iexact Ho14
      iexact Ho15
    | 13, hk =>
      -- trip 13: block 11's write-back is waited for, then slot 1 is reused
      have k3_h1 : k3_cond1 t13 = 1#1 := by decide
      change inv13 d L O W q ft ⊢ wp frame (wpE (defs₀ (F := F)) 𝒱₀ (tile d L) none) Set.univ (tile_run3.sl.prog.body_1 L t13 u) (fun _ => inv14 d L O W q ft)
      unfold inv13 common slotBusy outHeld
      iintro ⟨⟨Hmw, Ht, ⟨%g5, %hin, H5⟩, H6, Hg0, Hg1, %W', %hW', HO⟩, Hb0, ⟨%fo1, %fc1, Hw1⟩, Ho0, Ho1, Ho2, Ho3, Ho4, Ho5, Ho6, Ho7, Ho8, Ho9, Ho10, ⟨%o13, Ho13⟩, Ho14, Ho15⟩
      icases H6 with ⟨%r6, H6⟩
      have hinT : ∀ x, (((s0W).slice (Rect.unit (s := S2048) ![1664] S128.size inb_w1664) (fun _ => rfl)).view.read (Elt F) g5 x).toNat
          < S1000x128.size gathers_S1000x128_S128x128.axis := hin ![1664] inb_w1664
      have hinK : ∀ x, ((offsAt t13).view.read (Elt F) g5 x).toNat < S1000x128.size gathers_S1000x128_S128x128.axis := hin _ _
      sl_exec
      ihave Hc := (Entails.of_eq (show ((s2W).view.loc (tile d L) ↦[(crowsAt t11).view.set]{fullShare} fc1 : sProp 𝕄)
          = ((s2W).view.loc (tile d L) ↦[Finset.univ \ (crowsAt t0).view.set]{fullShare} fc1) from by rw [crows_odd t11 (by decide)])) $$ Hw1_src
      sl_for (invC (F := F) d L t0) $$ [H6 Hc]
      case region =>
        intro j _
        unfold invC crowsHeld
        iintro ⟨⟨%r, H6⟩, ⟨%f, Hc⟩⟩
        sl_exec
        sl_step
        isplitl [H6]; · iexists _; iexact H6
        iexists _; iexact Hc
      · unfold invC crowsHeld
        isplitl [H6]; · iexists _; iexact H6
        iexists _; iexact Hc
      iintro %_ HI
      unfold invC crowsHeld
      icases HI with ⟨⟨%r, H6⟩, ⟨%f, Hc⟩⟩
      sl_exec
      sl_step
      iclear Hc
      unfold inv14 common slotBusy outHeld
      isplitl [Hmw Ht H5 H6 Hg0 Hg1 HO]
      · isplitl [Hmw]; · iexact Hmw
        isplitl [Ht]; · iexact Ht
        isplitl [H5]
        · iexists g5; isplitr
          · ipureintro; exact hin
          · iexact H5
        isplitl [H6]; · iexists _; iexact H6
        isplitl [Hg0]; · iexact Hg0
        isplitl [Hg1]; · iexact Hg1
        iexists (insert (SemLoc.dma gS1, (default : HIx 4)) (insert (SemLoc.dma wS1, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hb0]; · iexact Hb0
      isplitl [Hw1]; · iexists _, _; iexact Hw1
      isplitl [Ho0]; · iexact Ho0
      isplitl [Ho1]; · iexact Ho1
      isplitl [Ho2]; · iexact Ho2
      isplitl [Ho3]; · iexact Ho3
      isplitl [Ho4]; · iexact Ho4
      isplitl [Ho5]; · iexact Ho5
      isplitl [Ho6]; · iexact Ho6
      isplitl [Ho7]; · iexact Ho7
      isplitl [Ho8]; · iexact Ho8
      isplitl [Ho9]; · iexact Ho9
      isplitl [Ho10]; · iexact Ho10
      isplitl [Hw1_dst]; · iexists _; iexact Hw1_dst
      isplitl [Ho14]; · iexact Ho14
      iexact Ho15
    | 14, hk =>
      -- trip 14: block 12's write-back is waited for, then slot 0 is reused
      have k3_h1 : k3_cond1 t14 = 1#1 := by decide
      change inv14 d L O W q ft ⊢ wp frame (wpE (defs₀ (F := F)) 𝒱₀ (tile d L) none) Set.univ (tile_run3.sl.prog.body_1 L t14 u) (fun _ => inv15 d L O W q ft)
      unfold inv14 common slotBusy outHeld
      iintro ⟨⟨Hmw, Ht, ⟨%g5, %hin, H5⟩, H6, Hg0, Hg1, %W', %hW', HO⟩, ⟨%fo0, %fc0, Hw0⟩, Hb1, Ho0, Ho1, Ho2, Ho3, Ho4, Ho5, Ho6, Ho7, Ho8, Ho9, Ho10, Ho11, ⟨%o14, Ho14⟩, Ho15⟩
      icases H6 with ⟨%r6, H6⟩
      have hinT : ∀ x, (((s0W).slice (Rect.unit (s := S2048) ![1792] S128.size inb_w1792) (fun _ => rfl)).view.read (Elt F) g5 x).toNat
          < S1000x128.size gathers_S1000x128_S128x128.axis := hin ![1792] inb_w1792
      have hinK : ∀ x, ((offsAt t14).view.read (Elt F) g5 x).toNat < S1000x128.size gathers_S1000x128_S128x128.axis := hin _ _
      sl_exec
      ihave Hc := (Entails.of_eq (show ((s2W).view.loc (tile d L) ↦[(crowsAt t12).view.set]{fullShare} fc0 : sProp 𝕄)
          = ((s2W).view.loc (tile d L) ↦[Finset.univ \ (crowsAt t1).view.set]{fullShare} fc0) from by rw [crows_even t12 (by decide)])) $$ Hw0_src
      sl_for (invC (F := F) d L t1) $$ [H6 Hc]
      case region =>
        intro j _
        unfold invC crowsHeld
        iintro ⟨⟨%r, H6⟩, ⟨%f, Hc⟩⟩
        sl_exec
        sl_step
        isplitl [H6]; · iexists _; iexact H6
        iexists _; iexact Hc
      · unfold invC crowsHeld
        isplitl [H6]; · iexists _; iexact H6
        iexists _; iexact Hc
      iintro %_ HI
      unfold invC crowsHeld
      icases HI with ⟨⟨%r, H6⟩, ⟨%f, Hc⟩⟩
      sl_exec
      sl_step
      iclear Hc
      unfold inv15 common slotBusy outHeld
      isplitl [Hmw Ht H5 H6 Hg0 Hg1 HO]
      · isplitl [Hmw]; · iexact Hmw
        isplitl [Ht]; · iexact Ht
        isplitl [H5]
        · iexists g5; isplitr
          · ipureintro; exact hin
          · iexact H5
        isplitl [H6]; · iexists _; iexact H6
        isplitl [Hg0]; · iexact Hg0
        isplitl [Hg1]; · iexact Hg1
        iexists (insert (SemLoc.dma gS0, (default : HIx 4)) (insert (SemLoc.dma wS0, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hw0]; · iexists _, _; iexact Hw0
      isplitl [Hb1]; · iexact Hb1
      isplitl [Ho0]; · iexact Ho0
      isplitl [Ho1]; · iexact Ho1
      isplitl [Ho2]; · iexact Ho2
      isplitl [Ho3]; · iexact Ho3
      isplitl [Ho4]; · iexact Ho4
      isplitl [Ho5]; · iexact Ho5
      isplitl [Ho6]; · iexact Ho6
      isplitl [Ho7]; · iexact Ho7
      isplitl [Ho8]; · iexact Ho8
      isplitl [Ho9]; · iexact Ho9
      isplitl [Ho10]; · iexact Ho10
      isplitl [Ho11]; · iexact Ho11
      isplitl [Hw0_dst]; · iexists _; iexact Hw0_dst
      iexact Ho15
    | 15, hk =>
      -- trip 15: block 13's write-back is waited for, then slot 1 is reused
      have k3_h1 : k3_cond1 t15 = 1#1 := by decide
      change inv15 d L O W q ft ⊢ wp frame (wpE (defs₀ (F := F)) 𝒱₀ (tile d L) none) Set.univ (tile_run3.sl.prog.body_1 L t15 u) (fun _ => inv16 d L O W q ft)
      unfold inv15 common slotBusy outHeld
      iintro ⟨⟨Hmw, Ht, ⟨%g5, %hin, H5⟩, H6, Hg0, Hg1, %W', %hW', HO⟩, Hb0, ⟨%fo1, %fc1, Hw1⟩, Ho0, Ho1, Ho2, Ho3, Ho4, Ho5, Ho6, Ho7, Ho8, Ho9, Ho10, Ho11, Ho12, ⟨%o15, Ho15⟩⟩
      icases H6 with ⟨%r6, H6⟩
      have hinT : ∀ x, (((s0W).slice (Rect.unit (s := S2048) ![1920] S128.size inb_w1920) (fun _ => rfl)).view.read (Elt F) g5 x).toNat
          < S1000x128.size gathers_S1000x128_S128x128.axis := hin ![1920] inb_w1920
      have hinK : ∀ x, ((offsAt t15).view.read (Elt F) g5 x).toNat < S1000x128.size gathers_S1000x128_S128x128.axis := hin _ _
      sl_exec
      ihave Hc := (Entails.of_eq (show ((s2W).view.loc (tile d L) ↦[(crowsAt t13).view.set]{fullShare} fc1 : sProp 𝕄)
          = ((s2W).view.loc (tile d L) ↦[Finset.univ \ (crowsAt t0).view.set]{fullShare} fc1) from by rw [crows_odd t13 (by decide)])) $$ Hw1_src
      sl_for (invC (F := F) d L t0) $$ [H6 Hc]
      case region =>
        intro j _
        unfold invC crowsHeld
        iintro ⟨⟨%r, H6⟩, ⟨%f, Hc⟩⟩
        sl_exec
        sl_step
        isplitl [H6]; · iexists _; iexact H6
        iexists _; iexact Hc
      · unfold invC crowsHeld
        isplitl [H6]; · iexists _; iexact H6
        iexists _; iexact Hc
      iintro %_ HI
      unfold invC crowsHeld
      icases HI with ⟨⟨%r, H6⟩, ⟨%f, Hc⟩⟩
      sl_exec
      sl_step
      iclear Hc
      unfold inv16 common slotBusy outHeld
      isplitl [Hmw Ht H5 H6 Hg0 Hg1 HO]
      · isplitl [Hmw]; · iexact Hmw
        isplitl [Ht]; · iexact Ht
        isplitl [H5]
        · iexists g5; isplitr
          · ipureintro; exact hin
          · iexact H5
        isplitl [H6]; · iexists _; iexact H6
        isplitl [Hg0]; · iexact Hg0
        isplitl [Hg1]; · iexact Hg1
        iexists (insert (SemLoc.dma gS1, (default : HIx 4)) (insert (SemLoc.dma wS1, (default : HIx 4)) W')); isplitr
        · ipureintro; intro p hp
          rcases Finset.mem_insert.mp hp with hp | hp
          · exact Or.inr (by subst hp; rfl)
          rcases Finset.mem_insert.mp hp with hp | hp
          · exact Or.inr (by subst hp; rfl)
          · exact hW' p hp
        · iexact HO
      isplitl [Hb0]; · iexact Hb0
      isplitl [Hw1]; · iexists _, _; iexact Hw1
      isplitl [Ho0]; · iexact Ho0
      isplitl [Ho1]; · iexact Ho1
      isplitl [Ho2]; · iexact Ho2
      isplitl [Ho3]; · iexact Ho3
      isplitl [Ho4]; · iexact Ho4
      isplitl [Ho5]; · iexact Ho5
      isplitl [Ho6]; · iexact Ho6
      isplitl [Ho7]; · iexact Ho7
      isplitl [Ho8]; · iexact Ho8
      isplitl [Ho9]; · iexact Ho9
      isplitl [Ho10]; · iexact Ho10
      isplitl [Ho11]; · iexact Ho11
      isplitl [Ho12]; · iexact Ho12
      iexists _; iexact Hw1_dst
  · -- before the first trip
    iapply (Entails.of_eq (show inv0 d L O W q ft = invO d L O W q ft 0 PUnit.unit from rfl))
    unfold inv0 common slotFree outHeld crowsHeld
    isplitl [Hmw Ht H5 H6 Hg0 Hg1 HO]
    · isplitl [Hmw]; · iexact Hmw
      isplitl [Ht]; · iexact Ht
      isplitl [H5]
      · iexists _; isplitr
        · ipureintro; exact h5
        · iexact H5
      isplitl [H6]; · iexact H6
      isplitl [Hg0]; · iexact Hg0
      isplitl [Hg1]; · iexact Hg1
      iexists (insert (SemLoc.dma pS, (default : HIx 4)) W); isplitr
      · ipureintro; intro p hp
        rcases Finset.mem_insert.mp hp with hp | hp
        · exact Or.inr (by subst hp; rfl)
        · exact Or.inl hp
      · iexact HO
    isplitl [Hw0 Hc0]; · isplitl [Hw0]; · iexact Hw0
                         iexact Hc0
    isplitl [Hw1 Hc1]; · isplitl [Hw1]; · iexact Hw1
                         iexact Hc1
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    isplitl [Ho7]; · iexact Ho7
    isplitl [Ho8]; · iexact Ho8
    isplitl [Ho9]; · iexact Ho9
    isplitl [Ho10]; · iexact Ho10
    isplitl [Ho11]; · iexact Ho11
    isplitl [Ho12]; · iexact Ho12
    isplitl [Ho13]; · iexact Ho13
    isplitl [Ho14]; · iexact Ho14
    iexact Ho15
  -- after the loop: the last two write-backs
  iintro %acc HI
  ihave HI' := (Entails.of_eq (show invO d L O W q ft (Scf.trips k3_t1_loop.lb k3_t1_loop.ub k3_t1_loop.st) acc = inv16 d L O W q ft from rfl)) $$ HI
  unfold inv16 common slotBusy outHeld
  icases HI' with ⟨⟨Hmw, Ht, ⟨%g5, %hin, H5⟩, H6, Hg0, Hg1, %W', %hW', HO⟩, ⟨%foA, %fcA, Hw0⟩, ⟨%foB, %fcB, Hw1⟩, Ho0, Ho1, Ho2, Ho3, Ho4, Ho5, Ho6, Ho7, Ho8, Ho9, Ho10, Ho11, Ho12, Ho13⟩
  sl_exec
  sl_step
  isplitl [Ht]; · iexact Ht
  isplitl [Hi]; · iexact Hi
  isplitl [H5]; · iexists _; iexact H5
  isplitl [H6]; · iexact H6
  isplitl [Hw0_src]; · iexists _; iexact Hw0_src
  isplitl [Hw1_src]; · iexists _; iexact Hw1_src
  isplitl [Ho0]; · iexact Ho0
  isplitl [Ho1]; · iexact Ho1
  isplitl [Ho2]; · iexact Ho2
  isplitl [Ho3]; · iexact Ho3
  isplitl [Ho4]; · iexact Ho4
  isplitl [Ho5]; · iexact Ho5
  isplitl [Ho6]; · iexact Ho6
  isplitl [Ho7]; · iexact Ho7
  isplitl [Ho8]; · iexact Ho8
  isplitl [Ho9]; · iexact Ho9
  isplitl [Ho10]; · iexact Ho10
  isplitl [Ho11]; · iexact Ho11
  isplitl [Ho12]; · iexact Ho12
  isplitl [Ho13]; · iexact Ho13
  isplitl [Hw0_dst]; · iexists _; iexact Hw0_dst
  isplitl [Hw1_dst]; · iexists _; iexact Hw1_dst
  isplitl [Hg0]; · iexact Hg0
  isplitl [Hg1]; · iexact Hg1
  isplitl [Hw0]; · iexact Hw0
  isplitl [Hw1]; · iexact Hw1
  isplitl [Hp]; · iexact Hp
  iexists (insert (SemLoc.dma wS1, (default : HIx 4)) (insert (SemLoc.dma wS0, (default : HIx 4)) W')); isplitr
  · ipureintro; intro p hp
    rcases Finset.mem_insert.mp hp with hp | hp
    · exact Or.inr (by subst hp; rfl)
    rcases Finset.mem_insert.mp hp with hp | hp
    · exact Or.inr (by subst hp; rfl)
    · exact hW' p hp
  · iexact HO

end Cert.Kernel.Hand.C3

end
-- ==== Proof.Kernel.TileObl3.lean ====
/-
  The fourth gather call's task as the launch theorem wants it: from what a vector subcore is handed at the call — its
  share of the table, its slice of the token words, its blocks of the result — and its own scratch buffers and
  semaphores, to the same handed back. The subcore's scratch and semaphores are picked out of everything it owns, the
  two-slot compact-rows scratch is cut into its halves for the run and glued back afterwards, and the run itself is
  `tile_run3`.
-/
import proofs.«203661_g84404697301628_cont_9to1_m_135_26_alg».proof.Proof.Kernel.TileRun3
import proofs.«203661_g84404697301628_cont_9to1_m_135_26_alg».proof.Proof.Kernel.Pay
import Idealize.ShloMosaic.Lib.SparseCore.Ops

noncomputable section

namespace Cert.Kernel.Hand.C3

open Cert.Kernel Cert.Kernel.Gen Cert.Kernel.Hand
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [hK : Cert.Kernel.Facts] [FloatOps F]

local notation "𝕄" => MT nD τ sig (HIx 4) (Elt F) ℕ UU ℕ

local notation "tblW" => (Memref.whole Cert.Kernel.main_v0_scv : Memref Cert.Kernel.sig Kind.scVector Space.hbm Cert.Kernel.S1000x128 EltTy.f32)
local notation "idxW" => (Memref.whole Cert.Kernel.main_v11_scv : Memref Cert.Kernel.sig Kind.scVector Space.hbm Cert.Kernel.S65536 EltTy.i32)
local notation "outW" => (Memref.whole Cert.Kernel.main_v12_scv : Memref Cert.Kernel.sig Kind.scVector Space.hbm Cert.Kernel.S4x16384x32 EltTy.f32)
local notation "s0W" => (Memref.whole Cert.Kernel.cc3_scratch0 : Memref Cert.Kernel.sig Kind.scVector Space.vmem Cert.Kernel.S2048 EltTy.i32)
local notation "s1W" => (Memref.whole Cert.Kernel.cc3_scratch1 : Memref Cert.Kernel.sig Kind.scVector Space.vmem Cert.Kernel.S2x128x128 EltTy.f32)
local notation "s2W" => (Memref.whole Cert.Kernel.cc3_scratch2 : Memref Cert.Kernel.sig Kind.scVector Space.vmem Cert.Kernel.S2x128x32 EltTy.f32)
local notation "gS0" => (⟨15, by decide⟩ : DmaSem Cert.Kernel.sig)
local notation "gS1" => (⟨16, by decide⟩ : DmaSem Cert.Kernel.sig)
local notation "wS0" => (⟨17, by decide⟩ : DmaSem Cert.Kernel.sig)
local notation "wS1" => (⟨18, by decide⟩ : DmaSem Cert.Kernel.sig)
local notation "pS" => (⟨19, by decide⟩ : DmaSem Cert.Kernel.sig)

/-- the fourth call's token words, as the TensorCore names them -/
abbrev idxLoc3 (d : Dev nD) : Loc nD τ sig := (SparseCore.T d).loc main_v11

/-- the grid point of subcore `i` of SparseCore `c` -/
def coords3 (c : Fin 2) (i : Fin 16) : grid3.Coords :=
  fun | 0 => c | 1 => i | ⟨_ + 2, h⟩ => absurd h (Nat.not_lt.2 (Nat.le_add_left _ _))

/-- what subcore `(c, i)` is handed for the fourth call besides the table: its slice of the token words, at the words
    `wd`, and its sixteen blocks of the result, at some contents -/
def Rs3 (wd : (d : Dev nD) → Buf (Elt F) (idxLoc3 d)) (d : Dev nD) (c : Fin 2) (i : Fin 16) : sProp 𝕄 :=
  iprop(((idxSl (coords3 c i)).view.loc (tile d (coords3 c i)) ↦[(idxSl (coords3 c i)).view.set]{fullShare} wd d)
    ∗ outHeld (F := F) d (coords3 c i) t0 ∗ outHeld (F := F) d (coords3 c i) t1
    ∗ outHeld (F := F) d (coords3 c i) t2 ∗ outHeld (F := F) d (coords3 c i) t3
    ∗ outHeld (F := F) d (coords3 c i) t4 ∗ outHeld (F := F) d (coords3 c i) t5
    ∗ outHeld (F := F) d (coords3 c i) t6 ∗ outHeld (F := F) d (coords3 c i) t7
    ∗ outHeld (F := F) d (coords3 c i) t8 ∗ outHeld (F := F) d (coords3 c i) t9
    ∗ outHeld (F := F) d (coords3 c i) t10 ∗ outHeld (F := F) d (coords3 c i) t11
    ∗ outHeld (F := F) d (coords3 c i) t12 ∗ outHeld (F := F) d (coords3 c i) t13
    ∗ outHeld (F := F) d (coords3 c i) t14 ∗ outHeld (F := F) d (coords3 c i) t15)

section Tile

variable (d : Dev nD) (L : grid3.Coords)

omit [FloatOps F] in
theorem mem_own (k : DmaSem sig) (hk : (SemLoc.dma k : SemLoc sig).isScoped .scVector = true) :
    ((tile d L, SemLoc.dma k) : GSem nD τ sig) ∈ ownCells (sig := sig) (tile d L) :=
  (mem_ownCells (g := (tile d L, SemLoc.dma k))).mpr ⟨rfl, hk⟩
omit [FloatOps F] in
theorem ne_cell {k k' : DmaSem sig} (h : k ≠ k') : ((tile d L, SemLoc.dma k) : GSem nD τ sig) ≠ (tile d L, SemLoc.dma k') :=
  fun e => h (SemLoc.dma.inj (Prod.mk.inj e).2)

omit [FloatOps F] in
/-- the five semaphores this call uses are among the subcore's own: they, and the rest -/
theorem ownSems0_V3 :
    (ownSems0 (tile d L) : sProp 𝕄)
      = iprop(semVal (tile d L, SemLoc.dma gS0) 0 ∗ semVal (tile d L, SemLoc.dma gS1) 0 ∗ semVal (tile d L, SemLoc.dma wS0) 0
          ∗ semVal (tile d L, SemLoc.dma wS1) 0 ∗ semVal (tile d L, SemLoc.dma pS) 0
          ∗ bigSep ((((((ownCells (tile d L)).erase (tile d L, SemLoc.dma gS0)).erase (tile d L, SemLoc.dma gS1)).erase (tile d L, SemLoc.dma wS0)).erase
              (tile d L, SemLoc.dma wS1)).erase (tile d L, SemLoc.dma pS)) fun g => semVal g 0) := by
  unfold SparseCore.Cfg.ownSems0
  rw [SparseCore.bigSep_erase' (mem_own d L gS0 (by decide)),
    SparseCore.bigSep_erase' (Finset.mem_erase.mpr ⟨ne_cell d L (k := gS1) (k' := gS0) (by decide), mem_own d L gS1 (by decide)⟩),
    SparseCore.bigSep_erase' (Finset.mem_erase.mpr ⟨ne_cell d L (k := wS0) (k' := gS1) (by decide), Finset.mem_erase.mpr ⟨ne_cell d L (k := wS0) (k' := gS0) (by decide), mem_own d L wS0 (by decide)⟩⟩),
    SparseCore.bigSep_erase' (Finset.mem_erase.mpr ⟨ne_cell d L (k := wS1) (k' := wS0) (by decide), Finset.mem_erase.mpr ⟨ne_cell d L (k := wS1) (k' := gS1) (by decide), Finset.mem_erase.mpr ⟨ne_cell d L (k := wS1) (k' := gS0) (by decide), mem_own d L wS1 (by decide)⟩⟩⟩),
    SparseCore.bigSep_erase' (Finset.mem_erase.mpr ⟨ne_cell d L (k := pS) (k' := wS1) (by decide), Finset.mem_erase.mpr ⟨ne_cell d L (k := pS) (k' := wS0) (by decide), Finset.mem_erase.mpr ⟨ne_cell d L (k := pS) (k' := gS1) (by decide), Finset.mem_erase.mpr ⟨ne_cell d L (k := pS) (k' := gS0) (by decide), mem_own d L pS (by decide)⟩⟩⟩⟩)]

omit [FloatOps F] in
/-- the three scratch buffers are among the subcore's own: they, at some contents, and the rest -/
theorem ownBufs_V3 :
    (ownBufs (tile d L) : sProp 𝕄)
      = iprop((∃ f, (tile d L).loc cc3_scratch0 ↦{fullShare} f) ∗ (∃ f, (tile d L).loc cc3_scratch1 ↦{fullShare} f)
          ∗ (∃ f, (tile d L).loc cc3_scratch2 ↦{fullShare} f)
          ∗ bigSep ((((ownRefs (τ := τ) (.scVector (cV L) (jV L))).erase ((Proc.scVector (cV L) (jV L)).devRef cc3_scratch0)).erase
              ((Proc.scVector (cV L) (jV L)).devRef cc3_scratch1)).erase ((Proc.scVector (cV L) (jV L)).devRef cc3_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc3_scratch0) rfl)).trans ?_
  rw [SparseCore.bigSep_erase' (Finset.mem_erase.mpr ⟨fun e => absurd (Proc.devRef_injective _ e) (show (cc3_scratch1 : Ref sig .scVector) ≠ cc3_scratch0 by decide),
    SparseCore.Cfg.mem_ownRefs_of_owner (p := Proc.scVector (cV L) (jV L)) (b := (Proc.scVector (cV L) (jV L)).devRef cc3_scratch1) rfl⟩),
    SparseCore.bigSep_erase' (Finset.mem_erase.mpr ⟨fun e => absurd (Proc.devRef_injective _ e) (show (cc3_scratch2 : Ref sig .scVector) ≠ cc3_scratch1 by decide),
      Finset.mem_erase.mpr ⟨fun e => absurd (Proc.devRef_injective _ e) (show (cc3_scratch2 : Ref sig .scVector) ≠ cc3_scratch0 by decide),
    SparseCore.Cfg.mem_ownRefs_of_owner (p := Proc.scVector (cV L) (jV L)) (b := (Proc.scVector (cV L) (jV L)).devRef cc3_scratch2) rfl⟩⟩)]

omit [FloatOps F] in
/-- the compact-rows scratch, held whole, is its two halves (each as "all but the other") -/
theorem crows_split (f : Buf (Elt F) ((s2W).view.loc (tile d L))) :
    ((s2W).view.loc (tile d L) ↦[Finset.univ]{fullShare} f : sProp 𝕄)
      ⊢ iprop(((s2W).view.loc (tile d L) ↦[Finset.univ \ (crowsAt t1).view.set]{fullShare} f)
          ∗ ((s2W).view.loc (tile d L) ↦[Finset.univ \ (crowsAt t0).view.set]{fullShare} f)) := by
  have h : ((s2W).view.loc (tile d L) ↦[Finset.univ]{fullShare} f : sProp 𝕄)
      ⊢ iprop(((s2W).view.loc (tile d L) ↦[Finset.univ \ (crowsAt t1).view.set]{fullShare} f)
          ∗ ((s2W).view.loc (tile d L) ↦[Finset.univ \ (Finset.univ \ (crowsAt t1).view.set)]{fullShare} f)) :=
    (pointsTo_split_subset (Finset.subset_univ (Finset.univ \ (crowsAt t1).view.set))).1
  have e : Finset.univ \ (Finset.univ \ (crowsAt t1).view.set) = Finset.univ \ (crowsAt t0).view.set := by rw [crows_compl01]
  rw [e] at h
  exact h

omit [FloatOps F] in
/-- the halves the run hands back are the first and the second -/
theorem crows_set_last0 : (crowsAt t14).view.set = (crowsAt t0).view.set := crows_set_congr t14 t0 (by decide)
omit [FloatOps F] in
theorem crows_set_last1 : (crowsAt t15).view.set = (crowsAt t1).view.set := crows_set_congr t15 t1 (by decide)

omit [FloatOps F] in
/-- and the two halves, at whatever each holds, are the scratch whole again -/
theorem crows_join (f g : Buf (Elt F) ((s2W).view.loc (tile d L))) :
    iprop(((s2W).view.loc (tile d L) ↦[(crowsAt t14).view.set]{fullShare} f) ∗ ((s2W).view.loc (tile d L) ↦[(crowsAt t15).view.set]{fullShare} g))
      ⊢ (iprop(∃ h, (s2W).view.loc (tile d L) ↦[Finset.univ]{fullShare} h) : sProp 𝕄) := by
  rw [crows_set_last0, crows_set_last1]
  have hd : Disjoint (crowsAt t0).view.set (crowsAt t1).view.set := by
    rw [← crows_compl01]; exact Finset.sdiff_disjoint
  have hu : (crowsAt t0).view.set ∪ (crowsAt t1).view.set = Finset.univ := by
    rw [← crows_compl01]; exact Finset.sdiff_union_of_subset (Finset.subset_univ _)
  refine (pointsTo_join hd).trans ?_
  rw [hu]
  iintro H; iexists _; iexact H

/-- The task on one vector subcore, in the launch theorem's resources: the table's share, the subcore's words and blocks,
    and its own scoped storage in; the same out. -/
theorem tile_body3 (hF : (K (F := F)).Facts) (tb : (d : Dev nD) → Buf (Elt F) (tblLoc d)) (wd : (d : Dev nD) → Buf (Elt F) (idxLoc3 d))
    (hwd : ∀ d y, (wd d y).toNat < 1000) (q : PosShare TreeShare)
    (lv : GSem nD τ sig → HIx 4 → ℕ) (hlv : (K (F := F)).Refines lv)
    (O : CellTallies nD τ sig (HIx 4)) (W : Waits sig (HIx 4)) (hO : ∀ g, O g none = 0) :
    iprop(levAts (K (F := F)).L lv ∗ emp
        ∗ ((tblLoc d ↦{q} tb d)
            ∗ ((idxSl L).view.loc (tile d L) ↦[(idxSl L).view.set]{fullShare} wd d)
            ∗ outHeld (F := F) d L t0 ∗ outHeld (F := F) d L t1 ∗ outHeld (F := F) d L t2 ∗ outHeld (F := F) d L t3
            ∗ outHeld (F := F) d L t4 ∗ outHeld (F := F) d L t5 ∗ outHeld (F := F) d L t6 ∗ outHeld (F := F) d L t7
            ∗ outHeld (F := F) d L t8 ∗ outHeld (F := F) d L t9 ∗ outHeld (F := F) d L t10 ∗ outHeld (F := F) d L t11
            ∗ outHeld (F := F) d L t12 ∗ outHeld (F := F) d L t13 ∗ outHeld (F := F) d L t14 ∗ outHeld (F := F) d L t15)
        ∗ scopedBufs (tile d L) ∗ scopedSems0 (tile d L) ∗ owes (tile d L) O W)
      ⊢ wp frame (wpE (defs₀ (F := F)) 𝒱₀ (tile d L) none) Set.univ
          (cc3_gather_kernel L tblW (Memref.isWhole_whole _) idxW (Memref.isWhole_whole _) outW (Memref.isWhole_whole _)
            s0W (Memref.isWhole_whole _) s1W (Memref.isWhole_whole _) s2W (Memref.isWhole_whole _) cc3_scratch3 cc3_scratch4 cc3_scoped0)
          fun _ => iprop(((tblLoc d ↦{q} tb d)
            ∗ ((idxSl L).view.loc (tile d L) ↦[(idxSl L).view.set]{fullShare} wd d)
            ∗ outHeld (F := F) d L t0 ∗ outHeld (F := F) d L t1 ∗ outHeld (F := F) d L t2 ∗ outHeld (F := F) d L t3
            ∗ outHeld (F := F) d L t4 ∗ outHeld (F := F) d L t5 ∗ outHeld (F := F) d L t6 ∗ outHeld (F := F) d L t7
            ∗ outHeld (F := F) d L t8 ∗ outHeld (F := F) d L t9 ∗ outHeld (F := F) d L t10 ∗ outHeld (F := F) d L t11
            ∗ outHeld (F := F) d L t12 ∗ outHeld (F := F) d L t13 ∗ outHeld (F := F) d L t14 ∗ outHeld (F := F) d L t15)
            ∗ scopedBufs (tile d L) ∗ scopedSems0 (tile d L)
            ∗ ∃ W', ⌜∀ p ∈ W', p ∈ W ∨ p.2 = none⌝ ∗ owes (tile d L) O W') := by
  rw [(K (F := F)).scopedBufs_V hF d (cV L) (jV L), SparseCore.Cfg.scopedSems0_V (Val := Elt F) d (cV L) (jV L), ownSems0_V3, ownBufs_V3]
  iintro ⟨#Hlv, -, ⟨Ht, Hi, Ho0, Ho1, Ho2, Ho3, Ho4, Ho5, Ho6, Ho7, Ho8, Ho9, Ho10, Ho11, Ho12, Ho13, Ho14, Ho15⟩, ⟨H5, H6, ⟨%f7, H7⟩, Hbufs⟩, ⟨Hg0, Hg1, Hw0, Hw1, Hp, Hsems⟩, HO⟩
  ihave Hmw := ((K (F := F)).mayWaits_none (thr := tile d L) hO lv hlv) $$ Hlv
  ihave Hc := (crows_split (F := F) d L f7) $$ H7
  icases Hc with ⟨Hc1, Hc0⟩
  iapply (wp_wand_r frame (wpE (defs₀ (F := F)) 𝒱₀ (tile d L) none) Set.univ)
  isplitl [Hmw Ht Hi H5 H6 Hc0 Hc1 Ho0 Ho1 Ho2 Ho3 Ho4 Ho5 Ho6 Ho7 Ho8 Ho9 Ho10 Ho11 Ho12 Ho13 Ho14 Ho15 Hg0 Hg1 Hw0 Hw1 Hp HO]
  · iapply (tile_run3 (F := F) d L O W q (tb d) (wd d) (hwd d))
    isplitl [Hmw]; · iexact Hmw
    isplitl [Ht]; · iexact Ht
    isplitl [Hi]; · iexact Hi
    isplitl [H5]; · iexact H5
    isplitl [H6]; · iexact H6
    isplitl [Hc1]; · unfold crowsHeld; iexists _; iexact Hc1
    isplitl [Hc0]; · unfold crowsHeld; iexists _; iexact Hc0
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    isplitl [Ho7]; · iexact Ho7
    isplitl [Ho8]; · iexact Ho8
    isplitl [Ho9]; · iexact Ho9
    isplitl [Ho10]; · iexact Ho10
    isplitl [Ho11]; · iexact Ho11
    isplitl [Ho12]; · iexact Ho12
    isplitl [Ho13]; · iexact Ho13
    isplitl [Ho14]; · iexact Ho14
    isplitl [Ho15]; · iexact Ho15
    isplitl [Hg0]; · iexact Hg0
    isplitl [Hg1]; · iexact Hg1
    isplitl [Hw0]; · iexact Hw0
    isplitl [Hw1]; · iexact Hw1
    isplitl [Hp]; · iexact Hp
    iexact HO
  · iintro %a ⟨Ht, Hi, H5, H6, ⟨%c2, Hc2⟩, ⟨%c3, Hc3⟩, Ho0, Ho1, Ho2, Ho3, Ho4, Ho5, Ho6, Ho7, Ho8, Ho9, Ho10, Ho11, Ho12, Ho13, Ho14, Ho15, Hg0, Hg1, Hw0, Hw1, Hp, HO⟩
    ihave H7 := (crows_join (F := F) d L c2 c3) $$ [Hc2 Hc3]
    · isplitl [Hc2]; · iexact Hc2
      iexact Hc3
    isplitl [Ht Hi Ho0 Ho1 Ho2 Ho3 Ho4 Ho5 Ho6 Ho7 Ho8 Ho9 Ho10 Ho11 Ho12 Ho13 Ho14 Ho15]
    · isplitl [Ht]; · iexact Ht
      isplitl [Hi]; · iexact Hi
      isplitl [Ho0]; · iexact Ho0
      isplitl [Ho1]; · iexact Ho1
      isplitl [Ho2]; · iexact Ho2
      isplitl [Ho3]; · iexact Ho3
      isplitl [Ho4]; · iexact Ho4
      isplitl [Ho5]; · iexact Ho5
      isplitl [Ho6]; · iexact Ho6
      isplitl [Ho7]; · iexact Ho7
      isplitl [Ho8]; · iexact Ho8
      isplitl [Ho9]; · iexact Ho9
      isplitl [Ho10]; · iexact Ho10
      isplitl [Ho11]; · iexact Ho11
      isplitl [Ho12]; · iexact Ho12
      isplitl [Ho13]; · iexact Ho13
      isplitl [Ho14]; · iexact Ho14
      iexact Ho15
    isplitl [H5 H6 H7 Hbufs]
    · isplitl [H5]; · iexact H5
      isplitl [H6]; · iexact H6
      isplitl [H7]; · iexact H7
      iexact Hbufs
    isplitl [Hg0 Hg1 Hw0 Hw1 Hp Hsems]
    · isplitl [Hg0]; · iexact Hg0
      isplitl [Hg1]; · iexact Hg1
      isplitl [Hw0]; · iexact Hw0
      isplitl [Hw1]; · iexact Hw1
      isplitl [Hp]; · iexact Hp
      iexact Hsems
    iexact HO

end Tile

/-! ## The launch theorem's obligation for the fourth call -/

omit [FloatOps F] in
theorem defs₀_vector3 [FloatOps F] (c : Fin τ.nSC) (s : Fin τ.nSub) :
    defs₀ (F := F) (.scVector c s) 3 ()
      = SparseCore.onTile hcore3 hsub3 (fun c s => cc3_gather_kernel (coords3 c s) tblW (Memref.isWhole_whole _) idxW (Memref.isWhole_whole _)
          outW (Memref.isWhole_whole _) s0W (Memref.isWhole_whole _) s1W (Memref.isWhole_whole _) s2W (Memref.isWhole_whole _)
          cc3_scratch3 cc3_scratch4 cc3_scoped0) ⟨⟩ c s := rfl

omit [FloatOps F] in
theorem obl_post {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The fourth call's task obligation, for any family of subcore resources whose member for this call is `Rs3` at token
    words that all name table rows. -/
theorem tileObl3 (hF : (K (F := F)).Facts) (tb : (d : Dev nD) → Buf (Elt F) (tblLoc d)) (Rs : Fin 4 → Dev nD → Fin 2 → Fin 16 → sProp 𝕄)
    (wd : (d : Dev nD) → Buf (Elt F) (idxLoc3 d)) (hwd : ∀ d y, (wd d y).toNat < 1000)
    (hRs : ∀ d c i, Rs 3 d c i = Rs3 wd d c i)
    (lv : GSem nD τ sig → HIx 4 → ℕ) (hlv : (K (F := F)).Refines lv) :
    (K (F := F)).TileObl (D (F := F)) 𝒱 (P tb Rs) v₀ 3 lv := by
  intro d c i O W hO _ _
  simp only [show (P (F := F) tb Rs).ox = fun _ _ => 0 from rfl, add_zero]
  change iprop(levAts _ lv ∗ emp ∗ ((tblLoc d ↦{tileShare (Fin.cast (nCore_eq 3) c) (Fin.cast (nSub_eq 3) i)} tb d)
        ∗ Rs 3 d (Fin.cast (nCore_eq 3) c) (Fin.cast (nSub_eq 3) i)) ∗ _ ∗ _ ∗ _)
    ⊢ wp _ _ _ (Pipeline.liftProg (defs₀ (F := F) (.scVector ((K (F := F)).core 3 c) ((K (F := F)).sub 3 i)) 3 ()))
        (fun _ => iprop(((tblLoc d ↦{tileShare (Fin.cast (nCore_eq 3) c) (Fin.cast (nSub_eq 3) i)} tb d)
          ∗ Rs 3 d (Fin.cast (nCore_eq 3) c) (Fin.cast (nSub_eq 3) i)) ∗ _ ∗ _ ∗ _))
  rw [hRs]
  refine BI.Entails.trans ?_ (Pipeline.wp_liftProg (D (F := F)) (Pipeline.defs_kernel pcfgs defs₀) 𝒱₀ _ Set.univ none _ _)
  have hc : ((K (F := F)).core 3 c).val < grid3.bound 0 ∧ ((K (F := F)).sub 3 i).val < grid3.bound 1 := ⟨c.isLt, i.isLt⟩
  rw [defs₀_vector3]; simp only [SparseCore.onTile, hc, and_self, ↓reduceDIte]
  unfold Rs3
  exact (tile_body3 (F := F) d (coords3 ⟨_, hc.1⟩ ⟨_, hc.2⟩) hF tb wd hwd _ lv hlv O W hO).trans (wp_mono frame _ _ fun _ => obl_post)

end Cert.Kernel.Hand.C3

end
-- ==== Proof.Kernel.TileOblAll.lean ====
/-
  The four gather calls' task obligations together. Each call hands a vector subcore its own slice of that call's
  token words and its own blocks of that call's result; the family of those resources over the four calls is a literal
  choice by call, and the launch theorem's obligation for every call follows from the call's own.
-/
import proofs.«203661_g84404697301628_cont_9to1_m_135_26_alg».proof.Proof.Kernel.TileObl0
import proofs.«203661_g84404697301628_cont_9to1_m_135_26_alg».proof.Proof.Kernel.TileObl1
import proofs.«203661_g84404697301628_cont_9to1_m_135_26_alg».proof.Proof.Kernel.TileObl2
import proofs.«203661_g84404697301628_cont_9to1_m_135_26_alg».proof.Proof.Kernel.TileObl3

noncomputable section

namespace Cert.Kernel.Hand

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [hK : Cert.Kernel.Facts] [FloatOps F]

local notation "𝕄" => MT nD τ sig (HIx 4) (Elt F) ℕ UU ℕ

/-- what a vector subcore is handed besides the table, by call: that call's words and blocks -/
def RsAll (wd0 : (d : Dev nD) → Buf (Elt F) (idxLoc0 d)) (wd1 : (d : Dev nD) → Buf (Elt F) (C1.idxLoc1 d))
    (wd2 : (d : Dev nD) → Buf (Elt F) (C2.idxLoc2 d)) (wd3 : (d : Dev nD) → Buf (Elt F) (C3.idxLoc3 d)) :
    Fin 4 → Dev nD → Fin 2 → Fin 16 → sProp 𝕄
  | 0 => Rs0 wd0
  | 1 => C1.Rs1 wd1
  | 2 => C2.Rs2 wd2
  | 3 => C3.Rs3 wd3

omit [FloatOps F] hK in
/-- a piece of a buffer at given contents, and at some contents, can be stored in a handshake's cell -/
theorem storable_at (ℓ : Loc nD τ sig) (I : Finset ℓ.ty.shape.Idx) (f : Buf (Elt F) ℓ) :
    BI.Storable (upEmb : UEmb _ 𝕄) (ℓ ↦[I]{fullShare} f : sProp 𝕄) := inferInstance
omit [FloatOps F] hK in
theorem storable_some (ℓ : Loc nD τ sig) (I : Finset ℓ.ty.shape.Idx) :
    BI.Storable (upEmb : UEmb _ 𝕄) (iprop(∃ f, ℓ ↦[I]{fullShare} f) : sProp 𝕄) := inferInstance

/-- each call's words and blocks can be stored in a handshake's cell -/
theorem RsAll_storable (wd0 : (d : Dev nD) → Buf (Elt F) (idxLoc0 d)) (wd1 : (d : Dev nD) → Buf (Elt F) (C1.idxLoc1 d))
    (wd2 : (d : Dev nD) → Buf (Elt F) (C2.idxLoc2 d)) (wd3 : (d : Dev nD) → Buf (Elt F) (C3.idxLoc3 d)) :
    ∀ q d c i, BI.Storable (upEmb : UEmb _ 𝕄) (RsAll wd0 wd1 wd2 wd3 q d c i) := by
  intro q d c i
  match q with
  | 0 =>
    show BI.Storable (upEmb : UEmb _ 𝕄) (Rs0 wd0 d c i)
    unfold Rs0
    haveI hpt : BI.Storable (upEmb : UEmb _ 𝕄) ((idxSl (coords0 c i)).view.loc (tile d (coords0 c i))
        ↦[(idxSl (coords0 c i)).view.set]{fullShare} wd0 d) := storable_at _ _ _
    haveI hout : ∀ t, BI.Storable (upEmb : UEmb _ 𝕄) (outHeld (F := F) d (coords0 c i) t) := fun t => by
      unfold outHeld; exact storable_some _ _
    infer_instance
  | 1 =>
    show BI.Storable (upEmb : UEmb _ 𝕄) (C1.Rs1 wd1 d c i)
    unfold C1.Rs1
    haveI hpt : BI.Storable (upEmb : UEmb _ 𝕄) ((C1.idxSl (C1.coords1 c i)).view.loc (C1.tile d (C1.coords1 c i))
        ↦[(C1.idxSl (C1.coords1 c i)).view.set]{fullShare} wd1 d) := storable_at _ _ _
    haveI hout : ∀ t, BI.Storable (upEmb : UEmb _ 𝕄) (C1.outHeld (F := F) d (C1.coords1 c i) t) := fun t => by
      unfold C1.outHeld; exact storable_some _ _
    infer_instance
  | 2 =>
    show BI.Storable (upEmb : UEmb _ 𝕄) (C2.Rs2 wd2 d c i)
    unfold C2.Rs2
    haveI hpt : BI.Storable (upEmb : UEmb _ 𝕄) ((C2.idxSl (C2.coords2 c i)).view.loc (C2.tile d (C2.coords2 c i))
        ↦[(C2.idxSl (C2.coords2 c i)).view.set]{fullShare} wd2 d) := storable_at _ _ _
    haveI hout : ∀ t, BI.Storable (upEmb : UEmb _ 𝕄) (C2.outHeld (F := F) d (C2.coords2 c i) t) := fun t => by
      unfold C2.outHeld; exact storable_some _ _
    infer_instance
  | 3 =>
    show BI.Storable (upEmb : UEmb _ 𝕄) (C3.Rs3 wd3 d c i)
    unfold C3.Rs3
    haveI hpt : BI.Storable (upEmb : UEmb _ 𝕄) ((C3.idxSl (C3.coords3 c i)).view.loc (C3.tile d (C3.coords3 c i))
        ↦[(C3.idxSl (C3.coords3 c i)).view.set]{fullShare} wd3 d) := storable_at _ _ _
    haveI hout : ∀ t, BI.Storable (upEmb : UEmb _ 𝕄) (C3.outHeld (F := F) d (C3.coords3 c i) t) := fun t => by
      unfold C3.outHeld; exact storable_some _ _
    infer_instance

/-- Every call's task obligation, at token words that all name table rows. -/
theorem tileObl_all (hF : (K (F := F)).Facts) (tb : (d : Dev nD) → Buf (Elt F) (tblLoc d))
    (wd0 : (d : Dev nD) → Buf (Elt F) (idxLoc0 d)) (wd1 : (d : Dev nD) → Buf (Elt F) (C1.idxLoc1 d))
    (wd2 : (d : Dev nD) → Buf (Elt F) (C2.idxLoc2 d)) (wd3 : (d : Dev nD) → Buf (Elt F) (C3.idxLoc3 d))
    (hwd0 : ∀ d y, (wd0 d y).toNat < 1000) (hwd1 : ∀ d y, (wd1 d y).toNat < 1000)
    (hwd2 : ∀ d y, (wd2 d y).toNat < 1000) (hwd3 : ∀ d y, (wd3 d y).toNat < 1000)
    (lv : GSem nD τ sig → HIx 4 → ℕ) (hlv : (K (F := F)).Refines lv) :
    ∀ q, (K (F := F)).TileObl (D (F := F)) 𝒱 (P tb (RsAll wd0 wd1 wd2 wd3)) v₀ q lv := by
  intro q
  match q with
  | 0 => exact tileObl0 hF tb (RsAll wd0 wd1 wd2 wd3) wd0 hwd0 (fun _ _ _ => rfl) lv hlv
  | 1 => exact C1.tileObl1 hF tb (RsAll wd0 wd1 wd2 wd3) wd1 hwd1 (fun _ _ _ => rfl) lv hlv
  | 2 => exact C2.tileObl2 hF tb (RsAll wd0 wd1 wd2 wd3) wd2 hwd2 (fun _ _ _ => rfl) lv hlv
  | 3 => exact C3.tileObl3 hF tb (RsAll wd0 wd1 wd2 wd3) wd3 hwd3 (fun _ _ _ => rfl) lv hlv

end Cert.Kernel.Hand

end
-- ==== Proof.Kernel.Deal0.lean ====
/-
  How the TensorCore deals the first gather call's two arrays to the thirty-two vector subcores, and takes them back.

  Subcore `i` of SparseCore `c` is worker `w = 2·i + c`. It reads token words `512·w … 512·w + 511` and, in trip `t`,
  writes rows `512·w + 128·t … 512·w + 128·t + 127` of the result. Distinct workers' word slices start at least 512
  apart and distinct (worker, trip) blocks at least 128 rows apart, so the slices are pairwise disjoint and so are the
  blocks; that is all the deal needs. Whatever of the two arrays no subcore is handed stays with the TensorCore across
  the call and is glued back afterwards, so no covering argument is used here.
-/
import proofs.«203661_g84404697301628_cont_9to1_m_135_26_alg».proof.Proof.Kernel.TileObl0
import proofs.«203661_g84404697301628_cont_9to1_m_135_26_alg».proof.Proof.Gen.Kernel.Launch

noncomputable section

namespace Cert.Kernel.Hand

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [hK : Cert.Kernel.Facts]

local notation "𝕄" => MT nD τ sig (HIx 4) (Elt F) ℕ UU ℕ

local notation "tblW" => (Memref.whole Cert.Kernel.main_v0_scv : Memref Cert.Kernel.sig Kind.scVector Space.hbm Cert.Kernel.S1000x128 EltTy.f32)
local notation "idxW" => (Memref.whole Cert.Kernel.main_v5_scv : Memref Cert.Kernel.sig Kind.scVector Space.hbm Cert.Kernel.S16384 EltTy.i32)
local notation "outW" => (Memref.whole Cert.Kernel.main_v6_scv : Memref Cert.Kernel.sig Kind.scVector Space.hbm Cert.Kernel.S1x16384x32 EltTy.f32)
local notation "s0W" => (Memref.whole Cert.Kernel.cc0_scratch0 : Memref Cert.Kernel.sig Kind.scVector Space.vmem Cert.Kernel.S512 EltTy.i32)
local notation "s1W" => (Memref.whole Cert.Kernel.cc0_scratch1 : Memref Cert.Kernel.sig Kind.scVector Space.vmem Cert.Kernel.S2x128x128 EltTy.f32)
local notation "s2W" => (Memref.whole Cert.Kernel.cc0_scratch2 : Memref Cert.Kernel.sig Kind.scVector Space.vmem Cert.Kernel.S2x128x32 EltTy.f32)
local notation "gS0" => (⟨0, by decide⟩ : DmaSem Cert.Kernel.sig)
local notation "gS1" => (⟨1, by decide⟩ : DmaSem Cert.Kernel.sig)
local notation "wS0" => (⟨2, by decide⟩ : DmaSem Cert.Kernel.sig)
local notation "wS1" => (⟨3, by decide⟩ : DmaSem Cert.Kernel.sig)
local notation "pS" => (⟨4, by decide⟩ : DmaSem Cert.Kernel.sig)

/-- worker number of subcore `i` of SparseCore `c`: it fetches words `512·w … 512·w + 511` and writes rows
    `512·w + 128·t … ` of the result in trip `t` -/
def wid (p : Fin 2 × Fin 16) : Nat := 2 * p.2.val + p.1.val

theorem wid_inj {p p' : Fin 2 × Fin 16} (h : wid p = wid p') : p = p' := by
  unfold wid at h
  have h1 := p.1.isLt; have h2 := p'.1.isLt
  exact Prod.ext (Fin.ext (by omega)) (Fin.ext (by omega))

/-- where a subcore's slice of the token words starts; where trip `t`'s block of the result starts -/
theorem off1_closed : ∀ L : grid0.Coords, k0_off1 L 0 = 512 * (2 * (L 1).val + (L 0).val) := by decide +kernel
theorem off13_closed : ∀ (L : grid0.Coords) (t : Fin k0_t1_loop.trips), k0_off13 L t 1 = 512 * (2 * (L 1).val + (L 0).val) + 128 * t.val := by
  decide +kernel

/-- a subcore's slice of the token words, as a set of positions -/
def idxSet (p : Fin 2 × Fin 16) : Finset S16384.Idx := (idxSl (coords0 p.1 p.2)).view.set

theorem idxSet_eq (p : Fin 2 × Fin 16) :
    idxSet p = (Rect.unit (s := S16384) (k0_off1 (coords0 p.1 p.2)) S512.size (k0_off1_inb _)).set :=
  View.set_slice_whole _ _

/-- different subcores' slices are disjoint: they start 512 apart -/
theorem idxSet_disjoint : ∀ p ∈ (Finset.univ : Finset (Fin 2 × Fin 16)), ∀ p' ∈ (Finset.univ : Finset (Fin 2 × Fin 16)), p ≠ p' →
    Disjoint (idxSet p) (idxSet p') := by
  intro p _ p' _ hne
  rw [idxSet_eq, idxSet_eq]
  refine Rect.unit_disjoint 0 ?_
  rw [off1_closed, off1_closed]
  have hw : wid p ≠ wid p' := fun e => hne (wid_inj e)
  unfold wid at hw
  show 512 * (2 * p.2.val + p.1.val) + 512 ≤ 512 * (2 * p'.2.val + p'.1.val) ∨ 512 * (2 * p'.2.val + p'.1.val) + 512 ≤ 512 * (2 * p.2.val + p.1.val)
  omega

/-- the four trips, by number -/
def tr : Fin 4 → Fin k0_t1_loop.trips := ![t0, t1, t2, t3]

/-- trip `j`'s block of a subcore's rows of the result, as a set of positions -/
def outSet (x : (Fin 2 × Fin 16) × Fin 4) : Finset S1x16384x32.Idx := (outAt (coords0 x.1.1 x.1.2) (tr x.2)).view.set

theorem outSet_eq (x : (Fin 2 × Fin 16) × Fin 4) :
    outSet x = (Rect.unit (s := S1x16384x32) (k0_off13 (coords0 x.1.1 x.1.2) (tr x.2)) S1x128x32.size (k0_off13_inb _ _)).set := by
  show (((View.whole main_v6_scv).slice (Rect.unit (s := S1x16384x32) (k0_off13 (coords0 x.1.1 x.1.2) (tr x.2)) S1x128x32.size (k0_off13_inb _ _))).reshape S128x32 _).set = _
  rw [View.set_reshape, View.set_slice_whole]

theorem tr_val (j : Fin 4) : (tr j).val = j.val := by
  match j with
  | 0 => rfl
  | 1 => rfl
  | 2 => rfl
  | 3 => rfl

/-- different blocks are disjoint: they start 128 rows apart -/
theorem outSet_disjoint : ∀ x ∈ (Finset.univ : Finset ((Fin 2 × Fin 16) × Fin 4)), ∀ x' ∈ (Finset.univ : Finset ((Fin 2 × Fin 16) × Fin 4)), x ≠ x' →
    Disjoint (outSet x) (outSet x') := by
  intro x _ x' _ hne
  rw [outSet_eq, outSet_eq]
  refine Rect.unit_disjoint 1 ?_
  rw [off13_closed, off13_closed, tr_val, tr_val]
  have hj := x.2.isLt; have hj' := x'.2.isLt
  have hw : 4 * wid x.1 + x.2.val ≠ 4 * wid x'.1 + x'.2.val := by
    intro e
    have e1 : wid x.1 = wid x'.1 := by omega
    have e2 : x.2.val = x'.2.val := by omega
    exact hne (Prod.ext (wid_inj e1) (Fin.ext e2))
  unfold wid at hw
  show 512 * (2 * x.1.2.val + x.1.1.val) + 128 * x.2.val + 128 ≤ 512 * (2 * x'.1.2.val + x'.1.1.val) + 128 * x'.2.val
    ∨ 512 * (2 * x'.1.2.val + x'.1.1.val) + 128 * x'.2.val + 128 ≤ 512 * (2 * x.1.2.val + x.1.1.val) + 128 * x.2.val
  omega

variable [FloatOps F]

/-- the first call's result, as the TensorCore names it -/
abbrev outLoc0 (d : Dev nD) : Loc nD τ sig := (SparseCore.T d).loc main_v6

/-- what no subcore is handed of the two arrays -/
def rem0 (wd : (d : Dev nD) → Buf (Elt F) (idxLoc0 d)) (d : Dev nD) (o : Buf (Elt F) (outLoc0 d)) : sProp 𝕄 :=
  iprop((idxLoc0 d ↦[Finset.univ \ Finset.univ.biUnion idxSet]{fullShare} wd d)
    ∗ (outLoc0 d ↦[Finset.univ \ Finset.univ.biUnion outSet]{fullShare} o))

omit [FloatOps F] in
/-- the token words: the subcores' slices and the rest -/
theorem idx_cut (d : Dev nD) (w : Buf (Elt F) (idxLoc0 d)) :
    (idxLoc0 d ↦[Finset.univ]{fullShare} w : sProp 𝕄)
      ⊣⊢ iprop((bigSep Finset.univ fun p : Fin 2 × Fin 16 => idxLoc0 d ↦[idxSet p]{fullShare} w)
          ∗ (idxLoc0 d ↦[Finset.univ \ Finset.univ.biUnion idxSet]{fullShare} w)) := by
  rw [← pointsTo_biUnion Finset.univ (ℓ := idxLoc0 d) (q := fullShare) (f := w) idxSet idxSet_disjoint]
  exact pointsTo_split_subset (Finset.subset_univ _)

omit [FloatOps F] in
/-- the result: the blocks and the rest -/
theorem out_cut (d : Dev nD) (o : Buf (Elt F) (outLoc0 d)) :
    (outLoc0 d ↦[Finset.univ]{fullShare} o : sProp 𝕄)
      ⊣⊢ iprop((bigSep Finset.univ fun x : (Fin 2 × Fin 16) × Fin 4 => outLoc0 d ↦[outSet x]{fullShare} o)
          ∗ (outLoc0 d ↦[Finset.univ \ Finset.univ.biUnion outSet]{fullShare} o)) := by
  rw [← pointsTo_biUnion Finset.univ (ℓ := outLoc0 d) (q := fullShare) (f := o) outSet outSet_disjoint]
  exact pointsTo_split_subset (Finset.subset_univ _)

/-- a subcore's part, by its pieces -/
theorem Rs0_eq (wd : (d : Dev nD) → Buf (Elt F) (idxLoc0 d)) (d : Dev nD) (p : Fin 2 × Fin 16) :
    Rs0 wd d p.1 p.2 = iprop((idxLoc0 d ↦[idxSet p]{fullShare} wd d)
      ∗ bigSep Finset.univ fun j : Fin 4 => iprop(∃ f, outLoc0 d ↦[outSet (p, j)]{fullShare} f)) := by
  rw [bigSep_W4]
  rfl

omit [FloatOps F] in
theorem some_contents (d : Dev nD) (I : Finset S1x16384x32.Idx) (o : Buf (Elt F) (outLoc0 d)) :
    (outLoc0 d ↦[I]{fullShare} o : sProp 𝕄) ⊢ iprop(∃ f, outLoc0 d ↦[I]{fullShare} f) := by
  iintro H; iexists _; iexact H

/-- THE DEAL: the token words and the result, whole, are every subcore's part and the rest -/
theorem deal0 (wd : (d : Dev nD) → Buf (Elt F) (idxLoc0 d)) (d : Dev nD) (o : Buf (Elt F) (outLoc0 d)) :
    iprop((idxLoc0 d ↦[Finset.univ]{fullShare} wd d) ∗ (outLoc0 d ↦[Finset.univ]{fullShare} o))
      ⊢ iprop((bigSep Finset.univ fun c : Fin 2 => bigSep Finset.univ fun i : Fin 16 => Rs0 wd d c i) ∗ rem0 wd d o) := by
  rw [← SparseCore.bigSep_product Finset.univ Finset.univ (fun p : Fin 2 × Fin 16 => Rs0 wd d p.1 p.2), Finset.univ_product_univ,
    bigSep_congr (fun p _ => Rs0_eq wd d p), bigSep_sep',
    ← SparseCore.bigSep_product Finset.univ Finset.univ (fun x : (Fin 2 × Fin 16) × Fin 4 => iprop(∃ f, outLoc0 d ↦[outSet x]{fullShare} f)),
    Finset.univ_product_univ]
  unfold rem0
  have hmono : (bigSep (Finset.univ : Finset ((Fin 2 × Fin 16) × Fin 4)) fun x => (outLoc0 d ↦[outSet x]{fullShare} o : sProp 𝕄))
      ⊢ bigSep (Finset.univ : Finset ((Fin 2 × Fin 16) × Fin 4)) fun x => iprop(∃ f, outLoc0 d ↦[outSet x]{fullShare} f) :=
    bigSep_mono fun x _ => some_contents d (outSet x) o
  iintro ⟨Hi, Ho⟩
  ihave Hi' := (idx_cut (F := F) d (wd d)).1 $$ Hi
  icases Hi' with ⟨Hi, Hir⟩
  ihave Ho' := (out_cut (F := F) d o).1 $$ Ho
  icases Ho' with ⟨Ho, Hor⟩
  isplitl [Hi Ho]
  · isplitl [Hi]; · iexact Hi
    iapply hmono; iexact Ho
  · isplitl [Hir]; · iexact Hir
    iexact Hor

/-- AND BACK: every subcore's part and the rest are the token words, unchanged, and the result at some contents -/
theorem back0 (wd : (d : Dev nD) → Buf (Elt F) (idxLoc0 d)) (d : Dev nD) (o : Buf (Elt F) (outLoc0 d)) :
    iprop((bigSep Finset.univ fun c : Fin 2 => bigSep Finset.univ fun i : Fin 16 => Rs0 wd d c i) ∗ rem0 wd d o)
      ⊢ iprop((idxLoc0 d ↦[Finset.univ]{fullShare} wd d) ∗ ∃ o', outLoc0 d ↦[Finset.univ]{fullShare} o') := by
  rw [← SparseCore.bigSep_product Finset.univ Finset.univ (fun p : Fin 2 × Fin 16 => Rs0 wd d p.1 p.2), Finset.univ_product_univ,
    bigSep_congr (fun p _ => Rs0_eq wd d p), bigSep_sep',
    ← SparseCore.bigSep_product Finset.univ Finset.univ (fun x : (Fin 2 × Fin 16) × Fin 4 => iprop(∃ f, outLoc0 d ↦[outSet x]{fullShare} f)),
    Finset.univ_product_univ]
  unfold rem0
  iintro ⟨⟨Hi, Ho⟩, Hir, Hor⟩
  isplitl [Hi Hir]
  · iapply (idx_cut (F := F) d (wd d)).2
    isplitl [Hi]; · iexact Hi
    iexact Hir
  · ihave H1 := (bigSep_exists_pi Finset.univ (fun (x : (Fin 2 × Fin 16) × Fin 4) (f : Buf (Elt F) (outLoc0 d)) =>
      (outLoc0 d ↦[outSet x]{fullShare} f : sProp 𝕄))) $$ Ho
    icases H1 with ⟨%fs, H1⟩
    ihave H2 := (pointsTo_biUnion_join Finset.univ outSet fs o outSet_disjoint) $$ H1
    icases H2 with ⟨%g, -, Hg⟩
    ihave H3 := (pointsTo_join_subset (ℓ := outLoc0 d) (I := Finset.univ.biUnion outSet) (S := Finset.univ) (q := fullShare) (f := o) (g := g) (Finset.subset_univ _)) $$ [Hg Hor]
    · isplitl [Hg]; · iexact Hg
      iexact Hor
    iexists _; iexact H3

end Cert.Kernel.Hand

end
-- ==== Proof.Kernel.DealGeo1.lean ====
/-
  Gather call 1: where each vector subcore's slice of the token words and each of its blocks of the result lie, and
  that they are pairwise disjoint. Subcore `i` of SparseCore `c` is worker `w = 2·i + c`; it reads words
  `512·w … 512·w + 511` and in trip `t` writes the 128 rows starting at row `(w mod 32)·512 + 128·t` of
  slab `w / 32` of the result.
-/
import proofs.«203661_g84404697301628_cont_9to1_m_135_26_alg».proof.Kernel
import proofs.«203661_g84404697301628_cont_9to1_m_135_26_alg».proof.Proof.Gen.Kernel
import Idealize.ShloMosaic.Lib.ValueIdx

noncomputable section

namespace Cert.Kernel.Hand.D1

open Cert.Kernel Cert.Kernel.Gen
open Idealize.ShloMosaic

variable [hK : Cert.Kernel.Facts]

def coords (c : Fin 2) (i : Fin 16) : grid1.Coords :=
  fun | 0 => c | 1 => i | ⟨_ + 2, h⟩ => absurd h (Nat.not_lt.2 (Nat.le_add_left _ _))

def wid (p : Fin 2 × Fin 16) : Nat := 2 * p.2.val + p.1.val

theorem wid_inj {p p' : Fin 2 × Fin 16} (h : wid p = wid p') : p = p' := by
  unfold wid at h
  have h1 := p.1.isLt; have h2 := p'.1.isLt
  exact Prod.ext (Fin.ext (by omega)) (Fin.ext (by omega))

theorem wid_lt (p : Fin 2 × Fin 16) : wid p < 32 := by
  unfold wid; have h1 := p.1.isLt; have h2 := p.2.isLt; omega

theorem off1_closed : ∀ L : grid1.Coords, k1_off1 L 0 = 512 * (2 * (L 1).val + (L 0).val) := by decide +kernel
theorem off13_closed0 : ∀ (L : grid1.Coords) (t : Fin k1_t1_loop.trips), k1_off13 L t 0 = (2 * (L 1).val + (L 0).val) / 32 := by
  decide +kernel
theorem off13_closed1 : ∀ (L : grid1.Coords) (t : Fin k1_t1_loop.trips),
    k1_off13 L t 1 = ((2 * (L 1).val + (L 0).val) % 32) * 512 + 128 * t.val := by
  decide +kernel

/-- a subcore's slice of the token words, as a set of positions -/
def idxSet (p : Fin 2 × Fin 16) : Finset S16384.Idx :=
  (Rect.unit (s := S16384) (k1_off1 (coords p.1 p.2)) S512.size (k1_off1_inb _)).set

theorem idxSet_disjoint : ∀ p ∈ (Finset.univ : Finset (Fin 2 × Fin 16)), ∀ p' ∈ (Finset.univ : Finset (Fin 2 × Fin 16)), p ≠ p' →
    Disjoint (idxSet p) (idxSet p') := by
  intro p _ p' _ hne
  unfold idxSet
  refine Rect.unit_disjoint 0 ?_
  rw [off1_closed, off1_closed]
  have hw : wid p ≠ wid p' := fun e => hne (wid_inj e)
  unfold wid at hw
  show 512 * (2 * p.2.val + p.1.val) + 512 ≤ 512 * (2 * p'.2.val + p'.1.val) ∨ 512 * (2 * p'.2.val + p'.1.val) + 512 ≤ 512 * (2 * p.2.val + p.1.val)
  omega

/-- the trips, by number -/
def tr : Fin 4 → Fin k1_t1_loop.trips
  | ⟨0, _⟩ => ⟨0, by decide⟩
  | ⟨1, _⟩ => ⟨1, by decide⟩
  | ⟨2, _⟩ => ⟨2, by decide⟩
  | ⟨3, _⟩ => ⟨3, by decide⟩
  | ⟨_ + 4, h⟩ => absurd h (Nat.not_lt.2 (Nat.le_add_left _ _))

theorem tr_val (j : Fin 4) : (tr j).val = j.val := by
  match j with
  | ⟨0, _⟩ => rfl
  | ⟨1, _⟩ => rfl
  | ⟨2, _⟩ => rfl
  | ⟨3, _⟩ => rfl
  | ⟨_ + 4, h⟩ => exact absurd h (Nat.not_lt.2 (Nat.le_add_left _ _))

/-- trip `j`'s block of a subcore's rows of the result, as a set of positions -/
def outSet (x : (Fin 2 × Fin 16) × Fin 4) : Finset S1x16384x32.Idx :=
  (Rect.unit (s := S1x16384x32) (k1_off13 (coords x.1.1 x.1.2) (tr x.2)) S1x128x32.size (k1_off13_inb _ _)).set

theorem outSet_disjoint : ∀ x ∈ (Finset.univ : Finset ((Fin 2 × Fin 16) × Fin 4)), ∀ x' ∈ (Finset.univ : Finset ((Fin 2 × Fin 16) × Fin 4)), x ≠ x' →
    Disjoint (outSet x) (outSet x') := by
  intro x _ x' _ hne
  unfold outSet
  have hj := x.2.isLt; have hj' := x'.2.isLt
  have hwl := wid_lt x.1; have hwl' := wid_lt x'.1
  by_cases hs : wid x.1 / 32 = wid x'.1 / 32
  · -- the same slab: the row offsets are at least 128 apart
    refine Rect.unit_disjoint 1 ?_
    rw [off13_closed1, off13_closed1, tr_val, tr_val]
    have hw : 4 * (wid x.1 % 32) + x.2.val ≠ 4 * (wid x'.1 % 32) + x'.2.val := by
      intro e
      have e1 : wid x.1 % 32 = wid x'.1 % 32 := by omega
      have e2 : x.2.val = x'.2.val := by omega
      have e3 : wid x.1 = wid x'.1 := by omega
      exact hne (Prod.ext (wid_inj e3) (Fin.ext e2))
    unfold wid at hw hs
    show ((2 * x.1.2.val + x.1.1.val) % 32) * 512 + 128 * x.2.val + 128 ≤ ((2 * x'.1.2.val + x'.1.1.val) % 32) * 512 + 128 * x'.2.val
      ∨ ((2 * x'.1.2.val + x'.1.1.val) % 32) * 512 + 128 * x'.2.val + 128 ≤ ((2 * x.1.2.val + x.1.1.val) % 32) * 512 + 128 * x.2.val
    omega
  · -- different slabs
    refine Rect.unit_disjoint 0 ?_
    rw [off13_closed0, off13_closed0]
    unfold wid at hs
    show (2 * x.1.2.val + x.1.1.val) / 32 + 1 ≤ (2 * x'.1.2.val + x'.1.1.val) / 32 ∨ (2 * x'.1.2.val + x'.1.1.val) / 32 + 1 ≤ (2 * x.1.2.val + x.1.1.val) / 32
    omega

end Cert.Kernel.Hand.D1

end
-- ==== Proof.Kernel.Deal1.lean ====
/-
  How the TensorCore deals the second gather call's two arrays to the thirty-two vector subcores, and takes them back.

  Each subcore is handed its own slice of the call's token words and its own four blocks of the call's result. The
  slices are pairwise disjoint and so are the blocks (where they lie is the geometry module's); that is all the deal
  needs. Whatever of the two arrays no subcore is handed stays with the TensorCore across the call and is glued back
  afterwards, so no covering argument is used here.
-/
import proofs.«203661_g84404697301628_cont_9to1_m_135_26_alg».proof.Proof.Kernel.TileObl1
import proofs.«203661_g84404697301628_cont_9to1_m_135_26_alg».proof.Proof.Kernel.DealGeo1

noncomputable section

namespace Cert.Kernel.Hand.C1

open Cert.Kernel Cert.Kernel.Gen Cert.Kernel.Hand
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [hK : Cert.Kernel.Facts]

local notation "𝕄" => MT nD τ sig (HIx 4) (Elt F) ℕ UU ℕ

/-- a subcore's slice of the token words, as a set of positions -/
def idxSet (p : Fin 2 × Fin 16) : Finset S16384.Idx := (idxSl (coords1 p.1 p.2)).view.set

/-- it is the geometry module's slice -/
theorem idxSet_eq (p : Fin 2 × Fin 16) : idxSet p = D1.idxSet p :=
  View.set_slice_whole _ _

/-- different subcores' slices are disjoint -/
theorem idxSet_disjoint : ∀ p ∈ (Finset.univ : Finset (Fin 2 × Fin 16)), ∀ p' ∈ (Finset.univ : Finset (Fin 2 × Fin 16)), p ≠ p' →
    Disjoint (idxSet p) (idxSet p') := by
  intro p hp p' hp' hne
  rw [idxSet_eq, idxSet_eq]
  exact D1.idxSet_disjoint p hp p' hp' hne

/-- trip `j`'s block of a subcore's rows of the result, as a set of positions -/
def outSet (x : (Fin 2 × Fin 16) × Fin 4) : Finset S1x16384x32.Idx := (outAt (coords1 x.1.1 x.1.2) (D1.tr x.2)).view.set

/-- it is the geometry module's block -/
theorem outSet_eq (x : (Fin 2 × Fin 16) × Fin 4) : outSet x = D1.outSet x := by
  show (((View.whole main_v8_scv).slice (Rect.unit (s := S1x16384x32) (k1_off13 (coords1 x.1.1 x.1.2) (D1.tr x.2)) S1x128x32.size (k1_off13_inb _ _))).reshape S128x32 _).set = _
  rw [View.set_reshape, View.set_slice_whole]
  rfl

/-- different blocks are disjoint -/
theorem outSet_disjoint : ∀ x ∈ (Finset.univ : Finset ((Fin 2 × Fin 16) × Fin 4)), ∀ x' ∈ (Finset.univ : Finset ((Fin 2 × Fin 16) × Fin 4)), x ≠ x' →
    Disjoint (outSet x) (outSet x') := by
  intro x hx x' hx' hne
  rw [outSet_eq, outSet_eq]
  exact D1.outSet_disjoint x hx x' hx' hne

/-- the four blocks conjoined one by one -/
theorem bigSep_W4 {M : Type} [URA M] (Φ : Fin 4 → sProp M) :
    bigSep Finset.univ Φ = iprop(Φ (0 : Fin 4) ∗ Φ (1 : Fin 4) ∗ Φ (2 : Fin 4) ∗ Φ (3 : Fin 4)) :=
  bigSep_univ_eq_bigSepL [(0 : Fin 4), (1 : Fin 4), (2 : Fin 4), (3 : Fin 4)] (by decide) (by decide) Φ

variable [FloatOps F]

/-- the second call's result, as the TensorCore names it -/
abbrev outLoc1 (d : Dev nD) : Loc nD τ sig := (SparseCore.T d).loc main_v8

/-- what no subcore is handed of the two arrays -/
def rem1 (wd : (d : Dev nD) → Buf (Elt F) (idxLoc1 d)) (d : Dev nD) (o : Buf (Elt F) (outLoc1 d)) : sProp 𝕄 :=
  iprop((idxLoc1 d ↦[Finset.univ \ Finset.univ.biUnion idxSet]{fullShare} wd d)
    ∗ (outLoc1 d ↦[Finset.univ \ Finset.univ.biUnion outSet]{fullShare} o))

omit [FloatOps F] in
/-- the token words: the subcores' slices and the rest -/
theorem idx_cut (d : Dev nD) (w : Buf (Elt F) (idxLoc1 d)) :
    (idxLoc1 d ↦[Finset.univ]{fullShare} w : sProp 𝕄)
      ⊣⊢ iprop((bigSep Finset.univ fun p : Fin 2 × Fin 16 => idxLoc1 d ↦[idxSet p]{fullShare} w)
          ∗ (idxLoc1 d ↦[Finset.univ \ Finset.univ.biUnion idxSet]{fullShare} w)) := by
  rw [← pointsTo_biUnion Finset.univ (ℓ := idxLoc1 d) (q := fullShare) (f := w) idxSet idxSet_disjoint]
  exact pointsTo_split_subset (Finset.subset_univ _)

omit [FloatOps F] in
/-- the result: the blocks and the rest -/
theorem out_cut (d : Dev nD) (o : Buf (Elt F) (outLoc1 d)) :
    (outLoc1 d ↦[Finset.univ]{fullShare} o : sProp 𝕄)
      ⊣⊢ iprop((bigSep Finset.univ fun x : (Fin 2 × Fin 16) × Fin 4 => outLoc1 d ↦[outSet x]{fullShare} o)
          ∗ (outLoc1 d ↦[Finset.univ \ Finset.univ.biUnion outSet]{fullShare} o)) := by
  rw [← pointsTo_biUnion Finset.univ (ℓ := outLoc1 d) (q := fullShare) (f := o) outSet outSet_disjoint]
  exact pointsTo_split_subset (Finset.subset_univ _)

/-- a subcore's part, by its pieces -/
theorem Rs1_eq (wd : (d : Dev nD) → Buf (Elt F) (idxLoc1 d)) (d : Dev nD) (p : Fin 2 × Fin 16) :
    Rs1 wd d p.1 p.2 = iprop((idxLoc1 d ↦[idxSet p]{fullShare} wd d)
      ∗ bigSep Finset.univ fun j : Fin 4 => iprop(∃ f, outLoc1 d ↦[outSet (p, j)]{fullShare} f)) := by
  rw [bigSep_W4]
  rfl

omit [FloatOps F] in
theorem some_contents (d : Dev nD) (I : Finset S1x16384x32.Idx) (o : Buf (Elt F) (outLoc1 d)) :
    (outLoc1 d ↦[I]{fullShare} o : sProp 𝕄) ⊢ iprop(∃ f, outLoc1 d ↦[I]{fullShare} f) := by
  iintro H; iexists _; iexact H

/-- THE DEAL: the token words and the result, whole, are every subcore's part and the rest -/
theorem deal1 (wd : (d : Dev nD) → Buf (Elt F) (idxLoc1 d)) (d : Dev nD) (o : Buf (Elt F) (outLoc1 d)) :
    iprop((idxLoc1 d ↦[Finset.univ]{fullShare} wd d) ∗ (outLoc1 d ↦[Finset.univ]{fullShare} o))
      ⊢ iprop((bigSep Finset.univ fun c : Fin 2 => bigSep Finset.univ fun i : Fin 16 => Rs1 wd d c i) ∗ rem1 wd d o) := by
  rw [← SparseCore.bigSep_product Finset.univ Finset.univ (fun p : Fin 2 × Fin 16 => Rs1 wd d p.1 p.2), Finset.univ_product_univ,
    bigSep_congr (fun p _ => Rs1_eq wd d p), bigSep_sep',
    ← SparseCore.bigSep_product Finset.univ Finset.univ (fun x : (Fin 2 × Fin 16) × Fin 4 => iprop(∃ f, outLoc1 d ↦[outSet x]{fullShare} f)),
    Finset.univ_product_univ]
  unfold rem1
  have hmono : (bigSep (Finset.univ : Finset ((Fin 2 × Fin 16) × Fin 4)) fun x => (outLoc1 d ↦[outSet x]{fullShare} o : sProp 𝕄))
      ⊢ bigSep (Finset.univ : Finset ((Fin 2 × Fin 16) × Fin 4)) fun x => iprop(∃ f, outLoc1 d ↦[outSet x]{fullShare} f) :=
    bigSep_mono fun x _ => some_contents d (outSet x) o
  iintro ⟨Hi, Ho⟩
  ihave Hi' := (idx_cut (F := F) d (wd d)).1 $$ Hi
  icases Hi' with ⟨Hi, Hir⟩
  ihave Ho' := (out_cut (F := F) d o).1 $$ Ho
  icases Ho' with ⟨Ho, Hor⟩
  isplitl [Hi Ho]
  · isplitl [Hi]; · iexact Hi
    iapply hmono; iexact Ho
  · isplitl [Hir]; · iexact Hir
    iexact Hor

/-- AND BACK: every subcore's part and the rest are the token words, unchanged, and the result at some contents -/
theorem back1 (wd : (d : Dev nD) → Buf (Elt F) (idxLoc1 d)) (d : Dev nD) (o : Buf (Elt F) (outLoc1 d)) :
    iprop((bigSep Finset.univ fun c : Fin 2 => bigSep Finset.univ fun i : Fin 16 => Rs1 wd d c i) ∗ rem1 wd d o)
      ⊢ iprop((idxLoc1 d ↦[Finset.univ]{fullShare} wd d) ∗ ∃ o', outLoc1 d ↦[Finset.univ]{fullShare} o') := by
  rw [← SparseCore.bigSep_product Finset.univ Finset.univ (fun p : Fin 2 × Fin 16 => Rs1 wd d p.1 p.2), Finset.univ_product_univ,
    bigSep_congr (fun p _ => Rs1_eq wd d p), bigSep_sep',
    ← SparseCore.bigSep_product Finset.univ Finset.univ (fun x : (Fin 2 × Fin 16) × Fin 4 => iprop(∃ f, outLoc1 d ↦[outSet x]{fullShare} f)),
    Finset.univ_product_univ]
  unfold rem1
  iintro ⟨⟨Hi, Ho⟩, Hir, Hor⟩
  isplitl [Hi Hir]
  · iapply (idx_cut (F := F) d (wd d)).2
    isplitl [Hi]; · iexact Hi
    iexact Hir
  · ihave H1 := (bigSep_exists_pi Finset.univ (fun (x : (Fin 2 × Fin 16) × Fin 4) (f : Buf (Elt F) (outLoc1 d)) =>
      (outLoc1 d ↦[outSet x]{fullShare} f : sProp 𝕄))) $$ Ho
    icases H1 with ⟨%fs, H1⟩
    ihave H2 := (pointsTo_biUnion_join Finset.univ outSet fs o outSet_disjoint) $$ H1
    icases H2 with ⟨%g, -, Hg⟩
    ihave H3 := (pointsTo_join_subset (ℓ := outLoc1 d) (I := Finset.univ.biUnion outSet) (S := Finset.univ) (q := fullShare) (f := o) (g := g) (Finset.subset_univ _)) $$ [Hg Hor]
    · isplitl [Hg]; · iexact Hg
      iexact Hor
    iexists _; iexact H3

end Cert.Kernel.Hand.C1

end
-- ==== Proof.Kernel.DealGeo2.lean ====
/-
  Gather call 2: where each vector subcore's slice of the token words and each of its blocks of the result lie, and
  that they are pairwise disjoint. Subcore `i` of SparseCore `c` is worker `w = 2·i + c`; it reads words
  `1024·w … 1024·w + 1023` and in trip `t` writes the 128 rows starting at row `(w mod 16)·1024 + 128·t` of
  slab `w / 16` of the result.
-/
import proofs.«203661_g84404697301628_cont_9to1_m_135_26_alg».proof.Kernel
import proofs.«203661_g84404697301628_cont_9to1_m_135_26_alg».proof.Proof.Gen.Kernel
import Idealize.ShloMosaic.Lib.ValueIdx

noncomputable section

namespace Cert.Kernel.Hand.D2

open Cert.Kernel Cert.Kernel.Gen
open Idealize.ShloMosaic

variable [hK : Cert.Kernel.Facts]

def coords (c : Fin 2) (i : Fin 16) : grid2.Coords :=
  fun | 0 => c | 1 => i | ⟨_ + 2, h⟩ => absurd h (Nat.not_lt.2 (Nat.le_add_left _ _))

def wid (p : Fin 2 × Fin 16) : Nat := 2 * p.2.val + p.1.val

theorem wid_inj {p p' : Fin 2 × Fin 16} (h : wid p = wid p') : p = p' := by
  unfold wid at h
  have h1 := p.1.isLt; have h2 := p'.1.isLt
  exact Prod.ext (Fin.ext (by omega)) (Fin.ext (by omega))

theorem wid_lt (p : Fin 2 × Fin 16) : wid p < 32 := by
  unfold wid; have h1 := p.1.isLt; have h2 := p.2.isLt; omega

theorem off1_closed : ∀ L : grid2.Coords, k2_off1 L 0 = 1024 * (2 * (L 1).val + (L 0).val) := by decide +kernel
theorem off13_closed0 : ∀ (L : grid2.Coords) (t : Fin k2_t1_loop.trips), k2_off13 L t 0 = (2 * (L 1).val + (L 0).val) / 16 := by
  decide +kernel
theorem off13_closed1 : ∀ (L : grid2.Coords) (t : Fin k2_t1_loop.trips),
    k2_off13 L t 1 = ((2 * (L 1).val + (L 0).val) % 16) * 1024 + 128 * t.val := by
  decide +kernel

/-- a subcore's slice of the token words, as a set of positions -/
def idxSet (p : Fin 2 × Fin 16) : Finset S32768.Idx :=
  (Rect.unit (s := S32768) (k2_off1 (coords p.1 p.2)) S1024.size (k2_off1_inb _)).set

theorem idxSet_disjoint : ∀ p ∈ (Finset.univ : Finset (Fin 2 × Fin 16)), ∀ p' ∈ (Finset.univ : Finset (Fin 2 × Fin 16)), p ≠ p' →
    Disjoint (idxSet p) (idxSet p') := by
  intro p _ p' _ hne
  unfold idxSet
  refine Rect.unit_disjoint 0 ?_
  rw [off1_closed, off1_closed]
  have hw : wid p ≠ wid p' := fun e => hne (wid_inj e)
  unfold wid at hw
  show 1024 * (2 * p.2.val + p.1.val) + 1024 ≤ 1024 * (2 * p'.2.val + p'.1.val) ∨ 1024 * (2 * p'.2.val + p'.1.val) + 1024 ≤ 1024 * (2 * p.2.val + p.1.val)
  omega

/-- the trips, by number -/
def tr : Fin 8 → Fin k2_t1_loop.trips
  | ⟨0, _⟩ => ⟨0, by decide⟩
  | ⟨1, _⟩ => ⟨1, by decide⟩
  | ⟨2, _⟩ => ⟨2, by decide⟩
  | ⟨3, _⟩ => ⟨3, by decide⟩
  | ⟨4, _⟩ => ⟨4, by decide⟩
  | ⟨5, _⟩ => ⟨5, by decide⟩
  | ⟨6, _⟩ => ⟨6, by decide⟩
  | ⟨7, _⟩ => ⟨7, by decide⟩
  | ⟨_ + 8, h⟩ => absurd h (Nat.not_lt.2 (Nat.le_add_left _ _))

theorem tr_val (j : Fin 8) : (tr j).val = j.val := by
  match j with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨_ + 8, h⟩ => exact absurd h (Nat.not_lt.2 (Nat.le_add_left _ _))

/-- trip `j`'s block of a subcore's rows of the result, as a set of positions -/
def outSet (x : (Fin 2 × Fin 16) × Fin 8) : Finset S2x16384x32.Idx :=
  (Rect.unit (s := S2x16384x32) (k2_off13 (coords x.1.1 x.1.2) (tr x.2)) S1x128x32.size (k2_off13_inb _ _)).set

theorem outSet_disjoint : ∀ x ∈ (Finset.univ : Finset ((Fin 2 × Fin 16) × Fin 8)), ∀ x' ∈ (Finset.univ : Finset ((Fin 2 × Fin 16) × Fin 8)), x ≠ x' →
    Disjoint (outSet x) (outSet x') := by
  intro x _ x' _ hne
  unfold outSet
  have hj := x.2.isLt; have hj' := x'.2.isLt
  have hwl := wid_lt x.1; have hwl' := wid_lt x'.1
  by_cases hs : wid x.1 / 16 = wid x'.1 / 16
  · -- the same slab: the row offsets are at least 128 apart
    refine Rect.unit_disjoint 1 ?_
    rw [off13_closed1, off13_closed1, tr_val, tr_val]
    have hw : 8 * (wid x.1 % 16) + x.2.val ≠ 8 * (wid x'.1 % 16) + x'.2.val := by
      intro e
      have e1 : wid x.1 % 16 = wid x'.1 % 16 := by omega
      have e2 : x.2.val = x'.2.val := by omega
      have e3 : wid x.1 = wid x'.1 := by omega
      exact hne (Prod.ext (wid_inj e3) (Fin.ext e2))
    unfold wid at hw hs
    show ((2 * x.1.2.val + x.1.1.val) % 16) * 1024 + 128 * x.2.val + 128 ≤ ((2 * x'.1.2.val + x'.1.1.val) % 16) * 1024 + 128 * x'.2.val
      ∨ ((2 * x'.1.2.val + x'.1.1.val) % 16) * 1024 + 128 * x'.2.val + 128 ≤ ((2 * x.1.2.val + x.1.1.val) % 16) * 1024 + 128 * x.2.val
    omega
  · -- different slabs
    refine Rect.unit_disjoint 0 ?_
    rw [off13_closed0, off13_closed0]
    unfold wid at hs
    show (2 * x.1.2.val + x.1.1.val) / 16 + 1 ≤ (2 * x'.1.2.val + x'.1.1.val) / 16 ∨ (2 * x'.1.2.val + x'.1.1.val) / 16 + 1 ≤ (2 * x.1.2.val + x.1.1.val) / 16
    omega

end Cert.Kernel.Hand.D2

end
-- ==== Proof.Kernel.Deal2.lean ====
/-
  How the TensorCore deals the third gather call's two arrays to the thirty-two vector subcores, and takes them back.

  Each subcore is handed its own slice of the call's token words and its own eight blocks of the call's result. The
  slices are pairwise disjoint and so are the blocks (where they lie is the geometry module's); that is all the deal
  needs. Whatever of the two arrays no subcore is handed stays with the TensorCore across the call and is glued back
  afterwards, so no covering argument is used here.
-/
import proofs.«203661_g84404697301628_cont_9to1_m_135_26_alg».proof.Proof.Kernel.TileObl2
import proofs.«203661_g84404697301628_cont_9to1_m_135_26_alg».proof.Proof.Kernel.DealGeo2

noncomputable section

namespace Cert.Kernel.Hand.C2

open Cert.Kernel Cert.Kernel.Gen Cert.Kernel.Hand
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [hK : Cert.Kernel.Facts]

local notation "𝕄" => MT nD τ sig (HIx 4) (Elt F) ℕ UU ℕ

/-- a subcore's slice of the token words, as a set of positions -/
def idxSet (p : Fin 2 × Fin 16) : Finset S32768.Idx := (idxSl (coords2 p.1 p.2)).view.set

/-- it is the geometry module's slice -/
theorem idxSet_eq (p : Fin 2 × Fin 16) : idxSet p = D2.idxSet p :=
  View.set_slice_whole _ _

/-- different subcores' slices are disjoint -/
theorem idxSet_disjoint : ∀ p ∈ (Finset.univ : Finset (Fin 2 × Fin 16)), ∀ p' ∈ (Finset.univ : Finset (Fin 2 × Fin 16)), p ≠ p' →
    Disjoint (idxSet p) (idxSet p') := by
  intro p hp p' hp' hne
  rw [idxSet_eq, idxSet_eq]
  exact D2.idxSet_disjoint p hp p' hp' hne

/-- trip `j`'s block of a subcore's rows of the result, as a set of positions -/
def outSet (x : (Fin 2 × Fin 16) × Fin 8) : Finset S2x16384x32.Idx := (outAt (coords2 x.1.1 x.1.2) (D2.tr x.2)).view.set

/-- it is the geometry module's block -/
theorem outSet_eq (x : (Fin 2 × Fin 16) × Fin 8) : outSet x = D2.outSet x := by
  show (((View.whole main_v10_scv).slice (Rect.unit (s := S2x16384x32) (k2_off13 (coords2 x.1.1 x.1.2) (D2.tr x.2)) S1x128x32.size (k2_off13_inb _ _))).reshape S128x32 _).set = _
  rw [View.set_reshape, View.set_slice_whole]
  rfl

/-- different blocks are disjoint -/
theorem outSet_disjoint : ∀ x ∈ (Finset.univ : Finset ((Fin 2 × Fin 16) × Fin 8)), ∀ x' ∈ (Finset.univ : Finset ((Fin 2 × Fin 16) × Fin 8)), x ≠ x' →
    Disjoint (outSet x) (outSet x') := by
  intro x hx x' hx' hne
  rw [outSet_eq, outSet_eq]
  exact D2.outSet_disjoint x hx x' hx' hne

/-- the eight blocks conjoined one by one -/
theorem bigSep_W8 {M : Type} [URA M] (Φ : Fin 8 → sProp M) :
    bigSep Finset.univ Φ = iprop(Φ (0 : Fin 8) ∗ Φ (1 : Fin 8) ∗ Φ (2 : Fin 8) ∗ Φ (3 : Fin 8) ∗ Φ (4 : Fin 8) ∗ Φ (5 : Fin 8) ∗ Φ (6 : Fin 8) ∗ Φ (7 : Fin 8)) :=
  bigSep_univ_eq_bigSepL [(0 : Fin 8), (1 : Fin 8), (2 : Fin 8), (3 : Fin 8), (4 : Fin 8), (5 : Fin 8), (6 : Fin 8), (7 : Fin 8)] (by decide) (by decide) Φ

variable [FloatOps F]

/-- the third call's result, as the TensorCore names it -/
abbrev outLoc2 (d : Dev nD) : Loc nD τ sig := (SparseCore.T d).loc main_v10

/-- what no subcore is handed of the two arrays -/
def rem2 (wd : (d : Dev nD) → Buf (Elt F) (idxLoc2 d)) (d : Dev nD) (o : Buf (Elt F) (outLoc2 d)) : sProp 𝕄 :=
  iprop((idxLoc2 d ↦[Finset.univ \ Finset.univ.biUnion idxSet]{fullShare} wd d)
    ∗ (outLoc2 d ↦[Finset.univ \ Finset.univ.biUnion outSet]{fullShare} o))

omit [FloatOps F] in
/-- the token words: the subcores' slices and the rest -/
theorem idx_cut (d : Dev nD) (w : Buf (Elt F) (idxLoc2 d)) :
    (idxLoc2 d ↦[Finset.univ]{fullShare} w : sProp 𝕄)
      ⊣⊢ iprop((bigSep Finset.univ fun p : Fin 2 × Fin 16 => idxLoc2 d ↦[idxSet p]{fullShare} w)
          ∗ (idxLoc2 d ↦[Finset.univ \ Finset.univ.biUnion idxSet]{fullShare} w)) := by
  rw [← pointsTo_biUnion Finset.univ (ℓ := idxLoc2 d) (q := fullShare) (f := w) idxSet idxSet_disjoint]
  exact pointsTo_split_subset (Finset.subset_univ _)

omit [FloatOps F] in
/-- the result: the blocks and the rest -/
theorem out_cut (d : Dev nD) (o : Buf (Elt F) (outLoc2 d)) :
    (outLoc2 d ↦[Finset.univ]{fullShare} o : sProp 𝕄)
      ⊣⊢ iprop((bigSep Finset.univ fun x : (Fin 2 × Fin 16) × Fin 8 => outLoc2 d ↦[outSet x]{fullShare} o)
          ∗ (outLoc2 d ↦[Finset.univ \ Finset.univ.biUnion outSet]{fullShare} o)) := by
  rw [← pointsTo_biUnion Finset.univ (ℓ := outLoc2 d) (q := fullShare) (f := o) outSet outSet_disjoint]
  exact pointsTo_split_subset (Finset.subset_univ _)

/-- a subcore's part, by its pieces -/
theorem Rs2_eq (wd : (d : Dev nD) → Buf (Elt F) (idxLoc2 d)) (d : Dev nD) (p : Fin 2 × Fin 16) :
    Rs2 wd d p.1 p.2 = iprop((idxLoc2 d ↦[idxSet p]{fullShare} wd d)
      ∗ bigSep Finset.univ fun j : Fin 8 => iprop(∃ f, outLoc2 d ↦[outSet (p, j)]{fullShare} f)) := by
  rw [bigSep_W8]
  rfl

omit [FloatOps F] in
theorem some_contents (d : Dev nD) (I : Finset S2x16384x32.Idx) (o : Buf (Elt F) (outLoc2 d)) :
    (outLoc2 d ↦[I]{fullShare} o : sProp 𝕄) ⊢ iprop(∃ f, outLoc2 d ↦[I]{fullShare} f) := by
  iintro H; iexists _; iexact H

/-- THE DEAL: the token words and the result, whole, are every subcore's part and the rest -/
theorem deal2 (wd : (d : Dev nD) → Buf (Elt F) (idxLoc2 d)) (d : Dev nD) (o : Buf (Elt F) (outLoc2 d)) :
    iprop((idxLoc2 d ↦[Finset.univ]{fullShare} wd d) ∗ (outLoc2 d ↦[Finset.univ]{fullShare} o))
      ⊢ iprop((bigSep Finset.univ fun c : Fin 2 => bigSep Finset.univ fun i : Fin 16 => Rs2 wd d c i) ∗ rem2 wd d o) := by
  rw [← SparseCore.bigSep_product Finset.univ Finset.univ (fun p : Fin 2 × Fin 16 => Rs2 wd d p.1 p.2), Finset.univ_product_univ,
    bigSep_congr (fun p _ => Rs2_eq wd d p), bigSep_sep',
    ← SparseCore.bigSep_product Finset.univ Finset.univ (fun x : (Fin 2 × Fin 16) × Fin 8 => iprop(∃ f, outLoc2 d ↦[outSet x]{fullShare} f)),
    Finset.univ_product_univ]
  unfold rem2
  have hmono : (bigSep (Finset.univ : Finset ((Fin 2 × Fin 16) × Fin 8)) fun x => (outLoc2 d ↦[outSet x]{fullShare} o : sProp 𝕄))
      ⊢ bigSep (Finset.univ : Finset ((Fin 2 × Fin 16) × Fin 8)) fun x => iprop(∃ f, outLoc2 d ↦[outSet x]{fullShare} f) :=
    bigSep_mono fun x _ => some_contents d (outSet x) o
  iintro ⟨Hi, Ho⟩
  ihave Hi' := (idx_cut (F := F) d (wd d)).1 $$ Hi
  icases Hi' with ⟨Hi, Hir⟩
  ihave Ho' := (out_cut (F := F) d o).1 $$ Ho
  icases Ho' with ⟨Ho, Hor⟩
  isplitl [Hi Ho]
  · isplitl [Hi]; · iexact Hi
    iapply hmono; iexact Ho
  · isplitl [Hir]; · iexact Hir
    iexact Hor

/-- AND BACK: every subcore's part and the rest are the token words, unchanged, and the result at some contents -/
theorem back2 (wd : (d : Dev nD) → Buf (Elt F) (idxLoc2 d)) (d : Dev nD) (o : Buf (Elt F) (outLoc2 d)) :
    iprop((bigSep Finset.univ fun c : Fin 2 => bigSep Finset.univ fun i : Fin 16 => Rs2 wd d c i) ∗ rem2 wd d o)
      ⊢ iprop((idxLoc2 d ↦[Finset.univ]{fullShare} wd d) ∗ ∃ o', outLoc2 d ↦[Finset.univ]{fullShare} o') := by
  rw [← SparseCore.bigSep_product Finset.univ Finset.univ (fun p : Fin 2 × Fin 16 => Rs2 wd d p.1 p.2), Finset.univ_product_univ,
    bigSep_congr (fun p _ => Rs2_eq wd d p), bigSep_sep',
    ← SparseCore.bigSep_product Finset.univ Finset.univ (fun x : (Fin 2 × Fin 16) × Fin 8 => iprop(∃ f, outLoc2 d ↦[outSet x]{fullShare} f)),
    Finset.univ_product_univ]
  unfold rem2
  iintro ⟨⟨Hi, Ho⟩, Hir, Hor⟩
  isplitl [Hi Hir]
  · iapply (idx_cut (F := F) d (wd d)).2
    isplitl [Hi]; · iexact Hi
    iexact Hir
  · ihave H1 := (bigSep_exists_pi Finset.univ (fun (x : (Fin 2 × Fin 16) × Fin 8) (f : Buf (Elt F) (outLoc2 d)) =>
      (outLoc2 d ↦[outSet x]{fullShare} f : sProp 𝕄))) $$ Ho
    icases H1 with ⟨%fs, H1⟩
    ihave H2 := (pointsTo_biUnion_join Finset.univ outSet fs o outSet_disjoint) $$ H1
    icases H2 with ⟨%g, -, Hg⟩
    ihave H3 := (pointsTo_join_subset (ℓ := outLoc2 d) (I := Finset.univ.biUnion outSet) (S := Finset.univ) (q := fullShare) (f := o) (g := g) (Finset.subset_univ _)) $$ [Hg Hor]
    · isplitl [Hg]; · iexact Hg
      iexact Hor
    iexists _; iexact H3

end Cert.Kernel.Hand.C2

end
-- ==== Proof.Kernel.DealGeo3.lean ====
/-
  Gather call 3: where each vector subcore's slice of the token words and each of its blocks of the result lie, and
  that they are pairwise disjoint. Subcore `i` of SparseCore `c` is worker `w = 2·i + c`; it reads words
  `2048·w … 2048·w + 2047` and in trip `t` writes the 128 rows starting at row `(w mod 8)·2048 + 128·t` of
  slab `w / 8` of the result.
-/
import proofs.«203661_g84404697301628_cont_9to1_m_135_26_alg».proof.Kernel
import proofs.«203661_g84404697301628_cont_9to1_m_135_26_alg».proof.Proof.Gen.Kernel
import Idealize.ShloMosaic.Lib.ValueIdx

noncomputable section

namespace Cert.Kernel.Hand.D3

open Cert.Kernel Cert.Kernel.Gen
open Idealize.ShloMosaic

variable [hK : Cert.Kernel.Facts]

def coords (c : Fin 2) (i : Fin 16) : grid3.Coords :=
  fun | 0 => c | 1 => i | ⟨_ + 2, h⟩ => absurd h (Nat.not_lt.2 (Nat.le_add_left _ _))

def wid (p : Fin 2 × Fin 16) : Nat := 2 * p.2.val + p.1.val

theorem wid_inj {p p' : Fin 2 × Fin 16} (h : wid p = wid p') : p = p' := by
  unfold wid at h
  have h1 := p.1.isLt; have h2 := p'.1.isLt
  exact Prod.ext (Fin.ext (by omega)) (Fin.ext (by omega))

theorem wid_lt (p : Fin 2 × Fin 16) : wid p < 32 := by
  unfold wid; have h1 := p.1.isLt; have h2 := p.2.isLt; omega

theorem off1_closed : ∀ L : grid3.Coords, k3_off1 L 0 = 2048 * (2 * (L 1).val + (L 0).val) := by decide +kernel
theorem off13_closed0 : ∀ (L : grid3.Coords) (t : Fin k3_t1_loop.trips), k3_off13 L t 0 = (2 * (L 1).val + (L 0).val) / 8 := by
  decide +kernel
theorem off13_closed1 : ∀ (L : grid3.Coords) (t : Fin k3_t1_loop.trips),
    k3_off13 L t 1 = ((2 * (L 1).val + (L 0).val) % 8) * 2048 + 128 * t.val := by
  decide +kernel

/-- a subcore's slice of the token words, as a set of positions -/
def idxSet (p : Fin 2 × Fin 16) : Finset S65536.Idx :=
  (Rect.unit (s := S65536) (k3_off1 (coords p.1 p.2)) S2048.size (k3_off1_inb _)).set

theorem idxSet_disjoint : ∀ p ∈ (Finset.univ : Finset (Fin 2 × Fin 16)), ∀ p' ∈ (Finset.univ : Finset (Fin 2 × Fin 16)), p ≠ p' →
    Disjoint (idxSet p) (idxSet p') := by
  intro p _ p' _ hne
  unfold idxSet
  refine Rect.unit_disjoint 0 ?_
  rw [off1_closed, off1_closed]
  have hw : wid p ≠ wid p' := fun e => hne (wid_inj e)
  unfold wid at hw
  show 2048 * (2 * p.2.val + p.1.val) + 2048 ≤ 2048 * (2 * p'.2.val + p'.1.val) ∨ 2048 * (2 * p'.2.val + p'.1.val) + 2048 ≤ 2048 * (2 * p.2.val + p.1.val)
  omega

/-- the trips, by number -/
def tr : Fin 16 → Fin k3_t1_loop.trips
  | ⟨0, _⟩ => ⟨0, by decide⟩
  | ⟨1, _⟩ => ⟨1, by decide⟩
  | ⟨2, _⟩ => ⟨2, by decide⟩
  | ⟨3, _⟩ => ⟨3, by decide⟩
  | ⟨4, _⟩ => ⟨4, by decide⟩
  | ⟨5, _⟩ => ⟨5, by decide⟩
  | ⟨6, _⟩ => ⟨6, by decide⟩
  | ⟨7, _⟩ => ⟨7, by decide⟩
  | ⟨8, _⟩ => ⟨8, by decide⟩
  | ⟨9, _⟩ => ⟨9, by decide⟩
  | ⟨10, _⟩ => ⟨10, by decide⟩
  | ⟨11, _⟩ => ⟨11, by decide⟩
  | ⟨12, _⟩ => ⟨12, by decide⟩
  | ⟨13, _⟩ => ⟨13, by decide⟩
  | ⟨14, _⟩ => ⟨14, by decide⟩
  | ⟨15, _⟩ => ⟨15, by decide⟩
  | ⟨_ + 16, h⟩ => absurd h (Nat.not_lt.2 (Nat.le_add_left _ _))

theorem tr_val (j : Fin 16) : (tr j).val = j.val := by
  match j with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl
  | ⟨10, _⟩ => rfl
  | ⟨11, _⟩ => rfl
  | ⟨12, _⟩ => rfl
  | ⟨13, _⟩ => rfl
  | ⟨14, _⟩ => rfl
  | ⟨15, _⟩ => rfl
  | ⟨_ + 16, h⟩ => exact absurd h (Nat.not_lt.2 (Nat.le_add_left _ _))

/-- trip `j`'s block of a subcore's rows of the result, as a set of positions -/
def outSet (x : (Fin 2 × Fin 16) × Fin 16) : Finset S4x16384x32.Idx :=
  (Rect.unit (s := S4x16384x32) (k3_off13 (coords x.1.1 x.1.2) (tr x.2)) S1x128x32.size (k3_off13_inb _ _)).set

theorem outSet_disjoint : ∀ x ∈ (Finset.univ : Finset ((Fin 2 × Fin 16) × Fin 16)), ∀ x' ∈ (Finset.univ : Finset ((Fin 2 × Fin 16) × Fin 16)), x ≠ x' →
    Disjoint (outSet x) (outSet x') := by
  intro x _ x' _ hne
  unfold outSet
  have hj := x.2.isLt; have hj' := x'.2.isLt
  have hwl := wid_lt x.1; have hwl' := wid_lt x'.1
  by_cases hs : wid x.1 / 8 = wid x'.1 / 8
  · -- the same slab: the row offsets are at least 128 apart
    refine Rect.unit_disjoint 1 ?_
    rw [off13_closed1, off13_closed1, tr_val, tr_val]
    have hw : 16 * (wid x.1 % 8) + x.2.val ≠ 16 * (wid x'.1 % 8) + x'.2.val := by
      intro e
      have e1 : wid x.1 % 8 = wid x'.1 % 8 := by omega
      have e2 : x.2.val = x'.2.val := by omega
      have e3 : wid x.1 = wid x'.1 := by omega
      exact hne (Prod.ext (wid_inj e3) (Fin.ext e2))
    unfold wid at hw hs
    show ((2 * x.1.2.val + x.1.1.val) % 8) * 2048 + 128 * x.2.val + 128 ≤ ((2 * x'.1.2.val + x'.1.1.val) % 8) * 2048 + 128 * x'.2.val
      ∨ ((2 * x'.1.2.val + x'.1.1.val) % 8) * 2048 + 128 * x'.2.val + 128 ≤ ((2 * x.1.2.val + x.1.1.val) % 8) * 2048 + 128 * x.2.val
    omega
  · -- different slabs
    refine Rect.unit_disjoint 0 ?_
    rw [off13_closed0, off13_closed0]
    unfold wid at hs
    show (2 * x.1.2.val + x.1.1.val) / 8 + 1 ≤ (2 * x'.1.2.val + x'.1.1.val) / 8 ∨ (2 * x'.1.2.val + x'.1.1.val) / 8 + 1 ≤ (2 * x.1.2.val + x.1.1.val) / 8
    omega

end Cert.Kernel.Hand.D3

end
-- ==== Proof.Kernel.Deal3.lean ====
/-
  How the TensorCore deals the fourth gather call's two arrays to the thirty-two vector subcores, and takes them back.

  Each subcore is handed its own slice of the call's token words and its own sixteen blocks of the call's result. The
  slices are pairwise disjoint and so are the blocks (where they lie is the geometry module's); that is all the deal
  needs. Whatever of the two arrays no subcore is handed stays with the TensorCore across the call and is glued back
  afterwards, so no covering argument is used here.
-/
import proofs.«203661_g84404697301628_cont_9to1_m_135_26_alg».proof.Proof.Kernel.TileObl3
import proofs.«203661_g84404697301628_cont_9to1_m_135_26_alg».proof.Proof.Kernel.DealGeo3

noncomputable section

namespace Cert.Kernel.Hand.C3

open Cert.Kernel Cert.Kernel.Gen Cert.Kernel.Hand
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [hK : Cert.Kernel.Facts]

local notation "𝕄" => MT nD τ sig (HIx 4) (Elt F) ℕ UU ℕ

/-- a subcore's slice of the token words, as a set of positions -/
def idxSet (p : Fin 2 × Fin 16) : Finset S65536.Idx := (idxSl (coords3 p.1 p.2)).view.set

/-- it is the geometry module's slice -/
theorem idxSet_eq (p : Fin 2 × Fin 16) : idxSet p = D3.idxSet p :=
  View.set_slice_whole _ _

/-- different subcores' slices are disjoint -/
theorem idxSet_disjoint : ∀ p ∈ (Finset.univ : Finset (Fin 2 × Fin 16)), ∀ p' ∈ (Finset.univ : Finset (Fin 2 × Fin 16)), p ≠ p' →
    Disjoint (idxSet p) (idxSet p') := by
  intro p hp p' hp' hne
  rw [idxSet_eq, idxSet_eq]
  exact D3.idxSet_disjoint p hp p' hp' hne

/-- trip `j`'s block of a subcore's rows of the result, as a set of positions -/
def outSet (x : (Fin 2 × Fin 16) × Fin 16) : Finset S4x16384x32.Idx := (outAt (coords3 x.1.1 x.1.2) (D3.tr x.2)).view.set

/-- it is the geometry module's block -/
theorem outSet_eq (x : (Fin 2 × Fin 16) × Fin 16) : outSet x = D3.outSet x := by
  show (((View.whole main_v12_scv).slice (Rect.unit (s := S4x16384x32) (k3_off13 (coords3 x.1.1 x.1.2) (D3.tr x.2)) S1x128x32.size (k3_off13_inb _ _))).reshape S128x32 _).set = _
  rw [View.set_reshape, View.set_slice_whole]
  rfl

/-- different blocks are disjoint -/
theorem outSet_disjoint : ∀ x ∈ (Finset.univ : Finset ((Fin 2 × Fin 16) × Fin 16)), ∀ x' ∈ (Finset.univ : Finset ((Fin 2 × Fin 16) × Fin 16)), x ≠ x' →
    Disjoint (outSet x) (outSet x') := by
  intro x hx x' hx' hne
  rw [outSet_eq, outSet_eq]
  exact D3.outSet_disjoint x hx x' hx' hne

/-- the sixteen blocks conjoined one by one -/
theorem bigSep_W16 {M : Type} [URA M] (Φ : Fin 16 → sProp M) :
    bigSep Finset.univ Φ = iprop(Φ (0 : Fin 16) ∗ Φ (1 : Fin 16) ∗ Φ (2 : Fin 16) ∗ Φ (3 : Fin 16) ∗ Φ (4 : Fin 16) ∗ Φ (5 : Fin 16) ∗ Φ (6 : Fin 16) ∗ Φ (7 : Fin 16) ∗ Φ (8 : Fin 16) ∗ Φ (9 : Fin 16) ∗ Φ (10 : Fin 16) ∗ Φ (11 : Fin 16) ∗ Φ (12 : Fin 16) ∗ Φ (13 : Fin 16) ∗ Φ (14 : Fin 16) ∗ Φ (15 : Fin 16)) :=
  bigSep_univ_eq_bigSepL [(0 : Fin 16), (1 : Fin 16), (2 : Fin 16), (3 : Fin 16), (4 : Fin 16), (5 : Fin 16), (6 : Fin 16), (7 : Fin 16), (8 : Fin 16), (9 : Fin 16), (10 : Fin 16), (11 : Fin 16), (12 : Fin 16), (13 : Fin 16), (14 : Fin 16), (15 : Fin 16)] (by decide) (by decide) Φ

variable [FloatOps F]

/-- the fourth call's result, as the TensorCore names it -/
abbrev outLoc3 (d : Dev nD) : Loc nD τ sig := (SparseCore.T d).loc main_v12

/-- what no subcore is handed of the two arrays -/
def rem3 (wd : (d : Dev nD) → Buf (Elt F) (idxLoc3 d)) (d : Dev nD) (o : Buf (Elt F) (outLoc3 d)) : sProp 𝕄 :=
  iprop((idxLoc3 d ↦[Finset.univ \ Finset.univ.biUnion idxSet]{fullShare} wd d)
    ∗ (outLoc3 d ↦[Finset.univ \ Finset.univ.biUnion outSet]{fullShare} o))

omit [FloatOps F] in
/-- the token words: the subcores' slices and the rest -/
theorem idx_cut (d : Dev nD) (w : Buf (Elt F) (idxLoc3 d)) :
    (idxLoc3 d ↦[Finset.univ]{fullShare} w : sProp 𝕄)
      ⊣⊢ iprop((bigSep Finset.univ fun p : Fin 2 × Fin 16 => idxLoc3 d ↦[idxSet p]{fullShare} w)
          ∗ (idxLoc3 d ↦[Finset.univ \ Finset.univ.biUnion idxSet]{fullShare} w)) := by
  rw [← pointsTo_biUnion Finset.univ (ℓ := idxLoc3 d) (q := fullShare) (f := w) idxSet idxSet_disjoint]
  exact pointsTo_split_subset (Finset.subset_univ _)

omit [FloatOps F] in
/-- the result: the blocks and the rest -/
theorem out_cut (d : Dev nD) (o : Buf (Elt F) (outLoc3 d)) :
    (outLoc3 d ↦[Finset.univ]{fullShare} o : sProp 𝕄)
      ⊣⊢ iprop((bigSep Finset.univ fun x : (Fin 2 × Fin 16) × Fin 16 => outLoc3 d ↦[outSet x]{fullShare} o)
          ∗ (outLoc3 d ↦[Finset.univ \ Finset.univ.biUnion outSet]{fullShare} o)) := by
  rw [← pointsTo_biUnion Finset.univ (ℓ := outLoc3 d) (q := fullShare) (f := o) outSet outSet_disjoint]
  exact pointsTo_split_subset (Finset.subset_univ _)

/-- a subcore's part, by its pieces -/
theorem Rs3_eq (wd : (d : Dev nD) → Buf (Elt F) (idxLoc3 d)) (d : Dev nD) (p : Fin 2 × Fin 16) :
    Rs3 wd d p.1 p.2 = iprop((idxLoc3 d ↦[idxSet p]{fullShare} wd d)
      ∗ bigSep Finset.univ fun j : Fin 16 => iprop(∃ f, outLoc3 d ↦[outSet (p, j)]{fullShare} f)) := by
  rw [bigSep_W16]
  rfl

omit [FloatOps F] in
theorem some_contents (d : Dev nD) (I : Finset S4x16384x32.Idx) (o : Buf (Elt F) (outLoc3 d)) :
    (outLoc3 d ↦[I]{fullShare} o : sProp 𝕄) ⊢ iprop(∃ f, outLoc3 d ↦[I]{fullShare} f) := by
  iintro H; iexists _; iexact H

/-- THE DEAL: the token words and the result, whole, are every subcore's part and the rest -/
theorem deal3 (wd : (d : Dev nD) → Buf (Elt F) (idxLoc3 d)) (d : Dev nD) (o : Buf (Elt F) (outLoc3 d)) :
    iprop((idxLoc3 d ↦[Finset.univ]{fullShare} wd d) ∗ (outLoc3 d ↦[Finset.univ]{fullShare} o))
      ⊢ iprop((bigSep Finset.univ fun c : Fin 2 => bigSep Finset.univ fun i : Fin 16 => Rs3 wd d c i) ∗ rem3 wd d o) := by
  rw [← SparseCore.bigSep_product Finset.univ Finset.univ (fun p : Fin 2 × Fin 16 => Rs3 wd d p.1 p.2), Finset.univ_product_univ,
    bigSep_congr (fun p _ => Rs3_eq wd d p), bigSep_sep',
    ← SparseCore.bigSep_product Finset.univ Finset.univ (fun x : (Fin 2 × Fin 16) × Fin 16 => iprop(∃ f, outLoc3 d ↦[outSet x]{fullShare} f)),
    Finset.univ_product_univ]
  unfold rem3
  have hmono : (bigSep (Finset.univ : Finset ((Fin 2 × Fin 16) × Fin 16)) fun x => (outLoc3 d ↦[outSet x]{fullShare} o : sProp 𝕄))
      ⊢ bigSep (Finset.univ : Finset ((Fin 2 × Fin 16) × Fin 16)) fun x => iprop(∃ f, outLoc3 d ↦[outSet x]{fullShare} f) :=
    bigSep_mono fun x _ => some_contents d (outSet x) o
  iintro ⟨Hi, Ho⟩
  ihave Hi' := (idx_cut (F := F) d (wd d)).1 $$ Hi
  icases Hi' with ⟨Hi, Hir⟩
  ihave Ho' := (out_cut (F := F) d o).1 $$ Ho
  icases Ho' with ⟨Ho, Hor⟩
  isplitl [Hi Ho]
  · isplitl [Hi]; · iexact Hi
    iapply hmono; iexact Ho
  · isplitl [Hir]; · iexact Hir
    iexact Hor

/-- AND BACK: every subcore's part and the rest are the token words, unchanged, and the result at some contents -/
theorem back3 (wd : (d : Dev nD) → Buf (Elt F) (idxLoc3 d)) (d : Dev nD) (o : Buf (Elt F) (outLoc3 d)) :
    iprop((bigSep Finset.univ fun c : Fin 2 => bigSep Finset.univ fun i : Fin 16 => Rs3 wd d c i) ∗ rem3 wd d o)
      ⊢ iprop((idxLoc3 d ↦[Finset.univ]{fullShare} wd d) ∗ ∃ o', outLoc3 d ↦[Finset.univ]{fullShare} o') := by
  rw [← SparseCore.bigSep_product Finset.univ Finset.univ (fun p : Fin 2 × Fin 16 => Rs3 wd d p.1 p.2), Finset.univ_product_univ,
    bigSep_congr (fun p _ => Rs3_eq wd d p), bigSep_sep',
    ← SparseCore.bigSep_product Finset.univ Finset.univ (fun x : (Fin 2 × Fin 16) × Fin 16 => iprop(∃ f, outLoc3 d ↦[outSet x]{fullShare} f)),
    Finset.univ_product_univ]
  unfold rem3
  iintro ⟨⟨Hi, Ho⟩, Hir, Hor⟩
  isplitl [Hi Hir]
  · iapply (idx_cut (F := F) d (wd d)).2
    isplitl [Hi]; · iexact Hi
    iexact Hir
  · ihave H1 := (bigSep_exists_pi Finset.univ (fun (x : (Fin 2 × Fin 16) × Fin 16) (f : Buf (Elt F) (outLoc3 d)) =>
      (outLoc3 d ↦[outSet x]{fullShare} f : sProp 𝕄))) $$ Ho
    icases H1 with ⟨%fs, H1⟩
    ihave H2 := (pointsTo_biUnion_join Finset.univ outSet fs o outSet_disjoint) $$ H1
    icases H2 with ⟨%g, -, Hg⟩
    ihave H3 := (pointsTo_join_subset (ℓ := outLoc3 d) (I := Finset.univ.biUnion outSet) (S := Finset.univ) (q := fullShare) (f := o) (g := g) (Finset.subset_univ _)) $$ [Hg Hor]
    · isplitl [Hg]; · iexact Hg
      iexact Hor
    iexists _; iexact H3

end Cert.Kernel.Hand.C3

end
-- ==== Proof.Kernel.WordsRead.lean ====
/-
  The token words a gather call is given, read at a position.

  The host prefix transposes the token words and flattens them, so flat position `p` holds the word
  `idx (p mod 16384, p div 16384)`, and cuts the flat list into the four runs the calls take, at positions `0 …`,
  `16384 …`, `32768 …`, `65536 …`. A call over the run starting at token position `s₀` thus sees, at its flat
  position `t · 16384 + n`, the word `idx (n, s₀ + t)`.
-/
import proofs.«203661_g84404697301628_cont_9to1_m_135_26_alg».proof.Kernel
import Idealize.ShloMosaic.Lib.ValueLayout
import Idealize.ShloMosaic.Lib.ValueIdx

noncomputable section

namespace Cert.Kernel.Hand.Launch

open Cert.Kernel Cert.Kernel.Facts₀ Idealize.ShloMosaic Idealize.ShloMosaic.ValueIdx

variable [hK : Cert.Kernel.Facts] {α : Type}

/-- The transposed token words at `(t, n)` are the words at `(n, t)`. -/
theorem idxT_apply (idx : S16384x8.Idx → α) (t : Fin 8) (n : Fin 16384) :
    transpose S8x16384 [1, 0] idx transposes_S16384x8_S8x16384_1_0 (ix2 t n) = idx (ix2 n t) :=
  transpose_ix2_apply idx transposes_S16384x8_S8x16384_1_0 t n

/-- The flattened transposed words at flat position `p`: the word of sequence `p mod 16384` at token position
    `p div 16384`. -/
theorem flat_apply (idx : S16384x8.Idx → α) (p : Fin 131072) :
    shapeCast S131072 (transpose S8x16384 [1, 0] idx transposes_S16384x8_S8x16384_1_0) shapeCasts_S8x16384_S131072 (ix1 p)
      = idx (ix2 (⟨p.val % 16384, Nat.mod_lt _ (by decide)⟩ : Fin 16384) (⟨p.val / 16384, by have := p.isLt; omega⟩ : Fin 8)) := by
  rw [shapeCast_apply _ shapeCasts_S8x16384_S131072 (ix1 p)
    (ix2 (⟨p.val / 16384, by have := p.isLt; omega⟩ : Fin 8) (⟨p.val % 16384, Nat.mod_lt _ (by decide)⟩ : Fin 16384)) (by
      rw [Shape.rowMajor_val_one, Shape.rowMajor_val_two]
      show p.val / 16384 * 16384 + p.val % 16384 = p.val
      omega)]
  exact idxT_apply idx _ _

/-- The first run (token position 0) at position `n`. -/
theorem words0_apply (idx : S16384x8.Idx → α) (n : Fin 16384) :
    extractStridedSlice S16384 ![0]
        (shapeCast S131072 (transpose S8x16384 [1, 0] idx transposes_S16384x8_S8x16384_1_0) shapeCasts_S8x16384_S131072)
        slices_S131072_S16384_0 (ix1 n)
      = idx (ix2 n (0 : Fin 8)) := by
  rw [extractStridedSlice_apply _ _ slices_S131072_S16384_0 (ix1 n) (ix1 (⟨n.val, by have := n.isLt; omega⟩ : Fin 131072)) fun a => by
    match a with
    | ⟨0, _⟩ => show n.val = 0 + n.val; omega]
  rw [flat_apply]
  have hn : n.val < 16384 := n.isLt
  exact congrArg₂ (fun x y => idx (ix2 x y)) (Fin.ext (by show n.val % 16384 = n.val; omega))
    (Fin.ext (by show n.val / 16384 = 0; omega))

/-- The second run (token position 1) at position `n`. -/
theorem words1_apply (idx : S16384x8.Idx → α) (n : Fin 16384) :
    extractStridedSlice S16384 ![16384]
        (shapeCast S131072 (transpose S8x16384 [1, 0] idx transposes_S16384x8_S8x16384_1_0) shapeCasts_S8x16384_S131072)
        slices_S131072_S16384_16384 (ix1 n)
      = idx (ix2 n (1 : Fin 8)) := by
  rw [extractStridedSlice_apply _ _ slices_S131072_S16384_16384 (ix1 n) (ix1 (⟨16384 + n.val, by have := n.isLt; omega⟩ : Fin 131072)) fun a => by
    match a with
    | ⟨0, _⟩ => rfl]
  rw [flat_apply]
  have hn : n.val < 16384 := n.isLt
  exact congrArg₂ (fun x y => idx (ix2 x y)) (Fin.ext (by show (16384 + n.val) % 16384 = n.val; omega))
    (Fin.ext (by show (16384 + n.val) / 16384 = 1; omega))

/-- The first and second runs at the flat position `t · 16384 + n` of a one-position run (`t = 0`): the form the
    longer runs' readings below have. -/
theorem words0_at (idx : S16384x8.Idx → α) (t : Fin 1) (n : Fin 16384) :
    extractStridedSlice S16384 ![0]
        (shapeCast S131072 (transpose S8x16384 [1, 0] idx transposes_S16384x8_S8x16384_1_0) shapeCasts_S8x16384_S131072)
        slices_S131072_S16384_0 (ix1 (⟨t.val * 16384 + n.val, by have := t.isLt; have := n.isLt; omega⟩ : Fin 16384))
      = idx (ix2 n (⟨0 + t.val, by have := t.isLt; omega⟩ : Fin 8)) := by
  have ht : t.val = 0 := by have := t.isLt; omega
  have hp : (⟨t.val * 16384 + n.val, by have := n.isLt; omega⟩ : Fin 16384) = n := Fin.ext (by show t.val * 16384 + n.val = n.val; omega)
  rw [hp, words0_apply]
  exact congrArg (fun s => idx (ix2 n s)) (Fin.ext (by show 0 = 0 + t.val; omega))
theorem words1_at (idx : S16384x8.Idx → α) (t : Fin 1) (n : Fin 16384) :
    extractStridedSlice S16384 ![16384]
        (shapeCast S131072 (transpose S8x16384 [1, 0] idx transposes_S16384x8_S8x16384_1_0) shapeCasts_S8x16384_S131072)
        slices_S131072_S16384_16384 (ix1 (⟨t.val * 16384 + n.val, by have := t.isLt; have := n.isLt; omega⟩ : Fin 16384))
      = idx (ix2 n (⟨1 + t.val, by have := t.isLt; omega⟩ : Fin 8)) := by
  have ht : t.val = 0 := by have := t.isLt; omega
  have hp : (⟨t.val * 16384 + n.val, by have := n.isLt; omega⟩ : Fin 16384) = n := Fin.ext (by show t.val * 16384 + n.val = n.val; omega)
  rw [hp, words1_apply]
  exact congrArg (fun s => idx (ix2 n s)) (Fin.ext (by show 1 = 1 + t.val; omega))

/-- The third run (token positions 2 and 3) at position `t · 16384 + n`. -/
theorem words2_apply (idx : S16384x8.Idx → α) (t : Fin 2) (n : Fin 16384) :
    extractStridedSlice S32768 ![32768]
        (shapeCast S131072 (transpose S8x16384 [1, 0] idx transposes_S16384x8_S8x16384_1_0) shapeCasts_S8x16384_S131072)
        slices_S131072_S32768_32768 (ix1 (⟨t.val * 16384 + n.val, by have := t.isLt; have := n.isLt; omega⟩ : Fin 32768))
      = idx (ix2 n (⟨2 + t.val, by have := t.isLt; omega⟩ : Fin 8)) := by
  have ht : t.val < 2 := t.isLt
  have hn : n.val < 16384 := n.isLt
  rw [extractStridedSlice_apply _ _ slices_S131072_S32768_32768 _ (ix1 (⟨32768 + (t.val * 16384 + n.val), by omega⟩ : Fin 131072)) fun a => by
    match a with
    | ⟨0, _⟩ => rfl]
  rw [flat_apply]
  exact congrArg₂ (fun x y => idx (ix2 x y)) (Fin.ext (by show (32768 + (t.val * 16384 + n.val)) % 16384 = n.val; omega))
    (Fin.ext (by show (32768 + (t.val * 16384 + n.val)) / 16384 = 2 + t.val; omega))

/-- The fourth run (token positions 4 to 7) at position `t · 16384 + n`. -/
theorem words3_apply (idx : S16384x8.Idx → α) (t : Fin 4) (n : Fin 16384) :
    extractStridedSlice S65536 ![65536]
        (shapeCast S131072 (transpose S8x16384 [1, 0] idx transposes_S16384x8_S8x16384_1_0) shapeCasts_S8x16384_S131072)
        slices_S131072_S65536_65536 (ix1 (⟨t.val * 16384 + n.val, by have := t.isLt; have := n.isLt; omega⟩ : Fin 65536))
      = idx (ix2 n (⟨4 + t.val, by have := t.isLt; omega⟩ : Fin 8)) := by
  have ht : t.val < 4 := t.isLt
  have hn : n.val < 16384 := n.isLt
  rw [extractStridedSlice_apply _ _ slices_S131072_S65536_65536 _ (ix1 (⟨65536 + (t.val * 16384 + n.val), by omega⟩ : Fin 131072)) fun a => by
    match a with
    | ⟨0, _⟩ => rfl]
  rw [flat_apply]
  exact congrArg₂ (fun x y => idx (ix2 x y)) (Fin.ext (by show (65536 + (t.val * 16384 + n.val)) % 16384 = n.val; omega))
    (Fin.ext (by show (65536 + (t.val * 16384 + n.val)) / 16384 = 4 + t.val; omega))

end Cert.Kernel.Hand.Launch

end
-- ==== Proof.Kernel.WordRange.lean ====
/-
  A token word in the precondition's signed range `0 ≤ w ≤ 999` names a row of the 1000-row table.
-/
import Mathlib.Data.BitVec

namespace Cert.Kernel.Hand

/-- read unsigned, a 32-bit word whose signed value lies in `[0, 999]` is below 1000 -/
theorem toNat_lt_of_signed_range (w : BitVec 32) (h : 0 ≤ w.toInt ∧ w.toInt ≤ 999) : w.toNat < 1000 := by
  have hw := w.isLt
  rw [BitVec.toInt_eq_toNat_cond] at h
  split at h <;> omega

end Cert.Kernel.Hand
-- ==== Proof.Kernel.WordsRange.lean ====
/-
  Every token word a gather call is given names a row of the table.

  The host prefix transposes and flattens the token words and cuts the flat list into the four runs the calls take,
  so each word of a run is one of the launch's token words; the precondition says every token word lies in `[0, 999]`
  read signed, and such a word read unsigned is below 1000.
-/
import proofs.«203661_g84404697301628_cont_9to1_m_135_26_alg».proof.Proof.Kernel.HeadOps
import proofs.«203661_g84404697301628_cont_9to1_m_135_26_alg».proof.Proof.Kernel.WordsRead
import proofs.«203661_g84404697301628_cont_9to1_m_135_26_alg».proof.Proof.RefPre
import proofs.«203661_g84404697301628_cont_9to1_m_135_26_alg».proof.Proof.Kernel.WordRange

set_option maxRecDepth 16384

noncomputable section

namespace Cert.Kernel.Hand.Launch

open Cert.Kernel Cert.Kernel.Gen
open Idealize.ShloMosaic Idealize.ShloMosaic.TcCoe Idealize.ShloMosaic.ValueIdx Idealize.ShloMosaic.StableHlo

variable {F : FTy → Type} [FloatOps F]

/-- the flattened transposed token words, as the host prefix leaves them -/
theorem pre_v4 (V : Valuation τ sig (Elt F)) :
    StableHlo.after (preOps (F := F)) V (Proc.devRef .tc main_v4)
      = shapeCast S131072 (transpose S8x16384 [1, 0] (V (Proc.devRef .tc main_arg0)) transposes_S16384x8_S8x16384_1_0) shapeCasts_S8x16384_S131072 := by
  after_results_simp
  rfl

/-- the first run -/
theorem pre_v5 (V : Valuation τ sig (Elt F)) :
    StableHlo.after (preOps (F := F)) V (Proc.devRef .tc main_v5)
      = extractStridedSlice S16384 ![0]
          (shapeCast S131072 (transpose S8x16384 [1, 0] (V (Proc.devRef .tc main_arg0)) transposes_S16384x8_S8x16384_1_0) shapeCasts_S8x16384_S131072)
          slices_S131072_S16384_0 := by
  after_results_simp
  rfl

/-- the later runs: a slice of the flat list a valuation holds, and so of the host prefix's -/
theorem slice1_of (W : Valuation τ sig (Elt F)) :
    StableHlo.after (sliceOps1 (F := F)) W (Proc.devRef .tc main_v7)
      = extractStridedSlice S16384 ![16384] (W (Proc.devRef .tc main_v4)) slices_S131072_S16384_16384 := by
  simp only [StableHlo.after_cons, StableHlo.after_nil]
  rw [StableHlo.unary_result]
theorem slice1_v7 (V : Valuation τ sig (Elt F)) :
    StableHlo.after (sliceOps1 (F := F)) (StableHlo.after (preOps (F := F)) V) (Proc.devRef .tc main_v7)
      = extractStridedSlice S16384 ![16384]
          (shapeCast S131072 (transpose S8x16384 [1, 0] (V (Proc.devRef .tc main_arg0)) transposes_S16384x8_S8x16384_1_0) shapeCasts_S8x16384_S131072)
          slices_S131072_S16384_16384 := by
  rw [slice1_of, pre_v4]
theorem slice2_of (W : Valuation τ sig (Elt F)) :
    StableHlo.after (sliceOps2 (F := F)) W (Proc.devRef .tc main_v9)
      = extractStridedSlice S32768 ![32768] (W (Proc.devRef .tc main_v4)) slices_S131072_S32768_32768 := by
  simp only [StableHlo.after_cons, StableHlo.after_nil]
  rw [StableHlo.unary_result]
theorem slice2_v9 (V : Valuation τ sig (Elt F)) :
    StableHlo.after (sliceOps2 (F := F)) (StableHlo.after (preOps (F := F)) V) (Proc.devRef .tc main_v9)
      = extractStridedSlice S32768 ![32768]
          (shapeCast S131072 (transpose S8x16384 [1, 0] (V (Proc.devRef .tc main_arg0)) transposes_S16384x8_S8x16384_1_0) shapeCasts_S8x16384_S131072)
          slices_S131072_S32768_32768 := by
  rw [slice2_of, pre_v4]
theorem slice3_of (W : Valuation τ sig (Elt F)) :
    StableHlo.after (sliceOps3 (F := F)) W (Proc.devRef .tc main_v11)
      = extractStridedSlice S65536 ![65536] (W (Proc.devRef .tc main_v4)) slices_S131072_S65536_65536 := by
  simp only [StableHlo.after_cons, StableHlo.after_nil]
  rw [StableHlo.unary_result]
theorem slice3_v11 (V : Valuation τ sig (Elt F)) :
    StableHlo.after (sliceOps3 (F := F)) (StableHlo.after (preOps (F := F)) V) (Proc.devRef .tc main_v11)
      = extractStridedSlice S65536 ![65536]
          (shapeCast S131072 (transpose S8x16384 [1, 0] (V (Proc.devRef .tc main_arg0)) transposes_S16384x8_S8x16384_1_0) shapeCasts_S8x16384_S131072)
          slices_S131072_S65536_65536 := by
  rw [slice3_of, pre_v4]

section Range
variable (V : Valuation τ sig (Elt F))
  (hidx : ∀ i, 0 ≤ (V (Proc.devRef .tc main_arg0) i).toInt ∧ (V (Proc.devRef .tc main_arg0) i).toInt ≤ 999)
include hidx

/-- every word of the first run names a table row -/
theorem words0_lt (y : S16384.Idx) : (StableHlo.after (preOps (F := F)) V (Proc.devRef .tc main_v5) y).toNat < 1000 := by
  obtain ⟨n, rfl⟩ : ∃ n : Fin 16384, y = ix1 n := ⟨y 0, eq_ix1 y⟩
  rw [pre_v5, words0_apply]
  exact toNat_lt_of_signed_range _ (hidx _)

/-- every word of the second run names a table row -/
theorem words1_lt (y : S16384.Idx) :
    (StableHlo.after (sliceOps1 (F := F)) (StableHlo.after (preOps (F := F)) V) (Proc.devRef .tc main_v7) y).toNat < 1000 := by
  obtain ⟨n, rfl⟩ : ∃ n : Fin 16384, y = ix1 n := ⟨y 0, eq_ix1 y⟩
  rw [slice1_v7, words1_apply]
  exact toNat_lt_of_signed_range _ (hidx _)

/-- every word of the third run names a table row -/
theorem words2_lt (y : S32768.Idx) :
    (StableHlo.after (sliceOps2 (F := F)) (StableHlo.after (preOps (F := F)) V) (Proc.devRef .tc main_v9) y).toNat < 1000 := by
  obtain ⟨p, rfl⟩ : ∃ p : Fin 32768, y = ix1 p := ⟨y 0, eq_ix1 y⟩
  have hp : p.val < 32768 := p.isLt
  have e : (ix1 p : S32768.Idx) = ix1 (⟨(⟨p.val / 16384, by omega⟩ : Fin 2).val * 16384 + (⟨p.val % 16384, Nat.mod_lt _ (by decide)⟩ : Fin 16384).val, by
      show p.val / 16384 * 16384 + p.val % 16384 < 32768; omega⟩ : Fin 32768) :=
    congrArg (ix1 (n := 32768)) (Fin.ext (by show p.val = p.val / 16384 * 16384 + p.val % 16384; omega))
  rw [slice2_v9, e, words2_apply]
  exact toNat_lt_of_signed_range _ (hidx _)

/-- every word of the fourth run names a table row -/
theorem words3_lt (y : S65536.Idx) :
    (StableHlo.after (sliceOps3 (F := F)) (StableHlo.after (preOps (F := F)) V) (Proc.devRef .tc main_v11) y).toNat < 1000 := by
  obtain ⟨p, rfl⟩ : ∃ p : Fin 65536, y = ix1 p := ⟨y 0, eq_ix1 y⟩
  have hp : p.val < 65536 := p.isLt
  have e : (ix1 p : S65536.Idx) = ix1 (⟨(⟨p.val / 16384, by omega⟩ : Fin 4).val * 16384 + (⟨p.val % 16384, Nat.mod_lt _ (by decide)⟩ : Fin 16384).val, by
      show p.val / 16384 * 16384 + p.val % 16384 < 65536; omega⟩ : Fin 65536) :=
    congrArg (ix1 (n := 65536)) (Fin.ext (by show p.val = p.val / 16384 * 16384 + p.val % 16384; omega))
  rw [slice3_v11, e, words3_apply]
  exact toNat_lt_of_signed_range _ (hidx _)

end Range

/-! ## From the precondition -/

section Pre
variable [hPre_input_domain : Cert.Pre_input_domain.Facts] (m : (ℓ : Loc nD τ sig) → Buf (Elt F) ℓ)
  (hpre : ∀ c : Dev nD, Cert.Pre_input_domain.fn (F := F) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) = fun _ => 1#1)
include hpre

/-- the launch's token words are in range on every device -/
theorem launch_idx_range (d : Dev nD) (i : S16384x8.Idx) :
    0 ≤ (m (d, Proc.devRef .tc main_arg0) i).toInt ∧ (m (d, Proc.devRef .tc main_arg0) i).toInt ≤ 999 :=
  Cert.RefSide.idx_range _ _ _ _ _ (hpre d) i

/-- each call's token words, as values of the launch memory, all name table rows -/
theorem hwd0 (d : Dev nD) (y : S16384.Idx) :
    (StableHlo.after (preOps (F := F)) (fun b => m (d, b)) (Proc.devRef .tc main_v5) y).toNat < 1000 :=
  words0_lt (fun b => m (d, b)) (launch_idx_range m hpre d) y
theorem hwd1 (d : Dev nD) (y : S16384.Idx) :
    (StableHlo.after (sliceOps1 (F := F)) (StableHlo.after (preOps (F := F)) (fun b => m (d, b))) (Proc.devRef .tc main_v7) y).toNat < 1000 :=
  words1_lt (fun b => m (d, b)) (launch_idx_range m hpre d) y
theorem hwd2 (d : Dev nD) (y : S32768.Idx) :
    (StableHlo.after (sliceOps2 (F := F)) (StableHlo.after (preOps (F := F)) (fun b => m (d, b))) (Proc.devRef .tc main_v9) y).toNat < 1000 :=
  words2_lt (fun b => m (d, b)) (launch_idx_range m hpre d) y
theorem hwd3 (d : Dev nD) (y : S65536.Idx) :
    (StableHlo.after (sliceOps3 (F := F)) (StableHlo.after (preOps (F := F)) (fun b => m (d, b))) (Proc.devRef .tc main_v11) y).toNat < 1000 :=
  words3_lt (fun b => m (d, b)) (launch_idx_range m hpre d) y

end Pre

end Cert.Kernel.Hand.Launch

end
-- ==== Proof.Kernel.FrameClaim.lean ====
/-
  The kernel program's frame claim, assembled: the launch theorem's run of the program (four SparseCore gather calls,
  four TensorCore regions) at the concrete resources — every vector subcore's slice of its call's token words and its
  blocks of the call's result — with the four task obligations, the four deals, and the fact that every token word a
  call sees names a row of the table, which is the precondition's range on the token ids read through @main's
  transpose, flattening and slices.
-/
import proofs.«203661_g84404697301628_cont_9to1_m_135_26_alg».proof.Defs
import proofs.«203661_g84404697301628_cont_9to1_m_135_26_alg».proof.Proof.Kernel.KFrame
import proofs.«203661_g84404697301628_cont_9to1_m_135_26_alg».proof.Proof.Kernel.TileOblAll
import proofs.«203661_g84404697301628_cont_9to1_m_135_26_alg».proof.Proof.Kernel.Deal0
import proofs.«203661_g84404697301628_cont_9to1_m_135_26_alg».proof.Proof.Kernel.Deal1
import proofs.«203661_g84404697301628_cont_9to1_m_135_26_alg».proof.Proof.Kernel.Deal2
import proofs.«203661_g84404697301628_cont_9to1_m_135_26_alg».proof.Proof.Kernel.Deal3
import proofs.«203661_g84404697301628_cont_9to1_m_135_26_alg».proof.Proof.Kernel.WordsRange

noncomputable section

namespace Cert.Kernel.Hand.Launch

open Cert.Kernel Cert.Kernel.Gen Cert.Kernel.Hand
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.Sem

/-- The program runs to its end on every weakly fair schedule, faults nowhere, and leaves its five argument arrays as
    they were. -/
theorem frame_claim [hKernel : Cert.Kernel.Facts] [hPre_input_domain : Cert.Pre_input_domain.Facts] :
    Cert.frame_Kernel := by
  intro m g hpre
  have h0 : ∀ d y, (wd0 m d y).toNat < 1000 := fun d y => by unfold wd0 Vp V0; exact hwd0 m hpre d y
  have h1 : ∀ d y, (wd1 m d y).toNat < 1000 := fun d y => by unfold wd1 Vp V0; exact hwd1 m hpre d y
  have h2 : ∀ d y, (wd2 m d y).toNat < 1000 := fun d y => by unfold wd2 Vp V0; exact hwd2 m hpre d y
  have h3 : ∀ d y, (wd3 m d y).toNat < 1000 := fun d y => by unfold wd3 Vp V0; exact hwd3 m hpre d y
  exact kernel_frame m g (RsAll (wd0 m) (wd1 m) (wd2 m) (wd3 m)) (RsAll_storable (wd0 m) (wd1 m) (wd2 m) (wd3 m))
    (tileObl_all facts (tb m) (wd0 m) (wd1 m) (wd2 m) (wd3 m) h0 h1 h2 h3 _ (by sl_refines_lev))
    (rem0 (wd0 m)) (deal0 (wd0 m)) (back0 (wd0 m))
    (C1.rem1 (wd1 m)) (C1.deal1 (wd1 m)) (C1.back1 (wd1 m))
    (C2.rem2 (wd2 m)) (C2.deal2 (wd2 m)) (C2.back2 (wd2 m))
    (C3.rem3 (wd3 m)) (C3.deal3 (wd3 m)) (C3.back3 (wd3 m))

end Cert.Kernel.Hand.Launch

end
-- ==== Proof.lean ====
/-
  A token-embedding head: `logits (n, t, v) = (∑ e, tok (row (idx (n, t)), e) · W (e, v)) + b v` for 16384 × 8 token ids,
  a 1000 × 32 embedding table and a 32 × 1000 weight matrix (Proof/Spec.lean states it once).

  THE KERNEL pads the table to 128 columns, transposes and flattens the token ids, and makes four SparseCore gather
  calls (token positions 0; 1; 2–3; 4–7). In a call each of the 32 vector subcores fetches its slice of the call's
  token words and, 128 words at a time, gathers the table rows they name, compacts the rows' first 32 columns, and
  copies the block out to its rows of the call's result, with a two-slot ring whose copy-outs stay in flight across
  two trips. Four TensorCore regions then multiply each gathered slab by the transposed weights and add the bias
  column into an [8, 1000, 16384] array, each region after the first over a copy of the previous result, and a final
  transpose returns [16384, 8, 1000]. THE REFERENCE is jnp.take, a dot_general and a broadcast add.

  THE FRAMES — every weakly fair execution terminates, nothing faults, the five argument arrays end unchanged — for
  the reference (its run written out operation by operation, Proof/RefRun.lean), for the kernel read at extended reals
  and for the kernel read at machine words (one proof, generic in the float instance, under Proof/KernelIdeal/, and
  the same text over the word-level program under Proof/Kernel/): the SparseCore launch theorem applied to the four
  calls' task obligations (TileRunK, TileOblK), the deals of each call's two arrays to the subcores (DealK, DealGeoK),
  and @main on the TensorCore (HeadMain, Tail) with the four regions entered from inside the SparseCore program. Where
  a subcore indexes the table, the precondition's range `0 ≤ idx ≤ 999` is what makes every gathered word name a row.
  `preserves` is `True`: the idealization rewrote nothing.

  THE EQUALITY. The reference's result is `Spec.logits` of its arguments (Proof/RefSpec.lean). For the kernel the same
  runs are repeated with contents tracked: in a gather call a block that lands holds, row by row, the first 32 columns
  of the table rows its 128 words name (TileValueK, BlockValueK, TileRunVK: the compaction loop's invariant is that rows
  below `j` of the slot agree with the gathered rows); the blocks, pairwise disjoint and covering the slab, are the
  whole gathered slab when dealt back (ValueGeoK, DealVK); the four regions multiply the slabs by the transposed
  weights and add the bias (Proof/HeadChain.lean), and the final transpose is `Spec.logits` (Proof/Bridge.lean,
  Proof/KRunSpec.lean). Only commutativity of the product inside the 32-term sum separates the two spellings.
-/
import proofs.«203661_g84404697301628_cont_9to1_m_135_26_alg».proof.Defs
import proofs.«203661_g84404697301628_cont_9to1_m_135_26_alg».proof.Proof.Gen.Kernel
import proofs.«203661_g84404697301628_cont_9to1_m_135_26_alg».proof.Proof.Gen.KernelIdeal
import proofs.«203661_g84404697301628_cont_9to1_m_135_26_alg».proof.Proof.Gen.ReferenceIdeal
import proofs.«203661_g84404697301628_cont_9to1_m_135_26_alg».proof.Proof.Gen.Pre_input_domain
import proofs.«203661_g84404697301628_cont_9to1_m_135_26_alg».proof.Proof.RefFrame
import proofs.«203661_g84404697301628_cont_9to1_m_135_26_alg».proof.Proof.RefSpec
import proofs.«203661_g84404697301628_cont_9to1_m_135_26_alg».proof.Proof.Bridge
import proofs.«203661_g84404697301628_cont_9to1_m_135_26_alg».proof.Proof.AlgebraicClaim
import proofs.«203661_g84404697301628_cont_9to1_m_135_26_alg».proof.Proof.KernelIdeal.FrameClaim
import proofs.«203661_g84404697301628_cont_9to1_m_135_26_alg».proof.Proof.Kernel.FrameClaim
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_input_domain.Gen.facts,
    Cert.Kernel.Hand.Launch.frame_claim (hKernel := Cert.Kernel.Gen.facts) (hPre_input_domain := Cert.Pre_input_domain.Gen.facts),
    Cert.KernelIdeal.Hand.Launch.frame_claim (hKernelIdeal := Cert.KernelIdeal.Gen.facts) (hPre_input_domain := Cert.Pre_input_domain.Gen.facts),
    Cert.RefSide.frame_ri (hReferenceIdeal := Cert.ReferenceIdeal.Gen.facts) (hPre_input_domain := Cert.Pre_input_domain.Gen.facts),
    trivial,
    Cert.KernelIdeal.Hand.Launch.algebraic_claim (hKernelIdeal := Cert.KernelIdeal.Gen.facts) (hReferenceIdeal := Cert.ReferenceIdeal.Gen.facts)
      (hPre_input_domain := Cert.Pre_input_domain.Gen.facts)⟩

end Cert.Proof

end
